-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v322)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v322) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v480) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000 : Shape := ⟨1, ![800000]⟩
abbrev S50000 : Shape := ⟨1, ![50000]⟩
abbrev S7x128x64 : Shape := ⟨3, ![7, 128, 64]⟩
abbrev S7x64 : Shape := ⟨2, ![7, 64]⟩
abbrev S6x64x128 : Shape := ⟨3, ![6, 64, 128]⟩
abbrev S6x128 : Shape := ⟨2, ![6, 128]⟩
abbrev S64x2 : Shape := ⟨2, ![64, 2]⟩
abbrev S7 : Shape := ⟨1, ![7]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S7x128x64 : S_.BroadcastsInDim S7x128x64 (![] : Fin 0 → Fin S7x128x64.rank)
  reducesTo_S7x128x64_S_d0_1_2 : S7x128x64.ReducesTo [0, 1, 2] S_
  bcast_S_S7x64 : S_.BroadcastsInDim S7x64 (![] : Fin 0 → Fin S7x64.rank)
  reducesTo_S7x64_S_d0_1 : S7x64.ReducesTo [0, 1] S_
  bcast_S_S6x64x128 : S_.BroadcastsInDim S6x64x128 (![] : Fin 0 → Fin S6x64x128.rank)
  reducesTo_S6x64x128_S_d0_1_2 : S6x64x128.ReducesTo [0, 1, 2] S_
  bcast_S_S6x128 : S_.BroadcastsInDim S6x128 (![] : Fin 0 → Fin S6x128.rank)
  reducesTo_S6x128_S_d0_1 : S6x128.ReducesTo [0, 1] S_
  bcast_S_S64x2 : S_.BroadcastsInDim S64x2 (![] : Fin 0 → Fin S64x2.rank)
  reducesTo_S64x2_S_d0_1 : S64x2.ReducesTo [0, 1] S_
  bcast_S_S7 : S_.BroadcastsInDim S7 (![] : Fin 0 → Fin S7.rank)
  reducesTo_S7_S_d0 : S7.ReducesTo [0] S_

variable [Facts]

def fn_part2 {F : FTy → Type} [FloatOps F] (main_arg9 : FVec F S6x128 .f32) (main_arg10 : FVec F S64x2 .f32) (main_arg11 : FVec F S7 .f32) (main_v33 : IVec S_ 1) : IVec S_ 1 :=
  let main_v34 : FVec F S6x128 .f32 := Host.absf main_arg9
  let main_cst_12 : FVec F S_ .f32 := constant S_ .f32 0x7F800000#32
  let main_v35 : FVec F S6x128 .f32 := broadcastInDim S6x128 ![] bcast_S_S6x128 main_cst_12
  let main_v36 : IVec S6x128 1 := cmpf .olt main_v34 main_v35
  let main_c_13 : IVec S_ 1 := constantI S_ 1 1#1
  let main_v37 : IVec S_ 1 := (fun x v => Host.reduce IntOp.andi x v reducesTo_S6x128_S_d0_1 h_S_) main_v36 main_c_13
  let main_v38 : IVec S_ 1 := andi main_v33 main_v37
  let main_v39 : FVec F S64x2 .f32 := Host.absf main_arg10
  let main_cst_14 : FVec F S_ .f32 := constant S_ .f32 0x7F800000#32
  let main_v40 : FVec F S64x2 .f32 := broadcastInDim S64x2 ![] bcast_S_S64x2 main_cst_14
  let main_v41 : IVec S64x2 1 := cmpf .olt main_v39 main_v40
  let main_c_15 : IVec S_ 1 := constantI S_ 1 1#1
  let main_v42 : IVec S_ 1 := (fun x v => Host.reduce IntOp.andi x v reducesTo_S64x2_S_d0_1 h_S_) main_v41 main_c_15
  let main_v43 : IVec S_ 1 := andi main_v38 main_v42
  let main_v44 : FVec F S7 .f32 := Host.absf main_arg11
  let main_cst_16 : FVec F S_ .f32 := constant S_ .f32 0x7F800000#32
  let main_v45 : FVec F S7 .f32 := broadcastInDim S7 ![] bcast_S_S7 main_cst_16
  let main_v46 : IVec S7 1 := cmpf .olt main_v44 main_v45
  let main_c_17 : IVec S_ 1 := constantI S_ 1 1#1
  let main_v47 : IVec S_ 1 := (fun x v => Host.reduce IntOp.andi x v reducesTo_S7_S_d0 h_S_) main_v46 main_c_17
  let main_v48 : IVec S_ 1 := andi main_v43 main_v47
  main_v48

def fn_part1 {F : FTy → Type} [FloatOps F] (main_arg6 : FVec F S7x64 .f32) (main_arg7 : FVec F S6x64x128 .f32) (main_arg8 : FVec F S6x128 .f32) (main_arg9 : FVec F S6x128 .f32) (main_arg10 : FVec F S64x2 .f32) (main_arg11 : FVec F S7 .f32) (main_v13 : IVec S_ 1) (main_v16 : IVec S7x64 1) : IVec S_ 1 :=
  let main_c_5 : IVec S_ 1 := constantI S_ 1 1#1
  let main_v17 : IVec S_ 1 := (fun x v => Host.reduce IntOp.andi x v reducesTo_S7x64_S_d0_1 h_S_) main_v16 main_c_5
  let main_v18 : IVec S_ 1 := andi main_v13 main_v17
  let main_v19 : FVec F S7x64 .f32 := Host.absf main_arg6
  let main_cst_6 : FVec F S_ .f32 := constant S_ .f32 0x7F800000#32
  let main_v20 : FVec F S7x64 .f32 := broadcastInDim S7x64 ![] bcast_S_S7x64 main_cst_6
  let main_v21 : IVec S7x64 1 := cmpf .olt main_v19 main_v20
  let main_c_7 : IVec S_ 1 := constantI S_ 1 1#1
  let main_v22 : IVec S_ 1 := (fun x v => Host.reduce IntOp.andi x v reducesTo_S7x64_S_d0_1 h_S_) main_v21 main_c_7
  let main_v23 : IVec S_ 1 := andi main_v18 main_v22
  let main_v24 : FVec F S6x64x128 .f32 := Host.absf main_arg7
  let main_cst_8 : FVec F S_ .f32 := constant S_ .f32 0x7F800000#32
  let main_v25 : FVec F S6x64x128 .f32 := broadcastInDim S6x64x128 ![] bcast_S_S6x64x128 main_cst_8
  let main_v26 : IVec S6x64x128 1 := cmpf .olt main_v24 main_v25
  let main_c_9 : IVec S_ 1 := constantI S_ 1 1#1
  let main_v27 : IVec S_ 1 := (fun x v => Host.reduce IntOp.andi x v reducesTo_S6x64x128_S_d0_1_2 h_S_) main_v26 main_c_9
  let main_v28 : IVec S_ 1 := andi main_v23 main_v27
  let main_v29 : FVec F S6x128 .f32 := Host.absf main_arg8
  let main_cst_10 : FVec F S_ .f32 := constant S_ .f32 0x7F800000#32
  let main_v30 : FVec F S6x128 .f32 := broadcastInDim S6x128 ![] bcast_S_S6x128 main_cst_10
  let main_v31 : IVec S6x128 1 := cmpf .olt main_v29 main_v30
  let main_c_11 : IVec S_ 1 := constantI S_ 1 1#1
  let main_v32 : IVec S_ 1 := (fun x v => Host.reduce IntOp.andi x v reducesTo_S6x128_S_d0_1 h_S_) main_v31 main_c_11
  let main_v33 : IVec S_ 1 := andi main_v28 main_v32
  fn_part2 (F := F) main_arg9 main_arg10 main_arg11 main_v33

def fn {F : FTy → Type} [FloatOps F] (main_arg0 : FVec F S50000x128 .f32) (main_arg1 : IVec S2x800000 32) (main_arg2 : FVec F S800000 .f32) (main_arg3 : IVec S50000 32) (main_arg4 : FVec F S7x128x64 .f32) (main_arg5 : FVec F S7x64 .f32) (main_arg6 : FVec F S7x64 .f32) (main_arg7 : FVec F S6x64x128 .f32) (main_arg8 : FVec F S6x128 .f32) (main_arg9 : FVec F S6x128 .f32) (main_arg10 : FVec F S64x2 .f32) (main_arg11 : FVec F S7 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S7x128x64 .f32 := Host.absf main_arg4
  let main_cst_2 : FVec F S_ .f32 := constant S_ .f32 0x7F800000#32
  let main_v10 : FVec F S7x128x64 .f32 := broadcastInDim S7x128x64 ![] bcast_S_S7x128x64 main_cst_2
  let main_v11 : IVec S7x128x64 1 := cmpf .olt main_v9 main_v10
  let main_c_3 : IVec S_ 1 := constantI S_ 1 1#1
  let main_v12 : IVec S_ 1 := (fun x v => Host.reduce IntOp.andi x v reducesTo_S7x128x64_S_d0_1_2 h_S_) main_v11 main_c_3
  let main_v13 : IVec S_ 1 := andi main_v8 main_v12
  let main_v14 : FVec F S7x64 .f32 := Host.absf main_arg5
  let main_cst_4 : FVec F S_ .f32 := constant S_ .f32 0x7F800000#32
  let main_v15 : FVec F S7x64 .f32 := broadcastInDim S7x64 ![] bcast_S_S7x64 main_cst_4
  let main_v16 : IVec S7x64 1 := cmpf .olt main_v14 main_v15
  fn_part1 (F := F) main_arg6 main_arg7 main_arg8 main_arg9 main_arg10 main_arg11 main_v13 main_v16
-- ==== Kernel.lean ====
abbrev S50000x128 : Shape := ⟨2, ![50000, 128]⟩
abbrev S2x800000 : Shape := ⟨2, ![2, 800000]⟩
abbrev S800000 : Shape := ⟨1, ![800000]⟩
abbrev S50000 : Shape := ⟨1, ![50000]⟩
abbrev S7x128x64 : Shape := ⟨3, ![7, 128, 64]⟩
abbrev S7x64 : Shape := ⟨2, ![7, 64]⟩
abbrev S6x64x128 : Shape := ⟨3, ![6, 64, 128]⟩
abbrev S6x128 : Shape := ⟨2, ![6, 128]⟩
abbrev S64x2 : Shape := ⟨2, ![64, 2]⟩
abbrev S7 : Shape := ⟨1, ![7]⟩
abbrev S1x800000 : Shape := ⟨2, ![1, 800000]⟩
abbrev S_ : Shape := ⟨0, ![]⟩
abbrev S800000x1 : Shape := ⟨2, ![800000, 1]⟩
abbrev S800000x128 : Shape := ⟨2, ![800000, 128]⟩
abbrev S1 : Shape := ⟨1, ![1]⟩
abbrev S1x1 : Shape := ⟨2, ![1, 1]⟩
abbrev S1x128x64 : Shape := ⟨3, ![1, 128, 64]⟩
abbrev S128x64 : Shape := ⟨2, ![128, 64]⟩
abbrev S50000x64 : Shape := ⟨2, ![50000, 64]⟩
abbrev S1x64 : Shape := ⟨2, ![1, 64]⟩
abbrev S5000x128 : Shape := ⟨2, ![5000, 128]⟩
abbrev S5000x64 : Shape := ⟨2, ![5000, 64]⟩
abbrev S64 : Shape := ⟨1, ![64]⟩
abbrev S1x64x128 : Shape := ⟨3, ![1, 64, 128]⟩
abbrev S64x128 : Shape := ⟨2, ![64, 128]⟩
abbrev S1x128 : Shape := ⟨2, ![1, 128]⟩
abbrev S128 : Shape := ⟨1, ![128]⟩
abbrev S50000x2 : Shape := ⟨2, ![50000, 2]⟩
abbrev S5000x2 : Shape := ⟨2, ![5000, 2]⟩
abbrev S50000x1 : Shape := ⟨2, ![50000, 1]⟩
abbrev S64x1 : Shape := ⟨2, ![64, 1]⟩

abbrev nBuf : Space → Nat
  | .hbm => 419
  | .vmem => 221
  | .smem => 0
  | _ => 0

abbrev hbmTy0_0 (i : Nat) : BufTy := match i % 128 with
  | 0 => ⟨S50000x128, .f32⟩
  | 1 => ⟨S2x800000, .i32⟩
  | 2 => ⟨S800000, .f32⟩
  | 3 => ⟨S50000, .i32⟩
  | 4 => ⟨S7x128x64, .f32⟩
  | 5 => ⟨S7x64, .f32⟩
  | 6 => ⟨S7x64, .f32⟩
  | 7 => ⟨S6x64x128, .f32⟩
  | 8 => ⟨S6x128, .f32⟩
  | 9 => ⟨S6x128, .f32⟩
  | 10 => ⟨S64x2, .f32⟩
  | 11 => ⟨S7, .f32⟩
  | 12 => ⟨S1x800000, .i32⟩
  | 13 => ⟨S800000, .i32⟩
  | 14 => ⟨S1x800000, .i32⟩
  | 15 => ⟨S800000, .i32⟩
  | 16 => ⟨S_, .i32⟩
  | 17 => ⟨S800000, .i32⟩
  | 18 => ⟨S800000, .i1⟩
  | 19 => ⟨S_, .i32⟩
  | 20 => ⟨S800000, .i32⟩
  | 21 => ⟨S800000, .i32⟩
  | 22 => ⟨S800000, .i32⟩
  | 23 => ⟨S800000x1, .i32⟩
  | 24 => ⟨S800000x128, .f32⟩
  | 25 => ⟨S_, .f32⟩
  | 26 => ⟨S50000x128, .f32⟩
  | 27 => ⟨S800000x1, .i32⟩
  | 28 => ⟨S50000x128, .f32⟩
  | 29 => ⟨S1, .f32⟩
  | 30 => ⟨S_, .f32⟩
  | 31 => ⟨S_, .f32⟩
  | 32 => ⟨S_, .f32⟩
  | 33 => ⟨S1x1, .f32⟩
  | 34 => ⟨S1x128x64, .f32⟩
  | 35 => ⟨S128x64, .f32⟩
  | 36 => ⟨S50000x64, .f32⟩
  | 37 => ⟨S1x64, .f32⟩
  | 38 => ⟨S1x64, .f32⟩
  | 39 => ⟨S_, .f32⟩
  | 40 => ⟨S1x64, .f32⟩
  | 41 => ⟨S1x64, .f32⟩
  | 42 => ⟨S_, .f32⟩
  | 43 => ⟨S1x64, .f32⟩
  | 44 => ⟨S1x64, .f32⟩
  | 45 => ⟨S1x64, .f32⟩
  | 46 => ⟨S1x64, .f32⟩
  | 47 => ⟨S1x64, .f32⟩
  | 48 => ⟨S64, .f32⟩
  | 49 => ⟨S1x64, .f32⟩
  | 50 => ⟨S1x64, .f32⟩
  | 51 => ⟨S64, .f32⟩
  | 52 => ⟨S1x64, .f32⟩
  | 53 => ⟨S50000x64, .f32⟩
  | 54 => ⟨S1x64x128, .f32⟩
  | 55 => ⟨S64x128, .f32⟩
  | 56 => ⟨S50000x128, .f32⟩
  | 57 => ⟨S1x128, .f32⟩
  | 58 => ⟨S1x128, .f32⟩
  | 59 => ⟨S_, .f32⟩
  | 60 => ⟨S1x128, .f32⟩
  | 61 => ⟨S1x128, .f32⟩
  | 62 => ⟨S_, .f32⟩
  | 63 => ⟨S1x128, .f32⟩
  | 64 => ⟨S1x128, .f32⟩
  | 65 => ⟨S1x128, .f32⟩
  | 66 => ⟨S1x128, .f32⟩
  | 67 => ⟨S1x128, .f32⟩
  | 68 => ⟨S128, .f32⟩
  | 69 => ⟨S1x128, .f32⟩
  | 70 => ⟨S1x128, .f32⟩
  | 71 => ⟨S128, .f32⟩
  | 72 => ⟨S1x128, .f32⟩
  | 73 => ⟨S50000x128, .f32⟩
  | 74 => ⟨S_, .i32⟩
  | 75 => ⟨S800000, .i32⟩
  | 76 => ⟨S800000, .i1⟩
  | 77 => ⟨S_, .i32⟩
  | 78 => ⟨S800000, .i32⟩
  | 79 => ⟨S800000, .i32⟩
  | 80 => ⟨S800000, .i32⟩
  | 81 => ⟨S800000x1, .i32⟩
  | 82 => ⟨S800000x128, .f32⟩
  | 83 => ⟨S_, .f32⟩
  | 84 => ⟨S50000x128, .f32⟩
  | 85 => ⟨S800000x1, .i32⟩
  | 86 => ⟨S50000x128, .f32⟩
  | 87 => ⟨S1, .f32⟩
  | 88 => ⟨S_, .f32⟩
  | 89 => ⟨S_, .f32⟩
  | 90 => ⟨S_, .f32⟩
  | 91 => ⟨S1x1, .f32⟩
  | 92 => ⟨S1x128x64, .f32⟩
  | 93 => ⟨S128x64, .f32⟩
  | 94 => ⟨S50000x64, .f32⟩
  | 95 => ⟨S1x64, .f32⟩
  | 96 => ⟨S1x64, .f32⟩
  | 97 => ⟨S_, .f32⟩
  | 98 => ⟨S1x64, .f32⟩
  | 99 => ⟨S1x64, .f32⟩
  | 100 => ⟨S_, .f32⟩
  | 101 => ⟨S1x64, .f32⟩
  | 102 => ⟨S1x64, .f32⟩
  | 103 => ⟨S1x64, .f32⟩
  | 104 => ⟨S1x64, .f32⟩
  | 105 => ⟨S1x64, .f32⟩
  | 106 => ⟨S64, .f32⟩
  | 107 => ⟨S1x64, .f32⟩
  | 108 => ⟨S1x64, .f32⟩
  | 109 => ⟨S64, .f32⟩
  | 110 => ⟨S1x64, .f32⟩
  | 111 => ⟨S50000x64, .f32⟩
  | 112 => ⟨S1x64x128, .f32⟩
  | 113 => ⟨S64x128, .f32⟩
  | 114 => ⟨S50000x128, .f32⟩
  | 115 => ⟨S1x128, .f32⟩
  | 116 => ⟨S1x128, .f32⟩
  | 117 => ⟨S_, .f32⟩
  | 118 => ⟨S1x128, .f32⟩
  | 119 => ⟨S1x128, .f32⟩
  | 120 => ⟨S_, .f32⟩
  | 121 => ⟨S1x128, .f32⟩
  | 122 => ⟨S1x128, .f32⟩
  | 123 => ⟨S1x128, .f32⟩
  | 124 => ⟨S1x128, .f32⟩
  | 125 => ⟨S1x128, .f32⟩
  | 126 => ⟨S128, .f32⟩
  | 127 => ⟨S1x128, .f32⟩
  | _ => ⟨S50000x128, .f32⟩

abbrev hbmTy0_1 (i : Nat) : BufTy := match i % 128 with
  | 0 => ⟨S1x128, .f32⟩
  | 1 => ⟨S128, .f32⟩
  | 2 => ⟨S1x128, .f32⟩
  | 3 => ⟨S50000x128, .f32⟩
  | 4 => ⟨S_, .i32⟩
  | 5 => ⟨S800000, .i32⟩
  | 6 => ⟨S800000, .i1⟩
  | 7 => ⟨S_, .i32⟩
  | 8 => ⟨S800000, .i32⟩
  | 9 => ⟨S800000, .i32⟩
  | 10 => ⟨S800000, .i32⟩
  | 11 => ⟨S800000x1, .i32⟩
  | 12 => ⟨S800000x128, .f32⟩
  | 13 => ⟨S_, .f32⟩
  | 14 => ⟨S50000x128, .f32⟩
  | 15 => ⟨S800000x1, .i32⟩
  | 16 => ⟨S50000x128, .f32⟩
  | 17 => ⟨S1, .f32⟩
  | 18 => ⟨S_, .f32⟩
  | 19 => ⟨S_, .f32⟩
  | 20 => ⟨S_, .f32⟩
  | 21 => ⟨S1x1, .f32⟩
  | 22 => ⟨S1x128x64, .f32⟩
  | 23 => ⟨S128x64, .f32⟩
  | 24 => ⟨S50000x64, .f32⟩
  | 25 => ⟨S1x64, .f32⟩
  | 26 => ⟨S1x64, .f32⟩
  | 27 => ⟨S_, .f32⟩
  | 28 => ⟨S1x64, .f32⟩
  | 29 => ⟨S1x64, .f32⟩
  | 30 => ⟨S_, .f32⟩
  | 31 => ⟨S1x64, .f32⟩
  | 32 => ⟨S1x64, .f32⟩
  | 33 => ⟨S1x64, .f32⟩
  | 34 => ⟨S1x64, .f32⟩
  | 35 => ⟨S1x64, .f32⟩
  | 36 => ⟨S64, .f32⟩
  | 37 => ⟨S1x64, .f32⟩
  | 38 => ⟨S1x64, .f32⟩
  | 39 => ⟨S64, .f32⟩
  | 40 => ⟨S1x64, .f32⟩
  | 41 => ⟨S50000x64, .f32⟩
  | 42 => ⟨S1x64x128, .f32⟩
  | 43 => ⟨S64x128, .f32⟩
  | 44 => ⟨S50000x128, .f32⟩
  | 45 => ⟨S1x128, .f32⟩
  | 46 => ⟨S1x128, .f32⟩
  | 47 => ⟨S_, .f32⟩
  | 48 => ⟨S1x128, .f32⟩
  | 49 => ⟨S1x128, .f32⟩
  | 50 => ⟨S_, .f32⟩
  | 51 => ⟨S1x128, .f32⟩
  | 52 => ⟨S1x128, .f32⟩
  | 53 => ⟨S1x128, .f32⟩
  | 54 => ⟨S1x128, .f32⟩
  | 55 => ⟨S1x128, .f32⟩
  | 56 => ⟨S128, .f32⟩
  | 57 => ⟨S1x128, .f32⟩
  | 58 => ⟨S1x128, .f32⟩
  | 59 => ⟨S128, .f32⟩
  | 60 => ⟨S1x128, .f32⟩
  | 61 => ⟨S50000x128, .f32⟩
  | 62 => ⟨S_, .i32⟩
  | 63 => ⟨S800000, .i32⟩
  | 64 => ⟨S800000, .i1⟩
  | 65 => ⟨S_, .i32⟩
  | 66 => ⟨S800000, .i32⟩
  | 67 => ⟨S800000, .i32⟩
  | 68 => ⟨S800000, .i32⟩
  | 69 => ⟨S800000x1, .i32⟩
  | 70 => ⟨S800000x128, .f32⟩
  | 71 => ⟨S_, .f32⟩
  | 72 => ⟨S50000x128, .f32⟩
  | 73 => ⟨S800000x1, .i32⟩
  | 74 => ⟨S50000x128, .f32⟩
  | 75 => ⟨S1, .f32⟩
  | 76 => ⟨S_, .f32⟩
  | 77 => ⟨S_, .f32⟩
  | 78 => ⟨S_, .f32⟩
  | 79 => ⟨S1x1, .f32⟩
  | 80 => ⟨S1x128x64, .f32⟩
  | 81 => ⟨S128x64, .f32⟩
  | 82 => ⟨S50000x64, .f32⟩
  | 83 => ⟨S1x64, .f32⟩
  | 84 => ⟨S1x64, .f32⟩
  | 85 => ⟨S_, .f32⟩
  | 86 => ⟨S1x64, .f32⟩
  | 87 => ⟨S1x64, .f32⟩
  | 88 => ⟨S_, .f32⟩
  | 89 => ⟨S1x64, .f32⟩
  | 90 => ⟨S1x64, .f32⟩
  | 91 => ⟨S1x64, .f32⟩
  | 92 => ⟨S1x64, .f32⟩
  | 93 => ⟨S1x64, .f32⟩
  | 94 => ⟨S64, .f32⟩
  | 95 => ⟨S1x64, .f32⟩
  | 96 => ⟨S1x64, .f32⟩
  | 97 => ⟨S64, .f32⟩
  | 98 => ⟨S1x64, .f32⟩
  | 99 => ⟨S50000x64, .f32⟩
  | 100 => ⟨S1x64x128, .f32⟩
  | 101 => ⟨S64x128, .f32⟩
  | 102 => ⟨S50000x128, .f32⟩
  | 103 => ⟨S1x128, .f32⟩
  | 104 => ⟨S1x128, .f32⟩
  | 105 => ⟨S_, .f32⟩
  | 106 => ⟨S1x128, .f32⟩
  | 107 => ⟨S1x128, .f32⟩
  | 108 => ⟨S_, .f32⟩
  | 109 => ⟨S1x128, .f32⟩
  | 110 => ⟨S1x128, .f32⟩
  | 111 => ⟨S1x128, .f32⟩
  | 112 => ⟨S1x128, .f32⟩
  | 113 => ⟨S1x128, .f32⟩
  | 114 => ⟨S128, .f32⟩
  | 115 => ⟨S1x128, .f32⟩
  | 116 => ⟨S1x128, .f32⟩
  | 117 => ⟨S128, .f32⟩
  | 118 => ⟨S1x128, .f32⟩
  | 119 => ⟨S50000x128, .f32⟩
  | 120 => ⟨S_, .i32⟩
  | 121 => ⟨S800000, .i32⟩
  | 122 => ⟨S800000, .i1⟩
  | 123 => ⟨S_, .i32⟩
  | 124 => ⟨S800000, .i32⟩
  | 125 => ⟨S800000, .i32⟩
  | 126 => ⟨S800000, .i32⟩
  | 127 => ⟨S800000x1, .i32⟩
  | _ => ⟨S50000x128, .f32⟩

abbrev hbmTy0_2 (i : Nat) : BufTy := match i % 128 with
  | 0 => ⟨S800000x128, .f32⟩
  | 1 => ⟨S_, .f32⟩
  | 2 => ⟨S50000x128, .f32⟩
  | 3 => ⟨S800000x1, .i32⟩
  | 4 => ⟨S50000x128, .f32⟩
  | 5 => ⟨S1, .f32⟩
  | 6 => ⟨S_, .f32⟩
  | 7 => ⟨S_, .f32⟩
  | 8 => ⟨S_, .f32⟩
  | 9 => ⟨S1x1, .f32⟩
  | 10 => ⟨S1x128x64, .f32⟩
  | 11 => ⟨S128x64, .f32⟩
  | 12 => ⟨S50000x64, .f32⟩
  | 13 => ⟨S1x64, .f32⟩
  | 14 => ⟨S1x64, .f32⟩
  | 15 => ⟨S_, .f32⟩
  | 16 => ⟨S1x64, .f32⟩
  | 17 => ⟨S1x64, .f32⟩
  | 18 => ⟨S_, .f32⟩
  | 19 => ⟨S1x64, .f32⟩
  | 20 => ⟨S1x64, .f32⟩
  | 21 => ⟨S1x64, .f32⟩
  | 22 => ⟨S1x64, .f32⟩
  | 23 => ⟨S1x64, .f32⟩
  | 24 => ⟨S64, .f32⟩
  | 25 => ⟨S1x64, .f32⟩
  | 26 => ⟨S1x64, .f32⟩
  | 27 => ⟨S64, .f32⟩
  | 28 => ⟨S1x64, .f32⟩
  | 29 => ⟨S50000x64, .f32⟩
  | 30 => ⟨S1x64x128, .f32⟩
  | 31 => ⟨S64x128, .f32⟩
  | 32 => ⟨S50000x128, .f32⟩
  | 33 => ⟨S1x128, .f32⟩
  | 34 => ⟨S1x128, .f32⟩
  | 35 => ⟨S_, .f32⟩
  | 36 => ⟨S1x128, .f32⟩
  | 37 => ⟨S1x128, .f32⟩
  | 38 => ⟨S_, .f32⟩
  | 39 => ⟨S1x128, .f32⟩
  | 40 => ⟨S1x128, .f32⟩
  | 41 => ⟨S1x128, .f32⟩
  | 42 => ⟨S1x128, .f32⟩
  | 43 => ⟨S1x128, .f32⟩
  | 44 => ⟨S128, .f32⟩
  | 45 => ⟨S1x128, .f32⟩
  | 46 => ⟨S1x128, .f32⟩
  | 47 => ⟨S128, .f32⟩
  | 48 => ⟨S1x128, .f32⟩
  | 49 => ⟨S50000x128, .f32⟩
  | 50 => ⟨S_, .i32⟩
  | 51 => ⟨S800000, .i32⟩
  | 52 => ⟨S800000, .i1⟩
  | 53 => ⟨S_, .i32⟩
  | 54 => ⟨S800000, .i32⟩
  | 55 => ⟨S800000, .i32⟩
  | 56 => ⟨S800000, .i32⟩
  | 57 => ⟨S800000x1, .i32⟩
  | 58 => ⟨S800000x128, .f32⟩
  | 59 => ⟨S_, .f32⟩
  | 60 => ⟨S50000x128, .f32⟩
  | 61 => ⟨S800000x1, .i32⟩
  | 62 => ⟨S50000x128, .f32⟩
  | 63 => ⟨S1, .f32⟩
  | 64 => ⟨S_, .f32⟩
  | 65 => ⟨S_, .f32⟩
  | 66 => ⟨S_, .f32⟩
  | 67 => ⟨S1x1, .f32⟩
  | 68 => ⟨S1x128x64, .f32⟩
  | 69 => ⟨S128x64, .f32⟩
  | 70 => ⟨S50000x64, .f32⟩
  | 71 => ⟨S1x64, .f32⟩
  | 72 => ⟨S1x64, .f32⟩
  | 73 => ⟨S_, .f32⟩
  | 74 => ⟨S1x64, .f32⟩
  | 75 => ⟨S1x64, .f32⟩
  | 76 => ⟨S_, .f32⟩
  | 77 => ⟨S1x64, .f32⟩
  | 78 => ⟨S1x64, .f32⟩
  | 79 => ⟨S1x64, .f32⟩
  | 80 => ⟨S1x64, .f32⟩
  | 81 => ⟨S1x64, .f32⟩
  | 82 => ⟨S64, .f32⟩
  | 83 => ⟨S1x64, .f32⟩
  | 84 => ⟨S1x64, .f32⟩
  | 85 => ⟨S64, .f32⟩
  | 86 => ⟨S1x64, .f32⟩
  | 87 => ⟨S50000x64, .f32⟩
  | 88 => ⟨S1x64x128, .f32⟩
  | 89 => ⟨S64x128, .f32⟩
  | 90 => ⟨S50000x128, .f32⟩
  | 91 => ⟨S1x128, .f32⟩
  | 92 => ⟨S1x128, .f32⟩
  | 93 => ⟨S_, .f32⟩
  | 94 => ⟨S1x128, .f32⟩
  | 95 => ⟨S1x128, .f32⟩
  | 96 => ⟨S_, .f32⟩
  | 97 => ⟨S1x128, .f32⟩
  | 98 => ⟨S1x128, .f32⟩
  | 99 => ⟨S1x128, .f32⟩
  | 100 => ⟨S1x128, .f32⟩
  | 101 => ⟨S1x128, .f32⟩
  | 102 => ⟨S128, .f32⟩
  | 103 => ⟨S1x128, .f32⟩
  | 104 => ⟨S1x128, .f32⟩
  | 105 => ⟨S128, .f32⟩
  | 106 => ⟨S1x128, .f32⟩
  | 107 => ⟨S50000x128, .f32⟩
  | 108 => ⟨S_, .i32⟩
  | 109 => ⟨S800000, .i32⟩
  | 110 => ⟨S800000, .i1⟩
  | 111 => ⟨S_, .i32⟩
  | 112 => ⟨S800000, .i32⟩
  | 113 => ⟨S800000, .i32⟩
  | 114 => ⟨S800000, .i32⟩
  | 115 => ⟨S800000x1, .i32⟩
  | 116 => ⟨S800000x128, .f32⟩
  | 117 => ⟨S_, .f32⟩
  | 118 => ⟨S50000x128, .f32⟩
  | 119 => ⟨S800000x1, .i32⟩
  | 120 => ⟨S50000x128, .f32⟩
  | 121 => ⟨S1, .f32⟩
  | 122 => ⟨S_, .f32⟩
  | 123 => ⟨S_, .f32⟩
  | 124 => ⟨S_, .f32⟩
  | 125 => ⟨S1x1, .f32⟩
  | 126 => ⟨S1x128x64, .f32⟩
  | 127 => ⟨S128x64, .f32⟩
  | _ => ⟨S50000x128, .f32⟩

abbrev hbmTy0_3 (i : Nat) : BufTy := match i % 128 with
  | 0 => ⟨S50000x64, .f32⟩
  | 1 => ⟨S1x64, .f32⟩
  | 2 => ⟨S1x64, .f32⟩
  | 3 => ⟨S_, .f32⟩
  | 4 => ⟨S1x64, .f32⟩
  | 5 => ⟨S1x64, .f32⟩
  | 6 => ⟨S_, .f32⟩
  | 7 => ⟨S1x64, .f32⟩
  | 8 => ⟨S1x64, .f32⟩
  | 9 => ⟨S1x64, .f32⟩
  | 10 => ⟨S1x64, .f32⟩
  | 11 => ⟨S1x64, .f32⟩
  | 12 => ⟨S64, .f32⟩
  | 13 => ⟨S1x64, .f32⟩
  | 14 => ⟨S1x64, .f32⟩
  | 15 => ⟨S64, .f32⟩
  | 16 => ⟨S1x64, .f32⟩
  | 17 => ⟨S50000x64, .f32⟩
  | 18 => ⟨S50000x2, .f32⟩
  | 19 => ⟨S_, .f32⟩
  | 20 => ⟨S50000, .f32⟩
  | 21 => ⟨S_, .f32⟩
  | 22 => ⟨S64, .f32⟩
  | 23 => ⟨S50000x1, .i32⟩
  | 24 => ⟨S64, .f32⟩
  | 25 => ⟨S_, .f32⟩
  | 26 => ⟨S64x2, .f32⟩
  | 27 => ⟨S50000x1, .i32⟩
  | 28 => ⟨S64x2, .f32⟩
  | 29 => ⟨S_, .f32⟩
  | 30 => ⟨S64, .f32⟩
  | 31 => ⟨S64, .f32⟩
  | 32 => ⟨S64x1, .f32⟩
  | 33 => ⟨S64x2, .f32⟩
  | 34 => ⟨S64x2, .f32⟩
  | _ => ⟨S50000x128, .f32⟩

abbrev hbmTy (i : Nat) : BufTy := match i / 128 with
  | 0 => hbmTy0_0 i
  | 1 => hbmTy0_1 i
  | 2 => hbmTy0_2 i
  | 3 => hbmTy0_3 i
  | _ => ⟨S50000x128, .f32⟩

abbrev vmemTy0_0 (i : Nat) : BufTy := match i % 128 with
  | 0 => ⟨S5000x128, .f32⟩
  | 1 => ⟨S5000x128, .f32⟩
  | 2 => ⟨S5000x128, .f32⟩
  | 3 => ⟨S5000x128, .f32⟩
  | 4 => ⟨S1x1, .f32⟩
  | 5 => ⟨S128x64, .f32⟩
  | 6 => ⟨S5000x64, .f32⟩
  | 7 => ⟨S5000x64, .f32⟩
  | 8 => ⟨S1x64, .f32⟩
  | 9 => ⟨S1x64, .f32⟩
  | 10 => ⟨S5000x64, .f32⟩
  | 11 => ⟨S5000x64, .f32⟩
  | 12 => ⟨S1x64, .f32⟩
  | 13 => ⟨S1x64, .f32⟩
  | 14 => ⟨S1x64, .f32⟩
  | 15 => ⟨S1x64, .f32⟩
  | 16 => ⟨S5000x64, .f32⟩
  | 17 => ⟨S5000x64, .f32⟩
  | 18 => ⟨S5000x64, .f32⟩
  | 19 => ⟨S5000x64, .f32⟩
  | 20 => ⟨S64x128, .f32⟩
  | 21 => ⟨S5000x128, .f32⟩
  | 22 => ⟨S5000x128, .f32⟩
  | 23 => ⟨S1x128, .f32⟩
  | 24 => ⟨S1x128, .f32⟩
  | 25 => ⟨S5000x128, .f32⟩
  | 26 => ⟨S5000x128, .f32⟩
  | 27 => ⟨S1x128, .f32⟩
  | 28 => ⟨S1x128, .f32⟩
  | 29 => ⟨S1x128, .f32⟩
  | 30 => ⟨S1x128, .f32⟩
  | 31 => ⟨S5000x128, .f32⟩
  | 32 => ⟨S5000x128, .f32⟩
  | 33 => ⟨S5000x128, .f32⟩
  | 34 => ⟨S5000x128, .f32⟩
  | 35 => ⟨S5000x128, .f32⟩
  | 36 => ⟨S5000x128, .f32⟩
  | 37 => ⟨S1x1, .f32⟩
  | 38 => ⟨S128x64, .f32⟩
  | 39 => ⟨S5000x64, .f32⟩
  | 40 => ⟨S5000x64, .f32⟩
  | 41 => ⟨S1x64, .f32⟩
  | 42 => ⟨S1x64, .f32⟩
  | 43 => ⟨S5000x64, .f32⟩
  | 44 => ⟨S5000x64, .f32⟩
  | 45 => ⟨S1x64, .f32⟩
  | 46 => ⟨S1x64, .f32⟩
  | 47 => ⟨S1x64, .f32⟩
  | 48 => ⟨S1x64, .f32⟩
  | 49 => ⟨S5000x64, .f32⟩
  | 50 => ⟨S5000x64, .f32⟩
  | 51 => ⟨S5000x64, .f32⟩
  | 52 => ⟨S5000x64, .f32⟩
  | 53 => ⟨S64x128, .f32⟩
  | 54 => ⟨S5000x128, .f32⟩
  | 55 => ⟨S5000x128, .f32⟩
  | 56 => ⟨S1x128, .f32⟩
  | 57 => ⟨S1x128, .f32⟩
  | 58 => ⟨S5000x128, .f32⟩
  | 59 => ⟨S5000x128, .f32⟩
  | 60 => ⟨S1x128, .f32⟩
  | 61 => ⟨S1x128, .f32⟩
  | 62 => ⟨S1x128, .f32⟩
  | 63 => ⟨S1x128, .f32⟩
  | 64 => ⟨S5000x128, .f32⟩
  | 65 => ⟨S5000x128, .f32⟩
  | 66 => ⟨S5000x128, .f32⟩
  | 67 => ⟨S5000x128, .f32⟩
  | 68 => ⟨S5000x128, .f32⟩
  | 69 => ⟨S5000x128, .f32⟩
  | 70 => ⟨S1x1, .f32⟩
  | 71 => ⟨S128x64, .f32⟩
  | 72 => ⟨S5000x64, .f32⟩
  | 73 => ⟨S5000x64, .f32⟩
  | 74 => ⟨S1x64, .f32⟩
  | 75 => ⟨S1x64, .f32⟩
  | 76 => ⟨S5000x64, .f32⟩
  | 77 => ⟨S5000x64, .f32⟩
  | 78 => ⟨S1x64, .f32⟩
  | 79 => ⟨S1x64, .f32⟩
  | 80 => ⟨S1x64, .f32⟩
  | 81 => ⟨S1x64, .f32⟩
  | 82 => ⟨S5000x64, .f32⟩
  | 83 => ⟨S5000x64, .f32⟩
  | 84 => ⟨S5000x64, .f32⟩
  | 85 => ⟨S5000x64, .f32⟩
  | 86 => ⟨S64x128, .f32⟩
  | 87 => ⟨S5000x128, .f32⟩
  | 88 => ⟨S5000x128, .f32⟩
  | 89 => ⟨S1x128, .f32⟩
  | 90 => ⟨S1x128, .f32⟩
  | 91 => ⟨S5000x128, .f32⟩
  | 92 => ⟨S5000x128, .f32⟩
  | 93 => ⟨S1x128, .f32⟩
  | 94 => ⟨S1x128, .f32⟩
  | 95 => ⟨S1x128, .f32⟩
  | 96 => ⟨S1x128, .f32⟩
  | 97 => ⟨S5000x128, .f32⟩
  | 98 => ⟨S5000x128, .f32⟩
  | 99 => ⟨S5000x128, .f32⟩
  | 100 => ⟨S5000x128, .f32⟩
  | 101 => ⟨S5000x128, .f32⟩
  | 102 => ⟨S5000x128, .f32⟩
  | 103 => ⟨S1x1, .f32⟩
  | 104 => ⟨S128x64, .f32⟩
  | 105 => ⟨S5000x64, .f32⟩
  | 106 => ⟨S5000x64, .f32⟩
  | 107 => ⟨S1x64, .f32⟩
  | 108 => ⟨S1x64, .f32⟩
  | 109 => ⟨S5000x64, .f32⟩
  | 110 => ⟨S5000x64, .f32⟩
  | 111 => ⟨S1x64, .f32⟩
  | 112 => ⟨S1x64, .f32⟩
  | 113 => ⟨S1x64, .f32⟩
  | 114 => ⟨S1x64, .f32⟩
  | 115 => ⟨S5000x64, .f32⟩
  | 116 => ⟨S5000x64, .f32⟩
  | 117 => ⟨S5000x64, .f32⟩
  | 118 => ⟨S5000x64, .f32⟩
  | 119 => ⟨S64x128, .f32⟩
  | 120 => ⟨S5000x128, .f32⟩
  | 121 => ⟨S5000x128, .f32⟩
  | 122 => ⟨S1x128, .f32⟩
  | 123 => ⟨S1x128, .f32⟩
  | 124 => ⟨S5000x128, .f32⟩
  | 125 => ⟨S5000x128, .f32⟩
  | 126 => ⟨S1x128, .f32⟩
  | 127 => ⟨S1x128, .f32⟩
  | _ => ⟨S50000x128, .f32⟩

abbrev vmemTy0_1 (i : Nat) : BufTy := match i % 128 with
  | 0 => ⟨S1x128, .f32⟩
  | 1 => ⟨S1x128, .f32⟩
  | 2 => ⟨S5000x128, .f32⟩
  | 3 => ⟨S5000x128, .f32⟩
  | 4 => ⟨S5000x128, .f32⟩
  | 5 => ⟨S5000x128, .f32⟩
  | 6 => ⟨S5000x128, .f32⟩
  | 7 => ⟨S5000x128, .f32⟩
  | 8 => ⟨S1x1, .f32⟩
  | 9 => ⟨S128x64, .f32⟩
  | 10 => ⟨S5000x64, .f32⟩
  | 11 => ⟨S5000x64, .f32⟩
  | 12 => ⟨S1x64, .f32⟩
  | 13 => ⟨S1x64, .f32⟩
  | 14 => ⟨S5000x64, .f32⟩
  | 15 => ⟨S5000x64, .f32⟩
  | 16 => ⟨S1x64, .f32⟩
  | 17 => ⟨S1x64, .f32⟩
  | 18 => ⟨S1x64, .f32⟩
  | 19 => ⟨S1x64, .f32⟩
  | 20 => ⟨S5000x64, .f32⟩
  | 21 => ⟨S5000x64, .f32⟩
  | 22 => ⟨S5000x64, .f32⟩
  | 23 => ⟨S5000x64, .f32⟩
  | 24 => ⟨S64x128, .f32⟩
  | 25 => ⟨S5000x128, .f32⟩
  | 26 => ⟨S5000x128, .f32⟩
  | 27 => ⟨S1x128, .f32⟩
  | 28 => ⟨S1x128, .f32⟩
  | 29 => ⟨S5000x128, .f32⟩
  | 30 => ⟨S5000x128, .f32⟩
  | 31 => ⟨S1x128, .f32⟩
  | 32 => ⟨S1x128, .f32⟩
  | 33 => ⟨S1x128, .f32⟩
  | 34 => ⟨S1x128, .f32⟩
  | 35 => ⟨S5000x128, .f32⟩
  | 36 => ⟨S5000x128, .f32⟩
  | 37 => ⟨S5000x128, .f32⟩
  | 38 => ⟨S5000x128, .f32⟩
  | 39 => ⟨S5000x128, .f32⟩
  | 40 => ⟨S5000x128, .f32⟩
  | 41 => ⟨S1x1, .f32⟩
  | 42 => ⟨S128x64, .f32⟩
  | 43 => ⟨S5000x64, .f32⟩
  | 44 => ⟨S5000x64, .f32⟩
  | 45 => ⟨S1x64, .f32⟩
  | 46 => ⟨S1x64, .f32⟩
  | 47 => ⟨S5000x64, .f32⟩
  | 48 => ⟨S5000x64, .f32⟩
  | 49 => ⟨S1x64, .f32⟩
  | 50 => ⟨S1x64, .f32⟩
  | 51 => ⟨S1x64, .f32⟩
  | 52 => ⟨S1x64, .f32⟩
  | 53 => ⟨S5000x64, .f32⟩
  | 54 => ⟨S5000x64, .f32⟩
  | 55 => ⟨S5000x64, .f32⟩
  | 56 => ⟨S5000x64, .f32⟩
  | 57 => ⟨S64x128, .f32⟩
  | 58 => ⟨S5000x128, .f32⟩
  | 59 => ⟨S5000x128, .f32⟩
  | 60 => ⟨S1x128, .f32⟩
  | 61 => ⟨S1x128, .f32⟩
  | 62 => ⟨S5000x128, .f32⟩
  | 63 => ⟨S5000x128, .f32⟩
  | 64 => ⟨S1x128, .f32⟩
  | 65 => ⟨S1x128, .f32⟩
  | 66 => ⟨S1x128, .f32⟩
  | 67 => ⟨S1x128, .f32⟩
  | 68 => ⟨S5000x128, .f32⟩
  | 69 => ⟨S5000x128, .f32⟩
  | 70 => ⟨S5000x128, .f32⟩
  | 71 => ⟨S5000x128, .f32⟩
  | 72 => ⟨S5000x128, .f32⟩
  | 73 => ⟨S5000x128, .f32⟩
  | 74 => ⟨S1x1, .f32⟩
  | 75 => ⟨S128x64, .f32⟩
  | 76 => ⟨S5000x64, .f32⟩
  | 77 => ⟨S5000x64, .f32⟩
  | 78 => ⟨S1x64, .f32⟩
  | 79 => ⟨S1x64, .f32⟩
  | 80 => ⟨S5000x64, .f32⟩
  | 81 => ⟨S5000x64, .f32⟩
  | 82 => ⟨S1x64, .f32⟩
  | 83 => ⟨S1x64, .f32⟩
  | 84 => ⟨S1x64, .f32⟩
  | 85 => ⟨S1x64, .f32⟩
  | 86 => ⟨S5000x64, .f32⟩
  | 87 => ⟨S5000x64, .f32⟩
  | 88 => ⟨S5000x64, .f32⟩
  | 89 => ⟨S5000x64, .f32⟩
  | 90 => ⟨S64x2, .f32⟩
  | 91 => ⟨S5000x2, .f32⟩
  | 92 => ⟨S5000x2, .f32⟩
  | _ => ⟨S50000x128, .f32⟩

abbrev vmemTy (i : Nat) : BufTy := match i / 128 with
  | 0 => vmemTy0_0 i
  | 1 => vmemTy0_1 i
  | _ => ⟨S50000x128, .f32⟩

abbrev bufTy : (tb : Table) → Fin (tcTables nBuf tb) → BufTy
  | .hbm, ⟨i, _⟩ => hbmTy i
  | .local _ .vmem, ⟨i, _⟩ => vmemTy i
  | _, _ => ⟨S50000x128, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | _ => false

abbrev dmaSemScopedAt (i : Nat) : Bool := match i / 128 with
  | 0 => dmaSemScopedAt0_0 i
  | 1 => dmaSemScopedAt0_1 i
  | _ => false

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | _ => false

abbrev vmemScopedAt (i : Nat) : Bool := match i / 128 with
  | 0 => vmemScopedAt0_0 i
  | 1 => vmemScopedAt0_1 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 221 → Bool
  | ⟨i, _⟩ => dmaSemScopedAt i

abbrev sig : RefSig :=
  ofTc nBuf bufTy 0 221 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_1 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20_0 : Ref sig .tc := ⟨.hbm, 36, rfl⟩
abbrev main_v20_1 : Ref sig .tc := ⟨.hbm, 37, rfl⟩
abbrev main_v20_2 : Ref sig .tc := ⟨.hbm, 38, rfl⟩
abbrev main_cst_2 : Ref sig .tc := ⟨.hbm, 39, rfl⟩
abbrev main_v21 : Ref sig .tc := ⟨.hbm, 40, rfl⟩
abbrev main_v22 : Ref sig .tc := ⟨.hbm, 41, rfl⟩
abbrev main_cst_3 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36_0 : Ref sig .tc := ⟨.hbm, 56, rfl⟩
abbrev main_v36_1 : Ref sig .tc := ⟨.hbm, 57, rfl⟩
abbrev main_v36_2 : Ref sig .tc := ⟨.hbm, 58, rfl⟩
abbrev main_cst_4 : Ref sig .tc := ⟨.hbm, 59, rfl⟩
abbrev main_v37 : Ref sig .tc := ⟨.hbm, 60, rfl⟩
abbrev main_v38 : Ref sig .tc := ⟨.hbm, 61, rfl⟩
abbrev main_cst_5 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_c_6 : Ref sig .tc := ⟨.hbm, 74, rfl⟩
abbrev main_v50 : Ref sig .tc := ⟨.hbm, 75, rfl⟩
abbrev main_v51 : Ref sig .tc := ⟨.hbm, 76, rfl⟩
abbrev main_c_7 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_cst_8 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_cst_9 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66_0 : Ref sig .tc := ⟨.hbm, 94, rfl⟩
abbrev main_v66_1 : Ref sig .tc := ⟨.hbm, 95, rfl⟩
abbrev main_v66_2 : Ref sig .tc := ⟨.hbm, 96, rfl⟩
abbrev main_cst_10 : Ref sig .tc := ⟨.hbm, 97, rfl⟩
abbrev main_v67 : Ref sig .tc := ⟨.hbm, 98, rfl⟩
abbrev main_v68 : Ref sig .tc := ⟨.hbm, 99, rfl⟩
abbrev main_cst_11 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82_0 : Ref sig .tc := ⟨.hbm, 114, rfl⟩
abbrev main_v82_1 : Ref sig .tc := ⟨.hbm, 115, rfl⟩
abbrev main_v82_2 : Ref sig .tc := ⟨.hbm, 116, rfl⟩
abbrev main_cst_12 : Ref sig .tc := ⟨.hbm, 117, rfl⟩
abbrev main_v83 : Ref sig .tc := ⟨.hbm, 118, rfl⟩
abbrev main_v84 : Ref sig .tc := ⟨.hbm, 119, rfl⟩
abbrev main_cst_13 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_c_14 : Ref sig .tc := ⟨.hbm, 132, rfl⟩
abbrev main_v96 : Ref sig .tc := ⟨.hbm, 133, rfl⟩
abbrev main_v97 : Ref sig .tc := ⟨.hbm, 134, rfl⟩
abbrev main_c_15 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_cst_16 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_cst_17 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112_0 : Ref sig .tc := ⟨.hbm, 152, rfl⟩
abbrev main_v112_1 : Ref sig .tc := ⟨.hbm, 153, rfl⟩
abbrev main_v112_2 : Ref sig .tc := ⟨.hbm, 154, rfl⟩
abbrev main_cst_18 : Ref sig .tc := ⟨.hbm, 155, rfl⟩
abbrev main_v113 : Ref sig .tc := ⟨.hbm, 156, rfl⟩
abbrev main_v114 : Ref sig .tc := ⟨.hbm, 157, rfl⟩
abbrev main_cst_19 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_v128_0 : Ref sig .tc := ⟨.hbm, 172, rfl⟩
abbrev main_v128_1 : Ref sig .tc := ⟨.hbm, 173, rfl⟩
abbrev main_v128_2 : Ref sig .tc := ⟨.hbm, 174, rfl⟩
abbrev main_cst_20 : Ref sig .tc := ⟨.hbm, 175, rfl⟩
abbrev main_v129 : Ref sig .tc := ⟨.hbm, 176, rfl⟩
abbrev main_v130 : Ref sig .tc := ⟨.hbm, 177, rfl⟩
abbrev main_cst_21 : Ref sig .tc := ⟨.hbm, 178, rfl⟩
abbrev main_v131 : Ref sig .tc := ⟨.hbm, 179, rfl⟩
abbrev main_v132 : Ref sig .tc := ⟨.hbm, 180, rfl⟩
abbrev main_v133 : Ref sig .tc := ⟨.hbm, 181, rfl⟩
abbrev main_v134 : Ref sig .tc := ⟨.hbm, 182, rfl⟩
abbrev main_v135 : Ref sig .tc := ⟨.hbm, 183, rfl⟩
abbrev main_v136 : Ref sig .tc := ⟨.hbm, 184, rfl⟩
abbrev main_v137 : Ref sig .tc := ⟨.hbm, 185, rfl⟩
abbrev main_v138 : Ref sig .tc := ⟨.hbm, 186, rfl⟩
abbrev main_v139 : Ref sig .tc := ⟨.hbm, 187, rfl⟩
abbrev main_v140 : Ref sig .tc := ⟨.hbm, 188, rfl⟩
abbrev main_v141 : Ref sig .tc := ⟨.hbm, 189, rfl⟩
abbrev main_c_22 : Ref sig .tc := ⟨.hbm, 190, rfl⟩
abbrev main_v142 : Ref sig .tc := ⟨.hbm, 191, rfl⟩
abbrev main_v143 : Ref sig .tc := ⟨.hbm, 192, rfl⟩
abbrev main_c_23 : Ref sig .tc := ⟨.hbm, 193, rfl⟩
abbrev main_v144 : Ref sig .tc := ⟨.hbm, 194, rfl⟩
abbrev main_v145 : Ref sig .tc := ⟨.hbm, 195, rfl⟩
abbrev main_v146 : Ref sig .tc := ⟨.hbm, 196, rfl⟩
abbrev main_v147 : Ref sig .tc := ⟨.hbm, 197, rfl⟩
abbrev main_v148 : Ref sig .tc := ⟨.hbm, 198, rfl⟩
abbrev main_cst_24 : Ref sig .tc := ⟨.hbm, 199, rfl⟩
abbrev main_v149 : Ref sig .tc := ⟨.hbm, 200, rfl⟩
abbrev main_v150 : Ref sig .tc := ⟨.hbm, 201, rfl⟩
abbrev main_v151 : Ref sig .tc := ⟨.hbm, 202, rfl⟩
abbrev main_v152 : Ref sig .tc := ⟨.hbm, 203, rfl⟩
abbrev main_v153 : Ref sig .tc := ⟨.hbm, 204, rfl⟩
abbrev main_cst_25 : Ref sig .tc := ⟨.hbm, 205, rfl⟩
abbrev main_v154 : Ref sig .tc := ⟨.hbm, 206, rfl⟩
abbrev main_v155 : Ref sig .tc := ⟨.hbm, 207, rfl⟩
abbrev main_v156 : Ref sig .tc := ⟨.hbm, 208, rfl⟩
abbrev main_v157 : Ref sig .tc := ⟨.hbm, 209, rfl⟩
abbrev main_v158_0 : Ref sig .tc := ⟨.hbm, 210, rfl⟩
abbrev main_v158_1 : Ref sig .tc := ⟨.hbm, 211, rfl⟩
abbrev main_v158_2 : Ref sig .tc := ⟨.hbm, 212, rfl⟩
abbrev main_cst_26 : Ref sig .tc := ⟨.hbm, 213, rfl⟩
abbrev main_v159 : Ref sig .tc := ⟨.hbm, 214, rfl⟩
abbrev main_v160 : Ref sig .tc := ⟨.hbm, 215, rfl⟩
abbrev main_cst_27 : Ref sig .tc := ⟨.hbm, 216, rfl⟩
abbrev main_v161 : Ref sig .tc := ⟨.hbm, 217, rfl⟩
abbrev main_v162 : Ref sig .tc := ⟨.hbm, 218, rfl⟩
abbrev main_v163 : Ref sig .tc := ⟨.hbm, 219, rfl⟩
abbrev main_v164 : Ref sig .tc := ⟨.hbm, 220, rfl⟩
abbrev main_v165 : Ref sig .tc := ⟨.hbm, 221, rfl⟩
abbrev main_v166 : Ref sig .tc := ⟨.hbm, 222, rfl⟩
abbrev main_v167 : Ref sig .tc := ⟨.hbm, 223, rfl⟩
abbrev main_v168 : Ref sig .tc := ⟨.hbm, 224, rfl⟩
abbrev main_v169 : Ref sig .tc := ⟨.hbm, 225, rfl⟩
abbrev main_v170 : Ref sig .tc := ⟨.hbm, 226, rfl⟩
abbrev main_v171 : Ref sig .tc := ⟨.hbm, 227, rfl⟩
abbrev main_v172 : Ref sig .tc := ⟨.hbm, 228, rfl⟩
abbrev main_v173 : Ref sig .tc := ⟨.hbm, 229, rfl⟩
abbrev main_v174_0 : Ref sig .tc := ⟨.hbm, 230, rfl⟩
abbrev main_v174_1 : Ref sig .tc := ⟨.hbm, 231, rfl⟩
abbrev main_v174_2 : Ref sig .tc := ⟨.hbm, 232, rfl⟩
abbrev main_cst_28 : Ref sig .tc := ⟨.hbm, 233, rfl⟩
abbrev main_v175 : Ref sig .tc := ⟨.hbm, 234, rfl⟩
abbrev main_v176 : Ref sig .tc := ⟨.hbm, 235, rfl⟩
abbrev main_cst_29 : Ref sig .tc := ⟨.hbm, 236, rfl⟩
abbrev main_v177 : Ref sig .tc := ⟨.hbm, 237, rfl⟩
abbrev main_v178 : Ref sig .tc := ⟨.hbm, 238, rfl⟩
abbrev main_v179 : Ref sig .tc := ⟨.hbm, 239, rfl⟩
abbrev main_v180 : Ref sig .tc := ⟨.hbm, 240, rfl⟩
abbrev main_v181 : Ref sig .tc := ⟨.hbm, 241, rfl⟩
abbrev main_v182 : Ref sig .tc := ⟨.hbm, 242, rfl⟩
abbrev main_v183 : Ref sig .tc := ⟨.hbm, 243, rfl⟩
abbrev main_v184 : Ref sig .tc := ⟨.hbm, 244, rfl⟩
abbrev main_v185 : Ref sig .tc := ⟨.hbm, 245, rfl⟩
abbrev main_v186 : Ref sig .tc := ⟨.hbm, 246, rfl⟩
abbrev main_v187 : Ref sig .tc := ⟨.hbm, 247, rfl⟩
abbrev main_c_30 : Ref sig .tc := ⟨.hbm, 248, rfl⟩
abbrev main_v188 : Ref sig .tc := ⟨.hbm, 249, rfl⟩
abbrev main_v189 : Ref sig .tc := ⟨.hbm, 250, rfl⟩
abbrev main_c_31 : Ref sig .tc := ⟨.hbm, 251, rfl⟩
abbrev main_v190 : Ref sig .tc := ⟨.hbm, 252, rfl⟩
abbrev main_v191 : Ref sig .tc := ⟨.hbm, 253, rfl⟩
abbrev main_v192 : Ref sig .tc := ⟨.hbm, 254, rfl⟩
abbrev main_v193 : Ref sig .tc := ⟨.hbm, 255, rfl⟩
abbrev main_v194 : Ref sig .tc := ⟨.hbm, 256, rfl⟩
abbrev main_cst_32 : Ref sig .tc := ⟨.hbm, 257, rfl⟩
abbrev main_v195 : Ref sig .tc := ⟨.hbm, 258, rfl⟩
abbrev main_v196 : Ref sig .tc := ⟨.hbm, 259, rfl⟩
abbrev main_v197 : Ref sig .tc := ⟨.hbm, 260, rfl⟩
abbrev main_v198 : Ref sig .tc := ⟨.hbm, 261, rfl⟩
abbrev main_v199 : Ref sig .tc := ⟨.hbm, 262, rfl⟩
abbrev main_cst_33 : Ref sig .tc := ⟨.hbm, 263, rfl⟩
abbrev main_v200 : Ref sig .tc := ⟨.hbm, 264, rfl⟩
abbrev main_v201 : Ref sig .tc := ⟨.hbm, 265, rfl⟩
abbrev main_v202 : Ref sig .tc := ⟨.hbm, 266, rfl⟩
abbrev main_v203 : Ref sig .tc := ⟨.hbm, 267, rfl⟩
abbrev main_v204_0 : Ref sig .tc := ⟨.hbm, 268, rfl⟩
abbrev main_v204_1 : Ref sig .tc := ⟨.hbm, 269, rfl⟩
abbrev main_v204_2 : Ref sig .tc := ⟨.hbm, 270, rfl⟩
abbrev main_cst_34 : Ref sig .tc := ⟨.hbm, 271, rfl⟩
abbrev main_v205 : Ref sig .tc := ⟨.hbm, 272, rfl⟩
abbrev main_v206 : Ref sig .tc := ⟨.hbm, 273, rfl⟩
abbrev main_cst_35 : Ref sig .tc := ⟨.hbm, 274, rfl⟩
abbrev main_v207 : Ref sig .tc := ⟨.hbm, 275, rfl⟩
abbrev main_v208 : Ref sig .tc := ⟨.hbm, 276, rfl⟩
abbrev main_v209 : Ref sig .tc := ⟨.hbm, 277, rfl⟩
abbrev main_v210 : Ref sig .tc := ⟨.hbm, 278, rfl⟩
abbrev main_v211 : Ref sig .tc := ⟨.hbm, 279, rfl⟩
abbrev main_v212 : Ref sig .tc := ⟨.hbm, 280, rfl⟩
abbrev main_v213 : Ref sig .tc := ⟨.hbm, 281, rfl⟩
abbrev main_v214 : Ref sig .tc := ⟨.hbm, 282, rfl⟩
abbrev main_v215 : Ref sig .tc := ⟨.hbm, 283, rfl⟩
abbrev main_v216 : Ref sig .tc := ⟨.hbm, 284, rfl⟩
abbrev main_v217 : Ref sig .tc := ⟨.hbm, 285, rfl⟩
abbrev main_v218 : Ref sig .tc := ⟨.hbm, 286, rfl⟩
abbrev main_v219 : Ref sig .tc := ⟨.hbm, 287, rfl⟩
abbrev main_v220_0 : Ref sig .tc := ⟨.hbm, 288, rfl⟩
abbrev main_v220_1 : Ref sig .tc := ⟨.hbm, 289, rfl⟩
abbrev main_v220_2 : Ref sig .tc := ⟨.hbm, 290, rfl⟩
abbrev main_cst_36 : Ref sig .tc := ⟨.hbm, 291, rfl⟩
abbrev main_v221 : Ref sig .tc := ⟨.hbm, 292, rfl⟩
abbrev main_v222 : Ref sig .tc := ⟨.hbm, 293, rfl⟩
abbrev main_cst_37 : Ref sig .tc := ⟨.hbm, 294, rfl⟩
abbrev main_v223 : Ref sig .tc := ⟨.hbm, 295, rfl⟩
abbrev main_v224 : Ref sig .tc := ⟨.hbm, 296, rfl⟩
abbrev main_v225 : Ref sig .tc := ⟨.hbm, 297, rfl⟩
abbrev main_v226 : Ref sig .tc := ⟨.hbm, 298, rfl⟩
abbrev main_v227 : Ref sig .tc := ⟨.hbm, 299, rfl⟩
abbrev main_v228 : Ref sig .tc := ⟨.hbm, 300, rfl⟩
abbrev main_v229 : Ref sig .tc := ⟨.hbm, 301, rfl⟩
abbrev main_v230 : Ref sig .tc := ⟨.hbm, 302, rfl⟩
abbrev main_v231 : Ref sig .tc := ⟨.hbm, 303, rfl⟩
abbrev main_v232 : Ref sig .tc := ⟨.hbm, 304, rfl⟩
abbrev main_v233 : Ref sig .tc := ⟨.hbm, 305, rfl⟩
abbrev main_c_38 : Ref sig .tc := ⟨.hbm, 306, rfl⟩
abbrev main_v234 : Ref sig .tc := ⟨.hbm, 307, rfl⟩
abbrev main_v235 : Ref sig .tc := ⟨.hbm, 308, rfl⟩
abbrev main_c_39 : Ref sig .tc := ⟨.hbm, 309, rfl⟩
abbrev main_v236 : Ref sig .tc := ⟨.hbm, 310, rfl⟩
abbrev main_v237 : Ref sig .tc := ⟨.hbm, 311, rfl⟩
abbrev main_v238 : Ref sig .tc := ⟨.hbm, 312, rfl⟩
abbrev main_v239 : Ref sig .tc := ⟨.hbm, 313, rfl⟩
abbrev main_v240 : Ref sig .tc := ⟨.hbm, 314, rfl⟩
abbrev main_cst_40 : Ref sig .tc := ⟨.hbm, 315, rfl⟩
abbrev main_v241 : Ref sig .tc := ⟨.hbm, 316, rfl⟩
abbrev main_v242 : Ref sig .tc := ⟨.hbm, 317, rfl⟩
abbrev main_v243 : Ref sig .tc := ⟨.hbm, 318, rfl⟩
abbrev main_v244 : Ref sig .tc := ⟨.hbm, 319, rfl⟩
abbrev main_v245 : Ref sig .tc := ⟨.hbm, 320, rfl⟩
abbrev main_cst_41 : Ref sig .tc := ⟨.hbm, 321, rfl⟩
abbrev main_v246 : Ref sig .tc := ⟨.hbm, 322, rfl⟩
abbrev main_v247 : Ref sig .tc := ⟨.hbm, 323, rfl⟩
abbrev main_v248 : Ref sig .tc := ⟨.hbm, 324, rfl⟩
abbrev main_v249 : Ref sig .tc := ⟨.hbm, 325, rfl⟩
abbrev main_v250_0 : Ref sig .tc := ⟨.hbm, 326, rfl⟩
abbrev main_v250_1 : Ref sig .tc := ⟨.hbm, 327, rfl⟩
abbrev main_v250_2 : Ref sig .tc := ⟨.hbm, 328, rfl⟩
abbrev main_cst_42 : Ref sig .tc := ⟨.hbm, 329, rfl⟩
abbrev main_v251 : Ref sig .tc := ⟨.hbm, 330, rfl⟩
abbrev main_v252 : Ref sig .tc := ⟨.hbm, 331, rfl⟩
abbrev main_cst_43 : Ref sig .tc := ⟨.hbm, 332, rfl⟩
abbrev main_v253 : Ref sig .tc := ⟨.hbm, 333, rfl⟩
abbrev main_v254 : Ref sig .tc := ⟨.hbm, 334, rfl⟩
abbrev main_v255 : Ref sig .tc := ⟨.hbm, 335, rfl⟩
abbrev main_v256 : Ref sig .tc := ⟨.hbm, 336, rfl⟩
abbrev main_v257 : Ref sig .tc := ⟨.hbm, 337, rfl⟩
abbrev main_v258 : Ref sig .tc := ⟨.hbm, 338, rfl⟩
abbrev main_v259 : Ref sig .tc := ⟨.hbm, 339, rfl⟩
abbrev main_v260 : Ref sig .tc := ⟨.hbm, 340, rfl⟩
abbrev main_v261 : Ref sig .tc := ⟨.hbm, 341, rfl⟩
abbrev main_v262 : Ref sig .tc := ⟨.hbm, 342, rfl⟩
abbrev main_v263 : Ref sig .tc := ⟨.hbm, 343, rfl⟩
abbrev main_v264 : Ref sig .tc := ⟨.hbm, 344, rfl⟩
abbrev main_v265 : Ref sig .tc := ⟨.hbm, 345, rfl⟩
abbrev main_v266_0 : Ref sig .tc := ⟨.hbm, 346, rfl⟩
abbrev main_v266_1 : Ref sig .tc := ⟨.hbm, 347, rfl⟩
abbrev main_v266_2 : Ref sig .tc := ⟨.hbm, 348, rfl⟩
abbrev main_cst_44 : Ref sig .tc := ⟨.hbm, 349, rfl⟩
abbrev main_v267 : Ref sig .tc := ⟨.hbm, 350, rfl⟩
abbrev main_v268 : Ref sig .tc := ⟨.hbm, 351, rfl⟩
abbrev main_cst_45 : Ref sig .tc := ⟨.hbm, 352, rfl⟩
abbrev main_v269 : Ref sig .tc := ⟨.hbm, 353, rfl⟩
abbrev main_v270 : Ref sig .tc := ⟨.hbm, 354, rfl⟩
abbrev main_v271 : Ref sig .tc := ⟨.hbm, 355, rfl⟩
abbrev main_v272 : Ref sig .tc := ⟨.hbm, 356, rfl⟩
abbrev main_v273 : Ref sig .tc := ⟨.hbm, 357, rfl⟩
abbrev main_v274 : Ref sig .tc := ⟨.hbm, 358, rfl⟩
abbrev main_v275 : Ref sig .tc := ⟨.hbm, 359, rfl⟩
abbrev main_v276 : Ref sig .tc := ⟨.hbm, 360, rfl⟩
abbrev main_v277 : Ref sig .tc := ⟨.hbm, 361, rfl⟩
abbrev main_v278 : Ref sig .tc := ⟨.hbm, 362, rfl⟩
abbrev main_v279 : Ref sig .tc := ⟨.hbm, 363, rfl⟩
abbrev main_c_46 : Ref sig .tc := ⟨.hbm, 364, rfl⟩
abbrev main_v280 : Ref sig .tc := ⟨.hbm, 365, rfl⟩
abbrev main_v281 : Ref sig .tc := ⟨.hbm, 366, rfl⟩
abbrev main_c_47 : Ref sig .tc := ⟨.hbm, 367, rfl⟩
abbrev main_v282 : Ref sig .tc := ⟨.hbm, 368, rfl⟩
abbrev main_v283 : Ref sig .tc := ⟨.hbm, 369, rfl⟩
abbrev main_v284 : Ref sig .tc := ⟨.hbm, 370, rfl⟩
abbrev main_v285 : Ref sig .tc := ⟨.hbm, 371, rfl⟩
abbrev main_v286 : Ref sig .tc := ⟨.hbm, 372, rfl⟩
abbrev main_cst_48 : Ref sig .tc := ⟨.hbm, 373, rfl⟩
abbrev main_v287 : Ref sig .tc := ⟨.hbm, 374, rfl⟩
abbrev main_v288 : Ref sig .tc := ⟨.hbm, 375, rfl⟩
abbrev main_v289 : Ref sig .tc := ⟨.hbm, 376, rfl⟩
abbrev main_v290 : Ref sig .tc := ⟨.hbm, 377, rfl⟩
abbrev main_v291 : Ref sig .tc := ⟨.hbm, 378, rfl⟩
abbrev main_cst_49 : Ref sig .tc := ⟨.hbm, 379, rfl⟩
abbrev main_v292 : Ref sig .tc := ⟨.hbm, 380, rfl⟩
abbrev main_v293 : Ref sig .tc := ⟨.hbm, 381, rfl⟩
abbrev main_v294 : Ref sig .tc := ⟨.hbm, 382, rfl⟩
abbrev main_v295 : Ref sig .tc := ⟨.hbm, 383, rfl⟩
abbrev main_v296_0 : Ref sig .tc := ⟨.hbm, 384, rfl⟩
abbrev main_v296_1 : Ref sig .tc := ⟨.hbm, 385, rfl⟩
abbrev main_v296_2 : Ref sig .tc := ⟨.hbm, 386, rfl⟩
abbrev main_cst_50 : Ref sig .tc := ⟨.hbm, 387, rfl⟩
abbrev main_v297 : Ref sig .tc := ⟨.hbm, 388, rfl⟩
abbrev main_v298 : Ref sig .tc := ⟨.hbm, 389, rfl⟩
abbrev main_cst_51 : Ref sig .tc := ⟨.hbm, 390, rfl⟩
abbrev main_v299 : Ref sig .tc := ⟨.hbm, 391, rfl⟩
abbrev main_v300 : Ref sig .tc := ⟨.hbm, 392, rfl⟩
abbrev main_v301 : Ref sig .tc := ⟨.hbm, 393, rfl⟩
abbrev main_v302 : Ref sig .tc := ⟨.hbm, 394, rfl⟩
abbrev main_v303 : Ref sig .tc := ⟨.hbm, 395, rfl⟩
abbrev main_v304 : Ref sig .tc := ⟨.hbm, 396, rfl⟩
abbrev main_v305 : Ref sig .tc := ⟨.hbm, 397, rfl⟩
abbrev main_v306 : Ref sig .tc := ⟨.hbm, 398, rfl⟩
abbrev main_v307 : Ref sig .tc := ⟨.hbm, 399, rfl⟩
abbrev main_v308 : Ref sig .tc := ⟨.hbm, 400, rfl⟩
abbrev main_v309 : Ref sig .tc := ⟨.hbm, 401, rfl⟩
abbrev main_v310 : Ref sig .tc := ⟨.hbm, 402, rfl⟩
abbrev main_cst_52 : Ref sig .tc := ⟨.hbm, 403, rfl⟩
abbrev main_v311 : Ref sig .tc := ⟨.hbm, 404, rfl⟩
abbrev main_cst_53 : Ref sig .tc := ⟨.hbm, 405, rfl⟩
abbrev main_v312 : Ref sig .tc := ⟨.hbm, 406, rfl⟩
abbrev main_v313 : Ref sig .tc := ⟨.hbm, 407, rfl⟩
abbrev main_v314 : Ref sig .tc := ⟨.hbm, 408, rfl⟩
abbrev main_cst_54 : Ref sig .tc := ⟨.hbm, 409, rfl⟩
abbrev main_v315 : Ref sig .tc := ⟨.hbm, 410, rfl⟩
abbrev main_v316 : Ref sig .tc := ⟨.hbm, 411, rfl⟩
abbrev main_v317 : Ref sig .tc := ⟨.hbm, 412, rfl⟩
abbrev main_cst_55 : Ref sig .tc := ⟨.hbm, 413, rfl⟩
abbrev main_v318 : Ref sig .tc := ⟨.hbm, 414, rfl⟩
abbrev main_v319 : Ref sig .tc := ⟨.hbm, 415, rfl⟩
abbrev main_v320 : Ref sig .tc := ⟨.hbm, 416, rfl⟩
abbrev main_v321 : Ref sig .tc := ⟨.hbm, 417, rfl⟩
abbrev main_v322 : Ref sig .tc := ⟨.hbm, 418, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg2_1 : Ref sig .tc := ⟨.vmem, 22, rfl⟩
abbrev cc2_stg3_0 : Ref sig .tc := ⟨.vmem, 23, rfl⟩
abbrev cc2_stg4_0 : Ref sig .tc := ⟨.vmem, 24, rfl⟩
abbrev cc3_stg0_0 : Ref sig .tc := ⟨.vmem, 25, rfl⟩
abbrev cc3_stg0_1 : Ref sig .tc := ⟨.vmem, 26, rfl⟩
abbrev cc3_stg1_0 : Ref sig .tc := ⟨.vmem, 27, rfl⟩
abbrev cc3_stg2_0 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg5_0 : Ref sig .tc := ⟨.vmem, 31, rfl⟩
abbrev cc3_stg5_1 : Ref sig .tc := ⟨.vmem, 32, rfl⟩
abbrev cc4_stg0_0 : Ref sig .tc := ⟨.vmem, 33, rfl⟩
abbrev cc4_stg0_1 : Ref sig .tc := ⟨.vmem, 34, rfl⟩
abbrev cc4_stg1_0 : Ref sig .tc := ⟨.vmem, 35, rfl⟩
abbrev cc4_stg1_1 : Ref sig .tc := ⟨.vmem, 36, rfl⟩
abbrev cc4_stg2_0 : Ref sig .tc := ⟨.vmem, 37, rfl⟩
abbrev cc4_stg3_0 : Ref sig .tc := ⟨.vmem, 38, rfl⟩
abbrev cc4_stg4_0 : Ref sig .tc := ⟨.vmem, 39, rfl⟩
abbrev cc4_stg4_1 : Ref sig .tc := ⟨.vmem, 40, rfl⟩
abbrev cc4_stg5_0 : Ref sig .tc := ⟨.vmem, 41, rfl⟩
abbrev cc4_stg6_0 : Ref sig .tc := ⟨.vmem, 42, rfl⟩
abbrev cc5_stg0_0 : Ref sig .tc := ⟨.vmem, 43, rfl⟩
abbrev cc5_stg0_1 : Ref sig .tc := ⟨.vmem, 44, rfl⟩
abbrev cc5_stg1_0 : Ref sig .tc := ⟨.vmem, 45, rfl⟩
abbrev cc5_stg2_0 : Ref sig .tc := ⟨.vmem, 46, rfl⟩
abbrev cc5_stg3_0 : Ref sig .tc := ⟨.vmem, 47, rfl⟩
abbrev cc5_stg4_0 : Ref sig .tc := ⟨.vmem, 48, rfl⟩
abbrev cc5_stg5_0 : Ref sig .tc := ⟨.vmem, 49, rfl⟩
abbrev cc5_stg5_1 : Ref sig .tc := ⟨.vmem, 50, rfl⟩
abbrev cc6_stg0_0 : Ref sig .tc := ⟨.vmem, 51, rfl⟩
abbrev cc6_stg0_1 : Ref sig .tc := ⟨.vmem, 52, rfl⟩
abbrev cc6_stg1_0 : Ref sig .tc := ⟨.vmem, 53, rfl⟩
abbrev cc6_stg2_0 : Ref sig .tc := ⟨.vmem, 54, rfl⟩
abbrev cc6_stg2_1 : Ref sig .tc := ⟨.vmem, 55, rfl⟩
abbrev cc6_stg3_0 : Ref sig .tc := ⟨.vmem, 56, rfl⟩
abbrev cc6_stg4_0 : Ref sig .tc := ⟨.vmem, 57, rfl⟩
abbrev cc7_stg0_0 : Ref sig .tc := ⟨.vmem, 58, rfl⟩
abbrev cc7_stg0_1 : Ref sig .tc := ⟨.vmem, 59, rfl⟩
abbrev cc7_stg1_0 : Ref sig .tc := ⟨.vmem, 60, rfl⟩
abbrev cc7_stg2_0 : Ref sig .tc := ⟨.vmem, 61, rfl⟩
abbrev cc7_stg3_0 : Ref sig .tc := ⟨.vmem, 62, rfl⟩
abbrev cc7_stg4_0 : Ref sig .tc := ⟨.vmem, 63, rfl⟩
abbrev cc7_stg5_0 : Ref sig .tc := ⟨.vmem, 64, rfl⟩
abbrev cc7_stg5_1 : Ref sig .tc := ⟨.vmem, 65, rfl⟩
abbrev cc8_stg0_0 : Ref sig .tc := ⟨.vmem, 66, rfl⟩
abbrev cc8_stg0_1 : Ref sig .tc := ⟨.vmem, 67, rfl⟩
abbrev cc8_stg1_0 : Ref sig .tc := ⟨.vmem, 68, rfl⟩
abbrev cc8_stg1_1 : Ref sig .tc := ⟨.vmem, 69, rfl⟩
abbrev cc8_stg2_0 : Ref sig .tc := ⟨.vmem, 70, rfl⟩
abbrev cc8_stg3_0 : Ref sig .tc := ⟨.vmem, 71, rfl⟩
abbrev cc8_stg4_0 : Ref sig .tc := ⟨.vmem, 72, rfl⟩
abbrev cc8_stg4_1 : Ref sig .tc := ⟨.vmem, 73, rfl⟩
abbrev cc8_stg5_0 : Ref sig .tc := ⟨.vmem, 74, rfl⟩
abbrev cc8_stg6_0 : Ref sig .tc := ⟨.vmem, 75, rfl⟩
abbrev cc9_stg0_0 : Ref sig .tc := ⟨.vmem, 76, rfl⟩
abbrev cc9_stg0_1 : Ref sig .tc := ⟨.vmem, 77, rfl⟩
abbrev cc9_stg1_0 : Ref sig .tc := ⟨.vmem, 78, rfl⟩
abbrev cc9_stg2_0 : Ref sig .tc := ⟨.vmem, 79, rfl⟩
abbrev cc9_stg3_0 : Ref sig .tc := ⟨.vmem, 80, rfl⟩
abbrev cc9_stg4_0 : Ref sig .tc := ⟨.vmem, 81, rfl⟩
abbrev cc9_stg5_0 : Ref sig .tc := ⟨.vmem, 82, rfl⟩
abbrev cc9_stg5_1 : Ref sig .tc := ⟨.vmem, 83, rfl⟩
abbrev cc10_stg0_0 : Ref sig .tc := ⟨.vmem, 84, rfl⟩
abbrev cc10_stg0_1 : Ref sig .tc := ⟨.vmem, 85, rfl⟩
abbrev cc10_stg1_0 : Ref sig .tc := ⟨.vmem, 86, rfl⟩
abbrev cc10_stg2_0 : Ref sig .tc := ⟨.vmem, 87, rfl⟩
abbrev cc10_stg2_1 : Ref sig .tc := ⟨.vmem, 88, rfl⟩
abbrev cc10_stg3_0 : Ref sig .tc := ⟨.vmem, 89, rfl⟩
abbrev cc10_stg4_0 : Ref sig .tc := ⟨.vmem, 90, rfl⟩
abbrev cc11_stg0_0 : Ref sig .tc := ⟨.vmem, 91, rfl⟩
abbrev cc11_stg0_1 : Ref sig .tc := ⟨.vmem, 92, rfl⟩
abbrev cc11_stg1_0 : Ref sig .tc := ⟨.vmem, 93, rfl⟩
abbrev cc11_stg2_0 : Ref sig .tc := ⟨.vmem, 94, rfl⟩
abbrev cc11_stg3_0 : Ref sig .tc := ⟨.vmem, 95, rfl⟩
abbrev cc11_stg4_0 : Ref sig .tc := ⟨.vmem, 96, rfl⟩
abbrev cc11_stg5_0 : Ref sig .tc := ⟨.vmem, 97, rfl⟩
abbrev cc11_stg5_1 : Ref sig .tc := ⟨.vmem, 98, rfl⟩
abbrev cc12_stg0_0 : Ref sig .tc := ⟨.vmem, 99, rfl⟩
abbrev cc12_stg0_1 : Ref sig .tc := ⟨.vmem, 100, rfl⟩
abbrev cc12_stg1_0 : Ref sig .tc := ⟨.vmem, 101, rfl⟩
abbrev cc12_stg1_1 : Ref sig .tc := ⟨.vmem, 102, rfl⟩
abbrev cc12_stg2_0 : Ref sig .tc := ⟨.vmem, 103, rfl⟩
abbrev cc12_stg3_0 : Ref sig .tc := ⟨.vmem, 104, rfl⟩
abbrev cc12_stg4_0 : Ref sig .tc := ⟨.vmem, 105, rfl⟩
abbrev cc12_stg4_1 : Ref sig .tc := ⟨.vmem, 106, rfl⟩
abbrev cc12_stg5_0 : Ref sig .tc := ⟨.vmem, 107, rfl⟩
abbrev cc12_stg6_0 : Ref sig .tc := ⟨.vmem, 108, rfl⟩
abbrev cc13_stg0_0 : Ref sig .tc := ⟨.vmem, 109, rfl⟩
abbrev cc13_stg0_1 : Ref sig .tc := ⟨.vmem, 110, rfl⟩
abbrev cc13_stg1_0 : Ref sig .tc := ⟨.vmem, 111, rfl⟩
abbrev cc13_stg2_0 : Ref sig .tc := ⟨.vmem, 112, rfl⟩
abbrev cc13_stg3_0 : Ref sig .tc := ⟨.vmem, 113, rfl⟩
abbrev cc13_stg4_0 : Ref sig .tc := ⟨.vmem, 114, rfl⟩
abbrev cc13_stg5_0 : Ref sig .tc := ⟨.vmem, 115, rfl⟩
abbrev cc13_stg5_1 : Ref sig .tc := ⟨.vmem, 116, rfl⟩
abbrev cc14_stg0_0 : Ref sig .tc := ⟨.vmem, 117, rfl⟩
abbrev cc14_stg0_1 : Ref sig .tc := ⟨.vmem, 118, rfl⟩
abbrev cc14_stg1_0 : Ref sig .tc := ⟨.vmem, 119, rfl⟩
abbrev cc14_stg2_0 : Ref sig .tc := ⟨.vmem, 120, rfl⟩
abbrev cc14_stg2_1 : Ref sig .tc := ⟨.vmem, 121, rfl⟩
abbrev cc14_stg3_0 : Ref sig .tc := ⟨.vmem, 122, rfl⟩
abbrev cc14_stg4_0 : Ref sig .tc := ⟨.vmem, 123, rfl⟩
abbrev cc15_stg0_0 : Ref sig .tc := ⟨.vmem, 124, rfl⟩
abbrev cc15_stg0_1 : Ref sig .tc := ⟨.vmem, 125, rfl⟩
abbrev cc15_stg1_0 : Ref sig .tc := ⟨.vmem, 126, rfl⟩
abbrev cc15_stg2_0 : Ref sig .tc := ⟨.vmem, 127, rfl⟩
abbrev cc15_stg3_0 : Ref sig .tc := ⟨.vmem, 128, rfl⟩
abbrev cc15_stg4_0 : Ref sig .tc := ⟨.vmem, 129, rfl⟩
abbrev cc15_stg5_0 : Ref sig .tc := ⟨.vmem, 130, rfl⟩
abbrev cc15_stg5_1 : Ref sig .tc := ⟨.vmem, 131, rfl⟩
abbrev cc16_stg0_0 : Ref sig .tc := ⟨.vmem, 132, rfl⟩
abbrev cc16_stg0_1 : Ref sig .tc := ⟨.vmem, 133, rfl⟩
abbrev cc16_stg1_0 : Ref sig .tc := ⟨.vmem, 134, rfl⟩
abbrev cc16_stg1_1 : Ref sig .tc := ⟨.vmem, 135, rfl⟩
abbrev cc16_stg2_0 : Ref sig .tc := ⟨.vmem, 136, rfl⟩
abbrev cc16_stg3_0 : Ref sig .tc := ⟨.vmem, 137, rfl⟩
abbrev cc16_stg4_0 : Ref sig .tc := ⟨.vmem, 138, rfl⟩
abbrev cc16_stg4_1 : Ref sig .tc := ⟨.vmem, 139, rfl⟩
abbrev cc16_stg5_0 : Ref sig .tc := ⟨.vmem, 140, rfl⟩
abbrev cc16_stg6_0 : Ref sig .tc := ⟨.vmem, 141, rfl⟩
abbrev cc17_stg0_0 : Ref sig .tc := ⟨.vmem, 142, rfl⟩
abbrev cc17_stg0_1 : Ref sig .tc := ⟨.vmem, 143, rfl⟩
abbrev cc17_stg1_0 : Ref sig .tc := ⟨.vmem, 144, rfl⟩
abbrev cc17_stg2_0 : Ref sig .tc := ⟨.vmem, 145, rfl⟩
abbrev cc17_stg3_0 : Ref sig .tc := ⟨.vmem, 146, rfl⟩
abbrev cc17_stg4_0 : Ref sig .tc := ⟨.vmem, 147, rfl⟩
abbrev cc17_stg5_0 : Ref sig .tc := ⟨.vmem, 148, rfl⟩
abbrev cc17_stg5_1 : Ref sig .tc := ⟨.vmem, 149, rfl⟩
abbrev cc18_stg0_0 : Ref sig .tc := ⟨.vmem, 150, rfl⟩
abbrev cc18_stg0_1 : Ref sig .tc := ⟨.vmem, 151, rfl⟩
abbrev cc18_stg1_0 : Ref sig .tc := ⟨.vmem, 152, rfl⟩
abbrev cc18_stg2_0 : Ref sig .tc := ⟨.vmem, 153, rfl⟩
abbrev cc18_stg2_1 : Ref sig .tc := ⟨.vmem, 154, rfl⟩
abbrev cc18_stg3_0 : Ref sig .tc := ⟨.vmem, 155, rfl⟩
abbrev cc18_stg4_0 : Ref sig .tc := ⟨.vmem, 156, rfl⟩
abbrev cc19_stg0_0 : Ref sig .tc := ⟨.vmem, 157, rfl⟩
abbrev cc19_stg0_1 : Ref sig .tc := ⟨.vmem, 158, rfl⟩
abbrev cc19_stg1_0 : Ref sig .tc := ⟨.vmem, 159, rfl⟩
abbrev cc19_stg2_0 : Ref sig .tc := ⟨.vmem, 160, rfl⟩
abbrev cc19_stg3_0 : Ref sig .tc := ⟨.vmem, 161, rfl⟩
abbrev cc19_stg4_0 : Ref sig .tc := ⟨.vmem, 162, rfl⟩
abbrev cc19_stg5_0 : Ref sig .tc := ⟨.vmem, 163, rfl⟩
abbrev cc19_stg5_1 : Ref sig .tc := ⟨.vmem, 164, rfl⟩
abbrev cc20_stg0_0 : Ref sig .tc := ⟨.vmem, 165, rfl⟩
abbrev cc20_stg0_1 : Ref sig .tc := ⟨.vmem, 166, rfl⟩
abbrev cc20_stg1_0 : Ref sig .tc := ⟨.vmem, 167, rfl⟩
abbrev cc20_stg1_1 : Ref sig .tc := ⟨.vmem, 168, rfl⟩
abbrev cc20_stg2_0 : Ref sig .tc := ⟨.vmem, 169, rfl⟩
abbrev cc20_stg3_0 : Ref sig .tc := ⟨.vmem, 170, rfl⟩
abbrev cc20_stg4_0 : Ref sig .tc := ⟨.vmem, 171, rfl⟩
abbrev cc20_stg4_1 : Ref sig .tc := ⟨.vmem, 172, rfl⟩
abbrev cc20_stg5_0 : Ref sig .tc := ⟨.vmem, 173, rfl⟩
abbrev cc20_stg6_0 : Ref sig .tc := ⟨.vmem, 174, rfl⟩
abbrev cc21_stg0_0 : Ref sig .tc := ⟨.vmem, 175, rfl⟩
abbrev cc21_stg0_1 : Ref sig .tc := ⟨.vmem, 176, rfl⟩
abbrev cc21_stg1_0 : Ref sig .tc := ⟨.vmem, 177, rfl⟩
abbrev cc21_stg2_0 : Ref sig .tc := ⟨.vmem, 178, rfl⟩
abbrev cc21_stg3_0 : Ref sig .tc := ⟨.vmem, 179, rfl⟩
abbrev cc21_stg4_0 : Ref sig .tc := ⟨.vmem, 180, rfl⟩
abbrev cc21_stg5_0 : Ref sig .tc := ⟨.vmem, 181, rfl⟩
abbrev cc21_stg5_1 : Ref sig .tc := ⟨.vmem, 182, rfl⟩
abbrev cc22_stg0_0 : Ref sig .tc := ⟨.vmem, 183, rfl⟩
abbrev cc22_stg0_1 : Ref sig .tc := ⟨.vmem, 184, rfl⟩
abbrev cc22_stg1_0 : Ref sig .tc := ⟨.vmem, 185, rfl⟩
abbrev cc22_stg2_0 : Ref sig .tc := ⟨.vmem, 186, rfl⟩
abbrev cc22_stg2_1 : Ref sig .tc := ⟨.vmem, 187, rfl⟩
abbrev cc22_stg3_0 : Ref sig .tc := ⟨.vmem, 188, rfl⟩
abbrev cc22_stg4_0 : Ref sig .tc := ⟨.vmem, 189, rfl⟩
abbrev cc23_stg0_0 : Ref sig .tc := ⟨.vmem, 190, rfl⟩
abbrev cc23_stg0_1 : Ref sig .tc := ⟨.vmem, 191, rfl⟩
abbrev cc23_stg1_0 : Ref sig .tc := ⟨.vmem, 192, rfl⟩
abbrev cc23_stg2_0 : Ref sig .tc := ⟨.vmem, 193, rfl⟩
abbrev cc23_stg3_0 : Ref sig .tc := ⟨.vmem, 194, rfl⟩
abbrev cc23_stg4_0 : Ref sig .tc := ⟨.vmem, 195, rfl⟩
abbrev cc23_stg5_0 : Ref sig .tc := ⟨.vmem, 196, rfl⟩
abbrev cc23_stg5_1 : Ref sig .tc := ⟨.vmem, 197, rfl⟩
abbrev cc24_stg0_0 : Ref sig .tc := ⟨.vmem, 198, rfl⟩
abbrev cc24_stg0_1 : Ref sig .tc := ⟨.vmem, 199, rfl⟩
abbrev cc24_stg1_0 : Ref sig .tc := ⟨.vmem, 200, rfl⟩
abbrev cc24_stg1_1 : Ref sig .tc := ⟨.vmem, 201, rfl⟩
abbrev cc24_stg2_0 : Ref sig .tc := ⟨.vmem, 202, rfl⟩
abbrev cc24_stg3_0 : Ref sig .tc := ⟨.vmem, 203, rfl⟩
abbrev cc24_stg4_0 : Ref sig .tc := ⟨.vmem, 204, rfl⟩
abbrev cc24_stg4_1 : Ref sig .tc := ⟨.vmem, 205, rfl⟩
abbrev cc24_stg5_0 : Ref sig .tc := ⟨.vmem, 206, rfl⟩
abbrev cc24_stg6_0 : Ref sig .tc := ⟨.vmem, 207, rfl⟩
abbrev cc25_stg0_0 : Ref sig .tc := ⟨.vmem, 208, rfl⟩
abbrev cc25_stg0_1 : Ref sig .tc := ⟨.vmem, 209, rfl⟩
abbrev cc25_stg1_0 : Ref sig .tc := ⟨.vmem, 210, rfl⟩
abbrev cc25_stg2_0 : Ref sig .tc := ⟨.vmem, 211, rfl⟩
abbrev cc25_stg3_0 : Ref sig .tc := ⟨.vmem, 212, rfl⟩
abbrev cc25_stg4_0 : Ref sig .tc := ⟨.vmem, 213, rfl⟩
abbrev cc25_stg5_0 : Ref sig .tc := ⟨.vmem, 214, rfl⟩
abbrev cc25_stg5_1 : Ref sig .tc := ⟨.vmem, 215, rfl⟩
abbrev cc26_stg0_0 : Ref sig .tc := ⟨.vmem, 216, rfl⟩
abbrev cc26_stg0_1 : Ref sig .tc := ⟨.vmem, 217, rfl⟩
abbrev cc26_stg1_0 : Ref sig .tc := ⟨.vmem, 218, rfl⟩
abbrev cc26_stg2_0 : Ref sig .tc := ⟨.vmem, 219, rfl⟩
abbrev cc26_stg2_1 : Ref sig .tc := ⟨.vmem, 220, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem2_1 : DmaSem sig := 22
abbrev cc2_sem3_0 : DmaSem sig := 23
abbrev cc2_sem4_0 : DmaSem sig := 24
abbrev cc3_sem0_0 : DmaSem sig := 25
abbrev cc3_sem0_1 : DmaSem sig := 26
abbrev cc3_sem1_0 : DmaSem sig := 27
abbrev cc3_sem2_0 : DmaSem sig := 28
abbrev cc3_sem3_0 : DmaSem sig := 29
abbrev cc3_sem4_0 : DmaSem sig := 30
abbrev cc3_sem5_0 : DmaSem sig := 31
abbrev cc3_sem5_1 : DmaSem sig := 32
abbrev cc4_sem0_0 : DmaSem sig := 33
abbrev cc4_sem0_1 : DmaSem sig := 34
abbrev cc4_sem1_0 : DmaSem sig := 35
abbrev cc4_sem1_1 : DmaSem sig := 36
abbrev cc4_sem2_0 : DmaSem sig := 37
abbrev cc4_sem3_0 : DmaSem sig := 38
abbrev cc4_sem4_0 : DmaSem sig := 39
abbrev cc4_sem4_1 : DmaSem sig := 40
abbrev cc4_sem5_0 : DmaSem sig := 41
abbrev cc4_sem6_0 : DmaSem sig := 42
abbrev cc5_sem0_0 : DmaSem sig := 43
abbrev cc5_sem0_1 : DmaSem sig := 44
abbrev cc5_sem1_0 : DmaSem sig := 45
abbrev cc5_sem2_0 : DmaSem sig := 46
abbrev cc5_sem3_0 : DmaSem sig := 47
abbrev cc5_sem4_0 : DmaSem sig := 48
abbrev cc5_sem5_0 : DmaSem sig := 49
abbrev cc5_sem5_1 : DmaSem sig := 50
abbrev cc6_sem0_0 : DmaSem sig := 51
abbrev cc6_sem0_1 : DmaSem sig := 52
abbrev cc6_sem1_0 : DmaSem sig := 53
abbrev cc6_sem2_0 : DmaSem sig := 54
abbrev cc6_sem2_1 : DmaSem sig := 55
abbrev cc6_sem3_0 : DmaSem sig := 56
abbrev cc6_sem4_0 : DmaSem sig := 57
abbrev cc7_sem0_0 : DmaSem sig := 58
abbrev cc7_sem0_1 : DmaSem sig := 59
abbrev cc7_sem1_0 : DmaSem sig := 60
abbrev cc7_sem2_0 : DmaSem sig := 61
abbrev cc7_sem3_0 : DmaSem sig := 62
abbrev cc7_sem4_0 : DmaSem sig := 63
abbrev cc7_sem5_0 : DmaSem sig := 64
abbrev cc7_sem5_1 : DmaSem sig := 65
abbrev cc8_sem0_0 : DmaSem sig := 66
abbrev cc8_sem0_1 : DmaSem sig := 67
abbrev cc8_sem1_0 : DmaSem sig := 68
abbrev cc8_sem1_1 : DmaSem sig := 69
abbrev cc8_sem2_0 : DmaSem sig := 70
abbrev cc8_sem3_0 : DmaSem sig := 71
abbrev cc8_sem4_0 : DmaSem sig := 72
abbrev cc8_sem4_1 : DmaSem sig := 73
abbrev cc8_sem5_0 : DmaSem sig := 74
abbrev cc8_sem6_0 : DmaSem sig := 75
abbrev cc9_sem0_0 : DmaSem sig := 76
abbrev cc9_sem0_1 : DmaSem sig := 77
abbrev cc9_sem1_0 : DmaSem sig := 78
abbrev cc9_sem2_0 : DmaSem sig := 79
abbrev cc9_sem3_0 : DmaSem sig := 80
abbrev cc9_sem4_0 : DmaSem sig := 81
abbrev cc9_sem5_0 : DmaSem sig := 82
abbrev cc9_sem5_1 : DmaSem sig := 83
abbrev cc10_sem0_0 : DmaSem sig := 84
abbrev cc10_sem0_1 : DmaSem sig := 85
abbrev cc10_sem1_0 : DmaSem sig := 86
abbrev cc10_sem2_0 : DmaSem sig := 87
abbrev cc10_sem2_1 : DmaSem sig := 88
abbrev cc10_sem3_0 : DmaSem sig := 89
abbrev cc10_sem4_0 : DmaSem sig := 90
abbrev cc11_sem0_0 : DmaSem sig := 91
abbrev cc11_sem0_1 : DmaSem sig := 92
abbrev cc11_sem1_0 : DmaSem sig := 93
abbrev cc11_sem2_0 : DmaSem sig := 94
abbrev cc11_sem3_0 : DmaSem sig := 95
abbrev cc11_sem4_0 : DmaSem sig := 96
abbrev cc11_sem5_0 : DmaSem sig := 97
abbrev cc11_sem5_1 : DmaSem sig := 98
abbrev cc12_sem0_0 : DmaSem sig := 99
abbrev cc12_sem0_1 : DmaSem sig := 100
abbrev cc12_sem1_0 : DmaSem sig := 101
abbrev cc12_sem1_1 : DmaSem sig := 102
abbrev cc12_sem2_0 : DmaSem sig := 103
abbrev cc12_sem3_0 : DmaSem sig := 104
abbrev cc12_sem4_0 : DmaSem sig := 105
abbrev cc12_sem4_1 : DmaSem sig := 106
abbrev cc12_sem5_0 : DmaSem sig := 107
abbrev cc12_sem6_0 : DmaSem sig := 108
abbrev cc13_sem0_0 : DmaSem sig := 109
abbrev cc13_sem0_1 : DmaSem sig := 110
abbrev cc13_sem1_0 : DmaSem sig := 111
abbrev cc13_sem2_0 : DmaSem sig := 112
abbrev cc13_sem3_0 : DmaSem sig := 113
abbrev cc13_sem4_0 : DmaSem sig := 114
abbrev cc13_sem5_0 : DmaSem sig := 115
abbrev cc13_sem5_1 : DmaSem sig := 116
abbrev cc14_sem0_0 : DmaSem sig := 117
abbrev cc14_sem0_1 : DmaSem sig := 118
abbrev cc14_sem1_0 : DmaSem sig := 119
abbrev cc14_sem2_0 : DmaSem sig := 120
abbrev cc14_sem2_1 : DmaSem sig := 121
abbrev cc14_sem3_0 : DmaSem sig := 122
abbrev cc14_sem4_0 : DmaSem sig := 123
abbrev cc15_sem0_0 : DmaSem sig := 124
abbrev cc15_sem0_1 : DmaSem sig := 125
abbrev cc15_sem1_0 : DmaSem sig := 126
abbrev cc15_sem2_0 : DmaSem sig := 127
abbrev cc15_sem3_0 : DmaSem sig := 128
abbrev cc15_sem4_0 : DmaSem sig := 129
abbrev cc15_sem5_0 : DmaSem sig := 130
abbrev cc15_sem5_1 : DmaSem sig := 131
abbrev cc16_sem0_0 : DmaSem sig := 132
abbrev cc16_sem0_1 : DmaSem sig := 133
abbrev cc16_sem1_0 : DmaSem sig := 134
abbrev cc16_sem1_1 : DmaSem sig := 135
abbrev cc16_sem2_0 : DmaSem sig := 136
abbrev cc16_sem3_0 : DmaSem sig := 137
abbrev cc16_sem4_0 : DmaSem sig := 138
abbrev cc16_sem4_1 : DmaSem sig := 139
abbrev cc16_sem5_0 : DmaSem sig := 140
abbrev cc16_sem6_0 : DmaSem sig := 141
abbrev cc17_sem0_0 : DmaSem sig := 142
abbrev cc17_sem0_1 : DmaSem sig := 143
abbrev cc17_sem1_0 : DmaSem sig := 144
abbrev cc17_sem2_0 : DmaSem sig := 145
abbrev cc17_sem3_0 : DmaSem sig := 146
abbrev cc17_sem4_0 : DmaSem sig := 147
abbrev cc17_sem5_0 : DmaSem sig := 148
abbrev cc17_sem5_1 : DmaSem sig := 149
abbrev cc18_sem0_0 : DmaSem sig := 150
abbrev cc18_sem0_1 : DmaSem sig := 151
abbrev cc18_sem1_0 : DmaSem sig := 152
abbrev cc18_sem2_0 : DmaSem sig := 153
abbrev cc18_sem2_1 : DmaSem sig := 154
abbrev cc18_sem3_0 : DmaSem sig := 155
abbrev cc18_sem4_0 : DmaSem sig := 156
abbrev cc19_sem0_0 : DmaSem sig := 157
abbrev cc19_sem0_1 : DmaSem sig := 158
abbrev cc19_sem1_0 : DmaSem sig := 159
abbrev cc19_sem2_0 : DmaSem sig := 160
abbrev cc19_sem3_0 : DmaSem sig := 161
abbrev cc19_sem4_0 : DmaSem sig := 162
abbrev cc19_sem5_0 : DmaSem sig := 163
abbrev cc19_sem5_1 : DmaSem sig := 164
abbrev cc20_sem0_0 : DmaSem sig := 165
abbrev cc20_sem0_1 : DmaSem sig := 166
abbrev cc20_sem1_0 : DmaSem sig := 167
abbrev cc20_sem1_1 : DmaSem sig := 168
abbrev cc20_sem2_0 : DmaSem sig := 169
abbrev cc20_sem3_0 : DmaSem sig := 170
abbrev cc20_sem4_0 : DmaSem sig := 171
abbrev cc20_sem4_1 : DmaSem sig := 172
abbrev cc20_sem5_0 : DmaSem sig := 173
abbrev cc20_sem6_0 : DmaSem sig := 174
abbrev cc21_sem0_0 : DmaSem sig := 175
abbrev cc21_sem0_1 : DmaSem sig := 176
abbrev cc21_sem1_0 : DmaSem sig := 177
abbrev cc21_sem2_0 : DmaSem sig := 178
abbrev cc21_sem3_0 : DmaSem sig := 179
abbrev cc21_sem4_0 : DmaSem sig := 180
abbrev cc21_sem5_0 : DmaSem sig := 181
abbrev cc21_sem5_1 : DmaSem sig := 182
abbrev cc22_sem0_0 : DmaSem sig := 183
abbrev cc22_sem0_1 : DmaSem sig := 184
abbrev cc22_sem1_0 : DmaSem sig := 185
abbrev cc22_sem2_0 : DmaSem sig := 186
abbrev cc22_sem2_1 : DmaSem sig := 187
abbrev cc22_sem3_0 : DmaSem sig := 188
abbrev cc22_sem4_0 : DmaSem sig := 189
abbrev cc23_sem0_0 : DmaSem sig := 190
abbrev cc23_sem0_1 : DmaSem sig := 191
abbrev cc23_sem1_0 : DmaSem sig := 192
abbrev cc23_sem2_0 : DmaSem sig := 193
abbrev cc23_sem3_0 : DmaSem sig := 194
abbrev cc23_sem4_0 : DmaSem sig := 195
abbrev cc23_sem5_0 : DmaSem sig := 196
abbrev cc23_sem5_1 : DmaSem sig := 197
abbrev cc24_sem0_0 : DmaSem sig := 198
abbrev cc24_sem0_1 : DmaSem sig := 199
abbrev cc24_sem1_0 : DmaSem sig := 200
abbrev cc24_sem1_1 : DmaSem sig := 201
abbrev cc24_sem2_0 : DmaSem sig := 202
abbrev cc24_sem3_0 : DmaSem sig := 203
abbrev cc24_sem4_0 : DmaSem sig := 204
abbrev cc24_sem4_1 : DmaSem sig := 205
abbrev cc24_sem5_0 : DmaSem sig := 206
abbrev cc24_sem6_0 : DmaSem sig := 207
abbrev cc25_sem0_0 : DmaSem sig := 208
abbrev cc25_sem0_1 : DmaSem sig := 209
abbrev cc25_sem1_0 : DmaSem sig := 210
abbrev cc25_sem2_0 : DmaSem sig := 211
abbrev cc25_sem3_0 : DmaSem sig := 212
abbrev cc25_sem4_0 : DmaSem sig := 213
abbrev cc25_sem5_0 : DmaSem sig := 214
abbrev cc25_sem5_1 : DmaSem sig := 215
abbrev cc26_sem0_0 : DmaSem sig := 216
abbrev cc26_sem0_1 : DmaSem sig := 217
abbrev cc26_sem1_0 : DmaSem sig := 218
abbrev cc26_sem2_0 : DmaSem sig := 219
abbrev cc26_sem2_1 : DmaSem sig := 220

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S1x1 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S5000x64 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 1 → Memref sig .tc .vmem S1x64 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x64 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x64 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S5000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S64x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S5000x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 1 → Memref sig .tc .vmem S1x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x128 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 2 → Memref sig .tc .vmem S5000x128 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_5 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_6 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage8_0 : Fin 2 → Memref sig .tc .vmem S5000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S5000x128 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 1 → Memref sig .tc .vmem S1x1 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S128x64 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 2 → Memref sig .tc .vmem S5000x64 .f32 := fun | 0 => Memref.whole cc8_stg4_0 | 1 => Memref.whole cc8_stg4_1 | ⟨_ + 2, h⟩ => absurd h (Nat.not_lt.2 (Nat.le_add_left _ _))
abbrev sem8_4 : Fin 2 → DmaSem sig := fun | 0 => cc8_sem4_0 | 1 => cc8_sem4_1 | ⟨_ + 2, h⟩ => absurd h (Nat.not_lt.2 (Nat.le_add_left _ _))
abbrev reads8_4 : Fin grid8.rank → Bool := ![true]

abbrev stage8_5 : Fin 1 → Memref sig .tc .vmem S1x64 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![false]

abbrev stage8_6 : Fin 1 → Memref sig .tc .vmem S1x64 .f32 := fun | 0 => Memref.whole cc8_stg6_0 | ⟨_ + 1, h⟩ => absurd h (Nat.not_lt.2 (Nat.le_add_left _ _))
abbrev sem8_6 : Fin 1 → DmaSem sig := fun | 0 => cc8_sem6_0 | ⟨_ + 1, h⟩ => absurd h (Nat.not_lt.2 (Nat.le_add_left _ _))
abbrev reads8_6 : Fin grid8.rank → Bool := ![false]

abbrev grid9 : Pipeline.Grid := ⟨1, ![10], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S5000x64 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S1x64 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x64 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S1x64 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S1x64 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 2 → Memref sig .tc .vmem S5000x64 .f32 := fun | 0 => Memref.whole cc9_stg5_0 | 1 => Memref.whole cc9_stg5_1 | ⟨_ + 2, h⟩ => absurd h (Nat.not_lt.2 (Nat.le_add_left _ _))
abbrev sem9_5 : Fin 2 → DmaSem sig := fun | 0 => cc9_sem5_0 | 1 => cc9_sem5_1 | ⟨_ + 2, h⟩ => absurd h (Nat.not_lt.2 (Nat.le_add_left _ _))
abbrev reads9_5 : Fin grid9.rank → Bool := ![true]

abbrev grid10 : Pipeline.Grid := ⟨1, ![10], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_4 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage10_0 : Fin 2 → Memref sig .tc .vmem S5000x64 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S64x128 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 2 → Memref sig .tc .vmem S5000x128 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true]

abbrev stage10_3 : Fin 1 → Memref sig .tc .vmem S1x128 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 1 → Memref sig .tc .vmem S1x128 .f32 := fun | 0 => Memref.whole cc10_stg4_0 | ⟨_ + 1, h⟩ => absurd h (Nat.not_lt.2 (Nat.le_add_left _ _))
abbrev sem10_4 : Fin 1 → DmaSem sig := fun | 0 => cc10_sem4_0 | ⟨_ + 1, h⟩ => absurd h (Nat.not_lt.2 (Nat.le_add_left _ _))
abbrev reads10_4 : Fin grid10.rank → Bool := ![false]

abbrev grid11 : Pipeline.Grid := ⟨1, ![10], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_4 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_5 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S5000x128 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S1x128 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 1 → Memref sig .tc .vmem S1x128 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 1 → Memref sig .tc .vmem S1x128 .f32 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![false]

abbrev stage11_4 : Fin 1 → Memref sig .tc .vmem S1x128 .f32 := fun | 0 => Memref.whole cc11_stg4_0 | ⟨_ + 1, h⟩ => absurd h (Nat.not_lt.2 (Nat.le_add_left _ _))
abbrev sem11_4 : Fin 1 → DmaSem sig := fun | 0 => cc11_sem4_0 | ⟨_ + 1, h⟩ => absurd h (Nat.not_lt.2 (Nat.le_add_left _ _))
abbrev reads11_4 : Fin grid11.rank → Bool := ![false]

abbrev stage11_5 : Fin 2 → Memref sig .tc .vmem S5000x128 .f32 := fun | 0 => Memref.whole cc11_stg5_0 | 1 => Memref.whole cc11_stg5_1 | ⟨_ + 2, h⟩ => absurd h (Nat.not_lt.2 (Nat.le_add_left _ _))
abbrev sem11_5 : Fin 2 → DmaSem sig := fun | 0 => cc11_sem5_0 | 1 => cc11_sem5_1 | ⟨_ + 2, h⟩ => absurd h (Nat.not_lt.2 (Nat.le_add_left _ _))
abbrev reads11_5 : Fin grid11.rank → Bool := ![true]

abbrev grid12 : Pipeline.Grid := ⟨1, ![10], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_2 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_3 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_4 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_5 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_6 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage12_0 : Fin 2 → Memref sig .tc .vmem S5000x128 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 2 → Memref sig .tc .vmem S5000x128 .f32 := fun | 0 => Memref.whole cc12_stg1_0 | 1 => Memref.whole cc12_stg1_1 | ⟨_ + 2, h⟩ => absurd h (Nat.not_lt.2 (Nat.le_add_left _ _))
abbrev sem12_1 : Fin 2 → DmaSem sig := fun | 0 => cc12_sem1_0 | 1 => cc12_sem1_1 | ⟨_ + 2, h⟩ => absurd h (Nat.not_lt.2 (Nat.le_add_left _ _))
abbrev reads12_1 : Fin grid12.rank → Bool := ![true]

abbrev stage12_2 : Fin 1 → Memref sig .tc .vmem S1x1 .f32 := fun | 0 => Memref.whole cc12_stg2_0 | ⟨_ + 1, h⟩ => absurd h (Nat.not_lt.2 (Nat.le_add_left _ _))
abbrev sem12_2 : Fin 1 → DmaSem sig := fun | 0 => cc12_sem2_0 | ⟨_ + 1, h⟩ => absurd h (Nat.not_lt.2 (Nat.le_add_left _ _))
abbrev reads12_2 : Fin grid12.rank → Bool := ![false]

abbrev stage12_3 : Fin 1 → Memref sig .tc .vmem S128x64 .f32 := fun | 0 => Memref.whole cc12_stg3_0 | ⟨_ + 1, h⟩ => absurd h (Nat.not_lt.2 (Nat.le_add_left _ _))
abbrev sem12_3 : Fin 1 → DmaSem sig := fun | 0 => cc12_sem3_0 | ⟨_ + 1, h⟩ => absurd h (Nat.not_lt.2 (Nat.le_add_left _ _))
abbrev reads12_3 : Fin grid12.rank → Bool := ![false]

abbrev stage12_4 : Fin 2 → Memref sig .tc .vmem S5000x64 .f32 := fun | 0 => Memref.whole cc12_stg4_0 | 1 => Memref.whole cc12_stg4_1 | ⟨_ + 2, h⟩ => absurd h (Nat.not_lt.2 (Nat.le_add_left _ _))
abbrev sem12_4 : Fin 2 → DmaSem sig := fun | 0 => cc12_sem4_0 | 1 => cc12_sem4_1 | ⟨_ + 2, h⟩ => absurd h (Nat.not_lt.2 (Nat.le_add_left _ _))
abbrev reads12_4 : Fin grid12.rank → Bool := ![true]

abbrev stage12_5 : Fin 1 → Memref sig .tc .vmem S1x64 .f32 := fun | 0 => Memref.whole cc12_stg5_0 | ⟨_ + 1, h⟩ => absurd h (Nat.not_lt.2 (Nat.le_add_left _ _))
abbrev sem12_5 : Fin 1 → DmaSem sig := fun | 0 => cc12_sem5_0 | ⟨_ + 1, h⟩ => absurd h (Nat.not_lt.2 (Nat.le_add_left _ _))
abbrev reads12_5 : Fin grid12.rank → Bool := ![false]

abbrev stage12_6 : Fin 1 → Memref sig .tc .vmem S1x64 .f32 := fun | 0 => Memref.whole cc12_stg6_0 | ⟨_ + 1, h⟩ => absurd h (Nat.not_lt.2 (Nat.le_add_left _ _))
abbrev sem12_6 : Fin 1 → DmaSem sig := fun | 0 => cc12_sem6_0 | ⟨_ + 1, h⟩ => absurd h (Nat.not_lt.2 (Nat.le_add_left _ _))
abbrev reads12_6 : Fin grid12.rank → Bool := ![false]

abbrev grid13 : Pipeline.Grid := ⟨1, ![10], ![false]⟩

def cc13_transform_0 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_1 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_2 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_3 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_4 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_5 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage13_0 : Fin 2 → Memref sig .tc .vmem S5000x64 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 1 → Memref sig .tc .vmem S1x64 .f32 := fun | 0 => Memref.whole cc13_stg1_0 | ⟨_ + 1, h⟩ => absurd h (Nat.not_lt.2 (Nat.le_add_left _ _))
abbrev sem13_1 : Fin 1 → DmaSem sig := fun | 0 => cc13_sem1_0 | ⟨_ + 1, h⟩ => absurd h (Nat.not_lt.2 (Nat.le_add_left _ _))
abbrev reads13_1 : Fin grid13.rank → Bool := ![false]

abbrev stage13_2 : Fin 1 → Memref sig .tc .vmem S1x64 .f32 := fun | 0 => Memref.whole cc13_stg2_0 | ⟨_ + 1, h⟩ => absurd h (Nat.not_lt.2 (Nat.le_add_left _ _))
abbrev sem13_2 : Fin 1 → DmaSem sig := fun | 0 => cc13_sem2_0 | ⟨_ + 1, h⟩ => absurd h (Nat.not_lt.2 (Nat.le_add_left _ _))
abbrev reads13_2 : Fin grid13.rank → Bool := ![false]

abbrev stage13_3 : Fin 1 → Memref sig .tc .vmem S1x64 .f32 := fun | 0 => Memref.whole cc13_stg3_0 | ⟨_ + 1, h⟩ => absurd h (Nat.not_lt.2 (Nat.le_add_left _ _))
abbrev sem13_3 : Fin 1 → DmaSem sig := fun | 0 => cc13_sem3_0 | ⟨_ + 1, h⟩ => absurd h (Nat.not_lt.2 (Nat.le_add_left _ _))
abbrev reads13_3 : Fin grid13.rank → Bool := ![false]

abbrev stage13_4 : Fin 1 → Memref sig .tc .vmem S1x64 .f32 := fun | 0 => Memref.whole cc13_stg4_0 | ⟨_ + 1, h⟩ => absurd h (Nat.not_lt.2 (Nat.le_add_left _ _))
abbrev sem13_4 : Fin 1 → DmaSem sig := fun | 0 => cc13_sem4_0 | ⟨_ + 1, h⟩ => absurd h (Nat.not_lt.2 (Nat.le_add_left _ _))
abbrev reads13_4 : Fin grid13.rank → Bool := ![false]

abbrev stage13_5 : Fin 2 → Memref sig .tc .vmem S5000x64 .f32 := fun | 0 => Memref.whole cc13_stg5_0 | 1 => Memref.whole cc13_stg5_1 | ⟨_ + 2, h⟩ => absurd h (Nat.not_lt.2 (Nat.le_add_left _ _))
abbrev sem13_5 : Fin 2 → DmaSem sig := fun | 0 => cc13_sem5_0 | 1 => cc13_sem5_1 | ⟨_ + 2, h⟩ => absurd h (Nat.not_lt.2 (Nat.le_add_left _ _))
abbrev reads13_5 : Fin grid13.rank → Bool := ![true]

abbrev grid14 : Pipeline.Grid := ⟨1, ![10], ![false]⟩

def cc14_transform_0 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_1 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_2 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_3 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_4 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage14_0 : Fin 2 → Memref sig .tc .vmem S5000x64 .f32 := fun | 0 => Memref.whole cc14_stg0_0 | 1 => Memref.whole cc14_stg0_1 | ⟨_ + 2, h⟩ => absurd h (Nat.not_lt.2 (Nat.le_add_left _ _))
abbrev sem14_0 : Fin 2 → DmaSem sig := fun | 0 => cc14_sem0_0 | 1 => cc14_sem0_1 | ⟨_ + 2, h⟩ => absurd h (Nat.not_lt.2 (Nat.le_add_left _ _))
abbrev reads14_0 : Fin grid14.rank → Bool := ![true]

abbrev stage14_1 : Fin 1 → Memref sig .tc .vmem S64x128 .f32 := fun | 0 => Memref.whole cc14_stg1_0 | ⟨_ + 1, h⟩ => absurd h (Nat.not_lt.2 (Nat.le_add_left _ _))
abbrev sem14_1 : Fin 1 → DmaSem sig := fun | 0 => cc14_sem1_0 | ⟨_ + 1, h⟩ => absurd h (Nat.not_lt.2 (Nat.le_add_left _ _))
abbrev reads14_1 : Fin grid14.rank → Bool := ![false]

abbrev stage14_2 : Fin 2 → Memref sig .tc .vmem S5000x128 .f32 := fun | 0 => Memref.whole cc14_stg2_0 | 1 => Memref.whole cc14_stg2_1 | ⟨_ + 2, h⟩ => absurd h (Nat.not_lt.2 (Nat.le_add_left _ _))
abbrev sem14_2 : Fin 2 → DmaSem sig := fun | 0 => cc14_sem2_0 | 1 => cc14_sem2_1 | ⟨_ + 2, h⟩ => absurd h (Nat.not_lt.2 (Nat.le_add_left _ _))
abbrev reads14_2 : Fin grid14.rank → Bool := ![true]

abbrev stage14_3 : Fin 1 → Memref sig .tc .vmem S1x128 .f32 := fun | 0 => Memref.whole cc14_stg3_0 | ⟨_ + 1, h⟩ => absurd h (Nat.not_lt.2 (Nat.le_add_left _ _))
abbrev sem14_3 : Fin 1 → DmaSem sig := fun | 0 => cc14_sem3_0 | ⟨_ + 1, h⟩ => absurd h (Nat.not_lt.2 (Nat.le_add_left _ _))
abbrev reads14_3 : Fin grid14.rank → Bool := ![false]

abbrev stage14_4 : Fin 1 → Memref sig .tc .vmem S1x128 .f32 := fun | 0 => Memref.whole cc14_stg4_0 | ⟨_ + 1, h⟩ => absurd h (Nat.not_lt.2 (Nat.le_add_left _ _))
abbrev sem14_4 : Fin 1 → DmaSem sig := fun | 0 => cc14_sem4_0 | ⟨_ + 1, h⟩ => absurd h (Nat.not_lt.2 (Nat.le_add_left _ _))
abbrev reads14_4 : Fin grid14.rank → Bool := ![false]

abbrev grid15 : Pipeline.Grid := ⟨1, ![10], ![false]⟩

def cc15_transform_0 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_1 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_2 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_3 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_4 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_5 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage15_0 : Fin 2 → Memref sig .tc .vmem S5000x128 .f32 := fun | 0 => Memref.whole cc15_stg0_0 | 1 => Memref.whole cc15_stg0_1 | ⟨_ + 2, h⟩ => absurd h (Nat.not_lt.2 (Nat.le_add_left _ _))
abbrev sem15_0 : Fin 2 → DmaSem sig := fun | 0 => cc15_sem0_0 | 1 => cc15_sem0_1 | ⟨_ + 2, h⟩ => absurd h (Nat.not_lt.2 (Nat.le_add_left _ _))
abbrev reads15_0 : Fin grid15.rank → Bool := ![true]

abbrev stage15_1 : Fin 1 → Memref sig .tc .vmem S1x128 .f32 := fun | 0 => Memref.whole cc15_stg1_0 | ⟨_ + 1, h⟩ => absurd h (Nat.not_lt.2 (Nat.le_add_left _ _))
abbrev sem15_1 : Fin 1 → DmaSem sig := fun | 0 => cc15_sem1_0 | ⟨_ + 1, h⟩ => absurd h (Nat.not_lt.2 (Nat.le_add_left _ _))
abbrev reads15_1 : Fin grid15.rank → Bool := ![false]

abbrev stage15_2 : Fin 1 → Memref sig .tc .vmem S1x128 .f32 := fun | 0 => Memref.whole cc15_stg2_0 | ⟨_ + 1, h⟩ => absurd h (Nat.not_lt.2 (Nat.le_add_left _ _))
abbrev sem15_2 : Fin 1 → DmaSem sig := fun | 0 => cc15_sem2_0 | ⟨_ + 1, h⟩ => absurd h (Nat.not_lt.2 (Nat.le_add_left _ _))
abbrev reads15_2 : Fin grid15.rank → Bool := ![false]

abbrev stage15_3 : Fin 1 → Memref sig .tc .vmem S1x128 .f32 := fun | 0 => Memref.whole cc15_stg3_0 | ⟨_ + 1, h⟩ => absurd h (Nat.not_lt.2 (Nat.le_add_left _ _))
abbrev sem15_3 : Fin 1 → DmaSem sig := fun | 0 => cc15_sem3_0 | ⟨_ + 1, h⟩ => absurd h (Nat.not_lt.2 (Nat.le_add_left _ _))
abbrev reads15_3 : Fin grid15.rank → Bool := ![false]

abbrev stage15_4 : Fin 1 → Memref sig .tc .vmem S1x128 .f32 := fun | 0 => Memref.whole cc15_stg4_0 | ⟨_ + 1, h⟩ => absurd h (Nat.not_lt.2 (Nat.le_add_left _ _))
abbrev sem15_4 : Fin 1 → DmaSem sig := fun | 0 => cc15_sem4_0 | ⟨_ + 1, h⟩ => absurd h (Nat.not_lt.2 (Nat.le_add_left _ _))
abbrev reads15_4 : Fin grid15.rank → Bool := ![false]

abbrev stage15_5 : Fin 2 → Memref sig .tc .vmem S5000x128 .f32 := fun | 0 => Memref.whole cc15_stg5_0 | 1 => Memref.whole cc15_stg5_1 | ⟨_ + 2, h⟩ => absurd h (Nat.not_lt.2 (Nat.le_add_left _ _))
abbrev sem15_5 : Fin 2 → DmaSem sig := fun | 0 => cc15_sem5_0 | 1 => cc15_sem5_1 | ⟨_ + 2, h⟩ => absurd h (Nat.not_lt.2 (Nat.le_add_left _ _))
abbrev reads15_5 : Fin grid15.rank → Bool := ![true]

abbrev grid16 : Pipeline.Grid := ⟨1, ![10], ![false]⟩

def cc16_transform_0 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

def cc16_transform_1 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

def cc16_transform_2 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_3 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_4 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

def cc16_transform_5 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_6 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage16_0 : Fin 2 → Memref sig .tc .vmem S5000x128 .f32 := fun | 0 => Memref.whole cc16_stg0_0 | 1 => Memref.whole cc16_stg0_1 | ⟨_ + 2, h⟩ => absurd h (Nat.not_lt.2 (Nat.le_add_left _ _))
abbrev sem16_0 : Fin 2 → DmaSem sig := fun | 0 => cc16_sem0_0 | 1 => cc16_sem0_1 | ⟨_ + 2, h⟩ => absurd h (Nat.not_lt.2 (Nat.le_add_left _ _))
abbrev reads16_0 : Fin grid16.rank → Bool := ![true]

abbrev stage16_1 : Fin 2 → Memref sig .tc .vmem S5000x128 .f32 := fun | 0 => Memref.whole cc16_stg1_0 | 1 => Memref.whole cc16_stg1_1 | ⟨_ + 2, h⟩ => absurd h (Nat.not_lt.2 (Nat.le_add_left _ _))
abbrev sem16_1 : Fin 2 → DmaSem sig := fun | 0 => cc16_sem1_0 | 1 => cc16_sem1_1 | ⟨_ + 2, h⟩ => absurd h (Nat.not_lt.2 (Nat.le_add_left _ _))
abbrev reads16_1 : Fin grid16.rank → Bool := ![true]

abbrev stage16_2 : Fin 1 → Memref sig .tc .vmem S1x1 .f32 := fun | 0 => Memref.whole cc16_stg2_0 | ⟨_ + 1, h⟩ => absurd h (Nat.not_lt.2 (Nat.le_add_left _ _))
abbrev sem16_2 : Fin 1 → DmaSem sig := fun | 0 => cc16_sem2_0 | ⟨_ + 1, h⟩ => absurd h (Nat.not_lt.2 (Nat.le_add_left _ _))
abbrev reads16_2 : Fin grid16.rank → Bool := ![false]

abbrev stage16_3 : Fin 1 → Memref sig .tc .vmem S128x64 .f32 := fun | 0 => Memref.whole cc16_stg3_0 | ⟨_ + 1, h⟩ => absurd h (Nat.not_lt.2 (Nat.le_add_left _ _))
abbrev sem16_3 : Fin 1 → DmaSem sig := fun | 0 => cc16_sem3_0 | ⟨_ + 1, h⟩ => absurd h (Nat.not_lt.2 (Nat.le_add_left _ _))
abbrev reads16_3 : Fin grid16.rank → Bool := ![false]

abbrev stage16_4 : Fin 2 → Memref sig .tc .vmem S5000x64 .f32 := fun | 0 => Memref.whole cc16_stg4_0 | 1 => Memref.whole cc16_stg4_1 | ⟨_ + 2, h⟩ => absurd h (Nat.not_lt.2 (Nat.le_add_left _ _))
abbrev sem16_4 : Fin 2 → DmaSem sig := fun | 0 => cc16_sem4_0 | 1 => cc16_sem4_1 | ⟨_ + 2, h⟩ => absurd h (Nat.not_lt.2 (Nat.le_add_left _ _))
abbrev reads16_4 : Fin grid16.rank → Bool := ![true]

abbrev stage16_5 : Fin 1 → Memref sig .tc .vmem S1x64 .f32 := fun | 0 => Memref.whole cc16_stg5_0 | ⟨_ + 1, h⟩ => absurd h (Nat.not_lt.2 (Nat.le_add_left _ _))
abbrev sem16_5 : Fin 1 → DmaSem sig := fun | 0 => cc16_sem5_0 | ⟨_ + 1, h⟩ => absurd h (Nat.not_lt.2 (Nat.le_add_left _ _))
abbrev reads16_5 : Fin grid16.rank → Bool := ![false]

abbrev stage16_6 : Fin 1 → Memref sig .tc .vmem S1x64 .f32 := fun | 0 => Memref.whole cc16_stg6_0 | ⟨_ + 1, h⟩ => absurd h (Nat.not_lt.2 (Nat.le_add_left _ _))
abbrev sem16_6 : Fin 1 → DmaSem sig := fun | 0 => cc16_sem6_0 | ⟨_ + 1, h⟩ => absurd h (Nat.not_lt.2 (Nat.le_add_left _ _))
abbrev reads16_6 : Fin grid16.rank → Bool := ![false]

abbrev grid17 : Pipeline.Grid := ⟨1, ![10], ![false]⟩

def cc17_transform_0 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

def cc17_transform_1 (i : grid17.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc17_transform_2 (i : grid17.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc17_transform_3 (i : grid17.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc17_transform_4 (i : grid17.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc17_transform_5 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage17_0 : Fin 2 → Memref sig .tc .vmem S5000x64 .f32 := fun | 0 => Memref.whole cc17_stg0_0 | 1 => Memref.whole cc17_stg0_1 | ⟨_ + 2, h⟩ => absurd h (Nat.not_lt.2 (Nat.le_add_left _ _))
abbrev sem17_0 : Fin 2 → DmaSem sig := fun | 0 => cc17_sem0_0 | 1 => cc17_sem0_1 | ⟨_ + 2, h⟩ => absurd h (Nat.not_lt.2 (Nat.le_add_left _ _))
abbrev reads17_0 : Fin grid17.rank → Bool := ![true]

abbrev stage17_1 : Fin 1 → Memref sig .tc .vmem S1x64 .f32 := fun | 0 => Memref.whole cc17_stg1_0 | ⟨_ + 1, h⟩ => absurd h (Nat.not_lt.2 (Nat.le_add_left _ _))
abbrev sem17_1 : Fin 1 → DmaSem sig := fun | 0 => cc17_sem1_0 | ⟨_ + 1, h⟩ => absurd h (Nat.not_lt.2 (Nat.le_add_left _ _))
abbrev reads17_1 : Fin grid17.rank → Bool := ![false]

abbrev stage17_2 : Fin 1 → Memref sig .tc .vmem S1x64 .f32 := fun | 0 => Memref.whole cc17_stg2_0 | ⟨_ + 1, h⟩ => absurd h (Nat.not_lt.2 (Nat.le_add_left _ _))
abbrev sem17_2 : Fin 1 → DmaSem sig := fun | 0 => cc17_sem2_0 | ⟨_ + 1, h⟩ => absurd h (Nat.not_lt.2 (Nat.le_add_left _ _))
abbrev reads17_2 : Fin grid17.rank → Bool := ![false]

abbrev stage17_3 : Fin 1 → Memref sig .tc .vmem S1x64 .f32 := fun | 0 => Memref.whole cc17_stg3_0 | ⟨_ + 1, h⟩ => absurd h (Nat.not_lt.2 (Nat.le_add_left _ _))
abbrev sem17_3 : Fin 1 → DmaSem sig := fun | 0 => cc17_sem3_0 | ⟨_ + 1, h⟩ => absurd h (Nat.not_lt.2 (Nat.le_add_left _ _))
abbrev reads17_3 : Fin grid17.rank → Bool := ![false]

abbrev stage17_4 : Fin 1 → Memref sig .tc .vmem S1x64 .f32 := fun | 0 => Memref.whole cc17_stg4_0 | ⟨_ + 1, h⟩ => absurd h (Nat.not_lt.2 (Nat.le_add_left _ _))
abbrev sem17_4 : Fin 1 → DmaSem sig := fun | 0 => cc17_sem4_0 | ⟨_ + 1, h⟩ => absurd h (Nat.not_lt.2 (Nat.le_add_left _ _))
abbrev reads17_4 : Fin grid17.rank → Bool := ![false]

abbrev stage17_5 : Fin 2 → Memref sig .tc .vmem S5000x64 .f32 := fun | 0 => Memref.whole cc17_stg5_0 | 1 => Memref.whole cc17_stg5_1 | ⟨_ + 2, h⟩ => absurd h (Nat.not_lt.2 (Nat.le_add_left _ _))
abbrev sem17_5 : Fin 2 → DmaSem sig := fun | 0 => cc17_sem5_0 | 1 => cc17_sem5_1 | ⟨_ + 2, h⟩ => absurd h (Nat.not_lt.2 (Nat.le_add_left _ _))
abbrev reads17_5 : Fin grid17.rank → Bool := ![true]

abbrev grid18 : Pipeline.Grid := ⟨1, ![10], ![false]⟩

def cc18_transform_0 (i : grid18.Coords) : Fin 2 → Nat :=
  let arg0 : BitVec 32 := BitVec.ofNat 32 (i 0).val
  let c0_i32 : BitVec 32 := 0#32
  let c0_i32_0 : BitVec 32 := 0#32
  ![arg0.toNat, c0_i32.toNat]

def cc18_transform_1 (i : grid18.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc18_transform_2 (i : grid18.Coords) : Fin 2 → Nat :=
  let arg0 : BitVec 32 := BitVec.ofNat 32 (i 0).val
  let c0_i32 : BitVec 32 := 0#32
  let c0_i32_0 : BitVec 32 := 0#32
  ![arg0.toNat, c0_i32.toNat]

def cc18_transform_3 (i : grid18.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc18_transform_4 (i : grid18.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage18_0 : Fin 2 → Memref sig .tc .vmem S5000x64 .f32 := fun | 0 => Memref.whole cc18_stg0_0 | 1 => Memref.whole cc18_stg0_1 | ⟨_ + 2, h⟩ => absurd h (Nat.not_lt.2 (Nat.le_add_left _ _))
abbrev sem18_0 : Fin 2 → DmaSem sig := fun | 0 => cc18_sem0_0 | 1 => cc18_sem0_1 | ⟨_ + 2, h⟩ => absurd h (Nat.not_lt.2 (Nat.le_add_left _ _))
abbrev reads18_0 : Fin grid18.rank → Bool := ![true]

abbrev stage18_1 : Fin 1 → Memref sig .tc .vmem S64x128 .f32 := fun | 0 => Memref.whole cc18_stg1_0 | ⟨_ + 1, h⟩ => absurd h (Nat.not_lt.2 (Nat.le_add_left _ _))
abbrev sem18_1 : Fin 1 → DmaSem sig := fun | 0 => cc18_sem1_0 | ⟨_ + 1, h⟩ => absurd h (Nat.not_lt.2 (Nat.le_add_left _ _))
abbrev reads18_1 : Fin grid18.rank → Bool := ![false]

abbrev stage18_2 : Fin 2 → Memref sig .tc .vmem S5000x128 .f32 := fun | 0 => Memref.whole cc18_stg2_0 | 1 => Memref.whole cc18_stg2_1 | ⟨_ + 2, h⟩ => absurd h (Nat.not_lt.2 (Nat.le_add_left _ _))
abbrev sem18_2 : Fin 2 → DmaSem sig := fun | 0 => cc18_sem2_0 | 1 => cc18_sem2_1 | ⟨_ + 2, h⟩ => absurd h (Nat.not_lt.2 (Nat.le_add_left _ _))
abbrev reads18_2 : Fin grid18.rank → Bool := ![true]

abbrev stage18_3 : Fin 1 → Memref sig .tc .vmem S1x128 .f32 := fun | 0 => Memref.whole cc18_stg3_0 | ⟨_ + 1, h⟩ => absurd h (Nat.not_lt.2 (Nat.le_add_left _ _))
abbrev sem18_3 : Fin 1 → DmaSem sig := fun | 0 => cc18_sem3_0 | ⟨_ + 1, h⟩ => absurd h (Nat.not_lt.2 (Nat.le_add_left _ _))
abbrev reads18_3 : Fin grid18.rank → Bool := ![false]

abbrev stage18_4 : Fin 1 → Memref sig .tc .vmem S1x128 .f32 := fun | 0 => Memref.whole cc18_stg4_0 | ⟨_ + 1, h⟩ => absurd h (Nat.not_lt.2 (Nat.le_add_left _ _))
abbrev sem18_4 : Fin 1 → DmaSem sig := fun | 0 => cc18_sem4_0 | ⟨_ + 1, h⟩ => absurd h (Nat.not_lt.2 (Nat.le_add_left _ _))
abbrev reads18_4 : Fin grid18.rank → Bool := ![false]

abbrev grid19 : Pipeline.Grid := ⟨1, ![10], ![false]⟩

def cc19_transform_0 (i : grid19.Coords) : Fin 2 → Nat :=
  let arg0 : BitVec 32 := BitVec.ofNat 32 (i 0).val
  let c0_i32 : BitVec 32 := 0#32
  let c0_i32_0 : BitVec 32 := 0#32
  ![arg0.toNat, c0_i32.toNat]

def cc19_transform_1 (i : grid19.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc19_transform_2 (i : grid19.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc19_transform_3 (i : grid19.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc19_transform_4 (i : grid19.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc19_transform_5 (i : grid19.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage19_0 : Fin 2 → Memref sig .tc .vmem S5000x128 .f32 := fun | 0 => Memref.whole cc19_stg0_0 | 1 => Memref.whole cc19_stg0_1 | ⟨_ + 2, h⟩ => absurd h (Nat.not_lt.2 (Nat.le_add_left _ _))
abbrev sem19_0 : Fin 2 → DmaSem sig := fun | 0 => cc19_sem0_0 | 1 => cc19_sem0_1 | ⟨_ + 2, h⟩ => absurd h (Nat.not_lt.2 (Nat.le_add_left _ _))
abbrev reads19_0 : Fin grid19.rank → Bool := ![true]

abbrev stage19_1 : Fin 1 → Memref sig .tc .vmem S1x128 .f32 := fun | 0 => Memref.whole cc19_stg1_0 | ⟨_ + 1, h⟩ => absurd h (Nat.not_lt.2 (Nat.le_add_left _ _))
abbrev sem19_1 : Fin 1 → DmaSem sig := fun | 0 => cc19_sem1_0 | ⟨_ + 1, h⟩ => absurd h (Nat.not_lt.2 (Nat.le_add_left _ _))
abbrev reads19_1 : Fin grid19.rank → Bool := ![false]

abbrev stage19_2 : Fin 1 → Memref sig .tc .vmem S1x128 .f32 := fun | 0 => Memref.whole cc19_stg2_0 | ⟨_ + 1, h⟩ => absurd h (Nat.not_lt.2 (Nat.le_add_left _ _))
abbrev sem19_2 : Fin 1 → DmaSem sig := fun | 0 => cc19_sem2_0 | ⟨_ + 1, h⟩ => absurd h (Nat.not_lt.2 (Nat.le_add_left _ _))
abbrev reads19_2 : Fin grid19.rank → Bool := ![false]

abbrev stage19_3 : Fin 1 → Memref sig .tc .vmem S1x128 .f32 := fun | 0 => Memref.whole cc19_stg3_0 | ⟨_ + 1, h⟩ => absurd h (Nat.not_lt.2 (Nat.le_add_left _ _))
abbrev sem19_3 : Fin 1 → DmaSem sig := fun | 0 => cc19_sem3_0 | ⟨_ + 1, h⟩ => absurd h (Nat.not_lt.2 (Nat.le_add_left _ _))
abbrev reads19_3 : Fin grid19.rank → Bool := ![false]

abbrev stage19_4 : Fin 1 → Memref sig .tc .vmem S1x128 .f32 := fun | 0 => Memref.whole cc19_stg4_0 | ⟨_ + 1, h⟩ => absurd h (Nat.not_lt.2 (Nat.le_add_left _ _))
abbrev sem19_4 : Fin 1 → DmaSem sig := fun | 0 => cc19_sem4_0 | ⟨_ + 1, h⟩ => absurd h (Nat.not_lt.2 (Nat.le_add_left _ _))
abbrev reads19_4 : Fin grid19.rank → Bool := ![false]

abbrev stage19_5 : Fin 2 → Memref sig .tc .vmem S5000x128 .f32 := fun | 0 => Memref.whole cc19_stg5_0 | 1 => Memref.whole cc19_stg5_1 | ⟨_ + 2, h⟩ => absurd h (Nat.not_lt.2 (Nat.le_add_left _ _))
abbrev sem19_5 : Fin 2 → DmaSem sig := fun | 0 => cc19_sem5_0 | 1 => cc19_sem5_1 | ⟨_ + 2, h⟩ => absurd h (Nat.not_lt.2 (Nat.le_add_left _ _))
abbrev reads19_5 : Fin grid19.rank → Bool := ![true]

abbrev grid20 : Pipeline.Grid := ⟨1, ![10], ![false]⟩

def cc20_transform_0 (i : grid20.Coords) : Fin 2 → Nat :=
  let arg0 : BitVec 32 := BitVec.ofNat 32 (i 0).val
  let c0_i32 : BitVec 32 := 0#32
  let c0_i32_0 : BitVec 32 := 0#32
  ![arg0.toNat, c0_i32.toNat]

def cc20_transform_1 (i : grid20.Coords) : Fin 2 → Nat :=
  let arg0 : BitVec 32 := BitVec.ofNat 32 (i 0).val
  let c0_i32 : BitVec 32 := 0#32
  let c0_i32_0 : BitVec 32 := 0#32
  ![arg0.toNat, c0_i32.toNat]

def cc20_transform_2 (i : grid20.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc20_transform_3 (i : grid20.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc20_transform_4 (i : grid20.Coords) : Fin 2 → Nat :=
  let arg0 : BitVec 32 := BitVec.ofNat 32 (i 0).val
  let c0_i32 : BitVec 32 := 0#32
  let c0_i32_0 : BitVec 32 := 0#32
  ![arg0.toNat, c0_i32.toNat]

def cc20_transform_5 (i : grid20.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc20_transform_6 (i : grid20.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage20_0 : Fin 2 → Memref sig .tc .vmem S5000x128 .f32 := fun | 0 => Memref.whole cc20_stg0_0 | 1 => Memref.whole cc20_stg0_1 | ⟨_ + 2, h⟩ => absurd h (Nat.not_lt.2 (Nat.le_add_left _ _))
abbrev sem20_0 : Fin 2 → DmaSem sig := fun | 0 => cc20_sem0_0 | 1 => cc20_sem0_1 | ⟨_ + 2, h⟩ => absurd h (Nat.not_lt.2 (Nat.le_add_left _ _))
abbrev reads20_0 : Fin grid20.rank → Bool := ![true]

abbrev stage20_1 : Fin 2 → Memref sig .tc .vmem S5000x128 .f32 := fun | 0 => Memref.whole cc20_stg1_0 | 1 => Memref.whole cc20_stg1_1 | ⟨_ + 2, h⟩ => absurd h (Nat.not_lt.2 (Nat.le_add_left _ _))
abbrev sem20_1 : Fin 2 → DmaSem sig := fun | 0 => cc20_sem1_0 | 1 => cc20_sem1_1 | ⟨_ + 2, h⟩ => absurd h (Nat.not_lt.2 (Nat.le_add_left _ _))
abbrev reads20_1 : Fin grid20.rank → Bool := ![true]

abbrev stage20_2 : Fin 1 → Memref sig .tc .vmem S1x1 .f32 := fun | 0 => Memref.whole cc20_stg2_0 | ⟨_ + 1, h⟩ => absurd h (Nat.not_lt.2 (Nat.le_add_left _ _))
abbrev sem20_2 : Fin 1 → DmaSem sig := fun | 0 => cc20_sem2_0 | ⟨_ + 1, h⟩ => absurd h (Nat.not_lt.2 (Nat.le_add_left _ _))
abbrev reads20_2 : Fin grid20.rank → Bool := ![false]

abbrev stage20_3 : Fin 1 → Memref sig .tc .vmem S128x64 .f32 := fun | 0 => Memref.whole cc20_stg3_0 | ⟨_ + 1, h⟩ => absurd h (Nat.not_lt.2 (Nat.le_add_left _ _))
abbrev sem20_3 : Fin 1 → DmaSem sig := fun | 0 => cc20_sem3_0 | ⟨_ + 1, h⟩ => absurd h (Nat.not_lt.2 (Nat.le_add_left _ _))
abbrev reads20_3 : Fin grid20.rank → Bool := ![false]

abbrev stage20_4 : Fin 2 → Memref sig .tc .vmem S5000x64 .f32 := fun | 0 => Memref.whole cc20_stg4_0 | 1 => Memref.whole cc20_stg4_1 | ⟨_ + 2, h⟩ => absurd h (Nat.not_lt.2 (Nat.le_add_left _ _))
abbrev sem20_4 : Fin 2 → DmaSem sig := fun | 0 => cc20_sem4_0 | 1 => cc20_sem4_1 | ⟨_ + 2, h⟩ => absurd h (Nat.not_lt.2 (Nat.le_add_left _ _))
abbrev reads20_4 : Fin grid20.rank → Bool := ![true]

abbrev stage20_5 : Fin 1 → Memref sig .tc .vmem S1x64 .f32 := fun | 0 => Memref.whole cc20_stg5_0 | ⟨_ + 1, h⟩ => absurd h (Nat.not_lt.2 (Nat.le_add_left _ _))
abbrev sem20_5 : Fin 1 → DmaSem sig := fun | 0 => cc20_sem5_0 | ⟨_ + 1, h⟩ => absurd h (Nat.not_lt.2 (Nat.le_add_left _ _))
abbrev reads20_5 : Fin grid20.rank → Bool := ![false]

abbrev stage20_6 : Fin 1 → Memref sig .tc .vmem S1x64 .f32 := fun | 0 => Memref.whole cc20_stg6_0 | ⟨_ + 1, h⟩ => absurd h (Nat.not_lt.2 (Nat.le_add_left _ _))
abbrev sem20_6 : Fin 1 → DmaSem sig := fun | 0 => cc20_sem6_0 | ⟨_ + 1, h⟩ => absurd h (Nat.not_lt.2 (Nat.le_add_left _ _))
abbrev reads20_6 : Fin grid20.rank → Bool := ![false]

abbrev grid21 : Pipeline.Grid := ⟨1, ![10], ![false]⟩

def cc21_transform_0 (i : grid21.Coords) : Fin 2 → Nat :=
  let arg0 : BitVec 32 := BitVec.ofNat 32 (i 0).val
  let c0_i32 : BitVec 32 := 0#32
  let c0_i32_0 : BitVec 32 := 0#32
  ![arg0.toNat, c0_i32.toNat]

def cc21_transform_1 (i : grid21.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc21_transform_2 (i : grid21.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc21_transform_3 (i : grid21.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc21_transform_4 (i : grid21.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc21_transform_5 (i : grid21.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage21_0 : Fin 2 → Memref sig .tc .vmem S5000x64 .f32 := fun | 0 => Memref.whole cc21_stg0_0 | 1 => Memref.whole cc21_stg0_1 | ⟨_ + 2, h⟩ => absurd h (Nat.not_lt.2 (Nat.le_add_left _ _))
abbrev sem21_0 : Fin 2 → DmaSem sig := fun | 0 => cc21_sem0_0 | 1 => cc21_sem0_1 | ⟨_ + 2, h⟩ => absurd h (Nat.not_lt.2 (Nat.le_add_left _ _))
abbrev reads21_0 : Fin grid21.rank → Bool := ![true]

abbrev stage21_1 : Fin 1 → Memref sig .tc .vmem S1x64 .f32 := fun | 0 => Memref.whole cc21_stg1_0 | ⟨_ + 1, h⟩ => absurd h (Nat.not_lt.2 (Nat.le_add_left _ _))
abbrev sem21_1 : Fin 1 → DmaSem sig := fun | 0 => cc21_sem1_0 | ⟨_ + 1, h⟩ => absurd h (Nat.not_lt.2 (Nat.le_add_left _ _))
abbrev reads21_1 : Fin grid21.rank → Bool := ![false]

abbrev stage21_2 : Fin 1 → Memref sig .tc .vmem S1x64 .f32 := fun | 0 => Memref.whole cc21_stg2_0 | ⟨_ + 1, h⟩ => absurd h (Nat.not_lt.2 (Nat.le_add_left _ _))
abbrev sem21_2 : Fin 1 → DmaSem sig := fun | 0 => cc21_sem2_0 | ⟨_ + 1, h⟩ => absurd h (Nat.not_lt.2 (Nat.le_add_left _ _))
abbrev reads21_2 : Fin grid21.rank → Bool := ![false]

abbrev stage21_3 : Fin 1 → Memref sig .tc .vmem S1x64 .f32 := fun | 0 => Memref.whole cc21_stg3_0 | ⟨_ + 1, h⟩ => absurd h (Nat.not_lt.2 (Nat.le_add_left _ _))
abbrev sem21_3 : Fin 1 → DmaSem sig := fun | 0 => cc21_sem3_0 | ⟨_ + 1, h⟩ => absurd h (Nat.not_lt.2 (Nat.le_add_left _ _))
abbrev reads21_3 : Fin grid21.rank → Bool := ![false]

abbrev stage21_4 : Fin 1 → Memref sig .tc .vmem S1x64 .f32 := fun | 0 => Memref.whole cc21_stg4_0 | ⟨_ + 1, h⟩ => absurd h (Nat.not_lt.2 (Nat.le_add_left _ _))
abbrev sem21_4 : Fin 1 → DmaSem sig := fun | 0 => cc21_sem4_0 | ⟨_ + 1, h⟩ => absurd h (Nat.not_lt.2 (Nat.le_add_left _ _))
abbrev reads21_4 : Fin grid21.rank → Bool := ![false]

abbrev stage21_5 : Fin 2 → Memref sig .tc .vmem S5000x64 .f32 := fun | 0 => Memref.whole cc21_stg5_0 | 1 => Memref.whole cc21_stg5_1 | ⟨_ + 2, h⟩ => absurd h (Nat.not_lt.2 (Nat.le_add_left _ _))
abbrev sem21_5 : Fin 2 → DmaSem sig := fun | 0 => cc21_sem5_0 | 1 => cc21_sem5_1 | ⟨_ + 2, h⟩ => absurd h (Nat.not_lt.2 (Nat.le_add_left _ _))
abbrev reads21_5 : Fin grid21.rank → Bool := ![true]

abbrev grid22 : Pipeline.Grid := ⟨1, ![10], ![false]⟩

def cc22_transform_0 (i : grid22.Coords) : Fin 2 → Nat :=
  let arg0 : BitVec 32 := BitVec.ofNat 32 (i 0).val
  let c0_i32 : BitVec 32 := 0#32
  let c0_i32_0 : BitVec 32 := 0#32
  ![arg0.toNat, c0_i32.toNat]

def cc22_transform_1 (i : grid22.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc22_transform_2 (i : grid22.Coords) : Fin 2 → Nat :=
  let arg0 : BitVec 32 := BitVec.ofNat 32 (i 0).val
  let c0_i32 : BitVec 32 := 0#32
  let c0_i32_0 : BitVec 32 := 0#32
  ![arg0.toNat, c0_i32.toNat]

def cc22_transform_3 (i : grid22.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc22_transform_4 (i : grid22.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage22_0 : Fin 2 → Memref sig .tc .vmem S5000x64 .f32 := fun | 0 => Memref.whole cc22_stg0_0 | 1 => Memref.whole cc22_stg0_1 | ⟨_ + 2, h⟩ => absurd h (Nat.not_lt.2 (Nat.le_add_left _ _))
abbrev sem22_0 : Fin 2 → DmaSem sig := fun | 0 => cc22_sem0_0 | 1 => cc22_sem0_1 | ⟨_ + 2, h⟩ => absurd h (Nat.not_lt.2 (Nat.le_add_left _ _))
abbrev reads22_0 : Fin grid22.rank → Bool := ![true]

abbrev stage22_1 : Fin 1 → Memref sig .tc .vmem S64x128 .f32 := fun | 0 => Memref.whole cc22_stg1_0 | ⟨_ + 1, h⟩ => absurd h (Nat.not_lt.2 (Nat.le_add_left _ _))
abbrev sem22_1 : Fin 1 → DmaSem sig := fun | 0 => cc22_sem1_0 | ⟨_ + 1, h⟩ => absurd h (Nat.not_lt.2 (Nat.le_add_left _ _))
abbrev reads22_1 : Fin grid22.rank → Bool := ![false]

abbrev stage22_2 : Fin 2 → Memref sig .tc .vmem S5000x128 .f32 := fun | 0 => Memref.whole cc22_stg2_0 | 1 => Memref.whole cc22_stg2_1 | ⟨_ + 2, h⟩ => absurd h (Nat.not_lt.2 (Nat.le_add_left _ _))
abbrev sem22_2 : Fin 2 → DmaSem sig := fun | 0 => cc22_sem2_0 | 1 => cc22_sem2_1 | ⟨_ + 2, h⟩ => absurd h (Nat.not_lt.2 (Nat.le_add_left _ _))
abbrev reads22_2 : Fin grid22.rank → Bool := ![true]

abbrev stage22_3 : Fin 1 → Memref sig .tc .vmem S1x128 .f32 := fun | 0 => Memref.whole cc22_stg3_0 | ⟨_ + 1, h⟩ => absurd h (Nat.not_lt.2 (Nat.le_add_left _ _))
abbrev sem22_3 : Fin 1 → DmaSem sig := fun | 0 => cc22_sem3_0 | ⟨_ + 1, h⟩ => absurd h (Nat.not_lt.2 (Nat.le_add_left _ _))
abbrev reads22_3 : Fin grid22.rank → Bool := ![false]

abbrev stage22_4 : Fin 1 → Memref sig .tc .vmem S1x128 .f32 := fun | 0 => Memref.whole cc22_stg4_0 | ⟨_ + 1, h⟩ => absurd h (Nat.not_lt.2 (Nat.le_add_left _ _))
abbrev sem22_4 : Fin 1 → DmaSem sig := fun | 0 => cc22_sem4_0 | ⟨_ + 1, h⟩ => absurd h (Nat.not_lt.2 (Nat.le_add_left _ _))
abbrev reads22_4 : Fin grid22.rank → Bool := ![false]

abbrev grid23 : Pipeline.Grid := ⟨1, ![10], ![false]⟩

def cc23_transform_0 (i : grid23.Coords) : Fin 2 → Nat :=
  let arg0 : BitVec 32 := BitVec.ofNat 32 (i 0).val
  let c0_i32 : BitVec 32 := 0#32
  let c0_i32_0 : BitVec 32 := 0#32
  ![arg0.toNat, c0_i32.toNat]

def cc23_transform_1 (i : grid23.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc23_transform_2 (i : grid23.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc23_transform_3 (i : grid23.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc23_transform_4 (i : grid23.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc23_transform_5 (i : grid23.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage23_0 : Fin 2 → Memref sig .tc .vmem S5000x128 .f32 := fun | 0 => Memref.whole cc23_stg0_0 | 1 => Memref.whole cc23_stg0_1 | ⟨_ + 2, h⟩ => absurd h (Nat.not_lt.2 (Nat.le_add_left _ _))
abbrev sem23_0 : Fin 2 → DmaSem sig := fun | 0 => cc23_sem0_0 | 1 => cc23_sem0_1 | ⟨_ + 2, h⟩ => absurd h (Nat.not_lt.2 (Nat.le_add_left _ _))
abbrev reads23_0 : Fin grid23.rank → Bool := ![true]

abbrev stage23_1 : Fin 1 → Memref sig .tc .vmem S1x128 .f32 := fun | 0 => Memref.whole cc23_stg1_0 | ⟨_ + 1, h⟩ => absurd h (Nat.not_lt.2 (Nat.le_add_left _ _))
abbrev sem23_1 : Fin 1 → DmaSem sig := fun | 0 => cc23_sem1_0 | ⟨_ + 1, h⟩ => absurd h (Nat.not_lt.2 (Nat.le_add_left _ _))
abbrev reads23_1 : Fin grid23.rank → Bool := ![false]

abbrev stage23_2 : Fin 1 → Memref sig .tc .vmem S1x128 .f32 := fun | 0 => Memref.whole cc23_stg2_0 | ⟨_ + 1, h⟩ => absurd h (Nat.not_lt.2 (Nat.le_add_left _ _))
abbrev sem23_2 : Fin 1 → DmaSem sig := fun | 0 => cc23_sem2_0 | ⟨_ + 1, h⟩ => absurd h (Nat.not_lt.2 (Nat.le_add_left _ _))
abbrev reads23_2 : Fin grid23.rank → Bool := ![false]

abbrev stage23_3 : Fin 1 → Memref sig .tc .vmem S1x128 .f32 := fun | 0 => Memref.whole cc23_stg3_0 | ⟨_ + 1, h⟩ => absurd h (Nat.not_lt.2 (Nat.le_add_left _ _))
abbrev sem23_3 : Fin 1 → DmaSem sig := fun | 0 => cc23_sem3_0 | ⟨_ + 1, h⟩ => absurd h (Nat.not_lt.2 (Nat.le_add_left _ _))
abbrev reads23_3 : Fin grid23.rank → Bool := ![false]

abbrev stage23_4 : Fin 1 → Memref sig .tc .vmem S1x128 .f32 := fun | 0 => Memref.whole cc23_stg4_0 | ⟨_ + 1, h⟩ => absurd h (Nat.not_lt.2 (Nat.le_add_left _ _))
abbrev sem23_4 : Fin 1 → DmaSem sig := fun | 0 => cc23_sem4_0 | ⟨_ + 1, h⟩ => absurd h (Nat.not_lt.2 (Nat.le_add_left _ _))
abbrev reads23_4 : Fin grid23.rank → Bool := ![false]

abbrev stage23_5 : Fin 2 → Memref sig .tc .vmem S5000x128 .f32 := fun | 0 => Memref.whole cc23_stg5_0 | 1 => Memref.whole cc23_stg5_1 | ⟨_ + 2, h⟩ => absurd h (Nat.not_lt.2 (Nat.le_add_left _ _))
abbrev sem23_5 : Fin 2 → DmaSem sig := fun | 0 => cc23_sem5_0 | 1 => cc23_sem5_1 | ⟨_ + 2, h⟩ => absurd h (Nat.not_lt.2 (Nat.le_add_left _ _))
abbrev reads23_5 : Fin grid23.rank → Bool := ![true]

abbrev grid24 : Pipeline.Grid := ⟨1, ![10], ![false]⟩

def cc24_transform_0 (i : grid24.Coords) : Fin 2 → Nat :=
  let arg0 : BitVec 32 := BitVec.ofNat 32 (i 0).val
  let c0_i32 : BitVec 32 := 0#32
  let c0_i32_0 : BitVec 32 := 0#32
  ![arg0.toNat, c0_i32.toNat]

def cc24_transform_1 (i : grid24.Coords) : Fin 2 → Nat :=
  let arg0 : BitVec 32 := BitVec.ofNat 32 (i 0).val
  let c0_i32 : BitVec 32 := 0#32
  let c0_i32_0 : BitVec 32 := 0#32
  ![arg0.toNat, c0_i32.toNat]

def cc24_transform_2 (i : grid24.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc24_transform_3 (i : grid24.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc24_transform_4 (i : grid24.Coords) : Fin 2 → Nat :=
  let arg0 : BitVec 32 := BitVec.ofNat 32 (i 0).val
  let c0_i32 : BitVec 32 := 0#32
  let c0_i32_0 : BitVec 32 := 0#32
  ![arg0.toNat, c0_i32.toNat]

def cc24_transform_5 (i : grid24.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc24_transform_6 (i : grid24.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage24_0 : Fin 2 → Memref sig .tc .vmem S5000x128 .f32 := fun | 0 => Memref.whole cc24_stg0_0 | 1 => Memref.whole cc24_stg0_1 | ⟨_ + 2, h⟩ => absurd h (Nat.not_lt.2 (Nat.le_add_left _ _))
abbrev sem24_0 : Fin 2 → DmaSem sig := fun | 0 => cc24_sem0_0 | 1 => cc24_sem0_1 | ⟨_ + 2, h⟩ => absurd h (Nat.not_lt.2 (Nat.le_add_left _ _))
abbrev reads24_0 : Fin grid24.rank → Bool := ![true]

abbrev stage24_1 : Fin 2 → Memref sig .tc .vmem S5000x128 .f32 := fun | 0 => Memref.whole cc24_stg1_0 | 1 => Memref.whole cc24_stg1_1 | ⟨_ + 2, h⟩ => absurd h (Nat.not_lt.2 (Nat.le_add_left _ _))
abbrev sem24_1 : Fin 2 → DmaSem sig := fun | 0 => cc24_sem1_0 | 1 => cc24_sem1_1 | ⟨_ + 2, h⟩ => absurd h (Nat.not_lt.2 (Nat.le_add_left _ _))
abbrev reads24_1 : Fin grid24.rank → Bool := ![true]

abbrev stage24_2 : Fin 1 → Memref sig .tc .vmem S1x1 .f32 := fun | 0 => Memref.whole cc24_stg2_0 | ⟨_ + 1, h⟩ => absurd h (Nat.not_lt.2 (Nat.le_add_left _ _))
abbrev sem24_2 : Fin 1 → DmaSem sig := fun | 0 => cc24_sem2_0 | ⟨_ + 1, h⟩ => absurd h (Nat.not_lt.2 (Nat.le_add_left _ _))
abbrev reads24_2 : Fin grid24.rank → Bool := ![false]

abbrev stage24_3 : Fin 1 → Memref sig .tc .vmem S128x64 .f32 := fun | 0 => Memref.whole cc24_stg3_0 | ⟨_ + 1, h⟩ => absurd h (Nat.not_lt.2 (Nat.le_add_left _ _))
abbrev sem24_3 : Fin 1 → DmaSem sig := fun | 0 => cc24_sem3_0 | ⟨_ + 1, h⟩ => absurd h (Nat.not_lt.2 (Nat.le_add_left _ _))
abbrev reads24_3 : Fin grid24.rank → Bool := ![false]

abbrev stage24_4 : Fin 2 → Memref sig .tc .vmem S5000x64 .f32 := fun | 0 => Memref.whole cc24_stg4_0 | 1 => Memref.whole cc24_stg4_1 | ⟨_ + 2, h⟩ => absurd h (Nat.not_lt.2 (Nat.le_add_left _ _))
abbrev sem24_4 : Fin 2 → DmaSem sig := fun | 0 => cc24_sem4_0 | 1 => cc24_sem4_1 | ⟨_ + 2, h⟩ => absurd h (Nat.not_lt.2 (Nat.le_add_left _ _))
abbrev reads24_4 : Fin grid24.rank → Bool := ![true]

abbrev stage24_5 : Fin 1 → Memref sig .tc .vmem S1x64 .f32 := fun | 0 => Memref.whole cc24_stg5_0 | ⟨_ + 1, h⟩ => absurd h (Nat.not_lt.2 (Nat.le_add_left _ _))
abbrev sem24_5 : Fin 1 → DmaSem sig := fun | 0 => cc24_sem5_0 | ⟨_ + 1, h⟩ => absurd h (Nat.not_lt.2 (Nat.le_add_left _ _))
abbrev reads24_5 : Fin grid24.rank → Bool := ![false]

abbrev stage24_6 : Fin 1 → Memref sig .tc .vmem S1x64 .f32 := fun | 0 => Memref.whole cc24_stg6_0 | ⟨_ + 1, h⟩ => absurd h (Nat.not_lt.2 (Nat.le_add_left _ _))
abbrev sem24_6 : Fin 1 → DmaSem sig := fun | 0 => cc24_sem6_0 | ⟨_ + 1, h⟩ => absurd h (Nat.not_lt.2 (Nat.le_add_left _ _))
abbrev reads24_6 : Fin grid24.rank → Bool := ![false]

abbrev grid25 : Pipeline.Grid := ⟨1, ![10], ![false]⟩

def cc25_transform_0 (i : grid25.Coords) : Fin 2 → Nat :=
  let arg0 : BitVec 32 := BitVec.ofNat 32 (i 0).val
  let c0_i32 : BitVec 32 := 0#32
  let c0_i32_0 : BitVec 32 := 0#32
  ![arg0.toNat, c0_i32.toNat]

def cc25_transform_1 (i : grid25.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc25_transform_2 (i : grid25.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc25_transform_3 (i : grid25.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc25_transform_4 (i : grid25.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc25_transform_5 (i : grid25.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage25_0 : Fin 2 → Memref sig .tc .vmem S5000x64 .f32 := fun | 0 => Memref.whole cc25_stg0_0 | 1 => Memref.whole cc25_stg0_1 | ⟨_ + 2, h⟩ => absurd h (Nat.not_lt.2 (Nat.le_add_left _ _))
abbrev sem25_0 : Fin 2 → DmaSem sig := fun | 0 => cc25_sem0_0 | 1 => cc25_sem0_1 | ⟨_ + 2, h⟩ => absurd h (Nat.not_lt.2 (Nat.le_add_left _ _))
abbrev reads25_0 : Fin grid25.rank → Bool := ![true]

abbrev stage25_1 : Fin 1 → Memref sig .tc .vmem S1x64 .f32 := fun | 0 => Memref.whole cc25_stg1_0 | ⟨_ + 1, h⟩ => absurd h (Nat.not_lt.2 (Nat.le_add_left _ _))
abbrev sem25_1 : Fin 1 → DmaSem sig := fun | 0 => cc25_sem1_0 | ⟨_ + 1, h⟩ => absurd h (Nat.not_lt.2 (Nat.le_add_left _ _))
abbrev reads25_1 : Fin grid25.rank → Bool := ![false]

abbrev stage25_2 : Fin 1 → Memref sig .tc .vmem S1x64 .f32 := fun | 0 => Memref.whole cc25_stg2_0 | ⟨_ + 1, h⟩ => absurd h (Nat.not_lt.2 (Nat.le_add_left _ _))
abbrev sem25_2 : Fin 1 → DmaSem sig := fun | 0 => cc25_sem2_0 | ⟨_ + 1, h⟩ => absurd h (Nat.not_lt.2 (Nat.le_add_left _ _))
abbrev reads25_2 : Fin grid25.rank → Bool := ![false]

abbrev stage25_3 : Fin 1 → Memref sig .tc .vmem S1x64 .f32 := fun | 0 => Memref.whole cc25_stg3_0 | ⟨_ + 1, h⟩ => absurd h (Nat.not_lt.2 (Nat.le_add_left _ _))
abbrev sem25_3 : Fin 1 → DmaSem sig := fun | 0 => cc25_sem3_0 | ⟨_ + 1, h⟩ => absurd h (Nat.not_lt.2 (Nat.le_add_left _ _))
abbrev reads25_3 : Fin grid25.rank → Bool := ![false]

abbrev stage25_4 : Fin 1 → Memref sig .tc .vmem S1x64 .f32 := fun | 0 => Memref.whole cc25_stg4_0 | ⟨_ + 1, h⟩ => absurd h (Nat.not_lt.2 (Nat.le_add_left _ _))
abbrev sem25_4 : Fin 1 → DmaSem sig := fun | 0 => cc25_sem4_0 | ⟨_ + 1, h⟩ => absurd h (Nat.not_lt.2 (Nat.le_add_left _ _))
abbrev reads25_4 : Fin grid25.rank → Bool := ![false]

abbrev stage25_5 : Fin 2 → Memref sig .tc .vmem S5000x64 .f32 := fun | 0 => Memref.whole cc25_stg5_0 | 1 => Memref.whole cc25_stg5_1 | ⟨_ + 2, h⟩ => absurd h (Nat.not_lt.2 (Nat.le_add_left _ _))
abbrev sem25_5 : Fin 2 → DmaSem sig := fun | 0 => cc25_sem5_0 | 1 => cc25_sem5_1 | ⟨_ + 2, h⟩ => absurd h (Nat.not_lt.2 (Nat.le_add_left _ _))
abbrev reads25_5 : Fin grid25.rank → Bool := ![true]

abbrev grid26 : Pipeline.Grid := ⟨1, ![10], ![false]⟩

def cc26_transform_0 (i : grid26.Coords) : Fin 2 → Nat :=
  let arg0 : BitVec 32 := BitVec.ofNat 32 (i 0).val
  let c0_i32 : BitVec 32 := 0#32
  let c0_i32_0 : BitVec 32 := 0#32
  ![arg0.toNat, c0_i32.toNat]

def cc26_transform_1 (i : grid26.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc26_transform_2 (i : grid26.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage26_0 : Fin 2 → Memref sig .tc .vmem S5000x64 .f32 := fun | 0 => Memref.whole cc26_stg0_0 | 1 => Memref.whole cc26_stg0_1 | ⟨_ + 2, h⟩ => absurd h (Nat.not_lt.2 (Nat.le_add_left _ _))
abbrev sem26_0 : Fin 2 → DmaSem sig := fun | 0 => cc26_sem0_0 | 1 => cc26_sem0_1 | ⟨_ + 2, h⟩ => absurd h (Nat.not_lt.2 (Nat.le_add_left _ _))
abbrev reads26_0 : Fin grid26.rank → Bool := ![true]

abbrev stage26_1 : Fin 1 → Memref sig .tc .vmem S64x2 .f32 := fun | 0 => Memref.whole cc26_stg1_0 | ⟨_ + 1, h⟩ => absurd h (Nat.not_lt.2 (Nat.le_add_left _ _))
abbrev sem26_1 : Fin 1 → DmaSem sig := fun | 0 => cc26_sem1_0 | ⟨_ + 1, h⟩ => absurd h (Nat.not_lt.2 (Nat.le_add_left _ _))
abbrev reads26_1 : Fin grid26.rank → Bool := ![false]

abbrev stage26_2 : Fin 2 → Memref sig .tc .vmem S5000x2 .f32 := fun | 0 => Memref.whole cc26_stg2_0 | 1 => Memref.whole cc26_stg2_1 | ⟨_ + 2, h⟩ => absurd h (Nat.not_lt.2 (Nat.le_add_left _ _))
abbrev sem26_2 : Fin 2 → DmaSem sig := fun | 0 => cc26_sem2_0 | 1 => cc26_sem2_1 | ⟨_ + 2, h⟩ => absurd h (Nat.not_lt.2 (Nat.le_add_left _ _))
abbrev reads26_2 : Fin grid26.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  slices_S7_S1_0 : S7.Slices ![0] S1
  shapeCasts_S1_S_ : S1.ShapeCasts S_
  shapeCasts_S_S1x1 : S_.ShapeCasts S1x1
  slices_S7x128x64_S1x128x64_0_0_0 : S7x128x64.Slices ![0, 0, 0] S1x128x64
  shapeCasts_S1x128x64_S128x64 : S1x128x64.ShapeCasts S128x64
  inb_S1x64_S1x64_0_0 : ∀ a, (![0, 0] : Fin 2 → Nat) a + S1x64.size a ≤ S1x64.size a
  h_S1x64 : 0 < S1x64.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S5000x128_S5000x128_0_0 : ∀ a, (![0, 0] : Fin 2 → Nat) a + S5000x128.size a ≤ S5000x128.size a
  h_S5000x128 : 0 < S5000x128.numel
  broadcasts_S1x1_S5000x128 : S1x1.Broadcasts S5000x128
  shapeCasts_S5000x128_S5000x128 : S5000x128.ShapeCasts S5000x128
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S5000x64_S5000x64_0_0 : ∀ a, (![0, 0] : Fin 2 → Nat) a + S5000x64.size a ≤ S5000x64.size a
  h_S5000x64 : 0 < S5000x64.numel
  shapeCasts_S1x64_S1x64 : S1x64.ShapeCasts S1x64
  reduces_S5000x64_S64 : S5000x64.Reduces [0] S64
  shapeCasts_S64_S1x64 : S64.ShapeCasts S1x64
  bcast_S_S1x64 : S_.BroadcastsInDim S1x64 (![] : Fin 0 → Fin S1x64.rank)
  slices_S7x64_S1x64_0_0 : S7x64.Slices ![0, 0] S1x64
  shapeCasts_S1x64_S64 : S1x64.ShapeCasts S64
  shapeCasts_S5000x64_S5000x64 : S5000x64.ShapeCasts S5000x64
  broadcasts_S1x64_S5000x64 : S1x64.Broadcasts S5000x64
  slices_S6x64x128_S1x64x128_0_0_0 : S6x64x128.Slices ![0, 0, 0] S1x64x128
  shapeCasts_S1x64x128_S64x128 : S1x64x128.ShapeCasts S64x128
  inb_S1x128_S1x128_0_0 : ∀ a, (![0, 0] : Fin 2 → Nat) a + S1x128.size a ≤ S1x128.size a
  h_S1x128 : 0 < S1x128.numel
  inb_S64x128_S64x128_0_0 : ∀ a, (![0, 0] : Fin 2 → Nat) a + S64x128.size a ≤ S64x128.size a
  h_S64x128 : 0 < S64x128.numel
  shapeCasts_S64x128_S64x128 : S64x128.ShapeCasts S64x128
  shapeCasts_S1x128_S1x128 : S1x128.ShapeCasts S1x128
  reduces_S5000x128_S128 : S5000x128.Reduces [0] S128
  shapeCasts_S128_S1x128 : S128.ShapeCasts S1x128
  bcast_S_S1x128 : S_.BroadcastsInDim S1x128 (![] : Fin 0 → Fin S1x128.rank)
  slices_S6x128_S1x128_0_0 : S6x128.Slices ![0, 0] S1x128
  shapeCasts_S1x128_S128 : S1x128.ShapeCasts S128
  broadcasts_S1x128_S5000x128 : S1x128.Broadcasts S5000x128
  slices_S7_S1_1 : S7.Slices ![1] S1
  slices_S7x128x64_S1x128x64_1_0_0 : S7x128x64.Slices ![1, 0, 0] S1x128x64
  slices_S7x64_S1x64_1_0 : S7x64.Slices ![1, 0] S1x64
  slices_S6x64x128_S1x64x128_1_0_0 : S6x64x128.Slices ![1, 0, 0] S1x64x128
  slices_S6x128_S1x128_1_0 : S6x128.Slices ![1, 0] S1x128
  slices_S7_S1_2 : S7.Slices ![2] S1
  slices_S7x128x64_S1x128x64_2_0_0 : S7x128x64.Slices ![2, 0, 0] S1x128x64
  slices_S7x64_S1x64_2_0 : S7x64.Slices ![2, 0] S1x64
  slices_S6x64x128_S1x64x128_2_0_0 : S6x64x128.Slices ![2, 0, 0] S1x64x128
  slices_S6x128_S1x128_2_0 : S6x128.Slices ![2, 0] S1x128
  slices_S7_S1_3 : S7.Slices ![3] S1
  slices_S7x128x64_S1x128x64_3_0_0 : S7x128x64.Slices ![3, 0, 0] S1x128x64
  slices_S7x64_S1x64_3_0 : S7x64.Slices ![3, 0] S1x64
  slices_S6x64x128_S1x64x128_3_0_0 : S6x64x128.Slices ![3, 0, 0] S1x64x128
  slices_S6x128_S1x128_3_0 : S6x128.Slices ![3, 0] S1x128
  slices_S7_S1_4 : S7.Slices ![4] S1
  slices_S7x128x64_S1x128x64_4_0_0 : S7x128x64.Slices ![4, 0, 0] S1x128x64
  slices_S7x64_S1x64_4_0 : S7x64.Slices ![4, 0] S1x64
  slices_S6x64x128_S1x64x128_4_0_0 : S6x64x128.Slices ![4, 0, 0] S1x64x128
  slices_S6x128_S1x128_4_0 : S6x128.Slices ![4, 0] S1x128
  slices_S7_S1_5 : S7.Slices ![5] S1
  slices_S7x128x64_S1x128x64_5_0_0 : S7x128x64.Slices ![5, 0, 0] S1x128x64
  slices_S7x64_S1x64_5_0 : S7x64.Slices ![5, 0] S1x64
  slices_S6x64x128_S1x64x128_5_0_0 : S6x64x128.Slices ![5, 0, 0] S1x64x128
  slices_S6x128_S1x128_5_0 : S6x128.Slices ![5, 0] S1x128
  slices_S7_S1_6 : S7.Slices ![6] S1
  slices_S7x128x64_S1x128x64_6_0_0 : S7x128x64.Slices ![6, 0, 0] S1x128x64
  slices_S7x64_S1x64_6_0 : S7x64.Slices ![6, 0] S1x64
  inb_S64x2_S64x2_0_0 : ∀ a, (![0, 0] : Fin 2 → Nat) a + S64x2.size a ≤ S64x2.size a
  h_S64x2 : 0 < S64x2.numel
  inb_S5000x2_S5000x2_0_0 : ∀ a, (![0, 0] : Fin 2 → Nat) a + S5000x2.size a ≤ S5000x2.size a
  h_S5000x2 : 0 < S5000x2.numel
  bcast_S_S50000 : S_.BroadcastsInDim S50000 (![] : Fin 0 → Fin S50000.rank)
  bcast_S_S64 : S_.BroadcastsInDim S64 (![] : Fin 0 → Fin S64.rank)
  bcast_S50000_S50000x1_0 : S50000.BroadcastsInDim S50000x1 (![0] : Fin 1 → Fin S50000x1.rank)
  bcast_S_S64x2 : S_.BroadcastsInDim S64x2 (![] : Fin 0 → Fin S64x2.rank)
  bcast_S64_S64x1_0 : S64.BroadcastsInDim S64x1 (![0] : Fin 1 → Fin S64x1.rank)
  bcast_S64x1_S64x2_0_1 : S64x1.BroadcastsInDim S64x2 (![0, 1] : Fin 2 → Fin S64x2.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x64_S5000x64_1_0_0_1_n_n_wf : DotDims.WF S5000x128 S128x64 S5000x64 [1] [0] [0] [1] [] []
  dot_S5000x64_S64x128_S5000x128_1_0_0_1_n_n_wf : DotDims.WF S5000x64 S64x128 S5000x128 [1] [0] [0] [1] [] []
  dot_S5000x64_S64x2_S5000x2_1_0_0_1_n_n_wf : DotDims.WF S5000x64 S64x2 S5000x2 [1] [0] [0] [1] [] []
  scatter_S64_S50000x1_S50000_n_0_0_1_wf : ScatterDims.WF S64 S50000x1 S50000 [] [0] [0] 1
  scatter_S64x2_S50000x1_S50000x2_1_0_0_1_wf : ScatterDims.WF S64x2 S50000x1 S50000x2 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x64.size a ≤ S128x64.size a
  hwx0_3 : ∀ i : grid0.Coords, EltTy.bits .f32 = 32 ∨ (Rect.block (s := S128x64) S128x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x64.size a ≤ S50000x64.size a
  hwx0_4 : ∀ i : grid0.Coords, EltTy.bits .f32 = 32 ∨ (Rect.block (s := S50000x64) S5000x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S50000x64.size a
  hwx1_5 : ∀ i : grid1.Coords, EltTy.bits .f32 = 32 ∨ (Rect.block (s := S50000x64) S5000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x128.size a ≤ S64x128.size a
  hwx2_1 : ∀ i : grid2.Coords, EltTy.bits .f32 = 32 ∨ (Rect.block (s := S64x128) S64x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S50000x128.size a
  hwx3_5 : ∀ i : grid3.Coords, EltTy.bits .f32 = 32 ∨ (Rect.block (s := S50000x128) S5000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S50000x128.size a
  hwx4_1 : ∀ i : grid4.Coords, EltTy.bits .f32 = 32 ∨ (Rect.block (s := S50000x128) S5000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x1.size a ≤ S1x1.size a
  hwx4_2 : ∀ i : grid4.Coords, EltTy.bits .f32 = 32 ∨ (Rect.block (s := S1x1) S1x1.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x64.size a ≤ S128x64.size a
  hwx4_3 : ∀ i : grid4.Coords, EltTy.bits .f32 = 32 ∨ (Rect.block (s := S128x64) S128x64.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S5000x64.size a ≤ S50000x64.size a
  hwx4_4 : ∀ i : grid4.Coords, EltTy.bits .f32 = 32 ∨ (Rect.block (s := S50000x64) S5000x64.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x64.size a ≤ S1x64.size a
  hwx4_5 : ∀ i : grid4.Coords, EltTy.bits .f32 = 32 ∨ (Rect.block (s := S1x64) S1x64.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x64.size a ≤ S1x64.size a
  hwx4_6 : ∀ i : grid4.Coords, EltTy.bits .f32 = 32 ∨ (Rect.block (s := S1x64) S1x64.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S50000x64.size a
  hwx5_0 : ∀ i : grid5.Coords, EltTy.bits .f32 = 32 ∨ (Rect.block (s := S50000x64) S5000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x64.size a ≤ S1x64.size a
  hwx5_4 : ∀ i : grid5.Coords, EltTy.bits .f32 = 32 ∨ (Rect.block (s := S1x64) S1x64.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x64.size a ≤ S50000x64.size a
  hwx5_5 : ∀ i : grid5.Coords, EltTy.bits .f32 = 32 ∨ (Rect.block (s := S50000x64) S5000x64.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x64.size a ≤ S50000x64.size a
  hwx6_0 : ∀ i : grid6.Coords, EltTy.bits .f32 = 32 ∨ (Rect.block (s := S50000x64) S5000x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64x128.size a ≤ S64x128.size a
  hwx6_1 : ∀ i : grid6.Coords, EltTy.bits .f32 = 32 ∨ (Rect.block (s := S64x128) S64x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x128.size a ≤ S50000x128.size a
  hwx6_2 : ∀ i : grid6.Coords, EltTy.bits .f32 = 32 ∨ (Rect.block (s := S50000x128) S5000x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x128.size a ≤ S1x128.size a
  hwx6_3 : ∀ i : grid6.Coords, EltTy.bits .f32 = 32 ∨ (Rect.block (s := S1x128) S1x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x128.size a ≤ S1x128.size a
  hwx6_4 : ∀ i : grid6.Coords, EltTy.bits .f32 = 32 ∨ (Rect.block (s := S1x128) S1x128.size (cc6_transform_4 i) (hinb6_4 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S50000x128.size a
  hwx7_0 : ∀ i : grid7.Coords, EltTy.bits .f32 = 32 ∨ (Rect.block (s := S50000x128) S5000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x128.size a ≤ S1x128.size a
  hwx7_1 : ∀ i : grid7.Coords, EltTy.bits .f32 = 32 ∨ (Rect.block (s := S1x128) S1x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x128.size a ≤ S1x128.size a
  hwx7_2 : ∀ i : grid7.Coords, EltTy.bits .f32 = 32 ∨ (Rect.block (s := S1x128) S1x128.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x128.size a ≤ S1x128.size a
  hwx7_3 : ∀ i : grid7.Coords, EltTy.bits .f32 = 32 ∨ (Rect.block (s := S1x128) S1x128.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x128.size a ≤ S1x128.size a
  hwx7_4 : ∀ i : grid7.Coords, EltTy.bits .f32 = 32 ∨ (Rect.block (s := S1x128) S1x128.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S5000x128.size a ≤ S50000x128.size a
  hwx7_5 : ∀ i : grid7.Coords, EltTy.bits .f32 = 32 ∨ (Rect.block (s := S50000x128) S5000x128.size (cc7_transform_5 i) (hinb7_5 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x128.size a ≤ S50000x128.size a
  hwx8_0 : ∀ i : grid8.Coords, EltTy.bits .f32 = 32 ∨ (Rect.block (s := S50000x128) S5000x128.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S5000x128.size a ≤ S50000x128.size a
  hwx8_1 : ∀ i : grid8.Coords, EltTy.bits .f32 = 32 ∨ (Rect.block (s := S50000x128) S5000x128.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x1.size a ≤ S1x1.size a
  hwx8_2 : ∀ i : grid8.Coords, EltTy.bits .f32 = 32 ∨ (Rect.block (s := S1x1) S1x1.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S128x64.size a ≤ S128x64.size a
  hwx8_3 : ∀ i : grid8.Coords, EltTy.bits .f32 = 32 ∨ (Rect.block (s := S128x64) S128x64.size (cc8_transform_3 i) (hinb8_3 i)).WholeWords (EltTy.packing .f32)
  hstage8_4 : ∀ j, (stage8_4 j).IsWhole
  nbuf8_4 : grid8.bufCount reads8_4 false = 2
  hreads8_4 : ∀ i i' : grid8.Coords, (∀ a, reads8_4 a = true → i a = i' a) → cc8_transform_4 i = cc8_transform_4 i'
  hinb8_4 : ∀ (i : grid8.Coords) a, (cc8_transform_4 i a + 1) * S5000x64.size a ≤ S50000x64.size a
  hwx8_4 : ∀ i : grid8.Coords, EltTy.bits .f32 = 32 ∨ (Rect.block (s := S50000x64) S5000x64.size (cc8_transform_4 i) (hinb8_4 i)).WholeWords (EltTy.packing .f32)
  hstage8_5 : ∀ j, (stage8_5 j).IsWhole
  nbuf8_5 : grid8.bufCount reads8_5 true = 1
  hreads8_5 : ∀ i i' : grid8.Coords, (∀ a, reads8_5 a = true → i a = i' a) → cc8_transform_5 i = cc8_transform_5 i'
  hinb8_5 : ∀ (i : grid8.Coords) a, (cc8_transform_5 i a + 1) * S1x64.size a ≤ S1x64.size a
  hwx8_5 : ∀ i : grid8.Coords, EltTy.bits .f32 = 32 ∨ (Rect.block (s := S1x64) S1x64.size (cc8_transform_5 i) (hinb8_5 i)).WholeWords (EltTy.packing .f32)
  hstage8_6 : ∀ j, (stage8_6 j).IsWhole
  nbuf8_6 : grid8.bufCount reads8_6 true = 1
  hreads8_6 : ∀ i i' : grid8.Coords, (∀ a, reads8_6 a = true → i a = i' a) → cc8_transform_6 i = cc8_transform_6 i'
  hinb8_6 : ∀ (i : grid8.Coords) a, (cc8_transform_6 i a + 1) * S1x64.size a ≤ S1x64.size a
  hwx8_6 : ∀ i : grid8.Coords, EltTy.bits .f32 = 32 ∨ (Rect.block (s := S1x64) S1x64.size (cc8_transform_6 i) (hinb8_6 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x64.size a ≤ S50000x64.size a
  hwx9_0 : ∀ i : grid9.Coords, EltTy.bits .f32 = 32 ∨ (Rect.block (s := S50000x64) S5000x64.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S1x64.size a ≤ S1x64.size a
  hwx9_1 : ∀ i : grid9.Coords, EltTy.bits .f32 = 32 ∨ (Rect.block (s := S1x64) S1x64.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x64.size a ≤ S1x64.size a
  hwx9_2 : ∀ i : grid9.Coords, EltTy.bits .f32 = 32 ∨ (Rect.block (s := S1x64) S1x64.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S1x64.size a ≤ S1x64.size a
  hwx9_3 : ∀ i : grid9.Coords, EltTy.bits .f32 = 32 ∨ (Rect.block (s := S1x64) S1x64.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S1x64.size a ≤ S1x64.size a
  hwx9_4 : ∀ i : grid9.Coords, EltTy.bits .f32 = 32 ∨ (Rect.block (s := S1x64) S1x64.size (cc9_transform_4 i) (hinb9_4 i)).WholeWords (EltTy.packing .f32)
  hstage9_5 : ∀ j, (stage9_5 j).IsWhole
  nbuf9_5 : grid9.bufCount reads9_5 false = 2
  hreads9_5 : ∀ i i' : grid9.Coords, (∀ a, reads9_5 a = true → i a = i' a) → cc9_transform_5 i = cc9_transform_5 i'
  hinb9_5 : ∀ (i : grid9.Coords) a, (cc9_transform_5 i a + 1) * S5000x64.size a ≤ S50000x64.size a
  hwx9_5 : ∀ i : grid9.Coords, EltTy.bits .f32 = 32 ∨ (Rect.block (s := S50000x64) S5000x64.size (cc9_transform_5 i) (hinb9_5 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S5000x64.size a ≤ S50000x64.size a
  hwx10_0 : ∀ i : grid10.Coords, EltTy.bits .f32 = 32 ∨ (Rect.block (s := S50000x64) S5000x64.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S64x128.size a ≤ S64x128.size a
  hwx10_1 : ∀ i : grid10.Coords, EltTy.bits .f32 = 32 ∨ (Rect.block (s := S64x128) S64x128.size (cc10_transform_1 i) (hinb10_1 i)).WholeWords (EltTy.packing .f32)
  hstage10_2 : ∀ j, (stage10_2 j).IsWhole
  nbuf10_2 : grid10.bufCount reads10_2 false = 2
  hreads10_2 : ∀ i i' : grid10.Coords, (∀ a, reads10_2 a = true → i a = i' a) → cc10_transform_2 i = cc10_transform_2 i'
  hinb10_2 : ∀ (i : grid10.Coords) a, (cc10_transform_2 i a + 1) * S5000x128.size a ≤ S50000x128.size a
  hwx10_2 : ∀ i : grid10.Coords, EltTy.bits .f32 = 32 ∨ (Rect.block (s := S50000x128) S5000x128.size (cc10_transform_2 i) (hinb10_2 i)).WholeWords (EltTy.packing .f32)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S1x128.size a ≤ S1x128.size a
  hwx10_3 : ∀ i : grid10.Coords, EltTy.bits .f32 = 32 ∨ (Rect.block (s := S1x128) S1x128.size (cc10_transform_3 i) (hinb10_3 i)).WholeWords (EltTy.packing .f32)
  hstage10_4 : ∀ j, (stage10_4 j).IsWhole
  nbuf10_4 : grid10.bufCount reads10_4 true = 1
  hreads10_4 : ∀ i i' : grid10.Coords, (∀ a, reads10_4 a = true → i a = i' a) → cc10_transform_4 i = cc10_transform_4 i'
  hinb10_4 : ∀ (i : grid10.Coords) a, (cc10_transform_4 i a + 1) * S1x128.size a ≤ S1x128.size a
  hwx10_4 : ∀ i : grid10.Coords, EltTy.bits .f32 = 32 ∨ (Rect.block (s := S1x128) S1x128.size (cc10_transform_4 i) (hinb10_4 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S5000x128.size a ≤ S50000x128.size a
  hwx11_0 : ∀ i : grid11.Coords, EltTy.bits .f32 = 32 ∨ (Rect.block (s := S50000x128) S5000x128.size (cc11_transform_0 i) (hinb11_0 i)).WholeWords (EltTy.packing .f32)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S1x128.size a ≤ S1x128.size a
  hwx11_1 : ∀ i : grid11.Coords, EltTy.bits .f32 = 32 ∨ (Rect.block (s := S1x128) S1x128.size (cc11_transform_1 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S1x128.size a ≤ S1x128.size a
  hwx11_2 : ∀ i : grid11.Coords, EltTy.bits .f32 = 32 ∨ (Rect.block (s := S1x128) S1x128.size (cc11_transform_2 i) (hinb11_2 i)).WholeWords (EltTy.packing .f32)
  hstage11_3 : ∀ j, (stage11_3 j).IsWhole
  nbuf11_3 : grid11.bufCount reads11_3 true = 1
  hreads11_3 : ∀ i i' : grid11.Coords, (∀ a, reads11_3 a = true → i a = i' a) → cc11_transform_3 i = cc11_transform_3 i'
  hinb11_3 : ∀ (i : grid11.Coords) a, (cc11_transform_3 i a + 1) * S1x128.size a ≤ S1x128.size a
  hwx11_3 : ∀ i : grid11.Coords, EltTy.bits .f32 = 32 ∨ (Rect.block (s := S1x128) S1x128.size (cc11_transform_3 i) (hinb11_3 i)).WholeWords (EltTy.packing .f32)
  hstage11_4 : ∀ j, (stage11_4 j).IsWhole
  nbuf11_4 : grid11.bufCount reads11_4 true = 1
  hreads11_4 : ∀ i i' : grid11.Coords, (∀ a, reads11_4 a = true → i a = i' a) → cc11_transform_4 i = cc11_transform_4 i'
  hinb11_4 : ∀ (i : grid11.Coords) a, (cc11_transform_4 i a + 1) * S1x128.size a ≤ S1x128.size a
  hwx11_4 : ∀ i : grid11.Coords, EltTy.bits .f32 = 32 ∨ (Rect.block (s := S1x128) S1x128.size (cc11_transform_4 i) (hinb11_4 i)).WholeWords (EltTy.packing .f32)
  hstage11_5 : ∀ j, (stage11_5 j).IsWhole
  nbuf11_5 : grid11.bufCount reads11_5 false = 2
  hreads11_5 : ∀ i i' : grid11.Coords, (∀ a, reads11_5 a = true → i a = i' a) → cc11_transform_5 i = cc11_transform_5 i'
  hinb11_5 : ∀ (i : grid11.Coords) a, (cc11_transform_5 i a + 1) * S5000x128.size a ≤ S50000x128.size a
  hwx11_5 : ∀ i : grid11.Coords, EltTy.bits .f32 = 32 ∨ (Rect.block (s := S50000x128) S5000x128.size (cc11_transform_5 i) (hinb11_5 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S5000x128.size a ≤ S50000x128.size a
  hwx12_0 : ∀ i : grid12.Coords, EltTy.bits .f32 = 32 ∨ (Rect.block (s := S50000x128) S5000x128.size (cc12_transform_0 i) (hinb12_0 i)).WholeWords (EltTy.packing .f32)
  hstage12_1 : ∀ j, (stage12_1 j).IsWhole
  nbuf12_1 : grid12.bufCount reads12_1 false = 2
  hreads12_1 : ∀ i i' : grid12.Coords, (∀ a, reads12_1 a = true → i a = i' a) → cc12_transform_1 i = cc12_transform_1 i'
  hinb12_1 : ∀ (i : grid12.Coords) a, (cc12_transform_1 i a + 1) * S5000x128.size a ≤ S50000x128.size a
  hwx12_1 : ∀ i : grid12.Coords, EltTy.bits .f32 = 32 ∨ (Rect.block (s := S50000x128) S5000x128.size (cc12_transform_1 i) (hinb12_1 i)).WholeWords (EltTy.packing .f32)
  hstage12_2 : ∀ j, (stage12_2 j).IsWhole
  nbuf12_2 : grid12.bufCount reads12_2 true = 1
  hreads12_2 : ∀ i i' : grid12.Coords, (∀ a, reads12_2 a = true → i a = i' a) → cc12_transform_2 i = cc12_transform_2 i'
  hinb12_2 : ∀ (i : grid12.Coords) a, (cc12_transform_2 i a + 1) * S1x1.size a ≤ S1x1.size a
  hwx12_2 : ∀ i : grid12.Coords, EltTy.bits .f32 = 32 ∨ (Rect.block (s := S1x1) S1x1.size (cc12_transform_2 i) (hinb12_2 i)).WholeWords (EltTy.packing .f32)
  hstage12_3 : ∀ j, (stage12_3 j).IsWhole
  nbuf12_3 : grid12.bufCount reads12_3 true = 1
  hreads12_3 : ∀ i i' : grid12.Coords, (∀ a, reads12_3 a = true → i a = i' a) → cc12_transform_3 i = cc12_transform_3 i'
  hinb12_3 : ∀ (i : grid12.Coords) a, (cc12_transform_3 i a + 1) * S128x64.size a ≤ S128x64.size a
  hwx12_3 : ∀ i : grid12.Coords, EltTy.bits .f32 = 32 ∨ (Rect.block (s := S128x64) S128x64.size (cc12_transform_3 i) (hinb12_3 i)).WholeWords (EltTy.packing .f32)
  hstage12_4 : ∀ j, (stage12_4 j).IsWhole
  nbuf12_4 : grid12.bufCount reads12_4 false = 2
  hreads12_4 : ∀ i i' : grid12.Coords, (∀ a, reads12_4 a = true → i a = i' a) → cc12_transform_4 i = cc12_transform_4 i'
  hinb12_4 : ∀ (i : grid12.Coords) a, (cc12_transform_4 i a + 1) * S5000x64.size a ≤ S50000x64.size a
  hwx12_4 : ∀ i : grid12.Coords, EltTy.bits .f32 = 32 ∨ (Rect.block (s := S50000x64) S5000x64.size (cc12_transform_4 i) (hinb12_4 i)).WholeWords (EltTy.packing .f32)
  hstage12_5 : ∀ j, (stage12_5 j).IsWhole
  nbuf12_5 : grid12.bufCount reads12_5 true = 1
  hreads12_5 : ∀ i i' : grid12.Coords, (∀ a, reads12_5 a = true → i a = i' a) → cc12_transform_5 i = cc12_transform_5 i'
  hinb12_5 : ∀ (i : grid12.Coords) a, (cc12_transform_5 i a + 1) * S1x64.size a ≤ S1x64.size a
  hwx12_5 : ∀ i : grid12.Coords, EltTy.bits .f32 = 32 ∨ (Rect.block (s := S1x64) S1x64.size (cc12_transform_5 i) (hinb12_5 i)).WholeWords (EltTy.packing .f32)
  hstage12_6 : ∀ j, (stage12_6 j).IsWhole
  nbuf12_6 : grid12.bufCount reads12_6 true = 1
  hreads12_6 : ∀ i i' : grid12.Coords, (∀ a, reads12_6 a = true → i a = i' a) → cc12_transform_6 i = cc12_transform_6 i'
  hinb12_6 : ∀ (i : grid12.Coords) a, (cc12_transform_6 i a + 1) * S1x64.size a ≤ S1x64.size a
  hwx12_6 : ∀ i : grid12.Coords, EltTy.bits .f32 = 32 ∨ (Rect.block (s := S1x64) S1x64.size (cc12_transform_6 i) (hinb12_6 i)).WholeWords (EltTy.packing .f32)
  hrank13 : 0 < grid13.rank
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S5000x64.size a ≤ S50000x64.size a
  hwx13_0 : ∀ i : grid13.Coords, EltTy.bits .f32 = 32 ∨ (Rect.block (s := S50000x64) S5000x64.size (cc13_transform_0 i) (hinb13_0 i)).WholeWords (EltTy.packing .f32)
  hstage13_1 : ∀ j, (stage13_1 j).IsWhole
  nbuf13_1 : grid13.bufCount reads13_1 true = 1
  hreads13_1 : ∀ i i' : grid13.Coords, (∀ a, reads13_1 a = true → i a = i' a) → cc13_transform_1 i = cc13_transform_1 i'
  hinb13_1 : ∀ (i : grid13.Coords) a, (cc13_transform_1 i a + 1) * S1x64.size a ≤ S1x64.size a
  hwx13_1 : ∀ i : grid13.Coords, EltTy.bits .f32 = 32 ∨ (Rect.block (s := S1x64) S1x64.size (cc13_transform_1 i) (hinb13_1 i)).WholeWords (EltTy.packing .f32)
  hstage13_2 : ∀ j, (stage13_2 j).IsWhole
  nbuf13_2 : grid13.bufCount reads13_2 true = 1
  hreads13_2 : ∀ i i' : grid13.Coords, (∀ a, reads13_2 a = true → i a = i' a) → cc13_transform_2 i = cc13_transform_2 i'
  hinb13_2 : ∀ (i : grid13.Coords) a, (cc13_transform_2 i a + 1) * S1x64.size a ≤ S1x64.size a
  hwx13_2 : ∀ i : grid13.Coords, EltTy.bits .f32 = 32 ∨ (Rect.block (s := S1x64) S1x64.size (cc13_transform_2 i) (hinb13_2 i)).WholeWords (EltTy.packing .f32)
  hstage13_3 : ∀ j, (stage13_3 j).IsWhole
  nbuf13_3 : grid13.bufCount reads13_3 true = 1
  hreads13_3 : ∀ i i' : grid13.Coords, (∀ a, reads13_3 a = true → i a = i' a) → cc13_transform_3 i = cc13_transform_3 i'
  hinb13_3 : ∀ (i : grid13.Coords) a, (cc13_transform_3 i a + 1) * S1x64.size a ≤ S1x64.size a
  hwx13_3 : ∀ i : grid13.Coords, EltTy.bits .f32 = 32 ∨ (Rect.block (s := S1x64) S1x64.size (cc13_transform_3 i) (hinb13_3 i)).WholeWords (EltTy.packing .f32)
  hstage13_4 : ∀ j, (stage13_4 j).IsWhole
  nbuf13_4 : grid13.bufCount reads13_4 true = 1
  hreads13_4 : ∀ i i' : grid13.Coords, (∀ a, reads13_4 a = true → i a = i' a) → cc13_transform_4 i = cc13_transform_4 i'
  hinb13_4 : ∀ (i : grid13.Coords) a, (cc13_transform_4 i a + 1) * S1x64.size a ≤ S1x64.size a
  hwx13_4 : ∀ i : grid13.Coords, EltTy.bits .f32 = 32 ∨ (Rect.block (s := S1x64) S1x64.size (cc13_transform_4 i) (hinb13_4 i)).WholeWords (EltTy.packing .f32)
  hstage13_5 : ∀ j, (stage13_5 j).IsWhole
  nbuf13_5 : grid13.bufCount reads13_5 false = 2
  hreads13_5 : ∀ i i' : grid13.Coords, (∀ a, reads13_5 a = true → i a = i' a) → cc13_transform_5 i = cc13_transform_5 i'
  hinb13_5 : ∀ (i : grid13.Coords) a, (cc13_transform_5 i a + 1) * S5000x64.size a ≤ S50000x64.size a
  hwx13_5 : ∀ i : grid13.Coords, EltTy.bits .f32 = 32 ∨ (Rect.block (s := S50000x64) S5000x64.size (cc13_transform_5 i) (hinb13_5 i)).WholeWords (EltTy.packing .f32)
  hrank14 : 0 < grid14.rank
  hstage14_0 : ∀ j, (stage14_0 j).IsWhole
  nbuf14_0 : grid14.bufCount reads14_0 false = 2
  hreads14_0 : ∀ i i' : grid14.Coords, (∀ a, reads14_0 a = true → i a = i' a) → cc14_transform_0 i = cc14_transform_0 i'
  hinb14_0 : ∀ (i : grid14.Coords) a, (cc14_transform_0 i a + 1) * S5000x64.size a ≤ S50000x64.size a
  hwx14_0 : ∀ i : grid14.Coords, EltTy.bits .f32 = 32 ∨ (Rect.block (s := S50000x64) S5000x64.size (cc14_transform_0 i) (hinb14_0 i)).WholeWords (EltTy.packing .f32)
  hstage14_1 : ∀ j, (stage14_1 j).IsWhole
  nbuf14_1 : grid14.bufCount reads14_1 true = 1
  hreads14_1 : ∀ i i' : grid14.Coords, (∀ a, reads14_1 a = true → i a = i' a) → cc14_transform_1 i = cc14_transform_1 i'
  hinb14_1 : ∀ (i : grid14.Coords) a, (cc14_transform_1 i a + 1) * S64x128.size a ≤ S64x128.size a
  hwx14_1 : ∀ i : grid14.Coords, EltTy.bits .f32 = 32 ∨ (Rect.block (s := S64x128) S64x128.size (cc14_transform_1 i) (hinb14_1 i)).WholeWords (EltTy.packing .f32)
  hstage14_2 : ∀ j, (stage14_2 j).IsWhole
  nbuf14_2 : grid14.bufCount reads14_2 false = 2
  hreads14_2 : ∀ i i' : grid14.Coords, (∀ a, reads14_2 a = true → i a = i' a) → cc14_transform_2 i = cc14_transform_2 i'
  hinb14_2 : ∀ (i : grid14.Coords) a, (cc14_transform_2 i a + 1) * S5000x128.size a ≤ S50000x128.size a
  hwx14_2 : ∀ i : grid14.Coords, EltTy.bits .f32 = 32 ∨ (Rect.block (s := S50000x128) S5000x128.size (cc14_transform_2 i) (hinb14_2 i)).WholeWords (EltTy.packing .f32)
  hstage14_3 : ∀ j, (stage14_3 j).IsWhole
  nbuf14_3 : grid14.bufCount reads14_3 true = 1
  hreads14_3 : ∀ i i' : grid14.Coords, (∀ a, reads14_3 a = true → i a = i' a) → cc14_transform_3 i = cc14_transform_3 i'
  hinb14_3 : ∀ (i : grid14.Coords) a, (cc14_transform_3 i a + 1) * S1x128.size a ≤ S1x128.size a
  hwx14_3 : ∀ i : grid14.Coords, EltTy.bits .f32 = 32 ∨ (Rect.block (s := S1x128) S1x128.size (cc14_transform_3 i) (hinb14_3 i)).WholeWords (EltTy.packing .f32)
  hstage14_4 : ∀ j, (stage14_4 j).IsWhole
  nbuf14_4 : grid14.bufCount reads14_4 true = 1
  hreads14_4 : ∀ i i' : grid14.Coords, (∀ a, reads14_4 a = true → i a = i' a) → cc14_transform_4 i = cc14_transform_4 i'
  hinb14_4 : ∀ (i : grid14.Coords) a, (cc14_transform_4 i a + 1) * S1x128.size a ≤ S1x128.size a
  hwx14_4 : ∀ i : grid14.Coords, EltTy.bits .f32 = 32 ∨ (Rect.block (s := S1x128) S1x128.size (cc14_transform_4 i) (hinb14_4 i)).WholeWords (EltTy.packing .f32)
  hrank15 : 0 < grid15.rank
  hstage15_0 : ∀ j, (stage15_0 j).IsWhole
  nbuf15_0 : grid15.bufCount reads15_0 false = 2
  hreads15_0 : ∀ i i' : grid15.Coords, (∀ a, reads15_0 a = true → i a = i' a) → cc15_transform_0 i = cc15_transform_0 i'
  hinb15_0 : ∀ (i : grid15.Coords) a, (cc15_transform_0 i a + 1) * S5000x128.size a ≤ S50000x128.size a
  hwx15_0 : ∀ i : grid15.Coords, EltTy.bits .f32 = 32 ∨ (Rect.block (s := S50000x128) S5000x128.size (cc15_transform_0 i) (hinb15_0 i)).WholeWords (EltTy.packing .f32)
  hstage15_1 : ∀ j, (stage15_1 j).IsWhole
  nbuf15_1 : grid15.bufCount reads15_1 true = 1
  hreads15_1 : ∀ i i' : grid15.Coords, (∀ a, reads15_1 a = true → i a = i' a) → cc15_transform_1 i = cc15_transform_1 i'
  hinb15_1 : ∀ (i : grid15.Coords) a, (cc15_transform_1 i a + 1) * S1x128.size a ≤ S1x128.size a
  hwx15_1 : ∀ i : grid15.Coords, EltTy.bits .f32 = 32 ∨ (Rect.block (s := S1x128) S1x128.size (cc15_transform_1 i) (hinb15_1 i)).WholeWords (EltTy.packing .f32)
  hstage15_2 : ∀ j, (stage15_2 j).IsWhole
  nbuf15_2 : grid15.bufCount reads15_2 true = 1
  hreads15_2 : ∀ i i' : grid15.Coords, (∀ a, reads15_2 a = true → i a = i' a) → cc15_transform_2 i = cc15_transform_2 i'
  hinb15_2 : ∀ (i : grid15.Coords) a, (cc15_transform_2 i a + 1) * S1x128.size a ≤ S1x128.size a
  hwx15_2 : ∀ i : grid15.Coords, EltTy.bits .f32 = 32 ∨ (Rect.block (s := S1x128) S1x128.size (cc15_transform_2 i) (hinb15_2 i)).WholeWords (EltTy.packing .f32)
  hstage15_3 : ∀ j, (stage15_3 j).IsWhole
  nbuf15_3 : grid15.bufCount reads15_3 true = 1
  hreads15_3 : ∀ i i' : grid15.Coords, (∀ a, reads15_3 a = true → i a = i' a) → cc15_transform_3 i = cc15_transform_3 i'
  hinb15_3 : ∀ (i : grid15.Coords) a, (cc15_transform_3 i a + 1) * S1x128.size a ≤ S1x128.size a
  hwx15_3 : ∀ i : grid15.Coords, EltTy.bits .f32 = 32 ∨ (Rect.block (s := S1x128) S1x128.size (cc15_transform_3 i) (hinb15_3 i)).WholeWords (EltTy.packing .f32)
  hstage15_4 : ∀ j, (stage15_4 j).IsWhole
  nbuf15_4 : grid15.bufCount reads15_4 true = 1
  hreads15_4 : ∀ i i' : grid15.Coords, (∀ a, reads15_4 a = true → i a = i' a) → cc15_transform_4 i = cc15_transform_4 i'
  hinb15_4 : ∀ (i : grid15.Coords) a, (cc15_transform_4 i a + 1) * S1x128.size a ≤ S1x128.size a
  hwx15_4 : ∀ i : grid15.Coords, EltTy.bits .f32 = 32 ∨ (Rect.block (s := S1x128) S1x128.size (cc15_transform_4 i) (hinb15_4 i)).WholeWords (EltTy.packing .f32)
  hstage15_5 : ∀ j, (stage15_5 j).IsWhole
  nbuf15_5 : grid15.bufCount reads15_5 false = 2
  hreads15_5 : ∀ i i' : grid15.Coords, (∀ a, reads15_5 a = true → i a = i' a) → cc15_transform_5 i = cc15_transform_5 i'
  hinb15_5 : ∀ (i : grid15.Coords) a, (cc15_transform_5 i a + 1) * S5000x128.size a ≤ S50000x128.size a
  hwx15_5 : ∀ i : grid15.Coords, EltTy.bits .f32 = 32 ∨ (Rect.block (s := S50000x128) S5000x128.size (cc15_transform_5 i) (hinb15_5 i)).WholeWords (EltTy.packing .f32)
  hrank16 : 0 < grid16.rank
  hstage16_0 : ∀ j, (stage16_0 j).IsWhole
  nbuf16_0 : grid16.bufCount reads16_0 false = 2
  hreads16_0 : ∀ i i' : grid16.Coords, (∀ a, reads16_0 a = true → i a = i' a) → cc16_transform_0 i = cc16_transform_0 i'
  hinb16_0 : ∀ (i : grid16.Coords) a, (cc16_transform_0 i a + 1) * S5000x128.size a ≤ S50000x128.size a
  hwx16_0 : ∀ i : grid16.Coords, EltTy.bits .f32 = 32 ∨ (Rect.block (s := S50000x128) S5000x128.size (cc16_transform_0 i) (hinb16_0 i)).WholeWords (EltTy.packing .f32)
  hstage16_1 : ∀ j, (stage16_1 j).IsWhole
  nbuf16_1 : grid16.bufCount reads16_1 false = 2
  hreads16_1 : ∀ i i' : grid16.Coords, (∀ a, reads16_1 a = true → i a = i' a) → cc16_transform_1 i = cc16_transform_1 i'
  hinb16_1 : ∀ (i : grid16.Coords) a, (cc16_transform_1 i a + 1) * S5000x128.size a ≤ S50000x128.size a
  hwx16_1 : ∀ i : grid16.Coords, EltTy.bits .f32 = 32 ∨ (Rect.block (s := S50000x128) S5000x128.size (cc16_transform_1 i) (hinb16_1 i)).WholeWords (EltTy.packing .f32)
  hstage16_2 : ∀ j, (stage16_2 j).IsWhole
  nbuf16_2 : grid16.bufCount reads16_2 true = 1
  hreads16_2 : ∀ i i' : grid16.Coords, (∀ a, reads16_2 a = true → i a = i' a) → cc16_transform_2 i = cc16_transform_2 i'
  hinb16_2 : ∀ (i : grid16.Coords) a, (cc16_transform_2 i a + 1) * S1x1.size a ≤ S1x1.size a
  hwx16_2 : ∀ i : grid16.Coords, EltTy.bits .f32 = 32 ∨ (Rect.block (s := S1x1) S1x1.size (cc16_transform_2 i) (hinb16_2 i)).WholeWords (EltTy.packing .f32)
  hstage16_3 : ∀ j, (stage16_3 j).IsWhole
  nbuf16_3 : grid16.bufCount reads16_3 true = 1
  hreads16_3 : ∀ i i' : grid16.Coords, (∀ a, reads16_3 a = true → i a = i' a) → cc16_transform_3 i = cc16_transform_3 i'
  hinb16_3 : ∀ (i : grid16.Coords) a, (cc16_transform_3 i a + 1) * S128x64.size a ≤ S128x64.size a
  hwx16_3 : ∀ i : grid16.Coords, EltTy.bits .f32 = 32 ∨ (Rect.block (s := S128x64) S128x64.size (cc16_transform_3 i) (hinb16_3 i)).WholeWords (EltTy.packing .f32)
  hstage16_4 : ∀ j, (stage16_4 j).IsWhole
  nbuf16_4 : grid16.bufCount reads16_4 false = 2
  hreads16_4 : ∀ i i' : grid16.Coords, (∀ a, reads16_4 a = true → i a = i' a) → cc16_transform_4 i = cc16_transform_4 i'
  hinb16_4 : ∀ (i : grid16.Coords) a, (cc16_transform_4 i a + 1) * S5000x64.size a ≤ S50000x64.size a
  hwx16_4 : ∀ i : grid16.Coords, EltTy.bits .f32 = 32 ∨ (Rect.block (s := S50000x64) S5000x64.size (cc16_transform_4 i) (hinb16_4 i)).WholeWords (EltTy.packing .f32)
  hstage16_5 : ∀ j, (stage16_5 j).IsWhole
  nbuf16_5 : grid16.bufCount reads16_5 true = 1
  hreads16_5 : ∀ i i' : grid16.Coords, (∀ a, reads16_5 a = true → i a = i' a) → cc16_transform_5 i = cc16_transform_5 i'
  hinb16_5 : ∀ (i : grid16.Coords) a, (cc16_transform_5 i a + 1) * S1x64.size a ≤ S1x64.size a
  hwx16_5 : ∀ i : grid16.Coords, EltTy.bits .f32 = 32 ∨ (Rect.block (s := S1x64) S1x64.size (cc16_transform_5 i) (hinb16_5 i)).WholeWords (EltTy.packing .f32)
  hstage16_6 : ∀ j, (stage16_6 j).IsWhole
  nbuf16_6 : grid16.bufCount reads16_6 true = 1
  hreads16_6 : ∀ i i' : grid16.Coords, (∀ a, reads16_6 a = true → i a = i' a) → cc16_transform_6 i = cc16_transform_6 i'
  hinb16_6 : ∀ (i : grid16.Coords) a, (cc16_transform_6 i a + 1) * S1x64.size a ≤ S1x64.size a
  hwx16_6 : ∀ i : grid16.Coords, EltTy.bits .f32 = 32 ∨ (Rect.block (s := S1x64) S1x64.size (cc16_transform_6 i) (hinb16_6 i)).WholeWords (EltTy.packing .f32)
  hrank17 : 0 < grid17.rank
  hstage17_0 : ∀ j, (stage17_0 j).IsWhole
  nbuf17_0 : grid17.bufCount reads17_0 false = 2
  hreads17_0 : ∀ i i' : grid17.Coords, (∀ a, reads17_0 a = true → i a = i' a) → cc17_transform_0 i = cc17_transform_0 i'
  hinb17_0 : ∀ (i : grid17.Coords) a, (cc17_transform_0 i a + 1) * S5000x64.size a ≤ S50000x64.size a
  hwx17_0 : ∀ i : grid17.Coords, EltTy.bits .f32 = 32 ∨ (Rect.block (s := S50000x64) S5000x64.size (cc17_transform_0 i) (hinb17_0 i)).WholeWords (EltTy.packing .f32)
  hstage17_1 : ∀ j, (stage17_1 j).IsWhole
  nbuf17_1 : grid17.bufCount reads17_1 true = 1
  hreads17_1 : ∀ i i' : grid17.Coords, (∀ a, reads17_1 a = true → i a = i' a) → cc17_transform_1 i = cc17_transform_1 i'
  hinb17_1 : ∀ (i : grid17.Coords) a, (cc17_transform_1 i a + 1) * S1x64.size a ≤ S1x64.size a
  hwx17_1 : ∀ i : grid17.Coords, EltTy.bits .f32 = 32 ∨ (Rect.block (s := S1x64) S1x64.size (cc17_transform_1 i) (hinb17_1 i)).WholeWords (EltTy.packing .f32)
  hstage17_2 : ∀ j, (stage17_2 j).IsWhole
  nbuf17_2 : grid17.bufCount reads17_2 true = 1
  hreads17_2 : ∀ i i' : grid17.Coords, (∀ a, reads17_2 a = true → i a = i' a) → cc17_transform_2 i = cc17_transform_2 i'
  hinb17_2 : ∀ (i : grid17.Coords) a, (cc17_transform_2 i a + 1) * S1x64.size a ≤ S1x64.size a
  hwx17_2 : ∀ i : grid17.Coords, EltTy.bits .f32 = 32 ∨ (Rect.block (s := S1x64) S1x64.size (cc17_transform_2 i) (hinb17_2 i)).WholeWords (EltTy.packing .f32)
  hstage17_3 : ∀ j, (stage17_3 j).IsWhole
  nbuf17_3 : grid17.bufCount reads17_3 true = 1
  hreads17_3 : ∀ i i' : grid17.Coords, (∀ a, reads17_3 a = true → i a = i' a) → cc17_transform_3 i = cc17_transform_3 i'
  hinb17_3 : ∀ (i : grid17.Coords) a, (cc17_transform_3 i a + 1) * S1x64.size a ≤ S1x64.size a
  hwx17_3 : ∀ i : grid17.Coords, EltTy.bits .f32 = 32 ∨ (Rect.block (s := S1x64) S1x64.size (cc17_transform_3 i) (hinb17_3 i)).WholeWords (EltTy.packing .f32)
  hstage17_4 : ∀ j, (stage17_4 j).IsWhole
  nbuf17_4 : grid17.bufCount reads17_4 true = 1
  hreads17_4 : ∀ i i' : grid17.Coords, (∀ a, reads17_4 a = true → i a = i' a) → cc17_transform_4 i = cc17_transform_4 i'
  hinb17_4 : ∀ (i : grid17.Coords) a, (cc17_transform_4 i a + 1) * S1x64.size a ≤ S1x64.size a
  hwx17_4 : ∀ i : grid17.Coords, EltTy.bits .f32 = 32 ∨ (Rect.block (s := S1x64) S1x64.size (cc17_transform_4 i) (hinb17_4 i)).WholeWords (EltTy.packing .f32)
  hstage17_5 : ∀ j, (stage17_5 j).IsWhole
  nbuf17_5 : grid17.bufCount reads17_5 false = 2
  hreads17_5 : ∀ i i' : grid17.Coords, (∀ a, reads17_5 a = true → i a = i' a) → cc17_transform_5 i = cc17_transform_5 i'
  hinb17_5 : ∀ (i : grid17.Coords) a, (cc17_transform_5 i a + 1) * S5000x64.size a ≤ S50000x64.size a
  hwx17_5 : ∀ i : grid17.Coords, EltTy.bits .f32 = 32 ∨ (Rect.block (s := S50000x64) S5000x64.size (cc17_transform_5 i) (hinb17_5 i)).WholeWords (EltTy.packing .f32)
  hrank18 : 0 < grid18.rank
  hstage18_0 : ∀ j, (stage18_0 j).IsWhole
  nbuf18_0 : grid18.bufCount reads18_0 false = 2
  hreads18_0 : ∀ i i' : grid18.Coords, (∀ a, reads18_0 a = true → i a = i' a) → cc18_transform_0 i = cc18_transform_0 i'
  hinb18_0 : ∀ (i : grid18.Coords) a, (cc18_transform_0 i a + 1) * S5000x64.size a ≤ S50000x64.size a
  hwx18_0 : ∀ i : grid18.Coords, EltTy.bits .f32 = 32 ∨ (Rect.block (s := S50000x64) S5000x64.size (cc18_transform_0 i) (hinb18_0 i)).WholeWords (EltTy.packing .f32)
  hstage18_1 : ∀ j, (stage18_1 j).IsWhole
  nbuf18_1 : grid18.bufCount reads18_1 true = 1
  hreads18_1 : ∀ i i' : grid18.Coords, (∀ a, reads18_1 a = true → i a = i' a) → cc18_transform_1 i = cc18_transform_1 i'
  hinb18_1 : ∀ (i : grid18.Coords) a, (cc18_transform_1 i a + 1) * S64x128.size a ≤ S64x128.size a
  hwx18_1 : ∀ i : grid18.Coords, EltTy.bits .f32 = 32 ∨ (Rect.block (s := S64x128) S64x128.size (cc18_transform_1 i) (hinb18_1 i)).WholeWords (EltTy.packing .f32)
  hstage18_2 : ∀ j, (stage18_2 j).IsWhole
  nbuf18_2 : grid18.bufCount reads18_2 false = 2
  hreads18_2 : ∀ i i' : grid18.Coords, (∀ a, reads18_2 a = true → i a = i' a) → cc18_transform_2 i = cc18_transform_2 i'
  hinb18_2 : ∀ (i : grid18.Coords) a, (cc18_transform_2 i a + 1) * S5000x128.size a ≤ S50000x128.size a
  hwx18_2 : ∀ i : grid18.Coords, EltTy.bits .f32 = 32 ∨ (Rect.block (s := S50000x128) S5000x128.size (cc18_transform_2 i) (hinb18_2 i)).WholeWords (EltTy.packing .f32)
  hstage18_3 : ∀ j, (stage18_3 j).IsWhole
  nbuf18_3 : grid18.bufCount reads18_3 true = 1
  hreads18_3 : ∀ i i' : grid18.Coords, (∀ a, reads18_3 a = true → i a = i' a) → cc18_transform_3 i = cc18_transform_3 i'
  hinb18_3 : ∀ (i : grid18.Coords) a, (cc18_transform_3 i a + 1) * S1x128.size a ≤ S1x128.size a
  hwx18_3 : ∀ i : grid18.Coords, EltTy.bits .f32 = 32 ∨ (Rect.block (s := S1x128) S1x128.size (cc18_transform_3 i) (hinb18_3 i)).WholeWords (EltTy.packing .f32)
  hstage18_4 : ∀ j, (stage18_4 j).IsWhole
  nbuf18_4 : grid18.bufCount reads18_4 true = 1
  hreads18_4 : ∀ i i' : grid18.Coords, (∀ a, reads18_4 a = true → i a = i' a) → cc18_transform_4 i = cc18_transform_4 i'
  hinb18_4 : ∀ (i : grid18.Coords) a, (cc18_transform_4 i a + 1) * S1x128.size a ≤ S1x128.size a
  hwx18_4 : ∀ i : grid18.Coords, EltTy.bits .f32 = 32 ∨ (Rect.block (s := S1x128) S1x128.size (cc18_transform_4 i) (hinb18_4 i)).WholeWords (EltTy.packing .f32)
  hrank19 : 0 < grid19.rank
  hstage19_0 : ∀ j, (stage19_0 j).IsWhole
  nbuf19_0 : grid19.bufCount reads19_0 false = 2
  hreads19_0 : ∀ i i' : grid19.Coords, (∀ a, reads19_0 a = true → i a = i' a) → cc19_transform_0 i = cc19_transform_0 i'
  hinb19_0 : ∀ (i : grid19.Coords) a, (cc19_transform_0 i a + 1) * S5000x128.size a ≤ S50000x128.size a
  hwx19_0 : ∀ i : grid19.Coords, EltTy.bits .f32 = 32 ∨ (Rect.block (s := S50000x128) S5000x128.size (cc19_transform_0 i) (hinb19_0 i)).WholeWords (EltTy.packing .f32)
  hstage19_1 : ∀ j, (stage19_1 j).IsWhole
  nbuf19_1 : grid19.bufCount reads19_1 true = 1
  hreads19_1 : ∀ i i' : grid19.Coords, (∀ a, reads19_1 a = true → i a = i' a) → cc19_transform_1 i = cc19_transform_1 i'
  hinb19_1 : ∀ (i : grid19.Coords) a, (cc19_transform_1 i a + 1) * S1x128.size a ≤ S1x128.size a
  hwx19_1 : ∀ i : grid19.Coords, EltTy.bits .f32 = 32 ∨ (Rect.block (s := S1x128) S1x128.size (cc19_transform_1 i) (hinb19_1 i)).WholeWords (EltTy.packing .f32)
  hstage19_2 : ∀ j, (stage19_2 j).IsWhole
  nbuf19_2 : grid19.bufCount reads19_2 true = 1
  hreads19_2 : ∀ i i' : grid19.Coords, (∀ a, reads19_2 a = true → i a = i' a) → cc19_transform_2 i = cc19_transform_2 i'
  hinb19_2 : ∀ (i : grid19.Coords) a, (cc19_transform_2 i a + 1) * S1x128.size a ≤ S1x128.size a
  hwx19_2 : ∀ i : grid19.Coords, EltTy.bits .f32 = 32 ∨ (Rect.block (s := S1x128) S1x128.size (cc19_transform_2 i) (hinb19_2 i)).WholeWords (EltTy.packing .f32)
  hstage19_3 : ∀ j, (stage19_3 j).IsWhole
  nbuf19_3 : grid19.bufCount reads19_3 true = 1
  hreads19_3 : ∀ i i' : grid19.Coords, (∀ a, reads19_3 a = true → i a = i' a) → cc19_transform_3 i = cc19_transform_3 i'
  hinb19_3 : ∀ (i : grid19.Coords) a, (cc19_transform_3 i a + 1) * S1x128.size a ≤ S1x128.size a
  hwx19_3 : ∀ i : grid19.Coords, EltTy.bits .f32 = 32 ∨ (Rect.block (s := S1x128) S1x128.size (cc19_transform_3 i) (hinb19_3 i)).WholeWords (EltTy.packing .f32)
  hstage19_4 : ∀ j, (stage19_4 j).IsWhole
  nbuf19_4 : grid19.bufCount reads19_4 true = 1
  hreads19_4 : ∀ i i' : grid19.Coords, (∀ a, reads19_4 a = true → i a = i' a) → cc19_transform_4 i = cc19_transform_4 i'
  hinb19_4 : ∀ (i : grid19.Coords) a, (cc19_transform_4 i a + 1) * S1x128.size a ≤ S1x128.size a
  hwx19_4 : ∀ i : grid19.Coords, EltTy.bits .f32 = 32 ∨ (Rect.block (s := S1x128) S1x128.size (cc19_transform_4 i) (hinb19_4 i)).WholeWords (EltTy.packing .f32)
  hstage19_5 : ∀ j, (stage19_5 j).IsWhole
  nbuf19_5 : grid19.bufCount reads19_5 false = 2
  hreads19_5 : ∀ i i' : grid19.Coords, (∀ a, reads19_5 a = true → i a = i' a) → cc19_transform_5 i = cc19_transform_5 i'
  hinb19_5 : ∀ (i : grid19.Coords) a, (cc19_transform_5 i a + 1) * S5000x128.size a ≤ S50000x128.size a
  hwx19_5 : ∀ i : grid19.Coords, EltTy.bits .f32 = 32 ∨ (Rect.block (s := S50000x128) S5000x128.size (cc19_transform_5 i) (hinb19_5 i)).WholeWords (EltTy.packing .f32)
  hrank20 : 0 < grid20.rank
  hstage20_0 : ∀ j, (stage20_0 j).IsWhole
  nbuf20_0 : grid20.bufCount reads20_0 false = 2
  hreads20_0 : ∀ i i' : grid20.Coords, (∀ a, reads20_0 a = true → i a = i' a) → cc20_transform_0 i = cc20_transform_0 i'
  hinb20_0 : ∀ (i : grid20.Coords) a, (cc20_transform_0 i a + 1) * S5000x128.size a ≤ S50000x128.size a
  hwx20_0 : ∀ i : grid20.Coords, EltTy.bits .f32 = 32 ∨ (Rect.block (s := S50000x128) S5000x128.size (cc20_transform_0 i) (hinb20_0 i)).WholeWords (EltTy.packing .f32)
  hstage20_1 : ∀ j, (stage20_1 j).IsWhole
  nbuf20_1 : grid20.bufCount reads20_1 false = 2
  hreads20_1 : ∀ i i' : grid20.Coords, (∀ a, reads20_1 a = true → i a = i' a) → cc20_transform_1 i = cc20_transform_1 i'
  hinb20_1 : ∀ (i : grid20.Coords) a, (cc20_transform_1 i a + 1) * S5000x128.size a ≤ S50000x128.size a
  hwx20_1 : ∀ i : grid20.Coords, EltTy.bits .f32 = 32 ∨ (Rect.block (s := S50000x128) S5000x128.size (cc20_transform_1 i) (hinb20_1 i)).WholeWords (EltTy.packing .f32)
  hstage20_2 : ∀ j, (stage20_2 j).IsWhole
  nbuf20_2 : grid20.bufCount reads20_2 true = 1
  hreads20_2 : ∀ i i' : grid20.Coords, (∀ a, reads20_2 a = true → i a = i' a) → cc20_transform_2 i = cc20_transform_2 i'
  hinb20_2 : ∀ (i : grid20.Coords) a, (cc20_transform_2 i a + 1) * S1x1.size a ≤ S1x1.size a
  hwx20_2 : ∀ i : grid20.Coords, EltTy.bits .f32 = 32 ∨ (Rect.block (s := S1x1) S1x1.size (cc20_transform_2 i) (hinb20_2 i)).WholeWords (EltTy.packing .f32)
  hstage20_3 : ∀ j, (stage20_3 j).IsWhole
  nbuf20_3 : grid20.bufCount reads20_3 true = 1
  hreads20_3 : ∀ i i' : grid20.Coords, (∀ a, reads20_3 a = true → i a = i' a) → cc20_transform_3 i = cc20_transform_3 i'
  hinb20_3 : ∀ (i : grid20.Coords) a, (cc20_transform_3 i a + 1) * S128x64.size a ≤ S128x64.size a
  hwx20_3 : ∀ i : grid20.Coords, EltTy.bits .f32 = 32 ∨ (Rect.block (s := S128x64) S128x64.size (cc20_transform_3 i) (hinb20_3 i)).WholeWords (EltTy.packing .f32)
  hstage20_4 : ∀ j, (stage20_4 j).IsWhole
  nbuf20_4 : grid20.bufCount reads20_4 false = 2
  hreads20_4 : ∀ i i' : grid20.Coords, (∀ a, reads20_4 a = true → i a = i' a) → cc20_transform_4 i = cc20_transform_4 i'
  hinb20_4 : ∀ (i : grid20.Coords) a, (cc20_transform_4 i a + 1) * S5000x64.size a ≤ S50000x64.size a
  hwx20_4 : ∀ i : grid20.Coords, EltTy.bits .f32 = 32 ∨ (Rect.block (s := S50000x64) S5000x64.size (cc20_transform_4 i) (hinb20_4 i)).WholeWords (EltTy.packing .f32)
  hstage20_5 : ∀ j, (stage20_5 j).IsWhole
  nbuf20_5 : grid20.bufCount reads20_5 true = 1
  hreads20_5 : ∀ i i' : grid20.Coords, (∀ a, reads20_5 a = true → i a = i' a) → cc20_transform_5 i = cc20_transform_5 i'
  hinb20_5 : ∀ (i : grid20.Coords) a, (cc20_transform_5 i a + 1) * S1x64.size a ≤ S1x64.size a
  hwx20_5 : ∀ i : grid20.Coords, EltTy.bits .f32 = 32 ∨ (Rect.block (s := S1x64) S1x64.size (cc20_transform_5 i) (hinb20_5 i)).WholeWords (EltTy.packing .f32)
  hstage20_6 : ∀ j, (stage20_6 j).IsWhole
  nbuf20_6 : grid20.bufCount reads20_6 true = 1
  hreads20_6 : ∀ i i' : grid20.Coords, (∀ a, reads20_6 a = true → i a = i' a) → cc20_transform_6 i = cc20_transform_6 i'
  hinb20_6 : ∀ (i : grid20.Coords) a, (cc20_transform_6 i a + 1) * S1x64.size a ≤ S1x64.size a
  hwx20_6 : ∀ i : grid20.Coords, EltTy.bits .f32 = 32 ∨ (Rect.block (s := S1x64) S1x64.size (cc20_transform_6 i) (hinb20_6 i)).WholeWords (EltTy.packing .f32)
  hrank21 : 0 < grid21.rank
  hstage21_0 : ∀ j, (stage21_0 j).IsWhole
  nbuf21_0 : grid21.bufCount reads21_0 false = 2
  hreads21_0 : ∀ i i' : grid21.Coords, (∀ a, reads21_0 a = true → i a = i' a) → cc21_transform_0 i = cc21_transform_0 i'
  hinb21_0 : ∀ (i : grid21.Coords) a, (cc21_transform_0 i a + 1) * S5000x64.size a ≤ S50000x64.size a
  hwx21_0 : ∀ i : grid21.Coords, EltTy.bits .f32 = 32 ∨ (Rect.block (s := S50000x64) S5000x64.size (cc21_transform_0 i) (hinb21_0 i)).WholeWords (EltTy.packing .f32)
  hstage21_1 : ∀ j, (stage21_1 j).IsWhole
  nbuf21_1 : grid21.bufCount reads21_1 true = 1
  hreads21_1 : ∀ i i' : grid21.Coords, (∀ a, reads21_1 a = true → i a = i' a) → cc21_transform_1 i = cc21_transform_1 i'
  hinb21_1 : ∀ (i : grid21.Coords) a, (cc21_transform_1 i a + 1) * S1x64.size a ≤ S1x64.size a
  hwx21_1 : ∀ i : grid21.Coords, EltTy.bits .f32 = 32 ∨ (Rect.block (s := S1x64) S1x64.size (cc21_transform_1 i) (hinb21_1 i)).WholeWords (EltTy.packing .f32)
  hstage21_2 : ∀ j, (stage21_2 j).IsWhole
  nbuf21_2 : grid21.bufCount reads21_2 true = 1
  hreads21_2 : ∀ i i' : grid21.Coords, (∀ a, reads21_2 a = true → i a = i' a) → cc21_transform_2 i = cc21_transform_2 i'
  hinb21_2 : ∀ (i : grid21.Coords) a, (cc21_transform_2 i a + 1) * S1x64.size a ≤ S1x64.size a
  hwx21_2 : ∀ i : grid21.Coords, EltTy.bits .f32 = 32 ∨ (Rect.block (s := S1x64) S1x64.size (cc21_transform_2 i) (hinb21_2 i)).WholeWords (EltTy.packing .f32)
  hstage21_3 : ∀ j, (stage21_3 j).IsWhole
  nbuf21_3 : grid21.bufCount reads21_3 true = 1
  hreads21_3 : ∀ i i' : grid21.Coords, (∀ a, reads21_3 a = true → i a = i' a) → cc21_transform_3 i = cc21_transform_3 i'
  hinb21_3 : ∀ (i : grid21.Coords) a, (cc21_transform_3 i a + 1) * S1x64.size a ≤ S1x64.size a
  hwx21_3 : ∀ i : grid21.Coords, EltTy.bits .f32 = 32 ∨ (Rect.block (s := S1x64) S1x64.size (cc21_transform_3 i) (hinb21_3 i)).WholeWords (EltTy.packing .f32)
  hstage21_4 : ∀ j, (stage21_4 j).IsWhole
  nbuf21_4 : grid21.bufCount reads21_4 true = 1
  hreads21_4 : ∀ i i' : grid21.Coords, (∀ a, reads21_4 a = true → i a = i' a) → cc21_transform_4 i = cc21_transform_4 i'
  hinb21_4 : ∀ (i : grid21.Coords) a, (cc21_transform_4 i a + 1) * S1x64.size a ≤ S1x64.size a
  hwx21_4 : ∀ i : grid21.Coords, EltTy.bits .f32 = 32 ∨ (Rect.block (s := S1x64) S1x64.size (cc21_transform_4 i) (hinb21_4 i)).WholeWords (EltTy.packing .f32)
  hstage21_5 : ∀ j, (stage21_5 j).IsWhole
  nbuf21_5 : grid21.bufCount reads21_5 false = 2
  hreads21_5 : ∀ i i' : grid21.Coords, (∀ a, reads21_5 a = true → i a = i' a) → cc21_transform_5 i = cc21_transform_5 i'
  hinb21_5 : ∀ (i : grid21.Coords) a, (cc21_transform_5 i a + 1) * S5000x64.size a ≤ S50000x64.size a
  hwx21_5 : ∀ i : grid21.Coords, EltTy.bits .f32 = 32 ∨ (Rect.block (s := S50000x64) S5000x64.size (cc21_transform_5 i) (hinb21_5 i)).WholeWords (EltTy.packing .f32)
  hrank22 : 0 < grid22.rank
  hstage22_0 : ∀ j, (stage22_0 j).IsWhole
  nbuf22_0 : grid22.bufCount reads22_0 false = 2
  hreads22_0 : ∀ i i' : grid22.Coords, (∀ a, reads22_0 a = true → i a = i' a) → cc22_transform_0 i = cc22_transform_0 i'
  hinb22_0 : ∀ (i : grid22.Coords) a, (cc22_transform_0 i a + 1) * S5000x64.size a ≤ S50000x64.size a
  hwx22_0 : ∀ i : grid22.Coords, EltTy.bits .f32 = 32 ∨ (Rect.block (s := S50000x64) S5000x64.size (cc22_transform_0 i) (hinb22_0 i)).WholeWords (EltTy.packing .f32)
  hstage22_1 : ∀ j, (stage22_1 j).IsWhole
  nbuf22_1 : grid22.bufCount reads22_1 true = 1
  hreads22_1 : ∀ i i' : grid22.Coords, (∀ a, reads22_1 a = true → i a = i' a) → cc22_transform_1 i = cc22_transform_1 i'
  hinb22_1 : ∀ (i : grid22.Coords) a, (cc22_transform_1 i a + 1) * S64x128.size a ≤ S64x128.size a
  hwx22_1 : ∀ i : grid22.Coords, EltTy.bits .f32 = 32 ∨ (Rect.block (s := S64x128) S64x128.size (cc22_transform_1 i) (hinb22_1 i)).WholeWords (EltTy.packing .f32)
  hstage22_2 : ∀ j, (stage22_2 j).IsWhole
  nbuf22_2 : grid22.bufCount reads22_2 false = 2
  hreads22_2 : ∀ i i' : grid22.Coords, (∀ a, reads22_2 a = true → i a = i' a) → cc22_transform_2 i = cc22_transform_2 i'
  hinb22_2 : ∀ (i : grid22.Coords) a, (cc22_transform_2 i a + 1) * S5000x128.size a ≤ S50000x128.size a
  hwx22_2 : ∀ i : grid22.Coords, EltTy.bits .f32 = 32 ∨ (Rect.block (s := S50000x128) S5000x128.size (cc22_transform_2 i) (hinb22_2 i)).WholeWords (EltTy.packing .f32)
  hstage22_3 : ∀ j, (stage22_3 j).IsWhole
  nbuf22_3 : grid22.bufCount reads22_3 true = 1
  hreads22_3 : ∀ i i' : grid22.Coords, (∀ a, reads22_3 a = true → i a = i' a) → cc22_transform_3 i = cc22_transform_3 i'
  hinb22_3 : ∀ (i : grid22.Coords) a, (cc22_transform_3 i a + 1) * S1x128.size a ≤ S1x128.size a
  hwx22_3 : ∀ i : grid22.Coords, EltTy.bits .f32 = 32 ∨ (Rect.block (s := S1x128) S1x128.size (cc22_transform_3 i) (hinb22_3 i)).WholeWords (EltTy.packing .f32)
  hstage22_4 : ∀ j, (stage22_4 j).IsWhole
  nbuf22_4 : grid22.bufCount reads22_4 true = 1
  hreads22_4 : ∀ i i' : grid22.Coords, (∀ a, reads22_4 a = true → i a = i' a) → cc22_transform_4 i = cc22_transform_4 i'
  hinb22_4 : ∀ (i : grid22.Coords) a, (cc22_transform_4 i a + 1) * S1x128.size a ≤ S1x128.size a
  hwx22_4 : ∀ i : grid22.Coords, EltTy.bits .f32 = 32 ∨ (Rect.block (s := S1x128) S1x128.size (cc22_transform_4 i) (hinb22_4 i)).WholeWords (EltTy.packing .f32)
  hrank23 : 0 < grid23.rank
  hstage23_0 : ∀ j, (stage23_0 j).IsWhole
  nbuf23_0 : grid23.bufCount reads23_0 false = 2
  hreads23_0 : ∀ i i' : grid23.Coords, (∀ a, reads23_0 a = true → i a = i' a) → cc23_transform_0 i = cc23_transform_0 i'
  hinb23_0 : ∀ (i : grid23.Coords) a, (cc23_transform_0 i a + 1) * S5000x128.size a ≤ S50000x128.size a
  hwx23_0 : ∀ i : grid23.Coords, EltTy.bits .f32 = 32 ∨ (Rect.block (s := S50000x128) S5000x128.size (cc23_transform_0 i) (hinb23_0 i)).WholeWords (EltTy.packing .f32)
  hstage23_1 : ∀ j, (stage23_1 j).IsWhole
  nbuf23_1 : grid23.bufCount reads23_1 true = 1
  hreads23_1 : ∀ i i' : grid23.Coords, (∀ a, reads23_1 a = true → i a = i' a) → cc23_transform_1 i = cc23_transform_1 i'
  hinb23_1 : ∀ (i : grid23.Coords) a, (cc23_transform_1 i a + 1) * S1x128.size a ≤ S1x128.size a
  hwx23_1 : ∀ i : grid23.Coords, EltTy.bits .f32 = 32 ∨ (Rect.block (s := S1x128) S1x128.size (cc23_transform_1 i) (hinb23_1 i)).WholeWords (EltTy.packing .f32)
  hstage23_2 : ∀ j, (stage23_2 j).IsWhole
  nbuf23_2 : grid23.bufCount reads23_2 true = 1
  hreads23_2 : ∀ i i' : grid23.Coords, (∀ a, reads23_2 a = true → i a = i' a) → cc23_transform_2 i = cc23_transform_2 i'
  hinb23_2 : ∀ (i : grid23.Coords) a, (cc23_transform_2 i a + 1) * S1x128.size a ≤ S1x128.size a
  hwx23_2 : ∀ i : grid23.Coords, EltTy.bits .f32 = 32 ∨ (Rect.block (s := S1x128) S1x128.size (cc23_transform_2 i) (hinb23_2 i)).WholeWords (EltTy.packing .f32)
  hstage23_3 : ∀ j, (stage23_3 j).IsWhole
  nbuf23_3 : grid23.bufCount reads23_3 true = 1
  hreads23_3 : ∀ i i' : grid23.Coords, (∀ a, reads23_3 a = true → i a = i' a) → cc23_transform_3 i = cc23_transform_3 i'
  hinb23_3 : ∀ (i : grid23.Coords) a, (cc23_transform_3 i a + 1) * S1x128.size a ≤ S1x128.size a
  hwx23_3 : ∀ i : grid23.Coords, EltTy.bits .f32 = 32 ∨ (Rect.block (s := S1x128) S1x128.size (cc23_transform_3 i) (hinb23_3 i)).WholeWords (EltTy.packing .f32)
  hstage23_4 : ∀ j, (stage23_4 j).IsWhole
  nbuf23_4 : grid23.bufCount reads23_4 true = 1
  hreads23_4 : ∀ i i' : grid23.Coords, (∀ a, reads23_4 a = true → i a = i' a) → cc23_transform_4 i = cc23_transform_4 i'
  hinb23_4 : ∀ (i : grid23.Coords) a, (cc23_transform_4 i a + 1) * S1x128.size a ≤ S1x128.size a
  hwx23_4 : ∀ i : grid23.Coords, EltTy.bits .f32 = 32 ∨ (Rect.block (s := S1x128) S1x128.size (cc23_transform_4 i) (hinb23_4 i)).WholeWords (EltTy.packing .f32)
  hstage23_5 : ∀ j, (stage23_5 j).IsWhole
  nbuf23_5 : grid23.bufCount reads23_5 false = 2
  hreads23_5 : ∀ i i' : grid23.Coords, (∀ a, reads23_5 a = true → i a = i' a) → cc23_transform_5 i = cc23_transform_5 i'
  hinb23_5 : ∀ (i : grid23.Coords) a, (cc23_transform_5 i a + 1) * S5000x128.size a ≤ S50000x128.size a
  hwx23_5 : ∀ i : grid23.Coords, EltTy.bits .f32 = 32 ∨ (Rect.block (s := S50000x128) S5000x128.size (cc23_transform_5 i) (hinb23_5 i)).WholeWords (EltTy.packing .f32)
  hrank24 : 0 < grid24.rank
  hstage24_0 : ∀ j, (stage24_0 j).IsWhole
  nbuf24_0 : grid24.bufCount reads24_0 false = 2
  hreads24_0 : ∀ i i' : grid24.Coords, (∀ a, reads24_0 a = true → i a = i' a) → cc24_transform_0 i = cc24_transform_0 i'
  hinb24_0 : ∀ (i : grid24.Coords) a, (cc24_transform_0 i a + 1) * S5000x128.size a ≤ S50000x128.size a
  hwx24_0 : ∀ i : grid24.Coords, EltTy.bits .f32 = 32 ∨ (Rect.block (s := S50000x128) S5000x128.size (cc24_transform_0 i) (hinb24_0 i)).WholeWords (EltTy.packing .f32)
  hstage24_1 : ∀ j, (stage24_1 j).IsWhole
  nbuf24_1 : grid24.bufCount reads24_1 false = 2
  hreads24_1 : ∀ i i' : grid24.Coords, (∀ a, reads24_1 a = true → i a = i' a) → cc24_transform_1 i = cc24_transform_1 i'
  hinb24_1 : ∀ (i : grid24.Coords) a, (cc24_transform_1 i a + 1) * S5000x128.size a ≤ S50000x128.size a
  hwx24_1 : ∀ i : grid24.Coords, EltTy.bits .f32 = 32 ∨ (Rect.block (s := S50000x128) S5000x128.size (cc24_transform_1 i) (hinb24_1 i)).WholeWords (EltTy.packing .f32)
  hstage24_2 : ∀ j, (stage24_2 j).IsWhole
  nbuf24_2 : grid24.bufCount reads24_2 true = 1
  hreads24_2 : ∀ i i' : grid24.Coords, (∀ a, reads24_2 a = true → i a = i' a) → cc24_transform_2 i = cc24_transform_2 i'
  hinb24_2 : ∀ (i : grid24.Coords) a, (cc24_transform_2 i a + 1) * S1x1.size a ≤ S1x1.size a
  hwx24_2 : ∀ i : grid24.Coords, EltTy.bits .f32 = 32 ∨ (Rect.block (s := S1x1) S1x1.size (cc24_transform_2 i) (hinb24_2 i)).WholeWords (EltTy.packing .f32)
  hstage24_3 : ∀ j, (stage24_3 j).IsWhole
  nbuf24_3 : grid24.bufCount reads24_3 true = 1
  hreads24_3 : ∀ i i' : grid24.Coords, (∀ a, reads24_3 a = true → i a = i' a) → cc24_transform_3 i = cc24_transform_3 i'
  hinb24_3 : ∀ (i : grid24.Coords) a, (cc24_transform_3 i a + 1) * S128x64.size a ≤ S128x64.size a
  hwx24_3 : ∀ i : grid24.Coords, EltTy.bits .f32 = 32 ∨ (Rect.block (s := S128x64) S128x64.size (cc24_transform_3 i) (hinb24_3 i)).WholeWords (EltTy.packing .f32)
  hstage24_4 : ∀ j, (stage24_4 j).IsWhole
  nbuf24_4 : grid24.bufCount reads24_4 false = 2
  hreads24_4 : ∀ i i' : grid24.Coords, (∀ a, reads24_4 a = true → i a = i' a) → cc24_transform_4 i = cc24_transform_4 i'
  hinb24_4 : ∀ (i : grid24.Coords) a, (cc24_transform_4 i a + 1) * S5000x64.size a ≤ S50000x64.size a
  hwx24_4 : ∀ i : grid24.Coords, EltTy.bits .f32 = 32 ∨ (Rect.block (s := S50000x64) S5000x64.size (cc24_transform_4 i) (hinb24_4 i)).WholeWords (EltTy.packing .f32)
  hstage24_5 : ∀ j, (stage24_5 j).IsWhole
  nbuf24_5 : grid24.bufCount reads24_5 true = 1
  hreads24_5 : ∀ i i' : grid24.Coords, (∀ a, reads24_5 a = true → i a = i' a) → cc24_transform_5 i = cc24_transform_5 i'
  hinb24_5 : ∀ (i : grid24.Coords) a, (cc24_transform_5 i a + 1) * S1x64.size a ≤ S1x64.size a
  hwx24_5 : ∀ i : grid24.Coords, EltTy.bits .f32 = 32 ∨ (Rect.block (s := S1x64) S1x64.size (cc24_transform_5 i) (hinb24_5 i)).WholeWords (EltTy.packing .f32)
  hstage24_6 : ∀ j, (stage24_6 j).IsWhole
  nbuf24_6 : grid24.bufCount reads24_6 true = 1
  hreads24_6 : ∀ i i' : grid24.Coords, (∀ a, reads24_6 a = true → i a = i' a) → cc24_transform_6 i = cc24_transform_6 i'
  hinb24_6 : ∀ (i : grid24.Coords) a, (cc24_transform_6 i a + 1) * S1x64.size a ≤ S1x64.size a
  hwx24_6 : ∀ i : grid24.Coords, EltTy.bits .f32 = 32 ∨ (Rect.block (s := S1x64) S1x64.size (cc24_transform_6 i) (hinb24_6 i)).WholeWords (EltTy.packing .f32)
  hrank25 : 0 < grid25.rank
  hstage25_0 : ∀ j, (stage25_0 j).IsWhole
  nbuf25_0 : grid25.bufCount reads25_0 false = 2
  hreads25_0 : ∀ i i' : grid25.Coords, (∀ a, reads25_0 a = true → i a = i' a) → cc25_transform_0 i = cc25_transform_0 i'
  hinb25_0 : ∀ (i : grid25.Coords) a, (cc25_transform_0 i a + 1) * S5000x64.size a ≤ S50000x64.size a
  hwx25_0 : ∀ i : grid25.Coords, EltTy.bits .f32 = 32 ∨ (Rect.block (s := S50000x64) S5000x64.size (cc25_transform_0 i) (hinb25_0 i)).WholeWords (EltTy.packing .f32)
  hstage25_1 : ∀ j, (stage25_1 j).IsWhole
  nbuf25_1 : grid25.bufCount reads25_1 true = 1
  hreads25_1 : ∀ i i' : grid25.Coords, (∀ a, reads25_1 a = true → i a = i' a) → cc25_transform_1 i = cc25_transform_1 i'
  hinb25_1 : ∀ (i : grid25.Coords) a, (cc25_transform_1 i a + 1) * S1x64.size a ≤ S1x64.size a
  hwx25_1 : ∀ i : grid25.Coords, EltTy.bits .f32 = 32 ∨ (Rect.block (s := S1x64) S1x64.size (cc25_transform_1 i) (hinb25_1 i)).WholeWords (EltTy.packing .f32)
  hstage25_2 : ∀ j, (stage25_2 j).IsWhole
  nbuf25_2 : grid25.bufCount reads25_2 true = 1
  hreads25_2 : ∀ i i' : grid25.Coords, (∀ a, reads25_2 a = true → i a = i' a) → cc25_transform_2 i = cc25_transform_2 i'
  hinb25_2 : ∀ (i : grid25.Coords) a, (cc25_transform_2 i a + 1) * S1x64.size a ≤ S1x64.size a
  hwx25_2 : ∀ i : grid25.Coords, EltTy.bits .f32 = 32 ∨ (Rect.block (s := S1x64) S1x64.size (cc25_transform_2 i) (hinb25_2 i)).WholeWords (EltTy.packing .f32)
  hstage25_3 : ∀ j, (stage25_3 j).IsWhole
  nbuf25_3 : grid25.bufCount reads25_3 true = 1
  hreads25_3 : ∀ i i' : grid25.Coords, (∀ a, reads25_3 a = true → i a = i' a) → cc25_transform_3 i = cc25_transform_3 i'
  hinb25_3 : ∀ (i : grid25.Coords) a, (cc25_transform_3 i a + 1) * S1x64.size a ≤ S1x64.size a
  hwx25_3 : ∀ i : grid25.Coords, EltTy.bits .f32 = 32 ∨ (Rect.block (s := S1x64) S1x64.size (cc25_transform_3 i) (hinb25_3 i)).WholeWords (EltTy.packing .f32)
  hstage25_4 : ∀ j, (stage25_4 j).IsWhole
  nbuf25_4 : grid25.bufCount reads25_4 true = 1
  hreads25_4 : ∀ i i' : grid25.Coords, (∀ a, reads25_4 a = true → i a = i' a) → cc25_transform_4 i = cc25_transform_4 i'
  hinb25_4 : ∀ (i : grid25.Coords) a, (cc25_transform_4 i a + 1) * S1x64.size a ≤ S1x64.size a
  hwx25_4 : ∀ i : grid25.Coords, EltTy.bits .f32 = 32 ∨ (Rect.block (s := S1x64) S1x64.size (cc25_transform_4 i) (hinb25_4 i)).WholeWords (EltTy.packing .f32)
  hstage25_5 : ∀ j, (stage25_5 j).IsWhole
  nbuf25_5 : grid25.bufCount reads25_5 false = 2
  hreads25_5 : ∀ i i' : grid25.Coords, (∀ a, reads25_5 a = true → i a = i' a) → cc25_transform_5 i = cc25_transform_5 i'
  hinb25_5 : ∀ (i : grid25.Coords) a, (cc25_transform_5 i a + 1) * S5000x64.size a ≤ S50000x64.size a
  hwx25_5 : ∀ i : grid25.Coords, EltTy.bits .f32 = 32 ∨ (Rect.block (s := S50000x64) S5000x64.size (cc25_transform_5 i) (hinb25_5 i)).WholeWords (EltTy.packing .f32)
  hrank26 : 0 < grid26.rank
  hstage26_0 : ∀ j, (stage26_0 j).IsWhole
  nbuf26_0 : grid26.bufCount reads26_0 false = 2
  hreads26_0 : ∀ i i' : grid26.Coords, (∀ a, reads26_0 a = true → i a = i' a) → cc26_transform_0 i = cc26_transform_0 i'
  hinb26_0 : ∀ (i : grid26.Coords) a, (cc26_transform_0 i a + 1) * S5000x64.size a ≤ S50000x64.size a
  hwx26_0 : ∀ i : grid26.Coords, EltTy.bits .f32 = 32 ∨ (Rect.block (s := S50000x64) S5000x64.size (cc26_transform_0 i) (hinb26_0 i)).WholeWords (EltTy.packing .f32)
  hstage26_1 : ∀ j, (stage26_1 j).IsWhole
  nbuf26_1 : grid26.bufCount reads26_1 true = 1
  hreads26_1 : ∀ i i' : grid26.Coords, (∀ a, reads26_1 a = true → i a = i' a) → cc26_transform_1 i = cc26_transform_1 i'
  hinb26_1 : ∀ (i : grid26.Coords) a, (cc26_transform_1 i a + 1) * S64x2.size a ≤ S64x2.size a
  hwx26_1 : ∀ i : grid26.Coords, EltTy.bits .f32 = 32 ∨ (Rect.block (s := S64x2) S64x2.size (cc26_transform_1 i) (hinb26_1 i)).WholeWords (EltTy.packing .f32)
  hstage26_2 : ∀ j, (stage26_2 j).IsWhole
  nbuf26_2 : grid26.bufCount reads26_2 false = 2
  hreads26_2 : ∀ i i' : grid26.Coords, (∀ a, reads26_2 a = true → i a = i' a) → cc26_transform_2 i = cc26_transform_2 i'
  hinb26_2 : ∀ (i : grid26.Coords) a, (cc26_transform_2 i a + 1) * S5000x2.size a ≤ S50000x2.size a
  hwx26_2 : ∀ i : grid26.Coords, EltTy.bits .f32 = 32 ∨ (Rect.block (s := S50000x2) S5000x2.size (cc26_transform_2 i) (hinb26_2 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def dot_S5000x64_S64x2_S5000x2_1_0_0_1_n_n : DotDims S5000x64 S64x2 S5000x2 where
  lhsContracting := [1]
  rhsContracting := [0]
  lhsNonContracting := [0]
  rhsNonContracting := [1]
  lhsBatch := []
  rhsBatch := []
  wf := dot_S5000x64_S64x2_S5000x2_1_0_0_1_n_n_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def scatter_S64x2_S50000x1_S50000x2_1_0_0_1 : ScatterDims S64x2 S50000x1 S50000x2 where
  updateWindowDims := [1]
  insertedWindowDims := [0]
  scatterDimsToOperandDims := [0]
  indexVectorDim := 1
  wf := scatter_S64x2_S50000x1_S50000x2_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v17) S1x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v19) S128x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v20_0) S5000x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v20_1) S1x64.size cc0_transform_5 reads0_5 true true 1 stage0_5 sem0_5
    hrank0 hreads0_5 hinb0_5 nbuf0_5 (Memref.isWhole_whole _) hwx0_5 hstage0_5

abbrev win0_6 : Pipeline.Window sig grid0 :=
  Pipeline.Window.ofSpec (Memref.whole main_v20_2) S1x64.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v20_0) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v22) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v26) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v29) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v32) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v33) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v33) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v35) S64x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v36_0) S5000x128.size cc2_transform_2 reads2_2 true false 2 stage2_2 sem2_2
    hrank2 hreads2_2 hinb2_2 nbuf2_2 (Memref.isWhole_whole _) hwx2_2 hstage2_2

abbrev win2_3 : Pipeline.Window sig grid2 :=
  Pipeline.Window.ofSpec (Memref.whole main_v36_1) S1x128.size cc2_transform_3 reads2_3 true true 1 stage2_3 sem2_3
    hrank2 hreads2_3 hinb2_3 nbuf2_3 (Memref.isWhole_whole _) hwx2_3 hstage2_3

abbrev win2_4 : Pipeline.Window sig grid2 :=
  Pipeline.Window.ofSpec (Memref.whole main_v36_2) S1x128.size cc2_transform_4 reads2_4 true true 1 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v36_0) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v38) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v42) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v45) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v48) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v49) S5000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v49) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v59) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v63) S1x1.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v65) S128x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v66_0) S5000x64.size cc4_transform_4 reads4_4 true false 2 stage4_4 sem4_4
    hrank4 hreads4_4 hinb4_4 nbuf4_4 (Memref.isWhole_whole _) hwx4_4 hstage4_4

abbrev win4_5 : Pipeline.Window sig grid4 :=
  Pipeline.Window.ofSpec (Memref.whole main_v66_1) S1x64.size cc4_transform_5 reads4_5 true true 1 stage4_5 sem4_5
    hrank4 hreads4_5 hinb4_5 nbuf4_5 (Memref.isWhole_whole _) hwx4_5 hstage4_5

abbrev win4_6 : Pipeline.Window sig grid4 :=
  Pipeline.Window.ofSpec (Memref.whole main_v66_2) S1x64.size cc4_transform_6 reads4_6 true true 1 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_v66_0) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v68) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v72) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v75) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v78) S1x64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v79) S5000x64.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v79) S5000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v81) S64x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v82_0) S5000x128.size cc6_transform_2 reads6_2 true false 2 stage6_2 sem6_2
    hrank6 hreads6_2 hinb6_2 nbuf6_2 (Memref.isWhole_whole _) hwx6_2 hstage6_2

abbrev win6_3 : Pipeline.Window sig grid6 :=
  Pipeline.Window.ofSpec (Memref.whole main_v82_1) S1x128.size cc6_transform_3 reads6_3 true true 1 stage6_3 sem6_3
    hrank6 hreads6_3 hinb6_3 nbuf6_3 (Memref.isWhole_whole _) hwx6_3 hstage6_3

abbrev win6_4 : Pipeline.Window sig grid6 :=
  Pipeline.Window.ofSpec (Memref.whole main_v82_2) S1x128.size cc6_transform_4 reads6_4 true true 1 stage6_4 sem6_4
    hrank6 hreads6_4 hinb6_4 nbuf6_4 (Memref.isWhole_whole _) hwx6_4 hstage6_4

abbrev win6 : Fin 5 → Pipeline.Window sig grid6 := fun | 0 => win6_0 | 1 => win6_1 | 2 => win6_2 | 3 => win6_3 | 4 => win6_4 | ⟨_ + 5, h⟩ => absurd h (Nat.not_lt.2 (Nat.le_add_left _ _))
abbrev spec6 : Fin 5 → Pipeline.WinSpec sig grid6.rank := fun w => (win6 w).toWinSpec

abbrev win7_0 : Pipeline.Window sig grid7 :=
  Pipeline.Window.ofSpec (Memref.whole main_v82_0) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v84) S1x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v88) S1x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v91) S1x128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v94) S1x128.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v95) S5000x128.size cc7_transform_5 reads7_5 true false 2 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

abbrev win8_0 : Pipeline.Window sig grid8 :=
  Pipeline.Window.ofSpec (Memref.whole main_v95) S5000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v105) S5000x128.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v109) S1x1.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v111) S128x64.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v112_0) S5000x64.size cc8_transform_4 reads8_4 true false 2 stage8_4 sem8_4
    hrank8 hreads8_4 hinb8_4 nbuf8_4 (Memref.isWhole_whole _) hwx8_4 hstage8_4

abbrev win8_5 : Pipeline.Window sig grid8 :=
  Pipeline.Window.ofSpec (Memref.whole main_v112_1) S1x64.size cc8_transform_5 reads8_5 true true 1 stage8_5 sem8_5
    hrank8 hreads8_5 hinb8_5 nbuf8_5 (Memref.isWhole_whole _) hwx8_5 hstage8_5

abbrev win8_6 : Pipeline.Window sig grid8 :=
  Pipeline.Window.ofSpec (Memref.whole main_v112_2) S1x64.size cc8_transform_6 reads8_6 true true 1 stage8_6 sem8_6
    hrank8 hreads8_6 hinb8_6 nbuf8_6 (Memref.isWhole_whole _) hwx8_6 hstage8_6

abbrev win8 : Fin 7 → Pipeline.Window sig grid8 := fun | 0 => win8_0 | 1 => win8_1 | 2 => win8_2 | 3 => win8_3 | 4 => win8_4 | 5 => win8_5 | 6 => win8_6 | ⟨_ + 7, h⟩ => absurd h (Nat.not_lt.2 (Nat.le_add_left _ _))
abbrev spec8 : Fin 7 → Pipeline.WinSpec sig grid8.rank := fun w => (win8 w).toWinSpec

abbrev win9_0 : Pipeline.Window sig grid9 :=
  Pipeline.Window.ofSpec (Memref.whole main_v112_0) S5000x64.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v114) S1x64.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v118) S1x64.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v121) S1x64.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v124) S1x64.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_v125) S5000x64.size cc9_transform_5 reads9_5 true false 2 stage9_5 sem9_5
    hrank9 hreads9_5 hinb9_5 nbuf9_5 (Memref.isWhole_whole _) hwx9_5 hstage9_5

abbrev win9 : Fin 6 → Pipeline.Window sig grid9 := fun | 0 => win9_0 | 1 => win9_1 | 2 => win9_2 | 3 => win9_3 | 4 => win9_4 | 5 => win9_5 | ⟨_ + 6, h⟩ => absurd h (Nat.not_lt.2 (Nat.le_add_left _ _))
abbrev spec9 : Fin 6 → Pipeline.WinSpec sig grid9.rank := fun w => (win9 w).toWinSpec

abbrev win10_0 : Pipeline.Window sig grid10 :=
  Pipeline.Window.ofSpec (Memref.whole main_v125) S5000x64.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v127) S64x128.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v128_0) S5000x128.size cc10_transform_2 reads10_2 true false 2 stage10_2 sem10_2
    hrank10 hreads10_2 hinb10_2 nbuf10_2 (Memref.isWhole_whole _) hwx10_2 hstage10_2

abbrev win10_3 : Pipeline.Window sig grid10 :=
  Pipeline.Window.ofSpec (Memref.whole main_v128_1) S1x128.size cc10_transform_3 reads10_3 true true 1 stage10_3 sem10_3
    hrank10 hreads10_3 hinb10_3 nbuf10_3 (Memref.isWhole_whole _) hwx10_3 hstage10_3

abbrev win10_4 : Pipeline.Window sig grid10 :=
  Pipeline.Window.ofSpec (Memref.whole main_v128_2) S1x128.size cc10_transform_4 reads10_4 true true 1 stage10_4 sem10_4
    hrank10 hreads10_4 hinb10_4 nbuf10_4 (Memref.isWhole_whole _) hwx10_4 hstage10_4

abbrev win10 : Fin 5 → Pipeline.Window sig grid10 := fun | 0 => win10_0 | 1 => win10_1 | 2 => win10_2 | 3 => win10_3 | 4 => win10_4 | ⟨_ + 5, h⟩ => absurd h (Nat.not_lt.2 (Nat.le_add_left _ _))
abbrev spec10 : Fin 5 → Pipeline.WinSpec sig grid10.rank := fun w => (win10 w).toWinSpec

abbrev win11_0 : Pipeline.Window sig grid11 :=
  Pipeline.Window.ofSpec (Memref.whole main_v128_0) S5000x128.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v130) S1x128.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_v134) S1x128.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v137) S1x128.size cc11_transform_3 reads11_3 false true 1 stage11_3 sem11_3
    hrank11 hreads11_3 hinb11_3 nbuf11_3 (Memref.isWhole_whole _) hwx11_3 hstage11_3

abbrev win11_4 : Pipeline.Window sig grid11 :=
  Pipeline.Window.ofSpec (Memref.whole main_v140) S1x128.size cc11_transform_4 reads11_4 false true 1 stage11_4 sem11_4
    hrank11 hreads11_4 hinb11_4 nbuf11_4 (Memref.isWhole_whole _) hwx11_4 hstage11_4

abbrev win11_5 : Pipeline.Window sig grid11 :=
  Pipeline.Window.ofSpec (Memref.whole main_v141) S5000x128.size cc11_transform_5 reads11_5 true false 2 stage11_5 sem11_5
    hrank11 hreads11_5 hinb11_5 nbuf11_5 (Memref.isWhole_whole _) hwx11_5 hstage11_5

abbrev win11 : Fin 6 → Pipeline.Window sig grid11 := fun | 0 => win11_0 | 1 => win11_1 | 2 => win11_2 | 3 => win11_3 | 4 => win11_4 | 5 => win11_5 | ⟨_ + 6, h⟩ => absurd h (Nat.not_lt.2 (Nat.le_add_left _ _))
abbrev spec11 : Fin 6 → Pipeline.WinSpec sig grid11.rank := fun w => (win11 w).toWinSpec

abbrev win12_0 : Pipeline.Window sig grid12 :=
  Pipeline.Window.ofSpec (Memref.whole main_v141) S5000x128.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v151) S5000x128.size cc12_transform_1 reads12_1 false false 2 stage12_1 sem12_1
    hrank12 hreads12_1 hinb12_1 nbuf12_1 (Memref.isWhole_whole _) hwx12_1 hstage12_1

abbrev win12_2 : Pipeline.Window sig grid12 :=
  Pipeline.Window.ofSpec (Memref.whole main_v155) S1x1.size cc12_transform_2 reads12_2 false true 1 stage12_2 sem12_2
    hrank12 hreads12_2 hinb12_2 nbuf12_2 (Memref.isWhole_whole _) hwx12_2 hstage12_2

abbrev win12_3 : Pipeline.Window sig grid12 :=
  Pipeline.Window.ofSpec (Memref.whole main_v157) S128x64.size cc12_transform_3 reads12_3 false true 1 stage12_3 sem12_3
    hrank12 hreads12_3 hinb12_3 nbuf12_3 (Memref.isWhole_whole _) hwx12_3 hstage12_3

abbrev win12_4 : Pipeline.Window sig grid12 :=
  Pipeline.Window.ofSpec (Memref.whole main_v158_0) S5000x64.size cc12_transform_4 reads12_4 true false 2 stage12_4 sem12_4
    hrank12 hreads12_4 hinb12_4 nbuf12_4 (Memref.isWhole_whole _) hwx12_4 hstage12_4

abbrev win12_5 : Pipeline.Window sig grid12 :=
  Pipeline.Window.ofSpec (Memref.whole main_v158_1) S1x64.size cc12_transform_5 reads12_5 true true 1 stage12_5 sem12_5
    hrank12 hreads12_5 hinb12_5 nbuf12_5 (Memref.isWhole_whole _) hwx12_5 hstage12_5

abbrev win12_6 : Pipeline.Window sig grid12 :=
  Pipeline.Window.ofSpec (Memref.whole main_v158_2) S1x64.size cc12_transform_6 reads12_6 true true 1 stage12_6 sem12_6
    hrank12 hreads12_6 hinb12_6 nbuf12_6 (Memref.isWhole_whole _) hwx12_6 hstage12_6

abbrev win12 : Fin 7 → Pipeline.Window sig grid12 := fun | 0 => win12_0 | 1 => win12_1 | 2 => win12_2 | 3 => win12_3 | 4 => win12_4 | 5 => win12_5 | 6 => win12_6 | ⟨_ + 7, h⟩ => absurd h (Nat.not_lt.2 (Nat.le_add_left _ _))
abbrev spec12 : Fin 7 → Pipeline.WinSpec sig grid12.rank := fun w => (win12 w).toWinSpec

abbrev win13_0 : Pipeline.Window sig grid13 :=
  Pipeline.Window.ofSpec (Memref.whole main_v158_0) S5000x64.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_v160) S1x64.size cc13_transform_1 reads13_1 false true 1 stage13_1 sem13_1
    hrank13 hreads13_1 hinb13_1 nbuf13_1 (Memref.isWhole_whole _) hwx13_1 hstage13_1

abbrev win13_2 : Pipeline.Window sig grid13 :=
  Pipeline.Window.ofSpec (Memref.whole main_v164) S1x64.size cc13_transform_2 reads13_2 false true 1 stage13_2 sem13_2
    hrank13 hreads13_2 hinb13_2 nbuf13_2 (Memref.isWhole_whole _) hwx13_2 hstage13_2

abbrev win13_3 : Pipeline.Window sig grid13 :=
  Pipeline.Window.ofSpec (Memref.whole main_v167) S1x64.size cc13_transform_3 reads13_3 false true 1 stage13_3 sem13_3
    hrank13 hreads13_3 hinb13_3 nbuf13_3 (Memref.isWhole_whole _) hwx13_3 hstage13_3

abbrev win13_4 : Pipeline.Window sig grid13 :=
  Pipeline.Window.ofSpec (Memref.whole main_v170) S1x64.size cc13_transform_4 reads13_4 false true 1 stage13_4 sem13_4
    hrank13 hreads13_4 hinb13_4 nbuf13_4 (Memref.isWhole_whole _) hwx13_4 hstage13_4

abbrev win13_5 : Pipeline.Window sig grid13 :=
  Pipeline.Window.ofSpec (Memref.whole main_v171) S5000x64.size cc13_transform_5 reads13_5 true false 2 stage13_5 sem13_5
    hrank13 hreads13_5 hinb13_5 nbuf13_5 (Memref.isWhole_whole _) hwx13_5 hstage13_5

abbrev win13 : Fin 6 → Pipeline.Window sig grid13 := fun | 0 => win13_0 | 1 => win13_1 | 2 => win13_2 | 3 => win13_3 | 4 => win13_4 | 5 => win13_5 | ⟨_ + 6, h⟩ => absurd h (Nat.not_lt.2 (Nat.le_add_left _ _))
abbrev spec13 : Fin 6 → Pipeline.WinSpec sig grid13.rank := fun w => (win13 w).toWinSpec

abbrev win14_0 : Pipeline.Window sig grid14 :=
  Pipeline.Window.ofSpec (Memref.whole main_v171) S5000x64.size cc14_transform_0 reads14_0 false false 2 stage14_0 sem14_0
    hrank14 hreads14_0 hinb14_0 nbuf14_0 (Memref.isWhole_whole _) hwx14_0 hstage14_0

abbrev win14_1 : Pipeline.Window sig grid14 :=
  Pipeline.Window.ofSpec (Memref.whole main_v173) S64x128.size cc14_transform_1 reads14_1 false true 1 stage14_1 sem14_1
    hrank14 hreads14_1 hinb14_1 nbuf14_1 (Memref.isWhole_whole _) hwx14_1 hstage14_1

abbrev win14_2 : Pipeline.Window sig grid14 :=
  Pipeline.Window.ofSpec (Memref.whole main_v174_0) S5000x128.size cc14_transform_2 reads14_2 true false 2 stage14_2 sem14_2
    hrank14 hreads14_2 hinb14_2 nbuf14_2 (Memref.isWhole_whole _) hwx14_2 hstage14_2

abbrev win14_3 : Pipeline.Window sig grid14 :=
  Pipeline.Window.ofSpec (Memref.whole main_v174_1) S1x128.size cc14_transform_3 reads14_3 true true 1 stage14_3 sem14_3
    hrank14 hreads14_3 hinb14_3 nbuf14_3 (Memref.isWhole_whole _) hwx14_3 hstage14_3

abbrev win14_4 : Pipeline.Window sig grid14 :=
  Pipeline.Window.ofSpec (Memref.whole main_v174_2) S1x128.size cc14_transform_4 reads14_4 true true 1 stage14_4 sem14_4
    hrank14 hreads14_4 hinb14_4 nbuf14_4 (Memref.isWhole_whole _) hwx14_4 hstage14_4

abbrev win14 : Fin 5 → Pipeline.Window sig grid14 := fun | 0 => win14_0 | 1 => win14_1 | 2 => win14_2 | 3 => win14_3 | 4 => win14_4 | ⟨_ + 5, h⟩ => absurd h (Nat.not_lt.2 (Nat.le_add_left _ _))
abbrev spec14 : Fin 5 → Pipeline.WinSpec sig grid14.rank := fun w => (win14 w).toWinSpec

abbrev win15_0 : Pipeline.Window sig grid15 :=
  Pipeline.Window.ofSpec (Memref.whole main_v174_0) S5000x128.size cc15_transform_0 reads15_0 false false 2 stage15_0 sem15_0
    hrank15 hreads15_0 hinb15_0 nbuf15_0 (Memref.isWhole_whole _) hwx15_0 hstage15_0

abbrev win15_1 : Pipeline.Window sig grid15 :=
  Pipeline.Window.ofSpec (Memref.whole main_v176) S1x128.size cc15_transform_1 reads15_1 false true 1 stage15_1 sem15_1
    hrank15 hreads15_1 hinb15_1 nbuf15_1 (Memref.isWhole_whole _) hwx15_1 hstage15_1

abbrev win15_2 : Pipeline.Window sig grid15 :=
  Pipeline.Window.ofSpec (Memref.whole main_v180) S1x128.size cc15_transform_2 reads15_2 false true 1 stage15_2 sem15_2
    hrank15 hreads15_2 hinb15_2 nbuf15_2 (Memref.isWhole_whole _) hwx15_2 hstage15_2

abbrev win15_3 : Pipeline.Window sig grid15 :=
  Pipeline.Window.ofSpec (Memref.whole main_v183) S1x128.size cc15_transform_3 reads15_3 false true 1 stage15_3 sem15_3
    hrank15 hreads15_3 hinb15_3 nbuf15_3 (Memref.isWhole_whole _) hwx15_3 hstage15_3

abbrev win15_4 : Pipeline.Window sig grid15 :=
  Pipeline.Window.ofSpec (Memref.whole main_v186) S1x128.size cc15_transform_4 reads15_4 false true 1 stage15_4 sem15_4
    hrank15 hreads15_4 hinb15_4 nbuf15_4 (Memref.isWhole_whole _) hwx15_4 hstage15_4

abbrev win15_5 : Pipeline.Window sig grid15 :=
  Pipeline.Window.ofSpec (Memref.whole main_v187) S5000x128.size cc15_transform_5 reads15_5 true false 2 stage15_5 sem15_5
    hrank15 hreads15_5 hinb15_5 nbuf15_5 (Memref.isWhole_whole _) hwx15_5 hstage15_5

abbrev win15 : Fin 6 → Pipeline.Window sig grid15 := fun | 0 => win15_0 | 1 => win15_1 | 2 => win15_2 | 3 => win15_3 | 4 => win15_4 | 5 => win15_5 | ⟨_ + 6, h⟩ => absurd h (Nat.not_lt.2 (Nat.le_add_left _ _))
abbrev spec15 : Fin 6 → Pipeline.WinSpec sig grid15.rank := fun w => (win15 w).toWinSpec

abbrev win16_0 : Pipeline.Window sig grid16 :=
  Pipeline.Window.ofSpec (Memref.whole main_v187) S5000x128.size cc16_transform_0 reads16_0 false false 2 stage16_0 sem16_0
    hrank16 hreads16_0 hinb16_0 nbuf16_0 (Memref.isWhole_whole _) hwx16_0 hstage16_0

abbrev win16_1 : Pipeline.Window sig grid16 :=
  Pipeline.Window.ofSpec (Memref.whole main_v197) S5000x128.size cc16_transform_1 reads16_1 false false 2 stage16_1 sem16_1
    hrank16 hreads16_1 hinb16_1 nbuf16_1 (Memref.isWhole_whole _) hwx16_1 hstage16_1

abbrev win16_2 : Pipeline.Window sig grid16 :=
  Pipeline.Window.ofSpec (Memref.whole main_v201) S1x1.size cc16_transform_2 reads16_2 false true 1 stage16_2 sem16_2
    hrank16 hreads16_2 hinb16_2 nbuf16_2 (Memref.isWhole_whole _) hwx16_2 hstage16_2

abbrev win16_3 : Pipeline.Window sig grid16 :=
  Pipeline.Window.ofSpec (Memref.whole main_v203) S128x64.size cc16_transform_3 reads16_3 false true 1 stage16_3 sem16_3
    hrank16 hreads16_3 hinb16_3 nbuf16_3 (Memref.isWhole_whole _) hwx16_3 hstage16_3

abbrev win16_4 : Pipeline.Window sig grid16 :=
  Pipeline.Window.ofSpec (Memref.whole main_v204_0) S5000x64.size cc16_transform_4 reads16_4 true false 2 stage16_4 sem16_4
    hrank16 hreads16_4 hinb16_4 nbuf16_4 (Memref.isWhole_whole _) hwx16_4 hstage16_4

abbrev win16_5 : Pipeline.Window sig grid16 :=
  Pipeline.Window.ofSpec (Memref.whole main_v204_1) S1x64.size cc16_transform_5 reads16_5 true true 1 stage16_5 sem16_5
    hrank16 hreads16_5 hinb16_5 nbuf16_5 (Memref.isWhole_whole _) hwx16_5 hstage16_5

abbrev win16_6 : Pipeline.Window sig grid16 :=
  Pipeline.Window.ofSpec (Memref.whole main_v204_2) S1x64.size cc16_transform_6 reads16_6 true true 1 stage16_6 sem16_6
    hrank16 hreads16_6 hinb16_6 nbuf16_6 (Memref.isWhole_whole _) hwx16_6 hstage16_6

abbrev win16 : Fin 7 → Pipeline.Window sig grid16 := fun | 0 => win16_0 | 1 => win16_1 | 2 => win16_2 | 3 => win16_3 | 4 => win16_4 | 5 => win16_5 | 6 => win16_6 | ⟨_ + 7, h⟩ => absurd h (Nat.not_lt.2 (Nat.le_add_left _ _))
abbrev spec16 : Fin 7 → Pipeline.WinSpec sig grid16.rank := fun w => (win16 w).toWinSpec

abbrev win17_0 : Pipeline.Window sig grid17 :=
  Pipeline.Window.ofSpec (Memref.whole main_v204_0) S5000x64.size cc17_transform_0 reads17_0 false false 2 stage17_0 sem17_0
    hrank17 hreads17_0 hinb17_0 nbuf17_0 (Memref.isWhole_whole _) hwx17_0 hstage17_0

abbrev win17_1 : Pipeline.Window sig grid17 :=
  Pipeline.Window.ofSpec (Memref.whole main_v206) S1x64.size cc17_transform_1 reads17_1 false true 1 stage17_1 sem17_1
    hrank17 hreads17_1 hinb17_1 nbuf17_1 (Memref.isWhole_whole _) hwx17_1 hstage17_1

abbrev win17_2 : Pipeline.Window sig grid17 :=
  Pipeline.Window.ofSpec (Memref.whole main_v210) S1x64.size cc17_transform_2 reads17_2 false true 1 stage17_2 sem17_2
    hrank17 hreads17_2 hinb17_2 nbuf17_2 (Memref.isWhole_whole _) hwx17_2 hstage17_2

abbrev win17_3 : Pipeline.Window sig grid17 :=
  Pipeline.Window.ofSpec (Memref.whole main_v213) S1x64.size cc17_transform_3 reads17_3 false true 1 stage17_3 sem17_3
    hrank17 hreads17_3 hinb17_3 nbuf17_3 (Memref.isWhole_whole _) hwx17_3 hstage17_3

abbrev win17_4 : Pipeline.Window sig grid17 :=
  Pipeline.Window.ofSpec (Memref.whole main_v216) S1x64.size cc17_transform_4 reads17_4 false true 1 stage17_4 sem17_4
    hrank17 hreads17_4 hinb17_4 nbuf17_4 (Memref.isWhole_whole _) hwx17_4 hstage17_4

abbrev win17_5 : Pipeline.Window sig grid17 :=
  Pipeline.Window.ofSpec (Memref.whole main_v217) S5000x64.size cc17_transform_5 reads17_5 true false 2 stage17_5 sem17_5
    hrank17 hreads17_5 hinb17_5 nbuf17_5 (Memref.isWhole_whole _) hwx17_5 hstage17_5

abbrev win17 : Fin 6 → Pipeline.Window sig grid17 := fun | 0 => win17_0 | 1 => win17_1 | 2 => win17_2 | 3 => win17_3 | 4 => win17_4 | 5 => win17_5 | ⟨_ + 6, h⟩ => absurd h (Nat.not_lt.2 (Nat.le_add_left _ _))
abbrev spec17 : Fin 6 → Pipeline.WinSpec sig grid17.rank := fun w => (win17 w).toWinSpec

abbrev win18_0 : Pipeline.Window sig grid18 :=
  Pipeline.Window.ofSpec (Memref.whole main_v217) S5000x64.size cc18_transform_0 reads18_0 false false 2 stage18_0 sem18_0
    hrank18 hreads18_0 hinb18_0 nbuf18_0 (Memref.isWhole_whole _) hwx18_0 hstage18_0

abbrev win18_1 : Pipeline.Window sig grid18 :=
  Pipeline.Window.ofSpec (Memref.whole main_v219) S64x128.size cc18_transform_1 reads18_1 false true 1 stage18_1 sem18_1
    hrank18 hreads18_1 hinb18_1 nbuf18_1 (Memref.isWhole_whole _) hwx18_1 hstage18_1

abbrev win18_2 : Pipeline.Window sig grid18 :=
  Pipeline.Window.ofSpec (Memref.whole main_v220_0) S5000x128.size cc18_transform_2 reads18_2 true false 2 stage18_2 sem18_2
    hrank18 hreads18_2 hinb18_2 nbuf18_2 (Memref.isWhole_whole _) hwx18_2 hstage18_2

abbrev win18_3 : Pipeline.Window sig grid18 :=
  Pipeline.Window.ofSpec (Memref.whole main_v220_1) S1x128.size cc18_transform_3 reads18_3 true true 1 stage18_3 sem18_3
    hrank18 hreads18_3 hinb18_3 nbuf18_3 (Memref.isWhole_whole _) hwx18_3 hstage18_3

abbrev win18_4 : Pipeline.Window sig grid18 :=
  Pipeline.Window.ofSpec (Memref.whole main_v220_2) S1x128.size cc18_transform_4 reads18_4 true true 1 stage18_4 sem18_4
    hrank18 hreads18_4 hinb18_4 nbuf18_4 (Memref.isWhole_whole _) hwx18_4 hstage18_4

abbrev win18 : Fin 5 → Pipeline.Window sig grid18 := fun | 0 => win18_0 | 1 => win18_1 | 2 => win18_2 | 3 => win18_3 | 4 => win18_4 | ⟨_ + 5, h⟩ => absurd h (Nat.not_lt.2 (Nat.le_add_left _ _))
abbrev spec18 : Fin 5 → Pipeline.WinSpec sig grid18.rank := fun w => (win18 w).toWinSpec

abbrev win19_0 : Pipeline.Window sig grid19 :=
  Pipeline.Window.ofSpec (Memref.whole main_v220_0) S5000x128.size cc19_transform_0 reads19_0 false false 2 stage19_0 sem19_0
    hrank19 hreads19_0 hinb19_0 nbuf19_0 (Memref.isWhole_whole _) hwx19_0 hstage19_0

abbrev win19_1 : Pipeline.Window sig grid19 :=
  Pipeline.Window.ofSpec (Memref.whole main_v222) S1x128.size cc19_transform_1 reads19_1 false true 1 stage19_1 sem19_1
    hrank19 hreads19_1 hinb19_1 nbuf19_1 (Memref.isWhole_whole _) hwx19_1 hstage19_1

abbrev win19_2 : Pipeline.Window sig grid19 :=
  Pipeline.Window.ofSpec (Memref.whole main_v226) S1x128.size cc19_transform_2 reads19_2 false true 1 stage19_2 sem19_2
    hrank19 hreads19_2 hinb19_2 nbuf19_2 (Memref.isWhole_whole _) hwx19_2 hstage19_2

abbrev win19_3 : Pipeline.Window sig grid19 :=
  Pipeline.Window.ofSpec (Memref.whole main_v229) S1x128.size cc19_transform_3 reads19_3 false true 1 stage19_3 sem19_3
    hrank19 hreads19_3 hinb19_3 nbuf19_3 (Memref.isWhole_whole _) hwx19_3 hstage19_3

abbrev win19_4 : Pipeline.Window sig grid19 :=
  Pipeline.Window.ofSpec (Memref.whole main_v232) S1x128.size cc19_transform_4 reads19_4 false true 1 stage19_4 sem19_4
    hrank19 hreads19_4 hinb19_4 nbuf19_4 (Memref.isWhole_whole _) hwx19_4 hstage19_4

abbrev win19_5 : Pipeline.Window sig grid19 :=
  Pipeline.Window.ofSpec (Memref.whole main_v233) S5000x128.size cc19_transform_5 reads19_5 true false 2 stage19_5 sem19_5
    hrank19 hreads19_5 hinb19_5 nbuf19_5 (Memref.isWhole_whole _) hwx19_5 hstage19_5

abbrev win19 : Fin 6 → Pipeline.Window sig grid19 := fun | 0 => win19_0 | 1 => win19_1 | 2 => win19_2 | 3 => win19_3 | 4 => win19_4 | 5 => win19_5 | ⟨_ + 6, h⟩ => absurd h (Nat.not_lt.2 (Nat.le_add_left _ _))
abbrev spec19 : Fin 6 → Pipeline.WinSpec sig grid19.rank := fun w => (win19 w).toWinSpec

abbrev win20_0 : Pipeline.Window sig grid20 :=
  Pipeline.Window.ofSpec (Memref.whole main_v233) S5000x128.size cc20_transform_0 reads20_0 false false 2 stage20_0 sem20_0
    hrank20 hreads20_0 hinb20_0 nbuf20_0 (Memref.isWhole_whole _) hwx20_0 hstage20_0

abbrev win20_1 : Pipeline.Window sig grid20 :=
  Pipeline.Window.ofSpec (Memref.whole main_v243) S5000x128.size cc20_transform_1 reads20_1 false false 2 stage20_1 sem20_1
    hrank20 hreads20_1 hinb20_1 nbuf20_1 (Memref.isWhole_whole _) hwx20_1 hstage20_1

abbrev win20_2 : Pipeline.Window sig grid20 :=
  Pipeline.Window.ofSpec (Memref.whole main_v247) S1x1.size cc20_transform_2 reads20_2 false true 1 stage20_2 sem20_2
    hrank20 hreads20_2 hinb20_2 nbuf20_2 (Memref.isWhole_whole _) hwx20_2 hstage20_2

abbrev win20_3 : Pipeline.Window sig grid20 :=
  Pipeline.Window.ofSpec (Memref.whole main_v249) S128x64.size cc20_transform_3 reads20_3 false true 1 stage20_3 sem20_3
    hrank20 hreads20_3 hinb20_3 nbuf20_3 (Memref.isWhole_whole _) hwx20_3 hstage20_3

abbrev win20_4 : Pipeline.Window sig grid20 :=
  Pipeline.Window.ofSpec (Memref.whole main_v250_0) S5000x64.size cc20_transform_4 reads20_4 true false 2 stage20_4 sem20_4
    hrank20 hreads20_4 hinb20_4 nbuf20_4 (Memref.isWhole_whole _) hwx20_4 hstage20_4

abbrev win20_5 : Pipeline.Window sig grid20 :=
  Pipeline.Window.ofSpec (Memref.whole main_v250_1) S1x64.size cc20_transform_5 reads20_5 true true 1 stage20_5 sem20_5
    hrank20 hreads20_5 hinb20_5 nbuf20_5 (Memref.isWhole_whole _) hwx20_5 hstage20_5

abbrev win20_6 : Pipeline.Window sig grid20 :=
  Pipeline.Window.ofSpec (Memref.whole main_v250_2) S1x64.size cc20_transform_6 reads20_6 true true 1 stage20_6 sem20_6
    hrank20 hreads20_6 hinb20_6 nbuf20_6 (Memref.isWhole_whole _) hwx20_6 hstage20_6

abbrev win20 : Fin 7 → Pipeline.Window sig grid20 := fun | 0 => win20_0 | 1 => win20_1 | 2 => win20_2 | 3 => win20_3 | 4 => win20_4 | 5 => win20_5 | 6 => win20_6 | ⟨_ + 7, h⟩ => absurd h (Nat.not_lt.2 (Nat.le_add_left _ _))
abbrev spec20 : Fin 7 → Pipeline.WinSpec sig grid20.rank := fun w => (win20 w).toWinSpec

abbrev win21_0 : Pipeline.Window sig grid21 :=
  Pipeline.Window.ofSpec (Memref.whole main_v250_0) S5000x64.size cc21_transform_0 reads21_0 false false 2 stage21_0 sem21_0
    hrank21 hreads21_0 hinb21_0 nbuf21_0 (Memref.isWhole_whole _) hwx21_0 hstage21_0

abbrev win21_1 : Pipeline.Window sig grid21 :=
  Pipeline.Window.ofSpec (Memref.whole main_v252) S1x64.size cc21_transform_1 reads21_1 false true 1 stage21_1 sem21_1
    hrank21 hreads21_1 hinb21_1 nbuf21_1 (Memref.isWhole_whole _) hwx21_1 hstage21_1

abbrev win21_2 : Pipeline.Window sig grid21 :=
  Pipeline.Window.ofSpec (Memref.whole main_v256) S1x64.size cc21_transform_2 reads21_2 false true 1 stage21_2 sem21_2
    hrank21 hreads21_2 hinb21_2 nbuf21_2 (Memref.isWhole_whole _) hwx21_2 hstage21_2

abbrev win21_3 : Pipeline.Window sig grid21 :=
  Pipeline.Window.ofSpec (Memref.whole main_v259) S1x64.size cc21_transform_3 reads21_3 false true 1 stage21_3 sem21_3
    hrank21 hreads21_3 hinb21_3 nbuf21_3 (Memref.isWhole_whole _) hwx21_3 hstage21_3

abbrev win21_4 : Pipeline.Window sig grid21 :=
  Pipeline.Window.ofSpec (Memref.whole main_v262) S1x64.size cc21_transform_4 reads21_4 false true 1 stage21_4 sem21_4
    hrank21 hreads21_4 hinb21_4 nbuf21_4 (Memref.isWhole_whole _) hwx21_4 hstage21_4

abbrev win21_5 : Pipeline.Window sig grid21 :=
  Pipeline.Window.ofSpec (Memref.whole main_v263) S5000x64.size cc21_transform_5 reads21_5 true false 2 stage21_5 sem21_5
    hrank21 hreads21_5 hinb21_5 nbuf21_5 (Memref.isWhole_whole _) hwx21_5 hstage21_5

abbrev win21 : Fin 6 → Pipeline.Window sig grid21 := fun | 0 => win21_0 | 1 => win21_1 | 2 => win21_2 | 3 => win21_3 | 4 => win21_4 | 5 => win21_5 | ⟨_ + 6, h⟩ => absurd h (Nat.not_lt.2 (Nat.le_add_left _ _))
abbrev spec21 : Fin 6 → Pipeline.WinSpec sig grid21.rank := fun w => (win21 w).toWinSpec

abbrev win22_0 : Pipeline.Window sig grid22 :=
  Pipeline.Window.ofSpec (Memref.whole main_v263) S5000x64.size cc22_transform_0 reads22_0 false false 2 stage22_0 sem22_0
    hrank22 hreads22_0 hinb22_0 nbuf22_0 (Memref.isWhole_whole _) hwx22_0 hstage22_0

abbrev win22_1 : Pipeline.Window sig grid22 :=
  Pipeline.Window.ofSpec (Memref.whole main_v265) S64x128.size cc22_transform_1 reads22_1 false true 1 stage22_1 sem22_1
    hrank22 hreads22_1 hinb22_1 nbuf22_1 (Memref.isWhole_whole _) hwx22_1 hstage22_1

abbrev win22_2 : Pipeline.Window sig grid22 :=
  Pipeline.Window.ofSpec (Memref.whole main_v266_0) S5000x128.size cc22_transform_2 reads22_2 true false 2 stage22_2 sem22_2
    hrank22 hreads22_2 hinb22_2 nbuf22_2 (Memref.isWhole_whole _) hwx22_2 hstage22_2

abbrev win22_3 : Pipeline.Window sig grid22 :=
  Pipeline.Window.ofSpec (Memref.whole main_v266_1) S1x128.size cc22_transform_3 reads22_3 true true 1 stage22_3 sem22_3
    hrank22 hreads22_3 hinb22_3 nbuf22_3 (Memref.isWhole_whole _) hwx22_3 hstage22_3

abbrev win22_4 : Pipeline.Window sig grid22 :=
  Pipeline.Window.ofSpec (Memref.whole main_v266_2) S1x128.size cc22_transform_4 reads22_4 true true 1 stage22_4 sem22_4
    hrank22 hreads22_4 hinb22_4 nbuf22_4 (Memref.isWhole_whole _) hwx22_4 hstage22_4

abbrev win22 : Fin 5 → Pipeline.Window sig grid22 := fun | 0 => win22_0 | 1 => win22_1 | 2 => win22_2 | 3 => win22_3 | 4 => win22_4 | ⟨_ + 5, h⟩ => absurd h (Nat.not_lt.2 (Nat.le_add_left _ _))
abbrev spec22 : Fin 5 → Pipeline.WinSpec sig grid22.rank := fun w => (win22 w).toWinSpec

abbrev win23_0 : Pipeline.Window sig grid23 :=
  Pipeline.Window.ofSpec (Memref.whole main_v266_0) S5000x128.size cc23_transform_0 reads23_0 false false 2 stage23_0 sem23_0
    hrank23 hreads23_0 hinb23_0 nbuf23_0 (Memref.isWhole_whole _) hwx23_0 hstage23_0

abbrev win23_1 : Pipeline.Window sig grid23 :=
  Pipeline.Window.ofSpec (Memref.whole main_v268) S1x128.size cc23_transform_1 reads23_1 false true 1 stage23_1 sem23_1
    hrank23 hreads23_1 hinb23_1 nbuf23_1 (Memref.isWhole_whole _) hwx23_1 hstage23_1

abbrev win23_2 : Pipeline.Window sig grid23 :=
  Pipeline.Window.ofSpec (Memref.whole main_v272) S1x128.size cc23_transform_2 reads23_2 false true 1 stage23_2 sem23_2
    hrank23 hreads23_2 hinb23_2 nbuf23_2 (Memref.isWhole_whole _) hwx23_2 hstage23_2

abbrev win23_3 : Pipeline.Window sig grid23 :=
  Pipeline.Window.ofSpec (Memref.whole main_v275) S1x128.size cc23_transform_3 reads23_3 false true 1 stage23_3 sem23_3
    hrank23 hreads23_3 hinb23_3 nbuf23_3 (Memref.isWhole_whole _) hwx23_3 hstage23_3

abbrev win23_4 : Pipeline.Window sig grid23 :=
  Pipeline.Window.ofSpec (Memref.whole main_v278) S1x128.size cc23_transform_4 reads23_4 false true 1 stage23_4 sem23_4
    hrank23 hreads23_4 hinb23_4 nbuf23_4 (Memref.isWhole_whole _) hwx23_4 hstage23_4

abbrev win23_5 : Pipeline.Window sig grid23 :=
  Pipeline.Window.ofSpec (Memref.whole main_v279) S5000x128.size cc23_transform_5 reads23_5 true false 2 stage23_5 sem23_5
    hrank23 hreads23_5 hinb23_5 nbuf23_5 (Memref.isWhole_whole _) hwx23_5 hstage23_5

abbrev win23 : Fin 6 → Pipeline.Window sig grid23 := fun | 0 => win23_0 | 1 => win23_1 | 2 => win23_2 | 3 => win23_3 | 4 => win23_4 | 5 => win23_5 | ⟨_ + 6, h⟩ => absurd h (Nat.not_lt.2 (Nat.le_add_left _ _))
abbrev spec23 : Fin 6 → Pipeline.WinSpec sig grid23.rank := fun w => (win23 w).toWinSpec

abbrev win24_0 : Pipeline.Window sig grid24 :=
  Pipeline.Window.ofSpec (Memref.whole main_v279) S5000x128.size cc24_transform_0 reads24_0 false false 2 stage24_0 sem24_0
    hrank24 hreads24_0 hinb24_0 nbuf24_0 (Memref.isWhole_whole _) hwx24_0 hstage24_0

abbrev win24_1 : Pipeline.Window sig grid24 :=
  Pipeline.Window.ofSpec (Memref.whole main_v289) S5000x128.size cc24_transform_1 reads24_1 false false 2 stage24_1 sem24_1
    hrank24 hreads24_1 hinb24_1 nbuf24_1 (Memref.isWhole_whole _) hwx24_1 hstage24_1

abbrev win24_2 : Pipeline.Window sig grid24 :=
  Pipeline.Window.ofSpec (Memref.whole main_v293) S1x1.size cc24_transform_2 reads24_2 false true 1 stage24_2 sem24_2
    hrank24 hreads24_2 hinb24_2 nbuf24_2 (Memref.isWhole_whole _) hwx24_2 hstage24_2

abbrev win24_3 : Pipeline.Window sig grid24 :=
  Pipeline.Window.ofSpec (Memref.whole main_v295) S128x64.size cc24_transform_3 reads24_3 false true 1 stage24_3 sem24_3
    hrank24 hreads24_3 hinb24_3 nbuf24_3 (Memref.isWhole_whole _) hwx24_3 hstage24_3

abbrev win24_4 : Pipeline.Window sig grid24 :=
  Pipeline.Window.ofSpec (Memref.whole main_v296_0) S5000x64.size cc24_transform_4 reads24_4 true false 2 stage24_4 sem24_4
    hrank24 hreads24_4 hinb24_4 nbuf24_4 (Memref.isWhole_whole _) hwx24_4 hstage24_4

abbrev win24_5 : Pipeline.Window sig grid24 :=
  Pipeline.Window.ofSpec (Memref.whole main_v296_1) S1x64.size cc24_transform_5 reads24_5 true true 1 stage24_5 sem24_5
    hrank24 hreads24_5 hinb24_5 nbuf24_5 (Memref.isWhole_whole _) hwx24_5 hstage24_5

abbrev win24_6 : Pipeline.Window sig grid24 :=
  Pipeline.Window.ofSpec (Memref.whole main_v296_2) S1x64.size cc24_transform_6 reads24_6 true true 1 stage24_6 sem24_6
    hrank24 hreads24_6 hinb24_6 nbuf24_6 (Memref.isWhole_whole _) hwx24_6 hstage24_6

abbrev win24 : Fin 7 → Pipeline.Window sig grid24 := fun | 0 => win24_0 | 1 => win24_1 | 2 => win24_2 | 3 => win24_3 | 4 => win24_4 | 5 => win24_5 | 6 => win24_6 | ⟨_ + 7, h⟩ => absurd h (Nat.not_lt.2 (Nat.le_add_left _ _))
abbrev spec24 : Fin 7 → Pipeline.WinSpec sig grid24.rank := fun w => (win24 w).toWinSpec

abbrev win25_0 : Pipeline.Window sig grid25 :=
  Pipeline.Window.ofSpec (Memref.whole main_v296_0) S5000x64.size cc25_transform_0 reads25_0 false false 2 stage25_0 sem25_0
    hrank25 hreads25_0 hinb25_0 nbuf25_0 (Memref.isWhole_whole _) hwx25_0 hstage25_0

abbrev win25_1 : Pipeline.Window sig grid25 :=
  Pipeline.Window.ofSpec (Memref.whole main_v298) S1x64.size cc25_transform_1 reads25_1 false true 1 stage25_1 sem25_1
    hrank25 hreads25_1 hinb25_1 nbuf25_1 (Memref.isWhole_whole _) hwx25_1 hstage25_1

abbrev win25_2 : Pipeline.Window sig grid25 :=
  Pipeline.Window.ofSpec (Memref.whole main_v302) S1x64.size cc25_transform_2 reads25_2 false true 1 stage25_2 sem25_2
    hrank25 hreads25_2 hinb25_2 nbuf25_2 (Memref.isWhole_whole _) hwx25_2 hstage25_2

abbrev win25_3 : Pipeline.Window sig grid25 :=
  Pipeline.Window.ofSpec (Memref.whole main_v305) S1x64.size cc25_transform_3 reads25_3 false true 1 stage25_3 sem25_3
    hrank25 hreads25_3 hinb25_3 nbuf25_3 (Memref.isWhole_whole _) hwx25_3 hstage25_3

abbrev win25_4 : Pipeline.Window sig grid25 :=
  Pipeline.Window.ofSpec (Memref.whole main_v308) S1x64.size cc25_transform_4 reads25_4 false true 1 stage25_4 sem25_4
    hrank25 hreads25_4 hinb25_4 nbuf25_4 (Memref.isWhole_whole _) hwx25_4 hstage25_4

abbrev win25_5 : Pipeline.Window sig grid25 :=
  Pipeline.Window.ofSpec (Memref.whole main_v309) S5000x64.size cc25_transform_5 reads25_5 true false 2 stage25_5 sem25_5
    hrank25 hreads25_5 hinb25_5 nbuf25_5 (Memref.isWhole_whole _) hwx25_5 hstage25_5

abbrev win25 : Fin 6 → Pipeline.Window sig grid25 := fun | 0 => win25_0 | 1 => win25_1 | 2 => win25_2 | 3 => win25_3 | 4 => win25_4 | 5 => win25_5 | ⟨_ + 6, h⟩ => absurd h (Nat.not_lt.2 (Nat.le_add_left _ _))
abbrev spec25 : Fin 6 → Pipeline.WinSpec sig grid25.rank := fun w => (win25 w).toWinSpec

abbrev win26_0 : Pipeline.Window sig grid26 :=
  Pipeline.Window.ofSpec (Memref.whole main_v309) S5000x64.size cc26_transform_0 reads26_0 false false 2 stage26_0 sem26_0
    hrank26 hreads26_0 hinb26_0 nbuf26_0 (Memref.isWhole_whole _) hwx26_0 hstage26_0

abbrev win26_1 : Pipeline.Window sig grid26 :=
  Pipeline.Window.ofSpec (Memref.whole main_arg10) S64x2.size cc26_transform_1 reads26_1 false true 1 stage26_1 sem26_1
    hrank26 hreads26_1 hinb26_1 nbuf26_1 (Memref.isWhole_whole _) hwx26_1 hstage26_1

abbrev win26_2 : Pipeline.Window sig grid26 :=
  Pipeline.Window.ofSpec (Memref.whole main_v310) S5000x2.size cc26_transform_2 reads26_2 true false 2 stage26_2 sem26_2
    hrank26 hreads26_2 hinb26_2 nbuf26_2 (Memref.isWhole_whole _) hwx26_2 hstage26_2

abbrev win26 : Fin 3 → Pipeline.Window sig grid26 := fun | 0 => win26_0 | 1 => win26_1 | 2 => win26_2 | ⟨_ + 3, h⟩ => absurd h (Nat.not_lt.2 (Nat.le_add_left _ _))
abbrev spec26 : Fin 3 → Pipeline.WinSpec sig grid26.rank := fun w => (win26 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000 : Shape := ⟨1, ![800000]⟩
abbrev S50000 : Shape := ⟨1, ![50000]⟩
abbrev S7x128x64 : Shape := ⟨3, ![7, 128, 64]⟩
abbrev S7x64 : Shape := ⟨2, ![7, 64]⟩
abbrev S6x64x128 : Shape := ⟨3, ![6, 64, 128]⟩
abbrev S6x128 : Shape := ⟨2, ![6, 128]⟩
abbrev S64x2 : Shape := ⟨2, ![64, 2]⟩
abbrev S7 : Shape := ⟨1, ![7]⟩
abbrev S1x800000 : Shape := ⟨2, ![1, 800000]⟩
abbrev S_ : Shape := ⟨0, ![]⟩
abbrev S800000x1 : Shape := ⟨2, ![800000, 1]⟩
abbrev S800000x128 : Shape := ⟨2, ![800000, 128]⟩
abbrev S1 : Shape := ⟨1, ![1]⟩
abbrev S1x128x64 : Shape := ⟨3, ![1, 128, 64]⟩
abbrev S128x64 : Shape := ⟨2, ![128, 64]⟩
abbrev S50000x64 : Shape := ⟨2, ![50000, 64]⟩
abbrev S1x64 : Shape := ⟨2, ![1, 64]⟩
abbrev S64 : Shape := ⟨1, ![64]⟩
abbrev S1x64x128 : Shape := ⟨3, ![1, 64, 128]⟩
abbrev S64x128 : Shape := ⟨2, ![64, 128]⟩
abbrev S1x128 : Shape := ⟨2, ![1, 128]⟩
abbrev S128 : Shape := ⟨1, ![128]⟩
abbrev S50000x2 : Shape := ⟨2, ![50000, 2]⟩
abbrev S50000x1 : Shape := ⟨2, ![50000, 1]⟩
abbrev S64x1 : Shape := ⟨2, ![64, 1]⟩

abbrev nBuf : Space → Nat
  | .hbm => 878
  | .vmem => 0
  | .smem => 0
  | _ => 0

abbrev hbmTy0_0 (i : Nat) : BufTy := match i % 128 with
  | 0 => ⟨S50000x128, .f32⟩
  | 1 => ⟨S2x800000, .i32⟩
  | 2 => ⟨S800000, .f32⟩
  | 3 => ⟨S50000, .i32⟩
  | 4 => ⟨S7x128x64, .f32⟩
  | 5 => ⟨S7x64, .f32⟩
  | 6 => ⟨S7x64, .f32⟩
  | 7 => ⟨S6x64x128, .f32⟩
  | 8 => ⟨S6x128, .f32⟩
  | 9 => ⟨S6x128, .f32⟩
  | 10 => ⟨S64x2, .f32⟩
  | 11 => ⟨S7, .f32⟩
  | 12 => ⟨S1x800000, .i32⟩
  | 13 => ⟨S800000, .i32⟩
  | 14 => ⟨S1x800000, .i32⟩
  | 15 => ⟨S800000, .i32⟩
  | 16 => ⟨S_, .i32⟩
  | 17 => ⟨S800000, .i32⟩
  | 18 => ⟨S800000, .i1⟩
  | 19 => ⟨S_, .i32⟩
  | 20 => ⟨S800000, .i32⟩
  | 21 => ⟨S800000, .i32⟩
  | 22 => ⟨S800000, .i32⟩
  | 23 => ⟨S800000x1, .i32⟩
  | 24 => ⟨S800000x128, .f32⟩
  | 25 => ⟨S_, .f32⟩
  | 26 => ⟨S50000x128, .f32⟩
  | 27 => ⟨S800000x1, .i32⟩
  | 28 => ⟨S50000x128, .f32⟩
  | 29 => ⟨S1, .f32⟩
  | 30 => ⟨S_, .f32⟩
  | 31 => ⟨S_, .f32⟩
  | 32 => ⟨S_, .f32⟩
  | 33 => ⟨S50000x128, .f32⟩
  | 34 => ⟨S50000x128, .f32⟩
  | 35 => ⟨S50000x128, .f32⟩
  | 36 => ⟨S1x128x64, .f32⟩
  | 37 => ⟨S128x64, .f32⟩
  | 38 => ⟨S50000x64, .f32⟩
  | 39 => ⟨S1x64, .f32⟩
  | 40 => ⟨S64, .f32⟩
  | 41 => ⟨S1x64, .f32⟩
  | 42 => ⟨S64, .f32⟩
  | 43 => ⟨S_, .f32⟩
  | 44 => ⟨S64, .f32⟩
  | 45 => ⟨S_, .f32⟩
  | 46 => ⟨S64, .f32⟩
  | 47 => ⟨S64, .f32⟩
  | 48 => ⟨S_, .i32⟩
  | 49 => ⟨S_, .f32⟩
  | 50 => ⟨S64, .f32⟩
  | 51 => ⟨S1x64, .f32⟩
  | 52 => ⟨S_, .f32⟩
  | 53 => ⟨S1x64, .f32⟩
  | 54 => ⟨S1x64, .f32⟩
  | 55 => ⟨S50000x64, .f32⟩
  | 56 => ⟨S50000x64, .f32⟩
  | 57 => ⟨S50000x64, .f32⟩
  | 58 => ⟨S_, .f32⟩
  | 59 => ⟨S_, .f32⟩
  | 60 => ⟨S_, .f32⟩
  | 61 => ⟨S_, .f32⟩
  | 62 => ⟨S64, .f32⟩
  | 63 => ⟨S64, .f32⟩
  | 64 => ⟨S64, .f32⟩
  | 65 => ⟨S_, .f32⟩
  | 66 => ⟨S_, .i1⟩
  | 67 => ⟨S_, .f32⟩
  | 68 => ⟨S_, .f32⟩
  | 69 => ⟨S64, .f32⟩
  | 70 => ⟨S64, .f32⟩
  | 71 => ⟨S1x64, .f32⟩
  | 72 => ⟨S50000x64, .f32⟩
  | 73 => ⟨S50000x64, .f32⟩
  | 74 => ⟨S1x64, .f32⟩
  | 75 => ⟨S50000x64, .f32⟩
  | 76 => ⟨S50000x64, .f32⟩
  | 77 => ⟨S_, .f32⟩
  | 78 => ⟨S64, .f32⟩
  | 79 => ⟨S64, .f32⟩
  | 80 => ⟨S64, .f32⟩
  | 81 => ⟨S1x64, .f32⟩
  | 82 => ⟨S50000x64, .f32⟩
  | 83 => ⟨S50000x64, .f32⟩
  | 84 => ⟨S1x64, .f32⟩
  | 85 => ⟨S50000x64, .f32⟩
  | 86 => ⟨S50000x64, .f32⟩
  | 87 => ⟨S_, .f32⟩
  | 88 => ⟨S50000x64, .f32⟩
  | 89 => ⟨S50000x64, .f32⟩
  | 90 => ⟨S1x64x128, .f32⟩
  | 91 => ⟨S64x128, .f32⟩
  | 92 => ⟨S50000x128, .f32⟩
  | 93 => ⟨S1x128, .f32⟩
  | 94 => ⟨S128, .f32⟩
  | 95 => ⟨S1x128, .f32⟩
  | 96 => ⟨S128, .f32⟩
  | 97 => ⟨S_, .f32⟩
  | 98 => ⟨S128, .f32⟩
  | 99 => ⟨S_, .f32⟩
  | 100 => ⟨S128, .f32⟩
  | 101 => ⟨S128, .f32⟩
  | 102 => ⟨S_, .i32⟩
  | 103 => ⟨S_, .f32⟩
  | 104 => ⟨S128, .f32⟩
  | 105 => ⟨S1x128, .f32⟩
  | 106 => ⟨S_, .f32⟩
  | 107 => ⟨S1x128, .f32⟩
  | 108 => ⟨S1x128, .f32⟩
  | 109 => ⟨S50000x128, .f32⟩
  | 110 => ⟨S50000x128, .f32⟩
  | 111 => ⟨S50000x128, .f32⟩
  | 112 => ⟨S_, .f32⟩
  | 113 => ⟨S_, .f32⟩
  | 114 => ⟨S_, .f32⟩
  | 115 => ⟨S_, .f32⟩
  | 116 => ⟨S128, .f32⟩
  | 117 => ⟨S128, .f32⟩
  | 118 => ⟨S128, .f32⟩
  | 119 => ⟨S_, .f32⟩
  | 120 => ⟨S_, .i1⟩
  | 121 => ⟨S_, .f32⟩
  | 122 => ⟨S_, .f32⟩
  | 123 => ⟨S128, .f32⟩
  | 124 => ⟨S128, .f32⟩
  | 125 => ⟨S1x128, .f32⟩
  | 126 => ⟨S50000x128, .f32⟩
  | 127 => ⟨S50000x128, .f32⟩
  | _ => ⟨S50000x128, .f32⟩

abbrev hbmTy0_1 (i : Nat) : BufTy := match i % 128 with
  | 0 => ⟨S1x128, .f32⟩
  | 1 => ⟨S50000x128, .f32⟩
  | 2 => ⟨S50000x128, .f32⟩
  | 3 => ⟨S_, .f32⟩
  | 4 => ⟨S128, .f32⟩
  | 5 => ⟨S128, .f32⟩
  | 6 => ⟨S128, .f32⟩
  | 7 => ⟨S1x128, .f32⟩
  | 8 => ⟨S50000x128, .f32⟩
  | 9 => ⟨S50000x128, .f32⟩
  | 10 => ⟨S1x128, .f32⟩
  | 11 => ⟨S50000x128, .f32⟩
  | 12 => ⟨S50000x128, .f32⟩
  | 13 => ⟨S_, .f32⟩
  | 14 => ⟨S50000x128, .f32⟩
  | 15 => ⟨S50000x128, .f32⟩
  | 16 => ⟨S_, .i32⟩
  | 17 => ⟨S800000, .i32⟩
  | 18 => ⟨S800000, .i1⟩
  | 19 => ⟨S_, .i32⟩
  | 20 => ⟨S800000, .i32⟩
  | 21 => ⟨S800000, .i32⟩
  | 22 => ⟨S800000, .i32⟩
  | 23 => ⟨S800000x1, .i32⟩
  | 24 => ⟨S800000x128, .f32⟩
  | 25 => ⟨S_, .f32⟩
  | 26 => ⟨S50000x128, .f32⟩
  | 27 => ⟨S800000x1, .i32⟩
  | 28 => ⟨S50000x128, .f32⟩
  | 29 => ⟨S1, .f32⟩
  | 30 => ⟨S_, .f32⟩
  | 31 => ⟨S_, .f32⟩
  | 32 => ⟨S_, .f32⟩
  | 33 => ⟨S50000x128, .f32⟩
  | 34 => ⟨S50000x128, .f32⟩
  | 35 => ⟨S50000x128, .f32⟩
  | 36 => ⟨S1x128x64, .f32⟩
  | 37 => ⟨S128x64, .f32⟩
  | 38 => ⟨S50000x64, .f32⟩
  | 39 => ⟨S1x64, .f32⟩
  | 40 => ⟨S64, .f32⟩
  | 41 => ⟨S1x64, .f32⟩
  | 42 => ⟨S64, .f32⟩
  | 43 => ⟨S_, .f32⟩
  | 44 => ⟨S64, .f32⟩
  | 45 => ⟨S_, .f32⟩
  | 46 => ⟨S64, .f32⟩
  | 47 => ⟨S64, .f32⟩
  | 48 => ⟨S_, .i32⟩
  | 49 => ⟨S_, .f32⟩
  | 50 => ⟨S64, .f32⟩
  | 51 => ⟨S1x64, .f32⟩
  | 52 => ⟨S_, .f32⟩
  | 53 => ⟨S1x64, .f32⟩
  | 54 => ⟨S1x64, .f32⟩
  | 55 => ⟨S50000x64, .f32⟩
  | 56 => ⟨S50000x64, .f32⟩
  | 57 => ⟨S50000x64, .f32⟩
  | 58 => ⟨S_, .f32⟩
  | 59 => ⟨S_, .f32⟩
  | 60 => ⟨S_, .f32⟩
  | 61 => ⟨S_, .f32⟩
  | 62 => ⟨S64, .f32⟩
  | 63 => ⟨S64, .f32⟩
  | 64 => ⟨S64, .f32⟩
  | 65 => ⟨S_, .f32⟩
  | 66 => ⟨S_, .i1⟩
  | 67 => ⟨S_, .f32⟩
  | 68 => ⟨S_, .f32⟩
  | 69 => ⟨S64, .f32⟩
  | 70 => ⟨S64, .f32⟩
  | 71 => ⟨S1x64, .f32⟩
  | 72 => ⟨S50000x64, .f32⟩
  | 73 => ⟨S50000x64, .f32⟩
  | 74 => ⟨S1x64, .f32⟩
  | 75 => ⟨S50000x64, .f32⟩
  | 76 => ⟨S50000x64, .f32⟩
  | 77 => ⟨S_, .f32⟩
  | 78 => ⟨S64, .f32⟩
  | 79 => ⟨S64, .f32⟩
  | 80 => ⟨S64, .f32⟩
  | 81 => ⟨S1x64, .f32⟩
  | 82 => ⟨S50000x64, .f32⟩
  | 83 => ⟨S50000x64, .f32⟩
  | 84 => ⟨S1x64, .f32⟩
  | 85 => ⟨S50000x64, .f32⟩
  | 86 => ⟨S50000x64, .f32⟩
  | 87 => ⟨S_, .f32⟩
  | 88 => ⟨S50000x64, .f32⟩
  | 89 => ⟨S50000x64, .f32⟩
  | 90 => ⟨S1x64x128, .f32⟩
  | 91 => ⟨S64x128, .f32⟩
  | 92 => ⟨S50000x128, .f32⟩
  | 93 => ⟨S1x128, .f32⟩
  | 94 => ⟨S128, .f32⟩
  | 95 => ⟨S1x128, .f32⟩
  | 96 => ⟨S128, .f32⟩
  | 97 => ⟨S_, .f32⟩
  | 98 => ⟨S128, .f32⟩
  | 99 => ⟨S_, .f32⟩
  | 100 => ⟨S128, .f32⟩
  | 101 => ⟨S128, .f32⟩
  | 102 => ⟨S_, .i32⟩
  | 103 => ⟨S_, .f32⟩
  | 104 => ⟨S128, .f32⟩
  | 105 => ⟨S1x128, .f32⟩
  | 106 => ⟨S_, .f32⟩
  | 107 => ⟨S1x128, .f32⟩
  | 108 => ⟨S1x128, .f32⟩
  | 109 => ⟨S50000x128, .f32⟩
  | 110 => ⟨S50000x128, .f32⟩
  | 111 => ⟨S50000x128, .f32⟩
  | 112 => ⟨S_, .f32⟩
  | 113 => ⟨S_, .f32⟩
  | 114 => ⟨S_, .f32⟩
  | 115 => ⟨S_, .f32⟩
  | 116 => ⟨S128, .f32⟩
  | 117 => ⟨S128, .f32⟩
  | 118 => ⟨S128, .f32⟩
  | 119 => ⟨S_, .f32⟩
  | 120 => ⟨S_, .i1⟩
  | 121 => ⟨S_, .f32⟩
  | 122 => ⟨S_, .f32⟩
  | 123 => ⟨S128, .f32⟩
  | 124 => ⟨S128, .f32⟩
  | 125 => ⟨S1x128, .f32⟩
  | 126 => ⟨S50000x128, .f32⟩
  | 127 => ⟨S50000x128, .f32⟩
  | _ => ⟨S50000x128, .f32⟩

abbrev hbmTy0_2 (i : Nat) : BufTy := match i % 128 with
  | 0 => ⟨S1x128, .f32⟩
  | 1 => ⟨S50000x128, .f32⟩
  | 2 => ⟨S50000x128, .f32⟩
  | 3 => ⟨S_, .f32⟩
  | 4 => ⟨S128, .f32⟩
  | 5 => ⟨S128, .f32⟩
  | 6 => ⟨S128, .f32⟩
  | 7 => ⟨S1x128, .f32⟩
  | 8 => ⟨S50000x128, .f32⟩
  | 9 => ⟨S50000x128, .f32⟩
  | 10 => ⟨S1x128, .f32⟩
  | 11 => ⟨S50000x128, .f32⟩
  | 12 => ⟨S50000x128, .f32⟩
  | 13 => ⟨S_, .f32⟩
  | 14 => ⟨S50000x128, .f32⟩
  | 15 => ⟨S50000x128, .f32⟩
  | 16 => ⟨S_, .i32⟩
  | 17 => ⟨S800000, .i32⟩
  | 18 => ⟨S800000, .i1⟩
  | 19 => ⟨S_, .i32⟩
  | 20 => ⟨S800000, .i32⟩
  | 21 => ⟨S800000, .i32⟩
  | 22 => ⟨S800000, .i32⟩
  | 23 => ⟨S800000x1, .i32⟩
  | 24 => ⟨S800000x128, .f32⟩
  | 25 => ⟨S_, .f32⟩
  | 26 => ⟨S50000x128, .f32⟩
  | 27 => ⟨S800000x1, .i32⟩
  | 28 => ⟨S50000x128, .f32⟩
  | 29 => ⟨S1, .f32⟩
  | 30 => ⟨S_, .f32⟩
  | 31 => ⟨S_, .f32⟩
  | 32 => ⟨S_, .f32⟩
  | 33 => ⟨S50000x128, .f32⟩
  | 34 => ⟨S50000x128, .f32⟩
  | 35 => ⟨S50000x128, .f32⟩
  | 36 => ⟨S1x128x64, .f32⟩
  | 37 => ⟨S128x64, .f32⟩
  | 38 => ⟨S50000x64, .f32⟩
  | 39 => ⟨S1x64, .f32⟩
  | 40 => ⟨S64, .f32⟩
  | 41 => ⟨S1x64, .f32⟩
  | 42 => ⟨S64, .f32⟩
  | 43 => ⟨S_, .f32⟩
  | 44 => ⟨S64, .f32⟩
  | 45 => ⟨S_, .f32⟩
  | 46 => ⟨S64, .f32⟩
  | 47 => ⟨S64, .f32⟩
  | 48 => ⟨S_, .i32⟩
  | 49 => ⟨S_, .f32⟩
  | 50 => ⟨S64, .f32⟩
  | 51 => ⟨S1x64, .f32⟩
  | 52 => ⟨S_, .f32⟩
  | 53 => ⟨S1x64, .f32⟩
  | 54 => ⟨S1x64, .f32⟩
  | 55 => ⟨S50000x64, .f32⟩
  | 56 => ⟨S50000x64, .f32⟩
  | 57 => ⟨S50000x64, .f32⟩
  | 58 => ⟨S_, .f32⟩
  | 59 => ⟨S_, .f32⟩
  | 60 => ⟨S_, .f32⟩
  | 61 => ⟨S_, .f32⟩
  | 62 => ⟨S64, .f32⟩
  | 63 => ⟨S64, .f32⟩
  | 64 => ⟨S64, .f32⟩
  | 65 => ⟨S_, .f32⟩
  | 66 => ⟨S_, .i1⟩
  | 67 => ⟨S_, .f32⟩
  | 68 => ⟨S_, .f32⟩
  | 69 => ⟨S64, .f32⟩
  | 70 => ⟨S64, .f32⟩
  | 71 => ⟨S1x64, .f32⟩
  | 72 => ⟨S50000x64, .f32⟩
  | 73 => ⟨S50000x64, .f32⟩
  | 74 => ⟨S1x64, .f32⟩
  | 75 => ⟨S50000x64, .f32⟩
  | 76 => ⟨S50000x64, .f32⟩
  | 77 => ⟨S_, .f32⟩
  | 78 => ⟨S64, .f32⟩
  | 79 => ⟨S64, .f32⟩
  | 80 => ⟨S64, .f32⟩
  | 81 => ⟨S1x64, .f32⟩
  | 82 => ⟨S50000x64, .f32⟩
  | 83 => ⟨S50000x64, .f32⟩
  | 84 => ⟨S1x64, .f32⟩
  | 85 => ⟨S50000x64, .f32⟩
  | 86 => ⟨S50000x64, .f32⟩
  | 87 => ⟨S_, .f32⟩
  | 88 => ⟨S50000x64, .f32⟩
  | 89 => ⟨S50000x64, .f32⟩
  | 90 => ⟨S1x64x128, .f32⟩
  | 91 => ⟨S64x128, .f32⟩
  | 92 => ⟨S50000x128, .f32⟩
  | 93 => ⟨S1x128, .f32⟩
  | 94 => ⟨S128, .f32⟩
  | 95 => ⟨S1x128, .f32⟩
  | 96 => ⟨S128, .f32⟩
  | 97 => ⟨S_, .f32⟩
  | 98 => ⟨S128, .f32⟩
  | 99 => ⟨S_, .f32⟩
  | 100 => ⟨S128, .f32⟩
  | 101 => ⟨S128, .f32⟩
  | 102 => ⟨S_, .i32⟩
  | 103 => ⟨S_, .f32⟩
  | 104 => ⟨S128, .f32⟩
  | 105 => ⟨S1x128, .f32⟩
  | 106 => ⟨S_, .f32⟩
  | 107 => ⟨S1x128, .f32⟩
  | 108 => ⟨S1x128, .f32⟩
  | 109 => ⟨S50000x128, .f32⟩
  | 110 => ⟨S50000x128, .f32⟩
  | 111 => ⟨S50000x128, .f32⟩
  | 112 => ⟨S_, .f32⟩
  | 113 => ⟨S_, .f32⟩
  | 114 => ⟨S_, .f32⟩
  | 115 => ⟨S_, .f32⟩
  | 116 => ⟨S128, .f32⟩
  | 117 => ⟨S128, .f32⟩
  | 118 => ⟨S128, .f32⟩
  | 119 => ⟨S_, .f32⟩
  | 120 => ⟨S_, .i1⟩
  | 121 => ⟨S_, .f32⟩
  | 122 => ⟨S_, .f32⟩
  | 123 => ⟨S128, .f32⟩
  | 124 => ⟨S128, .f32⟩
  | 125 => ⟨S1x128, .f32⟩
  | 126 => ⟨S50000x128, .f32⟩
  | 127 => ⟨S50000x128, .f32⟩
  | _ => ⟨S50000x128, .f32⟩

abbrev hbmTy0_3 (i : Nat) : BufTy := match i % 128 with
  | 0 => ⟨S1x128, .f32⟩
  | 1 => ⟨S50000x128, .f32⟩
  | 2 => ⟨S50000x128, .f32⟩
  | 3 => ⟨S_, .f32⟩
  | 4 => ⟨S128, .f32⟩
  | 5 => ⟨S128, .f32⟩
  | 6 => ⟨S128, .f32⟩
  | 7 => ⟨S1x128, .f32⟩
  | 8 => ⟨S50000x128, .f32⟩
  | 9 => ⟨S50000x128, .f32⟩
  | 10 => ⟨S1x128, .f32⟩
  | 11 => ⟨S50000x128, .f32⟩
  | 12 => ⟨S50000x128, .f32⟩
  | 13 => ⟨S_, .f32⟩
  | 14 => ⟨S50000x128, .f32⟩
  | 15 => ⟨S50000x128, .f32⟩
  | 16 => ⟨S_, .i32⟩
  | 17 => ⟨S800000, .i32⟩
  | 18 => ⟨S800000, .i1⟩
  | 19 => ⟨S_, .i32⟩
  | 20 => ⟨S800000, .i32⟩
  | 21 => ⟨S800000, .i32⟩
  | 22 => ⟨S800000, .i32⟩
  | 23 => ⟨S800000x1, .i32⟩
  | 24 => ⟨S800000x128, .f32⟩
  | 25 => ⟨S_, .f32⟩
  | 26 => ⟨S50000x128, .f32⟩
  | 27 => ⟨S800000x1, .i32⟩
  | 28 => ⟨S50000x128, .f32⟩
  | 29 => ⟨S1, .f32⟩
  | 30 => ⟨S_, .f32⟩
  | 31 => ⟨S_, .f32⟩
  | 32 => ⟨S_, .f32⟩
  | 33 => ⟨S50000x128, .f32⟩
  | 34 => ⟨S50000x128, .f32⟩
  | 35 => ⟨S50000x128, .f32⟩
  | 36 => ⟨S1x128x64, .f32⟩
  | 37 => ⟨S128x64, .f32⟩
  | 38 => ⟨S50000x64, .f32⟩
  | 39 => ⟨S1x64, .f32⟩
  | 40 => ⟨S64, .f32⟩
  | 41 => ⟨S1x64, .f32⟩
  | 42 => ⟨S64, .f32⟩
  | 43 => ⟨S_, .f32⟩
  | 44 => ⟨S64, .f32⟩
  | 45 => ⟨S_, .f32⟩
  | 46 => ⟨S64, .f32⟩
  | 47 => ⟨S64, .f32⟩
  | 48 => ⟨S_, .i32⟩
  | 49 => ⟨S_, .f32⟩
  | 50 => ⟨S64, .f32⟩
  | 51 => ⟨S1x64, .f32⟩
  | 52 => ⟨S_, .f32⟩
  | 53 => ⟨S1x64, .f32⟩
  | 54 => ⟨S1x64, .f32⟩
  | 55 => ⟨S50000x64, .f32⟩
  | 56 => ⟨S50000x64, .f32⟩
  | 57 => ⟨S50000x64, .f32⟩
  | 58 => ⟨S_, .f32⟩
  | 59 => ⟨S_, .f32⟩
  | 60 => ⟨S_, .f32⟩
  | 61 => ⟨S_, .f32⟩
  | 62 => ⟨S64, .f32⟩
  | 63 => ⟨S64, .f32⟩
  | 64 => ⟨S64, .f32⟩
  | 65 => ⟨S_, .f32⟩
  | 66 => ⟨S_, .i1⟩
  | 67 => ⟨S_, .f32⟩
  | 68 => ⟨S_, .f32⟩
  | 69 => ⟨S64, .f32⟩
  | 70 => ⟨S64, .f32⟩
  | 71 => ⟨S1x64, .f32⟩
  | 72 => ⟨S50000x64, .f32⟩
  | 73 => ⟨S50000x64, .f32⟩
  | 74 => ⟨S1x64, .f32⟩
  | 75 => ⟨S50000x64, .f32⟩
  | 76 => ⟨S50000x64, .f32⟩
  | 77 => ⟨S_, .f32⟩
  | 78 => ⟨S64, .f32⟩
  | 79 => ⟨S64, .f32⟩
  | 80 => ⟨S64, .f32⟩
  | 81 => ⟨S1x64, .f32⟩
  | 82 => ⟨S50000x64, .f32⟩
  | 83 => ⟨S50000x64, .f32⟩
  | 84 => ⟨S1x64, .f32⟩
  | 85 => ⟨S50000x64, .f32⟩
  | 86 => ⟨S50000x64, .f32⟩
  | 87 => ⟨S_, .f32⟩
  | 88 => ⟨S50000x64, .f32⟩
  | 89 => ⟨S50000x64, .f32⟩
  | 90 => ⟨S1x64x128, .f32⟩
  | 91 => ⟨S64x128, .f32⟩
  | 92 => ⟨S50000x128, .f32⟩
  | 93 => ⟨S1x128, .f32⟩
  | 94 => ⟨S128, .f32⟩
  | 95 => ⟨S1x128, .f32⟩
  | 96 => ⟨S128, .f32⟩
  | 97 => ⟨S_, .f32⟩
  | 98 => ⟨S128, .f32⟩
  | 99 => ⟨S_, .f32⟩
  | 100 => ⟨S128, .f32⟩
  | 101 => ⟨S128, .f32⟩
  | 102 => ⟨S_, .i32⟩
  | 103 => ⟨S_, .f32⟩
  | 104 => ⟨S128, .f32⟩
  | 105 => ⟨S1x128, .f32⟩
  | 106 => ⟨S_, .f32⟩
  | 107 => ⟨S1x128, .f32⟩
  | 108 => ⟨S1x128, .f32⟩
  | 109 => ⟨S50000x128, .f32⟩
  | 110 => ⟨S50000x128, .f32⟩
  | 111 => ⟨S50000x128, .f32⟩
  | 112 => ⟨S_, .f32⟩
  | 113 => ⟨S_, .f32⟩
  | 114 => ⟨S_, .f32⟩
  | 115 => ⟨S_, .f32⟩
  | 116 => ⟨S128, .f32⟩
  | 117 => ⟨S128, .f32⟩
  | 118 => ⟨S128, .f32⟩
  | 119 => ⟨S_, .f32⟩
  | 120 => ⟨S_, .i1⟩
  | 121 => ⟨S_, .f32⟩
  | 122 => ⟨S_, .f32⟩
  | 123 => ⟨S128, .f32⟩
  | 124 => ⟨S128, .f32⟩
  | 125 => ⟨S1x128, .f32⟩
  | 126 => ⟨S50000x128, .f32⟩
  | 127 => ⟨S50000x128, .f32⟩
  | _ => ⟨S50000x128, .f32⟩

abbrev hbmTy0_4 (i : Nat) : BufTy := match i % 128 with
  | 0 => ⟨S1x128, .f32⟩
  | 1 => ⟨S50000x128, .f32⟩
  | 2 => ⟨S50000x128, .f32⟩
  | 3 => ⟨S_, .f32⟩
  | 4 => ⟨S128, .f32⟩
  | 5 => ⟨S128, .f32⟩
  | 6 => ⟨S128, .f32⟩
  | 7 => ⟨S1x128, .f32⟩
  | 8 => ⟨S50000x128, .f32⟩
  | 9 => ⟨S50000x128, .f32⟩
  | 10 => ⟨S1x128, .f32⟩
  | 11 => ⟨S50000x128, .f32⟩
  | 12 => ⟨S50000x128, .f32⟩
  | 13 => ⟨S_, .f32⟩
  | 14 => ⟨S50000x128, .f32⟩
  | 15 => ⟨S50000x128, .f32⟩
  | 16 => ⟨S_, .i32⟩
  | 17 => ⟨S800000, .i32⟩
  | 18 => ⟨S800000, .i1⟩
  | 19 => ⟨S_, .i32⟩
  | 20 => ⟨S800000, .i32⟩
  | 21 => ⟨S800000, .i32⟩
  | 22 => ⟨S800000, .i32⟩
  | 23 => ⟨S800000x1, .i32⟩
  | 24 => ⟨S800000x128, .f32⟩
  | 25 => ⟨S_, .f32⟩
  | 26 => ⟨S50000x128, .f32⟩
  | 27 => ⟨S800000x1, .i32⟩
  | 28 => ⟨S50000x128, .f32⟩
  | 29 => ⟨S1, .f32⟩
  | 30 => ⟨S_, .f32⟩
  | 31 => ⟨S_, .f32⟩
  | 32 => ⟨S_, .f32⟩
  | 33 => ⟨S50000x128, .f32⟩
  | 34 => ⟨S50000x128, .f32⟩
  | 35 => ⟨S50000x128, .f32⟩
  | 36 => ⟨S1x128x64, .f32⟩
  | 37 => ⟨S128x64, .f32⟩
  | 38 => ⟨S50000x64, .f32⟩
  | 39 => ⟨S1x64, .f32⟩
  | 40 => ⟨S64, .f32⟩
  | 41 => ⟨S1x64, .f32⟩
  | 42 => ⟨S64, .f32⟩
  | 43 => ⟨S_, .f32⟩
  | 44 => ⟨S64, .f32⟩
  | 45 => ⟨S_, .f32⟩
  | 46 => ⟨S64, .f32⟩
  | 47 => ⟨S64, .f32⟩
  | 48 => ⟨S_, .i32⟩
  | 49 => ⟨S_, .f32⟩
  | 50 => ⟨S64, .f32⟩
  | 51 => ⟨S1x64, .f32⟩
  | 52 => ⟨S_, .f32⟩
  | 53 => ⟨S1x64, .f32⟩
  | 54 => ⟨S1x64, .f32⟩
  | 55 => ⟨S50000x64, .f32⟩
  | 56 => ⟨S50000x64, .f32⟩
  | 57 => ⟨S50000x64, .f32⟩
  | 58 => ⟨S_, .f32⟩
  | 59 => ⟨S_, .f32⟩
  | 60 => ⟨S_, .f32⟩
  | 61 => ⟨S_, .f32⟩
  | 62 => ⟨S64, .f32⟩
  | 63 => ⟨S64, .f32⟩
  | 64 => ⟨S64, .f32⟩
  | 65 => ⟨S_, .f32⟩
  | 66 => ⟨S_, .i1⟩
  | 67 => ⟨S_, .f32⟩
  | 68 => ⟨S_, .f32⟩
  | 69 => ⟨S64, .f32⟩
  | 70 => ⟨S64, .f32⟩
  | 71 => ⟨S1x64, .f32⟩
  | 72 => ⟨S50000x64, .f32⟩
  | 73 => ⟨S50000x64, .f32⟩
  | 74 => ⟨S1x64, .f32⟩
  | 75 => ⟨S50000x64, .f32⟩
  | 76 => ⟨S50000x64, .f32⟩
  | 77 => ⟨S_, .f32⟩
  | 78 => ⟨S64, .f32⟩
  | 79 => ⟨S64, .f32⟩
  | 80 => ⟨S64, .f32⟩
  | 81 => ⟨S1x64, .f32⟩
  | 82 => ⟨S50000x64, .f32⟩
  | 83 => ⟨S50000x64, .f32⟩
  | 84 => ⟨S1x64, .f32⟩
  | 85 => ⟨S50000x64, .f32⟩
  | 86 => ⟨S50000x64, .f32⟩
  | 87 => ⟨S_, .f32⟩
  | 88 => ⟨S50000x64, .f32⟩
  | 89 => ⟨S50000x64, .f32⟩
  | 90 => ⟨S1x64x128, .f32⟩
  | 91 => ⟨S64x128, .f32⟩
  | 92 => ⟨S50000x128, .f32⟩
  | 93 => ⟨S1x128, .f32⟩
  | 94 => ⟨S128, .f32⟩
  | 95 => ⟨S1x128, .f32⟩
  | 96 => ⟨S128, .f32⟩
  | 97 => ⟨S_, .f32⟩
  | 98 => ⟨S128, .f32⟩
  | 99 => ⟨S_, .f32⟩
  | 100 => ⟨S128, .f32⟩
  | 101 => ⟨S128, .f32⟩
  | 102 => ⟨S_, .i32⟩
  | 103 => ⟨S_, .f32⟩
  | 104 => ⟨S128, .f32⟩
  | 105 => ⟨S1x128, .f32⟩
  | 106 => ⟨S_, .f32⟩
  | 107 => ⟨S1x128, .f32⟩
  | 108 => ⟨S1x128, .f32⟩
  | 109 => ⟨S50000x128, .f32⟩
  | 110 => ⟨S50000x128, .f32⟩
  | 111 => ⟨S50000x128, .f32⟩
  | 112 => ⟨S_, .f32⟩
  | 113 => ⟨S_, .f32⟩
  | 114 => ⟨S_, .f32⟩
  | 115 => ⟨S_, .f32⟩
  | 116 => ⟨S128, .f32⟩
  | 117 => ⟨S128, .f32⟩
  | 118 => ⟨S128, .f32⟩
  | 119 => ⟨S_, .f32⟩
  | 120 => ⟨S_, .i1⟩
  | 121 => ⟨S_, .f32⟩
  | 122 => ⟨S_, .f32⟩
  | 123 => ⟨S128, .f32⟩
  | 124 => ⟨S128, .f32⟩
  | 125 => ⟨S1x128, .f32⟩
  | 126 => ⟨S50000x128, .f32⟩
  | 127 => ⟨S50000x128, .f32⟩
  | _ => ⟨S50000x128, .f32⟩

abbrev hbmTy0_5 (i : Nat) : BufTy := match i % 128 with
  | 0 => ⟨S1x128, .f32⟩
  | 1 => ⟨S50000x128, .f32⟩
  | 2 => ⟨S50000x128, .f32⟩
  | 3 => ⟨S_, .f32⟩
  | 4 => ⟨S128, .f32⟩
  | 5 => ⟨S128, .f32⟩
  | 6 => ⟨S128, .f32⟩
  | 7 => ⟨S1x128, .f32⟩
  | 8 => ⟨S50000x128, .f32⟩
  | 9 => ⟨S50000x128, .f32⟩
  | 10 => ⟨S1x128, .f32⟩
  | 11 => ⟨S50000x128, .f32⟩
  | 12 => ⟨S50000x128, .f32⟩
  | 13 => ⟨S_, .f32⟩
  | 14 => ⟨S50000x128, .f32⟩
  | 15 => ⟨S50000x128, .f32⟩
  | 16 => ⟨S_, .i32⟩
  | 17 => ⟨S800000, .i32⟩
  | 18 => ⟨S800000, .i1⟩
  | 19 => ⟨S_, .i32⟩
  | 20 => ⟨S800000, .i32⟩
  | 21 => ⟨S800000, .i32⟩
  | 22 => ⟨S800000, .i32⟩
  | 23 => ⟨S800000x1, .i32⟩
  | 24 => ⟨S800000x128, .f32⟩
  | 25 => ⟨S_, .f32⟩
  | 26 => ⟨S50000x128, .f32⟩
  | 27 => ⟨S800000x1, .i32⟩
  | 28 => ⟨S50000x128, .f32⟩
  | 29 => ⟨S1, .f32⟩
  | 30 => ⟨S_, .f32⟩
  | 31 => ⟨S_, .f32⟩
  | 32 => ⟨S_, .f32⟩
  | 33 => ⟨S50000x128, .f32⟩
  | 34 => ⟨S50000x128, .f32⟩
  | 35 => ⟨S50000x128, .f32⟩
  | 36 => ⟨S1x128x64, .f32⟩
  | 37 => ⟨S128x64, .f32⟩
  | 38 => ⟨S50000x64, .f32⟩
  | 39 => ⟨S1x64, .f32⟩
  | 40 => ⟨S64, .f32⟩
  | 41 => ⟨S1x64, .f32⟩
  | 42 => ⟨S64, .f32⟩
  | 43 => ⟨S_, .f32⟩
  | 44 => ⟨S64, .f32⟩
  | 45 => ⟨S_, .f32⟩
  | 46 => ⟨S64, .f32⟩
  | 47 => ⟨S64, .f32⟩
  | 48 => ⟨S_, .i32⟩
  | 49 => ⟨S_, .f32⟩
  | 50 => ⟨S64, .f32⟩
  | 51 => ⟨S1x64, .f32⟩
  | 52 => ⟨S_, .f32⟩
  | 53 => ⟨S1x64, .f32⟩
  | 54 => ⟨S1x64, .f32⟩
  | 55 => ⟨S50000x64, .f32⟩
  | 56 => ⟨S50000x64, .f32⟩
  | 57 => ⟨S50000x64, .f32⟩
  | 58 => ⟨S_, .f32⟩
  | 59 => ⟨S_, .f32⟩
  | 60 => ⟨S_, .f32⟩
  | 61 => ⟨S_, .f32⟩
  | 62 => ⟨S64, .f32⟩
  | 63 => ⟨S64, .f32⟩
  | 64 => ⟨S64, .f32⟩
  | 65 => ⟨S_, .f32⟩
  | 66 => ⟨S_, .i1⟩
  | 67 => ⟨S_, .f32⟩
  | 68 => ⟨S_, .f32⟩
  | 69 => ⟨S64, .f32⟩
  | 70 => ⟨S64, .f32⟩
  | 71 => ⟨S1x64, .f32⟩
  | 72 => ⟨S50000x64, .f32⟩
  | 73 => ⟨S50000x64, .f32⟩
  | 74 => ⟨S1x64, .f32⟩
  | 75 => ⟨S50000x64, .f32⟩
  | 76 => ⟨S50000x64, .f32⟩
  | 77 => ⟨S_, .f32⟩
  | 78 => ⟨S64, .f32⟩
  | 79 => ⟨S64, .f32⟩
  | 80 => ⟨S64, .f32⟩
  | 81 => ⟨S1x64, .f32⟩
  | 82 => ⟨S50000x64, .f32⟩
  | 83 => ⟨S50000x64, .f32⟩
  | 84 => ⟨S1x64, .f32⟩
  | 85 => ⟨S50000x64, .f32⟩
  | 86 => ⟨S50000x64, .f32⟩
  | 87 => ⟨S_, .f32⟩
  | 88 => ⟨S50000x64, .f32⟩
  | 89 => ⟨S50000x64, .f32⟩
  | 90 => ⟨S1x64x128, .f32⟩
  | 91 => ⟨S64x128, .f32⟩
  | 92 => ⟨S50000x128, .f32⟩
  | 93 => ⟨S1x128, .f32⟩
  | 94 => ⟨S128, .f32⟩
  | 95 => ⟨S1x128, .f32⟩
  | 96 => ⟨S128, .f32⟩
  | 97 => ⟨S_, .f32⟩
  | 98 => ⟨S128, .f32⟩
  | 99 => ⟨S_, .f32⟩
  | 100 => ⟨S128, .f32⟩
  | 101 => ⟨S128, .f32⟩
  | 102 => ⟨S_, .i32⟩
  | 103 => ⟨S_, .f32⟩
  | 104 => ⟨S128, .f32⟩
  | 105 => ⟨S1x128, .f32⟩
  | 106 => ⟨S_, .f32⟩
  | 107 => ⟨S1x128, .f32⟩
  | 108 => ⟨S1x128, .f32⟩
  | 109 => ⟨S50000x128, .f32⟩
  | 110 => ⟨S50000x128, .f32⟩
  | 111 => ⟨S50000x128, .f32⟩
  | 112 => ⟨S_, .f32⟩
  | 113 => ⟨S_, .f32⟩
  | 114 => ⟨S_, .f32⟩
  | 115 => ⟨S_, .f32⟩
  | 116 => ⟨S128, .f32⟩
  | 117 => ⟨S128, .f32⟩
  | 118 => ⟨S128, .f32⟩
  | 119 => ⟨S_, .f32⟩
  | 120 => ⟨S_, .i1⟩
  | 121 => ⟨S_, .f32⟩
  | 122 => ⟨S_, .f32⟩
  | 123 => ⟨S128, .f32⟩
  | 124 => ⟨S128, .f32⟩
  | 125 => ⟨S1x128, .f32⟩
  | 126 => ⟨S50000x128, .f32⟩
  | 127 => ⟨S50000x128, .f32⟩
  | _ => ⟨S50000x128, .f32⟩

abbrev hbmTy0_6 (i : Nat) : BufTy := match i % 128 with
  | 0 => ⟨S1x128, .f32⟩
  | 1 => ⟨S50000x128, .f32⟩
  | 2 => ⟨S50000x128, .f32⟩
  | 3 => ⟨S_, .f32⟩
  | 4 => ⟨S128, .f32⟩
  | 5 => ⟨S128, .f32⟩
  | 6 => ⟨S128, .f32⟩
  | 7 => ⟨S1x128, .f32⟩
  | 8 => ⟨S50000x128, .f32⟩
  | 9 => ⟨S50000x128, .f32⟩
  | 10 => ⟨S1x128, .f32⟩
  | 11 => ⟨S50000x128, .f32⟩
  | 12 => ⟨S50000x128, .f32⟩
  | 13 => ⟨S_, .f32⟩
  | 14 => ⟨S50000x128, .f32⟩
  | 15 => ⟨S50000x128, .f32⟩
  | 16 => ⟨S_, .i32⟩
  | 17 => ⟨S800000, .i32⟩
  | 18 => ⟨S800000, .i1⟩
  | 19 => ⟨S_, .i32⟩
  | 20 => ⟨S800000, .i32⟩
  | 21 => ⟨S800000, .i32⟩
  | 22 => ⟨S800000, .i32⟩
  | 23 => ⟨S800000x1, .i32⟩
  | 24 => ⟨S800000x128, .f32⟩
  | 25 => ⟨S_, .f32⟩
  | 26 => ⟨S50000x128, .f32⟩
  | 27 => ⟨S800000x1, .i32⟩
  | 28 => ⟨S50000x128, .f32⟩
  | 29 => ⟨S1, .f32⟩
  | 30 => ⟨S_, .f32⟩
  | 31 => ⟨S_, .f32⟩
  | 32 => ⟨S_, .f32⟩
  | 33 => ⟨S50000x128, .f32⟩
  | 34 => ⟨S50000x128, .f32⟩
  | 35 => ⟨S50000x128, .f32⟩
  | 36 => ⟨S1x128x64, .f32⟩
  | 37 => ⟨S128x64, .f32⟩
  | 38 => ⟨S50000x64, .f32⟩
  | 39 => ⟨S1x64, .f32⟩
  | 40 => ⟨S64, .f32⟩
  | 41 => ⟨S1x64, .f32⟩
  | 42 => ⟨S64, .f32⟩
  | 43 => ⟨S_, .f32⟩
  | 44 => ⟨S64, .f32⟩
  | 45 => ⟨S_, .f32⟩
  | 46 => ⟨S64, .f32⟩
  | 47 => ⟨S64, .f32⟩
  | 48 => ⟨S_, .i32⟩
  | 49 => ⟨S_, .f32⟩
  | 50 => ⟨S64, .f32⟩
  | 51 => ⟨S1x64, .f32⟩
  | 52 => ⟨S_, .f32⟩
  | 53 => ⟨S1x64, .f32⟩
  | 54 => ⟨S1x64, .f32⟩
  | 55 => ⟨S50000x64, .f32⟩
  | 56 => ⟨S50000x64, .f32⟩
  | 57 => ⟨S50000x64, .f32⟩
  | 58 => ⟨S_, .f32⟩
  | 59 => ⟨S_, .f32⟩
  | 60 => ⟨S_, .f32⟩
  | 61 => ⟨S_, .f32⟩
  | 62 => ⟨S64, .f32⟩
  | 63 => ⟨S64, .f32⟩
  | 64 => ⟨S64, .f32⟩
  | 65 => ⟨S_, .f32⟩
  | 66 => ⟨S_, .i1⟩
  | 67 => ⟨S_, .f32⟩
  | 68 => ⟨S_, .f32⟩
  | 69 => ⟨S64, .f32⟩
  | 70 => ⟨S64, .f32⟩
  | 71 => ⟨S1x64, .f32⟩
  | 72 => ⟨S50000x64, .f32⟩
  | 73 => ⟨S50000x64, .f32⟩
  | 74 => ⟨S1x64, .f32⟩
  | 75 => ⟨S50000x64, .f32⟩
  | 76 => ⟨S50000x64, .f32⟩
  | 77 => ⟨S_, .f32⟩
  | 78 => ⟨S64, .f32⟩
  | 79 => ⟨S64, .f32⟩
  | 80 => ⟨S64, .f32⟩
  | 81 => ⟨S1x64, .f32⟩
  | 82 => ⟨S50000x64, .f32⟩
  | 83 => ⟨S50000x64, .f32⟩
  | 84 => ⟨S1x64, .f32⟩
  | 85 => ⟨S50000x64, .f32⟩
  | 86 => ⟨S50000x64, .f32⟩
  | 87 => ⟨S_, .f32⟩
  | 88 => ⟨S50000x64, .f32⟩
  | 89 => ⟨S50000x64, .f32⟩
  | 90 => ⟨S50000x2, .f32⟩
  | 91 => ⟨S_, .f32⟩
  | 92 => ⟨S50000x2, .f32⟩
  | 93 => ⟨S50000x2, .f32⟩
  | 94 => ⟨S_, .f32⟩
  | 95 => ⟨S50000, .f32⟩
  | 96 => ⟨S_, .f32⟩
  | 97 => ⟨S64, .f32⟩
  | 98 => ⟨S50000x1, .i32⟩
  | 99 => ⟨S64, .f32⟩
  | 100 => ⟨S_, .f32⟩
  | 101 => ⟨S64x2, .f32⟩
  | 102 => ⟨S50000x1, .i32⟩
  | 103 => ⟨S64x2, .f32⟩
  | 104 => ⟨S_, .f32⟩
  | 105 => ⟨S64, .f32⟩
  | 106 => ⟨S64, .f32⟩
  | 107 => ⟨S64x1, .f32⟩
  | 108 => ⟨S64x2, .f32⟩
  | 109 => ⟨S64x2, .f32⟩
  | _ => ⟨S50000x128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_1 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_2 : Ref sig .tc := ⟨.hbm, 43, rfl⟩
abbrev main_v27 : Ref sig .tc := ⟨.hbm, 44, rfl⟩
abbrev main_cst_3 : Ref sig .tc := ⟨.hbm, 45, rfl⟩
abbrev main_v28 : Ref sig .tc := ⟨.hbm, 46, rfl⟩
abbrev main_v29 : Ref sig .tc := ⟨.hbm, 47, rfl⟩
abbrev main_c_4 : Ref sig .tc := ⟨.hbm, 48, rfl⟩
abbrev main_call0_cst : Ref sig .tc := ⟨.hbm, 49, rfl⟩
abbrev main_call0_v0 : Ref sig .tc := ⟨.hbm, 50, rfl⟩
abbrev main_call0_v1 : Ref sig .tc := ⟨.hbm, 51, rfl⟩
abbrev main_call0_cst_0 : Ref sig .tc := ⟨.hbm, 52, rfl⟩
abbrev main_call0_v2 : Ref sig .tc := ⟨.hbm, 53, rfl⟩
abbrev main_call0_v3 : Ref sig .tc := ⟨.hbm, 54, rfl⟩
abbrev main_call0_v4 : Ref sig .tc := ⟨.hbm, 55, rfl⟩
abbrev main_call0_v5 : Ref sig .tc := ⟨.hbm, 56, rfl⟩
abbrev main_call0_v6 : Ref sig .tc := ⟨.hbm, 57, rfl⟩
abbrev main_call0_v7 : Ref sig .tc := ⟨.hbm, 58, rfl⟩
abbrev main_call0_cst_1 : Ref sig .tc := ⟨.hbm, 59, rfl⟩
abbrev main_call0_v8 : Ref sig .tc := ⟨.hbm, 60, rfl⟩
abbrev main_call0_cst_2 : Ref sig .tc := ⟨.hbm, 61, rfl⟩
abbrev main_call0_v9 : Ref sig .tc := ⟨.hbm, 62, rfl⟩
abbrev main_call0_v10 : Ref sig .tc := ⟨.hbm, 63, rfl⟩
abbrev main_call0_v11 : Ref sig .tc := ⟨.hbm, 64, rfl⟩
abbrev main_call0_cst_3 : Ref sig .tc := ⟨.hbm, 65, rfl⟩
abbrev main_call0_v12 : Ref sig .tc := ⟨.hbm, 66, rfl⟩
abbrev main_call0_cst_4 : Ref sig .tc := ⟨.hbm, 67, rfl⟩
abbrev main_call0_call0_v0 : Ref sig .tc := ⟨.hbm, 68, rfl⟩
abbrev main_call0_call0_v1 : Ref sig .tc := ⟨.hbm, 69, rfl⟩
abbrev main_v30 : Ref sig .tc := ⟨.hbm, 70, rfl⟩
abbrev main_v31 : Ref sig .tc := ⟨.hbm, 71, rfl⟩
abbrev main_v32 : Ref sig .tc := ⟨.hbm, 72, rfl⟩
abbrev main_v33 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_cst_5 : Ref sig .tc := ⟨.hbm, 77, rfl⟩
abbrev main_v37 : Ref sig .tc := ⟨.hbm, 78, rfl⟩
abbrev main_v38 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_call1_cst : Ref sig .tc := ⟨.hbm, 87, rfl⟩
abbrev main_call1_v0 : Ref sig .tc := ⟨.hbm, 88, rfl⟩
abbrev main_v46 : Ref sig .tc := ⟨.hbm, 89, rfl⟩
abbrev main_v47 : Ref sig .tc := ⟨.hbm, 90, rfl⟩
abbrev main_v48 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_cst_6 : Ref sig .tc := ⟨.hbm, 97, rfl⟩
abbrev main_v54 : Ref sig .tc := ⟨.hbm, 98, rfl⟩
abbrev main_cst_7 : Ref sig .tc := ⟨.hbm, 99, rfl⟩
abbrev main_v55 : Ref sig .tc := ⟨.hbm, 100, rfl⟩
abbrev main_v56 : Ref sig .tc := ⟨.hbm, 101, rfl⟩
abbrev main_c_8 : Ref sig .tc := ⟨.hbm, 102, rfl⟩
abbrev main_call2_cst : Ref sig .tc := ⟨.hbm, 103, rfl⟩
abbrev main_call2_v0 : Ref sig .tc := ⟨.hbm, 104, rfl⟩
abbrev main_call2_v1 : Ref sig .tc := ⟨.hbm, 105, rfl⟩
abbrev main_call2_cst_0 : Ref sig .tc := ⟨.hbm, 106, rfl⟩
abbrev main_call2_v2 : Ref sig .tc := ⟨.hbm, 107, rfl⟩
abbrev main_call2_v3 : Ref sig .tc := ⟨.hbm, 108, rfl⟩
abbrev main_call2_v4 : Ref sig .tc := ⟨.hbm, 109, rfl⟩
abbrev main_call2_v5 : Ref sig .tc := ⟨.hbm, 110, rfl⟩
abbrev main_call2_v6 : Ref sig .tc := ⟨.hbm, 111, rfl⟩
abbrev main_call2_v7 : Ref sig .tc := ⟨.hbm, 112, rfl⟩
abbrev main_call2_cst_1 : Ref sig .tc := ⟨.hbm, 113, rfl⟩
abbrev main_call2_v8 : Ref sig .tc := ⟨.hbm, 114, rfl⟩
abbrev main_call2_cst_2 : Ref sig .tc := ⟨.hbm, 115, rfl⟩
abbrev main_call2_v9 : Ref sig .tc := ⟨.hbm, 116, rfl⟩
abbrev main_call2_v10 : Ref sig .tc := ⟨.hbm, 117, rfl⟩
abbrev main_call2_v11 : Ref sig .tc := ⟨.hbm, 118, rfl⟩
abbrev main_call2_cst_3 : Ref sig .tc := ⟨.hbm, 119, rfl⟩
abbrev main_call2_v12 : Ref sig .tc := ⟨.hbm, 120, rfl⟩
abbrev main_call2_cst_4 : Ref sig .tc := ⟨.hbm, 121, rfl⟩
abbrev main_call2_call0_v0 : Ref sig .tc := ⟨.hbm, 122, rfl⟩
abbrev main_call2_call0_v1 : Ref sig .tc := ⟨.hbm, 123, rfl⟩
abbrev main_v57 : Ref sig .tc := ⟨.hbm, 124, rfl⟩
abbrev main_v58 : Ref sig .tc := ⟨.hbm, 125, rfl⟩
abbrev main_v59 : Ref sig .tc := ⟨.hbm, 126, rfl⟩
abbrev main_v60 : Ref sig .tc := ⟨.hbm, 127, rfl⟩
abbrev main_v61 : Ref sig .tc := ⟨.hbm, 128, rfl⟩
abbrev main_v62 : Ref sig .tc := ⟨.hbm, 129, rfl⟩
abbrev main_v63 : Ref sig .tc := ⟨.hbm, 130, rfl⟩
abbrev main_cst_9 : Ref sig .tc := ⟨.hbm, 131, rfl⟩
abbrev main_v64 : Ref sig .tc := ⟨.hbm, 132, rfl⟩
abbrev main_v65 : Ref sig .tc := ⟨.hbm, 133, rfl⟩
abbrev main_v66 : Ref sig .tc := ⟨.hbm, 134, rfl⟩
abbrev main_v67 : Ref sig .tc := ⟨.hbm, 135, rfl⟩
abbrev main_v68 : Ref sig .tc := ⟨.hbm, 136, rfl⟩
abbrev main_v69 : Ref sig .tc := ⟨.hbm, 137, rfl⟩
abbrev main_v70 : Ref sig .tc := ⟨.hbm, 138, rfl⟩
abbrev main_v71 : Ref sig .tc := ⟨.hbm, 139, rfl⟩
abbrev main_v72 : Ref sig .tc := ⟨.hbm, 140, rfl⟩
abbrev main_call3_cst : Ref sig .tc := ⟨.hbm, 141, rfl⟩
abbrev main_call3_v0 : Ref sig .tc := ⟨.hbm, 142, rfl⟩
abbrev main_v73 : Ref sig .tc := ⟨.hbm, 143, rfl⟩
abbrev main_c_10 : Ref sig .tc := ⟨.hbm, 144, rfl⟩
abbrev main_v74 : Ref sig .tc := ⟨.hbm, 145, rfl⟩
abbrev main_v75 : Ref sig .tc := ⟨.hbm, 146, rfl⟩
abbrev main_c_11 : Ref sig .tc := ⟨.hbm, 147, rfl⟩
abbrev main_v76 : Ref sig .tc := ⟨.hbm, 148, rfl⟩
abbrev main_v77 : Ref sig .tc := ⟨.hbm, 149, rfl⟩
abbrev main_v78 : Ref sig .tc := ⟨.hbm, 150, rfl⟩
abbrev main_v79 : Ref sig .tc := ⟨.hbm, 151, rfl⟩
abbrev main_v80 : Ref sig .tc := ⟨.hbm, 152, rfl⟩
abbrev main_cst_12 : Ref sig .tc := ⟨.hbm, 153, rfl⟩
abbrev main_v81 : Ref sig .tc := ⟨.hbm, 154, rfl⟩
abbrev main_v82 : Ref sig .tc := ⟨.hbm, 155, rfl⟩
abbrev main_v83 : Ref sig .tc := ⟨.hbm, 156, rfl⟩
abbrev main_v84 : Ref sig .tc := ⟨.hbm, 157, rfl⟩
abbrev main_v85 : Ref sig .tc := ⟨.hbm, 158, rfl⟩
abbrev main_cst_13 : Ref sig .tc := ⟨.hbm, 159, rfl⟩
abbrev main_v86 : Ref sig .tc := ⟨.hbm, 160, rfl⟩
abbrev main_v87 : Ref sig .tc := ⟨.hbm, 161, rfl⟩
abbrev main_v88 : Ref sig .tc := ⟨.hbm, 162, rfl⟩
abbrev main_v89 : Ref sig .tc := ⟨.hbm, 163, rfl⟩
abbrev main_v90 : Ref sig .tc := ⟨.hbm, 164, rfl⟩
abbrev main_v91 : Ref sig .tc := ⟨.hbm, 165, rfl⟩
abbrev main_v92 : Ref sig .tc := ⟨.hbm, 166, rfl⟩
abbrev main_v93 : Ref sig .tc := ⟨.hbm, 167, rfl⟩
abbrev main_v94 : Ref sig .tc := ⟨.hbm, 168, rfl⟩
abbrev main_v95 : Ref sig .tc := ⟨.hbm, 169, rfl⟩
abbrev main_v96 : Ref sig .tc := ⟨.hbm, 170, rfl⟩
abbrev main_cst_14 : Ref sig .tc := ⟨.hbm, 171, rfl⟩
abbrev main_v97 : Ref sig .tc := ⟨.hbm, 172, rfl⟩
abbrev main_cst_15 : Ref sig .tc := ⟨.hbm, 173, rfl⟩
abbrev main_v98 : Ref sig .tc := ⟨.hbm, 174, rfl⟩
abbrev main_v99 : Ref sig .tc := ⟨.hbm, 175, rfl⟩
abbrev main_c_16 : Ref sig .tc := ⟨.hbm, 176, rfl⟩
abbrev main_call4_cst : Ref sig .tc := ⟨.hbm, 177, rfl⟩
abbrev main_call4_v0 : Ref sig .tc := ⟨.hbm, 178, rfl⟩
abbrev main_call4_v1 : Ref sig .tc := ⟨.hbm, 179, rfl⟩
abbrev main_call4_cst_0 : Ref sig .tc := ⟨.hbm, 180, rfl⟩
abbrev main_call4_v2 : Ref sig .tc := ⟨.hbm, 181, rfl⟩
abbrev main_call4_v3 : Ref sig .tc := ⟨.hbm, 182, rfl⟩
abbrev main_call4_v4 : Ref sig .tc := ⟨.hbm, 183, rfl⟩
abbrev main_call4_v5 : Ref sig .tc := ⟨.hbm, 184, rfl⟩
abbrev main_call4_v6 : Ref sig .tc := ⟨.hbm, 185, rfl⟩
abbrev main_call4_v7 : Ref sig .tc := ⟨.hbm, 186, rfl⟩
abbrev main_call4_cst_1 : Ref sig .tc := ⟨.hbm, 187, rfl⟩
abbrev main_call4_v8 : Ref sig .tc := ⟨.hbm, 188, rfl⟩
abbrev main_call4_cst_2 : Ref sig .tc := ⟨.hbm, 189, rfl⟩
abbrev main_call4_v9 : Ref sig .tc := ⟨.hbm, 190, rfl⟩
abbrev main_call4_v10 : Ref sig .tc := ⟨.hbm, 191, rfl⟩
abbrev main_call4_v11 : Ref sig .tc := ⟨.hbm, 192, rfl⟩
abbrev main_call4_cst_3 : Ref sig .tc := ⟨.hbm, 193, rfl⟩
abbrev main_call4_v12 : Ref sig .tc := ⟨.hbm, 194, rfl⟩
abbrev main_call4_cst_4 : Ref sig .tc := ⟨.hbm, 195, rfl⟩
abbrev main_call4_call0_v0 : Ref sig .tc := ⟨.hbm, 196, rfl⟩
abbrev main_call4_call0_v1 : Ref sig .tc := ⟨.hbm, 197, rfl⟩
abbrev main_v100 : Ref sig .tc := ⟨.hbm, 198, rfl⟩
abbrev main_v101 : Ref sig .tc := ⟨.hbm, 199, rfl⟩
abbrev main_v102 : Ref sig .tc := ⟨.hbm, 200, rfl⟩
abbrev main_v103 : Ref sig .tc := ⟨.hbm, 201, rfl⟩
abbrev main_v104 : Ref sig .tc := ⟨.hbm, 202, rfl⟩
abbrev main_v105 : Ref sig .tc := ⟨.hbm, 203, rfl⟩
abbrev main_v106 : Ref sig .tc := ⟨.hbm, 204, rfl⟩
abbrev main_cst_17 : Ref sig .tc := ⟨.hbm, 205, rfl⟩
abbrev main_v107 : Ref sig .tc := ⟨.hbm, 206, rfl⟩
abbrev main_v108 : Ref sig .tc := ⟨.hbm, 207, rfl⟩
abbrev main_v109 : Ref sig .tc := ⟨.hbm, 208, rfl⟩
abbrev main_v110 : Ref sig .tc := ⟨.hbm, 209, rfl⟩
abbrev main_v111 : Ref sig .tc := ⟨.hbm, 210, rfl⟩
abbrev main_v112 : Ref sig .tc := ⟨.hbm, 211, rfl⟩
abbrev main_v113 : Ref sig .tc := ⟨.hbm, 212, rfl⟩
abbrev main_v114 : Ref sig .tc := ⟨.hbm, 213, rfl⟩
abbrev main_v115 : Ref sig .tc := ⟨.hbm, 214, rfl⟩
abbrev main_call5_cst : Ref sig .tc := ⟨.hbm, 215, rfl⟩
abbrev main_call5_v0 : Ref sig .tc := ⟨.hbm, 216, rfl⟩
abbrev main_v116 : Ref sig .tc := ⟨.hbm, 217, rfl⟩
abbrev main_v117 : Ref sig .tc := ⟨.hbm, 218, rfl⟩
abbrev main_v118 : Ref sig .tc := ⟨.hbm, 219, rfl⟩
abbrev main_v119 : Ref sig .tc := ⟨.hbm, 220, rfl⟩
abbrev main_v120 : Ref sig .tc := ⟨.hbm, 221, rfl⟩
abbrev main_v121 : Ref sig .tc := ⟨.hbm, 222, rfl⟩
abbrev main_v122 : Ref sig .tc := ⟨.hbm, 223, rfl⟩
abbrev main_v123 : Ref sig .tc := ⟨.hbm, 224, rfl⟩
abbrev main_cst_18 : Ref sig .tc := ⟨.hbm, 225, rfl⟩
abbrev main_v124 : Ref sig .tc := ⟨.hbm, 226, rfl⟩
abbrev main_cst_19 : Ref sig .tc := ⟨.hbm, 227, rfl⟩
abbrev main_v125 : Ref sig .tc := ⟨.hbm, 228, rfl⟩
abbrev main_v126 : Ref sig .tc := ⟨.hbm, 229, rfl⟩
abbrev main_c_20 : Ref sig .tc := ⟨.hbm, 230, rfl⟩
abbrev main_call6_cst : Ref sig .tc := ⟨.hbm, 231, rfl⟩
abbrev main_call6_v0 : Ref sig .tc := ⟨.hbm, 232, rfl⟩
abbrev main_call6_v1 : Ref sig .tc := ⟨.hbm, 233, rfl⟩
abbrev main_call6_cst_0 : Ref sig .tc := ⟨.hbm, 234, rfl⟩
abbrev main_call6_v2 : Ref sig .tc := ⟨.hbm, 235, rfl⟩
abbrev main_call6_v3 : Ref sig .tc := ⟨.hbm, 236, rfl⟩
abbrev main_call6_v4 : Ref sig .tc := ⟨.hbm, 237, rfl⟩
abbrev main_call6_v5 : Ref sig .tc := ⟨.hbm, 238, rfl⟩
abbrev main_call6_v6 : Ref sig .tc := ⟨.hbm, 239, rfl⟩
abbrev main_call6_v7 : Ref sig .tc := ⟨.hbm, 240, rfl⟩
abbrev main_call6_cst_1 : Ref sig .tc := ⟨.hbm, 241, rfl⟩
abbrev main_call6_v8 : Ref sig .tc := ⟨.hbm, 242, rfl⟩
abbrev main_call6_cst_2 : Ref sig .tc := ⟨.hbm, 243, rfl⟩
abbrev main_call6_v9 : Ref sig .tc := ⟨.hbm, 244, rfl⟩
abbrev main_call6_v10 : Ref sig .tc := ⟨.hbm, 245, rfl⟩
abbrev main_call6_v11 : Ref sig .tc := ⟨.hbm, 246, rfl⟩
abbrev main_call6_cst_3 : Ref sig .tc := ⟨.hbm, 247, rfl⟩
abbrev main_call6_v12 : Ref sig .tc := ⟨.hbm, 248, rfl⟩
abbrev main_call6_cst_4 : Ref sig .tc := ⟨.hbm, 249, rfl⟩
abbrev main_call6_call0_v0 : Ref sig .tc := ⟨.hbm, 250, rfl⟩
abbrev main_call6_call0_v1 : Ref sig .tc := ⟨.hbm, 251, rfl⟩
abbrev main_v127 : Ref sig .tc := ⟨.hbm, 252, rfl⟩
abbrev main_v128 : Ref sig .tc := ⟨.hbm, 253, rfl⟩
abbrev main_v129 : Ref sig .tc := ⟨.hbm, 254, rfl⟩
abbrev main_v130 : Ref sig .tc := ⟨.hbm, 255, rfl⟩
abbrev main_v131 : Ref sig .tc := ⟨.hbm, 256, rfl⟩
abbrev main_v132 : Ref sig .tc := ⟨.hbm, 257, rfl⟩
abbrev main_v133 : Ref sig .tc := ⟨.hbm, 258, rfl⟩
abbrev main_cst_21 : Ref sig .tc := ⟨.hbm, 259, rfl⟩
abbrev main_v134 : Ref sig .tc := ⟨.hbm, 260, rfl⟩
abbrev main_v135 : Ref sig .tc := ⟨.hbm, 261, rfl⟩
abbrev main_v136 : Ref sig .tc := ⟨.hbm, 262, rfl⟩
abbrev main_v137 : Ref sig .tc := ⟨.hbm, 263, rfl⟩
abbrev main_v138 : Ref sig .tc := ⟨.hbm, 264, rfl⟩
abbrev main_v139 : Ref sig .tc := ⟨.hbm, 265, rfl⟩
abbrev main_v140 : Ref sig .tc := ⟨.hbm, 266, rfl⟩
abbrev main_v141 : Ref sig .tc := ⟨.hbm, 267, rfl⟩
abbrev main_v142 : Ref sig .tc := ⟨.hbm, 268, rfl⟩
abbrev main_call7_cst : Ref sig .tc := ⟨.hbm, 269, rfl⟩
abbrev main_call7_v0 : Ref sig .tc := ⟨.hbm, 270, rfl⟩
abbrev main_v143 : Ref sig .tc := ⟨.hbm, 271, rfl⟩
abbrev main_c_22 : Ref sig .tc := ⟨.hbm, 272, rfl⟩
abbrev main_v144 : Ref sig .tc := ⟨.hbm, 273, rfl⟩
abbrev main_v145 : Ref sig .tc := ⟨.hbm, 274, rfl⟩
abbrev main_c_23 : Ref sig .tc := ⟨.hbm, 275, rfl⟩
abbrev main_v146 : Ref sig .tc := ⟨.hbm, 276, rfl⟩
abbrev main_v147 : Ref sig .tc := ⟨.hbm, 277, rfl⟩
abbrev main_v148 : Ref sig .tc := ⟨.hbm, 278, rfl⟩
abbrev main_v149 : Ref sig .tc := ⟨.hbm, 279, rfl⟩
abbrev main_v150 : Ref sig .tc := ⟨.hbm, 280, rfl⟩
abbrev main_cst_24 : Ref sig .tc := ⟨.hbm, 281, rfl⟩
abbrev main_v151 : Ref sig .tc := ⟨.hbm, 282, rfl⟩
abbrev main_v152 : Ref sig .tc := ⟨.hbm, 283, rfl⟩
abbrev main_v153 : Ref sig .tc := ⟨.hbm, 284, rfl⟩
abbrev main_v154 : Ref sig .tc := ⟨.hbm, 285, rfl⟩
abbrev main_v155 : Ref sig .tc := ⟨.hbm, 286, rfl⟩
abbrev main_cst_25 : Ref sig .tc := ⟨.hbm, 287, rfl⟩
abbrev main_v156 : Ref sig .tc := ⟨.hbm, 288, rfl⟩
abbrev main_v157 : Ref sig .tc := ⟨.hbm, 289, rfl⟩
abbrev main_v158 : Ref sig .tc := ⟨.hbm, 290, rfl⟩
abbrev main_v159 : Ref sig .tc := ⟨.hbm, 291, rfl⟩
abbrev main_v160 : Ref sig .tc := ⟨.hbm, 292, rfl⟩
abbrev main_v161 : Ref sig .tc := ⟨.hbm, 293, rfl⟩
abbrev main_v162 : Ref sig .tc := ⟨.hbm, 294, rfl⟩
abbrev main_v163 : Ref sig .tc := ⟨.hbm, 295, rfl⟩
abbrev main_v164 : Ref sig .tc := ⟨.hbm, 296, rfl⟩
abbrev main_v165 : Ref sig .tc := ⟨.hbm, 297, rfl⟩
abbrev main_v166 : Ref sig .tc := ⟨.hbm, 298, rfl⟩
abbrev main_cst_26 : Ref sig .tc := ⟨.hbm, 299, rfl⟩
abbrev main_v167 : Ref sig .tc := ⟨.hbm, 300, rfl⟩
abbrev main_cst_27 : Ref sig .tc := ⟨.hbm, 301, rfl⟩
abbrev main_v168 : Ref sig .tc := ⟨.hbm, 302, rfl⟩
abbrev main_v169 : Ref sig .tc := ⟨.hbm, 303, rfl⟩
abbrev main_c_28 : Ref sig .tc := ⟨.hbm, 304, rfl⟩
abbrev main_call8_cst : Ref sig .tc := ⟨.hbm, 305, rfl⟩
abbrev main_call8_v0 : Ref sig .tc := ⟨.hbm, 306, rfl⟩
abbrev main_call8_v1 : Ref sig .tc := ⟨.hbm, 307, rfl⟩
abbrev main_call8_cst_0 : Ref sig .tc := ⟨.hbm, 308, rfl⟩
abbrev main_call8_v2 : Ref sig .tc := ⟨.hbm, 309, rfl⟩
abbrev main_call8_v3 : Ref sig .tc := ⟨.hbm, 310, rfl⟩
abbrev main_call8_v4 : Ref sig .tc := ⟨.hbm, 311, rfl⟩
abbrev main_call8_v5 : Ref sig .tc := ⟨.hbm, 312, rfl⟩
abbrev main_call8_v6 : Ref sig .tc := ⟨.hbm, 313, rfl⟩
abbrev main_call8_v7 : Ref sig .tc := ⟨.hbm, 314, rfl⟩
abbrev main_call8_cst_1 : Ref sig .tc := ⟨.hbm, 315, rfl⟩
abbrev main_call8_v8 : Ref sig .tc := ⟨.hbm, 316, rfl⟩
abbrev main_call8_cst_2 : Ref sig .tc := ⟨.hbm, 317, rfl⟩
abbrev main_call8_v9 : Ref sig .tc := ⟨.hbm, 318, rfl⟩
abbrev main_call8_v10 : Ref sig .tc := ⟨.hbm, 319, rfl⟩
abbrev main_call8_v11 : Ref sig .tc := ⟨.hbm, 320, rfl⟩
abbrev main_call8_cst_3 : Ref sig .tc := ⟨.hbm, 321, rfl⟩
abbrev main_call8_v12 : Ref sig .tc := ⟨.hbm, 322, rfl⟩
abbrev main_call8_cst_4 : Ref sig .tc := ⟨.hbm, 323, rfl⟩
abbrev main_call8_call0_v0 : Ref sig .tc := ⟨.hbm, 324, rfl⟩
abbrev main_call8_call0_v1 : Ref sig .tc := ⟨.hbm, 325, rfl⟩
abbrev main_v170 : Ref sig .tc := ⟨.hbm, 326, rfl⟩
abbrev main_v171 : Ref sig .tc := ⟨.hbm, 327, rfl⟩
abbrev main_v172 : Ref sig .tc := ⟨.hbm, 328, rfl⟩
abbrev main_v173 : Ref sig .tc := ⟨.hbm, 329, rfl⟩
abbrev main_v174 : Ref sig .tc := ⟨.hbm, 330, rfl⟩
abbrev main_v175 : Ref sig .tc := ⟨.hbm, 331, rfl⟩
abbrev main_v176 : Ref sig .tc := ⟨.hbm, 332, rfl⟩
abbrev main_cst_29 : Ref sig .tc := ⟨.hbm, 333, rfl⟩
abbrev main_v177 : Ref sig .tc := ⟨.hbm, 334, rfl⟩
abbrev main_v178 : Ref sig .tc := ⟨.hbm, 335, rfl⟩
abbrev main_v179 : Ref sig .tc := ⟨.hbm, 336, rfl⟩
abbrev main_v180 : Ref sig .tc := ⟨.hbm, 337, rfl⟩
abbrev main_v181 : Ref sig .tc := ⟨.hbm, 338, rfl⟩
abbrev main_v182 : Ref sig .tc := ⟨.hbm, 339, rfl⟩
abbrev main_v183 : Ref sig .tc := ⟨.hbm, 340, rfl⟩
abbrev main_v184 : Ref sig .tc := ⟨.hbm, 341, rfl⟩
abbrev main_v185 : Ref sig .tc := ⟨.hbm, 342, rfl⟩
abbrev main_call9_cst : Ref sig .tc := ⟨.hbm, 343, rfl⟩
abbrev main_call9_v0 : Ref sig .tc := ⟨.hbm, 344, rfl⟩
abbrev main_v186 : Ref sig .tc := ⟨.hbm, 345, rfl⟩
abbrev main_v187 : Ref sig .tc := ⟨.hbm, 346, rfl⟩
abbrev main_v188 : Ref sig .tc := ⟨.hbm, 347, rfl⟩
abbrev main_v189 : Ref sig .tc := ⟨.hbm, 348, rfl⟩
abbrev main_v190 : Ref sig .tc := ⟨.hbm, 349, rfl⟩
abbrev main_v191 : Ref sig .tc := ⟨.hbm, 350, rfl⟩
abbrev main_v192 : Ref sig .tc := ⟨.hbm, 351, rfl⟩
abbrev main_v193 : Ref sig .tc := ⟨.hbm, 352, rfl⟩
abbrev main_cst_30 : Ref sig .tc := ⟨.hbm, 353, rfl⟩
abbrev main_v194 : Ref sig .tc := ⟨.hbm, 354, rfl⟩
abbrev main_cst_31 : Ref sig .tc := ⟨.hbm, 355, rfl⟩
abbrev main_v195 : Ref sig .tc := ⟨.hbm, 356, rfl⟩
abbrev main_v196 : Ref sig .tc := ⟨.hbm, 357, rfl⟩
abbrev main_c_32 : Ref sig .tc := ⟨.hbm, 358, rfl⟩
abbrev main_call10_cst : Ref sig .tc := ⟨.hbm, 359, rfl⟩
abbrev main_call10_v0 : Ref sig .tc := ⟨.hbm, 360, rfl⟩
abbrev main_call10_v1 : Ref sig .tc := ⟨.hbm, 361, rfl⟩
abbrev main_call10_cst_0 : Ref sig .tc := ⟨.hbm, 362, rfl⟩
abbrev main_call10_v2 : Ref sig .tc := ⟨.hbm, 363, rfl⟩
abbrev main_call10_v3 : Ref sig .tc := ⟨.hbm, 364, rfl⟩
abbrev main_call10_v4 : Ref sig .tc := ⟨.hbm, 365, rfl⟩
abbrev main_call10_v5 : Ref sig .tc := ⟨.hbm, 366, rfl⟩
abbrev main_call10_v6 : Ref sig .tc := ⟨.hbm, 367, rfl⟩
abbrev main_call10_v7 : Ref sig .tc := ⟨.hbm, 368, rfl⟩
abbrev main_call10_cst_1 : Ref sig .tc := ⟨.hbm, 369, rfl⟩
abbrev main_call10_v8 : Ref sig .tc := ⟨.hbm, 370, rfl⟩
abbrev main_call10_cst_2 : Ref sig .tc := ⟨.hbm, 371, rfl⟩
abbrev main_call10_v9 : Ref sig .tc := ⟨.hbm, 372, rfl⟩
abbrev main_call10_v10 : Ref sig .tc := ⟨.hbm, 373, rfl⟩
abbrev main_call10_v11 : Ref sig .tc := ⟨.hbm, 374, rfl⟩
abbrev main_call10_cst_3 : Ref sig .tc := ⟨.hbm, 375, rfl⟩
abbrev main_call10_v12 : Ref sig .tc := ⟨.hbm, 376, rfl⟩
abbrev main_call10_cst_4 : Ref sig .tc := ⟨.hbm, 377, rfl⟩
abbrev main_call10_call0_v0 : Ref sig .tc := ⟨.hbm, 378, rfl⟩
abbrev main_call10_call0_v1 : Ref sig .tc := ⟨.hbm, 379, rfl⟩
abbrev main_v197 : Ref sig .tc := ⟨.hbm, 380, rfl⟩
abbrev main_v198 : Ref sig .tc := ⟨.hbm, 381, rfl⟩
abbrev main_v199 : Ref sig .tc := ⟨.hbm, 382, rfl⟩
abbrev main_v200 : Ref sig .tc := ⟨.hbm, 383, rfl⟩
abbrev main_v201 : Ref sig .tc := ⟨.hbm, 384, rfl⟩
abbrev main_v202 : Ref sig .tc := ⟨.hbm, 385, rfl⟩
abbrev main_v203 : Ref sig .tc := ⟨.hbm, 386, rfl⟩
abbrev main_cst_33 : Ref sig .tc := ⟨.hbm, 387, rfl⟩
abbrev main_v204 : Ref sig .tc := ⟨.hbm, 388, rfl⟩
abbrev main_v205 : Ref sig .tc := ⟨.hbm, 389, rfl⟩
abbrev main_v206 : Ref sig .tc := ⟨.hbm, 390, rfl⟩
abbrev main_v207 : Ref sig .tc := ⟨.hbm, 391, rfl⟩
abbrev main_v208 : Ref sig .tc := ⟨.hbm, 392, rfl⟩
abbrev main_v209 : Ref sig .tc := ⟨.hbm, 393, rfl⟩
abbrev main_v210 : Ref sig .tc := ⟨.hbm, 394, rfl⟩
abbrev main_v211 : Ref sig .tc := ⟨.hbm, 395, rfl⟩
abbrev main_v212 : Ref sig .tc := ⟨.hbm, 396, rfl⟩
abbrev main_call11_cst : Ref sig .tc := ⟨.hbm, 397, rfl⟩
abbrev main_call11_v0 : Ref sig .tc := ⟨.hbm, 398, rfl⟩
abbrev main_v213 : Ref sig .tc := ⟨.hbm, 399, rfl⟩
abbrev main_c_34 : Ref sig .tc := ⟨.hbm, 400, rfl⟩
abbrev main_v214 : Ref sig .tc := ⟨.hbm, 401, rfl⟩
abbrev main_v215 : Ref sig .tc := ⟨.hbm, 402, rfl⟩
abbrev main_c_35 : Ref sig .tc := ⟨.hbm, 403, rfl⟩
abbrev main_v216 : Ref sig .tc := ⟨.hbm, 404, rfl⟩
abbrev main_v217 : Ref sig .tc := ⟨.hbm, 405, rfl⟩
abbrev main_v218 : Ref sig .tc := ⟨.hbm, 406, rfl⟩
abbrev main_v219 : Ref sig .tc := ⟨.hbm, 407, rfl⟩
abbrev main_v220 : Ref sig .tc := ⟨.hbm, 408, rfl⟩
abbrev main_cst_36 : Ref sig .tc := ⟨.hbm, 409, rfl⟩
abbrev main_v221 : Ref sig .tc := ⟨.hbm, 410, rfl⟩
abbrev main_v222 : Ref sig .tc := ⟨.hbm, 411, rfl⟩
abbrev main_v223 : Ref sig .tc := ⟨.hbm, 412, rfl⟩
abbrev main_v224 : Ref sig .tc := ⟨.hbm, 413, rfl⟩
abbrev main_v225 : Ref sig .tc := ⟨.hbm, 414, rfl⟩
abbrev main_cst_37 : Ref sig .tc := ⟨.hbm, 415, rfl⟩
abbrev main_v226 : Ref sig .tc := ⟨.hbm, 416, rfl⟩
abbrev main_v227 : Ref sig .tc := ⟨.hbm, 417, rfl⟩
abbrev main_v228 : Ref sig .tc := ⟨.hbm, 418, rfl⟩
abbrev main_v229 : Ref sig .tc := ⟨.hbm, 419, rfl⟩
abbrev main_v230 : Ref sig .tc := ⟨.hbm, 420, rfl⟩
abbrev main_v231 : Ref sig .tc := ⟨.hbm, 421, rfl⟩
abbrev main_v232 : Ref sig .tc := ⟨.hbm, 422, rfl⟩
abbrev main_v233 : Ref sig .tc := ⟨.hbm, 423, rfl⟩
abbrev main_v234 : Ref sig .tc := ⟨.hbm, 424, rfl⟩
abbrev main_v235 : Ref sig .tc := ⟨.hbm, 425, rfl⟩
abbrev main_v236 : Ref sig .tc := ⟨.hbm, 426, rfl⟩
abbrev main_cst_38 : Ref sig .tc := ⟨.hbm, 427, rfl⟩
abbrev main_v237 : Ref sig .tc := ⟨.hbm, 428, rfl⟩
abbrev main_cst_39 : Ref sig .tc := ⟨.hbm, 429, rfl⟩
abbrev main_v238 : Ref sig .tc := ⟨.hbm, 430, rfl⟩
abbrev main_v239 : Ref sig .tc := ⟨.hbm, 431, rfl⟩
abbrev main_c_40 : Ref sig .tc := ⟨.hbm, 432, rfl⟩
abbrev main_call12_cst : Ref sig .tc := ⟨.hbm, 433, rfl⟩
abbrev main_call12_v0 : Ref sig .tc := ⟨.hbm, 434, rfl⟩
abbrev main_call12_v1 : Ref sig .tc := ⟨.hbm, 435, rfl⟩
abbrev main_call12_cst_0 : Ref sig .tc := ⟨.hbm, 436, rfl⟩
abbrev main_call12_v2 : Ref sig .tc := ⟨.hbm, 437, rfl⟩
abbrev main_call12_v3 : Ref sig .tc := ⟨.hbm, 438, rfl⟩
abbrev main_call12_v4 : Ref sig .tc := ⟨.hbm, 439, rfl⟩
abbrev main_call12_v5 : Ref sig .tc := ⟨.hbm, 440, rfl⟩
abbrev main_call12_v6 : Ref sig .tc := ⟨.hbm, 441, rfl⟩
abbrev main_call12_v7 : Ref sig .tc := ⟨.hbm, 442, rfl⟩
abbrev main_call12_cst_1 : Ref sig .tc := ⟨.hbm, 443, rfl⟩
abbrev main_call12_v8 : Ref sig .tc := ⟨.hbm, 444, rfl⟩
abbrev main_call12_cst_2 : Ref sig .tc := ⟨.hbm, 445, rfl⟩
abbrev main_call12_v9 : Ref sig .tc := ⟨.hbm, 446, rfl⟩
abbrev main_call12_v10 : Ref sig .tc := ⟨.hbm, 447, rfl⟩
abbrev main_call12_v11 : Ref sig .tc := ⟨.hbm, 448, rfl⟩
abbrev main_call12_cst_3 : Ref sig .tc := ⟨.hbm, 449, rfl⟩
abbrev main_call12_v12 : Ref sig .tc := ⟨.hbm, 450, rfl⟩
abbrev main_call12_cst_4 : Ref sig .tc := ⟨.hbm, 451, rfl⟩
abbrev main_call12_call0_v0 : Ref sig .tc := ⟨.hbm, 452, rfl⟩
abbrev main_call12_call0_v1 : Ref sig .tc := ⟨.hbm, 453, rfl⟩
abbrev main_v240 : Ref sig .tc := ⟨.hbm, 454, rfl⟩
abbrev main_v241 : Ref sig .tc := ⟨.hbm, 455, rfl⟩
abbrev main_v242 : Ref sig .tc := ⟨.hbm, 456, rfl⟩
abbrev main_v243 : Ref sig .tc := ⟨.hbm, 457, rfl⟩
abbrev main_v244 : Ref sig .tc := ⟨.hbm, 458, rfl⟩
abbrev main_v245 : Ref sig .tc := ⟨.hbm, 459, rfl⟩
abbrev main_v246 : Ref sig .tc := ⟨.hbm, 460, rfl⟩
abbrev main_cst_41 : Ref sig .tc := ⟨.hbm, 461, rfl⟩
abbrev main_v247 : Ref sig .tc := ⟨.hbm, 462, rfl⟩
abbrev main_v248 : Ref sig .tc := ⟨.hbm, 463, rfl⟩
abbrev main_v249 : Ref sig .tc := ⟨.hbm, 464, rfl⟩
abbrev main_v250 : Ref sig .tc := ⟨.hbm, 465, rfl⟩
abbrev main_v251 : Ref sig .tc := ⟨.hbm, 466, rfl⟩
abbrev main_v252 : Ref sig .tc := ⟨.hbm, 467, rfl⟩
abbrev main_v253 : Ref sig .tc := ⟨.hbm, 468, rfl⟩
abbrev main_v254 : Ref sig .tc := ⟨.hbm, 469, rfl⟩
abbrev main_v255 : Ref sig .tc := ⟨.hbm, 470, rfl⟩
abbrev main_call13_cst : Ref sig .tc := ⟨.hbm, 471, rfl⟩
abbrev main_call13_v0 : Ref sig .tc := ⟨.hbm, 472, rfl⟩
abbrev main_v256 : Ref sig .tc := ⟨.hbm, 473, rfl⟩
abbrev main_v257 : Ref sig .tc := ⟨.hbm, 474, rfl⟩
abbrev main_v258 : Ref sig .tc := ⟨.hbm, 475, rfl⟩
abbrev main_v259 : Ref sig .tc := ⟨.hbm, 476, rfl⟩
abbrev main_v260 : Ref sig .tc := ⟨.hbm, 477, rfl⟩
abbrev main_v261 : Ref sig .tc := ⟨.hbm, 478, rfl⟩
abbrev main_v262 : Ref sig .tc := ⟨.hbm, 479, rfl⟩
abbrev main_v263 : Ref sig .tc := ⟨.hbm, 480, rfl⟩
abbrev main_cst_42 : Ref sig .tc := ⟨.hbm, 481, rfl⟩
abbrev main_v264 : Ref sig .tc := ⟨.hbm, 482, rfl⟩
abbrev main_cst_43 : Ref sig .tc := ⟨.hbm, 483, rfl⟩
abbrev main_v265 : Ref sig .tc := ⟨.hbm, 484, rfl⟩
abbrev main_v266 : Ref sig .tc := ⟨.hbm, 485, rfl⟩
abbrev main_c_44 : Ref sig .tc := ⟨.hbm, 486, rfl⟩
abbrev main_call14_cst : Ref sig .tc := ⟨.hbm, 487, rfl⟩
abbrev main_call14_v0 : Ref sig .tc := ⟨.hbm, 488, rfl⟩
abbrev main_call14_v1 : Ref sig .tc := ⟨.hbm, 489, rfl⟩
abbrev main_call14_cst_0 : Ref sig .tc := ⟨.hbm, 490, rfl⟩
abbrev main_call14_v2 : Ref sig .tc := ⟨.hbm, 491, rfl⟩
abbrev main_call14_v3 : Ref sig .tc := ⟨.hbm, 492, rfl⟩
abbrev main_call14_v4 : Ref sig .tc := ⟨.hbm, 493, rfl⟩
abbrev main_call14_v5 : Ref sig .tc := ⟨.hbm, 494, rfl⟩
abbrev main_call14_v6 : Ref sig .tc := ⟨.hbm, 495, rfl⟩
abbrev main_call14_v7 : Ref sig .tc := ⟨.hbm, 496, rfl⟩
abbrev main_call14_cst_1 : Ref sig .tc := ⟨.hbm, 497, rfl⟩
abbrev main_call14_v8 : Ref sig .tc := ⟨.hbm, 498, rfl⟩
abbrev main_call14_cst_2 : Ref sig .tc := ⟨.hbm, 499, rfl⟩
abbrev main_call14_v9 : Ref sig .tc := ⟨.hbm, 500, rfl⟩
abbrev main_call14_v10 : Ref sig .tc := ⟨.hbm, 501, rfl⟩
abbrev main_call14_v11 : Ref sig .tc := ⟨.hbm, 502, rfl⟩
abbrev main_call14_cst_3 : Ref sig .tc := ⟨.hbm, 503, rfl⟩
abbrev main_call14_v12 : Ref sig .tc := ⟨.hbm, 504, rfl⟩
abbrev main_call14_cst_4 : Ref sig .tc := ⟨.hbm, 505, rfl⟩
abbrev main_call14_call0_v0 : Ref sig .tc := ⟨.hbm, 506, rfl⟩
abbrev main_call14_call0_v1 : Ref sig .tc := ⟨.hbm, 507, rfl⟩
abbrev main_v267 : Ref sig .tc := ⟨.hbm, 508, rfl⟩
abbrev main_v268 : Ref sig .tc := ⟨.hbm, 509, rfl⟩
abbrev main_v269 : Ref sig .tc := ⟨.hbm, 510, rfl⟩
abbrev main_v270 : Ref sig .tc := ⟨.hbm, 511, rfl⟩
abbrev main_v271 : Ref sig .tc := ⟨.hbm, 512, rfl⟩
abbrev main_v272 : Ref sig .tc := ⟨.hbm, 513, rfl⟩
abbrev main_v273 : Ref sig .tc := ⟨.hbm, 514, rfl⟩
abbrev main_cst_45 : Ref sig .tc := ⟨.hbm, 515, rfl⟩
abbrev main_v274 : Ref sig .tc := ⟨.hbm, 516, rfl⟩
abbrev main_v275 : Ref sig .tc := ⟨.hbm, 517, rfl⟩
abbrev main_v276 : Ref sig .tc := ⟨.hbm, 518, rfl⟩
abbrev main_v277 : Ref sig .tc := ⟨.hbm, 519, rfl⟩
abbrev main_v278 : Ref sig .tc := ⟨.hbm, 520, rfl⟩
abbrev main_v279 : Ref sig .tc := ⟨.hbm, 521, rfl⟩
abbrev main_v280 : Ref sig .tc := ⟨.hbm, 522, rfl⟩
abbrev main_v281 : Ref sig .tc := ⟨.hbm, 523, rfl⟩
abbrev main_v282 : Ref sig .tc := ⟨.hbm, 524, rfl⟩
abbrev main_call15_cst : Ref sig .tc := ⟨.hbm, 525, rfl⟩
abbrev main_call15_v0 : Ref sig .tc := ⟨.hbm, 526, rfl⟩
abbrev main_v283 : Ref sig .tc := ⟨.hbm, 527, rfl⟩
abbrev main_c_46 : Ref sig .tc := ⟨.hbm, 528, rfl⟩
abbrev main_v284 : Ref sig .tc := ⟨.hbm, 529, rfl⟩
abbrev main_v285 : Ref sig .tc := ⟨.hbm, 530, rfl⟩
abbrev main_c_47 : Ref sig .tc := ⟨.hbm, 531, rfl⟩
abbrev main_v286 : Ref sig .tc := ⟨.hbm, 532, rfl⟩
abbrev main_v287 : Ref sig .tc := ⟨.hbm, 533, rfl⟩
abbrev main_v288 : Ref sig .tc := ⟨.hbm, 534, rfl⟩
abbrev main_v289 : Ref sig .tc := ⟨.hbm, 535, rfl⟩
abbrev main_v290 : Ref sig .tc := ⟨.hbm, 536, rfl⟩
abbrev main_cst_48 : Ref sig .tc := ⟨.hbm, 537, rfl⟩
abbrev main_v291 : Ref sig .tc := ⟨.hbm, 538, rfl⟩
abbrev main_v292 : Ref sig .tc := ⟨.hbm, 539, rfl⟩
abbrev main_v293 : Ref sig .tc := ⟨.hbm, 540, rfl⟩
abbrev main_v294 : Ref sig .tc := ⟨.hbm, 541, rfl⟩
abbrev main_v295 : Ref sig .tc := ⟨.hbm, 542, rfl⟩
abbrev main_cst_49 : Ref sig .tc := ⟨.hbm, 543, rfl⟩
abbrev main_v296 : Ref sig .tc := ⟨.hbm, 544, rfl⟩
abbrev main_v297 : Ref sig .tc := ⟨.hbm, 545, rfl⟩
abbrev main_v298 : Ref sig .tc := ⟨.hbm, 546, rfl⟩
abbrev main_v299 : Ref sig .tc := ⟨.hbm, 547, rfl⟩
abbrev main_v300 : Ref sig .tc := ⟨.hbm, 548, rfl⟩
abbrev main_v301 : Ref sig .tc := ⟨.hbm, 549, rfl⟩
abbrev main_v302 : Ref sig .tc := ⟨.hbm, 550, rfl⟩
abbrev main_v303 : Ref sig .tc := ⟨.hbm, 551, rfl⟩
abbrev main_v304 : Ref sig .tc := ⟨.hbm, 552, rfl⟩
abbrev main_v305 : Ref sig .tc := ⟨.hbm, 553, rfl⟩
abbrev main_v306 : Ref sig .tc := ⟨.hbm, 554, rfl⟩
abbrev main_cst_50 : Ref sig .tc := ⟨.hbm, 555, rfl⟩
abbrev main_v307 : Ref sig .tc := ⟨.hbm, 556, rfl⟩
abbrev main_cst_51 : Ref sig .tc := ⟨.hbm, 557, rfl⟩
abbrev main_v308 : Ref sig .tc := ⟨.hbm, 558, rfl⟩
abbrev main_v309 : Ref sig .tc := ⟨.hbm, 559, rfl⟩
abbrev main_c_52 : Ref sig .tc := ⟨.hbm, 560, rfl⟩
abbrev main_call16_cst : Ref sig .tc := ⟨.hbm, 561, rfl⟩
abbrev main_call16_v0 : Ref sig .tc := ⟨.hbm, 562, rfl⟩
abbrev main_call16_v1 : Ref sig .tc := ⟨.hbm, 563, rfl⟩
abbrev main_call16_cst_0 : Ref sig .tc := ⟨.hbm, 564, rfl⟩
abbrev main_call16_v2 : Ref sig .tc := ⟨.hbm, 565, rfl⟩
abbrev main_call16_v3 : Ref sig .tc := ⟨.hbm, 566, rfl⟩
abbrev main_call16_v4 : Ref sig .tc := ⟨.hbm, 567, rfl⟩
abbrev main_call16_v5 : Ref sig .tc := ⟨.hbm, 568, rfl⟩
abbrev main_call16_v6 : Ref sig .tc := ⟨.hbm, 569, rfl⟩
abbrev main_call16_v7 : Ref sig .tc := ⟨.hbm, 570, rfl⟩
abbrev main_call16_cst_1 : Ref sig .tc := ⟨.hbm, 571, rfl⟩
abbrev main_call16_v8 : Ref sig .tc := ⟨.hbm, 572, rfl⟩
abbrev main_call16_cst_2 : Ref sig .tc := ⟨.hbm, 573, rfl⟩
abbrev main_call16_v9 : Ref sig .tc := ⟨.hbm, 574, rfl⟩
abbrev main_call16_v10 : Ref sig .tc := ⟨.hbm, 575, rfl⟩
abbrev main_call16_v11 : Ref sig .tc := ⟨.hbm, 576, rfl⟩
abbrev main_call16_cst_3 : Ref sig .tc := ⟨.hbm, 577, rfl⟩
abbrev main_call16_v12 : Ref sig .tc := ⟨.hbm, 578, rfl⟩
abbrev main_call16_cst_4 : Ref sig .tc := ⟨.hbm, 579, rfl⟩
abbrev main_call16_call0_v0 : Ref sig .tc := ⟨.hbm, 580, rfl⟩
abbrev main_call16_call0_v1 : Ref sig .tc := ⟨.hbm, 581, rfl⟩
abbrev main_v310 : Ref sig .tc := ⟨.hbm, 582, rfl⟩
abbrev main_v311 : Ref sig .tc := ⟨.hbm, 583, rfl⟩
abbrev main_v312 : Ref sig .tc := ⟨.hbm, 584, rfl⟩
abbrev main_v313 : Ref sig .tc := ⟨.hbm, 585, rfl⟩
abbrev main_v314 : Ref sig .tc := ⟨.hbm, 586, rfl⟩
abbrev main_v315 : Ref sig .tc := ⟨.hbm, 587, rfl⟩
abbrev main_v316 : Ref sig .tc := ⟨.hbm, 588, rfl⟩
abbrev main_cst_53 : Ref sig .tc := ⟨.hbm, 589, rfl⟩
abbrev main_v317 : Ref sig .tc := ⟨.hbm, 590, rfl⟩
abbrev main_v318 : Ref sig .tc := ⟨.hbm, 591, rfl⟩
abbrev main_v319 : Ref sig .tc := ⟨.hbm, 592, rfl⟩
abbrev main_v320 : Ref sig .tc := ⟨.hbm, 593, rfl⟩
abbrev main_v321 : Ref sig .tc := ⟨.hbm, 594, rfl⟩
abbrev main_v322 : Ref sig .tc := ⟨.hbm, 595, rfl⟩
abbrev main_v323 : Ref sig .tc := ⟨.hbm, 596, rfl⟩
abbrev main_v324 : Ref sig .tc := ⟨.hbm, 597, rfl⟩
abbrev main_v325 : Ref sig .tc := ⟨.hbm, 598, rfl⟩
abbrev main_call17_cst : Ref sig .tc := ⟨.hbm, 599, rfl⟩
abbrev main_call17_v0 : Ref sig .tc := ⟨.hbm, 600, rfl⟩
abbrev main_v326 : Ref sig .tc := ⟨.hbm, 601, rfl⟩
abbrev main_v327 : Ref sig .tc := ⟨.hbm, 602, rfl⟩
abbrev main_v328 : Ref sig .tc := ⟨.hbm, 603, rfl⟩
abbrev main_v329 : Ref sig .tc := ⟨.hbm, 604, rfl⟩
abbrev main_v330 : Ref sig .tc := ⟨.hbm, 605, rfl⟩
abbrev main_v331 : Ref sig .tc := ⟨.hbm, 606, rfl⟩
abbrev main_v332 : Ref sig .tc := ⟨.hbm, 607, rfl⟩
abbrev main_v333 : Ref sig .tc := ⟨.hbm, 608, rfl⟩
abbrev main_cst_54 : Ref sig .tc := ⟨.hbm, 609, rfl⟩
abbrev main_v334 : Ref sig .tc := ⟨.hbm, 610, rfl⟩
abbrev main_cst_55 : Ref sig .tc := ⟨.hbm, 611, rfl⟩
abbrev main_v335 : Ref sig .tc := ⟨.hbm, 612, rfl⟩
abbrev main_v336 : Ref sig .tc := ⟨.hbm, 613, rfl⟩
abbrev main_c_56 : Ref sig .tc := ⟨.hbm, 614, rfl⟩
abbrev main_call18_cst : Ref sig .tc := ⟨.hbm, 615, rfl⟩
abbrev main_call18_v0 : Ref sig .tc := ⟨.hbm, 616, rfl⟩
abbrev main_call18_v1 : Ref sig .tc := ⟨.hbm, 617, rfl⟩
abbrev main_call18_cst_0 : Ref sig .tc := ⟨.hbm, 618, rfl⟩
abbrev main_call18_v2 : Ref sig .tc := ⟨.hbm, 619, rfl⟩
abbrev main_call18_v3 : Ref sig .tc := ⟨.hbm, 620, rfl⟩
abbrev main_call18_v4 : Ref sig .tc := ⟨.hbm, 621, rfl⟩
abbrev main_call18_v5 : Ref sig .tc := ⟨.hbm, 622, rfl⟩
abbrev main_call18_v6 : Ref sig .tc := ⟨.hbm, 623, rfl⟩
abbrev main_call18_v7 : Ref sig .tc := ⟨.hbm, 624, rfl⟩
abbrev main_call18_cst_1 : Ref sig .tc := ⟨.hbm, 625, rfl⟩
abbrev main_call18_v8 : Ref sig .tc := ⟨.hbm, 626, rfl⟩
abbrev main_call18_cst_2 : Ref sig .tc := ⟨.hbm, 627, rfl⟩
abbrev main_call18_v9 : Ref sig .tc := ⟨.hbm, 628, rfl⟩
abbrev main_call18_v10 : Ref sig .tc := ⟨.hbm, 629, rfl⟩
abbrev main_call18_v11 : Ref sig .tc := ⟨.hbm, 630, rfl⟩
abbrev main_call18_cst_3 : Ref sig .tc := ⟨.hbm, 631, rfl⟩
abbrev main_call18_v12 : Ref sig .tc := ⟨.hbm, 632, rfl⟩
abbrev main_call18_cst_4 : Ref sig .tc := ⟨.hbm, 633, rfl⟩
abbrev main_call18_call0_v0 : Ref sig .tc := ⟨.hbm, 634, rfl⟩
abbrev main_call18_call0_v1 : Ref sig .tc := ⟨.hbm, 635, rfl⟩
abbrev main_v337 : Ref sig .tc := ⟨.hbm, 636, rfl⟩
abbrev main_v338 : Ref sig .tc := ⟨.hbm, 637, rfl⟩
abbrev main_v339 : Ref sig .tc := ⟨.hbm, 638, rfl⟩
abbrev main_v340 : Ref sig .tc := ⟨.hbm, 639, rfl⟩
abbrev main_v341 : Ref sig .tc := ⟨.hbm, 640, rfl⟩
abbrev main_v342 : Ref sig .tc := ⟨.hbm, 641, rfl⟩
abbrev main_v343 : Ref sig .tc := ⟨.hbm, 642, rfl⟩
abbrev main_cst_57 : Ref sig .tc := ⟨.hbm, 643, rfl⟩
abbrev main_v344 : Ref sig .tc := ⟨.hbm, 644, rfl⟩
abbrev main_v345 : Ref sig .tc := ⟨.hbm, 645, rfl⟩
abbrev main_v346 : Ref sig .tc := ⟨.hbm, 646, rfl⟩
abbrev main_v347 : Ref sig .tc := ⟨.hbm, 647, rfl⟩
abbrev main_v348 : Ref sig .tc := ⟨.hbm, 648, rfl⟩
abbrev main_v349 : Ref sig .tc := ⟨.hbm, 649, rfl⟩
abbrev main_v350 : Ref sig .tc := ⟨.hbm, 650, rfl⟩
abbrev main_v351 : Ref sig .tc := ⟨.hbm, 651, rfl⟩
abbrev main_v352 : Ref sig .tc := ⟨.hbm, 652, rfl⟩
abbrev main_call19_cst : Ref sig .tc := ⟨.hbm, 653, rfl⟩
abbrev main_call19_v0 : Ref sig .tc := ⟨.hbm, 654, rfl⟩
abbrev main_v353 : Ref sig .tc := ⟨.hbm, 655, rfl⟩
abbrev main_c_58 : Ref sig .tc := ⟨.hbm, 656, rfl⟩
abbrev main_v354 : Ref sig .tc := ⟨.hbm, 657, rfl⟩
abbrev main_v355 : Ref sig .tc := ⟨.hbm, 658, rfl⟩
abbrev main_c_59 : Ref sig .tc := ⟨.hbm, 659, rfl⟩
abbrev main_v356 : Ref sig .tc := ⟨.hbm, 660, rfl⟩
abbrev main_v357 : Ref sig .tc := ⟨.hbm, 661, rfl⟩
abbrev main_v358 : Ref sig .tc := ⟨.hbm, 662, rfl⟩
abbrev main_v359 : Ref sig .tc := ⟨.hbm, 663, rfl⟩
abbrev main_v360 : Ref sig .tc := ⟨.hbm, 664, rfl⟩
abbrev main_cst_60 : Ref sig .tc := ⟨.hbm, 665, rfl⟩
abbrev main_v361 : Ref sig .tc := ⟨.hbm, 666, rfl⟩
abbrev main_v362 : Ref sig .tc := ⟨.hbm, 667, rfl⟩
abbrev main_v363 : Ref sig .tc := ⟨.hbm, 668, rfl⟩
abbrev main_v364 : Ref sig .tc := ⟨.hbm, 669, rfl⟩
abbrev main_v365 : Ref sig .tc := ⟨.hbm, 670, rfl⟩
abbrev main_cst_61 : Ref sig .tc := ⟨.hbm, 671, rfl⟩
abbrev main_v366 : Ref sig .tc := ⟨.hbm, 672, rfl⟩
abbrev main_v367 : Ref sig .tc := ⟨.hbm, 673, rfl⟩
abbrev main_v368 : Ref sig .tc := ⟨.hbm, 674, rfl⟩
abbrev main_v369 : Ref sig .tc := ⟨.hbm, 675, rfl⟩
abbrev main_v370 : Ref sig .tc := ⟨.hbm, 676, rfl⟩
abbrev main_v371 : Ref sig .tc := ⟨.hbm, 677, rfl⟩
abbrev main_v372 : Ref sig .tc := ⟨.hbm, 678, rfl⟩
abbrev main_v373 : Ref sig .tc := ⟨.hbm, 679, rfl⟩
abbrev main_v374 : Ref sig .tc := ⟨.hbm, 680, rfl⟩
abbrev main_v375 : Ref sig .tc := ⟨.hbm, 681, rfl⟩
abbrev main_v376 : Ref sig .tc := ⟨.hbm, 682, rfl⟩
abbrev main_cst_62 : Ref sig .tc := ⟨.hbm, 683, rfl⟩
abbrev main_v377 : Ref sig .tc := ⟨.hbm, 684, rfl⟩
abbrev main_cst_63 : Ref sig .tc := ⟨.hbm, 685, rfl⟩
abbrev main_v378 : Ref sig .tc := ⟨.hbm, 686, rfl⟩
abbrev main_v379 : Ref sig .tc := ⟨.hbm, 687, rfl⟩
abbrev main_c_64 : Ref sig .tc := ⟨.hbm, 688, rfl⟩
abbrev main_call20_cst : Ref sig .tc := ⟨.hbm, 689, rfl⟩
abbrev main_call20_v0 : Ref sig .tc := ⟨.hbm, 690, rfl⟩
abbrev main_call20_v1 : Ref sig .tc := ⟨.hbm, 691, rfl⟩
abbrev main_call20_cst_0 : Ref sig .tc := ⟨.hbm, 692, rfl⟩
abbrev main_call20_v2 : Ref sig .tc := ⟨.hbm, 693, rfl⟩
abbrev main_call20_v3 : Ref sig .tc := ⟨.hbm, 694, rfl⟩
abbrev main_call20_v4 : Ref sig .tc := ⟨.hbm, 695, rfl⟩
abbrev main_call20_v5 : Ref sig .tc := ⟨.hbm, 696, rfl⟩
abbrev main_call20_v6 : Ref sig .tc := ⟨.hbm, 697, rfl⟩
abbrev main_call20_v7 : Ref sig .tc := ⟨.hbm, 698, rfl⟩
abbrev main_call20_cst_1 : Ref sig .tc := ⟨.hbm, 699, rfl⟩
abbrev main_call20_v8 : Ref sig .tc := ⟨.hbm, 700, rfl⟩
abbrev main_call20_cst_2 : Ref sig .tc := ⟨.hbm, 701, rfl⟩
abbrev main_call20_v9 : Ref sig .tc := ⟨.hbm, 702, rfl⟩
abbrev main_call20_v10 : Ref sig .tc := ⟨.hbm, 703, rfl⟩
abbrev main_call20_v11 : Ref sig .tc := ⟨.hbm, 704, rfl⟩
abbrev main_call20_cst_3 : Ref sig .tc := ⟨.hbm, 705, rfl⟩
abbrev main_call20_v12 : Ref sig .tc := ⟨.hbm, 706, rfl⟩
abbrev main_call20_cst_4 : Ref sig .tc := ⟨.hbm, 707, rfl⟩
abbrev main_call20_call0_v0 : Ref sig .tc := ⟨.hbm, 708, rfl⟩
abbrev main_call20_call0_v1 : Ref sig .tc := ⟨.hbm, 709, rfl⟩
abbrev main_v380 : Ref sig .tc := ⟨.hbm, 710, rfl⟩
abbrev main_v381 : Ref sig .tc := ⟨.hbm, 711, rfl⟩
abbrev main_v382 : Ref sig .tc := ⟨.hbm, 712, rfl⟩
abbrev main_v383 : Ref sig .tc := ⟨.hbm, 713, rfl⟩
abbrev main_v384 : Ref sig .tc := ⟨.hbm, 714, rfl⟩
abbrev main_v385 : Ref sig .tc := ⟨.hbm, 715, rfl⟩
abbrev main_v386 : Ref sig .tc := ⟨.hbm, 716, rfl⟩
abbrev main_cst_65 : Ref sig .tc := ⟨.hbm, 717, rfl⟩
abbrev main_v387 : Ref sig .tc := ⟨.hbm, 718, rfl⟩
abbrev main_v388 : Ref sig .tc := ⟨.hbm, 719, rfl⟩
abbrev main_v389 : Ref sig .tc := ⟨.hbm, 720, rfl⟩
abbrev main_v390 : Ref sig .tc := ⟨.hbm, 721, rfl⟩
abbrev main_v391 : Ref sig .tc := ⟨.hbm, 722, rfl⟩
abbrev main_v392 : Ref sig .tc := ⟨.hbm, 723, rfl⟩
abbrev main_v393 : Ref sig .tc := ⟨.hbm, 724, rfl⟩
abbrev main_v394 : Ref sig .tc := ⟨.hbm, 725, rfl⟩
abbrev main_v395 : Ref sig .tc := ⟨.hbm, 726, rfl⟩
abbrev main_call21_cst : Ref sig .tc := ⟨.hbm, 727, rfl⟩
abbrev main_call21_v0 : Ref sig .tc := ⟨.hbm, 728, rfl⟩
abbrev main_v396 : Ref sig .tc := ⟨.hbm, 729, rfl⟩
abbrev main_v397 : Ref sig .tc := ⟨.hbm, 730, rfl⟩
abbrev main_v398 : Ref sig .tc := ⟨.hbm, 731, rfl⟩
abbrev main_v399 : Ref sig .tc := ⟨.hbm, 732, rfl⟩
abbrev main_v400 : Ref sig .tc := ⟨.hbm, 733, rfl⟩
abbrev main_v401 : Ref sig .tc := ⟨.hbm, 734, rfl⟩
abbrev main_v402 : Ref sig .tc := ⟨.hbm, 735, rfl⟩
abbrev main_v403 : Ref sig .tc := ⟨.hbm, 736, rfl⟩
abbrev main_cst_66 : Ref sig .tc := ⟨.hbm, 737, rfl⟩
abbrev main_v404 : Ref sig .tc := ⟨.hbm, 738, rfl⟩
abbrev main_cst_67 : Ref sig .tc := ⟨.hbm, 739, rfl⟩
abbrev main_v405 : Ref sig .tc := ⟨.hbm, 740, rfl⟩
abbrev main_v406 : Ref sig .tc := ⟨.hbm, 741, rfl⟩
abbrev main_c_68 : Ref sig .tc := ⟨.hbm, 742, rfl⟩
abbrev main_call22_cst : Ref sig .tc := ⟨.hbm, 743, rfl⟩
abbrev main_call22_v0 : Ref sig .tc := ⟨.hbm, 744, rfl⟩
abbrev main_call22_v1 : Ref sig .tc := ⟨.hbm, 745, rfl⟩
abbrev main_call22_cst_0 : Ref sig .tc := ⟨.hbm, 746, rfl⟩
abbrev main_call22_v2 : Ref sig .tc := ⟨.hbm, 747, rfl⟩
abbrev main_call22_v3 : Ref sig .tc := ⟨.hbm, 748, rfl⟩
abbrev main_call22_v4 : Ref sig .tc := ⟨.hbm, 749, rfl⟩
abbrev main_call22_v5 : Ref sig .tc := ⟨.hbm, 750, rfl⟩
abbrev main_call22_v6 : Ref sig .tc := ⟨.hbm, 751, rfl⟩
abbrev main_call22_v7 : Ref sig .tc := ⟨.hbm, 752, rfl⟩
abbrev main_call22_cst_1 : Ref sig .tc := ⟨.hbm, 753, rfl⟩
abbrev main_call22_v8 : Ref sig .tc := ⟨.hbm, 754, rfl⟩
abbrev main_call22_cst_2 : Ref sig .tc := ⟨.hbm, 755, rfl⟩
abbrev main_call22_v9 : Ref sig .tc := ⟨.hbm, 756, rfl⟩
abbrev main_call22_v10 : Ref sig .tc := ⟨.hbm, 757, rfl⟩
abbrev main_call22_v11 : Ref sig .tc := ⟨.hbm, 758, rfl⟩
abbrev main_call22_cst_3 : Ref sig .tc := ⟨.hbm, 759, rfl⟩
abbrev main_call22_v12 : Ref sig .tc := ⟨.hbm, 760, rfl⟩
abbrev main_call22_cst_4 : Ref sig .tc := ⟨.hbm, 761, rfl⟩
abbrev main_call22_call0_v0 : Ref sig .tc := ⟨.hbm, 762, rfl⟩
abbrev main_call22_call0_v1 : Ref sig .tc := ⟨.hbm, 763, rfl⟩
abbrev main_v407 : Ref sig .tc := ⟨.hbm, 764, rfl⟩
abbrev main_v408 : Ref sig .tc := ⟨.hbm, 765, rfl⟩
abbrev main_v409 : Ref sig .tc := ⟨.hbm, 766, rfl⟩
abbrev main_v410 : Ref sig .tc := ⟨.hbm, 767, rfl⟩
abbrev main_v411 : Ref sig .tc := ⟨.hbm, 768, rfl⟩
abbrev main_v412 : Ref sig .tc := ⟨.hbm, 769, rfl⟩
abbrev main_v413 : Ref sig .tc := ⟨.hbm, 770, rfl⟩
abbrev main_cst_69 : Ref sig .tc := ⟨.hbm, 771, rfl⟩
abbrev main_v414 : Ref sig .tc := ⟨.hbm, 772, rfl⟩
abbrev main_v415 : Ref sig .tc := ⟨.hbm, 773, rfl⟩
abbrev main_v416 : Ref sig .tc := ⟨.hbm, 774, rfl⟩
abbrev main_v417 : Ref sig .tc := ⟨.hbm, 775, rfl⟩
abbrev main_v418 : Ref sig .tc := ⟨.hbm, 776, rfl⟩
abbrev main_v419 : Ref sig .tc := ⟨.hbm, 777, rfl⟩
abbrev main_v420 : Ref sig .tc := ⟨.hbm, 778, rfl⟩
abbrev main_v421 : Ref sig .tc := ⟨.hbm, 779, rfl⟩
abbrev main_v422 : Ref sig .tc := ⟨.hbm, 780, rfl⟩
abbrev main_call23_cst : Ref sig .tc := ⟨.hbm, 781, rfl⟩
abbrev main_call23_v0 : Ref sig .tc := ⟨.hbm, 782, rfl⟩
abbrev main_v423 : Ref sig .tc := ⟨.hbm, 783, rfl⟩
abbrev main_c_70 : Ref sig .tc := ⟨.hbm, 784, rfl⟩
abbrev main_v424 : Ref sig .tc := ⟨.hbm, 785, rfl⟩
abbrev main_v425 : Ref sig .tc := ⟨.hbm, 786, rfl⟩
abbrev main_c_71 : Ref sig .tc := ⟨.hbm, 787, rfl⟩
abbrev main_v426 : Ref sig .tc := ⟨.hbm, 788, rfl⟩
abbrev main_v427 : Ref sig .tc := ⟨.hbm, 789, rfl⟩
abbrev main_v428 : Ref sig .tc := ⟨.hbm, 790, rfl⟩
abbrev main_v429 : Ref sig .tc := ⟨.hbm, 791, rfl⟩
abbrev main_v430 : Ref sig .tc := ⟨.hbm, 792, rfl⟩
abbrev main_cst_72 : Ref sig .tc := ⟨.hbm, 793, rfl⟩
abbrev main_v431 : Ref sig .tc := ⟨.hbm, 794, rfl⟩
abbrev main_v432 : Ref sig .tc := ⟨.hbm, 795, rfl⟩
abbrev main_v433 : Ref sig .tc := ⟨.hbm, 796, rfl⟩
abbrev main_v434 : Ref sig .tc := ⟨.hbm, 797, rfl⟩
abbrev main_v435 : Ref sig .tc := ⟨.hbm, 798, rfl⟩
abbrev main_cst_73 : Ref sig .tc := ⟨.hbm, 799, rfl⟩
abbrev main_v436 : Ref sig .tc := ⟨.hbm, 800, rfl⟩
abbrev main_v437 : Ref sig .tc := ⟨.hbm, 801, rfl⟩
abbrev main_v438 : Ref sig .tc := ⟨.hbm, 802, rfl⟩
abbrev main_v439 : Ref sig .tc := ⟨.hbm, 803, rfl⟩
abbrev main_v440 : Ref sig .tc := ⟨.hbm, 804, rfl⟩
abbrev main_v441 : Ref sig .tc := ⟨.hbm, 805, rfl⟩
abbrev main_v442 : Ref sig .tc := ⟨.hbm, 806, rfl⟩
abbrev main_v443 : Ref sig .tc := ⟨.hbm, 807, rfl⟩
abbrev main_v444 : Ref sig .tc := ⟨.hbm, 808, rfl⟩
abbrev main_v445 : Ref sig .tc := ⟨.hbm, 809, rfl⟩
abbrev main_v446 : Ref sig .tc := ⟨.hbm, 810, rfl⟩
abbrev main_cst_74 : Ref sig .tc := ⟨.hbm, 811, rfl⟩
abbrev main_v447 : Ref sig .tc := ⟨.hbm, 812, rfl⟩
abbrev main_cst_75 : Ref sig .tc := ⟨.hbm, 813, rfl⟩
abbrev main_v448 : Ref sig .tc := ⟨.hbm, 814, rfl⟩
abbrev main_v449 : Ref sig .tc := ⟨.hbm, 815, rfl⟩
abbrev main_c_76 : Ref sig .tc := ⟨.hbm, 816, rfl⟩
abbrev main_call24_cst : Ref sig .tc := ⟨.hbm, 817, rfl⟩
abbrev main_call24_v0 : Ref sig .tc := ⟨.hbm, 818, rfl⟩
abbrev main_call24_v1 : Ref sig .tc := ⟨.hbm, 819, rfl⟩
abbrev main_call24_cst_0 : Ref sig .tc := ⟨.hbm, 820, rfl⟩
abbrev main_call24_v2 : Ref sig .tc := ⟨.hbm, 821, rfl⟩
abbrev main_call24_v3 : Ref sig .tc := ⟨.hbm, 822, rfl⟩
abbrev main_call24_v4 : Ref sig .tc := ⟨.hbm, 823, rfl⟩
abbrev main_call24_v5 : Ref sig .tc := ⟨.hbm, 824, rfl⟩
abbrev main_call24_v6 : Ref sig .tc := ⟨.hbm, 825, rfl⟩
abbrev main_call24_v7 : Ref sig .tc := ⟨.hbm, 826, rfl⟩
abbrev main_call24_cst_1 : Ref sig .tc := ⟨.hbm, 827, rfl⟩
abbrev main_call24_v8 : Ref sig .tc := ⟨.hbm, 828, rfl⟩
abbrev main_call24_cst_2 : Ref sig .tc := ⟨.hbm, 829, rfl⟩
abbrev main_call24_v9 : Ref sig .tc := ⟨.hbm, 830, rfl⟩
abbrev main_call24_v10 : Ref sig .tc := ⟨.hbm, 831, rfl⟩
abbrev main_call24_v11 : Ref sig .tc := ⟨.hbm, 832, rfl⟩
abbrev main_call24_cst_3 : Ref sig .tc := ⟨.hbm, 833, rfl⟩
abbrev main_call24_v12 : Ref sig .tc := ⟨.hbm, 834, rfl⟩
abbrev main_call24_cst_4 : Ref sig .tc := ⟨.hbm, 835, rfl⟩
abbrev main_call24_call0_v0 : Ref sig .tc := ⟨.hbm, 836, rfl⟩
abbrev main_call24_call0_v1 : Ref sig .tc := ⟨.hbm, 837, rfl⟩
abbrev main_v450 : Ref sig .tc := ⟨.hbm, 838, rfl⟩
abbrev main_v451 : Ref sig .tc := ⟨.hbm, 839, rfl⟩
abbrev main_v452 : Ref sig .tc := ⟨.hbm, 840, rfl⟩
abbrev main_v453 : Ref sig .tc := ⟨.hbm, 841, rfl⟩
abbrev main_v454 : Ref sig .tc := ⟨.hbm, 842, rfl⟩
abbrev main_v455 : Ref sig .tc := ⟨.hbm, 843, rfl⟩
abbrev main_v456 : Ref sig .tc := ⟨.hbm, 844, rfl⟩
abbrev main_cst_77 : Ref sig .tc := ⟨.hbm, 845, rfl⟩
abbrev main_v457 : Ref sig .tc := ⟨.hbm, 846, rfl⟩
abbrev main_v458 : Ref sig .tc := ⟨.hbm, 847, rfl⟩
abbrev main_v459 : Ref sig .tc := ⟨.hbm, 848, rfl⟩
abbrev main_v460 : Ref sig .tc := ⟨.hbm, 849, rfl⟩
abbrev main_v461 : Ref sig .tc := ⟨.hbm, 850, rfl⟩
abbrev main_v462 : Ref sig .tc := ⟨.hbm, 851, rfl⟩
abbrev main_v463 : Ref sig .tc := ⟨.hbm, 852, rfl⟩
abbrev main_v464 : Ref sig .tc := ⟨.hbm, 853, rfl⟩
abbrev main_v465 : Ref sig .tc := ⟨.hbm, 854, rfl⟩
abbrev main_call25_cst : Ref sig .tc := ⟨.hbm, 855, rfl⟩
abbrev main_call25_v0 : Ref sig .tc := ⟨.hbm, 856, rfl⟩
abbrev main_v466 : Ref sig .tc := ⟨.hbm, 857, rfl⟩
abbrev main_v467 : Ref sig .tc := ⟨.hbm, 858, rfl⟩
abbrev main_call26_cst : Ref sig .tc := ⟨.hbm, 859, rfl⟩
abbrev main_call26_v0 : Ref sig .tc := ⟨.hbm, 860, rfl⟩
abbrev main_v468 : Ref sig .tc := ⟨.hbm, 861, rfl⟩
abbrev main_cst_78 : Ref sig .tc := ⟨.hbm, 862, rfl⟩
abbrev main_v469 : Ref sig .tc := ⟨.hbm, 863, rfl⟩
abbrev main_cst_79 : Ref sig .tc := ⟨.hbm, 864, rfl⟩
abbrev main_v470 : Ref sig .tc := ⟨.hbm, 865, rfl⟩
abbrev main_v471 : Ref sig .tc := ⟨.hbm, 866, rfl⟩
abbrev main_v472 : Ref sig .tc := ⟨.hbm, 867, rfl⟩
abbrev main_cst_80 : Ref sig .tc := ⟨.hbm, 868, rfl⟩
abbrev main_v473 : Ref sig .tc := ⟨.hbm, 869, rfl⟩
abbrev main_v474 : Ref sig .tc := ⟨.hbm, 870, rfl⟩
abbrev main_v475 : Ref sig .tc := ⟨.hbm, 871, rfl⟩
abbrev main_cst_81 : Ref sig .tc := ⟨.hbm, 872, rfl⟩
abbrev main_v476 : Ref sig .tc := ⟨.hbm, 873, rfl⟩
abbrev main_v477 : Ref sig .tc := ⟨.hbm, 874, rfl⟩
abbrev main_v478 : Ref sig .tc := ⟨.hbm, 875, rfl⟩
abbrev main_v479 : Ref sig .tc := ⟨.hbm, 876, rfl⟩
abbrev main_v480 : Ref sig .tc := ⟨.hbm, 877, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  slices_S7_S1_0 : S7.Slices ![0] S1
  shapeCasts_S1_S_ : S1.ShapeCasts S_
  slices_S7x128x64_S1x128x64_0_0_0 : S7x128x64.Slices ![0, 0, 0] S1x128x64
  shapeCasts_S1x128x64_S128x64 : S1x128x64.ShapeCasts S128x64
  slices_S7x64_S1x64_0_0 : S7x64.Slices ![0, 0] S1x64
  shapeCasts_S1x64_S64 : S1x64.ShapeCasts S64
  reducesTo_S50000x64_S64_d0 : S50000x64.ReducesTo [0] S64
  h_S_ : 0 < S_.numel
  bcast_S_S64 : S_.BroadcastsInDim S64 (![] : Fin 0 → Fin S64.rank)
  bcast_S64_S1x64_1 : S64.BroadcastsInDim S1x64 (![1] : Fin 1 → Fin S1x64.rank)
  bcast_S_S1x64 : S_.BroadcastsInDim S1x64 (![] : Fin 0 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  slices_S6x64x128_S1x64x128_0_0_0 : S6x64x128.Slices ![0, 0, 0] S1x64x128
  shapeCasts_S1x64x128_S64x128 : S1x64x128.ShapeCasts S64x128
  slices_S6x128_S1x128_0_0 : S6x128.Slices ![0, 0] S1x128
  shapeCasts_S1x128_S128 : S1x128.ShapeCasts S128
  reducesTo_S50000x128_S128_d0 : S50000x128.ReducesTo [0] S128
  bcast_S_S128 : S_.BroadcastsInDim S128 (![] : Fin 0 → Fin S128.rank)
  bcast_S128_S1x128_1 : S128.BroadcastsInDim S1x128 (![1] : Fin 1 → Fin S1x128.rank)
  bcast_S_S1x128 : S_.BroadcastsInDim S1x128 (![] : Fin 0 → Fin S1x128.rank)
  bcast_S1x128_S50000x128_0_1 : S1x128.BroadcastsInDim S50000x128 (![0, 1] : Fin 2 → Fin S50000x128.rank)
  slices_S7_S1_1 : S7.Slices ![1] S1
  slices_S7x128x64_S1x128x64_1_0_0 : S7x128x64.Slices ![1, 0, 0] S1x128x64
  slices_S7x64_S1x64_1_0 : S7x64.Slices ![1, 0] S1x64
  slices_S6x64x128_S1x64x128_1_0_0 : S6x64x128.Slices ![1, 0, 0] S1x64x128
  slices_S6x128_S1x128_1_0 : S6x128.Slices ![1, 0] S1x128
  slices_S7_S1_2 : S7.Slices ![2] S1
  slices_S7x128x64_S1x128x64_2_0_0 : S7x128x64.Slices ![2, 0, 0] S1x128x64
  slices_S7x64_S1x64_2_0 : S7x64.Slices ![2, 0] S1x64
  slices_S6x64x128_S1x64x128_2_0_0 : S6x64x128.Slices ![2, 0, 0] S1x64x128
  slices_S6x128_S1x128_2_0 : S6x128.Slices ![2, 0] S1x128
  slices_S7_S1_3 : S7.Slices ![3] S1
  slices_S7x128x64_S1x128x64_3_0_0 : S7x128x64.Slices ![3, 0, 0] S1x128x64
  slices_S7x64_S1x64_3_0 : S7x64.Slices ![3, 0] S1x64
  slices_S6x64x128_S1x64x128_3_0_0 : S6x64x128.Slices ![3, 0, 0] S1x64x128
  slices_S6x128_S1x128_3_0 : S6x128.Slices ![3, 0] S1x128
  slices_S7_S1_4 : S7.Slices ![4] S1
  slices_S7x128x64_S1x128x64_4_0_0 : S7x128x64.Slices ![4, 0, 0] S1x128x64
  slices_S7x64_S1x64_4_0 : S7x64.Slices ![4, 0] S1x64
  slices_S6x64x128_S1x64x128_4_0_0 : S6x64x128.Slices ![4, 0, 0] S1x64x128
  slices_S6x128_S1x128_4_0 : S6x128.Slices ![4, 0] S1x128
  slices_S7_S1_5 : S7.Slices ![5] S1
  slices_S7x128x64_S1x128x64_5_0_0 : S7x128x64.Slices ![5, 0, 0] S1x128x64
  slices_S7x64_S1x64_5_0 : S7x64.Slices ![5, 0] S1x64
  slices_S6x64x128_S1x64x128_5_0_0 : S6x64x128.Slices ![5, 0, 0] S1x64x128
  slices_S6x128_S1x128_5_0 : S6x128.Slices ![5, 0] S1x128
  slices_S7_S1_6 : S7.Slices ![6] S1
  slices_S7x128x64_S1x128x64_6_0_0 : S7x128x64.Slices ![6, 0, 0] S1x128x64
  slices_S7x64_S1x64_6_0 : S7x64.Slices ![6, 0] S1x64
  bcast_S_S50000x2 : S_.BroadcastsInDim S50000x2 (![] : Fin 0 → Fin S50000x2.rank)
  bcast_S_S50000 : S_.BroadcastsInDim S50000 (![] : Fin 0 → Fin S50000.rank)
  bcast_S50000_S50000x1_0 : S50000.BroadcastsInDim S50000x1 (![0] : Fin 1 → Fin S50000x1.rank)
  bcast_S_S64x2 : S_.BroadcastsInDim S64x2 (![] : Fin 0 → Fin S64x2.rank)
  bcast_S64_S64x1_0 : S64.BroadcastsInDim S64x1 (![0] : Fin 1 → Fin S64x1.rank)
  bcast_S64x1_S64x2_0_1 : S64x1.BroadcastsInDim S64x2 (![0, 1] : Fin 2 → Fin S64x2.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x64_S50000x64_1_0_0_1_n_n_wf : DotDims.WF S50000x128 S128x64 S50000x64 [1] [0] [0] [1] [] []
  dot_S50000x64_S64x128_S50000x128_1_0_0_1_n_n_wf : DotDims.WF S50000x64 S64x128 S50000x128 [1] [0] [0] [1] [] []
  dot_S50000x64_S64x2_S50000x2_1_0_0_1_n_n_wf : DotDims.WF S50000x64 S64x2 S50000x2 [1] [0] [0] [1] [] []
  scatter_S64_S50000x1_S50000_n_0_0_1_wf : ScatterDims.WF S64 S50000x1 S50000 [] [0] [0] 1
  scatter_S64x2_S50000x1_S50000x2_1_0_0_1_wf : ScatterDims.WF S64x2 S50000x1 S50000x2 [1] [0] [0] 1

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf
def dot_S50000x64_S64x2_S50000x2_1_0_0_1_n_n : DotDims S50000x64 S64x2 S50000x2 where
  lhsContracting := [1]
  rhsContracting := [0]
  lhsNonContracting := [0]
  rhsNonContracting := [1]
  lhsBatch := []
  rhsBatch := []
  wf := dot_S50000x64_S64x2_S50000x2_1_0_0_1_n_n_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def scatter_S64x2_S50000x1_S50000x2_1_0_0_1 : ScatterDims S64x2 S50000x1 S50000x2 where
  updateWindowDims := [1]
  insertedWindowDims := [0]
  scatterDimsToOperandDims := [0]
  indexVectorDim := 1
  wf := scatter_S64x2_S50000x1_S50000x2_1_0_0_1_wf

class Facts : Prop extends Facts₀ where

variable [Facts]
-- ==== Proof.KRun.lean ====
/-
  The kernel program's run with its result named.

  From any launch memory with zero counters, every weakly fair execution of the program on the TensorCores
  terminates with nothing faulting; in every final state the result buffer holds the contents the fold through the
  program's segments assigns to it at the last boundary, and each argument array is as it was launched.
-/
import proofs.«177653_j8959301779747_1_alg».proof.Proof.Gen.KernelIdeal.Frame

set_option maxRecDepth 16384

noncomputable section

namespace Cert.GIN.K

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch lemma's implicit arguments are found by unifying its conclusion with this one, which takes unfolding
-- plain definitions in a metavariable's type
set_option backward.isDefEq.respectTransparency.types false in
/-- The run, its result named: the final state's result buffer is the last boundary's contents at that buffer, and
    every argument array ends as launched. The last thread state holds every unscoped buffer at the last boundary's
    contents; the result buffer is unscoped, so it is read off that state like the arguments are. -/
theorem run_value : θ_run defs (onTc (τ := τ) (main (F := F))) ⟨m, fun _ => 0, ρ⟩ (fun r => ∀ c : Dev nD,
      r.2.mem ((c.tc : Thread nD τ).loc main_v322) = W54 m ρ c (Proc.devRef .tc main_v322)
      ∧ r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)
      ∧       r.2.mem ((c.tc : Thread nD τ).loc main_arg8) = m ((c.tc : Thread nD τ).loc main_arg8)
      ∧       r.2.mem ((c.tc : Thread nD τ).loc main_arg9) = m ((c.tc : Thread nD τ).loc main_arg9)
      ∧       r.2.mem ((c.tc : Thread nD τ).loc main_arg10) = m ((c.tc : Thread nD τ).loc main_arg10)
      ∧       r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W54 m ρ c b)
    (hfin := fun c s' => by
      iintro ⟨⟨Hh, -⟩, HSI⟩
      unfold StableHlo.held
      imodintro
      iapply (pointsTo_read_all (Pipeline.ucRefs τ sig) (fun b => (((c : Thread nD τ)).1, b)) (W54 m ρ c) s')
      isplitl [Hh] <;> iassumption)
    (hQ := fun s h c =>
      ⟨h c _ (mem_uc main_v322 (by decide)),
       (h c _ (mem_uc main_arg0 (by decide))).trans (W54_main_arg0 m ρ c),
       (h c _ (mem_uc main_arg1 (by decide))).trans (W54_main_arg1 m ρ c),
       (h c _ (mem_uc main_arg2 (by decide))).trans (W54_main_arg2 m ρ c),
       (h c _ (mem_uc main_arg3 (by decide))).trans (W54_main_arg3 m ρ c),
       (h c _ (mem_uc main_arg4 (by decide))).trans (W54_main_arg4 m ρ c),
       (h c _ (mem_uc main_arg5 (by decide))).trans (W54_main_arg5 m ρ c),
       (h c _ (mem_uc main_arg6 (by decide))).trans (W54_main_arg6 m ρ c),
       (h c _ (mem_uc main_arg7 (by decide))).trans (W54_main_arg7 m ρ c),
       (h c _ (mem_uc main_arg8 (by decide))).trans (W54_main_arg8 m ρ c),
       (h c _ (mem_uc main_arg9 (by decide))).trans (W54_main_arg9 m ρ c),
       (h c _ (mem_uc main_arg10 (by decide))).trans (W54_main_arg10 m ρ c),
       (h c _ (mem_uc main_arg11 (by decide))).trans (W54_main_arg11 m ρ c)⟩)

end Cert.GIN.K

end
-- ==== Proof.RefOps.lean ====
/- The reference program's @main as lists of host operations, one list per layer of the network and one for the pooling:
   each outlined function's operations are listed at its call, over that call's buffer record, in the order the call runs them. -/
import proofs.«177653_j8959301779747_1_alg».proof.Proof.Gen.ReferenceIdeal
import Idealize.ShloMosaic.Lib.StableHlo.Run

set_option synthInstance.maxSize 4096

noncomputable section

namespace Cert.GIN.Ref

open Cert.ReferenceIdeal Cert.ReferenceIdeal.Gen Idealize.ShloMosaic Idealize.ShloMosaic.TcCoe Idealize.SL.Sem Idealize.ShloMosaic.StableHlo

variable {F : FTy → Type} [FloatOps F]

/-- Layer 0, from the two rows of the edge index (`main_v1` the sources, `main_v3` the targets) to `x₁ = main_v73`:
    the gather of `x₀ = main_arg0` at the sources, its scatter-add at the targets, `(1 + ε₀)·x₀ + agg`, the product with `W1[0]`,
    the batch norm over the rows (mean, the variance as the mean of squared deviations, scale and shift) and the maximum with zero,
    the product with `W2[0]`, the second batch norm and the maximum with zero. -/
abbrev opsL0 : List (HloOp τ sig (Elt F)) :=
  [ StableHlo.unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v0 main_v1 rfl shapeCasts_S1x800000_S800000,
    StableHlo.unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v2 main_v3 rfl shapeCasts_S1x800000_S800000,
    StableHlo.nullary main_c (constantI S_ 32 0#32),
    StableHlo.unary main_c main_v4 (broadcastInDim S800000 ![] bcast_S_S800000 : (⟨S_, .i32⟩ : BufTy).Contents (Elt F) → (⟨S800000, .i32⟩ : BufTy).Contents (Elt F)),
    StableHlo.binary main_v1 main_v4 main_v5 (cmpi .slt : (⟨S800000, .i32⟩ : BufTy).Contents (Elt F) → (⟨S800000, .i32⟩ : BufTy).Contents (Elt F) → (⟨S800000, .i1⟩ : BufTy).Contents (Elt F)),
    StableHlo.nullary main_c_0 (constantI S_ 32 50000#32),
    StableHlo.unary main_c_0 main_v6 (broadcastInDim S800000 ![] bcast_S_S800000 : (⟨S_, .i32⟩ : BufTy).Contents (Elt F) → (⟨S800000, .i32⟩ : BufTy).Contents (Elt F)),
    StableHlo.binary main_v1 main_v6 main_v7 (addi : (⟨S800000, .i32⟩ : BufTy).Contents (Elt F) → (⟨S800000, .i32⟩ : BufTy).Contents (Elt F) → (⟨S800000, .i32⟩ : BufTy).Contents (Elt F)),
    StableHlo.ternary main_v5 main_v7 main_v1 main_v8 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v8 main_v9 (broadcastInDim S800000x1 ![0] bcast_S800000_S800000x1_0 : (⟨S800000, .i32⟩ : BufTy).Contents (Elt F) → (⟨S800000x1, .i32⟩ : BufTy).Contents (Elt F)),
    StableHlo.binary main_arg0 main_v9 main_v10 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst (constant S_ .f32 0x00000000#32),
    StableHlo.unary main_cst main_v11 (broadcastInDim S50000x128 ![] bcast_S_S50000x128 : (⟨S_, .f32⟩ : BufTy).Contents (Elt F) → (⟨S50000x128, .f32⟩ : BufTy).Contents (Elt F)),
    StableHlo.unary main_v3 main_v12 (broadcastInDim S800000x1 ![0] bcast_S800000_S800000x1_0 : (⟨S800000, .i32⟩ : BufTy).Contents (Elt F) → (⟨S800000x1, .i32⟩ : BufTy).Contents (Elt F)),
    StableHlo.ternary main_v11 main_v12 main_v10 main_v13 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.unary main_arg11 main_v14 ((extractStridedSlice S1 ![0] · slices_S7_S1_0) : (⟨S7, .f32⟩ : BufTy).Contents (Elt F) → (⟨S1, .f32⟩ : BufTy).Contents (Elt F)),
    StableHlo.reshape main_v14 main_v15 rfl shapeCasts_S1_S_,
    StableHlo.nullary main_cst_1 (constant S_ .f32 0x3F800000#32),
    StableHlo.binary main_cst_1 main_v15 main_v16 (addf : (⟨S_, .f32⟩ : BufTy).Contents (Elt F) → (⟨S_, .f32⟩ : BufTy).Contents (Elt F) → (⟨S_, .f32⟩ : BufTy).Contents (Elt F)),
    StableHlo.unary main_v16 main_v17 (broadcastInDim S50000x128 ![] bcast_S_S50000x128 : (⟨S_, .f32⟩ : BufTy).Contents (Elt F) → (⟨S50000x128, .f32⟩ : BufTy).Contents (Elt F)),
    StableHlo.binary main_v17 main_arg0 main_v18 (mulf : (⟨S50000x128, .f32⟩ : BufTy).Contents (Elt F) → (⟨S50000x128, .f32⟩ : BufTy).Contents (Elt F) → (⟨S50000x128, .f32⟩ : BufTy).Contents (Elt F)),
    StableHlo.binary main_v18 main_v13 main_v19 (addf : (⟨S50000x128, .f32⟩ : BufTy).Contents (Elt F) → (⟨S50000x128, .f32⟩ : BufTy).Contents (Elt F) → (⟨S50000x128, .f32⟩ : BufTy).Contents (Elt F)),
    StableHlo.unary main_arg4 main_v20 ((extractStridedSlice S1x128x64 ![0, 0, 0] · slices_S7x128x64_S1x128x64_0_0_0) : (⟨S7x128x64, .f32⟩ : BufTy).Contents (Elt F) → (⟨S1x128x64, .f32⟩ : BufTy).Contents (Elt F)),
    StableHlo.reshape main_v20 main_v21 rfl shapeCasts_S1x128x64_S128x64,
    StableHlo.binary main_v19 main_v21 main_v22 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    StableHlo.unary main_arg5 main_v23 ((extractStridedSlice S1x64 ![0, 0] · slices_S7x64_S1x64_0_0) : (⟨S7x64, .f32⟩ : BufTy).Contents (Elt F) → (⟨S1x64, .f32⟩ : BufTy).Contents (Elt F)),
    StableHlo.reshape main_v23 main_v24 rfl shapeCasts_S1x64_S64,
    StableHlo.unary main_arg6 main_v25 ((extractStridedSlice S1x64 ![0, 0] · slices_S7x64_S1x64_0_0) : (⟨S7x64, .f32⟩ : BufTy).Contents (Elt F) → (⟨S1x64, .f32⟩ : BufTy).Contents (Elt F)),
    StableHlo.reshape main_v25 main_v26 rfl shapeCasts_S1x64_S64,
    StableHlo.nullary main_cst_2 (constant S_ .f32 0x00000000#32),
    StableHlo.binary main_v22 main_cst_2 main_v27 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    StableHlo.nullary main_cst_3 (constant S_ .f32 0x47435000#32),
    StableHlo.unary main_cst_3 main_v28 (broadcastInDim S64 ![] bcast_S_S64 : (⟨S_, .f32⟩ : BufTy).Contents (Elt F) → (⟨S64, .f32⟩ : BufTy).Contents (Elt F)),
    StableHlo.binary main_v27 main_v28 main_v29 (Host.divf : (⟨S64, .f32⟩ : BufTy).Contents (Elt F) → (⟨S64, .f32⟩ : BufTy).Contents (Elt F) → (⟨S64, .f32⟩ : BufTy).Contents (Elt F)),
    StableHlo.nullary main_c_4 (constantI S_ 32 0#32),
    StableHlo.TRef.nullary main_call0.cst (constant S_ .f32 0x00000000#32),
    StableHlo.TRef.binary (.of main_v22 : StableHlo.TRef sig ⟨S50000x64, .f32⟩) main_call0.cst main_call0.v0 (fun x v => Host.reduceAdd x v reducesTo_S50000x64_S64_d0 h_S_),
    StableHlo.TRef.unary main_call0.v0 main_call0.v1 (broadcastInDim S1x64 ![1] bcast_S64_S1x64_1),
    StableHlo.TRef.nullary main_call0.cst_0 (constant S_ .f32 0x47435000#32),
    StableHlo.TRef.unary main_call0.cst_0 main_call0.v2 (broadcastInDim S1x64 ![] bcast_S_S1x64),
    StableHlo.TRef.binary main_call0.v1 main_call0.v2 main_call0.v3 Host.divf,
    StableHlo.TRef.unary main_call0.v3 main_call0.v4 (broadcastInDim S50000x64 ![0, 1] bcast_S1x64_S50000x64_0_1),
    StableHlo.TRef.binary (.of main_v22 : StableHlo.TRef sig ⟨S50000x64, .f32⟩) main_call0.v4 main_call0.v5 subf,
    StableHlo.TRef.binary main_call0.v5 main_call0.v5 main_call0.v6 mulf,
    StableHlo.TRef.unary (.of main_c_4 : StableHlo.TRef sig ⟨S_, .i32⟩) main_call0.v7 (sitofp .f32),
    StableHlo.TRef.nullary main_call0.cst_1 (constant S_ .f32 0x47435000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S50000x64_S64_d0 h_S_),
    StableHlo.TRef.unary main_call0.v8 main_call0.v10 (broadcastInDim S64 ![] bcast_S_S64),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S64 ![] bcast_S_S64),
    StableHlo.TRef.ternary main_call0.v12 main_call0.v11 main_call0.call0.v1 main_call0.call0.v2 (fun p a b => select (broadcastInDim S64 ![] bcast_S_S64 p) a b),
    StableHlo.unary main_v29 main_v31 (broadcastInDim S1x64 ![1] bcast_S64_S1x64_1 : (⟨S64, .f32⟩ : BufTy).Contents (Elt F) → (⟨S1x64, .f32⟩ : BufTy).Contents (Elt F)),
    StableHlo.unary main_v31 main_v32 (broadcastInDim S50000x64 ![0, 1] bcast_S1x64_S50000x64_0_1 : (⟨S1x64, .f32⟩ : BufTy).Contents (Elt F) → (⟨S50000x64, .f32⟩ : BufTy).Contents (Elt F)),
    StableHlo.binary main_v22 main_v32 main_v33 (subf : (⟨S50000x64, .f32⟩ : BufTy).Contents (Elt F) → (⟨S50000x64, .f32⟩ : BufTy).Contents (Elt F) → (⟨S50000x64, .f32⟩ : BufTy).Contents (Elt F)),
    StableHlo.unary main_v24 main_v34 (broadcastInDim S1x64 ![1] bcast_S64_S1x64_1 : (⟨S64, .f32⟩ : BufTy).Contents (Elt F) → (⟨S1x64, .f32⟩ : BufTy).Contents (Elt F)),
    StableHlo.unary main_v34 main_v35 (broadcastInDim S50000x64 ![0, 1] bcast_S1x64_S50000x64_0_1 : (⟨S1x64, .f32⟩ : BufTy).Contents (Elt F) → (⟨S50000x64, .f32⟩ : BufTy).Contents (Elt F)),
    StableHlo.binary main_v35 main_v33 main_v36 (mulf : (⟨S50000x64, .f32⟩ : BufTy).Contents (Elt F) → (⟨S50000x64, .f32⟩ : BufTy).Contents (Elt F) → (⟨S50000x64, .f32⟩ : BufTy).Contents (Elt F)),
    StableHlo.nullary main_cst_5 (constant S_ .f32 0x3727C5AC#32),
    StableHlo.unary main_cst_5 main_v37 (broadcastInDim S64 ![] bcast_S_S64 : (⟨S_, .f32⟩ : BufTy).Contents (Elt F) → (⟨S64, .f32⟩ : BufTy).Contents (Elt F)),
    StableHlo.binary main_v30 main_v37 main_v38 (addf : (⟨S64, .f32⟩ : BufTy).Contents (Elt F) → (⟨S64, .f32⟩ : BufTy).Contents (Elt F) → (⟨S64, .f32⟩ : BufTy).Contents (Elt F)),
    StableHlo.unary main_v38 main_v39 (Host.rsqrt : (⟨S64, .f32⟩ : BufTy).Contents (Elt F) → (⟨S64, .f32⟩ : BufTy).Contents (Elt F)),
    StableHlo.unary main_v39 main_v40 (broadcastInDim S1x64 ![1] bcast_S64_S1x64_1 : (⟨S64, .f32⟩ : BufTy).Contents (Elt F) → (⟨S1x64, .f32⟩ : BufTy).Contents (Elt F)),
    StableHlo.unary main_v40 main_v41 (broadcastInDim S50000x64 ![0, 1] bcast_S1x64_S50000x64_0_1 : (⟨S1x64, .f32⟩ : BufTy).Contents (Elt F) → (⟨S50000x64, .f32⟩ : BufTy).Contents (Elt F)),
    StableHlo.binary main_v36 main_v41 main_v42 (mulf : (⟨S50000x64, .f32⟩ : BufTy).Contents (Elt F) → (⟨S50000x64, .f32⟩ : BufTy).Contents (Elt F) → (⟨S50000x64, .f32⟩ : BufTy).Contents (Elt F)),
    StableHlo.unary main_v26 main_v43 (broadcastInDim S1x64 ![1] bcast_S64_S1x64_1 : (⟨S64, .f32⟩ : BufTy).Contents (Elt F) → (⟨S1x64, .f32⟩ : BufTy).Contents (Elt F)),
    StableHlo.unary main_v43 main_v44 (broadcastInDim S50000x64 ![0, 1] bcast_S1x64_S50000x64_0_1 : (⟨S1x64, .f32⟩ : BufTy).Contents (Elt F) → (⟨S50000x64, .f32⟩ : BufTy).Contents (Elt F)),
    StableHlo.binary main_v42 main_v44 main_v45 (addf : (⟨S50000x64, .f32⟩ : BufTy).Contents (Elt F) → (⟨S50000x64, .f32⟩ : BufTy).Contents (Elt F) → (⟨S50000x64, .f32⟩ : BufTy).Contents (Elt F)),
    StableHlo.TRef.nullary main_call1.cst (constant S_ .f32 0x00000000#32),
    StableHlo.TRef.unary main_call1.cst main_call1.v0 (broadcastInDim S50000x64 ![] bcast_S_S50000x64),
    StableHlo.TRef.binary (.of main_v45 : StableHlo.TRef sig ⟨S50000x64, .f32⟩) main_call1.v0 main_call1.v1 maximumf,
    StableHlo.unary main_arg7 main_v47 ((extractStridedSlice S1x64x128 ![0, 0, 0] · slices_S6x64x128_S1x64x128_0_0_0) : (⟨S6x64x128, .f32⟩ : BufTy).Contents (Elt F) → (⟨S1x64x128, .f32⟩ : BufTy).Contents (Elt F)),
    StableHlo.reshape main_v47 main_v48 rfl shapeCasts_S1x64x128_S64x128,
    StableHlo.binary main_v46 main_v48 main_v49 ((fun l r => Host.dotGeneral dot_S50000x64_S64x128_S50000x128_1_0_0_1_n_n none l r) : (⟨S50000x64, .f32⟩ : BufTy).Contents (Elt F) → (⟨S64x128, .f32⟩ : BufTy).Contents (Elt F) → (⟨S50000x128, .f32⟩ : BufTy).Contents (Elt F)),
    StableHlo.unary main_arg8 main_v50 ((extractStridedSlice S1x128 ![0, 0] · slices_S6x128_S1x128_0_0) : (⟨S6x128, .f32⟩ : BufTy).Contents (Elt F) → (⟨S1x128, .f32⟩ : BufTy).Contents (Elt F)),
    StableHlo.reshape main_v50 main_v51 rfl shapeCasts_S1x128_S128,
    StableHlo.unary main_arg9 main_v52 ((extractStridedSlice S1x128 ![0, 0] · slices_S6x128_S1x128_0_0) : (⟨S6x128, .f32⟩ : BufTy).Contents (Elt F) → (⟨S1x128, .f32⟩ : BufTy).Contents (Elt F)),
    StableHlo.reshape main_v52 main_v53 rfl shapeCasts_S1x128_S128,
    StableHlo.nullary main_cst_6 (constant S_ .f32 0x00000000#32),
    StableHlo.binary main_v49 main_cst_6 main_v54 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_7 (constant S_ .f32 0x47435000#32),
    StableHlo.unary main_cst_7 main_v55 (broadcastInDim S128 ![] bcast_S_S128 : (⟨S_, .f32⟩ : BufTy).Contents (Elt F) → (⟨S128, .f32⟩ : BufTy).Contents (Elt F)),
    StableHlo.binary main_v54 main_v55 main_v56 (Host.divf : (⟨S128, .f32⟩ : BufTy).Contents (Elt F) → (⟨S128, .f32⟩ : BufTy).Contents (Elt F) → (⟨S128, .f32⟩ : BufTy).Contents (Elt F)),
    StableHlo.nullary main_c_8 (constantI S_ 32 0#32),
    StableHlo.TRef.nullary main_call2.cst (constant S_ .f32 0x00000000#32),
    StableHlo.TRef.binary (.of main_v49 : StableHlo.TRef sig ⟨S50000x128, .f32⟩) main_call2.cst main_call2.v0 (fun x v => Host.reduceAdd x v reducesTo_S50000x128_S128_d0 h_S_),
    StableHlo.TRef.unary main_call2.v0 main_call2.v1 (broadcastInDim S1x128 ![1] bcast_S128_S1x128_1),
    StableHlo.TRef.nullary main_call2.cst_0 (constant S_ .f32 0x47435000#32),
    StableHlo.TRef.unary main_call2.cst_0 main_call2.v2 (broadcastInDim S1x128 ![] bcast_S_S1x128),
    StableHlo.TRef.binary main_call2.v1 main_call2.v2 main_call2.v3 Host.divf,
    StableHlo.TRef.unary main_call2.v3 main_call2.v4 (broadcastInDim S50000x128 ![0, 1] bcast_S1x128_S50000x128_0_1),
    StableHlo.TRef.binary (.of main_v49 : StableHlo.TRef sig ⟨S50000x128, .f32⟩) main_call2.v4 main_call2.v5 subf,
    StableHlo.TRef.binary main_call2.v5 main_call2.v5 main_call2.v6 mulf,
    StableHlo.TRef.unary (.of main_c_8 : StableHlo.TRef sig ⟨S_, .i32⟩) main_call2.v7 (sitofp .f32),
    StableHlo.TRef.nullary main_call2.cst_1 (constant S_ .f32 0x47435000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S50000x128_S128_d0 h_S_),
    StableHlo.TRef.unary main_call2.v8 main_call2.v10 (broadcastInDim S128 ![] bcast_S_S128),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S128 ![] bcast_S_S128),
    StableHlo.TRef.ternary main_call2.v12 main_call2.v11 main_call2.call0.v1 main_call2.call0.v2 (fun p a b => select (broadcastInDim S128 ![] bcast_S_S128 p) a b),
    StableHlo.unary main_v56 main_v58 (broadcastInDim S1x128 ![1] bcast_S128_S1x128_1 : (⟨S128, .f32⟩ : BufTy).Contents (Elt F) → (⟨S1x128, .f32⟩ : BufTy).Contents (Elt F)),
    StableHlo.unary main_v58 main_v59 (broadcastInDim S50000x128 ![0, 1] bcast_S1x128_S50000x128_0_1 : (⟨S1x128, .f32⟩ : BufTy).Contents (Elt F) → (⟨S50000x128, .f32⟩ : BufTy).Contents (Elt F)),
    StableHlo.binary main_v49 main_v59 main_v60 (subf : (⟨S50000x128, .f32⟩ : BufTy).Contents (Elt F) → (⟨S50000x128, .f32⟩ : BufTy).Contents (Elt F) → (⟨S50000x128, .f32⟩ : BufTy).Contents (Elt F)),
    StableHlo.unary main_v51 main_v61 (broadcastInDim S1x128 ![1] bcast_S128_S1x128_1 : (⟨S128, .f32⟩ : BufTy).Contents (Elt F) → (⟨S1x128, .f32⟩ : BufTy).Contents (Elt F)),
    StableHlo.unary main_v61 main_v62 (broadcastInDim S50000x128 ![0, 1] bcast_S1x128_S50000x128_0_1 : (⟨S1x128, .f32⟩ : BufTy).Contents (Elt F) → (⟨S50000x128, .f32⟩ : BufTy).Contents (Elt F)),
    StableHlo.binary main_v62 main_v60 main_v63 (mulf : (⟨S50000x128, .f32⟩ : BufTy).Contents (Elt F) → (⟨S50000x128, .f32⟩ : BufTy).Contents (Elt F) → (⟨S50000x128, .f32⟩ : BufTy).Contents (Elt F)),
    StableHlo.nullary main_cst_9 (constant S_ .f32 0x3727C5AC#32),
    StableHlo.unary main_cst_9 main_v64 (broadcastInDim S128 ![] bcast_S_S128 : (⟨S_, .f32⟩ : BufTy).Contents (Elt F) → (⟨S128, .f32⟩ : BufTy).Contents (Elt F)),
    StableHlo.binary main_v57 main_v64 main_v65 (addf : (⟨S128, .f32⟩ : BufTy).Contents (Elt F) → (⟨S128, .f32⟩ : BufTy).Contents (Elt F) → (⟨S128, .f32⟩ : BufTy).Contents (Elt F)),
    StableHlo.unary main_v65 main_v66 (Host.rsqrt : (⟨S128, .f32⟩ : BufTy).Contents (Elt F) → (⟨S128, .f32⟩ : BufTy).Contents (Elt F)),
    StableHlo.unary main_v66 main_v67 (broadcastInDim S1x128 ![1] bcast_S128_S1x128_1 : (⟨S128, .f32⟩ : BufTy).Contents (Elt F) → (⟨S1x128, .f32⟩ : BufTy).Contents (Elt F)),
    StableHlo.unary main_v67 main_v68 (broadcastInDim S50000x128 ![0, 1] bcast_S1x128_S50000x128_0_1 : (⟨S1x128, .f32⟩ : BufTy).Contents (Elt F) → (⟨S50000x128, .f32⟩ : BufTy).Contents (Elt F)),
    StableHlo.binary main_v63 main_v68 main_v69 (mulf : (⟨S50000x128, .f32⟩ : BufTy).Contents (Elt F) → (⟨S50000x128, .f32⟩ : BufTy).Contents (Elt F) → (⟨S50000x128, .f32⟩ : BufTy).Contents (Elt F)),
    StableHlo.unary main_v53 main_v70 (broadcastInDim S1x128 ![1] bcast_S128_S1x128_1 : (⟨S128, .f32⟩ : BufTy).Contents (Elt F) → (⟨S1x128, .f32⟩ : BufTy).Contents (Elt F)),
    StableHlo.unary main_v70 main_v71 (broadcastInDim S50000x128 ![0, 1] bcast_S1x128_S50000x128_0_1 : (⟨S1x128, .f32⟩ : BufTy).Contents (Elt F) → (⟨S50000x128, .f32⟩ : BufTy).Contents (Elt F)),
    StableHlo.binary main_v69 main_v71 main_v72 (addf : (⟨S50000x128, .f32⟩ : BufTy).Contents (Elt F) → (⟨S50000x128, .f32⟩ : BufTy).Contents (Elt F) → (⟨S50000x128, .f32⟩ : BufTy).Contents (Elt F)),
    StableHlo.TRef.nullary main_call3.cst (constant S_ .f32 0x00000000#32),
    StableHlo.TRef.unary main_call3.cst main_call3.v0 (broadcastInDim S50000x128 ![] bcast_S_S50000x128),
    StableHlo.TRef.binary (.of main_v72 : StableHlo.TRef sig ⟨S50000x128, .f32⟩) main_call3.v0 main_call3.v1 maximumf ]

/-- Layer 1, from `x₁` to `x₂`: the same line at slice 1 of the weights, reading the edge rows `main_v1`, `main_v3` of layer 0. -/
abbrev opsL1 : List (HloOp τ sig (Elt F)) :=
  [ StableHlo.nullary main_c_10 (constantI S_ 32 0#32),
    StableHlo.unary main_c_10 main_v74 (broadcastInDim S800000 ![] bcast_S_S800000 : (⟨S_, .i32⟩ : BufTy).Contents (Elt F) → (⟨S800000, .i32⟩ : BufTy).Contents (Elt F)),
    StableHlo.binary main_v1 main_v74 main_v75 (cmpi .slt : (⟨S800000, .i32⟩ : BufTy).Contents (Elt F) → (⟨S800000, .i32⟩ : BufTy).Contents (Elt F) → (⟨S800000, .i1⟩ : BufTy).Contents (Elt F)),
    StableHlo.nullary main_c_11 (constantI S_ 32 50000#32),
    StableHlo.unary main_c_11 main_v76 (broadcastInDim S800000 ![] bcast_S_S800000 : (⟨S_, .i32⟩ : BufTy).Contents (Elt F) → (⟨S800000, .i32⟩ : BufTy).Contents (Elt F)),
    StableHlo.binary main_v1 main_v76 main_v77 (addi : (⟨S800000, .i32⟩ : BufTy).Contents (Elt F) → (⟨S800000, .i32⟩ : BufTy).Contents (Elt F) → (⟨S800000, .i32⟩ : BufTy).Contents (Elt F)),
    StableHlo.ternary main_v75 main_v77 main_v1 main_v78 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v78 main_v79 (broadcastInDim S800000x1 ![0] bcast_S800000_S800000x1_0 : (⟨S800000, .i32⟩ : BufTy).Contents (Elt F) → (⟨S800000x1, .i32⟩ : BufTy).Contents (Elt F)),
    StableHlo.binary main_v73 main_v79 main_v80 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_12 (constant S_ .f32 0x00000000#32),
    StableHlo.unary main_cst_12 main_v81 (broadcastInDim S50000x128 ![] bcast_S_S50000x128 : (⟨S_, .f32⟩ : BufTy).Contents (Elt F) → (⟨S50000x128, .f32⟩ : BufTy).Contents (Elt F)),
    StableHlo.unary main_v3 main_v82 (broadcastInDim S800000x1 ![0] bcast_S800000_S800000x1_0 : (⟨S800000, .i32⟩ : BufTy).Contents (Elt F) → (⟨S800000x1, .i32⟩ : BufTy).Contents (Elt F)),
    StableHlo.ternary main_v81 main_v82 main_v80 main_v83 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.unary main_arg11 main_v84 ((extractStridedSlice S1 ![1] · slices_S7_S1_1) : (⟨S7, .f32⟩ : BufTy).Contents (Elt F) → (⟨S1, .f32⟩ : BufTy).Contents (Elt F)),
    StableHlo.reshape main_v84 main_v85 rfl shapeCasts_S1_S_,
    StableHlo.nullary main_cst_13 (constant S_ .f32 0x3F800000#32),
    StableHlo.binary main_cst_13 main_v85 main_v86 (addf : (⟨S_, .f32⟩ : BufTy).Contents (Elt F) → (⟨S_, .f32⟩ : BufTy).Contents (Elt F) → (⟨S_, .f32⟩ : BufTy).Contents (Elt F)),
    StableHlo.unary main_v86 main_v87 (broadcastInDim S50000x128 ![] bcast_S_S50000x128 : (⟨S_, .f32⟩ : BufTy).Contents (Elt F) → (⟨S50000x128, .f32⟩ : BufTy).Contents (Elt F)),
    StableHlo.binary main_v87 main_v73 main_v88 (mulf : (⟨S50000x128, .f32⟩ : BufTy).Contents (Elt F) → (⟨S50000x128, .f32⟩ : BufTy).Contents (Elt F) → (⟨S50000x128, .f32⟩ : BufTy).Contents (Elt F)),
    StableHlo.binary main_v88 main_v83 main_v89 (addf : (⟨S50000x128, .f32⟩ : BufTy).Contents (Elt F) → (⟨S50000x128, .f32⟩ : BufTy).Contents (Elt F) → (⟨S50000x128, .f32⟩ : BufTy).Contents (Elt F)),
    StableHlo.unary main_arg4 main_v90 ((extractStridedSlice S1x128x64 ![1, 0, 0] · slices_S7x128x64_S1x128x64_1_0_0) : (⟨S7x128x64, .f32⟩ : BufTy).Contents (Elt F) → (⟨S1x128x64, .f32⟩ : BufTy).Contents (Elt F)),
    StableHlo.reshape main_v90 main_v91 rfl shapeCasts_S1x128x64_S128x64,
    StableHlo.binary main_v89 main_v91 main_v92 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    StableHlo.unary main_arg5 main_v93 ((extractStridedSlice S1x64 ![1, 0] · slices_S7x64_S1x64_1_0) : (⟨S7x64, .f32⟩ : BufTy).Contents (Elt F) → (⟨S1x64, .f32⟩ : BufTy).Contents (Elt F)),
    StableHlo.reshape main_v93 main_v94 rfl shapeCasts_S1x64_S64,
    StableHlo.unary main_arg6 main_v95 ((extractStridedSlice S1x64 ![1, 0] · slices_S7x64_S1x64_1_0) : (⟨S7x64, .f32⟩ : BufTy).Contents (Elt F) → (⟨S1x64, .f32⟩ : BufTy).Contents (Elt F)),
    StableHlo.reshape main_v95 main_v96 rfl shapeCasts_S1x64_S64,
    StableHlo.nullary main_cst_14 (constant S_ .f32 0x00000000#32),
    StableHlo.binary main_v92 main_cst_14 main_v97 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    StableHlo.nullary main_cst_15 (constant S_ .f32 0x47435000#32),
    StableHlo.unary main_cst_15 main_v98 (broadcastInDim S64 ![] bcast_S_S64 : (⟨S_, .f32⟩ : BufTy).Contents (Elt F) → (⟨S64, .f32⟩ : BufTy).Contents (Elt F)),
    StableHlo.binary main_v97 main_v98 main_v99 (Host.divf : (⟨S64, .f32⟩ : BufTy).Contents (Elt F) → (⟨S64, .f32⟩ : BufTy).Contents (Elt F) → (⟨S64, .f32⟩ : BufTy).Contents (Elt F)),
    StableHlo.nullary main_c_16 (constantI S_ 32 0#32),
    StableHlo.TRef.nullary main_call4.cst (constant S_ .f32 0x00000000#32),
    StableHlo.TRef.binary (.of main_v92 : StableHlo.TRef sig ⟨S50000x64, .f32⟩) main_call4.cst main_call4.v0 (fun x v => Host.reduceAdd x v reducesTo_S50000x64_S64_d0 h_S_),
    StableHlo.TRef.unary main_call4.v0 main_call4.v1 (broadcastInDim S1x64 ![1] bcast_S64_S1x64_1),
    StableHlo.TRef.nullary main_call4.cst_0 (constant S_ .f32 0x47435000#32),
    StableHlo.TRef.unary main_call4.cst_0 main_call4.v2 (broadcastInDim S1x64 ![] bcast_S_S1x64),
    StableHlo.TRef.binary main_call4.v1 main_call4.v2 main_call4.v3 Host.divf,
    StableHlo.TRef.unary main_call4.v3 main_call4.v4 (broadcastInDim S50000x64 ![0, 1] bcast_S1x64_S50000x64_0_1),
    StableHlo.TRef.binary (.of main_v92 : StableHlo.TRef sig ⟨S50000x64, .f32⟩) main_call4.v4 main_call4.v5 subf,
    StableHlo.TRef.binary main_call4.v5 main_call4.v5 main_call4.v6 mulf,
    StableHlo.TRef.unary (.of main_c_16 : StableHlo.TRef sig ⟨S_, .i32⟩) main_call4.v7 (sitofp .f32),
    StableHlo.TRef.nullary main_call4.cst_1 (constant S_ .f32 0x47435000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S50000x64_S64_d0 h_S_),
    StableHlo.TRef.unary main_call4.v8 main_call4.v10 (broadcastInDim S64 ![] bcast_S_S64),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S64 ![] bcast_S_S64),
    StableHlo.TRef.ternary main_call4.v12 main_call4.v11 main_call4.call0.v1 main_call4.call0.v2 (fun p a b => select (broadcastInDim S64 ![] bcast_S_S64 p) a b),
    StableHlo.unary main_v99 main_v101 (broadcastInDim S1x64 ![1] bcast_S64_S1x64_1 : (⟨S64, .f32⟩ : BufTy).Contents (Elt F) → (⟨S1x64, .f32⟩ : BufTy).Contents (Elt F)),
    StableHlo.unary main_v101 main_v102 (broadcastInDim S50000x64 ![0, 1] bcast_S1x64_S50000x64_0_1 : (⟨S1x64, .f32⟩ : BufTy).Contents (Elt F) → (⟨S50000x64, .f32⟩ : BufTy).Contents (Elt F)),
    StableHlo.binary main_v92 main_v102 main_v103 (subf : (⟨S50000x64, .f32⟩ : BufTy).Contents (Elt F) → (⟨S50000x64, .f32⟩ : BufTy).Contents (Elt F) → (⟨S50000x64, .f32⟩ : BufTy).Contents (Elt F)),
    StableHlo.unary main_v94 main_v104 (broadcastInDim S1x64 ![1] bcast_S64_S1x64_1 : (⟨S64, .f32⟩ : BufTy).Contents (Elt F) → (⟨S1x64, .f32⟩ : BufTy).Contents (Elt F)),
    StableHlo.unary main_v104 main_v105 (broadcastInDim S50000x64 ![0, 1] bcast_S1x64_S50000x64_0_1 : (⟨S1x64, .f32⟩ : BufTy).Contents (Elt F) → (⟨S50000x64, .f32⟩ : BufTy).Contents (Elt F)),
    StableHlo.binary main_v105 main_v103 main_v106 (mulf : (⟨S50000x64, .f32⟩ : BufTy).Contents (Elt F) → (⟨S50000x64, .f32⟩ : BufTy).Contents (Elt F) → (⟨S50000x64, .f32⟩ : BufTy).Contents (Elt F)),
    StableHlo.nullary main_cst_17 (constant S_ .f32 0x3727C5AC#32),
    StableHlo.unary main_cst_17 main_v107 (broadcastInDim S64 ![] bcast_S_S64 : (⟨S_, .f32⟩ : BufTy).Contents (Elt F) → (⟨S64, .f32⟩ : BufTy).Contents (Elt F)),
    StableHlo.binary main_v100 main_v107 main_v108 (addf : (⟨S64, .f32⟩ : BufTy).Contents (Elt F) → (⟨S64, .f32⟩ : BufTy).Contents (Elt F) → (⟨S64, .f32⟩ : BufTy).Contents (Elt F)),
    StableHlo.unary main_v108 main_v109 (Host.rsqrt : (⟨S64, .f32⟩ : BufTy).Contents (Elt F) → (⟨S64, .f32⟩ : BufTy).Contents (Elt F)),
    StableHlo.unary main_v109 main_v110 (broadcastInDim S1x64 ![1] bcast_S64_S1x64_1 : (⟨S64, .f32⟩ : BufTy).Contents (Elt F) → (⟨S1x64, .f32⟩ : BufTy).Contents (Elt F)),
    StableHlo.unary main_v110 main_v111 (broadcastInDim S50000x64 ![0, 1] bcast_S1x64_S50000x64_0_1 : (⟨S1x64, .f32⟩ : BufTy).Contents (Elt F) → (⟨S50000x64, .f32⟩ : BufTy).Contents (Elt F)),
    StableHlo.binary main_v106 main_v111 main_v112 (mulf : (⟨S50000x64, .f32⟩ : BufTy).Contents (Elt F) → (⟨S50000x64, .f32⟩ : BufTy).Contents (Elt F) → (⟨S50000x64, .f32⟩ : BufTy).Contents (Elt F)),
    StableHlo.unary main_v96 main_v113 (broadcastInDim S1x64 ![1] bcast_S64_S1x64_1 : (⟨S64, .f32⟩ : BufTy).Contents (Elt F) → (⟨S1x64, .f32⟩ : BufTy).Contents (Elt F)),
    StableHlo.unary main_v113 main_v114 (broadcastInDim S50000x64 ![0, 1] bcast_S1x64_S50000x64_0_1 : (⟨S1x64, .f32⟩ : BufTy).Contents (Elt F) → (⟨S50000x64, .f32⟩ : BufTy).Contents (Elt F)),
    StableHlo.binary main_v112 main_v114 main_v115 (addf : (⟨S50000x64, .f32⟩ : BufTy).Contents (Elt F) → (⟨S50000x64, .f32⟩ : BufTy).Contents (Elt F) → (⟨S50000x64, .f32⟩ : BufTy).Contents (Elt F)),
    StableHlo.TRef.nullary main_call5.cst (constant S_ .f32 0x00000000#32),
    StableHlo.TRef.unary main_call5.cst main_call5.v0 (broadcastInDim S50000x64 ![] bcast_S_S50000x64),
    StableHlo.TRef.binary (.of main_v115 : StableHlo.TRef sig ⟨S50000x64, .f32⟩) main_call5.v0 main_call5.v1 maximumf,
    StableHlo.unary main_arg7 main_v117 ((extractStridedSlice S1x64x128 ![1, 0, 0] · slices_S6x64x128_S1x64x128_1_0_0) : (⟨S6x64x128, .f32⟩ : BufTy).Contents (Elt F) → (⟨S1x64x128, .f32⟩ : BufTy).Contents (Elt F)),
    StableHlo.reshape main_v117 main_v118 rfl shapeCasts_S1x64x128_S64x128,
    StableHlo.binary main_v116 main_v118 main_v119 ((fun l r => Host.dotGeneral dot_S50000x64_S64x128_S50000x128_1_0_0_1_n_n none l r) : (⟨S50000x64, .f32⟩ : BufTy).Contents (Elt F) → (⟨S64x128, .f32⟩ : BufTy).Contents (Elt F) → (⟨S50000x128, .f32⟩ : BufTy).Contents (Elt F)),
    StableHlo.unary main_arg8 main_v120 ((extractStridedSlice S1x128 ![1, 0] · slices_S6x128_S1x128_1_0) : (⟨S6x128, .f32⟩ : BufTy).Contents (Elt F) → (⟨S1x128, .f32⟩ : BufTy).Contents (Elt F)),
    StableHlo.reshape main_v120 main_v121 rfl shapeCasts_S1x128_S128,
    StableHlo.unary main_arg9 main_v122 ((extractStridedSlice S1x128 ![1, 0] · slices_S6x128_S1x128_1_0) : (⟨S6x128, .f32⟩ : BufTy).Contents (Elt F) → (⟨S1x128, .f32⟩ : BufTy).Contents (Elt F)),
    StableHlo.reshape main_v122 main_v123 rfl shapeCasts_S1x128_S128,
    StableHlo.nullary main_cst_18 (constant S_ .f32 0x00000000#32),
    StableHlo.binary main_v119 main_cst_18 main_v124 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_19 (constant S_ .f32 0x47435000#32),
    StableHlo.unary main_cst_19 main_v125 (broadcastInDim S128 ![] bcast_S_S128 : (⟨S_, .f32⟩ : BufTy).Contents (Elt F) → (⟨S128, .f32⟩ : BufTy).Contents (Elt F)),
    StableHlo.binary main_v124 main_v125 main_v126 (Host.divf : (⟨S128, .f32⟩ : BufTy).Contents (Elt F) → (⟨S128, .f32⟩ : BufTy).Contents (Elt F) → (⟨S128, .f32⟩ : BufTy).Contents (Elt F)),
    StableHlo.nullary main_c_20 (constantI S_ 32 0#32),
    StableHlo.TRef.nullary main_call6.cst (constant S_ .f32 0x00000000#32),
    StableHlo.TRef.binary (.of main_v119 : StableHlo.TRef sig ⟨S50000x128, .f32⟩) main_call6.cst main_call6.v0 (fun x v => Host.reduceAdd x v reducesTo_S50000x128_S128_d0 h_S_),
    StableHlo.TRef.unary main_call6.v0 main_call6.v1 (broadcastInDim S1x128 ![1] bcast_S128_S1x128_1),
    StableHlo.TRef.nullary main_call6.cst_0 (constant S_ .f32 0x47435000#32),
    StableHlo.TRef.unary main_call6.cst_0 main_call6.v2 (broadcastInDim S1x128 ![] bcast_S_S1x128),
    StableHlo.TRef.binary main_call6.v1 main_call6.v2 main_call6.v3 Host.divf,
    StableHlo.TRef.unary main_call6.v3 main_call6.v4 (broadcastInDim S50000x128 ![0, 1] bcast_S1x128_S50000x128_0_1),
    StableHlo.TRef.binary (.of main_v119 : StableHlo.TRef sig ⟨S50000x128, .f32⟩) main_call6.v4 main_call6.v5 subf,
    StableHlo.TRef.binary main_call6.v5 main_call6.v5 main_call6.v6 mulf,
    StableHlo.TRef.unary (.of main_c_20 : StableHlo.TRef sig ⟨S_, .i32⟩) main_call6.v7 (sitofp .f32),
    StableHlo.TRef.nullary main_call6.cst_1 (constant S_ .f32 0x47435000#32),
    StableHlo.TRef.binary main_call6.cst_1 main_call6.v7 main_call6.v8 subf,
    StableHlo.TRef.nullary main_call6.cst_2 (constant S_ .f32 0x00000000#32),
    StableHlo.TRef.binary main_call6.v6 main_call6.cst_2 main_call6.v9 (fun x v => Host.reduceAdd x v reducesTo_S50000x128_S128_d0 h_S_),
    StableHlo.TRef.unary main_call6.v8 main_call6.v10 (broadcastInDim S128 ![] bcast_S_S128),
    StableHlo.TRef.binary main_call6.v9 main_call6.v10 main_call6.v11 Host.divf,
    StableHlo.TRef.nullary main_call6.cst_3 (constant S_ .f32 0x00000000#32),
    StableHlo.TRef.binary main_call6.v8 main_call6.cst_3 main_call6.v12 (cmpf .ogt),
    StableHlo.TRef.nullary main_call6.cst_4 (constant S_ .f32 0x7FC00000#32),
    StableHlo.TRef.unary main_call6.cst_4 main_call6.call0.v0 id,
    StableHlo.TRef.unary main_call6.call0.v0 main_call6.call0.v1 (broadcastInDim S128 ![] bcast_S_S128),
    StableHlo.TRef.ternary main_call6.v12 main_call6.v11 main_call6.call0.v1 main_call6.call0.v2 (fun p a b => select (broadcastInDim S128 ![] bcast_S_S128 p) a b),
    StableHlo.unary main_v126 main_v128 (broadcastInDim S1x128 ![1] bcast_S128_S1x128_1 : (⟨S128, .f32⟩ : BufTy).Contents (Elt F) → (⟨S1x128, .f32⟩ : BufTy).Contents (Elt F)),
    StableHlo.unary main_v128 main_v129 (broadcastInDim S50000x128 ![0, 1] bcast_S1x128_S50000x128_0_1 : (⟨S1x128, .f32⟩ : BufTy).Contents (Elt F) → (⟨S50000x128, .f32⟩ : BufTy).Contents (Elt F)),
    StableHlo.binary main_v119 main_v129 main_v130 (subf : (⟨S50000x128, .f32⟩ : BufTy).Contents (Elt F) → (⟨S50000x128, .f32⟩ : BufTy).Contents (Elt F) → (⟨S50000x128, .f32⟩ : BufTy).Contents (Elt F)),
    StableHlo.unary main_v121 main_v131 (broadcastInDim S1x128 ![1] bcast_S128_S1x128_1 : (⟨S128, .f32⟩ : BufTy).Contents (Elt F) → (⟨S1x128, .f32⟩ : BufTy).Contents (Elt F)),
    StableHlo.unary main_v131 main_v132 (broadcastInDim S50000x128 ![0, 1] bcast_S1x128_S50000x128_0_1 : (⟨S1x128, .f32⟩ : BufTy).Contents (Elt F) → (⟨S50000x128, .f32⟩ : BufTy).Contents (Elt F)),
    StableHlo.binary main_v132 main_v130 main_v133 (mulf : (⟨S50000x128, .f32⟩ : BufTy).Contents (Elt F) → (⟨S50000x128, .f32⟩ : BufTy).Contents (Elt F) → (⟨S50000x128, .f32⟩ : BufTy).Contents (Elt F)),
    StableHlo.nullary main_cst_21 (constant S_ .f32 0x3727C5AC#32),
    StableHlo.unary main_cst_21 main_v134 (broadcastInDim S128 ![] bcast_S_S128 : (⟨S_, .f32⟩ : BufTy).Contents (Elt F) → (⟨S128, .f32⟩ : BufTy).Contents (Elt F)),
    StableHlo.binary main_v127 main_v134 main_v135 (addf : (⟨S128, .f32⟩ : BufTy).Contents (Elt F) → (⟨S128, .f32⟩ : BufTy).Contents (Elt F) → (⟨S128, .f32⟩ : BufTy).Contents (Elt F)),
    StableHlo.unary main_v135 main_v136 (Host.rsqrt : (⟨S128, .f32⟩ : BufTy).Contents (Elt F) → (⟨S128, .f32⟩ : BufTy).Contents (Elt F)),
    StableHlo.unary main_v136 main_v137 (broadcastInDim S1x128 ![1] bcast_S128_S1x128_1 : (⟨S128, .f32⟩ : BufTy).Contents (Elt F) → (⟨S1x128, .f32⟩ : BufTy).Contents (Elt F)),
    StableHlo.unary main_v137 main_v138 (broadcastInDim S50000x128 ![0, 1] bcast_S1x128_S50000x128_0_1 : (⟨S1x128, .f32⟩ : BufTy).Contents (Elt F) → (⟨S50000x128, .f32⟩ : BufTy).Contents (Elt F)),
    StableHlo.binary main_v133 main_v138 main_v139 (mulf : (⟨S50000x128, .f32⟩ : BufTy).Contents (Elt F) → (⟨S50000x128, .f32⟩ : BufTy).Contents (Elt F) → (⟨S50000x128, .f32⟩ : BufTy).Contents (Elt F)),
    StableHlo.unary main_v123 main_v140 (broadcastInDim S1x128 ![1] bcast_S128_S1x128_1 : (⟨S128, .f32⟩ : BufTy).Contents (Elt F) → (⟨S1x128, .f32⟩ : BufTy).Contents (Elt F)),
    StableHlo.unary main_v140 main_v141 (broadcastInDim S50000x128 ![0, 1] bcast_S1x128_S50000x128_0_1 : (⟨S1x128, .f32⟩ : BufTy).Contents (Elt F) → (⟨S50000x128, .f32⟩ : BufTy).Contents (Elt F)),
    StableHlo.binary main_v139 main_v141 main_v142 (addf : (⟨S50000x128, .f32⟩ : BufTy).Contents (Elt F) → (⟨S50000x128, .f32⟩ : BufTy).Contents (Elt F) → (⟨S50000x128, .f32⟩ : BufTy).Contents (Elt F)),
    StableHlo.TRef.nullary main_call7.cst (constant S_ .f32 0x00000000#32),
    StableHlo.TRef.unary main_call7.cst main_call7.v0 (broadcastInDim S50000x128 ![] bcast_S_S50000x128),
    StableHlo.TRef.binary (.of main_v142 : StableHlo.TRef sig ⟨S50000x128, .f32⟩) main_call7.v0 main_call7.v1 maximumf ]

/-- Layer 2, from `x₂` to `x₃`: the same line at slice 2 of the weights, reading the edge rows `main_v1`, `main_v3` of layer 0. -/
abbrev opsL2 : List (HloOp τ sig (Elt F)) :=
  [ StableHlo.nullary main_c_22 (constantI S_ 32 0#32),
    StableHlo.unary main_c_22 main_v144 (broadcastInDim S800000 ![] bcast_S_S800000 : (⟨S_, .i32⟩ : BufTy).Contents (Elt F) → (⟨S800000, .i32⟩ : BufTy).Contents (Elt F)),
    StableHlo.binary main_v1 main_v144 main_v145 (cmpi .slt : (⟨S800000, .i32⟩ : BufTy).Contents (Elt F) → (⟨S800000, .i32⟩ : BufTy).Contents (Elt F) → (⟨S800000, .i1⟩ : BufTy).Contents (Elt F)),
    StableHlo.nullary main_c_23 (constantI S_ 32 50000#32),
    StableHlo.unary main_c_23 main_v146 (broadcastInDim S800000 ![] bcast_S_S800000 : (⟨S_, .i32⟩ : BufTy).Contents (Elt F) → (⟨S800000, .i32⟩ : BufTy).Contents (Elt F)),
    StableHlo.binary main_v1 main_v146 main_v147 (addi : (⟨S800000, .i32⟩ : BufTy).Contents (Elt F) → (⟨S800000, .i32⟩ : BufTy).Contents (Elt F) → (⟨S800000, .i32⟩ : BufTy).Contents (Elt F)),
    StableHlo.ternary main_v145 main_v147 main_v1 main_v148 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v148 main_v149 (broadcastInDim S800000x1 ![0] bcast_S800000_S800000x1_0 : (⟨S800000, .i32⟩ : BufTy).Contents (Elt F) → (⟨S800000x1, .i32⟩ : BufTy).Contents (Elt F)),
    StableHlo.binary main_v143 main_v149 main_v150 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_24 (constant S_ .f32 0x00000000#32),
    StableHlo.unary main_cst_24 main_v151 (broadcastInDim S50000x128 ![] bcast_S_S50000x128 : (⟨S_, .f32⟩ : BufTy).Contents (Elt F) → (⟨S50000x128, .f32⟩ : BufTy).Contents (Elt F)),
    StableHlo.unary main_v3 main_v152 (broadcastInDim S800000x1 ![0] bcast_S800000_S800000x1_0 : (⟨S800000, .i32⟩ : BufTy).Contents (Elt F) → (⟨S800000x1, .i32⟩ : BufTy).Contents (Elt F)),
    StableHlo.ternary main_v151 main_v152 main_v150 main_v153 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.unary main_arg11 main_v154 ((extractStridedSlice S1 ![2] · slices_S7_S1_2) : (⟨S7, .f32⟩ : BufTy).Contents (Elt F) → (⟨S1, .f32⟩ : BufTy).Contents (Elt F)),
    StableHlo.reshape main_v154 main_v155 rfl shapeCasts_S1_S_,
    StableHlo.nullary main_cst_25 (constant S_ .f32 0x3F800000#32),
    StableHlo.binary main_cst_25 main_v155 main_v156 (addf : (⟨S_, .f32⟩ : BufTy).Contents (Elt F) → (⟨S_, .f32⟩ : BufTy).Contents (Elt F) → (⟨S_, .f32⟩ : BufTy).Contents (Elt F)),
    StableHlo.unary main_v156 main_v157 (broadcastInDim S50000x128 ![] bcast_S_S50000x128 : (⟨S_, .f32⟩ : BufTy).Contents (Elt F) → (⟨S50000x128, .f32⟩ : BufTy).Contents (Elt F)),
    StableHlo.binary main_v157 main_v143 main_v158 (mulf : (⟨S50000x128, .f32⟩ : BufTy).Contents (Elt F) → (⟨S50000x128, .f32⟩ : BufTy).Contents (Elt F) → (⟨S50000x128, .f32⟩ : BufTy).Contents (Elt F)),
    StableHlo.binary main_v158 main_v153 main_v159 (addf : (⟨S50000x128, .f32⟩ : BufTy).Contents (Elt F) → (⟨S50000x128, .f32⟩ : BufTy).Contents (Elt F) → (⟨S50000x128, .f32⟩ : BufTy).Contents (Elt F)),
    StableHlo.unary main_arg4 main_v160 ((extractStridedSlice S1x128x64 ![2, 0, 0] · slices_S7x128x64_S1x128x64_2_0_0) : (⟨S7x128x64, .f32⟩ : BufTy).Contents (Elt F) → (⟨S1x128x64, .f32⟩ : BufTy).Contents (Elt F)),
    StableHlo.reshape main_v160 main_v161 rfl shapeCasts_S1x128x64_S128x64,
    StableHlo.binary main_v159 main_v161 main_v162 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    StableHlo.unary main_arg5 main_v163 ((extractStridedSlice S1x64 ![2, 0] · slices_S7x64_S1x64_2_0) : (⟨S7x64, .f32⟩ : BufTy).Contents (Elt F) → (⟨S1x64, .f32⟩ : BufTy).Contents (Elt F)),
    StableHlo.reshape main_v163 main_v164 rfl shapeCasts_S1x64_S64,
    StableHlo.unary main_arg6 main_v165 ((extractStridedSlice S1x64 ![2, 0] · slices_S7x64_S1x64_2_0) : (⟨S7x64, .f32⟩ : BufTy).Contents (Elt F) → (⟨S1x64, .f32⟩ : BufTy).Contents (Elt F)),
    StableHlo.reshape main_v165 main_v166 rfl shapeCasts_S1x64_S64,
    StableHlo.nullary main_cst_26 (constant S_ .f32 0x00000000#32),
    StableHlo.binary main_v162 main_cst_26 main_v167 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    StableHlo.nullary main_cst_27 (constant S_ .f32 0x47435000#32),
    StableHlo.unary main_cst_27 main_v168 (broadcastInDim S64 ![] bcast_S_S64 : (⟨S_, .f32⟩ : BufTy).Contents (Elt F) → (⟨S64, .f32⟩ : BufTy).Contents (Elt F)),
    StableHlo.binary main_v167 main_v168 main_v169 (Host.divf : (⟨S64, .f32⟩ : BufTy).Contents (Elt F) → (⟨S64, .f32⟩ : BufTy).Contents (Elt F) → (⟨S64, .f32⟩ : BufTy).Contents (Elt F)),
    StableHlo.nullary main_c_28 (constantI S_ 32 0#32),
    StableHlo.TRef.nullary main_call8.cst (constant S_ .f32 0x00000000#32),
    StableHlo.TRef.binary (.of main_v162 : StableHlo.TRef sig ⟨S50000x64, .f32⟩) main_call8.cst main_call8.v0 (fun x v => Host.reduceAdd x v reducesTo_S50000x64_S64_d0 h_S_),
    StableHlo.TRef.unary main_call8.v0 main_call8.v1 (broadcastInDim S1x64 ![1] bcast_S64_S1x64_1),
    StableHlo.TRef.nullary main_call8.cst_0 (constant S_ .f32 0x47435000#32),
    StableHlo.TRef.unary main_call8.cst_0 main_call8.v2 (broadcastInDim S1x64 ![] bcast_S_S1x64),
    StableHlo.TRef.binary main_call8.v1 main_call8.v2 main_call8.v3 Host.divf,
    StableHlo.TRef.unary main_call8.v3 main_call8.v4 (broadcastInDim S50000x64 ![0, 1] bcast_S1x64_S50000x64_0_1),
    StableHlo.TRef.binary (.of main_v162 : StableHlo.TRef sig ⟨S50000x64, .f32⟩) main_call8.v4 main_call8.v5 subf,
    StableHlo.TRef.binary main_call8.v5 main_call8.v5 main_call8.v6 mulf,
    StableHlo.TRef.unary (.of main_c_28 : StableHlo.TRef sig ⟨S_, .i32⟩) main_call8.v7 (sitofp .f32),
    StableHlo.TRef.nullary main_call8.cst_1 (constant S_ .f32 0x47435000#32),
    StableHlo.TRef.binary main_call8.cst_1 main_call8.v7 main_call8.v8 subf,
    StableHlo.TRef.nullary main_call8.cst_2 (constant S_ .f32 0x00000000#32),
    StableHlo.TRef.binary main_call8.v6 main_call8.cst_2 main_call8.v9 (fun x v => Host.reduceAdd x v reducesTo_S50000x64_S64_d0 h_S_),
    StableHlo.TRef.unary main_call8.v8 main_call8.v10 (broadcastInDim S64 ![] bcast_S_S64),
    StableHlo.TRef.binary main_call8.v9 main_call8.v10 main_call8.v11 Host.divf,
    StableHlo.TRef.nullary main_call8.cst_3 (constant S_ .f32 0x00000000#32),
    StableHlo.TRef.binary main_call8.v8 main_call8.cst_3 main_call8.v12 (cmpf .ogt),
    StableHlo.TRef.nullary main_call8.cst_4 (constant S_ .f32 0x7FC00000#32),
    StableHlo.TRef.unary main_call8.cst_4 main_call8.call0.v0 id,
    StableHlo.TRef.unary main_call8.call0.v0 main_call8.call0.v1 (broadcastInDim S64 ![] bcast_S_S64),
    StableHlo.TRef.ternary main_call8.v12 main_call8.v11 main_call8.call0.v1 main_call8.call0.v2 (fun p a b => select (broadcastInDim S64 ![] bcast_S_S64 p) a b),
    StableHlo.unary main_v169 main_v171 (broadcastInDim S1x64 ![1] bcast_S64_S1x64_1 : (⟨S64, .f32⟩ : BufTy).Contents (Elt F) → (⟨S1x64, .f32⟩ : BufTy).Contents (Elt F)),
    StableHlo.unary main_v171 main_v172 (broadcastInDim S50000x64 ![0, 1] bcast_S1x64_S50000x64_0_1 : (⟨S1x64, .f32⟩ : BufTy).Contents (Elt F) → (⟨S50000x64, .f32⟩ : BufTy).Contents (Elt F)),
    StableHlo.binary main_v162 main_v172 main_v173 (subf : (⟨S50000x64, .f32⟩ : BufTy).Contents (Elt F) → (⟨S50000x64, .f32⟩ : BufTy).Contents (Elt F) → (⟨S50000x64, .f32⟩ : BufTy).Contents (Elt F)),
    StableHlo.unary main_v164 main_v174 (broadcastInDim S1x64 ![1] bcast_S64_S1x64_1 : (⟨S64, .f32⟩ : BufTy).Contents (Elt F) → (⟨S1x64, .f32⟩ : BufTy).Contents (Elt F)),
    StableHlo.unary main_v174 main_v175 (broadcastInDim S50000x64 ![0, 1] bcast_S1x64_S50000x64_0_1 : (⟨S1x64, .f32⟩ : BufTy).Contents (Elt F) → (⟨S50000x64, .f32⟩ : BufTy).Contents (Elt F)),
    StableHlo.binary main_v175 main_v173 main_v176 (mulf : (⟨S50000x64, .f32⟩ : BufTy).Contents (Elt F) → (⟨S50000x64, .f32⟩ : BufTy).Contents (Elt F) → (⟨S50000x64, .f32⟩ : BufTy).Contents (Elt F)),
    StableHlo.nullary main_cst_29 (constant S_ .f32 0x3727C5AC#32),
    StableHlo.unary main_cst_29 main_v177 (broadcastInDim S64 ![] bcast_S_S64 : (⟨S_, .f32⟩ : BufTy).Contents (Elt F) → (⟨S64, .f32⟩ : BufTy).Contents (Elt F)),
    StableHlo.binary main_v170 main_v177 main_v178 (addf : (⟨S64, .f32⟩ : BufTy).Contents (Elt F) → (⟨S64, .f32⟩ : BufTy).Contents (Elt F) → (⟨S64, .f32⟩ : BufTy).Contents (Elt F)),
    StableHlo.unary main_v178 main_v179 (Host.rsqrt : (⟨S64, .f32⟩ : BufTy).Contents (Elt F) → (⟨S64, .f32⟩ : BufTy).Contents (Elt F)),
    StableHlo.unary main_v179 main_v180 (broadcastInDim S1x64 ![1] bcast_S64_S1x64_1 : (⟨S64, .f32⟩ : BufTy).Contents (Elt F) → (⟨S1x64, .f32⟩ : BufTy).Contents (Elt F)),
    StableHlo.unary main_v180 main_v181 (broadcastInDim S50000x64 ![0, 1] bcast_S1x64_S50000x64_0_1 : (⟨S1x64, .f32⟩ : BufTy).Contents (Elt F) → (⟨S50000x64, .f32⟩ : BufTy).Contents (Elt F)),
    StableHlo.binary main_v176 main_v181 main_v182 (mulf : (⟨S50000x64, .f32⟩ : BufTy).Contents (Elt F) → (⟨S50000x64, .f32⟩ : BufTy).Contents (Elt F) → (⟨S50000x64, .f32⟩ : BufTy).Contents (Elt F)),
    StableHlo.unary main_v166 main_v183 (broadcastInDim S1x64 ![1] bcast_S64_S1x64_1 : (⟨S64, .f32⟩ : BufTy).Contents (Elt F) → (⟨S1x64, .f32⟩ : BufTy).Contents (Elt F)),
    StableHlo.unary main_v183 main_v184 (broadcastInDim S50000x64 ![0, 1] bcast_S1x64_S50000x64_0_1 : (⟨S1x64, .f32⟩ : BufTy).Contents (Elt F) → (⟨S50000x64, .f32⟩ : BufTy).Contents (Elt F)),
    StableHlo.binary main_v182 main_v184 main_v185 (addf : (⟨S50000x64, .f32⟩ : BufTy).Contents (Elt F) → (⟨S50000x64, .f32⟩ : BufTy).Contents (Elt F) → (⟨S50000x64, .f32⟩ : BufTy).Contents (Elt F)),
    StableHlo.TRef.nullary main_call9.cst (constant S_ .f32 0x00000000#32),
    StableHlo.TRef.unary main_call9.cst main_call9.v0 (broadcastInDim S50000x64 ![] bcast_S_S50000x64),
    StableHlo.TRef.binary (.of main_v185 : StableHlo.TRef sig ⟨S50000x64, .f32⟩) main_call9.v0 main_call9.v1 maximumf,
    StableHlo.unary main_arg7 main_v187 ((extractStridedSlice S1x64x128 ![2, 0, 0] · slices_S6x64x128_S1x64x128_2_0_0) : (⟨S6x64x128, .f32⟩ : BufTy).Contents (Elt F) → (⟨S1x64x128, .f32⟩ : BufTy).Contents (Elt F)),
    StableHlo.reshape main_v187 main_v188 rfl shapeCasts_S1x64x128_S64x128,
    StableHlo.binary main_v186 main_v188 main_v189 ((fun l r => Host.dotGeneral dot_S50000x64_S64x128_S50000x128_1_0_0_1_n_n none l r) : (⟨S50000x64, .f32⟩ : BufTy).Contents (Elt F) → (⟨S64x128, .f32⟩ : BufTy).Contents (Elt F) → (⟨S50000x128, .f32⟩ : BufTy).Contents (Elt F)),
    StableHlo.unary main_arg8 main_v190 ((extractStridedSlice S1x128 ![2, 0] · slices_S6x128_S1x128_2_0) : (⟨S6x128, .f32⟩ : BufTy).Contents (Elt F) → (⟨S1x128, .f32⟩ : BufTy).Contents (Elt F)),
    StableHlo.reshape main_v190 main_v191 rfl shapeCasts_S1x128_S128,
    StableHlo.unary main_arg9 main_v192 ((extractStridedSlice S1x128 ![2, 0] · slices_S6x128_S1x128_2_0) : (⟨S6x128, .f32⟩ : BufTy).Contents (Elt F) → (⟨S1x128, .f32⟩ : BufTy).Contents (Elt F)),
    StableHlo.reshape main_v192 main_v193 rfl shapeCasts_S1x128_S128,
    StableHlo.nullary main_cst_30 (constant S_ .f32 0x00000000#32),
    StableHlo.binary main_v189 main_cst_30 main_v194 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_31 (constant S_ .f32 0x47435000#32),
    StableHlo.unary main_cst_31 main_v195 (broadcastInDim S128 ![] bcast_S_S128 : (⟨S_, .f32⟩ : BufTy).Contents (Elt F) → (⟨S128, .f32⟩ : BufTy).Contents (Elt F)),
    StableHlo.binary main_v194 main_v195 main_v196 (Host.divf : (⟨S128, .f32⟩ : BufTy).Contents (Elt F) → (⟨S128, .f32⟩ : BufTy).Contents (Elt F) → (⟨S128, .f32⟩ : BufTy).Contents (Elt F)),
    StableHlo.nullary main_c_32 (constantI S_ 32 0#32),
    StableHlo.TRef.nullary main_call10.cst (constant S_ .f32 0x00000000#32),
    StableHlo.TRef.binary (.of main_v189 : StableHlo.TRef sig ⟨S50000x128, .f32⟩) main_call10.cst main_call10.v0 (fun x v => Host.reduceAdd x v reducesTo_S50000x128_S128_d0 h_S_),
    StableHlo.TRef.unary main_call10.v0 main_call10.v1 (broadcastInDim S1x128 ![1] bcast_S128_S1x128_1),
    StableHlo.TRef.nullary main_call10.cst_0 (constant S_ .f32 0x47435000#32),
    StableHlo.TRef.unary main_call10.cst_0 main_call10.v2 (broadcastInDim S1x128 ![] bcast_S_S1x128),
    StableHlo.TRef.binary main_call10.v1 main_call10.v2 main_call10.v3 Host.divf,
    StableHlo.TRef.unary main_call10.v3 main_call10.v4 (broadcastInDim S50000x128 ![0, 1] bcast_S1x128_S50000x128_0_1),
    StableHlo.TRef.binary (.of main_v189 : StableHlo.TRef sig ⟨S50000x128, .f32⟩) main_call10.v4 main_call10.v5 subf,
    StableHlo.TRef.binary main_call10.v5 main_call10.v5 main_call10.v6 mulf,
    StableHlo.TRef.unary (.of main_c_32 : StableHlo.TRef sig ⟨S_, .i32⟩) main_call10.v7 (sitofp .f32),
    StableHlo.TRef.nullary main_call10.cst_1 (constant S_ .f32 0x47435000#32),
    StableHlo.TRef.binary main_call10.cst_1 main_call10.v7 main_call10.v8 subf,
    StableHlo.TRef.nullary main_call10.cst_2 (constant S_ .f32 0x00000000#32),
    StableHlo.TRef.binary main_call10.v6 main_call10.cst_2 main_call10.v9 (fun x v => Host.reduceAdd x v reducesTo_S50000x128_S128_d0 h_S_),
    StableHlo.TRef.unary main_call10.v8 main_call10.v10 (broadcastInDim S128 ![] bcast_S_S128),
    StableHlo.TRef.binary main_call10.v9 main_call10.v10 main_call10.v11 Host.divf,
    StableHlo.TRef.nullary main_call10.cst_3 (constant S_ .f32 0x00000000#32),
    StableHlo.TRef.binary main_call10.v8 main_call10.cst_3 main_call10.v12 (cmpf .ogt),
    StableHlo.TRef.nullary main_call10.cst_4 (constant S_ .f32 0x7FC00000#32),
    StableHlo.TRef.unary main_call10.cst_4 main_call10.call0.v0 id,
    StableHlo.TRef.unary main_call10.call0.v0 main_call10.call0.v1 (broadcastInDim S128 ![] bcast_S_S128),
    StableHlo.TRef.ternary main_call10.v12 main_call10.v11 main_call10.call0.v1 main_call10.call0.v2 (fun p a b => select (broadcastInDim S128 ![] bcast_S_S128 p) a b),
    StableHlo.unary main_v196 main_v198 (broadcastInDim S1x128 ![1] bcast_S128_S1x128_1 : (⟨S128, .f32⟩ : BufTy).Contents (Elt F) → (⟨S1x128, .f32⟩ : BufTy).Contents (Elt F)),
    StableHlo.unary main_v198 main_v199 (broadcastInDim S50000x128 ![0, 1] bcast_S1x128_S50000x128_0_1 : (⟨S1x128, .f32⟩ : BufTy).Contents (Elt F) → (⟨S50000x128, .f32⟩ : BufTy).Contents (Elt F)),
    StableHlo.binary main_v189 main_v199 main_v200 (subf : (⟨S50000x128, .f32⟩ : BufTy).Contents (Elt F) → (⟨S50000x128, .f32⟩ : BufTy).Contents (Elt F) → (⟨S50000x128, .f32⟩ : BufTy).Contents (Elt F)),
    StableHlo.unary main_v191 main_v201 (broadcastInDim S1x128 ![1] bcast_S128_S1x128_1 : (⟨S128, .f32⟩ : BufTy).Contents (Elt F) → (⟨S1x128, .f32⟩ : BufTy).Contents (Elt F)),
    StableHlo.unary main_v201 main_v202 (broadcastInDim S50000x128 ![0, 1] bcast_S1x128_S50000x128_0_1 : (⟨S1x128, .f32⟩ : BufTy).Contents (Elt F) → (⟨S50000x128, .f32⟩ : BufTy).Contents (Elt F)),
    StableHlo.binary main_v202 main_v200 main_v203 (mulf : (⟨S50000x128, .f32⟩ : BufTy).Contents (Elt F) → (⟨S50000x128, .f32⟩ : BufTy).Contents (Elt F) → (⟨S50000x128, .f32⟩ : BufTy).Contents (Elt F)),
    StableHlo.nullary main_cst_33 (constant S_ .f32 0x3727C5AC#32),
    StableHlo.unary main_cst_33 main_v204 (broadcastInDim S128 ![] bcast_S_S128 : (⟨S_, .f32⟩ : BufTy).Contents (Elt F) → (⟨S128, .f32⟩ : BufTy).Contents (Elt F)),
    StableHlo.binary main_v197 main_v204 main_v205 (addf : (⟨S128, .f32⟩ : BufTy).Contents (Elt F) → (⟨S128, .f32⟩ : BufTy).Contents (Elt F) → (⟨S128, .f32⟩ : BufTy).Contents (Elt F)),
    StableHlo.unary main_v205 main_v206 (Host.rsqrt : (⟨S128, .f32⟩ : BufTy).Contents (Elt F) → (⟨S128, .f32⟩ : BufTy).Contents (Elt F)),
    StableHlo.unary main_v206 main_v207 (broadcastInDim S1x128 ![1] bcast_S128_S1x128_1 : (⟨S128, .f32⟩ : BufTy).Contents (Elt F) → (⟨S1x128, .f32⟩ : BufTy).Contents (Elt F)),
    StableHlo.unary main_v207 main_v208 (broadcastInDim S50000x128 ![0, 1] bcast_S1x128_S50000x128_0_1 : (⟨S1x128, .f32⟩ : BufTy).Contents (Elt F) → (⟨S50000x128, .f32⟩ : BufTy).Contents (Elt F)),
    StableHlo.binary main_v203 main_v208 main_v209 (mulf : (⟨S50000x128, .f32⟩ : BufTy).Contents (Elt F) → (⟨S50000x128, .f32⟩ : BufTy).Contents (Elt F) → (⟨S50000x128, .f32⟩ : BufTy).Contents (Elt F)),
    StableHlo.unary main_v193 main_v210 (broadcastInDim S1x128 ![1] bcast_S128_S1x128_1 : (⟨S128, .f32⟩ : BufTy).Contents (Elt F) → (⟨S1x128, .f32⟩ : BufTy).Contents (Elt F)),
    StableHlo.unary main_v210 main_v211 (broadcastInDim S50000x128 ![0, 1] bcast_S1x128_S50000x128_0_1 : (⟨S1x128, .f32⟩ : BufTy).Contents (Elt F) → (⟨S50000x128, .f32⟩ : BufTy).Contents (Elt F)),
    StableHlo.binary main_v209 main_v211 main_v212 (addf : (⟨S50000x128, .f32⟩ : BufTy).Contents (Elt F) → (⟨S50000x128, .f32⟩ : BufTy).Contents (Elt F) → (⟨S50000x128, .f32⟩ : BufTy).Contents (Elt F)),
    StableHlo.TRef.nullary main_call11.cst (constant S_ .f32 0x00000000#32),
    StableHlo.TRef.unary main_call11.cst main_call11.v0 (broadcastInDim S50000x128 ![] bcast_S_S50000x128),
    StableHlo.TRef.binary (.of main_v212 : StableHlo.TRef sig ⟨S50000x128, .f32⟩) main_call11.v0 main_call11.v1 maximumf ]

/-- Layer 3, from `x₃` to `x₄`: the same line at slice 3 of the weights, reading the edge rows `main_v1`, `main_v3` of layer 0. -/
abbrev opsL3 : List (HloOp τ sig (Elt F)) :=
  [ StableHlo.nullary main_c_34 (constantI S_ 32 0#32),
    StableHlo.unary main_c_34 main_v214 (broadcastInDim S800000 ![] bcast_S_S800000 : (⟨S_, .i32⟩ : BufTy).Contents (Elt F) → (⟨S800000, .i32⟩ : BufTy).Contents (Elt F)),
    StableHlo.binary main_v1 main_v214 main_v215 (cmpi .slt : (⟨S800000, .i32⟩ : BufTy).Contents (Elt F) → (⟨S800000, .i32⟩ : BufTy).Contents (Elt F) → (⟨S800000, .i1⟩ : BufTy).Contents (Elt F)),
    StableHlo.nullary main_c_35 (constantI S_ 32 50000#32),
    StableHlo.unary main_c_35 main_v216 (broadcastInDim S800000 ![] bcast_S_S800000 : (⟨S_, .i32⟩ : BufTy).Contents (Elt F) → (⟨S800000, .i32⟩ : BufTy).Contents (Elt F)),
    StableHlo.binary main_v1 main_v216 main_v217 (addi : (⟨S800000, .i32⟩ : BufTy).Contents (Elt F) → (⟨S800000, .i32⟩ : BufTy).Contents (Elt F) → (⟨S800000, .i32⟩ : BufTy).Contents (Elt F)),
    StableHlo.ternary main_v215 main_v217 main_v1 main_v218 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v218 main_v219 (broadcastInDim S800000x1 ![0] bcast_S800000_S800000x1_0 : (⟨S800000, .i32⟩ : BufTy).Contents (Elt F) → (⟨S800000x1, .i32⟩ : BufTy).Contents (Elt F)),
    StableHlo.binary main_v213 main_v219 main_v220 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_36 (constant S_ .f32 0x00000000#32),
    StableHlo.unary main_cst_36 main_v221 (broadcastInDim S50000x128 ![] bcast_S_S50000x128 : (⟨S_, .f32⟩ : BufTy).Contents (Elt F) → (⟨S50000x128, .f32⟩ : BufTy).Contents (Elt F)),
    StableHlo.unary main_v3 main_v222 (broadcastInDim S800000x1 ![0] bcast_S800000_S800000x1_0 : (⟨S800000, .i32⟩ : BufTy).Contents (Elt F) → (⟨S800000x1, .i32⟩ : BufTy).Contents (Elt F)),
    StableHlo.ternary main_v221 main_v222 main_v220 main_v223 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.unary main_arg11 main_v224 ((extractStridedSlice S1 ![3] · slices_S7_S1_3) : (⟨S7, .f32⟩ : BufTy).Contents (Elt F) → (⟨S1, .f32⟩ : BufTy).Contents (Elt F)),
    StableHlo.reshape main_v224 main_v225 rfl shapeCasts_S1_S_,
    StableHlo.nullary main_cst_37 (constant S_ .f32 0x3F800000#32),
    StableHlo.binary main_cst_37 main_v225 main_v226 (addf : (⟨S_, .f32⟩ : BufTy).Contents (Elt F) → (⟨S_, .f32⟩ : BufTy).Contents (Elt F) → (⟨S_, .f32⟩ : BufTy).Contents (Elt F)),
    StableHlo.unary main_v226 main_v227 (broadcastInDim S50000x128 ![] bcast_S_S50000x128 : (⟨S_, .f32⟩ : BufTy).Contents (Elt F) → (⟨S50000x128, .f32⟩ : BufTy).Contents (Elt F)),
    StableHlo.binary main_v227 main_v213 main_v228 (mulf : (⟨S50000x128, .f32⟩ : BufTy).Contents (Elt F) → (⟨S50000x128, .f32⟩ : BufTy).Contents (Elt F) → (⟨S50000x128, .f32⟩ : BufTy).Contents (Elt F)),
    StableHlo.binary main_v228 main_v223 main_v229 (addf : (⟨S50000x128, .f32⟩ : BufTy).Contents (Elt F) → (⟨S50000x128, .f32⟩ : BufTy).Contents (Elt F) → (⟨S50000x128, .f32⟩ : BufTy).Contents (Elt F)),
    StableHlo.unary main_arg4 main_v230 ((extractStridedSlice S1x128x64 ![3, 0, 0] · slices_S7x128x64_S1x128x64_3_0_0) : (⟨S7x128x64, .f32⟩ : BufTy).Contents (Elt F) → (⟨S1x128x64, .f32⟩ : BufTy).Contents (Elt F)),
    StableHlo.reshape main_v230 main_v231 rfl shapeCasts_S1x128x64_S128x64,
    StableHlo.binary main_v229 main_v231 main_v232 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    StableHlo.unary main_arg5 main_v233 ((extractStridedSlice S1x64 ![3, 0] · slices_S7x64_S1x64_3_0) : (⟨S7x64, .f32⟩ : BufTy).Contents (Elt F) → (⟨S1x64, .f32⟩ : BufTy).Contents (Elt F)),
    StableHlo.reshape main_v233 main_v234 rfl shapeCasts_S1x64_S64,
    StableHlo.unary main_arg6 main_v235 ((extractStridedSlice S1x64 ![3, 0] · slices_S7x64_S1x64_3_0) : (⟨S7x64, .f32⟩ : BufTy).Contents (Elt F) → (⟨S1x64, .f32⟩ : BufTy).Contents (Elt F)),
    StableHlo.reshape main_v235 main_v236 rfl shapeCasts_S1x64_S64,
    StableHlo.nullary main_cst_38 (constant S_ .f32 0x00000000#32),
    StableHlo.binary main_v232 main_cst_38 main_v237 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    StableHlo.nullary main_cst_39 (constant S_ .f32 0x47435000#32),
    StableHlo.unary main_cst_39 main_v238 (broadcastInDim S64 ![] bcast_S_S64 : (⟨S_, .f32⟩ : BufTy).Contents (Elt F) → (⟨S64, .f32⟩ : BufTy).Contents (Elt F)),
    StableHlo.binary main_v237 main_v238 main_v239 (Host.divf : (⟨S64, .f32⟩ : BufTy).Contents (Elt F) → (⟨S64, .f32⟩ : BufTy).Contents (Elt F) → (⟨S64, .f32⟩ : BufTy).Contents (Elt F)),
    StableHlo.nullary main_c_40 (constantI S_ 32 0#32),
    StableHlo.TRef.nullary main_call12.cst (constant S_ .f32 0x00000000#32),
    StableHlo.TRef.binary (.of main_v232 : StableHlo.TRef sig ⟨S50000x64, .f32⟩) main_call12.cst main_call12.v0 (fun x v => Host.reduceAdd x v reducesTo_S50000x64_S64_d0 h_S_),
    StableHlo.TRef.unary main_call12.v0 main_call12.v1 (broadcastInDim S1x64 ![1] bcast_S64_S1x64_1),
    StableHlo.TRef.nullary main_call12.cst_0 (constant S_ .f32 0x47435000#32),
    StableHlo.TRef.unary main_call12.cst_0 main_call12.v2 (broadcastInDim S1x64 ![] bcast_S_S1x64),
    StableHlo.TRef.binary main_call12.v1 main_call12.v2 main_call12.v3 Host.divf,
    StableHlo.TRef.unary main_call12.v3 main_call12.v4 (broadcastInDim S50000x64 ![0, 1] bcast_S1x64_S50000x64_0_1),
    StableHlo.TRef.binary (.of main_v232 : StableHlo.TRef sig ⟨S50000x64, .f32⟩) main_call12.v4 main_call12.v5 subf,
    StableHlo.TRef.binary main_call12.v5 main_call12.v5 main_call12.v6 mulf,
    StableHlo.TRef.unary (.of main_c_40 : StableHlo.TRef sig ⟨S_, .i32⟩) main_call12.v7 (sitofp .f32),
    StableHlo.TRef.nullary main_call12.cst_1 (constant S_ .f32 0x47435000#32),
    StableHlo.TRef.binary main_call12.cst_1 main_call12.v7 main_call12.v8 subf,
    StableHlo.TRef.nullary main_call12.cst_2 (constant S_ .f32 0x00000000#32),
    StableHlo.TRef.binary main_call12.v6 main_call12.cst_2 main_call12.v9 (fun x v => Host.reduceAdd x v reducesTo_S50000x64_S64_d0 h_S_),
    StableHlo.TRef.unary main_call12.v8 main_call12.v10 (broadcastInDim S64 ![] bcast_S_S64),
    StableHlo.TRef.binary main_call12.v9 main_call12.v10 main_call12.v11 Host.divf,
    StableHlo.TRef.nullary main_call12.cst_3 (constant S_ .f32 0x00000000#32),
    StableHlo.TRef.binary main_call12.v8 main_call12.cst_3 main_call12.v12 (cmpf .ogt),
    StableHlo.TRef.nullary main_call12.cst_4 (constant S_ .f32 0x7FC00000#32),
    StableHlo.TRef.unary main_call12.cst_4 main_call12.call0.v0 id,
    StableHlo.TRef.unary main_call12.call0.v0 main_call12.call0.v1 (broadcastInDim S64 ![] bcast_S_S64),
    StableHlo.TRef.ternary main_call12.v12 main_call12.v11 main_call12.call0.v1 main_call12.call0.v2 (fun p a b => select (broadcastInDim S64 ![] bcast_S_S64 p) a b),
    StableHlo.unary main_v239 main_v241 (broadcastInDim S1x64 ![1] bcast_S64_S1x64_1 : (⟨S64, .f32⟩ : BufTy).Contents (Elt F) → (⟨S1x64, .f32⟩ : BufTy).Contents (Elt F)),
    StableHlo.unary main_v241 main_v242 (broadcastInDim S50000x64 ![0, 1] bcast_S1x64_S50000x64_0_1 : (⟨S1x64, .f32⟩ : BufTy).Contents (Elt F) → (⟨S50000x64, .f32⟩ : BufTy).Contents (Elt F)),
    StableHlo.binary main_v232 main_v242 main_v243 (subf : (⟨S50000x64, .f32⟩ : BufTy).Contents (Elt F) → (⟨S50000x64, .f32⟩ : BufTy).Contents (Elt F) → (⟨S50000x64, .f32⟩ : BufTy).Contents (Elt F)),
    StableHlo.unary main_v234 main_v244 (broadcastInDim S1x64 ![1] bcast_S64_S1x64_1 : (⟨S64, .f32⟩ : BufTy).Contents (Elt F) → (⟨S1x64, .f32⟩ : BufTy).Contents (Elt F)),
    StableHlo.unary main_v244 main_v245 (broadcastInDim S50000x64 ![0, 1] bcast_S1x64_S50000x64_0_1 : (⟨S1x64, .f32⟩ : BufTy).Contents (Elt F) → (⟨S50000x64, .f32⟩ : BufTy).Contents (Elt F)),
    StableHlo.binary main_v245 main_v243 main_v246 (mulf : (⟨S50000x64, .f32⟩ : BufTy).Contents (Elt F) → (⟨S50000x64, .f32⟩ : BufTy).Contents (Elt F) → (⟨S50000x64, .f32⟩ : BufTy).Contents (Elt F)),
    StableHlo.nullary main_cst_41 (constant S_ .f32 0x3727C5AC#32),
    StableHlo.unary main_cst_41 main_v247 (broadcastInDim S64 ![] bcast_S_S64 : (⟨S_, .f32⟩ : BufTy).Contents (Elt F) → (⟨S64, .f32⟩ : BufTy).Contents (Elt F)),
    StableHlo.binary main_v240 main_v247 main_v248 (addf : (⟨S64, .f32⟩ : BufTy).Contents (Elt F) → (⟨S64, .f32⟩ : BufTy).Contents (Elt F) → (⟨S64, .f32⟩ : BufTy).Contents (Elt F)),
    StableHlo.unary main_v248 main_v249 (Host.rsqrt : (⟨S64, .f32⟩ : BufTy).Contents (Elt F) → (⟨S64, .f32⟩ : BufTy).Contents (Elt F)),
    StableHlo.unary main_v249 main_v250 (broadcastInDim S1x64 ![1] bcast_S64_S1x64_1 : (⟨S64, .f32⟩ : BufTy).Contents (Elt F) → (⟨S1x64, .f32⟩ : BufTy).Contents (Elt F)),
    StableHlo.unary main_v250 main_v251 (broadcastInDim S50000x64 ![0, 1] bcast_S1x64_S50000x64_0_1 : (⟨S1x64, .f32⟩ : BufTy).Contents (Elt F) → (⟨S50000x64, .f32⟩ : BufTy).Contents (Elt F)),
    StableHlo.binary main_v246 main_v251 main_v252 (mulf : (⟨S50000x64, .f32⟩ : BufTy).Contents (Elt F) → (⟨S50000x64, .f32⟩ : BufTy).Contents (Elt F) → (⟨S50000x64, .f32⟩ : BufTy).Contents (Elt F)),
    StableHlo.unary main_v236 main_v253 (broadcastInDim S1x64 ![1] bcast_S64_S1x64_1 : (⟨S64, .f32⟩ : BufTy).Contents (Elt F) → (⟨S1x64, .f32⟩ : BufTy).Contents (Elt F)),
    StableHlo.unary main_v253 main_v254 (broadcastInDim S50000x64 ![0, 1] bcast_S1x64_S50000x64_0_1 : (⟨S1x64, .f32⟩ : BufTy).Contents (Elt F) → (⟨S50000x64, .f32⟩ : BufTy).Contents (Elt F)),
    StableHlo.binary main_v252 main_v254 main_v255 (addf : (⟨S50000x64, .f32⟩ : BufTy).Contents (Elt F) → (⟨S50000x64, .f32⟩ : BufTy).Contents (Elt F) → (⟨S50000x64, .f32⟩ : BufTy).Contents (Elt F)),
    StableHlo.TRef.nullary main_call13.cst (constant S_ .f32 0x00000000#32),
    StableHlo.TRef.unary main_call13.cst main_call13.v0 (broadcastInDim S50000x64 ![] bcast_S_S50000x64),
    StableHlo.TRef.binary (.of main_v255 : StableHlo.TRef sig ⟨S50000x64, .f32⟩) main_call13.v0 main_call13.v1 maximumf,
    StableHlo.unary main_arg7 main_v257 ((extractStridedSlice S1x64x128 ![3, 0, 0] · slices_S6x64x128_S1x64x128_3_0_0) : (⟨S6x64x128, .f32⟩ : BufTy).Contents (Elt F) → (⟨S1x64x128, .f32⟩ : BufTy).Contents (Elt F)),
    StableHlo.reshape main_v257 main_v258 rfl shapeCasts_S1x64x128_S64x128,
    StableHlo.binary main_v256 main_v258 main_v259 ((fun l r => Host.dotGeneral dot_S50000x64_S64x128_S50000x128_1_0_0_1_n_n none l r) : (⟨S50000x64, .f32⟩ : BufTy).Contents (Elt F) → (⟨S64x128, .f32⟩ : BufTy).Contents (Elt F) → (⟨S50000x128, .f32⟩ : BufTy).Contents (Elt F)),
    StableHlo.unary main_arg8 main_v260 ((extractStridedSlice S1x128 ![3, 0] · slices_S6x128_S1x128_3_0) : (⟨S6x128, .f32⟩ : BufTy).Contents (Elt F) → (⟨S1x128, .f32⟩ : BufTy).Contents (Elt F)),
    StableHlo.reshape main_v260 main_v261 rfl shapeCasts_S1x128_S128,
    StableHlo.unary main_arg9 main_v262 ((extractStridedSlice S1x128 ![3, 0] · slices_S6x128_S1x128_3_0) : (⟨S6x128, .f32⟩ : BufTy).Contents (Elt F) → (⟨S1x128, .f32⟩ : BufTy).Contents (Elt F)),
    StableHlo.reshape main_v262 main_v263 rfl shapeCasts_S1x128_S128,
    StableHlo.nullary main_cst_42 (constant S_ .f32 0x00000000#32),
    StableHlo.binary main_v259 main_cst_42 main_v264 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_43 (constant S_ .f32 0x47435000#32),
    StableHlo.unary main_cst_43 main_v265 (broadcastInDim S128 ![] bcast_S_S128 : (⟨S_, .f32⟩ : BufTy).Contents (Elt F) → (⟨S128, .f32⟩ : BufTy).Contents (Elt F)),
    StableHlo.binary main_v264 main_v265 main_v266 (Host.divf : (⟨S128, .f32⟩ : BufTy).Contents (Elt F) → (⟨S128, .f32⟩ : BufTy).Contents (Elt F) → (⟨S128, .f32⟩ : BufTy).Contents (Elt F)),
    StableHlo.nullary main_c_44 (constantI S_ 32 0#32),
    StableHlo.TRef.nullary main_call14.cst (constant S_ .f32 0x00000000#32),
    StableHlo.TRef.binary (.of main_v259 : StableHlo.TRef sig ⟨S50000x128, .f32⟩) main_call14.cst main_call14.v0 (fun x v => Host.reduceAdd x v reducesTo_S50000x128_S128_d0 h_S_),
    StableHlo.TRef.unary main_call14.v0 main_call14.v1 (broadcastInDim S1x128 ![1] bcast_S128_S1x128_1),
    StableHlo.TRef.nullary main_call14.cst_0 (constant S_ .f32 0x47435000#32),
    StableHlo.TRef.unary main_call14.cst_0 main_call14.v2 (broadcastInDim S1x128 ![] bcast_S_S1x128),
    StableHlo.TRef.binary main_call14.v1 main_call14.v2 main_call14.v3 Host.divf,
    StableHlo.TRef.unary main_call14.v3 main_call14.v4 (broadcastInDim S50000x128 ![0, 1] bcast_S1x128_S50000x128_0_1),
    StableHlo.TRef.binary (.of main_v259 : StableHlo.TRef sig ⟨S50000x128, .f32⟩) main_call14.v4 main_call14.v5 subf,
    StableHlo.TRef.binary main_call14.v5 main_call14.v5 main_call14.v6 mulf,
    StableHlo.TRef.unary (.of main_c_44 : StableHlo.TRef sig ⟨S_, .i32⟩) main_call14.v7 (sitofp .f32),
    StableHlo.TRef.nullary main_call14.cst_1 (constant S_ .f32 0x47435000#32),
    StableHlo.TRef.binary main_call14.cst_1 main_call14.v7 main_call14.v8 subf,
    StableHlo.TRef.nullary main_call14.cst_2 (constant S_ .f32 0x00000000#32),
    StableHlo.TRef.binary main_call14.v6 main_call14.cst_2 main_call14.v9 (fun x v => Host.reduceAdd x v reducesTo_S50000x128_S128_d0 h_S_),
    StableHlo.TRef.unary main_call14.v8 main_call14.v10 (broadcastInDim S128 ![] bcast_S_S128),
    StableHlo.TRef.binary main_call14.v9 main_call14.v10 main_call14.v11 Host.divf,
    StableHlo.TRef.nullary main_call14.cst_3 (constant S_ .f32 0x00000000#32),
    StableHlo.TRef.binary main_call14.v8 main_call14.cst_3 main_call14.v12 (cmpf .ogt),
    StableHlo.TRef.nullary main_call14.cst_4 (constant S_ .f32 0x7FC00000#32),
    StableHlo.TRef.unary main_call14.cst_4 main_call14.call0.v0 id,
    StableHlo.TRef.unary main_call14.call0.v0 main_call14.call0.v1 (broadcastInDim S128 ![] bcast_S_S128),
    StableHlo.TRef.ternary main_call14.v12 main_call14.v11 main_call14.call0.v1 main_call14.call0.v2 (fun p a b => select (broadcastInDim S128 ![] bcast_S_S128 p) a b),
    StableHlo.unary main_v266 main_v268 (broadcastInDim S1x128 ![1] bcast_S128_S1x128_1 : (⟨S128, .f32⟩ : BufTy).Contents (Elt F) → (⟨S1x128, .f32⟩ : BufTy).Contents (Elt F)),
    StableHlo.unary main_v268 main_v269 (broadcastInDim S50000x128 ![0, 1] bcast_S1x128_S50000x128_0_1 : (⟨S1x128, .f32⟩ : BufTy).Contents (Elt F) → (⟨S50000x128, .f32⟩ : BufTy).Contents (Elt F)),
    StableHlo.binary main_v259 main_v269 main_v270 (subf : (⟨S50000x128, .f32⟩ : BufTy).Contents (Elt F) → (⟨S50000x128, .f32⟩ : BufTy).Contents (Elt F) → (⟨S50000x128, .f32⟩ : BufTy).Contents (Elt F)),
    StableHlo.unary main_v261 main_v271 (broadcastInDim S1x128 ![1] bcast_S128_S1x128_1 : (⟨S128, .f32⟩ : BufTy).Contents (Elt F) → (⟨S1x128, .f32⟩ : BufTy).Contents (Elt F)),
    StableHlo.unary main_v271 main_v272 (broadcastInDim S50000x128 ![0, 1] bcast_S1x128_S50000x128_0_1 : (⟨S1x128, .f32⟩ : BufTy).Contents (Elt F) → (⟨S50000x128, .f32⟩ : BufTy).Contents (Elt F)),
    StableHlo.binary main_v272 main_v270 main_v273 (mulf : (⟨S50000x128, .f32⟩ : BufTy).Contents (Elt F) → (⟨S50000x128, .f32⟩ : BufTy).Contents (Elt F) → (⟨S50000x128, .f32⟩ : BufTy).Contents (Elt F)),
    StableHlo.nullary main_cst_45 (constant S_ .f32 0x3727C5AC#32),
    StableHlo.unary main_cst_45 main_v274 (broadcastInDim S128 ![] bcast_S_S128 : (⟨S_, .f32⟩ : BufTy).Contents (Elt F) → (⟨S128, .f32⟩ : BufTy).Contents (Elt F)),
    StableHlo.binary main_v267 main_v274 main_v275 (addf : (⟨S128, .f32⟩ : BufTy).Contents (Elt F) → (⟨S128, .f32⟩ : BufTy).Contents (Elt F) → (⟨S128, .f32⟩ : BufTy).Contents (Elt F)),
    StableHlo.unary main_v275 main_v276 (Host.rsqrt : (⟨S128, .f32⟩ : BufTy).Contents (Elt F) → (⟨S128, .f32⟩ : BufTy).Contents (Elt F)),
    StableHlo.unary main_v276 main_v277 (broadcastInDim S1x128 ![1] bcast_S128_S1x128_1 : (⟨S128, .f32⟩ : BufTy).Contents (Elt F) → (⟨S1x128, .f32⟩ : BufTy).Contents (Elt F)),
    StableHlo.unary main_v277 main_v278 (broadcastInDim S50000x128 ![0, 1] bcast_S1x128_S50000x128_0_1 : (⟨S1x128, .f32⟩ : BufTy).Contents (Elt F) → (⟨S50000x128, .f32⟩ : BufTy).Contents (Elt F)),
    StableHlo.binary main_v273 main_v278 main_v279 (mulf : (⟨S50000x128, .f32⟩ : BufTy).Contents (Elt F) → (⟨S50000x128, .f32⟩ : BufTy).Contents (Elt F) → (⟨S50000x128, .f32⟩ : BufTy).Contents (Elt F)),
    StableHlo.unary main_v263 main_v280 (broadcastInDim S1x128 ![1] bcast_S128_S1x128_1 : (⟨S128, .f32⟩ : BufTy).Contents (Elt F) → (⟨S1x128, .f32⟩ : BufTy).Contents (Elt F)),
    StableHlo.unary main_v280 main_v281 (broadcastInDim S50000x128 ![0, 1] bcast_S1x128_S50000x128_0_1 : (⟨S1x128, .f32⟩ : BufTy).Contents (Elt F) → (⟨S50000x128, .f32⟩ : BufTy).Contents (Elt F)),
    StableHlo.binary main_v279 main_v281 main_v282 (addf : (⟨S50000x128, .f32⟩ : BufTy).Contents (Elt F) → (⟨S50000x128, .f32⟩ : BufTy).Contents (Elt F) → (⟨S50000x128, .f32⟩ : BufTy).Contents (Elt F)),
    StableHlo.TRef.nullary main_call15.cst (constant S_ .f32 0x00000000#32),
    StableHlo.TRef.unary main_call15.cst main_call15.v0 (broadcastInDim S50000x128 ![] bcast_S_S50000x128),
    StableHlo.TRef.binary (.of main_v282 : StableHlo.TRef sig ⟨S50000x128, .f32⟩) main_call15.v0 main_call15.v1 maximumf ]

/-- Layer 4, from `x₄` to `x₅`: the same line at slice 4 of the weights, reading the edge rows `main_v1`, `main_v3` of layer 0. -/
abbrev opsL4 : List (HloOp τ sig (Elt F)) :=
  [ StableHlo.nullary main_c_46 (constantI S_ 32 0#32),
    StableHlo.unary main_c_46 main_v284 (broadcastInDim S800000 ![] bcast_S_S800000 : (⟨S_, .i32⟩ : BufTy).Contents (Elt F) → (⟨S800000, .i32⟩ : BufTy).Contents (Elt F)),
    StableHlo.binary main_v1 main_v284 main_v285 (cmpi .slt : (⟨S800000, .i32⟩ : BufTy).Contents (Elt F) → (⟨S800000, .i32⟩ : BufTy).Contents (Elt F) → (⟨S800000, .i1⟩ : BufTy).Contents (Elt F)),
    StableHlo.nullary main_c_47 (constantI S_ 32 50000#32),
    StableHlo.unary main_c_47 main_v286 (broadcastInDim S800000 ![] bcast_S_S800000 : (⟨S_, .i32⟩ : BufTy).Contents (Elt F) → (⟨S800000, .i32⟩ : BufTy).Contents (Elt F)),
    StableHlo.binary main_v1 main_v286 main_v287 (addi : (⟨S800000, .i32⟩ : BufTy).Contents (Elt F) → (⟨S800000, .i32⟩ : BufTy).Contents (Elt F) → (⟨S800000, .i32⟩ : BufTy).Contents (Elt F)),
    StableHlo.ternary main_v285 main_v287 main_v1 main_v288 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v288 main_v289 (broadcastInDim S800000x1 ![0] bcast_S800000_S800000x1_0 : (⟨S800000, .i32⟩ : BufTy).Contents (Elt F) → (⟨S800000x1, .i32⟩ : BufTy).Contents (Elt F)),
    StableHlo.binary main_v283 main_v289 main_v290 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_48 (constant S_ .f32 0x00000000#32),
    StableHlo.unary main_cst_48 main_v291 (broadcastInDim S50000x128 ![] bcast_S_S50000x128 : (⟨S_, .f32⟩ : BufTy).Contents (Elt F) → (⟨S50000x128, .f32⟩ : BufTy).Contents (Elt F)),
    StableHlo.unary main_v3 main_v292 (broadcastInDim S800000x1 ![0] bcast_S800000_S800000x1_0 : (⟨S800000, .i32⟩ : BufTy).Contents (Elt F) → (⟨S800000x1, .i32⟩ : BufTy).Contents (Elt F)),
    StableHlo.ternary main_v291 main_v292 main_v290 main_v293 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.unary main_arg11 main_v294 ((extractStridedSlice S1 ![4] · slices_S7_S1_4) : (⟨S7, .f32⟩ : BufTy).Contents (Elt F) → (⟨S1, .f32⟩ : BufTy).Contents (Elt F)),
    StableHlo.reshape main_v294 main_v295 rfl shapeCasts_S1_S_,
    StableHlo.nullary main_cst_49 (constant S_ .f32 0x3F800000#32),
    StableHlo.binary main_cst_49 main_v295 main_v296 (addf : (⟨S_, .f32⟩ : BufTy).Contents (Elt F) → (⟨S_, .f32⟩ : BufTy).Contents (Elt F) → (⟨S_, .f32⟩ : BufTy).Contents (Elt F)),
    StableHlo.unary main_v296 main_v297 (broadcastInDim S50000x128 ![] bcast_S_S50000x128 : (⟨S_, .f32⟩ : BufTy).Contents (Elt F) → (⟨S50000x128, .f32⟩ : BufTy).Contents (Elt F)),
    StableHlo.binary main_v297 main_v283 main_v298 (mulf : (⟨S50000x128, .f32⟩ : BufTy).Contents (Elt F) → (⟨S50000x128, .f32⟩ : BufTy).Contents (Elt F) → (⟨S50000x128, .f32⟩ : BufTy).Contents (Elt F)),
    StableHlo.binary main_v298 main_v293 main_v299 (addf : (⟨S50000x128, .f32⟩ : BufTy).Contents (Elt F) → (⟨S50000x128, .f32⟩ : BufTy).Contents (Elt F) → (⟨S50000x128, .f32⟩ : BufTy).Contents (Elt F)),
    StableHlo.unary main_arg4 main_v300 ((extractStridedSlice S1x128x64 ![4, 0, 0] · slices_S7x128x64_S1x128x64_4_0_0) : (⟨S7x128x64, .f32⟩ : BufTy).Contents (Elt F) → (⟨S1x128x64, .f32⟩ : BufTy).Contents (Elt F)),
    StableHlo.reshape main_v300 main_v301 rfl shapeCasts_S1x128x64_S128x64,
    StableHlo.binary main_v299 main_v301 main_v302 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    StableHlo.unary main_arg5 main_v303 ((extractStridedSlice S1x64 ![4, 0] · slices_S7x64_S1x64_4_0) : (⟨S7x64, .f32⟩ : BufTy).Contents (Elt F) → (⟨S1x64, .f32⟩ : BufTy).Contents (Elt F)),
    StableHlo.reshape main_v303 main_v304 rfl shapeCasts_S1x64_S64,
    StableHlo.unary main_arg6 main_v305 ((extractStridedSlice S1x64 ![4, 0] · slices_S7x64_S1x64_4_0) : (⟨S7x64, .f32⟩ : BufTy).Contents (Elt F) → (⟨S1x64, .f32⟩ : BufTy).Contents (Elt F)),
    StableHlo.reshape main_v305 main_v306 rfl shapeCasts_S1x64_S64,
    StableHlo.nullary main_cst_50 (constant S_ .f32 0x00000000#32),
    StableHlo.binary main_v302 main_cst_50 main_v307 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    StableHlo.nullary main_cst_51 (constant S_ .f32 0x47435000#32),
    StableHlo.unary main_cst_51 main_v308 (broadcastInDim S64 ![] bcast_S_S64 : (⟨S_, .f32⟩ : BufTy).Contents (Elt F) → (⟨S64, .f32⟩ : BufTy).Contents (Elt F)),
    StableHlo.binary main_v307 main_v308 main_v309 (Host.divf : (⟨S64, .f32⟩ : BufTy).Contents (Elt F) → (⟨S64, .f32⟩ : BufTy).Contents (Elt F) → (⟨S64, .f32⟩ : BufTy).Contents (Elt F)),
    StableHlo.nullary main_c_52 (constantI S_ 32 0#32),
    StableHlo.TRef.nullary main_call16.cst (constant S_ .f32 0x00000000#32),
    StableHlo.TRef.binary (.of main_v302 : StableHlo.TRef sig ⟨S50000x64, .f32⟩) main_call16.cst main_call16.v0 (fun x v => Host.reduceAdd x v reducesTo_S50000x64_S64_d0 h_S_),
    StableHlo.TRef.unary main_call16.v0 main_call16.v1 (broadcastInDim S1x64 ![1] bcast_S64_S1x64_1),
    StableHlo.TRef.nullary main_call16.cst_0 (constant S_ .f32 0x47435000#32),
    StableHlo.TRef.unary main_call16.cst_0 main_call16.v2 (broadcastInDim S1x64 ![] bcast_S_S1x64),
    StableHlo.TRef.binary main_call16.v1 main_call16.v2 main_call16.v3 Host.divf,
    StableHlo.TRef.unary main_call16.v3 main_call16.v4 (broadcastInDim S50000x64 ![0, 1] bcast_S1x64_S50000x64_0_1),
    StableHlo.TRef.binary (.of main_v302 : StableHlo.TRef sig ⟨S50000x64, .f32⟩) main_call16.v4 main_call16.v5 subf,
    StableHlo.TRef.binary main_call16.v5 main_call16.v5 main_call16.v6 mulf,
    StableHlo.TRef.unary (.of main_c_52 : StableHlo.TRef sig ⟨S_, .i32⟩) main_call16.v7 (sitofp .f32),
    StableHlo.TRef.nullary main_call16.cst_1 (constant S_ .f32 0x47435000#32),
    StableHlo.TRef.binary main_call16.cst_1 main_call16.v7 main_call16.v8 subf,
    StableHlo.TRef.nullary main_call16.cst_2 (constant S_ .f32 0x00000000#32),
    StableHlo.TRef.binary main_call16.v6 main_call16.cst_2 main_call16.v9 (fun x v => Host.reduceAdd x v reducesTo_S50000x64_S64_d0 h_S_),
    StableHlo.TRef.unary main_call16.v8 main_call16.v10 (broadcastInDim S64 ![] bcast_S_S64),
    StableHlo.TRef.binary main_call16.v9 main_call16.v10 main_call16.v11 Host.divf,
    StableHlo.TRef.nullary main_call16.cst_3 (constant S_ .f32 0x00000000#32),
    StableHlo.TRef.binary main_call16.v8 main_call16.cst_3 main_call16.v12 (cmpf .ogt),
    StableHlo.TRef.nullary main_call16.cst_4 (constant S_ .f32 0x7FC00000#32),
    StableHlo.TRef.unary main_call16.cst_4 main_call16.call0.v0 id,
    StableHlo.TRef.unary main_call16.call0.v0 main_call16.call0.v1 (broadcastInDim S64 ![] bcast_S_S64),
    StableHlo.TRef.ternary main_call16.v12 main_call16.v11 main_call16.call0.v1 main_call16.call0.v2 (fun p a b => select (broadcastInDim S64 ![] bcast_S_S64 p) a b),
    StableHlo.unary main_v309 main_v311 (broadcastInDim S1x64 ![1] bcast_S64_S1x64_1 : (⟨S64, .f32⟩ : BufTy).Contents (Elt F) → (⟨S1x64, .f32⟩ : BufTy).Contents (Elt F)),
    StableHlo.unary main_v311 main_v312 (broadcastInDim S50000x64 ![0, 1] bcast_S1x64_S50000x64_0_1 : (⟨S1x64, .f32⟩ : BufTy).Contents (Elt F) → (⟨S50000x64, .f32⟩ : BufTy).Contents (Elt F)),
    StableHlo.binary main_v302 main_v312 main_v313 (subf : (⟨S50000x64, .f32⟩ : BufTy).Contents (Elt F) → (⟨S50000x64, .f32⟩ : BufTy).Contents (Elt F) → (⟨S50000x64, .f32⟩ : BufTy).Contents (Elt F)),
    StableHlo.unary main_v304 main_v314 (broadcastInDim S1x64 ![1] bcast_S64_S1x64_1 : (⟨S64, .f32⟩ : BufTy).Contents (Elt F) → (⟨S1x64, .f32⟩ : BufTy).Contents (Elt F)),
    StableHlo.unary main_v314 main_v315 (broadcastInDim S50000x64 ![0, 1] bcast_S1x64_S50000x64_0_1 : (⟨S1x64, .f32⟩ : BufTy).Contents (Elt F) → (⟨S50000x64, .f32⟩ : BufTy).Contents (Elt F)),
    StableHlo.binary main_v315 main_v313 main_v316 (mulf : (⟨S50000x64, .f32⟩ : BufTy).Contents (Elt F) → (⟨S50000x64, .f32⟩ : BufTy).Contents (Elt F) → (⟨S50000x64, .f32⟩ : BufTy).Contents (Elt F)),
    StableHlo.nullary main_cst_53 (constant S_ .f32 0x3727C5AC#32),
    StableHlo.unary main_cst_53 main_v317 (broadcastInDim S64 ![] bcast_S_S64 : (⟨S_, .f32⟩ : BufTy).Contents (Elt F) → (⟨S64, .f32⟩ : BufTy).Contents (Elt F)),
    StableHlo.binary main_v310 main_v317 main_v318 (addf : (⟨S64, .f32⟩ : BufTy).Contents (Elt F) → (⟨S64, .f32⟩ : BufTy).Contents (Elt F) → (⟨S64, .f32⟩ : BufTy).Contents (Elt F)),
    StableHlo.unary main_v318 main_v319 (Host.rsqrt : (⟨S64, .f32⟩ : BufTy).Contents (Elt F) → (⟨S64, .f32⟩ : BufTy).Contents (Elt F)),
    StableHlo.unary main_v319 main_v320 (broadcastInDim S1x64 ![1] bcast_S64_S1x64_1 : (⟨S64, .f32⟩ : BufTy).Contents (Elt F) → (⟨S1x64, .f32⟩ : BufTy).Contents (Elt F)),
    StableHlo.unary main_v320 main_v321 (broadcastInDim S50000x64 ![0, 1] bcast_S1x64_S50000x64_0_1 : (⟨S1x64, .f32⟩ : BufTy).Contents (Elt F) → (⟨S50000x64, .f32⟩ : BufTy).Contents (Elt F)),
    StableHlo.binary main_v316 main_v321 main_v322 (mulf : (⟨S50000x64, .f32⟩ : BufTy).Contents (Elt F) → (⟨S50000x64, .f32⟩ : BufTy).Contents (Elt F) → (⟨S50000x64, .f32⟩ : BufTy).Contents (Elt F)),
    StableHlo.unary main_v306 main_v323 (broadcastInDim S1x64 ![1] bcast_S64_S1x64_1 : (⟨S64, .f32⟩ : BufTy).Contents (Elt F) → (⟨S1x64, .f32⟩ : BufTy).Contents (Elt F)),
    StableHlo.unary main_v323 main_v324 (broadcastInDim S50000x64 ![0, 1] bcast_S1x64_S50000x64_0_1 : (⟨S1x64, .f32⟩ : BufTy).Contents (Elt F) → (⟨S50000x64, .f32⟩ : BufTy).Contents (Elt F)),
    StableHlo.binary main_v322 main_v324 main_v325 (addf : (⟨S50000x64, .f32⟩ : BufTy).Contents (Elt F) → (⟨S50000x64, .f32⟩ : BufTy).Contents (Elt F) → (⟨S50000x64, .f32⟩ : BufTy).Contents (Elt F)),
    StableHlo.TRef.nullary main_call17.cst (constant S_ .f32 0x00000000#32),
    StableHlo.TRef.unary main_call17.cst main_call17.v0 (broadcastInDim S50000x64 ![] bcast_S_S50000x64),
    StableHlo.TRef.binary (.of main_v325 : StableHlo.TRef sig ⟨S50000x64, .f32⟩) main_call17.v0 main_call17.v1 maximumf,
    StableHlo.unary main_arg7 main_v327 ((extractStridedSlice S1x64x128 ![4, 0, 0] · slices_S6x64x128_S1x64x128_4_0_0) : (⟨S6x64x128, .f32⟩ : BufTy).Contents (Elt F) → (⟨S1x64x128, .f32⟩ : BufTy).Contents (Elt F)),
    StableHlo.reshape main_v327 main_v328 rfl shapeCasts_S1x64x128_S64x128,
    StableHlo.binary main_v326 main_v328 main_v329 ((fun l r => Host.dotGeneral dot_S50000x64_S64x128_S50000x128_1_0_0_1_n_n none l r) : (⟨S50000x64, .f32⟩ : BufTy).Contents (Elt F) → (⟨S64x128, .f32⟩ : BufTy).Contents (Elt F) → (⟨S50000x128, .f32⟩ : BufTy).Contents (Elt F)),
    StableHlo.unary main_arg8 main_v330 ((extractStridedSlice S1x128 ![4, 0] · slices_S6x128_S1x128_4_0) : (⟨S6x128, .f32⟩ : BufTy).Contents (Elt F) → (⟨S1x128, .f32⟩ : BufTy).Contents (Elt F)),
    StableHlo.reshape main_v330 main_v331 rfl shapeCasts_S1x128_S128,
    StableHlo.unary main_arg9 main_v332 ((extractStridedSlice S1x128 ![4, 0] · slices_S6x128_S1x128_4_0) : (⟨S6x128, .f32⟩ : BufTy).Contents (Elt F) → (⟨S1x128, .f32⟩ : BufTy).Contents (Elt F)),
    StableHlo.reshape main_v332 main_v333 rfl shapeCasts_S1x128_S128,
    StableHlo.nullary main_cst_54 (constant S_ .f32 0x00000000#32),
    StableHlo.binary main_v329 main_cst_54 main_v334 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_55 (constant S_ .f32 0x47435000#32),
    StableHlo.unary main_cst_55 main_v335 (broadcastInDim S128 ![] bcast_S_S128 : (⟨S_, .f32⟩ : BufTy).Contents (Elt F) → (⟨S128, .f32⟩ : BufTy).Contents (Elt F)),
    StableHlo.binary main_v334 main_v335 main_v336 (Host.divf : (⟨S128, .f32⟩ : BufTy).Contents (Elt F) → (⟨S128, .f32⟩ : BufTy).Contents (Elt F) → (⟨S128, .f32⟩ : BufTy).Contents (Elt F)),
    StableHlo.nullary main_c_56 (constantI S_ 32 0#32),
    StableHlo.TRef.nullary main_call18.cst (constant S_ .f32 0x00000000#32),
    StableHlo.TRef.binary (.of main_v329 : StableHlo.TRef sig ⟨S50000x128, .f32⟩) main_call18.cst main_call18.v0 (fun x v => Host.reduceAdd x v reducesTo_S50000x128_S128_d0 h_S_),
    StableHlo.TRef.unary main_call18.v0 main_call18.v1 (broadcastInDim S1x128 ![1] bcast_S128_S1x128_1),
    StableHlo.TRef.nullary main_call18.cst_0 (constant S_ .f32 0x47435000#32),
    StableHlo.TRef.unary main_call18.cst_0 main_call18.v2 (broadcastInDim S1x128 ![] bcast_S_S1x128),
    StableHlo.TRef.binary main_call18.v1 main_call18.v2 main_call18.v3 Host.divf,
    StableHlo.TRef.unary main_call18.v3 main_call18.v4 (broadcastInDim S50000x128 ![0, 1] bcast_S1x128_S50000x128_0_1),
    StableHlo.TRef.binary (.of main_v329 : StableHlo.TRef sig ⟨S50000x128, .f32⟩) main_call18.v4 main_call18.v5 subf,
    StableHlo.TRef.binary main_call18.v5 main_call18.v5 main_call18.v6 mulf,
    StableHlo.TRef.unary (.of main_c_56 : StableHlo.TRef sig ⟨S_, .i32⟩) main_call18.v7 (sitofp .f32),
    StableHlo.TRef.nullary main_call18.cst_1 (constant S_ .f32 0x47435000#32),
    StableHlo.TRef.binary main_call18.cst_1 main_call18.v7 main_call18.v8 subf,
    StableHlo.TRef.nullary main_call18.cst_2 (constant S_ .f32 0x00000000#32),
    StableHlo.TRef.binary main_call18.v6 main_call18.cst_2 main_call18.v9 (fun x v => Host.reduceAdd x v reducesTo_S50000x128_S128_d0 h_S_),
    StableHlo.TRef.unary main_call18.v8 main_call18.v10 (broadcastInDim S128 ![] bcast_S_S128),
    StableHlo.TRef.binary main_call18.v9 main_call18.v10 main_call18.v11 Host.divf,
    StableHlo.TRef.nullary main_call18.cst_3 (constant S_ .f32 0x00000000#32),
    StableHlo.TRef.binary main_call18.v8 main_call18.cst_3 main_call18.v12 (cmpf .ogt),
    StableHlo.TRef.nullary main_call18.cst_4 (constant S_ .f32 0x7FC00000#32),
    StableHlo.TRef.unary main_call18.cst_4 main_call18.call0.v0 id,
    StableHlo.TRef.unary main_call18.call0.v0 main_call18.call0.v1 (broadcastInDim S128 ![] bcast_S_S128),
    StableHlo.TRef.ternary main_call18.v12 main_call18.v11 main_call18.call0.v1 main_call18.call0.v2 (fun p a b => select (broadcastInDim S128 ![] bcast_S_S128 p) a b),
    StableHlo.unary main_v336 main_v338 (broadcastInDim S1x128 ![1] bcast_S128_S1x128_1 : (⟨S128, .f32⟩ : BufTy).Contents (Elt F) → (⟨S1x128, .f32⟩ : BufTy).Contents (Elt F)),
    StableHlo.unary main_v338 main_v339 (broadcastInDim S50000x128 ![0, 1] bcast_S1x128_S50000x128_0_1 : (⟨S1x128, .f32⟩ : BufTy).Contents (Elt F) → (⟨S50000x128, .f32⟩ : BufTy).Contents (Elt F)),
    StableHlo.binary main_v329 main_v339 main_v340 (subf : (⟨S50000x128, .f32⟩ : BufTy).Contents (Elt F) → (⟨S50000x128, .f32⟩ : BufTy).Contents (Elt F) → (⟨S50000x128, .f32⟩ : BufTy).Contents (Elt F)),
    StableHlo.unary main_v331 main_v341 (broadcastInDim S1x128 ![1] bcast_S128_S1x128_1 : (⟨S128, .f32⟩ : BufTy).Contents (Elt F) → (⟨S1x128, .f32⟩ : BufTy).Contents (Elt F)),
    StableHlo.unary main_v341 main_v342 (broadcastInDim S50000x128 ![0, 1] bcast_S1x128_S50000x128_0_1 : (⟨S1x128, .f32⟩ : BufTy).Contents (Elt F) → (⟨S50000x128, .f32⟩ : BufTy).Contents (Elt F)),
    StableHlo.binary main_v342 main_v340 main_v343 (mulf : (⟨S50000x128, .f32⟩ : BufTy).Contents (Elt F) → (⟨S50000x128, .f32⟩ : BufTy).Contents (Elt F) → (⟨S50000x128, .f32⟩ : BufTy).Contents (Elt F)),
    StableHlo.nullary main_cst_57 (constant S_ .f32 0x3727C5AC#32),
    StableHlo.unary main_cst_57 main_v344 (broadcastInDim S128 ![] bcast_S_S128 : (⟨S_, .f32⟩ : BufTy).Contents (Elt F) → (⟨S128, .f32⟩ : BufTy).Contents (Elt F)),
    StableHlo.binary main_v337 main_v344 main_v345 (addf : (⟨S128, .f32⟩ : BufTy).Contents (Elt F) → (⟨S128, .f32⟩ : BufTy).Contents (Elt F) → (⟨S128, .f32⟩ : BufTy).Contents (Elt F)),
    StableHlo.unary main_v345 main_v346 (Host.rsqrt : (⟨S128, .f32⟩ : BufTy).Contents (Elt F) → (⟨S128, .f32⟩ : BufTy).Contents (Elt F)),
    StableHlo.unary main_v346 main_v347 (broadcastInDim S1x128 ![1] bcast_S128_S1x128_1 : (⟨S128, .f32⟩ : BufTy).Contents (Elt F) → (⟨S1x128, .f32⟩ : BufTy).Contents (Elt F)),
    StableHlo.unary main_v347 main_v348 (broadcastInDim S50000x128 ![0, 1] bcast_S1x128_S50000x128_0_1 : (⟨S1x128, .f32⟩ : BufTy).Contents (Elt F) → (⟨S50000x128, .f32⟩ : BufTy).Contents (Elt F)),
    StableHlo.binary main_v343 main_v348 main_v349 (mulf : (⟨S50000x128, .f32⟩ : BufTy).Contents (Elt F) → (⟨S50000x128, .f32⟩ : BufTy).Contents (Elt F) → (⟨S50000x128, .f32⟩ : BufTy).Contents (Elt F)),
    StableHlo.unary main_v333 main_v350 (broadcastInDim S1x128 ![1] bcast_S128_S1x128_1 : (⟨S128, .f32⟩ : BufTy).Contents (Elt F) → (⟨S1x128, .f32⟩ : BufTy).Contents (Elt F)),
    StableHlo.unary main_v350 main_v351 (broadcastInDim S50000x128 ![0, 1] bcast_S1x128_S50000x128_0_1 : (⟨S1x128, .f32⟩ : BufTy).Contents (Elt F) → (⟨S50000x128, .f32⟩ : BufTy).Contents (Elt F)),
    StableHlo.binary main_v349 main_v351 main_v352 (addf : (⟨S50000x128, .f32⟩ : BufTy).Contents (Elt F) → (⟨S50000x128, .f32⟩ : BufTy).Contents (Elt F) → (⟨S50000x128, .f32⟩ : BufTy).Contents (Elt F)),
    StableHlo.TRef.nullary main_call19.cst (constant S_ .f32 0x00000000#32),
    StableHlo.TRef.unary main_call19.cst main_call19.v0 (broadcastInDim S50000x128 ![] bcast_S_S50000x128),
    StableHlo.TRef.binary (.of main_v352 : StableHlo.TRef sig ⟨S50000x128, .f32⟩) main_call19.v0 main_call19.v1 maximumf ]

/-- Layer 5, from `x₅` to `x₆`: the same line at slice 5 of the weights, reading the edge rows `main_v1`, `main_v3` of layer 0. -/
abbrev opsL5 : List (HloOp τ sig (Elt F)) :=
  [ StableHlo.nullary main_c_58 (constantI S_ 32 0#32),
    StableHlo.unary main_c_58 main_v354 (broadcastInDim S800000 ![] bcast_S_S800000 : (⟨S_, .i32⟩ : BufTy).Contents (Elt F) → (⟨S800000, .i32⟩ : BufTy).Contents (Elt F)),
    StableHlo.binary main_v1 main_v354 main_v355 (cmpi .slt : (⟨S800000, .i32⟩ : BufTy).Contents (Elt F) → (⟨S800000, .i32⟩ : BufTy).Contents (Elt F) → (⟨S800000, .i1⟩ : BufTy).Contents (Elt F)),
    StableHlo.nullary main_c_59 (constantI S_ 32 50000#32),
    StableHlo.unary main_c_59 main_v356 (broadcastInDim S800000 ![] bcast_S_S800000 : (⟨S_, .i32⟩ : BufTy).Contents (Elt F) → (⟨S800000, .i32⟩ : BufTy).Contents (Elt F)),
    StableHlo.binary main_v1 main_v356 main_v357 (addi : (⟨S800000, .i32⟩ : BufTy).Contents (Elt F) → (⟨S800000, .i32⟩ : BufTy).Contents (Elt F) → (⟨S800000, .i32⟩ : BufTy).Contents (Elt F)),
    StableHlo.ternary main_v355 main_v357 main_v1 main_v358 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v358 main_v359 (broadcastInDim S800000x1 ![0] bcast_S800000_S800000x1_0 : (⟨S800000, .i32⟩ : BufTy).Contents (Elt F) → (⟨S800000x1, .i32⟩ : BufTy).Contents (Elt F)),
    StableHlo.binary main_v353 main_v359 main_v360 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_60 (constant S_ .f32 0x00000000#32),
    StableHlo.unary main_cst_60 main_v361 (broadcastInDim S50000x128 ![] bcast_S_S50000x128 : (⟨S_, .f32⟩ : BufTy).Contents (Elt F) → (⟨S50000x128, .f32⟩ : BufTy).Contents (Elt F)),
    StableHlo.unary main_v3 main_v362 (broadcastInDim S800000x1 ![0] bcast_S800000_S800000x1_0 : (⟨S800000, .i32⟩ : BufTy).Contents (Elt F) → (⟨S800000x1, .i32⟩ : BufTy).Contents (Elt F)),
    StableHlo.ternary main_v361 main_v362 main_v360 main_v363 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.unary main_arg11 main_v364 ((extractStridedSlice S1 ![5] · slices_S7_S1_5) : (⟨S7, .f32⟩ : BufTy).Contents (Elt F) → (⟨S1, .f32⟩ : BufTy).Contents (Elt F)),
    StableHlo.reshape main_v364 main_v365 rfl shapeCasts_S1_S_,
    StableHlo.nullary main_cst_61 (constant S_ .f32 0x3F800000#32),
    StableHlo.binary main_cst_61 main_v365 main_v366 (addf : (⟨S_, .f32⟩ : BufTy).Contents (Elt F) → (⟨S_, .f32⟩ : BufTy).Contents (Elt F) → (⟨S_, .f32⟩ : BufTy).Contents (Elt F)),
    StableHlo.unary main_v366 main_v367 (broadcastInDim S50000x128 ![] bcast_S_S50000x128 : (⟨S_, .f32⟩ : BufTy).Contents (Elt F) → (⟨S50000x128, .f32⟩ : BufTy).Contents (Elt F)),
    StableHlo.binary main_v367 main_v353 main_v368 (mulf : (⟨S50000x128, .f32⟩ : BufTy).Contents (Elt F) → (⟨S50000x128, .f32⟩ : BufTy).Contents (Elt F) → (⟨S50000x128, .f32⟩ : BufTy).Contents (Elt F)),
    StableHlo.binary main_v368 main_v363 main_v369 (addf : (⟨S50000x128, .f32⟩ : BufTy).Contents (Elt F) → (⟨S50000x128, .f32⟩ : BufTy).Contents (Elt F) → (⟨S50000x128, .f32⟩ : BufTy).Contents (Elt F)),
    StableHlo.unary main_arg4 main_v370 ((extractStridedSlice S1x128x64 ![5, 0, 0] · slices_S7x128x64_S1x128x64_5_0_0) : (⟨S7x128x64, .f32⟩ : BufTy).Contents (Elt F) → (⟨S1x128x64, .f32⟩ : BufTy).Contents (Elt F)),
    StableHlo.reshape main_v370 main_v371 rfl shapeCasts_S1x128x64_S128x64,
    StableHlo.binary main_v369 main_v371 main_v372 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    StableHlo.unary main_arg5 main_v373 ((extractStridedSlice S1x64 ![5, 0] · slices_S7x64_S1x64_5_0) : (⟨S7x64, .f32⟩ : BufTy).Contents (Elt F) → (⟨S1x64, .f32⟩ : BufTy).Contents (Elt F)),
    StableHlo.reshape main_v373 main_v374 rfl shapeCasts_S1x64_S64,
    StableHlo.unary main_arg6 main_v375 ((extractStridedSlice S1x64 ![5, 0] · slices_S7x64_S1x64_5_0) : (⟨S7x64, .f32⟩ : BufTy).Contents (Elt F) → (⟨S1x64, .f32⟩ : BufTy).Contents (Elt F)),
    StableHlo.reshape main_v375 main_v376 rfl shapeCasts_S1x64_S64,
    StableHlo.nullary main_cst_62 (constant S_ .f32 0x00000000#32),
    StableHlo.binary main_v372 main_cst_62 main_v377 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    StableHlo.nullary main_cst_63 (constant S_ .f32 0x47435000#32),
    StableHlo.unary main_cst_63 main_v378 (broadcastInDim S64 ![] bcast_S_S64 : (⟨S_, .f32⟩ : BufTy).Contents (Elt F) → (⟨S64, .f32⟩ : BufTy).Contents (Elt F)),
    StableHlo.binary main_v377 main_v378 main_v379 (Host.divf : (⟨S64, .f32⟩ : BufTy).Contents (Elt F) → (⟨S64, .f32⟩ : BufTy).Contents (Elt F) → (⟨S64, .f32⟩ : BufTy).Contents (Elt F)),
    StableHlo.nullary main_c_64 (constantI S_ 32 0#32),
    StableHlo.TRef.nullary main_call20.cst (constant S_ .f32 0x00000000#32),
    StableHlo.TRef.binary (.of main_v372 : StableHlo.TRef sig ⟨S50000x64, .f32⟩) main_call20.cst main_call20.v0 (fun x v => Host.reduceAdd x v reducesTo_S50000x64_S64_d0 h_S_),
    StableHlo.TRef.unary main_call20.v0 main_call20.v1 (broadcastInDim S1x64 ![1] bcast_S64_S1x64_1),
    StableHlo.TRef.nullary main_call20.cst_0 (constant S_ .f32 0x47435000#32),
    StableHlo.TRef.unary main_call20.cst_0 main_call20.v2 (broadcastInDim S1x64 ![] bcast_S_S1x64),
    StableHlo.TRef.binary main_call20.v1 main_call20.v2 main_call20.v3 Host.divf,
    StableHlo.TRef.unary main_call20.v3 main_call20.v4 (broadcastInDim S50000x64 ![0, 1] bcast_S1x64_S50000x64_0_1),
    StableHlo.TRef.binary (.of main_v372 : StableHlo.TRef sig ⟨S50000x64, .f32⟩) main_call20.v4 main_call20.v5 subf,
    StableHlo.TRef.binary main_call20.v5 main_call20.v5 main_call20.v6 mulf,
    StableHlo.TRef.unary (.of main_c_64 : StableHlo.TRef sig ⟨S_, .i32⟩) main_call20.v7 (sitofp .f32),
    StableHlo.TRef.nullary main_call20.cst_1 (constant S_ .f32 0x47435000#32),
    StableHlo.TRef.binary main_call20.cst_1 main_call20.v7 main_call20.v8 subf,
    StableHlo.TRef.nullary main_call20.cst_2 (constant S_ .f32 0x00000000#32),
    StableHlo.TRef.binary main_call20.v6 main_call20.cst_2 main_call20.v9 (fun x v => Host.reduceAdd x v reducesTo_S50000x64_S64_d0 h_S_),
    StableHlo.TRef.unary main_call20.v8 main_call20.v10 (broadcastInDim S64 ![] bcast_S_S64),
    StableHlo.TRef.binary main_call20.v9 main_call20.v10 main_call20.v11 Host.divf,
    StableHlo.TRef.nullary main_call20.cst_3 (constant S_ .f32 0x00000000#32),
    StableHlo.TRef.binary main_call20.v8 main_call20.cst_3 main_call20.v12 (cmpf .ogt),
    StableHlo.TRef.nullary main_call20.cst_4 (constant S_ .f32 0x7FC00000#32),
    StableHlo.TRef.unary main_call20.cst_4 main_call20.call0.v0 id,
    StableHlo.TRef.unary main_call20.call0.v0 main_call20.call0.v1 (broadcastInDim S64 ![] bcast_S_S64),
    StableHlo.TRef.ternary main_call20.v12 main_call20.v11 main_call20.call0.v1 main_call20.call0.v2 (fun p a b => select (broadcastInDim S64 ![] bcast_S_S64 p) a b),
    StableHlo.unary main_v379 main_v381 (broadcastInDim S1x64 ![1] bcast_S64_S1x64_1 : (⟨S64, .f32⟩ : BufTy).Contents (Elt F) → (⟨S1x64, .f32⟩ : BufTy).Contents (Elt F)),
    StableHlo.unary main_v381 main_v382 (broadcastInDim S50000x64 ![0, 1] bcast_S1x64_S50000x64_0_1 : (⟨S1x64, .f32⟩ : BufTy).Contents (Elt F) → (⟨S50000x64, .f32⟩ : BufTy).Contents (Elt F)),
    StableHlo.binary main_v372 main_v382 main_v383 (subf : (⟨S50000x64, .f32⟩ : BufTy).Contents (Elt F) → (⟨S50000x64, .f32⟩ : BufTy).Contents (Elt F) → (⟨S50000x64, .f32⟩ : BufTy).Contents (Elt F)),
    StableHlo.unary main_v374 main_v384 (broadcastInDim S1x64 ![1] bcast_S64_S1x64_1 : (⟨S64, .f32⟩ : BufTy).Contents (Elt F) → (⟨S1x64, .f32⟩ : BufTy).Contents (Elt F)),
    StableHlo.unary main_v384 main_v385 (broadcastInDim S50000x64 ![0, 1] bcast_S1x64_S50000x64_0_1 : (⟨S1x64, .f32⟩ : BufTy).Contents (Elt F) → (⟨S50000x64, .f32⟩ : BufTy).Contents (Elt F)),
    StableHlo.binary main_v385 main_v383 main_v386 (mulf : (⟨S50000x64, .f32⟩ : BufTy).Contents (Elt F) → (⟨S50000x64, .f32⟩ : BufTy).Contents (Elt F) → (⟨S50000x64, .f32⟩ : BufTy).Contents (Elt F)),
    StableHlo.nullary main_cst_65 (constant S_ .f32 0x3727C5AC#32),
    StableHlo.unary main_cst_65 main_v387 (broadcastInDim S64 ![] bcast_S_S64 : (⟨S_, .f32⟩ : BufTy).Contents (Elt F) → (⟨S64, .f32⟩ : BufTy).Contents (Elt F)),
    StableHlo.binary main_v380 main_v387 main_v388 (addf : (⟨S64, .f32⟩ : BufTy).Contents (Elt F) → (⟨S64, .f32⟩ : BufTy).Contents (Elt F) → (⟨S64, .f32⟩ : BufTy).Contents (Elt F)),
    StableHlo.unary main_v388 main_v389 (Host.rsqrt : (⟨S64, .f32⟩ : BufTy).Contents (Elt F) → (⟨S64, .f32⟩ : BufTy).Contents (Elt F)),
    StableHlo.unary main_v389 main_v390 (broadcastInDim S1x64 ![1] bcast_S64_S1x64_1 : (⟨S64, .f32⟩ : BufTy).Contents (Elt F) → (⟨S1x64, .f32⟩ : BufTy).Contents (Elt F)),
    StableHlo.unary main_v390 main_v391 (broadcastInDim S50000x64 ![0, 1] bcast_S1x64_S50000x64_0_1 : (⟨S1x64, .f32⟩ : BufTy).Contents (Elt F) → (⟨S50000x64, .f32⟩ : BufTy).Contents (Elt F)),
    StableHlo.binary main_v386 main_v391 main_v392 (mulf : (⟨S50000x64, .f32⟩ : BufTy).Contents (Elt F) → (⟨S50000x64, .f32⟩ : BufTy).Contents (Elt F) → (⟨S50000x64, .f32⟩ : BufTy).Contents (Elt F)),
    StableHlo.unary main_v376 main_v393 (broadcastInDim S1x64 ![1] bcast_S64_S1x64_1 : (⟨S64, .f32⟩ : BufTy).Contents (Elt F) → (⟨S1x64, .f32⟩ : BufTy).Contents (Elt F)),
    StableHlo.unary main_v393 main_v394 (broadcastInDim S50000x64 ![0, 1] bcast_S1x64_S50000x64_0_1 : (⟨S1x64, .f32⟩ : BufTy).Contents (Elt F) → (⟨S50000x64, .f32⟩ : BufTy).Contents (Elt F)),
    StableHlo.binary main_v392 main_v394 main_v395 (addf : (⟨S50000x64, .f32⟩ : BufTy).Contents (Elt F) → (⟨S50000x64, .f32⟩ : BufTy).Contents (Elt F) → (⟨S50000x64, .f32⟩ : BufTy).Contents (Elt F)),
    StableHlo.TRef.nullary main_call21.cst (constant S_ .f32 0x00000000#32),
    StableHlo.TRef.unary main_call21.cst main_call21.v0 (broadcastInDim S50000x64 ![] bcast_S_S50000x64),
    StableHlo.TRef.binary (.of main_v395 : StableHlo.TRef sig ⟨S50000x64, .f32⟩) main_call21.v0 main_call21.v1 maximumf,
    StableHlo.unary main_arg7 main_v397 ((extractStridedSlice S1x64x128 ![5, 0, 0] · slices_S6x64x128_S1x64x128_5_0_0) : (⟨S6x64x128, .f32⟩ : BufTy).Contents (Elt F) → (⟨S1x64x128, .f32⟩ : BufTy).Contents (Elt F)),
    StableHlo.reshape main_v397 main_v398 rfl shapeCasts_S1x64x128_S64x128,
    StableHlo.binary main_v396 main_v398 main_v399 ((fun l r => Host.dotGeneral dot_S50000x64_S64x128_S50000x128_1_0_0_1_n_n none l r) : (⟨S50000x64, .f32⟩ : BufTy).Contents (Elt F) → (⟨S64x128, .f32⟩ : BufTy).Contents (Elt F) → (⟨S50000x128, .f32⟩ : BufTy).Contents (Elt F)),
    StableHlo.unary main_arg8 main_v400 ((extractStridedSlice S1x128 ![5, 0] · slices_S6x128_S1x128_5_0) : (⟨S6x128, .f32⟩ : BufTy).Contents (Elt F) → (⟨S1x128, .f32⟩ : BufTy).Contents (Elt F)),
    StableHlo.reshape main_v400 main_v401 rfl shapeCasts_S1x128_S128,
    StableHlo.unary main_arg9 main_v402 ((extractStridedSlice S1x128 ![5, 0] · slices_S6x128_S1x128_5_0) : (⟨S6x128, .f32⟩ : BufTy).Contents (Elt F) → (⟨S1x128, .f32⟩ : BufTy).Contents (Elt F)),
    StableHlo.reshape main_v402 main_v403 rfl shapeCasts_S1x128_S128,
    StableHlo.nullary main_cst_66 (constant S_ .f32 0x00000000#32),
    StableHlo.binary main_v399 main_cst_66 main_v404 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_67 (constant S_ .f32 0x47435000#32),
    StableHlo.unary main_cst_67 main_v405 (broadcastInDim S128 ![] bcast_S_S128 : (⟨S_, .f32⟩ : BufTy).Contents (Elt F) → (⟨S128, .f32⟩ : BufTy).Contents (Elt F)),
    StableHlo.binary main_v404 main_v405 main_v406 (Host.divf : (⟨S128, .f32⟩ : BufTy).Contents (Elt F) → (⟨S128, .f32⟩ : BufTy).Contents (Elt F) → (⟨S128, .f32⟩ : BufTy).Contents (Elt F)),
    StableHlo.nullary main_c_68 (constantI S_ 32 0#32),
    StableHlo.TRef.nullary main_call22.cst (constant S_ .f32 0x00000000#32),
    StableHlo.TRef.binary (.of main_v399 : StableHlo.TRef sig ⟨S50000x128, .f32⟩) main_call22.cst main_call22.v0 (fun x v => Host.reduceAdd x v reducesTo_S50000x128_S128_d0 h_S_),
    StableHlo.TRef.unary main_call22.v0 main_call22.v1 (broadcastInDim S1x128 ![1] bcast_S128_S1x128_1),
    StableHlo.TRef.nullary main_call22.cst_0 (constant S_ .f32 0x47435000#32),
    StableHlo.TRef.unary main_call22.cst_0 main_call22.v2 (broadcastInDim S1x128 ![] bcast_S_S1x128),
    StableHlo.TRef.binary main_call22.v1 main_call22.v2 main_call22.v3 Host.divf,
    StableHlo.TRef.unary main_call22.v3 main_call22.v4 (broadcastInDim S50000x128 ![0, 1] bcast_S1x128_S50000x128_0_1),
    StableHlo.TRef.binary (.of main_v399 : StableHlo.TRef sig ⟨S50000x128, .f32⟩) main_call22.v4 main_call22.v5 subf,
    StableHlo.TRef.binary main_call22.v5 main_call22.v5 main_call22.v6 mulf,
    StableHlo.TRef.unary (.of main_c_68 : StableHlo.TRef sig ⟨S_, .i32⟩) main_call22.v7 (sitofp .f32),
    StableHlo.TRef.nullary main_call22.cst_1 (constant S_ .f32 0x47435000#32),
    StableHlo.TRef.binary main_call22.cst_1 main_call22.v7 main_call22.v8 subf,
    StableHlo.TRef.nullary main_call22.cst_2 (constant S_ .f32 0x00000000#32),
    StableHlo.TRef.binary main_call22.v6 main_call22.cst_2 main_call22.v9 (fun x v => Host.reduceAdd x v reducesTo_S50000x128_S128_d0 h_S_),
    StableHlo.TRef.unary main_call22.v8 main_call22.v10 (broadcastInDim S128 ![] bcast_S_S128),
    StableHlo.TRef.binary main_call22.v9 main_call22.v10 main_call22.v11 Host.divf,
    StableHlo.TRef.nullary main_call22.cst_3 (constant S_ .f32 0x00000000#32),
    StableHlo.TRef.binary main_call22.v8 main_call22.cst_3 main_call22.v12 (cmpf .ogt),
    StableHlo.TRef.nullary main_call22.cst_4 (constant S_ .f32 0x7FC00000#32),
    StableHlo.TRef.unary main_call22.cst_4 main_call22.call0.v0 id,
    StableHlo.TRef.unary main_call22.call0.v0 main_call22.call0.v1 (broadcastInDim S128 ![] bcast_S_S128),
    StableHlo.TRef.ternary main_call22.v12 main_call22.v11 main_call22.call0.v1 main_call22.call0.v2 (fun p a b => select (broadcastInDim S128 ![] bcast_S_S128 p) a b),
    StableHlo.unary main_v406 main_v408 (broadcastInDim S1x128 ![1] bcast_S128_S1x128_1 : (⟨S128, .f32⟩ : BufTy).Contents (Elt F) → (⟨S1x128, .f32⟩ : BufTy).Contents (Elt F)),
    StableHlo.unary main_v408 main_v409 (broadcastInDim S50000x128 ![0, 1] bcast_S1x128_S50000x128_0_1 : (⟨S1x128, .f32⟩ : BufTy).Contents (Elt F) → (⟨S50000x128, .f32⟩ : BufTy).Contents (Elt F)),
    StableHlo.binary main_v399 main_v409 main_v410 (subf : (⟨S50000x128, .f32⟩ : BufTy).Contents (Elt F) → (⟨S50000x128, .f32⟩ : BufTy).Contents (Elt F) → (⟨S50000x128, .f32⟩ : BufTy).Contents (Elt F)),
    StableHlo.unary main_v401 main_v411 (broadcastInDim S1x128 ![1] bcast_S128_S1x128_1 : (⟨S128, .f32⟩ : BufTy).Contents (Elt F) → (⟨S1x128, .f32⟩ : BufTy).Contents (Elt F)),
    StableHlo.unary main_v411 main_v412 (broadcastInDim S50000x128 ![0, 1] bcast_S1x128_S50000x128_0_1 : (⟨S1x128, .f32⟩ : BufTy).Contents (Elt F) → (⟨S50000x128, .f32⟩ : BufTy).Contents (Elt F)),
    StableHlo.binary main_v412 main_v410 main_v413 (mulf : (⟨S50000x128, .f32⟩ : BufTy).Contents (Elt F) → (⟨S50000x128, .f32⟩ : BufTy).Contents (Elt F) → (⟨S50000x128, .f32⟩ : BufTy).Contents (Elt F)),
    StableHlo.nullary main_cst_69 (constant S_ .f32 0x3727C5AC#32),
    StableHlo.unary main_cst_69 main_v414 (broadcastInDim S128 ![] bcast_S_S128 : (⟨S_, .f32⟩ : BufTy).Contents (Elt F) → (⟨S128, .f32⟩ : BufTy).Contents (Elt F)),
    StableHlo.binary main_v407 main_v414 main_v415 (addf : (⟨S128, .f32⟩ : BufTy).Contents (Elt F) → (⟨S128, .f32⟩ : BufTy).Contents (Elt F) → (⟨S128, .f32⟩ : BufTy).Contents (Elt F)),
    StableHlo.unary main_v415 main_v416 (Host.rsqrt : (⟨S128, .f32⟩ : BufTy).Contents (Elt F) → (⟨S128, .f32⟩ : BufTy).Contents (Elt F)),
    StableHlo.unary main_v416 main_v417 (broadcastInDim S1x128 ![1] bcast_S128_S1x128_1 : (⟨S128, .f32⟩ : BufTy).Contents (Elt F) → (⟨S1x128, .f32⟩ : BufTy).Contents (Elt F)),
    StableHlo.unary main_v417 main_v418 (broadcastInDim S50000x128 ![0, 1] bcast_S1x128_S50000x128_0_1 : (⟨S1x128, .f32⟩ : BufTy).Contents (Elt F) → (⟨S50000x128, .f32⟩ : BufTy).Contents (Elt F)),
    StableHlo.binary main_v413 main_v418 main_v419 (mulf : (⟨S50000x128, .f32⟩ : BufTy).Contents (Elt F) → (⟨S50000x128, .f32⟩ : BufTy).Contents (Elt F) → (⟨S50000x128, .f32⟩ : BufTy).Contents (Elt F)),
    StableHlo.unary main_v403 main_v420 (broadcastInDim S1x128 ![1] bcast_S128_S1x128_1 : (⟨S128, .f32⟩ : BufTy).Contents (Elt F) → (⟨S1x128, .f32⟩ : BufTy).Contents (Elt F)),
    StableHlo.unary main_v420 main_v421 (broadcastInDim S50000x128 ![0, 1] bcast_S1x128_S50000x128_0_1 : (⟨S1x128, .f32⟩ : BufTy).Contents (Elt F) → (⟨S50000x128, .f32⟩ : BufTy).Contents (Elt F)),
    StableHlo.binary main_v419 main_v421 main_v422 (addf : (⟨S50000x128, .f32⟩ : BufTy).Contents (Elt F) → (⟨S50000x128, .f32⟩ : BufTy).Contents (Elt F) → (⟨S50000x128, .f32⟩ : BufTy).Contents (Elt F)),
    StableHlo.TRef.nullary main_call23.cst (constant S_ .f32 0x00000000#32),
    StableHlo.TRef.unary main_call23.cst main_call23.v0 (broadcastInDim S50000x128 ![] bcast_S_S50000x128),
    StableHlo.TRef.binary (.of main_v422 : StableHlo.TRef sig ⟨S50000x128, .f32⟩) main_call23.v0 main_call23.v1 maximumf ]

/-- Layer 6, from `x₆` to `x₇ = main_v468`: the aggregation, the product with `W1[6]`, the batch norm and the maximum with zero,
    then the product with the last weight and the maximum with zero. -/
abbrev opsL6 : List (HloOp τ sig (Elt F)) :=
  [ StableHlo.nullary main_c_70 (constantI S_ 32 0#32),
    StableHlo.unary main_c_70 main_v424 (broadcastInDim S800000 ![] bcast_S_S800000 : (⟨S_, .i32⟩ : BufTy).Contents (Elt F) → (⟨S800000, .i32⟩ : BufTy).Contents (Elt F)),
    StableHlo.binary main_v1 main_v424 main_v425 (cmpi .slt : (⟨S800000, .i32⟩ : BufTy).Contents (Elt F) → (⟨S800000, .i32⟩ : BufTy).Contents (Elt F) → (⟨S800000, .i1⟩ : BufTy).Contents (Elt F)),
    StableHlo.nullary main_c_71 (constantI S_ 32 50000#32),
    StableHlo.unary main_c_71 main_v426 (broadcastInDim S800000 ![] bcast_S_S800000 : (⟨S_, .i32⟩ : BufTy).Contents (Elt F) → (⟨S800000, .i32⟩ : BufTy).Contents (Elt F)),
    StableHlo.binary main_v1 main_v426 main_v427 (addi : (⟨S800000, .i32⟩ : BufTy).Contents (Elt F) → (⟨S800000, .i32⟩ : BufTy).Contents (Elt F) → (⟨S800000, .i32⟩ : BufTy).Contents (Elt F)),
    StableHlo.ternary main_v425 main_v427 main_v1 main_v428 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v428 main_v429 (broadcastInDim S800000x1 ![0] bcast_S800000_S800000x1_0 : (⟨S800000, .i32⟩ : BufTy).Contents (Elt F) → (⟨S800000x1, .i32⟩ : BufTy).Contents (Elt F)),
    StableHlo.binary main_v423 main_v429 main_v430 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_72 (constant S_ .f32 0x00000000#32),
    StableHlo.unary main_cst_72 main_v431 (broadcastInDim S50000x128 ![] bcast_S_S50000x128 : (⟨S_, .f32⟩ : BufTy).Contents (Elt F) → (⟨S50000x128, .f32⟩ : BufTy).Contents (Elt F)),
    StableHlo.unary main_v3 main_v432 (broadcastInDim S800000x1 ![0] bcast_S800000_S800000x1_0 : (⟨S800000, .i32⟩ : BufTy).Contents (Elt F) → (⟨S800000x1, .i32⟩ : BufTy).Contents (Elt F)),
    StableHlo.ternary main_v431 main_v432 main_v430 main_v433 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.unary main_arg11 main_v434 ((extractStridedSlice S1 ![6] · slices_S7_S1_6) : (⟨S7, .f32⟩ : BufTy).Contents (Elt F) → (⟨S1, .f32⟩ : BufTy).Contents (Elt F)),
    StableHlo.reshape main_v434 main_v435 rfl shapeCasts_S1_S_,
    StableHlo.nullary main_cst_73 (constant S_ .f32 0x3F800000#32),
    StableHlo.binary main_cst_73 main_v435 main_v436 (addf : (⟨S_, .f32⟩ : BufTy).Contents (Elt F) → (⟨S_, .f32⟩ : BufTy).Contents (Elt F) → (⟨S_, .f32⟩ : BufTy).Contents (Elt F)),
    StableHlo.unary main_v436 main_v437 (broadcastInDim S50000x128 ![] bcast_S_S50000x128 : (⟨S_, .f32⟩ : BufTy).Contents (Elt F) → (⟨S50000x128, .f32⟩ : BufTy).Contents (Elt F)),
    StableHlo.binary main_v437 main_v423 main_v438 (mulf : (⟨S50000x128, .f32⟩ : BufTy).Contents (Elt F) → (⟨S50000x128, .f32⟩ : BufTy).Contents (Elt F) → (⟨S50000x128, .f32⟩ : BufTy).Contents (Elt F)),
    StableHlo.binary main_v438 main_v433 main_v439 (addf : (⟨S50000x128, .f32⟩ : BufTy).Contents (Elt F) → (⟨S50000x128, .f32⟩ : BufTy).Contents (Elt F) → (⟨S50000x128, .f32⟩ : BufTy).Contents (Elt F)),
    StableHlo.unary main_arg4 main_v440 ((extractStridedSlice S1x128x64 ![6, 0, 0] · slices_S7x128x64_S1x128x64_6_0_0) : (⟨S7x128x64, .f32⟩ : BufTy).Contents (Elt F) → (⟨S1x128x64, .f32⟩ : BufTy).Contents (Elt F)),
    StableHlo.reshape main_v440 main_v441 rfl shapeCasts_S1x128x64_S128x64,
    StableHlo.binary main_v439 main_v441 main_v442 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    StableHlo.unary main_arg5 main_v443 ((extractStridedSlice S1x64 ![6, 0] · slices_S7x64_S1x64_6_0) : (⟨S7x64, .f32⟩ : BufTy).Contents (Elt F) → (⟨S1x64, .f32⟩ : BufTy).Contents (Elt F)),
    StableHlo.reshape main_v443 main_v444 rfl shapeCasts_S1x64_S64,
    StableHlo.unary main_arg6 main_v445 ((extractStridedSlice S1x64 ![6, 0] · slices_S7x64_S1x64_6_0) : (⟨S7x64, .f32⟩ : BufTy).Contents (Elt F) → (⟨S1x64, .f32⟩ : BufTy).Contents (Elt F)),
    StableHlo.reshape main_v445 main_v446 rfl shapeCasts_S1x64_S64,
    StableHlo.nullary main_cst_74 (constant S_ .f32 0x00000000#32),
    StableHlo.binary main_v442 main_cst_74 main_v447 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    StableHlo.nullary main_cst_75 (constant S_ .f32 0x47435000#32),
    StableHlo.unary main_cst_75 main_v448 (broadcastInDim S64 ![] bcast_S_S64 : (⟨S_, .f32⟩ : BufTy).Contents (Elt F) → (⟨S64, .f32⟩ : BufTy).Contents (Elt F)),
    StableHlo.binary main_v447 main_v448 main_v449 (Host.divf : (⟨S64, .f32⟩ : BufTy).Contents (Elt F) → (⟨S64, .f32⟩ : BufTy).Contents (Elt F) → (⟨S64, .f32⟩ : BufTy).Contents (Elt F)),
    StableHlo.nullary main_c_76 (constantI S_ 32 0#32),
    StableHlo.TRef.nullary main_call24.cst (constant S_ .f32 0x00000000#32),
    StableHlo.TRef.binary (.of main_v442 : StableHlo.TRef sig ⟨S50000x64, .f32⟩) main_call24.cst main_call24.v0 (fun x v => Host.reduceAdd x v reducesTo_S50000x64_S64_d0 h_S_),
    StableHlo.TRef.unary main_call24.v0 main_call24.v1 (broadcastInDim S1x64 ![1] bcast_S64_S1x64_1),
    StableHlo.TRef.nullary main_call24.cst_0 (constant S_ .f32 0x47435000#32),
    StableHlo.TRef.unary main_call24.cst_0 main_call24.v2 (broadcastInDim S1x64 ![] bcast_S_S1x64),
    StableHlo.TRef.binary main_call24.v1 main_call24.v2 main_call24.v3 Host.divf,
    StableHlo.TRef.unary main_call24.v3 main_call24.v4 (broadcastInDim S50000x64 ![0, 1] bcast_S1x64_S50000x64_0_1),
    StableHlo.TRef.binary (.of main_v442 : StableHlo.TRef sig ⟨S50000x64, .f32⟩) main_call24.v4 main_call24.v5 subf,
    StableHlo.TRef.binary main_call24.v5 main_call24.v5 main_call24.v6 mulf,
    StableHlo.TRef.unary (.of main_c_76 : StableHlo.TRef sig ⟨S_, .i32⟩) main_call24.v7 (sitofp .f32),
    StableHlo.TRef.nullary main_call24.cst_1 (constant S_ .f32 0x47435000#32),
    StableHlo.TRef.binary main_call24.cst_1 main_call24.v7 main_call24.v8 subf,
    StableHlo.TRef.nullary main_call24.cst_2 (constant S_ .f32 0x00000000#32),
    StableHlo.TRef.binary main_call24.v6 main_call24.cst_2 main_call24.v9 (fun x v => Host.reduceAdd x v reducesTo_S50000x64_S64_d0 h_S_),
    StableHlo.TRef.unary main_call24.v8 main_call24.v10 (broadcastInDim S64 ![] bcast_S_S64),
    StableHlo.TRef.binary main_call24.v9 main_call24.v10 main_call24.v11 Host.divf,
    StableHlo.TRef.nullary main_call24.cst_3 (constant S_ .f32 0x00000000#32),
    StableHlo.TRef.binary main_call24.v8 main_call24.cst_3 main_call24.v12 (cmpf .ogt),
    StableHlo.TRef.nullary main_call24.cst_4 (constant S_ .f32 0x7FC00000#32),
    StableHlo.TRef.unary main_call24.cst_4 main_call24.call0.v0 id,
    StableHlo.TRef.unary main_call24.call0.v0 main_call24.call0.v1 (broadcastInDim S64 ![] bcast_S_S64),
    StableHlo.TRef.ternary main_call24.v12 main_call24.v11 main_call24.call0.v1 main_call24.call0.v2 (fun p a b => select (broadcastInDim S64 ![] bcast_S_S64 p) a b),
    StableHlo.unary main_v449 main_v451 (broadcastInDim S1x64 ![1] bcast_S64_S1x64_1 : (⟨S64, .f32⟩ : BufTy).Contents (Elt F) → (⟨S1x64, .f32⟩ : BufTy).Contents (Elt F)),
    StableHlo.unary main_v451 main_v452 (broadcastInDim S50000x64 ![0, 1] bcast_S1x64_S50000x64_0_1 : (⟨S1x64, .f32⟩ : BufTy).Contents (Elt F) → (⟨S50000x64, .f32⟩ : BufTy).Contents (Elt F)),
    StableHlo.binary main_v442 main_v452 main_v453 (subf : (⟨S50000x64, .f32⟩ : BufTy).Contents (Elt F) → (⟨S50000x64, .f32⟩ : BufTy).Contents (Elt F) → (⟨S50000x64, .f32⟩ : BufTy).Contents (Elt F)),
    StableHlo.unary main_v444 main_v454 (broadcastInDim S1x64 ![1] bcast_S64_S1x64_1 : (⟨S64, .f32⟩ : BufTy).Contents (Elt F) → (⟨S1x64, .f32⟩ : BufTy).Contents (Elt F)),
    StableHlo.unary main_v454 main_v455 (broadcastInDim S50000x64 ![0, 1] bcast_S1x64_S50000x64_0_1 : (⟨S1x64, .f32⟩ : BufTy).Contents (Elt F) → (⟨S50000x64, .f32⟩ : BufTy).Contents (Elt F)),
    StableHlo.binary main_v455 main_v453 main_v456 (mulf : (⟨S50000x64, .f32⟩ : BufTy).Contents (Elt F) → (⟨S50000x64, .f32⟩ : BufTy).Contents (Elt F) → (⟨S50000x64, .f32⟩ : BufTy).Contents (Elt F)),
    StableHlo.nullary main_cst_77 (constant S_ .f32 0x3727C5AC#32),
    StableHlo.unary main_cst_77 main_v457 (broadcastInDim S64 ![] bcast_S_S64 : (⟨S_, .f32⟩ : BufTy).Contents (Elt F) → (⟨S64, .f32⟩ : BufTy).Contents (Elt F)),
    StableHlo.binary main_v450 main_v457 main_v458 (addf : (⟨S64, .f32⟩ : BufTy).Contents (Elt F) → (⟨S64, .f32⟩ : BufTy).Contents (Elt F) → (⟨S64, .f32⟩ : BufTy).Contents (Elt F)),
    StableHlo.unary main_v458 main_v459 (Host.rsqrt : (⟨S64, .f32⟩ : BufTy).Contents (Elt F) → (⟨S64, .f32⟩ : BufTy).Contents (Elt F)),
    StableHlo.unary main_v459 main_v460 (broadcastInDim S1x64 ![1] bcast_S64_S1x64_1 : (⟨S64, .f32⟩ : BufTy).Contents (Elt F) → (⟨S1x64, .f32⟩ : BufTy).Contents (Elt F)),
    StableHlo.unary main_v460 main_v461 (broadcastInDim S50000x64 ![0, 1] bcast_S1x64_S50000x64_0_1 : (⟨S1x64, .f32⟩ : BufTy).Contents (Elt F) → (⟨S50000x64, .f32⟩ : BufTy).Contents (Elt F)),
    StableHlo.binary main_v456 main_v461 main_v462 (mulf : (⟨S50000x64, .f32⟩ : BufTy).Contents (Elt F) → (⟨S50000x64, .f32⟩ : BufTy).Contents (Elt F) → (⟨S50000x64, .f32⟩ : BufTy).Contents (Elt F)),
    StableHlo.unary main_v446 main_v463 (broadcastInDim S1x64 ![1] bcast_S64_S1x64_1 : (⟨S64, .f32⟩ : BufTy).Contents (Elt F) → (⟨S1x64, .f32⟩ : BufTy).Contents (Elt F)),
    StableHlo.unary main_v463 main_v464 (broadcastInDim S50000x64 ![0, 1] bcast_S1x64_S50000x64_0_1 : (⟨S1x64, .f32⟩ : BufTy).Contents (Elt F) → (⟨S50000x64, .f32⟩ : BufTy).Contents (Elt F)),
    StableHlo.binary main_v462 main_v464 main_v465 (addf : (⟨S50000x64, .f32⟩ : BufTy).Contents (Elt F) → (⟨S50000x64, .f32⟩ : BufTy).Contents (Elt F) → (⟨S50000x64, .f32⟩ : BufTy).Contents (Elt F)),
    StableHlo.TRef.nullary main_call25.cst (constant S_ .f32 0x00000000#32),
    StableHlo.TRef.unary main_call25.cst main_call25.v0 (broadcastInDim S50000x64 ![] bcast_S_S50000x64),
    StableHlo.TRef.binary (.of main_v465 : StableHlo.TRef sig ⟨S50000x64, .f32⟩) main_call25.v0 main_call25.v1 maximumf,
    StableHlo.binary main_v466 main_arg10 main_v467 ((fun l r => Host.dotGeneral dot_S50000x64_S64x2_S50000x2_1_0_0_1_n_n none l r) : (⟨S50000x64, .f32⟩ : BufTy).Contents (Elt F) → (⟨S64x2, .f32⟩ : BufTy).Contents (Elt F) → (⟨S50000x2, .f32⟩ : BufTy).Contents (Elt F)),
    StableHlo.TRef.nullary main_call26.cst (constant S_ .f32 0x00000000#32),
    StableHlo.TRef.unary main_call26.cst main_call26.v0 (broadcastInDim S50000x2 ![] bcast_S_S50000x2),
    StableHlo.TRef.binary (.of main_v467 : StableHlo.TRef sig ⟨S50000x2, .f32⟩) main_call26.v0 main_call26.v1 maximumf ]

/-- The pooling after layer 6: per segment, the sum of the rows of `x₇` divided by the larger of the segment's row count and one. -/
abbrev opsTail : List (HloOp τ sig (Elt F)) :=
  [ StableHlo.nullary main_cst_78 (constant S_ .f32 0x3F800000#32),
    StableHlo.unary main_cst_78 main_v469 (broadcastInDim S50000 ![] bcast_S_S50000 : (⟨S_, .f32⟩ : BufTy).Contents (Elt F) → (⟨S50000, .f32⟩ : BufTy).Contents (Elt F)),
    StableHlo.nullary main_cst_79 (constant S_ .f32 0x00000000#32),
    StableHlo.unary main_cst_79 main_v470 (broadcastInDim S64 ![] bcast_S_S64 : (⟨S_, .f32⟩ : BufTy).Contents (Elt F) → (⟨S64, .f32⟩ : BufTy).Contents (Elt F)),
    StableHlo.unary main_arg3 main_v471 (broadcastInDim S50000x1 ![0] bcast_S50000_S50000x1_0 : (⟨S50000, .i32⟩ : BufTy).Contents (Elt F) → (⟨S50000x1, .i32⟩ : BufTy).Contents (Elt F)),
    StableHlo.ternary main_v470 main_v471 main_v469 main_v472 ((fun x i u => Host.scatterAdd scatter_S64_S50000x1_S50000_n_0_0_1 x i u) : (⟨S64, .f32⟩ : BufTy).Contents (Elt F) → (⟨S50000x1, .i32⟩ : BufTy).Contents (Elt F) → (⟨S50000, .f32⟩ : BufTy).Contents (Elt F) → (⟨S64, .f32⟩ : BufTy).Contents (Elt F)),
    StableHlo.nullary main_cst_80 (constant S_ .f32 0x00000000#32),
    StableHlo.unary main_cst_80 main_v473 (broadcastInDim S64x2 ![] bcast_S_S64x2 : (⟨S_, .f32⟩ : BufTy).Contents (Elt F) → (⟨S64x2, .f32⟩ : BufTy).Contents (Elt F)),
    StableHlo.unary main_arg3 main_v474 (broadcastInDim S50000x1 ![0] bcast_S50000_S50000x1_0 : (⟨S50000, .i32⟩ : BufTy).Contents (Elt F) → (⟨S50000x1, .i32⟩ : BufTy).Contents (Elt F)),
    StableHlo.ternary main_v473 main_v474 main_v468 main_v475 ((fun x i u => Host.scatterAdd scatter_S64x2_S50000x1_S50000x2_1_0_0_1 x i u) : (⟨S64x2, .f32⟩ : BufTy).Contents (Elt F) → (⟨S50000x1, .i32⟩ : BufTy).Contents (Elt F) → (⟨S50000x2, .f32⟩ : BufTy).Contents (Elt F) → (⟨S64x2, .f32⟩ : BufTy).Contents (Elt F)),
    StableHlo.nullary main_cst_81 (constant S_ .f32 0x3F800000#32),
    StableHlo.unary main_cst_81 main_v476 (broadcastInDim S64 ![] bcast_S_S64 : (⟨S_, .f32⟩ : BufTy).Contents (Elt F) → (⟨S64, .f32⟩ : BufTy).Contents (Elt F)),
    StableHlo.binary main_v472 main_v476 main_v477 (maximumf : (⟨S64, .f32⟩ : BufTy).Contents (Elt F) → (⟨S64, .f32⟩ : BufTy).Contents (Elt F) → (⟨S64, .f32⟩ : BufTy).Contents (Elt F)),
    StableHlo.unary main_v477 main_v478 (broadcastInDim S64x1 ![0] bcast_S64_S64x1_0 : (⟨S64, .f32⟩ : BufTy).Contents (Elt F) → (⟨S64x1, .f32⟩ : BufTy).Contents (Elt F)),
    StableHlo.unary main_v478 main_v479 (broadcastInDim S64x2 ![0, 1] bcast_S64x1_S64x2_0_1 : (⟨S64x1, .f32⟩ : BufTy).Contents (Elt F) → (⟨S64x2, .f32⟩ : BufTy).Contents (Elt F)),
    StableHlo.binary main_v475 main_v479 main_v480 (Host.divf : (⟨S64x2, .f32⟩ : BufTy).Contents (Elt F) → (⟨S64x2, .f32⟩ : BufTy).Contents (Elt F) → (⟨S64x2, .f32⟩ : BufTy).Contents (Elt F)) ]

/-- @main's operations in order: the seven layers, then the pooling. -/
abbrev ops : List (HloOp τ sig (Elt F)) :=
  opsL0 ++ opsL1 ++ opsL2 ++ opsL3 ++ opsL4 ++ opsL5 ++ opsL6 ++ opsTail

end Cert.GIN.Ref

end
-- ==== Proof.RefWin.lean ====
/- The reference program's @main is the straight line of its operations: shown window by window (the printed `main_partK`,
   sixty statements each, a call's operations in its place), the windows' lists then regrouped into the layers' lists. -/
import proofs.«177653_j8959301779747_1_alg».proof.Proof.RefOps

set_option synthInstance.maxSize 4096

noncomputable section

namespace Cert.GIN.Ref

open Cert.ReferenceIdeal Cert.ReferenceIdeal.Gen Idealize.ShloMosaic Idealize.ShloMosaic.TcCoe Idealize.SL.Sem Idealize.ShloMosaic.StableHlo

variable {F : FTy → Type} [FloatOps F]

/-- The operations of @main's window 0 (statements 1 … 60), a call's operations in its place. -/
abbrev opsW0 : List (HloOp τ sig (Elt F)) :=
  [ StableHlo.unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v0 main_v1 rfl shapeCasts_S1x800000_S800000,
    StableHlo.unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v2 main_v3 rfl shapeCasts_S1x800000_S800000,
    StableHlo.nullary main_c (constantI S_ 32 0#32),
    StableHlo.unary main_c main_v4 (broadcastInDim S800000 ![] bcast_S_S800000 : (⟨S_, .i32⟩ : BufTy).Contents (Elt F) → (⟨S800000, .i32⟩ : BufTy).Contents (Elt F)),
    StableHlo.binary main_v1 main_v4 main_v5 (cmpi .slt : (⟨S800000, .i32⟩ : BufTy).Contents (Elt F) → (⟨S800000, .i32⟩ : BufTy).Contents (Elt F) → (⟨S800000, .i1⟩ : BufTy).Contents (Elt F)),
    StableHlo.nullary main_c_0 (constantI S_ 32 50000#32),
    StableHlo.unary main_c_0 main_v6 (broadcastInDim S800000 ![] bcast_S_S800000 : (⟨S_, .i32⟩ : BufTy).Contents (Elt F) → (⟨S800000, .i32⟩ : BufTy).Contents (Elt F)),
    StableHlo.binary main_v1 main_v6 main_v7 (addi : (⟨S800000, .i32⟩ : BufTy).Contents (Elt F) → (⟨S800000, .i32⟩ : BufTy).Contents (Elt F) → (⟨S800000, .i32⟩ : BufTy).Contents (Elt F)),
    StableHlo.ternary main_v5 main_v7 main_v1 main_v8 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v8 main_v9 (broadcastInDim S800000x1 ![0] bcast_S800000_S800000x1_0 : (⟨S800000, .i32⟩ : BufTy).Contents (Elt F) → (⟨S800000x1, .i32⟩ : BufTy).Contents (Elt F)),
    StableHlo.binary main_arg0 main_v9 main_v10 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst (constant S_ .f32 0x00000000#32),
    StableHlo.unary main_cst main_v11 (broadcastInDim S50000x128 ![] bcast_S_S50000x128 : (⟨S_, .f32⟩ : BufTy).Contents (Elt F) → (⟨S50000x128, .f32⟩ : BufTy).Contents (Elt F)),
    StableHlo.unary main_v3 main_v12 (broadcastInDim S800000x1 ![0] bcast_S800000_S800000x1_0 : (⟨S800000, .i32⟩ : BufTy).Contents (Elt F) → (⟨S800000x1, .i32⟩ : BufTy).Contents (Elt F)),
    StableHlo.ternary main_v11 main_v12 main_v10 main_v13 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.unary main_arg11 main_v14 ((extractStridedSlice S1 ![0] · slices_S7_S1_0) : (⟨S7, .f32⟩ : BufTy).Contents (Elt F) → (⟨S1, .f32⟩ : BufTy).Contents (Elt F)),
    StableHlo.reshape main_v14 main_v15 rfl shapeCasts_S1_S_,
    StableHlo.nullary main_cst_1 (constant S_ .f32 0x3F800000#32),
    StableHlo.binary main_cst_1 main_v15 main_v16 (addf : (⟨S_, .f32⟩ : BufTy).Contents (Elt F) → (⟨S_, .f32⟩ : BufTy).Contents (Elt F) → (⟨S_, .f32⟩ : BufTy).Contents (Elt F)),
    StableHlo.unary main_v16 main_v17 (broadcastInDim S50000x128 ![] bcast_S_S50000x128 : (⟨S_, .f32⟩ : BufTy).Contents (Elt F) → (⟨S50000x128, .f32⟩ : BufTy).Contents (Elt F)),
    StableHlo.binary main_v17 main_arg0 main_v18 (mulf : (⟨S50000x128, .f32⟩ : BufTy).Contents (Elt F) → (⟨S50000x128, .f32⟩ : BufTy).Contents (Elt F) → (⟨S50000x128, .f32⟩ : BufTy).Contents (Elt F)),
    StableHlo.binary main_v18 main_v13 main_v19 (addf : (⟨S50000x128, .f32⟩ : BufTy).Contents (Elt F) → (⟨S50000x128, .f32⟩ : BufTy).Contents (Elt F) → (⟨S50000x128, .f32⟩ : BufTy).Contents (Elt F)),
    StableHlo.unary main_arg4 main_v20 ((extractStridedSlice S1x128x64 ![0, 0, 0] · slices_S7x128x64_S1x128x64_0_0_0) : (⟨S7x128x64, .f32⟩ : BufTy).Contents (Elt F) → (⟨S1x128x64, .f32⟩ : BufTy).Contents (Elt F)),
    StableHlo.reshape main_v20 main_v21 rfl shapeCasts_S1x128x64_S128x64,
    StableHlo.binary main_v19 main_v21 main_v22 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    StableHlo.unary main_arg5 main_v23 ((extractStridedSlice S1x64 ![0, 0] · slices_S7x64_S1x64_0_0) : (⟨S7x64, .f32⟩ : BufTy).Contents (Elt F) → (⟨S1x64, .f32⟩ : BufTy).Contents (Elt F)),
    StableHlo.reshape main_v23 main_v24 rfl shapeCasts_S1x64_S64,
    StableHlo.unary main_arg6 main_v25 ((extractStridedSlice S1x64 ![0, 0] · slices_S7x64_S1x64_0_0) : (⟨S7x64, .f32⟩ : BufTy).Contents (Elt F) → (⟨S1x64, .f32⟩ : BufTy).Contents (Elt F)),
    StableHlo.reshape main_v25 main_v26 rfl shapeCasts_S1x64_S64,
    StableHlo.nullary main_cst_2 (constant S_ .f32 0x00000000#32),
    StableHlo.binary main_v22 main_cst_2 main_v27 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    StableHlo.nullary main_cst_3 (constant S_ .f32 0x47435000#32),
    StableHlo.unary main_cst_3 main_v28 (broadcastInDim S64 ![] bcast_S_S64 : (⟨S_, .f32⟩ : BufTy).Contents (Elt F) → (⟨S64, .f32⟩ : BufTy).Contents (Elt F)),
    StableHlo.binary main_v27 main_v28 main_v29 (Host.divf : (⟨S64, .f32⟩ : BufTy).Contents (Elt F) → (⟨S64, .f32⟩ : BufTy).Contents (Elt F) → (⟨S64, .f32⟩ : BufTy).Contents (Elt F)),
    StableHlo.nullary main_c_4 (constantI S_ 32 0#32),
    StableHlo.TRef.nullary main_call0.cst (constant S_ .f32 0x00000000#32),
    StableHlo.TRef.binary (.of main_v22 : StableHlo.TRef sig ⟨S50000x64, .f32⟩) main_call0.cst main_call0.v0 (fun x v => Host.reduceAdd x v reducesTo_S50000x64_S64_d0 h_S_),
    StableHlo.TRef.unary main_call0.v0 main_call0.v1 (broadcastInDim S1x64 ![1] bcast_S64_S1x64_1),
    StableHlo.TRef.nullary main_call0.cst_0 (constant S_ .f32 0x47435000#32),
    StableHlo.TRef.unary main_call0.cst_0 main_call0.v2 (broadcastInDim S1x64 ![] bcast_S_S1x64),
    StableHlo.TRef.binary main_call0.v1 main_call0.v2 main_call0.v3 Host.divf,
    StableHlo.TRef.unary main_call0.v3 main_call0.v4 (broadcastInDim S50000x64 ![0, 1] bcast_S1x64_S50000x64_0_1),
    StableHlo.TRef.binary (.of main_v22 : StableHlo.TRef sig ⟨S50000x64, .f32⟩) main_call0.v4 main_call0.v5 subf,
    StableHlo.TRef.binary main_call0.v5 main_call0.v5 main_call0.v6 mulf,
    StableHlo.TRef.unary (.of main_c_4 : StableHlo.TRef sig ⟨S_, .i32⟩) main_call0.v7 (sitofp .f32),
    StableHlo.TRef.nullary main_call0.cst_1 (constant S_ .f32 0x47435000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S50000x64_S64_d0 h_S_),
    StableHlo.TRef.unary main_call0.v8 main_call0.v10 (broadcastInDim S64 ![] bcast_S_S64),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S64 ![] bcast_S_S64),
    StableHlo.TRef.ternary main_call0.v12 main_call0.v11 main_call0.call0.v1 main_call0.call0.v2 (fun p a b => select (broadcastInDim S64 ![] bcast_S_S64 p) a b),
    StableHlo.unary main_v29 main_v31 (broadcastInDim S1x64 ![1] bcast_S64_S1x64_1 : (⟨S64, .f32⟩ : BufTy).Contents (Elt F) → (⟨S1x64, .f32⟩ : BufTy).Contents (Elt F)),
    StableHlo.unary main_v31 main_v32 (broadcastInDim S50000x64 ![0, 1] bcast_S1x64_S50000x64_0_1 : (⟨S1x64, .f32⟩ : BufTy).Contents (Elt F) → (⟨S50000x64, .f32⟩ : BufTy).Contents (Elt F)),
    StableHlo.binary main_v22 main_v32 main_v33 (subf : (⟨S50000x64, .f32⟩ : BufTy).Contents (Elt F) → (⟨S50000x64, .f32⟩ : BufTy).Contents (Elt F) → (⟨S50000x64, .f32⟩ : BufTy).Contents (Elt F)),
    StableHlo.unary main_v24 main_v34 (broadcastInDim S1x64 ![1] bcast_S64_S1x64_1 : (⟨S64, .f32⟩ : BufTy).Contents (Elt F) → (⟨S1x64, .f32⟩ : BufTy).Contents (Elt F)),
    StableHlo.unary main_v34 main_v35 (broadcastInDim S50000x64 ![0, 1] bcast_S1x64_S50000x64_0_1 : (⟨S1x64, .f32⟩ : BufTy).Contents (Elt F) → (⟨S50000x64, .f32⟩ : BufTy).Contents (Elt F)),
    StableHlo.binary main_v35 main_v33 main_v36 (mulf : (⟨S50000x64, .f32⟩ : BufTy).Contents (Elt F) → (⟨S50000x64, .f32⟩ : BufTy).Contents (Elt F) → (⟨S50000x64, .f32⟩ : BufTy).Contents (Elt F)),
    StableHlo.nullary main_cst_5 (constant S_ .f32 0x3727C5AC#32),
    StableHlo.unary main_cst_5 main_v37 (broadcastInDim S64 ![] bcast_S_S64 : (⟨S_, .f32⟩ : BufTy).Contents (Elt F) → (⟨S64, .f32⟩ : BufTy).Contents (Elt F)),
    StableHlo.binary main_v30 main_v37 main_v38 (addf : (⟨S64, .f32⟩ : BufTy).Contents (Elt F) → (⟨S64, .f32⟩ : BufTy).Contents (Elt F) → (⟨S64, .f32⟩ : BufTy).Contents (Elt F)),
    StableHlo.unary main_v38 main_v39 (Host.rsqrt : (⟨S64, .f32⟩ : BufTy).Contents (Elt F) → (⟨S64, .f32⟩ : BufTy).Contents (Elt F)),
    StableHlo.unary main_v39 main_v40 (broadcastInDim S1x64 ![1] bcast_S64_S1x64_1 : (⟨S64, .f32⟩ : BufTy).Contents (Elt F) → (⟨S1x64, .f32⟩ : BufTy).Contents (Elt F)),
    StableHlo.unary main_v40 main_v41 (broadcastInDim S50000x64 ![0, 1] bcast_S1x64_S50000x64_0_1 : (⟨S1x64, .f32⟩ : BufTy).Contents (Elt F) → (⟨S50000x64, .f32⟩ : BufTy).Contents (Elt F)),
    StableHlo.binary main_v36 main_v41 main_v42 (mulf : (⟨S50000x64, .f32⟩ : BufTy).Contents (Elt F) → (⟨S50000x64, .f32⟩ : BufTy).Contents (Elt F) → (⟨S50000x64, .f32⟩ : BufTy).Contents (Elt F)),
    StableHlo.unary main_v26 main_v43 (broadcastInDim S1x64 ![1] bcast_S64_S1x64_1 : (⟨S64, .f32⟩ : BufTy).Contents (Elt F) → (⟨S1x64, .f32⟩ : BufTy).Contents (Elt F)),
    StableHlo.unary main_v43 main_v44 (broadcastInDim S50000x64 ![0, 1] bcast_S1x64_S50000x64_0_1 : (⟨S1x64, .f32⟩ : BufTy).Contents (Elt F) → (⟨S50000x64, .f32⟩ : BufTy).Contents (Elt F)),
    StableHlo.binary main_v42 main_v44 main_v45 (addf : (⟨S50000x64, .f32⟩ : BufTy).Contents (Elt F) → (⟨S50000x64, .f32⟩ : BufTy).Contents (Elt F) → (⟨S50000x64, .f32⟩ : BufTy).Contents (Elt F)),
    StableHlo.TRef.nullary main_call1.cst (constant S_ .f32 0x00000000#32),
    StableHlo.TRef.unary main_call1.cst main_call1.v0 (broadcastInDim S50000x64 ![] bcast_S_S50000x64),
    StableHlo.TRef.binary (.of main_v45 : StableHlo.TRef sig ⟨S50000x64, .f32⟩) main_call1.v0 main_call1.v1 maximumf,
    StableHlo.unary main_arg7 main_v47 ((extractStridedSlice S1x64x128 ![0, 0, 0] · slices_S6x64x128_S1x64x128_0_0_0) : (⟨S6x64x128, .f32⟩ : BufTy).Contents (Elt F) → (⟨S1x64x128, .f32⟩ : BufTy).Contents (Elt F)),
    StableHlo.reshape main_v47 main_v48 rfl shapeCasts_S1x64x128_S64x128,
    StableHlo.binary main_v46 main_v48 main_v49 ((fun l r => Host.dotGeneral dot_S50000x64_S64x128_S50000x128_1_0_0_1_n_n none l r) : (⟨S50000x64, .f32⟩ : BufTy).Contents (Elt F) → (⟨S64x128, .f32⟩ : BufTy).Contents (Elt F) → (⟨S50000x128, .f32⟩ : BufTy).Contents (Elt F)),
    StableHlo.unary main_arg8 main_v50 ((extractStridedSlice S1x128 ![0, 0] · slices_S6x128_S1x128_0_0) : (⟨S6x128, .f32⟩ : BufTy).Contents (Elt F) → (⟨S1x128, .f32⟩ : BufTy).Contents (Elt F)),
    StableHlo.reshape main_v50 main_v51 rfl shapeCasts_S1x128_S128 ]

set_option maxRecDepth 8192 in
set_option maxHeartbeats 4000000 in
/-- Window 0 is its operations run in order: the called functions' bodies unfold at their calls, and both sides are one chain of steps. -/
theorem main_part0_eq (c : Dev nD) : main_part0 (F := F) c = seq opsW0 := rfl

/-- The operations of @main's window 1 (statements 61 … 120), a call's operations in its place. -/
abbrev opsW1 : List (HloOp τ sig (Elt F)) :=
  [ StableHlo.unary main_arg9 main_v52 ((extractStridedSlice S1x128 ![0, 0] · slices_S6x128_S1x128_0_0) : (⟨S6x128, .f32⟩ : BufTy).Contents (Elt F) → (⟨S1x128, .f32⟩ : BufTy).Contents (Elt F)),
    StableHlo.reshape main_v52 main_v53 rfl shapeCasts_S1x128_S128,
    StableHlo.nullary main_cst_6 (constant S_ .f32 0x00000000#32),
    StableHlo.binary main_v49 main_cst_6 main_v54 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_7 (constant S_ .f32 0x47435000#32),
    StableHlo.unary main_cst_7 main_v55 (broadcastInDim S128 ![] bcast_S_S128 : (⟨S_, .f32⟩ : BufTy).Contents (Elt F) → (⟨S128, .f32⟩ : BufTy).Contents (Elt F)),
    StableHlo.binary main_v54 main_v55 main_v56 (Host.divf : (⟨S128, .f32⟩ : BufTy).Contents (Elt F) → (⟨S128, .f32⟩ : BufTy).Contents (Elt F) → (⟨S128, .f32⟩ : BufTy).Contents (Elt F)),
    StableHlo.nullary main_c_8 (constantI S_ 32 0#32),
    StableHlo.TRef.nullary main_call2.cst (constant S_ .f32 0x00000000#32),
    StableHlo.TRef.binary (.of main_v49 : StableHlo.TRef sig ⟨S50000x128, .f32⟩) main_call2.cst main_call2.v0 (fun x v => Host.reduceAdd x v reducesTo_S50000x128_S128_d0 h_S_),
    StableHlo.TRef.unary main_call2.v0 main_call2.v1 (broadcastInDim S1x128 ![1] bcast_S128_S1x128_1),
    StableHlo.TRef.nullary main_call2.cst_0 (constant S_ .f32 0x47435000#32),
    StableHlo.TRef.unary main_call2.cst_0 main_call2.v2 (broadcastInDim S1x128 ![] bcast_S_S1x128),
    StableHlo.TRef.binary main_call2.v1 main_call2.v2 main_call2.v3 Host.divf,
    StableHlo.TRef.unary main_call2.v3 main_call2.v4 (broadcastInDim S50000x128 ![0, 1] bcast_S1x128_S50000x128_0_1),
    StableHlo.TRef.binary (.of main_v49 : StableHlo.TRef sig ⟨S50000x128, .f32⟩) main_call2.v4 main_call2.v5 subf,
    StableHlo.TRef.binary main_call2.v5 main_call2.v5 main_call2.v6 mulf,
    StableHlo.TRef.unary (.of main_c_8 : StableHlo.TRef sig ⟨S_, .i32⟩) main_call2.v7 (sitofp .f32),
    StableHlo.TRef.nullary main_call2.cst_1 (constant S_ .f32 0x47435000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S50000x128_S128_d0 h_S_),
    StableHlo.TRef.unary main_call2.v8 main_call2.v10 (broadcastInDim S128 ![] bcast_S_S128),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S128 ![] bcast_S_S128),
    StableHlo.TRef.ternary main_call2.v12 main_call2.v11 main_call2.call0.v1 main_call2.call0.v2 (fun p a b => select (broadcastInDim S128 ![] bcast_S_S128 p) a b),
    StableHlo.unary main_v56 main_v58 (broadcastInDim S1x128 ![1] bcast_S128_S1x128_1 : (⟨S128, .f32⟩ : BufTy).Contents (Elt F) → (⟨S1x128, .f32⟩ : BufTy).Contents (Elt F)),
    StableHlo.unary main_v58 main_v59 (broadcastInDim S50000x128 ![0, 1] bcast_S1x128_S50000x128_0_1 : (⟨S1x128, .f32⟩ : BufTy).Contents (Elt F) → (⟨S50000x128, .f32⟩ : BufTy).Contents (Elt F)),
    StableHlo.binary main_v49 main_v59 main_v60 (subf : (⟨S50000x128, .f32⟩ : BufTy).Contents (Elt F) → (⟨S50000x128, .f32⟩ : BufTy).Contents (Elt F) → (⟨S50000x128, .f32⟩ : BufTy).Contents (Elt F)),
    StableHlo.unary main_v51 main_v61 (broadcastInDim S1x128 ![1] bcast_S128_S1x128_1 : (⟨S128, .f32⟩ : BufTy).Contents (Elt F) → (⟨S1x128, .f32⟩ : BufTy).Contents (Elt F)),
    StableHlo.unary main_v61 main_v62 (broadcastInDim S50000x128 ![0, 1] bcast_S1x128_S50000x128_0_1 : (⟨S1x128, .f32⟩ : BufTy).Contents (Elt F) → (⟨S50000x128, .f32⟩ : BufTy).Contents (Elt F)),
    StableHlo.binary main_v62 main_v60 main_v63 (mulf : (⟨S50000x128, .f32⟩ : BufTy).Contents (Elt F) → (⟨S50000x128, .f32⟩ : BufTy).Contents (Elt F) → (⟨S50000x128, .f32⟩ : BufTy).Contents (Elt F)),
    StableHlo.nullary main_cst_9 (constant S_ .f32 0x3727C5AC#32),
    StableHlo.unary main_cst_9 main_v64 (broadcastInDim S128 ![] bcast_S_S128 : (⟨S_, .f32⟩ : BufTy).Contents (Elt F) → (⟨S128, .f32⟩ : BufTy).Contents (Elt F)),
    StableHlo.binary main_v57 main_v64 main_v65 (addf : (⟨S128, .f32⟩ : BufTy).Contents (Elt F) → (⟨S128, .f32⟩ : BufTy).Contents (Elt F) → (⟨S128, .f32⟩ : BufTy).Contents (Elt F)),
    StableHlo.unary main_v65 main_v66 (Host.rsqrt : (⟨S128, .f32⟩ : BufTy).Contents (Elt F) → (⟨S128, .f32⟩ : BufTy).Contents (Elt F)),
    StableHlo.unary main_v66 main_v67 (broadcastInDim S1x128 ![1] bcast_S128_S1x128_1 : (⟨S128, .f32⟩ : BufTy).Contents (Elt F) → (⟨S1x128, .f32⟩ : BufTy).Contents (Elt F)),
    StableHlo.unary main_v67 main_v68 (broadcastInDim S50000x128 ![0, 1] bcast_S1x128_S50000x128_0_1 : (⟨S1x128, .f32⟩ : BufTy).Contents (Elt F) → (⟨S50000x128, .f32⟩ : BufTy).Contents (Elt F)),
    StableHlo.binary main_v63 main_v68 main_v69 (mulf : (⟨S50000x128, .f32⟩ : BufTy).Contents (Elt F) → (⟨S50000x128, .f32⟩ : BufTy).Contents (Elt F) → (⟨S50000x128, .f32⟩ : BufTy).Contents (Elt F)),
    StableHlo.unary main_v53 main_v70 (broadcastInDim S1x128 ![1] bcast_S128_S1x128_1 : (⟨S128, .f32⟩ : BufTy).Contents (Elt F) → (⟨S1x128, .f32⟩ : BufTy).Contents (Elt F)),
    StableHlo.unary main_v70 main_v71 (broadcastInDim S50000x128 ![0, 1] bcast_S1x128_S50000x128_0_1 : (⟨S1x128, .f32⟩ : BufTy).Contents (Elt F) → (⟨S50000x128, .f32⟩ : BufTy).Contents (Elt F)),
    StableHlo.binary main_v69 main_v71 main_v72 (addf : (⟨S50000x128, .f32⟩ : BufTy).Contents (Elt F) → (⟨S50000x128, .f32⟩ : BufTy).Contents (Elt F) → (⟨S50000x128, .f32⟩ : BufTy).Contents (Elt F)),
    StableHlo.TRef.nullary main_call3.cst (constant S_ .f32 0x00000000#32),
    StableHlo.TRef.unary main_call3.cst main_call3.v0 (broadcastInDim S50000x128 ![] bcast_S_S50000x128),
    StableHlo.TRef.binary (.of main_v72 : StableHlo.TRef sig ⟨S50000x128, .f32⟩) main_call3.v0 main_call3.v1 maximumf,
    StableHlo.nullary main_c_10 (constantI S_ 32 0#32),
    StableHlo.unary main_c_10 main_v74 (broadcastInDim S800000 ![] bcast_S_S800000 : (⟨S_, .i32⟩ : BufTy).Contents (Elt F) → (⟨S800000, .i32⟩ : BufTy).Contents (Elt F)),
    StableHlo.binary main_v1 main_v74 main_v75 (cmpi .slt : (⟨S800000, .i32⟩ : BufTy).Contents (Elt F) → (⟨S800000, .i32⟩ : BufTy).Contents (Elt F) → (⟨S800000, .i1⟩ : BufTy).Contents (Elt F)),
    StableHlo.nullary main_c_11 (constantI S_ 32 50000#32),
    StableHlo.unary main_c_11 main_v76 (broadcastInDim S800000 ![] bcast_S_S800000 : (⟨S_, .i32⟩ : BufTy).Contents (Elt F) → (⟨S800000, .i32⟩ : BufTy).Contents (Elt F)),
    StableHlo.binary main_v1 main_v76 main_v77 (addi : (⟨S800000, .i32⟩ : BufTy).Contents (Elt F) → (⟨S800000, .i32⟩ : BufTy).Contents (Elt F) → (⟨S800000, .i32⟩ : BufTy).Contents (Elt F)),
    StableHlo.ternary main_v75 main_v77 main_v1 main_v78 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v78 main_v79 (broadcastInDim S800000x1 ![0] bcast_S800000_S800000x1_0 : (⟨S800000, .i32⟩ : BufTy).Contents (Elt F) → (⟨S800000x1, .i32⟩ : BufTy).Contents (Elt F)),
    StableHlo.binary main_v73 main_v79 main_v80 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_12 (constant S_ .f32 0x00000000#32),
    StableHlo.unary main_cst_12 main_v81 (broadcastInDim S50000x128 ![] bcast_S_S50000x128 : (⟨S_, .f32⟩ : BufTy).Contents (Elt F) → (⟨S50000x128, .f32⟩ : BufTy).Contents (Elt F)),
    StableHlo.unary main_v3 main_v82 (broadcastInDim S800000x1 ![0] bcast_S800000_S800000x1_0 : (⟨S800000, .i32⟩ : BufTy).Contents (Elt F) → (⟨S800000x1, .i32⟩ : BufTy).Contents (Elt F)),
    StableHlo.ternary main_v81 main_v82 main_v80 main_v83 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.unary main_arg11 main_v84 ((extractStridedSlice S1 ![1] · slices_S7_S1_1) : (⟨S7, .f32⟩ : BufTy).Contents (Elt F) → (⟨S1, .f32⟩ : BufTy).Contents (Elt F)),
    StableHlo.reshape main_v84 main_v85 rfl shapeCasts_S1_S_,
    StableHlo.nullary main_cst_13 (constant S_ .f32 0x3F800000#32),
    StableHlo.binary main_cst_13 main_v85 main_v86 (addf : (⟨S_, .f32⟩ : BufTy).Contents (Elt F) → (⟨S_, .f32⟩ : BufTy).Contents (Elt F) → (⟨S_, .f32⟩ : BufTy).Contents (Elt F)),
    StableHlo.unary main_v86 main_v87 (broadcastInDim S50000x128 ![] bcast_S_S50000x128 : (⟨S_, .f32⟩ : BufTy).Contents (Elt F) → (⟨S50000x128, .f32⟩ : BufTy).Contents (Elt F)),
    StableHlo.binary main_v87 main_v73 main_v88 (mulf : (⟨S50000x128, .f32⟩ : BufTy).Contents (Elt F) → (⟨S50000x128, .f32⟩ : BufTy).Contents (Elt F) → (⟨S50000x128, .f32⟩ : BufTy).Contents (Elt F)),
    StableHlo.binary main_v88 main_v83 main_v89 (addf : (⟨S50000x128, .f32⟩ : BufTy).Contents (Elt F) → (⟨S50000x128, .f32⟩ : BufTy).Contents (Elt F) → (⟨S50000x128, .f32⟩ : BufTy).Contents (Elt F)),
    StableHlo.unary main_arg4 main_v90 ((extractStridedSlice S1x128x64 ![1, 0, 0] · slices_S7x128x64_S1x128x64_1_0_0) : (⟨S7x128x64, .f32⟩ : BufTy).Contents (Elt F) → (⟨S1x128x64, .f32⟩ : BufTy).Contents (Elt F)),
    StableHlo.reshape main_v90 main_v91 rfl shapeCasts_S1x128x64_S128x64,
    StableHlo.binary main_v89 main_v91 main_v92 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    StableHlo.unary main_arg5 main_v93 ((extractStridedSlice S1x64 ![1, 0] · slices_S7x64_S1x64_1_0) : (⟨S7x64, .f32⟩ : BufTy).Contents (Elt F) → (⟨S1x64, .f32⟩ : BufTy).Contents (Elt F)),
    StableHlo.reshape main_v93 main_v94 rfl shapeCasts_S1x64_S64,
    StableHlo.unary main_arg6 main_v95 ((extractStridedSlice S1x64 ![1, 0] · slices_S7x64_S1x64_1_0) : (⟨S7x64, .f32⟩ : BufTy).Contents (Elt F) → (⟨S1x64, .f32⟩ : BufTy).Contents (Elt F)),
    StableHlo.reshape main_v95 main_v96 rfl shapeCasts_S1x64_S64,
    StableHlo.nullary main_cst_14 (constant S_ .f32 0x00000000#32),
    StableHlo.binary main_v92 main_cst_14 main_v97 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    StableHlo.nullary main_cst_15 (constant S_ .f32 0x47435000#32),
    StableHlo.unary main_cst_15 main_v98 (broadcastInDim S64 ![] bcast_S_S64 : (⟨S_, .f32⟩ : BufTy).Contents (Elt F) → (⟨S64, .f32⟩ : BufTy).Contents (Elt F)),
    StableHlo.binary main_v97 main_v98 main_v99 (Host.divf : (⟨S64, .f32⟩ : BufTy).Contents (Elt F) → (⟨S64, .f32⟩ : BufTy).Contents (Elt F) → (⟨S64, .f32⟩ : BufTy).Contents (Elt F)),
    StableHlo.nullary main_c_16 (constantI S_ 32 0#32),
    StableHlo.TRef.nullary main_call4.cst (constant S_ .f32 0x00000000#32),
    StableHlo.TRef.binary (.of main_v92 : StableHlo.TRef sig ⟨S50000x64, .f32⟩) main_call4.cst main_call4.v0 (fun x v => Host.reduceAdd x v reducesTo_S50000x64_S64_d0 h_S_),
    StableHlo.TRef.unary main_call4.v0 main_call4.v1 (broadcastInDim S1x64 ![1] bcast_S64_S1x64_1),
    StableHlo.TRef.nullary main_call4.cst_0 (constant S_ .f32 0x47435000#32),
    StableHlo.TRef.unary main_call4.cst_0 main_call4.v2 (broadcastInDim S1x64 ![] bcast_S_S1x64),
    StableHlo.TRef.binary main_call4.v1 main_call4.v2 main_call4.v3 Host.divf,
    StableHlo.TRef.unary main_call4.v3 main_call4.v4 (broadcastInDim S50000x64 ![0, 1] bcast_S1x64_S50000x64_0_1),
    StableHlo.TRef.binary (.of main_v92 : StableHlo.TRef sig ⟨S50000x64, .f32⟩) main_call4.v4 main_call4.v5 subf,
    StableHlo.TRef.binary main_call4.v5 main_call4.v5 main_call4.v6 mulf,
    StableHlo.TRef.unary (.of main_c_16 : StableHlo.TRef sig ⟨S_, .i32⟩) main_call4.v7 (sitofp .f32),
    StableHlo.TRef.nullary main_call4.cst_1 (constant S_ .f32 0x47435000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S50000x64_S64_d0 h_S_),
    StableHlo.TRef.unary main_call4.v8 main_call4.v10 (broadcastInDim S64 ![] bcast_S_S64),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S64 ![] bcast_S_S64),
    StableHlo.TRef.ternary main_call4.v12 main_call4.v11 main_call4.call0.v1 main_call4.call0.v2 (fun p a b => select (broadcastInDim S64 ![] bcast_S_S64 p) a b) ]

set_option maxRecDepth 8192 in
set_option maxHeartbeats 4000000 in
/-- Window 1 is its operations run in order: the called functions' bodies unfold at their calls, and both sides are one chain of steps. -/
theorem main_part1_eq (c : Dev nD) : main_part1 (F := F) c = seq opsW1 := rfl

/-- The operations of @main's window 2 (statements 121 … 180), a call's operations in its place. -/
abbrev opsW2 : List (HloOp τ sig (Elt F)) :=
  [ StableHlo.unary main_v99 main_v101 (broadcastInDim S1x64 ![1] bcast_S64_S1x64_1 : (⟨S64, .f32⟩ : BufTy).Contents (Elt F) → (⟨S1x64, .f32⟩ : BufTy).Contents (Elt F)),
    StableHlo.unary main_v101 main_v102 (broadcastInDim S50000x64 ![0, 1] bcast_S1x64_S50000x64_0_1 : (⟨S1x64, .f32⟩ : BufTy).Contents (Elt F) → (⟨S50000x64, .f32⟩ : BufTy).Contents (Elt F)),
    StableHlo.binary main_v92 main_v102 main_v103 (subf : (⟨S50000x64, .f32⟩ : BufTy).Contents (Elt F) → (⟨S50000x64, .f32⟩ : BufTy).Contents (Elt F) → (⟨S50000x64, .f32⟩ : BufTy).Contents (Elt F)),
    StableHlo.unary main_v94 main_v104 (broadcastInDim S1x64 ![1] bcast_S64_S1x64_1 : (⟨S64, .f32⟩ : BufTy).Contents (Elt F) → (⟨S1x64, .f32⟩ : BufTy).Contents (Elt F)),
    StableHlo.unary main_v104 main_v105 (broadcastInDim S50000x64 ![0, 1] bcast_S1x64_S50000x64_0_1 : (⟨S1x64, .f32⟩ : BufTy).Contents (Elt F) → (⟨S50000x64, .f32⟩ : BufTy).Contents (Elt F)),
    StableHlo.binary main_v105 main_v103 main_v106 (mulf : (⟨S50000x64, .f32⟩ : BufTy).Contents (Elt F) → (⟨S50000x64, .f32⟩ : BufTy).Contents (Elt F) → (⟨S50000x64, .f32⟩ : BufTy).Contents (Elt F)),
    StableHlo.nullary main_cst_17 (constant S_ .f32 0x3727C5AC#32),
    StableHlo.unary main_cst_17 main_v107 (broadcastInDim S64 ![] bcast_S_S64 : (⟨S_, .f32⟩ : BufTy).Contents (Elt F) → (⟨S64, .f32⟩ : BufTy).Contents (Elt F)),
    StableHlo.binary main_v100 main_v107 main_v108 (addf : (⟨S64, .f32⟩ : BufTy).Contents (Elt F) → (⟨S64, .f32⟩ : BufTy).Contents (Elt F) → (⟨S64, .f32⟩ : BufTy).Contents (Elt F)),
    StableHlo.unary main_v108 main_v109 (Host.rsqrt : (⟨S64, .f32⟩ : BufTy).Contents (Elt F) → (⟨S64, .f32⟩ : BufTy).Contents (Elt F)),
    StableHlo.unary main_v109 main_v110 (broadcastInDim S1x64 ![1] bcast_S64_S1x64_1 : (⟨S64, .f32⟩ : BufTy).Contents (Elt F) → (⟨S1x64, .f32⟩ : BufTy).Contents (Elt F)),
    StableHlo.unary main_v110 main_v111 (broadcastInDim S50000x64 ![0, 1] bcast_S1x64_S50000x64_0_1 : (⟨S1x64, .f32⟩ : BufTy).Contents (Elt F) → (⟨S50000x64, .f32⟩ : BufTy).Contents (Elt F)),
    StableHlo.binary main_v106 main_v111 main_v112 (mulf : (⟨S50000x64, .f32⟩ : BufTy).Contents (Elt F) → (⟨S50000x64, .f32⟩ : BufTy).Contents (Elt F) → (⟨S50000x64, .f32⟩ : BufTy).Contents (Elt F)),
    StableHlo.unary main_v96 main_v113 (broadcastInDim S1x64 ![1] bcast_S64_S1x64_1 : (⟨S64, .f32⟩ : BufTy).Contents (Elt F) → (⟨S1x64, .f32⟩ : BufTy).Contents (Elt F)),
    StableHlo.unary main_v113 main_v114 (broadcastInDim S50000x64 ![0, 1] bcast_S1x64_S50000x64_0_1 : (⟨S1x64, .f32⟩ : BufTy).Contents (Elt F) → (⟨S50000x64, .f32⟩ : BufTy).Contents (Elt F)),
    StableHlo.binary main_v112 main_v114 main_v115 (addf : (⟨S50000x64, .f32⟩ : BufTy).Contents (Elt F) → (⟨S50000x64, .f32⟩ : BufTy).Contents (Elt F) → (⟨S50000x64, .f32⟩ : BufTy).Contents (Elt F)),
    StableHlo.TRef.nullary main_call5.cst (constant S_ .f32 0x00000000#32),
    StableHlo.TRef.unary main_call5.cst main_call5.v0 (broadcastInDim S50000x64 ![] bcast_S_S50000x64),
    StableHlo.TRef.binary (.of main_v115 : StableHlo.TRef sig ⟨S50000x64, .f32⟩) main_call5.v0 main_call5.v1 maximumf,
    StableHlo.unary main_arg7 main_v117 ((extractStridedSlice S1x64x128 ![1, 0, 0] · slices_S6x64x128_S1x64x128_1_0_0) : (⟨S6x64x128, .f32⟩ : BufTy).Contents (Elt F) → (⟨S1x64x128, .f32⟩ : BufTy).Contents (Elt F)),
    StableHlo.reshape main_v117 main_v118 rfl shapeCasts_S1x64x128_S64x128,
    StableHlo.binary main_v116 main_v118 main_v119 ((fun l r => Host.dotGeneral dot_S50000x64_S64x128_S50000x128_1_0_0_1_n_n none l r) : (⟨S50000x64, .f32⟩ : BufTy).Contents (Elt F) → (⟨S64x128, .f32⟩ : BufTy).Contents (Elt F) → (⟨S50000x128, .f32⟩ : BufTy).Contents (Elt F)),
    StableHlo.unary main_arg8 main_v120 ((extractStridedSlice S1x128 ![1, 0] · slices_S6x128_S1x128_1_0) : (⟨S6x128, .f32⟩ : BufTy).Contents (Elt F) → (⟨S1x128, .f32⟩ : BufTy).Contents (Elt F)),
    StableHlo.reshape main_v120 main_v121 rfl shapeCasts_S1x128_S128,
    StableHlo.unary main_arg9 main_v122 ((extractStridedSlice S1x128 ![1, 0] · slices_S6x128_S1x128_1_0) : (⟨S6x128, .f32⟩ : BufTy).Contents (Elt F) → (⟨S1x128, .f32⟩ : BufTy).Contents (Elt F)),
    StableHlo.reshape main_v122 main_v123 rfl shapeCasts_S1x128_S128,
    StableHlo.nullary main_cst_18 (constant S_ .f32 0x00000000#32),
    StableHlo.binary main_v119 main_cst_18 main_v124 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_19 (constant S_ .f32 0x47435000#32),
    StableHlo.unary main_cst_19 main_v125 (broadcastInDim S128 ![] bcast_S_S128 : (⟨S_, .f32⟩ : BufTy).Contents (Elt F) → (⟨S128, .f32⟩ : BufTy).Contents (Elt F)),
    StableHlo.binary main_v124 main_v125 main_v126 (Host.divf : (⟨S128, .f32⟩ : BufTy).Contents (Elt F) → (⟨S128, .f32⟩ : BufTy).Contents (Elt F) → (⟨S128, .f32⟩ : BufTy).Contents (Elt F)),
    StableHlo.nullary main_c_20 (constantI S_ 32 0#32),
    StableHlo.TRef.nullary main_call6.cst (constant S_ .f32 0x00000000#32),
    StableHlo.TRef.binary (.of main_v119 : StableHlo.TRef sig ⟨S50000x128, .f32⟩) main_call6.cst main_call6.v0 (fun x v => Host.reduceAdd x v reducesTo_S50000x128_S128_d0 h_S_),
    StableHlo.TRef.unary main_call6.v0 main_call6.v1 (broadcastInDim S1x128 ![1] bcast_S128_S1x128_1),
    StableHlo.TRef.nullary main_call6.cst_0 (constant S_ .f32 0x47435000#32),
    StableHlo.TRef.unary main_call6.cst_0 main_call6.v2 (broadcastInDim S1x128 ![] bcast_S_S1x128),
    StableHlo.TRef.binary main_call6.v1 main_call6.v2 main_call6.v3 Host.divf,
    StableHlo.TRef.unary main_call6.v3 main_call6.v4 (broadcastInDim S50000x128 ![0, 1] bcast_S1x128_S50000x128_0_1),
    StableHlo.TRef.binary (.of main_v119 : StableHlo.TRef sig ⟨S50000x128, .f32⟩) main_call6.v4 main_call6.v5 subf,
    StableHlo.TRef.binary main_call6.v5 main_call6.v5 main_call6.v6 mulf,
    StableHlo.TRef.unary (.of main_c_20 : StableHlo.TRef sig ⟨S_, .i32⟩) main_call6.v7 (sitofp .f32),
    StableHlo.TRef.nullary main_call6.cst_1 (constant S_ .f32 0x47435000#32),
    StableHlo.TRef.binary main_call6.cst_1 main_call6.v7 main_call6.v8 subf,
    StableHlo.TRef.nullary main_call6.cst_2 (constant S_ .f32 0x00000000#32),
    StableHlo.TRef.binary main_call6.v6 main_call6.cst_2 main_call6.v9 (fun x v => Host.reduceAdd x v reducesTo_S50000x128_S128_d0 h_S_),
    StableHlo.TRef.unary main_call6.v8 main_call6.v10 (broadcastInDim S128 ![] bcast_S_S128),
    StableHlo.TRef.binary main_call6.v9 main_call6.v10 main_call6.v11 Host.divf,
    StableHlo.TRef.nullary main_call6.cst_3 (constant S_ .f32 0x00000000#32),
    StableHlo.TRef.binary main_call6.v8 main_call6.cst_3 main_call6.v12 (cmpf .ogt),
    StableHlo.TRef.nullary main_call6.cst_4 (constant S_ .f32 0x7FC00000#32),
    StableHlo.TRef.unary main_call6.cst_4 main_call6.call0.v0 id,
    StableHlo.TRef.unary main_call6.call0.v0 main_call6.call0.v1 (broadcastInDim S128 ![] bcast_S_S128),
    StableHlo.TRef.ternary main_call6.v12 main_call6.v11 main_call6.call0.v1 main_call6.call0.v2 (fun p a b => select (broadcastInDim S128 ![] bcast_S_S128 p) a b),
    StableHlo.unary main_v126 main_v128 (broadcastInDim S1x128 ![1] bcast_S128_S1x128_1 : (⟨S128, .f32⟩ : BufTy).Contents (Elt F) → (⟨S1x128, .f32⟩ : BufTy).Contents (Elt F)),
    StableHlo.unary main_v128 main_v129 (broadcastInDim S50000x128 ![0, 1] bcast_S1x128_S50000x128_0_1 : (⟨S1x128, .f32⟩ : BufTy).Contents (Elt F) → (⟨S50000x128, .f32⟩ : BufTy).Contents (Elt F)),
    StableHlo.binary main_v119 main_v129 main_v130 (subf : (⟨S50000x128, .f32⟩ : BufTy).Contents (Elt F) → (⟨S50000x128, .f32⟩ : BufTy).Contents (Elt F) → (⟨S50000x128, .f32⟩ : BufTy).Contents (Elt F)),
    StableHlo.unary main_v121 main_v131 (broadcastInDim S1x128 ![1] bcast_S128_S1x128_1 : (⟨S128, .f32⟩ : BufTy).Contents (Elt F) → (⟨S1x128, .f32⟩ : BufTy).Contents (Elt F)),
    StableHlo.unary main_v131 main_v132 (broadcastInDim S50000x128 ![0, 1] bcast_S1x128_S50000x128_0_1 : (⟨S1x128, .f32⟩ : BufTy).Contents (Elt F) → (⟨S50000x128, .f32⟩ : BufTy).Contents (Elt F)),
    StableHlo.binary main_v132 main_v130 main_v133 (mulf : (⟨S50000x128, .f32⟩ : BufTy).Contents (Elt F) → (⟨S50000x128, .f32⟩ : BufTy).Contents (Elt F) → (⟨S50000x128, .f32⟩ : BufTy).Contents (Elt F)),
    StableHlo.nullary main_cst_21 (constant S_ .f32 0x3727C5AC#32),
    StableHlo.unary main_cst_21 main_v134 (broadcastInDim S128 ![] bcast_S_S128 : (⟨S_, .f32⟩ : BufTy).Contents (Elt F) → (⟨S128, .f32⟩ : BufTy).Contents (Elt F)),
    StableHlo.binary main_v127 main_v134 main_v135 (addf : (⟨S128, .f32⟩ : BufTy).Contents (Elt F) → (⟨S128, .f32⟩ : BufTy).Contents (Elt F) → (⟨S128, .f32⟩ : BufTy).Contents (Elt F)),
    StableHlo.unary main_v135 main_v136 (Host.rsqrt : (⟨S128, .f32⟩ : BufTy).Contents (Elt F) → (⟨S128, .f32⟩ : BufTy).Contents (Elt F)),
    StableHlo.unary main_v136 main_v137 (broadcastInDim S1x128 ![1] bcast_S128_S1x128_1 : (⟨S128, .f32⟩ : BufTy).Contents (Elt F) → (⟨S1x128, .f32⟩ : BufTy).Contents (Elt F)),
    StableHlo.unary main_v137 main_v138 (broadcastInDim S50000x128 ![0, 1] bcast_S1x128_S50000x128_0_1 : (⟨S1x128, .f32⟩ : BufTy).Contents (Elt F) → (⟨S50000x128, .f32⟩ : BufTy).Contents (Elt F)),
    StableHlo.binary main_v133 main_v138 main_v139 (mulf : (⟨S50000x128, .f32⟩ : BufTy).Contents (Elt F) → (⟨S50000x128, .f32⟩ : BufTy).Contents (Elt F) → (⟨S50000x128, .f32⟩ : BufTy).Contents (Elt F)),
    StableHlo.unary main_v123 main_v140 (broadcastInDim S1x128 ![1] bcast_S128_S1x128_1 : (⟨S128, .f32⟩ : BufTy).Contents (Elt F) → (⟨S1x128, .f32⟩ : BufTy).Contents (Elt F)),
    StableHlo.unary main_v140 main_v141 (broadcastInDim S50000x128 ![0, 1] bcast_S1x128_S50000x128_0_1 : (⟨S1x128, .f32⟩ : BufTy).Contents (Elt F) → (⟨S50000x128, .f32⟩ : BufTy).Contents (Elt F)),
    StableHlo.binary main_v139 main_v141 main_v142 (addf : (⟨S50000x128, .f32⟩ : BufTy).Contents (Elt F) → (⟨S50000x128, .f32⟩ : BufTy).Contents (Elt F) → (⟨S50000x128, .f32⟩ : BufTy).Contents (Elt F)),
    StableHlo.TRef.nullary main_call7.cst (constant S_ .f32 0x00000000#32),
    StableHlo.TRef.unary main_call7.cst main_call7.v0 (broadcastInDim S50000x128 ![] bcast_S_S50000x128),
    StableHlo.TRef.binary (.of main_v142 : StableHlo.TRef sig ⟨S50000x128, .f32⟩) main_call7.v0 main_call7.v1 maximumf,
    StableHlo.nullary main_c_22 (constantI S_ 32 0#32),
    StableHlo.unary main_c_22 main_v144 (broadcastInDim S800000 ![] bcast_S_S800000 : (⟨S_, .i32⟩ : BufTy).Contents (Elt F) → (⟨S800000, .i32⟩ : BufTy).Contents (Elt F)),
    StableHlo.binary main_v1 main_v144 main_v145 (cmpi .slt : (⟨S800000, .i32⟩ : BufTy).Contents (Elt F) → (⟨S800000, .i32⟩ : BufTy).Contents (Elt F) → (⟨S800000, .i1⟩ : BufTy).Contents (Elt F)),
    StableHlo.nullary main_c_23 (constantI S_ 32 50000#32),
    StableHlo.unary main_c_23 main_v146 (broadcastInDim S800000 ![] bcast_S_S800000 : (⟨S_, .i32⟩ : BufTy).Contents (Elt F) → (⟨S800000, .i32⟩ : BufTy).Contents (Elt F)),
    StableHlo.binary main_v1 main_v146 main_v147 (addi : (⟨S800000, .i32⟩ : BufTy).Contents (Elt F) → (⟨S800000, .i32⟩ : BufTy).Contents (Elt F) → (⟨S800000, .i32⟩ : BufTy).Contents (Elt F)),
    StableHlo.ternary main_v145 main_v147 main_v1 main_v148 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v148 main_v149 (broadcastInDim S800000x1 ![0] bcast_S800000_S800000x1_0 : (⟨S800000, .i32⟩ : BufTy).Contents (Elt F) → (⟨S800000x1, .i32⟩ : BufTy).Contents (Elt F)),
    StableHlo.binary main_v143 main_v149 main_v150 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_24 (constant S_ .f32 0x00000000#32),
    StableHlo.unary main_cst_24 main_v151 (broadcastInDim S50000x128 ![] bcast_S_S50000x128 : (⟨S_, .f32⟩ : BufTy).Contents (Elt F) → (⟨S50000x128, .f32⟩ : BufTy).Contents (Elt F)),
    StableHlo.unary main_v3 main_v152 (broadcastInDim S800000x1 ![0] bcast_S800000_S800000x1_0 : (⟨S800000, .i32⟩ : BufTy).Contents (Elt F) → (⟨S800000x1, .i32⟩ : BufTy).Contents (Elt F)) ]

set_option maxRecDepth 8192 in
set_option maxHeartbeats 4000000 in
/-- Window 2 is its operations run in order: the called functions' bodies unfold at their calls, and both sides are one chain of steps. -/
theorem main_part2_eq (c : Dev nD) : main_part2 (F := F) c = seq opsW2 := rfl

/-- The operations of @main's window 3 (statements 181 … 240), a call's operations in its place. -/
abbrev opsW3 : List (HloOp τ sig (Elt F)) :=
  [ StableHlo.ternary main_v151 main_v152 main_v150 main_v153 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.unary main_arg11 main_v154 ((extractStridedSlice S1 ![2] · slices_S7_S1_2) : (⟨S7, .f32⟩ : BufTy).Contents (Elt F) → (⟨S1, .f32⟩ : BufTy).Contents (Elt F)),
    StableHlo.reshape main_v154 main_v155 rfl shapeCasts_S1_S_,
    StableHlo.nullary main_cst_25 (constant S_ .f32 0x3F800000#32),
    StableHlo.binary main_cst_25 main_v155 main_v156 (addf : (⟨S_, .f32⟩ : BufTy).Contents (Elt F) → (⟨S_, .f32⟩ : BufTy).Contents (Elt F) → (⟨S_, .f32⟩ : BufTy).Contents (Elt F)),
    StableHlo.unary main_v156 main_v157 (broadcastInDim S50000x128 ![] bcast_S_S50000x128 : (⟨S_, .f32⟩ : BufTy).Contents (Elt F) → (⟨S50000x128, .f32⟩ : BufTy).Contents (Elt F)),
    StableHlo.binary main_v157 main_v143 main_v158 (mulf : (⟨S50000x128, .f32⟩ : BufTy).Contents (Elt F) → (⟨S50000x128, .f32⟩ : BufTy).Contents (Elt F) → (⟨S50000x128, .f32⟩ : BufTy).Contents (Elt F)),
    StableHlo.binary main_v158 main_v153 main_v159 (addf : (⟨S50000x128, .f32⟩ : BufTy).Contents (Elt F) → (⟨S50000x128, .f32⟩ : BufTy).Contents (Elt F) → (⟨S50000x128, .f32⟩ : BufTy).Contents (Elt F)),
    StableHlo.unary main_arg4 main_v160 ((extractStridedSlice S1x128x64 ![2, 0, 0] · slices_S7x128x64_S1x128x64_2_0_0) : (⟨S7x128x64, .f32⟩ : BufTy).Contents (Elt F) → (⟨S1x128x64, .f32⟩ : BufTy).Contents (Elt F)),
    StableHlo.reshape main_v160 main_v161 rfl shapeCasts_S1x128x64_S128x64,
    StableHlo.binary main_v159 main_v161 main_v162 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    StableHlo.unary main_arg5 main_v163 ((extractStridedSlice S1x64 ![2, 0] · slices_S7x64_S1x64_2_0) : (⟨S7x64, .f32⟩ : BufTy).Contents (Elt F) → (⟨S1x64, .f32⟩ : BufTy).Contents (Elt F)),
    StableHlo.reshape main_v163 main_v164 rfl shapeCasts_S1x64_S64,
    StableHlo.unary main_arg6 main_v165 ((extractStridedSlice S1x64 ![2, 0] · slices_S7x64_S1x64_2_0) : (⟨S7x64, .f32⟩ : BufTy).Contents (Elt F) → (⟨S1x64, .f32⟩ : BufTy).Contents (Elt F)),
    StableHlo.reshape main_v165 main_v166 rfl shapeCasts_S1x64_S64,
    StableHlo.nullary main_cst_26 (constant S_ .f32 0x00000000#32),
    StableHlo.binary main_v162 main_cst_26 main_v167 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    StableHlo.nullary main_cst_27 (constant S_ .f32 0x47435000#32),
    StableHlo.unary main_cst_27 main_v168 (broadcastInDim S64 ![] bcast_S_S64 : (⟨S_, .f32⟩ : BufTy).Contents (Elt F) → (⟨S64, .f32⟩ : BufTy).Contents (Elt F)),
    StableHlo.binary main_v167 main_v168 main_v169 (Host.divf : (⟨S64, .f32⟩ : BufTy).Contents (Elt F) → (⟨S64, .f32⟩ : BufTy).Contents (Elt F) → (⟨S64, .f32⟩ : BufTy).Contents (Elt F)),
    StableHlo.nullary main_c_28 (constantI S_ 32 0#32),
    StableHlo.TRef.nullary main_call8.cst (constant S_ .f32 0x00000000#32),
    StableHlo.TRef.binary (.of main_v162 : StableHlo.TRef sig ⟨S50000x64, .f32⟩) main_call8.cst main_call8.v0 (fun x v => Host.reduceAdd x v reducesTo_S50000x64_S64_d0 h_S_),
    StableHlo.TRef.unary main_call8.v0 main_call8.v1 (broadcastInDim S1x64 ![1] bcast_S64_S1x64_1),
    StableHlo.TRef.nullary main_call8.cst_0 (constant S_ .f32 0x47435000#32),
    StableHlo.TRef.unary main_call8.cst_0 main_call8.v2 (broadcastInDim S1x64 ![] bcast_S_S1x64),
    StableHlo.TRef.binary main_call8.v1 main_call8.v2 main_call8.v3 Host.divf,
    StableHlo.TRef.unary main_call8.v3 main_call8.v4 (broadcastInDim S50000x64 ![0, 1] bcast_S1x64_S50000x64_0_1),
    StableHlo.TRef.binary (.of main_v162 : StableHlo.TRef sig ⟨S50000x64, .f32⟩) main_call8.v4 main_call8.v5 subf,
    StableHlo.TRef.binary main_call8.v5 main_call8.v5 main_call8.v6 mulf,
    StableHlo.TRef.unary (.of main_c_28 : StableHlo.TRef sig ⟨S_, .i32⟩) main_call8.v7 (sitofp .f32),
    StableHlo.TRef.nullary main_call8.cst_1 (constant S_ .f32 0x47435000#32),
    StableHlo.TRef.binary main_call8.cst_1 main_call8.v7 main_call8.v8 subf,
    StableHlo.TRef.nullary main_call8.cst_2 (constant S_ .f32 0x00000000#32),
    StableHlo.TRef.binary main_call8.v6 main_call8.cst_2 main_call8.v9 (fun x v => Host.reduceAdd x v reducesTo_S50000x64_S64_d0 h_S_),
    StableHlo.TRef.unary main_call8.v8 main_call8.v10 (broadcastInDim S64 ![] bcast_S_S64),
    StableHlo.TRef.binary main_call8.v9 main_call8.v10 main_call8.v11 Host.divf,
    StableHlo.TRef.nullary main_call8.cst_3 (constant S_ .f32 0x00000000#32),
    StableHlo.TRef.binary main_call8.v8 main_call8.cst_3 main_call8.v12 (cmpf .ogt),
    StableHlo.TRef.nullary main_call8.cst_4 (constant S_ .f32 0x7FC00000#32),
    StableHlo.TRef.unary main_call8.cst_4 main_call8.call0.v0 id,
    StableHlo.TRef.unary main_call8.call0.v0 main_call8.call0.v1 (broadcastInDim S64 ![] bcast_S_S64),
    StableHlo.TRef.ternary main_call8.v12 main_call8.v11 main_call8.call0.v1 main_call8.call0.v2 (fun p a b => select (broadcastInDim S64 ![] bcast_S_S64 p) a b),
    StableHlo.unary main_v169 main_v171 (broadcastInDim S1x64 ![1] bcast_S64_S1x64_1 : (⟨S64, .f32⟩ : BufTy).Contents (Elt F) → (⟨S1x64, .f32⟩ : BufTy).Contents (Elt F)),
    StableHlo.unary main_v171 main_v172 (broadcastInDim S50000x64 ![0, 1] bcast_S1x64_S50000x64_0_1 : (⟨S1x64, .f32⟩ : BufTy).Contents (Elt F) → (⟨S50000x64, .f32⟩ : BufTy).Contents (Elt F)),
    StableHlo.binary main_v162 main_v172 main_v173 (subf : (⟨S50000x64, .f32⟩ : BufTy).Contents (Elt F) → (⟨S50000x64, .f32⟩ : BufTy).Contents (Elt F) → (⟨S50000x64, .f32⟩ : BufTy).Contents (Elt F)),
    StableHlo.unary main_v164 main_v174 (broadcastInDim S1x64 ![1] bcast_S64_S1x64_1 : (⟨S64, .f32⟩ : BufTy).Contents (Elt F) → (⟨S1x64, .f32⟩ : BufTy).Contents (Elt F)),
    StableHlo.unary main_v174 main_v175 (broadcastInDim S50000x64 ![0, 1] bcast_S1x64_S50000x64_0_1 : (⟨S1x64, .f32⟩ : BufTy).Contents (Elt F) → (⟨S50000x64, .f32⟩ : BufTy).Contents (Elt F)),
    StableHlo.binary main_v175 main_v173 main_v176 (mulf : (⟨S50000x64, .f32⟩ : BufTy).Contents (Elt F) → (⟨S50000x64, .f32⟩ : BufTy).Contents (Elt F) → (⟨S50000x64, .f32⟩ : BufTy).Contents (Elt F)),
    StableHlo.nullary main_cst_29 (constant S_ .f32 0x3727C5AC#32),
    StableHlo.unary main_cst_29 main_v177 (broadcastInDim S64 ![] bcast_S_S64 : (⟨S_, .f32⟩ : BufTy).Contents (Elt F) → (⟨S64, .f32⟩ : BufTy).Contents (Elt F)),
    StableHlo.binary main_v170 main_v177 main_v178 (addf : (⟨S64, .f32⟩ : BufTy).Contents (Elt F) → (⟨S64, .f32⟩ : BufTy).Contents (Elt F) → (⟨S64, .f32⟩ : BufTy).Contents (Elt F)),
    StableHlo.unary main_v178 main_v179 (Host.rsqrt : (⟨S64, .f32⟩ : BufTy).Contents (Elt F) → (⟨S64, .f32⟩ : BufTy).Contents (Elt F)),
    StableHlo.unary main_v179 main_v180 (broadcastInDim S1x64 ![1] bcast_S64_S1x64_1 : (⟨S64, .f32⟩ : BufTy).Contents (Elt F) → (⟨S1x64, .f32⟩ : BufTy).Contents (Elt F)),
    StableHlo.unary main_v180 main_v181 (broadcastInDim S50000x64 ![0, 1] bcast_S1x64_S50000x64_0_1 : (⟨S1x64, .f32⟩ : BufTy).Contents (Elt F) → (⟨S50000x64, .f32⟩ : BufTy).Contents (Elt F)),
    StableHlo.binary main_v176 main_v181 main_v182 (mulf : (⟨S50000x64, .f32⟩ : BufTy).Contents (Elt F) → (⟨S50000x64, .f32⟩ : BufTy).Contents (Elt F) → (⟨S50000x64, .f32⟩ : BufTy).Contents (Elt F)),
    StableHlo.unary main_v166 main_v183 (broadcastInDim S1x64 ![1] bcast_S64_S1x64_1 : (⟨S64, .f32⟩ : BufTy).Contents (Elt F) → (⟨S1x64, .f32⟩ : BufTy).Contents (Elt F)),
    StableHlo.unary main_v183 main_v184 (broadcastInDim S50000x64 ![0, 1] bcast_S1x64_S50000x64_0_1 : (⟨S1x64, .f32⟩ : BufTy).Contents (Elt F) → (⟨S50000x64, .f32⟩ : BufTy).Contents (Elt F)),
    StableHlo.binary main_v182 main_v184 main_v185 (addf : (⟨S50000x64, .f32⟩ : BufTy).Contents (Elt F) → (⟨S50000x64, .f32⟩ : BufTy).Contents (Elt F) → (⟨S50000x64, .f32⟩ : BufTy).Contents (Elt F)),
    StableHlo.TRef.nullary main_call9.cst (constant S_ .f32 0x00000000#32),
    StableHlo.TRef.unary main_call9.cst main_call9.v0 (broadcastInDim S50000x64 ![] bcast_S_S50000x64),
    StableHlo.TRef.binary (.of main_v185 : StableHlo.TRef sig ⟨S50000x64, .f32⟩) main_call9.v0 main_call9.v1 maximumf,
    StableHlo.unary main_arg7 main_v187 ((extractStridedSlice S1x64x128 ![2, 0, 0] · slices_S6x64x128_S1x64x128_2_0_0) : (⟨S6x64x128, .f32⟩ : BufTy).Contents (Elt F) → (⟨S1x64x128, .f32⟩ : BufTy).Contents (Elt F)),
    StableHlo.reshape main_v187 main_v188 rfl shapeCasts_S1x64x128_S64x128,
    StableHlo.binary main_v186 main_v188 main_v189 ((fun l r => Host.dotGeneral dot_S50000x64_S64x128_S50000x128_1_0_0_1_n_n none l r) : (⟨S50000x64, .f32⟩ : BufTy).Contents (Elt F) → (⟨S64x128, .f32⟩ : BufTy).Contents (Elt F) → (⟨S50000x128, .f32⟩ : BufTy).Contents (Elt F)),
    StableHlo.unary main_arg8 main_v190 ((extractStridedSlice S1x128 ![2, 0] · slices_S6x128_S1x128_2_0) : (⟨S6x128, .f32⟩ : BufTy).Contents (Elt F) → (⟨S1x128, .f32⟩ : BufTy).Contents (Elt F)),
    StableHlo.reshape main_v190 main_v191 rfl shapeCasts_S1x128_S128,
    StableHlo.unary main_arg9 main_v192 ((extractStridedSlice S1x128 ![2, 0] · slices_S6x128_S1x128_2_0) : (⟨S6x128, .f32⟩ : BufTy).Contents (Elt F) → (⟨S1x128, .f32⟩ : BufTy).Contents (Elt F)),
    StableHlo.reshape main_v192 main_v193 rfl shapeCasts_S1x128_S128,
    StableHlo.nullary main_cst_30 (constant S_ .f32 0x00000000#32),
    StableHlo.binary main_v189 main_cst_30 main_v194 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_31 (constant S_ .f32 0x47435000#32),
    StableHlo.unary main_cst_31 main_v195 (broadcastInDim S128 ![] bcast_S_S128 : (⟨S_, .f32⟩ : BufTy).Contents (Elt F) → (⟨S128, .f32⟩ : BufTy).Contents (Elt F)),
    StableHlo.binary main_v194 main_v195 main_v196 (Host.divf : (⟨S128, .f32⟩ : BufTy).Contents (Elt F) → (⟨S128, .f32⟩ : BufTy).Contents (Elt F) → (⟨S128, .f32⟩ : BufTy).Contents (Elt F)),
    StableHlo.nullary main_c_32 (constantI S_ 32 0#32),
    StableHlo.TRef.nullary main_call10.cst (constant S_ .f32 0x00000000#32),
    StableHlo.TRef.binary (.of main_v189 : StableHlo.TRef sig ⟨S50000x128, .f32⟩) main_call10.cst main_call10.v0 (fun x v => Host.reduceAdd x v reducesTo_S50000x128_S128_d0 h_S_),
    StableHlo.TRef.unary main_call10.v0 main_call10.v1 (broadcastInDim S1x128 ![1] bcast_S128_S1x128_1),
    StableHlo.TRef.nullary main_call10.cst_0 (constant S_ .f32 0x47435000#32),
    StableHlo.TRef.unary main_call10.cst_0 main_call10.v2 (broadcastInDim S1x128 ![] bcast_S_S1x128),
    StableHlo.TRef.binary main_call10.v1 main_call10.v2 main_call10.v3 Host.divf,
    StableHlo.TRef.unary main_call10.v3 main_call10.v4 (broadcastInDim S50000x128 ![0, 1] bcast_S1x128_S50000x128_0_1),
    StableHlo.TRef.binary (.of main_v189 : StableHlo.TRef sig ⟨S50000x128, .f32⟩) main_call10.v4 main_call10.v5 subf,
    StableHlo.TRef.binary main_call10.v5 main_call10.v5 main_call10.v6 mulf,
    StableHlo.TRef.unary (.of main_c_32 : StableHlo.TRef sig ⟨S_, .i32⟩) main_call10.v7 (sitofp .f32),
    StableHlo.TRef.nullary main_call10.cst_1 (constant S_ .f32 0x47435000#32),
    StableHlo.TRef.binary main_call10.cst_1 main_call10.v7 main_call10.v8 subf,
    StableHlo.TRef.nullary main_call10.cst_2 (constant S_ .f32 0x00000000#32),
    StableHlo.TRef.binary main_call10.v6 main_call10.cst_2 main_call10.v9 (fun x v => Host.reduceAdd x v reducesTo_S50000x128_S128_d0 h_S_),
    StableHlo.TRef.unary main_call10.v8 main_call10.v10 (broadcastInDim S128 ![] bcast_S_S128),
    StableHlo.TRef.binary main_call10.v9 main_call10.v10 main_call10.v11 Host.divf,
    StableHlo.TRef.nullary main_call10.cst_3 (constant S_ .f32 0x00000000#32),
    StableHlo.TRef.binary main_call10.v8 main_call10.cst_3 main_call10.v12 (cmpf .ogt),
    StableHlo.TRef.nullary main_call10.cst_4 (constant S_ .f32 0x7FC00000#32),
    StableHlo.TRef.unary main_call10.cst_4 main_call10.call0.v0 id,
    StableHlo.TRef.unary main_call10.call0.v0 main_call10.call0.v1 (broadcastInDim S128 ![] bcast_S_S128),
    StableHlo.TRef.ternary main_call10.v12 main_call10.v11 main_call10.call0.v1 main_call10.call0.v2 (fun p a b => select (broadcastInDim S128 ![] bcast_S_S128 p) a b),
    StableHlo.unary main_v196 main_v198 (broadcastInDim S1x128 ![1] bcast_S128_S1x128_1 : (⟨S128, .f32⟩ : BufTy).Contents (Elt F) → (⟨S1x128, .f32⟩ : BufTy).Contents (Elt F)),
    StableHlo.unary main_v198 main_v199 (broadcastInDim S50000x128 ![0, 1] bcast_S1x128_S50000x128_0_1 : (⟨S1x128, .f32⟩ : BufTy).Contents (Elt F) → (⟨S50000x128, .f32⟩ : BufTy).Contents (Elt F)),
    StableHlo.binary main_v189 main_v199 main_v200 (subf : (⟨S50000x128, .f32⟩ : BufTy).Contents (Elt F) → (⟨S50000x128, .f32⟩ : BufTy).Contents (Elt F) → (⟨S50000x128, .f32⟩ : BufTy).Contents (Elt F)),
    StableHlo.unary main_v191 main_v201 (broadcastInDim S1x128 ![1] bcast_S128_S1x128_1 : (⟨S128, .f32⟩ : BufTy).Contents (Elt F) → (⟨S1x128, .f32⟩ : BufTy).Contents (Elt F)),
    StableHlo.unary main_v201 main_v202 (broadcastInDim S50000x128 ![0, 1] bcast_S1x128_S50000x128_0_1 : (⟨S1x128, .f32⟩ : BufTy).Contents (Elt F) → (⟨S50000x128, .f32⟩ : BufTy).Contents (Elt F)),
    StableHlo.binary main_v202 main_v200 main_v203 (mulf : (⟨S50000x128, .f32⟩ : BufTy).Contents (Elt F) → (⟨S50000x128, .f32⟩ : BufTy).Contents (Elt F) → (⟨S50000x128, .f32⟩ : BufTy).Contents (Elt F)),
    StableHlo.nullary main_cst_33 (constant S_ .f32 0x3727C5AC#32) ]

set_option maxRecDepth 8192 in
set_option maxHeartbeats 4000000 in
/-- Window 3 is its operations run in order: the called functions' bodies unfold at their calls, and both sides are one chain of steps. -/
theorem main_part3_eq (c : Dev nD) : main_part3 (F := F) c = seq opsW3 := rfl

/-- The operations of @main's window 4 (statements 241 … 300), a call's operations in its place. -/
abbrev opsW4 : List (HloOp τ sig (Elt F)) :=
  [ StableHlo.unary main_cst_33 main_v204 (broadcastInDim S128 ![] bcast_S_S128 : (⟨S_, .f32⟩ : BufTy).Contents (Elt F) → (⟨S128, .f32⟩ : BufTy).Contents (Elt F)),
    StableHlo.binary main_v197 main_v204 main_v205 (addf : (⟨S128, .f32⟩ : BufTy).Contents (Elt F) → (⟨S128, .f32⟩ : BufTy).Contents (Elt F) → (⟨S128, .f32⟩ : BufTy).Contents (Elt F)),
    StableHlo.unary main_v205 main_v206 (Host.rsqrt : (⟨S128, .f32⟩ : BufTy).Contents (Elt F) → (⟨S128, .f32⟩ : BufTy).Contents (Elt F)),
    StableHlo.unary main_v206 main_v207 (broadcastInDim S1x128 ![1] bcast_S128_S1x128_1 : (⟨S128, .f32⟩ : BufTy).Contents (Elt F) → (⟨S1x128, .f32⟩ : BufTy).Contents (Elt F)),
    StableHlo.unary main_v207 main_v208 (broadcastInDim S50000x128 ![0, 1] bcast_S1x128_S50000x128_0_1 : (⟨S1x128, .f32⟩ : BufTy).Contents (Elt F) → (⟨S50000x128, .f32⟩ : BufTy).Contents (Elt F)),
    StableHlo.binary main_v203 main_v208 main_v209 (mulf : (⟨S50000x128, .f32⟩ : BufTy).Contents (Elt F) → (⟨S50000x128, .f32⟩ : BufTy).Contents (Elt F) → (⟨S50000x128, .f32⟩ : BufTy).Contents (Elt F)),
    StableHlo.unary main_v193 main_v210 (broadcastInDim S1x128 ![1] bcast_S128_S1x128_1 : (⟨S128, .f32⟩ : BufTy).Contents (Elt F) → (⟨S1x128, .f32⟩ : BufTy).Contents (Elt F)),
    StableHlo.unary main_v210 main_v211 (broadcastInDim S50000x128 ![0, 1] bcast_S1x128_S50000x128_0_1 : (⟨S1x128, .f32⟩ : BufTy).Contents (Elt F) → (⟨S50000x128, .f32⟩ : BufTy).Contents (Elt F)),
    StableHlo.binary main_v209 main_v211 main_v212 (addf : (⟨S50000x128, .f32⟩ : BufTy).Contents (Elt F) → (⟨S50000x128, .f32⟩ : BufTy).Contents (Elt F) → (⟨S50000x128, .f32⟩ : BufTy).Contents (Elt F)),
    StableHlo.TRef.nullary main_call11.cst (constant S_ .f32 0x00000000#32),
    StableHlo.TRef.unary main_call11.cst main_call11.v0 (broadcastInDim S50000x128 ![] bcast_S_S50000x128),
    StableHlo.TRef.binary (.of main_v212 : StableHlo.TRef sig ⟨S50000x128, .f32⟩) main_call11.v0 main_call11.v1 maximumf,
    StableHlo.nullary main_c_34 (constantI S_ 32 0#32),
    StableHlo.unary main_c_34 main_v214 (broadcastInDim S800000 ![] bcast_S_S800000 : (⟨S_, .i32⟩ : BufTy).Contents (Elt F) → (⟨S800000, .i32⟩ : BufTy).Contents (Elt F)),
    StableHlo.binary main_v1 main_v214 main_v215 (cmpi .slt : (⟨S800000, .i32⟩ : BufTy).Contents (Elt F) → (⟨S800000, .i32⟩ : BufTy).Contents (Elt F) → (⟨S800000, .i1⟩ : BufTy).Contents (Elt F)),
    StableHlo.nullary main_c_35 (constantI S_ 32 50000#32),
    StableHlo.unary main_c_35 main_v216 (broadcastInDim S800000 ![] bcast_S_S800000 : (⟨S_, .i32⟩ : BufTy).Contents (Elt F) → (⟨S800000, .i32⟩ : BufTy).Contents (Elt F)),
    StableHlo.binary main_v1 main_v216 main_v217 (addi : (⟨S800000, .i32⟩ : BufTy).Contents (Elt F) → (⟨S800000, .i32⟩ : BufTy).Contents (Elt F) → (⟨S800000, .i32⟩ : BufTy).Contents (Elt F)),
    StableHlo.ternary main_v215 main_v217 main_v1 main_v218 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v218 main_v219 (broadcastInDim S800000x1 ![0] bcast_S800000_S800000x1_0 : (⟨S800000, .i32⟩ : BufTy).Contents (Elt F) → (⟨S800000x1, .i32⟩ : BufTy).Contents (Elt F)),
    StableHlo.binary main_v213 main_v219 main_v220 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_36 (constant S_ .f32 0x00000000#32),
    StableHlo.unary main_cst_36 main_v221 (broadcastInDim S50000x128 ![] bcast_S_S50000x128 : (⟨S_, .f32⟩ : BufTy).Contents (Elt F) → (⟨S50000x128, .f32⟩ : BufTy).Contents (Elt F)),
    StableHlo.unary main_v3 main_v222 (broadcastInDim S800000x1 ![0] bcast_S800000_S800000x1_0 : (⟨S800000, .i32⟩ : BufTy).Contents (Elt F) → (⟨S800000x1, .i32⟩ : BufTy).Contents (Elt F)),
    StableHlo.ternary main_v221 main_v222 main_v220 main_v223 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.unary main_arg11 main_v224 ((extractStridedSlice S1 ![3] · slices_S7_S1_3) : (⟨S7, .f32⟩ : BufTy).Contents (Elt F) → (⟨S1, .f32⟩ : BufTy).Contents (Elt F)),
    StableHlo.reshape main_v224 main_v225 rfl shapeCasts_S1_S_,
    StableHlo.nullary main_cst_37 (constant S_ .f32 0x3F800000#32),
    StableHlo.binary main_cst_37 main_v225 main_v226 (addf : (⟨S_, .f32⟩ : BufTy).Contents (Elt F) → (⟨S_, .f32⟩ : BufTy).Contents (Elt F) → (⟨S_, .f32⟩ : BufTy).Contents (Elt F)),
    StableHlo.unary main_v226 main_v227 (broadcastInDim S50000x128 ![] bcast_S_S50000x128 : (⟨S_, .f32⟩ : BufTy).Contents (Elt F) → (⟨S50000x128, .f32⟩ : BufTy).Contents (Elt F)),
    StableHlo.binary main_v227 main_v213 main_v228 (mulf : (⟨S50000x128, .f32⟩ : BufTy).Contents (Elt F) → (⟨S50000x128, .f32⟩ : BufTy).Contents (Elt F) → (⟨S50000x128, .f32⟩ : BufTy).Contents (Elt F)),
    StableHlo.binary main_v228 main_v223 main_v229 (addf : (⟨S50000x128, .f32⟩ : BufTy).Contents (Elt F) → (⟨S50000x128, .f32⟩ : BufTy).Contents (Elt F) → (⟨S50000x128, .f32⟩ : BufTy).Contents (Elt F)),
    StableHlo.unary main_arg4 main_v230 ((extractStridedSlice S1x128x64 ![3, 0, 0] · slices_S7x128x64_S1x128x64_3_0_0) : (⟨S7x128x64, .f32⟩ : BufTy).Contents (Elt F) → (⟨S1x128x64, .f32⟩ : BufTy).Contents (Elt F)),
    StableHlo.reshape main_v230 main_v231 rfl shapeCasts_S1x128x64_S128x64,
    StableHlo.binary main_v229 main_v231 main_v232 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    StableHlo.unary main_arg5 main_v233 ((extractStridedSlice S1x64 ![3, 0] · slices_S7x64_S1x64_3_0) : (⟨S7x64, .f32⟩ : BufTy).Contents (Elt F) → (⟨S1x64, .f32⟩ : BufTy).Contents (Elt F)),
    StableHlo.reshape main_v233 main_v234 rfl shapeCasts_S1x64_S64,
    StableHlo.unary main_arg6 main_v235 ((extractStridedSlice S1x64 ![3, 0] · slices_S7x64_S1x64_3_0) : (⟨S7x64, .f32⟩ : BufTy).Contents (Elt F) → (⟨S1x64, .f32⟩ : BufTy).Contents (Elt F)),
    StableHlo.reshape main_v235 main_v236 rfl shapeCasts_S1x64_S64,
    StableHlo.nullary main_cst_38 (constant S_ .f32 0x00000000#32),
    StableHlo.binary main_v232 main_cst_38 main_v237 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    StableHlo.nullary main_cst_39 (constant S_ .f32 0x47435000#32),
    StableHlo.unary main_cst_39 main_v238 (broadcastInDim S64 ![] bcast_S_S64 : (⟨S_, .f32⟩ : BufTy).Contents (Elt F) → (⟨S64, .f32⟩ : BufTy).Contents (Elt F)),
    StableHlo.binary main_v237 main_v238 main_v239 (Host.divf : (⟨S64, .f32⟩ : BufTy).Contents (Elt F) → (⟨S64, .f32⟩ : BufTy).Contents (Elt F) → (⟨S64, .f32⟩ : BufTy).Contents (Elt F)),
    StableHlo.nullary main_c_40 (constantI S_ 32 0#32),
    StableHlo.TRef.nullary main_call12.cst (constant S_ .f32 0x00000000#32),
    StableHlo.TRef.binary (.of main_v232 : StableHlo.TRef sig ⟨S50000x64, .f32⟩) main_call12.cst main_call12.v0 (fun x v => Host.reduceAdd x v reducesTo_S50000x64_S64_d0 h_S_),
    StableHlo.TRef.unary main_call12.v0 main_call12.v1 (broadcastInDim S1x64 ![1] bcast_S64_S1x64_1),
    StableHlo.TRef.nullary main_call12.cst_0 (constant S_ .f32 0x47435000#32),
    StableHlo.TRef.unary main_call12.cst_0 main_call12.v2 (broadcastInDim S1x64 ![] bcast_S_S1x64),
    StableHlo.TRef.binary main_call12.v1 main_call12.v2 main_call12.v3 Host.divf,
    StableHlo.TRef.unary main_call12.v3 main_call12.v4 (broadcastInDim S50000x64 ![0, 1] bcast_S1x64_S50000x64_0_1),
    StableHlo.TRef.binary (.of main_v232 : StableHlo.TRef sig ⟨S50000x64, .f32⟩) main_call12.v4 main_call12.v5 subf,
    StableHlo.TRef.binary main_call12.v5 main_call12.v5 main_call12.v6 mulf,
    StableHlo.TRef.unary (.of main_c_40 : StableHlo.TRef sig ⟨S_, .i32⟩) main_call12.v7 (sitofp .f32),
    StableHlo.TRef.nullary main_call12.cst_1 (constant S_ .f32 0x47435000#32),
    StableHlo.TRef.binary main_call12.cst_1 main_call12.v7 main_call12.v8 subf,
    StableHlo.TRef.nullary main_call12.cst_2 (constant S_ .f32 0x00000000#32),
    StableHlo.TRef.binary main_call12.v6 main_call12.cst_2 main_call12.v9 (fun x v => Host.reduceAdd x v reducesTo_S50000x64_S64_d0 h_S_),
    StableHlo.TRef.unary main_call12.v8 main_call12.v10 (broadcastInDim S64 ![] bcast_S_S64),
    StableHlo.TRef.binary main_call12.v9 main_call12.v10 main_call12.v11 Host.divf,
    StableHlo.TRef.nullary main_call12.cst_3 (constant S_ .f32 0x00000000#32),
    StableHlo.TRef.binary main_call12.v8 main_call12.cst_3 main_call12.v12 (cmpf .ogt),
    StableHlo.TRef.nullary main_call12.cst_4 (constant S_ .f32 0x7FC00000#32),
    StableHlo.TRef.unary main_call12.cst_4 main_call12.call0.v0 id,
    StableHlo.TRef.unary main_call12.call0.v0 main_call12.call0.v1 (broadcastInDim S64 ![] bcast_S_S64),
    StableHlo.TRef.ternary main_call12.v12 main_call12.v11 main_call12.call0.v1 main_call12.call0.v2 (fun p a b => select (broadcastInDim S64 ![] bcast_S_S64 p) a b),
    StableHlo.unary main_v239 main_v241 (broadcastInDim S1x64 ![1] bcast_S64_S1x64_1 : (⟨S64, .f32⟩ : BufTy).Contents (Elt F) → (⟨S1x64, .f32⟩ : BufTy).Contents (Elt F)),
    StableHlo.unary main_v241 main_v242 (broadcastInDim S50000x64 ![0, 1] bcast_S1x64_S50000x64_0_1 : (⟨S1x64, .f32⟩ : BufTy).Contents (Elt F) → (⟨S50000x64, .f32⟩ : BufTy).Contents (Elt F)),
    StableHlo.binary main_v232 main_v242 main_v243 (subf : (⟨S50000x64, .f32⟩ : BufTy).Contents (Elt F) → (⟨S50000x64, .f32⟩ : BufTy).Contents (Elt F) → (⟨S50000x64, .f32⟩ : BufTy).Contents (Elt F)),
    StableHlo.unary main_v234 main_v244 (broadcastInDim S1x64 ![1] bcast_S64_S1x64_1 : (⟨S64, .f32⟩ : BufTy).Contents (Elt F) → (⟨S1x64, .f32⟩ : BufTy).Contents (Elt F)),
    StableHlo.unary main_v244 main_v245 (broadcastInDim S50000x64 ![0, 1] bcast_S1x64_S50000x64_0_1 : (⟨S1x64, .f32⟩ : BufTy).Contents (Elt F) → (⟨S50000x64, .f32⟩ : BufTy).Contents (Elt F)),
    StableHlo.binary main_v245 main_v243 main_v246 (mulf : (⟨S50000x64, .f32⟩ : BufTy).Contents (Elt F) → (⟨S50000x64, .f32⟩ : BufTy).Contents (Elt F) → (⟨S50000x64, .f32⟩ : BufTy).Contents (Elt F)),
    StableHlo.nullary main_cst_41 (constant S_ .f32 0x3727C5AC#32),
    StableHlo.unary main_cst_41 main_v247 (broadcastInDim S64 ![] bcast_S_S64 : (⟨S_, .f32⟩ : BufTy).Contents (Elt F) → (⟨S64, .f32⟩ : BufTy).Contents (Elt F)),
    StableHlo.binary main_v240 main_v247 main_v248 (addf : (⟨S64, .f32⟩ : BufTy).Contents (Elt F) → (⟨S64, .f32⟩ : BufTy).Contents (Elt F) → (⟨S64, .f32⟩ : BufTy).Contents (Elt F)),
    StableHlo.unary main_v248 main_v249 (Host.rsqrt : (⟨S64, .f32⟩ : BufTy).Contents (Elt F) → (⟨S64, .f32⟩ : BufTy).Contents (Elt F)),
    StableHlo.unary main_v249 main_v250 (broadcastInDim S1x64 ![1] bcast_S64_S1x64_1 : (⟨S64, .f32⟩ : BufTy).Contents (Elt F) → (⟨S1x64, .f32⟩ : BufTy).Contents (Elt F)),
    StableHlo.unary main_v250 main_v251 (broadcastInDim S50000x64 ![0, 1] bcast_S1x64_S50000x64_0_1 : (⟨S1x64, .f32⟩ : BufTy).Contents (Elt F) → (⟨S50000x64, .f32⟩ : BufTy).Contents (Elt F)),
    StableHlo.binary main_v246 main_v251 main_v252 (mulf : (⟨S50000x64, .f32⟩ : BufTy).Contents (Elt F) → (⟨S50000x64, .f32⟩ : BufTy).Contents (Elt F) → (⟨S50000x64, .f32⟩ : BufTy).Contents (Elt F)),
    StableHlo.unary main_v236 main_v253 (broadcastInDim S1x64 ![1] bcast_S64_S1x64_1 : (⟨S64, .f32⟩ : BufTy).Contents (Elt F) → (⟨S1x64, .f32⟩ : BufTy).Contents (Elt F)),
    StableHlo.unary main_v253 main_v254 (broadcastInDim S50000x64 ![0, 1] bcast_S1x64_S50000x64_0_1 : (⟨S1x64, .f32⟩ : BufTy).Contents (Elt F) → (⟨S50000x64, .f32⟩ : BufTy).Contents (Elt F)),
    StableHlo.binary main_v252 main_v254 main_v255 (addf : (⟨S50000x64, .f32⟩ : BufTy).Contents (Elt F) → (⟨S50000x64, .f32⟩ : BufTy).Contents (Elt F) → (⟨S50000x64, .f32⟩ : BufTy).Contents (Elt F)) ]

set_option maxRecDepth 8192 in
set_option maxHeartbeats 4000000 in
/-- Window 4 is its operations run in order: the called functions' bodies unfold at their calls, and both sides are one chain of steps. -/
theorem main_part4_eq (c : Dev nD) : main_part4 (F := F) c = seq opsW4 := rfl

/-- The operations of @main's window 5 (statements 301 … 360), a call's operations in its place. -/
abbrev opsW5 : List (HloOp τ sig (Elt F)) :=
  [ StableHlo.TRef.nullary main_call13.cst (constant S_ .f32 0x00000000#32),
    StableHlo.TRef.unary main_call13.cst main_call13.v0 (broadcastInDim S50000x64 ![] bcast_S_S50000x64),
    StableHlo.TRef.binary (.of main_v255 : StableHlo.TRef sig ⟨S50000x64, .f32⟩) main_call13.v0 main_call13.v1 maximumf,
    StableHlo.unary main_arg7 main_v257 ((extractStridedSlice S1x64x128 ![3, 0, 0] · slices_S6x64x128_S1x64x128_3_0_0) : (⟨S6x64x128, .f32⟩ : BufTy).Contents (Elt F) → (⟨S1x64x128, .f32⟩ : BufTy).Contents (Elt F)),
    StableHlo.reshape main_v257 main_v258 rfl shapeCasts_S1x64x128_S64x128,
    StableHlo.binary main_v256 main_v258 main_v259 ((fun l r => Host.dotGeneral dot_S50000x64_S64x128_S50000x128_1_0_0_1_n_n none l r) : (⟨S50000x64, .f32⟩ : BufTy).Contents (Elt F) → (⟨S64x128, .f32⟩ : BufTy).Contents (Elt F) → (⟨S50000x128, .f32⟩ : BufTy).Contents (Elt F)),
    StableHlo.unary main_arg8 main_v260 ((extractStridedSlice S1x128 ![3, 0] · slices_S6x128_S1x128_3_0) : (⟨S6x128, .f32⟩ : BufTy).Contents (Elt F) → (⟨S1x128, .f32⟩ : BufTy).Contents (Elt F)),
    StableHlo.reshape main_v260 main_v261 rfl shapeCasts_S1x128_S128,
    StableHlo.unary main_arg9 main_v262 ((extractStridedSlice S1x128 ![3, 0] · slices_S6x128_S1x128_3_0) : (⟨S6x128, .f32⟩ : BufTy).Contents (Elt F) → (⟨S1x128, .f32⟩ : BufTy).Contents (Elt F)),
    StableHlo.reshape main_v262 main_v263 rfl shapeCasts_S1x128_S128,
    StableHlo.nullary main_cst_42 (constant S_ .f32 0x00000000#32),
    StableHlo.binary main_v259 main_cst_42 main_v264 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_43 (constant S_ .f32 0x47435000#32),
    StableHlo.unary main_cst_43 main_v265 (broadcastInDim S128 ![] bcast_S_S128 : (⟨S_, .f32⟩ : BufTy).Contents (Elt F) → (⟨S128, .f32⟩ : BufTy).Contents (Elt F)),
    StableHlo.binary main_v264 main_v265 main_v266 (Host.divf : (⟨S128, .f32⟩ : BufTy).Contents (Elt F) → (⟨S128, .f32⟩ : BufTy).Contents (Elt F) → (⟨S128, .f32⟩ : BufTy).Contents (Elt F)),
    StableHlo.nullary main_c_44 (constantI S_ 32 0#32),
    StableHlo.TRef.nullary main_call14.cst (constant S_ .f32 0x00000000#32),
    StableHlo.TRef.binary (.of main_v259 : StableHlo.TRef sig ⟨S50000x128, .f32⟩) main_call14.cst main_call14.v0 (fun x v => Host.reduceAdd x v reducesTo_S50000x128_S128_d0 h_S_),
    StableHlo.TRef.unary main_call14.v0 main_call14.v1 (broadcastInDim S1x128 ![1] bcast_S128_S1x128_1),
    StableHlo.TRef.nullary main_call14.cst_0 (constant S_ .f32 0x47435000#32),
    StableHlo.TRef.unary main_call14.cst_0 main_call14.v2 (broadcastInDim S1x128 ![] bcast_S_S1x128),
    StableHlo.TRef.binary main_call14.v1 main_call14.v2 main_call14.v3 Host.divf,
    StableHlo.TRef.unary main_call14.v3 main_call14.v4 (broadcastInDim S50000x128 ![0, 1] bcast_S1x128_S50000x128_0_1),
    StableHlo.TRef.binary (.of main_v259 : StableHlo.TRef sig ⟨S50000x128, .f32⟩) main_call14.v4 main_call14.v5 subf,
    StableHlo.TRef.binary main_call14.v5 main_call14.v5 main_call14.v6 mulf,
    StableHlo.TRef.unary (.of main_c_44 : StableHlo.TRef sig ⟨S_, .i32⟩) main_call14.v7 (sitofp .f32),
    StableHlo.TRef.nullary main_call14.cst_1 (constant S_ .f32 0x47435000#32),
    StableHlo.TRef.binary main_call14.cst_1 main_call14.v7 main_call14.v8 subf,
    StableHlo.TRef.nullary main_call14.cst_2 (constant S_ .f32 0x00000000#32),
    StableHlo.TRef.binary main_call14.v6 main_call14.cst_2 main_call14.v9 (fun x v => Host.reduceAdd x v reducesTo_S50000x128_S128_d0 h_S_),
    StableHlo.TRef.unary main_call14.v8 main_call14.v10 (broadcastInDim S128 ![] bcast_S_S128),
    StableHlo.TRef.binary main_call14.v9 main_call14.v10 main_call14.v11 Host.divf,
    StableHlo.TRef.nullary main_call14.cst_3 (constant S_ .f32 0x00000000#32),
    StableHlo.TRef.binary main_call14.v8 main_call14.cst_3 main_call14.v12 (cmpf .ogt),
    StableHlo.TRef.nullary main_call14.cst_4 (constant S_ .f32 0x7FC00000#32),
    StableHlo.TRef.unary main_call14.cst_4 main_call14.call0.v0 id,
    StableHlo.TRef.unary main_call14.call0.v0 main_call14.call0.v1 (broadcastInDim S128 ![] bcast_S_S128),
    StableHlo.TRef.ternary main_call14.v12 main_call14.v11 main_call14.call0.v1 main_call14.call0.v2 (fun p a b => select (broadcastInDim S128 ![] bcast_S_S128 p) a b),
    StableHlo.unary main_v266 main_v268 (broadcastInDim S1x128 ![1] bcast_S128_S1x128_1 : (⟨S128, .f32⟩ : BufTy).Contents (Elt F) → (⟨S1x128, .f32⟩ : BufTy).Contents (Elt F)),
    StableHlo.unary main_v268 main_v269 (broadcastInDim S50000x128 ![0, 1] bcast_S1x128_S50000x128_0_1 : (⟨S1x128, .f32⟩ : BufTy).Contents (Elt F) → (⟨S50000x128, .f32⟩ : BufTy).Contents (Elt F)),
    StableHlo.binary main_v259 main_v269 main_v270 (subf : (⟨S50000x128, .f32⟩ : BufTy).Contents (Elt F) → (⟨S50000x128, .f32⟩ : BufTy).Contents (Elt F) → (⟨S50000x128, .f32⟩ : BufTy).Contents (Elt F)),
    StableHlo.unary main_v261 main_v271 (broadcastInDim S1x128 ![1] bcast_S128_S1x128_1 : (⟨S128, .f32⟩ : BufTy).Contents (Elt F) → (⟨S1x128, .f32⟩ : BufTy).Contents (Elt F)),
    StableHlo.unary main_v271 main_v272 (broadcastInDim S50000x128 ![0, 1] bcast_S1x128_S50000x128_0_1 : (⟨S1x128, .f32⟩ : BufTy).Contents (Elt F) → (⟨S50000x128, .f32⟩ : BufTy).Contents (Elt F)),
    StableHlo.binary main_v272 main_v270 main_v273 (mulf : (⟨S50000x128, .f32⟩ : BufTy).Contents (Elt F) → (⟨S50000x128, .f32⟩ : BufTy).Contents (Elt F) → (⟨S50000x128, .f32⟩ : BufTy).Contents (Elt F)),
    StableHlo.nullary main_cst_45 (constant S_ .f32 0x3727C5AC#32),
    StableHlo.unary main_cst_45 main_v274 (broadcastInDim S128 ![] bcast_S_S128 : (⟨S_, .f32⟩ : BufTy).Contents (Elt F) → (⟨S128, .f32⟩ : BufTy).Contents (Elt F)),
    StableHlo.binary main_v267 main_v274 main_v275 (addf : (⟨S128, .f32⟩ : BufTy).Contents (Elt F) → (⟨S128, .f32⟩ : BufTy).Contents (Elt F) → (⟨S128, .f32⟩ : BufTy).Contents (Elt F)),
    StableHlo.unary main_v275 main_v276 (Host.rsqrt : (⟨S128, .f32⟩ : BufTy).Contents (Elt F) → (⟨S128, .f32⟩ : BufTy).Contents (Elt F)),
    StableHlo.unary main_v276 main_v277 (broadcastInDim S1x128 ![1] bcast_S128_S1x128_1 : (⟨S128, .f32⟩ : BufTy).Contents (Elt F) → (⟨S1x128, .f32⟩ : BufTy).Contents (Elt F)),
    StableHlo.unary main_v277 main_v278 (broadcastInDim S50000x128 ![0, 1] bcast_S1x128_S50000x128_0_1 : (⟨S1x128, .f32⟩ : BufTy).Contents (Elt F) → (⟨S50000x128, .f32⟩ : BufTy).Contents (Elt F)),
    StableHlo.binary main_v273 main_v278 main_v279 (mulf : (⟨S50000x128, .f32⟩ : BufTy).Contents (Elt F) → (⟨S50000x128, .f32⟩ : BufTy).Contents (Elt F) → (⟨S50000x128, .f32⟩ : BufTy).Contents (Elt F)),
    StableHlo.unary main_v263 main_v280 (broadcastInDim S1x128 ![1] bcast_S128_S1x128_1 : (⟨S128, .f32⟩ : BufTy).Contents (Elt F) → (⟨S1x128, .f32⟩ : BufTy).Contents (Elt F)),
    StableHlo.unary main_v280 main_v281 (broadcastInDim S50000x128 ![0, 1] bcast_S1x128_S50000x128_0_1 : (⟨S1x128, .f32⟩ : BufTy).Contents (Elt F) → (⟨S50000x128, .f32⟩ : BufTy).Contents (Elt F)),
    StableHlo.binary main_v279 main_v281 main_v282 (addf : (⟨S50000x128, .f32⟩ : BufTy).Contents (Elt F) → (⟨S50000x128, .f32⟩ : BufTy).Contents (Elt F) → (⟨S50000x128, .f32⟩ : BufTy).Contents (Elt F)),
    StableHlo.TRef.nullary main_call15.cst (constant S_ .f32 0x00000000#32),
    StableHlo.TRef.unary main_call15.cst main_call15.v0 (broadcastInDim S50000x128 ![] bcast_S_S50000x128),
    StableHlo.TRef.binary (.of main_v282 : StableHlo.TRef sig ⟨S50000x128, .f32⟩) main_call15.v0 main_call15.v1 maximumf,
    StableHlo.nullary main_c_46 (constantI S_ 32 0#32),
    StableHlo.unary main_c_46 main_v284 (broadcastInDim S800000 ![] bcast_S_S800000 : (⟨S_, .i32⟩ : BufTy).Contents (Elt F) → (⟨S800000, .i32⟩ : BufTy).Contents (Elt F)),
    StableHlo.binary main_v1 main_v284 main_v285 (cmpi .slt : (⟨S800000, .i32⟩ : BufTy).Contents (Elt F) → (⟨S800000, .i32⟩ : BufTy).Contents (Elt F) → (⟨S800000, .i1⟩ : BufTy).Contents (Elt F)),
    StableHlo.nullary main_c_47 (constantI S_ 32 50000#32),
    StableHlo.unary main_c_47 main_v286 (broadcastInDim S800000 ![] bcast_S_S800000 : (⟨S_, .i32⟩ : BufTy).Contents (Elt F) → (⟨S800000, .i32⟩ : BufTy).Contents (Elt F)),
    StableHlo.binary main_v1 main_v286 main_v287 (addi : (⟨S800000, .i32⟩ : BufTy).Contents (Elt F) → (⟨S800000, .i32⟩ : BufTy).Contents (Elt F) → (⟨S800000, .i32⟩ : BufTy).Contents (Elt F)),
    StableHlo.ternary main_v285 main_v287 main_v1 main_v288 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v288 main_v289 (broadcastInDim S800000x1 ![0] bcast_S800000_S800000x1_0 : (⟨S800000, .i32⟩ : BufTy).Contents (Elt F) → (⟨S800000x1, .i32⟩ : BufTy).Contents (Elt F)),
    StableHlo.binary main_v283 main_v289 main_v290 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_48 (constant S_ .f32 0x00000000#32),
    StableHlo.unary main_cst_48 main_v291 (broadcastInDim S50000x128 ![] bcast_S_S50000x128 : (⟨S_, .f32⟩ : BufTy).Contents (Elt F) → (⟨S50000x128, .f32⟩ : BufTy).Contents (Elt F)),
    StableHlo.unary main_v3 main_v292 (broadcastInDim S800000x1 ![0] bcast_S800000_S800000x1_0 : (⟨S800000, .i32⟩ : BufTy).Contents (Elt F) → (⟨S800000x1, .i32⟩ : BufTy).Contents (Elt F)),
    StableHlo.ternary main_v291 main_v292 main_v290 main_v293 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.unary main_arg11 main_v294 ((extractStridedSlice S1 ![4] · slices_S7_S1_4) : (⟨S7, .f32⟩ : BufTy).Contents (Elt F) → (⟨S1, .f32⟩ : BufTy).Contents (Elt F)),
    StableHlo.reshape main_v294 main_v295 rfl shapeCasts_S1_S_,
    StableHlo.nullary main_cst_49 (constant S_ .f32 0x3F800000#32),
    StableHlo.binary main_cst_49 main_v295 main_v296 (addf : (⟨S_, .f32⟩ : BufTy).Contents (Elt F) → (⟨S_, .f32⟩ : BufTy).Contents (Elt F) → (⟨S_, .f32⟩ : BufTy).Contents (Elt F)),
    StableHlo.unary main_v296 main_v297 (broadcastInDim S50000x128 ![] bcast_S_S50000x128 : (⟨S_, .f32⟩ : BufTy).Contents (Elt F) → (⟨S50000x128, .f32⟩ : BufTy).Contents (Elt F)),
    StableHlo.binary main_v297 main_v283 main_v298 (mulf : (⟨S50000x128, .f32⟩ : BufTy).Contents (Elt F) → (⟨S50000x128, .f32⟩ : BufTy).Contents (Elt F) → (⟨S50000x128, .f32⟩ : BufTy).Contents (Elt F)),
    StableHlo.binary main_v298 main_v293 main_v299 (addf : (⟨S50000x128, .f32⟩ : BufTy).Contents (Elt F) → (⟨S50000x128, .f32⟩ : BufTy).Contents (Elt F) → (⟨S50000x128, .f32⟩ : BufTy).Contents (Elt F)),
    StableHlo.unary main_arg4 main_v300 ((extractStridedSlice S1x128x64 ![4, 0, 0] · slices_S7x128x64_S1x128x64_4_0_0) : (⟨S7x128x64, .f32⟩ : BufTy).Contents (Elt F) → (⟨S1x128x64, .f32⟩ : BufTy).Contents (Elt F)),
    StableHlo.reshape main_v300 main_v301 rfl shapeCasts_S1x128x64_S128x64,
    StableHlo.binary main_v299 main_v301 main_v302 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    StableHlo.unary main_arg5 main_v303 ((extractStridedSlice S1x64 ![4, 0] · slices_S7x64_S1x64_4_0) : (⟨S7x64, .f32⟩ : BufTy).Contents (Elt F) → (⟨S1x64, .f32⟩ : BufTy).Contents (Elt F)),
    StableHlo.reshape main_v303 main_v304 rfl shapeCasts_S1x64_S64,
    StableHlo.unary main_arg6 main_v305 ((extractStridedSlice S1x64 ![4, 0] · slices_S7x64_S1x64_4_0) : (⟨S7x64, .f32⟩ : BufTy).Contents (Elt F) → (⟨S1x64, .f32⟩ : BufTy).Contents (Elt F)),
    StableHlo.reshape main_v305 main_v306 rfl shapeCasts_S1x64_S64,
    StableHlo.nullary main_cst_50 (constant S_ .f32 0x00000000#32) ]

set_option maxRecDepth 8192 in
set_option maxHeartbeats 4000000 in
/-- Window 5 is its operations run in order: the called functions' bodies unfold at their calls, and both sides are one chain of steps. -/
theorem main_part5_eq (c : Dev nD) : main_part5 (F := F) c = seq opsW5 := rfl

/-- The operations of @main's window 6 (statements 361 … 420), a call's operations in its place. -/
abbrev opsW6 : List (HloOp τ sig (Elt F)) :=
  [ StableHlo.binary main_v302 main_cst_50 main_v307 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    StableHlo.nullary main_cst_51 (constant S_ .f32 0x47435000#32),
    StableHlo.unary main_cst_51 main_v308 (broadcastInDim S64 ![] bcast_S_S64 : (⟨S_, .f32⟩ : BufTy).Contents (Elt F) → (⟨S64, .f32⟩ : BufTy).Contents (Elt F)),
    StableHlo.binary main_v307 main_v308 main_v309 (Host.divf : (⟨S64, .f32⟩ : BufTy).Contents (Elt F) → (⟨S64, .f32⟩ : BufTy).Contents (Elt F) → (⟨S64, .f32⟩ : BufTy).Contents (Elt F)),
    StableHlo.nullary main_c_52 (constantI S_ 32 0#32),
    StableHlo.TRef.nullary main_call16.cst (constant S_ .f32 0x00000000#32),
    StableHlo.TRef.binary (.of main_v302 : StableHlo.TRef sig ⟨S50000x64, .f32⟩) main_call16.cst main_call16.v0 (fun x v => Host.reduceAdd x v reducesTo_S50000x64_S64_d0 h_S_),
    StableHlo.TRef.unary main_call16.v0 main_call16.v1 (broadcastInDim S1x64 ![1] bcast_S64_S1x64_1),
    StableHlo.TRef.nullary main_call16.cst_0 (constant S_ .f32 0x47435000#32),
    StableHlo.TRef.unary main_call16.cst_0 main_call16.v2 (broadcastInDim S1x64 ![] bcast_S_S1x64),
    StableHlo.TRef.binary main_call16.v1 main_call16.v2 main_call16.v3 Host.divf,
    StableHlo.TRef.unary main_call16.v3 main_call16.v4 (broadcastInDim S50000x64 ![0, 1] bcast_S1x64_S50000x64_0_1),
    StableHlo.TRef.binary (.of main_v302 : StableHlo.TRef sig ⟨S50000x64, .f32⟩) main_call16.v4 main_call16.v5 subf,
    StableHlo.TRef.binary main_call16.v5 main_call16.v5 main_call16.v6 mulf,
    StableHlo.TRef.unary (.of main_c_52 : StableHlo.TRef sig ⟨S_, .i32⟩) main_call16.v7 (sitofp .f32),
    StableHlo.TRef.nullary main_call16.cst_1 (constant S_ .f32 0x47435000#32),
    StableHlo.TRef.binary main_call16.cst_1 main_call16.v7 main_call16.v8 subf,
    StableHlo.TRef.nullary main_call16.cst_2 (constant S_ .f32 0x00000000#32),
    StableHlo.TRef.binary main_call16.v6 main_call16.cst_2 main_call16.v9 (fun x v => Host.reduceAdd x v reducesTo_S50000x64_S64_d0 h_S_),
    StableHlo.TRef.unary main_call16.v8 main_call16.v10 (broadcastInDim S64 ![] bcast_S_S64),
    StableHlo.TRef.binary main_call16.v9 main_call16.v10 main_call16.v11 Host.divf,
    StableHlo.TRef.nullary main_call16.cst_3 (constant S_ .f32 0x00000000#32),
    StableHlo.TRef.binary main_call16.v8 main_call16.cst_3 main_call16.v12 (cmpf .ogt),
    StableHlo.TRef.nullary main_call16.cst_4 (constant S_ .f32 0x7FC00000#32),
    StableHlo.TRef.unary main_call16.cst_4 main_call16.call0.v0 id,
    StableHlo.TRef.unary main_call16.call0.v0 main_call16.call0.v1 (broadcastInDim S64 ![] bcast_S_S64),
    StableHlo.TRef.ternary main_call16.v12 main_call16.v11 main_call16.call0.v1 main_call16.call0.v2 (fun p a b => select (broadcastInDim S64 ![] bcast_S_S64 p) a b),
    StableHlo.unary main_v309 main_v311 (broadcastInDim S1x64 ![1] bcast_S64_S1x64_1 : (⟨S64, .f32⟩ : BufTy).Contents (Elt F) → (⟨S1x64, .f32⟩ : BufTy).Contents (Elt F)),
    StableHlo.unary main_v311 main_v312 (broadcastInDim S50000x64 ![0, 1] bcast_S1x64_S50000x64_0_1 : (⟨S1x64, .f32⟩ : BufTy).Contents (Elt F) → (⟨S50000x64, .f32⟩ : BufTy).Contents (Elt F)),
    StableHlo.binary main_v302 main_v312 main_v313 (subf : (⟨S50000x64, .f32⟩ : BufTy).Contents (Elt F) → (⟨S50000x64, .f32⟩ : BufTy).Contents (Elt F) → (⟨S50000x64, .f32⟩ : BufTy).Contents (Elt F)),
    StableHlo.unary main_v304 main_v314 (broadcastInDim S1x64 ![1] bcast_S64_S1x64_1 : (⟨S64, .f32⟩ : BufTy).Contents (Elt F) → (⟨S1x64, .f32⟩ : BufTy).Contents (Elt F)),
    StableHlo.unary main_v314 main_v315 (broadcastInDim S50000x64 ![0, 1] bcast_S1x64_S50000x64_0_1 : (⟨S1x64, .f32⟩ : BufTy).Contents (Elt F) → (⟨S50000x64, .f32⟩ : BufTy).Contents (Elt F)),
    StableHlo.binary main_v315 main_v313 main_v316 (mulf : (⟨S50000x64, .f32⟩ : BufTy).Contents (Elt F) → (⟨S50000x64, .f32⟩ : BufTy).Contents (Elt F) → (⟨S50000x64, .f32⟩ : BufTy).Contents (Elt F)),
    StableHlo.nullary main_cst_53 (constant S_ .f32 0x3727C5AC#32),
    StableHlo.unary main_cst_53 main_v317 (broadcastInDim S64 ![] bcast_S_S64 : (⟨S_, .f32⟩ : BufTy).Contents (Elt F) → (⟨S64, .f32⟩ : BufTy).Contents (Elt F)),
    StableHlo.binary main_v310 main_v317 main_v318 (addf : (⟨S64, .f32⟩ : BufTy).Contents (Elt F) → (⟨S64, .f32⟩ : BufTy).Contents (Elt F) → (⟨S64, .f32⟩ : BufTy).Contents (Elt F)),
    StableHlo.unary main_v318 main_v319 (Host.rsqrt : (⟨S64, .f32⟩ : BufTy).Contents (Elt F) → (⟨S64, .f32⟩ : BufTy).Contents (Elt F)),
    StableHlo.unary main_v319 main_v320 (broadcastInDim S1x64 ![1] bcast_S64_S1x64_1 : (⟨S64, .f32⟩ : BufTy).Contents (Elt F) → (⟨S1x64, .f32⟩ : BufTy).Contents (Elt F)),
    StableHlo.unary main_v320 main_v321 (broadcastInDim S50000x64 ![0, 1] bcast_S1x64_S50000x64_0_1 : (⟨S1x64, .f32⟩ : BufTy).Contents (Elt F) → (⟨S50000x64, .f32⟩ : BufTy).Contents (Elt F)),
    StableHlo.binary main_v316 main_v321 main_v322 (mulf : (⟨S50000x64, .f32⟩ : BufTy).Contents (Elt F) → (⟨S50000x64, .f32⟩ : BufTy).Contents (Elt F) → (⟨S50000x64, .f32⟩ : BufTy).Contents (Elt F)),
    StableHlo.unary main_v306 main_v323 (broadcastInDim S1x64 ![1] bcast_S64_S1x64_1 : (⟨S64, .f32⟩ : BufTy).Contents (Elt F) → (⟨S1x64, .f32⟩ : BufTy).Contents (Elt F)),
    StableHlo.unary main_v323 main_v324 (broadcastInDim S50000x64 ![0, 1] bcast_S1x64_S50000x64_0_1 : (⟨S1x64, .f32⟩ : BufTy).Contents (Elt F) → (⟨S50000x64, .f32⟩ : BufTy).Contents (Elt F)),
    StableHlo.binary main_v322 main_v324 main_v325 (addf : (⟨S50000x64, .f32⟩ : BufTy).Contents (Elt F) → (⟨S50000x64, .f32⟩ : BufTy).Contents (Elt F) → (⟨S50000x64, .f32⟩ : BufTy).Contents (Elt F)),
    StableHlo.TRef.nullary main_call17.cst (constant S_ .f32 0x00000000#32),
    StableHlo.TRef.unary main_call17.cst main_call17.v0 (broadcastInDim S50000x64 ![] bcast_S_S50000x64),
    StableHlo.TRef.binary (.of main_v325 : StableHlo.TRef sig ⟨S50000x64, .f32⟩) main_call17.v0 main_call17.v1 maximumf,
    StableHlo.unary main_arg7 main_v327 ((extractStridedSlice S1x64x128 ![4, 0, 0] · slices_S6x64x128_S1x64x128_4_0_0) : (⟨S6x64x128, .f32⟩ : BufTy).Contents (Elt F) → (⟨S1x64x128, .f32⟩ : BufTy).Contents (Elt F)),
    StableHlo.reshape main_v327 main_v328 rfl shapeCasts_S1x64x128_S64x128,
    StableHlo.binary main_v326 main_v328 main_v329 ((fun l r => Host.dotGeneral dot_S50000x64_S64x128_S50000x128_1_0_0_1_n_n none l r) : (⟨S50000x64, .f32⟩ : BufTy).Contents (Elt F) → (⟨S64x128, .f32⟩ : BufTy).Contents (Elt F) → (⟨S50000x128, .f32⟩ : BufTy).Contents (Elt F)),
    StableHlo.unary main_arg8 main_v330 ((extractStridedSlice S1x128 ![4, 0] · slices_S6x128_S1x128_4_0) : (⟨S6x128, .f32⟩ : BufTy).Contents (Elt F) → (⟨S1x128, .f32⟩ : BufTy).Contents (Elt F)),
    StableHlo.reshape main_v330 main_v331 rfl shapeCasts_S1x128_S128,
    StableHlo.unary main_arg9 main_v332 ((extractStridedSlice S1x128 ![4, 0] · slices_S6x128_S1x128_4_0) : (⟨S6x128, .f32⟩ : BufTy).Contents (Elt F) → (⟨S1x128, .f32⟩ : BufTy).Contents (Elt F)),
    StableHlo.reshape main_v332 main_v333 rfl shapeCasts_S1x128_S128,
    StableHlo.nullary main_cst_54 (constant S_ .f32 0x00000000#32),
    StableHlo.binary main_v329 main_cst_54 main_v334 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_55 (constant S_ .f32 0x47435000#32),
    StableHlo.unary main_cst_55 main_v335 (broadcastInDim S128 ![] bcast_S_S128 : (⟨S_, .f32⟩ : BufTy).Contents (Elt F) → (⟨S128, .f32⟩ : BufTy).Contents (Elt F)),
    StableHlo.binary main_v334 main_v335 main_v336 (Host.divf : (⟨S128, .f32⟩ : BufTy).Contents (Elt F) → (⟨S128, .f32⟩ : BufTy).Contents (Elt F) → (⟨S128, .f32⟩ : BufTy).Contents (Elt F)),
    StableHlo.nullary main_c_56 (constantI S_ 32 0#32),
    StableHlo.TRef.nullary main_call18.cst (constant S_ .f32 0x00000000#32),
    StableHlo.TRef.binary (.of main_v329 : StableHlo.TRef sig ⟨S50000x128, .f32⟩) main_call18.cst main_call18.v0 (fun x v => Host.reduceAdd x v reducesTo_S50000x128_S128_d0 h_S_),
    StableHlo.TRef.unary main_call18.v0 main_call18.v1 (broadcastInDim S1x128 ![1] bcast_S128_S1x128_1),
    StableHlo.TRef.nullary main_call18.cst_0 (constant S_ .f32 0x47435000#32),
    StableHlo.TRef.unary main_call18.cst_0 main_call18.v2 (broadcastInDim S1x128 ![] bcast_S_S1x128),
    StableHlo.TRef.binary main_call18.v1 main_call18.v2 main_call18.v3 Host.divf,
    StableHlo.TRef.unary main_call18.v3 main_call18.v4 (broadcastInDim S50000x128 ![0, 1] bcast_S1x128_S50000x128_0_1),
    StableHlo.TRef.binary (.of main_v329 : StableHlo.TRef sig ⟨S50000x128, .f32⟩) main_call18.v4 main_call18.v5 subf,
    StableHlo.TRef.binary main_call18.v5 main_call18.v5 main_call18.v6 mulf,
    StableHlo.TRef.unary (.of main_c_56 : StableHlo.TRef sig ⟨S_, .i32⟩) main_call18.v7 (sitofp .f32),
    StableHlo.TRef.nullary main_call18.cst_1 (constant S_ .f32 0x47435000#32),
    StableHlo.TRef.binary main_call18.cst_1 main_call18.v7 main_call18.v8 subf,
    StableHlo.TRef.nullary main_call18.cst_2 (constant S_ .f32 0x00000000#32),
    StableHlo.TRef.binary main_call18.v6 main_call18.cst_2 main_call18.v9 (fun x v => Host.reduceAdd x v reducesTo_S50000x128_S128_d0 h_S_),
    StableHlo.TRef.unary main_call18.v8 main_call18.v10 (broadcastInDim S128 ![] bcast_S_S128),
    StableHlo.TRef.binary main_call18.v9 main_call18.v10 main_call18.v11 Host.divf,
    StableHlo.TRef.nullary main_call18.cst_3 (constant S_ .f32 0x00000000#32),
    StableHlo.TRef.binary main_call18.v8 main_call18.cst_3 main_call18.v12 (cmpf .ogt),
    StableHlo.TRef.nullary main_call18.cst_4 (constant S_ .f32 0x7FC00000#32),
    StableHlo.TRef.unary main_call18.cst_4 main_call18.call0.v0 id,
    StableHlo.TRef.unary main_call18.call0.v0 main_call18.call0.v1 (broadcastInDim S128 ![] bcast_S_S128),
    StableHlo.TRef.ternary main_call18.v12 main_call18.v11 main_call18.call0.v1 main_call18.call0.v2 (fun p a b => select (broadcastInDim S128 ![] bcast_S_S128 p) a b),
    StableHlo.unary main_v336 main_v338 (broadcastInDim S1x128 ![1] bcast_S128_S1x128_1 : (⟨S128, .f32⟩ : BufTy).Contents (Elt F) → (⟨S1x128, .f32⟩ : BufTy).Contents (Elt F)),
    StableHlo.unary main_v338 main_v339 (broadcastInDim S50000x128 ![0, 1] bcast_S1x128_S50000x128_0_1 : (⟨S1x128, .f32⟩ : BufTy).Contents (Elt F) → (⟨S50000x128, .f32⟩ : BufTy).Contents (Elt F)),
    StableHlo.binary main_v329 main_v339 main_v340 (subf : (⟨S50000x128, .f32⟩ : BufTy).Contents (Elt F) → (⟨S50000x128, .f32⟩ : BufTy).Contents (Elt F) → (⟨S50000x128, .f32⟩ : BufTy).Contents (Elt F)),
    StableHlo.unary main_v331 main_v341 (broadcastInDim S1x128 ![1] bcast_S128_S1x128_1 : (⟨S128, .f32⟩ : BufTy).Contents (Elt F) → (⟨S1x128, .f32⟩ : BufTy).Contents (Elt F)),
    StableHlo.unary main_v341 main_v342 (broadcastInDim S50000x128 ![0, 1] bcast_S1x128_S50000x128_0_1 : (⟨S1x128, .f32⟩ : BufTy).Contents (Elt F) → (⟨S50000x128, .f32⟩ : BufTy).Contents (Elt F)),
    StableHlo.binary main_v342 main_v340 main_v343 (mulf : (⟨S50000x128, .f32⟩ : BufTy).Contents (Elt F) → (⟨S50000x128, .f32⟩ : BufTy).Contents (Elt F) → (⟨S50000x128, .f32⟩ : BufTy).Contents (Elt F)),
    StableHlo.nullary main_cst_57 (constant S_ .f32 0x3727C5AC#32),
    StableHlo.unary main_cst_57 main_v344 (broadcastInDim S128 ![] bcast_S_S128 : (⟨S_, .f32⟩ : BufTy).Contents (Elt F) → (⟨S128, .f32⟩ : BufTy).Contents (Elt F)),
    StableHlo.binary main_v337 main_v344 main_v345 (addf : (⟨S128, .f32⟩ : BufTy).Contents (Elt F) → (⟨S128, .f32⟩ : BufTy).Contents (Elt F) → (⟨S128, .f32⟩ : BufTy).Contents (Elt F)),
    StableHlo.unary main_v345 main_v346 (Host.rsqrt : (⟨S128, .f32⟩ : BufTy).Contents (Elt F) → (⟨S128, .f32⟩ : BufTy).Contents (Elt F)),
    StableHlo.unary main_v346 main_v347 (broadcastInDim S1x128 ![1] bcast_S128_S1x128_1 : (⟨S128, .f32⟩ : BufTy).Contents (Elt F) → (⟨S1x128, .f32⟩ : BufTy).Contents (Elt F)),
    StableHlo.unary main_v347 main_v348 (broadcastInDim S50000x128 ![0, 1] bcast_S1x128_S50000x128_0_1 : (⟨S1x128, .f32⟩ : BufTy).Contents (Elt F) → (⟨S50000x128, .f32⟩ : BufTy).Contents (Elt F)),
    StableHlo.binary main_v343 main_v348 main_v349 (mulf : (⟨S50000x128, .f32⟩ : BufTy).Contents (Elt F) → (⟨S50000x128, .f32⟩ : BufTy).Contents (Elt F) → (⟨S50000x128, .f32⟩ : BufTy).Contents (Elt F)),
    StableHlo.unary main_v333 main_v350 (broadcastInDim S1x128 ![1] bcast_S128_S1x128_1 : (⟨S128, .f32⟩ : BufTy).Contents (Elt F) → (⟨S1x128, .f32⟩ : BufTy).Contents (Elt F)),
    StableHlo.unary main_v350 main_v351 (broadcastInDim S50000x128 ![0, 1] bcast_S1x128_S50000x128_0_1 : (⟨S1x128, .f32⟩ : BufTy).Contents (Elt F) → (⟨S50000x128, .f32⟩ : BufTy).Contents (Elt F)),
    StableHlo.binary main_v349 main_v351 main_v352 (addf : (⟨S50000x128, .f32⟩ : BufTy).Contents (Elt F) → (⟨S50000x128, .f32⟩ : BufTy).Contents (Elt F) → (⟨S50000x128, .f32⟩ : BufTy).Contents (Elt F)),
    StableHlo.TRef.nullary main_call19.cst (constant S_ .f32 0x00000000#32),
    StableHlo.TRef.unary main_call19.cst main_call19.v0 (broadcastInDim S50000x128 ![] bcast_S_S50000x128),
    StableHlo.TRef.binary (.of main_v352 : StableHlo.TRef sig ⟨S50000x128, .f32⟩) main_call19.v0 main_call19.v1 maximumf,
    StableHlo.nullary main_c_58 (constantI S_ 32 0#32),
    StableHlo.unary main_c_58 main_v354 (broadcastInDim S800000 ![] bcast_S_S800000 : (⟨S_, .i32⟩ : BufTy).Contents (Elt F) → (⟨S800000, .i32⟩ : BufTy).Contents (Elt F)),
    StableHlo.binary main_v1 main_v354 main_v355 (cmpi .slt : (⟨S800000, .i32⟩ : BufTy).Contents (Elt F) → (⟨S800000, .i32⟩ : BufTy).Contents (Elt F) → (⟨S800000, .i1⟩ : BufTy).Contents (Elt F)),
    StableHlo.nullary main_c_59 (constantI S_ 32 50000#32),
    StableHlo.unary main_c_59 main_v356 (broadcastInDim S800000 ![] bcast_S_S800000 : (⟨S_, .i32⟩ : BufTy).Contents (Elt F) → (⟨S800000, .i32⟩ : BufTy).Contents (Elt F)),
    StableHlo.binary main_v1 main_v356 main_v357 (addi : (⟨S800000, .i32⟩ : BufTy).Contents (Elt F) → (⟨S800000, .i32⟩ : BufTy).Contents (Elt F) → (⟨S800000, .i32⟩ : BufTy).Contents (Elt F)) ]

set_option maxRecDepth 8192 in
set_option maxHeartbeats 4000000 in
/-- Window 6 is its operations run in order: the called functions' bodies unfold at their calls, and both sides are one chain of steps. -/
theorem main_part6_eq (c : Dev nD) : main_part6 (F := F) c = seq opsW6 := rfl

/-- The operations of @main's window 7 (statements 421 … 480), a call's operations in its place. -/
abbrev opsW7 : List (HloOp τ sig (Elt F)) :=
  [ StableHlo.ternary main_v355 main_v357 main_v1 main_v358 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v358 main_v359 (broadcastInDim S800000x1 ![0] bcast_S800000_S800000x1_0 : (⟨S800000, .i32⟩ : BufTy).Contents (Elt F) → (⟨S800000x1, .i32⟩ : BufTy).Contents (Elt F)),
    StableHlo.binary main_v353 main_v359 main_v360 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_60 (constant S_ .f32 0x00000000#32),
    StableHlo.unary main_cst_60 main_v361 (broadcastInDim S50000x128 ![] bcast_S_S50000x128 : (⟨S_, .f32⟩ : BufTy).Contents (Elt F) → (⟨S50000x128, .f32⟩ : BufTy).Contents (Elt F)),
    StableHlo.unary main_v3 main_v362 (broadcastInDim S800000x1 ![0] bcast_S800000_S800000x1_0 : (⟨S800000, .i32⟩ : BufTy).Contents (Elt F) → (⟨S800000x1, .i32⟩ : BufTy).Contents (Elt F)),
    StableHlo.ternary main_v361 main_v362 main_v360 main_v363 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.unary main_arg11 main_v364 ((extractStridedSlice S1 ![5] · slices_S7_S1_5) : (⟨S7, .f32⟩ : BufTy).Contents (Elt F) → (⟨S1, .f32⟩ : BufTy).Contents (Elt F)),
    StableHlo.reshape main_v364 main_v365 rfl shapeCasts_S1_S_,
    StableHlo.nullary main_cst_61 (constant S_ .f32 0x3F800000#32),
    StableHlo.binary main_cst_61 main_v365 main_v366 (addf : (⟨S_, .f32⟩ : BufTy).Contents (Elt F) → (⟨S_, .f32⟩ : BufTy).Contents (Elt F) → (⟨S_, .f32⟩ : BufTy).Contents (Elt F)),
    StableHlo.unary main_v366 main_v367 (broadcastInDim S50000x128 ![] bcast_S_S50000x128 : (⟨S_, .f32⟩ : BufTy).Contents (Elt F) → (⟨S50000x128, .f32⟩ : BufTy).Contents (Elt F)),
    StableHlo.binary main_v367 main_v353 main_v368 (mulf : (⟨S50000x128, .f32⟩ : BufTy).Contents (Elt F) → (⟨S50000x128, .f32⟩ : BufTy).Contents (Elt F) → (⟨S50000x128, .f32⟩ : BufTy).Contents (Elt F)),
    StableHlo.binary main_v368 main_v363 main_v369 (addf : (⟨S50000x128, .f32⟩ : BufTy).Contents (Elt F) → (⟨S50000x128, .f32⟩ : BufTy).Contents (Elt F) → (⟨S50000x128, .f32⟩ : BufTy).Contents (Elt F)),
    StableHlo.unary main_arg4 main_v370 ((extractStridedSlice S1x128x64 ![5, 0, 0] · slices_S7x128x64_S1x128x64_5_0_0) : (⟨S7x128x64, .f32⟩ : BufTy).Contents (Elt F) → (⟨S1x128x64, .f32⟩ : BufTy).Contents (Elt F)),
    StableHlo.reshape main_v370 main_v371 rfl shapeCasts_S1x128x64_S128x64,
    StableHlo.binary main_v369 main_v371 main_v372 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    StableHlo.unary main_arg5 main_v373 ((extractStridedSlice S1x64 ![5, 0] · slices_S7x64_S1x64_5_0) : (⟨S7x64, .f32⟩ : BufTy).Contents (Elt F) → (⟨S1x64, .f32⟩ : BufTy).Contents (Elt F)),
    StableHlo.reshape main_v373 main_v374 rfl shapeCasts_S1x64_S64,
    StableHlo.unary main_arg6 main_v375 ((extractStridedSlice S1x64 ![5, 0] · slices_S7x64_S1x64_5_0) : (⟨S7x64, .f32⟩ : BufTy).Contents (Elt F) → (⟨S1x64, .f32⟩ : BufTy).Contents (Elt F)),
    StableHlo.reshape main_v375 main_v376 rfl shapeCasts_S1x64_S64,
    StableHlo.nullary main_cst_62 (constant S_ .f32 0x00000000#32),
    StableHlo.binary main_v372 main_cst_62 main_v377 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    StableHlo.nullary main_cst_63 (constant S_ .f32 0x47435000#32),
    StableHlo.unary main_cst_63 main_v378 (broadcastInDim S64 ![] bcast_S_S64 : (⟨S_, .f32⟩ : BufTy).Contents (Elt F) → (⟨S64, .f32⟩ : BufTy).Contents (Elt F)),
    StableHlo.binary main_v377 main_v378 main_v379 (Host.divf : (⟨S64, .f32⟩ : BufTy).Contents (Elt F) → (⟨S64, .f32⟩ : BufTy).Contents (Elt F) → (⟨S64, .f32⟩ : BufTy).Contents (Elt F)),
    StableHlo.nullary main_c_64 (constantI S_ 32 0#32),
    StableHlo.TRef.nullary main_call20.cst (constant S_ .f32 0x00000000#32),
    StableHlo.TRef.binary (.of main_v372 : StableHlo.TRef sig ⟨S50000x64, .f32⟩) main_call20.cst main_call20.v0 (fun x v => Host.reduceAdd x v reducesTo_S50000x64_S64_d0 h_S_),
    StableHlo.TRef.unary main_call20.v0 main_call20.v1 (broadcastInDim S1x64 ![1] bcast_S64_S1x64_1),
    StableHlo.TRef.nullary main_call20.cst_0 (constant S_ .f32 0x47435000#32),
    StableHlo.TRef.unary main_call20.cst_0 main_call20.v2 (broadcastInDim S1x64 ![] bcast_S_S1x64),
    StableHlo.TRef.binary main_call20.v1 main_call20.v2 main_call20.v3 Host.divf,
    StableHlo.TRef.unary main_call20.v3 main_call20.v4 (broadcastInDim S50000x64 ![0, 1] bcast_S1x64_S50000x64_0_1),
    StableHlo.TRef.binary (.of main_v372 : StableHlo.TRef sig ⟨S50000x64, .f32⟩) main_call20.v4 main_call20.v5 subf,
    StableHlo.TRef.binary main_call20.v5 main_call20.v5 main_call20.v6 mulf,
    StableHlo.TRef.unary (.of main_c_64 : StableHlo.TRef sig ⟨S_, .i32⟩) main_call20.v7 (sitofp .f32),
    StableHlo.TRef.nullary main_call20.cst_1 (constant S_ .f32 0x47435000#32),
    StableHlo.TRef.binary main_call20.cst_1 main_call20.v7 main_call20.v8 subf,
    StableHlo.TRef.nullary main_call20.cst_2 (constant S_ .f32 0x00000000#32),
    StableHlo.TRef.binary main_call20.v6 main_call20.cst_2 main_call20.v9 (fun x v => Host.reduceAdd x v reducesTo_S50000x64_S64_d0 h_S_),
    StableHlo.TRef.unary main_call20.v8 main_call20.v10 (broadcastInDim S64 ![] bcast_S_S64),
    StableHlo.TRef.binary main_call20.v9 main_call20.v10 main_call20.v11 Host.divf,
    StableHlo.TRef.nullary main_call20.cst_3 (constant S_ .f32 0x00000000#32),
    StableHlo.TRef.binary main_call20.v8 main_call20.cst_3 main_call20.v12 (cmpf .ogt),
    StableHlo.TRef.nullary main_call20.cst_4 (constant S_ .f32 0x7FC00000#32),
    StableHlo.TRef.unary main_call20.cst_4 main_call20.call0.v0 id,
    StableHlo.TRef.unary main_call20.call0.v0 main_call20.call0.v1 (broadcastInDim S64 ![] bcast_S_S64),
    StableHlo.TRef.ternary main_call20.v12 main_call20.v11 main_call20.call0.v1 main_call20.call0.v2 (fun p a b => select (broadcastInDim S64 ![] bcast_S_S64 p) a b),
    StableHlo.unary main_v379 main_v381 (broadcastInDim S1x64 ![1] bcast_S64_S1x64_1 : (⟨S64, .f32⟩ : BufTy).Contents (Elt F) → (⟨S1x64, .f32⟩ : BufTy).Contents (Elt F)),
    StableHlo.unary main_v381 main_v382 (broadcastInDim S50000x64 ![0, 1] bcast_S1x64_S50000x64_0_1 : (⟨S1x64, .f32⟩ : BufTy).Contents (Elt F) → (⟨S50000x64, .f32⟩ : BufTy).Contents (Elt F)),
    StableHlo.binary main_v372 main_v382 main_v383 (subf : (⟨S50000x64, .f32⟩ : BufTy).Contents (Elt F) → (⟨S50000x64, .f32⟩ : BufTy).Contents (Elt F) → (⟨S50000x64, .f32⟩ : BufTy).Contents (Elt F)),
    StableHlo.unary main_v374 main_v384 (broadcastInDim S1x64 ![1] bcast_S64_S1x64_1 : (⟨S64, .f32⟩ : BufTy).Contents (Elt F) → (⟨S1x64, .f32⟩ : BufTy).Contents (Elt F)),
    StableHlo.unary main_v384 main_v385 (broadcastInDim S50000x64 ![0, 1] bcast_S1x64_S50000x64_0_1 : (⟨S1x64, .f32⟩ : BufTy).Contents (Elt F) → (⟨S50000x64, .f32⟩ : BufTy).Contents (Elt F)),
    StableHlo.binary main_v385 main_v383 main_v386 (mulf : (⟨S50000x64, .f32⟩ : BufTy).Contents (Elt F) → (⟨S50000x64, .f32⟩ : BufTy).Contents (Elt F) → (⟨S50000x64, .f32⟩ : BufTy).Contents (Elt F)),
    StableHlo.nullary main_cst_65 (constant S_ .f32 0x3727C5AC#32),
    StableHlo.unary main_cst_65 main_v387 (broadcastInDim S64 ![] bcast_S_S64 : (⟨S_, .f32⟩ : BufTy).Contents (Elt F) → (⟨S64, .f32⟩ : BufTy).Contents (Elt F)),
    StableHlo.binary main_v380 main_v387 main_v388 (addf : (⟨S64, .f32⟩ : BufTy).Contents (Elt F) → (⟨S64, .f32⟩ : BufTy).Contents (Elt F) → (⟨S64, .f32⟩ : BufTy).Contents (Elt F)),
    StableHlo.unary main_v388 main_v389 (Host.rsqrt : (⟨S64, .f32⟩ : BufTy).Contents (Elt F) → (⟨S64, .f32⟩ : BufTy).Contents (Elt F)),
    StableHlo.unary main_v389 main_v390 (broadcastInDim S1x64 ![1] bcast_S64_S1x64_1 : (⟨S64, .f32⟩ : BufTy).Contents (Elt F) → (⟨S1x64, .f32⟩ : BufTy).Contents (Elt F)),
    StableHlo.unary main_v390 main_v391 (broadcastInDim S50000x64 ![0, 1] bcast_S1x64_S50000x64_0_1 : (⟨S1x64, .f32⟩ : BufTy).Contents (Elt F) → (⟨S50000x64, .f32⟩ : BufTy).Contents (Elt F)),
    StableHlo.binary main_v386 main_v391 main_v392 (mulf : (⟨S50000x64, .f32⟩ : BufTy).Contents (Elt F) → (⟨S50000x64, .f32⟩ : BufTy).Contents (Elt F) → (⟨S50000x64, .f32⟩ : BufTy).Contents (Elt F)),
    StableHlo.unary main_v376 main_v393 (broadcastInDim S1x64 ![1] bcast_S64_S1x64_1 : (⟨S64, .f32⟩ : BufTy).Contents (Elt F) → (⟨S1x64, .f32⟩ : BufTy).Contents (Elt F)),
    StableHlo.unary main_v393 main_v394 (broadcastInDim S50000x64 ![0, 1] bcast_S1x64_S50000x64_0_1 : (⟨S1x64, .f32⟩ : BufTy).Contents (Elt F) → (⟨S50000x64, .f32⟩ : BufTy).Contents (Elt F)),
    StableHlo.binary main_v392 main_v394 main_v395 (addf : (⟨S50000x64, .f32⟩ : BufTy).Contents (Elt F) → (⟨S50000x64, .f32⟩ : BufTy).Contents (Elt F) → (⟨S50000x64, .f32⟩ : BufTy).Contents (Elt F)),
    StableHlo.TRef.nullary main_call21.cst (constant S_ .f32 0x00000000#32),
    StableHlo.TRef.unary main_call21.cst main_call21.v0 (broadcastInDim S50000x64 ![] bcast_S_S50000x64),
    StableHlo.TRef.binary (.of main_v395 : StableHlo.TRef sig ⟨S50000x64, .f32⟩) main_call21.v0 main_call21.v1 maximumf,
    StableHlo.unary main_arg7 main_v397 ((extractStridedSlice S1x64x128 ![5, 0, 0] · slices_S6x64x128_S1x64x128_5_0_0) : (⟨S6x64x128, .f32⟩ : BufTy).Contents (Elt F) → (⟨S1x64x128, .f32⟩ : BufTy).Contents (Elt F)),
    StableHlo.reshape main_v397 main_v398 rfl shapeCasts_S1x64x128_S64x128,
    StableHlo.binary main_v396 main_v398 main_v399 ((fun l r => Host.dotGeneral dot_S50000x64_S64x128_S50000x128_1_0_0_1_n_n none l r) : (⟨S50000x64, .f32⟩ : BufTy).Contents (Elt F) → (⟨S64x128, .f32⟩ : BufTy).Contents (Elt F) → (⟨S50000x128, .f32⟩ : BufTy).Contents (Elt F)),
    StableHlo.unary main_arg8 main_v400 ((extractStridedSlice S1x128 ![5, 0] · slices_S6x128_S1x128_5_0) : (⟨S6x128, .f32⟩ : BufTy).Contents (Elt F) → (⟨S1x128, .f32⟩ : BufTy).Contents (Elt F)),
    StableHlo.reshape main_v400 main_v401 rfl shapeCasts_S1x128_S128,
    StableHlo.unary main_arg9 main_v402 ((extractStridedSlice S1x128 ![5, 0] · slices_S6x128_S1x128_5_0) : (⟨S6x128, .f32⟩ : BufTy).Contents (Elt F) → (⟨S1x128, .f32⟩ : BufTy).Contents (Elt F)),
    StableHlo.reshape main_v402 main_v403 rfl shapeCasts_S1x128_S128,
    StableHlo.nullary main_cst_66 (constant S_ .f32 0x00000000#32),
    StableHlo.binary main_v399 main_cst_66 main_v404 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_67 (constant S_ .f32 0x47435000#32),
    StableHlo.unary main_cst_67 main_v405 (broadcastInDim S128 ![] bcast_S_S128 : (⟨S_, .f32⟩ : BufTy).Contents (Elt F) → (⟨S128, .f32⟩ : BufTy).Contents (Elt F)),
    StableHlo.binary main_v404 main_v405 main_v406 (Host.divf : (⟨S128, .f32⟩ : BufTy).Contents (Elt F) → (⟨S128, .f32⟩ : BufTy).Contents (Elt F) → (⟨S128, .f32⟩ : BufTy).Contents (Elt F)),
    StableHlo.nullary main_c_68 (constantI S_ 32 0#32),
    StableHlo.TRef.nullary main_call22.cst (constant S_ .f32 0x00000000#32),
    StableHlo.TRef.binary (.of main_v399 : StableHlo.TRef sig ⟨S50000x128, .f32⟩) main_call22.cst main_call22.v0 (fun x v => Host.reduceAdd x v reducesTo_S50000x128_S128_d0 h_S_),
    StableHlo.TRef.unary main_call22.v0 main_call22.v1 (broadcastInDim S1x128 ![1] bcast_S128_S1x128_1),
    StableHlo.TRef.nullary main_call22.cst_0 (constant S_ .f32 0x47435000#32),
    StableHlo.TRef.unary main_call22.cst_0 main_call22.v2 (broadcastInDim S1x128 ![] bcast_S_S1x128),
    StableHlo.TRef.binary main_call22.v1 main_call22.v2 main_call22.v3 Host.divf,
    StableHlo.TRef.unary main_call22.v3 main_call22.v4 (broadcastInDim S50000x128 ![0, 1] bcast_S1x128_S50000x128_0_1),
    StableHlo.TRef.binary (.of main_v399 : StableHlo.TRef sig ⟨S50000x128, .f32⟩) main_call22.v4 main_call22.v5 subf,
    StableHlo.TRef.binary main_call22.v5 main_call22.v5 main_call22.v6 mulf,
    StableHlo.TRef.unary (.of main_c_68 : StableHlo.TRef sig ⟨S_, .i32⟩) main_call22.v7 (sitofp .f32),
    StableHlo.TRef.nullary main_call22.cst_1 (constant S_ .f32 0x47435000#32),
    StableHlo.TRef.binary main_call22.cst_1 main_call22.v7 main_call22.v8 subf,
    StableHlo.TRef.nullary main_call22.cst_2 (constant S_ .f32 0x00000000#32),
    StableHlo.TRef.binary main_call22.v6 main_call22.cst_2 main_call22.v9 (fun x v => Host.reduceAdd x v reducesTo_S50000x128_S128_d0 h_S_),
    StableHlo.TRef.unary main_call22.v8 main_call22.v10 (broadcastInDim S128 ![] bcast_S_S128),
    StableHlo.TRef.binary main_call22.v9 main_call22.v10 main_call22.v11 Host.divf,
    StableHlo.TRef.nullary main_call22.cst_3 (constant S_ .f32 0x00000000#32),
    StableHlo.TRef.binary main_call22.v8 main_call22.cst_3 main_call22.v12 (cmpf .ogt),
    StableHlo.TRef.nullary main_call22.cst_4 (constant S_ .f32 0x7FC00000#32),
    StableHlo.TRef.unary main_call22.cst_4 main_call22.call0.v0 id,
    StableHlo.TRef.unary main_call22.call0.v0 main_call22.call0.v1 (broadcastInDim S128 ![] bcast_S_S128),
    StableHlo.TRef.ternary main_call22.v12 main_call22.v11 main_call22.call0.v1 main_call22.call0.v2 (fun p a b => select (broadcastInDim S128 ![] bcast_S_S128 p) a b),
    StableHlo.unary main_v406 main_v408 (broadcastInDim S1x128 ![1] bcast_S128_S1x128_1 : (⟨S128, .f32⟩ : BufTy).Contents (Elt F) → (⟨S1x128, .f32⟩ : BufTy).Contents (Elt F)) ]

set_option maxRecDepth 8192 in
set_option maxHeartbeats 4000000 in
/-- Window 7 is its operations run in order: the called functions' bodies unfold at their calls, and both sides are one chain of steps. -/
theorem main_part7_eq (c : Dev nD) : main_part7 (F := F) c = seq opsW7 := rfl

/-- The operations of @main's window 8 (statements 481 … 540), a call's operations in its place. -/
abbrev opsW8 : List (HloOp τ sig (Elt F)) :=
  [ StableHlo.unary main_v408 main_v409 (broadcastInDim S50000x128 ![0, 1] bcast_S1x128_S50000x128_0_1 : (⟨S1x128, .f32⟩ : BufTy).Contents (Elt F) → (⟨S50000x128, .f32⟩ : BufTy).Contents (Elt F)),
    StableHlo.binary main_v399 main_v409 main_v410 (subf : (⟨S50000x128, .f32⟩ : BufTy).Contents (Elt F) → (⟨S50000x128, .f32⟩ : BufTy).Contents (Elt F) → (⟨S50000x128, .f32⟩ : BufTy).Contents (Elt F)),
    StableHlo.unary main_v401 main_v411 (broadcastInDim S1x128 ![1] bcast_S128_S1x128_1 : (⟨S128, .f32⟩ : BufTy).Contents (Elt F) → (⟨S1x128, .f32⟩ : BufTy).Contents (Elt F)),
    StableHlo.unary main_v411 main_v412 (broadcastInDim S50000x128 ![0, 1] bcast_S1x128_S50000x128_0_1 : (⟨S1x128, .f32⟩ : BufTy).Contents (Elt F) → (⟨S50000x128, .f32⟩ : BufTy).Contents (Elt F)),
    StableHlo.binary main_v412 main_v410 main_v413 (mulf : (⟨S50000x128, .f32⟩ : BufTy).Contents (Elt F) → (⟨S50000x128, .f32⟩ : BufTy).Contents (Elt F) → (⟨S50000x128, .f32⟩ : BufTy).Contents (Elt F)),
    StableHlo.nullary main_cst_69 (constant S_ .f32 0x3727C5AC#32),
    StableHlo.unary main_cst_69 main_v414 (broadcastInDim S128 ![] bcast_S_S128 : (⟨S_, .f32⟩ : BufTy).Contents (Elt F) → (⟨S128, .f32⟩ : BufTy).Contents (Elt F)),
    StableHlo.binary main_v407 main_v414 main_v415 (addf : (⟨S128, .f32⟩ : BufTy).Contents (Elt F) → (⟨S128, .f32⟩ : BufTy).Contents (Elt F) → (⟨S128, .f32⟩ : BufTy).Contents (Elt F)),
    StableHlo.unary main_v415 main_v416 (Host.rsqrt : (⟨S128, .f32⟩ : BufTy).Contents (Elt F) → (⟨S128, .f32⟩ : BufTy).Contents (Elt F)),
    StableHlo.unary main_v416 main_v417 (broadcastInDim S1x128 ![1] bcast_S128_S1x128_1 : (⟨S128, .f32⟩ : BufTy).Contents (Elt F) → (⟨S1x128, .f32⟩ : BufTy).Contents (Elt F)),
    StableHlo.unary main_v417 main_v418 (broadcastInDim S50000x128 ![0, 1] bcast_S1x128_S50000x128_0_1 : (⟨S1x128, .f32⟩ : BufTy).Contents (Elt F) → (⟨S50000x128, .f32⟩ : BufTy).Contents (Elt F)),
    StableHlo.binary main_v413 main_v418 main_v419 (mulf : (⟨S50000x128, .f32⟩ : BufTy).Contents (Elt F) → (⟨S50000x128, .f32⟩ : BufTy).Contents (Elt F) → (⟨S50000x128, .f32⟩ : BufTy).Contents (Elt F)),
    StableHlo.unary main_v403 main_v420 (broadcastInDim S1x128 ![1] bcast_S128_S1x128_1 : (⟨S128, .f32⟩ : BufTy).Contents (Elt F) → (⟨S1x128, .f32⟩ : BufTy).Contents (Elt F)),
    StableHlo.unary main_v420 main_v421 (broadcastInDim S50000x128 ![0, 1] bcast_S1x128_S50000x128_0_1 : (⟨S1x128, .f32⟩ : BufTy).Contents (Elt F) → (⟨S50000x128, .f32⟩ : BufTy).Contents (Elt F)),
    StableHlo.binary main_v419 main_v421 main_v422 (addf : (⟨S50000x128, .f32⟩ : BufTy).Contents (Elt F) → (⟨S50000x128, .f32⟩ : BufTy).Contents (Elt F) → (⟨S50000x128, .f32⟩ : BufTy).Contents (Elt F)),
    StableHlo.TRef.nullary main_call23.cst (constant S_ .f32 0x00000000#32),
    StableHlo.TRef.unary main_call23.cst main_call23.v0 (broadcastInDim S50000x128 ![] bcast_S_S50000x128),
    StableHlo.TRef.binary (.of main_v422 : StableHlo.TRef sig ⟨S50000x128, .f32⟩) main_call23.v0 main_call23.v1 maximumf,
    StableHlo.nullary main_c_70 (constantI S_ 32 0#32),
    StableHlo.unary main_c_70 main_v424 (broadcastInDim S800000 ![] bcast_S_S800000 : (⟨S_, .i32⟩ : BufTy).Contents (Elt F) → (⟨S800000, .i32⟩ : BufTy).Contents (Elt F)),
    StableHlo.binary main_v1 main_v424 main_v425 (cmpi .slt : (⟨S800000, .i32⟩ : BufTy).Contents (Elt F) → (⟨S800000, .i32⟩ : BufTy).Contents (Elt F) → (⟨S800000, .i1⟩ : BufTy).Contents (Elt F)),
    StableHlo.nullary main_c_71 (constantI S_ 32 50000#32),
    StableHlo.unary main_c_71 main_v426 (broadcastInDim S800000 ![] bcast_S_S800000 : (⟨S_, .i32⟩ : BufTy).Contents (Elt F) → (⟨S800000, .i32⟩ : BufTy).Contents (Elt F)),
    StableHlo.binary main_v1 main_v426 main_v427 (addi : (⟨S800000, .i32⟩ : BufTy).Contents (Elt F) → (⟨S800000, .i32⟩ : BufTy).Contents (Elt F) → (⟨S800000, .i32⟩ : BufTy).Contents (Elt F)),
    StableHlo.ternary main_v425 main_v427 main_v1 main_v428 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v428 main_v429 (broadcastInDim S800000x1 ![0] bcast_S800000_S800000x1_0 : (⟨S800000, .i32⟩ : BufTy).Contents (Elt F) → (⟨S800000x1, .i32⟩ : BufTy).Contents (Elt F)),
    StableHlo.binary main_v423 main_v429 main_v430 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_72 (constant S_ .f32 0x00000000#32),
    StableHlo.unary main_cst_72 main_v431 (broadcastInDim S50000x128 ![] bcast_S_S50000x128 : (⟨S_, .f32⟩ : BufTy).Contents (Elt F) → (⟨S50000x128, .f32⟩ : BufTy).Contents (Elt F)),
    StableHlo.unary main_v3 main_v432 (broadcastInDim S800000x1 ![0] bcast_S800000_S800000x1_0 : (⟨S800000, .i32⟩ : BufTy).Contents (Elt F) → (⟨S800000x1, .i32⟩ : BufTy).Contents (Elt F)),
    StableHlo.ternary main_v431 main_v432 main_v430 main_v433 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.unary main_arg11 main_v434 ((extractStridedSlice S1 ![6] · slices_S7_S1_6) : (⟨S7, .f32⟩ : BufTy).Contents (Elt F) → (⟨S1, .f32⟩ : BufTy).Contents (Elt F)),
    StableHlo.reshape main_v434 main_v435 rfl shapeCasts_S1_S_,
    StableHlo.nullary main_cst_73 (constant S_ .f32 0x3F800000#32),
    StableHlo.binary main_cst_73 main_v435 main_v436 (addf : (⟨S_, .f32⟩ : BufTy).Contents (Elt F) → (⟨S_, .f32⟩ : BufTy).Contents (Elt F) → (⟨S_, .f32⟩ : BufTy).Contents (Elt F)),
    StableHlo.unary main_v436 main_v437 (broadcastInDim S50000x128 ![] bcast_S_S50000x128 : (⟨S_, .f32⟩ : BufTy).Contents (Elt F) → (⟨S50000x128, .f32⟩ : BufTy).Contents (Elt F)),
    StableHlo.binary main_v437 main_v423 main_v438 (mulf : (⟨S50000x128, .f32⟩ : BufTy).Contents (Elt F) → (⟨S50000x128, .f32⟩ : BufTy).Contents (Elt F) → (⟨S50000x128, .f32⟩ : BufTy).Contents (Elt F)),
    StableHlo.binary main_v438 main_v433 main_v439 (addf : (⟨S50000x128, .f32⟩ : BufTy).Contents (Elt F) → (⟨S50000x128, .f32⟩ : BufTy).Contents (Elt F) → (⟨S50000x128, .f32⟩ : BufTy).Contents (Elt F)),
    StableHlo.unary main_arg4 main_v440 ((extractStridedSlice S1x128x64 ![6, 0, 0] · slices_S7x128x64_S1x128x64_6_0_0) : (⟨S7x128x64, .f32⟩ : BufTy).Contents (Elt F) → (⟨S1x128x64, .f32⟩ : BufTy).Contents (Elt F)),
    StableHlo.reshape main_v440 main_v441 rfl shapeCasts_S1x128x64_S128x64,
    StableHlo.binary main_v439 main_v441 main_v442 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    StableHlo.unary main_arg5 main_v443 ((extractStridedSlice S1x64 ![6, 0] · slices_S7x64_S1x64_6_0) : (⟨S7x64, .f32⟩ : BufTy).Contents (Elt F) → (⟨S1x64, .f32⟩ : BufTy).Contents (Elt F)),
    StableHlo.reshape main_v443 main_v444 rfl shapeCasts_S1x64_S64,
    StableHlo.unary main_arg6 main_v445 ((extractStridedSlice S1x64 ![6, 0] · slices_S7x64_S1x64_6_0) : (⟨S7x64, .f32⟩ : BufTy).Contents (Elt F) → (⟨S1x64, .f32⟩ : BufTy).Contents (Elt F)),
    StableHlo.reshape main_v445 main_v446 rfl shapeCasts_S1x64_S64,
    StableHlo.nullary main_cst_74 (constant S_ .f32 0x00000000#32),
    StableHlo.binary main_v442 main_cst_74 main_v447 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    StableHlo.nullary main_cst_75 (constant S_ .f32 0x47435000#32),
    StableHlo.unary main_cst_75 main_v448 (broadcastInDim S64 ![] bcast_S_S64 : (⟨S_, .f32⟩ : BufTy).Contents (Elt F) → (⟨S64, .f32⟩ : BufTy).Contents (Elt F)),
    StableHlo.binary main_v447 main_v448 main_v449 (Host.divf : (⟨S64, .f32⟩ : BufTy).Contents (Elt F) → (⟨S64, .f32⟩ : BufTy).Contents (Elt F) → (⟨S64, .f32⟩ : BufTy).Contents (Elt F)),
    StableHlo.nullary main_c_76 (constantI S_ 32 0#32),
    StableHlo.TRef.nullary main_call24.cst (constant S_ .f32 0x00000000#32),
    StableHlo.TRef.binary (.of main_v442 : StableHlo.TRef sig ⟨S50000x64, .f32⟩) main_call24.cst main_call24.v0 (fun x v => Host.reduceAdd x v reducesTo_S50000x64_S64_d0 h_S_),
    StableHlo.TRef.unary main_call24.v0 main_call24.v1 (broadcastInDim S1x64 ![1] bcast_S64_S1x64_1),
    StableHlo.TRef.nullary main_call24.cst_0 (constant S_ .f32 0x47435000#32),
    StableHlo.TRef.unary main_call24.cst_0 main_call24.v2 (broadcastInDim S1x64 ![] bcast_S_S1x64),
    StableHlo.TRef.binary main_call24.v1 main_call24.v2 main_call24.v3 Host.divf,
    StableHlo.TRef.unary main_call24.v3 main_call24.v4 (broadcastInDim S50000x64 ![0, 1] bcast_S1x64_S50000x64_0_1),
    StableHlo.TRef.binary (.of main_v442 : StableHlo.TRef sig ⟨S50000x64, .f32⟩) main_call24.v4 main_call24.v5 subf,
    StableHlo.TRef.binary main_call24.v5 main_call24.v5 main_call24.v6 mulf,
    StableHlo.TRef.unary (.of main_c_76 : StableHlo.TRef sig ⟨S_, .i32⟩) main_call24.v7 (sitofp .f32),
    StableHlo.TRef.nullary main_call24.cst_1 (constant S_ .f32 0x47435000#32),
    StableHlo.TRef.binary main_call24.cst_1 main_call24.v7 main_call24.v8 subf,
    StableHlo.TRef.nullary main_call24.cst_2 (constant S_ .f32 0x00000000#32),
    StableHlo.TRef.binary main_call24.v6 main_call24.cst_2 main_call24.v9 (fun x v => Host.reduceAdd x v reducesTo_S50000x64_S64_d0 h_S_),
    StableHlo.TRef.unary main_call24.v8 main_call24.v10 (broadcastInDim S64 ![] bcast_S_S64),
    StableHlo.TRef.binary main_call24.v9 main_call24.v10 main_call24.v11 Host.divf,
    StableHlo.TRef.nullary main_call24.cst_3 (constant S_ .f32 0x00000000#32),
    StableHlo.TRef.binary main_call24.v8 main_call24.cst_3 main_call24.v12 (cmpf .ogt),
    StableHlo.TRef.nullary main_call24.cst_4 (constant S_ .f32 0x7FC00000#32),
    StableHlo.TRef.unary main_call24.cst_4 main_call24.call0.v0 id,
    StableHlo.TRef.unary main_call24.call0.v0 main_call24.call0.v1 (broadcastInDim S64 ![] bcast_S_S64),
    StableHlo.TRef.ternary main_call24.v12 main_call24.v11 main_call24.call0.v1 main_call24.call0.v2 (fun p a b => select (broadcastInDim S64 ![] bcast_S_S64 p) a b),
    StableHlo.unary main_v449 main_v451 (broadcastInDim S1x64 ![1] bcast_S64_S1x64_1 : (⟨S64, .f32⟩ : BufTy).Contents (Elt F) → (⟨S1x64, .f32⟩ : BufTy).Contents (Elt F)),
    StableHlo.unary main_v451 main_v452 (broadcastInDim S50000x64 ![0, 1] bcast_S1x64_S50000x64_0_1 : (⟨S1x64, .f32⟩ : BufTy).Contents (Elt F) → (⟨S50000x64, .f32⟩ : BufTy).Contents (Elt F)),
    StableHlo.binary main_v442 main_v452 main_v453 (subf : (⟨S50000x64, .f32⟩ : BufTy).Contents (Elt F) → (⟨S50000x64, .f32⟩ : BufTy).Contents (Elt F) → (⟨S50000x64, .f32⟩ : BufTy).Contents (Elt F)),
    StableHlo.unary main_v444 main_v454 (broadcastInDim S1x64 ![1] bcast_S64_S1x64_1 : (⟨S64, .f32⟩ : BufTy).Contents (Elt F) → (⟨S1x64, .f32⟩ : BufTy).Contents (Elt F)),
    StableHlo.unary main_v454 main_v455 (broadcastInDim S50000x64 ![0, 1] bcast_S1x64_S50000x64_0_1 : (⟨S1x64, .f32⟩ : BufTy).Contents (Elt F) → (⟨S50000x64, .f32⟩ : BufTy).Contents (Elt F)),
    StableHlo.binary main_v455 main_v453 main_v456 (mulf : (⟨S50000x64, .f32⟩ : BufTy).Contents (Elt F) → (⟨S50000x64, .f32⟩ : BufTy).Contents (Elt F) → (⟨S50000x64, .f32⟩ : BufTy).Contents (Elt F)),
    StableHlo.nullary main_cst_77 (constant S_ .f32 0x3727C5AC#32),
    StableHlo.unary main_cst_77 main_v457 (broadcastInDim S64 ![] bcast_S_S64 : (⟨S_, .f32⟩ : BufTy).Contents (Elt F) → (⟨S64, .f32⟩ : BufTy).Contents (Elt F)),
    StableHlo.binary main_v450 main_v457 main_v458 (addf : (⟨S64, .f32⟩ : BufTy).Contents (Elt F) → (⟨S64, .f32⟩ : BufTy).Contents (Elt F) → (⟨S64, .f32⟩ : BufTy).Contents (Elt F)),
    StableHlo.unary main_v458 main_v459 (Host.rsqrt : (⟨S64, .f32⟩ : BufTy).Contents (Elt F) → (⟨S64, .f32⟩ : BufTy).Contents (Elt F)) ]

set_option maxRecDepth 8192 in
set_option maxHeartbeats 4000000 in
/-- Window 8 is its operations run in order: the called functions' bodies unfold at their calls, and both sides are one chain of steps. -/
theorem main_part8_eq (c : Dev nD) : main_part8 (F := F) c = seq opsW8 := rfl

/-- The operations of @main's window 9 (statements 541 … 566), a call's operations in its place. -/
abbrev opsW9 : List (HloOp τ sig (Elt F)) :=
  [ StableHlo.unary main_v459 main_v460 (broadcastInDim S1x64 ![1] bcast_S64_S1x64_1 : (⟨S64, .f32⟩ : BufTy).Contents (Elt F) → (⟨S1x64, .f32⟩ : BufTy).Contents (Elt F)),
    StableHlo.unary main_v460 main_v461 (broadcastInDim S50000x64 ![0, 1] bcast_S1x64_S50000x64_0_1 : (⟨S1x64, .f32⟩ : BufTy).Contents (Elt F) → (⟨S50000x64, .f32⟩ : BufTy).Contents (Elt F)),
    StableHlo.binary main_v456 main_v461 main_v462 (mulf : (⟨S50000x64, .f32⟩ : BufTy).Contents (Elt F) → (⟨S50000x64, .f32⟩ : BufTy).Contents (Elt F) → (⟨S50000x64, .f32⟩ : BufTy).Contents (Elt F)),
    StableHlo.unary main_v446 main_v463 (broadcastInDim S1x64 ![1] bcast_S64_S1x64_1 : (⟨S64, .f32⟩ : BufTy).Contents (Elt F) → (⟨S1x64, .f32⟩ : BufTy).Contents (Elt F)),
    StableHlo.unary main_v463 main_v464 (broadcastInDim S50000x64 ![0, 1] bcast_S1x64_S50000x64_0_1 : (⟨S1x64, .f32⟩ : BufTy).Contents (Elt F) → (⟨S50000x64, .f32⟩ : BufTy).Contents (Elt F)),
    StableHlo.binary main_v462 main_v464 main_v465 (addf : (⟨S50000x64, .f32⟩ : BufTy).Contents (Elt F) → (⟨S50000x64, .f32⟩ : BufTy).Contents (Elt F) → (⟨S50000x64, .f32⟩ : BufTy).Contents (Elt F)),
    StableHlo.TRef.nullary main_call25.cst (constant S_ .f32 0x00000000#32),
    StableHlo.TRef.unary main_call25.cst main_call25.v0 (broadcastInDim S50000x64 ![] bcast_S_S50000x64),
    StableHlo.TRef.binary (.of main_v465 : StableHlo.TRef sig ⟨S50000x64, .f32⟩) main_call25.v0 main_call25.v1 maximumf,
    StableHlo.binary main_v466 main_arg10 main_v467 ((fun l r => Host.dotGeneral dot_S50000x64_S64x2_S50000x2_1_0_0_1_n_n none l r) : (⟨S50000x64, .f32⟩ : BufTy).Contents (Elt F) → (⟨S64x2, .f32⟩ : BufTy).Contents (Elt F) → (⟨S50000x2, .f32⟩ : BufTy).Contents (Elt F)),
    StableHlo.TRef.nullary main_call26.cst (constant S_ .f32 0x00000000#32),
    StableHlo.TRef.unary main_call26.cst main_call26.v0 (broadcastInDim S50000x2 ![] bcast_S_S50000x2),
    StableHlo.TRef.binary (.of main_v467 : StableHlo.TRef sig ⟨S50000x2, .f32⟩) main_call26.v0 main_call26.v1 maximumf,
    StableHlo.nullary main_cst_78 (constant S_ .f32 0x3F800000#32),
    StableHlo.unary main_cst_78 main_v469 (broadcastInDim S50000 ![] bcast_S_S50000 : (⟨S_, .f32⟩ : BufTy).Contents (Elt F) → (⟨S50000, .f32⟩ : BufTy).Contents (Elt F)),
    StableHlo.nullary main_cst_79 (constant S_ .f32 0x00000000#32),
    StableHlo.unary main_cst_79 main_v470 (broadcastInDim S64 ![] bcast_S_S64 : (⟨S_, .f32⟩ : BufTy).Contents (Elt F) → (⟨S64, .f32⟩ : BufTy).Contents (Elt F)),
    StableHlo.unary main_arg3 main_v471 (broadcastInDim S50000x1 ![0] bcast_S50000_S50000x1_0 : (⟨S50000, .i32⟩ : BufTy).Contents (Elt F) → (⟨S50000x1, .i32⟩ : BufTy).Contents (Elt F)),
    StableHlo.ternary main_v470 main_v471 main_v469 main_v472 ((fun x i u => Host.scatterAdd scatter_S64_S50000x1_S50000_n_0_0_1 x i u) : (⟨S64, .f32⟩ : BufTy).Contents (Elt F) → (⟨S50000x1, .i32⟩ : BufTy).Contents (Elt F) → (⟨S50000, .f32⟩ : BufTy).Contents (Elt F) → (⟨S64, .f32⟩ : BufTy).Contents (Elt F)),
    StableHlo.nullary main_cst_80 (constant S_ .f32 0x00000000#32),
    StableHlo.unary main_cst_80 main_v473 (broadcastInDim S64x2 ![] bcast_S_S64x2 : (⟨S_, .f32⟩ : BufTy).Contents (Elt F) → (⟨S64x2, .f32⟩ : BufTy).Contents (Elt F)),
    StableHlo.unary main_arg3 main_v474 (broadcastInDim S50000x1 ![0] bcast_S50000_S50000x1_0 : (⟨S50000, .i32⟩ : BufTy).Contents (Elt F) → (⟨S50000x1, .i32⟩ : BufTy).Contents (Elt F)),
    StableHlo.ternary main_v473 main_v474 main_v468 main_v475 ((fun x i u => Host.scatterAdd scatter_S64x2_S50000x1_S50000x2_1_0_0_1 x i u) : (⟨S64x2, .f32⟩ : BufTy).Contents (Elt F) → (⟨S50000x1, .i32⟩ : BufTy).Contents (Elt F) → (⟨S50000x2, .f32⟩ : BufTy).Contents (Elt F) → (⟨S64x2, .f32⟩ : BufTy).Contents (Elt F)),
    StableHlo.nullary main_cst_81 (constant S_ .f32 0x3F800000#32),
    StableHlo.unary main_cst_81 main_v476 (broadcastInDim S64 ![] bcast_S_S64 : (⟨S_, .f32⟩ : BufTy).Contents (Elt F) → (⟨S64, .f32⟩ : BufTy).Contents (Elt F)),
    StableHlo.binary main_v472 main_v476 main_v477 (maximumf : (⟨S64, .f32⟩ : BufTy).Contents (Elt F) → (⟨S64, .f32⟩ : BufTy).Contents (Elt F) → (⟨S64, .f32⟩ : BufTy).Contents (Elt F)),
    StableHlo.unary main_v477 main_v478 (broadcastInDim S64x1 ![0] bcast_S64_S64x1_0 : (⟨S64, .f32⟩ : BufTy).Contents (Elt F) → (⟨S64x1, .f32⟩ : BufTy).Contents (Elt F)),
    StableHlo.unary main_v478 main_v479 (broadcastInDim S64x2 ![0, 1] bcast_S64x1_S64x2_0_1 : (⟨S64x1, .f32⟩ : BufTy).Contents (Elt F) → (⟨S64x2, .f32⟩ : BufTy).Contents (Elt F)),
    StableHlo.binary main_v475 main_v479 main_v480 (Host.divf : (⟨S64x2, .f32⟩ : BufTy).Contents (Elt F) → (⟨S64x2, .f32⟩ : BufTy).Contents (Elt F) → (⟨S64x2, .f32⟩ : BufTy).Contents (Elt F)) ]

set_option maxRecDepth 8192 in
set_option maxHeartbeats 4000000 in
/-- Window 9 is its operations run in order: the called functions' bodies unfold at their calls, and both sides are one chain of steps. -/
theorem main_part9_eq (c : Dev nD) : main_part9 (F := F) c = seq opsW9 := rfl

/-- The windows' lists one after the other. -/
abbrev opsW : List (HloOp τ sig (Elt F)) :=
  opsW0 ++ (opsW1 ++ (opsW2 ++ (opsW3 ++ (opsW4 ++ (opsW5 ++ (opsW6 ++ (opsW7 ++ (opsW8 ++ (opsW9)))))))))

set_option maxRecDepth 65536 in
set_option maxHeartbeats 4000000 in
/-- Cut at the windows or cut at the layers, it is the same list: both sides are literal lists and concatenation computes. -/
theorem opsW_eq : (opsW : List (HloOp τ sig (Elt F))) = ops := rfl

/-- @main is its operations run in order: each window is (`main_partK_eq`), and lines run one after the other are their
    concatenation run as one (`seq_append`). -/
theorem main_eq (c : Dev nD) : main (F := F) c = seq ops := by
  rw [← opsW_eq]
  simp only [opsW, seq_append, main, main_part0_eq, main_part1_eq, main_part2_eq, main_part3_eq, main_part4_eq, main_part5_eq, main_part6_eq, main_part7_eq, main_part8_eq, main_part9_eq]

end Cert.GIN.Ref

end
-- ==== Proof.RefRun.lean ====
/- The reference program's run read back: every weakly fair execution of @main terminates with the result buffer at the fold of
   its operations over the launch contents and the twelve argument arrays unchanged. The fold is left unevaluated: it is read
   one layer at a time, through `after_append`, and a buffer a layer does not write keeps its contents through it. -/
import proofs.«177653_j8959301779747_1_alg».proof.Proof.RefWin
import Idealize.ShloMosaic.Lib.Pipeline.Frame

set_option synthInstance.maxSize 4096

noncomputable section

namespace Cert.GIN.Ref

open Cert.ReferenceIdeal Cert.ReferenceIdeal.Gen Idealize.ShloMosaic Idealize.ShloMosaic.TcCoe Idealize.SL.Sem Idealize.ShloMosaic.StableHlo

variable {F : FTy → Type} [FloatOps F]

theorem scopedRefs_eq : (Finset.univ.filter fun b : Ref sig .tc => b.isScoped) = ∅ := by decide
theorem scopedSems_eq : (Finset.univ.filter fun sm : SemLoc sig => sm.isScoped .tc) = ∅ := by decide

/-! ### Layer 0 -/

set_option maxRecDepth 8192 in
/-- Every operation of the list touches TensorCore buffers only. -/
theorem opsL0_sub : (opsL0 : List (HloOp τ sig (Elt F))).Forall fun op => op.bufs ⊆ tcRefs τ sig :=
  ⟨unary_bufs_sub .., reshape_bufs_sub .., unary_bufs_sub .., reshape_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., unary_bufs_sub .., ternary_bufs_sub .., unary_bufs_sub ..,
    reshape_bufs_sub .., nullary_bufs_sub .., binary_bufs_sub .., unary_bufs_sub .., binary_bufs_sub .., binary_bufs_sub ..,
    unary_bufs_sub .., reshape_bufs_sub .., binary_bufs_sub .., unary_bufs_sub .., reshape_bufs_sub .., unary_bufs_sub ..,
    reshape_bufs_sub .., nullary_bufs_sub .., binary_bufs_sub .., nullary_bufs_sub .., unary_bufs_sub .., binary_bufs_sub ..,
    nullary_bufs_sub .., nullary_bufs_sub .., binary_bufs_sub .., unary_bufs_sub .., nullary_bufs_sub .., unary_bufs_sub ..,
    binary_bufs_sub .., unary_bufs_sub .., binary_bufs_sub .., binary_bufs_sub .., unary_bufs_sub .., nullary_bufs_sub ..,
    binary_bufs_sub .., nullary_bufs_sub .., binary_bufs_sub .., unary_bufs_sub .., binary_bufs_sub .., nullary_bufs_sub ..,
    binary_bufs_sub .., nullary_bufs_sub .., unary_bufs_sub .., unary_bufs_sub .., ternary_bufs_sub .., unary_bufs_sub ..,
    unary_bufs_sub .., binary_bufs_sub .., unary_bufs_sub .., unary_bufs_sub .., binary_bufs_sub .., nullary_bufs_sub ..,
    unary_bufs_sub .., binary_bufs_sub .., unary_bufs_sub .., unary_bufs_sub .., unary_bufs_sub .., binary_bufs_sub ..,
    unary_bufs_sub .., unary_bufs_sub .., binary_bufs_sub .., nullary_bufs_sub .., unary_bufs_sub .., binary_bufs_sub ..,
    unary_bufs_sub .., reshape_bufs_sub .., binary_bufs_sub .., unary_bufs_sub .., reshape_bufs_sub .., unary_bufs_sub ..,
    reshape_bufs_sub .., nullary_bufs_sub .., binary_bufs_sub .., nullary_bufs_sub .., unary_bufs_sub .., binary_bufs_sub ..,
    nullary_bufs_sub .., nullary_bufs_sub .., binary_bufs_sub .., unary_bufs_sub .., nullary_bufs_sub .., unary_bufs_sub ..,
    binary_bufs_sub .., unary_bufs_sub .., binary_bufs_sub .., binary_bufs_sub .., unary_bufs_sub .., nullary_bufs_sub ..,
    binary_bufs_sub .., nullary_bufs_sub .., binary_bufs_sub .., unary_bufs_sub .., binary_bufs_sub .., nullary_bufs_sub ..,
    binary_bufs_sub .., nullary_bufs_sub .., unary_bufs_sub .., unary_bufs_sub .., ternary_bufs_sub .., unary_bufs_sub ..,
    unary_bufs_sub .., binary_bufs_sub .., unary_bufs_sub .., unary_bufs_sub .., binary_bufs_sub .., nullary_bufs_sub ..,
    unary_bufs_sub .., binary_bufs_sub .., unary_bufs_sub .., unary_bufs_sub .., unary_bufs_sub .., binary_bufs_sub ..,
    unary_bufs_sub .., unary_bufs_sub .., binary_bufs_sub .., nullary_bufs_sub .., unary_bufs_sub .., binary_bufs_sub ..⟩

set_option maxRecDepth 8192 in
/-- Every operation of the list determines what it writes. -/
theorem opsL0_fresh : (opsL0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl⟩

/-- The buffers the list's operations write, in order. -/
abbrev opsL0_W : List (Ref sig .tc) :=
  [main_v0, main_v1, main_v2, main_v3, main_c, main_v4, main_v5, main_c_0,
   main_v6, main_v7, main_v8, main_v9, main_v10, main_cst, main_v11, main_v12,
   main_v13, main_v14, main_v15, main_cst_1, main_v16, main_v17, main_v18, main_v19,
   main_v20, main_v21, main_v22, main_v23, main_v24, main_v25, main_v26, main_cst_2,
   main_v27, main_cst_3, main_v28, main_v29, main_c_4, main_call0.cst.ref, main_call0.v0.ref, main_call0.v1.ref,
   main_call0.cst_0.ref, main_call0.v2.ref, main_call0.v3.ref, main_call0.v4.ref, main_call0.v5.ref, main_call0.v6.ref, main_call0.v7.ref, main_call0.cst_1.ref,
   main_call0.v8.ref, main_call0.cst_2.ref, main_call0.v9.ref, main_call0.v10.ref, main_call0.v11.ref, main_call0.cst_3.ref, main_call0.v12.ref, main_call0.cst_4.ref,
   main_call0.call0.v0.ref, main_call0.call0.v1.ref, main_call0.call0.v2.ref, main_v31, main_v32, main_v33, main_v34, main_v35,
   main_v36, main_cst_5, main_v37, main_v38, main_v39, main_v40, main_v41, main_v42,
   main_v43, main_v44, main_v45, main_call1.cst.ref, main_call1.v0.ref, main_call1.v1.ref, main_v47, main_v48,
   main_v49, main_v50, main_v51, main_v52, main_v53, main_cst_6, main_v54, main_cst_7,
   main_v55, main_v56, main_c_8, main_call2.cst.ref, main_call2.v0.ref, main_call2.v1.ref, main_call2.cst_0.ref, main_call2.v2.ref,
   main_call2.v3.ref, main_call2.v4.ref, main_call2.v5.ref, main_call2.v6.ref, main_call2.v7.ref, main_call2.cst_1.ref, main_call2.v8.ref, main_call2.cst_2.ref,
   main_call2.v9.ref, main_call2.v10.ref, main_call2.v11.ref, main_call2.cst_3.ref, main_call2.v12.ref, main_call2.cst_4.ref, main_call2.call0.v0.ref, main_call2.call0.v1.ref,
   main_call2.call0.v2.ref, main_v58, main_v59, main_v60, main_v61, main_v62, main_v63, main_cst_9,
   main_v64, main_v65, main_v66, main_v67, main_v68, main_v69, main_v70, main_v71,
   main_v72, main_call3.cst.ref, main_call3.v0.ref, main_call3.v1.ref]

set_option maxRecDepth 8192 in
set_option maxHeartbeats 4000000 in
theorem opsL0_writes : (opsL0 : List (HloOp τ sig (Elt F))).Forall fun op => op.writes ⊆ (opsL0_W.map (Proc.devRef (τ := τ) .tc)).toFinset :=
  ⟨by simp only [List.Forall, nullary_writes, unary_writes, binary_writes, ternary_writes, reshape_writes, Finset.singleton_subset_iff, List.mem_toFinset]; exact List.mem_map_of_mem (show main_v0 ∈ opsL0_W by decide),
   by simp only [List.Forall, nullary_writes, unary_writes, binary_writes, ternary_writes, reshape_writes, Finset.singleton_subset_iff, List.mem_toFinset]; exact List.mem_map_of_mem (show main_v1 ∈ opsL0_W by decide),
   by simp only [List.Forall, nullary_writes, unary_writes, binary_writes, ternary_writes, reshape_writes, Finset.singleton_subset_iff, List.mem_toFinset]; exact List.mem_map_of_mem (show main_v2 ∈ opsL0_W by decide),
   by simp only [List.Forall, nullary_writes, unary_writes, binary_writes, ternary_writes, reshape_writes, Finset.singleton_subset_iff, List.mem_toFinset]; exact List.mem_map_of_mem (show main_v3 ∈ opsL0_W by decide),
   by simp only [List.Forall, nullary_writes, unary_writes, binary_writes, ternary_writes, reshape_writes, Finset.singleton_subset_iff, List.mem_toFinset]; exact List.mem_map_of_mem (show main_c ∈ opsL0_W by decide),
   by simp only [List.Forall, nullary_writes, unary_writes, binary_writes, ternary_writes, reshape_writes, Finset.singleton_subset_iff, List.mem_toFinset]; exact List.mem_map_of_mem (show main_v4 ∈ opsL0_W by decide),
   by simp only [List.Forall, nullary_writes, unary_writes, binary_writes, ternary_writes, reshape_writes, Finset.singleton_subset_iff, List.mem_toFinset]; exact List.mem_map_of_mem (show main_v5 ∈ opsL0_W by decide),
   by simp only [List.Forall, nullary_writes, unary_writes, binary_writes, ternary_writes, reshape_writes, Finset.singleton_subset_iff, List.mem_toFinset]; exact List.mem_map_of_mem (show main_c_0 ∈ opsL0_W by decide),
   by simp only [List.Forall, nullary_writes, unary_writes, binary_writes, ternary_writes, reshape_writes, Finset.singleton_subset_iff, List.mem_toFinset]; exact List.mem_map_of_mem (show main_v6 ∈ opsL0_W by decide),
   by simp only [List.Forall, nullary_writes, unary_writes, binary_writes, ternary_writes, reshape_writes, Finset.singleton_subset_iff, List.mem_toFinset]; exact List.mem_map_of_mem (show main_v7 ∈ opsL0_W by decide),
   by simp only [List.Forall, nullary_writes, unary_writes, binary_writes, ternary_writes, reshape_writes, Finset.singleton_subset_iff, List.mem_toFinset]; exact List.mem_map_of_mem (show main_v8 ∈ opsL0_W by decide),
   by simp only [List.Forall, nullary_writes, unary_writes, binary_writes, ternary_writes, reshape_writes, Finset.singleton_subset_iff, List.mem_toFinset]; exact List.mem_map_of_mem (show main_v9 ∈ opsL0_W by decide),
   by simp only [List.Forall, nullary_writes, unary_writes, binary_writes, ternary_writes, reshape_writes, Finset.singleton_subset_iff, List.mem_toFinset]; exact List.mem_map_of_mem (show main_v10 ∈ opsL0_W by decide),
   by simp only [List.Forall, nullary_writes, unary_writes, binary_writes, ternary_writes, reshape_writes, Finset.singleton_subset_iff, List.mem_toFinset]; exact List.mem_map_of_mem (show main_cst ∈ opsL0_W by decide),
   by simp only [List.Forall, nullary_writes, unary_writes, binary_writes, ternary_writes, reshape_writes, Finset.singleton_subset_iff, List.mem_toFinset]; exact List.mem_map_of_mem (show main_v11 ∈ opsL0_W by decide),
   by simp only [List.Forall, nullary_writes, unary_writes, binary_writes, ternary_writes, reshape_writes, Finset.singleton_subset_iff, List.mem_toFinset]; exact List.mem_map_of_mem (show main_v12 ∈ opsL0_W by decide),
   by simp only [List.Forall, nullary_writes, unary_writes, binary_writes, ternary_writes, reshape_writes, Finset.singleton_subset_iff, List.mem_toFinset]; exact List.mem_map_of_mem (show main_v13 ∈ opsL0_W by decide),
   by simp only [List.Forall, nullary_writes, unary_writes, binary_writes, ternary_writes, reshape_writes, Finset.singleton_subset_iff, List.mem_toFinset]; exact List.mem_map_of_mem (show main_v14 ∈ opsL0_W by decide),
   by simp only [List.Forall, nullary_writes, unary_writes, binary_writes, ternary_writes, reshape_writes, Finset.singleton_subset_iff, List.mem_toFinset]; exact List.mem_map_of_mem (show main_v15 ∈ opsL0_W by decide),
   by simp only [List.Forall, nullary_writes, unary_writes, binary_writes, ternary_writes, reshape_writes, Finset.singleton_subset_iff, List.mem_toFinset]; exact List.mem_map_of_mem (show main_cst_1 ∈ opsL0_W by decide),
   by simp only [List.Forall, nullary_writes, unary_writes, binary_writes, ternary_writes, reshape_writes, Finset.singleton_subset_iff, List.mem_toFinset]; exact List.mem_map_of_mem (show main_v16 ∈ opsL0_W by decide),
   by simp only [List.Forall, nullary_writes, unary_writes, binary_writes, ternary_writes, reshape_writes, Finset.singleton_subset_iff, List.mem_toFinset]; exact List.mem_map_of_mem (show main_v17 ∈ opsL0_W by decide),
   by simp only [List.Forall, nullary_writes, unary_writes, binary_writes, ternary_writes, reshape_writes, Finset.singleton_subset_iff, List.mem_toFinset]; exact List.mem_map_of_mem (show main_v18 ∈ opsL0_W by decide),
   by simp only [List.Forall, nullary_writes, unary_writes, binary_writes, ternary_writes, reshape_writes, Finset.singleton_subset_iff, List.mem_toFinset]; exact List.mem_map_of_mem (show main_v19 ∈ opsL0_W by decide),
   by simp only [List.Forall, nullary_writes, unary_writes, binary_writes, ternary_writes, reshape_writes, Finset.singleton_subset_iff, List.mem_toFinset]; exact List.mem_map_of_mem (show main_v20 ∈ opsL0_W by decide),
   by simp only [List.Forall, nullary_writes, unary_writes, binary_writes, ternary_writes, reshape_writes, Finset.singleton_subset_iff, List.mem_toFinset]; exact List.mem_map_of_mem (show main_v21 ∈ opsL0_W by decide),
   by simp only [List.Forall, nullary_writes, unary_writes, binary_writes, ternary_writes, reshape_writes, Finset.singleton_subset_iff, List.mem_toFinset]; exact List.mem_map_of_mem (show main_v22 ∈ opsL0_W by decide),
   by simp only [List.Forall, nullary_writes, unary_writes, binary_writes, ternary_writes, reshape_writes, Finset.singleton_subset_iff, List.mem_toFinset]; exact List.mem_map_of_mem (show main_v23 ∈ opsL0_W by decide),
   by simp only [List.Forall, nullary_writes, unary_writes, binary_writes, ternary_writes, reshape_writes, Finset.singleton_subset_iff, List.mem_toFinset]; exact List.mem_map_of_mem (show main_v24 ∈ opsL0_W by decide),
   by simp only [List.Forall, nullary_writes, unary_writes, binary_writes, ternary_writes, reshape_writes, Finset.singleton_subset_iff, List.mem_toFinset]; exact List.mem_map_of_mem (show main_v25 ∈ opsL0_W by decide),
   by simp only [List.Forall, nullary_writes, unary_writes, binary_writes, ternary_writes, reshape_writes, Finset.singleton_subset_iff, List.mem_toFinset]; exact List.mem_map_of_mem (show main_v26 ∈ opsL0_W by decide),
   by simp only [List.Forall, nullary_writes, unary_writes, binary_writes, ternary_writes, reshape_writes, Finset.singleton_subset_iff, List.mem_toFinset]; exact List.mem_map_of_mem (show main_cst_2 ∈ opsL0_W by decide),
   by simp only [List.Forall, nullary_writes, unary_writes, binary_writes, ternary_writes, reshape_writes, Finset.singleton_subset_iff, List.mem_toFinset]; exact List.mem_map_of_mem (show main_v27 ∈ opsL0_W by decide),
   by simp only [List.Forall, nullary_writes, unary_writes, binary_writes, ternary_writes, reshape_writes, Finset.singleton_subset_iff, List.mem_toFinset]; exact List.mem_map_of_mem (show main_cst_3 ∈ opsL0_W by decide),
   by simp only [List.Forall, nullary_writes, unary_writes, binary_writes, ternary_writes, reshape_writes, Finset.singleton_subset_iff, List.mem_toFinset]; exact List.mem_map_of_mem (show main_v28 ∈ opsL0_W by decide),
   by simp only [List.Forall, nullary_writes, unary_writes, binary_writes, ternary_writes, reshape_writes, Finset.singleton_subset_iff, List.mem_toFinset]; exact List.mem_map_of_mem (show main_v29 ∈ opsL0_W by decide),
   by simp only [List.Forall, nullary_writes, unary_writes, binary_writes, ternary_writes, reshape_writes, Finset.singleton_subset_iff, List.mem_toFinset]; exact List.mem_map_of_mem (show main_c_4 ∈ opsL0_W by decide),
   by simp only [List.Forall, nullary_writes, unary_writes, binary_writes, ternary_writes, reshape_writes, Finset.singleton_subset_iff, List.mem_toFinset]; exact List.mem_map_of_mem (show main_call0.cst.ref ∈ opsL0_W by decide),
   by simp only [List.Forall, nullary_writes, unary_writes, binary_writes, ternary_writes, reshape_writes, Finset.singleton_subset_iff, List.mem_toFinset]; exact List.mem_map_of_mem (show main_call0.v0.ref ∈ opsL0_W by decide),
   by simp only [List.Forall, nullary_writes, unary_writes, binary_writes, ternary_writes, reshape_writes, Finset.singleton_subset_iff, List.mem_toFinset]; exact List.mem_map_of_mem (show main_call0.v1.ref ∈ opsL0_W by decide),
   by simp only [List.Forall, nullary_writes, unary_writes, binary_writes, ternary_writes, reshape_writes, Finset.singleton_subset_iff, List.mem_toFinset]; exact List.mem_map_of_mem (show main_call0.cst_0.ref ∈ opsL0_W by decide),
   by simp only [List.Forall, nullary_writes, unary_writes, binary_writes, ternary_writes, reshape_writes, Finset.singleton_subset_iff, List.mem_toFinset]; exact List.mem_map_of_mem (show main_call0.v2.ref ∈ opsL0_W by decide),
   by simp only [List.Forall, nullary_writes, unary_writes, binary_writes, ternary_writes, reshape_writes, Finset.singleton_subset_iff, List.mem_toFinset]; exact List.mem_map_of_mem (show main_call0.v3.ref ∈ opsL0_W by decide),
   by simp only [List.Forall, nullary_writes, unary_writes, binary_writes, ternary_writes, reshape_writes, Finset.singleton_subset_iff, List.mem_toFinset]; exact List.mem_map_of_mem (show main_call0.v4.ref ∈ opsL0_W by decide),
   by simp only [List.Forall, nullary_writes, unary_writes, binary_writes, ternary_writes, reshape_writes, Finset.singleton_subset_iff, List.mem_toFinset]; exact List.mem_map_of_mem (show main_call0.v5.ref ∈ opsL0_W by decide),
   by simp only [List.Forall, nullary_writes, unary_writes, binary_writes, ternary_writes, reshape_writes, Finset.singleton_subset_iff, List.mem_toFinset]; exact List.mem_map_of_mem (show main_call0.v6.ref ∈ opsL0_W by decide),
   by simp only [List.Forall, nullary_writes, unary_writes, binary_writes, ternary_writes, reshape_writes, Finset.singleton_subset_iff, List.mem_toFinset]; exact List.mem_map_of_mem (show main_call0.v7.ref ∈ opsL0_W by decide),
   by simp only [List.Forall, nullary_writes, unary_writes, binary_writes, ternary_writes, reshape_writes, Finset.singleton_subset_iff, List.mem_toFinset]; exact List.mem_map_of_mem (show main_call0.cst_1.ref ∈ opsL0_W by decide),
   by simp only [List.Forall, nullary_writes, unary_writes, binary_writes, ternary_writes, reshape_writes, Finset.singleton_subset_iff, List.mem_toFinset]; exact List.mem_map_of_mem (show main_call0.v8.ref ∈ opsL0_W by decide),
   by simp only [List.Forall, nullary_writes, unary_writes, binary_writes, ternary_writes, reshape_writes, Finset.singleton_subset_iff, List.mem_toFinset]; exact List.mem_map_of_mem (show main_call0.cst_2.ref ∈ opsL0_W by decide),
   by simp only [List.Forall, nullary_writes, unary_writes, binary_writes, ternary_writes, reshape_writes, Finset.singleton_subset_iff, List.mem_toFinset]; exact List.mem_map_of_mem (show main_call0.v9.ref ∈ opsL0_W by decide),
   by simp only [List.Forall, nullary_writes, unary_writes, binary_writes, ternary_writes, reshape_writes, Finset.singleton_subset_iff, List.mem_toFinset]; exact List.mem_map_of_mem (show main_call0.v10.ref ∈ opsL0_W by decide),
   by simp only [List.Forall, nullary_writes, unary_writes, binary_writes, ternary_writes, reshape_writes, Finset.singleton_subset_iff, List.mem_toFinset]; exact List.mem_map_of_mem (show main_call0.v11.ref ∈ opsL0_W by decide),
   by simp only [List.Forall, nullary_writes, unary_writes, binary_writes, ternary_writes, reshape_writes, Finset.singleton_subset_iff, List.mem_toFinset]; exact List.mem_map_of_mem (show main_call0.cst_3.ref ∈ opsL0_W by decide),
   by simp only [List.Forall, nullary_writes, unary_writes, binary_writes, ternary_writes, reshape_writes, Finset.singleton_subset_iff, List.mem_toFinset]; exact List.mem_map_of_mem (show main_call0.v12.ref ∈ opsL0_W by decide),
   by simp only [List.Forall, nullary_writes, unary_writes, binary_writes, ternary_writes, reshape_writes, Finset.singleton_subset_iff, List.mem_toFinset]; exact List.mem_map_of_mem (show main_call0.cst_4.ref ∈ opsL0_W by decide),
   by simp only [List.Forall, nullary_writes, unary_writes, binary_writes, ternary_writes, reshape_writes, Finset.singleton_subset_iff, List.mem_toFinset]; exact List.mem_map_of_mem (show main_call0.call0.v0.ref ∈ opsL0_W by decide),
   by simp only [List.Forall, nullary_writes, unary_writes, binary_writes, ternary_writes, reshape_writes, Finset.singleton_subset_iff, List.mem_toFinset]; exact List.mem_map_of_mem (show main_call0.call0.v1.ref ∈ opsL0_W by decide),
   by simp only [List.Forall, nullary_writes, unary_writes, binary_writes, ternary_writes, reshape_writes, Finset.singleton_subset_iff, List.mem_toFinset]; exact List.mem_map_of_mem (show main_call0.call0.v2.ref ∈ opsL0_W by decide),
   by simp only [List.Forall, nullary_writes, unary_writes, binary_writes, ternary_writes, reshape_writes, Finset.singleton_subset_iff, List.mem_toFinset]; exact List.mem_map_of_mem (show main_v31 ∈ opsL0_W by decide),
   by simp only [List.Forall, nullary_writes, unary_writes, binary_writes, ternary_writes, reshape_writes, Finset.singleton_subset_iff, List.mem_toFinset]; exact List.mem_map_of_mem (show main_v32 ∈ opsL0_W by decide),
   by simp only [List.Forall, nullary_writes, unary_writes, binary_writes, ternary_writes, reshape_writes, Finset.singleton_subset_iff, List.mem_toFinset]; exact List.mem_map_of_mem (show main_v33 ∈ opsL0_W by decide),
   by simp only [List.Forall, nullary_writes, unary_writes, binary_writes, ternary_writes, reshape_writes, Finset.singleton_subset_iff, List.mem_toFinset]; exact List.mem_map_of_mem (show main_v34 ∈ opsL0_W by decide),
   by simp only [List.Forall, nullary_writes, unary_writes, binary_writes, ternary_writes, reshape_writes, Finset.singleton_subset_iff, List.mem_toFinset]; exact List.mem_map_of_mem (show main_v35 ∈ opsL0_W by decide),
   by simp only [List.Forall, nullary_writes, unary_writes, binary_writes, ternary_writes, reshape_writes, Finset.singleton_subset_iff, List.mem_toFinset]; exact List.mem_map_of_mem (show main_v36 ∈ opsL0_W by decide),
   by simp only [List.Forall, nullary_writes, unary_writes, binary_writes, ternary_writes, reshape_writes, Finset.singleton_subset_iff, List.mem_toFinset]; exact List.mem_map_of_mem (show main_cst_5 ∈ opsL0_W by decide),
   by simp only [List.Forall, nullary_writes, unary_writes, binary_writes, ternary_writes, reshape_writes, Finset.singleton_subset_iff, List.mem_toFinset]; exact List.mem_map_of_mem (show main_v37 ∈ opsL0_W by decide),
   by simp only [List.Forall, nullary_writes, unary_writes, binary_writes, ternary_writes, reshape_writes, Finset.singleton_subset_iff, List.mem_toFinset]; exact List.mem_map_of_mem (show main_v38 ∈ opsL0_W by decide),
   by simp only [List.Forall, nullary_writes, unary_writes, binary_writes, ternary_writes, reshape_writes, Finset.singleton_subset_iff, List.mem_toFinset]; exact List.mem_map_of_mem (show main_v39 ∈ opsL0_W by decide),
   by simp only [List.Forall, nullary_writes, unary_writes, binary_writes, ternary_writes, reshape_writes, Finset.singleton_subset_iff, List.mem_toFinset]; exact List.mem_map_of_mem (show main_v40 ∈ opsL0_W by decide),
   by simp only [List.Forall, nullary_writes, unary_writes, binary_writes, ternary_writes, reshape_writes, Finset.singleton_subset_iff, List.mem_toFinset]; exact List.mem_map_of_mem (show main_v41 ∈ opsL0_W by decide),
   by simp only [List.Forall, nullary_writes, unary_writes, binary_writes, ternary_writes, reshape_writes, Finset.singleton_subset_iff, List.mem_toFinset]; exact List.mem_map_of_mem (show main_v42 ∈ opsL0_W by decide),
   by simp only [List.Forall, nullary_writes, unary_writes, binary_writes, ternary_writes, reshape_writes, Finset.singleton_subset_iff, List.mem_toFinset]; exact List.mem_map_of_mem (show main_v43 ∈ opsL0_W by decide),
   by simp only [List.Forall, nullary_writes, unary_writes, binary_writes, ternary_writes, reshape_writes, Finset.singleton_subset_iff, List.mem_toFinset]; exact List.mem_map_of_mem (show main_v44 ∈ opsL0_W by decide),
   by simp only [List.Forall, nullary_writes, unary_writes, binary_writes, ternary_writes, reshape_writes, Finset.singleton_subset_iff, List.mem_toFinset]; exact List.mem_map_of_mem (show main_v45 ∈ opsL0_W by decide),
   by simp only [List.Forall, nullary_writes, unary_writes, binary_writes, ternary_writes, reshape_writes, Finset.singleton_subset_iff, List.mem_toFinset]; exact List.mem_map_of_mem (show main_call1.cst.ref ∈ opsL0_W by decide),
   by simp only [List.Forall, nullary_writes, unary_writes, binary_writes, ternary_writes, reshape_writes, Finset.singleton_subset_iff, List.mem_toFinset]; exact List.mem_map_of_mem (show main_call1.v0.ref ∈ opsL0_W by decide),
   by simp only [List.Forall, nullary_writes, unary_writes, binary_writes, ternary_writes, reshape_writes, Finset.singleton_subset_iff, List.mem_toFinset]; exact List.mem_map_of_mem (show main_call1.v1.ref ∈ opsL0_W by decide),
   by simp only [List.Forall, nullary_writes, unary_writes, binary_writes, ternary_writes, reshape_writes, Finset.singleton_subset_iff, List.mem_toFinset]; exact List.mem_map_of_mem (show main_v47 ∈ opsL0_W by decide),
   by simp only [List.Forall, nullary_writes, unary_writes, binary_writes, ternary_writes, reshape_writes, Finset.singleton_subset_iff, List.mem_toFinset]; exact List.mem_map_of_mem (show main_v48 ∈ opsL0_W by decide),
   by simp only [List.Forall, nullary_writes, unary_writes, binary_writes, ternary_writes, reshape_writes, Finset.singleton_subset_iff, List.mem_toFinset]; exact List.mem_map_of_mem (show main_v49 ∈ opsL0_W by decide),
   by simp only [List.Forall, nullary_writes, unary_writes, binary_writes, ternary_writes, reshape_writes, Finset.singleton_subset_iff, List.mem_toFinset]; exact List.mem_map_of_mem (show main_v50 ∈ opsL0_W by decide),
   by simp only [List.Forall, nullary_writes, unary_writes, binary_writes, ternary_writes, reshape_writes, Finset.singleton_subset_iff, List.mem_toFinset]; exact List.mem_map_of_mem (show main_v51 ∈ opsL0_W by decide),
   by simp only [List.Forall, nullary_writes, unary_writes, binary_writes, ternary_writes, reshape_writes, Finset.singleton_subset_iff, List.mem_toFinset]; exact List.mem_map_of_mem (show main_v52 ∈ opsL0_W by decide),
   by simp only [List.Forall, nullary_writes, unary_writes, binary_writes, ternary_writes, reshape_writes, Finset.singleton_subset_iff, List.mem_toFinset]; exact List.mem_map_of_mem (show main_v53 ∈ opsL0_W by decide),
   by simp only [List.Forall, nullary_writes, unary_writes, binary_writes, ternary_writes, reshape_writes, Finset.singleton_subset_iff, List.mem_toFinset]; exact List.mem_map_of_mem (show main_cst_6 ∈ opsL0_W by decide),
   by simp only [List.Forall, nullary_writes, unary_writes, binary_writes, ternary_writes, reshape_writes, Finset.singleton_subset_iff, List.mem_toFinset]; exact List.mem_map_of_mem (show main_v54 ∈ opsL0_W by decide),
   by simp only [List.Forall, nullary_writes, unary_writes, binary_writes, ternary_writes, reshape_writes, Finset.singleton_subset_iff, List.mem_toFinset]; exact List.mem_map_of_mem (show main_cst_7 ∈ opsL0_W by decide),
   by simp only [List.Forall, nullary_writes, unary_writes, binary_writes, ternary_writes, reshape_writes, Finset.singleton_subset_iff, List.mem_toFinset]; exact List.mem_map_of_mem (show main_v55 ∈ opsL0_W by decide),
   by simp only [List.Forall, nullary_writes, unary_writes, binary_writes, ternary_writes, reshape_writes, Finset.singleton_subset_iff, List.mem_toFinset]; exact List.mem_map_of_mem (show main_v56 ∈ opsL0_W by decide),
   by simp only [List.Forall, nullary_writes, unary_writes, binary_writes, ternary_writes, reshape_writes, Finset.singleton_subset_iff, List.mem_toFinset]; exact List.mem_map_of_mem (show main_c_8 ∈ opsL0_W by decide),
   by simp only [List.Forall, nullary_writes, unary_writes, binary_writes, ternary_writes, reshape_writes, Finset.singleton_subset_iff, List.mem_toFinset]; exact List.mem_map_of_mem (show main_call2.cst.ref ∈ opsL0_W by decide),
   by simp only [List.Forall, nullary_writes, unary_writes, binary_writes, ternary_writes, reshape_writes, Finset.singleton_subset_iff, List.mem_toFinset]; exact List.mem_map_of_mem (show main_call2.v0.ref ∈ opsL0_W by decide),
   by simp only [List.Forall, nullary_writes, unary_writes, binary_writes, ternary_writes, reshape_writes, Finset.singleton_subset_iff, List.mem_toFinset]; exact List.mem_map_of_mem (show main_call2.v1.ref ∈ opsL0_W by decide),
   by simp only [List.Forall, nullary_writes, unary_writes, binary_writes, ternary_writes, reshape_writes, Finset.singleton_subset_iff, List.mem_toFinset]; exact List.mem_map_of_mem (show main_call2.cst_0.ref ∈ opsL0_W by decide),
   by simp only [List.Forall, nullary_writes, unary_writes, binary_writes, ternary_writes, reshape_writes, Finset.singleton_subset_iff, List.mem_toFinset]; exact List.mem_map_of_mem (show main_call2.v2.ref ∈ opsL0_W by decide),
   by simp only [List.Forall, nullary_writes, unary_writes, binary_writes, ternary_writes, reshape_writes, Finset.singleton_subset_iff, List.mem_toFinset]; exact List.mem_map_of_mem (show main_call2.v3.ref ∈ opsL0_W by decide),
   by simp only [List.Forall, nullary_writes, unary_writes, binary_writes, ternary_writes, reshape_writes, Finset.singleton_subset_iff, List.mem_toFinset]; exact List.mem_map_of_mem (show main_call2.v4.ref ∈ opsL0_W by decide),
   by simp only [List.Forall, nullary_writes, unary_writes, binary_writes, ternary_writes, reshape_writes, Finset.singleton_subset_iff, List.mem_toFinset]; exact List.mem_map_of_mem (show main_call2.v5.ref ∈ opsL0_W by decide),
   by simp only [List.Forall, nullary_writes, unary_writes, binary_writes, ternary_writes, reshape_writes, Finset.singleton_subset_iff, List.mem_toFinset]; exact List.mem_map_of_mem (show main_call2.v6.ref ∈ opsL0_W by decide),
   by simp only [List.Forall, nullary_writes, unary_writes, binary_writes, ternary_writes, reshape_writes, Finset.singleton_subset_iff, List.mem_toFinset]; exact List.mem_map_of_mem (show main_call2.v7.ref ∈ opsL0_W by decide),
   by simp only [List.Forall, nullary_writes, unary_writes, binary_writes, ternary_writes, reshape_writes, Finset.singleton_subset_iff, List.mem_toFinset]; exact List.mem_map_of_mem (show main_call2.cst_1.ref ∈ opsL0_W by decide),
   by simp only [List.Forall, nullary_writes, unary_writes, binary_writes, ternary_writes, reshape_writes, Finset.singleton_subset_iff, List.mem_toFinset]; exact List.mem_map_of_mem (show main_call2.v8.ref ∈ opsL0_W by decide),
   by simp only [List.Forall, nullary_writes, unary_writes, binary_writes, ternary_writes, reshape_writes, Finset.singleton_subset_iff, List.mem_toFinset]; exact List.mem_map_of_mem (show main_call2.cst_2.ref ∈ opsL0_W by decide),
   by simp only [List.Forall, nullary_writes, unary_writes, binary_writes, ternary_writes, reshape_writes, Finset.singleton_subset_iff, List.mem_toFinset]; exact List.mem_map_of_mem (show main_call2.v9.ref ∈ opsL0_W by decide),
   by simp only [List.Forall, nullary_writes, unary_writes, binary_writes, ternary_writes, reshape_writes, Finset.singleton_subset_iff, List.mem_toFinset]; exact List.mem_map_of_mem (show main_call2.v10.ref ∈ opsL0_W by decide),
   by simp only [List.Forall, nullary_writes, unary_writes, binary_writes, ternary_writes, reshape_writes, Finset.singleton_subset_iff, List.mem_toFinset]; exact List.mem_map_of_mem (show main_call2.v11.ref ∈ opsL0_W by decide),
   by simp only [List.Forall, nullary_writes, unary_writes, binary_writes, ternary_writes, reshape_writes, Finset.singleton_subset_iff, List.mem_toFinset]; exact List.mem_map_of_mem (show main_call2.cst_3.ref ∈ opsL0_W by decide),
   by simp only [List.Forall, nullary_writes, unary_writes, binary_writes, ternary_writes, reshape_writes, Finset.singleton_subset_iff, List.mem_toFinset]; exact List.mem_map_of_mem (show main_call2.v12.ref ∈ opsL0_W by decide),
   by simp only [List.Forall, nullary_writes, unary_writes, binary_writes, ternary_writes, reshape_writes, Finset.singleton_subset_iff, List.mem_toFinset]; exact List.mem_map_of_mem (show main_call2.cst_4.ref ∈ opsL0_W by decide),
   by simp only [List.Forall, nullary_writes, unary_writes, binary_writes, ternary_writes, reshape_writes, Finset.singleton_subset_iff, List.mem_toFinset]; exact List.mem_map_of_mem (show main_call2.call0.v0.ref ∈ opsL0_W by decide),
   by simp only [List.Forall, nullary_writes, unary_writes, binary_writes, ternary_writes, reshape_writes, Finset.singleton_subset_iff, List.mem_toFinset]; exact List.mem_map_of_mem (show main_call2.call0.v1.ref ∈ opsL0_W by decide),
   by simp only [List.Forall, nullary_writes, unary_writes, binary_writes, ternary_writes, reshape_writes, Finset.singleton_subset_iff, List.mem_toFinset]; exact List.mem_map_of_mem (show main_call2.call0.v2.ref ∈ opsL0_W by decide),
   by simp only [List.Forall, nullary_writes, unary_writes, binary_writes, ternary_writes, reshape_writes, Finset.singleton_subset_iff, List.mem_toFinset]; exact List.mem_map_of_mem (show main_v58 ∈ opsL0_W by decide),
   by simp only [List.Forall, nullary_writes, unary_writes, binary_writes, ternary_writes, reshape_writes, Finset.singleton_subset_iff, List.mem_toFinset]; exact List.mem_map_of_mem (show main_v59 ∈ opsL0_W by decide),
   by simp only [List.Forall, nullary_writes, unary_writes, binary_writes, ternary_writes, reshape_writes, Finset.singleton_subset_iff, List.mem_toFinset]; exact List.mem_map_of_mem (show main_v60 ∈ opsL0_W by decide),
   by simp only [List.Forall, nullary_writes, unary_writes, binary_writes, ternary_writes, reshape_writes, Finset.singleton_subset_iff, List.mem_toFinset]; exact List.mem_map_of_mem (show main_v61 ∈ opsL0_W by decide),
   by simp only [List.Forall, nullary_writes, unary_writes, binary_writes, ternary_writes, reshape_writes, Finset.singleton_subset_iff, List.mem_toFinset]; exact List.mem_map_of_mem (show main_v62 ∈ opsL0_W by decide),
   by simp only [List.Forall, nullary_writes, unary_writes, binary_writes, ternary_writes, reshape_writes, Finset.singleton_subset_iff, List.mem_toFinset]; exact List.mem_map_of_mem (show main_v63 ∈ opsL0_W by decide),
   by simp only [List.Forall, nullary_writes, unary_writes, binary_writes, ternary_writes, reshape_writes, Finset.singleton_subset_iff, List.mem_toFinset]; exact List.mem_map_of_mem (show main_cst_9 ∈ opsL0_W by decide),
   by simp only [List.Forall, nullary_writes, unary_writes, binary_writes, ternary_writes, reshape_writes, Finset.singleton_subset_iff, List.mem_toFinset]; exact List.mem_map_of_mem (show main_v64 ∈ opsL0_W by decide),
   by simp only [List.Forall, nullary_writes, unary_writes, binary_writes, ternary_writes, reshape_writes, Finset.singleton_subset_iff, List.mem_toFinset]; exact List.mem_map_of_mem (show main_v65 ∈ opsL0_W by decide),
   by simp only [List.Forall, nullary_writes, unary_writes, binary_writes, ternary_writes, reshape_writes, Finset.singleton_subset_iff, List.mem_toFinset]; exact List.mem_map_of_mem (show main_v66 ∈ opsL0_W by decide),
   by simp only [List.Forall, nullary_writes, unary_writes, binary_writes, ternary_writes, reshape_writes, Finset.singleton_subset_iff, List.mem_toFinset]; exact List.mem_map_of_mem (show main_v67 ∈ opsL0_W by decide),
   by simp only [List.Forall, nullary_writes, unary_writes, binary_writes, ternary_writes, reshape_writes, Finset.singleton_subset_iff, List.mem_toFinset]; exact List.mem_map_of_mem (show main_v68 ∈ opsL0_W by decide),
   by simp only [List.Forall, nullary_writes, unary_writes, binary_writes, ternary_writes, reshape_writes, Finset.singleton_subset_iff, List.mem_toFinset]; exact List.mem_map_of_mem (show main_v69 ∈ opsL0_W by decide),
   by simp only [List.Forall, nullary_writes, unary_writes, binary_writes, ternary_writes, reshape_writes, Finset.singleton_subset_iff, List.mem_toFinset]; exact List.mem_map_of_mem (show main_v70 ∈ opsL0_W by decide),
   by simp only [List.Forall, nullary_writes, unary_writes, binary_writes, ternary_writes, reshape_writes, Finset.singleton_subset_iff, List.mem_toFinset]; exact List.mem_map_of_mem (show main_v71 ∈ opsL0_W by decide),
   by simp only [List.Forall, nullary_writes, unary_writes, binary_writes, ternary_writes, reshape_writes, Finset.singleton_subset_iff, List.mem_toFinset]; exact List.mem_map_of_mem (show main_v72 ∈ opsL0_W by decide),
   by simp only [List.Forall, nullary_writes, unary_writes, binary_writes, ternary_writes, reshape_writes, Finset.singleton_subset_iff, List.mem_toFinset]; exact List.mem_map_of_mem (show main_call3.cst.ref ∈ opsL0_W by decide),
   by simp only [List.Forall, nullary_writes, unary_writes, binary_writes, ternary_writes, reshape_writes, Finset.singleton_subset_iff, List.mem_toFinset]; exact List.mem_map_of_mem (show main_call3.v0.ref ∈ opsL0_W by decide),
   by simp only [List.Forall, nullary_writes, unary_writes, binary_writes, ternary_writes, reshape_writes, Finset.singleton_subset_iff, List.mem_toFinset]; exact List.mem_map_of_mem (show main_call3.v1.ref ∈ opsL0_W by decide)⟩

/-- A buffer the list does not write keeps its contents through it. -/
theorem opsL0_keep (V : Valuation τ sig (Elt F)) (r : Ref sig .tc) (h : r ∉ opsL0_W) :
    after opsL0 V (Proc.devRef .tc r) = V (Proc.devRef .tc r) :=
  after_of_writes_sub opsL0 V opsL0_writes h

/-! ### Layer 1 -/

set_option maxRecDepth 8192 in
/-- Every operation of the list touches TensorCore buffers only. -/
theorem opsL1_sub : (opsL1 : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., unary_bufs_sub ..,
    ternary_bufs_sub .., unary_bufs_sub .., reshape_bufs_sub .., nullary_bufs_sub .., binary_bufs_sub .., unary_bufs_sub ..,
    binary_bufs_sub .., binary_bufs_sub .., unary_bufs_sub .., reshape_bufs_sub .., binary_bufs_sub .., unary_bufs_sub ..,
    reshape_bufs_sub .., unary_bufs_sub .., reshape_bufs_sub .., nullary_bufs_sub .., binary_bufs_sub .., nullary_bufs_sub ..,
    unary_bufs_sub .., binary_bufs_sub .., nullary_bufs_sub .., nullary_bufs_sub .., binary_bufs_sub .., unary_bufs_sub ..,
    nullary_bufs_sub .., unary_bufs_sub .., binary_bufs_sub .., unary_bufs_sub .., binary_bufs_sub .., binary_bufs_sub ..,
    unary_bufs_sub .., nullary_bufs_sub .., binary_bufs_sub .., nullary_bufs_sub .., binary_bufs_sub .., unary_bufs_sub ..,
    binary_bufs_sub .., nullary_bufs_sub .., binary_bufs_sub .., nullary_bufs_sub .., unary_bufs_sub .., unary_bufs_sub ..,
    ternary_bufs_sub .., unary_bufs_sub .., unary_bufs_sub .., binary_bufs_sub .., unary_bufs_sub .., unary_bufs_sub ..,
    binary_bufs_sub .., nullary_bufs_sub .., unary_bufs_sub .., binary_bufs_sub .., unary_bufs_sub .., unary_bufs_sub ..,
    unary_bufs_sub .., binary_bufs_sub .., unary_bufs_sub .., unary_bufs_sub .., binary_bufs_sub .., nullary_bufs_sub ..,
    unary_bufs_sub .., binary_bufs_sub .., unary_bufs_sub .., reshape_bufs_sub .., binary_bufs_sub .., unary_bufs_sub ..,
    reshape_bufs_sub .., unary_bufs_sub .., reshape_bufs_sub .., nullary_bufs_sub .., binary_bufs_sub .., nullary_bufs_sub ..,
    unary_bufs_sub .., binary_bufs_sub .., nullary_bufs_sub .., nullary_bufs_sub .., binary_bufs_sub .., unary_bufs_sub ..,
    nullary_bufs_sub .., unary_bufs_sub .., binary_bufs_sub .., unary_bufs_sub .., binary_bufs_sub .., binary_bufs_sub ..,
    unary_bufs_sub .., nullary_bufs_sub .., binary_bufs_sub .., nullary_bufs_sub .., binary_bufs_sub .., unary_bufs_sub ..,
    binary_bufs_sub .., nullary_bufs_sub .., binary_bufs_sub .., nullary_bufs_sub .., unary_bufs_sub .., unary_bufs_sub ..,
    ternary_bufs_sub .., unary_bufs_sub .., unary_bufs_sub .., binary_bufs_sub .., unary_bufs_sub .., unary_bufs_sub ..,
    binary_bufs_sub .., nullary_bufs_sub .., unary_bufs_sub .., binary_bufs_sub .., unary_bufs_sub .., unary_bufs_sub ..,
    unary_bufs_sub .., binary_bufs_sub .., unary_bufs_sub .., unary_bufs_sub .., binary_bufs_sub .., nullary_bufs_sub ..,
    unary_bufs_sub .., binary_bufs_sub ..⟩

set_option maxRecDepth 8192 in
/-- Every operation of the list determines what it writes. -/
theorem opsL1_fresh : (opsL1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl⟩

/-- The buffers the list's operations write, in order. -/
abbrev opsL1_W : List (Ref sig .tc) :=
  [main_c_10, main_v74, main_v75, main_c_11, main_v76, main_v77, main_v78, main_v79,
   main_v80, main_cst_12, main_v81, main_v82, main_v83, main_v84, main_v85, main_cst_13,
   main_v86, main_v87, main_v88, main_v89, main_v90, main_v91, main_v92, main_v93,
   main_v94, main_v95, main_v96, main_cst_14, main_v97, main_cst_15, main_v98, main_v99,
   main_c_16, main_call4.cst.ref, main_call4.v0.ref, main_call4.v1.ref, main_call4.cst_0.ref, main_call4.v2.ref, main_call4.v3.ref, main_call4.v4.ref,
   main_call4.v5.ref, main_call4.v6.ref, main_call4.v7.ref, main_call4.cst_1.ref, main_call4.v8.ref, main_call4.cst_2.ref, main_call4.v9.ref, main_call4.v10.ref,
   main_call4.v11.ref, main_call4.cst_3.ref, main_call4.v12.ref, main_call4.cst_4.ref, main_call4.call0.v0.ref, main_call4.call0.v1.ref, main_call4.call0.v2.ref, main_v101,
   main_v102, main_v103, main_v104, main_v105, main_v106, main_cst_17, main_v107, main_v108,
   main_v109, main_v110, main_v111, main_v112, main_v113, main_v114, main_v115, main_call5.cst.ref,
   main_call5.v0.ref, main_call5.v1.ref, main_v117, main_v118, main_v119, main_v120, main_v121, main_v122,
   main_v123, main_cst_18, main_v124, main_cst_19, main_v125, main_v126, main_c_20, main_call6.cst.ref,
   main_call6.v0.ref, main_call6.v1.ref, main_call6.cst_0.ref, main_call6.v2.ref, main_call6.v3.ref, main_call6.v4.ref, main_call6.v5.ref, main_call6.v6.ref,
   main_call6.v7.ref, main_call6.cst_1.ref, main_call6.v8.ref, main_call6.cst_2.ref, main_call6.v9.ref, main_call6.v10.ref, main_call6.v11.ref, main_call6.cst_3.ref,
   main_call6.v12.ref, main_call6.cst_4.ref, main_call6.call0.v0.ref, main_call6.call0.v1.ref, main_call6.call0.v2.ref, main_v128, main_v129, main_v130,
   main_v131, main_v132, main_v133, main_cst_21, main_v134, main_v135, main_v136, main_v137,
   main_v138, main_v139, main_v140, main_v141, main_v142, main_call7.cst.ref, main_call7.v0.ref, main_call7.v1.ref]

set_option maxRecDepth 8192 in
set_option maxHeartbeats 4000000 in
theorem opsL1_writes : (opsL1 : List (HloOp τ sig (Elt F))).Forall fun op => op.writes ⊆ (opsL1_W.map (Proc.devRef (τ := τ) .tc)).toFinset :=
  ⟨by simp only [List.Forall, nullary_writes, unary_writes, binary_writes, ternary_writes, reshape_writes, Finset.singleton_subset_iff, List.mem_toFinset]; exact List.mem_map_of_mem (show main_c_10 ∈ opsL1_W by decide),
   by simp only [List.Forall, nullary_writes, unary_writes, binary_writes, ternary_writes, reshape_writes, Finset.singleton_subset_iff, List.mem_toFinset]; exact List.mem_map_of_mem (show main_v74 ∈ opsL1_W by decide),
   by simp only [List.Forall, nullary_writes, unary_writes, binary_writes, ternary_writes, reshape_writes, Finset.singleton_subset_iff, List.mem_toFinset]; exact List.mem_map_of_mem (show main_v75 ∈ opsL1_W by decide),
   by simp only [List.Forall, nullary_writes, unary_writes, binary_writes, ternary_writes, reshape_writes, Finset.singleton_subset_iff, List.mem_toFinset]; exact List.mem_map_of_mem (show main_c_11 ∈ opsL1_W by decide),
   by simp only [List.Forall, nullary_writes, unary_writes, binary_writes, ternary_writes, reshape_writes, Finset.singleton_subset_iff, List.mem_toFinset]; exact List.mem_map_of_mem (show main_v76 ∈ opsL1_W by decide),
   by simp only [List.Forall, nullary_writes, unary_writes, binary_writes, ternary_writes, reshape_writes, Finset.singleton_subset_iff, List.mem_toFinset]; exact List.mem_map_of_mem (show main_v77 ∈ opsL1_W by decide),
   by simp only [List.Forall, nullary_writes, unary_writes, binary_writes, ternary_writes, reshape_writes, Finset.singleton_subset_iff, List.mem_toFinset]; exact List.mem_map_of_mem (show main_v78 ∈ opsL1_W by decide),
   by simp only [List.Forall, nullary_writes, unary_writes, binary_writes, ternary_writes, reshape_writes, Finset.singleton_subset_iff, List.mem_toFinset]; exact List.mem_map_of_mem (show main_v79 ∈ opsL1_W by decide),
   by simp only [List.Forall, nullary_writes, unary_writes, binary_writes, ternary_writes, reshape_writes, Finset.singleton_subset_iff, List.mem_toFinset]; exact List.mem_map_of_mem (show main_v80 ∈ opsL1_W by decide),
   by simp only [List.Forall, nullary_writes, unary_writes, binary_writes, ternary_writes, reshape_writes, Finset.singleton_subset_iff, List.mem_toFinset]; exact List.mem_map_of_mem (show main_cst_12 ∈ opsL1_W by decide),
   by simp only [List.Forall, nullary_writes, unary_writes, binary_writes, ternary_writes, reshape_writes, Finset.singleton_subset_iff, List.mem_toFinset]; exact List.mem_map_of_mem (show main_v81 ∈ opsL1_W by decide),
   by simp only [List.Forall, nullary_writes, unary_writes, binary_writes, ternary_writes, reshape_writes, Finset.singleton_subset_iff, List.mem_toFinset]; exact List.mem_map_of_mem (show main_v82 ∈ opsL1_W by decide),
   by simp only [List.Forall, nullary_writes, unary_writes, binary_writes, ternary_writes, reshape_writes, Finset.singleton_subset_iff, List.mem_toFinset]; exact List.mem_map_of_mem (show main_v83 ∈ opsL1_W by decide),
   by simp only [List.Forall, nullary_writes, unary_writes, binary_writes, ternary_writes, reshape_writes, Finset.singleton_subset_iff, List.mem_toFinset]; exact List.mem_map_of_mem (show main_v84 ∈ opsL1_W by decide),
   by simp only [List.Forall, nullary_writes, unary_writes, binary_writes, ternary_writes, reshape_writes, Finset.singleton_subset_iff, List.mem_toFinset]; exact List.mem_map_of_mem (show main_v85 ∈ opsL1_W by decide),
   by simp only [List.Forall, nullary_writes, unary_writes, binary_writes, ternary_writes, reshape_writes, Finset.singleton_subset_iff, List.mem_toFinset]; exact List.mem_map_of_mem (show main_cst_13 ∈ opsL1_W by decide),
   by simp only [List.Forall, nullary_writes, unary_writes, binary_writes, ternary_writes, reshape_writes, Finset.singleton_subset_iff, List.mem_toFinset]; exact List.mem_map_of_mem (show main_v86 ∈ opsL1_W by decide),
   by simp only [List.Forall, nullary_writes, unary_writes, binary_writes, ternary_writes, reshape_writes, Finset.singleton_subset_iff, List.mem_toFinset]; exact List.mem_map_of_mem (show main_v87 ∈ opsL1_W by decide),
   by simp only [List.Forall, nullary_writes, unary_writes, binary_writes, ternary_writes, reshape_writes, Finset.singleton_subset_iff, List.mem_toFinset]; exact List.mem_map_of_mem (show main_v88 ∈ opsL1_W by decide),
   by simp only [List.Forall, nullary_writes, unary_writes, binary_writes, ternary_writes, reshape_writes, Finset.singleton_subset_iff, List.mem_toFinset]; exact List.mem_map_of_mem (show main_v89 ∈ opsL1_W by decide),
   by simp only [List.Forall, nullary_writes, unary_writes, binary_writes, ternary_writes, reshape_writes, Finset.singleton_subset_iff, List.mem_toFinset]; exact List.mem_map_of_mem (show main_v90 ∈ opsL1_W by decide),
   by simp only [List.Forall, nullary_writes, unary_writes, binary_writes, ternary_writes, reshape_writes, Finset.singleton_subset_iff, List.mem_toFinset]; exact List.mem_map_of_mem (show main_v91 ∈ opsL1_W by decide),
   by simp only [List.Forall, nullary_writes, unary_writes, binary_writes, ternary_writes, reshape_writes, Finset.singleton_subset_iff, List.mem_toFinset]; exact List.mem_map_of_mem (show main_v92 ∈ opsL1_W by decide),
   by simp only [List.Forall, nullary_writes, unary_writes, binary_writes, ternary_writes, reshape_writes, Finset.singleton_subset_iff, List.mem_toFinset]; exact List.mem_map_of_mem (show main_v93 ∈ opsL1_W by decide),
   by simp only [List.Forall, nullary_writes, unary_writes, binary_writes, ternary_writes, reshape_writes, Finset.singleton_subset_iff, List.mem_toFinset]; exact List.mem_map_of_mem (show main_v94 ∈ opsL1_W by decide),
   by simp only [List.Forall, nullary_writes, unary_writes, binary_writes, ternary_writes, reshape_writes, Finset.singleton_subset_iff, List.mem_toFinset]; exact List.mem_map_of_mem (show main_v95 ∈ opsL1_W by decide),
   by simp only [List.Forall, nullary_writes, unary_writes, binary_writes, ternary_writes, reshape_writes, Finset.singleton_subset_iff, List.mem_toFinset]; exact List.mem_map_of_mem (show main_v96 ∈ opsL1_W by decide),
   by simp only [List.Forall, nullary_writes, unary_writes, binary_writes, ternary_writes, reshape_writes, Finset.singleton_subset_iff, List.mem_toFinset]; exact List.mem_map_of_mem (show main_cst_14 ∈ opsL1_W by decide),
   by simp only [List.Forall, nullary_writes, unary_writes, binary_writes, ternary_writes, reshape_writes, Finset.singleton_subset_iff, List.mem_toFinset]; exact List.mem_map_of_mem (show main_v97 ∈ opsL1_W by decide),
   by simp only [List.Forall, nullary_writes, unary_writes, binary_writes, ternary_writes, reshape_writes, Finset.singleton_subset_iff, List.mem_toFinset]; exact List.mem_map_of_mem (show main_cst_15 ∈ opsL1_W by decide),
   by simp only [List.Forall, nullary_writes, unary_writes, binary_writes, ternary_writes, reshape_writes, Finset.singleton_subset_iff, List.mem_toFinset]; exact List.mem_map_of_mem (show main_v98 ∈ opsL1_W by decide),
   by simp only [List.Forall, nullary_writes, unary_writes, binary_writes, ternary_writes, reshape_writes, Finset.singleton_subset_iff, List.mem_toFinset]; exact List.mem_map_of_mem (show main_v99 ∈ opsL1_W by decide),
   by simp only [List.Forall, nullary_writes, unary_writes, binary_writes, ternary_writes, reshape_writes, Finset.singleton_subset_iff, List.mem_toFinset]; exact List.mem_map_of_mem (show main_c_16 ∈ opsL1_W by decide),
   by simp only [List.Forall, nullary_writes, unary_writes, binary_writes, ternary_writes, reshape_writes, Finset.singleton_subset_iff, List.mem_toFinset]; exact List.mem_map_of_mem (show main_call4.cst.ref ∈ opsL1_W by decide),
   by simp only [List.Forall, nullary_writes, unary_writes, binary_writes, ternary_writes, reshape_writes, Finset.singleton_subset_iff, List.mem_toFinset]; exact List.mem_map_of_mem (show main_call4.v0.ref ∈ opsL1_W by decide),
   by simp only [List.Forall, nullary_writes, unary_writes, binary_writes, ternary_writes, reshape_writes, Finset.singleton_subset_iff, List.mem_toFinset]; exact List.mem_map_of_mem (show main_call4.v1.ref ∈ opsL1_W by decide),
   by simp only [List.Forall, nullary_writes, unary_writes, binary_writes, ternary_writes, reshape_writes, Finset.singleton_subset_iff, List.mem_toFinset]; exact List.mem_map_of_mem (show main_call4.cst_0.ref ∈ opsL1_W by decide),
   by simp only [List.Forall, nullary_writes, unary_writes, binary_writes, ternary_writes, reshape_writes, Finset.singleton_subset_iff, List.mem_toFinset]; exact List.mem_map_of_mem (show main_call4.v2.ref ∈ opsL1_W by decide),
   by simp only [List.Forall, nullary_writes, unary_writes, binary_writes, ternary_writes, reshape_writes, Finset.singleton_subset_iff, List.mem_toFinset]; exact List.mem_map_of_mem (show main_call4.v3.ref ∈ opsL1_W by decide),
   by simp only [List.Forall, nullary_writes, unary_writes, binary_writes, ternary_writes, reshape_writes, Finset.singleton_subset_iff, List.mem_toFinset]; exact List.mem_map_of_mem (show main_call4.v4.ref ∈ opsL1_W by decide),
   by simp only [List.Forall, nullary_writes, unary_writes, binary_writes, ternary_writes, reshape_writes, Finset.singleton_subset_iff, List.mem_toFinset]; exact List.mem_map_of_mem (show main_call4.v5.ref ∈ opsL1_W by decide),
   by simp only [List.Forall, nullary_writes, unary_writes, binary_writes, ternary_writes, reshape_writes, Finset.singleton_subset_iff, List.mem_toFinset]; exact List.mem_map_of_mem (show main_call4.v6.ref ∈ opsL1_W by decide),
   by simp only [List.Forall, nullary_writes, unary_writes, binary_writes, ternary_writes, reshape_writes, Finset.singleton_subset_iff, List.mem_toFinset]; exact List.mem_map_of_mem (show main_call4.v7.ref ∈ opsL1_W by decide),
   by simp only [List.Forall, nullary_writes, unary_writes, binary_writes, ternary_writes, reshape_writes, Finset.singleton_subset_iff, List.mem_toFinset]; exact List.mem_map_of_mem (show main_call4.cst_1.ref ∈ opsL1_W by decide),
   by simp only [List.Forall, nullary_writes, unary_writes, binary_writes, ternary_writes, reshape_writes, Finset.singleton_subset_iff, List.mem_toFinset]; exact List.mem_map_of_mem (show main_call4.v8.ref ∈ opsL1_W by decide),
   by simp only [List.Forall, nullary_writes, unary_writes, binary_writes, ternary_writes, reshape_writes, Finset.singleton_subset_iff, List.mem_toFinset]; exact List.mem_map_of_mem (show main_call4.cst_2.ref ∈ opsL1_W by decide),
   by simp only [List.Forall, nullary_writes, unary_writes, binary_writes, ternary_writes, reshape_writes, Finset.singleton_subset_iff, List.mem_toFinset]; exact List.mem_map_of_mem (show main_call4.v9.ref ∈ opsL1_W by decide),
   by simp only [List.Forall, nullary_writes, unary_writes, binary_writes, ternary_writes, reshape_writes, Finset.singleton_subset_iff, List.mem_toFinset]; exact List.mem_map_of_mem (show main_call4.v10.ref ∈ opsL1_W by decide),
   by simp only [List.Forall, nullary_writes, unary_writes, binary_writes, ternary_writes, reshape_writes, Finset.singleton_subset_iff, List.mem_toFinset]; exact List.mem_map_of_mem (show main_call4.v11.ref ∈ opsL1_W by decide),
   by simp only [List.Forall, nullary_writes, unary_writes, binary_writes, ternary_writes, reshape_writes, Finset.singleton_subset_iff, List.mem_toFinset]; exact List.mem_map_of_mem (show main_call4.cst_3.ref ∈ opsL1_W by decide),
   by simp only [List.Forall, nullary_writes, unary_writes, binary_writes, ternary_writes, reshape_writes, Finset.singleton_subset_iff, List.mem_toFinset]; exact List.mem_map_of_mem (show main_call4.v12.ref ∈ opsL1_W by decide),
   by simp only [List.Forall, nullary_writes, unary_writes, binary_writes, ternary_writes, reshape_writes, Finset.singleton_subset_iff, List.mem_toFinset]; exact List.mem_map_of_mem (show main_call4.cst_4.ref ∈ opsL1_W by decide),
   by simp only [List.Forall, nullary_writes, unary_writes, binary_writes, ternary_writes, reshape_writes, Finset.singleton_subset_iff, List.mem_toFinset]; exact List.mem_map_of_mem (show main_call4.call0.v0.ref ∈ opsL1_W by decide),
   by simp only [List.Forall, nullary_writes, unary_writes, binary_writes, ternary_writes, reshape_writes, Finset.singleton_subset_iff, List.mem_toFinset]; exact List.mem_map_of_mem (show main_call4.call0.v1.ref ∈ opsL1_W by decide),
   by simp only [List.Forall, nullary_writes, unary_writes, binary_writes, ternary_writes, reshape_writes, Finset.singleton_subset_iff, List.mem_toFinset]; exact List.mem_map_of_mem (show main_call4.call0.v2.ref ∈ opsL1_W by decide),
   by simp only [List.Forall, nullary_writes, unary_writes, binary_writes, ternary_writes, reshape_writes, Finset.singleton_subset_iff, List.mem_toFinset]; exact List.mem_map_of_mem (show main_v101 ∈ opsL1_W by decide),
   by simp only [List.Forall, nullary_writes, unary_writes, binary_writes, ternary_writes, reshape_writes, Finset.singleton_subset_iff, List.mem_toFinset]; exact List.mem_map_of_mem (show main_v102 ∈ opsL1_W by decide),
   by simp only [List.Forall, nullary_writes, unary_writes, binary_writes, ternary_writes, reshape_writes, Finset.singleton_subset_iff, List.mem_toFinset]; exact List.mem_map_of_mem (show main_v103 ∈ opsL1_W by decide),
   by simp only [List.Forall, nullary_writes, unary_writes, binary_writes, ternary_writes, reshape_writes, Finset.singleton_subset_iff, List.mem_toFinset]; exact List.mem_map_of_mem (show main_v104 ∈ opsL1_W by decide),
   by simp only [List.Forall, nullary_writes, unary_writes, binary_writes, ternary_writes, reshape_writes, Finset.singleton_subset_iff, List.mem_toFinset]; exact List.mem_map_of_mem (show main_v105 ∈ opsL1_W by decide),
   by simp only [List.Forall, nullary_writes, unary_writes, binary_writes, ternary_writes, reshape_writes, Finset.singleton_subset_iff, List.mem_toFinset]; exact List.mem_map_of_mem (show main_v106 ∈ opsL1_W by decide),
   by simp only [List.Forall, nullary_writes, unary_writes, binary_writes, ternary_writes, reshape_writes, Finset.singleton_subset_iff, List.mem_toFinset]; exact List.mem_map_of_mem (show main_cst_17 ∈ opsL1_W by decide),
   by simp only [List.Forall, nullary_writes, unary_writes, binary_writes, ternary_writes, reshape_writes, Finset.singleton_subset_iff, List.mem_toFinset]; exact List.mem_map_of_mem (show main_v107 ∈ opsL1_W by decide),
   by simp only [List.Forall, nullary_writes, unary_writes, binary_writes, ternary_writes, reshape_writes, Finset.singleton_subset_iff, List.mem_toFinset]; exact List.mem_map_of_mem (show main_v108 ∈ opsL1_W by decide),
   by simp only [List.Forall, nullary_writes, unary_writes, binary_writes, ternary_writes, reshape_writes, Finset.singleton_subset_iff, List.mem_toFinset]; exact List.mem_map_of_mem (show main_v109 ∈ opsL1_W by decide),
   by simp only [List.Forall, nullary_writes, unary_writes, binary_writes, ternary_writes, reshape_writes, Finset.singleton_subset_iff, List.mem_toFinset]; exact List.mem_map_of_mem (show main_v110 ∈ opsL1_W by decide),
   by simp only [List.Forall, nullary_writes, unary_writes, binary_writes, ternary_writes, reshape_writes, Finset.singleton_subset_iff, List.mem_toFinset]; exact List.mem_map_of_mem (show main_v111 ∈ opsL1_W by decide),
   by simp only [List.Forall, nullary_writes, unary_writes, binary_writes, ternary_writes, reshape_writes, Finset.singleton_subset_iff, List.mem_toFinset]; exact List.mem_map_of_mem (show main_v112 ∈ opsL1_W by decide),
   by simp only [List.Forall, nullary_writes, unary_writes, binary_writes, ternary_writes, reshape_writes, Finset.singleton_subset_iff, List.mem_toFinset]; exact List.mem_map_of_mem (show main_v113 ∈ opsL1_W by decide),
   by simp only [List.Forall, nullary_writes, unary_writes, binary_writes, ternary_writes, reshape_writes, Finset.singleton_subset_iff, List.mem_toFinset]; exact List.mem_map_of_mem (show main_v114 ∈ opsL1_W by decide),
   by simp only [List.Forall, nullary_writes, unary_writes, binary_writes, ternary_writes, reshape_writes, Finset.singleton_subset_iff, List.mem_toFinset]; exact List.mem_map_of_mem (show main_v115 ∈ opsL1_W by decide),
   by simp only [List.Forall, nullary_writes, unary_writes, binary_writes, ternary_writes, reshape_writes, Finset.singleton_subset_iff, List.mem_toFinset]; exact List.mem_map_of_mem (show main_call5.cst.ref ∈ opsL1_W by decide),
   by simp only [List.Forall, nullary_writes, unary_writes, binary_writes, ternary_writes, reshape_writes, Finset.singleton_subset_iff, List.mem_toFinset]; exact List.mem_map_of_mem (show main_call5.v0.ref ∈ opsL1_W by decide),
   by simp only [List.Forall, nullary_writes, unary_writes, binary_writes, ternary_writes, reshape_writes, Finset.singleton_subset_iff, List.mem_toFinset]; exact List.mem_map_of_mem (show main_call5.v1.ref ∈ opsL1_W by decide),
   by simp only [List.Forall, nullary_writes, unary_writes, binary_writes, ternary_writes, reshape_writes, Finset.singleton_subset_iff, List.mem_toFinset]; exact List.mem_map_of_mem (show main_v117 ∈ opsL1_W by decide),
   by simp only [List.Forall, nullary_writes, unary_writes, binary_writes, ternary_writes, reshape_writes, Finset.singleton_subset_iff, List.mem_toFinset]; exact List.mem_map_of_mem (show main_v118 ∈ opsL1_W by decide),
   by simp only [List.Forall, nullary_writes, unary_writes, binary_writes, ternary_writes, reshape_writes, Finset.singleton_subset_iff, List.mem_toFinset]; exact List.mem_map_of_mem (show main_v119 ∈ opsL1_W by decide),
   by simp only [List.Forall, nullary_writes, unary_writes, binary_writes, ternary_writes, reshape_writes, Finset.singleton_subset_iff, List.mem_toFinset]; exact List.mem_map_of_mem (show main_v120 ∈ opsL1_W by decide),
   by simp only [List.Forall, nullary_writes, unary_writes, binary_writes, ternary_writes, reshape_writes, Finset.singleton_subset_iff, List.mem_toFinset]; exact List.mem_map_of_mem (show main_v121 ∈ opsL1_W by decide),
   by simp only [List.Forall, nullary_writes, unary_writes, binary_writes, ternary_writes, reshape_writes, Finset.singleton_subset_iff, List.mem_toFinset]; exact List.mem_map_of_mem (show main_v122 ∈ opsL1_W by decide),
   by simp only [List.Forall, nullary_writes, unary_writes, binary_writes, ternary_writes, reshape_writes, Finset.singleton_subset_iff, List.mem_toFinset]; exact List.mem_map_of_mem (show main_v123 ∈ opsL1_W by decide),
   by simp only [List.Forall, nullary_writes, unary_writes, binary_writes, ternary_writes, reshape_writes, Finset.singleton_subset_iff, List.mem_toFinset]; exact List.mem_map_of_mem (show main_cst_18 ∈ opsL1_W by decide),
   by simp only [List.Forall, nullary_writes, unary_writes, binary_writes, ternary_writes, reshape_writes, Finset.singleton_subset_iff, List.mem_toFinset]; exact List.mem_map_of_mem (show main_v124 ∈ opsL1_W by decide),
   by simp only [List.Forall, nullary_writes, unary_writes, binary_writes, ternary_writes, reshape_writes, Finset.singleton_subset_iff, List.mem_toFinset]; exact List.mem_map_of_mem (show main_cst_19 ∈ opsL1_W by decide),
   by simp only [List.Forall, nullary_writes, unary_writes, binary_writes, ternary_writes, reshape_writes, Finset.singleton_subset_iff, List.mem_toFinset]; exact List.mem_map_of_mem (show main_v125 ∈ opsL1_W by decide),
   by simp only [List.Forall, nullary_writes, unary_writes, binary_writes, ternary_writes, reshape_writes, Finset.singleton_subset_iff, List.mem_toFinset]; exact List.mem_map_of_mem (show main_v126 ∈ opsL1_W by decide),
   by simp only [List.Forall, nullary_writes, unary_writes, binary_writes, ternary_writes, reshape_writes, Finset.singleton_subset_iff, List.mem_toFinset]; exact List.mem_map_of_mem (show main_c_20 ∈ opsL1_W by decide),
   by simp only [List.Forall, nullary_writes, unary_writes, binary_writes, ternary_writes, reshape_writes, Finset.singleton_subset_iff, List.mem_toFinset]; exact List.mem_map_of_mem (show main_call6.cst.ref ∈ opsL1_W by decide),
   by simp only [List.Forall, nullary_writes, unary_writes, binary_writes, ternary_writes, reshape_writes, Finset.singleton_subset_iff, List.mem_toFinset]; exact List.mem_map_of_mem (show main_call6.v0.ref ∈ opsL1_W by decide),
   by simp only [List.Forall, nullary_writes, unary_writes, binary_writes, ternary_writes, reshape_writes, Finset.singleton_subset_iff, List.mem_toFinset]; exact List.mem_map_of_mem (show main_call6.v1.ref ∈ opsL1_W by decide),
   by simp only [List.Forall, nullary_writes, unary_writes, binary_writes, ternary_writes, reshape_writes, Finset.singleton_subset_iff, List.mem_toFinset]; exact List.mem_map_of_mem (show main_call6.cst_0.ref ∈ opsL1_W by decide),
   by simp only [List.Forall, nullary_writes, unary_writes, binary_writes, ternary_writes, reshape_writes, Finset.singleton_subset_iff, List.mem_toFinset]; exact List.mem_map_of_mem (show main_call6.v2.ref ∈ opsL1_W by decide),
   by simp only [List.Forall, nullary_writes, unary_writes, binary_writes, ternary_writes, reshape_writes, Finset.singleton_subset_iff, List.mem_toFinset]; exact List.mem_map_of_mem (show main_call6.v3.ref ∈ opsL1_W by decide),
   by simp only [List.Forall, nullary_writes, unary_writes, binary_writes, ternary_writes, reshape_writes, Finset.singleton_subset_iff, List.mem_toFinset]; exact List.mem_map_of_mem (show main_call6.v4.ref ∈ opsL1_W by decide),
   by simp only [List.Forall, nullary_writes, unary_writes, binary_writes, ternary_writes, reshape_writes, Finset.singleton_subset_iff, List.mem_toFinset]; exact List.mem_map_of_mem (show main_call6.v5.ref ∈ opsL1_W by decide),
   by simp only [List.Forall, nullary_writes, unary_writes, binary_writes, ternary_writes, reshape_writes, Finset.singleton_subset_iff, List.mem_toFinset]; exact List.mem_map_of_mem (show main_call6.v6.ref ∈ opsL1_W by decide),
   by simp only [List.Forall, nullary_writes, unary_writes, binary_writes, ternary_writes, reshape_writes, Finset.singleton_subset_iff, List.mem_toFinset]; exact List.mem_map_of_mem (show main_call6.v7.ref ∈ opsL1_W by decide),
   by simp only [List.Forall, nullary_writes, unary_writes, binary_writes, ternary_writes, reshape_writes, Finset.singleton_subset_iff, List.mem_toFinset]; exact List.mem_map_of_mem (show main_call6.cst_1.ref ∈ opsL1_W by decide),
   by simp only [List.Forall, nullary_writes, unary_writes, binary_writes, ternary_writes, reshape_writes, Finset.singleton_subset_iff, List.mem_toFinset]; exact List.mem_map_of_mem (show main_call6.v8.ref ∈ opsL1_W by decide),
   by simp only [List.Forall, nullary_writes, unary_writes, binary_writes, ternary_writes, reshape_writes, Finset.singleton_subset_iff, List.mem_toFinset]; exact List.mem_map_of_mem (show main_call6.cst_2.ref ∈ opsL1_W by decide),
   by simp only [List.Forall, nullary_writes, unary_writes, binary_writes, ternary_writes, reshape_writes, Finset.singleton_subset_iff, List.mem_toFinset]; exact List.mem_map_of_mem (show main_call6.v9.ref ∈ opsL1_W by decide),
   by simp only [List.Forall, nullary_writes, unary_writes, binary_writes, ternary_writes, reshape_writes, Finset.singleton_subset_iff, List.mem_toFinset]; exact List.mem_map_of_mem (show main_call6.v10.ref ∈ opsL1_W by decide),
   by simp only [List.Forall, nullary_writes, unary_writes, binary_writes, ternary_writes, reshape_writes, Finset.singleton_subset_iff, List.mem_toFinset]; exact List.mem_map_of_mem (show main_call6.v11.ref ∈ opsL1_W by decide),
   by simp only [List.Forall, nullary_writes, unary_writes, binary_writes, ternary_writes, reshape_writes, Finset.singleton_subset_iff, List.mem_toFinset]; exact List.mem_map_of_mem (show main_call6.cst_3.ref ∈ opsL1_W by decide),
   by simp only [List.Forall, nullary_writes, unary_writes, binary_writes, ternary_writes, reshape_writes, Finset.singleton_subset_iff, List.mem_toFinset]; exact List.mem_map_of_mem (show main_call6.v12.ref ∈ opsL1_W by decide),
   by simp only [List.Forall, nullary_writes, unary_writes, binary_writes, ternary_writes, reshape_writes, Finset.singleton_subset_iff, List.mem_toFinset]; exact List.mem_map_of_mem (show main_call6.cst_4.ref ∈ opsL1_W by decide),
   by simp only [List.Forall, nullary_writes, unary_writes, binary_writes, ternary_writes, reshape_writes, Finset.singleton_subset_iff, List.mem_toFinset]; exact List.mem_map_of_mem (show main_call6.call0.v0.ref ∈ opsL1_W by decide),
   by simp only [List.Forall, nullary_writes, unary_writes, binary_writes, ternary_writes, reshape_writes, Finset.singleton_subset_iff, List.mem_toFinset]; exact List.mem_map_of_mem (show main_call6.call0.v1.ref ∈ opsL1_W by decide),
   by simp only [List.Forall, nullary_writes, unary_writes, binary_writes, ternary_writes, reshape_writes, Finset.singleton_subset_iff, List.mem_toFinset]; exact List.mem_map_of_mem (show main_call6.call0.v2.ref ∈ opsL1_W by decide),
   by simp only [List.Forall, nullary_writes, unary_writes, binary_writes, ternary_writes, reshape_writes, Finset.singleton_subset_iff, List.mem_toFinset]; exact List.mem_map_of_mem (show main_v128 ∈ opsL1_W by decide),
   by simp only [List.Forall, nullary_writes, unary_writes, binary_writes, ternary_writes, reshape_writes, Finset.singleton_subset_iff, List.mem_toFinset]; exact List.mem_map_of_mem (show main_v129 ∈ opsL1_W by decide),
   by simp only [List.Forall, nullary_writes, unary_writes, binary_writes, ternary_writes, reshape_writes, Finset.singleton_subset_iff, List.mem_toFinset]; exact List.mem_map_of_mem (show main_v130 ∈ opsL1_W by decide),
   by simp only [List.Forall, nullary_writes, unary_writes, binary_writes, ternary_writes, reshape_writes, Finset.singleton_subset_iff, List.mem_toFinset]; exact List.mem_map_of_mem (show main_v131 ∈ opsL1_W by decide),
   by simp only [List.Forall, nullary_writes, unary_writes, binary_writes, ternary_writes, reshape_writes, Finset.singleton_subset_iff, List.mem_toFinset]; exact List.mem_map_of_mem (show main_v132 ∈ opsL1_W by decide),
   by simp only [List.Forall, nullary_writes, unary_writes, binary_writes, ternary_writes, reshape_writes, Finset.singleton_subset_iff, List.mem_toFinset]; exact List.mem_map_of_mem (show main_v133 ∈ opsL1_W by decide),
   by simp only [List.Forall, nullary_writes, unary_writes, binary_writes, ternary_writes, reshape_writes, Finset.singleton_subset_iff, List.mem_toFinset]; exact List.mem_map_of_mem (show main_cst_21 ∈ opsL1_W by decide),
   by simp only [List.Forall, nullary_writes, unary_writes, binary_writes, ternary_writes, reshape_writes, Finset.singleton_subset_iff, List.mem_toFinset]; exact List.mem_map_of_mem (show main_v134 ∈ opsL1_W by decide),
   by simp only [List.Forall, nullary_writes, unary_writes, binary_writes, ternary_writes, reshape_writes, Finset.singleton_subset_iff, List.mem_toFinset]; exact List.mem_map_of_mem (show main_v135 ∈ opsL1_W by decide),
   by simp only [List.Forall, nullary_writes, unary_writes, binary_writes, ternary_writes, reshape_writes, Finset.singleton_subset_iff, List.mem_toFinset]; exact List.mem_map_of_mem (show main_v136 ∈ opsL1_W by decide),
   by simp only [List.Forall, nullary_writes, unary_writes, binary_writes, ternary_writes, reshape_writes, Finset.singleton_subset_iff, List.mem_toFinset]; exact List.mem_map_of_mem (show main_v137 ∈ opsL1_W by decide),
   by simp only [List.Forall, nullary_writes, unary_writes, binary_writes, ternary_writes, reshape_writes, Finset.singleton_subset_iff, List.mem_toFinset]; exact List.mem_map_of_mem (show main_v138 ∈ opsL1_W by decide),
   by simp only [List.Forall, nullary_writes, unary_writes, binary_writes, ternary_writes, reshape_writes, Finset.singleton_subset_iff, List.mem_toFinset]; exact List.mem_map_of_mem (show main_v139 ∈ opsL1_W by decide),
   by simp only [List.Forall, nullary_writes, unary_writes, binary_writes, ternary_writes, reshape_writes, Finset.singleton_subset_iff, List.mem_toFinset]; exact List.mem_map_of_mem (show main_v140 ∈ opsL1_W by decide),
   by simp only [List.Forall, nullary_writes, unary_writes, binary_writes, ternary_writes, reshape_writes, Finset.singleton_subset_iff, List.mem_toFinset]; exact List.mem_map_of_mem (show main_v141 ∈ opsL1_W by decide),
   by simp only [List.Forall, nullary_writes, unary_writes, binary_writes, ternary_writes, reshape_writes, Finset.singleton_subset_iff, List.mem_toFinset]; exact List.mem_map_of_mem (show main_v142 ∈ opsL1_W by decide),
   by simp only [List.Forall, nullary_writes, unary_writes, binary_writes, ternary_writes, reshape_writes, Finset.singleton_subset_iff, List.mem_toFinset]; exact List.mem_map_of_mem (show main_call7.cst.ref ∈ opsL1_W by decide),
   by simp only [List.Forall, nullary_writes, unary_writes, binary_writes, ternary_writes, reshape_writes, Finset.singleton_subset_iff, List.mem_toFinset]; exact List.mem_map_of_mem (show main_call7.v0.ref ∈ opsL1_W by decide),
   by simp only [List.Forall, nullary_writes, unary_writes, binary_writes, ternary_writes, reshape_writes, Finset.singleton_subset_iff, List.mem_toFinset]; exact List.mem_map_of_mem (show main_call7.v1.ref ∈ opsL1_W by decide)⟩

/-- A buffer the list does not write keeps its contents through it. -/
theorem opsL1_keep (V : Valuation τ sig (Elt F)) (r : Ref sig .tc) (h : r ∉ opsL1_W) :
    after opsL1 V (Proc.devRef .tc r) = V (Proc.devRef .tc r) :=
  after_of_writes_sub opsL1 V opsL1_writes h

/-! ### Layer 2 -/

set_option maxRecDepth 8192 in
/-- Every operation of the list touches TensorCore buffers only. -/
theorem opsL2_sub : (opsL2 : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., unary_bufs_sub ..,
    ternary_bufs_sub .., unary_bufs_sub .., reshape_bufs_sub .., nullary_bufs_sub .., binary_bufs_sub .., unary_bufs_sub ..,
    binary_bufs_sub .., binary_bufs_sub .., unary_bufs_sub .., reshape_bufs_sub .., binary_bufs_sub .., unary_bufs_sub ..,
    reshape_bufs_sub .., unary_bufs_sub .., reshape_bufs_sub .., nullary_bufs_sub .., binary_bufs_sub .., nullary_bufs_sub ..,
    unary_bufs_sub .., binary_bufs_sub .., nullary_bufs_sub .., nullary_bufs_sub .., binary_bufs_sub .., unary_bufs_sub ..,
    nullary_bufs_sub .., unary_bufs_sub .., binary_bufs_sub .., unary_bufs_sub .., binary_bufs_sub .., binary_bufs_sub ..,
    unary_bufs_sub .., nullary_bufs_sub .., binary_bufs_sub .., nullary_bufs_sub .., binary_bufs_sub .., unary_bufs_sub ..,
    binary_bufs_sub .., nullary_bufs_sub .., binary_bufs_sub .., nullary_bufs_sub .., unary_bufs_sub .., unary_bufs_sub ..,
    ternary_bufs_sub .., unary_bufs_sub .., unary_bufs_sub .., binary_bufs_sub .., unary_bufs_sub .., unary_bufs_sub ..,
    binary_bufs_sub .., nullary_bufs_sub .., unary_bufs_sub .., binary_bufs_sub .., unary_bufs_sub .., unary_bufs_sub ..,
    unary_bufs_sub .., binary_bufs_sub .., unary_bufs_sub .., unary_bufs_sub .., binary_bufs_sub .., nullary_bufs_sub ..,
    unary_bufs_sub .., binary_bufs_sub .., unary_bufs_sub .., reshape_bufs_sub .., binary_bufs_sub .., unary_bufs_sub ..,
    reshape_bufs_sub .., unary_bufs_sub .., reshape_bufs_sub .., nullary_bufs_sub .., binary_bufs_sub .., nullary_bufs_sub ..,
    unary_bufs_sub .., binary_bufs_sub .., nullary_bufs_sub .., nullary_bufs_sub .., binary_bufs_sub .., unary_bufs_sub ..,
    nullary_bufs_sub .., unary_bufs_sub .., binary_bufs_sub .., unary_bufs_sub .., binary_bufs_sub .., binary_bufs_sub ..,
    unary_bufs_sub .., nullary_bufs_sub .., binary_bufs_sub .., nullary_bufs_sub .., binary_bufs_sub .., unary_bufs_sub ..,
    binary_bufs_sub .., nullary_bufs_sub .., binary_bufs_sub .., nullary_bufs_sub .., unary_bufs_sub .., unary_bufs_sub ..,
    ternary_bufs_sub .., unary_bufs_sub .., unary_bufs_sub .., binary_bufs_sub .., unary_bufs_sub .., unary_bufs_sub ..,
    binary_bufs_sub .., nullary_bufs_sub .., unary_bufs_sub .., binary_bufs_sub .., unary_bufs_sub .., unary_bufs_sub ..,
    unary_bufs_sub .., binary_bufs_sub .., unary_bufs_sub .., unary_bufs_sub .., binary_bufs_sub .., nullary_bufs_sub ..,
    unary_bufs_sub .., binary_bufs_sub ..⟩

set_option maxRecDepth 8192 in
/-- Every operation of the list determines what it writes. -/
theorem opsL2_fresh : (opsL2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl⟩

/-- The buffers the list's operations write, in order. -/
abbrev opsL2_W : List (Ref sig .tc) :=
  [main_c_22, main_v144, main_v145, main_c_23, main_v146, main_v147, main_v148, main_v149,
   main_v150, main_cst_24, main_v151, main_v152, main_v153, main_v154, main_v155, main_cst_25,
   main_v156, main_v157, main_v158, main_v159, main_v160, main_v161, main_v162, main_v163,
   main_v164, main_v165, main_v166, main_cst_26, main_v167, main_cst_27, main_v168, main_v169,
   main_c_28, main_call8.cst.ref, main_call8.v0.ref, main_call8.v1.ref, main_call8.cst_0.ref, main_call8.v2.ref, main_call8.v3.ref, main_call8.v4.ref,
   main_call8.v5.ref, main_call8.v6.ref, main_call8.v7.ref, main_call8.cst_1.ref, main_call8.v8.ref, main_call8.cst_2.ref, main_call8.v9.ref, main_call8.v10.ref,
   main_call8.v11.ref, main_call8.cst_3.ref, main_call8.v12.ref, main_call8.cst_4.ref, main_call8.call0.v0.ref, main_call8.call0.v1.ref, main_call8.call0.v2.ref, main_v171,
   main_v172, main_v173, main_v174, main_v175, main_v176, main_cst_29, main_v177, main_v178,
   main_v179, main_v180, main_v181, main_v182, main_v183, main_v184, main_v185, main_call9.cst.ref,
   main_call9.v0.ref, main_call9.v1.ref, main_v187, main_v188, main_v189, main_v190, main_v191, main_v192,
   main_v193, main_cst_30, main_v194, main_cst_31, main_v195, main_v196, main_c_32, main_call10.cst.ref,
   main_call10.v0.ref, main_call10.v1.ref, main_call10.cst_0.ref, main_call10.v2.ref, main_call10.v3.ref, main_call10.v4.ref, main_call10.v5.ref, main_call10.v6.ref,
   main_call10.v7.ref, main_call10.cst_1.ref, main_call10.v8.ref, main_call10.cst_2.ref, main_call10.v9.ref, main_call10.v10.ref, main_call10.v11.ref, main_call10.cst_3.ref,
   main_call10.v12.ref, main_call10.cst_4.ref, main_call10.call0.v0.ref, main_call10.call0.v1.ref, main_call10.call0.v2.ref, main_v198, main_v199, main_v200,
   main_v201, main_v202, main_v203, main_cst_33, main_v204, main_v205, main_v206, main_v207,
   main_v208, main_v209, main_v210, main_v211, main_v212, main_call11.cst.ref, main_call11.v0.ref, main_call11.v1.ref]

set_option maxRecDepth 8192 in
set_option maxHeartbeats 4000000 in
theorem opsL2_writes : (opsL2 : List (HloOp τ sig (Elt F))).Forall fun op => op.writes ⊆ (opsL2_W.map (Proc.devRef (τ := τ) .tc)).toFinset :=
  ⟨by simp only [List.Forall, nullary_writes, unary_writes, binary_writes, ternary_writes, reshape_writes, Finset.singleton_subset_iff, List.mem_toFinset]; exact List.mem_map_of_mem (show main_c_22 ∈ opsL2_W by decide),
   by simp only [List.Forall, nullary_writes, unary_writes, binary_writes, ternary_writes, reshape_writes, Finset.singleton_subset_iff, List.mem_toFinset]; exact List.mem_map_of_mem (show main_v144 ∈ opsL2_W by decide),
   by simp only [List.Forall, nullary_writes, unary_writes, binary_writes, ternary_writes, reshape_writes, Finset.singleton_subset_iff, List.mem_toFinset]; exact List.mem_map_of_mem (show main_v145 ∈ opsL2_W by decide),
   by simp only [List.Forall, nullary_writes, unary_writes, binary_writes, ternary_writes, reshape_writes, Finset.singleton_subset_iff, List.mem_toFinset]; exact List.mem_map_of_mem (show main_c_23 ∈ opsL2_W by decide),
   by simp only [List.Forall, nullary_writes, unary_writes, binary_writes, ternary_writes, reshape_writes, Finset.singleton_subset_iff, List.mem_toFinset]; exact List.mem_map_of_mem (show main_v146 ∈ opsL2_W by decide),
   by simp only [List.Forall, nullary_writes, unary_writes, binary_writes, ternary_writes, reshape_writes, Finset.singleton_subset_iff, List.mem_toFinset]; exact List.mem_map_of_mem (show main_v147 ∈ opsL2_W by decide),
   by simp only [List.Forall, nullary_writes, unary_writes, binary_writes, ternary_writes, reshape_writes, Finset.singleton_subset_iff, List.mem_toFinset]; exact List.mem_map_of_mem (show main_v148 ∈ opsL2_W by decide),
   by simp only [List.Forall, nullary_writes, unary_writes, binary_writes, ternary_writes, reshape_writes, Finset.singleton_subset_iff, List.mem_toFinset]; exact List.mem_map_of_mem (show main_v149 ∈ opsL2_W by decide),
   by simp only [List.Forall, nullary_writes, unary_writes, binary_writes, ternary_writes, reshape_writes, Finset.singleton_subset_iff, List.mem_toFinset]; exact List.mem_map_of_mem (show main_v150 ∈ opsL2_W by decide),
   by simp only [List.Forall, nullary_writes, unary_writes, binary_writes, ternary_writes, reshape_writes, Finset.singleton_subset_iff, List.mem_toFinset]; exact List.mem_map_of_mem (show main_cst_24 ∈ opsL2_W by decide),
   by simp only [List.Forall, nullary_writes, unary_writes, binary_writes, ternary_writes, reshape_writes, Finset.singleton_subset_iff, List.mem_toFinset]; exact List.mem_map_of_mem (show main_v151 ∈ opsL2_W by decide),
   by simp only [List.Forall, nullary_writes, unary_writes, binary_writes, ternary_writes, reshape_writes, Finset.singleton_subset_iff, List.mem_toFinset]; exact List.mem_map_of_mem (show main_v152 ∈ opsL2_W by decide),
   by simp only [List.Forall, nullary_writes, unary_writes, binary_writes, ternary_writes, reshape_writes, Finset.singleton_subset_iff, List.mem_toFinset]; exact List.mem_map_of_mem (show main_v153 ∈ opsL2_W by decide),
   by simp only [List.Forall, nullary_writes, unary_writes, binary_writes, ternary_writes, reshape_writes, Finset.singleton_subset_iff, List.mem_toFinset]; exact List.mem_map_of_mem (show main_v154 ∈ opsL2_W by decide),
   by simp only [List.Forall, nullary_writes, unary_writes, binary_writes, ternary_writes, reshape_writes, Finset.singleton_subset_iff, List.mem_toFinset]; exact List.mem_map_of_mem (show main_v155 ∈ opsL2_W by decide),
   by simp only [List.Forall, nullary_writes, unary_writes, binary_writes, ternary_writes, reshape_writes, Finset.singleton_subset_iff, List.mem_toFinset]; exact List.mem_map_of_mem (show main_cst_25 ∈ opsL2_W by decide),
   by simp only [List.Forall, nullary_writes, unary_writes, binary_writes, ternary_writes, reshape_writes, Finset.singleton_subset_iff, List.mem_toFinset]; exact List.mem_map_of_mem (show main_v156 ∈ opsL2_W by decide),
   by simp only [List.Forall, nullary_writes, unary_writes, binary_writes, ternary_writes, reshape_writes, Finset.singleton_subset_iff, List.mem_toFinset]; exact List.mem_map_of_mem (show main_v157 ∈ opsL2_W by decide),
   by simp only [List.Forall, nullary_writes, unary_writes, binary_writes, ternary_writes, reshape_writes, Finset.singleton_subset_iff, List.mem_toFinset]; exact List.mem_map_of_mem (show main_v158 ∈ opsL2_W by decide),
   by simp only [List.Forall, nullary_writes, unary_writes, binary_writes, ternary_writes, reshape_writes, Finset.singleton_subset_iff, List.mem_toFinset]; exact List.mem_map_of_mem (show main_v159 ∈ opsL2_W by decide),
   by simp only [List.Forall, nullary_writes, unary_writes, binary_writes, ternary_writes, reshape_writes, Finset.singleton_subset_iff, List.mem_toFinset]; exact List.mem_map_of_mem (show main_v160 ∈ opsL2_W by decide),
   by simp only [List.Forall, nullary_writes, unary_writes, binary_writes, ternary_writes, reshape_writes, Finset.singleton_subset_iff, List.mem_toFinset]; exact List.mem_map_of_mem (show main_v161 ∈ opsL2_W by decide),
   by simp only [List.Forall, nullary_writes, unary_writes, binary_writes, ternary_writes, reshape_writes, Finset.singleton_subset_iff, List.mem_toFinset]; exact List.mem_map_of_mem (show main_v162 ∈ opsL2_W by decide),
   by simp only [List.Forall, nullary_writes, unary_writes, binary_writes, ternary_writes, reshape_writes, Finset.singleton_subset_iff, List.mem_toFinset]; exact List.mem_map_of_mem (show main_v163 ∈ opsL2_W by decide),
   by simp only [List.Forall, nullary_writes, unary_writes, binary_writes, ternary_writes, reshape_writes, Finset.singleton_subset_iff, List.mem_toFinset]; exact List.mem_map_of_mem (show main_v164 ∈ opsL2_W by decide),
   by simp only [List.Forall, nullary_writes, unary_writes, binary_writes, ternary_writes, reshape_writes, Finset.singleton_subset_iff, List.mem_toFinset]; exact List.mem_map_of_mem (show main_v165 ∈ opsL2_W by decide),
   by simp only [List.Forall, nullary_writes, unary_writes, binary_writes, ternary_writes, reshape_writes, Finset.singleton_subset_iff, List.mem_toFinset]; exact List.mem_map_of_mem (show main_v166 ∈ opsL2_W by decide),
   by simp only [List.Forall, nullary_writes, unary_writes, binary_writes, ternary_writes, reshape_writes, Finset.singleton_subset_iff, List.mem_toFinset]; exact List.mem_map_of_mem (show main_cst_26 ∈ opsL2_W by decide),
   by simp only [List.Forall, nullary_writes, unary_writes, binary_writes, ternary_writes, reshape_writes, Finset.singleton_subset_iff, List.mem_toFinset]; exact List.mem_map_of_mem (show main_v167 ∈ opsL2_W by decide),
   by simp only [List.Forall, nullary_writes, unary_writes, binary_writes, ternary_writes, reshape_writes, Finset.singleton_subset_iff, List.mem_toFinset]; exact List.mem_map_of_mem (show main_cst_27 ∈ opsL2_W by decide),
   by simp only [List.Forall, nullary_writes, unary_writes, binary_writes, ternary_writes, reshape_writes, Finset.singleton_subset_iff, List.mem_toFinset]; exact List.mem_map_of_mem (show main_v168 ∈ opsL2_W by decide),
   by simp only [List.Forall, nullary_writes, unary_writes, binary_writes, ternary_writes, reshape_writes, Finset.singleton_subset_iff, List.mem_toFinset]; exact List.mem_map_of_mem (show main_v169 ∈ opsL2_W by decide),
   by simp only [List.Forall, nullary_writes, unary_writes, binary_writes, ternary_writes, reshape_writes, Finset.singleton_subset_iff, List.mem_toFinset]; exact List.mem_map_of_mem (show main_c_28 ∈ opsL2_W by decide),
   by simp only [List.Forall, nullary_writes, unary_writes, binary_writes, ternary_writes, reshape_writes, Finset.singleton_subset_iff, List.mem_toFinset]; exact List.mem_map_of_mem (show main_call8.cst.ref ∈ opsL2_W by decide),
   by simp only [List.Forall, nullary_writes, unary_writes, binary_writes, ternary_writes, reshape_writes, Finset.singleton_subset_iff, List.mem_toFinset]; exact List.mem_map_of_mem (show main_call8.v0.ref ∈ opsL2_W by decide),
   by simp only [List.Forall, nullary_writes, unary_writes, binary_writes, ternary_writes, reshape_writes, Finset.singleton_subset_iff, List.mem_toFinset]; exact List.mem_map_of_mem (show main_call8.v1.ref ∈ opsL2_W by decide),
   by simp only [List.Forall, nullary_writes, unary_writes, binary_writes, ternary_writes, reshape_writes, Finset.singleton_subset_iff, List.mem_toFinset]; exact List.mem_map_of_mem (show main_call8.cst_0.ref ∈ opsL2_W by decide),
   by simp only [List.Forall, nullary_writes, unary_writes, binary_writes, ternary_writes, reshape_writes, Finset.singleton_subset_iff, List.mem_toFinset]; exact List.mem_map_of_mem (show main_call8.v2.ref ∈ opsL2_W by decide),
   by simp only [List.Forall, nullary_writes, unary_writes, binary_writes, ternary_writes, reshape_writes, Finset.singleton_subset_iff, List.mem_toFinset]; exact List.mem_map_of_mem (show main_call8.v3.ref ∈ opsL2_W by decide),
   by simp only [List.Forall, nullary_writes, unary_writes, binary_writes, ternary_writes, reshape_writes, Finset.singleton_subset_iff, List.mem_toFinset]; exact List.mem_map_of_mem (show main_call8.v4.ref ∈ opsL2_W by decide),
   by simp only [List.Forall, nullary_writes, unary_writes, binary_writes, ternary_writes, reshape_writes, Finset.singleton_subset_iff, List.mem_toFinset]; exact List.mem_map_of_mem (show main_call8.v5.ref ∈ opsL2_W by decide),
   by simp only [List.Forall, nullary_writes, unary_writes, binary_writes, ternary_writes, reshape_writes, Finset.singleton_subset_iff, List.mem_toFinset]; exact List.mem_map_of_mem (show main_call8.v6.ref ∈ opsL2_W by decide),
   by simp only [List.Forall, nullary_writes, unary_writes, binary_writes, ternary_writes, reshape_writes, Finset.singleton_subset_iff, List.mem_toFinset]; exact List.mem_map_of_mem (show main_call8.v7.ref ∈ opsL2_W by decide),
   by simp only [List.Forall, nullary_writes, unary_writes, binary_writes, ternary_writes, reshape_writes, Finset.singleton_subset_iff, List.mem_toFinset]; exact List.mem_map_of_mem (show main_call8.cst_1.ref ∈ opsL2_W by decide),
   by simp only [List.Forall, nullary_writes, unary_writes, binary_writes, ternary_writes, reshape_writes, Finset.singleton_subset_iff, List.mem_toFinset]; exact List.mem_map_of_mem (show main_call8.v8.ref ∈ opsL2_W by decide),
   by simp only [List.Forall, nullary_writes, unary_writes, binary_writes, ternary_writes, reshape_writes, Finset.singleton_subset_iff, List.mem_toFinset]; exact List.mem_map_of_mem (show main_call8.cst_2.ref ∈ opsL2_W by decide),
   by simp only [List.Forall, nullary_writes, unary_writes, binary_writes, ternary_writes, reshape_writes, Finset.singleton_subset_iff, List.mem_toFinset]; exact List.mem_map_of_mem (show main_call8.v9.ref ∈ opsL2_W by decide),
   by simp only [List.Forall, nullary_writes, unary_writes, binary_writes, ternary_writes, reshape_writes, Finset.singleton_subset_iff, List.mem_toFinset]; exact List.mem_map_of_mem (show main_call8.v10.ref ∈ opsL2_W by decide),
   by simp only [List.Forall, nullary_writes, unary_writes, binary_writes, ternary_writes, reshape_writes, Finset.singleton_subset_iff, List.mem_toFinset]; exact List.mem_map_of_mem (show main_call8.v11.ref ∈ opsL2_W by decide),
   by simp only [List.Forall, nullary_writes, unary_writes, binary_writes, ternary_writes, reshape_writes, Finset.singleton_subset_iff, List.mem_toFinset]; exact List.mem_map_of_mem (show main_call8.cst_3.ref ∈ opsL2_W by decide),
   by simp only [List.Forall, nullary_writes, unary_writes, binary_writes, ternary_writes, reshape_writes, Finset.singleton_subset_iff, List.mem_toFinset]; exact List.mem_map_of_mem (show main_call8.v12.ref ∈ opsL2_W by decide),
   by simp only [List.Forall, nullary_writes, unary_writes, binary_writes, ternary_writes, reshape_writes, Finset.singleton_subset_iff, List.mem_toFinset]; exact List.mem_map_of_mem (show main_call8.cst_4.ref ∈ opsL2_W by decide),
   by simp only [List.Forall, nullary_writes, unary_writes, binary_writes, ternary_writes, reshape_writes, Finset.singleton_subset_iff, List.mem_toFinset]; exact List.mem_map_of_mem (show main_call8.call0.v0.ref ∈ opsL2_W by decide),
   by simp only [List.Forall, nullary_writes, unary_writes, binary_writes, ternary_writes, reshape_writes, Finset.singleton_subset_iff, List.mem_toFinset]; exact List.mem_map_of_mem (show main_call8.call0.v1.ref ∈ opsL2_W by decide),
   by simp only [List.Forall, nullary_writes, unary_writes, binary_writes, ternary_writes, reshape_writes, Finset.singleton_subset_iff, List.mem_toFinset]; exact List.mem_map_of_mem (show main_call8.call0.v2.ref ∈ opsL2_W by decide),
   by simp only [List.Forall, nullary_writes, unary_writes, binary_writes, ternary_writes, reshape_writes, Finset.singleton_subset_iff, List.mem_toFinset]; exact List.mem_map_of_mem (show main_v171 ∈ opsL2_W by decide),
   by simp only [List.Forall, nullary_writes, unary_writes, binary_writes, ternary_writes, reshape_writes, Finset.singleton_subset_iff, List.mem_toFinset]; exact List.mem_map_of_mem (show main_v172 ∈ opsL2_W by decide),
   by simp only [List.Forall, nullary_writes, unary_writes, binary_writes, ternary_writes, reshape_writes, Finset.singleton_subset_iff, List.mem_toFinset]; exact List.mem_map_of_mem (show main_v173 ∈ opsL2_W by decide),
   by simp only [List.Forall, nullary_writes, unary_writes, binary_writes, ternary_writes, reshape_writes, Finset.singleton_subset_iff, List.mem_toFinset]; exact List.mem_map_of_mem (show main_v174 ∈ opsL2_W by decide),
   by simp only [List.Forall, nullary_writes, unary_writes, binary_writes, ternary_writes, reshape_writes, Finset.singleton_subset_iff, List.mem_toFinset]; exact List.mem_map_of_mem (show main_v175 ∈ opsL2_W by decide),
   by simp only [List.Forall, nullary_writes, unary_writes, binary_writes, ternary_writes, reshape_writes, Finset.singleton_subset_iff, List.mem_toFinset]; exact List.mem_map_of_mem (show main_v176 ∈ opsL2_W by decide),
   by simp only [List.Forall, nullary_writes, unary_writes, binary_writes, ternary_writes, reshape_writes, Finset.singleton_subset_iff, List.mem_toFinset]; exact List.mem_map_of_mem (show main_cst_29 ∈ opsL2_W by decide),
   by simp only [List.Forall, nullary_writes, unary_writes, binary_writes, ternary_writes, reshape_writes, Finset.singleton_subset_iff, List.mem_toFinset]; exact List.mem_map_of_mem (show main_v177 ∈ opsL2_W by decide),
   by simp only [List.Forall, nullary_writes, unary_writes, binary_writes, ternary_writes, reshape_writes, Finset.singleton_subset_iff, List.mem_toFinset]; exact List.mem_map_of_mem (show main_v178 ∈ opsL2_W by decide),
   by simp only [List.Forall, nullary_writes, unary_writes, binary_writes, ternary_writes, reshape_writes, Finset.singleton_subset_iff, List.mem_toFinset]; exact List.mem_map_of_mem (show main_v179 ∈ opsL2_W by decide),
   by simp only [List.Forall, nullary_writes, unary_writes, binary_writes, ternary_writes, reshape_writes, Finset.singleton_subset_iff, List.mem_toFinset]; exact List.mem_map_of_mem (show main_v180 ∈ opsL2_W by decide),
   by simp only [List.Forall, nullary_writes, unary_writes, binary_writes, ternary_writes, reshape_writes, Finset.singleton_subset_iff, List.mem_toFinset]; exact List.mem_map_of_mem (show main_v181 ∈ opsL2_W by decide),
   by simp only [List.Forall, nullary_writes, unary_writes, binary_writes, ternary_writes, reshape_writes, Finset.singleton_subset_iff, List.mem_toFinset]; exact List.mem_map_of_mem (show main_v182 ∈ opsL2_W by decide),
   by simp only [List.Forall, nullary_writes, unary_writes, binary_writes, ternary_writes, reshape_writes, Finset.singleton_subset_iff, List.mem_toFinset]; exact List.mem_map_of_mem (show main_v183 ∈ opsL2_W by decide),
   by simp only [List.Forall, nullary_writes, unary_writes, binary_writes, ternary_writes, reshape_writes, Finset.singleton_subset_iff, List.mem_toFinset]; exact List.mem_map_of_mem (show main_v184 ∈ opsL2_W by decide),
   by simp only [List.Forall, nullary_writes, unary_writes, binary_writes, ternary_writes, reshape_writes, Finset.singleton_subset_iff, List.mem_toFinset]; exact List.mem_map_of_mem (show main_v185 ∈ opsL2_W by decide),
   by simp only [List.Forall, nullary_writes, unary_writes, binary_writes, ternary_writes, reshape_writes, Finset.singleton_subset_iff, List.mem_toFinset]; exact List.mem_map_of_mem (show main_call9.cst.ref ∈ opsL2_W by decide),
   by simp only [List.Forall, nullary_writes, unary_writes, binary_writes, ternary_writes, reshape_writes, Finset.singleton_subset_iff, List.mem_toFinset]; exact List.mem_map_of_mem (show main_call9.v0.ref ∈ opsL2_W by decide),
   by simp only [List.Forall, nullary_writes, unary_writes, binary_writes, ternary_writes, reshape_writes, Finset.singleton_subset_iff, List.mem_toFinset]; exact List.mem_map_of_mem (show main_call9.v1.ref ∈ opsL2_W by decide),
   by simp only [List.Forall, nullary_writes, unary_writes, binary_writes, ternary_writes, reshape_writes, Finset.singleton_subset_iff, List.mem_toFinset]; exact List.mem_map_of_mem (show main_v187 ∈ opsL2_W by decide),
   by simp only [List.Forall, nullary_writes, unary_writes, binary_writes, ternary_writes, reshape_writes, Finset.singleton_subset_iff, List.mem_toFinset]; exact List.mem_map_of_mem (show main_v188 ∈ opsL2_W by decide),
   by simp only [List.Forall, nullary_writes, unary_writes, binary_writes, ternary_writes, reshape_writes, Finset.singleton_subset_iff, List.mem_toFinset]; exact List.mem_map_of_mem (show main_v189 ∈ opsL2_W by decide),
   by simp only [List.Forall, nullary_writes, unary_writes, binary_writes, ternary_writes, reshape_writes, Finset.singleton_subset_iff, List.mem_toFinset]; exact List.mem_map_of_mem (show main_v190 ∈ opsL2_W by decide),
   by simp only [List.Forall, nullary_writes, unary_writes, binary_writes, ternary_writes, reshape_writes, Finset.singleton_subset_iff, List.mem_toFinset]; exact List.mem_map_of_mem (show main_v191 ∈ opsL2_W by decide),
   by simp only [List.Forall, nullary_writes, unary_writes, binary_writes, ternary_writes, reshape_writes, Finset.singleton_subset_iff, List.mem_toFinset]; exact List.mem_map_of_mem (show main_v192 ∈ opsL2_W by decide),
   by simp only [List.Forall, nullary_writes, unary_writes, binary_writes, ternary_writes, reshape_writes, Finset.singleton_subset_iff, List.mem_toFinset]; exact List.mem_map_of_mem (show main_v193 ∈ opsL2_W by decide),
   by simp only [List.Forall, nullary_writes, unary_writes, binary_writes, ternary_writes, reshape_writes, Finset.singleton_subset_iff, List.mem_toFinset]; exact List.mem_map_of_mem (show main_cst_30 ∈ opsL2_W by decide),
   by simp only [List.Forall, nullary_writes, unary_writes, binary_writes, ternary_writes, reshape_writes, Finset.singleton_subset_iff, List.mem_toFinset]; exact List.mem_map_of_mem (show main_v194 ∈ opsL2_W by decide),
   by simp only [List.Forall, nullary_writes, unary_writes, binary_writes, ternary_writes, reshape_writes, Finset.singleton_subset_iff, List.mem_toFinset]; exact List.mem_map_of_mem (show main_cst_31 ∈ opsL2_W by decide),
   by simp only [List.Forall, nullary_writes, unary_writes, binary_writes, ternary_writes, reshape_writes, Finset.singleton_subset_iff, List.mem_toFinset]; exact List.mem_map_of_mem (show main_v195 ∈ opsL2_W by decide),
   by simp only [List.Forall, nullary_writes, unary_writes, binary_writes, ternary_writes, reshape_writes, Finset.singleton_subset_iff, List.mem_toFinset]; exact List.mem_map_of_mem (show main_v196 ∈ opsL2_W by decide),
   by simp only [List.Forall, nullary_writes, unary_writes, binary_writes, ternary_writes, reshape_writes, Finset.singleton_subset_iff, List.mem_toFinset]; exact List.mem_map_of_mem (show main_c_32 ∈ opsL2_W by decide),
   by simp only [List.Forall, nullary_writes, unary_writes, binary_writes, ternary_writes, reshape_writes, Finset.singleton_subset_iff, List.mem_toFinset]; exact List.mem_map_of_mem (show main_call10.cst.ref ∈ opsL2_W by decide),
   by simp only [List.Forall, nullary_writes, unary_writes, binary_writes, ternary_writes, reshape_writes, Finset.singleton_subset_iff, List.mem_toFinset]; exact List.mem_map_of_mem (show main_call10.v0.ref ∈ opsL2_W by decide),
   by simp only [List.Forall, nullary_writes, unary_writes, binary_writes, ternary_writes, reshape_writes, Finset.singleton_subset_iff, List.mem_toFinset]; exact List.mem_map_of_mem (show main_call10.v1.ref ∈ opsL2_W by decide),
   by simp only [List.Forall, nullary_writes, unary_writes, binary_writes, ternary_writes, reshape_writes, Finset.singleton_subset_iff, List.mem_toFinset]; exact List.mem_map_of_mem (show main_call10.cst_0.ref ∈ opsL2_W by decide),
   by simp only [List.Forall, nullary_writes, unary_writes, binary_writes, ternary_writes, reshape_writes, Finset.singleton_subset_iff, List.mem_toFinset]; exact List.mem_map_of_mem (show main_call10.v2.ref ∈ opsL2_W by decide),
   by simp only [List.Forall, nullary_writes, unary_writes, binary_writes, ternary_writes, reshape_writes, Finset.singleton_subset_iff, List.mem_toFinset]; exact List.mem_map_of_mem (show main_call10.v3.ref ∈ opsL2_W by decide),
   by simp only [List.Forall, nullary_writes, unary_writes, binary_writes, ternary_writes, reshape_writes, Finset.singleton_subset_iff, List.mem_toFinset]; exact List.mem_map_of_mem (show main_call10.v4.ref ∈ opsL2_W by decide),
   by simp only [List.Forall, nullary_writes, unary_writes, binary_writes, ternary_writes, reshape_writes, Finset.singleton_subset_iff, List.mem_toFinset]; exact List.mem_map_of_mem (show main_call10.v5.ref ∈ opsL2_W by decide),
   by simp only [List.Forall, nullary_writes, unary_writes, binary_writes, ternary_writes, reshape_writes, Finset.singleton_subset_iff, List.mem_toFinset]; exact List.mem_map_of_mem (show main_call10.v6.ref ∈ opsL2_W by decide),
   by simp only [List.Forall, nullary_writes, unary_writes, binary_writes, ternary_writes, reshape_writes, Finset.singleton_subset_iff, List.mem_toFinset]; exact List.mem_map_of_mem (show main_call10.v7.ref ∈ opsL2_W by decide),
   by simp only [List.Forall, nullary_writes, unary_writes, binary_writes, ternary_writes, reshape_writes, Finset.singleton_subset_iff, List.mem_toFinset]; exact List.mem_map_of_mem (show main_call10.cst_1.ref ∈ opsL2_W by decide),
   by simp only [List.Forall, nullary_writes, unary_writes, binary_writes, ternary_writes, reshape_writes, Finset.singleton_subset_iff, List.mem_toFinset]; exact List.mem_map_of_mem (show main_call10.v8.ref ∈ opsL2_W by decide),
   by simp only [List.Forall, nullary_writes, unary_writes, binary_writes, ternary_writes, reshape_writes, Finset.singleton_subset_iff, List.mem_toFinset]; exact List.mem_map_of_mem (show main_call10.cst_2.ref ∈ opsL2_W by decide),
   by simp only [List.Forall, nullary_writes, unary_writes, binary_writes, ternary_writes, reshape_writes, Finset.singleton_subset_iff, List.mem_toFinset]; exact List.mem_map_of_mem (show main_call10.v9.ref ∈ opsL2_W by decide),
   by simp only [List.Forall, nullary_writes, unary_writes, binary_writes, ternary_writes, reshape_writes, Finset.singleton_subset_iff, List.mem_toFinset]; exact List.mem_map_of_mem (show main_call10.v10.ref ∈ opsL2_W by decide),
   by simp only [List.Forall, nullary_writes, unary_writes, binary_writes, ternary_writes, reshape_writes, Finset.singleton_subset_iff, List.mem_toFinset]; exact List.mem_map_of_mem (show main_call10.v11.ref ∈ opsL2_W by decide),
   by simp only [List.Forall, nullary_writes, unary_writes, binary_writes, ternary_writes, reshape_writes, Finset.singleton_subset_iff, List.mem_toFinset]; exact List.mem_map_of_mem (show main_call10.cst_3.ref ∈ opsL2_W by decide),
   by simp only [List.Forall, nullary_writes, unary_writes, binary_writes, ternary_writes, reshape_writes, Finset.singleton_subset_iff, List.mem_toFinset]; exact List.mem_map_of_mem (show main_call10.v12.ref ∈ opsL2_W by decide),
   by simp only [List.Forall, nullary_writes, unary_writes, binary_writes, ternary_writes, reshape_writes, Finset.singleton_subset_iff, List.mem_toFinset]; exact List.mem_map_of_mem (show main_call10.cst_4.ref ∈ opsL2_W by decide),
   by simp only [List.Forall, nullary_writes, unary_writes, binary_writes, ternary_writes, reshape_writes, Finset.singleton_subset_iff, List.mem_toFinset]; exact List.mem_map_of_mem (show main_call10.call0.v0.ref ∈ opsL2_W by decide),
   by simp only [List.Forall, nullary_writes, unary_writes, binary_writes, ternary_writes, reshape_writes, Finset.singleton_subset_iff, List.mem_toFinset]; exact List.mem_map_of_mem (show main_call10.call0.v1.ref ∈ opsL2_W by decide),
   by simp only [List.Forall, nullary_writes, unary_writes, binary_writes, ternary_writes, reshape_writes, Finset.singleton_subset_iff, List.mem_toFinset]; exact List.mem_map_of_mem (show main_call10.call0.v2.ref ∈ opsL2_W by decide),
   by simp only [List.Forall, nullary_writes, unary_writes, binary_writes, ternary_writes, reshape_writes, Finset.singleton_subset_iff, List.mem_toFinset]; exact List.mem_map_of_mem (show main_v198 ∈ opsL2_W by decide),
   by simp only [List.Forall, nullary_writes, unary_writes, binary_writes, ternary_writes, reshape_writes, Finset.singleton_subset_iff, List.mem_toFinset]; exact List.mem_map_of_mem (show main_v199 ∈ opsL2_W by decide),
   by simp only [List.Forall, nullary_writes, unary_writes, binary_writes, ternary_writes, reshape_writes, Finset.singleton_subset_iff, List.mem_toFinset]; exact List.mem_map_of_mem (show main_v200 ∈ opsL2_W by decide),
   by simp only [List.Forall, nullary_writes, unary_writes, binary_writes, ternary_writes, reshape_writes, Finset.singleton_subset_iff, List.mem_toFinset]; exact List.mem_map_of_mem (show main_v201 ∈ opsL2_W by decide),
   by simp only [List.Forall, nullary_writes, unary_writes, binary_writes, ternary_writes, reshape_writes, Finset.singleton_subset_iff, List.mem_toFinset]; exact List.mem_map_of_mem (show main_v202 ∈ opsL2_W by decide),
   by simp only [List.Forall, nullary_writes, unary_writes, binary_writes, ternary_writes, reshape_writes, Finset.singleton_subset_iff, List.mem_toFinset]; exact List.mem_map_of_mem (show main_v203 ∈ opsL2_W by decide),
   by simp only [List.Forall, nullary_writes, unary_writes, binary_writes, ternary_writes, reshape_writes, Finset.singleton_subset_iff, List.mem_toFinset]; exact List.mem_map_of_mem (show main_cst_33 ∈ opsL2_W by decide),
   by simp only [List.Forall, nullary_writes, unary_writes, binary_writes, ternary_writes, reshape_writes, Finset.singleton_subset_iff, List.mem_toFinset]; exact List.mem_map_of_mem (show main_v204 ∈ opsL2_W by decide),
   by simp only [List.Forall, nullary_writes, unary_writes, binary_writes, ternary_writes, reshape_writes, Finset.singleton_subset_iff, List.mem_toFinset]; exact List.mem_map_of_mem (show main_v205 ∈ opsL2_W by decide),
   by simp only [List.Forall, nullary_writes, unary_writes, binary_writes, ternary_writes, reshape_writes, Finset.singleton_subset_iff, List.mem_toFinset]; exact List.mem_map_of_mem (show main_v206 ∈ opsL2_W by decide),
   by simp only [List.Forall, nullary_writes, unary_writes, binary_writes, ternary_writes, reshape_writes, Finset.singleton_subset_iff, List.mem_toFinset]; exact List.mem_map_of_mem (show main_v207 ∈ opsL2_W by decide),
   by simp only [List.Forall, nullary_writes, unary_writes, binary_writes, ternary_writes, reshape_writes, Finset.singleton_subset_iff, List.mem_toFinset]; exact List.mem_map_of_mem (show main_v208 ∈ opsL2_W by decide),
   by simp only [List.Forall, nullary_writes, unary_writes, binary_writes, ternary_writes, reshape_writes, Finset.singleton_subset_iff, List.mem_toFinset]; exact List.mem_map_of_mem (show main_v209 ∈ opsL2_W by decide),
   by simp only [List.Forall, nullary_writes, unary_writes, binary_writes, ternary_writes, reshape_writes, Finset.singleton_subset_iff, List.mem_toFinset]; exact List.mem_map_of_mem (show main_v210 ∈ opsL2_W by decide),
   by simp only [List.Forall, nullary_writes, unary_writes, binary_writes, ternary_writes, reshape_writes, Finset.singleton_subset_iff, List.mem_toFinset]; exact List.mem_map_of_mem (show main_v211 ∈ opsL2_W by decide),
   by simp only [List.Forall, nullary_writes, unary_writes, binary_writes, ternary_writes, reshape_writes, Finset.singleton_subset_iff, List.mem_toFinset]; exact List.mem_map_of_mem (show main_v212 ∈ opsL2_W by decide),
   by simp only [List.Forall, nullary_writes, unary_writes, binary_writes, ternary_writes, reshape_writes, Finset.singleton_subset_iff, List.mem_toFinset]; exact List.mem_map_of_mem (show main_call11.cst.ref ∈ opsL2_W by decide),
   by simp only [List.Forall, nullary_writes, unary_writes, binary_writes, ternary_writes, reshape_writes, Finset.singleton_subset_iff, List.mem_toFinset]; exact List.mem_map_of_mem (show main_call11.v0.ref ∈ opsL2_W by decide),
   by simp only [List.Forall, nullary_writes, unary_writes, binary_writes, ternary_writes, reshape_writes, Finset.singleton_subset_iff, List.mem_toFinset]; exact List.mem_map_of_mem (show main_call11.v1.ref ∈ opsL2_W by decide)⟩

/-- A buffer the list does not write keeps its contents through it. -/
theorem opsL2_keep (V : Valuation τ sig (Elt F)) (r : Ref sig .tc) (h : r ∉ opsL2_W) :
    after opsL2 V (Proc.devRef .tc r) = V (Proc.devRef .tc r) :=
  after_of_writes_sub opsL2 V opsL2_writes h

/-! ### Layer 3 -/

set_option maxRecDepth 8192 in
/-- Every operation of the list touches TensorCore buffers only. -/
theorem opsL3_sub : (opsL3 : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., unary_bufs_sub ..,
    ternary_bufs_sub .., unary_bufs_sub .., reshape_bufs_sub .., nullary_bufs_sub .., binary_bufs_sub .., unary_bufs_sub ..,
    binary_bufs_sub .., binary_bufs_sub .., unary_bufs_sub .., reshape_bufs_sub .., binary_bufs_sub .., unary_bufs_sub ..,
    reshape_bufs_sub .., unary_bufs_sub .., reshape_bufs_sub .., nullary_bufs_sub .., binary_bufs_sub .., nullary_bufs_sub ..,
    unary_bufs_sub .., binary_bufs_sub .., nullary_bufs_sub .., nullary_bufs_sub .., binary_bufs_sub .., unary_bufs_sub ..,
    nullary_bufs_sub .., unary_bufs_sub .., binary_bufs_sub .., unary_bufs_sub .., binary_bufs_sub .., binary_bufs_sub ..,
    unary_bufs_sub .., nullary_bufs_sub .., binary_bufs_sub .., nullary_bufs_sub .., binary_bufs_sub .., unary_bufs_sub ..,
    binary_bufs_sub .., nullary_bufs_sub .., binary_bufs_sub .., nullary_bufs_sub .., unary_bufs_sub .., unary_bufs_sub ..,
    ternary_bufs_sub .., unary_bufs_sub .., unary_bufs_sub .., binary_bufs_sub .., unary_bufs_sub .., unary_bufs_sub ..,
    binary_bufs_sub .., nullary_bufs_sub .., unary_bufs_sub .., binary_bufs_sub .., unary_bufs_sub .., unary_bufs_sub ..,
    unary_bufs_sub .., binary_bufs_sub .., unary_bufs_sub .., unary_bufs_sub .., binary_bufs_sub .., nullary_bufs_sub ..,
    unary_bufs_sub .., binary_bufs_sub .., unary_bufs_sub .., reshape_bufs_sub .., binary_bufs_sub .., unary_bufs_sub ..,
    reshape_bufs_sub .., unary_bufs_sub .., reshape_bufs_sub .., nullary_bufs_sub .., binary_bufs_sub .., nullary_bufs_sub ..,
    unary_bufs_sub .., binary_bufs_sub .., nullary_bufs_sub .., nullary_bufs_sub .., binary_bufs_sub .., unary_bufs_sub ..,
    nullary_bufs_sub .., unary_bufs_sub .., binary_bufs_sub .., unary_bufs_sub .., binary_bufs_sub .., binary_bufs_sub ..,
    unary_bufs_sub .., nullary_bufs_sub .., binary_bufs_sub .., nullary_bufs_sub .., binary_bufs_sub .., unary_bufs_sub ..,
    binary_bufs_sub .., nullary_bufs_sub .., binary_bufs_sub .., nullary_bufs_sub .., unary_bufs_sub .., unary_bufs_sub ..,
    ternary_bufs_sub .., unary_bufs_sub .., unary_bufs_sub .., binary_bufs_sub .., unary_bufs_sub .., unary_bufs_sub ..,
    binary_bufs_sub .., nullary_bufs_sub .., unary_bufs_sub .., binary_bufs_sub .., unary_bufs_sub .., unary_bufs_sub ..,
    unary_bufs_sub .., binary_bufs_sub .., unary_bufs_sub .., unary_bufs_sub .., binary_bufs_sub .., nullary_bufs_sub ..,
    unary_bufs_sub .., binary_bufs_sub ..⟩

set_option maxRecDepth 8192 in
/-- Every operation of the list determines what it writes. -/
theorem opsL3_fresh : (opsL3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl⟩

/-- The buffers the list's operations write, in order. -/
abbrev opsL3_W : List (Ref sig .tc) :=
  [main_c_34, main_v214, main_v215, main_c_35, main_v216, main_v217, main_v218, main_v219,
   main_v220, main_cst_36, main_v221, main_v222, main_v223, main_v224, main_v225, main_cst_37,
   main_v226, main_v227, main_v228, main_v229, main_v230, main_v231, main_v232, main_v233,
   main_v234, main_v235, main_v236, main_cst_38, main_v237, main_cst_39, main_v238, main_v239,
   main_c_40, main_call12.cst.ref, main_call12.v0.ref, main_call12.v1.ref, main_call12.cst_0.ref, main_call12.v2.ref, main_call12.v3.ref, main_call12.v4.ref,
   main_call12.v5.ref, main_call12.v6.ref, main_call12.v7.ref, main_call12.cst_1.ref, main_call12.v8.ref, main_call12.cst_2.ref, main_call12.v9.ref, main_call12.v10.ref,
   main_call12.v11.ref, main_call12.cst_3.ref, main_call12.v12.ref, main_call12.cst_4.ref, main_call12.call0.v0.ref, main_call12.call0.v1.ref, main_call12.call0.v2.ref, main_v241,
   main_v242, main_v243, main_v244, main_v245, main_v246, main_cst_41, main_v247, main_v248,
   main_v249, main_v250, main_v251, main_v252, main_v253, main_v254, main_v255, main_call13.cst.ref,
   main_call13.v0.ref, main_call13.v1.ref, main_v257, main_v258, main_v259, main_v260, main_v261, main_v262,
   main_v263, main_cst_42, main_v264, main_cst_43, main_v265, main_v266, main_c_44, main_call14.cst.ref,
   main_call14.v0.ref, main_call14.v1.ref, main_call14.cst_0.ref, main_call14.v2.ref, main_call14.v3.ref, main_call14.v4.ref, main_call14.v5.ref, main_call14.v6.ref,
   main_call14.v7.ref, main_call14.cst_1.ref, main_call14.v8.ref, main_call14.cst_2.ref, main_call14.v9.ref, main_call14.v10.ref, main_call14.v11.ref, main_call14.cst_3.ref,
   main_call14.v12.ref, main_call14.cst_4.ref, main_call14.call0.v0.ref, main_call14.call0.v1.ref, main_call14.call0.v2.ref, main_v268, main_v269, main_v270,
   main_v271, main_v272, main_v273, main_cst_45, main_v274, main_v275, main_v276, main_v277,
   main_v278, main_v279, main_v280, main_v281, main_v282, main_call15.cst.ref, main_call15.v0.ref, main_call15.v1.ref]

set_option maxRecDepth 8192 in
set_option maxHeartbeats 4000000 in
theorem opsL3_writes : (opsL3 : List (HloOp τ sig (Elt F))).Forall fun op => op.writes ⊆ (opsL3_W.map (Proc.devRef (τ := τ) .tc)).toFinset :=
  ⟨by simp only [List.Forall, nullary_writes, unary_writes, binary_writes, ternary_writes, reshape_writes, Finset.singleton_subset_iff, List.mem_toFinset]; exact List.mem_map_of_mem (show main_c_34 ∈ opsL3_W by decide),
   by simp only [List.Forall, nullary_writes, unary_writes, binary_writes, ternary_writes, reshape_writes, Finset.singleton_subset_iff, List.mem_toFinset]; exact List.mem_map_of_mem (show main_v214 ∈ opsL3_W by decide),
   by simp only [List.Forall, nullary_writes, unary_writes, binary_writes, ternary_writes, reshape_writes, Finset.singleton_subset_iff, List.mem_toFinset]; exact List.mem_map_of_mem (show main_v215 ∈ opsL3_W by decide),
   by simp only [List.Forall, nullary_writes, unary_writes, binary_writes, ternary_writes, reshape_writes, Finset.singleton_subset_iff, List.mem_toFinset]; exact List.mem_map_of_mem (show main_c_35 ∈ opsL3_W by decide),
   by simp only [List.Forall, nullary_writes, unary_writes, binary_writes, ternary_writes, reshape_writes, Finset.singleton_subset_iff, List.mem_toFinset]; exact List.mem_map_of_mem (show main_v216 ∈ opsL3_W by decide),
   by simp only [List.Forall, nullary_writes, unary_writes, binary_writes, ternary_writes, reshape_writes, Finset.singleton_subset_iff, List.mem_toFinset]; exact List.mem_map_of_mem (show main_v217 ∈ opsL3_W by decide),
   by simp only [List.Forall, nullary_writes, unary_writes, binary_writes, ternary_writes, reshape_writes, Finset.singleton_subset_iff, List.mem_toFinset]; exact List.mem_map_of_mem (show main_v218 ∈ opsL3_W by decide),
   by simp only [List.Forall, nullary_writes, unary_writes, binary_writes, ternary_writes, reshape_writes, Finset.singleton_subset_iff, List.mem_toFinset]; exact List.mem_map_of_mem (show main_v219 ∈ opsL3_W by decide),
   by simp only [List.Forall, nullary_writes, unary_writes, binary_writes, ternary_writes, reshape_writes, Finset.singleton_subset_iff, List.mem_toFinset]; exact List.mem_map_of_mem (show main_v220 ∈ opsL3_W by decide),
   by simp only [List.Forall, nullary_writes, unary_writes, binary_writes, ternary_writes, reshape_writes, Finset.singleton_subset_iff, List.mem_toFinset]; exact List.mem_map_of_mem (show main_cst_36 ∈ opsL3_W by decide),
   by simp only [List.Forall, nullary_writes, unary_writes, binary_writes, ternary_writes, reshape_writes, Finset.singleton_subset_iff, List.mem_toFinset]; exact List.mem_map_of_mem (show main_v221 ∈ opsL3_W by decide),
   by simp only [List.Forall, nullary_writes, unary_writes, binary_writes, ternary_writes, reshape_writes, Finset.singleton_subset_iff, List.mem_toFinset]; exact List.mem_map_of_mem (show main_v222 ∈ opsL3_W by decide),
   by simp only [List.Forall, nullary_writes, unary_writes, binary_writes, ternary_writes, reshape_writes, Finset.singleton_subset_iff, List.mem_toFinset]; exact List.mem_map_of_mem (show main_v223 ∈ opsL3_W by decide),
   by simp only [List.Forall, nullary_writes, unary_writes, binary_writes, ternary_writes, reshape_writes, Finset.singleton_subset_iff, List.mem_toFinset]; exact List.mem_map_of_mem (show main_v224 ∈ opsL3_W by decide),
   by simp only [List.Forall, nullary_writes, unary_writes, binary_writes, ternary_writes, reshape_writes, Finset.singleton_subset_iff, List.mem_toFinset]; exact List.mem_map_of_mem (show main_v225 ∈ opsL3_W by decide),
   by simp only [List.Forall, nullary_writes, unary_writes, binary_writes, ternary_writes, reshape_writes, Finset.singleton_subset_iff, List.mem_toFinset]; exact List.mem_map_of_mem (show main_cst_37 ∈ opsL3_W by decide),
   by simp only [List.Forall, nullary_writes, unary_writes, binary_writes, ternary_writes, reshape_writes, Finset.singleton_subset_iff, List.mem_toFinset]; exact List.mem_map_of_mem (show main_v226 ∈ opsL3_W by decide),
   by simp only [List.Forall, nullary_writes, unary_writes, binary_writes, ternary_writes, reshape_writes, Finset.singleton_subset_iff, List.mem_toFinset]; exact List.mem_map_of_mem (show main_v227 ∈ opsL3_W by decide),
   by simp only [List.Forall, nullary_writes, unary_writes, binary_writes, ternary_writes, reshape_writes, Finset.singleton_subset_iff, List.mem_toFinset]; exact List.mem_map_of_mem (show main_v228 ∈ opsL3_W by decide),
   by simp only [List.Forall, nullary_writes, unary_writes, binary_writes, ternary_writes, reshape_writes, Finset.singleton_subset_iff, List.mem_toFinset]; exact List.mem_map_of_mem (show main_v229 ∈ opsL3_W by decide),
   by simp only [List.Forall, nullary_writes, unary_writes, binary_writes, ternary_writes, reshape_writes, Finset.singleton_subset_iff, List.mem_toFinset]; exact List.mem_map_of_mem (show main_v230 ∈ opsL3_W by decide),
   by simp only [List.Forall, nullary_writes, unary_writes, binary_writes, ternary_writes, reshape_writes, Finset.singleton_subset_iff, List.mem_toFinset]; exact List.mem_map_of_mem (show main_v231 ∈ opsL3_W by decide),
   by simp only [List.Forall, nullary_writes, unary_writes, binary_writes, ternary_writes, reshape_writes, Finset.singleton_subset_iff, List.mem_toFinset]; exact List.mem_map_of_mem (show main_v232 ∈ opsL3_W by decide),
   by simp only [List.Forall, nullary_writes, unary_writes, binary_writes, ternary_writes, reshape_writes, Finset.singleton_subset_iff, List.mem_toFinset]; exact List.mem_map_of_mem (show main_v233 ∈ opsL3_W by decide),
   by simp only [List.Forall, nullary_writes, unary_writes, binary_writes, ternary_writes, reshape_writes, Finset.singleton_subset_iff, List.mem_toFinset]; exact List.mem_map_of_mem (show main_v234 ∈ opsL3_W by decide),
   by simp only [List.Forall, nullary_writes, unary_writes, binary_writes, ternary_writes, reshape_writes, Finset.singleton_subset_iff, List.mem_toFinset]; exact List.mem_map_of_mem (show main_v235 ∈ opsL3_W by decide),
   by simp only [List.Forall, nullary_writes, unary_writes, binary_writes, ternary_writes, reshape_writes, Finset.singleton_subset_iff, List.mem_toFinset]; exact List.mem_map_of_mem (show main_v236 ∈ opsL3_W by decide),
   by simp only [List.Forall, nullary_writes, unary_writes, binary_writes, ternary_writes, reshape_writes, Finset.singleton_subset_iff, List.mem_toFinset]; exact List.mem_map_of_mem (show main_cst_38 ∈ opsL3_W by decide),
   by simp only [List.Forall, nullary_writes, unary_writes, binary_writes, ternary_writes, reshape_writes, Finset.singleton_subset_iff, List.mem_toFinset]; exact List.mem_map_of_mem (show main_v237 ∈ opsL3_W by decide),
   by simp only [List.Forall, nullary_writes, unary_writes, binary_writes, ternary_writes, reshape_writes, Finset.singleton_subset_iff, List.mem_toFinset]; exact List.mem_map_of_mem (show main_cst_39 ∈ opsL3_W by decide),
   by simp only [List.Forall, nullary_writes, unary_writes, binary_writes, ternary_writes, reshape_writes, Finset.singleton_subset_iff, List.mem_toFinset]; exact List.mem_map_of_mem (show main_v238 ∈ opsL3_W by decide),
   by simp only [List.Forall, nullary_writes, unary_writes, binary_writes, ternary_writes, reshape_writes, Finset.singleton_subset_iff, List.mem_toFinset]; exact List.mem_map_of_mem (show main_v239 ∈ opsL3_W by decide),
   by simp only [List.Forall, nullary_writes, unary_writes, binary_writes, ternary_writes, reshape_writes, Finset.singleton_subset_iff, List.mem_toFinset]; exact List.mem_map_of_mem (show main_c_40 ∈ opsL3_W by decide),
   by simp only [List.Forall, nullary_writes, unary_writes, binary_writes, ternary_writes, reshape_writes, Finset.singleton_subset_iff, List.mem_toFinset]; exact List.mem_map_of_mem (show main_call12.cst.ref ∈ opsL3_W by decide),
   by simp only [List.Forall, nullary_writes, unary_writes, binary_writes, ternary_writes, reshape_writes, Finset.singleton_subset_iff, List.mem_toFinset]; exact List.mem_map_of_mem (show main_call12.v0.ref ∈ opsL3_W by decide),
   by simp only [List.Forall, nullary_writes, unary_writes, binary_writes, ternary_writes, reshape_writes, Finset.singleton_subset_iff, List.mem_toFinset]; exact List.mem_map_of_mem (show main_call12.v1.ref ∈ opsL3_W by decide),
   by simp only [List.Forall, nullary_writes, unary_writes, binary_writes, ternary_writes, reshape_writes, Finset.singleton_subset_iff, List.mem_toFinset]; exact List.mem_map_of_mem (show main_call12.cst_0.ref ∈ opsL3_W by decide),
   by simp only [List.Forall, nullary_writes, unary_writes, binary_writes, ternary_writes, reshape_writes, Finset.singleton_subset_iff, List.mem_toFinset]; exact List.mem_map_of_mem (show main_call12.v2.ref ∈ opsL3_W by decide),
   by simp only [List.Forall, nullary_writes, unary_writes, binary_writes, ternary_writes, reshape_writes, Finset.singleton_subset_iff, List.mem_toFinset]; exact List.mem_map_of_mem (show main_call12.v3.ref ∈ opsL3_W by decide),
   by simp only [List.Forall, nullary_writes, unary_writes, binary_writes, ternary_writes, reshape_writes, Finset.singleton_subset_iff, List.mem_toFinset]; exact List.mem_map_of_mem (show main_call12.v4.ref ∈ opsL3_W by decide),
   by simp only [List.Forall, nullary_writes, unary_writes, binary_writes, ternary_writes, reshape_writes, Finset.singleton_subset_iff, List.mem_toFinset]; exact List.mem_map_of_mem (show main_call12.v5.ref ∈ opsL3_W by decide),
   by simp only [List.Forall, nullary_writes, unary_writes, binary_writes, ternary_writes, reshape_writes, Finset.singleton_subset_iff, List.mem_toFinset]; exact List.mem_map_of_mem (show main_call12.v6.ref ∈ opsL3_W by decide),
   by simp only [List.Forall, nullary_writes, unary_writes, binary_writes, ternary_writes, reshape_writes, Finset.singleton_subset_iff, List.mem_toFinset]; exact List.mem_map_of_mem (show main_call12.v7.ref ∈ opsL3_W by decide),
   by simp only [List.Forall, nullary_writes, unary_writes, binary_writes, ternary_writes, reshape_writes, Finset.singleton_subset_iff, List.mem_toFinset]; exact List.mem_map_of_mem (show main_call12.cst_1.ref ∈ opsL3_W by decide),
   by simp only [List.Forall, nullary_writes, unary_writes, binary_writes, ternary_writes, reshape_writes, Finset.singleton_subset_iff, List.mem_toFinset]; exact List.mem_map_of_mem (show main_call12.v8.ref ∈ opsL3_W by decide),
   by simp only [List.Forall, nullary_writes, unary_writes, binary_writes, ternary_writes, reshape_writes, Finset.singleton_subset_iff, List.mem_toFinset]; exact List.mem_map_of_mem (show main_call12.cst_2.ref ∈ opsL3_W by decide),
   by simp only [List.Forall, nullary_writes, unary_writes, binary_writes, ternary_writes, reshape_writes, Finset.singleton_subset_iff, List.mem_toFinset]; exact List.mem_map_of_mem (show main_call12.v9.ref ∈ opsL3_W by decide),
   by simp only [List.Forall, nullary_writes, unary_writes, binary_writes, ternary_writes, reshape_writes, Finset.singleton_subset_iff, List.mem_toFinset]; exact List.mem_map_of_mem (show main_call12.v10.ref ∈ opsL3_W by decide),
   by simp only [List.Forall, nullary_writes, unary_writes, binary_writes, ternary_writes, reshape_writes, Finset.singleton_subset_iff, List.mem_toFinset]; exact List.mem_map_of_mem (show main_call12.v11.ref ∈ opsL3_W by decide),
   by simp only [List.Forall, nullary_writes, unary_writes, binary_writes, ternary_writes, reshape_writes, Finset.singleton_subset_iff, List.mem_toFinset]; exact List.mem_map_of_mem (show main_call12.cst_3.ref ∈ opsL3_W by decide),
   by simp only [List.Forall, nullary_writes, unary_writes, binary_writes, ternary_writes, reshape_writes, Finset.singleton_subset_iff, List.mem_toFinset]; exact List.mem_map_of_mem (show main_call12.v12.ref ∈ opsL3_W by decide),
   by simp only [List.Forall, nullary_writes, unary_writes, binary_writes, ternary_writes, reshape_writes, Finset.singleton_subset_iff, List.mem_toFinset]; exact List.mem_map_of_mem (show main_call12.cst_4.ref ∈ opsL3_W by decide),
   by simp only [List.Forall, nullary_writes, unary_writes, binary_writes, ternary_writes, reshape_writes, Finset.singleton_subset_iff, List.mem_toFinset]; exact List.mem_map_of_mem (show main_call12.call0.v0.ref ∈ opsL3_W by decide),
   by simp only [List.Forall, nullary_writes, unary_writes, binary_writes, ternary_writes, reshape_writes, Finset.singleton_subset_iff, List.mem_toFinset]; exact List.mem_map_of_mem (show main_call12.call0.v1.ref ∈ opsL3_W by decide),
   by simp only [List.Forall, nullary_writes, unary_writes, binary_writes, ternary_writes, reshape_writes, Finset.singleton_subset_iff, List.mem_toFinset]; exact List.mem_map_of_mem (show main_call12.call0.v2.ref ∈ opsL3_W by decide),
   by simp only [List.Forall, nullary_writes, unary_writes, binary_writes, ternary_writes, reshape_writes, Finset.singleton_subset_iff, List.mem_toFinset]; exact List.mem_map_of_mem (show main_v241 ∈ opsL3_W by decide),
   by simp only [List.Forall, nullary_writes, unary_writes, binary_writes, ternary_writes, reshape_writes, Finset.singleton_subset_iff, List.mem_toFinset]; exact List.mem_map_of_mem (show main_v242 ∈ opsL3_W by decide),
   by simp only [List.Forall, nullary_writes, unary_writes, binary_writes, ternary_writes, reshape_writes, Finset.singleton_subset_iff, List.mem_toFinset]; exact List.mem_map_of_mem (show main_v243 ∈ opsL3_W by decide),
   by simp only [List.Forall, nullary_writes, unary_writes, binary_writes, ternary_writes, reshape_writes, Finset.singleton_subset_iff, List.mem_toFinset]; exact List.mem_map_of_mem (show main_v244 ∈ opsL3_W by decide),
   by simp only [List.Forall, nullary_writes, unary_writes, binary_writes, ternary_writes, reshape_writes, Finset.singleton_subset_iff, List.mem_toFinset]; exact List.mem_map_of_mem (show main_v245 ∈ opsL3_W by decide),
   by simp only [List.Forall, nullary_writes, unary_writes, binary_writes, ternary_writes, reshape_writes, Finset.singleton_subset_iff, List.mem_toFinset]; exact List.mem_map_of_mem (show main_v246 ∈ opsL3_W by decide),
   by simp only [List.Forall, nullary_writes, unary_writes, binary_writes, ternary_writes, reshape_writes, Finset.singleton_subset_iff, List.mem_toFinset]; exact List.mem_map_of_mem (show main_cst_41 ∈ opsL3_W by decide),
   by simp only [List.Forall, nullary_writes, unary_writes, binary_writes, ternary_writes, reshape_writes, Finset.singleton_subset_iff, List.mem_toFinset]; exact List.mem_map_of_mem (show main_v247 ∈ opsL3_W by decide),
   by simp only [List.Forall, nullary_writes, unary_writes, binary_writes, ternary_writes, reshape_writes, Finset.singleton_subset_iff, List.mem_toFinset]; exact List.mem_map_of_mem (show main_v248 ∈ opsL3_W by decide),
   by simp only [List.Forall, nullary_writes, unary_writes, binary_writes, ternary_writes, reshape_writes, Finset.singleton_subset_iff, List.mem_toFinset]; exact List.mem_map_of_mem (show main_v249 ∈ opsL3_W by decide),
   by simp only [List.Forall, nullary_writes, unary_writes, binary_writes, ternary_writes, reshape_writes, Finset.singleton_subset_iff, List.mem_toFinset]; exact List.mem_map_of_mem (show main_v250 ∈ opsL3_W by decide),
   by simp only [List.Forall, nullary_writes, unary_writes, binary_writes, ternary_writes, reshape_writes, Finset.singleton_subset_iff, List.mem_toFinset]; exact List.mem_map_of_mem (show main_v251 ∈ opsL3_W by decide),
   by simp only [List.Forall, nullary_writes, unary_writes, binary_writes, ternary_writes, reshape_writes, Finset.singleton_subset_iff, List.mem_toFinset]; exact List.mem_map_of_mem (show main_v252 ∈ opsL3_W by decide),
   by simp only [List.Forall, nullary_writes, unary_writes, binary_writes, ternary_writes, reshape_writes, Finset.singleton_subset_iff, List.mem_toFinset]; exact List.mem_map_of_mem (show main_v253 ∈ opsL3_W by decide),
   by simp only [List.Forall, nullary_writes, unary_writes, binary_writes, ternary_writes, reshape_writes, Finset.singleton_subset_iff, List.mem_toFinset]; exact List.mem_map_of_mem (show main_v254 ∈ opsL3_W by decide),
   by simp only [List.Forall, nullary_writes, unary_writes, binary_writes, ternary_writes, reshape_writes, Finset.singleton_subset_iff, List.mem_toFinset]; exact List.mem_map_of_mem (show main_v255 ∈ opsL3_W by decide),
   by simp only [List.Forall, nullary_writes, unary_writes, binary_writes, ternary_writes, reshape_writes, Finset.singleton_subset_iff, List.mem_toFinset]; exact List.mem_map_of_mem (show main_call13.cst.ref ∈ opsL3_W by decide),
   by simp only [List.Forall, nullary_writes, unary_writes, binary_writes, ternary_writes, reshape_writes, Finset.singleton_subset_iff, List.mem_toFinset]; exact List.mem_map_of_mem (show main_call13.v0.ref ∈ opsL3_W by decide),
   by simp only [List.Forall, nullary_writes, unary_writes, binary_writes, ternary_writes, reshape_writes, Finset.singleton_subset_iff, List.mem_toFinset]; exact List.mem_map_of_mem (show main_call13.v1.ref ∈ opsL3_W by decide),
   by simp only [List.Forall, nullary_writes, unary_writes, binary_writes, ternary_writes, reshape_writes, Finset.singleton_subset_iff, List.mem_toFinset]; exact List.mem_map_of_mem (show main_v257 ∈ opsL3_W by decide),
   by simp only [List.Forall, nullary_writes, unary_writes, binary_writes, ternary_writes, reshape_writes, Finset.singleton_subset_iff, List.mem_toFinset]; exact List.mem_map_of_mem (show main_v258 ∈ opsL3_W by decide),
   by simp only [List.Forall, nullary_writes, unary_writes, binary_writes, ternary_writes, reshape_writes, Finset.singleton_subset_iff, List.mem_toFinset]; exact List.mem_map_of_mem (show main_v259 ∈ opsL3_W by decide),
   by simp only [List.Forall, nullary_writes, unary_writes, binary_writes, ternary_writes, reshape_writes, Finset.singleton_subset_iff, List.mem_toFinset]; exact List.mem_map_of_mem (show main_v260 ∈ opsL3_W by decide),
   by simp only [List.Forall, nullary_writes, unary_writes, binary_writes, ternary_writes, reshape_writes, Finset.singleton_subset_iff, List.mem_toFinset]; exact List.mem_map_of_mem (show main_v261 ∈ opsL3_W by decide),
   by simp only [List.Forall, nullary_writes, unary_writes, binary_writes, ternary_writes, reshape_writes, Finset.singleton_subset_iff, List.mem_toFinset]; exact List.mem_map_of_mem (show main_v262 ∈ opsL3_W by decide),
   by simp only [List.Forall, nullary_writes, unary_writes, binary_writes, ternary_writes, reshape_writes, Finset.singleton_subset_iff, List.mem_toFinset]; exact List.mem_map_of_mem (show main_v263 ∈ opsL3_W by decide),
   by simp only [List.Forall, nullary_writes, unary_writes, binary_writes, ternary_writes, reshape_writes, Finset.singleton_subset_iff, List.mem_toFinset]; exact List.mem_map_of_mem (show main_cst_42 ∈ opsL3_W by decide),
   by simp only [List.Forall, nullary_writes, unary_writes, binary_writes, ternary_writes, reshape_writes, Finset.singleton_subset_iff, List.mem_toFinset]; exact List.mem_map_of_mem (show main_v264 ∈ opsL3_W by decide),
   by simp only [List.Forall, nullary_writes, unary_writes, binary_writes, ternary_writes, reshape_writes, Finset.singleton_subset_iff, List.mem_toFinset]; exact List.mem_map_of_mem (show main_cst_43 ∈ opsL3_W by decide),
   by simp only [List.Forall, nullary_writes, unary_writes, binary_writes, ternary_writes, reshape_writes, Finset.singleton_subset_iff, List.mem_toFinset]; exact List.mem_map_of_mem (show main_v265 ∈ opsL3_W by decide),
   by simp only [List.Forall, nullary_writes, unary_writes, binary_writes, ternary_writes, reshape_writes, Finset.singleton_subset_iff, List.mem_toFinset]; exact List.mem_map_of_mem (show main_v266 ∈ opsL3_W by decide),
   by simp only [List.Forall, nullary_writes, unary_writes, binary_writes, ternary_writes, reshape_writes, Finset.singleton_subset_iff, List.mem_toFinset]; exact List.mem_map_of_mem (show main_c_44 ∈ opsL3_W by decide),
   by simp only [List.Forall, nullary_writes, unary_writes, binary_writes, ternary_writes, reshape_writes, Finset.singleton_subset_iff, List.mem_toFinset]; exact List.mem_map_of_mem (show main_call14.cst.ref ∈ opsL3_W by decide),
   by simp only [List.Forall, nullary_writes, unary_writes, binary_writes, ternary_writes, reshape_writes, Finset.singleton_subset_iff, List.mem_toFinset]; exact List.mem_map_of_mem (show main_call14.v0.ref ∈ opsL3_W by decide),
   by simp only [List.Forall, nullary_writes, unary_writes, binary_writes, ternary_writes, reshape_writes, Finset.singleton_subset_iff, List.mem_toFinset]; exact List.mem_map_of_mem (show main_call14.v1.ref ∈ opsL3_W by decide),
   by simp only [List.Forall, nullary_writes, unary_writes, binary_writes, ternary_writes, reshape_writes, Finset.singleton_subset_iff, List.mem_toFinset]; exact List.mem_map_of_mem (show main_call14.cst_0.ref ∈ opsL3_W by decide),
   by simp only [List.Forall, nullary_writes, unary_writes, binary_writes, ternary_writes, reshape_writes, Finset.singleton_subset_iff, List.mem_toFinset]; exact List.mem_map_of_mem (show main_call14.v2.ref ∈ opsL3_W by decide),
   by simp only [List.Forall, nullary_writes, unary_writes, binary_writes, ternary_writes, reshape_writes, Finset.singleton_subset_iff, List.mem_toFinset]; exact List.mem_map_of_mem (show main_call14.v3.ref ∈ opsL3_W by decide),
   by simp only [List.Forall, nullary_writes, unary_writes, binary_writes, ternary_writes, reshape_writes, Finset.singleton_subset_iff, List.mem_toFinset]; exact List.mem_map_of_mem (show main_call14.v4.ref ∈ opsL3_W by decide),
   by simp only [List.Forall, nullary_writes, unary_writes, binary_writes, ternary_writes, reshape_writes, Finset.singleton_subset_iff, List.mem_toFinset]; exact List.mem_map_of_mem (show main_call14.v5.ref ∈ opsL3_W by decide),
   by simp only [List.Forall, nullary_writes, unary_writes, binary_writes, ternary_writes, reshape_writes, Finset.singleton_subset_iff, List.mem_toFinset]; exact List.mem_map_of_mem (show main_call14.v6.ref ∈ opsL3_W by decide),
   by simp only [List.Forall, nullary_writes, unary_writes, binary_writes, ternary_writes, reshape_writes, Finset.singleton_subset_iff, List.mem_toFinset]; exact List.mem_map_of_mem (show main_call14.v7.ref ∈ opsL3_W by decide),
   by simp only [List.Forall, nullary_writes, unary_writes, binary_writes, ternary_writes, reshape_writes, Finset.singleton_subset_iff, List.mem_toFinset]; exact List.mem_map_of_mem (show main_call14.cst_1.ref ∈ opsL3_W by decide),
   by simp only [List.Forall, nullary_writes, unary_writes, binary_writes, ternary_writes, reshape_writes, Finset.singleton_subset_iff, List.mem_toFinset]; exact List.mem_map_of_mem (show main_call14.v8.ref ∈ opsL3_W by decide),
   by simp only [List.Forall, nullary_writes, unary_writes, binary_writes, ternary_writes, reshape_writes, Finset.singleton_subset_iff, List.mem_toFinset]; exact List.mem_map_of_mem (show main_call14.cst_2.ref ∈ opsL3_W by decide),
   by simp only [List.Forall, nullary_writes, unary_writes, binary_writes, ternary_writes, reshape_writes, Finset.singleton_subset_iff, List.mem_toFinset]; exact List.mem_map_of_mem (show main_call14.v9.ref ∈ opsL3_W by decide),
   by simp only [List.Forall, nullary_writes, unary_writes, binary_writes, ternary_writes, reshape_writes, Finset.singleton_subset_iff, List.mem_toFinset]; exact List.mem_map_of_mem (show main_call14.v10.ref ∈ opsL3_W by decide),
   by simp only [List.Forall, nullary_writes, unary_writes, binary_writes, ternary_writes, reshape_writes, Finset.singleton_subset_iff, List.mem_toFinset]; exact List.mem_map_of_mem (show main_call14.v11.ref ∈ opsL3_W by decide),
   by simp only [List.Forall, nullary_writes, unary_writes, binary_writes, ternary_writes, reshape_writes, Finset.singleton_subset_iff, List.mem_toFinset]; exact List.mem_map_of_mem (show main_call14.cst_3.ref ∈ opsL3_W by decide),
   by simp only [List.Forall, nullary_writes, unary_writes, binary_writes, ternary_writes, reshape_writes, Finset.singleton_subset_iff, List.mem_toFinset]; exact List.mem_map_of_mem (show main_call14.v12.ref ∈ opsL3_W by decide),
   by simp only [List.Forall, nullary_writes, unary_writes, binary_writes, ternary_writes, reshape_writes, Finset.singleton_subset_iff, List.mem_toFinset]; exact List.mem_map_of_mem (show main_call14.cst_4.ref ∈ opsL3_W by decide),
   by simp only [List.Forall, nullary_writes, unary_writes, binary_writes, ternary_writes, reshape_writes, Finset.singleton_subset_iff, List.mem_toFinset]; exact List.mem_map_of_mem (show main_call14.call0.v0.ref ∈ opsL3_W by decide),
   by simp only [List.Forall, nullary_writes, unary_writes, binary_writes, ternary_writes, reshape_writes, Finset.singleton_subset_iff, List.mem_toFinset]; exact List.mem_map_of_mem (show main_call14.call0.v1.ref ∈ opsL3_W by decide),
   by simp only [List.Forall, nullary_writes, unary_writes, binary_writes, ternary_writes, reshape_writes, Finset.singleton_subset_iff, List.mem_toFinset]; exact List.mem_map_of_mem (show main_call14.call0.v2.ref ∈ opsL3_W by decide),
   by simp only [List.Forall, nullary_writes, unary_writes, binary_writes, ternary_writes, reshape_writes, Finset.singleton_subset_iff, List.mem_toFinset]; exact List.mem_map_of_mem (show main_v268 ∈ opsL3_W by decide),
   by simp only [List.Forall, nullary_writes, unary_writes, binary_writes, ternary_writes, reshape_writes, Finset.singleton_subset_iff, List.mem_toFinset]; exact List.mem_map_of_mem (show main_v269 ∈ opsL3_W by decide),
   by simp only [List.Forall, nullary_writes, unary_writes, binary_writes, ternary_writes, reshape_writes, Finset.singleton_subset_iff, List.mem_toFinset]; exact List.mem_map_of_mem (show main_v270 ∈ opsL3_W by decide),
   by simp only [List.Forall, nullary_writes, unary_writes, binary_writes, ternary_writes, reshape_writes, Finset.singleton_subset_iff, List.mem_toFinset]; exact List.mem_map_of_mem (show main_v271 ∈ opsL3_W by decide),
   by simp only [List.Forall, nullary_writes, unary_writes, binary_writes, ternary_writes, reshape_writes, Finset.singleton_subset_iff, List.mem_toFinset]; exact List.mem_map_of_mem (show main_v272 ∈ opsL3_W by decide),
   by simp only [List.Forall, nullary_writes, unary_writes, binary_writes, ternary_writes, reshape_writes, Finset.singleton_subset_iff, List.mem_toFinset]; exact List.mem_map_of_mem (show main_v273 ∈ opsL3_W by decide),
   by simp only [List.Forall, nullary_writes, unary_writes, binary_writes, ternary_writes, reshape_writes, Finset.singleton_subset_iff, List.mem_toFinset]; exact List.mem_map_of_mem (show main_cst_45 ∈ opsL3_W by decide),
   by simp only [List.Forall, nullary_writes, unary_writes, binary_writes, ternary_writes, reshape_writes, Finset.singleton_subset_iff, List.mem_toFinset]; exact List.mem_map_of_mem (show main_v274 ∈ opsL3_W by decide),
   by simp only [List.Forall, nullary_writes, unary_writes, binary_writes, ternary_writes, reshape_writes, Finset.singleton_subset_iff, List.mem_toFinset]; exact List.mem_map_of_mem (show main_v275 ∈ opsL3_W by decide),
   by simp only [List.Forall, nullary_writes, unary_writes, binary_writes, ternary_writes, reshape_writes, Finset.singleton_subset_iff, List.mem_toFinset]; exact List.mem_map_of_mem (show main_v276 ∈ opsL3_W by decide),
   by simp only [List.Forall, nullary_writes, unary_writes, binary_writes, ternary_writes, reshape_writes, Finset.singleton_subset_iff, List.mem_toFinset]; exact List.mem_map_of_mem (show main_v277 ∈ opsL3_W by decide),
   by simp only [List.Forall, nullary_writes, unary_writes, binary_writes, ternary_writes, reshape_writes, Finset.singleton_subset_iff, List.mem_toFinset]; exact List.mem_map_of_mem (show main_v278 ∈ opsL3_W by decide),
   by simp only [List.Forall, nullary_writes, unary_writes, binary_writes, ternary_writes, reshape_writes, Finset.singleton_subset_iff, List.mem_toFinset]; exact List.mem_map_of_mem (show main_v279 ∈ opsL3_W by decide),
   by simp only [List.Forall, nullary_writes, unary_writes, binary_writes, ternary_writes, reshape_writes, Finset.singleton_subset_iff, List.mem_toFinset]; exact List.mem_map_of_mem (show main_v280 ∈ opsL3_W by decide),
   by simp only [List.Forall, nullary_writes, unary_writes, binary_writes, ternary_writes, reshape_writes, Finset.singleton_subset_iff, List.mem_toFinset]; exact List.mem_map_of_mem (show main_v281 ∈ opsL3_W by decide),
   by simp only [List.Forall, nullary_writes, unary_writes, binary_writes, ternary_writes, reshape_writes, Finset.singleton_subset_iff, List.mem_toFinset]; exact List.mem_map_of_mem (show main_v282 ∈ opsL3_W by decide),
   by simp only [List.Forall, nullary_writes, unary_writes, binary_writes, ternary_writes, reshape_writes, Finset.singleton_subset_iff, List.mem_toFinset]; exact List.mem_map_of_mem (show main_call15.cst.ref ∈ opsL3_W by decide),
   by simp only [List.Forall, nullary_writes, unary_writes, binary_writes, ternary_writes, reshape_writes, Finset.singleton_subset_iff, List.mem_toFinset]; exact List.mem_map_of_mem (show main_call15.v0.ref ∈ opsL3_W by decide),
   by simp only [List.Forall, nullary_writes, unary_writes, binary_writes, ternary_writes, reshape_writes, Finset.singleton_subset_iff, List.mem_toFinset]; exact List.mem_map_of_mem (show main_call15.v1.ref ∈ opsL3_W by decide)⟩

/-- A buffer the list does not write keeps its contents through it. -/
theorem opsL3_keep (V : Valuation τ sig (Elt F)) (r : Ref sig .tc) (h : r ∉ opsL3_W) :
    after opsL3 V (Proc.devRef .tc r) = V (Proc.devRef .tc r) :=
  after_of_writes_sub opsL3 V opsL3_writes h

/-! ### Layer 4 -/

set_option maxRecDepth 8192 in
/-- Every operation of the list touches TensorCore buffers only. -/
theorem opsL4_sub : (opsL4 : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., unary_bufs_sub ..,
    ternary_bufs_sub .., unary_bufs_sub .., reshape_bufs_sub .., nullary_bufs_sub .., binary_bufs_sub .., unary_bufs_sub ..,
    binary_bufs_sub .., binary_bufs_sub .., unary_bufs_sub .., reshape_bufs_sub .., binary_bufs_sub .., unary_bufs_sub ..,
    reshape_bufs_sub .., unary_bufs_sub .., reshape_bufs_sub .., nullary_bufs_sub .., binary_bufs_sub .., nullary_bufs_sub ..,
    unary_bufs_sub .., binary_bufs_sub .., nullary_bufs_sub .., nullary_bufs_sub .., binary_bufs_sub .., unary_bufs_sub ..,
    nullary_bufs_sub .., unary_bufs_sub .., binary_bufs_sub .., unary_bufs_sub .., binary_bufs_sub .., binary_bufs_sub ..,
    unary_bufs_sub .., nullary_bufs_sub .., binary_bufs_sub .., nullary_bufs_sub .., binary_bufs_sub .., unary_bufs_sub ..,
    binary_bufs_sub .., nullary_bufs_sub .., binary_bufs_sub .., nullary_bufs_sub .., unary_bufs_sub .., unary_bufs_sub ..,
    ternary_bufs_sub .., unary_bufs_sub .., unary_bufs_sub .., binary_bufs_sub .., unary_bufs_sub .., unary_bufs_sub ..,
    binary_bufs_sub .., nullary_bufs_sub .., unary_bufs_sub .., binary_bufs_sub .., unary_bufs_sub .., unary_bufs_sub ..,
    unary_bufs_sub .., binary_bufs_sub .., unary_bufs_sub .., unary_bufs_sub .., binary_bufs_sub .., nullary_bufs_sub ..,
    unary_bufs_sub .., binary_bufs_sub .., unary_bufs_sub .., reshape_bufs_sub .., binary_bufs_sub .., unary_bufs_sub ..,
    reshape_bufs_sub .., unary_bufs_sub .., reshape_bufs_sub .., nullary_bufs_sub .., binary_bufs_sub .., nullary_bufs_sub ..,
    unary_bufs_sub .., binary_bufs_sub .., nullary_bufs_sub .., nullary_bufs_sub .., binary_bufs_sub .., unary_bufs_sub ..,
    nullary_bufs_sub .., unary_bufs_sub .., binary_bufs_sub .., unary_bufs_sub .., binary_bufs_sub .., binary_bufs_sub ..,
    unary_bufs_sub .., nullary_bufs_sub .., binary_bufs_sub .., nullary_bufs_sub .., binary_bufs_sub .., unary_bufs_sub ..,
    binary_bufs_sub .., nullary_bufs_sub .., binary_bufs_sub .., nullary_bufs_sub .., unary_bufs_sub .., unary_bufs_sub ..,
    ternary_bufs_sub .., unary_bufs_sub .., unary_bufs_sub .., binary_bufs_sub .., unary_bufs_sub .., unary_bufs_sub ..,
    binary_bufs_sub .., nullary_bufs_sub .., unary_bufs_sub .., binary_bufs_sub .., unary_bufs_sub .., unary_bufs_sub ..,
    unary_bufs_sub .., binary_bufs_sub .., unary_bufs_sub .., unary_bufs_sub .., binary_bufs_sub .., nullary_bufs_sub ..,
    unary_bufs_sub .., binary_bufs_sub ..⟩

set_option maxRecDepth 8192 in
/-- Every operation of the list determines what it writes. -/
theorem opsL4_fresh : (opsL4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl⟩

/-- The buffers the list's operations write, in order. -/
abbrev opsL4_W : List (Ref sig .tc) :=
  [main_c_46, main_v284, main_v285, main_c_47, main_v286, main_v287, main_v288, main_v289,
   main_v290, main_cst_48, main_v291, main_v292, main_v293, main_v294, main_v295, main_cst_49,
   main_v296, main_v297, main_v298, main_v299, main_v300, main_v301, main_v302, main_v303,
   main_v304, main_v305, main_v306, main_cst_50, main_v307, main_cst_51, main_v308, main_v309,
   main_c_52, main_call16.cst.ref, main_call16.v0.ref, main_call16.v1.ref, main_call16.cst_0.ref, main_call16.v2.ref, main_call16.v3.ref, main_call16.v4.ref,
   main_call16.v5.ref, main_call16.v6.ref, main_call16.v7.ref, main_call16.cst_1.ref, main_call16.v8.ref, main_call16.cst_2.ref, main_call16.v9.ref, main_call16.v10.ref,
   main_call16.v11.ref, main_call16.cst_3.ref, main_call16.v12.ref, main_call16.cst_4.ref, main_call16.call0.v0.ref, main_call16.call0.v1.ref, main_call16.call0.v2.ref, main_v311,
   main_v312, main_v313, main_v314, main_v315, main_v316, main_cst_53, main_v317, main_v318,
   main_v319, main_v320, main_v321, main_v322, main_v323, main_v324, main_v325, main_call17.cst.ref,
   main_call17.v0.ref, main_call17.v1.ref, main_v327, main_v328, main_v329, main_v330, main_v331, main_v332,
   main_v333, main_cst_54, main_v334, main_cst_55, main_v335, main_v336, main_c_56, main_call18.cst.ref,
   main_call18.v0.ref, main_call18.v1.ref, main_call18.cst_0.ref, main_call18.v2.ref, main_call18.v3.ref, main_call18.v4.ref, main_call18.v5.ref, main_call18.v6.ref,
   main_call18.v7.ref, main_call18.cst_1.ref, main_call18.v8.ref, main_call18.cst_2.ref, main_call18.v9.ref, main_call18.v10.ref, main_call18.v11.ref, main_call18.cst_3.ref,
   main_call18.v12.ref, main_call18.cst_4.ref, main_call18.call0.v0.ref, main_call18.call0.v1.ref, main_call18.call0.v2.ref, main_v338, main_v339, main_v340,
   main_v341, main_v342, main_v343, main_cst_57, main_v344, main_v345, main_v346, main_v347,
   main_v348, main_v349, main_v350, main_v351, main_v352, main_call19.cst.ref, main_call19.v0.ref, main_call19.v1.ref]

set_option maxRecDepth 8192 in
set_option maxHeartbeats 4000000 in
theorem opsL4_writes : (opsL4 : List (HloOp τ sig (Elt F))).Forall fun op => op.writes ⊆ (opsL4_W.map (Proc.devRef (τ := τ) .tc)).toFinset :=
  ⟨by simp only [List.Forall, nullary_writes, unary_writes, binary_writes, ternary_writes, reshape_writes, Finset.singleton_subset_iff, List.mem_toFinset]; exact List.mem_map_of_mem (show main_c_46 ∈ opsL4_W by decide),
   by simp only [List.Forall, nullary_writes, unary_writes, binary_writes, ternary_writes, reshape_writes, Finset.singleton_subset_iff, List.mem_toFinset]; exact List.mem_map_of_mem (show main_v284 ∈ opsL4_W by decide),
   by simp only [List.Forall, nullary_writes, unary_writes, binary_writes, ternary_writes, reshape_writes, Finset.singleton_subset_iff, List.mem_toFinset]; exact List.mem_map_of_mem (show main_v285 ∈ opsL4_W by decide),
   by simp only [List.Forall, nullary_writes, unary_writes, binary_writes, ternary_writes, reshape_writes, Finset.singleton_subset_iff, List.mem_toFinset]; exact List.mem_map_of_mem (show main_c_47 ∈ opsL4_W by decide),
   by simp only [List.Forall, nullary_writes, unary_writes, binary_writes, ternary_writes, reshape_writes, Finset.singleton_subset_iff, List.mem_toFinset]; exact List.mem_map_of_mem (show main_v286 ∈ opsL4_W by decide),
   by simp only [List.Forall, nullary_writes, unary_writes, binary_writes, ternary_writes, reshape_writes, Finset.singleton_subset_iff, List.mem_toFinset]; exact List.mem_map_of_mem (show main_v287 ∈ opsL4_W by decide),
   by simp only [List.Forall, nullary_writes, unary_writes, binary_writes, ternary_writes, reshape_writes, Finset.singleton_subset_iff, List.mem_toFinset]; exact List.mem_map_of_mem (show main_v288 ∈ opsL4_W by decide),
   by simp only [List.Forall, nullary_writes, unary_writes, binary_writes, ternary_writes, reshape_writes, Finset.singleton_subset_iff, List.mem_toFinset]; exact List.mem_map_of_mem (show main_v289 ∈ opsL4_W by decide),
   by simp only [List.Forall, nullary_writes, unary_writes, binary_writes, ternary_writes, reshape_writes, Finset.singleton_subset_iff, List.mem_toFinset]; exact List.mem_map_of_mem (show main_v290 ∈ opsL4_W by decide),
   by simp only [List.Forall, nullary_writes, unary_writes, binary_writes, ternary_writes, reshape_writes, Finset.singleton_subset_iff, List.mem_toFinset]; exact List.mem_map_of_mem (show main_cst_48 ∈ opsL4_W by decide),
   by simp only [List.Forall, nullary_writes, unary_writes, binary_writes, ternary_writes, reshape_writes, Finset.singleton_subset_iff, List.mem_toFinset]; exact List.mem_map_of_mem (show main_v291 ∈ opsL4_W by decide),
   by simp only [List.Forall, nullary_writes, unary_writes, binary_writes, ternary_writes, reshape_writes, Finset.singleton_subset_iff, List.mem_toFinset]; exact List.mem_map_of_mem (show main_v292 ∈ opsL4_W by decide),
   by simp only [List.Forall, nullary_writes, unary_writes, binary_writes, ternary_writes, reshape_writes, Finset.singleton_subset_iff, List.mem_toFinset]; exact List.mem_map_of_mem (show main_v293 ∈ opsL4_W by decide),
   by simp only [List.Forall, nullary_writes, unary_writes, binary_writes, ternary_writes, reshape_writes, Finset.singleton_subset_iff, List.mem_toFinset]; exact List.mem_map_of_mem (show main_v294 ∈ opsL4_W by decide),
   by simp only [List.Forall, nullary_writes, unary_writes, binary_writes, ternary_writes, reshape_writes, Finset.singleton_subset_iff, List.mem_toFinset]; exact List.mem_map_of_mem (show main_v295 ∈ opsL4_W by decide),
   by simp only [List.Forall, nullary_writes, unary_writes, binary_writes, ternary_writes, reshape_writes, Finset.singleton_subset_iff, List.mem_toFinset]; exact List.mem_map_of_mem (show main_cst_49 ∈ opsL4_W by decide),
   by simp only [List.Forall, nullary_writes, unary_writes, binary_writes, ternary_writes, reshape_writes, Finset.singleton_subset_iff, List.mem_toFinset]; exact List.mem_map_of_mem (show main_v296 ∈ opsL4_W by decide),
   by simp only [List.Forall, nullary_writes, unary_writes, binary_writes, ternary_writes, reshape_writes, Finset.singleton_subset_iff, List.mem_toFinset]; exact List.mem_map_of_mem (show main_v297 ∈ opsL4_W by decide),
   by simp only [List.Forall, nullary_writes, unary_writes, binary_writes, ternary_writes, reshape_writes, Finset.singleton_subset_iff, List.mem_toFinset]; exact List.mem_map_of_mem (show main_v298 ∈ opsL4_W by decide),
   by simp only [List.Forall, nullary_writes, unary_writes, binary_writes, ternary_writes, reshape_writes, Finset.singleton_subset_iff, List.mem_toFinset]; exact List.mem_map_of_mem (show main_v299 ∈ opsL4_W by decide),
   by simp only [List.Forall, nullary_writes, unary_writes, binary_writes, ternary_writes, reshape_writes, Finset.singleton_subset_iff, List.mem_toFinset]; exact List.mem_map_of_mem (show main_v300 ∈ opsL4_W by decide),
   by simp only [List.Forall, nullary_writes, unary_writes, binary_writes, ternary_writes, reshape_writes, Finset.singleton_subset_iff, List.mem_toFinset]; exact List.mem_map_of_mem (show main_v301 ∈ opsL4_W by decide),
   by simp only [List.Forall, nullary_writes, unary_writes, binary_writes, ternary_writes, reshape_writes, Finset.singleton_subset_iff, List.mem_toFinset]; exact List.mem_map_of_mem (show main_v302 ∈ opsL4_W by decide),
   by simp only [List.Forall, nullary_writes, unary_writes, binary_writes, ternary_writes, reshape_writes, Finset.singleton_subset_iff, List.mem_toFinset]; exact List.mem_map_of_mem (show main_v303 ∈ opsL4_W by decide),
   by simp only [List.Forall, nullary_writes, unary_writes, binary_writes, ternary_writes, reshape_writes, Finset.singleton_subset_iff, List.mem_toFinset]; exact List.mem_map_of_mem (show main_v304 ∈ opsL4_W by decide),
   by simp only [List.Forall, nullary_writes, unary_writes, binary_writes, ternary_writes, reshape_writes, Finset.singleton_subset_iff, List.mem_toFinset]; exact List.mem_map_of_mem (show main_v305 ∈ opsL4_W by decide),
   by simp only [List.Forall, nullary_writes, unary_writes, binary_writes, ternary_writes, reshape_writes, Finset.singleton_subset_iff, List.mem_toFinset]; exact List.mem_map_of_mem (show main_v306 ∈ opsL4_W by decide),
   by simp only [List.Forall, nullary_writes, unary_writes, binary_writes, ternary_writes, reshape_writes, Finset.singleton_subset_iff, List.mem_toFinset]; exact List.mem_map_of_mem (show main_cst_50 ∈ opsL4_W by decide),
   by simp only [List.Forall, nullary_writes, unary_writes, binary_writes, ternary_writes, reshape_writes, Finset.singleton_subset_iff, List.mem_toFinset]; exact List.mem_map_of_mem (show main_v307 ∈ opsL4_W by decide),
   by simp only [List.Forall, nullary_writes, unary_writes, binary_writes, ternary_writes, reshape_writes, Finset.singleton_subset_iff, List.mem_toFinset]; exact List.mem_map_of_mem (show main_cst_51 ∈ opsL4_W by decide),
   by simp only [List.Forall, nullary_writes, unary_writes, binary_writes, ternary_writes, reshape_writes, Finset.singleton_subset_iff, List.mem_toFinset]; exact List.mem_map_of_mem (show main_v308 ∈ opsL4_W by decide),
   by simp only [List.Forall, nullary_writes, unary_writes, binary_writes, ternary_writes, reshape_writes, Finset.singleton_subset_iff, List.mem_toFinset]; exact List.mem_map_of_mem (show main_v309 ∈ opsL4_W by decide),
   by simp only [List.Forall, nullary_writes, unary_writes, binary_writes, ternary_writes, reshape_writes, Finset.singleton_subset_iff, List.mem_toFinset]; exact List.mem_map_of_mem (show main_c_52 ∈ opsL4_W by decide),
   by simp only [List.Forall, nullary_writes, unary_writes, binary_writes, ternary_writes, reshape_writes, Finset.singleton_subset_iff, List.mem_toFinset]; exact List.mem_map_of_mem (show main_call16.cst.ref ∈ opsL4_W by decide),
   by simp only [List.Forall, nullary_writes, unary_writes, binary_writes, ternary_writes, reshape_writes, Finset.singleton_subset_iff, List.mem_toFinset]; exact List.mem_map_of_mem (show main_call16.v0.ref ∈ opsL4_W by decide),
   by simp only [List.Forall, nullary_writes, unary_writes, binary_writes, ternary_writes, reshape_writes, Finset.singleton_subset_iff, List.mem_toFinset]; exact List.mem_map_of_mem (show main_call16.v1.ref ∈ opsL4_W by decide),
   by simp only [List.Forall, nullary_writes, unary_writes, binary_writes, ternary_writes, reshape_writes, Finset.singleton_subset_iff, List.mem_toFinset]; exact List.mem_map_of_mem (show main_call16.cst_0.ref ∈ opsL4_W by decide),
   by simp only [List.Forall, nullary_writes, unary_writes, binary_writes, ternary_writes, reshape_writes, Finset.singleton_subset_iff, List.mem_toFinset]; exact List.mem_map_of_mem (show main_call16.v2.ref ∈ opsL4_W by decide),
   by simp only [List.Forall, nullary_writes, unary_writes, binary_writes, ternary_writes, reshape_writes, Finset.singleton_subset_iff, List.mem_toFinset]; exact List.mem_map_of_mem (show main_call16.v3.ref ∈ opsL4_W by decide),
   by simp only [List.Forall, nullary_writes, unary_writes, binary_writes, ternary_writes, reshape_writes, Finset.singleton_subset_iff, List.mem_toFinset]; exact List.mem_map_of_mem (show main_call16.v4.ref ∈ opsL4_W by decide),
   by simp only [List.Forall, nullary_writes, unary_writes, binary_writes, ternary_writes, reshape_writes, Finset.singleton_subset_iff, List.mem_toFinset]; exact List.mem_map_of_mem (show main_call16.v5.ref ∈ opsL4_W by decide),
   by simp only [List.Forall, nullary_writes, unary_writes, binary_writes, ternary_writes, reshape_writes, Finset.singleton_subset_iff, List.mem_toFinset]; exact List.mem_map_of_mem (show main_call16.v6.ref ∈ opsL4_W by decide),
   by simp only [List.Forall, nullary_writes, unary_writes, binary_writes, ternary_writes, reshape_writes, Finset.singleton_subset_iff, List.mem_toFinset]; exact List.mem_map_of_mem (show main_call16.v7.ref ∈ opsL4_W by decide),
   by simp only [List.Forall, nullary_writes, unary_writes, binary_writes, ternary_writes, reshape_writes, Finset.singleton_subset_iff, List.mem_toFinset]; exact List.mem_map_of_mem (show main_call16.cst_1.ref ∈ opsL4_W by decide),
   by simp only [List.Forall, nullary_writes, unary_writes, binary_writes, ternary_writes, reshape_writes, Finset.singleton_subset_iff, List.mem_toFinset]; exact List.mem_map_of_mem (show main_call16.v8.ref ∈ opsL4_W by decide),
   by simp only [List.Forall, nullary_writes, unary_writes, binary_writes, ternary_writes, reshape_writes, Finset.singleton_subset_iff, List.mem_toFinset]; exact List.mem_map_of_mem (show main_call16.cst_2.ref ∈ opsL4_W by decide),
   by simp only [List.Forall, nullary_writes, unary_writes, binary_writes, ternary_writes, reshape_writes, Finset.singleton_subset_iff, List.mem_toFinset]; exact List.mem_map_of_mem (show main_call16.v9.ref ∈ opsL4_W by decide),
   by simp only [List.Forall, nullary_writes, unary_writes, binary_writes, ternary_writes, reshape_writes, Finset.singleton_subset_iff, List.mem_toFinset]; exact List.mem_map_of_mem (show main_call16.v10.ref ∈ opsL4_W by decide),
   by simp only [List.Forall, nullary_writes, unary_writes, binary_writes, ternary_writes, reshape_writes, Finset.singleton_subset_iff, List.mem_toFinset]; exact List.mem_map_of_mem (show main_call16.v11.ref ∈ opsL4_W by decide),
   by simp only [List.Forall, nullary_writes, unary_writes, binary_writes, ternary_writes, reshape_writes, Finset.singleton_subset_iff, List.mem_toFinset]; exact List.mem_map_of_mem (show main_call16.cst_3.ref ∈ opsL4_W by decide),
   by simp only [List.Forall, nullary_writes, unary_writes, binary_writes, ternary_writes, reshape_writes, Finset.singleton_subset_iff, List.mem_toFinset]; exact List.mem_map_of_mem (show main_call16.v12.ref ∈ opsL4_W by decide),
   by simp only [List.Forall, nullary_writes, unary_writes, binary_writes, ternary_writes, reshape_writes, Finset.singleton_subset_iff, List.mem_toFinset]; exact List.mem_map_of_mem (show main_call16.cst_4.ref ∈ opsL4_W by decide),
   by simp only [List.Forall, nullary_writes, unary_writes, binary_writes, ternary_writes, reshape_writes, Finset.singleton_subset_iff, List.mem_toFinset]; exact List.mem_map_of_mem (show main_call16.call0.v0.ref ∈ opsL4_W by decide),
   by simp only [List.Forall, nullary_writes, unary_writes, binary_writes, ternary_writes, reshape_writes, Finset.singleton_subset_iff, List.mem_toFinset]; exact List.mem_map_of_mem (show main_call16.call0.v1.ref ∈ opsL4_W by decide),
   by simp only [List.Forall, nullary_writes, unary_writes, binary_writes, ternary_writes, reshape_writes, Finset.singleton_subset_iff, List.mem_toFinset]; exact List.mem_map_of_mem (show main_call16.call0.v2.ref ∈ opsL4_W by decide),
   by simp only [List.Forall, nullary_writes, unary_writes, binary_writes, ternary_writes, reshape_writes, Finset.singleton_subset_iff, List.mem_toFinset]; exact List.mem_map_of_mem (show main_v311 ∈ opsL4_W by decide),
   by simp only [List.Forall, nullary_writes, unary_writes, binary_writes, ternary_writes, reshape_writes, Finset.singleton_subset_iff, List.mem_toFinset]; exact List.mem_map_of_mem (show main_v312 ∈ opsL4_W by decide),
   by simp only [List.Forall, nullary_writes, unary_writes, binary_writes, ternary_writes, reshape_writes, Finset.singleton_subset_iff, List.mem_toFinset]; exact List.mem_map_of_mem (show main_v313 ∈ opsL4_W by decide),
   by simp only [List.Forall, nullary_writes, unary_writes, binary_writes, ternary_writes, reshape_writes, Finset.singleton_subset_iff, List.mem_toFinset]; exact List.mem_map_of_mem (show main_v314 ∈ opsL4_W by decide),
   by simp only [List.Forall, nullary_writes, unary_writes, binary_writes, ternary_writes, reshape_writes, Finset.singleton_subset_iff, List.mem_toFinset]; exact List.mem_map_of_mem (show main_v315 ∈ opsL4_W by decide),
   by simp only [List.Forall, nullary_writes, unary_writes, binary_writes, ternary_writes, reshape_writes, Finset.singleton_subset_iff, List.mem_toFinset]; exact List.mem_map_of_mem (show main_v316 ∈ opsL4_W by decide),
   by simp only [List.Forall, nullary_writes, unary_writes, binary_writes, ternary_writes, reshape_writes, Finset.singleton_subset_iff, List.mem_toFinset]; exact List.mem_map_of_mem (show main_cst_53 ∈ opsL4_W by decide),
   by simp only [List.Forall, nullary_writes, unary_writes, binary_writes, ternary_writes, reshape_writes, Finset.singleton_subset_iff, List.mem_toFinset]; exact List.mem_map_of_mem (show main_v317 ∈ opsL4_W by decide),
   by simp only [List.Forall, nullary_writes, unary_writes, binary_writes, ternary_writes, reshape_writes, Finset.singleton_subset_iff, List.mem_toFinset]; exact List.mem_map_of_mem (show main_v318 ∈ opsL4_W by decide),
   by simp only [List.Forall, nullary_writes, unary_writes, binary_writes, ternary_writes, reshape_writes, Finset.singleton_subset_iff, List.mem_toFinset]; exact List.mem_map_of_mem (show main_v319 ∈ opsL4_W by decide),
   by simp only [List.Forall, nullary_writes, unary_writes, binary_writes, ternary_writes, reshape_writes, Finset.singleton_subset_iff, List.mem_toFinset]; exact List.mem_map_of_mem (show main_v320 ∈ opsL4_W by decide),
   by simp only [List.Forall, nullary_writes, unary_writes, binary_writes, ternary_writes, reshape_writes, Finset.singleton_subset_iff, List.mem_toFinset]; exact List.mem_map_of_mem (show main_v321 ∈ opsL4_W by decide),
   by simp only [List.Forall, nullary_writes, unary_writes, binary_writes, ternary_writes, reshape_writes, Finset.singleton_subset_iff, List.mem_toFinset]; exact List.mem_map_of_mem (show main_v322 ∈ opsL4_W by decide),
   by simp only [List.Forall, nullary_writes, unary_writes, binary_writes, ternary_writes, reshape_writes, Finset.singleton_subset_iff, List.mem_toFinset]; exact List.mem_map_of_mem (show main_v323 ∈ opsL4_W by decide),
   by simp only [List.Forall, nullary_writes, unary_writes, binary_writes, ternary_writes, reshape_writes, Finset.singleton_subset_iff, List.mem_toFinset]; exact List.mem_map_of_mem (show main_v324 ∈ opsL4_W by decide),
   by simp only [List.Forall, nullary_writes, unary_writes, binary_writes, ternary_writes, reshape_writes, Finset.singleton_subset_iff, List.mem_toFinset]; exact List.mem_map_of_mem (show main_v325 ∈ opsL4_W by decide),
   by simp only [List.Forall, nullary_writes, unary_writes, binary_writes, ternary_writes, reshape_writes, Finset.singleton_subset_iff, List.mem_toFinset]; exact List.mem_map_of_mem (show main_call17.cst.ref ∈ opsL4_W by decide),
   by simp only [List.Forall, nullary_writes, unary_writes, binary_writes, ternary_writes, reshape_writes, Finset.singleton_subset_iff, List.mem_toFinset]; exact List.mem_map_of_mem (show main_call17.v0.ref ∈ opsL4_W by decide),
   by simp only [List.Forall, nullary_writes, unary_writes, binary_writes, ternary_writes, reshape_writes, Finset.singleton_subset_iff, List.mem_toFinset]; exact List.mem_map_of_mem (show main_call17.v1.ref ∈ opsL4_W by decide),
   by simp only [List.Forall, nullary_writes, unary_writes, binary_writes, ternary_writes, reshape_writes, Finset.singleton_subset_iff, List.mem_toFinset]; exact List.mem_map_of_mem (show main_v327 ∈ opsL4_W by decide),
   by simp only [List.Forall, nullary_writes, unary_writes, binary_writes, ternary_writes, reshape_writes, Finset.singleton_subset_iff, List.mem_toFinset]; exact List.mem_map_of_mem (show main_v328 ∈ opsL4_W by decide),
   by simp only [List.Forall, nullary_writes, unary_writes, binary_writes, ternary_writes, reshape_writes, Finset.singleton_subset_iff, List.mem_toFinset]; exact List.mem_map_of_mem (show main_v329 ∈ opsL4_W by decide),
   by simp only [List.Forall, nullary_writes, unary_writes, binary_writes, ternary_writes, reshape_writes, Finset.singleton_subset_iff, List.mem_toFinset]; exact List.mem_map_of_mem (show main_v330 ∈ opsL4_W by decide),
   by simp only [List.Forall, nullary_writes, unary_writes, binary_writes, ternary_writes, reshape_writes, Finset.singleton_subset_iff, List.mem_toFinset]; exact List.mem_map_of_mem (show main_v331 ∈ opsL4_W by decide),
   by simp only [List.Forall, nullary_writes, unary_writes, binary_writes, ternary_writes, reshape_writes, Finset.singleton_subset_iff, List.mem_toFinset]; exact List.mem_map_of_mem (show main_v332 ∈ opsL4_W by decide),
   by simp only [List.Forall, nullary_writes, unary_writes, binary_writes, ternary_writes, reshape_writes, Finset.singleton_subset_iff, List.mem_toFinset]; exact List.mem_map_of_mem (show main_v333 ∈ opsL4_W by decide),
   by simp only [List.Forall, nullary_writes, unary_writes, binary_writes, ternary_writes, reshape_writes, Finset.singleton_subset_iff, List.mem_toFinset]; exact List.mem_map_of_mem (show main_cst_54 ∈ opsL4_W by decide),
   by simp only [List.Forall, nullary_writes, unary_writes, binary_writes, ternary_writes, reshape_writes, Finset.singleton_subset_iff, List.mem_toFinset]; exact List.mem_map_of_mem (show main_v334 ∈ opsL4_W by decide),
   by simp only [List.Forall, nullary_writes, unary_writes, binary_writes, ternary_writes, reshape_writes, Finset.singleton_subset_iff, List.mem_toFinset]; exact List.mem_map_of_mem (show main_cst_55 ∈ opsL4_W by decide),
   by simp only [List.Forall, nullary_writes, unary_writes, binary_writes, ternary_writes, reshape_writes, Finset.singleton_subset_iff, List.mem_toFinset]; exact List.mem_map_of_mem (show main_v335 ∈ opsL4_W by decide),
   by simp only [List.Forall, nullary_writes, unary_writes, binary_writes, ternary_writes, reshape_writes, Finset.singleton_subset_iff, List.mem_toFinset]; exact List.mem_map_of_mem (show main_v336 ∈ opsL4_W by decide),
   by simp only [List.Forall, nullary_writes, unary_writes, binary_writes, ternary_writes, reshape_writes, Finset.singleton_subset_iff, List.mem_toFinset]; exact List.mem_map_of_mem (show main_c_56 ∈ opsL4_W by decide),
   by simp only [List.Forall, nullary_writes, unary_writes, binary_writes, ternary_writes, reshape_writes, Finset.singleton_subset_iff, List.mem_toFinset]; exact List.mem_map_of_mem (show main_call18.cst.ref ∈ opsL4_W by decide),
   by simp only [List.Forall, nullary_writes, unary_writes, binary_writes, ternary_writes, reshape_writes, Finset.singleton_subset_iff, List.mem_toFinset]; exact List.mem_map_of_mem (show main_call18.v0.ref ∈ opsL4_W by decide),
   by simp only [List.Forall, nullary_writes, unary_writes, binary_writes, ternary_writes, reshape_writes, Finset.singleton_subset_iff, List.mem_toFinset]; exact List.mem_map_of_mem (show main_call18.v1.ref ∈ opsL4_W by decide),
   by simp only [List.Forall, nullary_writes, unary_writes, binary_writes, ternary_writes, reshape_writes, Finset.singleton_subset_iff, List.mem_toFinset]; exact List.mem_map_of_mem (show main_call18.cst_0.ref ∈ opsL4_W by decide),
   by simp only [List.Forall, nullary_writes, unary_writes, binary_writes, ternary_writes, reshape_writes, Finset.singleton_subset_iff, List.mem_toFinset]; exact List.mem_map_of_mem (show main_call18.v2.ref ∈ opsL4_W by decide),
   by simp only [List.Forall, nullary_writes, unary_writes, binary_writes, ternary_writes, reshape_writes, Finset.singleton_subset_iff, List.mem_toFinset]; exact List.mem_map_of_mem (show main_call18.v3.ref ∈ opsL4_W by decide),
   by simp only [List.Forall, nullary_writes, unary_writes, binary_writes, ternary_writes, reshape_writes, Finset.singleton_subset_iff, List.mem_toFinset]; exact List.mem_map_of_mem (show main_call18.v4.ref ∈ opsL4_W by decide),
   by simp only [List.Forall, nullary_writes, unary_writes, binary_writes, ternary_writes, reshape_writes, Finset.singleton_subset_iff, List.mem_toFinset]; exact List.mem_map_of_mem (show main_call18.v5.ref ∈ opsL4_W by decide),
   by simp only [List.Forall, nullary_writes, unary_writes, binary_writes, ternary_writes, reshape_writes, Finset.singleton_subset_iff, List.mem_toFinset]; exact List.mem_map_of_mem (show main_call18.v6.ref ∈ opsL4_W by decide),
   by simp only [List.Forall, nullary_writes, unary_writes, binary_writes, ternary_writes, reshape_writes, Finset.singleton_subset_iff, List.mem_toFinset]; exact List.mem_map_of_mem (show main_call18.v7.ref ∈ opsL4_W by decide),
   by simp only [List.Forall, nullary_writes, unary_writes, binary_writes, ternary_writes, reshape_writes, Finset.singleton_subset_iff, List.mem_toFinset]; exact List.mem_map_of_mem (show main_call18.cst_1.ref ∈ opsL4_W by decide),
   by simp only [List.Forall, nullary_writes, unary_writes, binary_writes, ternary_writes, reshape_writes, Finset.singleton_subset_iff, List.mem_toFinset]; exact List.mem_map_of_mem (show main_call18.v8.ref ∈ opsL4_W by decide),
   by simp only [List.Forall, nullary_writes, unary_writes, binary_writes, ternary_writes, reshape_writes, Finset.singleton_subset_iff, List.mem_toFinset]; exact List.mem_map_of_mem (show main_call18.cst_2.ref ∈ opsL4_W by decide),
   by simp only [List.Forall, nullary_writes, unary_writes, binary_writes, ternary_writes, reshape_writes, Finset.singleton_subset_iff, List.mem_toFinset]; exact List.mem_map_of_mem (show main_call18.v9.ref ∈ opsL4_W by decide),
   by simp only [List.Forall, nullary_writes, unary_writes, binary_writes, ternary_writes, reshape_writes, Finset.singleton_subset_iff, List.mem_toFinset]; exact List.mem_map_of_mem (show main_call18.v10.ref ∈ opsL4_W by decide),
   by simp only [List.Forall, nullary_writes, unary_writes, binary_writes, ternary_writes, reshape_writes, Finset.singleton_subset_iff, List.mem_toFinset]; exact List.mem_map_of_mem (show main_call18.v11.ref ∈ opsL4_W by decide),
   by simp only [List.Forall, nullary_writes, unary_writes, binary_writes, ternary_writes, reshape_writes, Finset.singleton_subset_iff, List.mem_toFinset]; exact List.mem_map_of_mem (show main_call18.cst_3.ref ∈ opsL4_W by decide),
   by simp only [List.Forall, nullary_writes, unary_writes, binary_writes, ternary_writes, reshape_writes, Finset.singleton_subset_iff, List.mem_toFinset]; exact List.mem_map_of_mem (show main_call18.v12.ref ∈ opsL4_W by decide),
   by simp only [List.Forall, nullary_writes, unary_writes, binary_writes, ternary_writes, reshape_writes, Finset.singleton_subset_iff, List.mem_toFinset]; exact List.mem_map_of_mem (show main_call18.cst_4.ref ∈ opsL4_W by decide),
   by simp only [List.Forall, nullary_writes, unary_writes, binary_writes, ternary_writes, reshape_writes, Finset.singleton_subset_iff, List.mem_toFinset]; exact List.mem_map_of_mem (show main_call18.call0.v0.ref ∈ opsL4_W by decide),
   by simp only [List.Forall, nullary_writes, unary_writes, binary_writes, ternary_writes, reshape_writes, Finset.singleton_subset_iff, List.mem_toFinset]; exact List.mem_map_of_mem (show main_call18.call0.v1.ref ∈ opsL4_W by decide),
   by simp only [List.Forall, nullary_writes, unary_writes, binary_writes, ternary_writes, reshape_writes, Finset.singleton_subset_iff, List.mem_toFinset]; exact List.mem_map_of_mem (show main_call18.call0.v2.ref ∈ opsL4_W by decide),
   by simp only [List.Forall, nullary_writes, unary_writes, binary_writes, ternary_writes, reshape_writes, Finset.singleton_subset_iff, List.mem_toFinset]; exact List.mem_map_of_mem (show main_v338 ∈ opsL4_W by decide),
   by simp only [List.Forall, nullary_writes, unary_writes, binary_writes, ternary_writes, reshape_writes, Finset.singleton_subset_iff, List.mem_toFinset]; exact List.mem_map_of_mem (show main_v339 ∈ opsL4_W by decide),
   by simp only [List.Forall, nullary_writes, unary_writes, binary_writes, ternary_writes, reshape_writes, Finset.singleton_subset_iff, List.mem_toFinset]; exact List.mem_map_of_mem (show main_v340 ∈ opsL4_W by decide),
   by simp only [List.Forall, nullary_writes, unary_writes, binary_writes, ternary_writes, reshape_writes, Finset.singleton_subset_iff, List.mem_toFinset]; exact List.mem_map_of_mem (show main_v341 ∈ opsL4_W by decide),
   by simp only [List.Forall, nullary_writes, unary_writes, binary_writes, ternary_writes, reshape_writes, Finset.singleton_subset_iff, List.mem_toFinset]; exact List.mem_map_of_mem (show main_v342 ∈ opsL4_W by decide),
   by simp only [List.Forall, nullary_writes, unary_writes, binary_writes, ternary_writes, reshape_writes, Finset.singleton_subset_iff, List.mem_toFinset]; exact List.mem_map_of_mem (show main_v343 ∈ opsL4_W by decide),
   by simp only [List.Forall, nullary_writes, unary_writes, binary_writes, ternary_writes, reshape_writes, Finset.singleton_subset_iff, List.mem_toFinset]; exact List.mem_map_of_mem (show main_cst_57 ∈ opsL4_W by decide),
   by simp only [List.Forall, nullary_writes, unary_writes, binary_writes, ternary_writes, reshape_writes, Finset.singleton_subset_iff, List.mem_toFinset]; exact List.mem_map_of_mem (show main_v344 ∈ opsL4_W by decide),
   by simp only [List.Forall, nullary_writes, unary_writes, binary_writes, ternary_writes, reshape_writes, Finset.singleton_subset_iff, List.mem_toFinset]; exact List.mem_map_of_mem (show main_v345 ∈ opsL4_W by decide),
   by simp only [List.Forall, nullary_writes, unary_writes, binary_writes, ternary_writes, reshape_writes, Finset.singleton_subset_iff, List.mem_toFinset]; exact List.mem_map_of_mem (show main_v346 ∈ opsL4_W by decide),
   by simp only [List.Forall, nullary_writes, unary_writes, binary_writes, ternary_writes, reshape_writes, Finset.singleton_subset_iff, List.mem_toFinset]; exact List.mem_map_of_mem (show main_v347 ∈ opsL4_W by decide),
   by simp only [List.Forall, nullary_writes, unary_writes, binary_writes, ternary_writes, reshape_writes, Finset.singleton_subset_iff, List.mem_toFinset]; exact List.mem_map_of_mem (show main_v348 ∈ opsL4_W by decide),
   by simp only [List.Forall, nullary_writes, unary_writes, binary_writes, ternary_writes, reshape_writes, Finset.singleton_subset_iff, List.mem_toFinset]; exact List.mem_map_of_mem (show main_v349 ∈ opsL4_W by decide),
   by simp only [List.Forall, nullary_writes, unary_writes, binary_writes, ternary_writes, reshape_writes, Finset.singleton_subset_iff, List.mem_toFinset]; exact List.mem_map_of_mem (show main_v350 ∈ opsL4_W by decide),
   by simp only [List.Forall, nullary_writes, unary_writes, binary_writes, ternary_writes, reshape_writes, Finset.singleton_subset_iff, List.mem_toFinset]; exact List.mem_map_of_mem (show main_v351 ∈ opsL4_W by decide),
   by simp only [List.Forall, nullary_writes, unary_writes, binary_writes, ternary_writes, reshape_writes, Finset.singleton_subset_iff, List.mem_toFinset]; exact List.mem_map_of_mem (show main_v352 ∈ opsL4_W by decide),
   by simp only [List.Forall, nullary_writes, unary_writes, binary_writes, ternary_writes, reshape_writes, Finset.singleton_subset_iff, List.mem_toFinset]; exact List.mem_map_of_mem (show main_call19.cst.ref ∈ opsL4_W by decide),
   by simp only [List.Forall, nullary_writes, unary_writes, binary_writes, ternary_writes, reshape_writes, Finset.singleton_subset_iff, List.mem_toFinset]; exact List.mem_map_of_mem (show main_call19.v0.ref ∈ opsL4_W by decide),
   by simp only [List.Forall, nullary_writes, unary_writes, binary_writes, ternary_writes, reshape_writes, Finset.singleton_subset_iff, List.mem_toFinset]; exact List.mem_map_of_mem (show main_call19.v1.ref ∈ opsL4_W by decide)⟩

/-- A buffer the list does not write keeps its contents through it. -/
theorem opsL4_keep (V : Valuation τ sig (Elt F)) (r : Ref sig .tc) (h : r ∉ opsL4_W) :
    after opsL4 V (Proc.devRef .tc r) = V (Proc.devRef .tc r) :=
  after_of_writes_sub opsL4 V opsL4_writes h

/-! ### Layer 5 -/

set_option maxRecDepth 8192 in
/-- Every operation of the list touches TensorCore buffers only. -/
theorem opsL5_sub : (opsL5 : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., unary_bufs_sub ..,
    ternary_bufs_sub .., unary_bufs_sub .., reshape_bufs_sub .., nullary_bufs_sub .., binary_bufs_sub .., unary_bufs_sub ..,
    binary_bufs_sub .., binary_bufs_sub .., unary_bufs_sub .., reshape_bufs_sub .., binary_bufs_sub .., unary_bufs_sub ..,
    reshape_bufs_sub .., unary_bufs_sub .., reshape_bufs_sub .., nullary_bufs_sub .., binary_bufs_sub .., nullary_bufs_sub ..,
    unary_bufs_sub .., binary_bufs_sub .., nullary_bufs_sub .., nullary_bufs_sub .., binary_bufs_sub .., unary_bufs_sub ..,
    nullary_bufs_sub .., unary_bufs_sub .., binary_bufs_sub .., unary_bufs_sub .., binary_bufs_sub .., binary_bufs_sub ..,
    unary_bufs_sub .., nullary_bufs_sub .., binary_bufs_sub .., nullary_bufs_sub .., binary_bufs_sub .., unary_bufs_sub ..,
    binary_bufs_sub .., nullary_bufs_sub .., binary_bufs_sub .., nullary_bufs_sub .., unary_bufs_sub .., unary_bufs_sub ..,
    ternary_bufs_sub .., unary_bufs_sub .., unary_bufs_sub .., binary_bufs_sub .., unary_bufs_sub .., unary_bufs_sub ..,
    binary_bufs_sub .., nullary_bufs_sub .., unary_bufs_sub .., binary_bufs_sub .., unary_bufs_sub .., unary_bufs_sub ..,
    unary_bufs_sub .., binary_bufs_sub .., unary_bufs_sub .., unary_bufs_sub .., binary_bufs_sub .., nullary_bufs_sub ..,
    unary_bufs_sub .., binary_bufs_sub .., unary_bufs_sub .., reshape_bufs_sub .., binary_bufs_sub .., unary_bufs_sub ..,
    reshape_bufs_sub .., unary_bufs_sub .., reshape_bufs_sub .., nullary_bufs_sub .., binary_bufs_sub .., nullary_bufs_sub ..,
    unary_bufs_sub .., binary_bufs_sub .., nullary_bufs_sub .., nullary_bufs_sub .., binary_bufs_sub .., unary_bufs_sub ..,
    nullary_bufs_sub .., unary_bufs_sub .., binary_bufs_sub .., unary_bufs_sub .., binary_bufs_sub .., binary_bufs_sub ..,
    unary_bufs_sub .., nullary_bufs_sub .., binary_bufs_sub .., nullary_bufs_sub .., binary_bufs_sub .., unary_bufs_sub ..,
    binary_bufs_sub .., nullary_bufs_sub .., binary_bufs_sub .., nullary_bufs_sub .., unary_bufs_sub .., unary_bufs_sub ..,
    ternary_bufs_sub .., unary_bufs_sub .., unary_bufs_sub .., binary_bufs_sub .., unary_bufs_sub .., unary_bufs_sub ..,
    binary_bufs_sub .., nullary_bufs_sub .., unary_bufs_sub .., binary_bufs_sub .., unary_bufs_sub .., unary_bufs_sub ..,
    unary_bufs_sub .., binary_bufs_sub .., unary_bufs_sub .., unary_bufs_sub .., binary_bufs_sub .., nullary_bufs_sub ..,
    unary_bufs_sub .., binary_bufs_sub ..⟩

set_option maxRecDepth 8192 in
/-- Every operation of the list determines what it writes. -/
theorem opsL5_fresh : (opsL5 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl⟩

/-- The buffers the list's operations write, in order. -/
abbrev opsL5_W : List (Ref sig .tc) :=
  [main_c_58, main_v354, main_v355, main_c_59, main_v356, main_v357, main_v358, main_v359,
   main_v360, main_cst_60, main_v361, main_v362, main_v363, main_v364, main_v365, main_cst_61,
   main_v366, main_v367, main_v368, main_v369, main_v370, main_v371, main_v372, main_v373,
   main_v374, main_v375, main_v376, main_cst_62, main_v377, main_cst_63, main_v378, main_v379,
   main_c_64, main_call20.cst.ref, main_call20.v0.ref, main_call20.v1.ref, main_call20.cst_0.ref, main_call20.v2.ref, main_call20.v3.ref, main_call20.v4.ref,
   main_call20.v5.ref, main_call20.v6.ref, main_call20.v7.ref, main_call20.cst_1.ref, main_call20.v8.ref, main_call20.cst_2.ref, main_call20.v9.ref, main_call20.v10.ref,
   main_call20.v11.ref, main_call20.cst_3.ref, main_call20.v12.ref, main_call20.cst_4.ref, main_call20.call0.v0.ref, main_call20.call0.v1.ref, main_call20.call0.v2.ref, main_v381,
   main_v382, main_v383, main_v384, main_v385, main_v386, main_cst_65, main_v387, main_v388,
   main_v389, main_v390, main_v391, main_v392, main_v393, main_v394, main_v395, main_call21.cst.ref,
   main_call21.v0.ref, main_call21.v1.ref, main_v397, main_v398, main_v399, main_v400, main_v401, main_v402,
   main_v403, main_cst_66, main_v404, main_cst_67, main_v405, main_v406, main_c_68, main_call22.cst.ref,
   main_call22.v0.ref, main_call22.v1.ref, main_call22.cst_0.ref, main_call22.v2.ref, main_call22.v3.ref, main_call22.v4.ref, main_call22.v5.ref, main_call22.v6.ref,
   main_call22.v7.ref, main_call22.cst_1.ref, main_call22.v8.ref, main_call22.cst_2.ref, main_call22.v9.ref, main_call22.v10.ref, main_call22.v11.ref, main_call22.cst_3.ref,
   main_call22.v12.ref, main_call22.cst_4.ref, main_call22.call0.v0.ref, main_call22.call0.v1.ref, main_call22.call0.v2.ref, main_v408, main_v409, main_v410,
   main_v411, main_v412, main_v413, main_cst_69, main_v414, main_v415, main_v416, main_v417,
   main_v418, main_v419, main_v420, main_v421, main_v422, main_call23.cst.ref, main_call23.v0.ref, main_call23.v1.ref]

set_option maxRecDepth 8192 in
set_option maxHeartbeats 4000000 in
theorem opsL5_writes : (opsL5 : List (HloOp τ sig (Elt F))).Forall fun op => op.writes ⊆ (opsL5_W.map (Proc.devRef (τ := τ) .tc)).toFinset :=
  ⟨by simp only [List.Forall, nullary_writes, unary_writes, binary_writes, ternary_writes, reshape_writes, Finset.singleton_subset_iff, List.mem_toFinset]; exact List.mem_map_of_mem (show main_c_58 ∈ opsL5_W by decide),
   by simp only [List.Forall, nullary_writes, unary_writes, binary_writes, ternary_writes, reshape_writes, Finset.singleton_subset_iff, List.mem_toFinset]; exact List.mem_map_of_mem (show main_v354 ∈ opsL5_W by decide),
   by simp only [List.Forall, nullary_writes, unary_writes, binary_writes, ternary_writes, reshape_writes, Finset.singleton_subset_iff, List.mem_toFinset]; exact List.mem_map_of_mem (show main_v355 ∈ opsL5_W by decide),
   by simp only [List.Forall, nullary_writes, unary_writes, binary_writes, ternary_writes, reshape_writes, Finset.singleton_subset_iff, List.mem_toFinset]; exact List.mem_map_of_mem (show main_c_59 ∈ opsL5_W by decide),
   by simp only [List.Forall, nullary_writes, unary_writes, binary_writes, ternary_writes, reshape_writes, Finset.singleton_subset_iff, List.mem_toFinset]; exact List.mem_map_of_mem (show main_v356 ∈ opsL5_W by decide),
   by simp only [List.Forall, nullary_writes, unary_writes, binary_writes, ternary_writes, reshape_writes, Finset.singleton_subset_iff, List.mem_toFinset]; exact List.mem_map_of_mem (show main_v357 ∈ opsL5_W by decide),
   by simp only [List.Forall, nullary_writes, unary_writes, binary_writes, ternary_writes, reshape_writes, Finset.singleton_subset_iff, List.mem_toFinset]; exact List.mem_map_of_mem (show main_v358 ∈ opsL5_W by decide),
   by simp only [List.Forall, nullary_writes, unary_writes, binary_writes, ternary_writes, reshape_writes, Finset.singleton_subset_iff, List.mem_toFinset]; exact List.mem_map_of_mem (show main_v359 ∈ opsL5_W by decide),
   by simp only [List.Forall, nullary_writes, unary_writes, binary_writes, ternary_writes, reshape_writes, Finset.singleton_subset_iff, List.mem_toFinset]; exact List.mem_map_of_mem (show main_v360 ∈ opsL5_W by decide),
   by simp only [List.Forall, nullary_writes, unary_writes, binary_writes, ternary_writes, reshape_writes, Finset.singleton_subset_iff, List.mem_toFinset]; exact List.mem_map_of_mem (show main_cst_60 ∈ opsL5_W by decide),
   by simp only [List.Forall, nullary_writes, unary_writes, binary_writes, ternary_writes, reshape_writes, Finset.singleton_subset_iff, List.mem_toFinset]; exact List.mem_map_of_mem (show main_v361 ∈ opsL5_W by decide),
   by simp only [List.Forall, nullary_writes, unary_writes, binary_writes, ternary_writes, reshape_writes, Finset.singleton_subset_iff, List.mem_toFinset]; exact List.mem_map_of_mem (show main_v362 ∈ opsL5_W by decide),
   by simp only [List.Forall, nullary_writes, unary_writes, binary_writes, ternary_writes, reshape_writes, Finset.singleton_subset_iff, List.mem_toFinset]; exact List.mem_map_of_mem (show main_v363 ∈ opsL5_W by decide),
   by simp only [List.Forall, nullary_writes, unary_writes, binary_writes, ternary_writes, reshape_writes, Finset.singleton_subset_iff, List.mem_toFinset]; exact List.mem_map_of_mem (show main_v364 ∈ opsL5_W by decide),
   by simp only [List.Forall, nullary_writes, unary_writes, binary_writes, ternary_writes, reshape_writes, Finset.singleton_subset_iff, List.mem_toFinset]; exact List.mem_map_of_mem (show main_v365 ∈ opsL5_W by decide),
   by simp only [List.Forall, nullary_writes, unary_writes, binary_writes, ternary_writes, reshape_writes, Finset.singleton_subset_iff, List.mem_toFinset]; exact List.mem_map_of_mem (show main_cst_61 ∈ opsL5_W by decide),
   by simp only [List.Forall, nullary_writes, unary_writes, binary_writes, ternary_writes, reshape_writes, Finset.singleton_subset_iff, List.mem_toFinset]; exact List.mem_map_of_mem (show main_v366 ∈ opsL5_W by decide),
   by simp only [List.Forall, nullary_writes, unary_writes, binary_writes, ternary_writes, reshape_writes, Finset.singleton_subset_iff, List.mem_toFinset]; exact List.mem_map_of_mem (show main_v367 ∈ opsL5_W by decide),
   by simp only [List.Forall, nullary_writes, unary_writes, binary_writes, ternary_writes, reshape_writes, Finset.singleton_subset_iff, List.mem_toFinset]; exact List.mem_map_of_mem (show main_v368 ∈ opsL5_W by decide),
   by simp only [List.Forall, nullary_writes, unary_writes, binary_writes, ternary_writes, reshape_writes, Finset.singleton_subset_iff, List.mem_toFinset]; exact List.mem_map_of_mem (show main_v369 ∈ opsL5_W by decide),
   by simp only [List.Forall, nullary_writes, unary_writes, binary_writes, ternary_writes, reshape_writes, Finset.singleton_subset_iff, List.mem_toFinset]; exact List.mem_map_of_mem (show main_v370 ∈ opsL5_W by decide),
   by simp only [List.Forall, nullary_writes, unary_writes, binary_writes, ternary_writes, reshape_writes, Finset.singleton_subset_iff, List.mem_toFinset]; exact List.mem_map_of_mem (show main_v371 ∈ opsL5_W by decide),
   by simp only [List.Forall, nullary_writes, unary_writes, binary_writes, ternary_writes, reshape_writes, Finset.singleton_subset_iff, List.mem_toFinset]; exact List.mem_map_of_mem (show main_v372 ∈ opsL5_W by decide),
   by simp only [List.Forall, nullary_writes, unary_writes, binary_writes, ternary_writes, reshape_writes, Finset.singleton_subset_iff, List.mem_toFinset]; exact List.mem_map_of_mem (show main_v373 ∈ opsL5_W by decide),
   by simp only [List.Forall, nullary_writes, unary_writes, binary_writes, ternary_writes, reshape_writes, Finset.singleton_subset_iff, List.mem_toFinset]; exact List.mem_map_of_mem (show main_v374 ∈ opsL5_W by decide),
   by simp only [List.Forall, nullary_writes, unary_writes, binary_writes, ternary_writes, reshape_writes, Finset.singleton_subset_iff, List.mem_toFinset]; exact List.mem_map_of_mem (show main_v375 ∈ opsL5_W by decide),
   by simp only [List.Forall, nullary_writes, unary_writes, binary_writes, ternary_writes, reshape_writes, Finset.singleton_subset_iff, List.mem_toFinset]; exact List.mem_map_of_mem (show main_v376 ∈ opsL5_W by decide),
   by simp only [List.Forall, nullary_writes, unary_writes, binary_writes, ternary_writes, reshape_writes, Finset.singleton_subset_iff, List.mem_toFinset]; exact List.mem_map_of_mem (show main_cst_62 ∈ opsL5_W by decide),
   by simp only [List.Forall, nullary_writes, unary_writes, binary_writes, ternary_writes, reshape_writes, Finset.singleton_subset_iff, List.mem_toFinset]; exact List.mem_map_of_mem (show main_v377 ∈ opsL5_W by decide),
   by simp only [List.Forall, nullary_writes, unary_writes, binary_writes, ternary_writes, reshape_writes, Finset.singleton_subset_iff, List.mem_toFinset]; exact List.mem_map_of_mem (show main_cst_63 ∈ opsL5_W by decide),
   by simp only [List.Forall, nullary_writes, unary_writes, binary_writes, ternary_writes, reshape_writes, Finset.singleton_subset_iff, List.mem_toFinset]; exact List.mem_map_of_mem (show main_v378 ∈ opsL5_W by decide),
   by simp only [List.Forall, nullary_writes, unary_writes, binary_writes, ternary_writes, reshape_writes, Finset.singleton_subset_iff, List.mem_toFinset]; exact List.mem_map_of_mem (show main_v379 ∈ opsL5_W by decide),
   by simp only [List.Forall, nullary_writes, unary_writes, binary_writes, ternary_writes, reshape_writes, Finset.singleton_subset_iff, List.mem_toFinset]; exact List.mem_map_of_mem (show main_c_64 ∈ opsL5_W by decide),
   by simp only [List.Forall, nullary_writes, unary_writes, binary_writes, ternary_writes, reshape_writes, Finset.singleton_subset_iff, List.mem_toFinset]; exact List.mem_map_of_mem (show main_call20.cst.ref ∈ opsL5_W by decide),
   by simp only [List.Forall, nullary_writes, unary_writes, binary_writes, ternary_writes, reshape_writes, Finset.singleton_subset_iff, List.mem_toFinset]; exact List.mem_map_of_mem (show main_call20.v0.ref ∈ opsL5_W by decide),
   by simp only [List.Forall, nullary_writes, unary_writes, binary_writes, ternary_writes, reshape_writes, Finset.singleton_subset_iff, List.mem_toFinset]; exact List.mem_map_of_mem (show main_call20.v1.ref ∈ opsL5_W by decide),
   by simp only [List.Forall, nullary_writes, unary_writes, binary_writes, ternary_writes, reshape_writes, Finset.singleton_subset_iff, List.mem_toFinset]; exact List.mem_map_of_mem (show main_call20.cst_0.ref ∈ opsL5_W by decide),
   by simp only [List.Forall, nullary_writes, unary_writes, binary_writes, ternary_writes, reshape_writes, Finset.singleton_subset_iff, List.mem_toFinset]; exact List.mem_map_of_mem (show main_call20.v2.ref ∈ opsL5_W by decide),
   by simp only [List.Forall, nullary_writes, unary_writes, binary_writes, ternary_writes, reshape_writes, Finset.singleton_subset_iff, List.mem_toFinset]; exact List.mem_map_of_mem (show main_call20.v3.ref ∈ opsL5_W by decide),
   by simp only [List.Forall, nullary_writes, unary_writes, binary_writes, ternary_writes, reshape_writes, Finset.singleton_subset_iff, List.mem_toFinset]; exact List.mem_map_of_mem (show main_call20.v4.ref ∈ opsL5_W by decide),
   by simp only [List.Forall, nullary_writes, unary_writes, binary_writes, ternary_writes, reshape_writes, Finset.singleton_subset_iff, List.mem_toFinset]; exact List.mem_map_of_mem (show main_call20.v5.ref ∈ opsL5_W by decide),
   by simp only [List.Forall, nullary_writes, unary_writes, binary_writes, ternary_writes, reshape_writes, Finset.singleton_subset_iff, List.mem_toFinset]; exact List.mem_map_of_mem (show main_call20.v6.ref ∈ opsL5_W by decide),
   by simp only [List.Forall, nullary_writes, unary_writes, binary_writes, ternary_writes, reshape_writes, Finset.singleton_subset_iff, List.mem_toFinset]; exact List.mem_map_of_mem (show main_call20.v7.ref ∈ opsL5_W by decide),
   by simp only [List.Forall, nullary_writes, unary_writes, binary_writes, ternary_writes, reshape_writes, Finset.singleton_subset_iff, List.mem_toFinset]; exact List.mem_map_of_mem (show main_call20.cst_1.ref ∈ opsL5_W by decide),
   by simp only [List.Forall, nullary_writes, unary_writes, binary_writes, ternary_writes, reshape_writes, Finset.singleton_subset_iff, List.mem_toFinset]; exact List.mem_map_of_mem (show main_call20.v8.ref ∈ opsL5_W by decide),
   by simp only [List.Forall, nullary_writes, unary_writes, binary_writes, ternary_writes, reshape_writes, Finset.singleton_subset_iff, List.mem_toFinset]; exact List.mem_map_of_mem (show main_call20.cst_2.ref ∈ opsL5_W by decide),
   by simp only [List.Forall, nullary_writes, unary_writes, binary_writes, ternary_writes, reshape_writes, Finset.singleton_subset_iff, List.mem_toFinset]; exact List.mem_map_of_mem (show main_call20.v9.ref ∈ opsL5_W by decide),
   by simp only [List.Forall, nullary_writes, unary_writes, binary_writes, ternary_writes, reshape_writes, Finset.singleton_subset_iff, List.mem_toFinset]; exact List.mem_map_of_mem (show main_call20.v10.ref ∈ opsL5_W by decide),
   by simp only [List.Forall, nullary_writes, unary_writes, binary_writes, ternary_writes, reshape_writes, Finset.singleton_subset_iff, List.mem_toFinset]; exact List.mem_map_of_mem (show main_call20.v11.ref ∈ opsL5_W by decide),
   by simp only [List.Forall, nullary_writes, unary_writes, binary_writes, ternary_writes, reshape_writes, Finset.singleton_subset_iff, List.mem_toFinset]; exact List.mem_map_of_mem (show main_call20.cst_3.ref ∈ opsL5_W by decide),
   by simp only [List.Forall, nullary_writes, unary_writes, binary_writes, ternary_writes, reshape_writes, Finset.singleton_subset_iff, List.mem_toFinset]; exact List.mem_map_of_mem (show main_call20.v12.ref ∈ opsL5_W by decide),
   by simp only [List.Forall, nullary_writes, unary_writes, binary_writes, ternary_writes, reshape_writes, Finset.singleton_subset_iff, List.mem_toFinset]; exact List.mem_map_of_mem (show main_call20.cst_4.ref ∈ opsL5_W by decide),
   by simp only [List.Forall, nullary_writes, unary_writes, binary_writes, ternary_writes, reshape_writes, Finset.singleton_subset_iff, List.mem_toFinset]; exact List.mem_map_of_mem (show main_call20.call0.v0.ref ∈ opsL5_W by decide),
   by simp only [List.Forall, nullary_writes, unary_writes, binary_writes, ternary_writes, reshape_writes, Finset.singleton_subset_iff, List.mem_toFinset]; exact List.mem_map_of_mem (show main_call20.call0.v1.ref ∈ opsL5_W by decide),
   by simp only [List.Forall, nullary_writes, unary_writes, binary_writes, ternary_writes, reshape_writes, Finset.singleton_subset_iff, List.mem_toFinset]; exact List.mem_map_of_mem (show main_call20.call0.v2.ref ∈ opsL5_W by decide),
   by simp only [List.Forall, nullary_writes, unary_writes, binary_writes, ternary_writes, reshape_writes, Finset.singleton_subset_iff, List.mem_toFinset]; exact List.mem_map_of_mem (show main_v381 ∈ opsL5_W by decide),
   by simp only [List.Forall, nullary_writes, unary_writes, binary_writes, ternary_writes, reshape_writes, Finset.singleton_subset_iff, List.mem_toFinset]; exact List.mem_map_of_mem (show main_v382 ∈ opsL5_W by decide),
   by simp only [List.Forall, nullary_writes, unary_writes, binary_writes, ternary_writes, reshape_writes, Finset.singleton_subset_iff, List.mem_toFinset]; exact List.mem_map_of_mem (show main_v383 ∈ opsL5_W by decide),
   by simp only [List.Forall, nullary_writes, unary_writes, binary_writes, ternary_writes, reshape_writes, Finset.singleton_subset_iff, List.mem_toFinset]; exact List.mem_map_of_mem (show main_v384 ∈ opsL5_W by decide),
   by simp only [List.Forall, nullary_writes, unary_writes, binary_writes, ternary_writes, reshape_writes, Finset.singleton_subset_iff, List.mem_toFinset]; exact List.mem_map_of_mem (show main_v385 ∈ opsL5_W by decide),
   by simp only [List.Forall, nullary_writes, unary_writes, binary_writes, ternary_writes, reshape_writes, Finset.singleton_subset_iff, List.mem_toFinset]; exact List.mem_map_of_mem (show main_v386 ∈ opsL5_W by decide),
   by simp only [List.Forall, nullary_writes, unary_writes, binary_writes, ternary_writes, reshape_writes, Finset.singleton_subset_iff, List.mem_toFinset]; exact List.mem_map_of_mem (show main_cst_65 ∈ opsL5_W by decide),
   by simp only [List.Forall, nullary_writes, unary_writes, binary_writes, ternary_writes, reshape_writes, Finset.singleton_subset_iff, List.mem_toFinset]; exact List.mem_map_of_mem (show main_v387 ∈ opsL5_W by decide),
   by simp only [List.Forall, nullary_writes, unary_writes, binary_writes, ternary_writes, reshape_writes, Finset.singleton_subset_iff, List.mem_toFinset]; exact List.mem_map_of_mem (show main_v388 ∈ opsL5_W by decide),
   by simp only [List.Forall, nullary_writes, unary_writes, binary_writes, ternary_writes, reshape_writes, Finset.singleton_subset_iff, List.mem_toFinset]; exact List.mem_map_of_mem (show main_v389 ∈ opsL5_W by decide),
   by simp only [List.Forall, nullary_writes, unary_writes, binary_writes, ternary_writes, reshape_writes, Finset.singleton_subset_iff, List.mem_toFinset]; exact List.mem_map_of_mem (show main_v390 ∈ opsL5_W by decide),
   by simp only [List.Forall, nullary_writes, unary_writes, binary_writes, ternary_writes, reshape_writes, Finset.singleton_subset_iff, List.mem_toFinset]; exact List.mem_map_of_mem (show main_v391 ∈ opsL5_W by decide),
   by simp only [List.Forall, nullary_writes, unary_writes, binary_writes, ternary_writes, reshape_writes, Finset.singleton_subset_iff, List.mem_toFinset]; exact List.mem_map_of_mem (show main_v392 ∈ opsL5_W by decide),
   by simp only [List.Forall, nullary_writes, unary_writes, binary_writes, ternary_writes, reshape_writes, Finset.singleton_subset_iff, List.mem_toFinset]; exact List.mem_map_of_mem (show main_v393 ∈ opsL5_W by decide),
   by simp only [List.Forall, nullary_writes, unary_writes, binary_writes, ternary_writes, reshape_writes, Finset.singleton_subset_iff, List.mem_toFinset]; exact List.mem_map_of_mem (show main_v394 ∈ opsL5_W by decide),
   by simp only [List.Forall, nullary_writes, unary_writes, binary_writes, ternary_writes, reshape_writes, Finset.singleton_subset_iff, List.mem_toFinset]; exact List.mem_map_of_mem (show main_v395 ∈ opsL5_W by decide),
   by simp only [List.Forall, nullary_writes, unary_writes, binary_writes, ternary_writes, reshape_writes, Finset.singleton_subset_iff, List.mem_toFinset]; exact List.mem_map_of_mem (show main_call21.cst.ref ∈ opsL5_W by decide),
   by simp only [List.Forall, nullary_writes, unary_writes, binary_writes, ternary_writes, reshape_writes, Finset.singleton_subset_iff, List.mem_toFinset]; exact List.mem_map_of_mem (show main_call21.v0.ref ∈ opsL5_W by decide),
   by simp only [List.Forall, nullary_writes, unary_writes, binary_writes, ternary_writes, reshape_writes, Finset.singleton_subset_iff, List.mem_toFinset]; exact List.mem_map_of_mem (show main_call21.v1.ref ∈ opsL5_W by decide),
   by simp only [List.Forall, nullary_writes, unary_writes, binary_writes, ternary_writes, reshape_writes, Finset.singleton_subset_iff, List.mem_toFinset]; exact List.mem_map_of_mem (show main_v397 ∈ opsL5_W by decide),
   by simp only [List.Forall, nullary_writes, unary_writes, binary_writes, ternary_writes, reshape_writes, Finset.singleton_subset_iff, List.mem_toFinset]; exact List.mem_map_of_mem (show main_v398 ∈ opsL5_W by decide),
   by simp only [List.Forall, nullary_writes, unary_writes, binary_writes, ternary_writes, reshape_writes, Finset.singleton_subset_iff, List.mem_toFinset]; exact List.mem_map_of_mem (show main_v399 ∈ opsL5_W by decide),
   by simp only [List.Forall, nullary_writes, unary_writes, binary_writes, ternary_writes, reshape_writes, Finset.singleton_subset_iff, List.mem_toFinset]; exact List.mem_map_of_mem (show main_v400 ∈ opsL5_W by decide),
   by simp only [List.Forall, nullary_writes, unary_writes, binary_writes, ternary_writes, reshape_writes, Finset.singleton_subset_iff, List.mem_toFinset]; exact List.mem_map_of_mem (show main_v401 ∈ opsL5_W by decide),
   by simp only [List.Forall, nullary_writes, unary_writes, binary_writes, ternary_writes, reshape_writes, Finset.singleton_subset_iff, List.mem_toFinset]; exact List.mem_map_of_mem (show main_v402 ∈ opsL5_W by decide),
   by simp only [List.Forall, nullary_writes, unary_writes, binary_writes, ternary_writes, reshape_writes, Finset.singleton_subset_iff, List.mem_toFinset]; exact List.mem_map_of_mem (show main_v403 ∈ opsL5_W by decide),
   by simp only [List.Forall, nullary_writes, unary_writes, binary_writes, ternary_writes, reshape_writes, Finset.singleton_subset_iff, List.mem_toFinset]; exact List.mem_map_of_mem (show main_cst_66 ∈ opsL5_W by decide),
   by simp only [List.Forall, nullary_writes, unary_writes, binary_writes, ternary_writes, reshape_writes, Finset.singleton_subset_iff, List.mem_toFinset]; exact List.mem_map_of_mem (show main_v404 ∈ opsL5_W by decide),
   by simp only [List.Forall, nullary_writes, unary_writes, binary_writes, ternary_writes, reshape_writes, Finset.singleton_subset_iff, List.mem_toFinset]; exact List.mem_map_of_mem (show main_cst_67 ∈ opsL5_W by decide),
   by simp only [List.Forall, nullary_writes, unary_writes, binary_writes, ternary_writes, reshape_writes, Finset.singleton_subset_iff, List.mem_toFinset]; exact List.mem_map_of_mem (show main_v405 ∈ opsL5_W by decide),
   by simp only [List.Forall, nullary_writes, unary_writes, binary_writes, ternary_writes, reshape_writes, Finset.singleton_subset_iff, List.mem_toFinset]; exact List.mem_map_of_mem (show main_v406 ∈ opsL5_W by decide),
   by simp only [List.Forall, nullary_writes, unary_writes, binary_writes, ternary_writes, reshape_writes, Finset.singleton_subset_iff, List.mem_toFinset]; exact List.mem_map_of_mem (show main_c_68 ∈ opsL5_W by decide),
   by simp only [List.Forall, nullary_writes, unary_writes, binary_writes, ternary_writes, reshape_writes, Finset.singleton_subset_iff, List.mem_toFinset]; exact List.mem_map_of_mem (show main_call22.cst.ref ∈ opsL5_W by decide),
   by simp only [List.Forall, nullary_writes, unary_writes, binary_writes, ternary_writes, reshape_writes, Finset.singleton_subset_iff, List.mem_toFinset]; exact List.mem_map_of_mem (show main_call22.v0.ref ∈ opsL5_W by decide),
   by simp only [List.Forall, nullary_writes, unary_writes, binary_writes, ternary_writes, reshape_writes, Finset.singleton_subset_iff, List.mem_toFinset]; exact List.mem_map_of_mem (show main_call22.v1.ref ∈ opsL5_W by decide),
   by simp only [List.Forall, nullary_writes, unary_writes, binary_writes, ternary_writes, reshape_writes, Finset.singleton_subset_iff, List.mem_toFinset]; exact List.mem_map_of_mem (show main_call22.cst_0.ref ∈ opsL5_W by decide),
   by simp only [List.Forall, nullary_writes, unary_writes, binary_writes, ternary_writes, reshape_writes, Finset.singleton_subset_iff, List.mem_toFinset]; exact List.mem_map_of_mem (show main_call22.v2.ref ∈ opsL5_W by decide),
   by simp only [List.Forall, nullary_writes, unary_writes, binary_writes, ternary_writes, reshape_writes, Finset.singleton_subset_iff, List.mem_toFinset]; exact List.mem_map_of_mem (show main_call22.v3.ref ∈ opsL5_W by decide),
   by simp only [List.Forall, nullary_writes, unary_writes, binary_writes, ternary_writes, reshape_writes, Finset.singleton_subset_iff, List.mem_toFinset]; exact List.mem_map_of_mem (show main_call22.v4.ref ∈ opsL5_W by decide),
   by simp only [List.Forall, nullary_writes, unary_writes, binary_writes, ternary_writes, reshape_writes, Finset.singleton_subset_iff, List.mem_toFinset]; exact List.mem_map_of_mem (show main_call22.v5.ref ∈ opsL5_W by decide),
   by simp only [List.Forall, nullary_writes, unary_writes, binary_writes, ternary_writes, reshape_writes, Finset.singleton_subset_iff, List.mem_toFinset]; exact List.mem_map_of_mem (show main_call22.v6.ref ∈ opsL5_W by decide),
   by simp only [List.Forall, nullary_writes, unary_writes, binary_writes, ternary_writes, reshape_writes, Finset.singleton_subset_iff, List.mem_toFinset]; exact List.mem_map_of_mem (show main_call22.v7.ref ∈ opsL5_W by decide),
   by simp only [List.Forall, nullary_writes, unary_writes, binary_writes, ternary_writes, reshape_writes, Finset.singleton_subset_iff, List.mem_toFinset]; exact List.mem_map_of_mem (show main_call22.cst_1.ref ∈ opsL5_W by decide),
   by simp only [List.Forall, nullary_writes, unary_writes, binary_writes, ternary_writes, reshape_writes, Finset.singleton_subset_iff, List.mem_toFinset]; exact List.mem_map_of_mem (show main_call22.v8.ref ∈ opsL5_W by decide),
   by simp only [List.Forall, nullary_writes, unary_writes, binary_writes, ternary_writes, reshape_writes, Finset.singleton_subset_iff, List.mem_toFinset]; exact List.mem_map_of_mem (show main_call22.cst_2.ref ∈ opsL5_W by decide),
   by simp only [List.Forall, nullary_writes, unary_writes, binary_writes, ternary_writes, reshape_writes, Finset.singleton_subset_iff, List.mem_toFinset]; exact List.mem_map_of_mem (show main_call22.v9.ref ∈ opsL5_W by decide),
   by simp only [List.Forall, nullary_writes, unary_writes, binary_writes, ternary_writes, reshape_writes, Finset.singleton_subset_iff, List.mem_toFinset]; exact List.mem_map_of_mem (show main_call22.v10.ref ∈ opsL5_W by decide),
   by simp only [List.Forall, nullary_writes, unary_writes, binary_writes, ternary_writes, reshape_writes, Finset.singleton_subset_iff, List.mem_toFinset]; exact List.mem_map_of_mem (show main_call22.v11.ref ∈ opsL5_W by decide),
   by simp only [List.Forall, nullary_writes, unary_writes, binary_writes, ternary_writes, reshape_writes, Finset.singleton_subset_iff, List.mem_toFinset]; exact List.mem_map_of_mem (show main_call22.cst_3.ref ∈ opsL5_W by decide),
   by simp only [List.Forall, nullary_writes, unary_writes, binary_writes, ternary_writes, reshape_writes, Finset.singleton_subset_iff, List.mem_toFinset]; exact List.mem_map_of_mem (show main_call22.v12.ref ∈ opsL5_W by decide),
   by simp only [List.Forall, nullary_writes, unary_writes, binary_writes, ternary_writes, reshape_writes, Finset.singleton_subset_iff, List.mem_toFinset]; exact List.mem_map_of_mem (show main_call22.cst_4.ref ∈ opsL5_W by decide),
   by simp only [List.Forall, nullary_writes, unary_writes, binary_writes, ternary_writes, reshape_writes, Finset.singleton_subset_iff, List.mem_toFinset]; exact List.mem_map_of_mem (show main_call22.call0.v0.ref ∈ opsL5_W by decide),
   by simp only [List.Forall, nullary_writes, unary_writes, binary_writes, ternary_writes, reshape_writes, Finset.singleton_subset_iff, List.mem_toFinset]; exact List.mem_map_of_mem (show main_call22.call0.v1.ref ∈ opsL5_W by decide),
   by simp only [List.Forall, nullary_writes, unary_writes, binary_writes, ternary_writes, reshape_writes, Finset.singleton_subset_iff, List.mem_toFinset]; exact List.mem_map_of_mem (show main_call22.call0.v2.ref ∈ opsL5_W by decide),
   by simp only [List.Forall, nullary_writes, unary_writes, binary_writes, ternary_writes, reshape_writes, Finset.singleton_subset_iff, List.mem_toFinset]; exact List.mem_map_of_mem (show main_v408 ∈ opsL5_W by decide),
   by simp only [List.Forall, nullary_writes, unary_writes, binary_writes, ternary_writes, reshape_writes, Finset.singleton_subset_iff, List.mem_toFinset]; exact List.mem_map_of_mem (show main_v409 ∈ opsL5_W by decide),
   by simp only [List.Forall, nullary_writes, unary_writes, binary_writes, ternary_writes, reshape_writes, Finset.singleton_subset_iff, List.mem_toFinset]; exact List.mem_map_of_mem (show main_v410 ∈ opsL5_W by decide),
   by simp only [List.Forall, nullary_writes, unary_writes, binary_writes, ternary_writes, reshape_writes, Finset.singleton_subset_iff, List.mem_toFinset]; exact List.mem_map_of_mem (show main_v411 ∈ opsL5_W by decide),
   by simp only [List.Forall, nullary_writes, unary_writes, binary_writes, ternary_writes, reshape_writes, Finset.singleton_subset_iff, List.mem_toFinset]; exact List.mem_map_of_mem (show main_v412 ∈ opsL5_W by decide),
   by simp only [List.Forall, nullary_writes, unary_writes, binary_writes, ternary_writes, reshape_writes, Finset.singleton_subset_iff, List.mem_toFinset]; exact List.mem_map_of_mem (show main_v413 ∈ opsL5_W by decide),
   by simp only [List.Forall, nullary_writes, unary_writes, binary_writes, ternary_writes, reshape_writes, Finset.singleton_subset_iff, List.mem_toFinset]; exact List.mem_map_of_mem (show main_cst_69 ∈ opsL5_W by decide),
   by simp only [List.Forall, nullary_writes, unary_writes, binary_writes, ternary_writes, reshape_writes, Finset.singleton_subset_iff, List.mem_toFinset]; exact List.mem_map_of_mem (show main_v414 ∈ opsL5_W by decide),
   by simp only [List.Forall, nullary_writes, unary_writes, binary_writes, ternary_writes, reshape_writes, Finset.singleton_subset_iff, List.mem_toFinset]; exact List.mem_map_of_mem (show main_v415 ∈ opsL5_W by decide),
   by simp only [List.Forall, nullary_writes, unary_writes, binary_writes, ternary_writes, reshape_writes, Finset.singleton_subset_iff, List.mem_toFinset]; exact List.mem_map_of_mem (show main_v416 ∈ opsL5_W by decide),
   by simp only [List.Forall, nullary_writes, unary_writes, binary_writes, ternary_writes, reshape_writes, Finset.singleton_subset_iff, List.mem_toFinset]; exact List.mem_map_of_mem (show main_v417 ∈ opsL5_W by decide),
   by simp only [List.Forall, nullary_writes, unary_writes, binary_writes, ternary_writes, reshape_writes, Finset.singleton_subset_iff, List.mem_toFinset]; exact List.mem_map_of_mem (show main_v418 ∈ opsL5_W by decide),
   by simp only [List.Forall, nullary_writes, unary_writes, binary_writes, ternary_writes, reshape_writes, Finset.singleton_subset_iff, List.mem_toFinset]; exact List.mem_map_of_mem (show main_v419 ∈ opsL5_W by decide),
   by simp only [List.Forall, nullary_writes, unary_writes, binary_writes, ternary_writes, reshape_writes, Finset.singleton_subset_iff, List.mem_toFinset]; exact List.mem_map_of_mem (show main_v420 ∈ opsL5_W by decide),
   by simp only [List.Forall, nullary_writes, unary_writes, binary_writes, ternary_writes, reshape_writes, Finset.singleton_subset_iff, List.mem_toFinset]; exact List.mem_map_of_mem (show main_v421 ∈ opsL5_W by decide),
   by simp only [List.Forall, nullary_writes, unary_writes, binary_writes, ternary_writes, reshape_writes, Finset.singleton_subset_iff, List.mem_toFinset]; exact List.mem_map_of_mem (show main_v422 ∈ opsL5_W by decide),
   by simp only [List.Forall, nullary_writes, unary_writes, binary_writes, ternary_writes, reshape_writes, Finset.singleton_subset_iff, List.mem_toFinset]; exact List.mem_map_of_mem (show main_call23.cst.ref ∈ opsL5_W by decide),
   by simp only [List.Forall, nullary_writes, unary_writes, binary_writes, ternary_writes, reshape_writes, Finset.singleton_subset_iff, List.mem_toFinset]; exact List.mem_map_of_mem (show main_call23.v0.ref ∈ opsL5_W by decide),
   by simp only [List.Forall, nullary_writes, unary_writes, binary_writes, ternary_writes, reshape_writes, Finset.singleton_subset_iff, List.mem_toFinset]; exact List.mem_map_of_mem (show main_call23.v1.ref ∈ opsL5_W by decide)⟩

/-- A buffer the list does not write keeps its contents through it. -/
theorem opsL5_keep (V : Valuation τ sig (Elt F)) (r : Ref sig .tc) (h : r ∉ opsL5_W) :
    after opsL5 V (Proc.devRef .tc r) = V (Proc.devRef .tc r) :=
  after_of_writes_sub opsL5 V opsL5_writes h

/-! ### Layer 6 -/

set_option maxRecDepth 8192 in
/-- Every operation of the list touches TensorCore buffers only. -/
theorem opsL6_sub : (opsL6 : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., unary_bufs_sub ..,
    ternary_bufs_sub .., unary_bufs_sub .., reshape_bufs_sub .., nullary_bufs_sub .., binary_bufs_sub .., unary_bufs_sub ..,
    binary_bufs_sub .., binary_bufs_sub .., unary_bufs_sub .., reshape_bufs_sub .., binary_bufs_sub .., unary_bufs_sub ..,
    reshape_bufs_sub .., unary_bufs_sub .., reshape_bufs_sub .., nullary_bufs_sub .., binary_bufs_sub .., nullary_bufs_sub ..,
    unary_bufs_sub .., binary_bufs_sub .., nullary_bufs_sub .., nullary_bufs_sub .., binary_bufs_sub .., unary_bufs_sub ..,
    nullary_bufs_sub .., unary_bufs_sub .., binary_bufs_sub .., unary_bufs_sub .., binary_bufs_sub .., binary_bufs_sub ..,
    unary_bufs_sub .., nullary_bufs_sub .., binary_bufs_sub .., nullary_bufs_sub .., binary_bufs_sub .., unary_bufs_sub ..,
    binary_bufs_sub .., nullary_bufs_sub .., binary_bufs_sub .., nullary_bufs_sub .., unary_bufs_sub .., unary_bufs_sub ..,
    ternary_bufs_sub .., unary_bufs_sub .., unary_bufs_sub .., binary_bufs_sub .., unary_bufs_sub .., unary_bufs_sub ..,
    binary_bufs_sub .., nullary_bufs_sub .., unary_bufs_sub .., binary_bufs_sub .., unary_bufs_sub .., unary_bufs_sub ..,
    unary_bufs_sub .., binary_bufs_sub .., unary_bufs_sub .., unary_bufs_sub .., binary_bufs_sub .., nullary_bufs_sub ..,
    unary_bufs_sub .., binary_bufs_sub .., binary_bufs_sub .., nullary_bufs_sub .., unary_bufs_sub .., binary_bufs_sub ..⟩

set_option maxRecDepth 8192 in
/-- Every operation of the list determines what it writes. -/
theorem opsL6_fresh : (opsL6 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl,
    rfl, rfl, rfl, rfl, rfl, rfl⟩

/-- The buffers the list's operations write, in order. -/
abbrev opsL6_W : List (Ref sig .tc) :=
  [main_c_70, main_v424, main_v425, main_c_71, main_v426, main_v427, main_v428, main_v429,
   main_v430, main_cst_72, main_v431, main_v432, main_v433, main_v434, main_v435, main_cst_73,
   main_v436, main_v437, main_v438, main_v439, main_v440, main_v441, main_v442, main_v443,
   main_v444, main_v445, main_v446, main_cst_74, main_v447, main_cst_75, main_v448, main_v449,
   main_c_76, main_call24.cst.ref, main_call24.v0.ref, main_call24.v1.ref, main_call24.cst_0.ref, main_call24.v2.ref, main_call24.v3.ref, main_call24.v4.ref,
   main_call24.v5.ref, main_call24.v6.ref, main_call24.v7.ref, main_call24.cst_1.ref, main_call24.v8.ref, main_call24.cst_2.ref, main_call24.v9.ref, main_call24.v10.ref,
   main_call24.v11.ref, main_call24.cst_3.ref, main_call24.v12.ref, main_call24.cst_4.ref, main_call24.call0.v0.ref, main_call24.call0.v1.ref, main_call24.call0.v2.ref, main_v451,
   main_v452, main_v453, main_v454, main_v455, main_v456, main_cst_77, main_v457, main_v458,
   main_v459, main_v460, main_v461, main_v462, main_v463, main_v464, main_v465, main_call25.cst.ref,
   main_call25.v0.ref, main_call25.v1.ref, main_v467, main_call26.cst.ref, main_call26.v0.ref, main_call26.v1.ref]

set_option maxRecDepth 8192 in
set_option maxHeartbeats 4000000 in
theorem opsL6_writes : (opsL6 : List (HloOp τ sig (Elt F))).Forall fun op => op.writes ⊆ (opsL6_W.map (Proc.devRef (τ := τ) .tc)).toFinset :=
  ⟨by simp only [List.Forall, nullary_writes, unary_writes, binary_writes, ternary_writes, reshape_writes, Finset.singleton_subset_iff, List.mem_toFinset]; exact List.mem_map_of_mem (show main_c_70 ∈ opsL6_W by decide),
   by simp only [List.Forall, nullary_writes, unary_writes, binary_writes, ternary_writes, reshape_writes, Finset.singleton_subset_iff, List.mem_toFinset]; exact List.mem_map_of_mem (show main_v424 ∈ opsL6_W by decide),
   by simp only [List.Forall, nullary_writes, unary_writes, binary_writes, ternary_writes, reshape_writes, Finset.singleton_subset_iff, List.mem_toFinset]; exact List.mem_map_of_mem (show main_v425 ∈ opsL6_W by decide),
   by simp only [List.Forall, nullary_writes, unary_writes, binary_writes, ternary_writes, reshape_writes, Finset.singleton_subset_iff, List.mem_toFinset]; exact List.mem_map_of_mem (show main_c_71 ∈ opsL6_W by decide),
   by simp only [List.Forall, nullary_writes, unary_writes, binary_writes, ternary_writes, reshape_writes, Finset.singleton_subset_iff, List.mem_toFinset]; exact List.mem_map_of_mem (show main_v426 ∈ opsL6_W by decide),
   by simp only [List.Forall, nullary_writes, unary_writes, binary_writes, ternary_writes, reshape_writes, Finset.singleton_subset_iff, List.mem_toFinset]; exact List.mem_map_of_mem (show main_v427 ∈ opsL6_W by decide),
   by simp only [List.Forall, nullary_writes, unary_writes, binary_writes, ternary_writes, reshape_writes, Finset.singleton_subset_iff, List.mem_toFinset]; exact List.mem_map_of_mem (show main_v428 ∈ opsL6_W by decide),
   by simp only [List.Forall, nullary_writes, unary_writes, binary_writes, ternary_writes, reshape_writes, Finset.singleton_subset_iff, List.mem_toFinset]; exact List.mem_map_of_mem (show main_v429 ∈ opsL6_W by decide),
   by simp only [List.Forall, nullary_writes, unary_writes, binary_writes, ternary_writes, reshape_writes, Finset.singleton_subset_iff, List.mem_toFinset]; exact List.mem_map_of_mem (show main_v430 ∈ opsL6_W by decide),
   by simp only [List.Forall, nullary_writes, unary_writes, binary_writes, ternary_writes, reshape_writes, Finset.singleton_subset_iff, List.mem_toFinset]; exact List.mem_map_of_mem (show main_cst_72 ∈ opsL6_W by decide),
   by simp only [List.Forall, nullary_writes, unary_writes, binary_writes, ternary_writes, reshape_writes, Finset.singleton_subset_iff, List.mem_toFinset]; exact List.mem_map_of_mem (show main_v431 ∈ opsL6_W by decide),
   by simp only [List.Forall, nullary_writes, unary_writes, binary_writes, ternary_writes, reshape_writes, Finset.singleton_subset_iff, List.mem_toFinset]; exact List.mem_map_of_mem (show main_v432 ∈ opsL6_W by decide),
   by simp only [List.Forall, nullary_writes, unary_writes, binary_writes, ternary_writes, reshape_writes, Finset.singleton_subset_iff, List.mem_toFinset]; exact List.mem_map_of_mem (show main_v433 ∈ opsL6_W by decide),
   by simp only [List.Forall, nullary_writes, unary_writes, binary_writes, ternary_writes, reshape_writes, Finset.singleton_subset_iff, List.mem_toFinset]; exact List.mem_map_of_mem (show main_v434 ∈ opsL6_W by decide),
   by simp only [List.Forall, nullary_writes, unary_writes, binary_writes, ternary_writes, reshape_writes, Finset.singleton_subset_iff, List.mem_toFinset]; exact List.mem_map_of_mem (show main_v435 ∈ opsL6_W by decide),
   by simp only [List.Forall, nullary_writes, unary_writes, binary_writes, ternary_writes, reshape_writes, Finset.singleton_subset_iff, List.mem_toFinset]; exact List.mem_map_of_mem (show main_cst_73 ∈ opsL6_W by decide),
   by simp only [List.Forall, nullary_writes, unary_writes, binary_writes, ternary_writes, reshape_writes, Finset.singleton_subset_iff, List.mem_toFinset]; exact List.mem_map_of_mem (show main_v436 ∈ opsL6_W by decide),
   by simp only [List.Forall, nullary_writes, unary_writes, binary_writes, ternary_writes, reshape_writes, Finset.singleton_subset_iff, List.mem_toFinset]; exact List.mem_map_of_mem (show main_v437 ∈ opsL6_W by decide),
   by simp only [List.Forall, nullary_writes, unary_writes, binary_writes, ternary_writes, reshape_writes, Finset.singleton_subset_iff, List.mem_toFinset]; exact List.mem_map_of_mem (show main_v438 ∈ opsL6_W by decide),
   by simp only [List.Forall, nullary_writes, unary_writes, binary_writes, ternary_writes, reshape_writes, Finset.singleton_subset_iff, List.mem_toFinset]; exact List.mem_map_of_mem (show main_v439 ∈ opsL6_W by decide),
   by simp only [List.Forall, nullary_writes, unary_writes, binary_writes, ternary_writes, reshape_writes, Finset.singleton_subset_iff, List.mem_toFinset]; exact List.mem_map_of_mem (show main_v440 ∈ opsL6_W by decide),
   by simp only [List.Forall, nullary_writes, unary_writes, binary_writes, ternary_writes, reshape_writes, Finset.singleton_subset_iff, List.mem_toFinset]; exact List.mem_map_of_mem (show main_v441 ∈ opsL6_W by decide),
   by simp only [List.Forall, nullary_writes, unary_writes, binary_writes, ternary_writes, reshape_writes, Finset.singleton_subset_iff, List.mem_toFinset]; exact List.mem_map_of_mem (show main_v442 ∈ opsL6_W by decide),
   by simp only [List.Forall, nullary_writes, unary_writes, binary_writes, ternary_writes, reshape_writes, Finset.singleton_subset_iff, List.mem_toFinset]; exact List.mem_map_of_mem (show main_v443 ∈ opsL6_W by decide),
   by simp only [List.Forall, nullary_writes, unary_writes, binary_writes, ternary_writes, reshape_writes, Finset.singleton_subset_iff, List.mem_toFinset]; exact List.mem_map_of_mem (show main_v444 ∈ opsL6_W by decide),
   by simp only [List.Forall, nullary_writes, unary_writes, binary_writes, ternary_writes, reshape_writes, Finset.singleton_subset_iff, List.mem_toFinset]; exact List.mem_map_of_mem (show main_v445 ∈ opsL6_W by decide),
   by simp only [List.Forall, nullary_writes, unary_writes, binary_writes, ternary_writes, reshape_writes, Finset.singleton_subset_iff, List.mem_toFinset]; exact List.mem_map_of_mem (show main_v446 ∈ opsL6_W by decide),
   by simp only [List.Forall, nullary_writes, unary_writes, binary_writes, ternary_writes, reshape_writes, Finset.singleton_subset_iff, List.mem_toFinset]; exact List.mem_map_of_mem (show main_cst_74 ∈ opsL6_W by decide),
   by simp only [List.Forall, nullary_writes, unary_writes, binary_writes, ternary_writes, reshape_writes, Finset.singleton_subset_iff, List.mem_toFinset]; exact List.mem_map_of_mem (show main_v447 ∈ opsL6_W by decide),
   by simp only [List.Forall, nullary_writes, unary_writes, binary_writes, ternary_writes, reshape_writes, Finset.singleton_subset_iff, List.mem_toFinset]; exact List.mem_map_of_mem (show main_cst_75 ∈ opsL6_W by decide),
   by simp only [List.Forall, nullary_writes, unary_writes, binary_writes, ternary_writes, reshape_writes, Finset.singleton_subset_iff, List.mem_toFinset]; exact List.mem_map_of_mem (show main_v448 ∈ opsL6_W by decide),
   by simp only [List.Forall, nullary_writes, unary_writes, binary_writes, ternary_writes, reshape_writes, Finset.singleton_subset_iff, List.mem_toFinset]; exact List.mem_map_of_mem (show main_v449 ∈ opsL6_W by decide),
   by simp only [List.Forall, nullary_writes, unary_writes, binary_writes, ternary_writes, reshape_writes, Finset.singleton_subset_iff, List.mem_toFinset]; exact List.mem_map_of_mem (show main_c_76 ∈ opsL6_W by decide),
   by simp only [List.Forall, nullary_writes, unary_writes, binary_writes, ternary_writes, reshape_writes, Finset.singleton_subset_iff, List.mem_toFinset]; exact List.mem_map_of_mem (show main_call24.cst.ref ∈ opsL6_W by decide),
   by simp only [List.Forall, nullary_writes, unary_writes, binary_writes, ternary_writes, reshape_writes, Finset.singleton_subset_iff, List.mem_toFinset]; exact List.mem_map_of_mem (show main_call24.v0.ref ∈ opsL6_W by decide),
   by simp only [List.Forall, nullary_writes, unary_writes, binary_writes, ternary_writes, reshape_writes, Finset.singleton_subset_iff, List.mem_toFinset]; exact List.mem_map_of_mem (show main_call24.v1.ref ∈ opsL6_W by decide),
   by simp only [List.Forall, nullary_writes, unary_writes, binary_writes, ternary_writes, reshape_writes, Finset.singleton_subset_iff, List.mem_toFinset]; exact List.mem_map_of_mem (show main_call24.cst_0.ref ∈ opsL6_W by decide),
   by simp only [List.Forall, nullary_writes, unary_writes, binary_writes, ternary_writes, reshape_writes, Finset.singleton_subset_iff, List.mem_toFinset]; exact List.mem_map_of_mem (show main_call24.v2.ref ∈ opsL6_W by decide),
   by simp only [List.Forall, nullary_writes, unary_writes, binary_writes, ternary_writes, reshape_writes, Finset.singleton_subset_iff, List.mem_toFinset]; exact List.mem_map_of_mem (show main_call24.v3.ref ∈ opsL6_W by decide),
   by simp only [List.Forall, nullary_writes, unary_writes, binary_writes, ternary_writes, reshape_writes, Finset.singleton_subset_iff, List.mem_toFinset]; exact List.mem_map_of_mem (show main_call24.v4.ref ∈ opsL6_W by decide),
   by simp only [List.Forall, nullary_writes, unary_writes, binary_writes, ternary_writes, reshape_writes, Finset.singleton_subset_iff, List.mem_toFinset]; exact List.mem_map_of_mem (show main_call24.v5.ref ∈ opsL6_W by decide),
   by simp only [List.Forall, nullary_writes, unary_writes, binary_writes, ternary_writes, reshape_writes, Finset.singleton_subset_iff, List.mem_toFinset]; exact List.mem_map_of_mem (show main_call24.v6.ref ∈ opsL6_W by decide),
   by simp only [List.Forall, nullary_writes, unary_writes, binary_writes, ternary_writes, reshape_writes, Finset.singleton_subset_iff, List.mem_toFinset]; exact List.mem_map_of_mem (show main_call24.v7.ref ∈ opsL6_W by decide),
   by simp only [List.Forall, nullary_writes, unary_writes, binary_writes, ternary_writes, reshape_writes, Finset.singleton_subset_iff, List.mem_toFinset]; exact List.mem_map_of_mem (show main_call24.cst_1.ref ∈ opsL6_W by decide),
   by simp only [List.Forall, nullary_writes, unary_writes, binary_writes, ternary_writes, reshape_writes, Finset.singleton_subset_iff, List.mem_toFinset]; exact List.mem_map_of_mem (show main_call24.v8.ref ∈ opsL6_W by decide),
   by simp only [List.Forall, nullary_writes, unary_writes, binary_writes, ternary_writes, reshape_writes, Finset.singleton_subset_iff, List.mem_toFinset]; exact List.mem_map_of_mem (show main_call24.cst_2.ref ∈ opsL6_W by decide),
   by simp only [List.Forall, nullary_writes, unary_writes, binary_writes, ternary_writes, reshape_writes, Finset.singleton_subset_iff, List.mem_toFinset]; exact List.mem_map_of_mem (show main_call24.v9.ref ∈ opsL6_W by decide),
   by simp only [List.Forall, nullary_writes, unary_writes, binary_writes, ternary_writes, reshape_writes, Finset.singleton_subset_iff, List.mem_toFinset]; exact List.mem_map_of_mem (show main_call24.v10.ref ∈ opsL6_W by decide),
   by simp only [List.Forall, nullary_writes, unary_writes, binary_writes, ternary_writes, reshape_writes, Finset.singleton_subset_iff, List.mem_toFinset]; exact List.mem_map_of_mem (show main_call24.v11.ref ∈ opsL6_W by decide),
   by simp only [List.Forall, nullary_writes, unary_writes, binary_writes, ternary_writes, reshape_writes, Finset.singleton_subset_iff, List.mem_toFinset]; exact List.mem_map_of_mem (show main_call24.cst_3.ref ∈ opsL6_W by decide),
   by simp only [List.Forall, nullary_writes, unary_writes, binary_writes, ternary_writes, reshape_writes, Finset.singleton_subset_iff, List.mem_toFinset]; exact List.mem_map_of_mem (show main_call24.v12.ref ∈ opsL6_W by decide),
   by simp only [List.Forall, nullary_writes, unary_writes, binary_writes, ternary_writes, reshape_writes, Finset.singleton_subset_iff, List.mem_toFinset]; exact List.mem_map_of_mem (show main_call24.cst_4.ref ∈ opsL6_W by decide),
   by simp only [List.Forall, nullary_writes, unary_writes, binary_writes, ternary_writes, reshape_writes, Finset.singleton_subset_iff, List.mem_toFinset]; exact List.mem_map_of_mem (show main_call24.call0.v0.ref ∈ opsL6_W by decide),
   by simp only [List.Forall, nullary_writes, unary_writes, binary_writes, ternary_writes, reshape_writes, Finset.singleton_subset_iff, List.mem_toFinset]; exact List.mem_map_of_mem (show main_call24.call0.v1.ref ∈ opsL6_W by decide),
   by simp only [List.Forall, nullary_writes, unary_writes, binary_writes, ternary_writes, reshape_writes, Finset.singleton_subset_iff, List.mem_toFinset]; exact List.mem_map_of_mem (show main_call24.call0.v2.ref ∈ opsL6_W by decide),
   by simp only [List.Forall, nullary_writes, unary_writes, binary_writes, ternary_writes, reshape_writes, Finset.singleton_subset_iff, List.mem_toFinset]; exact List.mem_map_of_mem (show main_v451 ∈ opsL6_W by decide),
   by simp only [List.Forall, nullary_writes, unary_writes, binary_writes, ternary_writes, reshape_writes, Finset.singleton_subset_iff, List.mem_toFinset]; exact List.mem_map_of_mem (show main_v452 ∈ opsL6_W by decide),
   by simp only [List.Forall, nullary_writes, unary_writes, binary_writes, ternary_writes, reshape_writes, Finset.singleton_subset_iff, List.mem_toFinset]; exact List.mem_map_of_mem (show main_v453 ∈ opsL6_W by decide),
   by simp only [List.Forall, nullary_writes, unary_writes, binary_writes, ternary_writes, reshape_writes, Finset.singleton_subset_iff, List.mem_toFinset]; exact List.mem_map_of_mem (show main_v454 ∈ opsL6_W by decide),
   by simp only [List.Forall, nullary_writes, unary_writes, binary_writes, ternary_writes, reshape_writes, Finset.singleton_subset_iff, List.mem_toFinset]; exact List.mem_map_of_mem (show main_v455 ∈ opsL6_W by decide),
   by simp only [List.Forall, nullary_writes, unary_writes, binary_writes, ternary_writes, reshape_writes, Finset.singleton_subset_iff, List.mem_toFinset]; exact List.mem_map_of_mem (show main_v456 ∈ opsL6_W by decide),
   by simp only [List.Forall, nullary_writes, unary_writes, binary_writes, ternary_writes, reshape_writes, Finset.singleton_subset_iff, List.mem_toFinset]; exact List.mem_map_of_mem (show main_cst_77 ∈ opsL6_W by decide),
   by simp only [List.Forall, nullary_writes, unary_writes, binary_writes, ternary_writes, reshape_writes, Finset.singleton_subset_iff, List.mem_toFinset]; exact List.mem_map_of_mem (show main_v457 ∈ opsL6_W by decide),
   by simp only [List.Forall, nullary_writes, unary_writes, binary_writes, ternary_writes, reshape_writes, Finset.singleton_subset_iff, List.mem_toFinset]; exact List.mem_map_of_mem (show main_v458 ∈ opsL6_W by decide),
   by simp only [List.Forall, nullary_writes, unary_writes, binary_writes, ternary_writes, reshape_writes, Finset.singleton_subset_iff, List.mem_toFinset]; exact List.mem_map_of_mem (show main_v459 ∈ opsL6_W by decide),
   by simp only [List.Forall, nullary_writes, unary_writes, binary_writes, ternary_writes, reshape_writes, Finset.singleton_subset_iff, List.mem_toFinset]; exact List.mem_map_of_mem (show main_v460 ∈ opsL6_W by decide),
   by simp only [List.Forall, nullary_writes, unary_writes, binary_writes, ternary_writes, reshape_writes, Finset.singleton_subset_iff, List.mem_toFinset]; exact List.mem_map_of_mem (show main_v461 ∈ opsL6_W by decide),
   by simp only [List.Forall, nullary_writes, unary_writes, binary_writes, ternary_writes, reshape_writes, Finset.singleton_subset_iff, List.mem_toFinset]; exact List.mem_map_of_mem (show main_v462 ∈ opsL6_W by decide),
   by simp only [List.Forall, nullary_writes, unary_writes, binary_writes, ternary_writes, reshape_writes, Finset.singleton_subset_iff, List.mem_toFinset]; exact List.mem_map_of_mem (show main_v463 ∈ opsL6_W by decide),
   by simp only [List.Forall, nullary_writes, unary_writes, binary_writes, ternary_writes, reshape_writes, Finset.singleton_subset_iff, List.mem_toFinset]; exact List.mem_map_of_mem (show main_v464 ∈ opsL6_W by decide),
   by simp only [List.Forall, nullary_writes, unary_writes, binary_writes, ternary_writes, reshape_writes, Finset.singleton_subset_iff, List.mem_toFinset]; exact List.mem_map_of_mem (show main_v465 ∈ opsL6_W by decide),
   by simp only [List.Forall, nullary_writes, unary_writes, binary_writes, ternary_writes, reshape_writes, Finset.singleton_subset_iff, List.mem_toFinset]; exact List.mem_map_of_mem (show main_call25.cst.ref ∈ opsL6_W by decide),
   by simp only [List.Forall, nullary_writes, unary_writes, binary_writes, ternary_writes, reshape_writes, Finset.singleton_subset_iff, List.mem_toFinset]; exact List.mem_map_of_mem (show main_call25.v0.ref ∈ opsL6_W by decide),
   by simp only [List.Forall, nullary_writes, unary_writes, binary_writes, ternary_writes, reshape_writes, Finset.singleton_subset_iff, List.mem_toFinset]; exact List.mem_map_of_mem (show main_call25.v1.ref ∈ opsL6_W by decide),
   by simp only [List.Forall, nullary_writes, unary_writes, binary_writes, ternary_writes, reshape_writes, Finset.singleton_subset_iff, List.mem_toFinset]; exact List.mem_map_of_mem (show main_v467 ∈ opsL6_W by decide),
   by simp only [List.Forall, nullary_writes, unary_writes, binary_writes, ternary_writes, reshape_writes, Finset.singleton_subset_iff, List.mem_toFinset]; exact List.mem_map_of_mem (show main_call26.cst.ref ∈ opsL6_W by decide),
   by simp only [List.Forall, nullary_writes, unary_writes, binary_writes, ternary_writes, reshape_writes, Finset.singleton_subset_iff, List.mem_toFinset]; exact List.mem_map_of_mem (show main_call26.v0.ref ∈ opsL6_W by decide),
   by simp only [List.Forall, nullary_writes, unary_writes, binary_writes, ternary_writes, reshape_writes, Finset.singleton_subset_iff, List.mem_toFinset]; exact List.mem_map_of_mem (show main_call26.v1.ref ∈ opsL6_W by decide)⟩

/-- A buffer the list does not write keeps its contents through it. -/
theorem opsL6_keep (V : Valuation τ sig (Elt F)) (r : Ref sig .tc) (h : r ∉ opsL6_W) :
    after opsL6 V (Proc.devRef .tc r) = V (Proc.devRef .tc r) :=
  after_of_writes_sub opsL6 V opsL6_writes h

/-! ### The pooling -/

set_option maxRecDepth 8192 in
/-- Every operation of the list touches TensorCore buffers only. -/
theorem opsTail_sub : (opsTail : List (HloOp τ sig (Elt F))).Forall fun op => op.bufs ⊆ tcRefs τ sig :=
  ⟨nullary_bufs_sub .., unary_bufs_sub .., nullary_bufs_sub .., unary_bufs_sub .., unary_bufs_sub .., ternary_bufs_sub ..,
    nullary_bufs_sub .., unary_bufs_sub .., unary_bufs_sub .., ternary_bufs_sub .., nullary_bufs_sub .., unary_bufs_sub ..,
    binary_bufs_sub .., unary_bufs_sub .., unary_bufs_sub .., binary_bufs_sub ..⟩

set_option maxRecDepth 8192 in
/-- Every operation of the list determines what it writes. -/
theorem opsTail_fresh : (opsTail : List (HloOp τ sig (Elt F))).Forall fun op => op.fresh = ∅ :=
  ⟨rfl, rfl, rfl, rfl, rfl, rfl, rfl, rfl, rfl, rfl, rfl, rfl, rfl, rfl, rfl, rfl⟩

/-- The buffers the list's operations write, in order. -/
abbrev opsTail_W : List (Ref sig .tc) :=
  [main_cst_78, main_v469, main_cst_79, main_v470, main_v471, main_v472, main_cst_80, main_v473,
   main_v474, main_v475, main_cst_81, main_v476, main_v477, main_v478, main_v479, main_v480]

set_option maxRecDepth 8192 in
set_option maxHeartbeats 4000000 in
theorem opsTail_writes : (opsTail : List (HloOp τ sig (Elt F))).Forall fun op => op.writes ⊆ (opsTail_W.map (Proc.devRef (τ := τ) .tc)).toFinset :=
  ⟨by simp only [List.Forall, nullary_writes, unary_writes, binary_writes, ternary_writes, reshape_writes, Finset.singleton_subset_iff, List.mem_toFinset]; exact List.mem_map_of_mem (show main_cst_78 ∈ opsTail_W by decide),
   by simp only [List.Forall, nullary_writes, unary_writes, binary_writes, ternary_writes, reshape_writes, Finset.singleton_subset_iff, List.mem_toFinset]; exact List.mem_map_of_mem (show main_v469 ∈ opsTail_W by decide),
   by simp only [List.Forall, nullary_writes, unary_writes, binary_writes, ternary_writes, reshape_writes, Finset.singleton_subset_iff, List.mem_toFinset]; exact List.mem_map_of_mem (show main_cst_79 ∈ opsTail_W by decide),
   by simp only [List.Forall, nullary_writes, unary_writes, binary_writes, ternary_writes, reshape_writes, Finset.singleton_subset_iff, List.mem_toFinset]; exact List.mem_map_of_mem (show main_v470 ∈ opsTail_W by decide),
   by simp only [List.Forall, nullary_writes, unary_writes, binary_writes, ternary_writes, reshape_writes, Finset.singleton_subset_iff, List.mem_toFinset]; exact List.mem_map_of_mem (show main_v471 ∈ opsTail_W by decide),
   by simp only [List.Forall, nullary_writes, unary_writes, binary_writes, ternary_writes, reshape_writes, Finset.singleton_subset_iff, List.mem_toFinset]; exact List.mem_map_of_mem (show main_v472 ∈ opsTail_W by decide),
   by simp only [List.Forall, nullary_writes, unary_writes, binary_writes, ternary_writes, reshape_writes, Finset.singleton_subset_iff, List.mem_toFinset]; exact List.mem_map_of_mem (show main_cst_80 ∈ opsTail_W by decide),
   by simp only [List.Forall, nullary_writes, unary_writes, binary_writes, ternary_writes, reshape_writes, Finset.singleton_subset_iff, List.mem_toFinset]; exact List.mem_map_of_mem (show main_v473 ∈ opsTail_W by decide),
   by simp only [List.Forall, nullary_writes, unary_writes, binary_writes, ternary_writes, reshape_writes, Finset.singleton_subset_iff, List.mem_toFinset]; exact List.mem_map_of_mem (show main_v474 ∈ opsTail_W by decide),
   by simp only [List.Forall, nullary_writes, unary_writes, binary_writes, ternary_writes, reshape_writes, Finset.singleton_subset_iff, List.mem_toFinset]; exact List.mem_map_of_mem (show main_v475 ∈ opsTail_W by decide),
   by simp only [List.Forall, nullary_writes, unary_writes, binary_writes, ternary_writes, reshape_writes, Finset.singleton_subset_iff, List.mem_toFinset]; exact List.mem_map_of_mem (show main_cst_81 ∈ opsTail_W by decide),
   by simp only [List.Forall, nullary_writes, unary_writes, binary_writes, ternary_writes, reshape_writes, Finset.singleton_subset_iff, List.mem_toFinset]; exact List.mem_map_of_mem (show main_v476 ∈ opsTail_W by decide),
   by simp only [List.Forall, nullary_writes, unary_writes, binary_writes, ternary_writes, reshape_writes, Finset.singleton_subset_iff, List.mem_toFinset]; exact List.mem_map_of_mem (show main_v477 ∈ opsTail_W by decide),
   by simp only [List.Forall, nullary_writes, unary_writes, binary_writes, ternary_writes, reshape_writes, Finset.singleton_subset_iff, List.mem_toFinset]; exact List.mem_map_of_mem (show main_v478 ∈ opsTail_W by decide),
   by simp only [List.Forall, nullary_writes, unary_writes, binary_writes, ternary_writes, reshape_writes, Finset.singleton_subset_iff, List.mem_toFinset]; exact List.mem_map_of_mem (show main_v479 ∈ opsTail_W by decide),
   by simp only [List.Forall, nullary_writes, unary_writes, binary_writes, ternary_writes, reshape_writes, Finset.singleton_subset_iff, List.mem_toFinset]; exact List.mem_map_of_mem (show main_v480 ∈ opsTail_W by decide)⟩

/-- A buffer the list does not write keeps its contents through it. -/
theorem opsTail_keep (V : Valuation τ sig (Elt F)) (r : Ref sig .tc) (h : r ∉ opsTail_W) :
    after opsTail V (Proc.devRef .tc r) = V (Proc.devRef .tc r) :=
  after_of_writes_sub opsTail V opsTail_writes h

/-! ### The whole line -/

theorem ops_sub : (ops : List (HloOp τ sig (Elt F))).Forall fun op => op.bufs ⊆ tcRefs τ sig :=
  List.forall_iff_forall_mem.mpr fun op h => by
    simp only [ops, List.mem_append] at h
    rcases h with (((((((h | h) | h) | h) | h) | h) | h) | h)
    exacts [List.forall_iff_forall_mem.mp opsL0_sub op h, List.forall_iff_forall_mem.mp opsL1_sub op h, List.forall_iff_forall_mem.mp opsL2_sub op h, List.forall_iff_forall_mem.mp opsL3_sub op h, List.forall_iff_forall_mem.mp opsL4_sub op h, List.forall_iff_forall_mem.mp opsL5_sub op h, List.forall_iff_forall_mem.mp opsL6_sub op h, List.forall_iff_forall_mem.mp opsTail_sub op h]

theorem ops_fresh : ∀ op ∈ (ops : List (HloOp τ sig (Elt F))), op.fresh = ∅ := fun op h => by
  simp only [ops, List.mem_append] at h
  rcases h with (((((((h | h) | h) | h) | h) | h) | h) | h)
  exacts [List.forall_iff_forall_mem.mp opsL0_fresh op h, List.forall_iff_forall_mem.mp opsL1_fresh op h, List.forall_iff_forall_mem.mp opsL2_fresh op h, List.forall_iff_forall_mem.mp opsL3_fresh op h, List.forall_iff_forall_mem.mp opsL4_fresh op h, List.forall_iff_forall_mem.mp opsL5_fresh op h, List.forall_iff_forall_mem.mp opsL6_fresh op h, List.forall_iff_forall_mem.mp opsTail_fresh op h]

/-- The fold over the whole line is the layers' folds one after the other. -/
theorem after_ops (V : Valuation τ sig (Elt F)) :
    after ops V = after opsTail (after opsL6 (after opsL5 (after opsL4 (after opsL3 (after opsL2 (after opsL1 (after opsL0 V))))))) := by
  simp only [ops, StableHlo.after_append]

/-- A buffer no layer writes keeps its contents through the whole line. -/
theorem ops_keep (V : Valuation τ sig (Elt F)) (r : Ref sig .tc)
    (h0 : r ∉ opsL0_W) (h1 : r ∉ opsL1_W) (h2 : r ∉ opsL2_W) (h3 : r ∉ opsL3_W) (h4 : r ∉ opsL4_W) (h5 : r ∉ opsL5_W) (h6 : r ∉ opsL6_W) (h7 : r ∉ opsTail_W) :
    after ops V (Proc.devRef .tc r) = V (Proc.devRef .tc r) := by
  rw [after_ops, opsTail_keep _ r h7, opsL6_keep _ r h6, opsL5_keep _ r h5, opsL4_keep _ r h4, opsL3_keep _ r h3, opsL2_keep _ r h2,
    opsL1_keep _ r h1, opsL0_keep _ r h0]

theorem ops_main_arg0 (V : Valuation τ sig (Elt F)) : after ops V (Proc.devRef .tc main_arg0) = V (Proc.devRef .tc main_arg0) :=
  ops_keep V main_arg0 (by decide) (by decide) (by decide) (by decide) (by decide) (by decide) (by decide) (by decide)
theorem ops_main_arg1 (V : Valuation τ sig (Elt F)) : after ops V (Proc.devRef .tc main_arg1) = V (Proc.devRef .tc main_arg1) :=
  ops_keep V main_arg1 (by decide) (by decide) (by decide) (by decide) (by decide) (by decide) (by decide) (by decide)
theorem ops_main_arg2 (V : Valuation τ sig (Elt F)) : after ops V (Proc.devRef .tc main_arg2) = V (Proc.devRef .tc main_arg2) :=
  ops_keep V main_arg2 (by decide) (by decide) (by decide) (by decide) (by decide) (by decide) (by decide) (by decide)
theorem ops_main_arg3 (V : Valuation τ sig (Elt F)) : after ops V (Proc.devRef .tc main_arg3) = V (Proc.devRef .tc main_arg3) :=
  ops_keep V main_arg3 (by decide) (by decide) (by decide) (by decide) (by decide) (by decide) (by decide) (by decide)
theorem ops_main_arg4 (V : Valuation τ sig (Elt F)) : after ops V (Proc.devRef .tc main_arg4) = V (Proc.devRef .tc main_arg4) :=
  ops_keep V main_arg4 (by decide) (by decide) (by decide) (by decide) (by decide) (by decide) (by decide) (by decide)
theorem ops_main_arg5 (V : Valuation τ sig (Elt F)) : after ops V (Proc.devRef .tc main_arg5) = V (Proc.devRef .tc main_arg5) :=
  ops_keep V main_arg5 (by decide) (by decide) (by decide) (by decide) (by decide) (by decide) (by decide) (by decide)
theorem ops_main_arg6 (V : Valuation τ sig (Elt F)) : after ops V (Proc.devRef .tc main_arg6) = V (Proc.devRef .tc main_arg6) :=
  ops_keep V main_arg6 (by decide) (by decide) (by decide) (by decide) (by decide) (by decide) (by decide) (by decide)
theorem ops_main_arg7 (V : Valuation τ sig (Elt F)) : after ops V (Proc.devRef .tc main_arg7) = V (Proc.devRef .tc main_arg7) :=
  ops_keep V main_arg7 (by decide) (by decide) (by decide) (by decide) (by decide) (by decide) (by decide) (by decide)
theorem ops_main_arg8 (V : Valuation τ sig (Elt F)) : after ops V (Proc.devRef .tc main_arg8) = V (Proc.devRef .tc main_arg8) :=
  ops_keep V main_arg8 (by decide) (by decide) (by decide) (by decide) (by decide) (by decide) (by decide) (by decide)
theorem ops_main_arg9 (V : Valuation τ sig (Elt F)) : after ops V (Proc.devRef .tc main_arg9) = V (Proc.devRef .tc main_arg9) :=
  ops_keep V main_arg9 (by decide) (by decide) (by decide) (by decide) (by decide) (by decide) (by decide) (by decide)
theorem ops_main_arg10 (V : Valuation τ sig (Elt F)) : after ops V (Proc.devRef .tc main_arg10) = V (Proc.devRef .tc main_arg10) :=
  ops_keep V main_arg10 (by decide) (by decide) (by decide) (by decide) (by decide) (by decide) (by decide) (by decide)
theorem ops_main_arg11 (V : Valuation τ sig (Elt F)) : after ops V (Proc.devRef .tc main_arg11) = V (Proc.devRef .tc main_arg11) :=
  ops_keep V main_arg11 (by decide) (by decide) (by decide) (by decide) (by decide) (by decide) (by decide) (by decide)

/-- On the device, for any float values, from any memory with zero counters: every weakly fair execution of @main terminates
    with the result buffer at the fold of the operations over the launch contents, and the twelve argument arrays unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v480) = after ops (launchContents m c) (main_v480 : DevRef τ sig)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨h c main_v480,
      (h c main_arg0).trans (ops_main_arg0 _),
      (h c main_arg1).trans (ops_main_arg1 _),
      (h c main_arg2).trans (ops_main_arg2 _),
      (h c main_arg3).trans (ops_main_arg3 _),
      (h c main_arg4).trans (ops_main_arg4 _),
      (h c main_arg5).trans (ops_main_arg5 _),
      (h c main_arg6).trans (ops_main_arg6 _),
      (h c main_arg7).trans (ops_main_arg7 _),
      (h c main_arg8).trans (ops_main_arg8 _),
      (h c main_arg9).trans (ops_main_arg9 _),
      (h c main_arg10).trans (ops_main_arg10 _),
      (h c main_arg11).trans (ops_main_arg11 _)⟩)
    (run_seq scopedRefs_eq scopedSems_eq defs main (fun _ => ops) main_eq (fun _ => ops_sub) m ρ (fun _ => ops_fresh))

end Cert.GIN.Ref

end
-- ==== Proof.Spec.lean ====
/-
  The mathematics of one graph-isomorphism layer, as whole-array functions on the extended reals.

  A node-feature matrix has 50000 rows.  A dense layer is a plain matrix product `mm`; the first dense layer
  of a block acts on `comb sc x ag = sc · x + ag` (the node's own features, scaled, plus the sum over its
  in-neighbours).  Batch statistics are column sums: `colSum` adds the rows tile by tile (ten tiles of 5000 rows,
  the order in which a running sum over row tiles meets them), `colSumSq` does the same for the squares.
  `normRelu` is the affine normalisation of a column by a given mean and variance followed by the rectifier, and
  `relu` the rectifier alone.
-/
import Idealize.ShloMosaic.Lib.ValueIdx
import Idealize.ShloMosaic.PureOps.Ideal

noncomputable section

namespace Cert.GIN

open Idealize.ShloMosaic Idealize.ShloMosaic.ValueIdx

/-- A matrix of extended reals with `a` rows and `b` columns, indexed as the rank-2 shape `[a, b]`. -/
abbrev Mat (a b : Nat) := (⟨2, ![a, b]⟩ : Shape).Idx → EReal

/-- The plain matrix product: entry `(r, j)` is the sum over `q` of `h (r, q) · w (q, j)`. -/
def mm {n k d : Nat} (h : Mat n k) (w : Mat k d) : Mat n d :=
  fun i => ∑ q : Fin k, h (ix2 (i 0) q) * w (ix2 q (i 1))

/-- `sc · x + ag`, the scale a 1×1 matrix. -/
def comb {n k : Nat} (sc : Mat 1 1) (x ag : Mat n k) : Mat n k :=
  fun i => sc (ix2 0 0) * x i + ag i

/-- Column sums of a matrix of 50000 rows, the rows taken as ten tiles of 5000: a 1×d row. -/
def colSum {d : Nat} (z : Mat 50000 d) : Mat 1 d :=
  fun i => ∑ t : Fin 10, ∑ p : Fin 5000, z (ix2 ⟨5000 * t.val + p.val, by omega⟩ (i 1))

/-- Column sums of the squares. -/
def colSumSq {d : Nat} (z : Mat 50000 d) : Mat 1 d :=
  colSum fun i => z i * z i

/-- Column `j` of `z` shifted by `mean j`, scaled by `γ j` and by the reciprocal square root of `var j + eps`,
    shifted by `β j`, then rectified. -/
def normRelu {n d : Nat} (z : Mat n d) (mean var γ β : Mat 1 d) (eps : EReal) : Mat n d :=
  fun i => max (γ (ix2 0 (i 1)) * (z i - mean (ix2 0 (i 1))) * Ideal.rsqrt (var (ix2 0 (i 1)) + eps) + β (ix2 0 (i 1))) 0

/-- The rectifier, entry by entry. -/
def relu {n d : Nat} (z : Mat n d) : Mat n d :=
  fun i => max (z i) 0

/-- Column sums of a matrix of 50000 rows, row by row. -/
def colSumAll {d : Nat} (z : Mat 50000 d) : Mat 1 d :=
  fun i => ∑ r : Fin 50000, z (ix2 r (i 1))

/-- The column means from the tiled column sums: `s / N`. -/
def meanU {d : Nat} (z : Mat 50000 d) (N : EReal) : Mat 1 d :=
  fun i => Ideal.div (colSum z i) N

/-- The uncentred column variances: `ss / N − mean²`. -/
def varU {d : Nat} (z : Mat 50000 d) (N : EReal) : Mat 1 d :=
  fun i => Ideal.div (colSumSq z i) N - meanU z N i * meanU z N i

/-- The column means from the row-by-row column sums. -/
def meanC {d : Nat} (z : Mat 50000 d) (N : EReal) : Mat 1 d :=
  fun i => Ideal.div (colSumAll z i) N

/-- The centred column variances: the mean of the squared deviations from the column mean. -/
def varC {d : Nat} (z : Mat 50000 d) (N : EReal) : Mat 1 d :=
  fun i => Ideal.div (∑ r : Fin 50000, (z (ix2 r (i 1)) - meanC z N i) * (z (ix2 r (i 1)) - meanC z N i)) N

/-- Batch normalisation and rectifier from the uncentred statistics. -/
def bnU {d : Nat} (z : Mat 50000 d) (γ β : Mat 1 d) (N eps : EReal) : Mat 50000 d :=
  normRelu z (meanU z N) (varU z N) γ β eps

/-- Batch normalisation and rectifier from the centred statistics. -/
def bnC {d : Nat} (z : Mat 50000 d) (γ β : Mat 1 d) (N eps : EReal) : Mat 50000 d :=
  normRelu z (meanC z N) (varC z N) γ β eps

/-- Every entry of an array of extended reals (of any index type) is a real number: neither infinity. -/
def IsReal {ι : Type} (x : ι → EReal) : Prop := ∀ i, ∃ r : ℝ, x i = (r : EReal)

end Cert.GIN

end
-- ==== Proof.Consts.lean ====
/-
  The float constants of this certificate, as the extended reals their bit patterns denote under exact arithmetic.

  A 32-bit pattern with sign bit 0, exponent field `E` (neither 0 nor 255) and fraction field `T` denotes the real
  `(2^23 + T) · 2^(E − 127 − 23)`.

  * `0x47435000`: `E = 142`, `T = 4411392`, so `(8388608 + 4411392) · 2^(−8) = 12800000 / 256 = 50000`, the row count.
  * `0x3727C5AC`: `E = 110`, `T = 2606508`, so `10995116 · 2^(−40)`, a positive real (about `10^(−5)`): the
    variance offset.  Only its sign is used.
  * `0x3F800000`: `E = 127`, `T = 0`, so `2^23 · 2^(−23) = 1`.
-/
import Idealize.ShloMosaic.PureOps.Ideal

noncomputable section

namespace Cert.GIN

open Idealize.ShloMosaic

/-- The pattern `0x47435000` denotes the real `50000`. -/
theorem ofBits_N : Ideal.ofBits .f32 0x47435000#32 = ((50000 : ℝ) : EReal) := by
  simp [Ideal.ofBits, Ideal.ieee, -EReal.coe_mul]; norm_num

/-- The pattern `0x3727C5AC` denotes a positive real. -/
theorem ofBits_eps_pos : ∃ e : ℝ, 0 < e ∧ Ideal.ofBits .f32 0x3727C5AC#32 = ((e : ℝ) : EReal) := by
  refine ⟨(10995116 : ℝ) * (2 : ℝ) ^ (-40 : Int), by positivity, ?_⟩
  simp [Ideal.ofBits, Ideal.ieee, -EReal.coe_mul]

/-- The pattern `0x3F800000` denotes the real `1`. -/
theorem ofBits_one : Ideal.ofBits .f32 0x3F800000#32 = ((1 : ℝ) : EReal) := by
  simp [Ideal.ofBits, Ideal.ieee, -EReal.coe_mul]; norm_num

end Cert.GIN

end
-- ==== Proof.RefBN.lean ====
/-
  One batch normalisation of the reference program, as a pure function of its operands, and its reading.

  The reference normalises a matrix `z` of 50000 rows column by column: the column mean is the column sum (a
  reduction started from zero) divided by the row count; the column variance is the column sum of the squared
  deviations from the mean — the mean computed a second time, as a 1×d row broadcast down the rows — divided by the
  row count minus a correction (an integer zero converted to a float), and selected against a not-a-number filler by
  whether that divisor is positive; the result is `γ · (z − mean) · rsqrt (var + ε) + β` with every vector first
  made a row and then broadcast down the rows, and finally the maximum with a zero matrix.

  The definitions below compose exactly those operations, in that order, at the ideal instance and at any width
  `d`; the two widths the program uses are instances that cite the program's own shape facts.  Entry by entry the
  composition is the specification's `bnC`: a sum started from zero is the sum, the row count minus zero is the row
  count, which is positive, so the selection takes the quotient.
-/
import proofs.«177653_j8959301779747_1_alg».proof.ReferenceIdeal
import proofs.«177653_j8959301779747_1_alg».proof.Proof.Spec
import proofs.«177653_j8959301779747_1_alg».proof.Proof.Consts
import Idealize.ShloMosaic.Lib.ValueIdx
import Idealize.ShloMosaic.Lib.IdealHost
import Idealize.ShloMosaic.Lib.KernelVsHost
import Idealize.ShloMosaic.Lib.Pipeline.Value

noncomputable section

namespace Cert.GIN.Ref

open Idealize.ShloMosaic Idealize.ShloMosaic.ValueIdx

/-- The scalar shape. -/
abbrev S0 : Shape := ⟨0, ![]⟩
/-- A vector of `d` entries. -/
abbrev SV (d : Nat) : Shape := ⟨1, ![d]⟩
/-- A single row of `d` entries. -/
abbrev SR (d : Nat) : Shape := ⟨2, ![1, d]⟩
/-- A matrix of 50000 rows and `d` columns. -/
abbrev SM (d : Nat) : Shape := ⟨2, ![50000, d]⟩

/-- The shape facts one batch normalisation at width `d` cites: the column reduction, and the broadcasts of a scalar
    to a vector, a row and a matrix, of a vector to a row, and of a row down the 50000 rows. -/
structure BnFacts (d : Nat) : Prop where
  red : (SM d).ReducesTo [0] (SV d)
  pos : 0 < S0.numel
  b0v : S0.BroadcastsInDim (SV d) (![] : Fin 0 → Fin (SV d).rank)
  bv1 : (SV d).BroadcastsInDim (SR d) (![1] : Fin 1 → Fin (SR d).rank)
  b01 : S0.BroadcastsInDim (SR d) (![] : Fin 0 → Fin (SR d).rank)
  b1m : (SR d).BroadcastsInDim (SM d) (![0, 1] : Fin 2 → Fin (SM d).rank)
  b0m : S0.BroadcastsInDim (SM d) (![] : Fin 0 → Fin (SM d).rank)

variable {d : Nat}

/-- A vector as a 1×d row. -/
def rowOf (g : FVec Ideal (SV d) .f32) : Mat 1 d := fun i => g (ix1 (i 1))

/-- The column means: the column sums started from zero, divided by the row count. -/
def colMean (H : BnFacts d) (z : FVec Ideal (SM d) .f32) : FVec Ideal (SV d) .f32 :=
  Host.divf (F := Ideal)
    (Host.reduceAdd (F := Ideal) z (constant (F := Ideal) S0 .f32 0x00000000#32) H.red H.pos)
    (broadcastInDim (SV d) ![] H.b0v (constant (F := Ideal) S0 .f32 0x47435000#32))

/-- The deviations from the column means, the means recomputed as a row and broadcast down the rows. -/
def colDev (H : BnFacts d) (z : FVec Ideal (SM d) .f32) : FVec Ideal (SM d) .f32 :=
  subf z (broadcastInDim (SM d) ![0, 1] H.b1m
    (Host.divf (F := Ideal)
      (broadcastInDim (SR d) ![1] H.bv1
        (Host.reduceAdd (F := Ideal) z (constant (F := Ideal) S0 .f32 0x00000000#32) H.red H.pos))
      (broadcastInDim (SR d) ![] H.b01 (constant (F := Ideal) S0 .f32 0x47435000#32))))

/-- The divisor of the variance: the row count minus the (zero) correction converted from an integer. -/
def varDen : FVec Ideal S0 .f32 :=
  subf (constant (F := Ideal) S0 .f32 0x47435000#32) (sitofp .f32 (constantI S0 32 0#32) : FVec Ideal S0 .f32)

/-- The column variances: the column sums of the squared deviations over the divisor, selected against a
    not-a-number filler by whether the divisor is positive. -/
def colVar (H : BnFacts d) (z : FVec Ideal (SM d) .f32) : FVec Ideal (SV d) .f32 :=
  select (broadcastInDim (SV d) ![] H.b0v (cmpf .ogt varDen (constant (F := Ideal) S0 .f32 0x00000000#32)))
    (Host.divf (F := Ideal)
      (Host.reduceAdd (F := Ideal) (mulf (colDev H z) (colDev H z)) (constant (F := Ideal) S0 .f32 0x00000000#32) H.red H.pos)
      (broadcastInDim (SV d) ![] H.b0v varDen))
    (broadcastInDim (SV d) ![] H.b0v (constant (F := Ideal) S0 .f32 0x7FC00000#32))

/-- A vector as a row, broadcast down the 50000 rows. -/
def downRows (H : BnFacts d) (v : FVec Ideal (SV d) .f32) : FVec Ideal (SM d) .f32 :=
  broadcastInDim (SM d) ![0, 1] H.b1m (broadcastInDim (SR d) ![1] H.bv1 v)

/-- Batch normalisation and rectifier at width `d`, operation by operation. -/
def bnOf (H : BnFacts d) (z : FVec Ideal (SM d) .f32) (g b : FVec Ideal (SV d) .f32) : FVec Ideal (SM d) .f32 :=
  maximumf
    (addf
      (mulf
        (mulf (downRows H g) (subf z (downRows H (colMean H z))))
        (downRows H (Host.rsqrt (F := Ideal)
          (addf (colVar H z) (broadcastInDim (SV d) ![] H.b0v (constant (F := Ideal) S0 .f32 0x3727C5AC#32))))))
      (downRows H b))
    (broadcastInDim (SM d) ![] H.b0m (constant (F := Ideal) S0 .f32 0x00000000#32))

/-! ## Reading the operations at an entry -/

/-- A vector as a row, at column `c`. -/
theorem vecRow_apply (h : (SV d).BroadcastsInDim (SR d) (![1] : Fin 1 → Fin (SR d).rank)) (v : FVec Ideal (SV d) .f32) (c : Fin d) :
    broadcastInDim (SR d) ![1] h v (ix2 (0 : Fin 1) c) = v (ix1 c) := by
  refine broadcastInDim_apply ![1] h v (ix2 (0 : Fin 1) c) (ix1 c) ?_
  intro a
  match a with
  | ⟨0, _⟩ =>
    show c.val = if d = 1 then 0 else c.val
    split_ifs with hd
    · have := c.isLt; omega
    · rfl

/-- A vector broadcast down the rows, at `(r, c)`. -/
theorem downRows_apply (H : BnFacts d) (v : FVec Ideal (SV d) .f32) (r : Fin 50000) (c : Fin d) :
    downRows H v (ix2 r c) = v (ix1 c) := by
  unfold downRows
  rw [broadcastInDim_oneRow_apply, vecRow_apply]

/-- A column sum started from zero, at column `c`. -/
theorem colSum_apply (H : BnFacts d) (hr : (SM d).Reduces [0] (SV d)) (x : FVec Ideal (SM d) .f32) (c : Fin d) :
    Host.reduceAdd (F := Ideal) x (constant (F := Ideal) S0 .f32 0x00000000#32) H.red H.pos (ix1 c)
      = ∑ r : Fin 50000, x (ix2 r c) := by
  rw [hostReduceAdd_apply, Ideal.hostReduceAdd_single H.red hr, constant_apply, Ideal.ofBits_zero_f32, zero_add]
  exact Finset.sum_congr rfl fun k _ => congrArg x (funext fun a => Fin.ext (by
    match a with
    | ⟨0, _⟩ => rfl
    | ⟨1, _⟩ => rfl))

/-- The column mean at column `c`. -/
theorem colMean_apply (H : BnFacts d) (hr : (SM d).Reduces [0] (SV d)) (z : FVec Ideal (SM d) .f32) (c : Fin d) :
    colMean H z (ix1 c) = Ideal.div (∑ r : Fin 50000, z (ix2 r c)) ((50000 : ℝ) : EReal) := by
  unfold colMean
  rw [hostDivf_apply, colSum_apply H hr, broadcastInDim_scalar_apply, constant_apply, ofBits_N]

/-- The deviation from the column mean at `(r, c)`. -/
theorem colDev_apply (H : BnFacts d) (hr : (SM d).Reduces [0] (SV d)) (z : FVec Ideal (SM d) .f32) (r : Fin 50000) (c : Fin d) :
    colDev H z (ix2 r c) = z (ix2 r c) - Ideal.div (∑ r : Fin 50000, z (ix2 r c)) ((50000 : ℝ) : EReal) := by
  unfold colDev
  rw [subf_apply, broadcastInDim_oneRow_apply, hostDivf_apply, vecRow_apply, colSum_apply H hr,
    broadcastInDim_scalar_apply, constant_apply, ofBits_N]

/-- The divisor of the variance is the row count. -/
theorem varDen_apply : varDen ix0 = ((50000 : ℝ) : EReal) := by
  unfold varDen
  rw [subf_apply, constant_apply, sitofp_apply, ofBits_N]
  show ((50000 : ℝ) : EReal) - (((0#32 : BitVec 32).toInt : ℝ) : EReal) = _
  have h0 : (0#32 : BitVec 32).toInt = 0 := by decide
  rw [h0]
  simp

/-- The column variance at column `c`: the divisor is positive, so the selection takes the quotient. -/
theorem colVar_apply (H : BnFacts d) (hr : (SM d).Reduces [0] (SV d)) (z : FVec Ideal (SM d) .f32) (c : Fin d) :
    colVar H z (ix1 c)
      = Ideal.div (∑ r : Fin 50000,
          (z (ix2 r c) - Ideal.div (∑ r : Fin 50000, z (ix2 r c)) ((50000 : ℝ) : EReal))
            * (z (ix2 r c) - Ideal.div (∑ r : Fin 50000, z (ix2 r c)) ((50000 : ℝ) : EReal))) ((50000 : ℝ) : EReal) := by
  unfold colVar
  rw [select_apply, broadcastInDim_scalar_apply, cmpf_apply, varDen_apply, constant_apply, Ideal.ofBits_zero_f32]
  have hpos : FloatOps.cmpf (F := Ideal) (φ := .f32) .ogt (((50000 : ℝ) : EReal)) 0 = 1#1 := by
    show BitVec.ofBool (decide ((0 : EReal) < ((50000 : ℝ) : EReal))) = 1#1
    rw [decide_eq_true (by exact_mod_cast (by norm_num : (0 : ℝ) < 50000))]
    rfl
  rw [hpos, select_one, hostDivf_apply, colSum_apply H hr, broadcastInDim_scalar_apply, varDen_apply]
  simp only [mulf_apply, colDev_apply H hr]

/-- Batch normalisation and rectifier, operation by operation, is the specification's, from the centred statistics. -/
theorem bnOf_eq (H : BnFacts d) (hr : (SM d).Reduces [0] (SV d)) (z : FVec Ideal (SM d) .f32) (g b : FVec Ideal (SV d) .f32) :
    bnOf H z g b = bnC z (rowOf g) (rowOf b) ((50000 : ℝ) : EReal) (Ideal.ofBits .f32 0x3727C5AC#32) := by
  funext i
  obtain ⟨r, c, rfl⟩ : ∃ (r : Fin 50000) (c : Fin d), i = ix2 r c := ⟨i 0, i 1, eq_ix2 i⟩
  unfold bnOf
  rw [maximumf_apply, addf_apply, mulf_apply, mulf_apply, subf_apply, downRows_apply, downRows_apply, downRows_apply,
    downRows_apply, colMean_apply H hr, broadcastInDim_scalar_apply, constant_apply, Ideal.ofBits_zero_f32]
  show max (g (ix1 c) * (z (ix2 r c) - _) * Host.rsqrt (F := Ideal) _ (ix1 c) + b (ix1 c)) 0 = _
  have hrs : ∀ (v : FVec Ideal (SV d) .f32), Host.rsqrt (F := Ideal) v (ix1 c) = Ideal.rsqrt (v (ix1 c)) := fun _ => rfl
  rw [hrs, addf_apply, colVar_apply H hr, broadcastInDim_scalar_apply, constant_apply]
  rfl

/-! ## The two widths of the program -/

open Cert.ReferenceIdeal Cert.ReferenceIdeal.Facts₀

variable [Facts₀]

/-- The shape facts at width 64, by the program's names. -/
theorem facts64 : BnFacts 64 :=
  ⟨reducesTo_S50000x64_S64_d0, h_S_, bcast_S_S64, bcast_S64_S1x64_1, bcast_S_S1x64, bcast_S1x64_S50000x64_0_1, bcast_S_S50000x64⟩

/-- The shape facts at width 128, by the program's names. -/
theorem facts128 : BnFacts 128 :=
  ⟨reducesTo_S50000x128_S128_d0, h_S_, bcast_S_S128, bcast_S128_S1x128_1, bcast_S_S1x128, bcast_S1x128_S50000x128_0_1,
    bcast_S_S50000x128⟩

/-- Batch normalisation and rectifier at width 64. -/
def bn64 (z : FVec Ideal S50000x64 .f32) (g b : FVec Ideal S64 .f32) : FVec Ideal S50000x64 .f32 := bnOf facts64 z g b

/-- Batch normalisation and rectifier at width 128. -/
def bn128 (z : FVec Ideal S50000x128 .f32) (g b : FVec Ideal S128 .f32) : FVec Ideal S50000x128 .f32 := bnOf facts128 z g b

theorem bn64_eq (z : FVec Ideal S50000x64 .f32) (g b : FVec Ideal S64 .f32) :
    bn64 z g b = bnC z (rowOf g) (rowOf b) ((50000 : ℝ) : EReal) (Ideal.ofBits .f32 0x3727C5AC#32) :=
  bnOf_eq facts64 (by decide) z g b

theorem bn128_eq (z : FVec Ideal S50000x128 .f32) (g b : FVec Ideal S128 .f32) :
    bn128 z g b = bnC z (rowOf g) (rowOf b) ((50000 : ℝ) : EReal) (Ideal.ofBits .f32 0x3727C5AC#32) :=
  bnOf_eq facts128 (by decide) z g b

end Cert.GIN.Ref

end
-- ==== Proof.LibPlainDot.lean ====
/-
  A plain matrix product read at an entry, at the ideal instance.

  For dimension numbers that contract the left operand's columns with the right operand's rows and have no batch
  axis (`DotDims.plain m k n`), both the kernel's product into a zero accumulator and the host's `dot_general` are,
  at entry `(p, j)`, the sum over `q < k` of `l (p, q) · r (q, j)` on the extended reals.  Stated for any record
  equal to the plain one, so that each printed record (a `def` of its own) can be cited by `rfl`.
-/
import Idealize.ShloMosaic.Lib.ValueIdx
import Idealize.ShloMosaic.PureOps.Ideal.Laws

noncomputable section

namespace Cert.PlainDot

open Idealize.ShloMosaic Idealize.ShloMosaic.ValueIdx

variable {m k n : Nat} {φ₁ φ₂ : FTy}

/-- The sum over the one contraction axis of a plain product, re-indexed by `Fin k`, with the operand indices at an
    output entry `(p, j)` written by coordinates. -/
theorem sum_plain (l : (⟨2, ![m, k]⟩ : Shape).Idx → EReal) (r : (⟨2, ![k, n]⟩ : Shape).Idx → EReal) (p : Fin m) (j : Fin n) :
    (∑ q : (DotDims.plain m k n).contr.Idx, l ((DotDims.plain m k n).lhsIdx (ix2 p j) q) * r ((DotDims.plain m k n).rhsIdx (ix2 p j) q))
      = ∑ q : Fin k, l (ix2 p q) * r (ix2 q j) := by
  rw [← Equiv.sum_comp (contrEquiv1 (DotDims.plain m k n) k rfl rfl).symm]
  refine Finset.sum_congr rfl fun q _ => ?_
  have hq := contrEquiv1_symm_val (DotDims.plain m k n) k rfl rfl q
  have el : (DotDims.plain m k n).lhsIdx (ix2 p j) ((contrEquiv1 (DotDims.plain m k n) k rfl rfl).symm q) = ix2 p q :=
    funext fun a => Fin.ext (by
      match a with
      | ⟨0, _⟩ => rfl
      | ⟨1, _⟩ => exact ((DotDims.plain m k n).lhsIdx_val_of_single rfl _ _).trans hq)
  have er : (DotDims.plain m k n).rhsIdx (ix2 p j) ((contrEquiv1 (DotDims.plain m k n) k rfl rfl).symm q) = ix2 q j :=
    funext fun a => Fin.ext (by
      match a with
      | ⟨0, _⟩ => exact ((DotDims.plain m k n).rhsIdx_val_of_single rfl _ _).trans hq
      | ⟨1, _⟩ => rfl)
  rw [el, er]

/-- The kernel's product into the zero splat, at entry `(p, j)`. -/
theorem matmul_zero_ix2 (D : DotDims ⟨2, ![m, k]⟩ ⟨2, ![k, n]⟩ ⟨2, ![m, n]⟩) (hD : D = DotDims.plain m k n)
    (prec : Option ContractPrecision) (l : FVec Ideal ⟨2, ![m, k]⟩ φ₁) (r : FVec Ideal ⟨2, ![k, n]⟩ φ₂) (p : Fin m) (j : Fin n) :
    matmul D prec l r (constant (F := Ideal) ⟨2, ![m, n]⟩ .f32 0x00000000#32) (ix2 p j) = ∑ q : Fin k, l (ix2 p q) * r (ix2 q j) := by
  subst hD
  simp only [matmul]
  rw [Ideal.matmul_constant_zero_apply]
  exact sum_plain l r p j

/-- The host's `dot_general`, at entry `(p, j)`. -/
theorem dotGeneral_ix2 (D : DotDims ⟨2, ![m, k]⟩ ⟨2, ![k, n]⟩ ⟨2, ![m, n]⟩) (hD : D = DotDims.plain m k n)
    (prec : Option ContractPrecision) (l : FVec Ideal ⟨2, ![m, k]⟩ φ₁) (r : FVec Ideal ⟨2, ![k, n]⟩ φ₂) (p : Fin m) (j : Fin n) :
    Host.dotGeneral D prec l r (ix2 p j) = ∑ q : Fin k, l (ix2 p q) * r (ix2 q j) := by
  subst hD
  simp only [Host.dotGeneral]
  rw [Ideal.dotGeneral_apply]
  exact sum_plain l r p j

end Cert.PlainDot

end
-- ==== Proof.RefLayer.lean ====
/-
  The layers of the reference program, as pure functions of their operands, and their reading.

  One layer takes the node features `x` (50000 rows of 128), the two rows of the edge list as index vectors
  `src`, `dst`, a scalar `e`, and its weights.  The aggregate `agg` gathers, for every edge, the row of `x` named by
  the edge's source (an index below zero wrapped by adding the row count) and adds it into the row named by the
  edge's target, starting from the zero matrix.  The layer's input to its first dense map is `(1 + e) · x + agg`;
  then a matrix product with `w1`, batch normalisation and rectifier at width 64, and either a second product with
  `w2` and batch normalisation and rectifier at width 128, or — in the last layer — a product with the 64×2 matrix and
  the rectifier alone.  The pooling adds the rows of a 50000×2 matrix, and a one per row, into 64 segments named by
  `batch`, and divides each segment's sum by its count raised to at least one.

  Every definition composes the program's operations in the program's order at the ideal instance.  The readings
  replace each host matrix product by the specification's `mm`, each batch normalisation by `bnC`, and the scaled
  sum by `comb`; the aggregate stays the one function of `x`, `src`, `dst` on both sides.
-/
import proofs.«177653_j8959301779747_1_alg».proof.Proof.RefBN
import proofs.«177653_j8959301779747_1_alg».proof.Proof.LibPlainDot

noncomputable section

namespace Cert.GIN.Ref

open Idealize.ShloMosaic Idealize.ShloMosaic.ValueIdx
open Cert.ReferenceIdeal Cert.ReferenceIdeal.Facts₀

variable [Facts₀]

/-! ## The operations of a layer -/

/-- The sum over the edges into each node of the source node's features. -/
def agg (x : FVec Ideal S50000x128 .f32) (src dst : IVec S800000 32) : FVec Ideal S50000x128 .f32 :=
  Host.scatterAdd (F := Ideal) scatter_S50000x128_S800000x1_S800000x128_1_0_0_1
    (broadcastInDim S50000x128 ![] bcast_S_S50000x128 (constant (F := Ideal) S_ .f32 0x00000000#32))
    (broadcastInDim S800000x1 ![0] bcast_S800000_S800000x1_0 dst)
    (Host.gather gather_S50000x128_S800000x1_S800000x128_1_0_n_n_0_1_1128 x
      (broadcastInDim S800000x1 ![0] bcast_S800000_S800000x1_0
        (select (cmpi .slt src (broadcastInDim S800000 ![] bcast_S_S800000 (constantI S_ 32 0#32)))
          (addi src (broadcastInDim S800000 ![] bcast_S_S800000 (constantI S_ 32 50000#32)))
          src)))

/-- The input of a layer's first dense map: `(1 + e) · x + agg`. -/
def combine (x : FVec Ideal S50000x128 .f32) (src dst : IVec S800000 32) (e : FVec Ideal S_ .f32) : FVec Ideal S50000x128 .f32 :=
  addf
    (mulf (broadcastInDim S50000x128 ![] bcast_S_S50000x128 (addf (constant (F := Ideal) S_ .f32 0x3F800000#32) e)) x)
    (agg x src dst)

/-- The first half of a layer: the dense map to width 64, batch normalisation and rectifier. -/
def half (x : FVec Ideal S50000x128 .f32) (src dst : IVec S800000 32) (e : FVec Ideal S_ .f32)
    (w1 : FVec Ideal S128x64 .f32) (g1 b1 : FVec Ideal S64 .f32) : FVec Ideal S50000x64 .f32 :=
  bn64 (Host.dotGeneral (F := Ideal) dot_S50000x128_S128x64_S50000x64_1_0_0_1_n_n none (combine x src dst e) w1) g1 b1

/-- One of the first six layers. -/
def block (x : FVec Ideal S50000x128 .f32) (src dst : IVec S800000 32) (e : FVec Ideal S_ .f32)
    (w1 : FVec Ideal S128x64 .f32) (g1 b1 : FVec Ideal S64 .f32)
    (w2 : FVec Ideal S64x128 .f32) (g2 b2 : FVec Ideal S128 .f32) : FVec Ideal S50000x128 .f32 :=
  bn128 (Host.dotGeneral (F := Ideal) dot_S50000x64_S64x128_S50000x128_1_0_0_1_n_n none (half x src dst e w1 g1 b1) w2) g2 b2

/-- The last layer: its second dense map goes to width 2 and is followed by the rectifier alone. -/
def lastBlock (x : FVec Ideal S50000x128 .f32) (src dst : IVec S800000 32) (e : FVec Ideal S_ .f32)
    (w1 : FVec Ideal S128x64 .f32) (g1 b1 : FVec Ideal S64 .f32) (wl : FVec Ideal S64x2 .f32) : FVec Ideal S50000x2 .f32 :=
  maximumf
    (Host.dotGeneral (F := Ideal) dot_S50000x64_S64x2_S50000x2_1_0_0_1_n_n none (half x src dst e w1 g1 b1) wl)
    (broadcastInDim S50000x2 ![] bcast_S_S50000x2 (constant (F := Ideal) S_ .f32 0x00000000#32))

/-- The segment means: per segment the sum of the rows over the number of rows, the number raised to at least one. -/
def pool (x : FVec Ideal S50000x2 .f32) (batch : IVec S50000 32) : FVec Ideal S64x2 .f32 :=
  Host.divf (F := Ideal)
    (Host.scatterAdd (F := Ideal) scatter_S64x2_S50000x1_S50000x2_1_0_0_1
      (broadcastInDim S64x2 ![] bcast_S_S64x2 (constant (F := Ideal) S_ .f32 0x00000000#32))
      (broadcastInDim S50000x1 ![0] bcast_S50000_S50000x1_0 batch)
      x)
    (broadcastInDim S64x2 ![0, 1] bcast_S64x1_S64x2_0_1
      (broadcastInDim S64x1 ![0] bcast_S64_S64x1_0
        (maximumf
          (Host.scatterAdd (F := Ideal) scatter_S64_S50000x1_S50000_n_0_0_1
            (broadcastInDim S64 ![] bcast_S_S64 (constant (F := Ideal) S_ .f32 0x00000000#32))
            (broadcastInDim S50000x1 ![0] bcast_S50000_S50000x1_0 batch)
            (broadcastInDim S50000 ![] bcast_S_S50000 (constant (F := Ideal) S_ .f32 0x3F800000#32)))
          (broadcastInDim S64 ![] bcast_S_S64 (constant (F := Ideal) S_ .f32 0x3F800000#32)))))

/-! ## The readings -/

/-- A host matrix product with no batch axis, contracting columns with rows, is the specification's product. -/
theorem dot_eq_mm {m k n : Nat} (D : DotDims ⟨2, ![m, k]⟩ ⟨2, ![k, n]⟩ ⟨2, ![m, n]⟩) (hD : D = DotDims.plain m k n)
    (l : FVec Ideal ⟨2, ![m, k]⟩ .f32) (r : FVec Ideal ⟨2, ![k, n]⟩ .f32) :
    Host.dotGeneral (F := Ideal) D none l r = mm l r := by
  funext i
  obtain ⟨p, j, rfl⟩ : ∃ (p : Fin m) (j : Fin n), i = ix2 p j := ⟨i 0, i 1, eq_ix2 i⟩
  rw [Cert.PlainDot.dotGeneral_ix2 D hD]
  rfl

/-- The input of the first dense map is the specification's scaled sum, the scale `1 + e`. -/
theorem combine_eq (x : FVec Ideal S50000x128 .f32) (src dst : IVec S800000 32) (e : FVec Ideal S_ .f32) :
    combine x src dst e = comb (fun _ => Ideal.ofBits .f32 0x3F800000#32 + e ix0) x (agg x src dst) := by
  funext i
  unfold combine
  rw [addf_apply, mulf_apply, broadcastInDim_scalar_apply, addf_apply, constant_apply]
  rfl

theorem half_eq (x : FVec Ideal S50000x128 .f32) (src dst : IVec S800000 32) (e : FVec Ideal S_ .f32)
    (w1 : FVec Ideal S128x64 .f32) (g1 b1 : FVec Ideal S64 .f32) :
    half x src dst e w1 g1 b1
      = bnC (mm (comb (fun _ => Ideal.ofBits .f32 0x3F800000#32 + e ix0) x (agg x src dst)) w1) (rowOf g1) (rowOf b1)
          ((50000 : ℝ) : EReal) (Ideal.ofBits .f32 0x3727C5AC#32) := by
  unfold half
  rw [bn64_eq, dot_eq_mm dot_S50000x128_S128x64_S50000x64_1_0_0_1_n_n rfl, combine_eq]

theorem block_eq (x : FVec Ideal S50000x128 .f32) (src dst : IVec S800000 32) (e : FVec Ideal S_ .f32)
    (w1 : FVec Ideal S128x64 .f32) (g1 b1 : FVec Ideal S64 .f32)
    (w2 : FVec Ideal S64x128 .f32) (g2 b2 : FVec Ideal S128 .f32) :
    block x src dst e w1 g1 b1 w2 g2 b2
      = bnC (mm (bnC (mm (comb (fun _ => Ideal.ofBits .f32 0x3F800000#32 + e ix0) x (agg x src dst)) w1) (rowOf g1) (rowOf b1)
            ((50000 : ℝ) : EReal) (Ideal.ofBits .f32 0x3727C5AC#32)) w2) (rowOf g2) (rowOf b2)
          ((50000 : ℝ) : EReal) (Ideal.ofBits .f32 0x3727C5AC#32) := by
  unfold block
  rw [bn128_eq, dot_eq_mm dot_S50000x64_S64x128_S50000x128_1_0_0_1_n_n rfl, half_eq]

theorem lastBlock_eq (x : FVec Ideal S50000x128 .f32) (src dst : IVec S800000 32) (e : FVec Ideal S_ .f32)
    (w1 : FVec Ideal S128x64 .f32) (g1 b1 : FVec Ideal S64 .f32) (wl : FVec Ideal S64x2 .f32) :
    lastBlock x src dst e w1 g1 b1 wl
      = relu (mm (bnC (mm (comb (fun _ => Ideal.ofBits .f32 0x3F800000#32 + e ix0) x (agg x src dst)) w1) (rowOf g1) (rowOf b1)
            ((50000 : ℝ) : EReal) (Ideal.ofBits .f32 0x3727C5AC#32)) wl) := by
  funext i
  unfold lastBlock
  rw [maximumf_apply, broadcastInDim_scalar_apply, constant_apply, Ideal.ofBits_zero_f32,
    dot_eq_mm dot_S50000x64_S64x2_S50000x2_1_0_0_1_n_n rfl, half_eq]
  rfl

end Cert.GIN.Ref

end
-- ==== Proof.RefValueDefs.lean ====
/-
  The reference network as a function of its argument arrays.

  The stacked parameter arrays hold one slice per layer; layer `i` uses slice `i` of each, with the leading axis of
  length one dropped, and the two rows of the edge list as index vectors.  `X1 … X6` are the node features after
  layers 0 to 5, each the layer function of the one before; `X7` is the output of the last layer (width two); `Out`
  is its segment means.  The arrays are named after the positions of the program's arguments: `a0` the input
  features, `a1` the edge list, `a3` the segment of each node, `a4 a5 a6` the first dense map's weights, scales
  and shifts, `a7 a8 a9` the second's, `a10` the last weight, `a11` the per-layer scalars.
-/
import proofs.«177653_j8959301779747_1_alg».proof.Proof.RefLayer

noncomputable section

namespace Cert.GIN.Ref

open Idealize.ShloMosaic
open Cert.ReferenceIdeal Cert.ReferenceIdeal.Facts₀

variable [Facts₀]

/-! ### The rows of the edge list -/

/-- Row 0 of the edge list, the sources, as an index vector. -/
def srcOf (a1 : IVec S2x800000 32) : IVec S800000 32 :=
  shapeCast S800000 (extractStridedSlice S1x800000 ![0, 0] a1 slices_S2x800000_S1x800000_0_0) shapeCasts_S1x800000_S800000

/-- Row 1 of the edge list, the targets, as an index vector. -/
def dstOf (a1 : IVec S2x800000 32) : IVec S800000 32 :=
  shapeCast S800000 (extractStridedSlice S1x800000 ![1, 0] a1 slices_S2x800000_S1x800000_1_0) shapeCasts_S1x800000_S800000

/-! ### The parameters of layer 0: slice 0 of each stacked array, its leading axis of length one dropped -/

def e0 (a11 : FVec Ideal S7 .f32) : FVec Ideal S_ .f32 := shapeCast S_ (extractStridedSlice S1 ![0] a11 slices_S7_S1_0) shapeCasts_S1_S_
def w1_0 (a4 : FVec Ideal S7x128x64 .f32) : FVec Ideal S128x64 .f32 := shapeCast S128x64 (extractStridedSlice S1x128x64 ![0, 0, 0] a4 slices_S7x128x64_S1x128x64_0_0_0) shapeCasts_S1x128x64_S128x64
def g1_0 (a5 : FVec Ideal S7x64 .f32) : FVec Ideal S64 .f32 := shapeCast S64 (extractStridedSlice S1x64 ![0, 0] a5 slices_S7x64_S1x64_0_0) shapeCasts_S1x64_S64
def b1_0 (a6 : FVec Ideal S7x64 .f32) : FVec Ideal S64 .f32 := shapeCast S64 (extractStridedSlice S1x64 ![0, 0] a6 slices_S7x64_S1x64_0_0) shapeCasts_S1x64_S64
def w2_0 (a7 : FVec Ideal S6x64x128 .f32) : FVec Ideal S64x128 .f32 := shapeCast S64x128 (extractStridedSlice S1x64x128 ![0, 0, 0] a7 slices_S6x64x128_S1x64x128_0_0_0) shapeCasts_S1x64x128_S64x128
def g2_0 (a8 : FVec Ideal S6x128 .f32) : FVec Ideal S128 .f32 := shapeCast S128 (extractStridedSlice S1x128 ![0, 0] a8 slices_S6x128_S1x128_0_0) shapeCasts_S1x128_S128
def b2_0 (a9 : FVec Ideal S6x128 .f32) : FVec Ideal S128 .f32 := shapeCast S128 (extractStridedSlice S1x128 ![0, 0] a9 slices_S6x128_S1x128_0_0) shapeCasts_S1x128_S128

/-! ### The parameters of layer 1: slice 1 of each stacked array, its leading axis of length one dropped -/

def e1 (a11 : FVec Ideal S7 .f32) : FVec Ideal S_ .f32 := shapeCast S_ (extractStridedSlice S1 ![1] a11 slices_S7_S1_1) shapeCasts_S1_S_
def w1_1 (a4 : FVec Ideal S7x128x64 .f32) : FVec Ideal S128x64 .f32 := shapeCast S128x64 (extractStridedSlice S1x128x64 ![1, 0, 0] a4 slices_S7x128x64_S1x128x64_1_0_0) shapeCasts_S1x128x64_S128x64
def g1_1 (a5 : FVec Ideal S7x64 .f32) : FVec Ideal S64 .f32 := shapeCast S64 (extractStridedSlice S1x64 ![1, 0] a5 slices_S7x64_S1x64_1_0) shapeCasts_S1x64_S64
def b1_1 (a6 : FVec Ideal S7x64 .f32) : FVec Ideal S64 .f32 := shapeCast S64 (extractStridedSlice S1x64 ![1, 0] a6 slices_S7x64_S1x64_1_0) shapeCasts_S1x64_S64
def w2_1 (a7 : FVec Ideal S6x64x128 .f32) : FVec Ideal S64x128 .f32 := shapeCast S64x128 (extractStridedSlice S1x64x128 ![1, 0, 0] a7 slices_S6x64x128_S1x64x128_1_0_0) shapeCasts_S1x64x128_S64x128
def g2_1 (a8 : FVec Ideal S6x128 .f32) : FVec Ideal S128 .f32 := shapeCast S128 (extractStridedSlice S1x128 ![1, 0] a8 slices_S6x128_S1x128_1_0) shapeCasts_S1x128_S128
def b2_1 (a9 : FVec Ideal S6x128 .f32) : FVec Ideal S128 .f32 := shapeCast S128 (extractStridedSlice S1x128 ![1, 0] a9 slices_S6x128_S1x128_1_0) shapeCasts_S1x128_S128

/-! ### The parameters of layer 2: slice 2 of each stacked array, its leading axis of length one dropped -/

def e2 (a11 : FVec Ideal S7 .f32) : FVec Ideal S_ .f32 := shapeCast S_ (extractStridedSlice S1 ![2] a11 slices_S7_S1_2) shapeCasts_S1_S_
def w1_2 (a4 : FVec Ideal S7x128x64 .f32) : FVec Ideal S128x64 .f32 := shapeCast S128x64 (extractStridedSlice S1x128x64 ![2, 0, 0] a4 slices_S7x128x64_S1x128x64_2_0_0) shapeCasts_S1x128x64_S128x64
def g1_2 (a5 : FVec Ideal S7x64 .f32) : FVec Ideal S64 .f32 := shapeCast S64 (extractStridedSlice S1x64 ![2, 0] a5 slices_S7x64_S1x64_2_0) shapeCasts_S1x64_S64
def b1_2 (a6 : FVec Ideal S7x64 .f32) : FVec Ideal S64 .f32 := shapeCast S64 (extractStridedSlice S1x64 ![2, 0] a6 slices_S7x64_S1x64_2_0) shapeCasts_S1x64_S64
def w2_2 (a7 : FVec Ideal S6x64x128 .f32) : FVec Ideal S64x128 .f32 := shapeCast S64x128 (extractStridedSlice S1x64x128 ![2, 0, 0] a7 slices_S6x64x128_S1x64x128_2_0_0) shapeCasts_S1x64x128_S64x128
def g2_2 (a8 : FVec Ideal S6x128 .f32) : FVec Ideal S128 .f32 := shapeCast S128 (extractStridedSlice S1x128 ![2, 0] a8 slices_S6x128_S1x128_2_0) shapeCasts_S1x128_S128
def b2_2 (a9 : FVec Ideal S6x128 .f32) : FVec Ideal S128 .f32 := shapeCast S128 (extractStridedSlice S1x128 ![2, 0] a9 slices_S6x128_S1x128_2_0) shapeCasts_S1x128_S128

/-! ### The parameters of layer 3: slice 3 of each stacked array, its leading axis of length one dropped -/

def e3 (a11 : FVec Ideal S7 .f32) : FVec Ideal S_ .f32 := shapeCast S_ (extractStridedSlice S1 ![3] a11 slices_S7_S1_3) shapeCasts_S1_S_
def w1_3 (a4 : FVec Ideal S7x128x64 .f32) : FVec Ideal S128x64 .f32 := shapeCast S128x64 (extractStridedSlice S1x128x64 ![3, 0, 0] a4 slices_S7x128x64_S1x128x64_3_0_0) shapeCasts_S1x128x64_S128x64
def g1_3 (a5 : FVec Ideal S7x64 .f32) : FVec Ideal S64 .f32 := shapeCast S64 (extractStridedSlice S1x64 ![3, 0] a5 slices_S7x64_S1x64_3_0) shapeCasts_S1x64_S64
def b1_3 (a6 : FVec Ideal S7x64 .f32) : FVec Ideal S64 .f32 := shapeCast S64 (extractStridedSlice S1x64 ![3, 0] a6 slices_S7x64_S1x64_3_0) shapeCasts_S1x64_S64
def w2_3 (a7 : FVec Ideal S6x64x128 .f32) : FVec Ideal S64x128 .f32 := shapeCast S64x128 (extractStridedSlice S1x64x128 ![3, 0, 0] a7 slices_S6x64x128_S1x64x128_3_0_0) shapeCasts_S1x64x128_S64x128
def g2_3 (a8 : FVec Ideal S6x128 .f32) : FVec Ideal S128 .f32 := shapeCast S128 (extractStridedSlice S1x128 ![3, 0] a8 slices_S6x128_S1x128_3_0) shapeCasts_S1x128_S128
def b2_3 (a9 : FVec Ideal S6x128 .f32) : FVec Ideal S128 .f32 := shapeCast S128 (extractStridedSlice S1x128 ![3, 0] a9 slices_S6x128_S1x128_3_0) shapeCasts_S1x128_S128

/-! ### The parameters of layer 4: slice 4 of each stacked array, its leading axis of length one dropped -/

def e4 (a11 : FVec Ideal S7 .f32) : FVec Ideal S_ .f32 := shapeCast S_ (extractStridedSlice S1 ![4] a11 slices_S7_S1_4) shapeCasts_S1_S_
def w1_4 (a4 : FVec Ideal S7x128x64 .f32) : FVec Ideal S128x64 .f32 := shapeCast S128x64 (extractStridedSlice S1x128x64 ![4, 0, 0] a4 slices_S7x128x64_S1x128x64_4_0_0) shapeCasts_S1x128x64_S128x64
def g1_4 (a5 : FVec Ideal S7x64 .f32) : FVec Ideal S64 .f32 := shapeCast S64 (extractStridedSlice S1x64 ![4, 0] a5 slices_S7x64_S1x64_4_0) shapeCasts_S1x64_S64
def b1_4 (a6 : FVec Ideal S7x64 .f32) : FVec Ideal S64 .f32 := shapeCast S64 (extractStridedSlice S1x64 ![4, 0] a6 slices_S7x64_S1x64_4_0) shapeCasts_S1x64_S64
def w2_4 (a7 : FVec Ideal S6x64x128 .f32) : FVec Ideal S64x128 .f32 := shapeCast S64x128 (extractStridedSlice S1x64x128 ![4, 0, 0] a7 slices_S6x64x128_S1x64x128_4_0_0) shapeCasts_S1x64x128_S64x128
def g2_4 (a8 : FVec Ideal S6x128 .f32) : FVec Ideal S128 .f32 := shapeCast S128 (extractStridedSlice S1x128 ![4, 0] a8 slices_S6x128_S1x128_4_0) shapeCasts_S1x128_S128
def b2_4 (a9 : FVec Ideal S6x128 .f32) : FVec Ideal S128 .f32 := shapeCast S128 (extractStridedSlice S1x128 ![4, 0] a9 slices_S6x128_S1x128_4_0) shapeCasts_S1x128_S128

/-! ### The parameters of layer 5: slice 5 of each stacked array, its leading axis of length one dropped -/

def e5 (a11 : FVec Ideal S7 .f32) : FVec Ideal S_ .f32 := shapeCast S_ (extractStridedSlice S1 ![5] a11 slices_S7_S1_5) shapeCasts_S1_S_
def w1_5 (a4 : FVec Ideal S7x128x64 .f32) : FVec Ideal S128x64 .f32 := shapeCast S128x64 (extractStridedSlice S1x128x64 ![5, 0, 0] a4 slices_S7x128x64_S1x128x64_5_0_0) shapeCasts_S1x128x64_S128x64
def g1_5 (a5 : FVec Ideal S7x64 .f32) : FVec Ideal S64 .f32 := shapeCast S64 (extractStridedSlice S1x64 ![5, 0] a5 slices_S7x64_S1x64_5_0) shapeCasts_S1x64_S64
def b1_5 (a6 : FVec Ideal S7x64 .f32) : FVec Ideal S64 .f32 := shapeCast S64 (extractStridedSlice S1x64 ![5, 0] a6 slices_S7x64_S1x64_5_0) shapeCasts_S1x64_S64
def w2_5 (a7 : FVec Ideal S6x64x128 .f32) : FVec Ideal S64x128 .f32 := shapeCast S64x128 (extractStridedSlice S1x64x128 ![5, 0, 0] a7 slices_S6x64x128_S1x64x128_5_0_0) shapeCasts_S1x64x128_S64x128
def g2_5 (a8 : FVec Ideal S6x128 .f32) : FVec Ideal S128 .f32 := shapeCast S128 (extractStridedSlice S1x128 ![5, 0] a8 slices_S6x128_S1x128_5_0) shapeCasts_S1x128_S128
def b2_5 (a9 : FVec Ideal S6x128 .f32) : FVec Ideal S128 .f32 := shapeCast S128 (extractStridedSlice S1x128 ![5, 0] a9 slices_S6x128_S1x128_5_0) shapeCasts_S1x128_S128

/-! ### The parameters of layer 6: slice 6 of each stacked array, its leading axis of length one dropped -/

def e6 (a11 : FVec Ideal S7 .f32) : FVec Ideal S_ .f32 := shapeCast S_ (extractStridedSlice S1 ![6] a11 slices_S7_S1_6) shapeCasts_S1_S_
def w1_6 (a4 : FVec Ideal S7x128x64 .f32) : FVec Ideal S128x64 .f32 := shapeCast S128x64 (extractStridedSlice S1x128x64 ![6, 0, 0] a4 slices_S7x128x64_S1x128x64_6_0_0) shapeCasts_S1x128x64_S128x64
def g1_6 (a5 : FVec Ideal S7x64 .f32) : FVec Ideal S64 .f32 := shapeCast S64 (extractStridedSlice S1x64 ![6, 0] a5 slices_S7x64_S1x64_6_0) shapeCasts_S1x64_S64
def b1_6 (a6 : FVec Ideal S7x64 .f32) : FVec Ideal S64 .f32 := shapeCast S64 (extractStridedSlice S1x64 ![6, 0] a6 slices_S7x64_S1x64_6_0) shapeCasts_S1x64_S64

/-! ### The layers, each from the one before -/

/-- The node features after layer 0. -/
def X1 (a0 : FVec Ideal S50000x128 .f32) (a1 : IVec S2x800000 32) (a4 : FVec Ideal S7x128x64 .f32)
    (a5 a6 : FVec Ideal S7x64 .f32) (a7 : FVec Ideal S6x64x128 .f32) (a8 a9 : FVec Ideal S6x128 .f32) (a11 : FVec Ideal S7 .f32) : FVec Ideal S50000x128 .f32 :=
  block a0 (srcOf a1) (dstOf a1) (e0 a11) (w1_0 a4) (g1_0 a5) (b1_0 a6) (w2_0 a7) (g2_0 a8) (b2_0 a9)

/-- The node features after layer 1. -/
def X2 (a0 : FVec Ideal S50000x128 .f32) (a1 : IVec S2x800000 32) (a4 : FVec Ideal S7x128x64 .f32)
    (a5 a6 : FVec Ideal S7x64 .f32) (a7 : FVec Ideal S6x64x128 .f32) (a8 a9 : FVec Ideal S6x128 .f32) (a11 : FVec Ideal S7 .f32) : FVec Ideal S50000x128 .f32 :=
  block (X1 a0 a1 a4 a5 a6 a7 a8 a9 a11) (srcOf a1) (dstOf a1) (e1 a11) (w1_1 a4) (g1_1 a5) (b1_1 a6) (w2_1 a7) (g2_1 a8) (b2_1 a9)

/-- The node features after layer 2. -/
def X3 (a0 : FVec Ideal S50000x128 .f32) (a1 : IVec S2x800000 32) (a4 : FVec Ideal S7x128x64 .f32)
    (a5 a6 : FVec Ideal S7x64 .f32) (a7 : FVec Ideal S6x64x128 .f32) (a8 a9 : FVec Ideal S6x128 .f32) (a11 : FVec Ideal S7 .f32) : FVec Ideal S50000x128 .f32 :=
  block (X2 a0 a1 a4 a5 a6 a7 a8 a9 a11) (srcOf a1) (dstOf a1) (e2 a11) (w1_2 a4) (g1_2 a5) (b1_2 a6) (w2_2 a7) (g2_2 a8) (b2_2 a9)

/-- The node features after layer 3. -/
def X4 (a0 : FVec Ideal S50000x128 .f32) (a1 : IVec S2x800000 32) (a4 : FVec Ideal S7x128x64 .f32)
    (a5 a6 : FVec Ideal S7x64 .f32) (a7 : FVec Ideal S6x64x128 .f32) (a8 a9 : FVec Ideal S6x128 .f32) (a11 : FVec Ideal S7 .f32) : FVec Ideal S50000x128 .f32 :=
  block (X3 a0 a1 a4 a5 a6 a7 a8 a9 a11) (srcOf a1) (dstOf a1) (e3 a11) (w1_3 a4) (g1_3 a5) (b1_3 a6) (w2_3 a7) (g2_3 a8) (b2_3 a9)

/-- The node features after layer 4. -/
def X5 (a0 : FVec Ideal S50000x128 .f32) (a1 : IVec S2x800000 32) (a4 : FVec Ideal S7x128x64 .f32)
    (a5 a6 : FVec Ideal S7x64 .f32) (a7 : FVec Ideal S6x64x128 .f32) (a8 a9 : FVec Ideal S6x128 .f32) (a11 : FVec Ideal S7 .f32) : FVec Ideal S50000x128 .f32 :=
  block (X4 a0 a1 a4 a5 a6 a7 a8 a9 a11) (srcOf a1) (dstOf a1) (e4 a11) (w1_4 a4) (g1_4 a5) (b1_4 a6) (w2_4 a7) (g2_4 a8) (b2_4 a9)

/-- The node features after layer 5. -/
def X6 (a0 : FVec Ideal S50000x128 .f32) (a1 : IVec S2x800000 32) (a4 : FVec Ideal S7x128x64 .f32)
    (a5 a6 : FVec Ideal S7x64 .f32) (a7 : FVec Ideal S6x64x128 .f32) (a8 a9 : FVec Ideal S6x128 .f32) (a11 : FVec Ideal S7 .f32) : FVec Ideal S50000x128 .f32 :=
  block (X5 a0 a1 a4 a5 a6 a7 a8 a9 a11) (srcOf a1) (dstOf a1) (e5 a11) (w1_5 a4) (g1_5 a5) (b1_5 a6) (w2_5 a7) (g2_5 a8) (b2_5 a9)

/-- The output of the last layer. -/
def X7 (a0 : FVec Ideal S50000x128 .f32) (a1 : IVec S2x800000 32) (a4 : FVec Ideal S7x128x64 .f32)
    (a5 a6 : FVec Ideal S7x64 .f32) (a7 : FVec Ideal S6x64x128 .f32) (a8 a9 : FVec Ideal S6x128 .f32)
    (a10 : FVec Ideal S64x2 .f32) (a11 : FVec Ideal S7 .f32) : FVec Ideal S50000x2 .f32 :=
  lastBlock (X6 a0 a1 a4 a5 a6 a7 a8 a9 a11) (srcOf a1) (dstOf a1) (e6 a11) (w1_6 a4) (g1_6 a5) (b1_6 a6) a10

/-- The network's result: the segment means of the last layer's output. -/
def Out (a0 : FVec Ideal S50000x128 .f32) (a1 : IVec S2x800000 32) (a3 : IVec S50000 32) (a4 : FVec Ideal S7x128x64 .f32)
    (a5 a6 : FVec Ideal S7x64 .f32) (a7 : FVec Ideal S6x64x128 .f32) (a8 a9 : FVec Ideal S6x128 .f32)
    (a10 : FVec Ideal S64x2 .f32) (a11 : FVec Ideal S7 .f32) : FVec Ideal S64x2 .f32 :=
  pool (X7 a0 a1 a4 a5 a6 a7 a8 a9 a10 a11) a3

end Cert.GIN.Ref

end
-- ==== Proof.RefValueA.lean ====
/-
  The reference program read back, layers 0 to 2.

  The stacked parameter arrays hold one slice per layer; a layer uses slice `i` of each with the leading axis of
  length one dropped, and the two rows of the edge list as index vectors.  After a layer's operations have run from
  any buffer contents, the layer's output buffer holds the layer function (the aggregate, the scaled sum, the two
  dense maps each followed by batch normalisation and rectifier) of what its input buffers held before.  Layer 0
  also writes the two rows of the edge list into buffers that the later layers read.
-/
import proofs.«177653_j8959301779747_1_alg».proof.Proof.RefOps
import proofs.«177653_j8959301779747_1_alg».proof.Proof.RefValueDefs
import Idealize.ShloMosaic.Lib.StableHlo.Run

set_option synthInstance.maxSize 4096

noncomputable section

namespace Cert.GIN.Ref

open Cert.ReferenceIdeal Cert.ReferenceIdeal.Gen Idealize.ShloMosaic Idealize.ShloMosaic.TcCoe Idealize.SL.Sem Idealize.ShloMosaic.StableHlo

/-! ### Layers 0 to 2 -/

set_option maxHeartbeats 0 in
set_option maxRecDepth 100000 in
/-- Layer 0 leaves the sources in the buffer the later layers read them from. -/
theorem L0_src (V : Valuation τ sig (Elt Ideal)) :
    after opsL0 V (Proc.devRef .tc main_v1) = srcOf (V (Proc.devRef .tc main_arg1)) := by
  after_results_simp
  rfl

set_option maxHeartbeats 0 in
set_option maxRecDepth 100000 in
/-- Layer 0 leaves the targets in the buffer the later layers read them from. -/
theorem L0_dst (V : Valuation τ sig (Elt Ideal)) :
    after opsL0 V (Proc.devRef .tc main_v3) = dstOf (V (Proc.devRef .tc main_arg1)) := by
  after_results_simp
  rfl

set_option maxHeartbeats 0 in
set_option maxRecDepth 100000 in
/-- Layer 0 read back: the layer's output buffer after the layer's operations is the layer function of what the
    layer's input buffers held before them. -/
theorem L0_value (V : Valuation τ sig (Elt Ideal)) :
    after opsL0 V (Proc.devRef .tc main_v73)
      = block (V (Proc.devRef .tc main_arg0)) (srcOf (V (Proc.devRef .tc main_arg1))) (dstOf (V (Proc.devRef .tc main_arg1))) (e0 (V (Proc.devRef .tc main_arg11)))
          (w1_0 (V (Proc.devRef .tc main_arg4))) (g1_0 (V (Proc.devRef .tc main_arg5))) (b1_0 (V (Proc.devRef .tc main_arg6)))
          (w2_0 (V (Proc.devRef .tc main_arg7))) (g2_0 (V (Proc.devRef .tc main_arg8))) (b2_0 (V (Proc.devRef .tc main_arg9))) := by
  after_results_simp
  rfl

set_option maxHeartbeats 0 in
set_option maxRecDepth 100000 in
/-- Layer 1 read back: the layer's output buffer after the layer's operations is the layer function of what the
    layer's input buffers held before them. -/
theorem L1_value (V : Valuation τ sig (Elt Ideal)) :
    after opsL1 V (Proc.devRef .tc main_v143)
      = block (V (Proc.devRef .tc main_v73)) (V (Proc.devRef .tc main_v1)) (V (Proc.devRef .tc main_v3)) (e1 (V (Proc.devRef .tc main_arg11)))
          (w1_1 (V (Proc.devRef .tc main_arg4))) (g1_1 (V (Proc.devRef .tc main_arg5))) (b1_1 (V (Proc.devRef .tc main_arg6)))
          (w2_1 (V (Proc.devRef .tc main_arg7))) (g2_1 (V (Proc.devRef .tc main_arg8))) (b2_1 (V (Proc.devRef .tc main_arg9))) := by
  after_results_simp
  rfl

set_option maxHeartbeats 0 in
set_option maxRecDepth 100000 in
/-- Layer 2 read back: the layer's output buffer after the layer's operations is the layer function of what the
    layer's input buffers held before them. -/
theorem L2_value (V : Valuation τ sig (Elt Ideal)) :
    after opsL2 V (Proc.devRef .tc main_v213)
      = block (V (Proc.devRef .tc main_v143)) (V (Proc.devRef .tc main_v1)) (V (Proc.devRef .tc main_v3)) (e2 (V (Proc.devRef .tc main_arg11)))
          (w1_2 (V (Proc.devRef .tc main_arg4))) (g1_2 (V (Proc.devRef .tc main_arg5))) (b1_2 (V (Proc.devRef .tc main_arg6)))
          (w2_2 (V (Proc.devRef .tc main_arg7))) (g2_2 (V (Proc.devRef .tc main_arg8))) (b2_2 (V (Proc.devRef .tc main_arg9))) := by
  after_results_simp
  rfl

end Cert.GIN.Ref

end
-- ==== Proof.RefValueB.lean ====
/-
  The reference program read back, layers 3 to 5: after a layer's operations have run from any buffer contents, the
  layer's output buffer holds the layer function of what its input buffers held before.
-/
import proofs.«177653_j8959301779747_1_alg».proof.Proof.RefOps
import proofs.«177653_j8959301779747_1_alg».proof.Proof.RefValueDefs
import Idealize.ShloMosaic.Lib.StableHlo.Run

set_option synthInstance.maxSize 4096

noncomputable section

namespace Cert.GIN.Ref

open Cert.ReferenceIdeal Cert.ReferenceIdeal.Gen Idealize.ShloMosaic Idealize.ShloMosaic.TcCoe Idealize.SL.Sem Idealize.ShloMosaic.StableHlo

set_option maxHeartbeats 0 in
set_option maxRecDepth 100000 in
/-- Layer 3 read back: the layer's output buffer after the layer's operations is the layer function of what the
    layer's input buffers held before them. -/
theorem L3_value (V : Valuation τ sig (Elt Ideal)) :
    after opsL3 V (Proc.devRef .tc main_v283)
      = block (V (Proc.devRef .tc main_v213)) (V (Proc.devRef .tc main_v1)) (V (Proc.devRef .tc main_v3)) (e3 (V (Proc.devRef .tc main_arg11)))
          (w1_3 (V (Proc.devRef .tc main_arg4))) (g1_3 (V (Proc.devRef .tc main_arg5))) (b1_3 (V (Proc.devRef .tc main_arg6)))
          (w2_3 (V (Proc.devRef .tc main_arg7))) (g2_3 (V (Proc.devRef .tc main_arg8))) (b2_3 (V (Proc.devRef .tc main_arg9))) := by
  after_results_simp
  rfl

set_option maxHeartbeats 0 in
set_option maxRecDepth 100000 in
/-- Layer 4 read back: the layer's output buffer after the layer's operations is the layer function of what the
    layer's input buffers held before them. -/
theorem L4_value (V : Valuation τ sig (Elt Ideal)) :
    after opsL4 V (Proc.devRef .tc main_v353)
      = block (V (Proc.devRef .tc main_v283)) (V (Proc.devRef .tc main_v1)) (V (Proc.devRef .tc main_v3)) (e4 (V (Proc.devRef .tc main_arg11)))
          (w1_4 (V (Proc.devRef .tc main_arg4))) (g1_4 (V (Proc.devRef .tc main_arg5))) (b1_4 (V (Proc.devRef .tc main_arg6)))
          (w2_4 (V (Proc.devRef .tc main_arg7))) (g2_4 (V (Proc.devRef .tc main_arg8))) (b2_4 (V (Proc.devRef .tc main_arg9))) := by
  after_results_simp
  rfl

set_option maxHeartbeats 0 in
set_option maxRecDepth 100000 in
/-- Layer 5 read back: the layer's output buffer after the layer's operations is the layer function of what the
    layer's input buffers held before them. -/
theorem L5_value (V : Valuation τ sig (Elt Ideal)) :
    after opsL5 V (Proc.devRef .tc main_v423)
      = block (V (Proc.devRef .tc main_v353)) (V (Proc.devRef .tc main_v1)) (V (Proc.devRef .tc main_v3)) (e5 (V (Proc.devRef .tc main_arg11)))
          (w1_5 (V (Proc.devRef .tc main_arg4))) (g1_5 (V (Proc.devRef .tc main_arg5))) (b1_5 (V (Proc.devRef .tc main_arg6)))
          (w2_5 (V (Proc.devRef .tc main_arg7))) (g2_5 (V (Proc.devRef .tc main_arg8))) (b2_5 (V (Proc.devRef .tc main_arg9))) := by
  after_results_simp
  rfl

end Cert.GIN.Ref

end
-- ==== Proof.RefValueC.lean ====
/-
  The reference program read back, the last layer and the pooling: the last layer's second dense map goes to width
  two and is followed by the rectifier alone; the pooling takes segment means of its rows.
-/
import proofs.«177653_j8959301779747_1_alg».proof.Proof.RefOps
import proofs.«177653_j8959301779747_1_alg».proof.Proof.RefValueDefs
import Idealize.ShloMosaic.Lib.StableHlo.Run

set_option synthInstance.maxSize 4096

noncomputable section

namespace Cert.GIN.Ref

open Cert.ReferenceIdeal Cert.ReferenceIdeal.Gen Idealize.ShloMosaic Idealize.ShloMosaic.TcCoe Idealize.SL.Sem Idealize.ShloMosaic.StableHlo

set_option maxHeartbeats 0 in
set_option maxRecDepth 100000 in
/-- Layer 6 read back. -/
theorem L6_value (V : Valuation τ sig (Elt Ideal)) :
    after opsL6 V (Proc.devRef .tc main_v468)
      = lastBlock (V (Proc.devRef .tc main_v423)) (V (Proc.devRef .tc main_v1)) (V (Proc.devRef .tc main_v3)) (e6 (V (Proc.devRef .tc main_arg11)))
          (w1_6 (V (Proc.devRef .tc main_arg4))) (g1_6 (V (Proc.devRef .tc main_arg5))) (b1_6 (V (Proc.devRef .tc main_arg6))) (V (Proc.devRef .tc main_arg10)) := by
  after_results_simp
  rfl

set_option maxHeartbeats 0 in
set_option maxRecDepth 100000 in
/-- The pooling read back. -/
theorem tail_value (V : Valuation τ sig (Elt Ideal)) :
    after opsTail V (Proc.devRef .tc main_v480) = pool (V (Proc.devRef .tc main_v468)) (V (Proc.devRef .tc main_arg3)) := by
  after_results_simp
  rfl

end Cert.GIN.Ref

end
-- ==== Proof.RefValue.lean ====
/-
  The value of the reference program: its result buffer, after all its operations have run from any buffer contents,
  holds the network function `Out` of what the argument buffers held at the start.

  The operations are the seven layers' lists followed by the pooling's, so the contents after all of them are the
  lists' folds one after the other.  No list writes an argument buffer, and only layer 0 writes the two buffers that
  hold the rows of the edge list, so every later layer reads the arguments and those rows unchanged; each layer's
  output buffer is read by the next layer only.  By induction along the layers the buffer after layer `k` holds
  `X(k+1)` of the arguments.
-/
import proofs.«177653_j8959301779747_1_alg».proof.Proof.RefRun
import proofs.«177653_j8959301779747_1_alg».proof.Proof.RefValueA
import proofs.«177653_j8959301779747_1_alg».proof.Proof.RefValueB
import proofs.«177653_j8959301779747_1_alg».proof.Proof.RefValueC

set_option synthInstance.maxSize 4096

noncomputable section

namespace Cert.GIN.Ref

open Cert.ReferenceIdeal Cert.ReferenceIdeal.Gen Idealize.ShloMosaic Idealize.ShloMosaic.TcCoe Idealize.SL.Sem Idealize.ShloMosaic.StableHlo

/-! ### The contents after the first `k` layers -/

/-- The buffer contents after layers 0 to 0. -/
def W1 (V : Valuation τ sig (Elt Ideal)) : Valuation τ sig (Elt Ideal) := after opsL0 V

/-- The buffer contents after layers 0 to 1. -/
def W2 (V : Valuation τ sig (Elt Ideal)) : Valuation τ sig (Elt Ideal) := after opsL1 (W1 V)

/-- The buffer contents after layers 0 to 2. -/
def W3 (V : Valuation τ sig (Elt Ideal)) : Valuation τ sig (Elt Ideal) := after opsL2 (W2 V)

/-- The buffer contents after layers 0 to 3. -/
def W4 (V : Valuation τ sig (Elt Ideal)) : Valuation τ sig (Elt Ideal) := after opsL3 (W3 V)

/-- The buffer contents after layers 0 to 4. -/
def W5 (V : Valuation τ sig (Elt Ideal)) : Valuation τ sig (Elt Ideal) := after opsL4 (W4 V)

/-- The buffer contents after layers 0 to 5. -/
def W6 (V : Valuation τ sig (Elt Ideal)) : Valuation τ sig (Elt Ideal) := after opsL5 (W5 V)

/-- The buffer contents after layers 0 to 6. -/
def W7 (V : Valuation τ sig (Elt Ideal)) : Valuation τ sig (Elt Ideal) := after opsL6 (W6 V)

/-- The contents after the whole line are the pooling's fold over the contents after the seven layers. -/
theorem after_ops_W7 (V : Valuation τ sig (Elt Ideal)) : after ops V = after opsTail (W7 V) := after_ops V

/-! ### Buffers no layer writes keep their contents -/

theorem W1_keep (V : Valuation τ sig (Elt Ideal)) (r : Ref sig .tc) (h0 : r ∉ opsL0_W) :
    W1 V (Proc.devRef .tc r) = V (Proc.devRef .tc r) :=
  opsL0_keep V r h0

theorem W2_keep (V : Valuation τ sig (Elt Ideal)) (r : Ref sig .tc) (h0 : r ∉ opsL0_W) (h1 : r ∉ opsL1_W) :
    W2 V (Proc.devRef .tc r) = V (Proc.devRef .tc r) :=
  (opsL1_keep (W1 V) r h1).trans (W1_keep V r h0)

theorem W3_keep (V : Valuation τ sig (Elt Ideal)) (r : Ref sig .tc) (h0 : r ∉ opsL0_W) (h1 : r ∉ opsL1_W) (h2 : r ∉ opsL2_W) :
    W3 V (Proc.devRef .tc r) = V (Proc.devRef .tc r) :=
  (opsL2_keep (W2 V) r h2).trans (W2_keep V r h0 h1)

theorem W4_keep (V : Valuation τ sig (Elt Ideal)) (r : Ref sig .tc) (h0 : r ∉ opsL0_W) (h1 : r ∉ opsL1_W) (h2 : r ∉ opsL2_W) (h3 : r ∉ opsL3_W) :
    W4 V (Proc.devRef .tc r) = V (Proc.devRef .tc r) :=
  (opsL3_keep (W3 V) r h3).trans (W3_keep V r h0 h1 h2)

theorem W5_keep (V : Valuation τ sig (Elt Ideal)) (r : Ref sig .tc) (h0 : r ∉ opsL0_W) (h1 : r ∉ opsL1_W) (h2 : r ∉ opsL2_W) (h3 : r ∉ opsL3_W) (h4 : r ∉ opsL4_W) :
    W5 V (Proc.devRef .tc r) = V (Proc.devRef .tc r) :=
  (opsL4_keep (W4 V) r h4).trans (W4_keep V r h0 h1 h2 h3)

theorem W6_keep (V : Valuation τ sig (Elt Ideal)) (r : Ref sig .tc) (h0 : r ∉ opsL0_W) (h1 : r ∉ opsL1_W) (h2 : r ∉ opsL2_W) (h3 : r ∉ opsL3_W) (h4 : r ∉ opsL4_W) (h5 : r ∉ opsL5_W) :
    W6 V (Proc.devRef .tc r) = V (Proc.devRef .tc r) :=
  (opsL5_keep (W5 V) r h5).trans (W5_keep V r h0 h1 h2 h3 h4)

theorem W7_keep (V : Valuation τ sig (Elt Ideal)) (r : Ref sig .tc) (h0 : r ∉ opsL0_W) (h1 : r ∉ opsL1_W) (h2 : r ∉ opsL2_W) (h3 : r ∉ opsL3_W) (h4 : r ∉ opsL4_W) (h5 : r ∉ opsL5_W) (h6 : r ∉ opsL6_W) :
    W7 V (Proc.devRef .tc r) = V (Proc.devRef .tc r) :=
  (opsL6_keep (W6 V) r h6).trans (W6_keep V r h0 h1 h2 h3 h4 h5)

/-! ### The rows of the edge list, written by layer 0, stay -/

theorem W1_src (V : Valuation τ sig (Elt Ideal)) : W1 V (Proc.devRef .tc main_v1) = srcOf (V (Proc.devRef .tc main_arg1)) := L0_src V
theorem W1_dst (V : Valuation τ sig (Elt Ideal)) : W1 V (Proc.devRef .tc main_v3) = dstOf (V (Proc.devRef .tc main_arg1)) := L0_dst V

theorem W2_src (V : Valuation τ sig (Elt Ideal)) : W2 V (Proc.devRef .tc main_v1) = srcOf (V (Proc.devRef .tc main_arg1)) :=
  (opsL1_keep (W1 V) main_v1 (by decide)).trans (W1_src V)
theorem W2_dst (V : Valuation τ sig (Elt Ideal)) : W2 V (Proc.devRef .tc main_v3) = dstOf (V (Proc.devRef .tc main_arg1)) :=
  (opsL1_keep (W1 V) main_v3 (by decide)).trans (W1_dst V)

theorem W3_src (V : Valuation τ sig (Elt Ideal)) : W3 V (Proc.devRef .tc main_v1) = srcOf (V (Proc.devRef .tc main_arg1)) :=
  (opsL2_keep (W2 V) main_v1 (by decide)).trans (W2_src V)
theorem W3_dst (V : Valuation τ sig (Elt Ideal)) : W3 V (Proc.devRef .tc main_v3) = dstOf (V (Proc.devRef .tc main_arg1)) :=
  (opsL2_keep (W2 V) main_v3 (by decide)).trans (W2_dst V)

theorem W4_src (V : Valuation τ sig (Elt Ideal)) : W4 V (Proc.devRef .tc main_v1) = srcOf (V (Proc.devRef .tc main_arg1)) :=
  (opsL3_keep (W3 V) main_v1 (by decide)).trans (W3_src V)
theorem W4_dst (V : Valuation τ sig (Elt Ideal)) : W4 V (Proc.devRef .tc main_v3) = dstOf (V (Proc.devRef .tc main_arg1)) :=
  (opsL3_keep (W3 V) main_v3 (by decide)).trans (W3_dst V)

theorem W5_src (V : Valuation τ sig (Elt Ideal)) : W5 V (Proc.devRef .tc main_v1) = srcOf (V (Proc.devRef .tc main_arg1)) :=
  (opsL4_keep (W4 V) main_v1 (by decide)).trans (W4_src V)
theorem W5_dst (V : Valuation τ sig (Elt Ideal)) : W5 V (Proc.devRef .tc main_v3) = dstOf (V (Proc.devRef .tc main_arg1)) :=
  (opsL4_keep (W4 V) main_v3 (by decide)).trans (W4_dst V)

theorem W6_src (V : Valuation τ sig (Elt Ideal)) : W6 V (Proc.devRef .tc main_v1) = srcOf (V (Proc.devRef .tc main_arg1)) :=
  (opsL5_keep (W5 V) main_v1 (by decide)).trans (W5_src V)
theorem W6_dst (V : Valuation τ sig (Elt Ideal)) : W6 V (Proc.devRef .tc main_v3) = dstOf (V (Proc.devRef .tc main_arg1)) :=
  (opsL5_keep (W5 V) main_v3 (by decide)).trans (W5_dst V)

/-! ### The node features, layer by layer -/

theorem W1_x (V : Valuation τ sig (Elt Ideal)) :
    W1 V (Proc.devRef .tc main_v73) = X1 (V (Proc.devRef .tc main_arg0)) (V (Proc.devRef .tc main_arg1)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg11)) := L0_value V

theorem W2_x (V : Valuation τ sig (Elt Ideal)) :
    W2 V (Proc.devRef .tc main_v143) = X2 (V (Proc.devRef .tc main_arg0)) (V (Proc.devRef .tc main_arg1)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg11)) := by
  show after opsL1 (W1 V) _ = _
  unfold X2
  rw [L1_value, W1_x, W1_src, W1_dst,
    W1_keep V main_arg11 (by decide),
    W1_keep V main_arg4 (by decide),
    W1_keep V main_arg5 (by decide),
    W1_keep V main_arg6 (by decide),
    W1_keep V main_arg7 (by decide),
    W1_keep V main_arg8 (by decide),
    W1_keep V main_arg9 (by decide)]

theorem W3_x (V : Valuation τ sig (Elt Ideal)) :
    W3 V (Proc.devRef .tc main_v213) = X3 (V (Proc.devRef .tc main_arg0)) (V (Proc.devRef .tc main_arg1)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg11)) := by
  show after opsL2 (W2 V) _ = _
  unfold X3
  rw [L2_value, W2_x, W2_src, W2_dst,
    W2_keep V main_arg11 (by decide) (by decide),
    W2_keep V main_arg4 (by decide) (by decide),
    W2_keep V main_arg5 (by decide) (by decide),
    W2_keep V main_arg6 (by decide) (by decide),
    W2_keep V main_arg7 (by decide) (by decide),
    W2_keep V main_arg8 (by decide) (by decide),
    W2_keep V main_arg9 (by decide) (by decide)]

theorem W4_x (V : Valuation τ sig (Elt Ideal)) :
    W4 V (Proc.devRef .tc main_v283) = X4 (V (Proc.devRef .tc main_arg0)) (V (Proc.devRef .tc main_arg1)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg11)) := by
  show after opsL3 (W3 V) _ = _
  unfold X4
  rw [L3_value, W3_x, W3_src, W3_dst,
    W3_keep V main_arg11 (by decide) (by decide) (by decide),
    W3_keep V main_arg4 (by decide) (by decide) (by decide),
    W3_keep V main_arg5 (by decide) (by decide) (by decide),
    W3_keep V main_arg6 (by decide) (by decide) (by decide),
    W3_keep V main_arg7 (by decide) (by decide) (by decide),
    W3_keep V main_arg8 (by decide) (by decide) (by decide),
    W3_keep V main_arg9 (by decide) (by decide) (by decide)]

theorem W5_x (V : Valuation τ sig (Elt Ideal)) :
    W5 V (Proc.devRef .tc main_v353) = X5 (V (Proc.devRef .tc main_arg0)) (V (Proc.devRef .tc main_arg1)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg11)) := by
  show after opsL4 (W4 V) _ = _
  unfold X5
  rw [L4_value, W4_x, W4_src, W4_dst,
    W4_keep V main_arg11 (by decide) (by decide) (by decide) (by decide),
    W4_keep V main_arg4 (by decide) (by decide) (by decide) (by decide),
    W4_keep V main_arg5 (by decide) (by decide) (by decide) (by decide),
    W4_keep V main_arg6 (by decide) (by decide) (by decide) (by decide),
    W4_keep V main_arg7 (by decide) (by decide) (by decide) (by decide),
    W4_keep V main_arg8 (by decide) (by decide) (by decide) (by decide),
    W4_keep V main_arg9 (by decide) (by decide) (by decide) (by decide)]

theorem W6_x (V : Valuation τ sig (Elt Ideal)) :
    W6 V (Proc.devRef .tc main_v423) = X6 (V (Proc.devRef .tc main_arg0)) (V (Proc.devRef .tc main_arg1)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg11)) := by
  show after opsL5 (W5 V) _ = _
  unfold X6
  rw [L5_value, W5_x, W5_src, W5_dst,
    W5_keep V main_arg11 (by decide) (by decide) (by decide) (by decide) (by decide),
    W5_keep V main_arg4 (by decide) (by decide) (by decide) (by decide) (by decide),
    W5_keep V main_arg5 (by decide) (by decide) (by decide) (by decide) (by decide),
    W5_keep V main_arg6 (by decide) (by decide) (by decide) (by decide) (by decide),
    W5_keep V main_arg7 (by decide) (by decide) (by decide) (by decide) (by decide),
    W5_keep V main_arg8 (by decide) (by decide) (by decide) (by decide) (by decide),
    W5_keep V main_arg9 (by decide) (by decide) (by decide) (by decide) (by decide)]

theorem W7_x (V : Valuation τ sig (Elt Ideal)) :
    W7 V (Proc.devRef .tc main_v468) = X7 (V (Proc.devRef .tc main_arg0)) (V (Proc.devRef .tc main_arg1)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) := by
  show after opsL6 (W6 V) _ = _
  unfold X7
  rw [L6_value, W6_x, W6_src, W6_dst,
    W6_keep V main_arg11 (by decide) (by decide) (by decide) (by decide) (by decide) (by decide),
    W6_keep V main_arg4 (by decide) (by decide) (by decide) (by decide) (by decide) (by decide),
    W6_keep V main_arg5 (by decide) (by decide) (by decide) (by decide) (by decide) (by decide),
    W6_keep V main_arg6 (by decide) (by decide) (by decide) (by decide) (by decide) (by decide),
    W6_keep V main_arg10 (by decide) (by decide) (by decide) (by decide) (by decide) (by decide)]

/-! ### The result -/

/-- The result buffer after the whole program, from any contents `V`, holds `Out` of the argument buffers' contents. -/
theorem ref_value (V : Valuation τ sig (Elt Ideal)) :
    after ops V (Proc.devRef .tc main_v480) = Out (V (Proc.devRef .tc main_arg0)) (V (Proc.devRef .tc main_arg1)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) := by
  rw [after_ops_W7]
  unfold Out
  rw [tail_value, W7_x, W7_keep V main_arg3 (by decide) (by decide) (by decide) (by decide) (by decide) (by decide) (by decide)]

end Cert.GIN.Ref

end
-- ==== Proof.PreReal.lean ====
/-
  From the finiteness precondition to real-valued arguments.

  The precondition of the certificate is a conjunction, one conjunct per floating-point argument array `x`, of
  "every entry of `|x|` lies strictly below `+∞`": an `and`-reduction over all axes of the entrywise comparison.
  A conjunction of one-bit words is 1 exactly when each word is; an `and`-reduction over all axes that is 1 had a 1
  at every entry.  On the extended reals `|a| = max a (-a)`, and `|a| < +∞` rules out both infinities (the absolute
  value of either is `+∞`), so `a` is a real number.
-/
import proofs.«177653_j8959301779747_1_alg».proof.Defs
import proofs.«177653_j8959301779747_1_alg».proof.Proof.Gen.Pre_finite_inputs
import proofs.«177653_j8959301779747_1_alg».proof.Proof.Spec
import Idealize.ShloMosaic.Lib.ReduceAll

noncomputable section

namespace Cert.GIN

open Idealize.ShloMosaic Idealize.SL.Sem

/-- The single-precision pattern with all exponent bits set and a zero significand is `+∞`. -/
theorem ofBits_inf_f32 : Ideal.ofBits .f32 0x7F800000#32 = ⊤ := by simp [Ideal.ofBits, Ideal.ieee]

/-- An extended real whose absolute value `max a (-a)` lies strictly below `+∞` is a real number. -/
theorem real_of_abs_lt_inf (a : EReal)
    (h : Ideal.cmp .olt (max a (-a)) (Ideal.ofBits .f32 0x7F800000#32) = 1#1) : ∃ r : ℝ, a = (r : EReal) := by
  rw [ofBits_inf_f32] at h
  induction a using EReal.rec with
  | bot => simp [Ideal.cmp] at h
  | coe r => exact ⟨r, rfl⟩
  | top => simp [Ideal.cmp] at h

/-- The rank-0 shape has exactly one index. -/
instance : Subsingleton Cert.Pre_finite_inputs.S_.Idx := ⟨fun a b => funext fun d => d.elim0⟩

/-- If the `and` over all entries of `|x| < +∞` is 1, every entry of `x` is a real number. -/
theorem isReal_of_all {s : Shape} {axes : List (Fin s.rank)}
    (hb : Cert.Pre_finite_inputs.S_.BroadcastsInDim s (![] : Fin 0 → Fin s.rank))
    (hr : s.ReducesTo axes Cert.Pre_finite_inputs.S_) (hu : 0 < Cert.Pre_finite_inputs.S_.numel)
    (x : FVec Ideal s .f32) (init : IVec Cert.Pre_finite_inputs.S_ 1)
    (h : Host.reduce IntOp.andi
        (cmpf .olt (Host.absf x)
          (broadcastInDim s ![] hb (constant (F := Ideal) Cert.Pre_finite_inputs.S_ .f32 0x7F800000#32)))
        init hr hu ValueIdx.ix0 = 1#1) :
    IsReal x :=
  fun i => real_of_abs_lt_inf (x i) (Host.reduce_andi_all _ init hr hu ValueIdx.ix0 h i)

/-- Under the certificate's precondition every floating-point argument array holds real numbers only. -/
theorem pre_real [hP : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    IsReal ((m ((c.tc : Thread Cert.KernelIdeal.nD Cert.KernelIdeal.τ).loc Cert.KernelIdeal.main_arg0)) : FVec Ideal Cert.KernelIdeal.S50000x128 .f32)
      ∧ IsReal ((m ((c.tc : Thread Cert.KernelIdeal.nD Cert.KernelIdeal.τ).loc Cert.KernelIdeal.main_arg4)) : FVec Ideal Cert.KernelIdeal.S7x128x64 .f32)
      ∧ IsReal ((m ((c.tc : Thread Cert.KernelIdeal.nD Cert.KernelIdeal.τ).loc Cert.KernelIdeal.main_arg5)) : FVec Ideal Cert.KernelIdeal.S7x64 .f32)
      ∧ IsReal ((m ((c.tc : Thread Cert.KernelIdeal.nD Cert.KernelIdeal.τ).loc Cert.KernelIdeal.main_arg6)) : FVec Ideal Cert.KernelIdeal.S7x64 .f32)
      ∧ IsReal ((m ((c.tc : Thread Cert.KernelIdeal.nD Cert.KernelIdeal.τ).loc Cert.KernelIdeal.main_arg7)) : FVec Ideal Cert.KernelIdeal.S6x64x128 .f32)
      ∧ IsReal ((m ((c.tc : Thread Cert.KernelIdeal.nD Cert.KernelIdeal.τ).loc Cert.KernelIdeal.main_arg8)) : FVec Ideal Cert.KernelIdeal.S6x128 .f32)
      ∧ IsReal ((m ((c.tc : Thread Cert.KernelIdeal.nD Cert.KernelIdeal.τ).loc Cert.KernelIdeal.main_arg9)) : FVec Ideal Cert.KernelIdeal.S6x128 .f32)
      ∧ IsReal ((m ((c.tc : Thread Cert.KernelIdeal.nD Cert.KernelIdeal.τ).loc Cert.KernelIdeal.main_arg10)) : FVec Ideal Cert.KernelIdeal.S64x2 .f32)
      ∧ IsReal ((m ((c.tc : Thread Cert.KernelIdeal.nD Cert.KernelIdeal.τ).loc Cert.KernelIdeal.main_arg11)) : FVec Ideal Cert.KernelIdeal.S7 .f32)
      ∧ IsReal ((m ((c.tc : Thread Cert.KernelIdeal.nD Cert.KernelIdeal.τ).loc Cert.KernelIdeal.main_arg2)) : FVec Ideal Cert.KernelIdeal.S800000 .f32) := by
  have h0 := congrFun (h c) ValueIdx.ix0
  dsimp only [Cert.Pre_finite_inputs.fn, Cert.Pre_finite_inputs.fn_part1, Cert.Pre_finite_inputs.fn_part2, andi] at h0
  obtain ⟨h0, a11⟩ := IntOp.andi_eq_one.1 h0
  obtain ⟨h0, a10⟩ := IntOp.andi_eq_one.1 h0
  obtain ⟨h0, a9⟩ := IntOp.andi_eq_one.1 h0
  obtain ⟨h0, a8⟩ := IntOp.andi_eq_one.1 h0
  obtain ⟨h0, a7⟩ := IntOp.andi_eq_one.1 h0
  obtain ⟨h0, a6⟩ := IntOp.andi_eq_one.1 h0
  obtain ⟨h0, a5⟩ := IntOp.andi_eq_one.1 h0
  obtain ⟨h0, a4⟩ := IntOp.andi_eq_one.1 h0
  obtain ⟨a0, a2⟩ := IntOp.andi_eq_one.1 h0
  exact ⟨isReal_of_all _ _ _ _ _ a0,
    isReal_of_all _ _ _ _ _ a4,
    isReal_of_all _ _ _ _ _ a5,
    isReal_of_all _ _ _ _ _ a6,
    isReal_of_all _ _ _ _ _ a7,
    isReal_of_all _ _ _ _ _ a8,
    isReal_of_all _ _ _ _ _ a9,
    isReal_of_all _ _ _ _ _ a10,
    isReal_of_all _ _ _ _ _ a11,
    isReal_of_all _ _ _ _ _ a2⟩

end Cert.GIN

end
-- ==== Proof.Reg0Pieces.lean ====
/-
  What one run of the combine–product–statistics body leaves in its three outputs, as values of what it loaded.

  The body loads the scale, the tile of node features, the tile of neighbour sums and the weights, stores the product
  tile, and stores each statistics row as the row it loaded plus the tile's column sums.  At the first grid point it
  first stores a zero row into each statistics buffer, and the row it then loads is that zero row; at every other point
  the row it loads is what the point before left.  Each output buffer is covered by whole-buffer stores, so its contents
  after the body are the last store's value.
-/
import proofs.«177653_j8959301779747_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.GIN.Reg0

open Cert.KernelIdeal Cert.KernelIdeal.Gen

variable {F : FTy → Type} [FloatOps F]

theorem hz : (![0, 0] : Fin 2 → Nat) = fun _ => 0 := funext fun a => by fin_cases a <;> rfl

/-- A later point leaves the product tile of its blocks. -/
theorem out_B_4 (c : Dev nD) (i : grid0.Coords) (a1 : Memref sig .tc .vmem S5000x128 .f32) (h1 : a1.IsWhole) (a2 : Memref sig .tc .vmem S5000x128 .f32) (h2 : a2.IsWhole) (a3 : Memref sig .tc .vmem S1x1 .f32) (h3 : a3.IsWhole) (a4 : Memref sig .tc .vmem S128x64 .f32) (h4 : a4.IsWhole) (a5 : Memref sig .tc .vmem S5000x64 .f32) (h5 : a5.IsWhole) (a6 : Memref sig .tc .vmem S1x64 .f32) (h6 : a6.IsWhole) (a7 : Memref sig .tc .vmem S1x64 .f32) (h7 : a7.IsWhole) (hc : ¬cond0_0 i) (x0 x1 : Vec F S5000x128 .f32) (x2 : Vec F S1x1 .f32) (x3 : Vec F S128x64 .f32) (xo5 xo6 : Vec F S1x64 .f32) :
    out0_B_4 c i a1 h1 a2 h2 a3 h3 a4 h4 a5 h5 a6 h6 a7 h7 hc x0 x1 x2 x3 xo5 xo6 = k0_pay3 x2 x0 x1 x3 := by
  unfold out0_B_4
  rw [View.read_writes_eq_canon _ _ _ (cover0_B_4 c i a1 h1 a2 h2 a3 h3 a4 h4 a5 h5 a6 h6 a7 h7 hc x0 x1 x2 x3 xo5 xo6)]
  unfold kernelRun0_B
  dsimp only
  sl_unfold_words
  rw [View.canon_unit_zero hz]
  simp only [View.readAt_eq_ld, h1.read_unread, h2.read_unread, h3.read_unread, h4.read_unread, h6.read_unread, h7.read_unread,
    View.ld_unit_zero (S := S5000x128) hz, View.ld_unit_zero (S := S1x1) hz, View.ld_unit_zero (S := S128x64) hz,
    View.ld_unit_zero (S := S1x64) hz]

/-- A later point leaves the column-sum row it found plus its tile's column sums. -/
theorem out_B_5 (c : Dev nD) (i : grid0.Coords) (a1 : Memref sig .tc .vmem S5000x128 .f32) (h1 : a1.IsWhole) (a2 : Memref sig .tc .vmem S5000x128 .f32) (h2 : a2.IsWhole) (a3 : Memref sig .tc .vmem S1x1 .f32) (h3 : a3.IsWhole) (a4 : Memref sig .tc .vmem S128x64 .f32) (h4 : a4.IsWhole) (a5 : Memref sig .tc .vmem S5000x64 .f32) (h5 : a5.IsWhole) (a6 : Memref sig .tc .vmem S1x64 .f32) (h6 : a6.IsWhole) (a7 : Memref sig .tc .vmem S1x64 .f32) (h7 : a7.IsWhole) (hc : ¬cond0_0 i) (x0 x1 : Vec F S5000x128 .f32) (x2 : Vec F S1x1 .f32) (x3 : Vec F S128x64 .f32) (xo5 xo6 : Vec F S1x64 .f32) :
    out0_B_5 c i a1 h1 a2 h2 a3 h3 a4 h4 a5 h5 a6 h6 a7 h7 hc x0 x1 x2 x3 xo5 xo6 = k0_pay4 x2 x0 x1 x3 xo5 := by
  unfold out0_B_5
  rw [View.read_writes_eq_canon _ _ _ (cover0_B_5 c i a1 h1 a2 h2 a3 h3 a4 h4 a5 h5 a6 h6 a7 h7 hc x0 x1 x2 x3 xo5 xo6)]
  unfold kernelRun0_B
  dsimp only
  sl_unfold_words
  rw [View.canon_unit_zero hz]
  simp only [View.readAt_eq_ld, h1.read_unread, h2.read_unread, h3.read_unread, h4.read_unread, h6.read_unread, h7.read_unread,
    View.ld_unit_zero (S := S5000x128) hz, View.ld_unit_zero (S := S1x1) hz, View.ld_unit_zero (S := S128x64) hz,
    View.ld_unit_zero (S := S1x64) hz]

/-- A later point leaves the sum-of-squares row it found plus the column sums of its tile's squares. -/
theorem out_B_6 (c : Dev nD) (i : grid0.Coords) (a1 : Memref sig .tc .vmem S5000x128 .f32) (h1 : a1.IsWhole) (a2 : Memref sig .tc .vmem S5000x128 .f32) (h2 : a2.IsWhole) (a3 : Memref sig .tc .vmem S1x1 .f32) (h3 : a3.IsWhole) (a4 : Memref sig .tc .vmem S128x64 .f32) (h4 : a4.IsWhole) (a5 : Memref sig .tc .vmem S5000x64 .f32) (h5 : a5.IsWhole) (a6 : Memref sig .tc .vmem S1x64 .f32) (h6 : a6.IsWhole) (a7 : Memref sig .tc .vmem S1x64 .f32) (h7 : a7.IsWhole) (hc : ¬cond0_0 i) (x0 x1 : Vec F S5000x128 .f32) (x2 : Vec F S1x1 .f32) (x3 : Vec F S128x64 .f32) (xo5 xo6 : Vec F S1x64 .f32) :
    out0_B_6 c i a1 h1 a2 h2 a3 h3 a4 h4 a5 h5 a6 h6 a7 h7 hc x0 x1 x2 x3 xo5 xo6 = k0_pay5 x2 x0 x1 x3 xo6 := by
  unfold out0_B_6
  rw [View.read_writes_eq_canon _ _ _ (cover0_B_6 c i a1 h1 a2 h2 a3 h3 a4 h4 a5 h5 a6 h6 a7 h7 hc x0 x1 x2 x3 xo5 xo6)]
  unfold kernelRun0_B
  dsimp only
  sl_unfold_words
  rw [View.canon_unit_zero hz]
  simp only [View.readAt_eq_ld, h1.read_unread, h2.read_unread, h3.read_unread, h4.read_unread, h6.read_unread, h7.read_unread,
    View.ld_unit_zero (S := S5000x128) hz, View.ld_unit_zero (S := S1x1) hz, View.ld_unit_zero (S := S128x64) hz,
    View.ld_unit_zero (S := S1x64) hz]

/-- The first point leaves the product tile of its blocks. -/
theorem out_A_4 (c : Dev nD) (i : grid0.Coords) (a1 : Memref sig .tc .vmem S5000x128 .f32) (h1 : a1.IsWhole) (a2 : Memref sig .tc .vmem S5000x128 .f32) (h2 : a2.IsWhole) (a3 : Memref sig .tc .vmem S1x1 .f32) (h3 : a3.IsWhole) (a4 : Memref sig .tc .vmem S128x64 .f32) (h4 : a4.IsWhole) (a5 : Memref sig .tc .vmem S5000x64 .f32) (h5 : a5.IsWhole) (a6 : Memref sig .tc .vmem S1x64 .f32) (h6 : a6.IsWhole) (a7 : Memref sig .tc .vmem S1x64 .f32) (h7 : a7.IsWhole) (hc : cond0_0 i) (x0 x1 : Vec F S5000x128 .f32) (x2 : Vec F S1x1 .f32) (x3 : Vec F S128x64 .f32) :
    out0_A_4 c i a1 h1 a2 h2 a3 h3 a4 h4 a5 h5 a6 h6 a7 h7 hc x0 x1 x2 x3 = k0_pay3 x2 x0 x1 x3 := by
  unfold out0_A_4
  rw [View.read_writes_eq_canon _ _ _ (cover0_A_4 c i a1 h1 a2 h2 a3 h3 a4 h4 a5 h5 a6 h6 a7 h7 hc x0 x1 x2 x3)]
  unfold kernelRun0_A
  dsimp only
  sl_unfold_words
  rw [View.canon_unit_zero hz]
  simp only [View.readAt_eq_ld, h1.read_unread, h2.read_unread, h3.read_unread, h4.read_unread, h6.read_unread, h7.read_unread,
    View.ld_unit_zero (S := S5000x128) hz, View.ld_unit_zero (S := S1x1) hz, View.ld_unit_zero (S := S128x64) hz,
    View.ld_unit_zero (S := S1x64) hz]

/-- The first point leaves the zero row plus its tile's column sums. -/
theorem out_A_5 (c : Dev nD) (i : grid0.Coords) (a1 : Memref sig .tc .vmem S5000x128 .f32) (h1 : a1.IsWhole) (a2 : Memref sig .tc .vmem S5000x128 .f32) (h2 : a2.IsWhole) (a3 : Memref sig .tc .vmem S1x1 .f32) (h3 : a3.IsWhole) (a4 : Memref sig .tc .vmem S128x64 .f32) (h4 : a4.IsWhole) (a5 : Memref sig .tc .vmem S5000x64 .f32) (h5 : a5.IsWhole) (a6 : Memref sig .tc .vmem S1x64 .f32) (h6 : a6.IsWhole) (a7 : Memref sig .tc .vmem S1x64 .f32) (h7 : a7.IsWhole) (hc : cond0_0 i) (x0 x1 : Vec F S5000x128 .f32) (x2 : Vec F S1x1 .f32) (x3 : Vec F S128x64 .f32) :
    out0_A_5 c i a1 h1 a2 h2 a3 h3 a4 h4 a5 h5 a6 h6 a7 h7 hc x0 x1 x2 x3 = k0_pay4 x2 x0 x1 x3 k0_pay1 := by
  unfold out0_A_5
  rw [View.read_writes_eq_canon _ _ _ (cover0_A_5 c i a1 h1 a2 h2 a3 h3 a4 h4 a5 h5 a6 h6 a7 h7 hc x0 x1 x2 x3)]
  unfold kernelRun0_A
  dsimp only
  sl_unfold_words
  rw [View.canon_cons_unit_zero (S := S1x64) hz, View.readCov_unit_zero (S := S1x64) _ hz]
  simp only [View.readAt_eq_ld, h1.read_unread, h2.read_unread, h3.read_unread, h4.read_unread, h6.read_unread, h7.read_unread,
    View.ld_unit_zero (S := S5000x128) hz, View.ld_unit_zero (S := S1x1) hz, View.ld_unit_zero (S := S128x64) hz,
    View.ld_unit_zero (S := S1x64) hz]

/-- The first point leaves the zero row plus the column sums of its tile's squares. -/
theorem out_A_6 (c : Dev nD) (i : grid0.Coords) (a1 : Memref sig .tc .vmem S5000x128 .f32) (h1 : a1.IsWhole) (a2 : Memref sig .tc .vmem S5000x128 .f32) (h2 : a2.IsWhole) (a3 : Memref sig .tc .vmem S1x1 .f32) (h3 : a3.IsWhole) (a4 : Memref sig .tc .vmem S128x64 .f32) (h4 : a4.IsWhole) (a5 : Memref sig .tc .vmem S5000x64 .f32) (h5 : a5.IsWhole) (a6 : Memref sig .tc .vmem S1x64 .f32) (h6 : a6.IsWhole) (a7 : Memref sig .tc .vmem S1x64 .f32) (h7 : a7.IsWhole) (hc : cond0_0 i) (x0 x1 : Vec F S5000x128 .f32) (x2 : Vec F S1x1 .f32) (x3 : Vec F S128x64 .f32) :
    out0_A_6 c i a1 h1 a2 h2 a3 h3 a4 h4 a5 h5 a6 h6 a7 h7 hc x0 x1 x2 x3 = k0_pay5 x2 x0 x1 x3 k0_pay2 := by
  unfold out0_A_6
  rw [View.read_writes_eq_canon _ _ _ (cover0_A_6 c i a1 h1 a2 h2 a3 h3 a4 h4 a5 h5 a6 h6 a7 h7 hc x0 x1 x2 x3)]
  unfold kernelRun0_A
  dsimp only
  sl_unfold_words
  rw [View.canon_cons_unit_zero (S := S1x64) hz, View.readCov_unit_zero (S := S1x64) _ hz]
  simp only [View.readAt_eq_ld, h1.read_unread, h2.read_unread, h3.read_unread, h4.read_unread, h6.read_unread, h7.read_unread,
    View.ld_unit_zero (S := S5000x128) hz, View.ld_unit_zero (S := S1x1) hz, View.ld_unit_zero (S := S128x64) hz,
    View.ld_unit_zero (S := S1x64) hz]

end Cert.GIN.Reg0

end
-- ==== Proof.Reg0Pay.lean ====
/-
  The arithmetic of one grid point of the combine–product–statistics kernel, read at an index over the extended reals.

  At a grid point the body holds a tile of 5000 rows.  It forms `scale · x + agg` entry by entry, multiplies the tile by the
  128×64 weight matrix into a zero accumulator (the narrowing of both operands is the identity on extended reals), and
  adds to each of two 1×64 rows the column sums of the product tile and of its entrywise squares.  The three lemmas below
  read these three stored values at an entry: the product entry `(p, j)` is the sum over `q < 128` of
  `(scale · x(p, q) + agg(p, q)) · w(q, j)`; the statistics rows at `(0, j)` are the carried row plus the sum over the
  tile's 5000 rows of the product entries, respectively of their squares.
-/
import proofs.«177653_j8959301779747_1_alg».proof.Proof.Spec
import proofs.«177653_j8959301779747_1_alg».proof.Proof.LibPlainDot
import proofs.«177653_j8959301779747_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.GIN.Reg0

open Idealize.ShloMosaic Idealize.ShloMosaic.ValueIdx
open Cert.KernelIdeal Cert.KernelIdeal.Gen Cert.GIN

/-- The 1×1 scale spread over a 5000×128 tile reads the scale's one entry everywhere. -/
theorem scale_ix (v : FVec Ideal S1x1 .f32) (p : Fin 5000) (q : Fin 128) :
    broadcastTo S5000x128 v broadcasts_S1x1_S5000x128 (ix2 p q) = v (ix2 0 0) :=
  broadcastTo_apply v broadcasts_S1x1_S5000x128 (ix2 p q) (ix2 0 0) fun a => by
    match a with
    | ⟨0, _⟩ => rfl
    | ⟨1, _⟩ => rfl

/-- The source index of a column reduction of a 5000×64 tile: row `p` over the result's column `j`. -/
theorem lift_ix (j : Fin 64) (p : Fin 5000) :
    reduces_S5000x64_S64.lift (fun a => (ix2 (0 : Fin 1) j) a.succ) p = ix2 p j := by
  funext c
  apply Fin.ext
  match c with
  | ⟨0, _⟩ => rfl
  | ⟨1, _⟩ => rfl

/-- A column reduction of a 5000×64 tile from the zero word, stored as a 1×64 row, reads at `(0, j)` the sum of column
    `j` over the tile's rows. -/
theorem colred_ix (src : FVec Ideal S5000x64 .f32) (j : Fin 64) :
    shapeCast S1x64 (multiReduction (F := Ideal) .add [0] S64 src 0x00000000#32 reduces_S5000x64_S64 (.inl rfl) rfl)
        shapeCasts_S64_S1x64 (ix2 0 j) = ∑ p : Fin 5000, src (ix2 p j) := by
  refine (shapeCast_addUnit_apply ![64] _ shapeCasts_S64_S1x64 (ix2 0 j)).trans ?_
  refine (Ideal.multiReduction_add_single src 0x00000000#32 reduces_S5000x64_S64 (.inl rfl) rfl _).trans ?_
  exact Finset.sum_congr rfl fun p _ => congrArg src (lift_ix j p)

/-- The product tile at `(p, j)`. -/
theorem pay3_ix (v3 : Vec Ideal S1x1 .f32) (v5 v8 : Vec Ideal S5000x128 .f32) (v12 : Vec Ideal S128x64 .f32)
    (p : Fin 5000) (j : Fin 64) :
    k0_pay3 (F := Ideal) v3 v5 v8 v12 (ix2 p j)
      = ∑ q : Fin 128, (v3 (ix2 0 0) * v5 (ix2 p q) + v8 (ix2 p q)) * v12 (ix2 q j) := by
  unfold k0_pay3
  simp only [shapeCast_self]
  refine (Cert.PlainDot.matmul_zero_ix2 dot_S5000x128_S128x64_S5000x64_1_0_0_1_n_n rfl none _ _ p j).trans ?_
  refine Finset.sum_congr rfl fun q _ => ?_
  show (broadcastTo S5000x128 v3 broadcasts_S1x1_S5000x128 (ix2 p q) * v5 (ix2 p q) + v8 (ix2 p q)) * v12 (ix2 q j) = _
  rw [scale_ix v3 p q]

/-- The column-sum row after the point: the carried row plus the tile's column sums. -/
theorem pay4_ix (v3 : Vec Ideal S1x1 .f32) (v5 v8 : Vec Ideal S5000x128 .f32) (v12 : Vec Ideal S128x64 .f32)
    (r : Vec Ideal S1x64 .f32) (j : Fin 64) :
    k0_pay4 (F := Ideal) v3 v5 v8 v12 r (ix2 0 j)
      = r (ix2 0 j) + ∑ p : Fin 5000, k0_pay3 (F := Ideal) v3 v5 v8 v12 (ix2 p j) := by
  unfold k0_pay4
  simp only [shapeCast_self]
  exact congrArg (r (ix2 0 j) + ·) (colred_ix (k0_pay3 (F := Ideal) v3 v5 v8 v12) j)

/-- The sum-of-squares row after the point: the carried row plus the column sums of the tile's squares. -/
theorem pay5_ix (v3 : Vec Ideal S1x1 .f32) (v5 v8 : Vec Ideal S5000x128 .f32) (v12 : Vec Ideal S128x64 .f32)
    (r : Vec Ideal S1x64 .f32) (j : Fin 64) :
    k0_pay5 (F := Ideal) v3 v5 v8 v12 r (ix2 0 j)
      = r (ix2 0 j) + ∑ p : Fin 5000, k0_pay3 (F := Ideal) v3 v5 v8 v12 (ix2 p j) * k0_pay3 (F := Ideal) v3 v5 v8 v12 (ix2 p j) := by
  unfold k0_pay5
  simp only [shapeCast_self]
  exact congrArg (r (ix2 0 j) + ·)
    (colred_ix (mulf (k0_pay3 (F := Ideal) v3 v5 v8 v12) (k0_pay3 (F := Ideal) v3 v5 v8 v12)) j)

/-- The two rows the first point stores before accumulating are zero. -/
theorem pay1_ix (j : Fin 64) : k0_pay1 (F := Ideal) (ix2 0 j) = 0 := by
  unfold k0_pay1
  exact Ideal.ofBits_zero_f32

theorem pay2_ix (j : Fin 64) : k0_pay2 (F := Ideal) (ix2 0 j) = 0 := by
  unfold k0_pay2
  exact Ideal.ofBits_zero_f32

end Cert.GIN.Reg0

end
-- ==== Proof.Reg0.lean ====
/-
  The value of the combine–product–statistics region, as whole-array functions of what the region finds.

  The grid has ten points; point `t` holds rows `5000 t … 5000 t + 4999` of the node features `x` and of the neighbour
  sums `agg`, the whole 1×1 scale and the whole 128×64 weight matrix.  Every point stores the tile
  `(scale · x + agg) · w` of its rows as block `t` of the product array, so that array ends as the product itself: row `r`
  is written by point `r / 5000`.  The two statistics rows have one block that never moves: point 0 zeroes them, every
  point adds its tile's column sums (of the entries, and of their squares), and the rows are written back after the last
  point only.  By induction on the point they hold, after point `n`, the sum over tiles `0 … n` of the tile's column
  sums; after point 9 that is the tiled column sum of the specification.
-/
import proofs.«177653_j8959301779747_1_alg».proof.Proof.Spec
import proofs.«177653_j8959301779747_1_alg».proof.Proof.LibPlainDot
import proofs.«177653_j8959301779747_1_alg».proof.Proof.Gen.KernelIdeal.Frame
import proofs.«177653_j8959301779747_1_alg».proof.Proof.Reg0Pieces
import proofs.«177653_j8959301779747_1_alg».proof.Proof.Reg0Pay
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.ShloMosaic.ValueIdx Idealize.SL.Sem
open Idealize.ShloMosaic.Pipeline (Dat)

namespace Cert.GIN.Reg0

open Cert.KernelIdeal Cert.KernelIdeal.Gen Cert.GIN

variable (V : (c : Dev nD) → (b : Ref sig .tc) → Buf (Elt Ideal) ((c : Thread nD τ).loc b)) (c : Dev nD)

/-- The node features, the neighbour sums, the scale and the weights as the region finds them, as matrices. -/
abbrev Xx : Mat 50000 128 := V c (Pipeline.arrRef spec0 0)
abbrev Xa : Mat 50000 128 := V c (Pipeline.arrRef spec0 1)
abbrev Xs : Mat 1 1 := V c (Pipeline.arrRef spec0 2)
abbrev Xw : Mat 128 64 := V c (Pipeline.arrRef spec0 3)
/-- The product the region computes. -/
abbrev Z : Mat 50000 64 := mm (comb (Xs V c) (Xx V c) (Xa V c)) (Xw V c)

/-- The block index maps over the grid: the row-tiled windows move with the point along the rows, the others stay. -/
theorem idx_facts : ∀ t : Fin cfg0.N,
    win0_0.index t (0 : Fin 2) = t.val ∧ win0_0.index t (1 : Fin 2) = 0
  ∧ win0_1.index t (0 : Fin 2) = t.val ∧ win0_1.index t (1 : Fin 2) = 0
  ∧ win0_2.index t (0 : Fin 2) = 0 ∧ win0_2.index t (1 : Fin 2) = 0
  ∧ win0_3.index t (0 : Fin 2) = 0 ∧ win0_3.index t (1 : Fin 2) = 0
  ∧ win0_4.index t (0 : Fin 2) = t.val ∧ win0_4.index t (1 : Fin 2) = 0
  ∧ win0_5.index t (0 : Fin 2) = 0 ∧ win0_5.index t (1 : Fin 2) = 0
  ∧ win0_6.index t (0 : Fin 2) = 0 ∧ win0_6.index t (1 : Fin 2) = 0 :=
  (by decide +kernel : ∀ t : Fin grid0.N, _)

theorem lt_ten (t : Fin cfg0.N) : t.val < 10 := by
  have h : t.val < grid0.N := t.isLt
  rw [N_0] at h; exact h

/-! ## The input blocks, read at an entry -/

theorem blk0_ix (t : Fin cfg0.N) (p : Fin 5000) (q : Fin 128) (h : 5000 * t.val + p.val < 50000) :
    (iblk0 V c 0 t : Vec Ideal S5000x128 .f32) (ix2 p q) = Xx V c (ix2 ⟨5000 * t.val + p.val, h⟩ q) := by
  obtain ⟨e0, e1, -⟩ := idx_facts t
  unfold iblk0
  rw [View.read_apply]
  show V c (Pipeline.arrRef spec0 0) _ = V c (Pipeline.arrRef spec0 0) _
  congr 1
  funext a
  apply Fin.ext
  match a with
  | ⟨0, _⟩ => show win0_0.index t 0 * 5000 + 1 * p.val = 5000 * t.val + p.val; rw [e0]; omega
  | ⟨1, _⟩ => show win0_0.index t 1 * 128 + 1 * q.val = q.val; rw [e1]; omega

theorem blk1_ix (t : Fin cfg0.N) (p : Fin 5000) (q : Fin 128) (h : 5000 * t.val + p.val < 50000) :
    (iblk0 V c 1 t : Vec Ideal S5000x128 .f32) (ix2 p q) = Xa V c (ix2 ⟨5000 * t.val + p.val, h⟩ q) := by
  obtain ⟨-, -, e0, e1, -⟩ := idx_facts t
  unfold iblk0
  rw [View.read_apply]
  show V c (Pipeline.arrRef spec0 1) _ = V c (Pipeline.arrRef spec0 1) _
  congr 1
  funext a
  apply Fin.ext
  match a with
  | ⟨0, _⟩ => show win0_1.index t 0 * 5000 + 1 * p.val = 5000 * t.val + p.val; rw [e0]; omega
  | ⟨1, _⟩ => show win0_1.index t 1 * 128 + 1 * q.val = q.val; rw [e1]; omega

theorem blk2_ix (t : Fin cfg0.N) :
    (iblk0 V c 2 t : Vec Ideal S1x1 .f32) (ix2 0 0) = Xs V c (ix2 0 0) := by
  obtain ⟨-, -, -, -, e0, e1, -⟩ := idx_facts t
  unfold iblk0
  rw [View.read_apply]
  show V c (Pipeline.arrRef spec0 2) _ = V c (Pipeline.arrRef spec0 2) _
  congr 1
  funext a
  apply Fin.ext
  match a with
  | ⟨0, _⟩ => show win0_2.index t 0 * 1 + 1 * 0 = 0; rw [e0]
  | ⟨1, _⟩ => show win0_2.index t 1 * 1 + 1 * 0 = 0; rw [e1]

theorem blk3_ix (t : Fin cfg0.N) (q : Fin 128) (j : Fin 64) :
    (iblk0 V c 3 t : Vec Ideal S128x64 .f32) (ix2 q j) = Xw V c (ix2 q j) := by
  obtain ⟨-, -, -, -, -, -, e0, e1, -⟩ := idx_facts t
  unfold iblk0
  rw [View.read_apply]
  show V c (Pipeline.arrRef spec0 3) _ = V c (Pipeline.arrRef spec0 3) _
  congr 1
  funext a
  apply Fin.ext
  match a with
  | ⟨0, _⟩ => show win0_3.index t 0 * 128 + 1 * q.val = q.val; rw [e0]; omega
  | ⟨1, _⟩ => show win0_3.index t 1 * 64 + 1 * j.val = j.val; rw [e1]; omega

/-! ## The product tile of a point is the point's rows of the product -/

/-- The product tile point `t` computes from its blocks. -/
abbrev tile (t : Fin cfg0.N) : Vec Ideal S5000x64 .f32 :=
  k0_pay3 (F := Ideal) (iblk0 V c 2 t) (iblk0 V c 0 t) (iblk0 V c 1 t) (iblk0 V c 3 t)

theorem tile_ix (t : Fin cfg0.N) (p : Fin 5000) (j : Fin 64) (h : 5000 * t.val + p.val < 50000) :
    tile V c t (ix2 p j) = Z V c (ix2 ⟨5000 * t.val + p.val, h⟩ j) := by
  refine (pay3_ix (iblk0 V c 2 t) (iblk0 V c 0 t) (iblk0 V c 1 t) (iblk0 V c 3 t) p j).trans ?_
  show _ = ∑ q : Fin 128, (Xs V c (ix2 0 0) * Xx V c (ix2 ⟨5000 * t.val + p.val, h⟩ q) + Xa V c (ix2 ⟨5000 * t.val + p.val, h⟩ q)) * Xw V c (ix2 q j)
  refine Finset.sum_congr rfl fun q _ => ?_
  rw [blk0_ix V c t p q h, blk1_ix V c t p q h, blk2_ix V c t, blk3_ix V c t q j]

/-- Every point, first or not, leaves its product tile in the product's block. -/
theorem outs4 (t : Fin cfg0.N) : (outsAt0 V c t.val t.isLt).1 = tile V c t := by
  by_cases h0 : t.val % 10 = 0
  · rw [outsAt0_A V c t h0]
    dsimp only
    exact out_A_4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk0 V c 0 t) (iblk0 V c 1 t) (iblk0 V c 2 t) (iblk0 V c 3 t)
  · rw [outsAt0_B V c t h0]
    dsimp only
    exact out_B_4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (iblk0 V c 0 t) (iblk0 V c 1 t) (iblk0 V c 2 t) (iblk0 V c 3 t) (outsAt0 V c (t.val - 1) (Nat.lt_of_le_of_lt (Nat.sub_le _ _) t.isLt)).2.1 (outsAt0 V c (t.val - 1) (Nat.lt_of_le_of_lt (Nat.sub_le _ _) t.isLt)).2.2

/-! ## The statistics rows after each point -/

/-- Column `j` of `z` summed over the rows of tile `t` (zero past the tenth tile). -/
def tsum (z : Mat 50000 64) (j : Fin 64) (t : ℕ) : EReal :=
  if h : t < 10 then ∑ p : Fin 5000, z (ix2 ⟨5000 * t + p.val, by have := p.isLt; omega⟩ j) else 0

/-- The tiled column sum of the specification is the sum of the ten tile sums. -/
theorem colSum_eq (z : Mat 50000 64) (j : Fin 64) : colSum z (ix2 0 j) = ∑ t ∈ Finset.range 10, tsum z j t := by
  rw [Finset.sum_range]
  unfold colSum
  refine Finset.sum_congr rfl fun t _ => ?_
  unfold tsum
  rw [dif_pos t.isLt]

theorem tile_sum (t : Fin cfg0.N) (j : Fin 64) :
    ∑ p : Fin 5000, tile V c t (ix2 p j) = tsum (Z V c) j t.val := by
  have ht := lt_ten t
  unfold tsum
  rw [dif_pos ht]
  exact Finset.sum_congr rfl fun p _ => tile_ix V c t p j _

theorem tile_sumsq (t : Fin cfg0.N) (j : Fin 64) :
    ∑ p : Fin 5000, tile V c t (ix2 p j) * tile V c t (ix2 p j) = tsum (fun i => Z V c i * Z V c i) j t.val := by
  have ht := lt_ten t
  unfold tsum
  rw [dif_pos ht]
  exact Finset.sum_congr rfl fun p _ => by rw [tile_ix V c t p j _]

/-- At the first point the rows are zeroed and then hold the first tile's sums. -/
theorem s_first (t : Fin cfg0.N) (h0 : t.val % 10 = 0) (j : Fin 64) :
    (outsAt0 V c t.val t.isLt).2.1 (ix2 0 j) = tsum (Z V c) j t.val
  ∧ (outsAt0 V c t.val t.isLt).2.2 (ix2 0 j) = tsum (fun i => Z V c i * Z V c i) j t.val := by
  have e5 : (outsAt0 V c t.val t.isLt).2.1 = k0_pay4 (F := Ideal) (iblk0 V c 2 t) (iblk0 V c 0 t) (iblk0 V c 1 t) (iblk0 V c 3 t) (k0_pay1 (F := Ideal)) := by
    rw [outsAt0_A V c t h0]
    dsimp only
    exact out_A_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk0 V c 0 t) (iblk0 V c 1 t) (iblk0 V c 2 t) (iblk0 V c 3 t)
  have e6 : (outsAt0 V c t.val t.isLt).2.2 = k0_pay5 (F := Ideal) (iblk0 V c 2 t) (iblk0 V c 0 t) (iblk0 V c 1 t) (iblk0 V c 3 t) (k0_pay2 (F := Ideal)) := by
    rw [outsAt0_A V c t h0]
    dsimp only
    exact out_A_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk0 V c 0 t) (iblk0 V c 1 t) (iblk0 V c 2 t) (iblk0 V c 3 t)
  constructor
  · refine (congrFun e5 (ix2 0 j)).trans ((pay4_ix (iblk0 V c 2 t) (iblk0 V c 0 t) (iblk0 V c 1 t) (iblk0 V c 3 t) (k0_pay1 (F := Ideal)) j).trans ?_)
    rw [pay1_ix, zero_add]
    exact tile_sum V c t j
  · refine (congrFun e6 (ix2 0 j)).trans ((pay5_ix (iblk0 V c 2 t) (iblk0 V c 0 t) (iblk0 V c 1 t) (iblk0 V c 3 t) (k0_pay2 (F := Ideal)) j).trans ?_)
    rw [pay2_ix, zero_add]
    exact tile_sumsq V c t j

/-- At a later point the rows hold what the point before left plus the point's tile sums. -/
theorem s_next (t : Fin cfg0.N) (h0 : ¬t.val % 10 = 0) (j : Fin 64) :
    (outsAt0 V c t.val t.isLt).2.1 (ix2 0 j) = (outsAt0 V c (t.val - 1) (Nat.lt_of_le_of_lt (Nat.sub_le _ _) t.isLt)).2.1 (ix2 0 j) + tsum (Z V c) j t.val
  ∧ (outsAt0 V c t.val t.isLt).2.2 (ix2 0 j) = (outsAt0 V c (t.val - 1) (Nat.lt_of_le_of_lt (Nat.sub_le _ _) t.isLt)).2.2 (ix2 0 j) + tsum (fun i => Z V c i * Z V c i) j t.val := by
  have e5 : (outsAt0 V c t.val t.isLt).2.1 = k0_pay4 (F := Ideal) (iblk0 V c 2 t) (iblk0 V c 0 t) (iblk0 V c 1 t) (iblk0 V c 3 t) (outsAt0 V c (t.val - 1) (Nat.lt_of_le_of_lt (Nat.sub_le _ _) t.isLt)).2.1 := by
    rw [outsAt0_B V c t h0]
    dsimp only
    exact out_B_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (iblk0 V c 0 t) (iblk0 V c 1 t) (iblk0 V c 2 t) (iblk0 V c 3 t) (outsAt0 V c (t.val - 1) (Nat.lt_of_le_of_lt (Nat.sub_le _ _) t.isLt)).2.1 (outsAt0 V c (t.val - 1) (Nat.lt_of_le_of_lt (Nat.sub_le _ _) t.isLt)).2.2
  have e6 : (outsAt0 V c t.val t.isLt).2.2 = k0_pay5 (F := Ideal) (iblk0 V c 2 t) (iblk0 V c 0 t) (iblk0 V c 1 t) (iblk0 V c 3 t) (outsAt0 V c (t.val - 1) (Nat.lt_of_le_of_lt (Nat.sub_le _ _) t.isLt)).2.2 := by
    rw [outsAt0_B V c t h0]
    dsimp only
    exact out_B_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (iblk0 V c 0 t) (iblk0 V c 1 t) (iblk0 V c 2 t) (iblk0 V c 3 t) (outsAt0 V c (t.val - 1) (Nat.lt_of_le_of_lt (Nat.sub_le _ _) t.isLt)).2.1 (outsAt0 V c (t.val - 1) (Nat.lt_of_le_of_lt (Nat.sub_le _ _) t.isLt)).2.2
  constructor
  · refine (congrFun e5 (ix2 0 j)).trans ((pay4_ix (iblk0 V c 2 t) (iblk0 V c 0 t) (iblk0 V c 1 t) (iblk0 V c 3 t) (outsAt0 V c (t.val - 1) (Nat.lt_of_le_of_lt (Nat.sub_le _ _) t.isLt)).2.1 j).trans ?_)
    rw [tile_sum V c t j]
  · refine (congrFun e6 (ix2 0 j)).trans ((pay5_ix (iblk0 V c 2 t) (iblk0 V c 0 t) (iblk0 V c 1 t) (iblk0 V c 3 t) (outsAt0 V c (t.val - 1) (Nat.lt_of_le_of_lt (Nat.sub_le _ _) t.isLt)).2.2 j).trans ?_)
    rw [tile_sumsq V c t j]

/-- After point `n` the rows hold the sums over tiles `0 … n`. -/
theorem stats_inv : ∀ (n : ℕ) (h : n < cfg0.N) (j : Fin 64),
    (outsAt0 V c n h).2.1 (ix2 0 j) = ∑ t ∈ Finset.range (n + 1), tsum (Z V c) j t
  ∧ (outsAt0 V c n h).2.2 (ix2 0 j) = ∑ t ∈ Finset.range (n + 1), tsum (fun i => Z V c i * Z V c i) j t
  | 0, h, j => by
    have e := s_first V c ⟨0, h⟩ rfl j
    rw [Finset.sum_range_one, Finset.sum_range_one]
    exact e
  | n + 1, h, j => by
    have hn : n + 1 < 10 := lt_ten ⟨n + 1, h⟩
    have hB : ¬(⟨n + 1, h⟩ : Fin cfg0.N).val % 10 = 0 := by dsimp only; omega
    have e := s_next V c ⟨n + 1, h⟩ hB j
    have ih := stats_inv n (Nat.lt_of_succ_lt h) j
    rw [Finset.sum_range_succ (fun t => tsum (Z V c) j t) (n + 1),
      Finset.sum_range_succ (fun t => tsum (fun i => Z V c i * Z V c i) j t) (n + 1), ← ih.1, ← ih.2]
    exact e

/-- After the last point the rows are the specification's tiled column sums. -/
theorem stats_last (h : 9 < cfg0.N) :
    (outsAt0 V c 9 h).2.1 = colSum (Z V c) ∧ (outsAt0 V c 9 h).2.2 = colSumSq (Z V c) := by
  constructor
  · funext y
    obtain ⟨i, j, rfl⟩ : ∃ (i : Fin 1) (j : Fin 64), y = ix2 i j := ⟨y 0, y 1, eq_ix2 y⟩
    obtain rfl : i = 0 := Subsingleton.elim _ _
    rw [colSum_eq]
    exact (stats_inv V c 9 h j).1
  · funext y
    obtain ⟨i, j, rfl⟩ : ∃ (i : Fin 1) (j : Fin 64), y = ix2 i j := ⟨y 0, y 1, eq_ix2 y⟩
    obtain rfl : i = 0 := Subsingleton.elim _ _
    show _ = colSum (fun i => Z V c i * Z V c i) (ix2 0 j)
    rw [colSum_eq]
    exact (stats_inv V c 9 h j).2

/-! ## From the blocks to the arrays -/

/-- Point `t` writes back block `t` of the product. -/
theorem flushed4 (t : Fin cfg0.N) :
    (dat0 V c).flushed 4 t = ((cfg0.win 4).blk t).view.read (Elt Ideal) (Z V c) := by
  obtain ⟨-, -, -, -, -, -, -, -, e0, e1, -⟩ := idx_facts t
  have ht := lt_ten t
  show (cfg0.win 4).cut (grid0.coords t) ((dat0 V c).after 4 t) = _
  rw [after0_4, outs4]
  funext y
  obtain ⟨p, j, rfl⟩ : ∃ (p : Fin 5000) (j : Fin 64), y = ix2 p j := ⟨y 0, y 1, eq_ix2 y⟩
  rw [View.read_apply]
  show tile V c t (ix2 p j) = Z V c (((cfg0.win 4).blk t).view.emb (ix2 p j))
  rw [tile_ix V c t p j (by have := p.isLt; omega)]
  congr 1
  funext a
  apply Fin.ext
  match a with
  | ⟨0, _⟩ => show 5000 * t.val + p.val = win0_4.index t 0 * 5000 + 1 * p.val; rw [e0]; omega
  | ⟨1, _⟩ => show j.val = win0_4.index t 1 * 64 + 1 * j.val; rw [e1]; omega

/-- Row `r` of the product lies in the block of point `r / 5000`. -/
theorem cover4 (i : S50000x64.Idx) :
    ∃ t : Fin cfg0.N, (cfg0.win 4).flush t = true ∧ i ∈ ((cfg0.win 4).blk t).view.set := by
  have hi0 : (i 0).val < 50000 := (i 0).isLt
  have hi1 : (i 1).val < 64 := (i 1).isLt
  have hN : grid0.N = 10 := N_0
  let t : Fin cfg0.N := ⟨(i 0).val / 5000, by show _ < grid0.N; rw [hN]; omega⟩
  obtain ⟨-, -, -, -, -, -, -, -, e0, e1, -⟩ := idx_facts t
  have e0' : win0_4.index t 0 = (i 0).val / 5000 := e0
  refine ⟨t, flush0_4 t, ?_⟩
  show i ∈ ((View.whole main_v20_0).slice (win0_4.rect t)).set
  rw [View.set_slice_whole, Rect.mem_set_unit]
  intro a
  match a with
  | ⟨0, _⟩ => show win0_4.index t 0 * 5000 ≤ (i 0).val ∧ (i 0).val < win0_4.index t 0 * 5000 + 5000
              rw [e0']; omega
  | ⟨1, _⟩ => show win0_4.index t 1 * 64 ≤ (i 1).val ∧ (i 1).val < win0_4.index t 1 * 64 + 64
              rw [e1]; omega

/-- The column-sum row is written back after the last point only; its one block is the whole row. -/
theorem flushed5 (t : Fin cfg0.N) (hf : (cfg0.win 5).flush t = true) :
    (dat0 V c).flushed 5 t = ((cfg0.win 5).blk t).view.read (Elt Ideal) (colSum (Z V c)) := by
  have ht := lt_ten t
  have h9 : t.val = 9 := by have := (flush0_5 t).mp hf; omega
  obtain ⟨-, -, -, -, -, -, -, -, -, -, e0, e1, -⟩ := idx_facts t
  show (cfg0.win 5).cut (grid0.coords t) ((dat0 V c).after 5 t) = _
  rw [after0_5]
  funext y
  rw [View.read_apply]
  show (outsAt0 V c t.val t.isLt).2.1 y = colSum (Z V c) (((cfg0.win 5).blk t).view.emb y)
  have hemb : ((cfg0.win 5).blk t).view.emb y = y := by
    funext a
    apply Fin.ext
    match a with
    | ⟨0, _⟩ => show win0_5.index t 0 * 1 + 1 * (y 0).val = (y 0).val; rw [e0]; omega
    | ⟨1, _⟩ => show win0_5.index t 1 * 64 + 1 * (y 1).val = (y 1).val; rw [e1]; omega
  rw [hemb]
  have key : ∀ (n : ℕ) (h : n < cfg0.N), n = 9 → (outsAt0 V c n h).2.1 = colSum (Z V c) := by
    intro n h e
    subst e
    exact (stats_last V c h).1
  exact congrFun (key t.val t.isLt h9) y

/-- The last point's block covers the row. -/
theorem cover5 (i : S1x64.Idx) :
    ∃ t : Fin cfg0.N, (cfg0.win 5).flush t = true ∧ i ∈ ((cfg0.win 5).blk t).view.set := by
  have hi0 : (i 0).val < 1 := (i 0).isLt
  have hi1 : (i 1).val < 64 := (i 1).isLt
  obtain ⟨-, -, -, -, -, -, -, -, -, -, e0, e1, -⟩ := idx_facts t0_9
  refine ⟨t0_9, (flush0_5 t0_9).mpr rfl, ?_⟩
  show i ∈ ((View.whole main_v20_1).slice (win0_5.rect t0_9)).set
  rw [View.set_slice_whole, Rect.mem_set_unit]
  intro a
  match a with
  | ⟨0, _⟩ => show win0_5.index t0_9 0 * 1 ≤ (i 0).val ∧ (i 0).val < win0_5.index t0_9 0 * 1 + 1
              rw [e0]; omega
  | ⟨1, _⟩ => show win0_5.index t0_9 1 * 64 ≤ (i 1).val ∧ (i 1).val < win0_5.index t0_9 1 * 64 + 64
              rw [e1]; omega

/-- The sum-of-squares row is written back after the last point only; its one block is the whole row. -/
theorem flushed6 (t : Fin cfg0.N) (hf : (cfg0.win 6).flush t = true) :
    (dat0 V c).flushed 6 t = ((cfg0.win 6).blk t).view.read (Elt Ideal) (colSumSq (Z V c)) := by
  have ht := lt_ten t
  have h9 : t.val = 9 := by have := (flush0_6 t).mp hf; omega
  obtain ⟨-, -, -, -, -, -, -, -, -, -, -, -, e0, e1⟩ := idx_facts t
  show (cfg0.win 6).cut (grid0.coords t) ((dat0 V c).after 6 t) = _
  rw [after0_6]
  funext y
  rw [View.read_apply]
  show (outsAt0 V c t.val t.isLt).2.2 y = colSumSq (Z V c) (((cfg0.win 6).blk t).view.emb y)
  have hemb : ((cfg0.win 6).blk t).view.emb y = y := by
    funext a
    apply Fin.ext
    match a with
    | ⟨0, _⟩ => show win0_6.index t 0 * 1 + 1 * (y 0).val = (y 0).val; rw [e0]; omega
    | ⟨1, _⟩ => show win0_6.index t 1 * 64 + 1 * (y 1).val = (y 1).val; rw [e1]; omega
  rw [hemb]
  have key : ∀ (n : ℕ) (h : n < cfg0.N), n = 9 → (outsAt0 V c n h).2.2 = colSumSq (Z V c) := by
    intro n h e
    subst e
    exact (stats_last V c h).2
  exact congrFun (key t.val t.isLt h9) y

/-- The last point's block covers the row. -/
theorem cover6 (i : S1x64.Idx) :
    ∃ t : Fin cfg0.N, (cfg0.win 6).flush t = true ∧ i ∈ ((cfg0.win 6).blk t).view.set := by
  have hi0 : (i 0).val < 1 := (i 0).isLt
  have hi1 : (i 1).val < 64 := (i 1).isLt
  obtain ⟨-, -, -, -, -, -, -, -, -, -, -, -, e0, e1⟩ := idx_facts t0_9
  refine ⟨t0_9, (flush0_6 t0_9).mpr rfl, ?_⟩
  show i ∈ ((View.whole main_v20_2).slice (win0_6.rect t0_9)).set
  rw [View.set_slice_whole, Rect.mem_set_unit]
  intro a
  match a with
  | ⟨0, _⟩ => show win0_6.index t0_9 0 * 1 ≤ (i 0).val ∧ (i 0).val < win0_6.index t0_9 0 * 1 + 1
              rw [e0]; omega
  | ⟨1, _⟩ => show win0_6.index t0_9 1 * 64 ≤ (i 1).val ∧ (i 1).val < win0_6.index t0_9 1 * 64 + 64
              rw [e1]; omega

/-! ## The three arrays after the region -/

/-- The product array ends as the product. -/
theorem z : (dat0 (F := Ideal) V c).arrAt 4 cfg0.N = mm (comb (V c (Pipeline.arrRef spec0 2) : Mat 1 1) (V c (Pipeline.arrRef spec0 0) : Mat 50000 128) (V c (Pipeline.arrRef spec0 1) : Mat 50000 128)) (V c (Pipeline.arrRef spec0 3) : Mat 128 64) :=
  (dat0 V c).arrAt_eq_of_cover 4 (Z V c) (fun t _ => flushed4 V c t) cover4

/-- The column-sum row ends as the tiled column sums of the product. -/
theorem s : (dat0 (F := Ideal) V c).arrAt 5 cfg0.N = colSum (mm (comb (V c (Pipeline.arrRef spec0 2) : Mat 1 1) (V c (Pipeline.arrRef spec0 0) : Mat 50000 128) (V c (Pipeline.arrRef spec0 1) : Mat 50000 128)) (V c (Pipeline.arrRef spec0 3) : Mat 128 64)) :=
  (dat0 V c).arrAt_eq_of_cover 5 (colSum (Z V c)) (flushed5 V c) cover5

/-- The sum-of-squares row ends as the tiled column sums of the product's squares. -/
theorem ss : (dat0 (F := Ideal) V c).arrAt 6 cfg0.N = colSumSq (mm (comb (V c (Pipeline.arrRef spec0 2) : Mat 1 1) (V c (Pipeline.arrRef spec0 0) : Mat 50000 128) (V c (Pipeline.arrRef spec0 1) : Mat 50000 128)) (V c (Pipeline.arrRef spec0 3) : Mat 128 64)) :=
  (dat0 V c).arrAt_eq_of_cover 6 (colSumSq (Z V c)) (flushed6 V c) cover6

end Cert.GIN.Reg0

end
-- ==== Proof.Reg1.lean ====
/-
  Region 1: the normalisation-and-rectifier map on a matrix of 50000 rows and 64 columns.

  The region visits ten grid points.  At point `t` it reads rows `5000·t … 5000·t + 4999` of the matrix `z` and the
  whole of the four rows `mean`, `var`, `γ`, `β` (each `[1, 64]`, the same block at every point), and writes the same
  rows of the output.  Entry `(p, q)` of what it writes is
  `max (γ q · (z (5000·t + p, q) − mean q) · rsqrt (var q + eps) + β q) 0`: each row vector is read at column `q` of
  its one row, whatever `p` is.  So the block point `t` writes is block `t` of ONE function of the five arrays,
  `normRelu z mean var γ β eps`, and since the ten blocks cover all 50000 rows (row `r` lies in block `r / 5000`),
  the output array ends holding that function.
-/
import proofs.«177653_j8959301779747_1_alg».proof.Proof.Spec
import proofs.«177653_j8959301779747_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

noncomputable section

namespace Cert.GIN.Reg1

open Cert.KernelIdeal Cert.KernelIdeal.Gen Cert.GIN
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The zero offsets of a block read or written whole. -/
theorem hz : (![0, 0] : Fin 2 → Nat) = fun _ => 0 := funext fun a => by fin_cases a <;> rfl

/-- The body's arithmetic at entry `(p, q)` of a block: the row vectors are read at column `q` of their one row, the
    rectifier's zero word is the number zero. -/
theorem pay_apply (x0 : Vec Ideal S5000x64 .f32) (x1 x2 x3 x4 : Vec Ideal S1x64 .f32) (p : Fin 5000) (q : Fin 64) :
    k1_pay1 x0 x1 x2 x3 x4 (ix2 p q)
      = max (x3 (ix2 0 q) * (x0 (ix2 p q) - x1 (ix2 0 q)) * Ideal.rsqrt (x2 (ix2 0 q) + Ideal.ofBits .f32 0x3727C5AC#32)
          + x4 (ix2 0 q)) 0 := by
  unfold k1_pay1
  simp only [shapeCast_self]
  rw [maximumf_apply, addf_apply, mulf_apply, mulf_apply, subf_apply, broadcast_apply,
    broadcastTo_1b_ab_apply, broadcastTo_1b_ab_apply, broadcastTo_1b_ab_apply, broadcastTo_1b_ab_apply]
  show max (x3 (ix2 0 q) * (x0 (ix2 p q) - x1 (ix2 0 q)) * Ideal.rsqrt (x2 (ix2 0 q) + Ideal.ofBits .f32 0x3727C5AC#32)
      + x4 (ix2 0 q)) (Ideal.ofBits .f32 0x00000000#32) = _
  rw [Ideal.ofBits_zero_f32]

/-- The same at any index of the block. -/
theorem pay_at (x0 : Vec Ideal S5000x64 .f32) (x1 x2 x3 x4 : Vec Ideal S1x64 .f32) (j : S5000x64.Idx) :
    k1_pay1 x0 x1 x2 x3 x4 j
      = max (x3 (ix2 0 (j 1)) * (x0 j - x1 (ix2 0 (j 1))) * Ideal.rsqrt (x2 (ix2 0 (j 1)) + Ideal.ofBits .f32 0x3727C5AC#32)
          + x4 (ix2 0 (j 1))) 0 := by
  obtain ⟨p, q, rfl⟩ : ∃ (p : Fin 5000) (q : Fin 64), j = ix2 p q := ⟨j 0, j 1, eq_ix2 j⟩
  exact pay_apply x0 x1 x2 x3 x4 p q

/-- The block indices, decided over the ten grid points: the matrix and the output move together down the rows, one
    block per point; the four row vectors stay at their one block. -/
theorem idx_facts : ∀ t : Fin cfg1.N,
    win1_5.index t (0 : Fin 2) = t.val ∧ win1_5.index t (1 : Fin 2) = 0
    ∧ win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0 :=
  (by decide +kernel : ∀ t : Fin grid1.N, _)

/-- THE BLOCK EQUATION at a symbolic grid point `t`: the body's arithmetic on the five blocks at `t` is block `t` of
    `normRelu` of the five arrays.  Entry `j` of the block of `z` and of the output sit at the same place of their
    arrays (row `5000·t + j 0`, column `j 1`), and entry `(0, j 1)` of each row vector's one block is entry `(0, j 1)`
    of the row vector. -/
theorem block_eq (t : Fin cfg1.N) (z : Mat 50000 64) (mean var γ β : Mat 1 64) :
    k1_pay1 (((cfg1.win 0).blk t).view.read (Elt Ideal) z) (((cfg1.win 1).blk t).view.read (Elt Ideal) mean)
        (((cfg1.win 2).blk t).view.read (Elt Ideal) var) (((cfg1.win 3).blk t).view.read (Elt Ideal) γ)
        (((cfg1.win 4).blk t).view.read (Elt Ideal) β)
      = ((cfg1.win 5).blk t).view.read (Elt Ideal) (normRelu z mean var γ β (Ideal.ofBits .f32 0x3727C5AC#32)) := by
  obtain ⟨e50, e51, e00, e01, e10, e11, e20, e21, e30, e31, e40, e41⟩ := idx_facts t
  funext j
  refine (pay_at _ _ _ _ _ j).trans ?_
  have h0 : ((cfg1.win 0).blk t).view.emb j = ((cfg1.win 5).blk t).view.emb j := by
    funext a; apply Fin.ext
    match a with
    | ⟨0, _⟩ => show win1_0.index t (0 : Fin 2) * 5000 + 1 * (j 0).val = win1_5.index t (0 : Fin 2) * 5000 + 1 * (j 0).val; rw [e00, e50]
    | ⟨1, _⟩ => show win1_0.index t (1 : Fin 2) * 64 + 1 * (j 1).val = win1_5.index t (1 : Fin 2) * 64 + 1 * (j 1).val; rw [e01, e51]
  have h1 : ((cfg1.win 1).blk t).view.emb (ix2 0 (j 1)) = (ix2 (0 : Fin 1) ((((cfg1.win 5).blk t).view.emb j) 1) : S1x64.Idx) := by
    funext a; apply Fin.ext
    match a with
    | ⟨0, _⟩ => show win1_1.index t (0 : Fin 2) * 1 + 1 * 0 = 0; rw [e10]
    | ⟨1, _⟩ => show win1_1.index t (1 : Fin 2) * 64 + 1 * (j 1).val = win1_5.index t (1 : Fin 2) * 64 + 1 * (j 1).val; rw [e11, e51]
  have h2 : ((cfg1.win 2).blk t).view.emb (ix2 0 (j 1)) = (ix2 (0 : Fin 1) ((((cfg1.win 5).blk t).view.emb j) 1) : S1x64.Idx) := by
    funext a; apply Fin.ext
    match a with
    | ⟨0, _⟩ => show win1_2.index t (0 : Fin 2) * 1 + 1 * 0 = 0; rw [e20]
    | ⟨1, _⟩ => show win1_2.index t (1 : Fin 2) * 64 + 1 * (j 1).val = win1_5.index t (1 : Fin 2) * 64 + 1 * (j 1).val; rw [e21, e51]
  have h3 : ((cfg1.win 3).blk t).view.emb (ix2 0 (j 1)) = (ix2 (0 : Fin 1) ((((cfg1.win 5).blk t).view.emb j) 1) : S1x64.Idx) := by
    funext a; apply Fin.ext
    match a with
    | ⟨0, _⟩ => show win1_3.index t (0 : Fin 2) * 1 + 1 * 0 = 0; rw [e30]
    | ⟨1, _⟩ => show win1_3.index t (1 : Fin 2) * 64 + 1 * (j 1).val = win1_5.index t (1 : Fin 2) * 64 + 1 * (j 1).val; rw [e31, e51]
  have h4 : ((cfg1.win 4).blk t).view.emb (ix2 0 (j 1)) = (ix2 (0 : Fin 1) ((((cfg1.win 5).blk t).view.emb j) 1) : S1x64.Idx) := by
    funext a; apply Fin.ext
    match a with
    | ⟨0, _⟩ => show win1_4.index t (0 : Fin 2) * 1 + 1 * 0 = 0; rw [e40]
    | ⟨1, _⟩ => show win1_4.index t (1 : Fin 2) * 64 + 1 * (j 1).val = win1_5.index t (1 : Fin 2) * 64 + 1 * (j 1).val; rw [e41, e51]
  show max (γ (((cfg1.win 3).blk t).view.emb (ix2 0 (j 1)))
        * (z (((cfg1.win 0).blk t).view.emb j) - mean (((cfg1.win 1).blk t).view.emb (ix2 0 (j 1))))
        * Ideal.rsqrt (var (((cfg1.win 2).blk t).view.emb (ix2 0 (j 1))) + Ideal.ofBits .f32 0x3727C5AC#32)
      + β (((cfg1.win 4).blk t).view.emb (ix2 0 (j 1)))) 0
    = normRelu z mean var γ β (Ideal.ofBits .f32 0x3727C5AC#32) (((cfg1.win 5).blk t).view.emb j)
  rw [h0, h1, h2, h3, h4]
  rfl

/-- An index of the output array is in point `t`'s block iff each coordinate is in the block's range on its axis. -/
theorem mem_blk (t : Fin cfg1.N) (i : S50000x64.Idx) :
    i ∈ ((cfg1.win 5).blk t).view.set ↔ ∀ a : Fin 2, win1_5.index t a * S5000x64.size a ≤ (i a).val
      ∧ (i a).val < win1_5.index t a * S5000x64.size a + S5000x64.size a := by
  show i ∈ ((View.whole main_v33).slice (win1_5.rect t)).set ↔ _
  rw [View.set_slice_whole, Rect.mem_set_unit]
  exact Iff.rfl

/-- THE COVER: row `r` of the output lies in the block of grid point `r / 5000`, which writes its block back. -/
theorem cover (i : S50000x64.Idx) :
    ∃ t : Fin cfg1.N, (cfg1.win 5).flush t = true ∧ i ∈ ((cfg1.win 5).blk t).view.set := by
  have hi0 : (i 0).val < 50000 := (i 0).isLt
  have hi1 : (i 1).val < 64 := (i 1).isLt
  have hN : cfg1.N = 10 := N_1
  have ht : (i 0).val / 5000 < cfg1.N := by rw [hN]; omega
  obtain ⟨e50, e51, -⟩ := idx_facts ⟨(i 0).val / 5000, ht⟩
  refine ⟨⟨(i 0).val / 5000, ht⟩, flush1_5 _, ?_⟩
  rw [mem_blk]
  intro a
  match a with
  | ⟨0, _⟩ =>
    show win1_5.index ⟨(i 0).val / 5000, ht⟩ (0 : Fin 2) * 5000 ≤ (i 0).val
      ∧ (i 0).val < win1_5.index ⟨(i 0).val / 5000, ht⟩ (0 : Fin 2) * 5000 + 5000
    rw [e50]
    show (i 0).val / 5000 * 5000 ≤ (i 0).val ∧ (i 0).val < (i 0).val / 5000 * 5000 + 5000
    omega
  | ⟨1, _⟩ =>
    show win1_5.index ⟨(i 0).val / 5000, ht⟩ (1 : Fin 2) * 64 ≤ (i 1).val
      ∧ (i 1).val < win1_5.index ⟨(i 0).val / 5000, ht⟩ (1 : Fin 2) * 64 + 64
    rw [e51]
    omega

/-- WHAT POINT `t` WRITES BACK is block `t` of `normRelu` of the five arrays as the region finds them: the body's one
    store fills the whole staging buffer with its arithmetic on the five blocks at `t`. -/
theorem flushed_eq (c : Dev nD) (t : Fin cfg1.N) :
    (dat1 (F := Ideal) V c).flushed 5 t = ((cfg1.win 5).blk t).view.read (Elt Ideal)
      (normRelu (n := 50000) (d := 64) (V c (Pipeline.arrRef spec1 0)) (V c (Pipeline.arrRef spec1 1))
        (V c (Pipeline.arrRef spec1 2)) (V c (Pipeline.arrRef spec1 3)) (V c (Pipeline.arrRef spec1 4))
        (Ideal.ofBits .f32 0x3727C5AC#32)) := by
  show (cfg1.win 5).cut (grid1.coords t) ((dat1 (F := Ideal) V c).after 5 t) = _
  rw [after1_5]
  unfold out1_5
  rw [View.canon_unit_zero hz]
  simp only [View.ld_unit_zero (S := S5000x64) hz, View.ld_unit_zero (S := S1x64) hz]
  unfold iblk1
  exact block_eq t (V c (Pipeline.arrRef spec1 0)) (V c (Pipeline.arrRef spec1 1)) (V c (Pipeline.arrRef spec1 2))
    (V c (Pipeline.arrRef spec1 3)) (V c (Pipeline.arrRef spec1 4))

/-- THE OUTPUT ARRAY after the region: `normRelu` of the five arrays as the region finds them. -/
theorem out (c : Dev nD) :
    (dat1 (F := Ideal) V c).arrAt 5 cfg1.N
      = normRelu (n := 50000) (d := 64) (V c (Pipeline.arrRef spec1 0)) (V c (Pipeline.arrRef spec1 1))
          (V c (Pipeline.arrRef spec1 2)) (V c (Pipeline.arrRef spec1 3)) (V c (Pipeline.arrRef spec1 4))
          (Ideal.ofBits .f32 0x3727C5AC#32) :=
  (dat1 (F := Ideal) V c).arrAt_eq_of_cover 5 _ (fun t _ => flushed_eq V c t) cover

end Cert.GIN.Reg1

end
-- ==== Proof.Reg2Pay.lean ====
/-
  Region 2 (the second dense layer's product with its batch statistics), the arithmetic of one grid point at the
  ideal instance, entry by entry.

  The body forms the product block `z_t = h_t · w` of the point's 5000-row block of `h` with the whole of `w`
  (a product into a zero accumulator; the change of float format before it is the identity on extended reals),
  and adds to each of the two statistics rows the column sums of `z_t`, respectively of its squares: at column
  `j` the row holding `v` becomes `v j + Σ_p z_t (p, j)`, respectively `v j + Σ_p z_t (p, j)²`.  The rows a
  first point starts from are zero.
-/
import proofs.«177653_j8959301779747_1_alg».proof.Proof.LibPlainDot
import proofs.«177653_j8959301779747_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.ValueIdx

namespace Cert.GIN.Reg2
open Cert.KernelIdeal Cert.KernelIdeal.Gen

/-- The product block at entry `(p, j)`: the sum over the 64 contracted columns. -/
theorem pay3_apply (x0 : Vec Ideal S5000x64 .f32) (x1 : Vec Ideal S64x128 .f32) (p : Fin 5000) (j : Fin 128) :
    k2_pay3 (F := Ideal) x0 x1 (ix2 p j) = ∑ q : Fin 64, x0 (ix2 p q) * x1 (ix2 q j) := by
  unfold k2_pay3
  refine (Cert.PlainDot.matmul_zero_ix2 dot_S5000x64_S64x128_S5000x128_1_0_0_1_n_n rfl none _ _ p j).trans ?_
  refine Finset.sum_congr rfl fun q _ => ?_
  rw [truncf_apply, truncf_apply, shapeCast_self, shapeCast_self]

/-- Column `j` of the reduced row, with row `k` inserted on the summed axis, is entry `(k, j)` of the block. -/
theorem lift_eq (j : Fin 128) (k : Fin 5000) : reduces_S5000x128_S128.lift (ix1 j) k = ix2 k j := by
  funext a
  apply Fin.ext
  match a with
  | ⟨0, _⟩ => rfl
  | ⟨1, _⟩ => rfl

/-- The sum of a 5000×128 block over its rows, kept as a 1×128 row: at column `j` the sum of the block's column `j`. -/
theorem rowsum_apply (src : FVec Ideal S5000x128 .f32) (j : Fin 128) :
    shapeCast S1x128 (multiReduction (F := Ideal) .add [0] S128 src 0x00000000#32 reduces_S5000x128_S128 (.inl rfl) rfl)
        shapeCasts_S128_S1x128 (ix2 0 j)
      = ∑ p : Fin 5000, src (ix2 p j) := by
  refine (shapeCast_apply _ shapeCasts_S128_S1x128 (ix2 0 j) (ix1 j) ?_).trans ?_
  · rw [Shape.rowMajor_val_two, Shape.rowMajor_val_one]; show j.val = 0 * 128 + j.val; omega
  refine (Ideal.multiReduction_add_single src 0x00000000#32 reduces_S5000x128_S128 (.inl rfl) rfl (ix1 j)).trans ?_
  exact Finset.sum_congr rfl fun p _ => congrArg src (lift_eq j p)

/-- The first statistics row after a point that found it holding `v`: `v j` plus column `j`'s sum of the product block. -/
theorem pay4_apply (x0 : Vec Ideal S5000x64 .f32) (x1 : Vec Ideal S64x128 .f32) (v : Vec Ideal S1x128 .f32) (j : Fin 128) :
    k2_pay4 (F := Ideal) x0 x1 v (ix2 0 j) = v (ix2 0 j) + ∑ p : Fin 5000, k2_pay3 (F := Ideal) x0 x1 (ix2 p j) := by
  unfold k2_pay4
  refine (addf_apply _ _ _).trans ?_
  rw [shapeCast_self]
  exact congrArg (v (ix2 0 j) + ·) (rowsum_apply _ j)

/-- The second statistics row likewise, with the squares of the product block's entries. -/
theorem pay5_apply (x0 : Vec Ideal S5000x64 .f32) (x1 : Vec Ideal S64x128 .f32) (v : Vec Ideal S1x128 .f32) (j : Fin 128) :
    k2_pay5 (F := Ideal) x0 x1 v (ix2 0 j)
      = v (ix2 0 j) + ∑ p : Fin 5000, k2_pay3 (F := Ideal) x0 x1 (ix2 p j) * k2_pay3 (F := Ideal) x0 x1 (ix2 p j) := by
  unfold k2_pay5
  refine (addf_apply _ _ _).trans ?_
  rw [shapeCast_self]
  exact congrArg (v (ix2 0 j) + ·) (rowsum_apply _ j)

/-- The row the first point stores into the first statistics row before accumulating: zero. -/
theorem pay1_apply (i : S1x128.Idx) : k2_pay1 (F := Ideal) i = 0 := by
  unfold k2_pay1
  show Ideal.ofBits .f32 0x00000000#32 = 0
  exact Ideal.ofBits_zero_f32

/-- And into the second: zero. -/
theorem pay2_apply (i : S1x128.Idx) : k2_pay2 (F := Ideal) i = 0 := by
  unfold k2_pay2
  show Ideal.ofBits .f32 0x00000000#32 = 0
  exact Ideal.ofBits_zero_f32

end Cert.GIN.Reg2

end
-- ==== Proof.Reg2Pieces.lean ====
/-
  Region 2, what one run of the body leaves in each output's staging buffer, as values of the body's arithmetic.

  At a first point (the condition holds) the body zeroes both statistics rows, stores the product block, and then
  replaces each statistics row by the row plus the block's column sums (of the entries, of their squares): what
  it leaves are the product payload and the two accumulation payloads applied to the zero rows.  At any other point
  the same, applied to the rows the point before left.  Each output's pieces are whole-buffer stores, so the last
  store's payload is what the buffer holds; a row read back after the zeroing store reads that store's payload.
-/
import proofs.«177653_j8959301779747_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.GIN.Reg2
open Cert.KernelIdeal Cert.KernelIdeal.Gen

variable {F : FTy → Type} [FloatOps F]

theorem hz : (![0, 0] : Fin 2 → Nat) = fun _ => 0 := funext fun a => by fin_cases a <;> rfl

/-- Any other point, the product output: the product payload of the two input blocks. -/
theorem out_B_2 (c : Dev nD) (i : grid2.Coords) (a1 : Memref sig .tc .vmem S5000x64 .f32) (h1 : a1.IsWhole)
    (a2 : Memref sig .tc .vmem S64x128 .f32) (h2 : a2.IsWhole) (a3 : Memref sig .tc .vmem S5000x128 .f32) (h3 : a3.IsWhole)
    (a4 : Memref sig .tc .vmem S1x128 .f32) (h4 : a4.IsWhole) (a5 : Memref sig .tc .vmem S1x128 .f32) (h5 : a5.IsWhole)
    (hc : ¬cond2_0 i) (x0 : Vec F S5000x64 .f32) (x1 : Vec F S64x128 .f32) (xo3 xo4 : Vec F S1x128 .f32) :
    out2_B_2 c i a1 h1 a2 h2 a3 h3 a4 h4 a5 h5 hc x0 x1 xo3 xo4 = k2_pay3 x0 x1 := by
  unfold out2_B_2
  rw [View.read_writes_eq_canon _ _ _ (cover2_B_2 c i a1 h1 a2 h2 a3 h3 a4 h4 a5 h5 hc x0 x1 xo3 xo4)]
  unfold kernelRun2_B
  dsimp only
  sl_unfold_words
  rw [View.canon_unit_zero hz]
  simp only [View.readAt_eq_ld, h1.read_unread, h2.read_unread, View.ld_unit_zero (S := S5000x64) hz,
    View.ld_unit_zero (S := S64x128) hz]

/-- Any other point, the first statistics row: the accumulation payload of the row the point before left. -/
theorem out_B_3 (c : Dev nD) (i : grid2.Coords) (a1 : Memref sig .tc .vmem S5000x64 .f32) (h1 : a1.IsWhole)
    (a2 : Memref sig .tc .vmem S64x128 .f32) (h2 : a2.IsWhole) (a3 : Memref sig .tc .vmem S5000x128 .f32) (h3 : a3.IsWhole)
    (a4 : Memref sig .tc .vmem S1x128 .f32) (h4 : a4.IsWhole) (a5 : Memref sig .tc .vmem S1x128 .f32) (h5 : a5.IsWhole)
    (hc : ¬cond2_0 i) (x0 : Vec F S5000x64 .f32) (x1 : Vec F S64x128 .f32) (xo3 xo4 : Vec F S1x128 .f32) :
    out2_B_3 c i a1 h1 a2 h2 a3 h3 a4 h4 a5 h5 hc x0 x1 xo3 xo4 = k2_pay4 x0 x1 xo3 := by
  unfold out2_B_3
  rw [View.read_writes_eq_canon _ _ _ (cover2_B_3 c i a1 h1 a2 h2 a3 h3 a4 h4 a5 h5 hc x0 x1 xo3 xo4)]
  unfold kernelRun2_B
  dsimp only
  sl_unfold_words
  rw [View.canon_unit_zero hz]
  simp only [View.readAt_eq_ld, h1.read_unread, h2.read_unread, h4.read_unread, View.ld_unit_zero (S := S5000x64) hz,
    View.ld_unit_zero (S := S64x128) hz, View.ld_unit_zero (S := S1x128) hz]

/-- Any other point, the second statistics row. -/
theorem out_B_4 (c : Dev nD) (i : grid2.Coords) (a1 : Memref sig .tc .vmem S5000x64 .f32) (h1 : a1.IsWhole)
    (a2 : Memref sig .tc .vmem S64x128 .f32) (h2 : a2.IsWhole) (a3 : Memref sig .tc .vmem S5000x128 .f32) (h3 : a3.IsWhole)
    (a4 : Memref sig .tc .vmem S1x128 .f32) (h4 : a4.IsWhole) (a5 : Memref sig .tc .vmem S1x128 .f32) (h5 : a5.IsWhole)
    (hc : ¬cond2_0 i) (x0 : Vec F S5000x64 .f32) (x1 : Vec F S64x128 .f32) (xo3 xo4 : Vec F S1x128 .f32) :
    out2_B_4 c i a1 h1 a2 h2 a3 h3 a4 h4 a5 h5 hc x0 x1 xo3 xo4 = k2_pay5 x0 x1 xo4 := by
  unfold out2_B_4
  rw [View.read_writes_eq_canon _ _ _ (cover2_B_4 c i a1 h1 a2 h2 a3 h3 a4 h4 a5 h5 hc x0 x1 xo3 xo4)]
  unfold kernelRun2_B
  dsimp only
  sl_unfold_words
  rw [View.canon_unit_zero hz]
  simp only [View.readAt_eq_ld, h1.read_unread, h2.read_unread, h5.read_unread, View.ld_unit_zero (S := S5000x64) hz,
    View.ld_unit_zero (S := S64x128) hz, View.ld_unit_zero (S := S1x128) hz]

/-- A first point, the product output. -/
theorem out_A_2 (c : Dev nD) (i : grid2.Coords) (a1 : Memref sig .tc .vmem S5000x64 .f32) (h1 : a1.IsWhole)
    (a2 : Memref sig .tc .vmem S64x128 .f32) (h2 : a2.IsWhole) (a3 : Memref sig .tc .vmem S5000x128 .f32) (h3 : a3.IsWhole)
    (a4 : Memref sig .tc .vmem S1x128 .f32) (h4 : a4.IsWhole) (a5 : Memref sig .tc .vmem S1x128 .f32) (h5 : a5.IsWhole)
    (hc : cond2_0 i) (x0 : Vec F S5000x64 .f32) (x1 : Vec F S64x128 .f32) :
    out2_A_2 c i a1 h1 a2 h2 a3 h3 a4 h4 a5 h5 hc x0 x1 = k2_pay3 x0 x1 := by
  unfold out2_A_2
  rw [View.read_writes_eq_canon _ _ _ (cover2_A_2 c i a1 h1 a2 h2 a3 h3 a4 h4 a5 h5 hc x0 x1)]
  unfold kernelRun2_A
  dsimp only
  sl_unfold_words
  rw [View.canon_unit_zero hz]
  simp only [View.readAt_eq_ld, h1.read_unread, h2.read_unread, View.ld_unit_zero (S := S5000x64) hz,
    View.ld_unit_zero (S := S64x128) hz]

/-- A first point, the first statistics row: the accumulation payload of the zero row just stored. -/
theorem out_A_3 (c : Dev nD) (i : grid2.Coords) (a1 : Memref sig .tc .vmem S5000x64 .f32) (h1 : a1.IsWhole)
    (a2 : Memref sig .tc .vmem S64x128 .f32) (h2 : a2.IsWhole) (a3 : Memref sig .tc .vmem S5000x128 .f32) (h3 : a3.IsWhole)
    (a4 : Memref sig .tc .vmem S1x128 .f32) (h4 : a4.IsWhole) (a5 : Memref sig .tc .vmem S1x128 .f32) (h5 : a5.IsWhole)
    (hc : cond2_0 i) (x0 : Vec F S5000x64 .f32) (x1 : Vec F S64x128 .f32) :
    out2_A_3 c i a1 h1 a2 h2 a3 h3 a4 h4 a5 h5 hc x0 x1 = k2_pay4 x0 x1 k2_pay1 := by
  unfold out2_A_3
  rw [View.read_writes_eq_canon _ _ _ (cover2_A_3 c i a1 h1 a2 h2 a3 h3 a4 h4 a5 h5 hc x0 x1)]
  unfold kernelRun2_A
  dsimp only
  sl_unfold_words
  rw [View.canon_cons_unit_zero (S := S1x128) hz, View.readCov_unit_zero (S := S1x128) _ hz]
  simp only [View.readAt_eq_ld, h1.read_unread, h2.read_unread, View.ld_unit_zero (S := S5000x64) hz,
    View.ld_unit_zero (S := S64x128) hz]

/-- A first point, the second statistics row. -/
theorem out_A_4 (c : Dev nD) (i : grid2.Coords) (a1 : Memref sig .tc .vmem S5000x64 .f32) (h1 : a1.IsWhole)
    (a2 : Memref sig .tc .vmem S64x128 .f32) (h2 : a2.IsWhole) (a3 : Memref sig .tc .vmem S5000x128 .f32) (h3 : a3.IsWhole)
    (a4 : Memref sig .tc .vmem S1x128 .f32) (h4 : a4.IsWhole) (a5 : Memref sig .tc .vmem S1x128 .f32) (h5 : a5.IsWhole)
    (hc : cond2_0 i) (x0 : Vec F S5000x64 .f32) (x1 : Vec F S64x128 .f32) :
    out2_A_4 c i a1 h1 a2 h2 a3 h3 a4 h4 a5 h5 hc x0 x1 = k2_pay5 x0 x1 k2_pay2 := by
  unfold out2_A_4
  rw [View.read_writes_eq_canon _ _ _ (cover2_A_4 c i a1 h1 a2 h2 a3 h3 a4 h4 a5 h5 hc x0 x1)]
  unfold kernelRun2_A
  dsimp only
  sl_unfold_words
  rw [View.canon_cons_unit_zero (S := S1x128) hz, View.readCov_unit_zero (S := S1x128) _ hz]
  simp only [View.readAt_eq_ld, h1.read_unread, h2.read_unread, View.ld_unit_zero (S := S5000x64) hz,
    View.ld_unit_zero (S := S64x128) hz]

end Cert.GIN.Reg2

end
-- ==== Proof.Reg2.lean ====
/-
  Region 2 (the second dense layer's product with its batch statistics) at the ideal instance: its three result
  arrays as whole-array functions of the two operand arrays `h` [50000, 64] and `w` [64, 128] the region finds.

  The grid has ten points; point `t` reads rows `5000 t … 5000 t + 4999` of `h` and all of `w`, and writes the
  same rows of the product `z = h · w`: the ten blocks tile the rows (row `r` belongs to point `r / 5000`), so the
  product array ends holding `mm h w`.  The two statistics rows have one block that never moves and is written
  back after the last point only; the first point zeroes them and every point adds its tile's column sums, so
  after point `n` they hold the sums over tiles `0 … n` of the tile's column sums (of `z`, of its squares) — by
  induction on the point — and after the last point the tiled column sums `colSum z`, `colSumSq z`.
-/
import proofs.«177653_j8959301779747_1_alg».proof.Proof.Spec
import proofs.«177653_j8959301779747_1_alg».proof.Proof.Reg2Pay
import proofs.«177653_j8959301779747_1_alg».proof.Proof.Reg2Pieces
import proofs.«177653_j8959301779747_1_alg».proof.Proof.Gen.KernelIdeal.Frame
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.GIN.Reg2
open Cert.KernelIdeal Cert.KernelIdeal.Gen Cert.GIN

/-! ## Tile sums -/

/-- The sum of column `j` over the rows of tile `t` (rows `5000 t` to `5000 t + 4999`); zero past the tenth tile. -/
def tileSum {d : Nat} (z : Mat 50000 d) (t : ℕ) (j : Fin d) : EReal :=
  if h : t < 10 then ∑ p : Fin 5000, z (ix2 ⟨5000 * t + p.val, by omega⟩ j) else 0

/-- The tiled column sum is the sum of the ten tile sums. -/
theorem colSum_eq_range {d : Nat} (z : Mat 50000 d) (i : (⟨2, ![1, d]⟩ : Shape).Idx) :
    colSum z i = ∑ t ∈ Finset.range 10, tileSum z t (i 1) := by
  rw [Finset.sum_range]
  unfold colSum
  refine Finset.sum_congr rfl fun t _ => ?_
  unfold tileSum
  rw [dif_pos t.isLt]

/-! ## The operands and the blocks the points read -/

variable (V : (c : Dev nD) → (b : Ref sig .tc) → Buf (Elt Ideal) ((c : Thread nD τ).loc b)) (c : Dev nD)

/-- The left operand array as the region finds it. -/
abbrev H : Mat 50000 64 := V c (Pipeline.arrRef spec2 0)
/-- The right operand array as the region finds it. -/
abbrev Wt : Mat 64 128 := V c (Pipeline.arrRef spec2 1)
/-- Their product. -/
abbrev Z : Mat 50000 128 := mm (H V c) (Wt V c)
/-- Its entrywise square. -/
abbrev Zsq : Mat 50000 128 := fun i => Z V c i * Z V c i

/-- The printed index maps, decided over the grid: the left operand's and the product's block index is the point
    on the row axis and zero on the column axis; the right operand's and the statistics rows' are zero. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0 :=
  (by decide +kernel : ∀ t : Fin grid2.N, _)

theorem lt10 (t : Fin cfg2.N) : t.val < 10 := lt_of_lt_of_eq t.isLt (show cfg2.N = 10 from N_2)

/-- Entry `(p, q)` of the left operand's block at point `t` is entry `(5000 t + p, q)` of the array. -/
theorem blk0_apply (t : Fin cfg2.N) (p : Fin 5000) (q : Fin 64) (r : Fin 50000) (hr : r.val = 5000 * t.val + p.val) :
    (iblk2 V c 0 t : Vec Ideal S5000x64 .f32) (ix2 p q) = H V c (ix2 r q) := by
  obtain ⟨e0, e1, -⟩ := idx_facts t
  unfold iblk2
  rw [View.read_apply]
  show V c (Pipeline.arrRef spec2 0) (((cfg2.win 0).blk t).view.emb (ix2 p q)) = V c (Pipeline.arrRef spec2 0) (ix2 r q)
  congr 1
  funext a
  apply Fin.ext
  match a with
  | ⟨0, _⟩ => show win2_0.index t (0 : Fin 2) * 5000 + 1 * p.val = r.val; omega
  | ⟨1, _⟩ => show win2_0.index t (1 : Fin 2) * 64 + 1 * q.val = q.val; omega

/-- The right operand's block at every point is the whole array. -/
theorem blk1_apply (t : Fin cfg2.N) (q : Fin 64) (j : Fin 128) :
    (iblk2 V c 1 t : Vec Ideal S64x128 .f32) (ix2 q j) = Wt V c (ix2 q j) := by
  obtain ⟨-, -, e0, e1, -⟩ := idx_facts t
  unfold iblk2
  rw [View.read_apply]
  show V c (Pipeline.arrRef spec2 1) (((cfg2.win 1).blk t).view.emb (ix2 q j)) = V c (Pipeline.arrRef spec2 1) (ix2 q j)
  congr 1
  funext a
  apply Fin.ext
  match a with
  | ⟨0, _⟩ => show win2_1.index t (0 : Fin 2) * 64 + 1 * q.val = q.val; omega
  | ⟨1, _⟩ => show win2_1.index t (1 : Fin 2) * 128 + 1 * j.val = j.val; omega

/-- So entry `(p, j)` of the product block of point `t` is entry `(5000 t + p, j)` of the product of the arrays. -/
theorem zblk_apply (t : Fin cfg2.N) (p : Fin 5000) (j : Fin 128) (r : Fin 50000) (hr : r.val = 5000 * t.val + p.val) :
    k2_pay3 (F := Ideal) (iblk2 V c 0 t) (iblk2 V c 1 t) (ix2 p j) = Z V c (ix2 r j) := by
  refine (pay3_apply (iblk2 V c 0 t) (iblk2 V c 1 t) p j).trans ?_
  show _ = ∑ q : Fin 64, H V c (ix2 r q) * Wt V c (ix2 q j)
  refine Finset.sum_congr rfl fun q _ => ?_
  rw [blk0_apply V c t p q r hr, blk1_apply V c t q j]

/-- The product block's column `j`, summed over its rows, is tile `t`'s sum of column `j` of the product. -/
theorem zblk_sum (t : Fin cfg2.N) (j : Fin 128) :
    ∑ p : Fin 5000, k2_pay3 (F := Ideal) (iblk2 V c 0 t) (iblk2 V c 1 t) (ix2 p j) = tileSum (Z V c) t.val j := by
  have h10 := lt10 t
  unfold tileSum
  rw [dif_pos h10]
  exact Finset.sum_congr rfl fun p _ => zblk_apply V c t p j ⟨5000 * t.val + p.val, by omega⟩ rfl

/-- Likewise for the squares. -/
theorem zblk_sumsq (t : Fin cfg2.N) (j : Fin 128) :
    ∑ p : Fin 5000, k2_pay3 (F := Ideal) (iblk2 V c 0 t) (iblk2 V c 1 t) (ix2 p j)
        * k2_pay3 (F := Ideal) (iblk2 V c 0 t) (iblk2 V c 1 t) (ix2 p j) = tileSum (Zsq V c) t.val j := by
  have h10 := lt10 t
  unfold tileSum
  rw [dif_pos h10]
  refine Finset.sum_congr rfl fun p _ => ?_
  rw [zblk_apply V c t p j ⟨5000 * t.val + p.val, by omega⟩ rfl]

/-! ## What the outputs' staging buffers hold after each point -/

/-- After a first point: the product block, and the two accumulations from the zero rows. -/
theorem outs_A (t : Fin cfg2.N) (h0 : t.val % 10 = 0) :
    (outsAt2 V c t.val t.isLt).1 = k2_pay3 (F := Ideal) (iblk2 V c 0 t) (iblk2 V c 1 t)
    ∧ (outsAt2 V c t.val t.isLt).2.1 = k2_pay4 (F := Ideal) (iblk2 V c 0 t) (iblk2 V c 1 t) (k2_pay1 (F := Ideal))
    ∧ (outsAt2 V c t.val t.isLt).2.2 = k2_pay5 (F := Ideal) (iblk2 V c 0 t) (iblk2 V c 1 t) (k2_pay2 (F := Ideal)) := by
  rw [outsAt2_A V c t h0]
  dsimp only
  exact ⟨out_A_2 (F := Ideal) c (grid2.coords t) (ms2_0 t) (hs2_0 t) (ms2_1 t) (hs2_1 t) (ms2_2 t) (hs2_2 t) (ms2_3 t) (hs2_3 t) (ms2_4 t) (hs2_4 t) ((hcond2_0 t).mpr h0) (iblk2 V c 0 t) (iblk2 V c 1 t),
    out_A_3 (F := Ideal) c (grid2.coords t) (ms2_0 t) (hs2_0 t) (ms2_1 t) (hs2_1 t) (ms2_2 t) (hs2_2 t) (ms2_3 t) (hs2_3 t) (ms2_4 t) (hs2_4 t) ((hcond2_0 t).mpr h0) (iblk2 V c 0 t) (iblk2 V c 1 t),
    out_A_4 (F := Ideal) c (grid2.coords t) (ms2_0 t) (hs2_0 t) (ms2_1 t) (hs2_1 t) (ms2_2 t) (hs2_2 t) (ms2_3 t) (hs2_3 t) (ms2_4 t) (hs2_4 t) ((hcond2_0 t).mpr h0) (iblk2 V c 0 t) (iblk2 V c 1 t)⟩

/-- After any other point: the product block, and the two accumulations from the rows the point before left. -/
theorem outs_B (t : Fin cfg2.N) (h0 : ¬t.val % 10 = 0) :
    (outsAt2 V c t.val t.isLt).1 = k2_pay3 (F := Ideal) (iblk2 V c 0 t) (iblk2 V c 1 t)
    ∧ (outsAt2 V c t.val t.isLt).2.1 = k2_pay4 (F := Ideal) (iblk2 V c 0 t) (iblk2 V c 1 t)
        (outsAt2 V c (t.val - 1) (Nat.lt_of_le_of_lt (Nat.sub_le _ _) t.isLt)).2.1
    ∧ (outsAt2 V c t.val t.isLt).2.2 = k2_pay5 (F := Ideal) (iblk2 V c 0 t) (iblk2 V c 1 t)
        (outsAt2 V c (t.val - 1) (Nat.lt_of_le_of_lt (Nat.sub_le _ _) t.isLt)).2.2 := by
  rw [outsAt2_B V c t h0]
  dsimp only
  exact ⟨out_B_2 (F := Ideal) c (grid2.coords t) (ms2_0 t) (hs2_0 t) (ms2_1 t) (hs2_1 t) (ms2_2 t) (hs2_2 t) (ms2_3 t) (hs2_3 t) (ms2_4 t) (hs2_4 t) (fun h => h0 ((hcond2_0 t).mp h)) (iblk2 V c 0 t) (iblk2 V c 1 t) _ _,
    out_B_3 (F := Ideal) c (grid2.coords t) (ms2_0 t) (hs2_0 t) (ms2_1 t) (hs2_1 t) (ms2_2 t) (hs2_2 t) (ms2_3 t) (hs2_3 t) (ms2_4 t) (hs2_4 t) (fun h => h0 ((hcond2_0 t).mp h)) (iblk2 V c 0 t) (iblk2 V c 1 t) _ _,
    out_B_4 (F := Ideal) c (grid2.coords t) (ms2_0 t) (hs2_0 t) (ms2_1 t) (hs2_1 t) (ms2_2 t) (hs2_2 t) (ms2_3 t) (hs2_3 t) (ms2_4 t) (hs2_4 t) (fun h => h0 ((hcond2_0 t).mp h)) (iblk2 V c 0 t) (iblk2 V c 1 t) _ _⟩

/-- The product output's buffer after point `t`: the product block of the point. -/
theorem outs_z (t : Fin cfg2.N) :
    (outsAt2 V c t.val t.isLt).1 = k2_pay3 (F := Ideal) (iblk2 V c 0 t) (iblk2 V c 1 t) := by
  by_cases h0 : t.val % 10 = 0
  · exact (outs_A V c t h0).1
  · exact (outs_B V c t h0).1

/-- The statistics rows after point `n`: the sums over tiles `0 … n` of the tile's column sums of the product, and of
    its squares — by induction on the point. -/
theorem outs_acc : ∀ (n : ℕ) (h : n < cfg2.N) (j : Fin 128),
    (outsAt2 V c n h).2.1 (ix2 0 j) = ∑ t ∈ Finset.range (n + 1), tileSum (Z V c) t j
    ∧ (outsAt2 V c n h).2.2 (ix2 0 j) = ∑ t ∈ Finset.range (n + 1), tileSum (Zsq V c) t j
  | 0, h, j => by
    have e1 : (outsAt2 V c 0 h).2.1 = k2_pay4 (F := Ideal) (iblk2 V c 0 ⟨0, h⟩) (iblk2 V c 1 ⟨0, h⟩) (k2_pay1 (F := Ideal)) :=
      (outs_A V c ⟨0, h⟩ rfl).2.1
    have e2 : (outsAt2 V c 0 h).2.2 = k2_pay5 (F := Ideal) (iblk2 V c 0 ⟨0, h⟩) (iblk2 V c 1 ⟨0, h⟩) (k2_pay2 (F := Ideal)) :=
      (outs_A V c ⟨0, h⟩ rfl).2.2
    constructor
    · rw [e1, pay4_apply (iblk2 V c 0 ⟨0, h⟩) (iblk2 V c 1 ⟨0, h⟩) (k2_pay1 (F := Ideal)) j, pay1_apply, zero_add, zblk_sum V c ⟨0, h⟩ j,
        Finset.sum_range_succ, Finset.range_zero, Finset.sum_empty, zero_add]
    · rw [e2, pay5_apply (iblk2 V c 0 ⟨0, h⟩) (iblk2 V c 1 ⟨0, h⟩) (k2_pay2 (F := Ideal)) j, pay2_apply, zero_add, zblk_sumsq V c ⟨0, h⟩ j,
        Finset.sum_range_succ, Finset.range_zero, Finset.sum_empty, zero_add]
  | n + 1, h, j => by
    have hN : cfg2.N = 10 := N_2
    have hB : ¬(⟨n + 1, h⟩ : Fin cfg2.N).val % 10 = 0 := by dsimp only; omega
    have e1 : (outsAt2 V c (n + 1) h).2.1 = k2_pay4 (F := Ideal) (iblk2 V c 0 ⟨n + 1, h⟩) (iblk2 V c 1 ⟨n + 1, h⟩)
        (outsAt2 V c n (Nat.lt_of_succ_lt h)).2.1 := (outs_B V c ⟨n + 1, h⟩ hB).2.1
    have e2 : (outsAt2 V c (n + 1) h).2.2 = k2_pay5 (F := Ideal) (iblk2 V c 0 ⟨n + 1, h⟩) (iblk2 V c 1 ⟨n + 1, h⟩)
        (outsAt2 V c n (Nat.lt_of_succ_lt h)).2.2 := (outs_B V c ⟨n + 1, h⟩ hB).2.2
    have ih := outs_acc n (Nat.lt_of_succ_lt h) j
    constructor
    · rw [e1, pay4_apply (iblk2 V c 0 ⟨n + 1, h⟩) (iblk2 V c 1 ⟨n + 1, h⟩) _ j, zblk_sum V c ⟨n + 1, h⟩ j, Finset.sum_range_succ, ih.1]
    · rw [e2, pay5_apply (iblk2 V c 0 ⟨n + 1, h⟩) (iblk2 V c 1 ⟨n + 1, h⟩) _ j, zblk_sumsq V c ⟨n + 1, h⟩ j, Finset.sum_range_succ, ih.2]

/-! ## The write-backs -/

/-- What point `t` writes back of the product output is block `t` of the product of the arrays. -/
theorem flushed_z (t : Fin cfg2.N) :
    (dat2 V c).flushed 2 t = ((cfg2.win 2).blk t).view.read (Elt Ideal) (Z V c) := by
  obtain ⟨-, -, -, -, e0, e1, -⟩ := idx_facts t
  have h10 := lt10 t
  show (cfg2.win 2).cut (grid2.coords t) ((dat2 V c).after 2 t) = _
  rw [after2_2, outs_z]
  funext y
  obtain ⟨p, j, rfl⟩ : ∃ (p : Fin 5000) (j : Fin 128), y = ix2 p j := ⟨y 0, y 1, eq_ix2 y⟩
  rw [View.read_apply]
  show k2_pay3 (F := Ideal) (iblk2 V c 0 t) (iblk2 V c 1 t) (ix2 p j) = Z V c (((cfg2.win 2).blk t).view.emb (ix2 p j))
  refine (zblk_apply V c t p j ⟨5000 * t.val + p.val, by omega⟩ rfl).trans (congrArg (Z V c) ?_)
  funext a
  apply Fin.ext
  match a with
  | ⟨0, _⟩ => show 5000 * t.val + p.val = win2_2.index t (0 : Fin 2) * 5000 + 1 * p.val; omega
  | ⟨1, _⟩ => show j.val = win2_2.index t (1 : Fin 2) * 128 + 1 * j.val; omega

/-- An index of the product array is in point `t`'s block iff each coordinate is in the block's range. -/
theorem mem_blk_z (t : Fin cfg2.N) (i : S50000x128.Idx) :
    i ∈ ((cfg2.win 2).blk t).view.set ↔ ∀ a : Fin 2, win2_2.index t a * S5000x128.size a ≤ (i a).val
      ∧ (i a).val < win2_2.index t a * S5000x128.size a + S5000x128.size a := by
  show i ∈ ((View.whole main_v36_0).slice (win2_2.rect t)).set ↔ _
  rw [View.set_slice_whole, Rect.mem_set_unit]
  exact Iff.rfl

/-- Every row of the product array is in the block of the point its tile names. -/
theorem cover_z (i : S50000x128.Idx) :
    ∃ t : Fin cfg2.N, (cfg2.win 2).flush t = true ∧ i ∈ ((cfg2.win 2).blk t).view.set := by
  have hN : cfg2.N = 10 := N_2
  have hi0 : (i 0).val < 50000 := (i 0).isLt
  have hi1 : (i 1).val < 128 := (i 1).isLt
  refine ⟨⟨(i 0).val / 5000, by omega⟩, flush2_2 _, ?_⟩
  obtain ⟨-, -, -, -, e0, e1, -⟩ := idx_facts ⟨(i 0).val / 5000, by omega⟩
  rw [mem_blk_z]
  intro a
  match a with
  | ⟨0, _⟩ =>
    show win2_2.index _ (0 : Fin 2) * 5000 ≤ (i 0).val ∧ (i 0).val < win2_2.index _ (0 : Fin 2) * 5000 + 5000
    rw [e0]; dsimp only; omega
  | ⟨1, _⟩ =>
    show win2_2.index _ (1 : Fin 2) * 128 ≤ (i 1).val ∧ (i 1).val < win2_2.index _ (1 : Fin 2) * 128 + 128
    rw [e1]; omega

/-- The product array after the run: the product of the operand arrays. -/
theorem z : (dat2 (F := Ideal) V c).arrAt 2 cfg2.N
    = mm (n := 50000) (k := 64) (d := 128) (V c (Pipeline.arrRef spec2 0)) (V c (Pipeline.arrRef spec2 1)) :=
  (dat2 V c).arrAt_eq_of_cover 2 (Z V c) (fun t _ => flushed_z V c t) cover_z

/-- What the last point writes back of the first statistics row is the tiled column sum of the product. -/
theorem flushed_s (t : Fin cfg2.N) (hf : (cfg2.win 3).flush t = true) :
    (dat2 V c).flushed 3 t = ((cfg2.win 3).blk t).view.read (Elt Ideal) (colSum (Z V c)) := by
  obtain ⟨-, -, -, -, -, -, e0, e1, -⟩ := idx_facts t
  have h9 : t.val = 9 := by have := (flush2_3 t).mp hf; have := lt10 t; omega
  show (cfg2.win 3).cut (grid2.coords t) ((dat2 V c).after 3 t) = _
  rw [after2_3]
  funext y
  obtain ⟨j0, j, rfl⟩ : ∃ (j0 : Fin 1) (j : Fin 128), y = ix2 j0 j := ⟨y 0, y 1, eq_ix2 y⟩
  obtain rfl : j0 = 0 := Subsingleton.elim _ _
  rw [View.read_apply]
  show (outsAt2 V c t.val t.isLt).2.1 (ix2 0 j) = colSum (Z V c) (((cfg2.win 3).blk t).view.emb (ix2 0 j))
  rw [(outs_acc V c t.val t.isLt j).1, colSum_eq_range, h9]
  refine Finset.sum_congr rfl fun t' _ => congrArg (tileSum (Z V c) t') (Fin.ext ?_)
  show j.val = win2_3.index t (1 : Fin 2) * 128 + 1 * j.val
  omega

/-- And of the second, of the product's squares. -/
theorem flushed_ss (t : Fin cfg2.N) (hf : (cfg2.win 4).flush t = true) :
    (dat2 V c).flushed 4 t = ((cfg2.win 4).blk t).view.read (Elt Ideal) (colSumSq (Z V c)) := by
  obtain ⟨-, -, -, -, -, -, -, -, e0, e1⟩ := idx_facts t
  have h9 : t.val = 9 := by have := (flush2_4 t).mp hf; have := lt10 t; omega
  show (cfg2.win 4).cut (grid2.coords t) ((dat2 V c).after 4 t) = _
  rw [after2_4]
  funext y
  obtain ⟨j0, j, rfl⟩ : ∃ (j0 : Fin 1) (j : Fin 128), y = ix2 j0 j := ⟨y 0, y 1, eq_ix2 y⟩
  obtain rfl : j0 = 0 := Subsingleton.elim _ _
  rw [View.read_apply]
  show (outsAt2 V c t.val t.isLt).2.2 (ix2 0 j) = colSum (Zsq V c) (((cfg2.win 4).blk t).view.emb (ix2 0 j))
  rw [(outs_acc V c t.val t.isLt j).2, colSum_eq_range, h9]
  refine Finset.sum_congr rfl fun t' _ => congrArg (tileSum (Zsq V c) t') (Fin.ext ?_)
  show j.val = win2_4.index t (1 : Fin 2) * 128 + 1 * j.val
  omega

/-- The one block of a statistics row is the whole row: the last point's write-back covers it. -/
theorem cover_s (i : S1x128.Idx) :
    ∃ t : Fin cfg2.N, (cfg2.win 3).flush t = true ∧ i ∈ ((cfg2.win 3).blk t).view.set := by
  obtain ⟨-, -, -, -, -, -, e0, e1, -⟩ := idx_facts t2_9
  have h0 : (i 0).val < 1 := (i 0).isLt
  have h1 : (i 1).val < 128 := (i 1).isLt
  refine ⟨t2_9, (flush2_3 t2_9).mpr rfl, ?_⟩
  show i ∈ ((View.whole main_v36_1).slice (win2_3.rect t2_9)).set
  rw [View.set_slice_whole, Rect.mem_set_unit]
  intro a
  match a with
  | ⟨0, _⟩ =>
    show win2_3.index t2_9 (0 : Fin 2) * 1 ≤ (i 0).val ∧ (i 0).val < win2_3.index t2_9 (0 : Fin 2) * 1 + 1
    omega
  | ⟨1, _⟩ =>
    show win2_3.index t2_9 (1 : Fin 2) * 128 ≤ (i 1).val ∧ (i 1).val < win2_3.index t2_9 (1 : Fin 2) * 128 + 128
    omega

theorem cover_ss (i : S1x128.Idx) :
    ∃ t : Fin cfg2.N, (cfg2.win 4).flush t = true ∧ i ∈ ((cfg2.win 4).blk t).view.set := by
  obtain ⟨-, -, -, -, -, -, -, -, e0, e1⟩ := idx_facts t2_9
  have h0 : (i 0).val < 1 := (i 0).isLt
  have h1 : (i 1).val < 128 := (i 1).isLt
  refine ⟨t2_9, (flush2_4 t2_9).mpr rfl, ?_⟩
  show i ∈ ((View.whole main_v36_2).slice (win2_4.rect t2_9)).set
  rw [View.set_slice_whole, Rect.mem_set_unit]
  intro a
  match a with
  | ⟨0, _⟩ =>
    show win2_4.index t2_9 (0 : Fin 2) * 1 ≤ (i 0).val ∧ (i 0).val < win2_4.index t2_9 (0 : Fin 2) * 1 + 1
    omega
  | ⟨1, _⟩ =>
    show win2_4.index t2_9 (1 : Fin 2) * 128 ≤ (i 1).val ∧ (i 1).val < win2_4.index t2_9 (1 : Fin 2) * 128 + 128
    omega

/-- The first statistics array after the run: the tiled column sums of the product. -/
theorem s : (dat2 (F := Ideal) V c).arrAt 3 cfg2.N
    = colSum (mm (n := 50000) (k := 64) (d := 128) (V c (Pipeline.arrRef spec2 0)) (V c (Pipeline.arrRef spec2 1))) :=
  (dat2 V c).arrAt_eq_of_cover 3 (colSum (Z V c)) (flushed_s V c) cover_s

/-- The second: the tiled column sums of its squares. -/
theorem ss : (dat2 (F := Ideal) V c).arrAt 4 cfg2.N
    = colSumSq (mm (n := 50000) (k := 64) (d := 128) (V c (Pipeline.arrRef spec2 0)) (V c (Pipeline.arrRef spec2 1))) :=
  (dat2 V c).arrAt_eq_of_cover 4 (colSumSq (Z V c)) (flushed_ss V c) cover_ss

end Cert.GIN.Reg2

end
-- ==== Proof.Reg3.lean ====
/-
  Region 3: the normalisation-and-rectifier map on a matrix of 50000 rows and 128 columns.

  The region visits ten grid points.  At point `t` it reads rows `5000·t … 5000·t + 4999` of the matrix `z` and the
  whole of the four rows `mean`, `var`, `γ`, `β` (each `[1, 128]`, the same block at every point), and writes the same
  rows of the output.  Entry `(p, q)` of what it writes is
  `max (γ q · (z (5000·t + p, q) − mean q) · rsqrt (var q + eps) + β q) 0`: each row vector is read at column `q` of
  its one row, whatever `p` is.  So the block point `t` writes is block `t` of ONE function of the five arrays,
  `normRelu z mean var γ β eps`, and since the ten blocks cover all 50000 rows (row `r` lies in block `r / 5000`),
  the output array ends holding that function.
-/
import proofs.«177653_j8959301779747_1_alg».proof.Proof.Spec
import proofs.«177653_j8959301779747_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

noncomputable section

namespace Cert.GIN.Reg3

open Cert.KernelIdeal Cert.KernelIdeal.Gen Cert.GIN
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The zero offsets of a block read or written whole. -/
theorem hz : (![0, 0] : Fin 2 → Nat) = fun _ => 0 := funext fun a => by fin_cases a <;> rfl

/-- The body's arithmetic at entry `(p, q)` of a block: the row vectors are read at column `q` of their one row, the
    rectifier's zero word is the number zero. -/
theorem pay_apply (x0 : Vec Ideal S5000x128 .f32) (x1 x2 x3 x4 : Vec Ideal S1x128 .f32) (p : Fin 5000) (q : Fin 128) :
    k3_pay1 x0 x1 x2 x3 x4 (ix2 p q)
      = max (x3 (ix2 0 q) * (x0 (ix2 p q) - x1 (ix2 0 q)) * Ideal.rsqrt (x2 (ix2 0 q) + Ideal.ofBits .f32 0x3727C5AC#32)
          + x4 (ix2 0 q)) 0 := by
  unfold k3_pay1
  simp only [shapeCast_self]
  rw [maximumf_apply, addf_apply, mulf_apply, mulf_apply, subf_apply, broadcast_apply,
    broadcastTo_1b_ab_apply, broadcastTo_1b_ab_apply, broadcastTo_1b_ab_apply, broadcastTo_1b_ab_apply]
  show max (x3 (ix2 0 q) * (x0 (ix2 p q) - x1 (ix2 0 q)) * Ideal.rsqrt (x2 (ix2 0 q) + Ideal.ofBits .f32 0x3727C5AC#32)
      + x4 (ix2 0 q)) (Ideal.ofBits .f32 0x00000000#32) = _
  rw [Ideal.ofBits_zero_f32]

/-- The same at any index of the block. -/
theorem pay_at (x0 : Vec Ideal S5000x128 .f32) (x1 x2 x3 x4 : Vec Ideal S1x128 .f32) (j : S5000x128.Idx) :
    k3_pay1 x0 x1 x2 x3 x4 j
      = max (x3 (ix2 0 (j 1)) * (x0 j - x1 (ix2 0 (j 1))) * Ideal.rsqrt (x2 (ix2 0 (j 1)) + Ideal.ofBits .f32 0x3727C5AC#32)
          + x4 (ix2 0 (j 1))) 0 := by
  obtain ⟨p, q, rfl⟩ : ∃ (p : Fin 5000) (q : Fin 128), j = ix2 p q := ⟨j 0, j 1, eq_ix2 j⟩
  exact pay_apply x0 x1 x2 x3 x4 p q

/-- The block indices, decided over the ten grid points: the matrix and the output move together down the rows, one
    block per point; the four row vectors stay at their one block. -/
theorem idx_facts : ∀ t : Fin cfg3.N,
    win3_5.index t (0 : Fin 2) = t.val ∧ win3_5.index t (1 : Fin 2) = 0
    ∧ win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0 :=
  (by decide +kernel : ∀ t : Fin grid3.N, _)

/-- THE BLOCK EQUATION at a symbolic grid point `t`: the body's arithmetic on the five blocks at `t` is block `t` of
    `normRelu` of the five arrays.  Entry `j` of the block of `z` and of the output sit at the same place of their
    arrays (row `5000·t + j 0`, column `j 1`), and entry `(0, j 1)` of each row vector's one block is entry `(0, j 1)`
    of the row vector. -/
theorem block_eq (t : Fin cfg3.N) (z : Mat 50000 128) (mean var γ β : Mat 1 128) :
    k3_pay1 (((cfg3.win 0).blk t).view.read (Elt Ideal) z) (((cfg3.win 1).blk t).view.read (Elt Ideal) mean)
        (((cfg3.win 2).blk t).view.read (Elt Ideal) var) (((cfg3.win 3).blk t).view.read (Elt Ideal) γ)
        (((cfg3.win 4).blk t).view.read (Elt Ideal) β)
      = ((cfg3.win 5).blk t).view.read (Elt Ideal) (normRelu z mean var γ β (Ideal.ofBits .f32 0x3727C5AC#32)) := by
  obtain ⟨e50, e51, e00, e01, e10, e11, e20, e21, e30, e31, e40, e41⟩ := idx_facts t
  funext j
  refine (pay_at _ _ _ _ _ j).trans ?_
  have h0 : ((cfg3.win 0).blk t).view.emb j = ((cfg3.win 5).blk t).view.emb j := by
    funext a; apply Fin.ext
    match a with
    | ⟨0, _⟩ => show win3_0.index t (0 : Fin 2) * 5000 + 1 * (j 0).val = win3_5.index t (0 : Fin 2) * 5000 + 1 * (j 0).val; rw [e00, e50]
    | ⟨1, _⟩ => show win3_0.index t (1 : Fin 2) * 128 + 1 * (j 1).val = win3_5.index t (1 : Fin 2) * 128 + 1 * (j 1).val; rw [e01, e51]
  have h1 : ((cfg3.win 1).blk t).view.emb (ix2 0 (j 1)) = (ix2 (0 : Fin 1) ((((cfg3.win 5).blk t).view.emb j) 1) : S1x128.Idx) := by
    funext a; apply Fin.ext
    match a with
    | ⟨0, _⟩ => show win3_1.index t (0 : Fin 2) * 1 + 1 * 0 = 0; rw [e10]
    | ⟨1, _⟩ => show win3_1.index t (1 : Fin 2) * 128 + 1 * (j 1).val = win3_5.index t (1 : Fin 2) * 128 + 1 * (j 1).val; rw [e11, e51]
  have h2 : ((cfg3.win 2).blk t).view.emb (ix2 0 (j 1)) = (ix2 (0 : Fin 1) ((((cfg3.win 5).blk t).view.emb j) 1) : S1x128.Idx) := by
    funext a; apply Fin.ext
    match a with
    | ⟨0, _⟩ => show win3_2.index t (0 : Fin 2) * 1 + 1 * 0 = 0; rw [e20]
    | ⟨1, _⟩ => show win3_2.index t (1 : Fin 2) * 128 + 1 * (j 1).val = win3_5.index t (1 : Fin 2) * 128 + 1 * (j 1).val; rw [e21, e51]
  have h3 : ((cfg3.win 3).blk t).view.emb (ix2 0 (j 1)) = (ix2 (0 : Fin 1) ((((cfg3.win 5).blk t).view.emb j) 1) : S1x128.Idx) := by
    funext a; apply Fin.ext
    match a with
    | ⟨0, _⟩ => show win3_3.index t (0 : Fin 2) * 1 + 1 * 0 = 0; rw [e30]
    | ⟨1, _⟩ => show win3_3.index t (1 : Fin 2) * 128 + 1 * (j 1).val = win3_5.index t (1 : Fin 2) * 128 + 1 * (j 1).val; rw [e31, e51]
  have h4 : ((cfg3.win 4).blk t).view.emb (ix2 0 (j 1)) = (ix2 (0 : Fin 1) ((((cfg3.win 5).blk t).view.emb j) 1) : S1x128.Idx) := by
    funext a; apply Fin.ext
    match a with
    | ⟨0, _⟩ => show win3_4.index t (0 : Fin 2) * 1 + 1 * 0 = 0; rw [e40]
    | ⟨1, _⟩ => show win3_4.index t (1 : Fin 2) * 128 + 1 * (j 1).val = win3_5.index t (1 : Fin 2) * 128 + 1 * (j 1).val; rw [e41, e51]
  show max (γ (((cfg3.win 3).blk t).view.emb (ix2 0 (j 1)))
        * (z (((cfg3.win 0).blk t).view.emb j) - mean (((cfg3.win 1).blk t).view.emb (ix2 0 (j 1))))
        * Ideal.rsqrt (var (((cfg3.win 2).blk t).view.emb (ix2 0 (j 1))) + Ideal.ofBits .f32 0x3727C5AC#32)
      + β (((cfg3.win 4).blk t).view.emb (ix2 0 (j 1)))) 0
    = normRelu z mean var γ β (Ideal.ofBits .f32 0x3727C5AC#32) (((cfg3.win 5).blk t).view.emb j)
  rw [h0, h1, h2, h3, h4]
  rfl

/-- An index of the output array is in point `t`'s block iff each coordinate is in the block's range on its axis. -/
theorem mem_blk (t : Fin cfg3.N) (i : S50000x128.Idx) :
    i ∈ ((cfg3.win 5).blk t).view.set ↔ ∀ a : Fin 2, win3_5.index t a * S5000x128.size a ≤ (i a).val
      ∧ (i a).val < win3_5.index t a * S5000x128.size a + S5000x128.size a := by
  show i ∈ ((View.whole main_v49).slice (win3_5.rect t)).set ↔ _
  rw [View.set_slice_whole, Rect.mem_set_unit]
  exact Iff.rfl

/-- THE COVER: row `r` of the output lies in the block of grid point `r / 5000`, which writes its block back. -/
theorem cover (i : S50000x128.Idx) :
    ∃ t : Fin cfg3.N, (cfg3.win 5).flush t = true ∧ i ∈ ((cfg3.win 5).blk t).view.set := by
  have hi0 : (i 0).val < 50000 := (i 0).isLt
  have hi1 : (i 1).val < 128 := (i 1).isLt
  have hN : cfg3.N = 10 := N_3
  have ht : (i 0).val / 5000 < cfg3.N := by rw [hN]; omega
  obtain ⟨e50, e51, -⟩ := idx_facts ⟨(i 0).val / 5000, ht⟩
  refine ⟨⟨(i 0).val / 5000, ht⟩, flush3_5 _, ?_⟩
  rw [mem_blk]
  intro a
  match a with
  | ⟨0, _⟩ =>
    show win3_5.index ⟨(i 0).val / 5000, ht⟩ (0 : Fin 2) * 5000 ≤ (i 0).val
      ∧ (i 0).val < win3_5.index ⟨(i 0).val / 5000, ht⟩ (0 : Fin 2) * 5000 + 5000
    rw [e50]
    show (i 0).val / 5000 * 5000 ≤ (i 0).val ∧ (i 0).val < (i 0).val / 5000 * 5000 + 5000
    omega
  | ⟨1, _⟩ =>
    show win3_5.index ⟨(i 0).val / 5000, ht⟩ (1 : Fin 2) * 128 ≤ (i 1).val
      ∧ (i 1).val < win3_5.index ⟨(i 0).val / 5000, ht⟩ (1 : Fin 2) * 128 + 128
    rw [e51]
    omega

/-- WHAT POINT `t` WRITES BACK is block `t` of `normRelu` of the five arrays as the region finds them: the body's one
    store fills the whole staging buffer with its arithmetic on the five blocks at `t`. -/
theorem flushed_eq (c : Dev nD) (t : Fin cfg3.N) :
    (dat3 (F := Ideal) V c).flushed 5 t = ((cfg3.win 5).blk t).view.read (Elt Ideal)
      (normRelu (n := 50000) (d := 128) (V c (Pipeline.arrRef spec3 0)) (V c (Pipeline.arrRef spec3 1))
        (V c (Pipeline.arrRef spec3 2)) (V c (Pipeline.arrRef spec3 3)) (V c (Pipeline.arrRef spec3 4))
        (Ideal.ofBits .f32 0x3727C5AC#32)) := by
  show (cfg3.win 5).cut (grid3.coords t) ((dat3 (F := Ideal) V c).after 5 t) = _
  rw [after3_5]
  unfold out3_5
  rw [View.canon_unit_zero hz]
  simp only [View.ld_unit_zero (S := S5000x128) hz, View.ld_unit_zero (S := S1x128) hz]
  unfold iblk3
  exact block_eq t (V c (Pipeline.arrRef spec3 0)) (V c (Pipeline.arrRef spec3 1)) (V c (Pipeline.arrRef spec3 2))
    (V c (Pipeline.arrRef spec3 3)) (V c (Pipeline.arrRef spec3 4))

/-- THE OUTPUT ARRAY after the region: `normRelu` of the five arrays as the region finds them. -/
theorem out (c : Dev nD) :
    (dat3 (F := Ideal) V c).arrAt 5 cfg3.N
      = normRelu (n := 50000) (d := 128) (V c (Pipeline.arrRef spec3 0)) (V c (Pipeline.arrRef spec3 1))
          (V c (Pipeline.arrRef spec3 2)) (V c (Pipeline.arrRef spec3 3)) (V c (Pipeline.arrRef spec3 4))
          (Ideal.ofBits .f32 0x3727C5AC#32) :=
  (dat3 (F := Ideal) V c).arrAt_eq_of_cover 5 _ (fun t _ => flushed_eq V c t) cover

end Cert.GIN.Reg3

end
-- ==== Proof.WireKeep.lean ====
/-
  What crosses a segment boundary unchanged.

  A stretch of host operations writes only its own results, and a region writes only its output arrays; every other
  buffer holds after the segment what it held before. For each stretch the references it writes are listed and a
  reference outside the list is shown to keep its contents; chained boundary by boundary this gives, for each argument
  array, that it still holds its launch contents at every boundary where a later segment reads it, and for the two
  rows of edge indices (computed once, before the first region) that they hold at each later boundary what they
  held when first computed.
-/
import proofs.«177653_j8959301779747_1_alg».proof.Proof.Gen.KernelIdeal.Frame

set_option maxRecDepth 16384

noncomputable section

namespace Cert.GIN.K

open Cert.KernelIdeal Cert.KernelIdeal.Gen
open Idealize.ShloMosaic Idealize.ShloMosaic.TcCoe Idealize.ShloMosaic.Tactic
open Idealize.ShloMosaic.Pipeline (Dat Cfg Window cellOf)

variable {F : FTy → Type} [FloatOps F]

variable (m : (ℓ : Loc nD τ sig) → Buf (Elt F) ℓ) (ρ : Dev nD → PrngReg)

/-! ## The references each host stretch writes, and what it therefore leaves alone -/

/-- The references the operations of host stretch 0 write, in order. -/
abbrev hostOps0_W : List (Ref sig .tc) := [main_v0, main_v1, main_v2, main_v3, main_c, main_v4, main_v5, main_c_0, main_v6, main_v7, main_v8, main_v9, main_v10, main_cst, main_v11, main_v12, main_v13, main_v14, main_v15, main_cst_1, main_v16, main_v17, main_v18, main_v19]
/-- Each operation of host stretch 0 writes a reference of that list: an operation writes its result only. -/
theorem hostOps0_writes : (hostOps0 : List (HloOp τ sig (Elt F))).Forall fun op => op.writes ⊆ (hostOps0_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_⟩ <;>
    (simp only [StableHlo.nullary_writes, StableHlo.unary_writes, StableHlo.binary_writes, StableHlo.ternary_writes, StableHlo.reshape_writes, Finset.singleton_subset_iff, List.mem_toFinset]; exact List.mem_map_of_mem (by decide))
/-- A reference host stretch 0 does not write holds after it what it held before. -/
theorem host0_keep (c : Dev nD) (r : Ref sig .tc) (h : r ∉ hostOps0_W) :
    W1 m ρ c (Proc.devRef .tc r) = W0 m ρ c (Proc.devRef .tc r) :=
  StableHlo.after_of_writes_sub hostOps0 _ hostOps0_writes h

/-- The references the operations of host stretch 1 write, in order. -/
abbrev hostOps1_W : List (Ref sig .tc) := [main_cst_2, main_v21, main_v22, main_cst_3, main_v23, main_v24, main_v25, main_v26, main_v27, main_v28, main_v29, main_v30, main_v31, main_v32]
/-- Each operation of host stretch 1 writes a reference of that list: an operation writes its result only. -/
theorem hostOps1_writes : (hostOps1 : List (HloOp τ sig (Elt F))).Forall fun op => op.writes ⊆ (hostOps1_W.map (Proc.devRef (τ := τ) .tc)).toFinset := by
  simp only [List.Forall]
  refine ⟨?_, ?_, ?_, ?_, ?_, ?_, ?_, ?_, ?_, ?_, ?_, ?_, ?_, ?_⟩ <;>
    (simp only [StableHlo.nullary_writes, StableHlo.unary_writes, StableHlo.binary_writes, StableHlo.ternary_writes, StableHlo.reshape_writes, Finset.singleton_subset_iff, List.mem_toFinset]; exact List.mem_map_of_mem (by decide))
/-- A reference host stretch 1 does not write holds after it what it held before. -/
theorem host1_keep (c : Dev nD) (r : Ref sig .tc) (h : r ∉ hostOps1_W) :
    W3 m ρ c (Proc.devRef .tc r) = W2 m ρ c (Proc.devRef .tc r) :=
  StableHlo.after_of_writes_sub hostOps1 _ hostOps1_writes h

/-- The references the operations of host stretch 2 write, in order. -/
abbrev hostOps2_W : List (Ref sig .tc) := [main_v34, main_v35]
/-- Each operation of host stretch 2 writes a reference of that list: an operation writes its result only. -/
theorem hostOps2_writes : (hostOps2 : List (HloOp τ sig (Elt F))).Forall fun op => op.writes ⊆ (hostOps2_W.map (Proc.devRef (τ := τ) .tc)).toFinset := by
  simp only [List.Forall]
  refine ⟨?_, ?_⟩ <;>
    (simp only [StableHlo.nullary_writes, StableHlo.unary_writes, StableHlo.binary_writes, StableHlo.ternary_writes, StableHlo.reshape_writes, Finset.singleton_subset_iff, List.mem_toFinset]; exact List.mem_map_of_mem (by decide))
/-- A reference host stretch 2 does not write holds after it what it held before. -/
theorem host2_keep (c : Dev nD) (r : Ref sig .tc) (h : r ∉ hostOps2_W) :
    W5 m ρ c (Proc.devRef .tc r) = W4 m ρ c (Proc.devRef .tc r) :=
  StableHlo.after_of_writes_sub hostOps2 _ hostOps2_writes h

/-- The references the operations of host stretch 3 write, in order. -/
abbrev hostOps3_W : List (Ref sig .tc) := [main_cst_4, main_v37, main_v38, main_cst_5, main_v39, main_v40, main_v41, main_v42, main_v43, main_v44, main_v45, main_v46, main_v47, main_v48]
/-- Each operation of host stretch 3 writes a reference of that list: an operation writes its result only. -/
theorem hostOps3_writes : (hostOps3 : List (HloOp τ sig (Elt F))).Forall fun op => op.writes ⊆ (hostOps3_W.map (Proc.devRef (τ := τ) .tc)).toFinset := by
  simp only [List.Forall]
  refine ⟨?_, ?_, ?_, ?_, ?_, ?_, ?_, ?_, ?_, ?_, ?_, ?_, ?_, ?_⟩ <;>
    (simp only [StableHlo.nullary_writes, StableHlo.unary_writes, StableHlo.binary_writes, StableHlo.ternary_writes, StableHlo.reshape_writes, Finset.singleton_subset_iff, List.mem_toFinset]; exact List.mem_map_of_mem (by decide))
/-- A reference host stretch 3 does not write holds after it what it held before. -/
theorem host3_keep (c : Dev nD) (r : Ref sig .tc) (h : r ∉ hostOps3_W) :
    W7 m ρ c (Proc.devRef .tc r) = W6 m ρ c (Proc.devRef .tc r) :=
  StableHlo.after_of_writes_sub hostOps3 _ hostOps3_writes h

/-- The references the operations of host stretch 4 write, in order. -/
abbrev hostOps4_W : List (Ref sig .tc) := [main_c_6, main_v50, main_v51, main_c_7, main_v52, main_v53, main_v54, main_v55, main_v56, main_cst_8, main_v57, main_v58, main_v59, main_v60, main_v61, main_cst_9, main_v62, main_v63, main_v64, main_v65]
/-- Each operation of host stretch 4 writes a reference of that list: an operation writes its result only. -/
theorem hostOps4_writes : (hostOps4 : List (HloOp τ sig (Elt F))).Forall fun op => op.writes ⊆ (hostOps4_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_⟩ <;>
    (simp only [StableHlo.nullary_writes, StableHlo.unary_writes, StableHlo.binary_writes, StableHlo.ternary_writes, StableHlo.reshape_writes, Finset.singleton_subset_iff, List.mem_toFinset]; exact List.mem_map_of_mem (by decide))
/-- A reference host stretch 4 does not write holds after it what it held before. -/
theorem host4_keep (c : Dev nD) (r : Ref sig .tc) (h : r ∉ hostOps4_W) :
    W9 m ρ c (Proc.devRef .tc r) = W8 m ρ c (Proc.devRef .tc r) :=
  StableHlo.after_of_writes_sub hostOps4 _ hostOps4_writes h

/-- The references the operations of host stretch 5 write, in order. -/
abbrev hostOps5_W : List (Ref sig .tc) := [main_cst_10, main_v67, main_v68, main_cst_11, main_v69, main_v70, main_v71, main_v72, main_v73, main_v74, main_v75, main_v76, main_v77, main_v78]
/-- Each operation of host stretch 5 writes a reference of that list: an operation writes its result only. -/
theorem hostOps5_writes : (hostOps5 : List (HloOp τ sig (Elt F))).Forall fun op => op.writes ⊆ (hostOps5_W.map (Proc.devRef (τ := τ) .tc)).toFinset := by
  simp only [List.Forall]
  refine ⟨?_, ?_, ?_, ?_, ?_, ?_, ?_, ?_, ?_, ?_, ?_, ?_, ?_, ?_⟩ <;>
    (simp only [StableHlo.nullary_writes, StableHlo.unary_writes, StableHlo.binary_writes, StableHlo.ternary_writes, StableHlo.reshape_writes, Finset.singleton_subset_iff, List.mem_toFinset]; exact List.mem_map_of_mem (by decide))
/-- A reference host stretch 5 does not write holds after it what it held before. -/
theorem host5_keep (c : Dev nD) (r : Ref sig .tc) (h : r ∉ hostOps5_W) :
    W11 m ρ c (Proc.devRef .tc r) = W10 m ρ c (Proc.devRef .tc r) :=
  StableHlo.after_of_writes_sub hostOps5 _ hostOps5_writes h

/-- The references the operations of host stretch 6 write, in order. -/
abbrev hostOps6_W : List (Ref sig .tc) := [main_v80, main_v81]
/-- Each operation of host stretch 6 writes a reference of that list: an operation writes its result only. -/
theorem hostOps6_writes : (hostOps6 : List (HloOp τ sig (Elt F))).Forall fun op => op.writes ⊆ (hostOps6_W.map (Proc.devRef (τ := τ) .tc)).toFinset := by
  simp only [List.Forall]
  refine ⟨?_, ?_⟩ <;>
    (simp only [StableHlo.nullary_writes, StableHlo.unary_writes, StableHlo.binary_writes, StableHlo.ternary_writes, StableHlo.reshape_writes, Finset.singleton_subset_iff, List.mem_toFinset]; exact List.mem_map_of_mem (by decide))
/-- A reference host stretch 6 does not write holds after it what it held before. -/
theorem host6_keep (c : Dev nD) (r : Ref sig .tc) (h : r ∉ hostOps6_W) :
    W13 m ρ c (Proc.devRef .tc r) = W12 m ρ c (Proc.devRef .tc r) :=
  StableHlo.after_of_writes_sub hostOps6 _ hostOps6_writes h

/-- The references the operations of host stretch 7 write, in order. -/
abbrev hostOps7_W : List (Ref sig .tc) := [main_cst_12, main_v83, main_v84, main_cst_13, main_v85, main_v86, main_v87, main_v88, main_v89, main_v90, main_v91, main_v92, main_v93, main_v94]
/-- Each operation of host stretch 7 writes a reference of that list: an operation writes its result only. -/
theorem hostOps7_writes : (hostOps7 : List (HloOp τ sig (Elt F))).Forall fun op => op.writes ⊆ (hostOps7_W.map (Proc.devRef (τ := τ) .tc)).toFinset := by
  simp only [List.Forall]
  refine ⟨?_, ?_, ?_, ?_, ?_, ?_, ?_, ?_, ?_, ?_, ?_, ?_, ?_, ?_⟩ <;>
    (simp only [StableHlo.nullary_writes, StableHlo.unary_writes, StableHlo.binary_writes, StableHlo.ternary_writes, StableHlo.reshape_writes, Finset.singleton_subset_iff, List.mem_toFinset]; exact List.mem_map_of_mem (by decide))
/-- A reference host stretch 7 does not write holds after it what it held before. -/
theorem host7_keep (c : Dev nD) (r : Ref sig .tc) (h : r ∉ hostOps7_W) :
    W15 m ρ c (Proc.devRef .tc r) = W14 m ρ c (Proc.devRef .tc r) :=
  StableHlo.after_of_writes_sub hostOps7 _ hostOps7_writes h

/-- The references the operations of host stretch 8 write, in order. -/
abbrev hostOps8_W : List (Ref sig .tc) := [main_c_14, main_v96, main_v97, main_c_15, main_v98, main_v99, main_v100, main_v101, main_v102, main_cst_16, main_v103, main_v104, main_v105, main_v106, main_v107, main_cst_17, main_v108, main_v109, main_v110, main_v111]
/-- Each operation of host stretch 8 writes a reference of that list: an operation writes its result only. -/
theorem hostOps8_writes : (hostOps8 : List (HloOp τ sig (Elt F))).Forall fun op => op.writes ⊆ (hostOps8_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_⟩ <;>
    (simp only [StableHlo.nullary_writes, StableHlo.unary_writes, StableHlo.binary_writes, StableHlo.ternary_writes, StableHlo.reshape_writes, Finset.singleton_subset_iff, List.mem_toFinset]; exact List.mem_map_of_mem (by decide))
/-- A reference host stretch 8 does not write holds after it what it held before. -/
theorem host8_keep (c : Dev nD) (r : Ref sig .tc) (h : r ∉ hostOps8_W) :
    W17 m ρ c (Proc.devRef .tc r) = W16 m ρ c (Proc.devRef .tc r) :=
  StableHlo.after_of_writes_sub hostOps8 _ hostOps8_writes h

/-- The references the operations of host stretch 9 write, in order. -/
abbrev hostOps9_W : List (Ref sig .tc) := [main_cst_18, main_v113, main_v114, main_cst_19, main_v115, main_v116, main_v117, main_v118, main_v119, main_v120, main_v121, main_v122, main_v123, main_v124]
/-- Each operation of host stretch 9 writes a reference of that list: an operation writes its result only. -/
theorem hostOps9_writes : (hostOps9 : List (HloOp τ sig (Elt F))).Forall fun op => op.writes ⊆ (hostOps9_W.map (Proc.devRef (τ := τ) .tc)).toFinset := by
  simp only [List.Forall]
  refine ⟨?_, ?_, ?_, ?_, ?_, ?_, ?_, ?_, ?_, ?_, ?_, ?_, ?_, ?_⟩ <;>
    (simp only [StableHlo.nullary_writes, StableHlo.unary_writes, StableHlo.binary_writes, StableHlo.ternary_writes, StableHlo.reshape_writes, Finset.singleton_subset_iff, List.mem_toFinset]; exact List.mem_map_of_mem (by decide))
/-- A reference host stretch 9 does not write holds after it what it held before. -/
theorem host9_keep (c : Dev nD) (r : Ref sig .tc) (h : r ∉ hostOps9_W) :
    W19 m ρ c (Proc.devRef .tc r) = W18 m ρ c (Proc.devRef .tc r) :=
  StableHlo.after_of_writes_sub hostOps9 _ hostOps9_writes h

/-- The references the operations of host stretch 10 write, in order. -/
abbrev hostOps10_W : List (Ref sig .tc) := [main_v126, main_v127]
/-- Each operation of host stretch 10 writes a reference of that list: an operation writes its result only. -/
theorem hostOps10_writes : (hostOps10 : List (HloOp τ sig (Elt F))).Forall fun op => op.writes ⊆ (hostOps10_W.map (Proc.devRef (τ := τ) .tc)).toFinset := by
  simp only [List.Forall]
  refine ⟨?_, ?_⟩ <;>
    (simp only [StableHlo.nullary_writes, StableHlo.unary_writes, StableHlo.binary_writes, StableHlo.ternary_writes, StableHlo.reshape_writes, Finset.singleton_subset_iff, List.mem_toFinset]; exact List.mem_map_of_mem (by decide))
/-- A reference host stretch 10 does not write holds after it what it held before. -/
theorem host10_keep (c : Dev nD) (r : Ref sig .tc) (h : r ∉ hostOps10_W) :
    W21 m ρ c (Proc.devRef .tc r) = W20 m ρ c (Proc.devRef .tc r) :=
  StableHlo.after_of_writes_sub hostOps10 _ hostOps10_writes h

/-- The references the operations of host stretch 11 write, in order. -/
abbrev hostOps11_W : List (Ref sig .tc) := [main_cst_20, main_v129, main_v130, main_cst_21, main_v131, main_v132, main_v133, main_v134, main_v135, main_v136, main_v137, main_v138, main_v139, main_v140]
/-- Each operation of host stretch 11 writes a reference of that list: an operation writes its result only. -/
theorem hostOps11_writes : (hostOps11 : List (HloOp τ sig (Elt F))).Forall fun op => op.writes ⊆ (hostOps11_W.map (Proc.devRef (τ := τ) .tc)).toFinset := by
  simp only [List.Forall]
  refine ⟨?_, ?_, ?_, ?_, ?_, ?_, ?_, ?_, ?_, ?_, ?_, ?_, ?_, ?_⟩ <;>
    (simp only [StableHlo.nullary_writes, StableHlo.unary_writes, StableHlo.binary_writes, StableHlo.ternary_writes, StableHlo.reshape_writes, Finset.singleton_subset_iff, List.mem_toFinset]; exact List.mem_map_of_mem (by decide))
/-- A reference host stretch 11 does not write holds after it what it held before. -/
theorem host11_keep (c : Dev nD) (r : Ref sig .tc) (h : r ∉ hostOps11_W) :
    W23 m ρ c (Proc.devRef .tc r) = W22 m ρ c (Proc.devRef .tc r) :=
  StableHlo.after_of_writes_sub hostOps11 _ hostOps11_writes h

/-- The references the operations of host stretch 12 write, in order. -/
abbrev hostOps12_W : List (Ref sig .tc) := [main_c_22, main_v142, main_v143, main_c_23, main_v144, main_v145, main_v146, main_v147, main_v148, main_cst_24, main_v149, main_v150, main_v151, main_v152, main_v153, main_cst_25, main_v154, main_v155, main_v156, main_v157]
/-- Each operation of host stretch 12 writes a reference of that list: an operation writes its result only. -/
theorem hostOps12_writes : (hostOps12 : List (HloOp τ sig (Elt F))).Forall fun op => op.writes ⊆ (hostOps12_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_⟩ <;>
    (simp only [StableHlo.nullary_writes, StableHlo.unary_writes, StableHlo.binary_writes, StableHlo.ternary_writes, StableHlo.reshape_writes, Finset.singleton_subset_iff, List.mem_toFinset]; exact List.mem_map_of_mem (by decide))
/-- A reference host stretch 12 does not write holds after it what it held before. -/
theorem host12_keep (c : Dev nD) (r : Ref sig .tc) (h : r ∉ hostOps12_W) :
    W25 m ρ c (Proc.devRef .tc r) = W24 m ρ c (Proc.devRef .tc r) :=
  StableHlo.after_of_writes_sub hostOps12 _ hostOps12_writes h

/-- The references the operations of host stretch 13 write, in order. -/
abbrev hostOps13_W : List (Ref sig .tc) := [main_cst_26, main_v159, main_v160, main_cst_27, main_v161, main_v162, main_v163, main_v164, main_v165, main_v166, main_v167, main_v168, main_v169, main_v170]
/-- Each operation of host stretch 13 writes a reference of that list: an operation writes its result only. -/
theorem hostOps13_writes : (hostOps13 : List (HloOp τ sig (Elt F))).Forall fun op => op.writes ⊆ (hostOps13_W.map (Proc.devRef (τ := τ) .tc)).toFinset := by
  simp only [List.Forall]
  refine ⟨?_, ?_, ?_, ?_, ?_, ?_, ?_, ?_, ?_, ?_, ?_, ?_, ?_, ?_⟩ <;>
    (simp only [StableHlo.nullary_writes, StableHlo.unary_writes, StableHlo.binary_writes, StableHlo.ternary_writes, StableHlo.reshape_writes, Finset.singleton_subset_iff, List.mem_toFinset]; exact List.mem_map_of_mem (by decide))
/-- A reference host stretch 13 does not write holds after it what it held before. -/
theorem host13_keep (c : Dev nD) (r : Ref sig .tc) (h : r ∉ hostOps13_W) :
    W27 m ρ c (Proc.devRef .tc r) = W26 m ρ c (Proc.devRef .tc r) :=
  StableHlo.after_of_writes_sub hostOps13 _ hostOps13_writes h

/-- The references the operations of host stretch 14 write, in order. -/
abbrev hostOps14_W : List (Ref sig .tc) := [main_v172, main_v173]
/-- Each operation of host stretch 14 writes a reference of that list: an operation writes its result only. -/
theorem hostOps14_writes : (hostOps14 : List (HloOp τ sig (Elt F))).Forall fun op => op.writes ⊆ (hostOps14_W.map (Proc.devRef (τ := τ) .tc)).toFinset := by
  simp only [List.Forall]
  refine ⟨?_, ?_⟩ <;>
    (simp only [StableHlo.nullary_writes, StableHlo.unary_writes, StableHlo.binary_writes, StableHlo.ternary_writes, StableHlo.reshape_writes, Finset.singleton_subset_iff, List.mem_toFinset]; exact List.mem_map_of_mem (by decide))
/-- A reference host stretch 14 does not write holds after it what it held before. -/
theorem host14_keep (c : Dev nD) (r : Ref sig .tc) (h : r ∉ hostOps14_W) :
    W29 m ρ c (Proc.devRef .tc r) = W28 m ρ c (Proc.devRef .tc r) :=
  StableHlo.after_of_writes_sub hostOps14 _ hostOps14_writes h

/-- The references the operations of host stretch 15 write, in order. -/
abbrev hostOps15_W : List (Ref sig .tc) := [main_cst_28, main_v175, main_v176, main_cst_29, main_v177, main_v178, main_v179, main_v180, main_v181, main_v182, main_v183, main_v184, main_v185, main_v186]
/-- Each operation of host stretch 15 writes a reference of that list: an operation writes its result only. -/
theorem hostOps15_writes : (hostOps15 : List (HloOp τ sig (Elt F))).Forall fun op => op.writes ⊆ (hostOps15_W.map (Proc.devRef (τ := τ) .tc)).toFinset := by
  simp only [List.Forall]
  refine ⟨?_, ?_, ?_, ?_, ?_, ?_, ?_, ?_, ?_, ?_, ?_, ?_, ?_, ?_⟩ <;>
    (simp only [StableHlo.nullary_writes, StableHlo.unary_writes, StableHlo.binary_writes, StableHlo.ternary_writes, StableHlo.reshape_writes, Finset.singleton_subset_iff, List.mem_toFinset]; exact List.mem_map_of_mem (by decide))
/-- A reference host stretch 15 does not write holds after it what it held before. -/
theorem host15_keep (c : Dev nD) (r : Ref sig .tc) (h : r ∉ hostOps15_W) :
    W31 m ρ c (Proc.devRef .tc r) = W30 m ρ c (Proc.devRef .tc r) :=
  StableHlo.after_of_writes_sub hostOps15 _ hostOps15_writes h

/-- The references the operations of host stretch 16 write, in order. -/
abbrev hostOps16_W : List (Ref sig .tc) := [main_c_30, main_v188, main_v189, main_c_31, main_v190, main_v191, main_v192, main_v193, main_v194, main_cst_32, main_v195, main_v196, main_v197, main_v198, main_v199, main_cst_33, main_v200, main_v201, main_v202, main_v203]
/-- Each operation of host stretch 16 writes a reference of that list: an operation writes its result only. -/
theorem hostOps16_writes : (hostOps16 : List (HloOp τ sig (Elt F))).Forall fun op => op.writes ⊆ (hostOps16_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_⟩ <;>
    (simp only [StableHlo.nullary_writes, StableHlo.unary_writes, StableHlo.binary_writes, StableHlo.ternary_writes, StableHlo.reshape_writes, Finset.singleton_subset_iff, List.mem_toFinset]; exact List.mem_map_of_mem (by decide))
/-- A reference host stretch 16 does not write holds after it what it held before. -/
theorem host16_keep (c : Dev nD) (r : Ref sig .tc) (h : r ∉ hostOps16_W) :
    W33 m ρ c (Proc.devRef .tc r) = W32 m ρ c (Proc.devRef .tc r) :=
  StableHlo.after_of_writes_sub hostOps16 _ hostOps16_writes h

/-- The references the operations of host stretch 17 write, in order. -/
abbrev hostOps17_W : List (Ref sig .tc) := [main_cst_34, main_v205, main_v206, main_cst_35, main_v207, main_v208, main_v209, main_v210, main_v211, main_v212, main_v213, main_v214, main_v215, main_v216]
/-- Each operation of host stretch 17 writes a reference of that list: an operation writes its result only. -/
theorem hostOps17_writes : (hostOps17 : List (HloOp τ sig (Elt F))).Forall fun op => op.writes ⊆ (hostOps17_W.map (Proc.devRef (τ := τ) .tc)).toFinset := by
  simp only [List.Forall]
  refine ⟨?_, ?_, ?_, ?_, ?_, ?_, ?_, ?_, ?_, ?_, ?_, ?_, ?_, ?_⟩ <;>
    (simp only [StableHlo.nullary_writes, StableHlo.unary_writes, StableHlo.binary_writes, StableHlo.ternary_writes, StableHlo.reshape_writes, Finset.singleton_subset_iff, List.mem_toFinset]; exact List.mem_map_of_mem (by decide))
/-- A reference host stretch 17 does not write holds after it what it held before. -/
theorem host17_keep (c : Dev nD) (r : Ref sig .tc) (h : r ∉ hostOps17_W) :
    W35 m ρ c (Proc.devRef .tc r) = W34 m ρ c (Proc.devRef .tc r) :=
  StableHlo.after_of_writes_sub hostOps17 _ hostOps17_writes h

/-- The references the operations of host stretch 18 write, in order. -/
abbrev hostOps18_W : List (Ref sig .tc) := [main_v218, main_v219]
/-- Each operation of host stretch 18 writes a reference of that list: an operation writes its result only. -/
theorem hostOps18_writes : (hostOps18 : List (HloOp τ sig (Elt F))).Forall fun op => op.writes ⊆ (hostOps18_W.map (Proc.devRef (τ := τ) .tc)).toFinset := by
  simp only [List.Forall]
  refine ⟨?_, ?_⟩ <;>
    (simp only [StableHlo.nullary_writes, StableHlo.unary_writes, StableHlo.binary_writes, StableHlo.ternary_writes, StableHlo.reshape_writes, Finset.singleton_subset_iff, List.mem_toFinset]; exact List.mem_map_of_mem (by decide))
/-- A reference host stretch 18 does not write holds after it what it held before. -/
theorem host18_keep (c : Dev nD) (r : Ref sig .tc) (h : r ∉ hostOps18_W) :
    W37 m ρ c (Proc.devRef .tc r) = W36 m ρ c (Proc.devRef .tc r) :=
  StableHlo.after_of_writes_sub hostOps18 _ hostOps18_writes h

/-- The references the operations of host stretch 19 write, in order. -/
abbrev hostOps19_W : List (Ref sig .tc) := [main_cst_36, main_v221, main_v222, main_cst_37, main_v223, main_v224, main_v225, main_v226, main_v227, main_v228, main_v229, main_v230, main_v231, main_v232]
/-- Each operation of host stretch 19 writes a reference of that list: an operation writes its result only. -/
theorem hostOps19_writes : (hostOps19 : List (HloOp τ sig (Elt F))).Forall fun op => op.writes ⊆ (hostOps19_W.map (Proc.devRef (τ := τ) .tc)).toFinset := by
  simp only [List.Forall]
  refine ⟨?_, ?_, ?_, ?_, ?_, ?_, ?_, ?_, ?_, ?_, ?_, ?_, ?_, ?_⟩ <;>
    (simp only [StableHlo.nullary_writes, StableHlo.unary_writes, StableHlo.binary_writes, StableHlo.ternary_writes, StableHlo.reshape_writes, Finset.singleton_subset_iff, List.mem_toFinset]; exact List.mem_map_of_mem (by decide))
/-- A reference host stretch 19 does not write holds after it what it held before. -/
theorem host19_keep (c : Dev nD) (r : Ref sig .tc) (h : r ∉ hostOps19_W) :
    W39 m ρ c (Proc.devRef .tc r) = W38 m ρ c (Proc.devRef .tc r) :=
  StableHlo.after_of_writes_sub hostOps19 _ hostOps19_writes h

/-- The references the operations of host stretch 20 write, in order. -/
abbrev hostOps20_W : List (Ref sig .tc) := [main_c_38, main_v234, main_v235, main_c_39, main_v236, main_v237, main_v238, main_v239, main_v240, main_cst_40, main_v241, main_v242, main_v243, main_v244, main_v245, main_cst_41, main_v246, main_v247, main_v248, main_v249]
/-- Each operation of host stretch 20 writes a reference of that list: an operation writes its result only. -/
theorem hostOps20_writes : (hostOps20 : List (HloOp τ sig (Elt F))).Forall fun op => op.writes ⊆ (hostOps20_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_⟩ <;>
    (simp only [StableHlo.nullary_writes, StableHlo.unary_writes, StableHlo.binary_writes, StableHlo.ternary_writes, StableHlo.reshape_writes, Finset.singleton_subset_iff, List.mem_toFinset]; exact List.mem_map_of_mem (by decide))
/-- A reference host stretch 20 does not write holds after it what it held before. -/
theorem host20_keep (c : Dev nD) (r : Ref sig .tc) (h : r ∉ hostOps20_W) :
    W41 m ρ c (Proc.devRef .tc r) = W40 m ρ c (Proc.devRef .tc r) :=
  StableHlo.after_of_writes_sub hostOps20 _ hostOps20_writes h

/-- The references the operations of host stretch 21 write, in order. -/
abbrev hostOps21_W : List (Ref sig .tc) := [main_cst_42, main_v251, main_v252, main_cst_43, main_v253, main_v254, main_v255, main_v256, main_v257, main_v258, main_v259, main_v260, main_v261, main_v262]
/-- Each operation of host stretch 21 writes a reference of that list: an operation writes its result only. -/
theorem hostOps21_writes : (hostOps21 : List (HloOp τ sig (Elt F))).Forall fun op => op.writes ⊆ (hostOps21_W.map (Proc.devRef (τ := τ) .tc)).toFinset := by
  simp only [List.Forall]
  refine ⟨?_, ?_, ?_, ?_, ?_, ?_, ?_, ?_, ?_, ?_, ?_, ?_, ?_, ?_⟩ <;>
    (simp only [StableHlo.nullary_writes, StableHlo.unary_writes, StableHlo.binary_writes, StableHlo.ternary_writes, StableHlo.reshape_writes, Finset.singleton_subset_iff, List.mem_toFinset]; exact List.mem_map_of_mem (by decide))
/-- A reference host stretch 21 does not write holds after it what it held before. -/
theorem host21_keep (c : Dev nD) (r : Ref sig .tc) (h : r ∉ hostOps21_W) :
    W43 m ρ c (Proc.devRef .tc r) = W42 m ρ c (Proc.devRef .tc r) :=
  StableHlo.after_of_writes_sub hostOps21 _ hostOps21_writes h

/-- The references the operations of host stretch 22 write, in order. -/
abbrev hostOps22_W : List (Ref sig .tc) := [main_v264, main_v265]
/-- Each operation of host stretch 22 writes a reference of that list: an operation writes its result only. -/
theorem hostOps22_writes : (hostOps22 : List (HloOp τ sig (Elt F))).Forall fun op => op.writes ⊆ (hostOps22_W.map (Proc.devRef (τ := τ) .tc)).toFinset := by
  simp only [List.Forall]
  refine ⟨?_, ?_⟩ <;>
    (simp only [StableHlo.nullary_writes, StableHlo.unary_writes, StableHlo.binary_writes, StableHlo.ternary_writes, StableHlo.reshape_writes, Finset.singleton_subset_iff, List.mem_toFinset]; exact List.mem_map_of_mem (by decide))
/-- A reference host stretch 22 does not write holds after it what it held before. -/
theorem host22_keep (c : Dev nD) (r : Ref sig .tc) (h : r ∉ hostOps22_W) :
    W45 m ρ c (Proc.devRef .tc r) = W44 m ρ c (Proc.devRef .tc r) :=
  StableHlo.after_of_writes_sub hostOps22 _ hostOps22_writes h

/-- The references the operations of host stretch 23 write, in order. -/
abbrev hostOps23_W : List (Ref sig .tc) := [main_cst_44, main_v267, main_v268, main_cst_45, main_v269, main_v270, main_v271, main_v272, main_v273, main_v274, main_v275, main_v276, main_v277, main_v278]
/-- Each operation of host stretch 23 writes a reference of that list: an operation writes its result only. -/
theorem hostOps23_writes : (hostOps23 : List (HloOp τ sig (Elt F))).Forall fun op => op.writes ⊆ (hostOps23_W.map (Proc.devRef (τ := τ) .tc)).toFinset := by
  simp only [List.Forall]
  refine ⟨?_, ?_, ?_, ?_, ?_, ?_, ?_, ?_, ?_, ?_, ?_, ?_, ?_, ?_⟩ <;>
    (simp only [StableHlo.nullary_writes, StableHlo.unary_writes, StableHlo.binary_writes, StableHlo.ternary_writes, StableHlo.reshape_writes, Finset.singleton_subset_iff, List.mem_toFinset]; exact List.mem_map_of_mem (by decide))
/-- A reference host stretch 23 does not write holds after it what it held before. -/
theorem host23_keep (c : Dev nD) (r : Ref sig .tc) (h : r ∉ hostOps23_W) :
    W47 m ρ c (Proc.devRef .tc r) = W46 m ρ c (Proc.devRef .tc r) :=
  StableHlo.after_of_writes_sub hostOps23 _ hostOps23_writes h

/-- The references the operations of host stretch 24 write, in order. -/
abbrev hostOps24_W : List (Ref sig .tc) := [main_c_46, main_v280, main_v281, main_c_47, main_v282, main_v283, main_v284, main_v285, main_v286, main_cst_48, main_v287, main_v288, main_v289, main_v290, main_v291, main_cst_49, main_v292, main_v293, main_v294, main_v295]
/-- Each operation of host stretch 24 writes a reference of that list: an operation writes its result only. -/
theorem hostOps24_writes : (hostOps24 : List (HloOp τ sig (Elt F))).Forall fun op => op.writes ⊆ (hostOps24_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_⟩ <;>
    (simp only [StableHlo.nullary_writes, StableHlo.unary_writes, StableHlo.binary_writes, StableHlo.ternary_writes, StableHlo.reshape_writes, Finset.singleton_subset_iff, List.mem_toFinset]; exact List.mem_map_of_mem (by decide))
/-- A reference host stretch 24 does not write holds after it what it held before. -/
theorem host24_keep (c : Dev nD) (r : Ref sig .tc) (h : r ∉ hostOps24_W) :
    W49 m ρ c (Proc.devRef .tc r) = W48 m ρ c (Proc.devRef .tc r) :=
  StableHlo.after_of_writes_sub hostOps24 _ hostOps24_writes h

/-- The references the operations of host stretch 25 write, in order. -/
abbrev hostOps25_W : List (Ref sig .tc) := [main_cst_50, main_v297, main_v298, main_cst_51, main_v299, main_v300, main_v301, main_v302, main_v303, main_v304, main_v305, main_v306, main_v307, main_v308]
/-- Each operation of host stretch 25 writes a reference of that list: an operation writes its result only. -/
theorem hostOps25_writes : (hostOps25 : List (HloOp τ sig (Elt F))).Forall fun op => op.writes ⊆ (hostOps25_W.map (Proc.devRef (τ := τ) .tc)).toFinset := by
  simp only [List.Forall]
  refine ⟨?_, ?_, ?_, ?_, ?_, ?_, ?_, ?_, ?_, ?_, ?_, ?_, ?_, ?_⟩ <;>
    (simp only [StableHlo.nullary_writes, StableHlo.unary_writes, StableHlo.binary_writes, StableHlo.ternary_writes, StableHlo.reshape_writes, Finset.singleton_subset_iff, List.mem_toFinset]; exact List.mem_map_of_mem (by decide))
/-- A reference host stretch 25 does not write holds after it what it held before. -/
theorem host25_keep (c : Dev nD) (r : Ref sig .tc) (h : r ∉ hostOps25_W) :
    W51 m ρ c (Proc.devRef .tc r) = W50 m ρ c (Proc.devRef .tc r) :=
  StableHlo.after_of_writes_sub hostOps25 _ hostOps25_writes h

/-- The references the operations of host stretch 27 write, in order. -/
abbrev hostOps27_W : List (Ref sig .tc) := [main_cst_52, main_v311, main_cst_53, main_v312, main_v313, main_v314, main_cst_54, main_v315, main_v316, main_v317, main_cst_55, main_v318, main_v319, main_v320, main_v321, main_v322]
/-- Each operation of host stretch 27 writes a reference of that list: an operation writes its result only. -/
theorem hostOps27_writes : (hostOps27 : List (HloOp τ sig (Elt F))).Forall fun op => op.writes ⊆ (hostOps27_W.map (Proc.devRef (τ := τ) .tc)).toFinset := by
  simp only [List.Forall]
  refine ⟨?_, ?_, ?_, ?_, ?_, ?_, ?_, ?_, ?_, ?_, ?_, ?_, ?_, ?_, ?_, ?_⟩ <;>
    (simp only [StableHlo.nullary_writes, StableHlo.unary_writes, StableHlo.binary_writes, StableHlo.ternary_writes, StableHlo.reshape_writes, Finset.singleton_subset_iff, List.mem_toFinset]; exact List.mem_map_of_mem (by decide))
/-- A reference host stretch 27 does not write holds after it what it held before. -/
theorem host27_keep (c : Dev nD) (r : Ref sig .tc) (h : r ∉ hostOps27_W) :
    W54 m ρ c (Proc.devRef .tc r) = W53 m ρ c (Proc.devRef .tc r) :=
  StableHlo.after_of_writes_sub hostOps27 _ hostOps27_writes h

/-! ## The argument arrays at the boundaries where they are read: as launched -/

theorem at_arg11_0 (c : Dev nD) : W0 m ρ c (Proc.devRef .tc main_arg11) = m ((c : Thread nD τ).loc main_arg11) := rfl
theorem at_arg11_1 (c : Dev nD) : W1 m ρ c (Proc.devRef .tc main_arg11) = m ((c : Thread nD τ).loc main_arg11) :=
  (host0_keep m ρ c main_arg11 (by decide)).trans (at_arg11_0 m ρ c)
theorem at_arg11_2 (c : Dev nD) : W2 m ρ c (Proc.devRef .tc main_arg11) = m ((c : Thread nD τ).loc main_arg11) :=
  (W2_of_ne m ρ c main_arg11 (by decide)).trans (at_arg11_1 m ρ c)
theorem at_arg11_3 (c : Dev nD) : W3 m ρ c (Proc.devRef .tc main_arg11) = m ((c : Thread nD τ).loc main_arg11) :=
  (host1_keep m ρ c main_arg11 (by decide)).trans (at_arg11_2 m ρ c)
theorem at_arg11_4 (c : Dev nD) : W4 m ρ c (Proc.devRef .tc main_arg11) = m ((c : Thread nD τ).loc main_arg11) :=
  (W4_of_ne m ρ c main_arg11 (by decide)).trans (at_arg11_3 m ρ c)
theorem at_arg11_5 (c : Dev nD) : W5 m ρ c (Proc.devRef .tc main_arg11) = m ((c : Thread nD τ).loc main_arg11) :=
  (host2_keep m ρ c main_arg11 (by decide)).trans (at_arg11_4 m ρ c)
theorem at_arg11_6 (c : Dev nD) : W6 m ρ c (Proc.devRef .tc main_arg11) = m ((c : Thread nD τ).loc main_arg11) :=
  (W6_of_ne m ρ c main_arg11 (by decide)).trans (at_arg11_5 m ρ c)
theorem at_arg11_7 (c : Dev nD) : W7 m ρ c (Proc.devRef .tc main_arg11) = m ((c : Thread nD τ).loc main_arg11) :=
  (host3_keep m ρ c main_arg11 (by decide)).trans (at_arg11_6 m ρ c)
theorem at_arg11_8 (c : Dev nD) : W8 m ρ c (Proc.devRef .tc main_arg11) = m ((c : Thread nD τ).loc main_arg11) :=
  (W8_of_ne m ρ c main_arg11 (by decide)).trans (at_arg11_7 m ρ c)
theorem at_arg11_9 (c : Dev nD) : W9 m ρ c (Proc.devRef .tc main_arg11) = m ((c : Thread nD τ).loc main_arg11) :=
  (host4_keep m ρ c main_arg11 (by decide)).trans (at_arg11_8 m ρ c)
theorem at_arg11_10 (c : Dev nD) : W10 m ρ c (Proc.devRef .tc main_arg11) = m ((c : Thread nD τ).loc main_arg11) :=
  (W10_of_ne m ρ c main_arg11 (by decide)).trans (at_arg11_9 m ρ c)
theorem at_arg11_11 (c : Dev nD) : W11 m ρ c (Proc.devRef .tc main_arg11) = m ((c : Thread nD τ).loc main_arg11) :=
  (host5_keep m ρ c main_arg11 (by decide)).trans (at_arg11_10 m ρ c)
theorem at_arg11_12 (c : Dev nD) : W12 m ρ c (Proc.devRef .tc main_arg11) = m ((c : Thread nD τ).loc main_arg11) :=
  (W12_of_ne m ρ c main_arg11 (by decide)).trans (at_arg11_11 m ρ c)
theorem at_arg11_13 (c : Dev nD) : W13 m ρ c (Proc.devRef .tc main_arg11) = m ((c : Thread nD τ).loc main_arg11) :=
  (host6_keep m ρ c main_arg11 (by decide)).trans (at_arg11_12 m ρ c)
theorem at_arg11_14 (c : Dev nD) : W14 m ρ c (Proc.devRef .tc main_arg11) = m ((c : Thread nD τ).loc main_arg11) :=
  (W14_of_ne m ρ c main_arg11 (by decide)).trans (at_arg11_13 m ρ c)
theorem at_arg11_15 (c : Dev nD) : W15 m ρ c (Proc.devRef .tc main_arg11) = m ((c : Thread nD τ).loc main_arg11) :=
  (host7_keep m ρ c main_arg11 (by decide)).trans (at_arg11_14 m ρ c)
theorem at_arg11_16 (c : Dev nD) : W16 m ρ c (Proc.devRef .tc main_arg11) = m ((c : Thread nD τ).loc main_arg11) :=
  (W16_of_ne m ρ c main_arg11 (by decide)).trans (at_arg11_15 m ρ c)
theorem at_arg11_17 (c : Dev nD) : W17 m ρ c (Proc.devRef .tc main_arg11) = m ((c : Thread nD τ).loc main_arg11) :=
  (host8_keep m ρ c main_arg11 (by decide)).trans (at_arg11_16 m ρ c)
theorem at_arg11_18 (c : Dev nD) : W18 m ρ c (Proc.devRef .tc main_arg11) = m ((c : Thread nD τ).loc main_arg11) :=
  (W18_of_ne m ρ c main_arg11 (by decide)).trans (at_arg11_17 m ρ c)
theorem at_arg11_19 (c : Dev nD) : W19 m ρ c (Proc.devRef .tc main_arg11) = m ((c : Thread nD τ).loc main_arg11) :=
  (host9_keep m ρ c main_arg11 (by decide)).trans (at_arg11_18 m ρ c)
theorem at_arg11_20 (c : Dev nD) : W20 m ρ c (Proc.devRef .tc main_arg11) = m ((c : Thread nD τ).loc main_arg11) :=
  (W20_of_ne m ρ c main_arg11 (by decide)).trans (at_arg11_19 m ρ c)
theorem at_arg11_21 (c : Dev nD) : W21 m ρ c (Proc.devRef .tc main_arg11) = m ((c : Thread nD τ).loc main_arg11) :=
  (host10_keep m ρ c main_arg11 (by decide)).trans (at_arg11_20 m ρ c)
theorem at_arg11_22 (c : Dev nD) : W22 m ρ c (Proc.devRef .tc main_arg11) = m ((c : Thread nD τ).loc main_arg11) :=
  (W22_of_ne m ρ c main_arg11 (by decide)).trans (at_arg11_21 m ρ c)
theorem at_arg11_23 (c : Dev nD) : W23 m ρ c (Proc.devRef .tc main_arg11) = m ((c : Thread nD τ).loc main_arg11) :=
  (host11_keep m ρ c main_arg11 (by decide)).trans (at_arg11_22 m ρ c)
theorem at_arg11_24 (c : Dev nD) : W24 m ρ c (Proc.devRef .tc main_arg11) = m ((c : Thread nD τ).loc main_arg11) :=
  (W24_of_ne m ρ c main_arg11 (by decide)).trans (at_arg11_23 m ρ c)
theorem at_arg11_25 (c : Dev nD) : W25 m ρ c (Proc.devRef .tc main_arg11) = m ((c : Thread nD τ).loc main_arg11) :=
  (host12_keep m ρ c main_arg11 (by decide)).trans (at_arg11_24 m ρ c)
theorem at_arg11_26 (c : Dev nD) : W26 m ρ c (Proc.devRef .tc main_arg11) = m ((c : Thread nD τ).loc main_arg11) :=
  (W26_of_ne m ρ c main_arg11 (by decide)).trans (at_arg11_25 m ρ c)
theorem at_arg11_27 (c : Dev nD) : W27 m ρ c (Proc.devRef .tc main_arg11) = m ((c : Thread nD τ).loc main_arg11) :=
  (host13_keep m ρ c main_arg11 (by decide)).trans (at_arg11_26 m ρ c)
theorem at_arg11_28 (c : Dev nD) : W28 m ρ c (Proc.devRef .tc main_arg11) = m ((c : Thread nD τ).loc main_arg11) :=
  (W28_of_ne m ρ c main_arg11 (by decide)).trans (at_arg11_27 m ρ c)
theorem at_arg11_29 (c : Dev nD) : W29 m ρ c (Proc.devRef .tc main_arg11) = m ((c : Thread nD τ).loc main_arg11) :=
  (host14_keep m ρ c main_arg11 (by decide)).trans (at_arg11_28 m ρ c)
theorem at_arg11_30 (c : Dev nD) : W30 m ρ c (Proc.devRef .tc main_arg11) = m ((c : Thread nD τ).loc main_arg11) :=
  (W30_of_ne m ρ c main_arg11 (by decide)).trans (at_arg11_29 m ρ c)
theorem at_arg11_31 (c : Dev nD) : W31 m ρ c (Proc.devRef .tc main_arg11) = m ((c : Thread nD τ).loc main_arg11) :=
  (host15_keep m ρ c main_arg11 (by decide)).trans (at_arg11_30 m ρ c)
theorem at_arg11_32 (c : Dev nD) : W32 m ρ c (Proc.devRef .tc main_arg11) = m ((c : Thread nD τ).loc main_arg11) :=
  (W32_of_ne m ρ c main_arg11 (by decide)).trans (at_arg11_31 m ρ c)
theorem at_arg11_33 (c : Dev nD) : W33 m ρ c (Proc.devRef .tc main_arg11) = m ((c : Thread nD τ).loc main_arg11) :=
  (host16_keep m ρ c main_arg11 (by decide)).trans (at_arg11_32 m ρ c)
theorem at_arg11_34 (c : Dev nD) : W34 m ρ c (Proc.devRef .tc main_arg11) = m ((c : Thread nD τ).loc main_arg11) :=
  (W34_of_ne m ρ c main_arg11 (by decide)).trans (at_arg11_33 m ρ c)
theorem at_arg11_35 (c : Dev nD) : W35 m ρ c (Proc.devRef .tc main_arg11) = m ((c : Thread nD τ).loc main_arg11) :=
  (host17_keep m ρ c main_arg11 (by decide)).trans (at_arg11_34 m ρ c)
theorem at_arg11_36 (c : Dev nD) : W36 m ρ c (Proc.devRef .tc main_arg11) = m ((c : Thread nD τ).loc main_arg11) :=
  (W36_of_ne m ρ c main_arg11 (by decide)).trans (at_arg11_35 m ρ c)
theorem at_arg11_37 (c : Dev nD) : W37 m ρ c (Proc.devRef .tc main_arg11) = m ((c : Thread nD τ).loc main_arg11) :=
  (host18_keep m ρ c main_arg11 (by decide)).trans (at_arg11_36 m ρ c)
theorem at_arg11_38 (c : Dev nD) : W38 m ρ c (Proc.devRef .tc main_arg11) = m ((c : Thread nD τ).loc main_arg11) :=
  (W38_of_ne m ρ c main_arg11 (by decide)).trans (at_arg11_37 m ρ c)
theorem at_arg11_39 (c : Dev nD) : W39 m ρ c (Proc.devRef .tc main_arg11) = m ((c : Thread nD τ).loc main_arg11) :=
  (host19_keep m ρ c main_arg11 (by decide)).trans (at_arg11_38 m ρ c)
theorem at_arg11_40 (c : Dev nD) : W40 m ρ c (Proc.devRef .tc main_arg11) = m ((c : Thread nD τ).loc main_arg11) :=
  (W40_of_ne m ρ c main_arg11 (by decide)).trans (at_arg11_39 m ρ c)
theorem at_arg11_41 (c : Dev nD) : W41 m ρ c (Proc.devRef .tc main_arg11) = m ((c : Thread nD τ).loc main_arg11) :=
  (host20_keep m ρ c main_arg11 (by decide)).trans (at_arg11_40 m ρ c)
theorem at_arg11_42 (c : Dev nD) : W42 m ρ c (Proc.devRef .tc main_arg11) = m ((c : Thread nD τ).loc main_arg11) :=
  (W42_of_ne m ρ c main_arg11 (by decide)).trans (at_arg11_41 m ρ c)
theorem at_arg11_43 (c : Dev nD) : W43 m ρ c (Proc.devRef .tc main_arg11) = m ((c : Thread nD τ).loc main_arg11) :=
  (host21_keep m ρ c main_arg11 (by decide)).trans (at_arg11_42 m ρ c)
theorem at_arg11_44 (c : Dev nD) : W44 m ρ c (Proc.devRef .tc main_arg11) = m ((c : Thread nD τ).loc main_arg11) :=
  (W44_of_ne m ρ c main_arg11 (by decide)).trans (at_arg11_43 m ρ c)
theorem at_arg11_45 (c : Dev nD) : W45 m ρ c (Proc.devRef .tc main_arg11) = m ((c : Thread nD τ).loc main_arg11) :=
  (host22_keep m ρ c main_arg11 (by decide)).trans (at_arg11_44 m ρ c)
theorem at_arg11_46 (c : Dev nD) : W46 m ρ c (Proc.devRef .tc main_arg11) = m ((c : Thread nD τ).loc main_arg11) :=
  (W46_of_ne m ρ c main_arg11 (by decide)).trans (at_arg11_45 m ρ c)
theorem at_arg11_47 (c : Dev nD) : W47 m ρ c (Proc.devRef .tc main_arg11) = m ((c : Thread nD τ).loc main_arg11) :=
  (host23_keep m ρ c main_arg11 (by decide)).trans (at_arg11_46 m ρ c)
theorem at_arg11_48 (c : Dev nD) : W48 m ρ c (Proc.devRef .tc main_arg11) = m ((c : Thread nD τ).loc main_arg11) :=
  (W48_of_ne m ρ c main_arg11 (by decide)).trans (at_arg11_47 m ρ c)

theorem at_arg4_0 (c : Dev nD) : W0 m ρ c (Proc.devRef .tc main_arg4) = m ((c : Thread nD τ).loc main_arg4) := rfl
theorem at_arg4_1 (c : Dev nD) : W1 m ρ c (Proc.devRef .tc main_arg4) = m ((c : Thread nD τ).loc main_arg4) :=
  (host0_keep m ρ c main_arg4 (by decide)).trans (at_arg4_0 m ρ c)
theorem at_arg4_2 (c : Dev nD) : W2 m ρ c (Proc.devRef .tc main_arg4) = m ((c : Thread nD τ).loc main_arg4) :=
  (W2_of_ne m ρ c main_arg4 (by decide)).trans (at_arg4_1 m ρ c)
theorem at_arg4_3 (c : Dev nD) : W3 m ρ c (Proc.devRef .tc main_arg4) = m ((c : Thread nD τ).loc main_arg4) :=
  (host1_keep m ρ c main_arg4 (by decide)).trans (at_arg4_2 m ρ c)
theorem at_arg4_4 (c : Dev nD) : W4 m ρ c (Proc.devRef .tc main_arg4) = m ((c : Thread nD τ).loc main_arg4) :=
  (W4_of_ne m ρ c main_arg4 (by decide)).trans (at_arg4_3 m ρ c)
theorem at_arg4_5 (c : Dev nD) : W5 m ρ c (Proc.devRef .tc main_arg4) = m ((c : Thread nD τ).loc main_arg4) :=
  (host2_keep m ρ c main_arg4 (by decide)).trans (at_arg4_4 m ρ c)
theorem at_arg4_6 (c : Dev nD) : W6 m ρ c (Proc.devRef .tc main_arg4) = m ((c : Thread nD τ).loc main_arg4) :=
  (W6_of_ne m ρ c main_arg4 (by decide)).trans (at_arg4_5 m ρ c)
theorem at_arg4_7 (c : Dev nD) : W7 m ρ c (Proc.devRef .tc main_arg4) = m ((c : Thread nD τ).loc main_arg4) :=
  (host3_keep m ρ c main_arg4 (by decide)).trans (at_arg4_6 m ρ c)
theorem at_arg4_8 (c : Dev nD) : W8 m ρ c (Proc.devRef .tc main_arg4) = m ((c : Thread nD τ).loc main_arg4) :=
  (W8_of_ne m ρ c main_arg4 (by decide)).trans (at_arg4_7 m ρ c)
theorem at_arg4_9 (c : Dev nD) : W9 m ρ c (Proc.devRef .tc main_arg4) = m ((c : Thread nD τ).loc main_arg4) :=
  (host4_keep m ρ c main_arg4 (by decide)).trans (at_arg4_8 m ρ c)
theorem at_arg4_10 (c : Dev nD) : W10 m ρ c (Proc.devRef .tc main_arg4) = m ((c : Thread nD τ).loc main_arg4) :=
  (W10_of_ne m ρ c main_arg4 (by decide)).trans (at_arg4_9 m ρ c)
theorem at_arg4_11 (c : Dev nD) : W11 m ρ c (Proc.devRef .tc main_arg4) = m ((c : Thread nD τ).loc main_arg4) :=
  (host5_keep m ρ c main_arg4 (by decide)).trans (at_arg4_10 m ρ c)
theorem at_arg4_12 (c : Dev nD) : W12 m ρ c (Proc.devRef .tc main_arg4) = m ((c : Thread nD τ).loc main_arg4) :=
  (W12_of_ne m ρ c main_arg4 (by decide)).trans (at_arg4_11 m ρ c)
theorem at_arg4_13 (c : Dev nD) : W13 m ρ c (Proc.devRef .tc main_arg4) = m ((c : Thread nD τ).loc main_arg4) :=
  (host6_keep m ρ c main_arg4 (by decide)).trans (at_arg4_12 m ρ c)
theorem at_arg4_14 (c : Dev nD) : W14 m ρ c (Proc.devRef .tc main_arg4) = m ((c : Thread nD τ).loc main_arg4) :=
  (W14_of_ne m ρ c main_arg4 (by decide)).trans (at_arg4_13 m ρ c)
theorem at_arg4_15 (c : Dev nD) : W15 m ρ c (Proc.devRef .tc main_arg4) = m ((c : Thread nD τ).loc main_arg4) :=
  (host7_keep m ρ c main_arg4 (by decide)).trans (at_arg4_14 m ρ c)
theorem at_arg4_16 (c : Dev nD) : W16 m ρ c (Proc.devRef .tc main_arg4) = m ((c : Thread nD τ).loc main_arg4) :=
  (W16_of_ne m ρ c main_arg4 (by decide)).trans (at_arg4_15 m ρ c)
theorem at_arg4_17 (c : Dev nD) : W17 m ρ c (Proc.devRef .tc main_arg4) = m ((c : Thread nD τ).loc main_arg4) :=
  (host8_keep m ρ c main_arg4 (by decide)).trans (at_arg4_16 m ρ c)
theorem at_arg4_18 (c : Dev nD) : W18 m ρ c (Proc.devRef .tc main_arg4) = m ((c : Thread nD τ).loc main_arg4) :=
  (W18_of_ne m ρ c main_arg4 (by decide)).trans (at_arg4_17 m ρ c)
theorem at_arg4_19 (c : Dev nD) : W19 m ρ c (Proc.devRef .tc main_arg4) = m ((c : Thread nD τ).loc main_arg4) :=
  (host9_keep m ρ c main_arg4 (by decide)).trans (at_arg4_18 m ρ c)
theorem at_arg4_20 (c : Dev nD) : W20 m ρ c (Proc.devRef .tc main_arg4) = m ((c : Thread nD τ).loc main_arg4) :=
  (W20_of_ne m ρ c main_arg4 (by decide)).trans (at_arg4_19 m ρ c)
theorem at_arg4_21 (c : Dev nD) : W21 m ρ c (Proc.devRef .tc main_arg4) = m ((c : Thread nD τ).loc main_arg4) :=
  (host10_keep m ρ c main_arg4 (by decide)).trans (at_arg4_20 m ρ c)
theorem at_arg4_22 (c : Dev nD) : W22 m ρ c (Proc.devRef .tc main_arg4) = m ((c : Thread nD τ).loc main_arg4) :=
  (W22_of_ne m ρ c main_arg4 (by decide)).trans (at_arg4_21 m ρ c)
theorem at_arg4_23 (c : Dev nD) : W23 m ρ c (Proc.devRef .tc main_arg4) = m ((c : Thread nD τ).loc main_arg4) :=
  (host11_keep m ρ c main_arg4 (by decide)).trans (at_arg4_22 m ρ c)
theorem at_arg4_24 (c : Dev nD) : W24 m ρ c (Proc.devRef .tc main_arg4) = m ((c : Thread nD τ).loc main_arg4) :=
  (W24_of_ne m ρ c main_arg4 (by decide)).trans (at_arg4_23 m ρ c)
theorem at_arg4_25 (c : Dev nD) : W25 m ρ c (Proc.devRef .tc main_arg4) = m ((c : Thread nD τ).loc main_arg4) :=
  (host12_keep m ρ c main_arg4 (by decide)).trans (at_arg4_24 m ρ c)
theorem at_arg4_26 (c : Dev nD) : W26 m ρ c (Proc.devRef .tc main_arg4) = m ((c : Thread nD τ).loc main_arg4) :=
  (W26_of_ne m ρ c main_arg4 (by decide)).trans (at_arg4_25 m ρ c)
theorem at_arg4_27 (c : Dev nD) : W27 m ρ c (Proc.devRef .tc main_arg4) = m ((c : Thread nD τ).loc main_arg4) :=
  (host13_keep m ρ c main_arg4 (by decide)).trans (at_arg4_26 m ρ c)
theorem at_arg4_28 (c : Dev nD) : W28 m ρ c (Proc.devRef .tc main_arg4) = m ((c : Thread nD τ).loc main_arg4) :=
  (W28_of_ne m ρ c main_arg4 (by decide)).trans (at_arg4_27 m ρ c)
theorem at_arg4_29 (c : Dev nD) : W29 m ρ c (Proc.devRef .tc main_arg4) = m ((c : Thread nD τ).loc main_arg4) :=
  (host14_keep m ρ c main_arg4 (by decide)).trans (at_arg4_28 m ρ c)
theorem at_arg4_30 (c : Dev nD) : W30 m ρ c (Proc.devRef .tc main_arg4) = m ((c : Thread nD τ).loc main_arg4) :=
  (W30_of_ne m ρ c main_arg4 (by decide)).trans (at_arg4_29 m ρ c)
theorem at_arg4_31 (c : Dev nD) : W31 m ρ c (Proc.devRef .tc main_arg4) = m ((c : Thread nD τ).loc main_arg4) :=
  (host15_keep m ρ c main_arg4 (by decide)).trans (at_arg4_30 m ρ c)
theorem at_arg4_32 (c : Dev nD) : W32 m ρ c (Proc.devRef .tc main_arg4) = m ((c : Thread nD τ).loc main_arg4) :=
  (W32_of_ne m ρ c main_arg4 (by decide)).trans (at_arg4_31 m ρ c)
theorem at_arg4_33 (c : Dev nD) : W33 m ρ c (Proc.devRef .tc main_arg4) = m ((c : Thread nD τ).loc main_arg4) :=
  (host16_keep m ρ c main_arg4 (by decide)).trans (at_arg4_32 m ρ c)
theorem at_arg4_34 (c : Dev nD) : W34 m ρ c (Proc.devRef .tc main_arg4) = m ((c : Thread nD τ).loc main_arg4) :=
  (W34_of_ne m ρ c main_arg4 (by decide)).trans (at_arg4_33 m ρ c)
theorem at_arg4_35 (c : Dev nD) : W35 m ρ c (Proc.devRef .tc main_arg4) = m ((c : Thread nD τ).loc main_arg4) :=
  (host17_keep m ρ c main_arg4 (by decide)).trans (at_arg4_34 m ρ c)
theorem at_arg4_36 (c : Dev nD) : W36 m ρ c (Proc.devRef .tc main_arg4) = m ((c : Thread nD τ).loc main_arg4) :=
  (W36_of_ne m ρ c main_arg4 (by decide)).trans (at_arg4_35 m ρ c)
theorem at_arg4_37 (c : Dev nD) : W37 m ρ c (Proc.devRef .tc main_arg4) = m ((c : Thread nD τ).loc main_arg4) :=
  (host18_keep m ρ c main_arg4 (by decide)).trans (at_arg4_36 m ρ c)
theorem at_arg4_38 (c : Dev nD) : W38 m ρ c (Proc.devRef .tc main_arg4) = m ((c : Thread nD τ).loc main_arg4) :=
  (W38_of_ne m ρ c main_arg4 (by decide)).trans (at_arg4_37 m ρ c)
theorem at_arg4_39 (c : Dev nD) : W39 m ρ c (Proc.devRef .tc main_arg4) = m ((c : Thread nD τ).loc main_arg4) :=
  (host19_keep m ρ c main_arg4 (by decide)).trans (at_arg4_38 m ρ c)
theorem at_arg4_40 (c : Dev nD) : W40 m ρ c (Proc.devRef .tc main_arg4) = m ((c : Thread nD τ).loc main_arg4) :=
  (W40_of_ne m ρ c main_arg4 (by decide)).trans (at_arg4_39 m ρ c)
theorem at_arg4_41 (c : Dev nD) : W41 m ρ c (Proc.devRef .tc main_arg4) = m ((c : Thread nD τ).loc main_arg4) :=
  (host20_keep m ρ c main_arg4 (by decide)).trans (at_arg4_40 m ρ c)
theorem at_arg4_42 (c : Dev nD) : W42 m ρ c (Proc.devRef .tc main_arg4) = m ((c : Thread nD τ).loc main_arg4) :=
  (W42_of_ne m ρ c main_arg4 (by decide)).trans (at_arg4_41 m ρ c)
theorem at_arg4_43 (c : Dev nD) : W43 m ρ c (Proc.devRef .tc main_arg4) = m ((c : Thread nD τ).loc main_arg4) :=
  (host21_keep m ρ c main_arg4 (by decide)).trans (at_arg4_42 m ρ c)
theorem at_arg4_44 (c : Dev nD) : W44 m ρ c (Proc.devRef .tc main_arg4) = m ((c : Thread nD τ).loc main_arg4) :=
  (W44_of_ne m ρ c main_arg4 (by decide)).trans (at_arg4_43 m ρ c)
theorem at_arg4_45 (c : Dev nD) : W45 m ρ c (Proc.devRef .tc main_arg4) = m ((c : Thread nD τ).loc main_arg4) :=
  (host22_keep m ρ c main_arg4 (by decide)).trans (at_arg4_44 m ρ c)
theorem at_arg4_46 (c : Dev nD) : W46 m ρ c (Proc.devRef .tc main_arg4) = m ((c : Thread nD τ).loc main_arg4) :=
  (W46_of_ne m ρ c main_arg4 (by decide)).trans (at_arg4_45 m ρ c)
theorem at_arg4_47 (c : Dev nD) : W47 m ρ c (Proc.devRef .tc main_arg4) = m ((c : Thread nD τ).loc main_arg4) :=
  (host23_keep m ρ c main_arg4 (by decide)).trans (at_arg4_46 m ρ c)
theorem at_arg4_48 (c : Dev nD) : W48 m ρ c (Proc.devRef .tc main_arg4) = m ((c : Thread nD τ).loc main_arg4) :=
  (W48_of_ne m ρ c main_arg4 (by decide)).trans (at_arg4_47 m ρ c)

theorem at_arg5_0 (c : Dev nD) : W0 m ρ c (Proc.devRef .tc main_arg5) = m ((c : Thread nD τ).loc main_arg5) := rfl
theorem at_arg5_1 (c : Dev nD) : W1 m ρ c (Proc.devRef .tc main_arg5) = m ((c : Thread nD τ).loc main_arg5) :=
  (host0_keep m ρ c main_arg5 (by decide)).trans (at_arg5_0 m ρ c)
theorem at_arg5_2 (c : Dev nD) : W2 m ρ c (Proc.devRef .tc main_arg5) = m ((c : Thread nD τ).loc main_arg5) :=
  (W2_of_ne m ρ c main_arg5 (by decide)).trans (at_arg5_1 m ρ c)
theorem at_arg5_3 (c : Dev nD) : W3 m ρ c (Proc.devRef .tc main_arg5) = m ((c : Thread nD τ).loc main_arg5) :=
  (host1_keep m ρ c main_arg5 (by decide)).trans (at_arg5_2 m ρ c)
theorem at_arg5_4 (c : Dev nD) : W4 m ρ c (Proc.devRef .tc main_arg5) = m ((c : Thread nD τ).loc main_arg5) :=
  (W4_of_ne m ρ c main_arg5 (by decide)).trans (at_arg5_3 m ρ c)
theorem at_arg5_5 (c : Dev nD) : W5 m ρ c (Proc.devRef .tc main_arg5) = m ((c : Thread nD τ).loc main_arg5) :=
  (host2_keep m ρ c main_arg5 (by decide)).trans (at_arg5_4 m ρ c)
theorem at_arg5_6 (c : Dev nD) : W6 m ρ c (Proc.devRef .tc main_arg5) = m ((c : Thread nD τ).loc main_arg5) :=
  (W6_of_ne m ρ c main_arg5 (by decide)).trans (at_arg5_5 m ρ c)
theorem at_arg5_7 (c : Dev nD) : W7 m ρ c (Proc.devRef .tc main_arg5) = m ((c : Thread nD τ).loc main_arg5) :=
  (host3_keep m ρ c main_arg5 (by decide)).trans (at_arg5_6 m ρ c)
theorem at_arg5_8 (c : Dev nD) : W8 m ρ c (Proc.devRef .tc main_arg5) = m ((c : Thread nD τ).loc main_arg5) :=
  (W8_of_ne m ρ c main_arg5 (by decide)).trans (at_arg5_7 m ρ c)
theorem at_arg5_9 (c : Dev nD) : W9 m ρ c (Proc.devRef .tc main_arg5) = m ((c : Thread nD τ).loc main_arg5) :=
  (host4_keep m ρ c main_arg5 (by decide)).trans (at_arg5_8 m ρ c)
theorem at_arg5_10 (c : Dev nD) : W10 m ρ c (Proc.devRef .tc main_arg5) = m ((c : Thread nD τ).loc main_arg5) :=
  (W10_of_ne m ρ c main_arg5 (by decide)).trans (at_arg5_9 m ρ c)
theorem at_arg5_11 (c : Dev nD) : W11 m ρ c (Proc.devRef .tc main_arg5) = m ((c : Thread nD τ).loc main_arg5) :=
  (host5_keep m ρ c main_arg5 (by decide)).trans (at_arg5_10 m ρ c)
theorem at_arg5_12 (c : Dev nD) : W12 m ρ c (Proc.devRef .tc main_arg5) = m ((c : Thread nD τ).loc main_arg5) :=
  (W12_of_ne m ρ c main_arg5 (by decide)).trans (at_arg5_11 m ρ c)
theorem at_arg5_13 (c : Dev nD) : W13 m ρ c (Proc.devRef .tc main_arg5) = m ((c : Thread nD τ).loc main_arg5) :=
  (host6_keep m ρ c main_arg5 (by decide)).trans (at_arg5_12 m ρ c)
theorem at_arg5_14 (c : Dev nD) : W14 m ρ c (Proc.devRef .tc main_arg5) = m ((c : Thread nD τ).loc main_arg5) :=
  (W14_of_ne m ρ c main_arg5 (by decide)).trans (at_arg5_13 m ρ c)
theorem at_arg5_15 (c : Dev nD) : W15 m ρ c (Proc.devRef .tc main_arg5) = m ((c : Thread nD τ).loc main_arg5) :=
  (host7_keep m ρ c main_arg5 (by decide)).trans (at_arg5_14 m ρ c)
theorem at_arg5_16 (c : Dev nD) : W16 m ρ c (Proc.devRef .tc main_arg5) = m ((c : Thread nD τ).loc main_arg5) :=
  (W16_of_ne m ρ c main_arg5 (by decide)).trans (at_arg5_15 m ρ c)
theorem at_arg5_17 (c : Dev nD) : W17 m ρ c (Proc.devRef .tc main_arg5) = m ((c : Thread nD τ).loc main_arg5) :=
  (host8_keep m ρ c main_arg5 (by decide)).trans (at_arg5_16 m ρ c)
theorem at_arg5_18 (c : Dev nD) : W18 m ρ c (Proc.devRef .tc main_arg5) = m ((c : Thread nD τ).loc main_arg5) :=
  (W18_of_ne m ρ c main_arg5 (by decide)).trans (at_arg5_17 m ρ c)
theorem at_arg5_19 (c : Dev nD) : W19 m ρ c (Proc.devRef .tc main_arg5) = m ((c : Thread nD τ).loc main_arg5) :=
  (host9_keep m ρ c main_arg5 (by decide)).trans (at_arg5_18 m ρ c)
theorem at_arg5_20 (c : Dev nD) : W20 m ρ c (Proc.devRef .tc main_arg5) = m ((c : Thread nD τ).loc main_arg5) :=
  (W20_of_ne m ρ c main_arg5 (by decide)).trans (at_arg5_19 m ρ c)
theorem at_arg5_21 (c : Dev nD) : W21 m ρ c (Proc.devRef .tc main_arg5) = m ((c : Thread nD τ).loc main_arg5) :=
  (host10_keep m ρ c main_arg5 (by decide)).trans (at_arg5_20 m ρ c)
theorem at_arg5_22 (c : Dev nD) : W22 m ρ c (Proc.devRef .tc main_arg5) = m ((c : Thread nD τ).loc main_arg5) :=
  (W22_of_ne m ρ c main_arg5 (by decide)).trans (at_arg5_21 m ρ c)
theorem at_arg5_23 (c : Dev nD) : W23 m ρ c (Proc.devRef .tc main_arg5) = m ((c : Thread nD τ).loc main_arg5) :=
  (host11_keep m ρ c main_arg5 (by decide)).trans (at_arg5_22 m ρ c)
theorem at_arg5_24 (c : Dev nD) : W24 m ρ c (Proc.devRef .tc main_arg5) = m ((c : Thread nD τ).loc main_arg5) :=
  (W24_of_ne m ρ c main_arg5 (by decide)).trans (at_arg5_23 m ρ c)
theorem at_arg5_25 (c : Dev nD) : W25 m ρ c (Proc.devRef .tc main_arg5) = m ((c : Thread nD τ).loc main_arg5) :=
  (host12_keep m ρ c main_arg5 (by decide)).trans (at_arg5_24 m ρ c)
theorem at_arg5_26 (c : Dev nD) : W26 m ρ c (Proc.devRef .tc main_arg5) = m ((c : Thread nD τ).loc main_arg5) :=
  (W26_of_ne m ρ c main_arg5 (by decide)).trans (at_arg5_25 m ρ c)
theorem at_arg5_27 (c : Dev nD) : W27 m ρ c (Proc.devRef .tc main_arg5) = m ((c : Thread nD τ).loc main_arg5) :=
  (host13_keep m ρ c main_arg5 (by decide)).trans (at_arg5_26 m ρ c)
theorem at_arg5_28 (c : Dev nD) : W28 m ρ c (Proc.devRef .tc main_arg5) = m ((c : Thread nD τ).loc main_arg5) :=
  (W28_of_ne m ρ c main_arg5 (by decide)).trans (at_arg5_27 m ρ c)
theorem at_arg5_29 (c : Dev nD) : W29 m ρ c (Proc.devRef .tc main_arg5) = m ((c : Thread nD τ).loc main_arg5) :=
  (host14_keep m ρ c main_arg5 (by decide)).trans (at_arg5_28 m ρ c)
theorem at_arg5_30 (c : Dev nD) : W30 m ρ c (Proc.devRef .tc main_arg5) = m ((c : Thread nD τ).loc main_arg5) :=
  (W30_of_ne m ρ c main_arg5 (by decide)).trans (at_arg5_29 m ρ c)
theorem at_arg5_31 (c : Dev nD) : W31 m ρ c (Proc.devRef .tc main_arg5) = m ((c : Thread nD τ).loc main_arg5) :=
  (host15_keep m ρ c main_arg5 (by decide)).trans (at_arg5_30 m ρ c)
theorem at_arg5_32 (c : Dev nD) : W32 m ρ c (Proc.devRef .tc main_arg5) = m ((c : Thread nD τ).loc main_arg5) :=
  (W32_of_ne m ρ c main_arg5 (by decide)).trans (at_arg5_31 m ρ c)
theorem at_arg5_33 (c : Dev nD) : W33 m ρ c (Proc.devRef .tc main_arg5) = m ((c : Thread nD τ).loc main_arg5) :=
  (host16_keep m ρ c main_arg5 (by decide)).trans (at_arg5_32 m ρ c)
theorem at_arg5_34 (c : Dev nD) : W34 m ρ c (Proc.devRef .tc main_arg5) = m ((c : Thread nD τ).loc main_arg5) :=
  (W34_of_ne m ρ c main_arg5 (by decide)).trans (at_arg5_33 m ρ c)
theorem at_arg5_35 (c : Dev nD) : W35 m ρ c (Proc.devRef .tc main_arg5) = m ((c : Thread nD τ).loc main_arg5) :=
  (host17_keep m ρ c main_arg5 (by decide)).trans (at_arg5_34 m ρ c)
theorem at_arg5_36 (c : Dev nD) : W36 m ρ c (Proc.devRef .tc main_arg5) = m ((c : Thread nD τ).loc main_arg5) :=
  (W36_of_ne m ρ c main_arg5 (by decide)).trans (at_arg5_35 m ρ c)
theorem at_arg5_37 (c : Dev nD) : W37 m ρ c (Proc.devRef .tc main_arg5) = m ((c : Thread nD τ).loc main_arg5) :=
  (host18_keep m ρ c main_arg5 (by decide)).trans (at_arg5_36 m ρ c)
theorem at_arg5_38 (c : Dev nD) : W38 m ρ c (Proc.devRef .tc main_arg5) = m ((c : Thread nD τ).loc main_arg5) :=
  (W38_of_ne m ρ c main_arg5 (by decide)).trans (at_arg5_37 m ρ c)
theorem at_arg5_39 (c : Dev nD) : W39 m ρ c (Proc.devRef .tc main_arg5) = m ((c : Thread nD τ).loc main_arg5) :=
  (host19_keep m ρ c main_arg5 (by decide)).trans (at_arg5_38 m ρ c)
theorem at_arg5_40 (c : Dev nD) : W40 m ρ c (Proc.devRef .tc main_arg5) = m ((c : Thread nD τ).loc main_arg5) :=
  (W40_of_ne m ρ c main_arg5 (by decide)).trans (at_arg5_39 m ρ c)
theorem at_arg5_41 (c : Dev nD) : W41 m ρ c (Proc.devRef .tc main_arg5) = m ((c : Thread nD τ).loc main_arg5) :=
  (host20_keep m ρ c main_arg5 (by decide)).trans (at_arg5_40 m ρ c)
theorem at_arg5_42 (c : Dev nD) : W42 m ρ c (Proc.devRef .tc main_arg5) = m ((c : Thread nD τ).loc main_arg5) :=
  (W42_of_ne m ρ c main_arg5 (by decide)).trans (at_arg5_41 m ρ c)
theorem at_arg5_43 (c : Dev nD) : W43 m ρ c (Proc.devRef .tc main_arg5) = m ((c : Thread nD τ).loc main_arg5) :=
  (host21_keep m ρ c main_arg5 (by decide)).trans (at_arg5_42 m ρ c)
theorem at_arg5_44 (c : Dev nD) : W44 m ρ c (Proc.devRef .tc main_arg5) = m ((c : Thread nD τ).loc main_arg5) :=
  (W44_of_ne m ρ c main_arg5 (by decide)).trans (at_arg5_43 m ρ c)
theorem at_arg5_45 (c : Dev nD) : W45 m ρ c (Proc.devRef .tc main_arg5) = m ((c : Thread nD τ).loc main_arg5) :=
  (host22_keep m ρ c main_arg5 (by decide)).trans (at_arg5_44 m ρ c)
theorem at_arg5_46 (c : Dev nD) : W46 m ρ c (Proc.devRef .tc main_arg5) = m ((c : Thread nD τ).loc main_arg5) :=
  (W46_of_ne m ρ c main_arg5 (by decide)).trans (at_arg5_45 m ρ c)
theorem at_arg5_47 (c : Dev nD) : W47 m ρ c (Proc.devRef .tc main_arg5) = m ((c : Thread nD τ).loc main_arg5) :=
  (host23_keep m ρ c main_arg5 (by decide)).trans (at_arg5_46 m ρ c)
theorem at_arg5_48 (c : Dev nD) : W48 m ρ c (Proc.devRef .tc main_arg5) = m ((c : Thread nD τ).loc main_arg5) :=
  (W48_of_ne m ρ c main_arg5 (by decide)).trans (at_arg5_47 m ρ c)
theorem at_arg5_49 (c : Dev nD) : W49 m ρ c (Proc.devRef .tc main_arg5) = m ((c : Thread nD τ).loc main_arg5) :=
  (host24_keep m ρ c main_arg5 (by decide)).trans (at_arg5_48 m ρ c)
theorem at_arg5_50 (c : Dev nD) : W50 m ρ c (Proc.devRef .tc main_arg5) = m ((c : Thread nD τ).loc main_arg5) :=
  (W50_of_ne m ρ c main_arg5 (by decide)).trans (at_arg5_49 m ρ c)

theorem at_arg6_0 (c : Dev nD) : W0 m ρ c (Proc.devRef .tc main_arg6) = m ((c : Thread nD τ).loc main_arg6) := rfl
theorem at_arg6_1 (c : Dev nD) : W1 m ρ c (Proc.devRef .tc main_arg6) = m ((c : Thread nD τ).loc main_arg6) :=
  (host0_keep m ρ c main_arg6 (by decide)).trans (at_arg6_0 m ρ c)
theorem at_arg6_2 (c : Dev nD) : W2 m ρ c (Proc.devRef .tc main_arg6) = m ((c : Thread nD τ).loc main_arg6) :=
  (W2_of_ne m ρ c main_arg6 (by decide)).trans (at_arg6_1 m ρ c)
theorem at_arg6_3 (c : Dev nD) : W3 m ρ c (Proc.devRef .tc main_arg6) = m ((c : Thread nD τ).loc main_arg6) :=
  (host1_keep m ρ c main_arg6 (by decide)).trans (at_arg6_2 m ρ c)
theorem at_arg6_4 (c : Dev nD) : W4 m ρ c (Proc.devRef .tc main_arg6) = m ((c : Thread nD τ).loc main_arg6) :=
  (W4_of_ne m ρ c main_arg6 (by decide)).trans (at_arg6_3 m ρ c)
theorem at_arg6_5 (c : Dev nD) : W5 m ρ c (Proc.devRef .tc main_arg6) = m ((c : Thread nD τ).loc main_arg6) :=
  (host2_keep m ρ c main_arg6 (by decide)).trans (at_arg6_4 m ρ c)
theorem at_arg6_6 (c : Dev nD) : W6 m ρ c (Proc.devRef .tc main_arg6) = m ((c : Thread nD τ).loc main_arg6) :=
  (W6_of_ne m ρ c main_arg6 (by decide)).trans (at_arg6_5 m ρ c)
theorem at_arg6_7 (c : Dev nD) : W7 m ρ c (Proc.devRef .tc main_arg6) = m ((c : Thread nD τ).loc main_arg6) :=
  (host3_keep m ρ c main_arg6 (by decide)).trans (at_arg6_6 m ρ c)
theorem at_arg6_8 (c : Dev nD) : W8 m ρ c (Proc.devRef .tc main_arg6) = m ((c : Thread nD τ).loc main_arg6) :=
  (W8_of_ne m ρ c main_arg6 (by decide)).trans (at_arg6_7 m ρ c)
theorem at_arg6_9 (c : Dev nD) : W9 m ρ c (Proc.devRef .tc main_arg6) = m ((c : Thread nD τ).loc main_arg6) :=
  (host4_keep m ρ c main_arg6 (by decide)).trans (at_arg6_8 m ρ c)
theorem at_arg6_10 (c : Dev nD) : W10 m ρ c (Proc.devRef .tc main_arg6) = m ((c : Thread nD τ).loc main_arg6) :=
  (W10_of_ne m ρ c main_arg6 (by decide)).trans (at_arg6_9 m ρ c)
theorem at_arg6_11 (c : Dev nD) : W11 m ρ c (Proc.devRef .tc main_arg6) = m ((c : Thread nD τ).loc main_arg6) :=
  (host5_keep m ρ c main_arg6 (by decide)).trans (at_arg6_10 m ρ c)
theorem at_arg6_12 (c : Dev nD) : W12 m ρ c (Proc.devRef .tc main_arg6) = m ((c : Thread nD τ).loc main_arg6) :=
  (W12_of_ne m ρ c main_arg6 (by decide)).trans (at_arg6_11 m ρ c)
theorem at_arg6_13 (c : Dev nD) : W13 m ρ c (Proc.devRef .tc main_arg6) = m ((c : Thread nD τ).loc main_arg6) :=
  (host6_keep m ρ c main_arg6 (by decide)).trans (at_arg6_12 m ρ c)
theorem at_arg6_14 (c : Dev nD) : W14 m ρ c (Proc.devRef .tc main_arg6) = m ((c : Thread nD τ).loc main_arg6) :=
  (W14_of_ne m ρ c main_arg6 (by decide)).trans (at_arg6_13 m ρ c)
theorem at_arg6_15 (c : Dev nD) : W15 m ρ c (Proc.devRef .tc main_arg6) = m ((c : Thread nD τ).loc main_arg6) :=
  (host7_keep m ρ c main_arg6 (by decide)).trans (at_arg6_14 m ρ c)
theorem at_arg6_16 (c : Dev nD) : W16 m ρ c (Proc.devRef .tc main_arg6) = m ((c : Thread nD τ).loc main_arg6) :=
  (W16_of_ne m ρ c main_arg6 (by decide)).trans (at_arg6_15 m ρ c)
theorem at_arg6_17 (c : Dev nD) : W17 m ρ c (Proc.devRef .tc main_arg6) = m ((c : Thread nD τ).loc main_arg6) :=
  (host8_keep m ρ c main_arg6 (by decide)).trans (at_arg6_16 m ρ c)
theorem at_arg6_18 (c : Dev nD) : W18 m ρ c (Proc.devRef .tc main_arg6) = m ((c : Thread nD τ).loc main_arg6) :=
  (W18_of_ne m ρ c main_arg6 (by decide)).trans (at_arg6_17 m ρ c)
theorem at_arg6_19 (c : Dev nD) : W19 m ρ c (Proc.devRef .tc main_arg6) = m ((c : Thread nD τ).loc main_arg6) :=
  (host9_keep m ρ c main_arg6 (by decide)).trans (at_arg6_18 m ρ c)
theorem at_arg6_20 (c : Dev nD) : W20 m ρ c (Proc.devRef .tc main_arg6) = m ((c : Thread nD τ).loc main_arg6) :=
  (W20_of_ne m ρ c main_arg6 (by decide)).trans (at_arg6_19 m ρ c)
theorem at_arg6_21 (c : Dev nD) : W21 m ρ c (Proc.devRef .tc main_arg6) = m ((c : Thread nD τ).loc main_arg6) :=
  (host10_keep m ρ c main_arg6 (by decide)).trans (at_arg6_20 m ρ c)
theorem at_arg6_22 (c : Dev nD) : W22 m ρ c (Proc.devRef .tc main_arg6) = m ((c : Thread nD τ).loc main_arg6) :=
  (W22_of_ne m ρ c main_arg6 (by decide)).trans (at_arg6_21 m ρ c)
theorem at_arg6_23 (c : Dev nD) : W23 m ρ c (Proc.devRef .tc main_arg6) = m ((c : Thread nD τ).loc main_arg6) :=
  (host11_keep m ρ c main_arg6 (by decide)).trans (at_arg6_22 m ρ c)
theorem at_arg6_24 (c : Dev nD) : W24 m ρ c (Proc.devRef .tc main_arg6) = m ((c : Thread nD τ).loc main_arg6) :=
  (W24_of_ne m ρ c main_arg6 (by decide)).trans (at_arg6_23 m ρ c)
theorem at_arg6_25 (c : Dev nD) : W25 m ρ c (Proc.devRef .tc main_arg6) = m ((c : Thread nD τ).loc main_arg6) :=
  (host12_keep m ρ c main_arg6 (by decide)).trans (at_arg6_24 m ρ c)
theorem at_arg6_26 (c : Dev nD) : W26 m ρ c (Proc.devRef .tc main_arg6) = m ((c : Thread nD τ).loc main_arg6) :=
  (W26_of_ne m ρ c main_arg6 (by decide)).trans (at_arg6_25 m ρ c)
theorem at_arg6_27 (c : Dev nD) : W27 m ρ c (Proc.devRef .tc main_arg6) = m ((c : Thread nD τ).loc main_arg6) :=
  (host13_keep m ρ c main_arg6 (by decide)).trans (at_arg6_26 m ρ c)
theorem at_arg6_28 (c : Dev nD) : W28 m ρ c (Proc.devRef .tc main_arg6) = m ((c : Thread nD τ).loc main_arg6) :=
  (W28_of_ne m ρ c main_arg6 (by decide)).trans (at_arg6_27 m ρ c)
theorem at_arg6_29 (c : Dev nD) : W29 m ρ c (Proc.devRef .tc main_arg6) = m ((c : Thread nD τ).loc main_arg6) :=
  (host14_keep m ρ c main_arg6 (by decide)).trans (at_arg6_28 m ρ c)
theorem at_arg6_30 (c : Dev nD) : W30 m ρ c (Proc.devRef .tc main_arg6) = m ((c : Thread nD τ).loc main_arg6) :=
  (W30_of_ne m ρ c main_arg6 (by decide)).trans (at_arg6_29 m ρ c)
theorem at_arg6_31 (c : Dev nD) : W31 m ρ c (Proc.devRef .tc main_arg6) = m ((c : Thread nD τ).loc main_arg6) :=
  (host15_keep m ρ c main_arg6 (by decide)).trans (at_arg6_30 m ρ c)
theorem at_arg6_32 (c : Dev nD) : W32 m ρ c (Proc.devRef .tc main_arg6) = m ((c : Thread nD τ).loc main_arg6) :=
  (W32_of_ne m ρ c main_arg6 (by decide)).trans (at_arg6_31 m ρ c)
theorem at_arg6_33 (c : Dev nD) : W33 m ρ c (Proc.devRef .tc main_arg6) = m ((c : Thread nD τ).loc main_arg6) :=
  (host16_keep m ρ c main_arg6 (by decide)).trans (at_arg6_32 m ρ c)
theorem at_arg6_34 (c : Dev nD) : W34 m ρ c (Proc.devRef .tc main_arg6) = m ((c : Thread nD τ).loc main_arg6) :=
  (W34_of_ne m ρ c main_arg6 (by decide)).trans (at_arg6_33 m ρ c)
theorem at_arg6_35 (c : Dev nD) : W35 m ρ c (Proc.devRef .tc main_arg6) = m ((c : Thread nD τ).loc main_arg6) :=
  (host17_keep m ρ c main_arg6 (by decide)).trans (at_arg6_34 m ρ c)
theorem at_arg6_36 (c : Dev nD) : W36 m ρ c (Proc.devRef .tc main_arg6) = m ((c : Thread nD τ).loc main_arg6) :=
  (W36_of_ne m ρ c main_arg6 (by decide)).trans (at_arg6_35 m ρ c)
theorem at_arg6_37 (c : Dev nD) : W37 m ρ c (Proc.devRef .tc main_arg6) = m ((c : Thread nD τ).loc main_arg6) :=
  (host18_keep m ρ c main_arg6 (by decide)).trans (at_arg6_36 m ρ c)
theorem at_arg6_38 (c : Dev nD) : W38 m ρ c (Proc.devRef .tc main_arg6) = m ((c : Thread nD τ).loc main_arg6) :=
  (W38_of_ne m ρ c main_arg6 (by decide)).trans (at_arg6_37 m ρ c)
theorem at_arg6_39 (c : Dev nD) : W39 m ρ c (Proc.devRef .tc main_arg6) = m ((c : Thread nD τ).loc main_arg6) :=
  (host19_keep m ρ c main_arg6 (by decide)).trans (at_arg6_38 m ρ c)
theorem at_arg6_40 (c : Dev nD) : W40 m ρ c (Proc.devRef .tc main_arg6) = m ((c : Thread nD τ).loc main_arg6) :=
  (W40_of_ne m ρ c main_arg6 (by decide)).trans (at_arg6_39 m ρ c)
theorem at_arg6_41 (c : Dev nD) : W41 m ρ c (Proc.devRef .tc main_arg6) = m ((c : Thread nD τ).loc main_arg6) :=
  (host20_keep m ρ c main_arg6 (by decide)).trans (at_arg6_40 m ρ c)
theorem at_arg6_42 (c : Dev nD) : W42 m ρ c (Proc.devRef .tc main_arg6) = m ((c : Thread nD τ).loc main_arg6) :=
  (W42_of_ne m ρ c main_arg6 (by decide)).trans (at_arg6_41 m ρ c)
theorem at_arg6_43 (c : Dev nD) : W43 m ρ c (Proc.devRef .tc main_arg6) = m ((c : Thread nD τ).loc main_arg6) :=
  (host21_keep m ρ c main_arg6 (by decide)).trans (at_arg6_42 m ρ c)
theorem at_arg6_44 (c : Dev nD) : W44 m ρ c (Proc.devRef .tc main_arg6) = m ((c : Thread nD τ).loc main_arg6) :=
  (W44_of_ne m ρ c main_arg6 (by decide)).trans (at_arg6_43 m ρ c)
theorem at_arg6_45 (c : Dev nD) : W45 m ρ c (Proc.devRef .tc main_arg6) = m ((c : Thread nD τ).loc main_arg6) :=
  (host22_keep m ρ c main_arg6 (by decide)).trans (at_arg6_44 m ρ c)
theorem at_arg6_46 (c : Dev nD) : W46 m ρ c (Proc.devRef .tc main_arg6) = m ((c : Thread nD τ).loc main_arg6) :=
  (W46_of_ne m ρ c main_arg6 (by decide)).trans (at_arg6_45 m ρ c)
theorem at_arg6_47 (c : Dev nD) : W47 m ρ c (Proc.devRef .tc main_arg6) = m ((c : Thread nD τ).loc main_arg6) :=
  (host23_keep m ρ c main_arg6 (by decide)).trans (at_arg6_46 m ρ c)
theorem at_arg6_48 (c : Dev nD) : W48 m ρ c (Proc.devRef .tc main_arg6) = m ((c : Thread nD τ).loc main_arg6) :=
  (W48_of_ne m ρ c main_arg6 (by decide)).trans (at_arg6_47 m ρ c)
theorem at_arg6_49 (c : Dev nD) : W49 m ρ c (Proc.devRef .tc main_arg6) = m ((c : Thread nD τ).loc main_arg6) :=
  (host24_keep m ρ c main_arg6 (by decide)).trans (at_arg6_48 m ρ c)
theorem at_arg6_50 (c : Dev nD) : W50 m ρ c (Proc.devRef .tc main_arg6) = m ((c : Thread nD τ).loc main_arg6) :=
  (W50_of_ne m ρ c main_arg6 (by decide)).trans (at_arg6_49 m ρ c)

theorem at_arg7_0 (c : Dev nD) : W0 m ρ c (Proc.devRef .tc main_arg7) = m ((c : Thread nD τ).loc main_arg7) := rfl
theorem at_arg7_1 (c : Dev nD) : W1 m ρ c (Proc.devRef .tc main_arg7) = m ((c : Thread nD τ).loc main_arg7) :=
  (host0_keep m ρ c main_arg7 (by decide)).trans (at_arg7_0 m ρ c)
theorem at_arg7_2 (c : Dev nD) : W2 m ρ c (Proc.devRef .tc main_arg7) = m ((c : Thread nD τ).loc main_arg7) :=
  (W2_of_ne m ρ c main_arg7 (by decide)).trans (at_arg7_1 m ρ c)
theorem at_arg7_3 (c : Dev nD) : W3 m ρ c (Proc.devRef .tc main_arg7) = m ((c : Thread nD τ).loc main_arg7) :=
  (host1_keep m ρ c main_arg7 (by decide)).trans (at_arg7_2 m ρ c)
theorem at_arg7_4 (c : Dev nD) : W4 m ρ c (Proc.devRef .tc main_arg7) = m ((c : Thread nD τ).loc main_arg7) :=
  (W4_of_ne m ρ c main_arg7 (by decide)).trans (at_arg7_3 m ρ c)
theorem at_arg7_5 (c : Dev nD) : W5 m ρ c (Proc.devRef .tc main_arg7) = m ((c : Thread nD τ).loc main_arg7) :=
  (host2_keep m ρ c main_arg7 (by decide)).trans (at_arg7_4 m ρ c)
theorem at_arg7_6 (c : Dev nD) : W6 m ρ c (Proc.devRef .tc main_arg7) = m ((c : Thread nD τ).loc main_arg7) :=
  (W6_of_ne m ρ c main_arg7 (by decide)).trans (at_arg7_5 m ρ c)
theorem at_arg7_7 (c : Dev nD) : W7 m ρ c (Proc.devRef .tc main_arg7) = m ((c : Thread nD τ).loc main_arg7) :=
  (host3_keep m ρ c main_arg7 (by decide)).trans (at_arg7_6 m ρ c)
theorem at_arg7_8 (c : Dev nD) : W8 m ρ c (Proc.devRef .tc main_arg7) = m ((c : Thread nD τ).loc main_arg7) :=
  (W8_of_ne m ρ c main_arg7 (by decide)).trans (at_arg7_7 m ρ c)
theorem at_arg7_9 (c : Dev nD) : W9 m ρ c (Proc.devRef .tc main_arg7) = m ((c : Thread nD τ).loc main_arg7) :=
  (host4_keep m ρ c main_arg7 (by decide)).trans (at_arg7_8 m ρ c)
theorem at_arg7_10 (c : Dev nD) : W10 m ρ c (Proc.devRef .tc main_arg7) = m ((c : Thread nD τ).loc main_arg7) :=
  (W10_of_ne m ρ c main_arg7 (by decide)).trans (at_arg7_9 m ρ c)
theorem at_arg7_11 (c : Dev nD) : W11 m ρ c (Proc.devRef .tc main_arg7) = m ((c : Thread nD τ).loc main_arg7) :=
  (host5_keep m ρ c main_arg7 (by decide)).trans (at_arg7_10 m ρ c)
theorem at_arg7_12 (c : Dev nD) : W12 m ρ c (Proc.devRef .tc main_arg7) = m ((c : Thread nD τ).loc main_arg7) :=
  (W12_of_ne m ρ c main_arg7 (by decide)).trans (at_arg7_11 m ρ c)
theorem at_arg7_13 (c : Dev nD) : W13 m ρ c (Proc.devRef .tc main_arg7) = m ((c : Thread nD τ).loc main_arg7) :=
  (host6_keep m ρ c main_arg7 (by decide)).trans (at_arg7_12 m ρ c)
theorem at_arg7_14 (c : Dev nD) : W14 m ρ c (Proc.devRef .tc main_arg7) = m ((c : Thread nD τ).loc main_arg7) :=
  (W14_of_ne m ρ c main_arg7 (by decide)).trans (at_arg7_13 m ρ c)
theorem at_arg7_15 (c : Dev nD) : W15 m ρ c (Proc.devRef .tc main_arg7) = m ((c : Thread nD τ).loc main_arg7) :=
  (host7_keep m ρ c main_arg7 (by decide)).trans (at_arg7_14 m ρ c)
theorem at_arg7_16 (c : Dev nD) : W16 m ρ c (Proc.devRef .tc main_arg7) = m ((c : Thread nD τ).loc main_arg7) :=
  (W16_of_ne m ρ c main_arg7 (by decide)).trans (at_arg7_15 m ρ c)
theorem at_arg7_17 (c : Dev nD) : W17 m ρ c (Proc.devRef .tc main_arg7) = m ((c : Thread nD τ).loc main_arg7) :=
  (host8_keep m ρ c main_arg7 (by decide)).trans (at_arg7_16 m ρ c)
theorem at_arg7_18 (c : Dev nD) : W18 m ρ c (Proc.devRef .tc main_arg7) = m ((c : Thread nD τ).loc main_arg7) :=
  (W18_of_ne m ρ c main_arg7 (by decide)).trans (at_arg7_17 m ρ c)
theorem at_arg7_19 (c : Dev nD) : W19 m ρ c (Proc.devRef .tc main_arg7) = m ((c : Thread nD τ).loc main_arg7) :=
  (host9_keep m ρ c main_arg7 (by decide)).trans (at_arg7_18 m ρ c)
theorem at_arg7_20 (c : Dev nD) : W20 m ρ c (Proc.devRef .tc main_arg7) = m ((c : Thread nD τ).loc main_arg7) :=
  (W20_of_ne m ρ c main_arg7 (by decide)).trans (at_arg7_19 m ρ c)
theorem at_arg7_21 (c : Dev nD) : W21 m ρ c (Proc.devRef .tc main_arg7) = m ((c : Thread nD τ).loc main_arg7) :=
  (host10_keep m ρ c main_arg7 (by decide)).trans (at_arg7_20 m ρ c)
theorem at_arg7_22 (c : Dev nD) : W22 m ρ c (Proc.devRef .tc main_arg7) = m ((c : Thread nD τ).loc main_arg7) :=
  (W22_of_ne m ρ c main_arg7 (by decide)).trans (at_arg7_21 m ρ c)
theorem at_arg7_23 (c : Dev nD) : W23 m ρ c (Proc.devRef .tc main_arg7) = m ((c : Thread nD τ).loc main_arg7) :=
  (host11_keep m ρ c main_arg7 (by decide)).trans (at_arg7_22 m ρ c)
theorem at_arg7_24 (c : Dev nD) : W24 m ρ c (Proc.devRef .tc main_arg7) = m ((c : Thread nD τ).loc main_arg7) :=
  (W24_of_ne m ρ c main_arg7 (by decide)).trans (at_arg7_23 m ρ c)
theorem at_arg7_25 (c : Dev nD) : W25 m ρ c (Proc.devRef .tc main_arg7) = m ((c : Thread nD τ).loc main_arg7) :=
  (host12_keep m ρ c main_arg7 (by decide)).trans (at_arg7_24 m ρ c)
theorem at_arg7_26 (c : Dev nD) : W26 m ρ c (Proc.devRef .tc main_arg7) = m ((c : Thread nD τ).loc main_arg7) :=
  (W26_of_ne m ρ c main_arg7 (by decide)).trans (at_arg7_25 m ρ c)
theorem at_arg7_27 (c : Dev nD) : W27 m ρ c (Proc.devRef .tc main_arg7) = m ((c : Thread nD τ).loc main_arg7) :=
  (host13_keep m ρ c main_arg7 (by decide)).trans (at_arg7_26 m ρ c)
theorem at_arg7_28 (c : Dev nD) : W28 m ρ c (Proc.devRef .tc main_arg7) = m ((c : Thread nD τ).loc main_arg7) :=
  (W28_of_ne m ρ c main_arg7 (by decide)).trans (at_arg7_27 m ρ c)
theorem at_arg7_29 (c : Dev nD) : W29 m ρ c (Proc.devRef .tc main_arg7) = m ((c : Thread nD τ).loc main_arg7) :=
  (host14_keep m ρ c main_arg7 (by decide)).trans (at_arg7_28 m ρ c)
theorem at_arg7_30 (c : Dev nD) : W30 m ρ c (Proc.devRef .tc main_arg7) = m ((c : Thread nD τ).loc main_arg7) :=
  (W30_of_ne m ρ c main_arg7 (by decide)).trans (at_arg7_29 m ρ c)
theorem at_arg7_31 (c : Dev nD) : W31 m ρ c (Proc.devRef .tc main_arg7) = m ((c : Thread nD τ).loc main_arg7) :=
  (host15_keep m ρ c main_arg7 (by decide)).trans (at_arg7_30 m ρ c)
theorem at_arg7_32 (c : Dev nD) : W32 m ρ c (Proc.devRef .tc main_arg7) = m ((c : Thread nD τ).loc main_arg7) :=
  (W32_of_ne m ρ c main_arg7 (by decide)).trans (at_arg7_31 m ρ c)
theorem at_arg7_33 (c : Dev nD) : W33 m ρ c (Proc.devRef .tc main_arg7) = m ((c : Thread nD τ).loc main_arg7) :=
  (host16_keep m ρ c main_arg7 (by decide)).trans (at_arg7_32 m ρ c)
theorem at_arg7_34 (c : Dev nD) : W34 m ρ c (Proc.devRef .tc main_arg7) = m ((c : Thread nD τ).loc main_arg7) :=
  (W34_of_ne m ρ c main_arg7 (by decide)).trans (at_arg7_33 m ρ c)
theorem at_arg7_35 (c : Dev nD) : W35 m ρ c (Proc.devRef .tc main_arg7) = m ((c : Thread nD τ).loc main_arg7) :=
  (host17_keep m ρ c main_arg7 (by decide)).trans (at_arg7_34 m ρ c)
theorem at_arg7_36 (c : Dev nD) : W36 m ρ c (Proc.devRef .tc main_arg7) = m ((c : Thread nD τ).loc main_arg7) :=
  (W36_of_ne m ρ c main_arg7 (by decide)).trans (at_arg7_35 m ρ c)
theorem at_arg7_37 (c : Dev nD) : W37 m ρ c (Proc.devRef .tc main_arg7) = m ((c : Thread nD τ).loc main_arg7) :=
  (host18_keep m ρ c main_arg7 (by decide)).trans (at_arg7_36 m ρ c)
theorem at_arg7_38 (c : Dev nD) : W38 m ρ c (Proc.devRef .tc main_arg7) = m ((c : Thread nD τ).loc main_arg7) :=
  (W38_of_ne m ρ c main_arg7 (by decide)).trans (at_arg7_37 m ρ c)
theorem at_arg7_39 (c : Dev nD) : W39 m ρ c (Proc.devRef .tc main_arg7) = m ((c : Thread nD τ).loc main_arg7) :=
  (host19_keep m ρ c main_arg7 (by decide)).trans (at_arg7_38 m ρ c)
theorem at_arg7_40 (c : Dev nD) : W40 m ρ c (Proc.devRef .tc main_arg7) = m ((c : Thread nD τ).loc main_arg7) :=
  (W40_of_ne m ρ c main_arg7 (by decide)).trans (at_arg7_39 m ρ c)
theorem at_arg7_41 (c : Dev nD) : W41 m ρ c (Proc.devRef .tc main_arg7) = m ((c : Thread nD τ).loc main_arg7) :=
  (host20_keep m ρ c main_arg7 (by decide)).trans (at_arg7_40 m ρ c)
theorem at_arg7_42 (c : Dev nD) : W42 m ρ c (Proc.devRef .tc main_arg7) = m ((c : Thread nD τ).loc main_arg7) :=
  (W42_of_ne m ρ c main_arg7 (by decide)).trans (at_arg7_41 m ρ c)
theorem at_arg7_43 (c : Dev nD) : W43 m ρ c (Proc.devRef .tc main_arg7) = m ((c : Thread nD τ).loc main_arg7) :=
  (host21_keep m ρ c main_arg7 (by decide)).trans (at_arg7_42 m ρ c)
theorem at_arg7_44 (c : Dev nD) : W44 m ρ c (Proc.devRef .tc main_arg7) = m ((c : Thread nD τ).loc main_arg7) :=
  (W44_of_ne m ρ c main_arg7 (by decide)).trans (at_arg7_43 m ρ c)

theorem at_arg8_0 (c : Dev nD) : W0 m ρ c (Proc.devRef .tc main_arg8) = m ((c : Thread nD τ).loc main_arg8) := rfl
theorem at_arg8_1 (c : Dev nD) : W1 m ρ c (Proc.devRef .tc main_arg8) = m ((c : Thread nD τ).loc main_arg8) :=
  (host0_keep m ρ c main_arg8 (by decide)).trans (at_arg8_0 m ρ c)
theorem at_arg8_2 (c : Dev nD) : W2 m ρ c (Proc.devRef .tc main_arg8) = m ((c : Thread nD τ).loc main_arg8) :=
  (W2_of_ne m ρ c main_arg8 (by decide)).trans (at_arg8_1 m ρ c)
theorem at_arg8_3 (c : Dev nD) : W3 m ρ c (Proc.devRef .tc main_arg8) = m ((c : Thread nD τ).loc main_arg8) :=
  (host1_keep m ρ c main_arg8 (by decide)).trans (at_arg8_2 m ρ c)
theorem at_arg8_4 (c : Dev nD) : W4 m ρ c (Proc.devRef .tc main_arg8) = m ((c : Thread nD τ).loc main_arg8) :=
  (W4_of_ne m ρ c main_arg8 (by decide)).trans (at_arg8_3 m ρ c)
theorem at_arg8_5 (c : Dev nD) : W5 m ρ c (Proc.devRef .tc main_arg8) = m ((c : Thread nD τ).loc main_arg8) :=
  (host2_keep m ρ c main_arg8 (by decide)).trans (at_arg8_4 m ρ c)
theorem at_arg8_6 (c : Dev nD) : W6 m ρ c (Proc.devRef .tc main_arg8) = m ((c : Thread nD τ).loc main_arg8) :=
  (W6_of_ne m ρ c main_arg8 (by decide)).trans (at_arg8_5 m ρ c)
theorem at_arg8_7 (c : Dev nD) : W7 m ρ c (Proc.devRef .tc main_arg8) = m ((c : Thread nD τ).loc main_arg8) :=
  (host3_keep m ρ c main_arg8 (by decide)).trans (at_arg8_6 m ρ c)
theorem at_arg8_8 (c : Dev nD) : W8 m ρ c (Proc.devRef .tc main_arg8) = m ((c : Thread nD τ).loc main_arg8) :=
  (W8_of_ne m ρ c main_arg8 (by decide)).trans (at_arg8_7 m ρ c)
theorem at_arg8_9 (c : Dev nD) : W9 m ρ c (Proc.devRef .tc main_arg8) = m ((c : Thread nD τ).loc main_arg8) :=
  (host4_keep m ρ c main_arg8 (by decide)).trans (at_arg8_8 m ρ c)
theorem at_arg8_10 (c : Dev nD) : W10 m ρ c (Proc.devRef .tc main_arg8) = m ((c : Thread nD τ).loc main_arg8) :=
  (W10_of_ne m ρ c main_arg8 (by decide)).trans (at_arg8_9 m ρ c)
theorem at_arg8_11 (c : Dev nD) : W11 m ρ c (Proc.devRef .tc main_arg8) = m ((c : Thread nD τ).loc main_arg8) :=
  (host5_keep m ρ c main_arg8 (by decide)).trans (at_arg8_10 m ρ c)
theorem at_arg8_12 (c : Dev nD) : W12 m ρ c (Proc.devRef .tc main_arg8) = m ((c : Thread nD τ).loc main_arg8) :=
  (W12_of_ne m ρ c main_arg8 (by decide)).trans (at_arg8_11 m ρ c)
theorem at_arg8_13 (c : Dev nD) : W13 m ρ c (Proc.devRef .tc main_arg8) = m ((c : Thread nD τ).loc main_arg8) :=
  (host6_keep m ρ c main_arg8 (by decide)).trans (at_arg8_12 m ρ c)
theorem at_arg8_14 (c : Dev nD) : W14 m ρ c (Proc.devRef .tc main_arg8) = m ((c : Thread nD τ).loc main_arg8) :=
  (W14_of_ne m ρ c main_arg8 (by decide)).trans (at_arg8_13 m ρ c)
theorem at_arg8_15 (c : Dev nD) : W15 m ρ c (Proc.devRef .tc main_arg8) = m ((c : Thread nD τ).loc main_arg8) :=
  (host7_keep m ρ c main_arg8 (by decide)).trans (at_arg8_14 m ρ c)
theorem at_arg8_16 (c : Dev nD) : W16 m ρ c (Proc.devRef .tc main_arg8) = m ((c : Thread nD τ).loc main_arg8) :=
  (W16_of_ne m ρ c main_arg8 (by decide)).trans (at_arg8_15 m ρ c)
theorem at_arg8_17 (c : Dev nD) : W17 m ρ c (Proc.devRef .tc main_arg8) = m ((c : Thread nD τ).loc main_arg8) :=
  (host8_keep m ρ c main_arg8 (by decide)).trans (at_arg8_16 m ρ c)
theorem at_arg8_18 (c : Dev nD) : W18 m ρ c (Proc.devRef .tc main_arg8) = m ((c : Thread nD τ).loc main_arg8) :=
  (W18_of_ne m ρ c main_arg8 (by decide)).trans (at_arg8_17 m ρ c)
theorem at_arg8_19 (c : Dev nD) : W19 m ρ c (Proc.devRef .tc main_arg8) = m ((c : Thread nD τ).loc main_arg8) :=
  (host9_keep m ρ c main_arg8 (by decide)).trans (at_arg8_18 m ρ c)
theorem at_arg8_20 (c : Dev nD) : W20 m ρ c (Proc.devRef .tc main_arg8) = m ((c : Thread nD τ).loc main_arg8) :=
  (W20_of_ne m ρ c main_arg8 (by decide)).trans (at_arg8_19 m ρ c)
theorem at_arg8_21 (c : Dev nD) : W21 m ρ c (Proc.devRef .tc main_arg8) = m ((c : Thread nD τ).loc main_arg8) :=
  (host10_keep m ρ c main_arg8 (by decide)).trans (at_arg8_20 m ρ c)
theorem at_arg8_22 (c : Dev nD) : W22 m ρ c (Proc.devRef .tc main_arg8) = m ((c : Thread nD τ).loc main_arg8) :=
  (W22_of_ne m ρ c main_arg8 (by decide)).trans (at_arg8_21 m ρ c)
theorem at_arg8_23 (c : Dev nD) : W23 m ρ c (Proc.devRef .tc main_arg8) = m ((c : Thread nD τ).loc main_arg8) :=
  (host11_keep m ρ c main_arg8 (by decide)).trans (at_arg8_22 m ρ c)
theorem at_arg8_24 (c : Dev nD) : W24 m ρ c (Proc.devRef .tc main_arg8) = m ((c : Thread nD τ).loc main_arg8) :=
  (W24_of_ne m ρ c main_arg8 (by decide)).trans (at_arg8_23 m ρ c)
theorem at_arg8_25 (c : Dev nD) : W25 m ρ c (Proc.devRef .tc main_arg8) = m ((c : Thread nD τ).loc main_arg8) :=
  (host12_keep m ρ c main_arg8 (by decide)).trans (at_arg8_24 m ρ c)
theorem at_arg8_26 (c : Dev nD) : W26 m ρ c (Proc.devRef .tc main_arg8) = m ((c : Thread nD τ).loc main_arg8) :=
  (W26_of_ne m ρ c main_arg8 (by decide)).trans (at_arg8_25 m ρ c)
theorem at_arg8_27 (c : Dev nD) : W27 m ρ c (Proc.devRef .tc main_arg8) = m ((c : Thread nD τ).loc main_arg8) :=
  (host13_keep m ρ c main_arg8 (by decide)).trans (at_arg8_26 m ρ c)
theorem at_arg8_28 (c : Dev nD) : W28 m ρ c (Proc.devRef .tc main_arg8) = m ((c : Thread nD τ).loc main_arg8) :=
  (W28_of_ne m ρ c main_arg8 (by decide)).trans (at_arg8_27 m ρ c)
theorem at_arg8_29 (c : Dev nD) : W29 m ρ c (Proc.devRef .tc main_arg8) = m ((c : Thread nD τ).loc main_arg8) :=
  (host14_keep m ρ c main_arg8 (by decide)).trans (at_arg8_28 m ρ c)
theorem at_arg8_30 (c : Dev nD) : W30 m ρ c (Proc.devRef .tc main_arg8) = m ((c : Thread nD τ).loc main_arg8) :=
  (W30_of_ne m ρ c main_arg8 (by decide)).trans (at_arg8_29 m ρ c)
theorem at_arg8_31 (c : Dev nD) : W31 m ρ c (Proc.devRef .tc main_arg8) = m ((c : Thread nD τ).loc main_arg8) :=
  (host15_keep m ρ c main_arg8 (by decide)).trans (at_arg8_30 m ρ c)
theorem at_arg8_32 (c : Dev nD) : W32 m ρ c (Proc.devRef .tc main_arg8) = m ((c : Thread nD τ).loc main_arg8) :=
  (W32_of_ne m ρ c main_arg8 (by decide)).trans (at_arg8_31 m ρ c)
theorem at_arg8_33 (c : Dev nD) : W33 m ρ c (Proc.devRef .tc main_arg8) = m ((c : Thread nD τ).loc main_arg8) :=
  (host16_keep m ρ c main_arg8 (by decide)).trans (at_arg8_32 m ρ c)
theorem at_arg8_34 (c : Dev nD) : W34 m ρ c (Proc.devRef .tc main_arg8) = m ((c : Thread nD τ).loc main_arg8) :=
  (W34_of_ne m ρ c main_arg8 (by decide)).trans (at_arg8_33 m ρ c)
theorem at_arg8_35 (c : Dev nD) : W35 m ρ c (Proc.devRef .tc main_arg8) = m ((c : Thread nD τ).loc main_arg8) :=
  (host17_keep m ρ c main_arg8 (by decide)).trans (at_arg8_34 m ρ c)
theorem at_arg8_36 (c : Dev nD) : W36 m ρ c (Proc.devRef .tc main_arg8) = m ((c : Thread nD τ).loc main_arg8) :=
  (W36_of_ne m ρ c main_arg8 (by decide)).trans (at_arg8_35 m ρ c)
theorem at_arg8_37 (c : Dev nD) : W37 m ρ c (Proc.devRef .tc main_arg8) = m ((c : Thread nD τ).loc main_arg8) :=
  (host18_keep m ρ c main_arg8 (by decide)).trans (at_arg8_36 m ρ c)
theorem at_arg8_38 (c : Dev nD) : W38 m ρ c (Proc.devRef .tc main_arg8) = m ((c : Thread nD τ).loc main_arg8) :=
  (W38_of_ne m ρ c main_arg8 (by decide)).trans (at_arg8_37 m ρ c)
theorem at_arg8_39 (c : Dev nD) : W39 m ρ c (Proc.devRef .tc main_arg8) = m ((c : Thread nD τ).loc main_arg8) :=
  (host19_keep m ρ c main_arg8 (by decide)).trans (at_arg8_38 m ρ c)
theorem at_arg8_40 (c : Dev nD) : W40 m ρ c (Proc.devRef .tc main_arg8) = m ((c : Thread nD τ).loc main_arg8) :=
  (W40_of_ne m ρ c main_arg8 (by decide)).trans (at_arg8_39 m ρ c)
theorem at_arg8_41 (c : Dev nD) : W41 m ρ c (Proc.devRef .tc main_arg8) = m ((c : Thread nD τ).loc main_arg8) :=
  (host20_keep m ρ c main_arg8 (by decide)).trans (at_arg8_40 m ρ c)
theorem at_arg8_42 (c : Dev nD) : W42 m ρ c (Proc.devRef .tc main_arg8) = m ((c : Thread nD τ).loc main_arg8) :=
  (W42_of_ne m ρ c main_arg8 (by decide)).trans (at_arg8_41 m ρ c)
theorem at_arg8_43 (c : Dev nD) : W43 m ρ c (Proc.devRef .tc main_arg8) = m ((c : Thread nD τ).loc main_arg8) :=
  (host21_keep m ρ c main_arg8 (by decide)).trans (at_arg8_42 m ρ c)
theorem at_arg8_44 (c : Dev nD) : W44 m ρ c (Proc.devRef .tc main_arg8) = m ((c : Thread nD τ).loc main_arg8) :=
  (W44_of_ne m ρ c main_arg8 (by decide)).trans (at_arg8_43 m ρ c)
theorem at_arg8_45 (c : Dev nD) : W45 m ρ c (Proc.devRef .tc main_arg8) = m ((c : Thread nD τ).loc main_arg8) :=
  (host22_keep m ρ c main_arg8 (by decide)).trans (at_arg8_44 m ρ c)
theorem at_arg8_46 (c : Dev nD) : W46 m ρ c (Proc.devRef .tc main_arg8) = m ((c : Thread nD τ).loc main_arg8) :=
  (W46_of_ne m ρ c main_arg8 (by decide)).trans (at_arg8_45 m ρ c)

theorem at_arg9_0 (c : Dev nD) : W0 m ρ c (Proc.devRef .tc main_arg9) = m ((c : Thread nD τ).loc main_arg9) := rfl
theorem at_arg9_1 (c : Dev nD) : W1 m ρ c (Proc.devRef .tc main_arg9) = m ((c : Thread nD τ).loc main_arg9) :=
  (host0_keep m ρ c main_arg9 (by decide)).trans (at_arg9_0 m ρ c)
theorem at_arg9_2 (c : Dev nD) : W2 m ρ c (Proc.devRef .tc main_arg9) = m ((c : Thread nD τ).loc main_arg9) :=
  (W2_of_ne m ρ c main_arg9 (by decide)).trans (at_arg9_1 m ρ c)
theorem at_arg9_3 (c : Dev nD) : W3 m ρ c (Proc.devRef .tc main_arg9) = m ((c : Thread nD τ).loc main_arg9) :=
  (host1_keep m ρ c main_arg9 (by decide)).trans (at_arg9_2 m ρ c)
theorem at_arg9_4 (c : Dev nD) : W4 m ρ c (Proc.devRef .tc main_arg9) = m ((c : Thread nD τ).loc main_arg9) :=
  (W4_of_ne m ρ c main_arg9 (by decide)).trans (at_arg9_3 m ρ c)
theorem at_arg9_5 (c : Dev nD) : W5 m ρ c (Proc.devRef .tc main_arg9) = m ((c : Thread nD τ).loc main_arg9) :=
  (host2_keep m ρ c main_arg9 (by decide)).trans (at_arg9_4 m ρ c)
theorem at_arg9_6 (c : Dev nD) : W6 m ρ c (Proc.devRef .tc main_arg9) = m ((c : Thread nD τ).loc main_arg9) :=
  (W6_of_ne m ρ c main_arg9 (by decide)).trans (at_arg9_5 m ρ c)
theorem at_arg9_7 (c : Dev nD) : W7 m ρ c (Proc.devRef .tc main_arg9) = m ((c : Thread nD τ).loc main_arg9) :=
  (host3_keep m ρ c main_arg9 (by decide)).trans (at_arg9_6 m ρ c)
theorem at_arg9_8 (c : Dev nD) : W8 m ρ c (Proc.devRef .tc main_arg9) = m ((c : Thread nD τ).loc main_arg9) :=
  (W8_of_ne m ρ c main_arg9 (by decide)).trans (at_arg9_7 m ρ c)
theorem at_arg9_9 (c : Dev nD) : W9 m ρ c (Proc.devRef .tc main_arg9) = m ((c : Thread nD τ).loc main_arg9) :=
  (host4_keep m ρ c main_arg9 (by decide)).trans (at_arg9_8 m ρ c)
theorem at_arg9_10 (c : Dev nD) : W10 m ρ c (Proc.devRef .tc main_arg9) = m ((c : Thread nD τ).loc main_arg9) :=
  (W10_of_ne m ρ c main_arg9 (by decide)).trans (at_arg9_9 m ρ c)
theorem at_arg9_11 (c : Dev nD) : W11 m ρ c (Proc.devRef .tc main_arg9) = m ((c : Thread nD τ).loc main_arg9) :=
  (host5_keep m ρ c main_arg9 (by decide)).trans (at_arg9_10 m ρ c)
theorem at_arg9_12 (c : Dev nD) : W12 m ρ c (Proc.devRef .tc main_arg9) = m ((c : Thread nD τ).loc main_arg9) :=
  (W12_of_ne m ρ c main_arg9 (by decide)).trans (at_arg9_11 m ρ c)
theorem at_arg9_13 (c : Dev nD) : W13 m ρ c (Proc.devRef .tc main_arg9) = m ((c : Thread nD τ).loc main_arg9) :=
  (host6_keep m ρ c main_arg9 (by decide)).trans (at_arg9_12 m ρ c)
theorem at_arg9_14 (c : Dev nD) : W14 m ρ c (Proc.devRef .tc main_arg9) = m ((c : Thread nD τ).loc main_arg9) :=
  (W14_of_ne m ρ c main_arg9 (by decide)).trans (at_arg9_13 m ρ c)
theorem at_arg9_15 (c : Dev nD) : W15 m ρ c (Proc.devRef .tc main_arg9) = m ((c : Thread nD τ).loc main_arg9) :=
  (host7_keep m ρ c main_arg9 (by decide)).trans (at_arg9_14 m ρ c)
theorem at_arg9_16 (c : Dev nD) : W16 m ρ c (Proc.devRef .tc main_arg9) = m ((c : Thread nD τ).loc main_arg9) :=
  (W16_of_ne m ρ c main_arg9 (by decide)).trans (at_arg9_15 m ρ c)
theorem at_arg9_17 (c : Dev nD) : W17 m ρ c (Proc.devRef .tc main_arg9) = m ((c : Thread nD τ).loc main_arg9) :=
  (host8_keep m ρ c main_arg9 (by decide)).trans (at_arg9_16 m ρ c)
theorem at_arg9_18 (c : Dev nD) : W18 m ρ c (Proc.devRef .tc main_arg9) = m ((c : Thread nD τ).loc main_arg9) :=
  (W18_of_ne m ρ c main_arg9 (by decide)).trans (at_arg9_17 m ρ c)
theorem at_arg9_19 (c : Dev nD) : W19 m ρ c (Proc.devRef .tc main_arg9) = m ((c : Thread nD τ).loc main_arg9) :=
  (host9_keep m ρ c main_arg9 (by decide)).trans (at_arg9_18 m ρ c)
theorem at_arg9_20 (c : Dev nD) : W20 m ρ c (Proc.devRef .tc main_arg9) = m ((c : Thread nD τ).loc main_arg9) :=
  (W20_of_ne m ρ c main_arg9 (by decide)).trans (at_arg9_19 m ρ c)
theorem at_arg9_21 (c : Dev nD) : W21 m ρ c (Proc.devRef .tc main_arg9) = m ((c : Thread nD τ).loc main_arg9) :=
  (host10_keep m ρ c main_arg9 (by decide)).trans (at_arg9_20 m ρ c)
theorem at_arg9_22 (c : Dev nD) : W22 m ρ c (Proc.devRef .tc main_arg9) = m ((c : Thread nD τ).loc main_arg9) :=
  (W22_of_ne m ρ c main_arg9 (by decide)).trans (at_arg9_21 m ρ c)
theorem at_arg9_23 (c : Dev nD) : W23 m ρ c (Proc.devRef .tc main_arg9) = m ((c : Thread nD τ).loc main_arg9) :=
  (host11_keep m ρ c main_arg9 (by decide)).trans (at_arg9_22 m ρ c)
theorem at_arg9_24 (c : Dev nD) : W24 m ρ c (Proc.devRef .tc main_arg9) = m ((c : Thread nD τ).loc main_arg9) :=
  (W24_of_ne m ρ c main_arg9 (by decide)).trans (at_arg9_23 m ρ c)
theorem at_arg9_25 (c : Dev nD) : W25 m ρ c (Proc.devRef .tc main_arg9) = m ((c : Thread nD τ).loc main_arg9) :=
  (host12_keep m ρ c main_arg9 (by decide)).trans (at_arg9_24 m ρ c)
theorem at_arg9_26 (c : Dev nD) : W26 m ρ c (Proc.devRef .tc main_arg9) = m ((c : Thread nD τ).loc main_arg9) :=
  (W26_of_ne m ρ c main_arg9 (by decide)).trans (at_arg9_25 m ρ c)
theorem at_arg9_27 (c : Dev nD) : W27 m ρ c (Proc.devRef .tc main_arg9) = m ((c : Thread nD τ).loc main_arg9) :=
  (host13_keep m ρ c main_arg9 (by decide)).trans (at_arg9_26 m ρ c)
theorem at_arg9_28 (c : Dev nD) : W28 m ρ c (Proc.devRef .tc main_arg9) = m ((c : Thread nD τ).loc main_arg9) :=
  (W28_of_ne m ρ c main_arg9 (by decide)).trans (at_arg9_27 m ρ c)
theorem at_arg9_29 (c : Dev nD) : W29 m ρ c (Proc.devRef .tc main_arg9) = m ((c : Thread nD τ).loc main_arg9) :=
  (host14_keep m ρ c main_arg9 (by decide)).trans (at_arg9_28 m ρ c)
theorem at_arg9_30 (c : Dev nD) : W30 m ρ c (Proc.devRef .tc main_arg9) = m ((c : Thread nD τ).loc main_arg9) :=
  (W30_of_ne m ρ c main_arg9 (by decide)).trans (at_arg9_29 m ρ c)
theorem at_arg9_31 (c : Dev nD) : W31 m ρ c (Proc.devRef .tc main_arg9) = m ((c : Thread nD τ).loc main_arg9) :=
  (host15_keep m ρ c main_arg9 (by decide)).trans (at_arg9_30 m ρ c)
theorem at_arg9_32 (c : Dev nD) : W32 m ρ c (Proc.devRef .tc main_arg9) = m ((c : Thread nD τ).loc main_arg9) :=
  (W32_of_ne m ρ c main_arg9 (by decide)).trans (at_arg9_31 m ρ c)
theorem at_arg9_33 (c : Dev nD) : W33 m ρ c (Proc.devRef .tc main_arg9) = m ((c : Thread nD τ).loc main_arg9) :=
  (host16_keep m ρ c main_arg9 (by decide)).trans (at_arg9_32 m ρ c)
theorem at_arg9_34 (c : Dev nD) : W34 m ρ c (Proc.devRef .tc main_arg9) = m ((c : Thread nD τ).loc main_arg9) :=
  (W34_of_ne m ρ c main_arg9 (by decide)).trans (at_arg9_33 m ρ c)
theorem at_arg9_35 (c : Dev nD) : W35 m ρ c (Proc.devRef .tc main_arg9) = m ((c : Thread nD τ).loc main_arg9) :=
  (host17_keep m ρ c main_arg9 (by decide)).trans (at_arg9_34 m ρ c)
theorem at_arg9_36 (c : Dev nD) : W36 m ρ c (Proc.devRef .tc main_arg9) = m ((c : Thread nD τ).loc main_arg9) :=
  (W36_of_ne m ρ c main_arg9 (by decide)).trans (at_arg9_35 m ρ c)
theorem at_arg9_37 (c : Dev nD) : W37 m ρ c (Proc.devRef .tc main_arg9) = m ((c : Thread nD τ).loc main_arg9) :=
  (host18_keep m ρ c main_arg9 (by decide)).trans (at_arg9_36 m ρ c)
theorem at_arg9_38 (c : Dev nD) : W38 m ρ c (Proc.devRef .tc main_arg9) = m ((c : Thread nD τ).loc main_arg9) :=
  (W38_of_ne m ρ c main_arg9 (by decide)).trans (at_arg9_37 m ρ c)
theorem at_arg9_39 (c : Dev nD) : W39 m ρ c (Proc.devRef .tc main_arg9) = m ((c : Thread nD τ).loc main_arg9) :=
  (host19_keep m ρ c main_arg9 (by decide)).trans (at_arg9_38 m ρ c)
theorem at_arg9_40 (c : Dev nD) : W40 m ρ c (Proc.devRef .tc main_arg9) = m ((c : Thread nD τ).loc main_arg9) :=
  (W40_of_ne m ρ c main_arg9 (by decide)).trans (at_arg9_39 m ρ c)
theorem at_arg9_41 (c : Dev nD) : W41 m ρ c (Proc.devRef .tc main_arg9) = m ((c : Thread nD τ).loc main_arg9) :=
  (host20_keep m ρ c main_arg9 (by decide)).trans (at_arg9_40 m ρ c)
theorem at_arg9_42 (c : Dev nD) : W42 m ρ c (Proc.devRef .tc main_arg9) = m ((c : Thread nD τ).loc main_arg9) :=
  (W42_of_ne m ρ c main_arg9 (by decide)).trans (at_arg9_41 m ρ c)
theorem at_arg9_43 (c : Dev nD) : W43 m ρ c (Proc.devRef .tc main_arg9) = m ((c : Thread nD τ).loc main_arg9) :=
  (host21_keep m ρ c main_arg9 (by decide)).trans (at_arg9_42 m ρ c)
theorem at_arg9_44 (c : Dev nD) : W44 m ρ c (Proc.devRef .tc main_arg9) = m ((c : Thread nD τ).loc main_arg9) :=
  (W44_of_ne m ρ c main_arg9 (by decide)).trans (at_arg9_43 m ρ c)
theorem at_arg9_45 (c : Dev nD) : W45 m ρ c (Proc.devRef .tc main_arg9) = m ((c : Thread nD τ).loc main_arg9) :=
  (host22_keep m ρ c main_arg9 (by decide)).trans (at_arg9_44 m ρ c)
theorem at_arg9_46 (c : Dev nD) : W46 m ρ c (Proc.devRef .tc main_arg9) = m ((c : Thread nD τ).loc main_arg9) :=
  (W46_of_ne m ρ c main_arg9 (by decide)).trans (at_arg9_45 m ρ c)

theorem at_arg10_0 (c : Dev nD) : W0 m ρ c (Proc.devRef .tc main_arg10) = m ((c : Thread nD τ).loc main_arg10) := rfl
theorem at_arg10_1 (c : Dev nD) : W1 m ρ c (Proc.devRef .tc main_arg10) = m ((c : Thread nD τ).loc main_arg10) :=
  (host0_keep m ρ c main_arg10 (by decide)).trans (at_arg10_0 m ρ c)
theorem at_arg10_2 (c : Dev nD) : W2 m ρ c (Proc.devRef .tc main_arg10) = m ((c : Thread nD τ).loc main_arg10) :=
  (W2_of_ne m ρ c main_arg10 (by decide)).trans (at_arg10_1 m ρ c)
theorem at_arg10_3 (c : Dev nD) : W3 m ρ c (Proc.devRef .tc main_arg10) = m ((c : Thread nD τ).loc main_arg10) :=
  (host1_keep m ρ c main_arg10 (by decide)).trans (at_arg10_2 m ρ c)
theorem at_arg10_4 (c : Dev nD) : W4 m ρ c (Proc.devRef .tc main_arg10) = m ((c : Thread nD τ).loc main_arg10) :=
  (W4_of_ne m ρ c main_arg10 (by decide)).trans (at_arg10_3 m ρ c)
theorem at_arg10_5 (c : Dev nD) : W5 m ρ c (Proc.devRef .tc main_arg10) = m ((c : Thread nD τ).loc main_arg10) :=
  (host2_keep m ρ c main_arg10 (by decide)).trans (at_arg10_4 m ρ c)
theorem at_arg10_6 (c : Dev nD) : W6 m ρ c (Proc.devRef .tc main_arg10) = m ((c : Thread nD τ).loc main_arg10) :=
  (W6_of_ne m ρ c main_arg10 (by decide)).trans (at_arg10_5 m ρ c)
theorem at_arg10_7 (c : Dev nD) : W7 m ρ c (Proc.devRef .tc main_arg10) = m ((c : Thread nD τ).loc main_arg10) :=
  (host3_keep m ρ c main_arg10 (by decide)).trans (at_arg10_6 m ρ c)
theorem at_arg10_8 (c : Dev nD) : W8 m ρ c (Proc.devRef .tc main_arg10) = m ((c : Thread nD τ).loc main_arg10) :=
  (W8_of_ne m ρ c main_arg10 (by decide)).trans (at_arg10_7 m ρ c)
theorem at_arg10_9 (c : Dev nD) : W9 m ρ c (Proc.devRef .tc main_arg10) = m ((c : Thread nD τ).loc main_arg10) :=
  (host4_keep m ρ c main_arg10 (by decide)).trans (at_arg10_8 m ρ c)
theorem at_arg10_10 (c : Dev nD) : W10 m ρ c (Proc.devRef .tc main_arg10) = m ((c : Thread nD τ).loc main_arg10) :=
  (W10_of_ne m ρ c main_arg10 (by decide)).trans (at_arg10_9 m ρ c)
theorem at_arg10_11 (c : Dev nD) : W11 m ρ c (Proc.devRef .tc main_arg10) = m ((c : Thread nD τ).loc main_arg10) :=
  (host5_keep m ρ c main_arg10 (by decide)).trans (at_arg10_10 m ρ c)
theorem at_arg10_12 (c : Dev nD) : W12 m ρ c (Proc.devRef .tc main_arg10) = m ((c : Thread nD τ).loc main_arg10) :=
  (W12_of_ne m ρ c main_arg10 (by decide)).trans (at_arg10_11 m ρ c)
theorem at_arg10_13 (c : Dev nD) : W13 m ρ c (Proc.devRef .tc main_arg10) = m ((c : Thread nD τ).loc main_arg10) :=
  (host6_keep m ρ c main_arg10 (by decide)).trans (at_arg10_12 m ρ c)
theorem at_arg10_14 (c : Dev nD) : W14 m ρ c (Proc.devRef .tc main_arg10) = m ((c : Thread nD τ).loc main_arg10) :=
  (W14_of_ne m ρ c main_arg10 (by decide)).trans (at_arg10_13 m ρ c)
theorem at_arg10_15 (c : Dev nD) : W15 m ρ c (Proc.devRef .tc main_arg10) = m ((c : Thread nD τ).loc main_arg10) :=
  (host7_keep m ρ c main_arg10 (by decide)).trans (at_arg10_14 m ρ c)
theorem at_arg10_16 (c : Dev nD) : W16 m ρ c (Proc.devRef .tc main_arg10) = m ((c : Thread nD τ).loc main_arg10) :=
  (W16_of_ne m ρ c main_arg10 (by decide)).trans (at_arg10_15 m ρ c)
theorem at_arg10_17 (c : Dev nD) : W17 m ρ c (Proc.devRef .tc main_arg10) = m ((c : Thread nD τ).loc main_arg10) :=
  (host8_keep m ρ c main_arg10 (by decide)).trans (at_arg10_16 m ρ c)
theorem at_arg10_18 (c : Dev nD) : W18 m ρ c (Proc.devRef .tc main_arg10) = m ((c : Thread nD τ).loc main_arg10) :=
  (W18_of_ne m ρ c main_arg10 (by decide)).trans (at_arg10_17 m ρ c)
theorem at_arg10_19 (c : Dev nD) : W19 m ρ c (Proc.devRef .tc main_arg10) = m ((c : Thread nD τ).loc main_arg10) :=
  (host9_keep m ρ c main_arg10 (by decide)).trans (at_arg10_18 m ρ c)
theorem at_arg10_20 (c : Dev nD) : W20 m ρ c (Proc.devRef .tc main_arg10) = m ((c : Thread nD τ).loc main_arg10) :=
  (W20_of_ne m ρ c main_arg10 (by decide)).trans (at_arg10_19 m ρ c)
theorem at_arg10_21 (c : Dev nD) : W21 m ρ c (Proc.devRef .tc main_arg10) = m ((c : Thread nD τ).loc main_arg10) :=
  (host10_keep m ρ c main_arg10 (by decide)).trans (at_arg10_20 m ρ c)
theorem at_arg10_22 (c : Dev nD) : W22 m ρ c (Proc.devRef .tc main_arg10) = m ((c : Thread nD τ).loc main_arg10) :=
  (W22_of_ne m ρ c main_arg10 (by decide)).trans (at_arg10_21 m ρ c)
theorem at_arg10_23 (c : Dev nD) : W23 m ρ c (Proc.devRef .tc main_arg10) = m ((c : Thread nD τ).loc main_arg10) :=
  (host11_keep m ρ c main_arg10 (by decide)).trans (at_arg10_22 m ρ c)
theorem at_arg10_24 (c : Dev nD) : W24 m ρ c (Proc.devRef .tc main_arg10) = m ((c : Thread nD τ).loc main_arg10) :=
  (W24_of_ne m ρ c main_arg10 (by decide)).trans (at_arg10_23 m ρ c)
theorem at_arg10_25 (c : Dev nD) : W25 m ρ c (Proc.devRef .tc main_arg10) = m ((c : Thread nD τ).loc main_arg10) :=
  (host12_keep m ρ c main_arg10 (by decide)).trans (at_arg10_24 m ρ c)
theorem at_arg10_26 (c : Dev nD) : W26 m ρ c (Proc.devRef .tc main_arg10) = m ((c : Thread nD τ).loc main_arg10) :=
  (W26_of_ne m ρ c main_arg10 (by decide)).trans (at_arg10_25 m ρ c)
theorem at_arg10_27 (c : Dev nD) : W27 m ρ c (Proc.devRef .tc main_arg10) = m ((c : Thread nD τ).loc main_arg10) :=
  (host13_keep m ρ c main_arg10 (by decide)).trans (at_arg10_26 m ρ c)
theorem at_arg10_28 (c : Dev nD) : W28 m ρ c (Proc.devRef .tc main_arg10) = m ((c : Thread nD τ).loc main_arg10) :=
  (W28_of_ne m ρ c main_arg10 (by decide)).trans (at_arg10_27 m ρ c)
theorem at_arg10_29 (c : Dev nD) : W29 m ρ c (Proc.devRef .tc main_arg10) = m ((c : Thread nD τ).loc main_arg10) :=
  (host14_keep m ρ c main_arg10 (by decide)).trans (at_arg10_28 m ρ c)
theorem at_arg10_30 (c : Dev nD) : W30 m ρ c (Proc.devRef .tc main_arg10) = m ((c : Thread nD τ).loc main_arg10) :=
  (W30_of_ne m ρ c main_arg10 (by decide)).trans (at_arg10_29 m ρ c)
theorem at_arg10_31 (c : Dev nD) : W31 m ρ c (Proc.devRef .tc main_arg10) = m ((c : Thread nD τ).loc main_arg10) :=
  (host15_keep m ρ c main_arg10 (by decide)).trans (at_arg10_30 m ρ c)
theorem at_arg10_32 (c : Dev nD) : W32 m ρ c (Proc.devRef .tc main_arg10) = m ((c : Thread nD τ).loc main_arg10) :=
  (W32_of_ne m ρ c main_arg10 (by decide)).trans (at_arg10_31 m ρ c)
theorem at_arg10_33 (c : Dev nD) : W33 m ρ c (Proc.devRef .tc main_arg10) = m ((c : Thread nD τ).loc main_arg10) :=
  (host16_keep m ρ c main_arg10 (by decide)).trans (at_arg10_32 m ρ c)
theorem at_arg10_34 (c : Dev nD) : W34 m ρ c (Proc.devRef .tc main_arg10) = m ((c : Thread nD τ).loc main_arg10) :=
  (W34_of_ne m ρ c main_arg10 (by decide)).trans (at_arg10_33 m ρ c)
theorem at_arg10_35 (c : Dev nD) : W35 m ρ c (Proc.devRef .tc main_arg10) = m ((c : Thread nD τ).loc main_arg10) :=
  (host17_keep m ρ c main_arg10 (by decide)).trans (at_arg10_34 m ρ c)
theorem at_arg10_36 (c : Dev nD) : W36 m ρ c (Proc.devRef .tc main_arg10) = m ((c : Thread nD τ).loc main_arg10) :=
  (W36_of_ne m ρ c main_arg10 (by decide)).trans (at_arg10_35 m ρ c)
theorem at_arg10_37 (c : Dev nD) : W37 m ρ c (Proc.devRef .tc main_arg10) = m ((c : Thread nD τ).loc main_arg10) :=
  (host18_keep m ρ c main_arg10 (by decide)).trans (at_arg10_36 m ρ c)
theorem at_arg10_38 (c : Dev nD) : W38 m ρ c (Proc.devRef .tc main_arg10) = m ((c : Thread nD τ).loc main_arg10) :=
  (W38_of_ne m ρ c main_arg10 (by decide)).trans (at_arg10_37 m ρ c)
theorem at_arg10_39 (c : Dev nD) : W39 m ρ c (Proc.devRef .tc main_arg10) = m ((c : Thread nD τ).loc main_arg10) :=
  (host19_keep m ρ c main_arg10 (by decide)).trans (at_arg10_38 m ρ c)
theorem at_arg10_40 (c : Dev nD) : W40 m ρ c (Proc.devRef .tc main_arg10) = m ((c : Thread nD τ).loc main_arg10) :=
  (W40_of_ne m ρ c main_arg10 (by decide)).trans (at_arg10_39 m ρ c)
theorem at_arg10_41 (c : Dev nD) : W41 m ρ c (Proc.devRef .tc main_arg10) = m ((c : Thread nD τ).loc main_arg10) :=
  (host20_keep m ρ c main_arg10 (by decide)).trans (at_arg10_40 m ρ c)
theorem at_arg10_42 (c : Dev nD) : W42 m ρ c (Proc.devRef .tc main_arg10) = m ((c : Thread nD τ).loc main_arg10) :=
  (W42_of_ne m ρ c main_arg10 (by decide)).trans (at_arg10_41 m ρ c)
theorem at_arg10_43 (c : Dev nD) : W43 m ρ c (Proc.devRef .tc main_arg10) = m ((c : Thread nD τ).loc main_arg10) :=
  (host21_keep m ρ c main_arg10 (by decide)).trans (at_arg10_42 m ρ c)
theorem at_arg10_44 (c : Dev nD) : W44 m ρ c (Proc.devRef .tc main_arg10) = m ((c : Thread nD τ).loc main_arg10) :=
  (W44_of_ne m ρ c main_arg10 (by decide)).trans (at_arg10_43 m ρ c)
theorem at_arg10_45 (c : Dev nD) : W45 m ρ c (Proc.devRef .tc main_arg10) = m ((c : Thread nD τ).loc main_arg10) :=
  (host22_keep m ρ c main_arg10 (by decide)).trans (at_arg10_44 m ρ c)
theorem at_arg10_46 (c : Dev nD) : W46 m ρ c (Proc.devRef .tc main_arg10) = m ((c : Thread nD τ).loc main_arg10) :=
  (W46_of_ne m ρ c main_arg10 (by decide)).trans (at_arg10_45 m ρ c)
theorem at_arg10_47 (c : Dev nD) : W47 m ρ c (Proc.devRef .tc main_arg10) = m ((c : Thread nD τ).loc main_arg10) :=
  (host23_keep m ρ c main_arg10 (by decide)).trans (at_arg10_46 m ρ c)
theorem at_arg10_48 (c : Dev nD) : W48 m ρ c (Proc.devRef .tc main_arg10) = m ((c : Thread nD τ).loc main_arg10) :=
  (W48_of_ne m ρ c main_arg10 (by decide)).trans (at_arg10_47 m ρ c)
theorem at_arg10_49 (c : Dev nD) : W49 m ρ c (Proc.devRef .tc main_arg10) = m ((c : Thread nD τ).loc main_arg10) :=
  (host24_keep m ρ c main_arg10 (by decide)).trans (at_arg10_48 m ρ c)
theorem at_arg10_50 (c : Dev nD) : W50 m ρ c (Proc.devRef .tc main_arg10) = m ((c : Thread nD τ).loc main_arg10) :=
  (W50_of_ne m ρ c main_arg10 (by decide)).trans (at_arg10_49 m ρ c)
theorem at_arg10_51 (c : Dev nD) : W51 m ρ c (Proc.devRef .tc main_arg10) = m ((c : Thread nD τ).loc main_arg10) :=
  (host25_keep m ρ c main_arg10 (by decide)).trans (at_arg10_50 m ρ c)
theorem at_arg10_52 (c : Dev nD) : W52 m ρ c (Proc.devRef .tc main_arg10) = m ((c : Thread nD τ).loc main_arg10) :=
  (W52_of_ne m ρ c main_arg10 (by decide)).trans (at_arg10_51 m ρ c)

theorem at_arg3_0 (c : Dev nD) : W0 m ρ c (Proc.devRef .tc main_arg3) = m ((c : Thread nD τ).loc main_arg3) := rfl
theorem at_arg3_1 (c : Dev nD) : W1 m ρ c (Proc.devRef .tc main_arg3) = m ((c : Thread nD τ).loc main_arg3) :=
  (host0_keep m ρ c main_arg3 (by decide)).trans (at_arg3_0 m ρ c)
theorem at_arg3_2 (c : Dev nD) : W2 m ρ c (Proc.devRef .tc main_arg3) = m ((c : Thread nD τ).loc main_arg3) :=
  (W2_of_ne m ρ c main_arg3 (by decide)).trans (at_arg3_1 m ρ c)
theorem at_arg3_3 (c : Dev nD) : W3 m ρ c (Proc.devRef .tc main_arg3) = m ((c : Thread nD τ).loc main_arg3) :=
  (host1_keep m ρ c main_arg3 (by decide)).trans (at_arg3_2 m ρ c)
theorem at_arg3_4 (c : Dev nD) : W4 m ρ c (Proc.devRef .tc main_arg3) = m ((c : Thread nD τ).loc main_arg3) :=
  (W4_of_ne m ρ c main_arg3 (by decide)).trans (at_arg3_3 m ρ c)
theorem at_arg3_5 (c : Dev nD) : W5 m ρ c (Proc.devRef .tc main_arg3) = m ((c : Thread nD τ).loc main_arg3) :=
  (host2_keep m ρ c main_arg3 (by decide)).trans (at_arg3_4 m ρ c)
theorem at_arg3_6 (c : Dev nD) : W6 m ρ c (Proc.devRef .tc main_arg3) = m ((c : Thread nD τ).loc main_arg3) :=
  (W6_of_ne m ρ c main_arg3 (by decide)).trans (at_arg3_5 m ρ c)
theorem at_arg3_7 (c : Dev nD) : W7 m ρ c (Proc.devRef .tc main_arg3) = m ((c : Thread nD τ).loc main_arg3) :=
  (host3_keep m ρ c main_arg3 (by decide)).trans (at_arg3_6 m ρ c)
theorem at_arg3_8 (c : Dev nD) : W8 m ρ c (Proc.devRef .tc main_arg3) = m ((c : Thread nD τ).loc main_arg3) :=
  (W8_of_ne m ρ c main_arg3 (by decide)).trans (at_arg3_7 m ρ c)
theorem at_arg3_9 (c : Dev nD) : W9 m ρ c (Proc.devRef .tc main_arg3) = m ((c : Thread nD τ).loc main_arg3) :=
  (host4_keep m ρ c main_arg3 (by decide)).trans (at_arg3_8 m ρ c)
theorem at_arg3_10 (c : Dev nD) : W10 m ρ c (Proc.devRef .tc main_arg3) = m ((c : Thread nD τ).loc main_arg3) :=
  (W10_of_ne m ρ c main_arg3 (by decide)).trans (at_arg3_9 m ρ c)
theorem at_arg3_11 (c : Dev nD) : W11 m ρ c (Proc.devRef .tc main_arg3) = m ((c : Thread nD τ).loc main_arg3) :=
  (host5_keep m ρ c main_arg3 (by decide)).trans (at_arg3_10 m ρ c)
theorem at_arg3_12 (c : Dev nD) : W12 m ρ c (Proc.devRef .tc main_arg3) = m ((c : Thread nD τ).loc main_arg3) :=
  (W12_of_ne m ρ c main_arg3 (by decide)).trans (at_arg3_11 m ρ c)
theorem at_arg3_13 (c : Dev nD) : W13 m ρ c (Proc.devRef .tc main_arg3) = m ((c : Thread nD τ).loc main_arg3) :=
  (host6_keep m ρ c main_arg3 (by decide)).trans (at_arg3_12 m ρ c)
theorem at_arg3_14 (c : Dev nD) : W14 m ρ c (Proc.devRef .tc main_arg3) = m ((c : Thread nD τ).loc main_arg3) :=
  (W14_of_ne m ρ c main_arg3 (by decide)).trans (at_arg3_13 m ρ c)
theorem at_arg3_15 (c : Dev nD) : W15 m ρ c (Proc.devRef .tc main_arg3) = m ((c : Thread nD τ).loc main_arg3) :=
  (host7_keep m ρ c main_arg3 (by decide)).trans (at_arg3_14 m ρ c)
theorem at_arg3_16 (c : Dev nD) : W16 m ρ c (Proc.devRef .tc main_arg3) = m ((c : Thread nD τ).loc main_arg3) :=
  (W16_of_ne m ρ c main_arg3 (by decide)).trans (at_arg3_15 m ρ c)
theorem at_arg3_17 (c : Dev nD) : W17 m ρ c (Proc.devRef .tc main_arg3) = m ((c : Thread nD τ).loc main_arg3) :=
  (host8_keep m ρ c main_arg3 (by decide)).trans (at_arg3_16 m ρ c)
theorem at_arg3_18 (c : Dev nD) : W18 m ρ c (Proc.devRef .tc main_arg3) = m ((c : Thread nD τ).loc main_arg3) :=
  (W18_of_ne m ρ c main_arg3 (by decide)).trans (at_arg3_17 m ρ c)
theorem at_arg3_19 (c : Dev nD) : W19 m ρ c (Proc.devRef .tc main_arg3) = m ((c : Thread nD τ).loc main_arg3) :=
  (host9_keep m ρ c main_arg3 (by decide)).trans (at_arg3_18 m ρ c)
theorem at_arg3_20 (c : Dev nD) : W20 m ρ c (Proc.devRef .tc main_arg3) = m ((c : Thread nD τ).loc main_arg3) :=
  (W20_of_ne m ρ c main_arg3 (by decide)).trans (at_arg3_19 m ρ c)
theorem at_arg3_21 (c : Dev nD) : W21 m ρ c (Proc.devRef .tc main_arg3) = m ((c : Thread nD τ).loc main_arg3) :=
  (host10_keep m ρ c main_arg3 (by decide)).trans (at_arg3_20 m ρ c)
theorem at_arg3_22 (c : Dev nD) : W22 m ρ c (Proc.devRef .tc main_arg3) = m ((c : Thread nD τ).loc main_arg3) :=
  (W22_of_ne m ρ c main_arg3 (by decide)).trans (at_arg3_21 m ρ c)
theorem at_arg3_23 (c : Dev nD) : W23 m ρ c (Proc.devRef .tc main_arg3) = m ((c : Thread nD τ).loc main_arg3) :=
  (host11_keep m ρ c main_arg3 (by decide)).trans (at_arg3_22 m ρ c)
theorem at_arg3_24 (c : Dev nD) : W24 m ρ c (Proc.devRef .tc main_arg3) = m ((c : Thread nD τ).loc main_arg3) :=
  (W24_of_ne m ρ c main_arg3 (by decide)).trans (at_arg3_23 m ρ c)
theorem at_arg3_25 (c : Dev nD) : W25 m ρ c (Proc.devRef .tc main_arg3) = m ((c : Thread nD τ).loc main_arg3) :=
  (host12_keep m ρ c main_arg3 (by decide)).trans (at_arg3_24 m ρ c)
theorem at_arg3_26 (c : Dev nD) : W26 m ρ c (Proc.devRef .tc main_arg3) = m ((c : Thread nD τ).loc main_arg3) :=
  (W26_of_ne m ρ c main_arg3 (by decide)).trans (at_arg3_25 m ρ c)
theorem at_arg3_27 (c : Dev nD) : W27 m ρ c (Proc.devRef .tc main_arg3) = m ((c : Thread nD τ).loc main_arg3) :=
  (host13_keep m ρ c main_arg3 (by decide)).trans (at_arg3_26 m ρ c)
theorem at_arg3_28 (c : Dev nD) : W28 m ρ c (Proc.devRef .tc main_arg3) = m ((c : Thread nD τ).loc main_arg3) :=
  (W28_of_ne m ρ c main_arg3 (by decide)).trans (at_arg3_27 m ρ c)
theorem at_arg3_29 (c : Dev nD) : W29 m ρ c (Proc.devRef .tc main_arg3) = m ((c : Thread nD τ).loc main_arg3) :=
  (host14_keep m ρ c main_arg3 (by decide)).trans (at_arg3_28 m ρ c)
theorem at_arg3_30 (c : Dev nD) : W30 m ρ c (Proc.devRef .tc main_arg3) = m ((c : Thread nD τ).loc main_arg3) :=
  (W30_of_ne m ρ c main_arg3 (by decide)).trans (at_arg3_29 m ρ c)
theorem at_arg3_31 (c : Dev nD) : W31 m ρ c (Proc.devRef .tc main_arg3) = m ((c : Thread nD τ).loc main_arg3) :=
  (host15_keep m ρ c main_arg3 (by decide)).trans (at_arg3_30 m ρ c)
theorem at_arg3_32 (c : Dev nD) : W32 m ρ c (Proc.devRef .tc main_arg3) = m ((c : Thread nD τ).loc main_arg3) :=
  (W32_of_ne m ρ c main_arg3 (by decide)).trans (at_arg3_31 m ρ c)
theorem at_arg3_33 (c : Dev nD) : W33 m ρ c (Proc.devRef .tc main_arg3) = m ((c : Thread nD τ).loc main_arg3) :=
  (host16_keep m ρ c main_arg3 (by decide)).trans (at_arg3_32 m ρ c)
theorem at_arg3_34 (c : Dev nD) : W34 m ρ c (Proc.devRef .tc main_arg3) = m ((c : Thread nD τ).loc main_arg3) :=
  (W34_of_ne m ρ c main_arg3 (by decide)).trans (at_arg3_33 m ρ c)
theorem at_arg3_35 (c : Dev nD) : W35 m ρ c (Proc.devRef .tc main_arg3) = m ((c : Thread nD τ).loc main_arg3) :=
  (host17_keep m ρ c main_arg3 (by decide)).trans (at_arg3_34 m ρ c)
theorem at_arg3_36 (c : Dev nD) : W36 m ρ c (Proc.devRef .tc main_arg3) = m ((c : Thread nD τ).loc main_arg3) :=
  (W36_of_ne m ρ c main_arg3 (by decide)).trans (at_arg3_35 m ρ c)
theorem at_arg3_37 (c : Dev nD) : W37 m ρ c (Proc.devRef .tc main_arg3) = m ((c : Thread nD τ).loc main_arg3) :=
  (host18_keep m ρ c main_arg3 (by decide)).trans (at_arg3_36 m ρ c)
theorem at_arg3_38 (c : Dev nD) : W38 m ρ c (Proc.devRef .tc main_arg3) = m ((c : Thread nD τ).loc main_arg3) :=
  (W38_of_ne m ρ c main_arg3 (by decide)).trans (at_arg3_37 m ρ c)
theorem at_arg3_39 (c : Dev nD) : W39 m ρ c (Proc.devRef .tc main_arg3) = m ((c : Thread nD τ).loc main_arg3) :=
  (host19_keep m ρ c main_arg3 (by decide)).trans (at_arg3_38 m ρ c)
theorem at_arg3_40 (c : Dev nD) : W40 m ρ c (Proc.devRef .tc main_arg3) = m ((c : Thread nD τ).loc main_arg3) :=
  (W40_of_ne m ρ c main_arg3 (by decide)).trans (at_arg3_39 m ρ c)
theorem at_arg3_41 (c : Dev nD) : W41 m ρ c (Proc.devRef .tc main_arg3) = m ((c : Thread nD τ).loc main_arg3) :=
  (host20_keep m ρ c main_arg3 (by decide)).trans (at_arg3_40 m ρ c)
theorem at_arg3_42 (c : Dev nD) : W42 m ρ c (Proc.devRef .tc main_arg3) = m ((c : Thread nD τ).loc main_arg3) :=
  (W42_of_ne m ρ c main_arg3 (by decide)).trans (at_arg3_41 m ρ c)
theorem at_arg3_43 (c : Dev nD) : W43 m ρ c (Proc.devRef .tc main_arg3) = m ((c : Thread nD τ).loc main_arg3) :=
  (host21_keep m ρ c main_arg3 (by decide)).trans (at_arg3_42 m ρ c)
theorem at_arg3_44 (c : Dev nD) : W44 m ρ c (Proc.devRef .tc main_arg3) = m ((c : Thread nD τ).loc main_arg3) :=
  (W44_of_ne m ρ c main_arg3 (by decide)).trans (at_arg3_43 m ρ c)
theorem at_arg3_45 (c : Dev nD) : W45 m ρ c (Proc.devRef .tc main_arg3) = m ((c : Thread nD τ).loc main_arg3) :=
  (host22_keep m ρ c main_arg3 (by decide)).trans (at_arg3_44 m ρ c)
theorem at_arg3_46 (c : Dev nD) : W46 m ρ c (Proc.devRef .tc main_arg3) = m ((c : Thread nD τ).loc main_arg3) :=
  (W46_of_ne m ρ c main_arg3 (by decide)).trans (at_arg3_45 m ρ c)
theorem at_arg3_47 (c : Dev nD) : W47 m ρ c (Proc.devRef .tc main_arg3) = m ((c : Thread nD τ).loc main_arg3) :=
  (host23_keep m ρ c main_arg3 (by decide)).trans (at_arg3_46 m ρ c)
theorem at_arg3_48 (c : Dev nD) : W48 m ρ c (Proc.devRef .tc main_arg3) = m ((c : Thread nD τ).loc main_arg3) :=
  (W48_of_ne m ρ c main_arg3 (by decide)).trans (at_arg3_47 m ρ c)
theorem at_arg3_49 (c : Dev nD) : W49 m ρ c (Proc.devRef .tc main_arg3) = m ((c : Thread nD τ).loc main_arg3) :=
  (host24_keep m ρ c main_arg3 (by decide)).trans (at_arg3_48 m ρ c)
theorem at_arg3_50 (c : Dev nD) : W50 m ρ c (Proc.devRef .tc main_arg3) = m ((c : Thread nD τ).loc main_arg3) :=
  (W50_of_ne m ρ c main_arg3 (by decide)).trans (at_arg3_49 m ρ c)
theorem at_arg3_51 (c : Dev nD) : W51 m ρ c (Proc.devRef .tc main_arg3) = m ((c : Thread nD τ).loc main_arg3) :=
  (host25_keep m ρ c main_arg3 (by decide)).trans (at_arg3_50 m ρ c)
theorem at_arg3_52 (c : Dev nD) : W52 m ρ c (Proc.devRef .tc main_arg3) = m ((c : Thread nD τ).loc main_arg3) :=
  (W52_of_ne m ρ c main_arg3 (by decide)).trans (at_arg3_51 m ρ c)
theorem at_arg3_53 (c : Dev nD) : W53 m ρ c (Proc.devRef .tc main_arg3) = m ((c : Thread nD τ).loc main_arg3) :=
  (W53_of_ne m ρ c main_arg3 (by decide)).trans (at_arg3_52 m ρ c)

theorem at_arg0_0 (c : Dev nD) : W0 m ρ c (Proc.devRef .tc main_arg0) = m ((c : Thread nD τ).loc main_arg0) := rfl

theorem at_arg1_0 (c : Dev nD) : W0 m ρ c (Proc.devRef .tc main_arg1) = m ((c : Thread nD τ).loc main_arg1) := rfl

/-! ## The two rows of edge indices at the later boundaries: as first computed -/
theorem at_v1_2 (c : Dev nD) : W2 m ρ c (Proc.devRef .tc main_v1) = W1 m ρ c (Proc.devRef .tc main_v1) :=
  W2_of_ne m ρ c main_v1 (by decide)
theorem at_v1_3 (c : Dev nD) : W3 m ρ c (Proc.devRef .tc main_v1) = W1 m ρ c (Proc.devRef .tc main_v1) :=
  (host1_keep m ρ c main_v1 (by decide)).trans (at_v1_2 m ρ c)
theorem at_v1_4 (c : Dev nD) : W4 m ρ c (Proc.devRef .tc main_v1) = W1 m ρ c (Proc.devRef .tc main_v1) :=
  (W4_of_ne m ρ c main_v1 (by decide)).trans (at_v1_3 m ρ c)
theorem at_v1_5 (c : Dev nD) : W5 m ρ c (Proc.devRef .tc main_v1) = W1 m ρ c (Proc.devRef .tc main_v1) :=
  (host2_keep m ρ c main_v1 (by decide)).trans (at_v1_4 m ρ c)
theorem at_v1_6 (c : Dev nD) : W6 m ρ c (Proc.devRef .tc main_v1) = W1 m ρ c (Proc.devRef .tc main_v1) :=
  (W6_of_ne m ρ c main_v1 (by decide)).trans (at_v1_5 m ρ c)
theorem at_v1_7 (c : Dev nD) : W7 m ρ c (Proc.devRef .tc main_v1) = W1 m ρ c (Proc.devRef .tc main_v1) :=
  (host3_keep m ρ c main_v1 (by decide)).trans (at_v1_6 m ρ c)
theorem at_v1_8 (c : Dev nD) : W8 m ρ c (Proc.devRef .tc main_v1) = W1 m ρ c (Proc.devRef .tc main_v1) :=
  (W8_of_ne m ρ c main_v1 (by decide)).trans (at_v1_7 m ρ c)
theorem at_v1_9 (c : Dev nD) : W9 m ρ c (Proc.devRef .tc main_v1) = W1 m ρ c (Proc.devRef .tc main_v1) :=
  (host4_keep m ρ c main_v1 (by decide)).trans (at_v1_8 m ρ c)
theorem at_v1_10 (c : Dev nD) : W10 m ρ c (Proc.devRef .tc main_v1) = W1 m ρ c (Proc.devRef .tc main_v1) :=
  (W10_of_ne m ρ c main_v1 (by decide)).trans (at_v1_9 m ρ c)
theorem at_v1_11 (c : Dev nD) : W11 m ρ c (Proc.devRef .tc main_v1) = W1 m ρ c (Proc.devRef .tc main_v1) :=
  (host5_keep m ρ c main_v1 (by decide)).trans (at_v1_10 m ρ c)
theorem at_v1_12 (c : Dev nD) : W12 m ρ c (Proc.devRef .tc main_v1) = W1 m ρ c (Proc.devRef .tc main_v1) :=
  (W12_of_ne m ρ c main_v1 (by decide)).trans (at_v1_11 m ρ c)
theorem at_v1_13 (c : Dev nD) : W13 m ρ c (Proc.devRef .tc main_v1) = W1 m ρ c (Proc.devRef .tc main_v1) :=
  (host6_keep m ρ c main_v1 (by decide)).trans (at_v1_12 m ρ c)
theorem at_v1_14 (c : Dev nD) : W14 m ρ c (Proc.devRef .tc main_v1) = W1 m ρ c (Proc.devRef .tc main_v1) :=
  (W14_of_ne m ρ c main_v1 (by decide)).trans (at_v1_13 m ρ c)
theorem at_v1_15 (c : Dev nD) : W15 m ρ c (Proc.devRef .tc main_v1) = W1 m ρ c (Proc.devRef .tc main_v1) :=
  (host7_keep m ρ c main_v1 (by decide)).trans (at_v1_14 m ρ c)
theorem at_v1_16 (c : Dev nD) : W16 m ρ c (Proc.devRef .tc main_v1) = W1 m ρ c (Proc.devRef .tc main_v1) :=
  (W16_of_ne m ρ c main_v1 (by decide)).trans (at_v1_15 m ρ c)
theorem at_v1_17 (c : Dev nD) : W17 m ρ c (Proc.devRef .tc main_v1) = W1 m ρ c (Proc.devRef .tc main_v1) :=
  (host8_keep m ρ c main_v1 (by decide)).trans (at_v1_16 m ρ c)
theorem at_v1_18 (c : Dev nD) : W18 m ρ c (Proc.devRef .tc main_v1) = W1 m ρ c (Proc.devRef .tc main_v1) :=
  (W18_of_ne m ρ c main_v1 (by decide)).trans (at_v1_17 m ρ c)
theorem at_v1_19 (c : Dev nD) : W19 m ρ c (Proc.devRef .tc main_v1) = W1 m ρ c (Proc.devRef .tc main_v1) :=
  (host9_keep m ρ c main_v1 (by decide)).trans (at_v1_18 m ρ c)
theorem at_v1_20 (c : Dev nD) : W20 m ρ c (Proc.devRef .tc main_v1) = W1 m ρ c (Proc.devRef .tc main_v1) :=
  (W20_of_ne m ρ c main_v1 (by decide)).trans (at_v1_19 m ρ c)
theorem at_v1_21 (c : Dev nD) : W21 m ρ c (Proc.devRef .tc main_v1) = W1 m ρ c (Proc.devRef .tc main_v1) :=
  (host10_keep m ρ c main_v1 (by decide)).trans (at_v1_20 m ρ c)
theorem at_v1_22 (c : Dev nD) : W22 m ρ c (Proc.devRef .tc main_v1) = W1 m ρ c (Proc.devRef .tc main_v1) :=
  (W22_of_ne m ρ c main_v1 (by decide)).trans (at_v1_21 m ρ c)
theorem at_v1_23 (c : Dev nD) : W23 m ρ c (Proc.devRef .tc main_v1) = W1 m ρ c (Proc.devRef .tc main_v1) :=
  (host11_keep m ρ c main_v1 (by decide)).trans (at_v1_22 m ρ c)
theorem at_v1_24 (c : Dev nD) : W24 m ρ c (Proc.devRef .tc main_v1) = W1 m ρ c (Proc.devRef .tc main_v1) :=
  (W24_of_ne m ρ c main_v1 (by decide)).trans (at_v1_23 m ρ c)
theorem at_v1_25 (c : Dev nD) : W25 m ρ c (Proc.devRef .tc main_v1) = W1 m ρ c (Proc.devRef .tc main_v1) :=
  (host12_keep m ρ c main_v1 (by decide)).trans (at_v1_24 m ρ c)
theorem at_v1_26 (c : Dev nD) : W26 m ρ c (Proc.devRef .tc main_v1) = W1 m ρ c (Proc.devRef .tc main_v1) :=
  (W26_of_ne m ρ c main_v1 (by decide)).trans (at_v1_25 m ρ c)
theorem at_v1_27 (c : Dev nD) : W27 m ρ c (Proc.devRef .tc main_v1) = W1 m ρ c (Proc.devRef .tc main_v1) :=
  (host13_keep m ρ c main_v1 (by decide)).trans (at_v1_26 m ρ c)
theorem at_v1_28 (c : Dev nD) : W28 m ρ c (Proc.devRef .tc main_v1) = W1 m ρ c (Proc.devRef .tc main_v1) :=
  (W28_of_ne m ρ c main_v1 (by decide)).trans (at_v1_27 m ρ c)
theorem at_v1_29 (c : Dev nD) : W29 m ρ c (Proc.devRef .tc main_v1) = W1 m ρ c (Proc.devRef .tc main_v1) :=
  (host14_keep m ρ c main_v1 (by decide)).trans (at_v1_28 m ρ c)
theorem at_v1_30 (c : Dev nD) : W30 m ρ c (Proc.devRef .tc main_v1) = W1 m ρ c (Proc.devRef .tc main_v1) :=
  (W30_of_ne m ρ c main_v1 (by decide)).trans (at_v1_29 m ρ c)
theorem at_v1_31 (c : Dev nD) : W31 m ρ c (Proc.devRef .tc main_v1) = W1 m ρ c (Proc.devRef .tc main_v1) :=
  (host15_keep m ρ c main_v1 (by decide)).trans (at_v1_30 m ρ c)
theorem at_v1_32 (c : Dev nD) : W32 m ρ c (Proc.devRef .tc main_v1) = W1 m ρ c (Proc.devRef .tc main_v1) :=
  (W32_of_ne m ρ c main_v1 (by decide)).trans (at_v1_31 m ρ c)
theorem at_v1_33 (c : Dev nD) : W33 m ρ c (Proc.devRef .tc main_v1) = W1 m ρ c (Proc.devRef .tc main_v1) :=
  (host16_keep m ρ c main_v1 (by decide)).trans (at_v1_32 m ρ c)
theorem at_v1_34 (c : Dev nD) : W34 m ρ c (Proc.devRef .tc main_v1) = W1 m ρ c (Proc.devRef .tc main_v1) :=
  (W34_of_ne m ρ c main_v1 (by decide)).trans (at_v1_33 m ρ c)
theorem at_v1_35 (c : Dev nD) : W35 m ρ c (Proc.devRef .tc main_v1) = W1 m ρ c (Proc.devRef .tc main_v1) :=
  (host17_keep m ρ c main_v1 (by decide)).trans (at_v1_34 m ρ c)
theorem at_v1_36 (c : Dev nD) : W36 m ρ c (Proc.devRef .tc main_v1) = W1 m ρ c (Proc.devRef .tc main_v1) :=
  (W36_of_ne m ρ c main_v1 (by decide)).trans (at_v1_35 m ρ c)
theorem at_v1_37 (c : Dev nD) : W37 m ρ c (Proc.devRef .tc main_v1) = W1 m ρ c (Proc.devRef .tc main_v1) :=
  (host18_keep m ρ c main_v1 (by decide)).trans (at_v1_36 m ρ c)
theorem at_v1_38 (c : Dev nD) : W38 m ρ c (Proc.devRef .tc main_v1) = W1 m ρ c (Proc.devRef .tc main_v1) :=
  (W38_of_ne m ρ c main_v1 (by decide)).trans (at_v1_37 m ρ c)
theorem at_v1_39 (c : Dev nD) : W39 m ρ c (Proc.devRef .tc main_v1) = W1 m ρ c (Proc.devRef .tc main_v1) :=
  (host19_keep m ρ c main_v1 (by decide)).trans (at_v1_38 m ρ c)
theorem at_v1_40 (c : Dev nD) : W40 m ρ c (Proc.devRef .tc main_v1) = W1 m ρ c (Proc.devRef .tc main_v1) :=
  (W40_of_ne m ρ c main_v1 (by decide)).trans (at_v1_39 m ρ c)
theorem at_v1_41 (c : Dev nD) : W41 m ρ c (Proc.devRef .tc main_v1) = W1 m ρ c (Proc.devRef .tc main_v1) :=
  (host20_keep m ρ c main_v1 (by decide)).trans (at_v1_40 m ρ c)
theorem at_v1_42 (c : Dev nD) : W42 m ρ c (Proc.devRef .tc main_v1) = W1 m ρ c (Proc.devRef .tc main_v1) :=
  (W42_of_ne m ρ c main_v1 (by decide)).trans (at_v1_41 m ρ c)
theorem at_v1_43 (c : Dev nD) : W43 m ρ c (Proc.devRef .tc main_v1) = W1 m ρ c (Proc.devRef .tc main_v1) :=
  (host21_keep m ρ c main_v1 (by decide)).trans (at_v1_42 m ρ c)
theorem at_v1_44 (c : Dev nD) : W44 m ρ c (Proc.devRef .tc main_v1) = W1 m ρ c (Proc.devRef .tc main_v1) :=
  (W44_of_ne m ρ c main_v1 (by decide)).trans (at_v1_43 m ρ c)
theorem at_v1_45 (c : Dev nD) : W45 m ρ c (Proc.devRef .tc main_v1) = W1 m ρ c (Proc.devRef .tc main_v1) :=
  (host22_keep m ρ c main_v1 (by decide)).trans (at_v1_44 m ρ c)
theorem at_v1_46 (c : Dev nD) : W46 m ρ c (Proc.devRef .tc main_v1) = W1 m ρ c (Proc.devRef .tc main_v1) :=
  (W46_of_ne m ρ c main_v1 (by decide)).trans (at_v1_45 m ρ c)
theorem at_v1_47 (c : Dev nD) : W47 m ρ c (Proc.devRef .tc main_v1) = W1 m ρ c (Proc.devRef .tc main_v1) :=
  (host23_keep m ρ c main_v1 (by decide)).trans (at_v1_46 m ρ c)
theorem at_v1_48 (c : Dev nD) : W48 m ρ c (Proc.devRef .tc main_v1) = W1 m ρ c (Proc.devRef .tc main_v1) :=
  (W48_of_ne m ρ c main_v1 (by decide)).trans (at_v1_47 m ρ c)
theorem at_v3_2 (c : Dev nD) : W2 m ρ c (Proc.devRef .tc main_v3) = W1 m ρ c (Proc.devRef .tc main_v3) :=
  W2_of_ne m ρ c main_v3 (by decide)
theorem at_v3_3 (c : Dev nD) : W3 m ρ c (Proc.devRef .tc main_v3) = W1 m ρ c (Proc.devRef .tc main_v3) :=
  (host1_keep m ρ c main_v3 (by decide)).trans (at_v3_2 m ρ c)
theorem at_v3_4 (c : Dev nD) : W4 m ρ c (Proc.devRef .tc main_v3) = W1 m ρ c (Proc.devRef .tc main_v3) :=
  (W4_of_ne m ρ c main_v3 (by decide)).trans (at_v3_3 m ρ c)
theorem at_v3_5 (c : Dev nD) : W5 m ρ c (Proc.devRef .tc main_v3) = W1 m ρ c (Proc.devRef .tc main_v3) :=
  (host2_keep m ρ c main_v3 (by decide)).trans (at_v3_4 m ρ c)
theorem at_v3_6 (c : Dev nD) : W6 m ρ c (Proc.devRef .tc main_v3) = W1 m ρ c (Proc.devRef .tc main_v3) :=
  (W6_of_ne m ρ c main_v3 (by decide)).trans (at_v3_5 m ρ c)
theorem at_v3_7 (c : Dev nD) : W7 m ρ c (Proc.devRef .tc main_v3) = W1 m ρ c (Proc.devRef .tc main_v3) :=
  (host3_keep m ρ c main_v3 (by decide)).trans (at_v3_6 m ρ c)
theorem at_v3_8 (c : Dev nD) : W8 m ρ c (Proc.devRef .tc main_v3) = W1 m ρ c (Proc.devRef .tc main_v3) :=
  (W8_of_ne m ρ c main_v3 (by decide)).trans (at_v3_7 m ρ c)
theorem at_v3_9 (c : Dev nD) : W9 m ρ c (Proc.devRef .tc main_v3) = W1 m ρ c (Proc.devRef .tc main_v3) :=
  (host4_keep m ρ c main_v3 (by decide)).trans (at_v3_8 m ρ c)
theorem at_v3_10 (c : Dev nD) : W10 m ρ c (Proc.devRef .tc main_v3) = W1 m ρ c (Proc.devRef .tc main_v3) :=
  (W10_of_ne m ρ c main_v3 (by decide)).trans (at_v3_9 m ρ c)
theorem at_v3_11 (c : Dev nD) : W11 m ρ c (Proc.devRef .tc main_v3) = W1 m ρ c (Proc.devRef .tc main_v3) :=
  (host5_keep m ρ c main_v3 (by decide)).trans (at_v3_10 m ρ c)
theorem at_v3_12 (c : Dev nD) : W12 m ρ c (Proc.devRef .tc main_v3) = W1 m ρ c (Proc.devRef .tc main_v3) :=
  (W12_of_ne m ρ c main_v3 (by decide)).trans (at_v3_11 m ρ c)
theorem at_v3_13 (c : Dev nD) : W13 m ρ c (Proc.devRef .tc main_v3) = W1 m ρ c (Proc.devRef .tc main_v3) :=
  (host6_keep m ρ c main_v3 (by decide)).trans (at_v3_12 m ρ c)
theorem at_v3_14 (c : Dev nD) : W14 m ρ c (Proc.devRef .tc main_v3) = W1 m ρ c (Proc.devRef .tc main_v3) :=
  (W14_of_ne m ρ c main_v3 (by decide)).trans (at_v3_13 m ρ c)
theorem at_v3_15 (c : Dev nD) : W15 m ρ c (Proc.devRef .tc main_v3) = W1 m ρ c (Proc.devRef .tc main_v3) :=
  (host7_keep m ρ c main_v3 (by decide)).trans (at_v3_14 m ρ c)
theorem at_v3_16 (c : Dev nD) : W16 m ρ c (Proc.devRef .tc main_v3) = W1 m ρ c (Proc.devRef .tc main_v3) :=
  (W16_of_ne m ρ c main_v3 (by decide)).trans (at_v3_15 m ρ c)
theorem at_v3_17 (c : Dev nD) : W17 m ρ c (Proc.devRef .tc main_v3) = W1 m ρ c (Proc.devRef .tc main_v3) :=
  (host8_keep m ρ c main_v3 (by decide)).trans (at_v3_16 m ρ c)
theorem at_v3_18 (c : Dev nD) : W18 m ρ c (Proc.devRef .tc main_v3) = W1 m ρ c (Proc.devRef .tc main_v3) :=
  (W18_of_ne m ρ c main_v3 (by decide)).trans (at_v3_17 m ρ c)
theorem at_v3_19 (c : Dev nD) : W19 m ρ c (Proc.devRef .tc main_v3) = W1 m ρ c (Proc.devRef .tc main_v3) :=
  (host9_keep m ρ c main_v3 (by decide)).trans (at_v3_18 m ρ c)
theorem at_v3_20 (c : Dev nD) : W20 m ρ c (Proc.devRef .tc main_v3) = W1 m ρ c (Proc.devRef .tc main_v3) :=
  (W20_of_ne m ρ c main_v3 (by decide)).trans (at_v3_19 m ρ c)
theorem at_v3_21 (c : Dev nD) : W21 m ρ c (Proc.devRef .tc main_v3) = W1 m ρ c (Proc.devRef .tc main_v3) :=
  (host10_keep m ρ c main_v3 (by decide)).trans (at_v3_20 m ρ c)
theorem at_v3_22 (c : Dev nD) : W22 m ρ c (Proc.devRef .tc main_v3) = W1 m ρ c (Proc.devRef .tc main_v3) :=
  (W22_of_ne m ρ c main_v3 (by decide)).trans (at_v3_21 m ρ c)
theorem at_v3_23 (c : Dev nD) : W23 m ρ c (Proc.devRef .tc main_v3) = W1 m ρ c (Proc.devRef .tc main_v3) :=
  (host11_keep m ρ c main_v3 (by decide)).trans (at_v3_22 m ρ c)
theorem at_v3_24 (c : Dev nD) : W24 m ρ c (Proc.devRef .tc main_v3) = W1 m ρ c (Proc.devRef .tc main_v3) :=
  (W24_of_ne m ρ c main_v3 (by decide)).trans (at_v3_23 m ρ c)
theorem at_v3_25 (c : Dev nD) : W25 m ρ c (Proc.devRef .tc main_v3) = W1 m ρ c (Proc.devRef .tc main_v3) :=
  (host12_keep m ρ c main_v3 (by decide)).trans (at_v3_24 m ρ c)
theorem at_v3_26 (c : Dev nD) : W26 m ρ c (Proc.devRef .tc main_v3) = W1 m ρ c (Proc.devRef .tc main_v3) :=
  (W26_of_ne m ρ c main_v3 (by decide)).trans (at_v3_25 m ρ c)
theorem at_v3_27 (c : Dev nD) : W27 m ρ c (Proc.devRef .tc main_v3) = W1 m ρ c (Proc.devRef .tc main_v3) :=
  (host13_keep m ρ c main_v3 (by decide)).trans (at_v3_26 m ρ c)
theorem at_v3_28 (c : Dev nD) : W28 m ρ c (Proc.devRef .tc main_v3) = W1 m ρ c (Proc.devRef .tc main_v3) :=
  (W28_of_ne m ρ c main_v3 (by decide)).trans (at_v3_27 m ρ c)
theorem at_v3_29 (c : Dev nD) : W29 m ρ c (Proc.devRef .tc main_v3) = W1 m ρ c (Proc.devRef .tc main_v3) :=
  (host14_keep m ρ c main_v3 (by decide)).trans (at_v3_28 m ρ c)
theorem at_v3_30 (c : Dev nD) : W30 m ρ c (Proc.devRef .tc main_v3) = W1 m ρ c (Proc.devRef .tc main_v3) :=
  (W30_of_ne m ρ c main_v3 (by decide)).trans (at_v3_29 m ρ c)
theorem at_v3_31 (c : Dev nD) : W31 m ρ c (Proc.devRef .tc main_v3) = W1 m ρ c (Proc.devRef .tc main_v3) :=
  (host15_keep m ρ c main_v3 (by decide)).trans (at_v3_30 m ρ c)
theorem at_v3_32 (c : Dev nD) : W32 m ρ c (Proc.devRef .tc main_v3) = W1 m ρ c (Proc.devRef .tc main_v3) :=
  (W32_of_ne m ρ c main_v3 (by decide)).trans (at_v3_31 m ρ c)
theorem at_v3_33 (c : Dev nD) : W33 m ρ c (Proc.devRef .tc main_v3) = W1 m ρ c (Proc.devRef .tc main_v3) :=
  (host16_keep m ρ c main_v3 (by decide)).trans (at_v3_32 m ρ c)
theorem at_v3_34 (c : Dev nD) : W34 m ρ c (Proc.devRef .tc main_v3) = W1 m ρ c (Proc.devRef .tc main_v3) :=
  (W34_of_ne m ρ c main_v3 (by decide)).trans (at_v3_33 m ρ c)
theorem at_v3_35 (c : Dev nD) : W35 m ρ c (Proc.devRef .tc main_v3) = W1 m ρ c (Proc.devRef .tc main_v3) :=
  (host17_keep m ρ c main_v3 (by decide)).trans (at_v3_34 m ρ c)
theorem at_v3_36 (c : Dev nD) : W36 m ρ c (Proc.devRef .tc main_v3) = W1 m ρ c (Proc.devRef .tc main_v3) :=
  (W36_of_ne m ρ c main_v3 (by decide)).trans (at_v3_35 m ρ c)
theorem at_v3_37 (c : Dev nD) : W37 m ρ c (Proc.devRef .tc main_v3) = W1 m ρ c (Proc.devRef .tc main_v3) :=
  (host18_keep m ρ c main_v3 (by decide)).trans (at_v3_36 m ρ c)
theorem at_v3_38 (c : Dev nD) : W38 m ρ c (Proc.devRef .tc main_v3) = W1 m ρ c (Proc.devRef .tc main_v3) :=
  (W38_of_ne m ρ c main_v3 (by decide)).trans (at_v3_37 m ρ c)
theorem at_v3_39 (c : Dev nD) : W39 m ρ c (Proc.devRef .tc main_v3) = W1 m ρ c (Proc.devRef .tc main_v3) :=
  (host19_keep m ρ c main_v3 (by decide)).trans (at_v3_38 m ρ c)
theorem at_v3_40 (c : Dev nD) : W40 m ρ c (Proc.devRef .tc main_v3) = W1 m ρ c (Proc.devRef .tc main_v3) :=
  (W40_of_ne m ρ c main_v3 (by decide)).trans (at_v3_39 m ρ c)
theorem at_v3_41 (c : Dev nD) : W41 m ρ c (Proc.devRef .tc main_v3) = W1 m ρ c (Proc.devRef .tc main_v3) :=
  (host20_keep m ρ c main_v3 (by decide)).trans (at_v3_40 m ρ c)
theorem at_v3_42 (c : Dev nD) : W42 m ρ c (Proc.devRef .tc main_v3) = W1 m ρ c (Proc.devRef .tc main_v3) :=
  (W42_of_ne m ρ c main_v3 (by decide)).trans (at_v3_41 m ρ c)
theorem at_v3_43 (c : Dev nD) : W43 m ρ c (Proc.devRef .tc main_v3) = W1 m ρ c (Proc.devRef .tc main_v3) :=
  (host21_keep m ρ c main_v3 (by decide)).trans (at_v3_42 m ρ c)
theorem at_v3_44 (c : Dev nD) : W44 m ρ c (Proc.devRef .tc main_v3) = W1 m ρ c (Proc.devRef .tc main_v3) :=
  (W44_of_ne m ρ c main_v3 (by decide)).trans (at_v3_43 m ρ c)
theorem at_v3_45 (c : Dev nD) : W45 m ρ c (Proc.devRef .tc main_v3) = W1 m ρ c (Proc.devRef .tc main_v3) :=
  (host22_keep m ρ c main_v3 (by decide)).trans (at_v3_44 m ρ c)
theorem at_v3_46 (c : Dev nD) : W46 m ρ c (Proc.devRef .tc main_v3) = W1 m ρ c (Proc.devRef .tc main_v3) :=
  (W46_of_ne m ρ c main_v3 (by decide)).trans (at_v3_45 m ρ c)
theorem at_v3_47 (c : Dev nD) : W47 m ρ c (Proc.devRef .tc main_v3) = W1 m ρ c (Proc.devRef .tc main_v3) :=
  (host23_keep m ρ c main_v3 (by decide)).trans (at_v3_46 m ρ c)
theorem at_v3_48 (c : Dev nD) : W48 m ρ c (Proc.devRef .tc main_v3) = W1 m ρ c (Proc.devRef .tc main_v3) :=
  (W48_of_ne m ρ c main_v3 (by decide)).trans (at_v3_47 m ρ c)

end Cert.GIN.K

end
-- ==== Proof.Wire0.lean ====
/-
  The wiring of layer 0: what each input window of regions 0–3 holds when its region is entered.

  Each window's array is either an argument as launched, an earlier region's output array, or the value of the host
  operations that precede the region applied to such arrays; every equation below names which, with the host
  operations written out as the composition the program applies.
-/
import proofs.«177653_j8959301779747_1_alg».proof.Proof.WireKeep

set_option maxRecDepth 16384

noncomputable section

namespace Cert.GIN.K

open Cert.KernelIdeal Cert.KernelIdeal.Gen
open Idealize.ShloMosaic Idealize.ShloMosaic.TcCoe Idealize.ShloMosaic.Tactic
open Idealize.ShloMosaic.Pipeline (Dat Cfg Window cellOf)

variable {F : FTy → Type} [FloatOps F]

variable (m : (ℓ : Loc nD τ sig) → Buf (Elt F) ℓ) (ρ : Dev nD → PrngReg)

/-! ## The two rows of edge indices, computed once before the first region -/

set_option maxHeartbeats 2000000 in
/-- The row of edge indices `main_v1` as first computed: a row of the edge list argument, flattened. -/
theorem wire_v1 (c : Dev nD) : W1 m ρ c (Proc.devRef .tc main_v1) =
    (shapeCast S800000 (extractStridedSlice S1x800000 ![0, 0] ((m ((c : Thread nD τ).loc main_arg1)) : (⟨S2x800000, .i32⟩ : BufTy).Contents (Elt F)) slices_S2x800000_S1x800000_0_0) shapeCasts_S1x800000_S800000) := by
  show StableHlo.after hostOps0 (W0 m ρ c) (Proc.devRef .tc main_v1) = _
  after_results
  rw [at_arg1_0 m ρ c]
  all_goals rfl

set_option maxHeartbeats 2000000 in
/-- The row of edge indices `main_v3` as first computed: a row of the edge list argument, flattened. -/
theorem wire_v3 (c : Dev nD) : W1 m ρ c (Proc.devRef .tc main_v3) =
    (shapeCast S800000 (extractStridedSlice S1x800000 ![1, 0] ((m ((c : Thread nD τ).loc main_arg1)) : (⟨S2x800000, .i32⟩ : BufTy).Contents (Elt F)) slices_S2x800000_S1x800000_1_0) shapeCasts_S1x800000_S800000) := by
  show StableHlo.after hostOps0 (W0 m ρ c) (Proc.devRef .tc main_v3) = _
  after_results
  rw [at_arg1_0 m ρ c]
  all_goals rfl

/-! ## Region 0 -/

/-- Region 0, input window 0 (the array `main_arg0`) at the region's entry: the argument as launched, which the host operations before the region do not write. -/
theorem wire_0_0 (c : Dev nD) : V1 m ρ c (Pipeline.arrRef spec0 0) = m ((c : Thread nD τ).loc main_arg0) :=
  (host0_keep m ρ c main_arg0 (by decide)).trans (at_arg0_0 m ρ c)

set_option maxHeartbeats 2000000 in
/-- Region 0, input window 1 (the array `main_v13`) at the region's entry: the value the host operations before the region compute for it, written out down to the launch contents of the arguments and the earlier regions' output arrays. -/
theorem wire_0_1 (c : Dev nD) : V1 m ρ c (Pipeline.arrRef spec0 1) =
    (Host.scatterAdd scatter_S50000x128_S800000x1_S800000x128_1_0_0_1 (((broadcastInDim S50000x128 ![] bcast_S_S50000x128 : (⟨S_, .f32⟩ : BufTy).Contents (Elt F) → (⟨S50000x128, .f32⟩ : BufTy).Contents (Elt F)) (constant S_ .f32 0x00000000#32 : (⟨S_, .f32⟩ : BufTy).Contents (Elt F))) : (⟨S50000x128, .f32⟩ : BufTy).Contents (Elt F)) (((broadcastInDim S800000x1 ![0] bcast_S800000_S800000x1_0 : (⟨S800000, .i32⟩ : BufTy).Contents (Elt F) → (⟨S800000x1, .i32⟩ : BufTy).Contents (Elt F)) (shapeCast S800000 (extractStridedSlice S1x800000 ![1, 0] ((m ((c : Thread nD τ).loc main_arg1)) : (⟨S2x800000, .i32⟩ : BufTy).Contents (Elt F)) slices_S2x800000_S1x800000_1_0) shapeCasts_S1x800000_S800000)) : (⟨S800000x1, .i32⟩ : BufTy).Contents (Elt F)) ((Host.gather gather_S50000x128_S800000x1_S800000x128_1_0_n_n_0_1_1128 ((m ((c : Thread nD τ).loc main_arg0)) : (⟨S50000x128, .f32⟩ : BufTy).Contents (Elt F)) (((broadcastInDim S800000x1 ![0] bcast_S800000_S800000x1_0 : (⟨S800000, .i32⟩ : BufTy).Contents (Elt F) → (⟨S800000x1, .i32⟩ : BufTy).Contents (Elt F)) ((select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) ((cmpi .slt : (⟨S800000, .i32⟩ : BufTy).Contents (Elt F) → (⟨S800000, .i32⟩ : BufTy).Contents (Elt F) → (⟨S800000, .i1⟩ : BufTy).Contents (Elt F)) (shapeCast S800000 (extractStridedSlice S1x800000 ![0, 0] ((m ((c : Thread nD τ).loc main_arg1)) : (⟨S2x800000, .i32⟩ : BufTy).Contents (Elt F)) slices_S2x800000_S1x800000_0_0) shapeCasts_S1x800000_S800000) ((broadcastInDim S800000 ![] bcast_S_S800000 : (⟨S_, .i32⟩ : BufTy).Contents (Elt F) → (⟨S800000, .i32⟩ : BufTy).Contents (Elt F)) (constantI S_ 32 0#32 : (⟨S_, .i32⟩ : BufTy).Contents (Elt F)))) ((addi : (⟨S800000, .i32⟩ : BufTy).Contents (Elt F) → (⟨S800000, .i32⟩ : BufTy).Contents (Elt F) → (⟨S800000, .i32⟩ : BufTy).Contents (Elt F)) (shapeCast S800000 (extractStridedSlice S1x800000 ![0, 0] ((m ((c : Thread nD τ).loc main_arg1)) : (⟨S2x800000, .i32⟩ : BufTy).Contents (Elt F)) slices_S2x800000_S1x800000_0_0) shapeCasts_S1x800000_S800000) ((broadcastInDim S800000 ![] bcast_S_S800000 : (⟨S_, .i32⟩ : BufTy).Contents (Elt F) → (⟨S800000, .i32⟩ : BufTy).Contents (Elt F)) (constantI S_ 32 50000#32 : (⟨S_, .i32⟩ : BufTy).Contents (Elt F)))) (shapeCast S800000 (extractStridedSlice S1x800000 ![0, 0] ((m ((c : Thread nD τ).loc main_arg1)) : (⟨S2x800000, .i32⟩ : BufTy).Contents (Elt F)) slices_S2x800000_S1x800000_0_0) shapeCasts_S1x800000_S800000))) : (⟨S800000x1, .i32⟩ : BufTy).Contents (Elt F))) : (⟨S800000x128, .f32⟩ : BufTy).Contents (Elt F))) := by
  show StableHlo.after hostOps0 (W0 m ρ c) (Proc.devRef .tc main_v13) = _
  after_results
  rw [at_arg1_0 m ρ c, at_arg0_0 m ρ c]
  all_goals rfl

set_option maxHeartbeats 2000000 in
/-- Region 0, input window 2 (the array `main_v17`) at the region's entry: the value the host operations before the region compute for it, written out down to the launch contents of the arguments and the earlier regions' output arrays. -/
theorem wire_0_2 (c : Dev nD) : V1 m ρ c (Pipeline.arrRef spec0 2) =
    (shapeCast S1x1 ((addf : (⟨S_, .f32⟩ : BufTy).Contents (Elt F) → (⟨S_, .f32⟩ : BufTy).Contents (Elt F) → (⟨S_, .f32⟩ : BufTy).Contents (Elt F)) (constant S_ .f32 0x3F800000#32 : (⟨S_, .f32⟩ : BufTy).Contents (Elt F)) (shapeCast S_ (extractStridedSlice S1 ![0] ((m ((c : Thread nD τ).loc main_arg11)) : (⟨S7, .f32⟩ : BufTy).Contents (Elt F)) slices_S7_S1_0) shapeCasts_S1_S_)) shapeCasts_S_S1x1) := by
  show StableHlo.after hostOps0 (W0 m ρ c) (Proc.devRef .tc main_v17) = _
  after_results
  rw [at_arg11_0 m ρ c]
  all_goals rfl

set_option maxHeartbeats 2000000 in
/-- Region 0, input window 3 (the array `main_v19`) at the region's entry: the value the host operations before the region compute for it, written out down to the launch contents of the arguments and the earlier regions' output arrays. -/
theorem wire_0_3 (c : Dev nD) : V1 m ρ c (Pipeline.arrRef spec0 3) =
    (shapeCast S128x64 (extractStridedSlice S1x128x64 ![0, 0, 0] ((m ((c : Thread nD τ).loc main_arg4)) : (⟨S7x128x64, .f32⟩ : BufTy).Contents (Elt F)) slices_S7x128x64_S1x128x64_0_0_0) shapeCasts_S1x128x64_S128x64) := by
  show StableHlo.after hostOps0 (W0 m ρ c) (Proc.devRef .tc main_v19) = _
  after_results
  rw [at_arg4_0 m ρ c]
  all_goals rfl

/-! ## Region 1 -/

/-- Region 1, input window 0 (the array `main_v20_0`) at the region's entry: region 0's output array 4, which the host operations in between do not write. -/
theorem wire_1_0 (c : Dev nD) : V3 m ρ c (Pipeline.arrRef spec1 0) = (dat0 (V1 m ρ) c).arrAt 4 cfg0.N :=
  (host1_keep m ρ c main_v20_0 (by decide)).trans (W2_arr m ρ c 4)

set_option maxHeartbeats 2000000 in
/-- Region 1, input window 1 (the array `main_v22`) at the region's entry: the value the host operations before the region compute for it, written out down to the launch contents of the arguments and the earlier regions' output arrays. -/
theorem wire_1_1 (c : Dev nD) : V3 m ρ c (Pipeline.arrRef spec1 1) =
    ((Host.divf : (⟨S1x64, .f32⟩ : BufTy).Contents (Elt F) → (⟨S1x64, .f32⟩ : BufTy).Contents (Elt F) → (⟨S1x64, .f32⟩ : BufTy).Contents (Elt F)) ((dat0 (V1 m ρ) c).arrAt 5 cfg0.N) ((broadcastInDim S1x64 ![] bcast_S_S1x64 : (⟨S_, .f32⟩ : BufTy).Contents (Elt F) → (⟨S1x64, .f32⟩ : BufTy).Contents (Elt F)) (constant S_ .f32 0x47435000#32 : (⟨S_, .f32⟩ : BufTy).Contents (Elt F)))) := by
  show StableHlo.after hostOps1 (W2 m ρ c) (Proc.devRef .tc main_v22) = _
  after_results
  rw [(W2_arr m ρ c 5 : W2 m ρ c (Proc.devRef .tc main_v20_1) = _)]
  all_goals rfl

set_option maxHeartbeats 2000000 in
/-- Region 1, input window 2 (the array `main_v26`) at the region's entry: the value the host operations before the region compute for it, written out down to the launch contents of the arguments and the earlier regions' output arrays. -/
theorem wire_1_2 (c : Dev nD) : V3 m ρ c (Pipeline.arrRef spec1 2) =
    ((subf : (⟨S1x64, .f32⟩ : BufTy).Contents (Elt F) → (⟨S1x64, .f32⟩ : BufTy).Contents (Elt F) → (⟨S1x64, .f32⟩ : BufTy).Contents (Elt F)) ((Host.divf : (⟨S1x64, .f32⟩ : BufTy).Contents (Elt F) → (⟨S1x64, .f32⟩ : BufTy).Contents (Elt F) → (⟨S1x64, .f32⟩ : BufTy).Contents (Elt F)) ((dat0 (V1 m ρ) c).arrAt 6 cfg0.N) ((broadcastInDim S1x64 ![] bcast_S_S1x64 : (⟨S_, .f32⟩ : BufTy).Contents (Elt F) → (⟨S1x64, .f32⟩ : BufTy).Contents (Elt F)) (constant S_ .f32 0x47435000#32 : (⟨S_, .f32⟩ : BufTy).Contents (Elt F)))) ((mulf : (⟨S1x64, .f32⟩ : BufTy).Contents (Elt F) → (⟨S1x64, .f32⟩ : BufTy).Contents (Elt F) → (⟨S1x64, .f32⟩ : BufTy).Contents (Elt F)) ((Host.divf : (⟨S1x64, .f32⟩ : BufTy).Contents (Elt F) → (⟨S1x64, .f32⟩ : BufTy).Contents (Elt F) → (⟨S1x64, .f32⟩ : BufTy).Contents (Elt F)) ((dat0 (V1 m ρ) c).arrAt 5 cfg0.N) ((broadcastInDim S1x64 ![] bcast_S_S1x64 : (⟨S_, .f32⟩ : BufTy).Contents (Elt F) → (⟨S1x64, .f32⟩ : BufTy).Contents (Elt F)) (constant S_ .f32 0x47435000#32 : (⟨S_, .f32⟩ : BufTy).Contents (Elt F)))) ((Host.divf : (⟨S1x64, .f32⟩ : BufTy).Contents (Elt F) → (⟨S1x64, .f32⟩ : BufTy).Contents (Elt F) → (⟨S1x64, .f32⟩ : BufTy).Contents (Elt F)) ((dat0 (V1 m ρ) c).arrAt 5 cfg0.N) ((broadcastInDim S1x64 ![] bcast_S_S1x64 : (⟨S_, .f32⟩ : BufTy).Contents (Elt F) → (⟨S1x64, .f32⟩ : BufTy).Contents (Elt F)) (constant S_ .f32 0x47435000#32 : (⟨S_, .f32⟩ : BufTy).Contents (Elt F)))))) := by
  show StableHlo.after hostOps1 (W2 m ρ c) (Proc.devRef .tc main_v26) = _
  after_results
  rw [(W2_arr m ρ c 6 : W2 m ρ c (Proc.devRef .tc main_v20_2) = _), (W2_arr m ρ c 5 : W2 m ρ c (Proc.devRef .tc main_v20_1) = _)]
  all_goals rfl

set_option maxHeartbeats 2000000 in
/-- Region 1, input window 3 (the array `main_v29`) at the region's entry: the value the host operations before the region compute for it, written out down to the launch contents of the arguments and the earlier regions' output arrays. -/
theorem wire_1_3 (c : Dev nD) : V3 m ρ c (Pipeline.arrRef spec1 3) =
    (shapeCast S1x64 (shapeCast S64 (extractStridedSlice S1x64 ![0, 0] ((m ((c : Thread nD τ).loc main_arg5)) : (⟨S7x64, .f32⟩ : BufTy).Contents (Elt F)) slices_S7x64_S1x64_0_0) shapeCasts_S1x64_S64) shapeCasts_S64_S1x64) := by
  show StableHlo.after hostOps1 (W2 m ρ c) (Proc.devRef .tc main_v29) = _
  after_results
  rw [at_arg5_2 m ρ c]
  all_goals rfl

set_option maxHeartbeats 2000000 in
/-- Region 1, input window 4 (the array `main_v32`) at the region's entry: the value the host operations before the region compute for it, written out down to the launch contents of the arguments and the earlier regions' output arrays. -/
theorem wire_1_4 (c : Dev nD) : V3 m ρ c (Pipeline.arrRef spec1 4) =
    (shapeCast S1x64 (shapeCast S64 (extractStridedSlice S1x64 ![0, 0] ((m ((c : Thread nD τ).loc main_arg6)) : (⟨S7x64, .f32⟩ : BufTy).Contents (Elt F)) slices_S7x64_S1x64_0_0) shapeCasts_S1x64_S64) shapeCasts_S64_S1x64) := by
  show StableHlo.after hostOps1 (W2 m ρ c) (Proc.devRef .tc main_v32) = _
  after_results
  rw [at_arg6_2 m ρ c]
  all_goals rfl

/-! ## Region 2 -/

/-- Region 2, input window 0 (the array `main_v33`) at the region's entry: region 1's output array 5, which the host operations in between do not write. -/
theorem wire_2_0 (c : Dev nD) : V5 m ρ c (Pipeline.arrRef spec2 0) = (dat1 (V3 m ρ) c).arrAt 5 cfg1.N :=
  (host2_keep m ρ c main_v33 (by decide)).trans (W4_arr m ρ c 5)

set_option maxHeartbeats 2000000 in
/-- Region 2, input window 1 (the array `main_v35`) at the region's entry: the value the host operations before the region compute for it, written out down to the launch contents of the arguments and the earlier regions' output arrays. -/
theorem wire_2_1 (c : Dev nD) : V5 m ρ c (Pipeline.arrRef spec2 1) =
    (shapeCast S64x128 (extractStridedSlice S1x64x128 ![0, 0, 0] ((m ((c : Thread nD τ).loc main_arg7)) : (⟨S6x64x128, .f32⟩ : BufTy).Contents (Elt F)) slices_S6x64x128_S1x64x128_0_0_0) shapeCasts_S1x64x128_S64x128) := by
  show StableHlo.after hostOps2 (W4 m ρ c) (Proc.devRef .tc main_v35) = _
  after_results
  rw [at_arg7_4 m ρ c]
  all_goals rfl

/-! ## Region 3 -/

/-- Region 3, input window 0 (the array `main_v36_0`) at the region's entry: region 2's output array 2, which the host operations in between do not write. -/
theorem wire_3_0 (c : Dev nD) : V7 m ρ c (Pipeline.arrRef spec3 0) = (dat2 (V5 m ρ) c).arrAt 2 cfg2.N :=
  (host3_keep m ρ c main_v36_0 (by decide)).trans (W6_arr m ρ c 2)

set_option maxHeartbeats 2000000 in
/-- Region 3, input window 1 (the array `main_v38`) at the region's entry: the value the host operations before the region compute for it, written out down to the launch contents of the arguments and the earlier regions' output arrays. -/
theorem wire_3_1 (c : Dev nD) : V7 m ρ c (Pipeline.arrRef spec3 1) =
    ((Host.divf : (⟨S1x128, .f32⟩ : BufTy).Contents (Elt F) → (⟨S1x128, .f32⟩ : BufTy).Contents (Elt F) → (⟨S1x128, .f32⟩ : BufTy).Contents (Elt F)) ((dat2 (V5 m ρ) c).arrAt 3 cfg2.N) ((broadcastInDim S1x128 ![] bcast_S_S1x128 : (⟨S_, .f32⟩ : BufTy).Contents (Elt F) → (⟨S1x128, .f32⟩ : BufTy).Contents (Elt F)) (constant S_ .f32 0x47435000#32 : (⟨S_, .f32⟩ : BufTy).Contents (Elt F)))) := by
  show StableHlo.after hostOps3 (W6 m ρ c) (Proc.devRef .tc main_v38) = _
  after_results
  rw [(W6_arr m ρ c 3 : W6 m ρ c (Proc.devRef .tc main_v36_1) = _)]
  all_goals rfl

set_option maxHeartbeats 2000000 in
/-- Region 3, input window 2 (the array `main_v42`) at the region's entry: the value the host operations before the region compute for it, written out down to the launch contents of the arguments and the earlier regions' output arrays. -/
theorem wire_3_2 (c : Dev nD) : V7 m ρ c (Pipeline.arrRef spec3 2) =
    ((subf : (⟨S1x128, .f32⟩ : BufTy).Contents (Elt F) → (⟨S1x128, .f32⟩ : BufTy).Contents (Elt F) → (⟨S1x128, .f32⟩ : BufTy).Contents (Elt F)) ((Host.divf : (⟨S1x128, .f32⟩ : BufTy).Contents (Elt F) → (⟨S1x128, .f32⟩ : BufTy).Contents (Elt F) → (⟨S1x128, .f32⟩ : BufTy).Contents (Elt F)) ((dat2 (V5 m ρ) c).arrAt 4 cfg2.N) ((broadcastInDim S1x128 ![] bcast_S_S1x128 : (⟨S_, .f32⟩ : BufTy).Contents (Elt F) → (⟨S1x128, .f32⟩ : BufTy).Contents (Elt F)) (constant S_ .f32 0x47435000#32 : (⟨S_, .f32⟩ : BufTy).Contents (Elt F)))) ((mulf : (⟨S1x128, .f32⟩ : BufTy).Contents (Elt F) → (⟨S1x128, .f32⟩ : BufTy).Contents (Elt F) → (⟨S1x128, .f32⟩ : BufTy).Contents (Elt F)) ((Host.divf : (⟨S1x128, .f32⟩ : BufTy).Contents (Elt F) → (⟨S1x128, .f32⟩ : BufTy).Contents (Elt F) → (⟨S1x128, .f32⟩ : BufTy).Contents (Elt F)) ((dat2 (V5 m ρ) c).arrAt 3 cfg2.N) ((broadcastInDim S1x128 ![] bcast_S_S1x128 : (⟨S_, .f32⟩ : BufTy).Contents (Elt F) → (⟨S1x128, .f32⟩ : BufTy).Contents (Elt F)) (constant S_ .f32 0x47435000#32 : (⟨S_, .f32⟩ : BufTy).Contents (Elt F)))) ((Host.divf : (⟨S1x128, .f32⟩ : BufTy).Contents (Elt F) → (⟨S1x128, .f32⟩ : BufTy).Contents (Elt F) → (⟨S1x128, .f32⟩ : BufTy).Contents (Elt F)) ((dat2 (V5 m ρ) c).arrAt 3 cfg2.N) ((broadcastInDim S1x128 ![] bcast_S_S1x128 : (⟨S_, .f32⟩ : BufTy).Contents (Elt F) → (⟨S1x128, .f32⟩ : BufTy).Contents (Elt F)) (constant S_ .f32 0x47435000#32 : (⟨S_, .f32⟩ : BufTy).Contents (Elt F)))))) := by
  show StableHlo.after hostOps3 (W6 m ρ c) (Proc.devRef .tc main_v42) = _
  after_results
  rw [(W6_arr m ρ c 4 : W6 m ρ c (Proc.devRef .tc main_v36_2) = _), (W6_arr m ρ c 3 : W6 m ρ c (Proc.devRef .tc main_v36_1) = _)]
  all_goals rfl

set_option maxHeartbeats 2000000 in
/-- Region 3, input window 3 (the array `main_v45`) at the region's entry: the value the host operations before the region compute for it, written out down to the launch contents of the arguments and the earlier regions' output arrays. -/
theorem wire_3_3 (c : Dev nD) : V7 m ρ c (Pipeline.arrRef spec3 3) =
    (shapeCast S1x128 (shapeCast S128 (extractStridedSlice S1x128 ![0, 0] ((m ((c : Thread nD τ).loc main_arg8)) : (⟨S6x128, .f32⟩ : BufTy).Contents (Elt F)) slices_S6x128_S1x128_0_0) shapeCasts_S1x128_S128) shapeCasts_S128_S1x128) := by
  show StableHlo.after hostOps3 (W6 m ρ c) (Proc.devRef .tc main_v45) = _
  after_results
  rw [at_arg8_6 m ρ c]
  all_goals rfl

set_option maxHeartbeats 2000000 in
/-- Region 3, input window 4 (the array `main_v48`) at the region's entry: the value the host operations before the region compute for it, written out down to the launch contents of the arguments and the earlier regions' output arrays. -/
theorem wire_3_4 (c : Dev nD) : V7 m ρ c (Pipeline.arrRef spec3 4) =
    (shapeCast S1x128 (shapeCast S128 (extractStridedSlice S1x128 ![0, 0] ((m ((c : Thread nD τ).loc main_arg9)) : (⟨S6x128, .f32⟩ : BufTy).Contents (Elt F)) slices_S6x128_S1x128_0_0) shapeCasts_S1x128_S128) shapeCasts_S128_S1x128) := by
  show StableHlo.after hostOps3 (W6 m ρ c) (Proc.devRef .tc main_v48) = _
  after_results
  rw [at_arg9_6 m ρ c]
  all_goals rfl

end Cert.GIN.K

end
-- ==== Proof.KGlue.lean ====
/-
  The host arithmetic between the kernel program's regions, read at the level of the specification: the column
  means and uncentred variances from the column sums, a vector cast to a one-row matrix, and the 1×1 scale.
-/
import proofs.«177653_j8959301779747_1_alg».proof.KernelIdeal
import proofs.«177653_j8959301779747_1_alg».proof.Proof.Spec
import Idealize.ShloMosaic.Lib.Pipeline.Value
import Idealize.ShloMosaic.Lib.ValueIdx
import Idealize.ShloMosaic.Lib.ValueLayout

noncomputable section

namespace Cert.GIN.K

open Idealize.ShloMosaic Idealize.ShloMosaic.ValueIdx Cert.KernelIdeal Cert.GIN
open Cert.KernelIdeal.Facts₀ Cert.KernelIdeal.Facts

variable [Cert.KernelIdeal.Facts]

/-- The row count as the program writes it: the float word of 50000. -/
abbrev Nlit : EReal := Ideal.ofBits .f32 0x47435000#32

/-- A vector as a one-row matrix. -/
def rowV {d : Nat} (g : (⟨1, ![d]⟩ : Shape).Idx → EReal) : Mat 1 d := fun i => g (ix1 (i 1))

/-- Column sums divided by the row count are the column means (width 64). -/
theorem meanU_of64 (z : Mat 50000 64) (s : FVec Ideal S1x64 .f32) (hs : s = colSum z) :
    Host.divf (F := Ideal) s (broadcastInDim S1x64 ![] bcast_S_S1x64 (constant (F := Ideal) S_ .f32 0x47435000#32))
      = meanU z Nlit := by
  subst hs
  funext i
  simp only [Host.divf, broadcastInDim, constant, Ideal.hostDivf_def, Ideal.ofBits_def, meanU]

/-- Sums of squares over the row count, minus the squared mean, are the uncentred variances (width 64). -/
theorem varU_of64 (z : Mat 50000 64) (s ss : FVec Ideal S1x64 .f32) (hs : s = colSum z) (hss : ss = colSumSq z) :
    subf (F := Ideal) (Host.divf (F := Ideal) ss (broadcastInDim S1x64 ![] bcast_S_S1x64 (constant (F := Ideal) S_ .f32 0x47435000#32)))
      (mulf (F := Ideal) (Host.divf (F := Ideal) s (broadcastInDim S1x64 ![] bcast_S_S1x64 (constant (F := Ideal) S_ .f32 0x47435000#32)))
        (Host.divf (F := Ideal) s (broadcastInDim S1x64 ![] bcast_S_S1x64 (constant (F := Ideal) S_ .f32 0x47435000#32))))
      = varU z Nlit := by
  subst hs; subst hss
  funext i
  simp only [subf, mulf, Host.divf, broadcastInDim, constant, Ideal.hostDivf_def, Ideal.ofBits_def, Ideal.subf_def,
    Ideal.mulf_def, varU, meanU]

/-- The same at width 128. -/
theorem meanU_of128 (z : Mat 50000 128) (s : FVec Ideal S1x128 .f32) (hs : s = colSum z) :
    Host.divf (F := Ideal) s (broadcastInDim S1x128 ![] bcast_S_S1x128 (constant (F := Ideal) S_ .f32 0x47435000#32))
      = meanU z Nlit := by
  subst hs
  funext i
  simp only [Host.divf, broadcastInDim, constant, Ideal.hostDivf_def, Ideal.ofBits_def, meanU]

theorem varU_of128 (z : Mat 50000 128) (s ss : FVec Ideal S1x128 .f32) (hs : s = colSum z) (hss : ss = colSumSq z) :
    subf (F := Ideal) (Host.divf (F := Ideal) ss (broadcastInDim S1x128 ![] bcast_S_S1x128 (constant (F := Ideal) S_ .f32 0x47435000#32)))
      (mulf (F := Ideal) (Host.divf (F := Ideal) s (broadcastInDim S1x128 ![] bcast_S_S1x128 (constant (F := Ideal) S_ .f32 0x47435000#32)))
        (Host.divf (F := Ideal) s (broadcastInDim S1x128 ![] bcast_S_S1x128 (constant (F := Ideal) S_ .f32 0x47435000#32))))
      = varU z Nlit := by
  subst hs; subst hss
  funext i
  simp only [subf, mulf, Host.divf, broadcastInDim, constant, Ideal.hostDivf_def, Ideal.ofBits_def, Ideal.subf_def,
    Ideal.mulf_def, varU, meanU]

/-- A vector of 64 entries cast to a 1×64 matrix is that vector as a row. -/
theorem row_cast64 (g : FVec Ideal S64 .f32) : (shapeCast S1x64 g shapeCasts_S64_S1x64 : Mat 1 64) = rowV g := by
  funext i
  obtain ⟨p, q, rfl⟩ : ∃ (p : Fin 1) (q : Fin 64), i = ix2 p q := ⟨i 0, i 1, eq_ix2 i⟩
  exact shapeCast_a_1a_apply g shapeCasts_S64_S1x64 p q

theorem row_cast128 (g : FVec Ideal S128 .f32) : (shapeCast S1x128 g shapeCasts_S128_S1x128 : Mat 1 128) = rowV g := by
  funext i
  obtain ⟨p, q, rfl⟩ : ∃ (p : Fin 1) (q : Fin 128), i = ix2 p q := ⟨i 0, i 1, eq_ix2 i⟩
  exact shapeCast_a_1a_apply g shapeCasts_S128_S1x128 p q

/-- The 1×1 scale `1 + e` cast from a scalar enters `comb` only through its one entry. -/
theorem comb_scale (e : FVec Ideal S_ .f32) (x ag : Mat 50000 128) :
    comb (shapeCast S1x1 (addf (F := Ideal) (constant (F := Ideal) S_ .f32 0x3F800000#32) e) shapeCasts_S_S1x1 : Mat 1 1) x ag
      = comb (fun _ => Ideal.ofBits .f32 0x3F800000#32 + e ix0) x ag := by
  funext i
  unfold comb
  have h1 : (shapeCast S1x1 (addf (F := Ideal) (constant (F := Ideal) S_ .f32 0x3F800000#32) e) shapeCasts_S_S1x1) (ix2 0 0)
      = (addf (F := Ideal) (constant (F := Ideal) S_ .f32 0x3F800000#32) e) ix0 :=
    shapeCast_apply _ _ _ _ (by
      have h1 := (S_.rowMajor ix0).isLt
      have h2 := (S1x1.rowMajor (ix2 (0 : Fin 1) (0 : Fin 1))).isLt
      have e1 : S_.numel = 1 := by decide
      have e2 : S1x1.numel = 1 := by decide
      omega)
  rw [h1]
  simp only [addf, constant, Ideal.addf_def, Ideal.ofBits_def]

end Cert.GIN.K

end
-- ==== Proof.KLayer0.lean ====
/-
  Layer 0 of the kernel program at the level of the specification: what its regions leave, as functions of what
  they find.  A normalisation region's output is the batch normalisation of the product region's first output,
  from the column means and uncentred variances the host arithmetic forms out of that region's two statistics rows.
-/
import proofs.«177653_j8959301779747_1_alg».proof.Proof.Reg0
import proofs.«177653_j8959301779747_1_alg».proof.Proof.Reg1
import proofs.«177653_j8959301779747_1_alg».proof.Proof.Reg2
import proofs.«177653_j8959301779747_1_alg».proof.Proof.Reg3
import proofs.«177653_j8959301779747_1_alg».proof.Proof.Wire0
import proofs.«177653_j8959301779747_1_alg».proof.Proof.KGlue

set_option maxRecDepth 16384

noncomputable section

namespace Cert.GIN.K

open Cert.KernelIdeal Cert.KernelIdeal.Gen
open Idealize.ShloMosaic Idealize.ShloMosaic.TcCoe Cert.GIN

variable (m : (ℓ : Loc nD τ sig) → Buf (Elt Ideal) ℓ) (ρ : Dev nD → PrngReg)

set_option maxHeartbeats 4000000 in
/-- The first normalisation of layer 0: batch normalisation (uncentred statistics) of `(sc · x + agg) · w1`. -/
theorem half_L0 (c : Dev nD) : (dat1 (V3 m ρ) c).arrAt 5 cfg1.N
    = bnU (mm (comb (V1 m ρ c (Pipeline.arrRef spec0 2)) (V1 m ρ c (Pipeline.arrRef spec0 0)) (V1 m ρ c (Pipeline.arrRef spec0 1))) (V1 m ρ c (Pipeline.arrRef spec0 3)))
        (V3 m ρ c (Pipeline.arrRef spec1 3)) (V3 m ρ c (Pipeline.arrRef spec1 4)) Nlit (Ideal.ofBits .f32 0x3727C5AC#32) := by
  rw [Reg1.out (V3 m ρ) c, wire_1_0 m ρ c, wire_1_1 m ρ c, wire_1_2 m ρ c]
  rw [varU_of64 _ _ _ (Reg0.s (V1 m ρ) c) (Reg0.ss (V1 m ρ) c), meanU_of64 _ _ (Reg0.s (V1 m ρ) c),
    Reg0.z (V1 m ρ) c]
  rfl

set_option maxHeartbeats 4000000 in
/-- The second normalisation of layer 0: batch normalisation of `h1 · w2`, `h1` the first one's result. -/
theorem full_L0 (c : Dev nD) : (dat3 (V7 m ρ) c).arrAt 5 cfg3.N
    = bnU (mm ((dat1 (V3 m ρ) c).arrAt 5 cfg1.N) (V5 m ρ c (Pipeline.arrRef spec2 1)))
        (V7 m ρ c (Pipeline.arrRef spec3 3)) (V7 m ρ c (Pipeline.arrRef spec3 4)) Nlit (Ideal.ofBits .f32 0x3727C5AC#32) := by
  have hz := Reg2.z (V5 m ρ) c
  have hs := Reg2.s (V5 m ρ) c
  have hss := Reg2.ss (V5 m ρ) c
  rw [wire_2_0 m ρ c] at hz hs hss
  rw [Reg3.out (V7 m ρ) c, wire_3_0 m ρ c, wire_3_1 m ρ c, wire_3_2 m ρ c]
  rw [varU_of128 _ _ _ hs hss, meanU_of128 _ _ hs, hz]
  rfl

end Cert.GIN.K

end
-- ==== Proof.LibBatchNorm.lean ====
/-
  Batch normalisation of a finite column, in the two spellings programs use, and why they agree.

  A column `x : ι → ℝ` over a finite, non-empty set of rows, `n` its number of rows as a real.

  * The CENTRED spelling takes the mean `μ = (∑ x) / n`, the variance `(∑ (x - μ)²) / n`, and sends an entry to
    `(x e - μ) · (√(var + ε))⁻¹ · γ + β`.
  * The FOLDED spelling never forms `x - μ`: from the two sums `∑ x` and `∑ x²` it takes the uncentred variance
    `(∑ x²) / n - μ²`, clamps it at zero, and sends an entry to `x e · s + (β - μ · s)` with the scale
    `s = γ · (√(max var 0 + ε))⁻¹`.

  Over the reals the uncentred variance IS the centred one (expand the square; `∑ μ² = n μ²`), the centred one is a sum
  of squares over a positive number, so the clamp is the identity, and the rest is distributivity (`bn_fold`).

  When the column is a matrix product `y e = ∑ k, h e k · w k`, its two sums need no pass over `y`: `∑ y` is the column
  sums of `h` against `w`, and `∑ y²` is the quadratic form of the Gram matrix `hᵀh` at `w` (`sum_matvec`,
  `sum_matvec_sq`); and a scale folded into the weights is the scale applied after the product (`matvec_scaled`).

  The last section carries real arithmetic through the exact operations on the extended reals (a quotient by a non-zero
  real, a reciprocal square root of a positive real, a maximum with zero, a finite sum): on finite values they are the
  real operations, which is what lets the identities above be used at the exact-arithmetic reading of a program.
-/
import Idealize.ShloMosaic.PureOps.Ideal

noncomputable section

namespace Cert.BatchNorm

open Idealize.ShloMosaic

/-! ## Mean and variance of a column -/

section Column

variable {ι : Type*} [Fintype ι]

/-- The mean of a column over `n` rows. -/
def mean (n : ℝ) (x : ι → ℝ) : ℝ := (∑ e, x e) / n

/-- The variance about the mean (biased: divided by `n`). -/
def cvar (n : ℝ) (x : ι → ℝ) : ℝ := (∑ e, (x e - mean n x) * (x e - mean n x)) / n

/-- The mean of the squares less the square of the mean. -/
def uvar (n : ℝ) (x : ι → ℝ) : ℝ := (∑ e, x e * x e) / n - mean n x * mean n x

/-- Expanding the square: the variance about the mean is the mean of squares less the squared mean. -/
theorem cvar_eq_uvar {n : ℝ} (hn : (Fintype.card ι : ℝ) = n) (h0 : n ≠ 0) (x : ι → ℝ) : cvar n x = uvar n x := by
  unfold cvar uvar mean
  have hexp : ∀ e, (x e - (∑ e, x e) / n) * (x e - (∑ e, x e) / n)
      = x e * x e - 2 * ((∑ e, x e) / n) * x e + ((∑ e, x e) / n) * ((∑ e, x e) / n) := fun e => by ring
  simp only [hexp]
  rw [Finset.sum_add_distrib, Finset.sum_sub_distrib, ← Finset.mul_sum, Finset.sum_const, Finset.card_univ,
    nsmul_eq_mul, hn]
  field_simp
  ring

/-- A variance is not negative. -/
theorem cvar_nonneg {n : ℝ} (hpos : 0 < n) (x : ι → ℝ) : 0 ≤ cvar n x :=
  div_nonneg (Finset.sum_nonneg fun _ _ => mul_self_nonneg _) hpos.le

/-- Clamping the uncentred variance at zero changes nothing: it is the centred one. -/
theorem max_uvar_zero {n : ℝ} (hn : (Fintype.card ι : ℝ) = n) (hpos : 0 < n) (x : ι → ℝ) :
    max (uvar n x) 0 = cvar n x := by
  rw [← cvar_eq_uvar hn hpos.ne' x]
  exact max_eq_left (cvar_nonneg hpos x)

/-- ONE LAYER, TWO SPELLINGS: the folded scale-and-shift of the clamped uncentred statistics is the centred
    normalisation. -/
theorem bn_fold {n : ℝ} (hn : (Fintype.card ι : ℝ) = n) (hpos : 0 < n) (x : ι → ℝ) (eps γ β : ℝ) (e : ι) :
    x e * (γ * (Real.sqrt (max (uvar n x) 0 + eps))⁻¹)
        + (β - mean n x * (γ * (Real.sqrt (max (uvar n x) 0 + eps))⁻¹))
      = (x e - mean n x) * (Real.sqrt (cvar n x + eps))⁻¹ * γ + β := by
  rw [max_uvar_zero hn hpos]
  ring

end Column

/-! ## The statistics of a matrix product's column, from column sums and the Gram matrix -/

section Product

variable {ι κ : Type*} [Fintype ι] [Fintype κ]

/-- The sum over the rows of a product's column is the column sums of the left factor against the weights. -/
theorem sum_matvec (h : ι → κ → ℝ) (w : κ → ℝ) :
    ∑ e, ∑ k, h e k * w k = ∑ k, (∑ e, h e k) * w k := by
  rw [Finset.sum_comm]
  exact Finset.sum_congr rfl fun k _ => (Finset.sum_mul _ _ _).symm

/-- The sum of the squares of a product's column is the Gram matrix's quadratic form at the weights. -/
theorem sum_matvec_sq (h : ι → κ → ℝ) (w : κ → ℝ) :
    ∑ e, (∑ k, h e k * w k) * (∑ l, h e l * w l) = ∑ k, w k * ∑ l, (∑ e, h e k * h e l) * w l := by
  have hL : ∀ e, (∑ k, h e k * w k) * (∑ l, h e l * w l) = ∑ k, ∑ l, w k * ((h e k * h e l) * w l) := fun e => by
    rw [Finset.sum_mul_sum]
    exact Finset.sum_congr rfl fun k _ => Finset.sum_congr rfl fun l _ => by ring
  have hR : ∀ k, w k * ∑ l, (∑ e, h e k * h e l) * w l = ∑ e, ∑ l, w k * ((h e k * h e l) * w l) := fun k => by
    rw [Finset.mul_sum, Finset.sum_comm]
    refine Finset.sum_congr rfl fun l _ => ?_
    rw [Finset.sum_mul, Finset.mul_sum]
  simp only [hL, hR]
  exact Finset.sum_comm

/-- A scale folded into the weights is the scale applied to the product. -/
theorem matvec_scaled (h : κ → ℝ) (w : κ → ℝ) (s : ℝ) : ∑ k, h k * (w k * s) = (∑ k, h k * w k) * s := by
  rw [Finset.sum_mul]
  exact Finset.sum_congr rfl fun k _ => by ring

end Product

/-! ## Real arithmetic inside the exact operations on the extended reals -/

section Coe

/-- A finite sum of reals, read on the extended reals, is the sum of the readings. -/
theorem coe_sum {α : Type*} (s : Finset α) (f : α → ℝ) : ((∑ a ∈ s, f a : ℝ) : EReal) = ∑ a ∈ s, (f a : EReal) := by
  classical
  induction s using Finset.induction_on with
  | empty => simp
  | insert a s ha ih => rw [Finset.sum_insert ha, Finset.sum_insert ha, EReal.coe_add, ih]

/-- The exact quotient of two reals, the divisor not zero, is the real quotient. -/
theorem div_coe_coe (a : ℝ) {n : ℝ} (h : n ≠ 0) : Ideal.div (a : EReal) (n : EReal) = ((a / n : ℝ) : EReal) := by
  rw [Ideal.div_coe h, ← EReal.coe_mul, mul_one_div]

/-- The exact reciprocal square root of a positive real is the real one. -/
theorem rsqrt_coe_pos {v : ℝ} (h : 0 < v) : Ideal.rsqrt (v : EReal) = (((Real.sqrt v)⁻¹ : ℝ) : EReal) := by
  rw [Ideal.rsqrt_coe, if_neg (not_lt.mpr h.le), if_neg h.ne']

/-- The maximum of a real and zero, on the extended reals, is the real maximum. -/
theorem max_coe_zero (a : ℝ) : max (a : EReal) 0 = ((max a 0 : ℝ) : EReal) := by
  rw [← EReal.coe_zero]
  exact (EReal.coe_strictMono.monotone.map_max).symm

end Coe

end Cert.BatchNorm

end
-- ==== Proof.LibSumRegroup.lean ====
/-
  Regrouping a finite sum over a range of naturals.

  A sum over `Fin (a * b)` is a double sum: every index below `a * b` is `p * b + q` for exactly one `p < a` and
  `q < b` (division with remainder by `b`), so summing block by block, `b` consecutive indices to a block, visits
  every index once. Twice over, a sum over `Fin (a * b * c)` is a triple sum over the indices `(p * b + q) * c + r`.
  This is how a column of `500000` rows is summed tile by tile: `2000` rows to a tile, `125` tiles to a core, `2` cores.

  A sum over `Fin (a + b + c + d)` is the sum of four sums, one over each consecutive part. This is how a product
  against a matrix whose columns are four blocks side by side is the sum of four partial products.

  All statements are for an arbitrary commutative additive monoid.
-/
import Mathlib.Algebra.BigOperators.Fin
import Mathlib.Data.Fintype.BigOperators
import Mathlib.Logic.Equiv.Fin.Basic

namespace Cert.SumRegroup

variable {M : Type*} [AddCommMonoid M]

/-! ## Products of ranges: block by block -/

/-- The index `p * b + q` of the `q`-th entry of the `p`-th block of length `b` lies below `a * b`. -/
theorem mul_add_lt {a b : ℕ} (p : Fin a) (q : Fin b) : p.val * b + q.val < a * b :=
  calc p.val * b + q.val < p.val * b + b := Nat.add_lt_add_left q.isLt _
    _ = (p.val + 1) * b := (Nat.succ_mul _ _).symm
    _ ≤ a * b := Nat.mul_le_mul_right b p.isLt

/-- A sum over `Fin (a * b)` taken block by block: `a` blocks of `b` consecutive indices. -/
theorem sum_fin_mul (a b : ℕ) (f : Fin (a * b) → M) :
    ∑ i, f i = ∑ p : Fin a, ∑ q : Fin b, f ⟨p.val * b + q.val, mul_add_lt p q⟩ := by
  rw [← (finProdFinEquiv (m := a) (n := b)).sum_comp f, Fintype.sum_prod_type]
  refine Finset.sum_congr rfl fun p _ => Finset.sum_congr rfl fun q _ => congrArg f (Fin.ext ?_)
  show q.val + b * p.val = p.val * b + q.val
  rw [Nat.add_comm, Nat.mul_comm]

/-- The index `(p * b + q) * c + r` lies below `a * b * c`. -/
theorem mul_add_mul_add_lt {a b c : ℕ} (p : Fin a) (q : Fin b) (r : Fin c) :
    (p.val * b + q.val) * c + r.val < a * b * c :=
  mul_add_lt (⟨p.val * b + q.val, mul_add_lt p q⟩ : Fin (a * b)) r

/-- A sum over `Fin (a * b * c)` taken in `a` groups of `b` blocks of `c` consecutive indices. -/
theorem sum_fin_mul_mul (a b c : ℕ) (f : Fin (a * b * c) → M) :
    ∑ i, f i = ∑ p : Fin a, ∑ q : Fin b, ∑ r : Fin c,
      f ⟨(p.val * b + q.val) * c + r.val, mul_add_mul_add_lt p q r⟩ := by
  rw [sum_fin_mul (a * b) c f,
    sum_fin_mul a b fun t : Fin (a * b) => ∑ r : Fin c, f ⟨t.val * c + r.val, mul_add_lt t r⟩]

/-- A column of `500000` rows summed tile by tile: two halves of `125` tiles of `2000` rows; row
    `(cc * 125 + j) * 2000 + r` is row `r` of tile `j` of half `cc`. -/
theorem sum_rows_by_tile (f : Fin 500000 → M) :
    ∑ e, f e = ∑ cc : Fin 2, ∑ j : Fin 125, ∑ r : Fin 2000,
      f ⟨(cc.val * 125 + j.val) * 2000 + r.val, mul_add_mul_add_lt (a := 2) cc j r⟩ :=
  sum_fin_mul_mul 2 125 2000 f

/-! ## Sums of ranges: part by part -/

/-- A sum over `Fin (a + b + c + d)` is the sum of the sums over its four consecutive parts. -/
theorem sum_fin_add4 (a b c d : ℕ) (g : Fin (a + b + c + d) → M) :
    ∑ i, g i
      = (∑ i : Fin a, g ⟨i.val, by omega⟩) + (∑ i : Fin b, g ⟨a + i.val, by omega⟩)
        + (∑ i : Fin c, g ⟨a + b + i.val, by omega⟩) + (∑ i : Fin d, g ⟨a + b + c + i.val, by omega⟩) := by
  rw [Fin.sum_univ_add, Fin.sum_univ_add, Fin.sum_univ_add]
  rfl

/-- A sum over `384` columns made of four blocks side by side, of widths `128`, `128`, `64`, `64`. -/
theorem sum_cols_by_part (g : Fin 384 → M) :
    ∑ i, g i
      = (∑ i : Fin 128, g ⟨i.val, by omega⟩) + (∑ i : Fin 128, g ⟨128 + i.val, by omega⟩)
        + (∑ i : Fin 64, g ⟨256 + i.val, by omega⟩) + (∑ i : Fin 64, g ⟨320 + i.val, by omega⟩) :=
  sum_fin_add4 128 128 64 64 g

end Cert.SumRegroup
-- ==== Proof.Math.lean ====
/-
  The real-number mathematics of batch normalisation over the 50000 rows of a node-feature matrix.

  * REGROUPING.  The rows `0 … 49999` are the ten tiles `5000 t + p` (`t < 10`, `p < 5000`), each row in exactly one tile, so a
    column sum taken tile by tile is the column sum taken row by row.  Addition on the extended reals is commutative and
    associative, so this needs no finiteness.
  * TWO VARIANCES.  For a column `x` of real numbers with mean `μ = (∑ x) / N`, expanding the square gives
    `(∑ (x − μ)²) / N = (∑ x²) / N − μ²` (`N` the number of rows).  A matrix of extended reals whose entries are all real is
    a matrix of reals read on the extended reals; the exact quotient by `N = 50000 ≠ 0`, the products, differences and
    finite sums of such readings are the readings of the real quotient, products, differences and sums.  So both
    variances are the reading of one real number, and the two normalisations agree entry by entry.
  * FINITENESS.  The centred variance is a sum of squares over a positive number, so it is not negative; adding a
    positive offset makes it positive, and the reciprocal square root of a positive real is a real.  Sums, products,
    differences and maxima of reals are real.  So a normalised-and-rectified matrix of reals is a matrix of reals, and so
    are a matrix product, a scaled sum and a rectified matrix of reals.
-/
import proofs.«177653_j8959301779747_1_alg».proof.Proof.Spec
import proofs.«177653_j8959301779747_1_alg».proof.Proof.Consts
import proofs.«177653_j8959301779747_1_alg».proof.Proof.LibBatchNorm
import proofs.«177653_j8959301779747_1_alg».proof.Proof.LibSumRegroup

noncomputable section

namespace Cert.GIN

open Idealize.ShloMosaic Idealize.ShloMosaic.ValueIdx
open Cert.BatchNorm

/-! ## Regrouping: tile by tile is row by row -/

/-- The column sums taken over ten tiles of 5000 rows are the column sums taken over the 50000 rows. -/
theorem colSum_eq_colSumAll {d : Nat} (z : Mat 50000 d) : colSum z = colSumAll z := by
  funext i
  unfold colSum colSumAll
  refine ((Cert.SumRegroup.sum_fin_mul 10 5000 (fun r : Fin 50000 => z (ix2 r (i 1)))).trans ?_).symm
  refine Finset.sum_congr rfl fun t _ => Finset.sum_congr rfl fun p _ => ?_
  refine congrArg (fun r : Fin 50000 => z (ix2 r (i 1))) (Fin.ext ?_)
  show t.val * 5000 + p.val = 5000 * t.val + p.val
  rw [Nat.mul_comm]

/-- The column sums of squares, row by row. -/
theorem colSumSq_eq {d : Nat} (z : Mat 50000 d) : colSumSq z = colSumAll fun i => z i * z i := by
  unfold colSumSq
  exact colSum_eq_colSumAll _

/-- The two column means are the same extended reals, whatever the divisor. -/
theorem meanU_eq_meanC {d : Nat} (z : Mat 50000 d) (N : EReal) : meanU z N = meanC z N := by
  unfold meanU meanC
  rw [colSum_eq_colSumAll]

/-! ## A matrix of reals: the statistics are readings of the real statistics of its columns -/

section Reals

variable {d : Nat} (z : Mat 50000 d) (x : (⟨2, ![50000, d]⟩ : Shape).Idx → ℝ) (hx : ∀ i, z i = ((x i : ℝ) : EReal))

include hx

/-- The column mean is the reading of the real mean of the column. -/
theorem meanC_coe (i : (⟨2, ![1, d]⟩ : Shape).Idx) :
    meanC z ((50000 : ℝ) : EReal) i = ((mean 50000 (fun r : Fin 50000 => x (ix2 r (i 1))) : ℝ) : EReal) := by
  unfold meanC colSumAll mean
  simp only [hx]
  rw [← coe_sum, div_coe_coe _ (by norm_num : (50000 : ℝ) ≠ 0)]

/-- The centred column variance is the reading of the real centred variance of the column. -/
theorem varC_coe (i : (⟨2, ![1, d]⟩ : Shape).Idx) :
    varC z ((50000 : ℝ) : EReal) i = ((cvar 50000 (fun r : Fin 50000 => x (ix2 r (i 1))) : ℝ) : EReal) := by
  unfold varC
  rw [meanC_coe z x hx i]
  unfold cvar
  simp only [hx, ← EReal.coe_sub, ← EReal.coe_mul]
  rw [← coe_sum, div_coe_coe _ (by norm_num : (50000 : ℝ) ≠ 0)]

/-- The uncentred column variance is the reading of the real uncentred variance of the column. -/
theorem varU_coe (i : (⟨2, ![1, d]⟩ : Shape).Idx) :
    varU z ((50000 : ℝ) : EReal) i = ((uvar 50000 (fun r : Fin 50000 => x (ix2 r (i 1))) : ℝ) : EReal) := by
  unfold varU
  rw [meanU_eq_meanC, meanC_coe z x hx i, colSumSq_eq]
  unfold colSumAll uvar
  simp only [hx, ← EReal.coe_mul]
  rw [← coe_sum, div_coe_coe _ (by norm_num : (50000 : ℝ) ≠ 0), ← EReal.coe_sub]

end Reals

/-- The two column variances of a matrix of reals agree: `(∑ (x − μ)²) / N = (∑ x²) / N − μ²`. -/
theorem varU_eq_varC {d : Nat} (z : Mat 50000 d) (hz : IsReal z) :
    varU z ((50000 : ℝ) : EReal) = varC z ((50000 : ℝ) : EReal) := by
  choose x hx using hz
  funext i
  rw [varU_coe z x hx i, varC_coe z x hx i, cvar_eq_uvar (by simp) (by norm_num)]

/-- Batch normalisation from the uncentred statistics is batch normalisation from the centred ones, on a matrix of
    reals. -/
theorem bnU_eq_bnC {d : Nat} (z : Mat 50000 d) (γ β : Mat 1 d) (eps : EReal) (hz : IsReal z) :
    bnU z γ β ((50000 : ℝ) : EReal) eps = bnC z γ β ((50000 : ℝ) : EReal) eps := by
  unfold bnU bnC
  rw [meanU_eq_meanC, varU_eq_varC z hz]

/-! ## Finiteness -/

/-- The column means of a matrix of reals are real. -/
theorem isReal_meanC {d : Nat} (z : Mat 50000 d) (hz : IsReal z) : IsReal (meanC z ((50000 : ℝ) : EReal)) := by
  choose x hx using hz
  exact fun i => ⟨_, meanC_coe z x hx i⟩

/-- The centred column variances of a matrix of reals are real and not negative. -/
theorem varC_nonneg {d : Nat} (z : Mat 50000 d) (hz : IsReal z) (i : (⟨2, ![1, d]⟩ : Shape).Idx) :
    ∃ v : ℝ, 0 ≤ v ∧ varC z ((50000 : ℝ) : EReal) i = ((v : ℝ) : EReal) := by
  choose x hx using hz
  exact ⟨_, cvar_nonneg (by norm_num) _, varC_coe z x hx i⟩

/-- The centred column variances of a matrix of reals are real. -/
theorem isReal_varC {d : Nat} (z : Mat 50000 d) (hz : IsReal z) : IsReal (varC z ((50000 : ℝ) : EReal)) := fun i => by
  obtain ⟨v, _, hv⟩ := varC_nonneg z hz i
  exact ⟨v, hv⟩

/-- Normalising and rectifying a matrix of reals by its own centred statistics, with real scale and shift and a
    positive offset under the root, gives a matrix of reals. -/
theorem isReal_bnC {d : Nat} (z : Mat 50000 d) (γ β : Mat 1 d) (eps : EReal) (hz : IsReal z) (hγ : IsReal γ)
    (hβ : IsReal β) (he : ∃ e : ℝ, 0 < e ∧ eps = ((e : ℝ) : EReal)) :
    IsReal (bnC z γ β ((50000 : ℝ) : EReal) eps) := by
  intro i
  obtain ⟨e, he0, rfl⟩ := he
  obtain ⟨m, hm⟩ := isReal_meanC z hz (ix2 0 (i 1))
  obtain ⟨v, hv0, hv⟩ := varC_nonneg z hz (ix2 0 (i 1))
  obtain ⟨a, ha⟩ := hz i
  obtain ⟨g, hg⟩ := hγ (ix2 0 (i 1))
  obtain ⟨b, hb⟩ := hβ (ix2 0 (i 1))
  refine ⟨max (g * (a - m) * (Real.sqrt (v + e))⁻¹ + b) 0, ?_⟩
  unfold bnC normRelu
  rw [hm, hv, ha, hg, hb, ← EReal.coe_add, rsqrt_coe_pos (by linarith), ← EReal.coe_sub, ← EReal.coe_mul,
    ← EReal.coe_mul, ← EReal.coe_add, max_coe_zero]

/-- The same from the uncentred statistics. -/
theorem isReal_bnU {d : Nat} (z : Mat 50000 d) (γ β : Mat 1 d) (eps : EReal) (hz : IsReal z) (hγ : IsReal γ)
    (hβ : IsReal β) (he : ∃ e : ℝ, 0 < e ∧ eps = ((e : ℝ) : EReal)) :
    IsReal (bnU z γ β ((50000 : ℝ) : EReal) eps) := by
  rw [bnU_eq_bnC z γ β eps hz]
  exact isReal_bnC z γ β eps hz hγ hβ he

/-- A product of matrices of reals is a matrix of reals. -/
theorem isReal_mm {n k d : Nat} (h : Mat n k) (w : Mat k d) (hh : IsReal h) (hw : IsReal w) : IsReal (mm h w) := by
  choose a ha using hh
  choose b hb using hw
  intro i
  refine ⟨∑ q : Fin k, a (ix2 (i 0) q) * b (ix2 q (i 1)), ?_⟩
  unfold mm
  simp only [ha, hb, ← EReal.coe_mul]
  rw [← coe_sum]

/-- A real multiple of a matrix of reals plus a matrix of reals is a matrix of reals. -/
theorem isReal_comb {n k : Nat} (sc : Mat 1 1) (x ag : Mat n k) (hsc : IsReal sc) (hx : IsReal x) (hag : IsReal ag) :
    IsReal (comb sc x ag) := by
  intro i
  obtain ⟨s, hs⟩ := hsc (ix2 0 0)
  obtain ⟨a, ha⟩ := hx i
  obtain ⟨b, hb⟩ := hag i
  refine ⟨s * a + b, ?_⟩
  unfold comb
  rw [hs, ha, hb, ← EReal.coe_mul, ← EReal.coe_add]

/-- The rectified matrix of a matrix of reals is a matrix of reals. -/
theorem isReal_relu {n d : Nat} (z : Mat n d) (hz : IsReal z) : IsReal (relu z) := by
  intro i
  obtain ⟨a, ha⟩ := hz i
  refine ⟨max a 0, ?_⟩
  unfold relu
  rw [ha, max_coe_zero]

end Cert.GIN

end
-- ==== Proof.Bridge.lean ====
/-
  One block of the network at the level of the specification: computing both batch normalisations from the
  uncentred column statistics (sums and sums of squares over row tiles) gives the same matrix as computing them
  from the centred ones, when the block's inputs are real; and the result is real again, so the blocks chain.
-/
import proofs.«177653_j8959301779747_1_alg».proof.Proof.Spec
import proofs.«177653_j8959301779747_1_alg».proof.Proof.Math

noncomputable section

namespace Cert.GIN

open Idealize.ShloMosaic Idealize.ShloMosaic.ValueIdx

/-- The row count as an extended real. -/
abbrev NR : EReal := ((50000 : ℝ) : EReal)

/-- A block from the uncentred statistics. -/
def blockU (sc : Mat 1 1) (x ag : Mat 50000 128) (w1 : Mat 128 64) (γ1 β1 : Mat 1 64) (w2 : Mat 64 128) (γ2 β2 : Mat 1 128)
    (eps : EReal) : Mat 50000 128 :=
  bnU (mm (bnU (mm (comb sc x ag) w1) γ1 β1 NR eps) w2) γ2 β2 NR eps

/-- A block from the centred statistics. -/
def blockC (sc : Mat 1 1) (x ag : Mat 50000 128) (w1 : Mat 128 64) (γ1 β1 : Mat 1 64) (w2 : Mat 64 128) (γ2 β2 : Mat 1 128)
    (eps : EReal) : Mat 50000 128 :=
  bnC (mm (bnC (mm (comb sc x ag) w1) γ1 β1 NR eps) w2) γ2 β2 NR eps

/-- The last block (one batch normalisation, then a product and the rectifier), from the uncentred statistics. -/
def lastU (sc : Mat 1 1) (x ag : Mat 50000 128) (w1 : Mat 128 64) (γ1 β1 : Mat 1 64) (wl : Mat 64 2) (eps : EReal) : Mat 50000 2 :=
  relu (mm (bnU (mm (comb sc x ag) w1) γ1 β1 NR eps) wl)

/-- The last block from the centred statistics. -/
def lastC (sc : Mat 1 1) (x ag : Mat 50000 128) (w1 : Mat 128 64) (γ1 β1 : Mat 1 64) (wl : Mat 64 2) (eps : EReal) : Mat 50000 2 :=
  relu (mm (bnC (mm (comb sc x ag) w1) γ1 β1 NR eps) wl)

variable {sc : Mat 1 1} {x ag : Mat 50000 128} {w1 : Mat 128 64} {γ1 β1 : Mat 1 64} {w2 : Mat 64 128} {γ2 β2 : Mat 1 128}
  {wl : Mat 64 2} {eps : EReal}

/-- With real inputs the two forms of a block are one matrix. -/
theorem blockU_eq_blockC (hsc : IsReal sc) (hx : IsReal x) (hag : IsReal ag) (hw1 : IsReal w1) (hγ1 : IsReal γ1) (hβ1 : IsReal β1)
    (hw2 : IsReal w2) (he : ∃ e : ℝ, 0 < e ∧ eps = ((e : ℝ) : EReal)) :
    blockU sc x ag w1 γ1 β1 w2 γ2 β2 eps = blockC sc x ag w1 γ1 β1 w2 γ2 β2 eps := by
  have hz1 : IsReal (mm (comb sc x ag) w1) := isReal_mm _ _ (isReal_comb _ _ _ hsc hx hag) hw1
  have e1 : bnU (mm (comb sc x ag) w1) γ1 β1 NR eps = bnC (mm (comb sc x ag) w1) γ1 β1 NR eps := bnU_eq_bnC _ _ _ _ hz1
  have hh1 : IsReal (bnC (mm (comb sc x ag) w1) γ1 β1 NR eps) := isReal_bnC _ _ _ _ hz1 hγ1 hβ1 he
  have hz2 : IsReal (mm (bnC (mm (comb sc x ag) w1) γ1 β1 NR eps) w2) := isReal_mm _ _ hh1 hw2
  unfold blockU blockC
  rw [e1]
  exact bnU_eq_bnC _ _ _ _ hz2

/-- A block with real inputs is real. -/
theorem isReal_blockC (hsc : IsReal sc) (hx : IsReal x) (hag : IsReal ag) (hw1 : IsReal w1) (hγ1 : IsReal γ1) (hβ1 : IsReal β1)
    (hw2 : IsReal w2) (hγ2 : IsReal γ2) (hβ2 : IsReal β2) (he : ∃ e : ℝ, 0 < e ∧ eps = ((e : ℝ) : EReal)) :
    IsReal (blockC sc x ag w1 γ1 β1 w2 γ2 β2 eps) := by
  have hz1 : IsReal (mm (comb sc x ag) w1) := isReal_mm _ _ (isReal_comb _ _ _ hsc hx hag) hw1
  have hh1 : IsReal (bnC (mm (comb sc x ag) w1) γ1 β1 NR eps) := isReal_bnC _ _ _ _ hz1 hγ1 hβ1 he
  have hz2 : IsReal (mm (bnC (mm (comb sc x ag) w1) γ1 β1 NR eps) w2) := isReal_mm _ _ hh1 hw2
  exact isReal_bnC _ _ _ _ hz2 hγ2 hβ2 he

/-- The last block: the two forms agree for real inputs. -/
theorem lastU_eq_lastC (hsc : IsReal sc) (hx : IsReal x) (hag : IsReal ag) (hw1 : IsReal w1) :
    lastU sc x ag w1 γ1 β1 wl eps = lastC sc x ag w1 γ1 β1 wl eps := by
  have hz1 : IsReal (mm (comb sc x ag) w1) := isReal_mm _ _ (isReal_comb _ _ _ hsc hx hag) hw1
  unfold lastU lastC
  rw [bnU_eq_bnC _ _ _ _ hz1]

end Cert.GIN

end
-- ==== Proof.RealIdx.lean ====
/-
  Real-valuedness survives re-indexing.

  A reshape, a slice, and the reading of a vector as a one-row matrix each return, at every index, one entry of the
  array they are given; so if every entry of that array is a real number, so is every entry of the result.  The 1×1
  scale of a layer is `1 + e` for a scalar `e`: the sum of two real numbers.
-/
import proofs.«177653_j8959301779747_1_alg».proof.Proof.Spec
import proofs.«177653_j8959301779747_1_alg».proof.Proof.Consts
import proofs.«177653_j8959301779747_1_alg».proof.Proof.KGlue

noncomputable section

namespace Cert.GIN

open Idealize.ShloMosaic Idealize.ShloMosaic.ValueIdx

/-- A reshape of a real-valued array is real-valued: each entry is an entry of the operand. -/
theorem isReal_shapeCast {s t : Shape} (x : s.Idx → EReal) (h : s.ShapeCasts t) (hx : IsReal x) :
    IsReal (shapeCast t x h) :=
  fun _ => hx _

/-- A slice of a real-valued array is real-valued: each entry is an entry of the operand. -/
theorem isReal_slice {s t : Shape} (off : Fin s.rank → Nat) (x : s.Idx → EReal) (h : s.Slices off t) (hx : IsReal x) :
    IsReal (extractStridedSlice t off x h) :=
  fun _ => hx _

/-- A real-valued vector read as a one-row matrix is real-valued. -/
theorem isReal_rowV {d : Nat} (g : (⟨1, ![d]⟩ : Shape).Idx → EReal) (hg : IsReal g) : IsReal (K.rowV g) :=
  fun _ => hg _

/-- The 1×1 scale `1 + e` of a real scalar `e` is real. -/
theorem isReal_scale (e : (⟨0, ![]⟩ : Shape).Idx → EReal) (he : IsReal e) :
    IsReal (fun _ : (⟨2, ![1, 1]⟩ : Shape).Idx => Ideal.ofBits .f32 0x3F800000#32 + e ValueIdx.ix0) := by
  intro _
  obtain ⟨r, hr⟩ := he ValueIdx.ix0
  refine ⟨1 + r, ?_⟩
  show Ideal.ofBits .f32 0x3F800000#32 + e ValueIdx.ix0 = ((1 + r : ℝ) : EReal)
  rw [ofBits_one, hr, EReal.coe_add]

end Cert.GIN

end
-- ==== Proof.LibRowIndex.lean ====
/-
  Gathers and scatters that move whole rows by ONE start index per row, read at an index written by coordinates.

  An integer column `idx : [E, 1]` names, for each of `E` edges, one row of an operand with `N` rows.
  * Gathering rows of a matrix `x : [N, C]` gives `[E, C]`: element `(e, c)` is `x` at row `idx[e, 0]` — read as a signed
    integer and clamped into `[0, N - 1]` — and column `c`.
  * Gathering entries of a vector `x : [N]` gives `[E]`: element `e` is `x` at `idx[e, 0]`, read signed and clamped.
  * Scattering the rows of updates `[E, C]` into `[N, C]`: update element `(e, c)` lands in row `idx[e, 0]` read as a signed
    integer and NOT clamped (an update whose row is outside `[0, N)` is dropped). All that is stated here is the row: if
    the update lands at `i`, then `idx[e, 0]`, as a signed integer, is `i`'s row.
-/
import Idealize.ShloMosaic.Lib.ValueIdx

noncomputable section

namespace Cert.Lib.RowIndex

open Idealize.ShloMosaic Idealize.ShloMosaic.ValueIdx

variable {α : Type}

/-! ## Gathering rows of a matrix -/

/-- The dimension numbers of `x[idx]` for a matrix `x : [N, C]` and a column of row numbers `idx : [E, 1]`: the rows
    are collapsed, the columns are the offset axis, one start index per result row. -/
abbrev rowGatherDims (N C E : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- Element `(e, c)` of the gathered rows is the matrix at the clamped row `idx[e, 0]` and column `c`. -/
theorem rowGather_apply {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGatherDims N C E wf) x idx (ix2 e c)
      = x (ix2 ⟨min (idx (ix2 e 0)).toInt.toNat (N - 1), by omega⟩ c) := by
  unfold Host.gather
  congr 1
  funext a
  refine Fin.ext ?_
  match a with
  | ⟨0, _⟩ =>
    show (rowGatherDims N C E wf).start (ix2 e c) idx 0 + (rowGatherDims N C E wf).batchCoord (ix2 e c) 0
      + (rowGatherDims N C E wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N C E wf).startIndexMap from List.mem_singleton.mpr rfl)]
    have hsi : (rowGatherDims N C E wf).siIdx (ix2 e c) ⟨List.idxOf (0 : Fin 2) (rowGatherDims N C E wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGatherDims N C E wf).start (ix2 e c) idx 1 + (rowGatherDims N C E wf).batchCoord (ix2 e c) 1
      + (rowGatherDims N C E wf).offCoord (ix2 e c) 1 = c.val
    rw [GatherDims.batchCoord_eq_zero _ _ _ List.not_mem_nil]
    have hs : (rowGatherDims N C E wf).start (ix2 e c) idx 1 = 0 := by
      unfold GatherDims.start
      rw [dif_neg (show ¬ (1 : Fin 2) ∈ (rowGatherDims N C E wf).startIndexMap from
        (by decide : ¬ (1 : Fin 2) ∈ ([0] : List (Fin 2))))]
    have ho : (rowGatherDims N C E wf).offCoord (ix2 e c) 1 = c.val := by
      unfold GatherDims.offCoord
      rw [dif_pos (show (1 : Fin 2) ∈ (rowGatherDims N C E wf).sKept from
        (GatherDims.mem_sKept _ _).mpr ⟨(by decide : ¬ (1 : Fin 2) ∈ ([0] : List (Fin 2))), List.not_mem_nil⟩)]
      rfl
    rw [hs, ho]; omega

/-! ## Gathering entries of a vector -/

/-- The dimension numbers of `x[idx]` for a vector `x : [N]` and a column of positions `idx : [E, 1]`. -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Element `e` of the gathered entries is the vector at the clamped position `idx[e, 0]`. -/
theorem vecGather_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGatherDims N E wf) x idx (ix1 e)
      = x (ix1 ⟨min (idx (ix2 e 0)).toInt.toNat (N - 1), by omega⟩) := by
  unfold Host.gather
  congr 1
  funext a
  obtain rfl : a = 0 := Subsingleton.elim _ _
  refine Fin.ext ?_
  show (vecGatherDims N E wf).start (ix1 e) idx 0 + (vecGatherDims N E wf).batchCoord (ix1 e) 0
    + (vecGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  have hsi : (vecGatherDims N E wf).siIdx (ix1 e) ⟨List.idxOf (0 : Fin 1) (vecGatherDims N E wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-! ## Scattering rows -/

/-- The dimension numbers of `zeros.at[idx].add(u)` for updates `u : [E, C]` into `[N, C]` and a column of row numbers
    `idx : [E, 1]`: the update's columns are its window, the operand's rows are inserted, one start index per update row. -/
abbrev rowScatterDims (N C E : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- If update element `u` lands at `i`, then its row number `idx[u₀, 0]`, as a signed integer, is `i`'s row. -/
theorem rowScatter_row {N C E w : Nat}
    (wf : ScatterDims.WF ⟨2, ![N, C]⟩ ⟨2, ![E, 1]⟩ ⟨2, ![E, C]⟩ [1] [0] [0] 1)
    (idx : IVec ⟨2, ![E, 1]⟩ w) (u : (⟨2, ![E, C]⟩ : Shape).Idx) (i : (⟨2, ![N, C]⟩ : Shape).Idx)
    (h : (rowScatterDims N C E wf).resultIdx? u idx = some i) :
    (idx (ix2 (u 0) 0)).toInt = ((i 0).val : Int) := by
  have hs : (rowScatterDims N C E wf).start u idx 0 = (idx (ix2 (u 0) 0)).toInt := by
    unfold ScatterDims.start
    rw [dif_pos (show (0 : Fin 2) ∈ (rowScatterDims N C E wf).scatterDimsToOperandDims from List.mem_singleton.mpr rfl)]
    have hsi : (rowScatterDims N C E wf).siIdx u ⟨List.idxOf (0 : Fin 2) (rowScatterDims N C E wf).scatterDimsToOperandDims,
        List.idxOf_lt_length_iff.2 (List.mem_singleton.mpr rfl)⟩ = ix2 (u 0) 0 := by
      funext b; refine Fin.ext ?_
      match b with
      | ⟨0, _⟩ => rfl
      | ⟨1, _⟩ => rfl
    rw [hsi]
    rfl
  have hw : (rowScatterDims N C E wf).window u 0 = 0 := by
    unfold ScatterDims.window
    rw [dif_neg (show ¬ (0 : Fin 2) ∈ (rowScatterDims N C E wf).sKept from
      (by decide : ¬ (0 : Fin 2) ∈ (List.finRange 2).filter (fun a => a ∉ ([0] : List (Fin 2)))))]
  unfold ScatterDims.resultIdx? at h
  split at h
  · rename_i hb
    have h0 : ((rowScatterDims N C E wf).start u idx 0 + ((rowScatterDims N C E wf).window u 0 : Int)).toNat = (i 0).val :=
      congrArg (fun f : (⟨2, ![N, C]⟩ : Shape).Idx => (f 0).val) (Option.some.inj h)
    have hb0 := (hb 0).1
    rw [hs, hw] at h0 hb0
    simp only [Nat.cast_zero, add_zero] at h0 hb0
    omega
  · exact absurd h (by simp)

end Cert.Lib.RowIndex

end
-- ==== Proof.LibRowScatterSum.lean ====
/-
  A scatter-add of rows, and of vector entries, by ONE row number per update, read at an index as a sum over the updates.

  An integer column `idx : [E, 1]` names one row of the operand for each of `E` updates. Update element `(e, c')` of
  `u : [E, C]` lands on operand element `(i, c)` of `[N, C]` exactly when `idx[e, 0]`, read as a signed integer, is `i`
  and `c' = c` (an update whose row is outside `[0, N)` lands nowhere). So on the extended reals the accumulated
  scatter is, at `(i, c)`, the operand's element plus the sum of `u[e, c]` over the updates `e` whose row number is `i`:
  which updates contribute depends on the column of row numbers only, not on `c` and not on the width `C`.
  The same for a vector of updates `[E]` scattered into `[N]`.
-/
import Idealize.ShloMosaic.Lib.ValueIdx
import Idealize.ShloMosaic.PureOps.Ideal.Laws
import proofs.«177653_j8959301779747_1_alg».proof.Proof.LibRowIndex

noncomputable section

namespace Cert.Lib.RowScatterSum

open Idealize.ShloMosaic Idealize.ShloMosaic.ValueIdx Cert.Lib.RowIndex

/-! ## Rows of a matrix -/

section Rows

variable {N C E w : Nat} (wf : ScatterDims.WF ⟨2, ![N, C]⟩ ⟨2, ![E, 1]⟩ ⟨2, ![E, C]⟩ [1] [0] [0] 1)

/-- On the row axis the start of an update's window is its row number, read signed. -/
theorem start_row (idx : IVec ⟨2, ![E, 1]⟩ w) (u : (⟨2, ![E, C]⟩ : Shape).Idx) :
    (rowScatterDims N C E wf).start u idx 0 = (idx (ix2 (u 0) 0)).toInt := by
  unfold ScatterDims.start
  rw [dif_pos (show (0 : Fin 2) ∈ (rowScatterDims N C E wf).scatterDimsToOperandDims from List.mem_singleton.mpr rfl)]
  have hsi : (rowScatterDims N C E wf).siIdx u ⟨List.idxOf (0 : Fin 2) (rowScatterDims N C E wf).scatterDimsToOperandDims,
      List.idxOf_lt_length_iff.2 (List.mem_singleton.mpr rfl)⟩ = ix2 (u 0) 0 := by
    funext b; refine Fin.ext ?_
    match b with
    | ⟨0, _⟩ => rfl
    | ⟨1, _⟩ => rfl
  rw [hsi]
  rfl

/-- On the column axis the window starts at zero. -/
theorem start_col (idx : IVec ⟨2, ![E, 1]⟩ w) (u : (⟨2, ![E, C]⟩ : Shape).Idx) :
    (rowScatterDims N C E wf).start u idx 1 = 0 := by
  unfold ScatterDims.start
  rw [dif_neg (show ¬ (1 : Fin 2) ∈ (rowScatterDims N C E wf).scatterDimsToOperandDims from
    (by decide : ¬ (1 : Fin 2) ∈ ([0] : List (Fin 2))))]

/-- The row axis is inserted: no window coordinate on it. -/
theorem window_row (u : (⟨2, ![E, C]⟩ : Shape).Idx) : (rowScatterDims N C E wf).window u 0 = 0 := by
  unfold ScatterDims.window
  rw [dif_neg (show ¬ (0 : Fin 2) ∈ (rowScatterDims N C E wf).sKept from
    (by decide : ¬ (0 : Fin 2) ∈ (List.finRange 2).filter (fun a => a ∉ ([0] : List (Fin 2)))))]

/-- The window coordinate on the column axis is the update's column. -/
theorem window_col (u : (⟨2, ![E, C]⟩ : Shape).Idx) : (rowScatterDims N C E wf).window u 1 = (u 1).val := by
  unfold ScatterDims.window
  rw [dif_pos (show (1 : Fin 2) ∈ (rowScatterDims N C E wf).sKept from
    (by decide : (1 : Fin 2) ∈ (List.finRange 2).filter (fun a => a ∉ ([0] : List (Fin 2)))))]
  rfl

/-- Update element `(e, c')` lands on `(i, c)` exactly when its row number is `i` and its column is `c`. -/
theorem lands_iff (idx : IVec ⟨2, ![E, 1]⟩ w) (e : Fin E) (c' : Fin C) (i : Fin N) (c : Fin C) :
    (rowScatterDims N C E wf).resultIdx? (ix2 e c') idx = some (ix2 i c)
      ↔ ((idx (ix2 e 0)).toInt = (i.val : Int) ∧ c' = c) := by
  have s0 : (rowScatterDims N C E wf).start (ix2 e c') idx 0 = (idx (ix2 e 0)).toInt := start_row wf idx (ix2 e c')
  have s1 := start_col wf idx (ix2 e c')
  have w0 := window_row wf (ix2 e c')
  have w1 : (rowScatterDims N C E wf).window (ix2 e c') 1 = c'.val := window_col wf (ix2 e c')
  unfold ScatterDims.resultIdx?
  constructor
  · intro h
    split at h
    · rename_i hb
      have hv := Option.some.inj h
      have e0 : ((rowScatterDims N C E wf).start (ix2 e c') idx 0
          + ((rowScatterDims N C E wf).window (ix2 e c') 0 : Int)).toNat = i.val :=
        congrArg (fun f : (⟨2, ![N, C]⟩ : Shape).Idx => (f 0).val) hv
      have e1 : ((rowScatterDims N C E wf).start (ix2 e c') idx 1
          + ((rowScatterDims N C E wf).window (ix2 e c') 1 : Int)).toNat = c.val :=
        congrArg (fun f : (⟨2, ![N, C]⟩ : Shape).Idx => (f 1).val) hv
      have hb0 := (hb 0).1
      rw [s0, w0] at e0 hb0
      rw [s1, w1] at e1
      simp only [Nat.cast_zero, add_zero] at e0 hb0
      exact ⟨by omega, Fin.ext (by omega)⟩
    · exact absurd h (by simp)
  · rintro ⟨hr, rfl⟩
    split
    · refine congrArg some (funext fun a => Fin.ext ?_)
      match a with
      | ⟨0, _⟩ =>
        show ((rowScatterDims N C E wf).start (ix2 e c') idx 0
          + ((rowScatterDims N C E wf).window (ix2 e c') 0 : Int)).toNat = i.val
        rw [s0, w0, hr]; simp
      | ⟨1, _⟩ =>
        show ((rowScatterDims N C E wf).start (ix2 e c') idx 1
          + ((rowScatterDims N C E wf).window (ix2 e c') 1 : Int)).toNat = c'.val
        rw [s1, w1]; simp
    · rename_i hb
      exfalso; apply hb; intro a
      match a with
      | ⟨0, _⟩ =>
        show 0 ≤ (rowScatterDims N C E wf).start (ix2 e c') idx 0 + ((rowScatterDims N C E wf).window (ix2 e c') 0 : Int)
          ∧ (rowScatterDims N C E wf).start (ix2 e c') idx 0 + ((rowScatterDims N C E wf).window (ix2 e c') 0 : Int) < (N : Int)
        rw [s0, w0, hr]; have := i.isLt; constructor <;> omega
      | ⟨1, _⟩ =>
        show 0 ≤ (rowScatterDims N C E wf).start (ix2 e c') idx 1 + ((rowScatterDims N C E wf).window (ix2 e c') 1 : Int)
          ∧ (rowScatterDims N C E wf).start (ix2 e c') idx 1 + ((rowScatterDims N C E wf).window (ix2 e c') 1 : Int) < (C : Int)
        rw [s1, w1]; have := c'.isLt; constructor <;> omega

/-- The accumulated row scatter at `(i, c)`: the operand's element plus the sum, over the updates whose row number is
    `i`, of the update's element in column `c`. -/
theorem rowScatterAdd_apply {φ : FTy} (x : FVec Ideal ⟨2, ![N, C]⟩ φ) (idx : IVec ⟨2, ![E, 1]⟩ w)
    (upd : FVec Ideal ⟨2, ![E, C]⟩ φ) (i : Fin N) (c : Fin C) :
    Host.scatterAdd (rowScatterDims N C E wf) x idx upd (ix2 i c)
      = x (ix2 i c) + ∑ e ∈ Finset.univ.filter (fun e : Fin E => (idx (ix2 e 0)).toInt = (i.val : Int)), upd (ix2 e c) := by
  show Ideal.hostScatterAdd (rowScatterDims N C E wf) x idx upd (ix2 i c) = _
  unfold Ideal.hostScatterAdd
  congr 1
  rw [Finset.sum_filter, sum_idx2, Finset.sum_filter]
  refine Finset.sum_congr rfl fun e _ => ?_
  by_cases hr : (idx (ix2 e 0)).toInt = (i.val : Int)
  · rw [if_pos hr, Finset.sum_eq_single c]
    · rw [if_pos ((lands_iff wf idx e c i c).mpr ⟨hr, rfl⟩)]
    · intro c' _ hne
      exact if_neg fun h => hne ((lands_iff wf idx e c' i c).mp h).2
    · intro h; exact absurd (Finset.mem_univ c) h
  · rw [if_neg hr]
    exact Finset.sum_eq_zero fun c' _ => if_neg fun h => hr ((lands_iff wf idx e c' i c).mp h).1

end Rows

/-! ## Entries of a vector -/

section Entries

/-- A rank-1 index is its one coordinate. -/
def idxEquiv1 {n : Nat} : (⟨1, ![n]⟩ : Shape).Idx ≃ Fin n where
  toFun i := i 0
  invFun a := ix1 a
  left_inv i := (eq_ix1 i).symm
  right_inv _ := rfl

/-- … so a sum over it is the sum over that coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The dimension numbers of `zeros.at[idx].add(u)` for updates `u : [E]` into `[N]` and a column of positions
    `idx : [E, 1]`: no window axis, the operand's one axis inserted, one start index per update. -/
abbrev vecScatterDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable {N E w : Nat} (wf : ScatterDims.WF ⟨1, ![N]⟩ ⟨2, ![E, 1]⟩ ⟨1, ![E]⟩ [] [0] [0] 1)

theorem vstart (idx : IVec ⟨2, ![E, 1]⟩ w) (u : (⟨1, ![E]⟩ : Shape).Idx) :
    (vecScatterDims N E wf).start u idx 0 = (idx (ix2 (u 0) 0)).toInt := by
  unfold ScatterDims.start
  rw [dif_pos (show (0 : Fin 1) ∈ (vecScatterDims N E wf).scatterDimsToOperandDims from List.mem_singleton.mpr rfl)]
  have hsi : (vecScatterDims N E wf).siIdx u ⟨List.idxOf (0 : Fin 1) (vecScatterDims N E wf).scatterDimsToOperandDims,
      List.idxOf_lt_length_iff.2 (List.mem_singleton.mpr rfl)⟩ = ix2 (u 0) 0 := by
    funext b; refine Fin.ext ?_
    match b with
    | ⟨0, _⟩ => rfl
    | ⟨1, _⟩ => rfl
  rw [hsi]
  rfl

theorem vwindow (u : (⟨1, ![E]⟩ : Shape).Idx) : (vecScatterDims N E wf).window u 0 = 0 := by
  unfold ScatterDims.window
  rw [dif_neg (show ¬ (0 : Fin 1) ∈ (vecScatterDims N E wf).sKept from
    (by decide : ¬ (0 : Fin 1) ∈ (List.finRange 1).filter (fun a => a ∉ ([0] : List (Fin 1)))))]

/-- Update `e` lands on entry `i` exactly when its position, read signed, is `i`. -/
theorem vlands_iff (idx : IVec ⟨2, ![E, 1]⟩ w) (e : Fin E) (i : Fin N) :
    (vecScatterDims N E wf).resultIdx? (ix1 e) idx = some (ix1 i) ↔ (idx (ix2 e 0)).toInt = (i.val : Int) := by
  have s0 : (vecScatterDims N E wf).start (ix1 e) idx 0 = (idx (ix2 e 0)).toInt := vstart wf idx (ix1 e)
  have w0 := vwindow wf (ix1 e)
  unfold ScatterDims.resultIdx?
  constructor
  · intro h
    split at h
    · rename_i hb
      have e0 : ((vecScatterDims N E wf).start (ix1 e) idx 0
          + ((vecScatterDims N E wf).window (ix1 e) 0 : Int)).toNat = i.val :=
        congrArg (fun f : (⟨1, ![N]⟩ : Shape).Idx => (f 0).val) (Option.some.inj h)
      have hb0 := (hb 0).1
      rw [s0, w0] at e0 hb0
      simp only [Nat.cast_zero, add_zero] at e0 hb0
      omega
    · exact absurd h (by simp)
  · intro hr
    split
    · refine congrArg some (funext fun a => Fin.ext ?_)
      match a with
      | ⟨0, _⟩ =>
        show ((vecScatterDims N E wf).start (ix1 e) idx 0
          + ((vecScatterDims N E wf).window (ix1 e) 0 : Int)).toNat = i.val
        rw [s0, w0, hr]; simp
    · rename_i hb
      exfalso; apply hb; intro a
      match a with
      | ⟨0, _⟩ =>
        show 0 ≤ (vecScatterDims N E wf).start (ix1 e) idx 0 + ((vecScatterDims N E wf).window (ix1 e) 0 : Int)
          ∧ (vecScatterDims N E wf).start (ix1 e) idx 0 + ((vecScatterDims N E wf).window (ix1 e) 0 : Int) < (N : Int)
        rw [s0, w0, hr]; have := i.isLt; constructor <;> omega

/-- The accumulated scatter of vector entries at `i`: the operand's entry plus the sum of the updates whose position is `i`. -/
theorem vecScatterAdd_apply {φ : FTy} (x : FVec Ideal ⟨1, ![N]⟩ φ) (idx : IVec ⟨2, ![E, 1]⟩ w)
    (upd : FVec Ideal ⟨1, ![E]⟩ φ) (i : Fin N) :
    Host.scatterAdd (vecScatterDims N E wf) x idx upd (ix1 i)
      = x (ix1 i) + ∑ e ∈ Finset.univ.filter (fun e : Fin E => (idx (ix2 e 0)).toInt = (i.val : Int)), upd (ix1 e) := by
  show Ideal.hostScatterAdd (vecScatterDims N E wf) x idx upd (ix1 i) = _
  unfold Ideal.hostScatterAdd
  congr 1
  rw [Finset.sum_filter, sum_idx1, Finset.sum_filter]
  refine Finset.sum_congr rfl fun e _ => ?_
  by_cases hr : (idx (ix2 e 0)).toInt = (i.val : Int)
  · rw [if_pos hr, if_pos ((vlands_iff wf idx e i).mpr hr)]
  · rw [if_neg hr, if_neg fun h => hr ((vlands_iff wf idx e i).mp h)]

end Entries

end Cert.Lib.RowScatterSum

end
-- ==== Proof.AggReal.lean ====
/-
  The sum over a node's in-neighbours of real feature rows is real.

  The aggregation is a scatter-add, into a zero matrix of 50000 rows and 128 columns, of the 800000 rows gathered
  from the node features `x` by one column of row numbers, by another column of row numbers.  Read at an entry
  `(i, c)` it is the zero entry plus the sum, over the edges whose destination row number is `i`, of the entry of `x`
  in the (clamped) source row of that edge and column `c`.  Every term of that finite sum is an entry of `x`, hence a
  real number; a finite sum of real numbers is a real number, and adding it to zero leaves it so.  Nothing here
  depends on which row numbers the two columns hold.
-/
import proofs.«177653_j8959301779747_1_alg».proof.ReferenceIdeal
import proofs.«177653_j8959301779747_1_alg».proof.Proof.Spec
import proofs.«177653_j8959301779747_1_alg».proof.Proof.LibRowIndex
import proofs.«177653_j8959301779747_1_alg».proof.Proof.LibRowScatterSum

noncomputable section

namespace Cert.GIN

open Idealize.ShloMosaic Idealize.ShloMosaic.ValueIdx Cert.ReferenceIdeal

/-- A finite sum of extended reals each of which is a real number is a real number. -/
theorem exists_real_sum {ι : Type} (s : Finset ι) (f : ι → EReal) (hf : ∀ e ∈ s, ∃ r : ℝ, f e = (r : EReal)) :
    ∃ r : ℝ, ∑ e ∈ s, f e = (r : EReal) := by
  classical
  induction s using Finset.induction_on with
  | empty => exact ⟨0, by simp⟩
  | insert a s ha ih =>
    obtain ⟨ra, hra⟩ := hf a (Finset.mem_insert_self a s)
    obtain ⟨rs, hrs⟩ := ih fun e he => hf e (Finset.mem_insert_of_mem he)
    exact ⟨ra + rs, by rw [Finset.sum_insert ha, hra, hrs, EReal.coe_add]⟩

section

variable [Cert.ReferenceIdeal.Facts₀]

/-- The printed scatter record is the scatter of rows by one row number per update. -/
theorem scatter_eq_rowScatterDims :
    scatter_S50000x128_S800000x1_S800000x128_1_0_0_1
      = Cert.Lib.RowIndex.rowScatterDims 50000 128 800000
          Cert.ReferenceIdeal.Facts₀.scatter_S50000x128_S800000x1_S800000x128_1_0_0_1_wf := rfl

/-- The printed gather record is the gather of rows by one row number per result row. -/
theorem gather_eq_rowGatherDims :
    gather_S50000x128_S800000x1_S800000x128_1_0_n_n_0_1_1128
      = Cert.Lib.RowIndex.rowGatherDims 50000 128 800000
          Cert.ReferenceIdeal.Facts₀.gather_S50000x128_S800000x1_S800000x128_1_0_n_n_0_1_1128_wf := rfl

/-- The neighbour sum of a real feature matrix is real, whatever the two columns of row numbers. -/
theorem isReal_scatter_gather (x : FVec Ideal S50000x128 .f32) (hx : IsReal x) (i1 i2 : IVec S800000x1 32) :
    IsReal (Host.scatterAdd (F := Ideal) scatter_S50000x128_S800000x1_S800000x128_1_0_0_1
      (broadcastInDim S50000x128 ![] Cert.ReferenceIdeal.Facts₀.bcast_S_S50000x128 (constant (F := Ideal) S_ .f32 0x00000000#32)) i2
      (Host.gather gather_S50000x128_S800000x1_S800000x128_1_0_n_n_0_1_1128 x i1)) := by
  intro j
  obtain ⟨r0, c0, rfl⟩ : ∃ (r0 : Fin 50000) (c0 : Fin 128), j = ix2 r0 c0 :=
    ⟨j 0, j 1, eq_ix2 (n0 := 50000) (n1 := 128) j⟩
  rw [scatter_eq_rowScatterDims, Cert.Lib.RowScatterSum.rowScatterAdd_apply]
  obtain ⟨r, hr⟩ := exists_real_sum
    (Finset.univ.filter fun e : Fin 800000 => (i2 (ix2 e 0)).toInt = ((r0.val : Nat) : Int))
    (fun e => Host.gather gather_S50000x128_S800000x1_S800000x128_1_0_n_n_0_1_1128 x i1 (ix2 e c0))
    (fun e _ => by
      show ∃ r : ℝ, Host.gather gather_S50000x128_S800000x1_S800000x128_1_0_n_n_0_1_1128 x i1 (ix2 e c0) = (r : EReal)
      rw [gather_eq_rowGatherDims, Cert.Lib.RowIndex.rowGather_apply (by omega)]
      exact hx _)
  refine ⟨r, ?_⟩
  rw [hr]
  show Ideal.ofBits .f32 0x00000000#32 + (r : EReal) = (r : EReal)
  rw [Idealize.ShloMosaic.Ideal.ofBits_zero_f32, zero_add]

end

end Cert.GIN

end
-- ==== Proof.AssembleBridge.lean ====
/-
  One layer of the network, from the form the first program computes to the form the second program computes.

  The first program leaves, for a layer with input `x`, the matrix
  `bnU (mm (bnU (mm (comb sc x ag) w1) γ1 β1 N ε) w2) γ2 β2 N ε`: both batch normalisations from the uncentred column
  statistics, `N` the float word of 50000.  Its operands are: `sc` the 1×1 cast of the scalar `1 + e`; `ag` the
  neighbour sum of `x` along the edge list; `γ`, `β` vectors read as one-row matrices.  The second program's layer is
  `block x src dst e w1 g1 b1 w2 g2 b2`, which reads as the same expression with the centred statistics and `N` the real
  50000.  For real operands the two statistics give one matrix, and that matrix is real again; so the layers chain.
  The last layer (one batch normalisation, then a product to width 2 and the rectifier) is the same argument once.
-/
import proofs.«177653_j8959301779747_1_alg».proof.Proof.Bridge
import proofs.«177653_j8959301779747_1_alg».proof.Proof.RefLayer
import proofs.«177653_j8959301779747_1_alg».proof.Proof.KGlue
import proofs.«177653_j8959301779747_1_alg».proof.Proof.RealIdx
import proofs.«177653_j8959301779747_1_alg».proof.Proof.AggReal

noncomputable section

namespace Cert.GIN.K

open Idealize.ShloMosaic Idealize.ShloMosaic.ValueIdx Cert.GIN

variable [Cert.KernelIdeal.Facts] [Cert.ReferenceIdeal.Facts₀]

/-- A vector read as a one-row matrix: the two programs' readings are one function. -/
theorem rowV_eq_rowOf {d : Nat} (g : (⟨1, ![d]⟩ : Shape).Idx → EReal) : rowV g = Ref.rowOf g := rfl

/-- The float word of the row count is the real 50000. -/
theorem Nlit_eq : Nlit = NR := ofBits_N

/-- The neighbour sum of a real feature matrix along any edge list is real. -/
theorem isReal_agg (x : FVec Ideal Cert.ReferenceIdeal.S50000x128 .f32) (hx : IsReal x)
    (src dst : IVec Cert.ReferenceIdeal.S800000 32) : IsReal (Ref.agg x src dst) :=
  isReal_scatter_gather x hx _ _

/-- A layer from the uncentred statistics, its operands as the first program forms them, is the second program's
    layer of the same input; and it is real when the input and the parameters are. -/
theorem block_bridge
    (sc : Mat 1 1) (x ag : Mat 50000 128) (w1 : Mat 128 64) (γ1 β1 : Mat 1 64) (w2 : Mat 64 128) (γ2 β2 : Mat 1 128)
    (e : FVec Ideal Cert.KernelIdeal.S_ .f32) (src dst : IVec Cert.ReferenceIdeal.S800000 32)
    (g1 b1 : FVec Ideal Cert.ReferenceIdeal.S64 .f32) (g2 b2 : FVec Ideal Cert.ReferenceIdeal.S128 .f32)
    (hsc : sc = shapeCast Cert.KernelIdeal.S1x1
      (addf (F := Ideal) (constant (F := Ideal) Cert.KernelIdeal.S_ .f32 0x3F800000#32) e)
      Cert.KernelIdeal.Facts₀.shapeCasts_S_S1x1)
    (hag : ag = Ref.agg x src dst)
    (hγ1 : γ1 = rowV g1) (hβ1 : β1 = rowV b1) (hγ2 : γ2 = rowV g2) (hβ2 : β2 = rowV b2)
    (re : IsReal e) (rx : IsReal x) (rw1 : IsReal w1) (rg1 : IsReal g1) (rb1 : IsReal b1)
    (rw2 : IsReal w2) (rg2 : IsReal g2) (rb2 : IsReal b2) :
    bnU (mm (bnU (mm (comb sc x ag) w1) γ1 β1 Nlit (Ideal.ofBits .f32 0x3727C5AC#32)) w2) γ2 β2 Nlit
        (Ideal.ofBits .f32 0x3727C5AC#32)
      = Ref.block x src dst e w1 g1 b1 w2 g2 b2
    ∧ IsReal (Ref.block x src dst e w1 g1 b1 w2 g2 b2) := by
  subst hsc hag hγ1 hβ1 hγ2 hβ2
  have rsc : IsReal (fun _ : (⟨2, ![1, 1]⟩ : Shape).Idx => Ideal.ofBits .f32 0x3F800000#32 + e ix0) :=
    isReal_scale e re
  have rag : IsReal (Ref.agg x src dst) := isReal_agg x rx src dst
  have e1 := blockU_eq_blockC (sc := fun _ => Ideal.ofBits .f32 0x3F800000#32 + e ix0) (x := x)
    (ag := Ref.agg x src dst) (w1 := w1) (γ1 := rowV g1) (β1 := rowV b1) (w2 := w2) (γ2 := rowV g2) (β2 := rowV b2)
    (eps := Ideal.ofBits .f32 0x3727C5AC#32)
    rsc rx rag rw1 (isReal_rowV g1 rg1) (isReal_rowV b1 rb1) rw2 ofBits_eps_pos
  have e2 := Ref.block_eq x src dst e w1 g1 b1 w2 g2 b2
  have rC := isReal_blockC (sc := fun _ => Ideal.ofBits .f32 0x3F800000#32 + e ix0) (x := x)
    (ag := Ref.agg x src dst) (w1 := w1) (γ1 := rowV g1) (β1 := rowV b1) (w2 := w2) (γ2 := rowV g2) (β2 := rowV b2)
    (eps := Ideal.ofBits .f32 0x3727C5AC#32)
    rsc rx rag rw1 (isReal_rowV g1 rg1) (isReal_rowV b1 rb1) rw2 (isReal_rowV g2 rg2) (isReal_rowV b2 rb2) ofBits_eps_pos
  rw [comb_scale, Nlit_eq]
  refine ⟨e1.trans e2.symm, ?_⟩
  rw [e2]
  exact rC

/-- The last layer from the uncentred statistics, its operands as the first program forms them, is the second
    program's last layer of the same input. -/
theorem last_bridge
    (sc : Mat 1 1) (x ag : Mat 50000 128) (w1 : Mat 128 64) (γ1 β1 : Mat 1 64) (wl : Mat 64 2)
    (e : FVec Ideal Cert.KernelIdeal.S_ .f32) (src dst : IVec Cert.ReferenceIdeal.S800000 32)
    (g1 b1 : FVec Ideal Cert.ReferenceIdeal.S64 .f32)
    (hsc : sc = shapeCast Cert.KernelIdeal.S1x1
      (addf (F := Ideal) (constant (F := Ideal) Cert.KernelIdeal.S_ .f32 0x3F800000#32) e)
      Cert.KernelIdeal.Facts₀.shapeCasts_S_S1x1)
    (hag : ag = Ref.agg x src dst)
    (hγ1 : γ1 = rowV g1) (hβ1 : β1 = rowV b1)
    (re : IsReal e) (rx : IsReal x) (rw1 : IsReal w1) :
    relu (mm (bnU (mm (comb sc x ag) w1) γ1 β1 Nlit (Ideal.ofBits .f32 0x3727C5AC#32)) wl)
      = Ref.lastBlock x src dst e w1 g1 b1 wl := by
  subst hsc hag hγ1 hβ1
  have rsc : IsReal (fun _ : (⟨2, ![1, 1]⟩ : Shape).Idx => Ideal.ofBits .f32 0x3F800000#32 + e ix0) :=
    isReal_scale e re
  have rag : IsReal (Ref.agg x src dst) := isReal_agg x rx src dst
  have e1 := lastU_eq_lastC (sc := fun _ => Ideal.ofBits .f32 0x3F800000#32 + e ix0) (x := x)
    (ag := Ref.agg x src dst) (w1 := w1) (γ1 := rowV g1) (β1 := rowV b1) (wl := wl)
    (eps := Ideal.ofBits .f32 0x3727C5AC#32) rsc rx rag rw1
  have e2 := Ref.lastBlock_eq x src dst e w1 g1 b1 wl
  rw [comb_scale, Nlit_eq]
  exact e1.trans e2.symm

/-- A slice of a real array, reshaped, is real: the form in which every parameter of a layer is cut out of an
    argument array. -/
theorem isReal_cut {s t u : Shape} (off : Fin s.rank → Nat) (x : s.Idx → EReal) (h : s.Slices off t) (h' : t.ShapeCasts u)
    (hx : IsReal x) : IsReal (shapeCast u (extractStridedSlice t off x h) h') :=
  isReal_shapeCast _ _ (isReal_slice _ _ _ hx)

end Cert.GIN.K

end
-- ==== Proof.Assemble0.lean ====
/-
  Layer 0 of the first program is layer 0 of the second.

  The layer's output is the uncentred-statistics block of its input, its operands being what the region windows hold
  at entry: the input itself, its neighbour sum along the edge list, the 1×1 cast of `1 + e`, and slices of the
  parameter arrays (the vectors read as one-row matrices).  With the input and the parameters real this is the second
  program's block of the same input and parameters, and real again.
-/
import proofs.«177653_j8959301779747_1_alg».proof.Proof.KLayer0
import proofs.«177653_j8959301779747_1_alg».proof.Proof.AssembleBridge
import proofs.«177653_j8959301779747_1_alg».proof.Proof.RefValueDefs
import proofs.«177653_j8959301779747_1_alg».proof.Proof.Gen.ReferenceIdeal

set_option maxRecDepth 16384

noncomputable section

namespace Cert.GIN.K

open Cert.KernelIdeal Cert.KernelIdeal.Gen
open Idealize.ShloMosaic Idealize.ShloMosaic.TcCoe Cert.GIN

variable (m : (ℓ : Loc nD τ sig) → Buf (Elt Ideal) ℓ) (ρ : Dev nD → PrngReg)

set_option maxHeartbeats 2000000 in
/-- Layer 0: from the layer's input (the feature argument) to its output agreeing, and real. -/
theorem step_0 (c : Dev nD)
    (reals : IsReal ((m ((c : Thread nD τ).loc main_arg0)) : FVec Ideal Cert.KernelIdeal.S50000x128 .f32)
      ∧ IsReal ((m ((c : Thread nD τ).loc main_arg4)) : FVec Ideal Cert.KernelIdeal.S7x128x64 .f32)
      ∧ IsReal ((m ((c : Thread nD τ).loc main_arg5)) : FVec Ideal Cert.KernelIdeal.S7x64 .f32)
      ∧ IsReal ((m ((c : Thread nD τ).loc main_arg6)) : FVec Ideal Cert.KernelIdeal.S7x64 .f32)
      ∧ IsReal ((m ((c : Thread nD τ).loc main_arg7)) : FVec Ideal Cert.KernelIdeal.S6x64x128 .f32)
      ∧ IsReal ((m ((c : Thread nD τ).loc main_arg8)) : FVec Ideal Cert.KernelIdeal.S6x128 .f32)
      ∧ IsReal ((m ((c : Thread nD τ).loc main_arg9)) : FVec Ideal Cert.KernelIdeal.S6x128 .f32)
      ∧ IsReal ((m ((c : Thread nD τ).loc main_arg10)) : FVec Ideal Cert.KernelIdeal.S64x2 .f32)
      ∧ IsReal ((m ((c : Thread nD τ).loc main_arg11)) : FVec Ideal Cert.KernelIdeal.S7 .f32)
      ∧ IsReal ((m ((c : Thread nD τ).loc main_arg2)) : FVec Ideal Cert.KernelIdeal.S800000 .f32)) :
    ((dat3 (V7 m ρ) c).arrAt 5 cfg3.N) = (Ref.X1 (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg11)))
      ∧ IsReal (Ref.X1 (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg11))) := by
  obtain ⟨r0, r4, r5, r6, r7, r8, r9, _, r11, _⟩ := reals
  have rx : IsReal ((m ((c : Thread nD τ).loc main_arg0)) : FVec Ideal Cert.KernelIdeal.S50000x128 .f32) := r0
  have hsc : ((V1 m ρ c (Pipeline.arrRef spec0 2)) : Mat 1 1) = shapeCast Cert.KernelIdeal.S1x1
      (addf (F := Ideal) (constant (F := Ideal) Cert.KernelIdeal.S_ .f32 0x3F800000#32) (Ref.e0 (m ((c : Thread nD τ).loc main_arg11))))
      Cert.KernelIdeal.Facts₀.shapeCasts_S_S1x1 := wire_0_2 m ρ c
  have hag : ((V1 m ρ c (Pipeline.arrRef spec0 1)) : Mat 50000 128) = Ref.agg (m ((c : Thread nD τ).loc main_arg0)) (Ref.srcOf (m ((c : Thread nD τ).loc main_arg1))) (Ref.dstOf (m ((c : Thread nD τ).loc main_arg1))) :=
    (wire_0_1 m ρ c).trans rfl
  have hγ1 : ((V3 m ρ c (Pipeline.arrRef spec1 3)) : Mat 1 64) = rowV (Ref.g1_0 (m ((c : Thread nD τ).loc main_arg5))) := (wire_1_3 m ρ c).trans (row_cast64 _)
  have hβ1 : ((V3 m ρ c (Pipeline.arrRef spec1 4)) : Mat 1 64) = rowV (Ref.b1_0 (m ((c : Thread nD τ).loc main_arg6))) := (wire_1_4 m ρ c).trans (row_cast64 _)
  have hγ2 : ((V7 m ρ c (Pipeline.arrRef spec3 3)) : Mat 1 128) = rowV (Ref.g2_0 (m ((c : Thread nD τ).loc main_arg8))) := (wire_3_3 m ρ c).trans (row_cast128 _)
  have hβ2 : ((V7 m ρ c (Pipeline.arrRef spec3 4)) : Mat 1 128) = rowV (Ref.b2_0 (m ((c : Thread nD τ).loc main_arg9))) := (wire_3_4 m ρ c).trans (row_cast128 _)
  have re : IsReal (Ref.e0 (m ((c : Thread nD τ).loc main_arg11))) := isReal_cut _ _ _ _ r11
  have rw1 : IsReal (Ref.w1_0 (m ((c : Thread nD τ).loc main_arg4))) := isReal_cut _ _ _ _ r4
  have rg1 : IsReal (Ref.g1_0 (m ((c : Thread nD τ).loc main_arg5))) := isReal_cut _ _ _ _ r5
  have rb1 : IsReal (Ref.b1_0 (m ((c : Thread nD τ).loc main_arg6))) := isReal_cut _ _ _ _ r6
  have rw2 : IsReal (Ref.w2_0 (m ((c : Thread nD τ).loc main_arg7))) := isReal_cut _ _ _ _ r7
  have rg2 : IsReal (Ref.g2_0 (m ((c : Thread nD τ).loc main_arg8))) := isReal_cut _ _ _ _ r8
  have rb2 : IsReal (Ref.b2_0 (m ((c : Thread nD τ).loc main_arg9))) := isReal_cut _ _ _ _ r9
  have key := block_bridge _ _ _ _ _ _ _ _ _ _ _ _ _ _ _ _ hsc hag hγ1 hβ1 hγ2 hβ2 re rx rw1 rg1 rb1 rw2 rg2 rb2
  have h1 : ((dat3 (V7 m ρ) c).arrAt 5 cfg3.N) = Ref.block (m ((c : Thread nD τ).loc main_arg0)) (Ref.srcOf (m ((c : Thread nD τ).loc main_arg1))) (Ref.dstOf (m ((c : Thread nD τ).loc main_arg1))) (Ref.e0 (m ((c : Thread nD τ).loc main_arg11)))
        (Ref.w1_0 (m ((c : Thread nD τ).loc main_arg4))) (Ref.g1_0 (m ((c : Thread nD τ).loc main_arg5))) (Ref.b1_0 (m ((c : Thread nD τ).loc main_arg6)))
        (Ref.w2_0 (m ((c : Thread nD τ).loc main_arg7))) (Ref.g2_0 (m ((c : Thread nD τ).loc main_arg8))) (Ref.b2_0 (m ((c : Thread nD τ).loc main_arg9))) := by
    rw [full_L0 m ρ c, half_L0 m ρ c, wire_0_0 m ρ c, wire_0_3 m ρ c, wire_2_1 m ρ c]
    exact key.1
  have h2 : Ref.block (m ((c : Thread nD τ).loc main_arg0)) (Ref.srcOf (m ((c : Thread nD τ).loc main_arg1))) (Ref.dstOf (m ((c : Thread nD τ).loc main_arg1))) (Ref.e0 (m ((c : Thread nD τ).loc main_arg11)))
        (Ref.w1_0 (m ((c : Thread nD τ).loc main_arg4))) (Ref.g1_0 (m ((c : Thread nD τ).loc main_arg5))) (Ref.b1_0 (m ((c : Thread nD τ).loc main_arg6)))
        (Ref.w2_0 (m ((c : Thread nD τ).loc main_arg7))) (Ref.g2_0 (m ((c : Thread nD τ).loc main_arg8))) (Ref.b2_0 (m ((c : Thread nD τ).loc main_arg9))) = (Ref.X1 (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg11))) := rfl
  refine ⟨h1.trans h2, ?_⟩
  rw [← h2]
  exact key.2

end Cert.GIN.K

end
-- ==== Proof.Reg4Pieces.lean ====
/-
  What one run of the combine–product–statistics body leaves in its three outputs, as values of what it loaded.

  The body loads the scale, the tile of node features, the tile of neighbour sums and the weights, stores the product
  tile, and stores each statistics row as the row it loaded plus the tile's column sums.  At the first grid point it
  first stores a zero row into each statistics buffer, and the row it then loads is that zero row; at every other point
  the row it loads is what the point before left.  Each output buffer is covered by whole-buffer stores, so its contents
  after the body are the last store's value.
-/
import proofs.«177653_j8959301779747_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.GIN.Reg4

open Cert.KernelIdeal Cert.KernelIdeal.Gen

variable {F : FTy → Type} [FloatOps F]

theorem hz : (![0, 0] : Fin 2 → Nat) = fun _ => 0 := funext fun a => by fin_cases a <;> rfl

/-- A later point leaves the product tile of its blocks. -/
theorem out_B_4 (c : Dev nD) (i : grid4.Coords) (a1 : Memref sig .tc .vmem S5000x128 .f32) (h1 : a1.IsWhole) (a2 : Memref sig .tc .vmem S5000x128 .f32) (h2 : a2.IsWhole) (a3 : Memref sig .tc .vmem S1x1 .f32) (h3 : a3.IsWhole) (a4 : Memref sig .tc .vmem S128x64 .f32) (h4 : a4.IsWhole) (a5 : Memref sig .tc .vmem S5000x64 .f32) (h5 : a5.IsWhole) (a6 : Memref sig .tc .vmem S1x64 .f32) (h6 : a6.IsWhole) (a7 : Memref sig .tc .vmem S1x64 .f32) (h7 : a7.IsWhole) (hc : ¬cond4_0 i) (x0 x1 : Vec F S5000x128 .f32) (x2 : Vec F S1x1 .f32) (x3 : Vec F S128x64 .f32) (xo5 xo6 : Vec F S1x64 .f32) :
    out4_B_4 c i a1 h1 a2 h2 a3 h3 a4 h4 a5 h5 a6 h6 a7 h7 hc x0 x1 x2 x3 xo5 xo6 = k4_pay3 x2 x0 x1 x3 := by
  unfold out4_B_4
  rw [View.read_writes_eq_canon _ _ _ (cover4_B_4 c i a1 h1 a2 h2 a3 h3 a4 h4 a5 h5 a6 h6 a7 h7 hc x0 x1 x2 x3 xo5 xo6)]
  unfold kernelRun4_B
  dsimp only
  sl_unfold_words
  rw [View.canon_unit_zero hz]
  simp only [View.readAt_eq_ld, h1.read_unread, h2.read_unread, h3.read_unread, h4.read_unread, h6.read_unread, h7.read_unread,
    View.ld_unit_zero (S := S5000x128) hz, View.ld_unit_zero (S := S1x1) hz, View.ld_unit_zero (S := S128x64) hz,
    View.ld_unit_zero (S := S1x64) hz]

/-- A later point leaves the column-sum row it found plus its tile's column sums. -/
theorem out_B_5 (c : Dev nD) (i : grid4.Coords) (a1 : Memref sig .tc .vmem S5000x128 .f32) (h1 : a1.IsWhole) (a2 : Memref sig .tc .vmem S5000x128 .f32) (h2 : a2.IsWhole) (a3 : Memref sig .tc .vmem S1x1 .f32) (h3 : a3.IsWhole) (a4 : Memref sig .tc .vmem S128x64 .f32) (h4 : a4.IsWhole) (a5 : Memref sig .tc .vmem S5000x64 .f32) (h5 : a5.IsWhole) (a6 : Memref sig .tc .vmem S1x64 .f32) (h6 : a6.IsWhole) (a7 : Memref sig .tc .vmem S1x64 .f32) (h7 : a7.IsWhole) (hc : ¬cond4_0 i) (x0 x1 : Vec F S5000x128 .f32) (x2 : Vec F S1x1 .f32) (x3 : Vec F S128x64 .f32) (xo5 xo6 : Vec F S1x64 .f32) :
    out4_B_5 c i a1 h1 a2 h2 a3 h3 a4 h4 a5 h5 a6 h6 a7 h7 hc x0 x1 x2 x3 xo5 xo6 = k4_pay4 x2 x0 x1 x3 xo5 := by
  unfold out4_B_5
  rw [View.read_writes_eq_canon _ _ _ (cover4_B_5 c i a1 h1 a2 h2 a3 h3 a4 h4 a5 h5 a6 h6 a7 h7 hc x0 x1 x2 x3 xo5 xo6)]
  unfold kernelRun4_B
  dsimp only
  sl_unfold_words
  rw [View.canon_unit_zero hz]
  simp only [View.readAt_eq_ld, h1.read_unread, h2.read_unread, h3.read_unread, h4.read_unread, h6.read_unread, h7.read_unread,
    View.ld_unit_zero (S := S5000x128) hz, View.ld_unit_zero (S := S1x1) hz, View.ld_unit_zero (S := S128x64) hz,
    View.ld_unit_zero (S := S1x64) hz]

/-- A later point leaves the sum-of-squares row it found plus the column sums of its tile's squares. -/
theorem out_B_6 (c : Dev nD) (i : grid4.Coords) (a1 : Memref sig .tc .vmem S5000x128 .f32) (h1 : a1.IsWhole) (a2 : Memref sig .tc .vmem S5000x128 .f32) (h2 : a2.IsWhole) (a3 : Memref sig .tc .vmem S1x1 .f32) (h3 : a3.IsWhole) (a4 : Memref sig .tc .vmem S128x64 .f32) (h4 : a4.IsWhole) (a5 : Memref sig .tc .vmem S5000x64 .f32) (h5 : a5.IsWhole) (a6 : Memref sig .tc .vmem S1x64 .f32) (h6 : a6.IsWhole) (a7 : Memref sig .tc .vmem S1x64 .f32) (h7 : a7.IsWhole) (hc : ¬cond4_0 i) (x0 x1 : Vec F S5000x128 .f32) (x2 : Vec F S1x1 .f32) (x3 : Vec F S128x64 .f32) (xo5 xo6 : Vec F S1x64 .f32) :
    out4_B_6 c i a1 h1 a2 h2 a3 h3 a4 h4 a5 h5 a6 h6 a7 h7 hc x0 x1 x2 x3 xo5 xo6 = k4_pay5 x2 x0 x1 x3 xo6 := by
  unfold out4_B_6
  rw [View.read_writes_eq_canon _ _ _ (cover4_B_6 c i a1 h1 a2 h2 a3 h3 a4 h4 a5 h5 a6 h6 a7 h7 hc x0 x1 x2 x3 xo5 xo6)]
  unfold kernelRun4_B
  dsimp only
  sl_unfold_words
  rw [View.canon_unit_zero hz]
  simp only [View.readAt_eq_ld, h1.read_unread, h2.read_unread, h3.read_unread, h4.read_unread, h6.read_unread, h7.read_unread,
    View.ld_unit_zero (S := S5000x128) hz, View.ld_unit_zero (S := S1x1) hz, View.ld_unit_zero (S := S128x64) hz,
    View.ld_unit_zero (S := S1x64) hz]

/-- The first point leaves the product tile of its blocks. -/
theorem out_A_4 (c : Dev nD) (i : grid4.Coords) (a1 : Memref sig .tc .vmem S5000x128 .f32) (h1 : a1.IsWhole) (a2 : Memref sig .tc .vmem S5000x128 .f32) (h2 : a2.IsWhole) (a3 : Memref sig .tc .vmem S1x1 .f32) (h3 : a3.IsWhole) (a4 : Memref sig .tc .vmem S128x64 .f32) (h4 : a4.IsWhole) (a5 : Memref sig .tc .vmem S5000x64 .f32) (h5 : a5.IsWhole) (a6 : Memref sig .tc .vmem S1x64 .f32) (h6 : a6.IsWhole) (a7 : Memref sig .tc .vmem S1x64 .f32) (h7 : a7.IsWhole) (hc : cond4_0 i) (x0 x1 : Vec F S5000x128 .f32) (x2 : Vec F S1x1 .f32) (x3 : Vec F S128x64 .f32) :
    out4_A_4 c i a1 h1 a2 h2 a3 h3 a4 h4 a5 h5 a6 h6 a7 h7 hc x0 x1 x2 x3 = k4_pay3 x2 x0 x1 x3 := by
  unfold out4_A_4
  rw [View.read_writes_eq_canon _ _ _ (cover4_A_4 c i a1 h1 a2 h2 a3 h3 a4 h4 a5 h5 a6 h6 a7 h7 hc x0 x1 x2 x3)]
  unfold kernelRun4_A
  dsimp only
  sl_unfold_words
  rw [View.canon_unit_zero hz]
  simp only [View.readAt_eq_ld, h1.read_unread, h2.read_unread, h3.read_unread, h4.read_unread, h6.read_unread, h7.read_unread,
    View.ld_unit_zero (S := S5000x128) hz, View.ld_unit_zero (S := S1x1) hz, View.ld_unit_zero (S := S128x64) hz,
    View.ld_unit_zero (S := S1x64) hz]

/-- The first point leaves the zero row plus its tile's column sums. -/
theorem out_A_5 (c : Dev nD) (i : grid4.Coords) (a1 : Memref sig .tc .vmem S5000x128 .f32) (h1 : a1.IsWhole) (a2 : Memref sig .tc .vmem S5000x128 .f32) (h2 : a2.IsWhole) (a3 : Memref sig .tc .vmem S1x1 .f32) (h3 : a3.IsWhole) (a4 : Memref sig .tc .vmem S128x64 .f32) (h4 : a4.IsWhole) (a5 : Memref sig .tc .vmem S5000x64 .f32) (h5 : a5.IsWhole) (a6 : Memref sig .tc .vmem S1x64 .f32) (h6 : a6.IsWhole) (a7 : Memref sig .tc .vmem S1x64 .f32) (h7 : a7.IsWhole) (hc : cond4_0 i) (x0 x1 : Vec F S5000x128 .f32) (x2 : Vec F S1x1 .f32) (x3 : Vec F S128x64 .f32) :
    out4_A_5 c i a1 h1 a2 h2 a3 h3 a4 h4 a5 h5 a6 h6 a7 h7 hc x0 x1 x2 x3 = k4_pay4 x2 x0 x1 x3 k4_pay1 := by
  unfold out4_A_5
  rw [View.read_writes_eq_canon _ _ _ (cover4_A_5 c i a1 h1 a2 h2 a3 h3 a4 h4 a5 h5 a6 h6 a7 h7 hc x0 x1 x2 x3)]
  unfold kernelRun4_A
  dsimp only
  sl_unfold_words
  rw [View.canon_cons_unit_zero (S := S1x64) hz, View.readCov_unit_zero (S := S1x64) _ hz]
  simp only [View.readAt_eq_ld, h1.read_unread, h2.read_unread, h3.read_unread, h4.read_unread, h6.read_unread, h7.read_unread,
    View.ld_unit_zero (S := S5000x128) hz, View.ld_unit_zero (S := S1x1) hz, View.ld_unit_zero (S := S128x64) hz,
    View.ld_unit_zero (S := S1x64) hz]

/-- The first point leaves the zero row plus the column sums of its tile's squares. -/
theorem out_A_6 (c : Dev nD) (i : grid4.Coords) (a1 : Memref sig .tc .vmem S5000x128 .f32) (h1 : a1.IsWhole) (a2 : Memref sig .tc .vmem S5000x128 .f32) (h2 : a2.IsWhole) (a3 : Memref sig .tc .vmem S1x1 .f32) (h3 : a3.IsWhole) (a4 : Memref sig .tc .vmem S128x64 .f32) (h4 : a4.IsWhole) (a5 : Memref sig .tc .vmem S5000x64 .f32) (h5 : a5.IsWhole) (a6 : Memref sig .tc .vmem S1x64 .f32) (h6 : a6.IsWhole) (a7 : Memref sig .tc .vmem S1x64 .f32) (h7 : a7.IsWhole) (hc : cond4_0 i) (x0 x1 : Vec F S5000x128 .f32) (x2 : Vec F S1x1 .f32) (x3 : Vec F S128x64 .f32) :
    out4_A_6 c i a1 h1 a2 h2 a3 h3 a4 h4 a5 h5 a6 h6 a7 h7 hc x0 x1 x2 x3 = k4_pay5 x2 x0 x1 x3 k4_pay2 := by
  unfold out4_A_6
  rw [View.read_writes_eq_canon _ _ _ (cover4_A_6 c i a1 h1 a2 h2 a3 h3 a4 h4 a5 h5 a6 h6 a7 h7 hc x0 x1 x2 x3)]
  unfold kernelRun4_A
  dsimp only
  sl_unfold_words
  rw [View.canon_cons_unit_zero (S := S1x64) hz, View.readCov_unit_zero (S := S1x64) _ hz]
  simp only [View.readAt_eq_ld, h1.read_unread, h2.read_unread, h3.read_unread, h4.read_unread, h6.read_unread, h7.read_unread,
    View.ld_unit_zero (S := S5000x128) hz, View.ld_unit_zero (S := S1x1) hz, View.ld_unit_zero (S := S128x64) hz,
    View.ld_unit_zero (S := S1x64) hz]

end Cert.GIN.Reg4

end
-- ==== Proof.Reg4Pay.lean ====
/-
  The arithmetic of one grid point of the combine–product–statistics kernel, read at an index over the extended reals.

  At a grid point the body holds a tile of 5000 rows.  It forms `scale · x + agg` entry by entry, multiplies the tile by the
  128×64 weight matrix into a zero accumulator (the narrowing of both operands is the identity on extended reals), and
  adds to each of two 1×64 rows the column sums of the product tile and of its entrywise squares.  The three lemmas below
  read these three stored values at an entry: the product entry `(p, j)` is the sum over `q < 128` of
  `(scale · x(p, q) + agg(p, q)) · w(q, j)`; the statistics rows at `(0, j)` are the carried row plus the sum over the
  tile's 5000 rows of the product entries, respectively of their squares.
-/
import proofs.«177653_j8959301779747_1_alg».proof.Proof.Spec
import proofs.«177653_j8959301779747_1_alg».proof.Proof.LibPlainDot
import proofs.«177653_j8959301779747_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.GIN.Reg4

open Idealize.ShloMosaic Idealize.ShloMosaic.ValueIdx
open Cert.KernelIdeal Cert.KernelIdeal.Gen Cert.GIN

/-- The 1×1 scale spread over a 5000×128 tile reads the scale's one entry everywhere. -/
theorem scale_ix (v : FVec Ideal S1x1 .f32) (p : Fin 5000) (q : Fin 128) :
    broadcastTo S5000x128 v broadcasts_S1x1_S5000x128 (ix2 p q) = v (ix2 0 0) :=
  broadcastTo_apply v broadcasts_S1x1_S5000x128 (ix2 p q) (ix2 0 0) fun a => by
    match a with
    | ⟨0, _⟩ => rfl
    | ⟨1, _⟩ => rfl

/-- The source index of a column reduction of a 5000×64 tile: row `p` over the result's column `j`. -/
theorem lift_ix (j : Fin 64) (p : Fin 5000) :
    reduces_S5000x64_S64.lift (fun a => (ix2 (0 : Fin 1) j) a.succ) p = ix2 p j := by
  funext c
  apply Fin.ext
  match c with
  | ⟨0, _⟩ => rfl
  | ⟨1, _⟩ => rfl

/-- A column reduction of a 5000×64 tile from the zero word, stored as a 1×64 row, reads at `(0, j)` the sum of column
    `j` over the tile's rows. -/
theorem colred_ix (src : FVec Ideal S5000x64 .f32) (j : Fin 64) :
    shapeCast S1x64 (multiReduction (F := Ideal) .add [0] S64 src 0x00000000#32 reduces_S5000x64_S64 (.inl rfl) rfl)
        shapeCasts_S64_S1x64 (ix2 0 j) = ∑ p : Fin 5000, src (ix2 p j) := by
  refine (shapeCast_addUnit_apply ![64] _ shapeCasts_S64_S1x64 (ix2 0 j)).trans ?_
  refine (Ideal.multiReduction_add_single src 0x00000000#32 reduces_S5000x64_S64 (.inl rfl) rfl _).trans ?_
  exact Finset.sum_congr rfl fun p _ => congrArg src (lift_ix j p)

/-- The product tile at `(p, j)`. -/
theorem pay3_ix (v3 : Vec Ideal S1x1 .f32) (v5 v8 : Vec Ideal S5000x128 .f32) (v12 : Vec Ideal S128x64 .f32)
    (p : Fin 5000) (j : Fin 64) :
    k4_pay3 (F := Ideal) v3 v5 v8 v12 (ix2 p j)
      = ∑ q : Fin 128, (v3 (ix2 0 0) * v5 (ix2 p q) + v8 (ix2 p q)) * v12 (ix2 q j) := by
  unfold k4_pay3
  simp only [shapeCast_self]
  refine (Cert.PlainDot.matmul_zero_ix2 dot_S5000x128_S128x64_S5000x64_1_0_0_1_n_n rfl none _ _ p j).trans ?_
  refine Finset.sum_congr rfl fun q _ => ?_
  show (broadcastTo S5000x128 v3 broadcasts_S1x1_S5000x128 (ix2 p q) * v5 (ix2 p q) + v8 (ix2 p q)) * v12 (ix2 q j) = _
  rw [scale_ix v3 p q]

/-- The column-sum row after the point: the carried row plus the tile's column sums. -/
theorem pay4_ix (v3 : Vec Ideal S1x1 .f32) (v5 v8 : Vec Ideal S5000x128 .f32) (v12 : Vec Ideal S128x64 .f32)
    (r : Vec Ideal S1x64 .f32) (j : Fin 64) :
    k4_pay4 (F := Ideal) v3 v5 v8 v12 r (ix2 0 j)
      = r (ix2 0 j) + ∑ p : Fin 5000, k4_pay3 (F := Ideal) v3 v5 v8 v12 (ix2 p j) := by
  unfold k4_pay4
  simp only [shapeCast_self]
  exact congrArg (r (ix2 0 j) + ·) (colred_ix (k4_pay3 (F := Ideal) v3 v5 v8 v12) j)

/-- The sum-of-squares row after the point: the carried row plus the column sums of the tile's squares. -/
theorem pay5_ix (v3 : Vec Ideal S1x1 .f32) (v5 v8 : Vec Ideal S5000x128 .f32) (v12 : Vec Ideal S128x64 .f32)
    (r : Vec Ideal S1x64 .f32) (j : Fin 64) :
    k4_pay5 (F := Ideal) v3 v5 v8 v12 r (ix2 0 j)
      = r (ix2 0 j) + ∑ p : Fin 5000, k4_pay3 (F := Ideal) v3 v5 v8 v12 (ix2 p j) * k4_pay3 (F := Ideal) v3 v5 v8 v12 (ix2 p j) := by
  unfold k4_pay5
  simp only [shapeCast_self]
  exact congrArg (r (ix2 0 j) + ·)
    (colred_ix (mulf (k4_pay3 (F := Ideal) v3 v5 v8 v12) (k4_pay3 (F := Ideal) v3 v5 v8 v12)) j)

/-- The two rows the first point stores before accumulating are zero. -/
theorem pay1_ix (j : Fin 64) : k4_pay1 (F := Ideal) (ix2 0 j) = 0 := by
  unfold k4_pay1
  exact Ideal.ofBits_zero_f32

theorem pay2_ix (j : Fin 64) : k4_pay2 (F := Ideal) (ix2 0 j) = 0 := by
  unfold k4_pay2
  exact Ideal.ofBits_zero_f32

end Cert.GIN.Reg4

end
-- ==== Proof.Reg4.lean ====
/-
  The value of the combine–product–statistics region, as whole-array functions of what the region finds.

  The grid has ten points; point `t` holds rows `5000 t … 5000 t + 4999` of the node features `x` and of the neighbour
  sums `agg`, the whole 1×1 scale and the whole 128×64 weight matrix.  Every point stores the tile
  `(scale · x + agg) · w` of its rows as block `t` of the product array, so that array ends as the product itself: row `r`
  is written by point `r / 5000`.  The two statistics rows have one block that never moves: point 0 zeroes them, every
  point adds its tile's column sums (of the entries, and of their squares), and the rows are written back after the last
  point only.  By induction on the point they hold, after point `n`, the sum over tiles `0 … n` of the tile's column
  sums; after point 9 that is the tiled column sum of the specification.
-/
import proofs.«177653_j8959301779747_1_alg».proof.Proof.Spec
import proofs.«177653_j8959301779747_1_alg».proof.Proof.LibPlainDot
import proofs.«177653_j8959301779747_1_alg».proof.Proof.Gen.KernelIdeal.Frame
import proofs.«177653_j8959301779747_1_alg».proof.Proof.Reg4Pieces
import proofs.«177653_j8959301779747_1_alg».proof.Proof.Reg4Pay
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.ShloMosaic.ValueIdx Idealize.SL.Sem
open Idealize.ShloMosaic.Pipeline (Dat)

namespace Cert.GIN.Reg4

open Cert.KernelIdeal Cert.KernelIdeal.Gen Cert.GIN

variable (V : (c : Dev nD) → (b : Ref sig .tc) → Buf (Elt Ideal) ((c : Thread nD τ).loc b)) (c : Dev nD)

/-- The node features, the neighbour sums, the scale and the weights as the region finds them, as matrices. -/
abbrev Xx : Mat 50000 128 := V c (Pipeline.arrRef spec4 0)
abbrev Xa : Mat 50000 128 := V c (Pipeline.arrRef spec4 1)
abbrev Xs : Mat 1 1 := V c (Pipeline.arrRef spec4 2)
abbrev Xw : Mat 128 64 := V c (Pipeline.arrRef spec4 3)
/-- The product the region computes. -/
abbrev Z : Mat 50000 64 := mm (comb (Xs V c) (Xx V c) (Xa V c)) (Xw V c)

/-- The block index maps over the grid: the row-tiled windows move with the point along the rows, the others stay. -/
theorem idx_facts : ∀ t : Fin cfg4.N,
    win4_0.index t (0 : Fin 2) = t.val ∧ win4_0.index t (1 : Fin 2) = 0
  ∧ win4_1.index t (0 : Fin 2) = t.val ∧ win4_1.index t (1 : Fin 2) = 0
  ∧ win4_2.index t (0 : Fin 2) = 0 ∧ win4_2.index t (1 : Fin 2) = 0
  ∧ win4_3.index t (0 : Fin 2) = 0 ∧ win4_3.index t (1 : Fin 2) = 0
  ∧ win4_4.index t (0 : Fin 2) = t.val ∧ win4_4.index t (1 : Fin 2) = 0
  ∧ win4_5.index t (0 : Fin 2) = 0 ∧ win4_5.index t (1 : Fin 2) = 0
  ∧ win4_6.index t (0 : Fin 2) = 0 ∧ win4_6.index t (1 : Fin 2) = 0 :=
  (by decide +kernel : ∀ t : Fin grid4.N, _)

theorem lt_ten (t : Fin cfg4.N) : t.val < 10 := by
  have h : t.val < grid4.N := t.isLt
  rw [N_4] at h; exact h

/-! ## The input blocks, read at an entry -/

theorem blk0_ix (t : Fin cfg4.N) (p : Fin 5000) (q : Fin 128) (h : 5000 * t.val + p.val < 50000) :
    (iblk4 V c 0 t : Vec Ideal S5000x128 .f32) (ix2 p q) = Xx V c (ix2 ⟨5000 * t.val + p.val, h⟩ q) := by
  obtain ⟨e0, e1, -⟩ := idx_facts t
  unfold iblk4
  rw [View.read_apply]
  show V c (Pipeline.arrRef spec4 0) _ = V c (Pipeline.arrRef spec4 0) _
  congr 1
  funext a
  apply Fin.ext
  match a with
  | ⟨0, _⟩ => show win4_0.index t 0 * 5000 + 1 * p.val = 5000 * t.val + p.val; rw [e0]; omega
  | ⟨1, _⟩ => show win4_0.index t 1 * 128 + 1 * q.val = q.val; rw [e1]; omega

theorem blk1_ix (t : Fin cfg4.N) (p : Fin 5000) (q : Fin 128) (h : 5000 * t.val + p.val < 50000) :
    (iblk4 V c 1 t : Vec Ideal S5000x128 .f32) (ix2 p q) = Xa V c (ix2 ⟨5000 * t.val + p.val, h⟩ q) := by
  obtain ⟨-, -, e0, e1, -⟩ := idx_facts t
  unfold iblk4
  rw [View.read_apply]
  show V c (Pipeline.arrRef spec4 1) _ = V c (Pipeline.arrRef spec4 1) _
  congr 1
  funext a
  apply Fin.ext
  match a with
  | ⟨0, _⟩ => show win4_1.index t 0 * 5000 + 1 * p.val = 5000 * t.val + p.val; rw [e0]; omega
  | ⟨1, _⟩ => show win4_1.index t 1 * 128 + 1 * q.val = q.val; rw [e1]; omega

theorem blk2_ix (t : Fin cfg4.N) :
    (iblk4 V c 2 t : Vec Ideal S1x1 .f32) (ix2 0 0) = Xs V c (ix2 0 0) := by
  obtain ⟨-, -, -, -, e0, e1, -⟩ := idx_facts t
  unfold iblk4
  rw [View.read_apply]
  show V c (Pipeline.arrRef spec4 2) _ = V c (Pipeline.arrRef spec4 2) _
  congr 1
  funext a
  apply Fin.ext
  match a with
  | ⟨0, _⟩ => show win4_2.index t 0 * 1 + 1 * 0 = 0; rw [e0]
  | ⟨1, _⟩ => show win4_2.index t 1 * 1 + 1 * 0 = 0; rw [e1]

theorem blk3_ix (t : Fin cfg4.N) (q : Fin 128) (j : Fin 64) :
    (iblk4 V c 3 t : Vec Ideal S128x64 .f32) (ix2 q j) = Xw V c (ix2 q j) := by
  obtain ⟨-, -, -, -, -, -, e0, e1, -⟩ := idx_facts t
  unfold iblk4
  rw [View.read_apply]
  show V c (Pipeline.arrRef spec4 3) _ = V c (Pipeline.arrRef spec4 3) _
  congr 1
  funext a
  apply Fin.ext
  match a with
  | ⟨0, _⟩ => show win4_3.index t 0 * 128 + 1 * q.val = q.val; rw [e0]; omega
  | ⟨1, _⟩ => show win4_3.index t 1 * 64 + 1 * j.val = j.val; rw [e1]; omega

/-! ## The product tile of a point is the point's rows of the product -/

/-- The product tile point `t` computes from its blocks. -/
abbrev tile (t : Fin cfg4.N) : Vec Ideal S5000x64 .f32 :=
  k4_pay3 (F := Ideal) (iblk4 V c 2 t) (iblk4 V c 0 t) (iblk4 V c 1 t) (iblk4 V c 3 t)

theorem tile_ix (t : Fin cfg4.N) (p : Fin 5000) (j : Fin 64) (h : 5000 * t.val + p.val < 50000) :
    tile V c t (ix2 p j) = Z V c (ix2 ⟨5000 * t.val + p.val, h⟩ j) := by
  refine (pay3_ix (iblk4 V c 2 t) (iblk4 V c 0 t) (iblk4 V c 1 t) (iblk4 V c 3 t) p j).trans ?_
  show _ = ∑ q : Fin 128, (Xs V c (ix2 0 0) * Xx V c (ix2 ⟨5000 * t.val + p.val, h⟩ q) + Xa V c (ix2 ⟨5000 * t.val + p.val, h⟩ q)) * Xw V c (ix2 q j)
  refine Finset.sum_congr rfl fun q _ => ?_
  rw [blk0_ix V c t p q h, blk1_ix V c t p q h, blk2_ix V c t, blk3_ix V c t q j]

/-- Every point, first or not, leaves its product tile in the product's block. -/
theorem outs4 (t : Fin cfg4.N) : (outsAt4 V c t.val t.isLt).1 = tile V c t := by
  by_cases h0 : t.val % 10 = 0
  · rw [outsAt4_A V c t h0]
    dsimp only
    exact out_A_4 (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) ((hcond4_0 t).mpr h0) (iblk4 V c 0 t) (iblk4 V c 1 t) (iblk4 V c 2 t) (iblk4 V c 3 t)
  · rw [outsAt4_B V c t h0]
    dsimp only
    exact out_B_4 (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (fun h => h0 ((hcond4_0 t).mp h)) (iblk4 V c 0 t) (iblk4 V c 1 t) (iblk4 V c 2 t) (iblk4 V c 3 t) (outsAt4 V c (t.val - 1) (Nat.lt_of_le_of_lt (Nat.sub_le _ _) t.isLt)).2.1 (outsAt4 V c (t.val - 1) (Nat.lt_of_le_of_lt (Nat.sub_le _ _) t.isLt)).2.2

/-! ## The statistics rows after each point -/

/-- Column `j` of `z` summed over the rows of tile `t` (zero past the tenth tile). -/
def tsum (z : Mat 50000 64) (j : Fin 64) (t : ℕ) : EReal :=
  if h : t < 10 then ∑ p : Fin 5000, z (ix2 ⟨5000 * t + p.val, by have := p.isLt; omega⟩ j) else 0

/-- The tiled column sum of the specification is the sum of the ten tile sums. -/
theorem colSum_eq (z : Mat 50000 64) (j : Fin 64) : colSum z (ix2 0 j) = ∑ t ∈ Finset.range 10, tsum z j t := by
  rw [Finset.sum_range]
  unfold colSum
  refine Finset.sum_congr rfl fun t _ => ?_
  unfold tsum
  rw [dif_pos t.isLt]

theorem tile_sum (t : Fin cfg4.N) (j : Fin 64) :
    ∑ p : Fin 5000, tile V c t (ix2 p j) = tsum (Z V c) j t.val := by
  have ht := lt_ten t
  unfold tsum
  rw [dif_pos ht]
  exact Finset.sum_congr rfl fun p _ => tile_ix V c t p j _

theorem tile_sumsq (t : Fin cfg4.N) (j : Fin 64) :
    ∑ p : Fin 5000, tile V c t (ix2 p j) * tile V c t (ix2 p j) = tsum (fun i => Z V c i * Z V c i) j t.val := by
  have ht := lt_ten t
  unfold tsum
  rw [dif_pos ht]
  exact Finset.sum_congr rfl fun p _ => by rw [tile_ix V c t p j _]

/-- At the first point the rows are zeroed and then hold the first tile's sums. -/
theorem s_first (t : Fin cfg4.N) (h0 : t.val % 10 = 0) (j : Fin 64) :
    (outsAt4 V c t.val t.isLt).2.1 (ix2 0 j) = tsum (Z V c) j t.val
  ∧ (outsAt4 V c t.val t.isLt).2.2 (ix2 0 j) = tsum (fun i => Z V c i * Z V c i) j t.val := by
  have e5 : (outsAt4 V c t.val t.isLt).2.1 = k4_pay4 (F := Ideal) (iblk4 V c 2 t) (iblk4 V c 0 t) (iblk4 V c 1 t) (iblk4 V c 3 t) (k4_pay1 (F := Ideal)) := by
    rw [outsAt4_A V c t h0]
    dsimp only
    exact out_A_5 (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) ((hcond4_0 t).mpr h0) (iblk4 V c 0 t) (iblk4 V c 1 t) (iblk4 V c 2 t) (iblk4 V c 3 t)
  have e6 : (outsAt4 V c t.val t.isLt).2.2 = k4_pay5 (F := Ideal) (iblk4 V c 2 t) (iblk4 V c 0 t) (iblk4 V c 1 t) (iblk4 V c 3 t) (k4_pay2 (F := Ideal)) := by
    rw [outsAt4_A V c t h0]
    dsimp only
    exact out_A_6 (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) ((hcond4_0 t).mpr h0) (iblk4 V c 0 t) (iblk4 V c 1 t) (iblk4 V c 2 t) (iblk4 V c 3 t)
  constructor
  · refine (congrFun e5 (ix2 0 j)).trans ((pay4_ix (iblk4 V c 2 t) (iblk4 V c 0 t) (iblk4 V c 1 t) (iblk4 V c 3 t) (k4_pay1 (F := Ideal)) j).trans ?_)
    rw [pay1_ix, zero_add]
    exact tile_sum V c t j
  · refine (congrFun e6 (ix2 0 j)).trans ((pay5_ix (iblk4 V c 2 t) (iblk4 V c 0 t) (iblk4 V c 1 t) (iblk4 V c 3 t) (k4_pay2 (F := Ideal)) j).trans ?_)
    rw [pay2_ix, zero_add]
    exact tile_sumsq V c t j

/-- At a later point the rows hold what the point before left plus the point's tile sums. -/
theorem s_next (t : Fin cfg4.N) (h0 : ¬t.val % 10 = 0) (j : Fin 64) :
    (outsAt4 V c t.val t.isLt).2.1 (ix2 0 j) = (outsAt4 V c (t.val - 1) (Nat.lt_of_le_of_lt (Nat.sub_le _ _) t.isLt)).2.1 (ix2 0 j) + tsum (Z V c) j t.val
  ∧ (outsAt4 V c t.val t.isLt).2.2 (ix2 0 j) = (outsAt4 V c (t.val - 1) (Nat.lt_of_le_of_lt (Nat.sub_le _ _) t.isLt)).2.2 (ix2 0 j) + tsum (fun i => Z V c i * Z V c i) j t.val := by
  have e5 : (outsAt4 V c t.val t.isLt).2.1 = k4_pay4 (F := Ideal) (iblk4 V c 2 t) (iblk4 V c 0 t) (iblk4 V c 1 t) (iblk4 V c 3 t) (outsAt4 V c (t.val - 1) (Nat.lt_of_le_of_lt (Nat.sub_le _ _) t.isLt)).2.1 := by
    rw [outsAt4_B V c t h0]
    dsimp only
    exact out_B_5 (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (fun h => h0 ((hcond4_0 t).mp h)) (iblk4 V c 0 t) (iblk4 V c 1 t) (iblk4 V c 2 t) (iblk4 V c 3 t) (outsAt4 V c (t.val - 1) (Nat.lt_of_le_of_lt (Nat.sub_le _ _) t.isLt)).2.1 (outsAt4 V c (t.val - 1) (Nat.lt_of_le_of_lt (Nat.sub_le _ _) t.isLt)).2.2
  have e6 : (outsAt4 V c t.val t.isLt).2.2 = k4_pay5 (F := Ideal) (iblk4 V c 2 t) (iblk4 V c 0 t) (iblk4 V c 1 t) (iblk4 V c 3 t) (outsAt4 V c (t.val - 1) (Nat.lt_of_le_of_lt (Nat.sub_le _ _) t.isLt)).2.2 := by
    rw [outsAt4_B V c t h0]
    dsimp only
    exact out_B_6 (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (fun h => h0 ((hcond4_0 t).mp h)) (iblk4 V c 0 t) (iblk4 V c 1 t) (iblk4 V c 2 t) (iblk4 V c 3 t) (outsAt4 V c (t.val - 1) (Nat.lt_of_le_of_lt (Nat.sub_le _ _) t.isLt)).2.1 (outsAt4 V c (t.val - 1) (Nat.lt_of_le_of_lt (Nat.sub_le _ _) t.isLt)).2.2
  constructor
  · refine (congrFun e5 (ix2 0 j)).trans ((pay4_ix (iblk4 V c 2 t) (iblk4 V c 0 t) (iblk4 V c 1 t) (iblk4 V c 3 t) (outsAt4 V c (t.val - 1) (Nat.lt_of_le_of_lt (Nat.sub_le _ _) t.isLt)).2.1 j).trans ?_)
    rw [tile_sum V c t j]
  · refine (congrFun e6 (ix2 0 j)).trans ((pay5_ix (iblk4 V c 2 t) (iblk4 V c 0 t) (iblk4 V c 1 t) (iblk4 V c 3 t) (outsAt4 V c (t.val - 1) (Nat.lt_of_le_of_lt (Nat.sub_le _ _) t.isLt)).2.2 j).trans ?_)
    rw [tile_sumsq V c t j]

/-- After point `n` the rows hold the sums over tiles `0 … n`. -/
theorem stats_inv : ∀ (n : ℕ) (h : n < cfg4.N) (j : Fin 64),
    (outsAt4 V c n h).2.1 (ix2 0 j) = ∑ t ∈ Finset.range (n + 1), tsum (Z V c) j t
  ∧ (outsAt4 V c n h).2.2 (ix2 0 j) = ∑ t ∈ Finset.range (n + 1), tsum (fun i => Z V c i * Z V c i) j t
  | 0, h, j => by
    have e := s_first V c ⟨0, h⟩ rfl j
    rw [Finset.sum_range_one, Finset.sum_range_one]
    exact e
  | n + 1, h, j => by
    have hn : n + 1 < 10 := lt_ten ⟨n + 1, h⟩
    have hB : ¬(⟨n + 1, h⟩ : Fin cfg4.N).val % 10 = 0 := by dsimp only; omega
    have e := s_next V c ⟨n + 1, h⟩ hB j
    have ih := stats_inv n (Nat.lt_of_succ_lt h) j
    rw [Finset.sum_range_succ (fun t => tsum (Z V c) j t) (n + 1),
      Finset.sum_range_succ (fun t => tsum (fun i => Z V c i * Z V c i) j t) (n + 1), ← ih.1, ← ih.2]
    exact e

/-- After the last point the rows are the specification's tiled column sums. -/
theorem stats_last (h : 9 < cfg4.N) :
    (outsAt4 V c 9 h).2.1 = colSum (Z V c) ∧ (outsAt4 V c 9 h).2.2 = colSumSq (Z V c) := by
  constructor
  · funext y
    obtain ⟨i, j, rfl⟩ : ∃ (i : Fin 1) (j : Fin 64), y = ix2 i j := ⟨y 0, y 1, eq_ix2 y⟩
    obtain rfl : i = 0 := Subsingleton.elim _ _
    rw [colSum_eq]
    exact (stats_inv V c 9 h j).1
  · funext y
    obtain ⟨i, j, rfl⟩ : ∃ (i : Fin 1) (j : Fin 64), y = ix2 i j := ⟨y 0, y 1, eq_ix2 y⟩
    obtain rfl : i = 0 := Subsingleton.elim _ _
    show _ = colSum (fun i => Z V c i * Z V c i) (ix2 0 j)
    rw [colSum_eq]
    exact (stats_inv V c 9 h j).2

/-! ## From the blocks to the arrays -/

/-- Point `t` writes back block `t` of the product. -/
theorem flushed4 (t : Fin cfg4.N) :
    (dat4 V c).flushed 4 t = ((cfg4.win 4).blk t).view.read (Elt Ideal) (Z V c) := by
  obtain ⟨-, -, -, -, -, -, -, -, e0, e1, -⟩ := idx_facts t
  have ht := lt_ten t
  show (cfg4.win 4).cut (grid4.coords t) ((dat4 V c).after 4 t) = _
  rw [after4_4, outs4]
  funext y
  obtain ⟨p, j, rfl⟩ : ∃ (p : Fin 5000) (j : Fin 64), y = ix2 p j := ⟨y 0, y 1, eq_ix2 y⟩
  rw [View.read_apply]
  show tile V c t (ix2 p j) = Z V c (((cfg4.win 4).blk t).view.emb (ix2 p j))
  rw [tile_ix V c t p j (by have := p.isLt; omega)]
  congr 1
  funext a
  apply Fin.ext
  match a with
  | ⟨0, _⟩ => show 5000 * t.val + p.val = win4_4.index t 0 * 5000 + 1 * p.val; rw [e0]; omega
  | ⟨1, _⟩ => show j.val = win4_4.index t 1 * 64 + 1 * j.val; rw [e1]; omega

/-- Row `r` of the product lies in the block of point `r / 5000`. -/
theorem cover4 (i : S50000x64.Idx) :
    ∃ t : Fin cfg4.N, (cfg4.win 4).flush t = true ∧ i ∈ ((cfg4.win 4).blk t).view.set := by
  have hi0 : (i 0).val < 50000 := (i 0).isLt
  have hi1 : (i 1).val < 64 := (i 1).isLt
  have hN : grid4.N = 10 := N_4
  let t : Fin cfg4.N := ⟨(i 0).val / 5000, by show _ < grid4.N; rw [hN]; omega⟩
  obtain ⟨-, -, -, -, -, -, -, -, e0, e1, -⟩ := idx_facts t
  have e0' : win4_4.index t 0 = (i 0).val / 5000 := e0
  refine ⟨t, flush4_4 t, ?_⟩
  show i ∈ ((View.whole main_v66_0).slice (win4_4.rect t)).set
  rw [View.set_slice_whole, Rect.mem_set_unit]
  intro a
  match a with
  | ⟨0, _⟩ => show win4_4.index t 0 * 5000 ≤ (i 0).val ∧ (i 0).val < win4_4.index t 0 * 5000 + 5000
              rw [e0']; omega
  | ⟨1, _⟩ => show win4_4.index t 1 * 64 ≤ (i 1).val ∧ (i 1).val < win4_4.index t 1 * 64 + 64
              rw [e1]; omega

/-- The column-sum row is written back after the last point only; its one block is the whole row. -/
theorem flushed5 (t : Fin cfg4.N) (hf : (cfg4.win 5).flush t = true) :
    (dat4 V c).flushed 5 t = ((cfg4.win 5).blk t).view.read (Elt Ideal) (colSum (Z V c)) := by
  have ht := lt_ten t
  have h9 : t.val = 9 := by have := (flush4_5 t).mp hf; omega
  obtain ⟨-, -, -, -, -, -, -, -, -, -, e0, e1, -⟩ := idx_facts t
  show (cfg4.win 5).cut (grid4.coords t) ((dat4 V c).after 5 t) = _
  rw [after4_5]
  funext y
  rw [View.read_apply]
  show (outsAt4 V c t.val t.isLt).2.1 y = colSum (Z V c) (((cfg4.win 5).blk t).view.emb y)
  have hemb : ((cfg4.win 5).blk t).view.emb y = y := by
    funext a
    apply Fin.ext
    match a with
    | ⟨0, _⟩ => show win4_5.index t 0 * 1 + 1 * (y 0).val = (y 0).val; rw [e0]; omega
    | ⟨1, _⟩ => show win4_5.index t 1 * 64 + 1 * (y 1).val = (y 1).val; rw [e1]; omega
  rw [hemb]
  have key : ∀ (n : ℕ) (h : n < cfg4.N), n = 9 → (outsAt4 V c n h).2.1 = colSum (Z V c) := by
    intro n h e
    subst e
    exact (stats_last V c h).1
  exact congrFun (key t.val t.isLt h9) y

/-- The last point's block covers the row. -/
theorem cover5 (i : S1x64.Idx) :
    ∃ t : Fin cfg4.N, (cfg4.win 5).flush t = true ∧ i ∈ ((cfg4.win 5).blk t).view.set := by
  have hi0 : (i 0).val < 1 := (i 0).isLt
  have hi1 : (i 1).val < 64 := (i 1).isLt
  obtain ⟨-, -, -, -, -, -, -, -, -, -, e0, e1, -⟩ := idx_facts t4_9
  refine ⟨t4_9, (flush4_5 t4_9).mpr rfl, ?_⟩
  show i ∈ ((View.whole main_v66_1).slice (win4_5.rect t4_9)).set
  rw [View.set_slice_whole, Rect.mem_set_unit]
  intro a
  match a with
  | ⟨0, _⟩ => show win4_5.index t4_9 0 * 1 ≤ (i 0).val ∧ (i 0).val < win4_5.index t4_9 0 * 1 + 1
              rw [e0]; omega
  | ⟨1, _⟩ => show win4_5.index t4_9 1 * 64 ≤ (i 1).val ∧ (i 1).val < win4_5.index t4_9 1 * 64 + 64
              rw [e1]; omega

/-- The sum-of-squares row is written back after the last point only; its one block is the whole row. -/
theorem flushed6 (t : Fin cfg4.N) (hf : (cfg4.win 6).flush t = true) :
    (dat4 V c).flushed 6 t = ((cfg4.win 6).blk t).view.read (Elt Ideal) (colSumSq (Z V c)) := by
  have ht := lt_ten t
  have h9 : t.val = 9 := by have := (flush4_6 t).mp hf; omega
  obtain ⟨-, -, -, -, -, -, -, -, -, -, -, -, e0, e1⟩ := idx_facts t
  show (cfg4.win 6).cut (grid4.coords t) ((dat4 V c).after 6 t) = _
  rw [after4_6]
  funext y
  rw [View.read_apply]
  show (outsAt4 V c t.val t.isLt).2.2 y = colSumSq (Z V c) (((cfg4.win 6).blk t).view.emb y)
  have hemb : ((cfg4.win 6).blk t).view.emb y = y := by
    funext a
    apply Fin.ext
    match a with
    | ⟨0, _⟩ => show win4_6.index t 0 * 1 + 1 * (y 0).val = (y 0).val; rw [e0]; omega
    | ⟨1, _⟩ => show win4_6.index t 1 * 64 + 1 * (y 1).val = (y 1).val; rw [e1]; omega
  rw [hemb]
  have key : ∀ (n : ℕ) (h : n < cfg4.N), n = 9 → (outsAt4 V c n h).2.2 = colSumSq (Z V c) := by
    intro n h e
    subst e
    exact (stats_last V c h).2
  exact congrFun (key t.val t.isLt h9) y

/-- The last point's block covers the row. -/
theorem cover6 (i : S1x64.Idx) :
    ∃ t : Fin cfg4.N, (cfg4.win 6).flush t = true ∧ i ∈ ((cfg4.win 6).blk t).view.set := by
  have hi0 : (i 0).val < 1 := (i 0).isLt
  have hi1 : (i 1).val < 64 := (i 1).isLt
  obtain ⟨-, -, -, -, -, -, -, -, -, -, -, -, e0, e1⟩ := idx_facts t4_9
  refine ⟨t4_9, (flush4_6 t4_9).mpr rfl, ?_⟩
  show i ∈ ((View.whole main_v66_2).slice (win4_6.rect t4_9)).set
  rw [View.set_slice_whole, Rect.mem_set_unit]
  intro a
  match a with
  | ⟨0, _⟩ => show win4_6.index t4_9 0 * 1 ≤ (i 0).val ∧ (i 0).val < win4_6.index t4_9 0 * 1 + 1
              rw [e0]; omega
  | ⟨1, _⟩ => show win4_6.index t4_9 1 * 64 ≤ (i 1).val ∧ (i 1).val < win4_6.index t4_9 1 * 64 + 64
              rw [e1]; omega

/-! ## The three arrays after the region -/

/-- The product array ends as the product. -/
theorem z : (dat4 (F := Ideal) V c).arrAt 4 cfg4.N = mm (comb (V c (Pipeline.arrRef spec4 2) : Mat 1 1) (V c (Pipeline.arrRef spec4 0) : Mat 50000 128) (V c (Pipeline.arrRef spec4 1) : Mat 50000 128)) (V c (Pipeline.arrRef spec4 3) : Mat 128 64) :=
  (dat4 V c).arrAt_eq_of_cover 4 (Z V c) (fun t _ => flushed4 V c t) cover4

/-- The column-sum row ends as the tiled column sums of the product. -/
theorem s : (dat4 (F := Ideal) V c).arrAt 5 cfg4.N = colSum (mm (comb (V c (Pipeline.arrRef spec4 2) : Mat 1 1) (V c (Pipeline.arrRef spec4 0) : Mat 50000 128) (V c (Pipeline.arrRef spec4 1) : Mat 50000 128)) (V c (Pipeline.arrRef spec4 3) : Mat 128 64)) :=
  (dat4 V c).arrAt_eq_of_cover 5 (colSum (Z V c)) (flushed5 V c) cover5

/-- The sum-of-squares row ends as the tiled column sums of the product's squares. -/
theorem ss : (dat4 (F := Ideal) V c).arrAt 6 cfg4.N = colSumSq (mm (comb (V c (Pipeline.arrRef spec4 2) : Mat 1 1) (V c (Pipeline.arrRef spec4 0) : Mat 50000 128) (V c (Pipeline.arrRef spec4 1) : Mat 50000 128)) (V c (Pipeline.arrRef spec4 3) : Mat 128 64)) :=
  (dat4 V c).arrAt_eq_of_cover 6 (colSumSq (Z V c)) (flushed6 V c) cover6

end Cert.GIN.Reg4

end
-- ==== Proof.Reg5.lean ====
/-
  Region 5: the normalisation-and-rectifier map on a matrix of 50000 rows and 64 columns.

  The region visits ten grid points.  At point `t` it reads rows `5000·t … 5000·t + 4999` of the matrix `z` and the
  whole of the four rows `mean`, `var`, `γ`, `β` (each `[1, 64]`, the same block at every point), and writes the same
  rows of the output.  Entry `(p, q)` of what it writes is
  `max (γ q · (z (5000·t + p, q) − mean q) · rsqrt (var q + eps) + β q) 0`: each row vector is read at column `q` of
  its one row, whatever `p` is.  So the block point `t` writes is block `t` of ONE function of the five arrays,
  `normRelu z mean var γ β eps`, and since the ten blocks cover all 50000 rows (row `r` lies in block `r / 5000`),
  the output array ends holding that function.
-/
import proofs.«177653_j8959301779747_1_alg».proof.Proof.Spec
import proofs.«177653_j8959301779747_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

noncomputable section

namespace Cert.GIN.Reg5

open Cert.KernelIdeal Cert.KernelIdeal.Gen Cert.GIN
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The zero offsets of a block read or written whole. -/
theorem hz : (![0, 0] : Fin 2 → Nat) = fun _ => 0 := funext fun a => by fin_cases a <;> rfl

/-- The body's arithmetic at entry `(p, q)` of a block: the row vectors are read at column `q` of their one row, the
    rectifier's zero word is the number zero. -/
theorem pay_apply (x0 : Vec Ideal S5000x64 .f32) (x1 x2 x3 x4 : Vec Ideal S1x64 .f32) (p : Fin 5000) (q : Fin 64) :
    k5_pay1 x0 x1 x2 x3 x4 (ix2 p q)
      = max (x3 (ix2 0 q) * (x0 (ix2 p q) - x1 (ix2 0 q)) * Ideal.rsqrt (x2 (ix2 0 q) + Ideal.ofBits .f32 0x3727C5AC#32)
          + x4 (ix2 0 q)) 0 := by
  unfold k5_pay1
  simp only [shapeCast_self]
  rw [maximumf_apply, addf_apply, mulf_apply, mulf_apply, subf_apply, broadcast_apply,
    broadcastTo_1b_ab_apply, broadcastTo_1b_ab_apply, broadcastTo_1b_ab_apply, broadcastTo_1b_ab_apply]
  show max (x3 (ix2 0 q) * (x0 (ix2 p q) - x1 (ix2 0 q)) * Ideal.rsqrt (x2 (ix2 0 q) + Ideal.ofBits .f32 0x3727C5AC#32)
      + x4 (ix2 0 q)) (Ideal.ofBits .f32 0x00000000#32) = _
  rw [Ideal.ofBits_zero_f32]

/-- The same at any index of the block. -/
theorem pay_at (x0 : Vec Ideal S5000x64 .f32) (x1 x2 x3 x4 : Vec Ideal S1x64 .f32) (j : S5000x64.Idx) :
    k5_pay1 x0 x1 x2 x3 x4 j
      = max (x3 (ix2 0 (j 1)) * (x0 j - x1 (ix2 0 (j 1))) * Ideal.rsqrt (x2 (ix2 0 (j 1)) + Ideal.ofBits .f32 0x3727C5AC#32)
          + x4 (ix2 0 (j 1))) 0 := by
  obtain ⟨p, q, rfl⟩ : ∃ (p : Fin 5000) (q : Fin 64), j = ix2 p q := ⟨j 0, j 1, eq_ix2 j⟩
  exact pay_apply x0 x1 x2 x3 x4 p q

/-- The block indices, decided over the ten grid points: the matrix and the output move together down the rows, one
    block per point; the four row vectors stay at their one block. -/
theorem idx_facts : ∀ t : Fin cfg5.N,
    win5_5.index t (0 : Fin 2) = t.val ∧ win5_5.index t (1 : Fin 2) = 0
    ∧ win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0 :=
  (by decide +kernel : ∀ t : Fin grid5.N, _)

/-- THE BLOCK EQUATION at a symbolic grid point `t`: the body's arithmetic on the five blocks at `t` is block `t` of
    `normRelu` of the five arrays.  Entry `j` of the block of `z` and of the output sit at the same place of their
    arrays (row `5000·t + j 0`, column `j 1`), and entry `(0, j 1)` of each row vector's one block is entry `(0, j 1)`
    of the row vector. -/
theorem block_eq (t : Fin cfg5.N) (z : Mat 50000 64) (mean var γ β : Mat 1 64) :
    k5_pay1 (((cfg5.win 0).blk t).view.read (Elt Ideal) z) (((cfg5.win 1).blk t).view.read (Elt Ideal) mean)
        (((cfg5.win 2).blk t).view.read (Elt Ideal) var) (((cfg5.win 3).blk t).view.read (Elt Ideal) γ)
        (((cfg5.win 4).blk t).view.read (Elt Ideal) β)
      = ((cfg5.win 5).blk t).view.read (Elt Ideal) (normRelu z mean var γ β (Ideal.ofBits .f32 0x3727C5AC#32)) := by
  obtain ⟨e50, e51, e00, e01, e10, e11, e20, e21, e30, e31, e40, e41⟩ := idx_facts t
  funext j
  refine (pay_at _ _ _ _ _ j).trans ?_
  have h0 : ((cfg5.win 0).blk t).view.emb j = ((cfg5.win 5).blk t).view.emb j := by
    funext a; apply Fin.ext
    match a with
    | ⟨0, _⟩ => show win5_0.index t (0 : Fin 2) * 5000 + 1 * (j 0).val = win5_5.index t (0 : Fin 2) * 5000 + 1 * (j 0).val; rw [e00, e50]
    | ⟨1, _⟩ => show win5_0.index t (1 : Fin 2) * 64 + 1 * (j 1).val = win5_5.index t (1 : Fin 2) * 64 + 1 * (j 1).val; rw [e01, e51]
  have h1 : ((cfg5.win 1).blk t).view.emb (ix2 0 (j 1)) = (ix2 (0 : Fin 1) ((((cfg5.win 5).blk t).view.emb j) 1) : S1x64.Idx) := by
    funext a; apply Fin.ext
    match a with
    | ⟨0, _⟩ => show win5_1.index t (0 : Fin 2) * 1 + 1 * 0 = 0; rw [e10]
    | ⟨1, _⟩ => show win5_1.index t (1 : Fin 2) * 64 + 1 * (j 1).val = win5_5.index t (1 : Fin 2) * 64 + 1 * (j 1).val; rw [e11, e51]
  have h2 : ((cfg5.win 2).blk t).view.emb (ix2 0 (j 1)) = (ix2 (0 : Fin 1) ((((cfg5.win 5).blk t).view.emb j) 1) : S1x64.Idx) := by
    funext a; apply Fin.ext
    match a with
    | ⟨0, _⟩ => show win5_2.index t (0 : Fin 2) * 1 + 1 * 0 = 0; rw [e20]
    | ⟨1, _⟩ => show win5_2.index t (1 : Fin 2) * 64 + 1 * (j 1).val = win5_5.index t (1 : Fin 2) * 64 + 1 * (j 1).val; rw [e21, e51]
  have h3 : ((cfg5.win 3).blk t).view.emb (ix2 0 (j 1)) = (ix2 (0 : Fin 1) ((((cfg5.win 5).blk t).view.emb j) 1) : S1x64.Idx) := by
    funext a; apply Fin.ext
    match a with
    | ⟨0, _⟩ => show win5_3.index t (0 : Fin 2) * 1 + 1 * 0 = 0; rw [e30]
    | ⟨1, _⟩ => show win5_3.index t (1 : Fin 2) * 64 + 1 * (j 1).val = win5_5.index t (1 : Fin 2) * 64 + 1 * (j 1).val; rw [e31, e51]
  have h4 : ((cfg5.win 4).blk t).view.emb (ix2 0 (j 1)) = (ix2 (0 : Fin 1) ((((cfg5.win 5).blk t).view.emb j) 1) : S1x64.Idx) := by
    funext a; apply Fin.ext
    match a with
    | ⟨0, _⟩ => show win5_4.index t (0 : Fin 2) * 1 + 1 * 0 = 0; rw [e40]
    | ⟨1, _⟩ => show win5_4.index t (1 : Fin 2) * 64 + 1 * (j 1).val = win5_5.index t (1 : Fin 2) * 64 + 1 * (j 1).val; rw [e41, e51]
  show max (γ (((cfg5.win 3).blk t).view.emb (ix2 0 (j 1)))
        * (z (((cfg5.win 0).blk t).view.emb j) - mean (((cfg5.win 1).blk t).view.emb (ix2 0 (j 1))))
        * Ideal.rsqrt (var (((cfg5.win 2).blk t).view.emb (ix2 0 (j 1))) + Ideal.ofBits .f32 0x3727C5AC#32)
      + β (((cfg5.win 4).blk t).view.emb (ix2 0 (j 1)))) 0
    = normRelu z mean var γ β (Ideal.ofBits .f32 0x3727C5AC#32) (((cfg5.win 5).blk t).view.emb j)
  rw [h0, h1, h2, h3, h4]
  rfl

/-- An index of the output array is in point `t`'s block iff each coordinate is in the block's range on its axis. -/
theorem mem_blk (t : Fin cfg5.N) (i : S50000x64.Idx) :
    i ∈ ((cfg5.win 5).blk t).view.set ↔ ∀ a : Fin 2, win5_5.index t a * S5000x64.size a ≤ (i a).val
      ∧ (i a).val < win5_5.index t a * S5000x64.size a + S5000x64.size a := by
  show i ∈ ((View.whole main_v79).slice (win5_5.rect t)).set ↔ _
  rw [View.set_slice_whole, Rect.mem_set_unit]
  exact Iff.rfl

/-- THE COVER: row `r` of the output lies in the block of grid point `r / 5000`, which writes its block back. -/
theorem cover (i : S50000x64.Idx) :
    ∃ t : Fin cfg5.N, (cfg5.win 5).flush t = true ∧ i ∈ ((cfg5.win 5).blk t).view.set := by
  have hi0 : (i 0).val < 50000 := (i 0).isLt
  have hi1 : (i 1).val < 64 := (i 1).isLt
  have hN : cfg5.N = 10 := N_5
  have ht : (i 0).val / 5000 < cfg5.N := by rw [hN]; omega
  obtain ⟨e50, e51, -⟩ := idx_facts ⟨(i 0).val / 5000, ht⟩
  refine ⟨⟨(i 0).val / 5000, ht⟩, flush5_5 _, ?_⟩
  rw [mem_blk]
  intro a
  match a with
  | ⟨0, _⟩ =>
    show win5_5.index ⟨(i 0).val / 5000, ht⟩ (0 : Fin 2) * 5000 ≤ (i 0).val
      ∧ (i 0).val < win5_5.index ⟨(i 0).val / 5000, ht⟩ (0 : Fin 2) * 5000 + 5000
    rw [e50]
    show (i 0).val / 5000 * 5000 ≤ (i 0).val ∧ (i 0).val < (i 0).val / 5000 * 5000 + 5000
    omega
  | ⟨1, _⟩ =>
    show win5_5.index ⟨(i 0).val / 5000, ht⟩ (1 : Fin 2) * 64 ≤ (i 1).val
      ∧ (i 1).val < win5_5.index ⟨(i 0).val / 5000, ht⟩ (1 : Fin 2) * 64 + 64
    rw [e51]
    omega

/-- WHAT POINT `t` WRITES BACK is block `t` of `normRelu` of the five arrays as the region finds them: the body's one
    store fills the whole staging buffer with its arithmetic on the five blocks at `t`. -/
theorem flushed_eq (c : Dev nD) (t : Fin cfg5.N) :
    (dat5 (F := Ideal) V c).flushed 5 t = ((cfg5.win 5).blk t).view.read (Elt Ideal)
      (normRelu (n := 50000) (d := 64) (V c (Pipeline.arrRef spec5 0)) (V c (Pipeline.arrRef spec5 1))
        (V c (Pipeline.arrRef spec5 2)) (V c (Pipeline.arrRef spec5 3)) (V c (Pipeline.arrRef spec5 4))
        (Ideal.ofBits .f32 0x3727C5AC#32)) := by
  show (cfg5.win 5).cut (grid5.coords t) ((dat5 (F := Ideal) V c).after 5 t) = _
  rw [after5_5]
  unfold out5_5
  rw [View.canon_unit_zero hz]
  simp only [View.ld_unit_zero (S := S5000x64) hz, View.ld_unit_zero (S := S1x64) hz]
  unfold iblk5
  exact block_eq t (V c (Pipeline.arrRef spec5 0)) (V c (Pipeline.arrRef spec5 1)) (V c (Pipeline.arrRef spec5 2))
    (V c (Pipeline.arrRef spec5 3)) (V c (Pipeline.arrRef spec5 4))

/-- THE OUTPUT ARRAY after the region: `normRelu` of the five arrays as the region finds them. -/
theorem out (c : Dev nD) :
    (dat5 (F := Ideal) V c).arrAt 5 cfg5.N
      = normRelu (n := 50000) (d := 64) (V c (Pipeline.arrRef spec5 0)) (V c (Pipeline.arrRef spec5 1))
          (V c (Pipeline.arrRef spec5 2)) (V c (Pipeline.arrRef spec5 3)) (V c (Pipeline.arrRef spec5 4))
          (Ideal.ofBits .f32 0x3727C5AC#32) :=
  (dat5 (F := Ideal) V c).arrAt_eq_of_cover 5 _ (fun t _ => flushed_eq V c t) cover

end Cert.GIN.Reg5

end
-- ==== Proof.Reg6Pay.lean ====
/-
  Region 6 (the second dense layer's product with its batch statistics), the arithmetic of one grid point at the
  ideal instance, entry by entry.

  The body forms the product block `z_t = h_t · w` of the point's 5000-row block of `h` with the whole of `w`
  (a product into a zero accumulator; the change of float format before it is the identity on extended reals),
  and adds to each of the two statistics rows the column sums of `z_t`, respectively of its squares: at column
  `j` the row holding `v` becomes `v j + Σ_p z_t (p, j)`, respectively `v j + Σ_p z_t (p, j)²`.  The rows a
  first point starts from are zero.
-/
import proofs.«177653_j8959301779747_1_alg».proof.Proof.LibPlainDot
import proofs.«177653_j8959301779747_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.ValueIdx

namespace Cert.GIN.Reg6
open Cert.KernelIdeal Cert.KernelIdeal.Gen

/-- The product block at entry `(p, j)`: the sum over the 64 contracted columns. -/
theorem pay3_apply (x0 : Vec Ideal S5000x64 .f32) (x1 : Vec Ideal S64x128 .f32) (p : Fin 5000) (j : Fin 128) :
    k6_pay3 (F := Ideal) x0 x1 (ix2 p j) = ∑ q : Fin 64, x0 (ix2 p q) * x1 (ix2 q j) := by
  unfold k6_pay3
  refine (Cert.PlainDot.matmul_zero_ix2 dot_S5000x64_S64x128_S5000x128_1_0_0_1_n_n rfl none _ _ p j).trans ?_
  refine Finset.sum_congr rfl fun q _ => ?_
  rw [truncf_apply, truncf_apply, shapeCast_self, shapeCast_self]

/-- Column `j` of the reduced row, with row `k` inserted on the summed axis, is entry `(k, j)` of the block. -/
theorem lift_eq (j : Fin 128) (k : Fin 5000) : reduces_S5000x128_S128.lift (ix1 j) k = ix2 k j := by
  funext a
  apply Fin.ext
  match a with
  | ⟨0, _⟩ => rfl
  | ⟨1, _⟩ => rfl

/-- The sum of a 5000×128 block over its rows, kept as a 1×128 row: at column `j` the sum of the block's column `j`. -/
theorem rowsum_apply (src : FVec Ideal S5000x128 .f32) (j : Fin 128) :
    shapeCast S1x128 (multiReduction (F := Ideal) .add [0] S128 src 0x00000000#32 reduces_S5000x128_S128 (.inl rfl) rfl)
        shapeCasts_S128_S1x128 (ix2 0 j)
      = ∑ p : Fin 5000, src (ix2 p j) := by
  refine (shapeCast_apply _ shapeCasts_S128_S1x128 (ix2 0 j) (ix1 j) ?_).trans ?_
  · rw [Shape.rowMajor_val_two, Shape.rowMajor_val_one]; show j.val = 0 * 128 + j.val; omega
  refine (Ideal.multiReduction_add_single src 0x00000000#32 reduces_S5000x128_S128 (.inl rfl) rfl (ix1 j)).trans ?_
  exact Finset.sum_congr rfl fun p _ => congrArg src (lift_eq j p)

/-- The first statistics row after a point that found it holding `v`: `v j` plus column `j`'s sum of the product block. -/
theorem pay4_apply (x0 : Vec Ideal S5000x64 .f32) (x1 : Vec Ideal S64x128 .f32) (v : Vec Ideal S1x128 .f32) (j : Fin 128) :
    k6_pay4 (F := Ideal) x0 x1 v (ix2 0 j) = v (ix2 0 j) + ∑ p : Fin 5000, k6_pay3 (F := Ideal) x0 x1 (ix2 p j) := by
  unfold k6_pay4
  refine (addf_apply _ _ _).trans ?_
  rw [shapeCast_self]
  exact congrArg (v (ix2 0 j) + ·) (rowsum_apply _ j)

/-- The second statistics row likewise, with the squares of the product block's entries. -/
theorem pay5_apply (x0 : Vec Ideal S5000x64 .f32) (x1 : Vec Ideal S64x128 .f32) (v : Vec Ideal S1x128 .f32) (j : Fin 128) :
    k6_pay5 (F := Ideal) x0 x1 v (ix2 0 j)
      = v (ix2 0 j) + ∑ p : Fin 5000, k6_pay3 (F := Ideal) x0 x1 (ix2 p j) * k6_pay3 (F := Ideal) x0 x1 (ix2 p j) := by
  unfold k6_pay5
  refine (addf_apply _ _ _).trans ?_
  rw [shapeCast_self]
  exact congrArg (v (ix2 0 j) + ·) (rowsum_apply _ j)

/-- The row the first point stores into the first statistics row before accumulating: zero. -/
theorem pay1_apply (i : S1x128.Idx) : k6_pay1 (F := Ideal) i = 0 := by
  unfold k6_pay1
  show Ideal.ofBits .f32 0x00000000#32 = 0
  exact Ideal.ofBits_zero_f32

/-- And into the second: zero. -/
theorem pay2_apply (i : S1x128.Idx) : k6_pay2 (F := Ideal) i = 0 := by
  unfold k6_pay2
  show Ideal.ofBits .f32 0x00000000#32 = 0
  exact Ideal.ofBits_zero_f32

end Cert.GIN.Reg6

end
-- ==== Proof.Reg6Pieces.lean ====
/-
  Region 6, what one run of the body leaves in each output's staging buffer, as values of the body's arithmetic.

  At a first point (the condition holds) the body zeroes both statistics rows, stores the product block, and then
  replaces each statistics row by the row plus the block's column sums (of the entries, of their squares): what
  it leaves are the product payload and the two accumulation payloads applied to the zero rows.  At any other point
  the same, applied to the rows the point before left.  Each output's pieces are whole-buffer stores, so the last
  store's payload is what the buffer holds; a row read back after the zeroing store reads that store's payload.
-/
import proofs.«177653_j8959301779747_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.GIN.Reg6
open Cert.KernelIdeal Cert.KernelIdeal.Gen

variable {F : FTy → Type} [FloatOps F]

theorem hz : (![0, 0] : Fin 2 → Nat) = fun _ => 0 := funext fun a => by fin_cases a <;> rfl

/-- Any other point, the product output: the product payload of the two input blocks. -/
theorem out_B_2 (c : Dev nD) (i : grid6.Coords) (a1 : Memref sig .tc .vmem S5000x64 .f32) (h1 : a1.IsWhole)
    (a2 : Memref sig .tc .vmem S64x128 .f32) (h2 : a2.IsWhole) (a3 : Memref sig .tc .vmem S5000x128 .f32) (h3 : a3.IsWhole)
    (a4 : Memref sig .tc .vmem S1x128 .f32) (h4 : a4.IsWhole) (a5 : Memref sig .tc .vmem S1x128 .f32) (h5 : a5.IsWhole)
    (hc : ¬cond6_0 i) (x0 : Vec F S5000x64 .f32) (x1 : Vec F S64x128 .f32) (xo3 xo4 : Vec F S1x128 .f32) :
    out6_B_2 c i a1 h1 a2 h2 a3 h3 a4 h4 a5 h5 hc x0 x1 xo3 xo4 = k6_pay3 x0 x1 := by
  unfold out6_B_2
  rw [View.read_writes_eq_canon _ _ _ (cover6_B_2 c i a1 h1 a2 h2 a3 h3 a4 h4 a5 h5 hc x0 x1 xo3 xo4)]
  unfold kernelRun6_B
  dsimp only
  sl_unfold_words
  rw [View.canon_unit_zero hz]
  simp only [View.readAt_eq_ld, h1.read_unread, h2.read_unread, View.ld_unit_zero (S := S5000x64) hz,
    View.ld_unit_zero (S := S64x128) hz]

/-- Any other point, the first statistics row: the accumulation payload of the row the point before left. -/
theorem out_B_3 (c : Dev nD) (i : grid6.Coords) (a1 : Memref sig .tc .vmem S5000x64 .f32) (h1 : a1.IsWhole)
    (a2 : Memref sig .tc .vmem S64x128 .f32) (h2 : a2.IsWhole) (a3 : Memref sig .tc .vmem S5000x128 .f32) (h3 : a3.IsWhole)
    (a4 : Memref sig .tc .vmem S1x128 .f32) (h4 : a4.IsWhole) (a5 : Memref sig .tc .vmem S1x128 .f32) (h5 : a5.IsWhole)
    (hc : ¬cond6_0 i) (x0 : Vec F S5000x64 .f32) (x1 : Vec F S64x128 .f32) (xo3 xo4 : Vec F S1x128 .f32) :
    out6_B_3 c i a1 h1 a2 h2 a3 h3 a4 h4 a5 h5 hc x0 x1 xo3 xo4 = k6_pay4 x0 x1 xo3 := by
  unfold out6_B_3
  rw [View.read_writes_eq_canon _ _ _ (cover6_B_3 c i a1 h1 a2 h2 a3 h3 a4 h4 a5 h5 hc x0 x1 xo3 xo4)]
  unfold kernelRun6_B
  dsimp only
  sl_unfold_words
  rw [View.canon_unit_zero hz]
  simp only [View.readAt_eq_ld, h1.read_unread, h2.read_unread, h4.read_unread, View.ld_unit_zero (S := S5000x64) hz,
    View.ld_unit_zero (S := S64x128) hz, View.ld_unit_zero (S := S1x128) hz]

/-- Any other point, the second statistics row. -/
theorem out_B_4 (c : Dev nD) (i : grid6.Coords) (a1 : Memref sig .tc .vmem S5000x64 .f32) (h1 : a1.IsWhole)
    (a2 : Memref sig .tc .vmem S64x128 .f32) (h2 : a2.IsWhole) (a3 : Memref sig .tc .vmem S5000x128 .f32) (h3 : a3.IsWhole)
    (a4 : Memref sig .tc .vmem S1x128 .f32) (h4 : a4.IsWhole) (a5 : Memref sig .tc .vmem S1x128 .f32) (h5 : a5.IsWhole)
    (hc : ¬cond6_0 i) (x0 : Vec F S5000x64 .f32) (x1 : Vec F S64x128 .f32) (xo3 xo4 : Vec F S1x128 .f32) :
    out6_B_4 c i a1 h1 a2 h2 a3 h3 a4 h4 a5 h5 hc x0 x1 xo3 xo4 = k6_pay5 x0 x1 xo4 := by
  unfold out6_B_4
  rw [View.read_writes_eq_canon _ _ _ (cover6_B_4 c i a1 h1 a2 h2 a3 h3 a4 h4 a5 h5 hc x0 x1 xo3 xo4)]
  unfold kernelRun6_B
  dsimp only
  sl_unfold_words
  rw [View.canon_unit_zero hz]
  simp only [View.readAt_eq_ld, h1.read_unread, h2.read_unread, h5.read_unread, View.ld_unit_zero (S := S5000x64) hz,
    View.ld_unit_zero (S := S64x128) hz, View.ld_unit_zero (S := S1x128) hz]

/-- A first point, the product output. -/
theorem out_A_2 (c : Dev nD) (i : grid6.Coords) (a1 : Memref sig .tc .vmem S5000x64 .f32) (h1 : a1.IsWhole)
    (a2 : Memref sig .tc .vmem S64x128 .f32) (h2 : a2.IsWhole) (a3 : Memref sig .tc .vmem S5000x128 .f32) (h3 : a3.IsWhole)
    (a4 : Memref sig .tc .vmem S1x128 .f32) (h4 : a4.IsWhole) (a5 : Memref sig .tc .vmem S1x128 .f32) (h5 : a5.IsWhole)
    (hc : cond6_0 i) (x0 : Vec F S5000x64 .f32) (x1 : Vec F S64x128 .f32) :
    out6_A_2 c i a1 h1 a2 h2 a3 h3 a4 h4 a5 h5 hc x0 x1 = k6_pay3 x0 x1 := by
  unfold out6_A_2
  rw [View.read_writes_eq_canon _ _ _ (cover6_A_2 c i a1 h1 a2 h2 a3 h3 a4 h4 a5 h5 hc x0 x1)]
  unfold kernelRun6_A
  dsimp only
  sl_unfold_words
  rw [View.canon_unit_zero hz]
  simp only [View.readAt_eq_ld, h1.read_unread, h2.read_unread, View.ld_unit_zero (S := S5000x64) hz,
    View.ld_unit_zero (S := S64x128) hz]

/-- A first point, the first statistics row: the accumulation payload of the zero row just stored. -/
theorem out_A_3 (c : Dev nD) (i : grid6.Coords) (a1 : Memref sig .tc .vmem S5000x64 .f32) (h1 : a1.IsWhole)
    (a2 : Memref sig .tc .vmem S64x128 .f32) (h2 : a2.IsWhole) (a3 : Memref sig .tc .vmem S5000x128 .f32) (h3 : a3.IsWhole)
    (a4 : Memref sig .tc .vmem S1x128 .f32) (h4 : a4.IsWhole) (a5 : Memref sig .tc .vmem S1x128 .f32) (h5 : a5.IsWhole)
    (hc : cond6_0 i) (x0 : Vec F S5000x64 .f32) (x1 : Vec F S64x128 .f32) :
    out6_A_3 c i a1 h1 a2 h2 a3 h3 a4 h4 a5 h5 hc x0 x1 = k6_pay4 x0 x1 k6_pay1 := by
  unfold out6_A_3
  rw [View.read_writes_eq_canon _ _ _ (cover6_A_3 c i a1 h1 a2 h2 a3 h3 a4 h4 a5 h5 hc x0 x1)]
  unfold kernelRun6_A
  dsimp only
  sl_unfold_words
  rw [View.canon_cons_unit_zero (S := S1x128) hz, View.readCov_unit_zero (S := S1x128) _ hz]
  simp only [View.readAt_eq_ld, h1.read_unread, h2.read_unread, View.ld_unit_zero (S := S5000x64) hz,
    View.ld_unit_zero (S := S64x128) hz]

/-- A first point, the second statistics row. -/
theorem out_A_4 (c : Dev nD) (i : grid6.Coords) (a1 : Memref sig .tc .vmem S5000x64 .f32) (h1 : a1.IsWhole)
    (a2 : Memref sig .tc .vmem S64x128 .f32) (h2 : a2.IsWhole) (a3 : Memref sig .tc .vmem S5000x128 .f32) (h3 : a3.IsWhole)
    (a4 : Memref sig .tc .vmem S1x128 .f32) (h4 : a4.IsWhole) (a5 : Memref sig .tc .vmem S1x128 .f32) (h5 : a5.IsWhole)
    (hc : cond6_0 i) (x0 : Vec F S5000x64 .f32) (x1 : Vec F S64x128 .f32) :
    out6_A_4 c i a1 h1 a2 h2 a3 h3 a4 h4 a5 h5 hc x0 x1 = k6_pay5 x0 x1 k6_pay2 := by
  unfold out6_A_4
  rw [View.read_writes_eq_canon _ _ _ (cover6_A_4 c i a1 h1 a2 h2 a3 h3 a4 h4 a5 h5 hc x0 x1)]
  unfold kernelRun6_A
  dsimp only
  sl_unfold_words
  rw [View.canon_cons_unit_zero (S := S1x128) hz, View.readCov_unit_zero (S := S1x128) _ hz]
  simp only [View.readAt_eq_ld, h1.read_unread, h2.read_unread, View.ld_unit_zero (S := S5000x64) hz,
    View.ld_unit_zero (S := S64x128) hz]

end Cert.GIN.Reg6

end
-- ==== Proof.Reg6.lean ====
/-
  Region 6 (the second dense layer's product with its batch statistics) at the ideal instance: its three result
  arrays as whole-array functions of the two operand arrays `h` [50000, 64] and `w` [64, 128] the region finds.

  The grid has ten points; point `t` reads rows `5000 t … 5000 t + 4999` of `h` and all of `w`, and writes the
  same rows of the product `z = h · w`: the ten blocks tile the rows (row `r` belongs to point `r / 5000`), so the
  product array ends holding `mm h w`.  The two statistics rows have one block that never moves and is written
  back after the last point only; the first point zeroes them and every point adds its tile's column sums, so
  after point `n` they hold the sums over tiles `0 … n` of the tile's column sums (of `z`, of its squares) — by
  induction on the point — and after the last point the tiled column sums `colSum z`, `colSumSq z`.
-/
import proofs.«177653_j8959301779747_1_alg».proof.Proof.Spec
import proofs.«177653_j8959301779747_1_alg».proof.Proof.Reg6Pay
import proofs.«177653_j8959301779747_1_alg».proof.Proof.Reg6Pieces
import proofs.«177653_j8959301779747_1_alg».proof.Proof.Gen.KernelIdeal.Frame
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.GIN.Reg6
open Cert.KernelIdeal Cert.KernelIdeal.Gen Cert.GIN

/-! ## Tile sums -/

/-- The sum of column `j` over the rows of tile `t` (rows `5000 t` to `5000 t + 4999`); zero past the tenth tile. -/
def tileSum {d : Nat} (z : Mat 50000 d) (t : ℕ) (j : Fin d) : EReal :=
  if h : t < 10 then ∑ p : Fin 5000, z (ix2 ⟨5000 * t + p.val, by omega⟩ j) else 0

/-- The tiled column sum is the sum of the ten tile sums. -/
theorem colSum_eq_range {d : Nat} (z : Mat 50000 d) (i : (⟨2, ![1, d]⟩ : Shape).Idx) :
    colSum z i = ∑ t ∈ Finset.range 10, tileSum z t (i 1) := by
  rw [Finset.sum_range]
  unfold colSum
  refine Finset.sum_congr rfl fun t _ => ?_
  unfold tileSum
  rw [dif_pos t.isLt]

/-! ## The operands and the blocks the points read -/

variable (V : (c : Dev nD) → (b : Ref sig .tc) → Buf (Elt Ideal) ((c : Thread nD τ).loc b)) (c : Dev nD)

/-- The left operand array as the region finds it. -/
abbrev H : Mat 50000 64 := V c (Pipeline.arrRef spec6 0)
/-- The right operand array as the region finds it. -/
abbrev Wt : Mat 64 128 := V c (Pipeline.arrRef spec6 1)
/-- Their product. -/
abbrev Z : Mat 50000 128 := mm (H V c) (Wt V c)
/-- Its entrywise square. -/
abbrev Zsq : Mat 50000 128 := fun i => Z V c i * Z V c i

/-- The printed index maps, decided over the grid: the left operand's and the product's block index is the point
    on the row axis and zero on the column axis; the right operand's and the statistics rows' are zero. -/
theorem idx_facts : ∀ t : Fin cfg6.N,
    win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0 :=
  (by decide +kernel : ∀ t : Fin grid6.N, _)

theorem lt10 (t : Fin cfg6.N) : t.val < 10 := lt_of_lt_of_eq t.isLt (show cfg6.N = 10 from N_6)

/-- Entry `(p, q)` of the left operand's block at point `t` is entry `(5000 t + p, q)` of the array. -/
theorem blk0_apply (t : Fin cfg6.N) (p : Fin 5000) (q : Fin 64) (r : Fin 50000) (hr : r.val = 5000 * t.val + p.val) :
    (iblk6 V c 0 t : Vec Ideal S5000x64 .f32) (ix2 p q) = H V c (ix2 r q) := by
  obtain ⟨e0, e1, -⟩ := idx_facts t
  unfold iblk6
  rw [View.read_apply]
  show V c (Pipeline.arrRef spec6 0) (((cfg6.win 0).blk t).view.emb (ix2 p q)) = V c (Pipeline.arrRef spec6 0) (ix2 r q)
  congr 1
  funext a
  apply Fin.ext
  match a with
  | ⟨0, _⟩ => show win6_0.index t (0 : Fin 2) * 5000 + 1 * p.val = r.val; omega
  | ⟨1, _⟩ => show win6_0.index t (1 : Fin 2) * 64 + 1 * q.val = q.val; omega

/-- The right operand's block at every point is the whole array. -/
theorem blk1_apply (t : Fin cfg6.N) (q : Fin 64) (j : Fin 128) :
    (iblk6 V c 1 t : Vec Ideal S64x128 .f32) (ix2 q j) = Wt V c (ix2 q j) := by
  obtain ⟨-, -, e0, e1, -⟩ := idx_facts t
  unfold iblk6
  rw [View.read_apply]
  show V c (Pipeline.arrRef spec6 1) (((cfg6.win 1).blk t).view.emb (ix2 q j)) = V c (Pipeline.arrRef spec6 1) (ix2 q j)
  congr 1
  funext a
  apply Fin.ext
  match a with
  | ⟨0, _⟩ => show win6_1.index t (0 : Fin 2) * 64 + 1 * q.val = q.val; omega
  | ⟨1, _⟩ => show win6_1.index t (1 : Fin 2) * 128 + 1 * j.val = j.val; omega

/-- So entry `(p, j)` of the product block of point `t` is entry `(5000 t + p, j)` of the product of the arrays. -/
theorem zblk_apply (t : Fin cfg6.N) (p : Fin 5000) (j : Fin 128) (r : Fin 50000) (hr : r.val = 5000 * t.val + p.val) :
    k6_pay3 (F := Ideal) (iblk6 V c 0 t) (iblk6 V c 1 t) (ix2 p j) = Z V c (ix2 r j) := by
  refine (pay3_apply (iblk6 V c 0 t) (iblk6 V c 1 t) p j).trans ?_
  show _ = ∑ q : Fin 64, H V c (ix2 r q) * Wt V c (ix2 q j)
  refine Finset.sum_congr rfl fun q _ => ?_
  rw [blk0_apply V c t p q r hr, blk1_apply V c t q j]

/-- The product block's column `j`, summed over its rows, is tile `t`'s sum of column `j` of the product. -/
theorem zblk_sum (t : Fin cfg6.N) (j : Fin 128) :
    ∑ p : Fin 5000, k6_pay3 (F := Ideal) (iblk6 V c 0 t) (iblk6 V c 1 t) (ix2 p j) = tileSum (Z V c) t.val j := by
  have h10 := lt10 t
  unfold tileSum
  rw [dif_pos h10]
  exact Finset.sum_congr rfl fun p _ => zblk_apply V c t p j ⟨5000 * t.val + p.val, by omega⟩ rfl

/-- Likewise for the squares. -/
theorem zblk_sumsq (t : Fin cfg6.N) (j : Fin 128) :
    ∑ p : Fin 5000, k6_pay3 (F := Ideal) (iblk6 V c 0 t) (iblk6 V c 1 t) (ix2 p j)
        * k6_pay3 (F := Ideal) (iblk6 V c 0 t) (iblk6 V c 1 t) (ix2 p j) = tileSum (Zsq V c) t.val j := by
  have h10 := lt10 t
  unfold tileSum
  rw [dif_pos h10]
  refine Finset.sum_congr rfl fun p _ => ?_
  rw [zblk_apply V c t p j ⟨5000 * t.val + p.val, by omega⟩ rfl]

/-! ## What the outputs' staging buffers hold after each point -/

/-- After a first point: the product block, and the two accumulations from the zero rows. -/
theorem outs_A (t : Fin cfg6.N) (h0 : t.val % 10 = 0) :
    (outsAt6 V c t.val t.isLt).1 = k6_pay3 (F := Ideal) (iblk6 V c 0 t) (iblk6 V c 1 t)
    ∧ (outsAt6 V c t.val t.isLt).2.1 = k6_pay4 (F := Ideal) (iblk6 V c 0 t) (iblk6 V c 1 t) (k6_pay1 (F := Ideal))
    ∧ (outsAt6 V c t.val t.isLt).2.2 = k6_pay5 (F := Ideal) (iblk6 V c 0 t) (iblk6 V c 1 t) (k6_pay2 (F := Ideal)) := by
  rw [outsAt6_A V c t h0]
  dsimp only
  exact ⟨out_A_2 (F := Ideal) c (grid6.coords t) (ms6_0 t) (hs6_0 t) (ms6_1 t) (hs6_1 t) (ms6_2 t) (hs6_2 t) (ms6_3 t) (hs6_3 t) (ms6_4 t) (hs6_4 t) ((hcond6_0 t).mpr h0) (iblk6 V c 0 t) (iblk6 V c 1 t),
    out_A_3 (F := Ideal) c (grid6.coords t) (ms6_0 t) (hs6_0 t) (ms6_1 t) (hs6_1 t) (ms6_2 t) (hs6_2 t) (ms6_3 t) (hs6_3 t) (ms6_4 t) (hs6_4 t) ((hcond6_0 t).mpr h0) (iblk6 V c 0 t) (iblk6 V c 1 t),
    out_A_4 (F := Ideal) c (grid6.coords t) (ms6_0 t) (hs6_0 t) (ms6_1 t) (hs6_1 t) (ms6_2 t) (hs6_2 t) (ms6_3 t) (hs6_3 t) (ms6_4 t) (hs6_4 t) ((hcond6_0 t).mpr h0) (iblk6 V c 0 t) (iblk6 V c 1 t)⟩

/-- After any other point: the product block, and the two accumulations from the rows the point before left. -/
theorem outs_B (t : Fin cfg6.N) (h0 : ¬t.val % 10 = 0) :
    (outsAt6 V c t.val t.isLt).1 = k6_pay3 (F := Ideal) (iblk6 V c 0 t) (iblk6 V c 1 t)
    ∧ (outsAt6 V c t.val t.isLt).2.1 = k6_pay4 (F := Ideal) (iblk6 V c 0 t) (iblk6 V c 1 t)
        (outsAt6 V c (t.val - 1) (Nat.lt_of_le_of_lt (Nat.sub_le _ _) t.isLt)).2.1
    ∧ (outsAt6 V c t.val t.isLt).2.2 = k6_pay5 (F := Ideal) (iblk6 V c 0 t) (iblk6 V c 1 t)
        (outsAt6 V c (t.val - 1) (Nat.lt_of_le_of_lt (Nat.sub_le _ _) t.isLt)).2.2 := by
  rw [outsAt6_B V c t h0]
  dsimp only
  exact ⟨out_B_2 (F := Ideal) c (grid6.coords t) (ms6_0 t) (hs6_0 t) (ms6_1 t) (hs6_1 t) (ms6_2 t) (hs6_2 t) (ms6_3 t) (hs6_3 t) (ms6_4 t) (hs6_4 t) (fun h => h0 ((hcond6_0 t).mp h)) (iblk6 V c 0 t) (iblk6 V c 1 t) _ _,
    out_B_3 (F := Ideal) c (grid6.coords t) (ms6_0 t) (hs6_0 t) (ms6_1 t) (hs6_1 t) (ms6_2 t) (hs6_2 t) (ms6_3 t) (hs6_3 t) (ms6_4 t) (hs6_4 t) (fun h => h0 ((hcond6_0 t).mp h)) (iblk6 V c 0 t) (iblk6 V c 1 t) _ _,
    out_B_4 (F := Ideal) c (grid6.coords t) (ms6_0 t) (hs6_0 t) (ms6_1 t) (hs6_1 t) (ms6_2 t) (hs6_2 t) (ms6_3 t) (hs6_3 t) (ms6_4 t) (hs6_4 t) (fun h => h0 ((hcond6_0 t).mp h)) (iblk6 V c 0 t) (iblk6 V c 1 t) _ _⟩

/-- The product output's buffer after point `t`: the product block of the point. -/
theorem outs_z (t : Fin cfg6.N) :
    (outsAt6 V c t.val t.isLt).1 = k6_pay3 (F := Ideal) (iblk6 V c 0 t) (iblk6 V c 1 t) := by
  by_cases h0 : t.val % 10 = 0
  · exact (outs_A V c t h0).1
  · exact (outs_B V c t h0).1

/-- The statistics rows after point `n`: the sums over tiles `0 … n` of the tile's column sums of the product, and of
    its squares — by induction on the point. -/
theorem outs_acc : ∀ (n : ℕ) (h : n < cfg6.N) (j : Fin 128),
    (outsAt6 V c n h).2.1 (ix2 0 j) = ∑ t ∈ Finset.range (n + 1), tileSum (Z V c) t j
    ∧ (outsAt6 V c n h).2.2 (ix2 0 j) = ∑ t ∈ Finset.range (n + 1), tileSum (Zsq V c) t j
  | 0, h, j => by
    have e1 : (outsAt6 V c 0 h).2.1 = k6_pay4 (F := Ideal) (iblk6 V c 0 ⟨0, h⟩) (iblk6 V c 1 ⟨0, h⟩) (k6_pay1 (F := Ideal)) :=
      (outs_A V c ⟨0, h⟩ rfl).2.1
    have e2 : (outsAt6 V c 0 h).2.2 = k6_pay5 (F := Ideal) (iblk6 V c 0 ⟨0, h⟩) (iblk6 V c 1 ⟨0, h⟩) (k6_pay2 (F := Ideal)) :=
      (outs_A V c ⟨0, h⟩ rfl).2.2
    constructor
    · rw [e1, pay4_apply (iblk6 V c 0 ⟨0, h⟩) (iblk6 V c 1 ⟨0, h⟩) (k6_pay1 (F := Ideal)) j, pay1_apply, zero_add, zblk_sum V c ⟨0, h⟩ j,
        Finset.sum_range_succ, Finset.range_zero, Finset.sum_empty, zero_add]
    · rw [e2, pay5_apply (iblk6 V c 0 ⟨0, h⟩) (iblk6 V c 1 ⟨0, h⟩) (k6_pay2 (F := Ideal)) j, pay2_apply, zero_add, zblk_sumsq V c ⟨0, h⟩ j,
        Finset.sum_range_succ, Finset.range_zero, Finset.sum_empty, zero_add]
  | n + 1, h, j => by
    have hN : cfg6.N = 10 := N_6
    have hB : ¬(⟨n + 1, h⟩ : Fin cfg6.N).val % 10 = 0 := by dsimp only; omega
    have e1 : (outsAt6 V c (n + 1) h).2.1 = k6_pay4 (F := Ideal) (iblk6 V c 0 ⟨n + 1, h⟩) (iblk6 V c 1 ⟨n + 1, h⟩)
        (outsAt6 V c n (Nat.lt_of_succ_lt h)).2.1 := (outs_B V c ⟨n + 1, h⟩ hB).2.1
    have e2 : (outsAt6 V c (n + 1) h).2.2 = k6_pay5 (F := Ideal) (iblk6 V c 0 ⟨n + 1, h⟩) (iblk6 V c 1 ⟨n + 1, h⟩)
        (outsAt6 V c n (Nat.lt_of_succ_lt h)).2.2 := (outs_B V c ⟨n + 1, h⟩ hB).2.2
    have ih := outs_acc n (Nat.lt_of_succ_lt h) j
    constructor
    · rw [e1, pay4_apply (iblk6 V c 0 ⟨n + 1, h⟩) (iblk6 V c 1 ⟨n + 1, h⟩) _ j, zblk_sum V c ⟨n + 1, h⟩ j, Finset.sum_range_succ, ih.1]
    · rw [e2, pay5_apply (iblk6 V c 0 ⟨n + 1, h⟩) (iblk6 V c 1 ⟨n + 1, h⟩) _ j, zblk_sumsq V c ⟨n + 1, h⟩ j, Finset.sum_range_succ, ih.2]

/-! ## The write-backs -/

/-- What point `t` writes back of the product output is block `t` of the product of the arrays. -/
theorem flushed_z (t : Fin cfg6.N) :
    (dat6 V c).flushed 2 t = ((cfg6.win 2).blk t).view.read (Elt Ideal) (Z V c) := by
  obtain ⟨-, -, -, -, e0, e1, -⟩ := idx_facts t
  have h10 := lt10 t
  show (cfg6.win 2).cut (grid6.coords t) ((dat6 V c).after 2 t) = _
  rw [after6_2, outs_z]
  funext y
  obtain ⟨p, j, rfl⟩ : ∃ (p : Fin 5000) (j : Fin 128), y = ix2 p j := ⟨y 0, y 1, eq_ix2 y⟩
  rw [View.read_apply]
  show k6_pay3 (F := Ideal) (iblk6 V c 0 t) (iblk6 V c 1 t) (ix2 p j) = Z V c (((cfg6.win 2).blk t).view.emb (ix2 p j))
  refine (zblk_apply V c t p j ⟨5000 * t.val + p.val, by omega⟩ rfl).trans (congrArg (Z V c) ?_)
  funext a
  apply Fin.ext
  match a with
  | ⟨0, _⟩ => show 5000 * t.val + p.val = win6_2.index t (0 : Fin 2) * 5000 + 1 * p.val; omega
  | ⟨1, _⟩ => show j.val = win6_2.index t (1 : Fin 2) * 128 + 1 * j.val; omega

/-- An index of the product array is in point `t`'s block iff each coordinate is in the block's range. -/
theorem mem_blk_z (t : Fin cfg6.N) (i : S50000x128.Idx) :
    i ∈ ((cfg6.win 2).blk t).view.set ↔ ∀ a : Fin 2, win6_2.index t a * S5000x128.size a ≤ (i a).val
      ∧ (i a).val < win6_2.index t a * S5000x128.size a + S5000x128.size a := by
  show i ∈ ((View.whole main_v82_0).slice (win6_2.rect t)).set ↔ _
  rw [View.set_slice_whole, Rect.mem_set_unit]
  exact Iff.rfl

/-- Every row of the product array is in the block of the point its tile names. -/
theorem cover_z (i : S50000x128.Idx) :
    ∃ t : Fin cfg6.N, (cfg6.win 2).flush t = true ∧ i ∈ ((cfg6.win 2).blk t).view.set := by
  have hN : cfg6.N = 10 := N_6
  have hi0 : (i 0).val < 50000 := (i 0).isLt
  have hi1 : (i 1).val < 128 := (i 1).isLt
  refine ⟨⟨(i 0).val / 5000, by omega⟩, flush6_2 _, ?_⟩
  obtain ⟨-, -, -, -, e0, e1, -⟩ := idx_facts ⟨(i 0).val / 5000, by omega⟩
  rw [mem_blk_z]
  intro a
  match a with
  | ⟨0, _⟩ =>
    show win6_2.index _ (0 : Fin 2) * 5000 ≤ (i 0).val ∧ (i 0).val < win6_2.index _ (0 : Fin 2) * 5000 + 5000
    rw [e0]; dsimp only; omega
  | ⟨1, _⟩ =>
    show win6_2.index _ (1 : Fin 2) * 128 ≤ (i 1).val ∧ (i 1).val < win6_2.index _ (1 : Fin 2) * 128 + 128
    rw [e1]; omega

/-- The product array after the run: the product of the operand arrays. -/
theorem z : (dat6 (F := Ideal) V c).arrAt 2 cfg6.N
    = mm (n := 50000) (k := 64) (d := 128) (V c (Pipeline.arrRef spec6 0)) (V c (Pipeline.arrRef spec6 1)) :=
  (dat6 V c).arrAt_eq_of_cover 2 (Z V c) (fun t _ => flushed_z V c t) cover_z

/-- What the last point writes back of the first statistics row is the tiled column sum of the product. -/
theorem flushed_s (t : Fin cfg6.N) (hf : (cfg6.win 3).flush t = true) :
    (dat6 V c).flushed 3 t = ((cfg6.win 3).blk t).view.read (Elt Ideal) (colSum (Z V c)) := by
  obtain ⟨-, -, -, -, -, -, e0, e1, -⟩ := idx_facts t
  have h9 : t.val = 9 := by have := (flush6_3 t).mp hf; have := lt10 t; omega
  show (cfg6.win 3).cut (grid6.coords t) ((dat6 V c).after 3 t) = _
  rw [after6_3]
  funext y
  obtain ⟨j0, j, rfl⟩ : ∃ (j0 : Fin 1) (j : Fin 128), y = ix2 j0 j := ⟨y 0, y 1, eq_ix2 y⟩
  obtain rfl : j0 = 0 := Subsingleton.elim _ _
  rw [View.read_apply]
  show (outsAt6 V c t.val t.isLt).2.1 (ix2 0 j) = colSum (Z V c) (((cfg6.win 3).blk t).view.emb (ix2 0 j))
  rw [(outs_acc V c t.val t.isLt j).1, colSum_eq_range, h9]
  refine Finset.sum_congr rfl fun t' _ => congrArg (tileSum (Z V c) t') (Fin.ext ?_)
  show j.val = win6_3.index t (1 : Fin 2) * 128 + 1 * j.val
  omega

/-- And of the second, of the product's squares. -/
theorem flushed_ss (t : Fin cfg6.N) (hf : (cfg6.win 4).flush t = true) :
    (dat6 V c).flushed 4 t = ((cfg6.win 4).blk t).view.read (Elt Ideal) (colSumSq (Z V c)) := by
  obtain ⟨-, -, -, -, -, -, -, -, e0, e1⟩ := idx_facts t
  have h9 : t.val = 9 := by have := (flush6_4 t).mp hf; have := lt10 t; omega
  show (cfg6.win 4).cut (grid6.coords t) ((dat6 V c).after 4 t) = _
  rw [after6_4]
  funext y
  obtain ⟨j0, j, rfl⟩ : ∃ (j0 : Fin 1) (j : Fin 128), y = ix2 j0 j := ⟨y 0, y 1, eq_ix2 y⟩
  obtain rfl : j0 = 0 := Subsingleton.elim _ _
  rw [View.read_apply]
  show (outsAt6 V c t.val t.isLt).2.2 (ix2 0 j) = colSum (Zsq V c) (((cfg6.win 4).blk t).view.emb (ix2 0 j))
  rw [(outs_acc V c t.val t.isLt j).2, colSum_eq_range, h9]
  refine Finset.sum_congr rfl fun t' _ => congrArg (tileSum (Zsq V c) t') (Fin.ext ?_)
  show j.val = win6_4.index t (1 : Fin 2) * 128 + 1 * j.val
  omega

/-- The one block of a statistics row is the whole row: the last point's write-back covers it. -/
theorem cover_s (i : S1x128.Idx) :
    ∃ t : Fin cfg6.N, (cfg6.win 3).flush t = true ∧ i ∈ ((cfg6.win 3).blk t).view.set := by
  obtain ⟨-, -, -, -, -, -, e0, e1, -⟩ := idx_facts t6_9
  have h0 : (i 0).val < 1 := (i 0).isLt
  have h1 : (i 1).val < 128 := (i 1).isLt
  refine ⟨t6_9, (flush6_3 t6_9).mpr rfl, ?_⟩
  show i ∈ ((View.whole main_v82_1).slice (win6_3.rect t6_9)).set
  rw [View.set_slice_whole, Rect.mem_set_unit]
  intro a
  match a with
  | ⟨0, _⟩ =>
    show win6_3.index t6_9 (0 : Fin 2) * 1 ≤ (i 0).val ∧ (i 0).val < win6_3.index t6_9 (0 : Fin 2) * 1 + 1
    omega
  | ⟨1, _⟩ =>
    show win6_3.index t6_9 (1 : Fin 2) * 128 ≤ (i 1).val ∧ (i 1).val < win6_3.index t6_9 (1 : Fin 2) * 128 + 128
    omega

theorem cover_ss (i : S1x128.Idx) :
    ∃ t : Fin cfg6.N, (cfg6.win 4).flush t = true ∧ i ∈ ((cfg6.win 4).blk t).view.set := by
  obtain ⟨-, -, -, -, -, -, -, -, e0, e1⟩ := idx_facts t6_9
  have h0 : (i 0).val < 1 := (i 0).isLt
  have h1 : (i 1).val < 128 := (i 1).isLt
  refine ⟨t6_9, (flush6_4 t6_9).mpr rfl, ?_⟩
  show i ∈ ((View.whole main_v82_2).slice (win6_4.rect t6_9)).set
  rw [View.set_slice_whole, Rect.mem_set_unit]
  intro a
  match a with
  | ⟨0, _⟩ =>
    show win6_4.index t6_9 (0 : Fin 2) * 1 ≤ (i 0).val ∧ (i 0).val < win6_4.index t6_9 (0 : Fin 2) * 1 + 1
    omega
  | ⟨1, _⟩ =>
    show win6_4.index t6_9 (1 : Fin 2) * 128 ≤ (i 1).val ∧ (i 1).val < win6_4.index t6_9 (1 : Fin 2) * 128 + 128
    omega

/-- The first statistics array after the run: the tiled column sums of the product. -/
theorem s : (dat6 (F := Ideal) V c).arrAt 3 cfg6.N
    = colSum (mm (n := 50000) (k := 64) (d := 128) (V c (Pipeline.arrRef spec6 0)) (V c (Pipeline.arrRef spec6 1))) :=
  (dat6 V c).arrAt_eq_of_cover 3 (colSum (Z V c)) (flushed_s V c) cover_s

/-- The second: the tiled column sums of its squares. -/
theorem ss : (dat6 (F := Ideal) V c).arrAt 4 cfg6.N
    = colSumSq (mm (n := 50000) (k := 64) (d := 128) (V c (Pipeline.arrRef spec6 0)) (V c (Pipeline.arrRef spec6 1))) :=
  (dat6 V c).arrAt_eq_of_cover 4 (colSumSq (Z V c)) (flushed_ss V c) cover_ss

end Cert.GIN.Reg6

end
-- ==== Proof.Reg7.lean ====
/-
  Region 7: the normalisation-and-rectifier map on a matrix of 50000 rows and 128 columns.

  The region visits ten grid points.  At point `t` it reads rows `5000·t … 5000·t + 4999` of the matrix `z` and the
  whole of the four rows `mean`, `var`, `γ`, `β` (each `[1, 128]`, the same block at every point), and writes the same
  rows of the output.  Entry `(p, q)` of what it writes is
  `max (γ q · (z (5000·t + p, q) − mean q) · rsqrt (var q + eps) + β q) 0`: each row vector is read at column `q` of
  its one row, whatever `p` is.  So the block point `t` writes is block `t` of ONE function of the five arrays,
  `normRelu z mean var γ β eps`, and since the ten blocks cover all 50000 rows (row `r` lies in block `r / 5000`),
  the output array ends holding that function.
-/
import proofs.«177653_j8959301779747_1_alg».proof.Proof.Spec
import proofs.«177653_j8959301779747_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

noncomputable section

namespace Cert.GIN.Reg7

open Cert.KernelIdeal Cert.KernelIdeal.Gen Cert.GIN
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The zero offsets of a block read or written whole. -/
theorem hz : (![0, 0] : Fin 2 → Nat) = fun _ => 0 := funext fun a => by fin_cases a <;> rfl

/-- The body's arithmetic at entry `(p, q)` of a block: the row vectors are read at column `q` of their one row, the
    rectifier's zero word is the number zero. -/
theorem pay_apply (x0 : Vec Ideal S5000x128 .f32) (x1 x2 x3 x4 : Vec Ideal S1x128 .f32) (p : Fin 5000) (q : Fin 128) :
    k7_pay1 x0 x1 x2 x3 x4 (ix2 p q)
      = max (x3 (ix2 0 q) * (x0 (ix2 p q) - x1 (ix2 0 q)) * Ideal.rsqrt (x2 (ix2 0 q) + Ideal.ofBits .f32 0x3727C5AC#32)
          + x4 (ix2 0 q)) 0 := by
  unfold k7_pay1
  simp only [shapeCast_self]
  rw [maximumf_apply, addf_apply, mulf_apply, mulf_apply, subf_apply, broadcast_apply,
    broadcastTo_1b_ab_apply, broadcastTo_1b_ab_apply, broadcastTo_1b_ab_apply, broadcastTo_1b_ab_apply]
  show max (x3 (ix2 0 q) * (x0 (ix2 p q) - x1 (ix2 0 q)) * Ideal.rsqrt (x2 (ix2 0 q) + Ideal.ofBits .f32 0x3727C5AC#32)
      + x4 (ix2 0 q)) (Ideal.ofBits .f32 0x00000000#32) = _
  rw [Ideal.ofBits_zero_f32]

/-- The same at any index of the block. -/
theorem pay_at (x0 : Vec Ideal S5000x128 .f32) (x1 x2 x3 x4 : Vec Ideal S1x128 .f32) (j : S5000x128.Idx) :
    k7_pay1 x0 x1 x2 x3 x4 j
      = max (x3 (ix2 0 (j 1)) * (x0 j - x1 (ix2 0 (j 1))) * Ideal.rsqrt (x2 (ix2 0 (j 1)) + Ideal.ofBits .f32 0x3727C5AC#32)
          + x4 (ix2 0 (j 1))) 0 := by
  obtain ⟨p, q, rfl⟩ : ∃ (p : Fin 5000) (q : Fin 128), j = ix2 p q := ⟨j 0, j 1, eq_ix2 j⟩
  exact pay_apply x0 x1 x2 x3 x4 p q

/-- The block indices, decided over the ten grid points: the matrix and the output move together down the rows, one
    block per point; the four row vectors stay at their one block. -/
theorem idx_facts : ∀ t : Fin cfg7.N,
    win7_5.index t (0 : Fin 2) = t.val ∧ win7_5.index t (1 : Fin 2) = 0
    ∧ win7_0.index t (0 : Fin 2) = t.val ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0 :=
  (by decide +kernel : ∀ t : Fin grid7.N, _)

/-- THE BLOCK EQUATION at a symbolic grid point `t`: the body's arithmetic on the five blocks at `t` is block `t` of
    `normRelu` of the five arrays.  Entry `j` of the block of `z` and of the output sit at the same place of their
    arrays (row `5000·t + j 0`, column `j 1`), and entry `(0, j 1)` of each row vector's one block is entry `(0, j 1)`
    of the row vector. -/
theorem block_eq (t : Fin cfg7.N) (z : Mat 50000 128) (mean var γ β : Mat 1 128) :
    k7_pay1 (((cfg7.win 0).blk t).view.read (Elt Ideal) z) (((cfg7.win 1).blk t).view.read (Elt Ideal) mean)
        (((cfg7.win 2).blk t).view.read (Elt Ideal) var) (((cfg7.win 3).blk t).view.read (Elt Ideal) γ)
        (((cfg7.win 4).blk t).view.read (Elt Ideal) β)
      = ((cfg7.win 5).blk t).view.read (Elt Ideal) (normRelu z mean var γ β (Ideal.ofBits .f32 0x3727C5AC#32)) := by
  obtain ⟨e50, e51, e00, e01, e10, e11, e20, e21, e30, e31, e40, e41⟩ := idx_facts t
  funext j
  refine (pay_at _ _ _ _ _ j).trans ?_
  have h0 : ((cfg7.win 0).blk t).view.emb j = ((cfg7.win 5).blk t).view.emb j := by
    funext a; apply Fin.ext
    match a with
    | ⟨0, _⟩ => show win7_0.index t (0 : Fin 2) * 5000 + 1 * (j 0).val = win7_5.index t (0 : Fin 2) * 5000 + 1 * (j 0).val; rw [e00, e50]
    | ⟨1, _⟩ => show win7_0.index t (1 : Fin 2) * 128 + 1 * (j 1).val = win7_5.index t (1 : Fin 2) * 128 + 1 * (j 1).val; rw [e01, e51]
  have h1 : ((cfg7.win 1).blk t).view.emb (ix2 0 (j 1)) = (ix2 (0 : Fin 1) ((((cfg7.win 5).blk t).view.emb j) 1) : S1x128.Idx) := by
    funext a; apply Fin.ext
    match a with
    | ⟨0, _⟩ => show win7_1.index t (0 : Fin 2) * 1 + 1 * 0 = 0; rw [e10]
    | ⟨1, _⟩ => show win7_1.index t (1 : Fin 2) * 128 + 1 * (j 1).val = win7_5.index t (1 : Fin 2) * 128 + 1 * (j 1).val; rw [e11, e51]
  have h2 : ((cfg7.win 2).blk t).view.emb (ix2 0 (j 1)) = (ix2 (0 : Fin 1) ((((cfg7.win 5).blk t).view.emb j) 1) : S1x128.Idx) := by
    funext a; apply Fin.ext
    match a with
    | ⟨0, _⟩ => show win7_2.index t (0 : Fin 2) * 1 + 1 * 0 = 0; rw [e20]
    | ⟨1, _⟩ => show win7_2.index t (1 : Fin 2) * 128 + 1 * (j 1).val = win7_5.index t (1 : Fin 2) * 128 + 1 * (j 1).val; rw [e21, e51]
  have h3 : ((cfg7.win 3).blk t).view.emb (ix2 0 (j 1)) = (ix2 (0 : Fin 1) ((((cfg7.win 5).blk t).view.emb j) 1) : S1x128.Idx) := by
    funext a; apply Fin.ext
    match a with
    | ⟨0, _⟩ => show win7_3.index t (0 : Fin 2) * 1 + 1 * 0 = 0; rw [e30]
    | ⟨1, _⟩ => show win7_3.index t (1 : Fin 2) * 128 + 1 * (j 1).val = win7_5.index t (1 : Fin 2) * 128 + 1 * (j 1).val; rw [e31, e51]
  have h4 : ((cfg7.win 4).blk t).view.emb (ix2 0 (j 1)) = (ix2 (0 : Fin 1) ((((cfg7.win 5).blk t).view.emb j) 1) : S1x128.Idx) := by
    funext a; apply Fin.ext
    match a with
    | ⟨0, _⟩ => show win7_4.index t (0 : Fin 2) * 1 + 1 * 0 = 0; rw [e40]
    | ⟨1, _⟩ => show win7_4.index t (1 : Fin 2) * 128 + 1 * (j 1).val = win7_5.index t (1 : Fin 2) * 128 + 1 * (j 1).val; rw [e41, e51]
  show max (γ (((cfg7.win 3).blk t).view.emb (ix2 0 (j 1)))
        * (z (((cfg7.win 0).blk t).view.emb j) - mean (((cfg7.win 1).blk t).view.emb (ix2 0 (j 1))))
        * Ideal.rsqrt (var (((cfg7.win 2).blk t).view.emb (ix2 0 (j 1))) + Ideal.ofBits .f32 0x3727C5AC#32)
      + β (((cfg7.win 4).blk t).view.emb (ix2 0 (j 1)))) 0
    = normRelu z mean var γ β (Ideal.ofBits .f32 0x3727C5AC#32) (((cfg7.win 5).blk t).view.emb j)
  rw [h0, h1, h2, h3, h4]
  rfl

/-- An index of the output array is in point `t`'s block iff each coordinate is in the block's range on its axis. -/
theorem mem_blk (t : Fin cfg7.N) (i : S50000x128.Idx) :
    i ∈ ((cfg7.win 5).blk t).view.set ↔ ∀ a : Fin 2, win7_5.index t a * S5000x128.size a ≤ (i a).val
      ∧ (i a).val < win7_5.index t a * S5000x128.size a + S5000x128.size a := by
  show i ∈ ((View.whole main_v95).slice (win7_5.rect t)).set ↔ _
  rw [View.set_slice_whole, Rect.mem_set_unit]
  exact Iff.rfl

/-- THE COVER: row `r` of the output lies in the block of grid point `r / 5000`, which writes its block back. -/
theorem cover (i : S50000x128.Idx) :
    ∃ t : Fin cfg7.N, (cfg7.win 5).flush t = true ∧ i ∈ ((cfg7.win 5).blk t).view.set := by
  have hi0 : (i 0).val < 50000 := (i 0).isLt
  have hi1 : (i 1).val < 128 := (i 1).isLt
  have hN : cfg7.N = 10 := N_7
  have ht : (i 0).val / 5000 < cfg7.N := by rw [hN]; omega
  obtain ⟨e50, e51, -⟩ := idx_facts ⟨(i 0).val / 5000, ht⟩
  refine ⟨⟨(i 0).val / 5000, ht⟩, flush7_5 _, ?_⟩
  rw [mem_blk]
  intro a
  match a with
  | ⟨0, _⟩ =>
    show win7_5.index ⟨(i 0).val / 5000, ht⟩ (0 : Fin 2) * 5000 ≤ (i 0).val
      ∧ (i 0).val < win7_5.index ⟨(i 0).val / 5000, ht⟩ (0 : Fin 2) * 5000 + 5000
    rw [e50]
    show (i 0).val / 5000 * 5000 ≤ (i 0).val ∧ (i 0).val < (i 0).val / 5000 * 5000 + 5000
    omega
  | ⟨1, _⟩ =>
    show win7_5.index ⟨(i 0).val / 5000, ht⟩ (1 : Fin 2) * 128 ≤ (i 1).val
      ∧ (i 1).val < win7_5.index ⟨(i 0).val / 5000, ht⟩ (1 : Fin 2) * 128 + 128
    rw [e51]
    omega

/-- WHAT POINT `t` WRITES BACK is block `t` of `normRelu` of the five arrays as the region finds them: the body's one
    store fills the whole staging buffer with its arithmetic on the five blocks at `t`. -/
theorem flushed_eq (c : Dev nD) (t : Fin cfg7.N) :
    (dat7 (F := Ideal) V c).flushed 5 t = ((cfg7.win 5).blk t).view.read (Elt Ideal)
      (normRelu (n := 50000) (d := 128) (V c (Pipeline.arrRef spec7 0)) (V c (Pipeline.arrRef spec7 1))
        (V c (Pipeline.arrRef spec7 2)) (V c (Pipeline.arrRef spec7 3)) (V c (Pipeline.arrRef spec7 4))
        (Ideal.ofBits .f32 0x3727C5AC#32)) := by
  show (cfg7.win 5).cut (grid7.coords t) ((dat7 (F := Ideal) V c).after 5 t) = _
  rw [after7_5]
  unfold out7_5
  rw [View.canon_unit_zero hz]
  simp only [View.ld_unit_zero (S := S5000x128) hz, View.ld_unit_zero (S := S1x128) hz]
  unfold iblk7
  exact block_eq t (V c (Pipeline.arrRef spec7 0)) (V c (Pipeline.arrRef spec7 1)) (V c (Pipeline.arrRef spec7 2))
    (V c (Pipeline.arrRef spec7 3)) (V c (Pipeline.arrRef spec7 4))

/-- THE OUTPUT ARRAY after the region: `normRelu` of the five arrays as the region finds them. -/
theorem out (c : Dev nD) :
    (dat7 (F := Ideal) V c).arrAt 5 cfg7.N
      = normRelu (n := 50000) (d := 128) (V c (Pipeline.arrRef spec7 0)) (V c (Pipeline.arrRef spec7 1))
          (V c (Pipeline.arrRef spec7 2)) (V c (Pipeline.arrRef spec7 3)) (V c (Pipeline.arrRef spec7 4))
          (Ideal.ofBits .f32 0x3727C5AC#32) :=
  (dat7 (F := Ideal) V c).arrAt_eq_of_cover 5 _ (fun t _ => flushed_eq V c t) cover

end Cert.GIN.Reg7

end
-- ==== Proof.Wire1.lean ====
/-
  The wiring of layer 1: what each input window of regions 4–7 holds when its region is entered.

  Each window's array is either an argument as launched, an earlier region's output array, or the value of the host
  operations that precede the region applied to such arrays; every equation below names which, with the host
  operations written out as the composition the program applies.
-/
import proofs.«177653_j8959301779747_1_alg».proof.Proof.WireKeep
import proofs.«177653_j8959301779747_1_alg».proof.Proof.Wire0

set_option maxRecDepth 16384

noncomputable section

namespace Cert.GIN.K

open Cert.KernelIdeal Cert.KernelIdeal.Gen
open Idealize.ShloMosaic Idealize.ShloMosaic.TcCoe Idealize.ShloMosaic.Tactic
open Idealize.ShloMosaic.Pipeline (Dat Cfg Window cellOf)

variable {F : FTy → Type} [FloatOps F]

variable (m : (ℓ : Loc nD τ sig) → Buf (Elt F) ℓ) (ρ : Dev nD → PrngReg)

/-! ## Region 4 -/

/-- Region 4, input window 0 (the array `main_v49`) at the region's entry: region 3's output array 5, which the host operations in between do not write. -/
theorem wire_4_0 (c : Dev nD) : V9 m ρ c (Pipeline.arrRef spec4 0) = (dat3 (V7 m ρ) c).arrAt 5 cfg3.N :=
  (host4_keep m ρ c main_v49 (by decide)).trans (W8_arr m ρ c 5)

set_option maxHeartbeats 2000000 in
/-- Region 4, input window 1 (the array `main_v59`) at the region's entry: the value the host operations before the region compute for it, written out down to the launch contents of the arguments and the earlier regions' output arrays. -/
theorem wire_4_1 (c : Dev nD) : V9 m ρ c (Pipeline.arrRef spec4 1) =
    (Host.scatterAdd scatter_S50000x128_S800000x1_S800000x128_1_0_0_1 (((broadcastInDim S50000x128 ![] bcast_S_S50000x128 : (⟨S_, .f32⟩ : BufTy).Contents (Elt F) → (⟨S50000x128, .f32⟩ : BufTy).Contents (Elt F)) (constant S_ .f32 0x00000000#32 : (⟨S_, .f32⟩ : BufTy).Contents (Elt F))) : (⟨S50000x128, .f32⟩ : BufTy).Contents (Elt F)) (((broadcastInDim S800000x1 ![0] bcast_S800000_S800000x1_0 : (⟨S800000, .i32⟩ : BufTy).Contents (Elt F) → (⟨S800000x1, .i32⟩ : BufTy).Contents (Elt F)) (shapeCast S800000 (extractStridedSlice S1x800000 ![1, 0] ((m ((c : Thread nD τ).loc main_arg1)) : (⟨S2x800000, .i32⟩ : BufTy).Contents (Elt F)) slices_S2x800000_S1x800000_1_0) shapeCasts_S1x800000_S800000)) : (⟨S800000x1, .i32⟩ : BufTy).Contents (Elt F)) ((Host.gather gather_S50000x128_S800000x1_S800000x128_1_0_n_n_0_1_1128 (((dat3 (V7 m ρ) c).arrAt 5 cfg3.N) : (⟨S50000x128, .f32⟩ : BufTy).Contents (Elt F)) (((broadcastInDim S800000x1 ![0] bcast_S800000_S800000x1_0 : (⟨S800000, .i32⟩ : BufTy).Contents (Elt F) → (⟨S800000x1, .i32⟩ : BufTy).Contents (Elt F)) ((select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) ((cmpi .slt : (⟨S800000, .i32⟩ : BufTy).Contents (Elt F) → (⟨S800000, .i32⟩ : BufTy).Contents (Elt F) → (⟨S800000, .i1⟩ : BufTy).Contents (Elt F)) (shapeCast S800000 (extractStridedSlice S1x800000 ![0, 0] ((m ((c : Thread nD τ).loc main_arg1)) : (⟨S2x800000, .i32⟩ : BufTy).Contents (Elt F)) slices_S2x800000_S1x800000_0_0) shapeCasts_S1x800000_S800000) ((broadcastInDim S800000 ![] bcast_S_S800000 : (⟨S_, .i32⟩ : BufTy).Contents (Elt F) → (⟨S800000, .i32⟩ : BufTy).Contents (Elt F)) (constantI S_ 32 0#32 : (⟨S_, .i32⟩ : BufTy).Contents (Elt F)))) ((addi : (⟨S800000, .i32⟩ : BufTy).Contents (Elt F) → (⟨S800000, .i32⟩ : BufTy).Contents (Elt F) → (⟨S800000, .i32⟩ : BufTy).Contents (Elt F)) (shapeCast S800000 (extractStridedSlice S1x800000 ![0, 0] ((m ((c : Thread nD τ).loc main_arg1)) : (⟨S2x800000, .i32⟩ : BufTy).Contents (Elt F)) slices_S2x800000_S1x800000_0_0) shapeCasts_S1x800000_S800000) ((broadcastInDim S800000 ![] bcast_S_S800000 : (⟨S_, .i32⟩ : BufTy).Contents (Elt F) → (⟨S800000, .i32⟩ : BufTy).Contents (Elt F)) (constantI S_ 32 50000#32 : (⟨S_, .i32⟩ : BufTy).Contents (Elt F)))) (shapeCast S800000 (extractStridedSlice S1x800000 ![0, 0] ((m ((c : Thread nD τ).loc main_arg1)) : (⟨S2x800000, .i32⟩ : BufTy).Contents (Elt F)) slices_S2x800000_S1x800000_0_0) shapeCasts_S1x800000_S800000))) : (⟨S800000x1, .i32⟩ : BufTy).Contents (Elt F))) : (⟨S800000x128, .f32⟩ : BufTy).Contents (Elt F))) := by
  show StableHlo.after hostOps4 (W8 m ρ c) (Proc.devRef .tc main_v59) = _
  after_results
  rw [at_v3_8 m ρ c, wire_v3 m ρ c, (W8_arr m ρ c 5 : W8 m ρ c (Proc.devRef .tc main_v49) = _), at_v1_8 m ρ c, wire_v1 m ρ c]
  all_goals rfl

set_option maxHeartbeats 2000000 in
/-- Region 4, input window 2 (the array `main_v63`) at the region's entry: the value the host operations before the region compute for it, written out down to the launch contents of the arguments and the earlier regions' output arrays. -/
theorem wire_4_2 (c : Dev nD) : V9 m ρ c (Pipeline.arrRef spec4 2) =
    (shapeCast S1x1 ((addf : (⟨S_, .f32⟩ : BufTy).Contents (Elt F) → (⟨S_, .f32⟩ : BufTy).Contents (Elt F) → (⟨S_, .f32⟩ : BufTy).Contents (Elt F)) (constant S_ .f32 0x3F800000#32 : (⟨S_, .f32⟩ : BufTy).Contents (Elt F)) (shapeCast S_ (extractStridedSlice S1 ![1] ((m ((c : Thread nD τ).loc main_arg11)) : (⟨S7, .f32⟩ : BufTy).Contents (Elt F)) slices_S7_S1_1) shapeCasts_S1_S_)) shapeCasts_S_S1x1) := by
  show StableHlo.after hostOps4 (W8 m ρ c) (Proc.devRef .tc main_v63) = _
  after_results
  rw [at_arg11_8 m ρ c]
  all_goals rfl

set_option maxHeartbeats 2000000 in
/-- Region 4, input window 3 (the array `main_v65`) at the region's entry: the value the host operations before the region compute for it, written out down to the launch contents of the arguments and the earlier regions' output arrays. -/
theorem wire_4_3 (c : Dev nD) : V9 m ρ c (Pipeline.arrRef spec4 3) =
    (shapeCast S128x64 (extractStridedSlice S1x128x64 ![1, 0, 0] ((m ((c : Thread nD τ).loc main_arg4)) : (⟨S7x128x64, .f32⟩ : BufTy).Contents (Elt F)) slices_S7x128x64_S1x128x64_1_0_0) shapeCasts_S1x128x64_S128x64) := by
  show StableHlo.after hostOps4 (W8 m ρ c) (Proc.devRef .tc main_v65) = _
  after_results
  rw [at_arg4_8 m ρ c]
  all_goals rfl

/-! ## Region 5 -/

/-- Region 5, input window 0 (the array `main_v66_0`) at the region's entry: region 4's output array 4, which the host operations in between do not write. -/
theorem wire_5_0 (c : Dev nD) : V11 m ρ c (Pipeline.arrRef spec5 0) = (dat4 (V9 m ρ) c).arrAt 4 cfg4.N :=
  (host5_keep m ρ c main_v66_0 (by decide)).trans (W10_arr m ρ c 4)

set_option maxHeartbeats 2000000 in
/-- Region 5, input window 1 (the array `main_v68`) at the region's entry: the value the host operations before the region compute for it, written out down to the launch contents of the arguments and the earlier regions' output arrays. -/
theorem wire_5_1 (c : Dev nD) : V11 m ρ c (Pipeline.arrRef spec5 1) =
    ((Host.divf : (⟨S1x64, .f32⟩ : BufTy).Contents (Elt F) → (⟨S1x64, .f32⟩ : BufTy).Contents (Elt F) → (⟨S1x64, .f32⟩ : BufTy).Contents (Elt F)) ((dat4 (V9 m ρ) c).arrAt 5 cfg4.N) ((broadcastInDim S1x64 ![] bcast_S_S1x64 : (⟨S_, .f32⟩ : BufTy).Contents (Elt F) → (⟨S1x64, .f32⟩ : BufTy).Contents (Elt F)) (constant S_ .f32 0x47435000#32 : (⟨S_, .f32⟩ : BufTy).Contents (Elt F)))) := by
  show StableHlo.after hostOps5 (W10 m ρ c) (Proc.devRef .tc main_v68) = _
  after_results
  rw [(W10_arr m ρ c 5 : W10 m ρ c (Proc.devRef .tc main_v66_1) = _)]
  all_goals rfl

set_option maxHeartbeats 2000000 in
/-- Region 5, input window 2 (the array `main_v72`) at the region's entry: the value the host operations before the region compute for it, written out down to the launch contents of the arguments and the earlier regions' output arrays. -/
theorem wire_5_2 (c : Dev nD) : V11 m ρ c (Pipeline.arrRef spec5 2) =
    ((subf : (⟨S1x64, .f32⟩ : BufTy).Contents (Elt F) → (⟨S1x64, .f32⟩ : BufTy).Contents (Elt F) → (⟨S1x64, .f32⟩ : BufTy).Contents (Elt F)) ((Host.divf : (⟨S1x64, .f32⟩ : BufTy).Contents (Elt F) → (⟨S1x64, .f32⟩ : BufTy).Contents (Elt F) → (⟨S1x64, .f32⟩ : BufTy).Contents (Elt F)) ((dat4 (V9 m ρ) c).arrAt 6 cfg4.N) ((broadcastInDim S1x64 ![] bcast_S_S1x64 : (⟨S_, .f32⟩ : BufTy).Contents (Elt F) → (⟨S1x64, .f32⟩ : BufTy).Contents (Elt F)) (constant S_ .f32 0x47435000#32 : (⟨S_, .f32⟩ : BufTy).Contents (Elt F)))) ((mulf : (⟨S1x64, .f32⟩ : BufTy).Contents (Elt F) → (⟨S1x64, .f32⟩ : BufTy).Contents (Elt F) → (⟨S1x64, .f32⟩ : BufTy).Contents (Elt F)) ((Host.divf : (⟨S1x64, .f32⟩ : BufTy).Contents (Elt F) → (⟨S1x64, .f32⟩ : BufTy).Contents (Elt F) → (⟨S1x64, .f32⟩ : BufTy).Contents (Elt F)) ((dat4 (V9 m ρ) c).arrAt 5 cfg4.N) ((broadcastInDim S1x64 ![] bcast_S_S1x64 : (⟨S_, .f32⟩ : BufTy).Contents (Elt F) → (⟨S1x64, .f32⟩ : BufTy).Contents (Elt F)) (constant S_ .f32 0x47435000#32 : (⟨S_, .f32⟩ : BufTy).Contents (Elt F)))) ((Host.divf : (⟨S1x64, .f32⟩ : BufTy).Contents (Elt F) → (⟨S1x64, .f32⟩ : BufTy).Contents (Elt F) → (⟨S1x64, .f32⟩ : BufTy).Contents (Elt F)) ((dat4 (V9 m ρ) c).arrAt 5 cfg4.N) ((broadcastInDim S1x64 ![] bcast_S_S1x64 : (⟨S_, .f32⟩ : BufTy).Contents (Elt F) → (⟨S1x64, .f32⟩ : BufTy).Contents (Elt F)) (constant S_ .f32 0x47435000#32 : (⟨S_, .f32⟩ : BufTy).Contents (Elt F)))))) := by
  show StableHlo.after hostOps5 (W10 m ρ c) (Proc.devRef .tc main_v72) = _
  after_results
  rw [(W10_arr m ρ c 6 : W10 m ρ c (Proc.devRef .tc main_v66_2) = _), (W10_arr m ρ c 5 : W10 m ρ c (Proc.devRef .tc main_v66_1) = _)]
  all_goals rfl

set_option maxHeartbeats 2000000 in
/-- Region 5, input window 3 (the array `main_v75`) at the region's entry: the value the host operations before the region compute for it, written out down to the launch contents of the arguments and the earlier regions' output arrays. -/
theorem wire_5_3 (c : Dev nD) : V11 m ρ c (Pipeline.arrRef spec5 3) =
    (shapeCast S1x64 (shapeCast S64 (extractStridedSlice S1x64 ![1, 0] ((m ((c : Thread nD τ).loc main_arg5)) : (⟨S7x64, .f32⟩ : BufTy).Contents (Elt F)) slices_S7x64_S1x64_1_0) shapeCasts_S1x64_S64) shapeCasts_S64_S1x64) := by
  show StableHlo.after hostOps5 (W10 m ρ c) (Proc.devRef .tc main_v75) = _
  after_results
  rw [at_arg5_10 m ρ c]
  all_goals rfl

set_option maxHeartbeats 2000000 in
/-- Region 5, input window 4 (the array `main_v78`) at the region's entry: the value the host operations before the region compute for it, written out down to the launch contents of the arguments and the earlier regions' output arrays. -/
theorem wire_5_4 (c : Dev nD) : V11 m ρ c (Pipeline.arrRef spec5 4) =
    (shapeCast S1x64 (shapeCast S64 (extractStridedSlice S1x64 ![1, 0] ((m ((c : Thread nD τ).loc main_arg6)) : (⟨S7x64, .f32⟩ : BufTy).Contents (Elt F)) slices_S7x64_S1x64_1_0) shapeCasts_S1x64_S64) shapeCasts_S64_S1x64) := by
  show StableHlo.after hostOps5 (W10 m ρ c) (Proc.devRef .tc main_v78) = _
  after_results
  rw [at_arg6_10 m ρ c]
  all_goals rfl

/-! ## Region 6 -/

/-- Region 6, input window 0 (the array `main_v79`) at the region's entry: region 5's output array 5, which the host operations in between do not write. -/
theorem wire_6_0 (c : Dev nD) : V13 m ρ c (Pipeline.arrRef spec6 0) = (dat5 (V11 m ρ) c).arrAt 5 cfg5.N :=
  (host6_keep m ρ c main_v79 (by decide)).trans (W12_arr m ρ c 5)

set_option maxHeartbeats 2000000 in
/-- Region 6, input window 1 (the array `main_v81`) at the region's entry: the value the host operations before the region compute for it, written out down to the launch contents of the arguments and the earlier regions' output arrays. -/
theorem wire_6_1 (c : Dev nD) : V13 m ρ c (Pipeline.arrRef spec6 1) =
    (shapeCast S64x128 (extractStridedSlice S1x64x128 ![1, 0, 0] ((m ((c : Thread nD τ).loc main_arg7)) : (⟨S6x64x128, .f32⟩ : BufTy).Contents (Elt F)) slices_S6x64x128_S1x64x128_1_0_0) shapeCasts_S1x64x128_S64x128) := by
  show StableHlo.after hostOps6 (W12 m ρ c) (Proc.devRef .tc main_v81) = _
  after_results
  rw [at_arg7_12 m ρ c]
  all_goals rfl

/-! ## Region 7 -/

/-- Region 7, input window 0 (the array `main_v82_0`) at the region's entry: region 6's output array 2, which the host operations in between do not write. -/
theorem wire_7_0 (c : Dev nD) : V15 m ρ c (Pipeline.arrRef spec7 0) = (dat6 (V13 m ρ) c).arrAt 2 cfg6.N :=
  (host7_keep m ρ c main_v82_0 (by decide)).trans (W14_arr m ρ c 2)

set_option maxHeartbeats 2000000 in
/-- Region 7, input window 1 (the array `main_v84`) at the region's entry: the value the host operations before the region compute for it, written out down to the launch contents of the arguments and the earlier regions' output arrays. -/
theorem wire_7_1 (c : Dev nD) : V15 m ρ c (Pipeline.arrRef spec7 1) =
    ((Host.divf : (⟨S1x128, .f32⟩ : BufTy).Contents (Elt F) → (⟨S1x128, .f32⟩ : BufTy).Contents (Elt F) → (⟨S1x128, .f32⟩ : BufTy).Contents (Elt F)) ((dat6 (V13 m ρ) c).arrAt 3 cfg6.N) ((broadcastInDim S1x128 ![] bcast_S_S1x128 : (⟨S_, .f32⟩ : BufTy).Contents (Elt F) → (⟨S1x128, .f32⟩ : BufTy).Contents (Elt F)) (constant S_ .f32 0x47435000#32 : (⟨S_, .f32⟩ : BufTy).Contents (Elt F)))) := by
  show StableHlo.after hostOps7 (W14 m ρ c) (Proc.devRef .tc main_v84) = _
  after_results
  rw [(W14_arr m ρ c 3 : W14 m ρ c (Proc.devRef .tc main_v82_1) = _)]
  all_goals rfl

set_option maxHeartbeats 2000000 in
/-- Region 7, input window 2 (the array `main_v88`) at the region's entry: the value the host operations before the region compute for it, written out down to the launch contents of the arguments and the earlier regions' output arrays. -/
theorem wire_7_2 (c : Dev nD) : V15 m ρ c (Pipeline.arrRef spec7 2) =
    ((subf : (⟨S1x128, .f32⟩ : BufTy).Contents (Elt F) → (⟨S1x128, .f32⟩ : BufTy).Contents (Elt F) → (⟨S1x128, .f32⟩ : BufTy).Contents (Elt F)) ((Host.divf : (⟨S1x128, .f32⟩ : BufTy).Contents (Elt F) → (⟨S1x128, .f32⟩ : BufTy).Contents (Elt F) → (⟨S1x128, .f32⟩ : BufTy).Contents (Elt F)) ((dat6 (V13 m ρ) c).arrAt 4 cfg6.N) ((broadcastInDim S1x128 ![] bcast_S_S1x128 : (⟨S_, .f32⟩ : BufTy).Contents (Elt F) → (⟨S1x128, .f32⟩ : BufTy).Contents (Elt F)) (constant S_ .f32 0x47435000#32 : (⟨S_, .f32⟩ : BufTy).Contents (Elt F)))) ((mulf : (⟨S1x128, .f32⟩ : BufTy).Contents (Elt F) → (⟨S1x128, .f32⟩ : BufTy).Contents (Elt F) → (⟨S1x128, .f32⟩ : BufTy).Contents (Elt F)) ((Host.divf : (⟨S1x128, .f32⟩ : BufTy).Contents (Elt F) → (⟨S1x128, .f32⟩ : BufTy).Contents (Elt F) → (⟨S1x128, .f32⟩ : BufTy).Contents (Elt F)) ((dat6 (V13 m ρ) c).arrAt 3 cfg6.N) ((broadcastInDim S1x128 ![] bcast_S_S1x128 : (⟨S_, .f32⟩ : BufTy).Contents (Elt F) → (⟨S1x128, .f32⟩ : BufTy).Contents (Elt F)) (constant S_ .f32 0x47435000#32 : (⟨S_, .f32⟩ : BufTy).Contents (Elt F)))) ((Host.divf : (⟨S1x128, .f32⟩ : BufTy).Contents (Elt F) → (⟨S1x128, .f32⟩ : BufTy).Contents (Elt F) → (⟨S1x128, .f32⟩ : BufTy).Contents (Elt F)) ((dat6 (V13 m ρ) c).arrAt 3 cfg6.N) ((broadcastInDim S1x128 ![] bcast_S_S1x128 : (⟨S_, .f32⟩ : BufTy).Contents (Elt F) → (⟨S1x128, .f32⟩ : BufTy).Contents (Elt F)) (constant S_ .f32 0x47435000#32 : (⟨S_, .f32⟩ : BufTy).Contents (Elt F)))))) := by
  show StableHlo.after hostOps7 (W14 m ρ c) (Proc.devRef .tc main_v88) = _
  after_results
  rw [(W14_arr m ρ c 4 : W14 m ρ c (Proc.devRef .tc main_v82_2) = _), (W14_arr m ρ c 3 : W14 m ρ c (Proc.devRef .tc main_v82_1) = _)]
  all_goals rfl

set_option maxHeartbeats 2000000 in
/-- Region 7, input window 3 (the array `main_v91`) at the region's entry: the value the host operations before the region compute for it, written out down to the launch contents of the arguments and the earlier regions' output arrays. -/
theorem wire_7_3 (c : Dev nD) : V15 m ρ c (Pipeline.arrRef spec7 3) =
    (shapeCast S1x128 (shapeCast S128 (extractStridedSlice S1x128 ![1, 0] ((m ((c : Thread nD τ).loc main_arg8)) : (⟨S6x128, .f32⟩ : BufTy).Contents (Elt F)) slices_S6x128_S1x128_1_0) shapeCasts_S1x128_S128) shapeCasts_S128_S1x128) := by
  show StableHlo.after hostOps7 (W14 m ρ c) (Proc.devRef .tc main_v91) = _
  after_results
  rw [at_arg8_14 m ρ c]
  all_goals rfl

set_option maxHeartbeats 2000000 in
/-- Region 7, input window 4 (the array `main_v94`) at the region's entry: the value the host operations before the region compute for it, written out down to the launch contents of the arguments and the earlier regions' output arrays. -/
theorem wire_7_4 (c : Dev nD) : V15 m ρ c (Pipeline.arrRef spec7 4) =
    (shapeCast S1x128 (shapeCast S128 (extractStridedSlice S1x128 ![1, 0] ((m ((c : Thread nD τ).loc main_arg9)) : (⟨S6x128, .f32⟩ : BufTy).Contents (Elt F)) slices_S6x128_S1x128_1_0) shapeCasts_S1x128_S128) shapeCasts_S128_S1x128) := by
  show StableHlo.after hostOps7 (W14 m ρ c) (Proc.devRef .tc main_v94) = _
  after_results
  rw [at_arg9_14 m ρ c]
  all_goals rfl

end Cert.GIN.K

end
-- ==== Proof.KLayer1.lean ====
/-
  Layer 1 of the kernel program at the level of the specification: what its regions leave, as functions of what
  they find.  A normalisation region's output is the batch normalisation of the product region's first output,
  from the column means and uncentred variances the host arithmetic forms out of that region's two statistics rows.
-/
import proofs.«177653_j8959301779747_1_alg».proof.Proof.Reg4
import proofs.«177653_j8959301779747_1_alg».proof.Proof.Reg5
import proofs.«177653_j8959301779747_1_alg».proof.Proof.Reg6
import proofs.«177653_j8959301779747_1_alg».proof.Proof.Reg7
import proofs.«177653_j8959301779747_1_alg».proof.Proof.Wire1
import proofs.«177653_j8959301779747_1_alg».proof.Proof.KGlue

set_option maxRecDepth 16384

noncomputable section

namespace Cert.GIN.K

open Cert.KernelIdeal Cert.KernelIdeal.Gen
open Idealize.ShloMosaic Idealize.ShloMosaic.TcCoe Cert.GIN

variable (m : (ℓ : Loc nD τ sig) → Buf (Elt Ideal) ℓ) (ρ : Dev nD → PrngReg)

set_option maxHeartbeats 4000000 in
/-- The first normalisation of layer 1: batch normalisation (uncentred statistics) of `(sc · x + agg) · w1`. -/
theorem half_L1 (c : Dev nD) : (dat5 (V11 m ρ) c).arrAt 5 cfg5.N
    = bnU (mm (comb (V9 m ρ c (Pipeline.arrRef spec4 2)) (V9 m ρ c (Pipeline.arrRef spec4 0)) (V9 m ρ c (Pipeline.arrRef spec4 1))) (V9 m ρ c (Pipeline.arrRef spec4 3)))
        (V11 m ρ c (Pipeline.arrRef spec5 3)) (V11 m ρ c (Pipeline.arrRef spec5 4)) Nlit (Ideal.ofBits .f32 0x3727C5AC#32) := by
  rw [Reg5.out (V11 m ρ) c, wire_5_0 m ρ c, wire_5_1 m ρ c, wire_5_2 m ρ c]
  rw [varU_of64 _ _ _ (Reg4.s (V9 m ρ) c) (Reg4.ss (V9 m ρ) c), meanU_of64 _ _ (Reg4.s (V9 m ρ) c),
    Reg4.z (V9 m ρ) c]
  rfl

set_option maxHeartbeats 4000000 in
/-- The second normalisation of layer 1: batch normalisation of `h1 · w2`, `h1` the first one's result. -/
theorem full_L1 (c : Dev nD) : (dat7 (V15 m ρ) c).arrAt 5 cfg7.N
    = bnU (mm ((dat5 (V11 m ρ) c).arrAt 5 cfg5.N) (V13 m ρ c (Pipeline.arrRef spec6 1)))
        (V15 m ρ c (Pipeline.arrRef spec7 3)) (V15 m ρ c (Pipeline.arrRef spec7 4)) Nlit (Ideal.ofBits .f32 0x3727C5AC#32) := by
  have hz := Reg6.z (V13 m ρ) c
  have hs := Reg6.s (V13 m ρ) c
  have hss := Reg6.ss (V13 m ρ) c
  rw [wire_6_0 m ρ c] at hz hs hss
  rw [Reg7.out (V15 m ρ) c, wire_7_0 m ρ c, wire_7_1 m ρ c, wire_7_2 m ρ c]
  rw [varU_of128 _ _ _ hs hss, meanU_of128 _ _ hs, hz]
  rfl

end Cert.GIN.K

end
-- ==== Proof.Assemble1.lean ====
/-
  Layer 1 of the first program is layer 1 of the second.

  The layer's output is the uncentred-statistics block of its input, its operands being what the region windows hold
  at entry: the input itself, its neighbour sum along the edge list, the 1×1 cast of `1 + e`, and slices of the
  parameter arrays (the vectors read as one-row matrices).  With the input and the parameters real this is the second
  program's block of the same input and parameters, and real again.
-/
import proofs.«177653_j8959301779747_1_alg».proof.Proof.KLayer1
import proofs.«177653_j8959301779747_1_alg».proof.Proof.AssembleBridge
import proofs.«177653_j8959301779747_1_alg».proof.Proof.RefValueDefs
import proofs.«177653_j8959301779747_1_alg».proof.Proof.Gen.ReferenceIdeal

set_option maxRecDepth 16384

noncomputable section

namespace Cert.GIN.K

open Cert.KernelIdeal Cert.KernelIdeal.Gen
open Idealize.ShloMosaic Idealize.ShloMosaic.TcCoe Cert.GIN

variable (m : (ℓ : Loc nD τ sig) → Buf (Elt Ideal) ℓ) (ρ : Dev nD → PrngReg)

set_option maxHeartbeats 2000000 in
/-- Layer 1: from the layer's input agreeing with the second program's to its output agreeing, and real. -/
theorem step_1 (c : Dev nD)
    (reals : IsReal ((m ((c : Thread nD τ).loc main_arg0)) : FVec Ideal Cert.KernelIdeal.S50000x128 .f32)
      ∧ IsReal ((m ((c : Thread nD τ).loc main_arg4)) : FVec Ideal Cert.KernelIdeal.S7x128x64 .f32)
      ∧ IsReal ((m ((c : Thread nD τ).loc main_arg5)) : FVec Ideal Cert.KernelIdeal.S7x64 .f32)
      ∧ IsReal ((m ((c : Thread nD τ).loc main_arg6)) : FVec Ideal Cert.KernelIdeal.S7x64 .f32)
      ∧ IsReal ((m ((c : Thread nD τ).loc main_arg7)) : FVec Ideal Cert.KernelIdeal.S6x64x128 .f32)
      ∧ IsReal ((m ((c : Thread nD τ).loc main_arg8)) : FVec Ideal Cert.KernelIdeal.S6x128 .f32)
      ∧ IsReal ((m ((c : Thread nD τ).loc main_arg9)) : FVec Ideal Cert.KernelIdeal.S6x128 .f32)
      ∧ IsReal ((m ((c : Thread nD τ).loc main_arg10)) : FVec Ideal Cert.KernelIdeal.S64x2 .f32)
      ∧ IsReal ((m ((c : Thread nD τ).loc main_arg11)) : FVec Ideal Cert.KernelIdeal.S7 .f32)
      ∧ IsReal ((m ((c : Thread nD τ).loc main_arg2)) : FVec Ideal Cert.KernelIdeal.S800000 .f32))
    (hx : ((dat3 (V7 m ρ) c).arrAt 5 cfg3.N) = (Ref.X1 (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg11))))
    (hr : IsReal (Ref.X1 (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg11)))) :
    ((dat7 (V15 m ρ) c).arrAt 5 cfg7.N) = (Ref.X2 (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg11)))
      ∧ IsReal (Ref.X2 (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg11))) := by
  obtain ⟨r0, r4, r5, r6, r7, r8, r9, _, r11, _⟩ := reals
  have rx : IsReal ((dat3 (V7 m ρ) c).arrAt 5 cfg3.N) := by rw [hx]; exact hr
  have hsc : ((V9 m ρ c (Pipeline.arrRef spec4 2)) : Mat 1 1) = shapeCast Cert.KernelIdeal.S1x1
      (addf (F := Ideal) (constant (F := Ideal) Cert.KernelIdeal.S_ .f32 0x3F800000#32) (Ref.e1 (m ((c : Thread nD τ).loc main_arg11))))
      Cert.KernelIdeal.Facts₀.shapeCasts_S_S1x1 := wire_4_2 m ρ c
  have hag : ((V9 m ρ c (Pipeline.arrRef spec4 1)) : Mat 50000 128) = Ref.agg ((dat3 (V7 m ρ) c).arrAt 5 cfg3.N) (Ref.srcOf (m ((c : Thread nD τ).loc main_arg1))) (Ref.dstOf (m ((c : Thread nD τ).loc main_arg1))) :=
    (wire_4_1 m ρ c).trans rfl
  have hγ1 : ((V11 m ρ c (Pipeline.arrRef spec5 3)) : Mat 1 64) = rowV (Ref.g1_1 (m ((c : Thread nD τ).loc main_arg5))) := (wire_5_3 m ρ c).trans (row_cast64 _)
  have hβ1 : ((V11 m ρ c (Pipeline.arrRef spec5 4)) : Mat 1 64) = rowV (Ref.b1_1 (m ((c : Thread nD τ).loc main_arg6))) := (wire_5_4 m ρ c).trans (row_cast64 _)
  have hγ2 : ((V15 m ρ c (Pipeline.arrRef spec7 3)) : Mat 1 128) = rowV (Ref.g2_1 (m ((c : Thread nD τ).loc main_arg8))) := (wire_7_3 m ρ c).trans (row_cast128 _)
  have hβ2 : ((V15 m ρ c (Pipeline.arrRef spec7 4)) : Mat 1 128) = rowV (Ref.b2_1 (m ((c : Thread nD τ).loc main_arg9))) := (wire_7_4 m ρ c).trans (row_cast128 _)
  have re : IsReal (Ref.e1 (m ((c : Thread nD τ).loc main_arg11))) := isReal_cut _ _ _ _ r11
  have rw1 : IsReal (Ref.w1_1 (m ((c : Thread nD τ).loc main_arg4))) := isReal_cut _ _ _ _ r4
  have rg1 : IsReal (Ref.g1_1 (m ((c : Thread nD τ).loc main_arg5))) := isReal_cut _ _ _ _ r5
  have rb1 : IsReal (Ref.b1_1 (m ((c : Thread nD τ).loc main_arg6))) := isReal_cut _ _ _ _ r6
  have rw2 : IsReal (Ref.w2_1 (m ((c : Thread nD τ).loc main_arg7))) := isReal_cut _ _ _ _ r7
  have rg2 : IsReal (Ref.g2_1 (m ((c : Thread nD τ).loc main_arg8))) := isReal_cut _ _ _ _ r8
  have rb2 : IsReal (Ref.b2_1 (m ((c : Thread nD τ).loc main_arg9))) := isReal_cut _ _ _ _ r9
  have key := block_bridge _ _ _ _ _ _ _ _ _ _ _ _ _ _ _ _ hsc hag hγ1 hβ1 hγ2 hβ2 re rx rw1 rg1 rb1 rw2 rg2 rb2
  have h1 : ((dat7 (V15 m ρ) c).arrAt 5 cfg7.N) = Ref.block ((dat3 (V7 m ρ) c).arrAt 5 cfg3.N) (Ref.srcOf (m ((c : Thread nD τ).loc main_arg1))) (Ref.dstOf (m ((c : Thread nD τ).loc main_arg1))) (Ref.e1 (m ((c : Thread nD τ).loc main_arg11)))
        (Ref.w1_1 (m ((c : Thread nD τ).loc main_arg4))) (Ref.g1_1 (m ((c : Thread nD τ).loc main_arg5))) (Ref.b1_1 (m ((c : Thread nD τ).loc main_arg6)))
        (Ref.w2_1 (m ((c : Thread nD τ).loc main_arg7))) (Ref.g2_1 (m ((c : Thread nD τ).loc main_arg8))) (Ref.b2_1 (m ((c : Thread nD τ).loc main_arg9))) := by
    rw [full_L1 m ρ c, half_L1 m ρ c, wire_4_0 m ρ c, wire_4_3 m ρ c, wire_6_1 m ρ c]
    exact key.1
  have h2 : Ref.block ((dat3 (V7 m ρ) c).arrAt 5 cfg3.N) (Ref.srcOf (m ((c : Thread nD τ).loc main_arg1))) (Ref.dstOf (m ((c : Thread nD τ).loc main_arg1))) (Ref.e1 (m ((c : Thread nD τ).loc main_arg11)))
        (Ref.w1_1 (m ((c : Thread nD τ).loc main_arg4))) (Ref.g1_1 (m ((c : Thread nD τ).loc main_arg5))) (Ref.b1_1 (m ((c : Thread nD τ).loc main_arg6)))
        (Ref.w2_1 (m ((c : Thread nD τ).loc main_arg7))) (Ref.g2_1 (m ((c : Thread nD τ).loc main_arg8))) (Ref.b2_1 (m ((c : Thread nD τ).loc main_arg9))) = (Ref.X2 (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg11))) :=
    congrArg (fun X => Ref.block X (Ref.srcOf (m ((c : Thread nD τ).loc main_arg1))) (Ref.dstOf (m ((c : Thread nD τ).loc main_arg1))) (Ref.e1 (m ((c : Thread nD τ).loc main_arg11)))
        (Ref.w1_1 (m ((c : Thread nD τ).loc main_arg4))) (Ref.g1_1 (m ((c : Thread nD τ).loc main_arg5))) (Ref.b1_1 (m ((c : Thread nD τ).loc main_arg6)))
        (Ref.w2_1 (m ((c : Thread nD τ).loc main_arg7))) (Ref.g2_1 (m ((c : Thread nD τ).loc main_arg8))) (Ref.b2_1 (m ((c : Thread nD τ).loc main_arg9)))) hx
  refine ⟨h1.trans h2, ?_⟩
  rw [← h2]
  exact key.2

end Cert.GIN.K

end
-- ==== Proof.Reg8Pieces.lean ====
/-
  What one run of the combine–product–statistics body leaves in its three outputs, as values of what it loaded.

  The body loads the scale, the tile of node features, the tile of neighbour sums and the weights, stores the product
  tile, and stores each statistics row as the row it loaded plus the tile's column sums.  At the first grid point it
  first stores a zero row into each statistics buffer, and the row it then loads is that zero row; at every other point
  the row it loads is what the point before left.  Each output buffer is covered by whole-buffer stores, so its contents
  after the body are the last store's value.
-/
import proofs.«177653_j8959301779747_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.GIN.Reg8

open Cert.KernelIdeal Cert.KernelIdeal.Gen

variable {F : FTy → Type} [FloatOps F]

theorem hz : (![0, 0] : Fin 2 → Nat) = fun _ => 0 := funext fun a => by fin_cases a <;> rfl

/-- A later point leaves the product tile of its blocks. -/
theorem out_B_4 (c : Dev nD) (i : grid8.Coords) (a1 : Memref sig .tc .vmem S5000x128 .f32) (h1 : a1.IsWhole) (a2 : Memref sig .tc .vmem S5000x128 .f32) (h2 : a2.IsWhole) (a3 : Memref sig .tc .vmem S1x1 .f32) (h3 : a3.IsWhole) (a4 : Memref sig .tc .vmem S128x64 .f32) (h4 : a4.IsWhole) (a5 : Memref sig .tc .vmem S5000x64 .f32) (h5 : a5.IsWhole) (a6 : Memref sig .tc .vmem S1x64 .f32) (h6 : a6.IsWhole) (a7 : Memref sig .tc .vmem S1x64 .f32) (h7 : a7.IsWhole) (hc : ¬cond8_0 i) (x0 x1 : Vec F S5000x128 .f32) (x2 : Vec F S1x1 .f32) (x3 : Vec F S128x64 .f32) (xo5 xo6 : Vec F S1x64 .f32) :
    out8_B_4 c i a1 h1 a2 h2 a3 h3 a4 h4 a5 h5 a6 h6 a7 h7 hc x0 x1 x2 x3 xo5 xo6 = k8_pay3 x2 x0 x1 x3 := by
  unfold out8_B_4
  rw [View.read_writes_eq_canon _ _ _ (cover8_B_4 c i a1 h1 a2 h2 a3 h3 a4 h4 a5 h5 a6 h6 a7 h7 hc x0 x1 x2 x3 xo5 xo6)]
  unfold kernelRun8_B
  dsimp only
  sl_unfold_words
  rw [View.canon_unit_zero hz]
  simp only [View.readAt_eq_ld, h1.read_unread, h2.read_unread, h3.read_unread, h4.read_unread, h6.read_unread, h7.read_unread,
    View.ld_unit_zero (S := S5000x128) hz, View.ld_unit_zero (S := S1x1) hz, View.ld_unit_zero (S := S128x64) hz,
    View.ld_unit_zero (S := S1x64) hz]

/-- A later point leaves the column-sum row it found plus its tile's column sums. -/
theorem out_B_5 (c : Dev nD) (i : grid8.Coords) (a1 : Memref sig .tc .vmem S5000x128 .f32) (h1 : a1.IsWhole) (a2 : Memref sig .tc .vmem S5000x128 .f32) (h2 : a2.IsWhole) (a3 : Memref sig .tc .vmem S1x1 .f32) (h3 : a3.IsWhole) (a4 : Memref sig .tc .vmem S128x64 .f32) (h4 : a4.IsWhole) (a5 : Memref sig .tc .vmem S5000x64 .f32) (h5 : a5.IsWhole) (a6 : Memref sig .tc .vmem S1x64 .f32) (h6 : a6.IsWhole) (a7 : Memref sig .tc .vmem S1x64 .f32) (h7 : a7.IsWhole) (hc : ¬cond8_0 i) (x0 x1 : Vec F S5000x128 .f32) (x2 : Vec F S1x1 .f32) (x3 : Vec F S128x64 .f32) (xo5 xo6 : Vec F S1x64 .f32) :
    out8_B_5 c i a1 h1 a2 h2 a3 h3 a4 h4 a5 h5 a6 h6 a7 h7 hc x0 x1 x2 x3 xo5 xo6 = k8_pay4 x2 x0 x1 x3 xo5 := by
  unfold out8_B_5
  rw [View.read_writes_eq_canon _ _ _ (cover8_B_5 c i a1 h1 a2 h2 a3 h3 a4 h4 a5 h5 a6 h6 a7 h7 hc x0 x1 x2 x3 xo5 xo6)]
  unfold kernelRun8_B
  dsimp only
  sl_unfold_words
  rw [View.canon_unit_zero hz]
  simp only [View.readAt_eq_ld, h1.read_unread, h2.read_unread, h3.read_unread, h4.read_unread, h6.read_unread, h7.read_unread,
    View.ld_unit_zero (S := S5000x128) hz, View.ld_unit_zero (S := S1x1) hz, View.ld_unit_zero (S := S128x64) hz,
    View.ld_unit_zero (S := S1x64) hz]

/-- A later point leaves the sum-of-squares row it found plus the column sums of its tile's squares. -/
theorem out_B_6 (c : Dev nD) (i : grid8.Coords) (a1 : Memref sig .tc .vmem S5000x128 .f32) (h1 : a1.IsWhole) (a2 : Memref sig .tc .vmem S5000x128 .f32) (h2 : a2.IsWhole) (a3 : Memref sig .tc .vmem S1x1 .f32) (h3 : a3.IsWhole) (a4 : Memref sig .tc .vmem S128x64 .f32) (h4 : a4.IsWhole) (a5 : Memref sig .tc .vmem S5000x64 .f32) (h5 : a5.IsWhole) (a6 : Memref sig .tc .vmem S1x64 .f32) (h6 : a6.IsWhole) (a7 : Memref sig .tc .vmem S1x64 .f32) (h7 : a7.IsWhole) (hc : ¬cond8_0 i) (x0 x1 : Vec F S5000x128 .f32) (x2 : Vec F S1x1 .f32) (x3 : Vec F S128x64 .f32) (xo5 xo6 : Vec F S1x64 .f32) :
    out8_B_6 c i a1 h1 a2 h2 a3 h3 a4 h4 a5 h5 a6 h6 a7 h7 hc x0 x1 x2 x3 xo5 xo6 = k8_pay5 x2 x0 x1 x3 xo6 := by
  unfold out8_B_6
  rw [View.read_writes_eq_canon _ _ _ (cover8_B_6 c i a1 h1 a2 h2 a3 h3 a4 h4 a5 h5 a6 h6 a7 h7 hc x0 x1 x2 x3 xo5 xo6)]
  unfold kernelRun8_B
  dsimp only
  sl_unfold_words
  rw [View.canon_unit_zero hz]
  simp only [View.readAt_eq_ld, h1.read_unread, h2.read_unread, h3.read_unread, h4.read_unread, h6.read_unread, h7.read_unread,
    View.ld_unit_zero (S := S5000x128) hz, View.ld_unit_zero (S := S1x1) hz, View.ld_unit_zero (S := S128x64) hz,
    View.ld_unit_zero (S := S1x64) hz]

/-- The first point leaves the product tile of its blocks. -/
theorem out_A_4 (c : Dev nD) (i : grid8.Coords) (a1 : Memref sig .tc .vmem S5000x128 .f32) (h1 : a1.IsWhole) (a2 : Memref sig .tc .vmem S5000x128 .f32) (h2 : a2.IsWhole) (a3 : Memref sig .tc .vmem S1x1 .f32) (h3 : a3.IsWhole) (a4 : Memref sig .tc .vmem S128x64 .f32) (h4 : a4.IsWhole) (a5 : Memref sig .tc .vmem S5000x64 .f32) (h5 : a5.IsWhole) (a6 : Memref sig .tc .vmem S1x64 .f32) (h6 : a6.IsWhole) (a7 : Memref sig .tc .vmem S1x64 .f32) (h7 : a7.IsWhole) (hc : cond8_0 i) (x0 x1 : Vec F S5000x128 .f32) (x2 : Vec F S1x1 .f32) (x3 : Vec F S128x64 .f32) :
    out8_A_4 c i a1 h1 a2 h2 a3 h3 a4 h4 a5 h5 a6 h6 a7 h7 hc x0 x1 x2 x3 = k8_pay3 x2 x0 x1 x3 := by
  unfold out8_A_4
  rw [View.read_writes_eq_canon _ _ _ (cover8_A_4 c i a1 h1 a2 h2 a3 h3 a4 h4 a5 h5 a6 h6 a7 h7 hc x0 x1 x2 x3)]
  unfold kernelRun8_A
  dsimp only
  sl_unfold_words
  rw [View.canon_unit_zero hz]
  simp only [View.readAt_eq_ld, h1.read_unread, h2.read_unread, h3.read_unread, h4.read_unread, h6.read_unread, h7.read_unread,
    View.ld_unit_zero (S := S5000x128) hz, View.ld_unit_zero (S := S1x1) hz, View.ld_unit_zero (S := S128x64) hz,
    View.ld_unit_zero (S := S1x64) hz]

/-- The first point leaves the zero row plus its tile's column sums. -/
theorem out_A_5 (c : Dev nD) (i : grid8.Coords) (a1 : Memref sig .tc .vmem S5000x128 .f32) (h1 : a1.IsWhole) (a2 : Memref sig .tc .vmem S5000x128 .f32) (h2 : a2.IsWhole) (a3 : Memref sig .tc .vmem S1x1 .f32) (h3 : a3.IsWhole) (a4 : Memref sig .tc .vmem S128x64 .f32) (h4 : a4.IsWhole) (a5 : Memref sig .tc .vmem S5000x64 .f32) (h5 : a5.IsWhole) (a6 : Memref sig .tc .vmem S1x64 .f32) (h6 : a6.IsWhole) (a7 : Memref sig .tc .vmem S1x64 .f32) (h7 : a7.IsWhole) (hc : cond8_0 i) (x0 x1 : Vec F S5000x128 .f32) (x2 : Vec F S1x1 .f32) (x3 : Vec F S128x64 .f32) :
    out8_A_5 c i a1 h1 a2 h2 a3 h3 a4 h4 a5 h5 a6 h6 a7 h7 hc x0 x1 x2 x3 = k8_pay4 x2 x0 x1 x3 k8_pay1 := by
  unfold out8_A_5
  rw [View.read_writes_eq_canon _ _ _ (cover8_A_5 c i a1 h1 a2 h2 a3 h3 a4 h4 a5 h5 a6 h6 a7 h7 hc x0 x1 x2 x3)]
  unfold kernelRun8_A
  dsimp only
  sl_unfold_words
  rw [View.canon_cons_unit_zero (S := S1x64) hz, View.readCov_unit_zero (S := S1x64) _ hz]
  simp only [View.readAt_eq_ld, h1.read_unread, h2.read_unread, h3.read_unread, h4.read_unread, h6.read_unread, h7.read_unread,
    View.ld_unit_zero (S := S5000x128) hz, View.ld_unit_zero (S := S1x1) hz, View.ld_unit_zero (S := S128x64) hz,
    View.ld_unit_zero (S := S1x64) hz]

/-- The first point leaves the zero row plus the column sums of its tile's squares. -/
theorem out_A_6 (c : Dev nD) (i : grid8.Coords) (a1 : Memref sig .tc .vmem S5000x128 .f32) (h1 : a1.IsWhole) (a2 : Memref sig .tc .vmem S5000x128 .f32) (h2 : a2.IsWhole) (a3 : Memref sig .tc .vmem S1x1 .f32) (h3 : a3.IsWhole) (a4 : Memref sig .tc .vmem S128x64 .f32) (h4 : a4.IsWhole) (a5 : Memref sig .tc .vmem S5000x64 .f32) (h5 : a5.IsWhole) (a6 : Memref sig .tc .vmem S1x64 .f32) (h6 : a6.IsWhole) (a7 : Memref sig .tc .vmem S1x64 .f32) (h7 : a7.IsWhole) (hc : cond8_0 i) (x0 x1 : Vec F S5000x128 .f32) (x2 : Vec F S1x1 .f32) (x3 : Vec F S128x64 .f32) :
    out8_A_6 c i a1 h1 a2 h2 a3 h3 a4 h4 a5 h5 a6 h6 a7 h7 hc x0 x1 x2 x3 = k8_pay5 x2 x0 x1 x3 k8_pay2 := by
  unfold out8_A_6
  rw [View.read_writes_eq_canon _ _ _ (cover8_A_6 c i a1 h1 a2 h2 a3 h3 a4 h4 a5 h5 a6 h6 a7 h7 hc x0 x1 x2 x3)]
  unfold kernelRun8_A
  dsimp only
  sl_unfold_words
  rw [View.canon_cons_unit_zero (S := S1x64) hz, View.readCov_unit_zero (S := S1x64) _ hz]
  simp only [View.readAt_eq_ld, h1.read_unread, h2.read_unread, h3.read_unread, h4.read_unread, h6.read_unread, h7.read_unread,
    View.ld_unit_zero (S := S5000x128) hz, View.ld_unit_zero (S := S1x1) hz, View.ld_unit_zero (S := S128x64) hz,
    View.ld_unit_zero (S := S1x64) hz]

end Cert.GIN.Reg8

end
-- ==== Proof.Reg8Pay.lean ====
/-
  The arithmetic of one grid point of the combine–product–statistics kernel, read at an index over the extended reals.

  At a grid point the body holds a tile of 5000 rows.  It forms `scale · x + agg` entry by entry, multiplies the tile by the
  128×64 weight matrix into a zero accumulator (the narrowing of both operands is the identity on extended reals), and
  adds to each of two 1×64 rows the column sums of the product tile and of its entrywise squares.  The three lemmas below
  read these three stored values at an entry: the product entry `(p, j)` is the sum over `q < 128` of
  `(scale · x(p, q) + agg(p, q)) · w(q, j)`; the statistics rows at `(0, j)` are the carried row plus the sum over the
  tile's 5000 rows of the product entries, respectively of their squares.
-/
import proofs.«177653_j8959301779747_1_alg».proof.Proof.Spec
import proofs.«177653_j8959301779747_1_alg».proof.Proof.LibPlainDot
import proofs.«177653_j8959301779747_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.GIN.Reg8

open Idealize.ShloMosaic Idealize.ShloMosaic.ValueIdx
open Cert.KernelIdeal Cert.KernelIdeal.Gen Cert.GIN

/-- The 1×1 scale spread over a 5000×128 tile reads the scale's one entry everywhere. -/
theorem scale_ix (v : FVec Ideal S1x1 .f32) (p : Fin 5000) (q : Fin 128) :
    broadcastTo S5000x128 v broadcasts_S1x1_S5000x128 (ix2 p q) = v (ix2 0 0) :=
  broadcastTo_apply v broadcasts_S1x1_S5000x128 (ix2 p q) (ix2 0 0) fun a => by
    match a with
    | ⟨0, _⟩ => rfl
    | ⟨1, _⟩ => rfl

/-- The source index of a column reduction of a 5000×64 tile: row `p` over the result's column `j`. -/
theorem lift_ix (j : Fin 64) (p : Fin 5000) :
    reduces_S5000x64_S64.lift (fun a => (ix2 (0 : Fin 1) j) a.succ) p = ix2 p j := by
  funext c
  apply Fin.ext
  match c with
  | ⟨0, _⟩ => rfl
  | ⟨1, _⟩ => rfl

/-- A column reduction of a 5000×64 tile from the zero word, stored as a 1×64 row, reads at `(0, j)` the sum of column
    `j` over the tile's rows. -/
theorem colred_ix (src : FVec Ideal S5000x64 .f32) (j : Fin 64) :
    shapeCast S1x64 (multiReduction (F := Ideal) .add [0] S64 src 0x00000000#32 reduces_S5000x64_S64 (.inl rfl) rfl)
        shapeCasts_S64_S1x64 (ix2 0 j) = ∑ p : Fin 5000, src (ix2 p j) := by
  refine (shapeCast_addUnit_apply ![64] _ shapeCasts_S64_S1x64 (ix2 0 j)).trans ?_
  refine (Ideal.multiReduction_add_single src 0x00000000#32 reduces_S5000x64_S64 (.inl rfl) rfl _).trans ?_
  exact Finset.sum_congr rfl fun p _ => congrArg src (lift_ix j p)

/-- The product tile at `(p, j)`. -/
theorem pay3_ix (v3 : Vec Ideal S1x1 .f32) (v5 v8 : Vec Ideal S5000x128 .f32) (v12 : Vec Ideal S128x64 .f32)
    (p : Fin 5000) (j : Fin 64) :
    k8_pay3 (F := Ideal) v3 v5 v8 v12 (ix2 p j)
      = ∑ q : Fin 128, (v3 (ix2 0 0) * v5 (ix2 p q) + v8 (ix2 p q)) * v12 (ix2 q j) := by
  unfold k8_pay3
  simp only [shapeCast_self]
  refine (Cert.PlainDot.matmul_zero_ix2 dot_S5000x128_S128x64_S5000x64_1_0_0_1_n_n rfl none _ _ p j).trans ?_
  refine Finset.sum_congr rfl fun q _ => ?_
  show (broadcastTo S5000x128 v3 broadcasts_S1x1_S5000x128 (ix2 p q) * v5 (ix2 p q) + v8 (ix2 p q)) * v12 (ix2 q j) = _
  rw [scale_ix v3 p q]

/-- The column-sum row after the point: the carried row plus the tile's column sums. -/
theorem pay4_ix (v3 : Vec Ideal S1x1 .f32) (v5 v8 : Vec Ideal S5000x128 .f32) (v12 : Vec Ideal S128x64 .f32)
    (r : Vec Ideal S1x64 .f32) (j : Fin 64) :
    k8_pay4 (F := Ideal) v3 v5 v8 v12 r (ix2 0 j)
      = r (ix2 0 j) + ∑ p : Fin 5000, k8_pay3 (F := Ideal) v3 v5 v8 v12 (ix2 p j) := by
  unfold k8_pay4
  simp only [shapeCast_self]
  exact congrArg (r (ix2 0 j) + ·) (colred_ix (k8_pay3 (F := Ideal) v3 v5 v8 v12) j)

/-- The sum-of-squares row after the point: the carried row plus the column sums of the tile's squares. -/
theorem pay5_ix (v3 : Vec Ideal S1x1 .f32) (v5 v8 : Vec Ideal S5000x128 .f32) (v12 : Vec Ideal S128x64 .f32)
    (r : Vec Ideal S1x64 .f32) (j : Fin 64) :
    k8_pay5 (F := Ideal) v3 v5 v8 v12 r (ix2 0 j)
      = r (ix2 0 j) + ∑ p : Fin 5000, k8_pay3 (F := Ideal) v3 v5 v8 v12 (ix2 p j) * k8_pay3 (F := Ideal) v3 v5 v8 v12 (ix2 p j) := by
  unfold k8_pay5
  simp only [shapeCast_self]
  exact congrArg (r (ix2 0 j) + ·)
    (colred_ix (mulf (k8_pay3 (F := Ideal) v3 v5 v8 v12) (k8_pay3 (F := Ideal) v3 v5 v8 v12)) j)

/-- The two rows the first point stores before accumulating are zero. -/
theorem pay1_ix (j : Fin 64) : k8_pay1 (F := Ideal) (ix2 0 j) = 0 := by
  unfold k8_pay1
  exact Ideal.ofBits_zero_f32

theorem pay2_ix (j : Fin 64) : k8_pay2 (F := Ideal) (ix2 0 j) = 0 := by
  unfold k8_pay2
  exact Ideal.ofBits_zero_f32

end Cert.GIN.Reg8

end
-- ==== Proof.Reg8.lean ====
/-
  The value of the combine–product–statistics region, as whole-array functions of what the region finds.

  The grid has ten points; point `t` holds rows `5000 t … 5000 t + 4999` of the node features `x` and of the neighbour
  sums `agg`, the whole 1×1 scale and the whole 128×64 weight matrix.  Every point stores the tile
  `(scale · x + agg) · w` of its rows as block `t` of the product array, so that array ends as the product itself: row `r`
  is written by point `r / 5000`.  The two statistics rows have one block that never moves: point 0 zeroes them, every
  point adds its tile's column sums (of the entries, and of their squares), and the rows are written back after the last
  point only.  By induction on the point they hold, after point `n`, the sum over tiles `0 … n` of the tile's column
  sums; after point 9 that is the tiled column sum of the specification.
-/
import proofs.«177653_j8959301779747_1_alg».proof.Proof.Spec
import proofs.«177653_j8959301779747_1_alg».proof.Proof.LibPlainDot
import proofs.«177653_j8959301779747_1_alg».proof.Proof.Gen.KernelIdeal.Frame
import proofs.«177653_j8959301779747_1_alg».proof.Proof.Reg8Pieces
import proofs.«177653_j8959301779747_1_alg».proof.Proof.Reg8Pay
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.ShloMosaic.ValueIdx Idealize.SL.Sem
open Idealize.ShloMosaic.Pipeline (Dat)

namespace Cert.GIN.Reg8

open Cert.KernelIdeal Cert.KernelIdeal.Gen Cert.GIN

variable (V : (c : Dev nD) → (b : Ref sig .tc) → Buf (Elt Ideal) ((c : Thread nD τ).loc b)) (c : Dev nD)

/-- The node features, the neighbour sums, the scale and the weights as the region finds them, as matrices. -/
abbrev Xx : Mat 50000 128 := V c (Pipeline.arrRef spec8 0)
abbrev Xa : Mat 50000 128 := V c (Pipeline.arrRef spec8 1)
abbrev Xs : Mat 1 1 := V c (Pipeline.arrRef spec8 2)
abbrev Xw : Mat 128 64 := V c (Pipeline.arrRef spec8 3)
/-- The product the region computes. -/
abbrev Z : Mat 50000 64 := mm (comb (Xs V c) (Xx V c) (Xa V c)) (Xw V c)

/-- The block index maps over the grid: the row-tiled windows move with the point along the rows, the others stay. -/
theorem idx_facts : ∀ t : Fin cfg8.N,
    win8_0.index t (0 : Fin 2) = t.val ∧ win8_0.index t (1 : Fin 2) = 0
  ∧ win8_1.index t (0 : Fin 2) = t.val ∧ win8_1.index t (1 : Fin 2) = 0
  ∧ win8_2.index t (0 : Fin 2) = 0 ∧ win8_2.index t (1 : Fin 2) = 0
  ∧ win8_3.index t (0 : Fin 2) = 0 ∧ win8_3.index t (1 : Fin 2) = 0
  ∧ win8_4.index t (0 : Fin 2) = t.val ∧ win8_4.index t (1 : Fin 2) = 0
  ∧ win8_5.index t (0 : Fin 2) = 0 ∧ win8_5.index t (1 : Fin 2) = 0
  ∧ win8_6.index t (0 : Fin 2) = 0 ∧ win8_6.index t (1 : Fin 2) = 0 :=
  (by decide +kernel : ∀ t : Fin grid8.N, _)

theorem lt_ten (t : Fin cfg8.N) : t.val < 10 := by
  have h : t.val < grid8.N := t.isLt
  rw [N_8] at h; exact h

/-! ## The input blocks, read at an entry -/

theorem blk0_ix (t : Fin cfg8.N) (p : Fin 5000) (q : Fin 128) (h : 5000 * t.val + p.val < 50000) :
    (iblk8 V c 0 t : Vec Ideal S5000x128 .f32) (ix2 p q) = Xx V c (ix2 ⟨5000 * t.val + p.val, h⟩ q) := by
  obtain ⟨e0, e1, -⟩ := idx_facts t
  unfold iblk8
  rw [View.read_apply]
  show V c (Pipeline.arrRef spec8 0) _ = V c (Pipeline.arrRef spec8 0) _
  congr 1
  funext a
  apply Fin.ext
  match a with
  | ⟨0, _⟩ => show win8_0.index t 0 * 5000 + 1 * p.val = 5000 * t.val + p.val; rw [e0]; omega
  | ⟨1, _⟩ => show win8_0.index t 1 * 128 + 1 * q.val = q.val; rw [e1]; omega

theorem blk1_ix (t : Fin cfg8.N) (p : Fin 5000) (q : Fin 128) (h : 5000 * t.val + p.val < 50000) :
    (iblk8 V c 1 t : Vec Ideal S5000x128 .f32) (ix2 p q) = Xa V c (ix2 ⟨5000 * t.val + p.val, h⟩ q) := by
  obtain ⟨-, -, e0, e1, -⟩ := idx_facts t
  unfold iblk8
  rw [View.read_apply]
  show V c (Pipeline.arrRef spec8 1) _ = V c (Pipeline.arrRef spec8 1) _
  congr 1
  funext a
  apply Fin.ext
  match a with
  | ⟨0, _⟩ => show win8_1.index t 0 * 5000 + 1 * p.val = 5000 * t.val + p.val; rw [e0]; omega
  | ⟨1, _⟩ => show win8_1.index t 1 * 128 + 1 * q.val = q.val; rw [e1]; omega

theorem blk2_ix (t : Fin cfg8.N) :
    (iblk8 V c 2 t : Vec Ideal S1x1 .f32) (ix2 0 0) = Xs V c (ix2 0 0) := by
  obtain ⟨-, -, -, -, e0, e1, -⟩ := idx_facts t
  unfold iblk8
  rw [View.read_apply]
  show V c (Pipeline.arrRef spec8 2) _ = V c (Pipeline.arrRef spec8 2) _
  congr 1
  funext a
  apply Fin.ext
  match a with
  | ⟨0, _⟩ => show win8_2.index t 0 * 1 + 1 * 0 = 0; rw [e0]
  | ⟨1, _⟩ => show win8_2.index t 1 * 1 + 1 * 0 = 0; rw [e1]

theorem blk3_ix (t : Fin cfg8.N) (q : Fin 128) (j : Fin 64) :
    (iblk8 V c 3 t : Vec Ideal S128x64 .f32) (ix2 q j) = Xw V c (ix2 q j) := by
  obtain ⟨-, -, -, -, -, -, e0, e1, -⟩ := idx_facts t
  unfold iblk8
  rw [View.read_apply]
  show V c (Pipeline.arrRef spec8 3) _ = V c (Pipeline.arrRef spec8 3) _
  congr 1
  funext a
  apply Fin.ext
  match a with
  | ⟨0, _⟩ => show win8_3.index t 0 * 128 + 1 * q.val = q.val; rw [e0]; omega
  | ⟨1, _⟩ => show win8_3.index t 1 * 64 + 1 * j.val = j.val; rw [e1]; omega

/-! ## The product tile of a point is the point's rows of the product -/

/-- The product tile point `t` computes from its blocks. -/
abbrev tile (t : Fin cfg8.N) : Vec Ideal S5000x64 .f32 :=
  k8_pay3 (F := Ideal) (iblk8 V c 2 t) (iblk8 V c 0 t) (iblk8 V c 1 t) (iblk8 V c 3 t)

theorem tile_ix (t : Fin cfg8.N) (p : Fin 5000) (j : Fin 64) (h : 5000 * t.val + p.val < 50000) :
    tile V c t (ix2 p j) = Z V c (ix2 ⟨5000 * t.val + p.val, h⟩ j) := by
  refine (pay3_ix (iblk8 V c 2 t) (iblk8 V c 0 t) (iblk8 V c 1 t) (iblk8 V c 3 t) p j).trans ?_
  show _ = ∑ q : Fin 128, (Xs V c (ix2 0 0) * Xx V c (ix2 ⟨5000 * t.val + p.val, h⟩ q) + Xa V c (ix2 ⟨5000 * t.val + p.val, h⟩ q)) * Xw V c (ix2 q j)
  refine Finset.sum_congr rfl fun q _ => ?_
  rw [blk0_ix V c t p q h, blk1_ix V c t p q h, blk2_ix V c t, blk3_ix V c t q j]

/-- Every point, first or not, leaves its product tile in the product's block. -/
theorem outs4 (t : Fin cfg8.N) : (outsAt8 V c t.val t.isLt).1 = tile V c t := by
  by_cases h0 : t.val % 10 = 0
  · rw [outsAt8_A V c t h0]
    dsimp only
    exact out_A_4 (F := Ideal) c (grid8.coords t) (ms8_0 t) (hs8_0 t) (ms8_1 t) (hs8_1 t) (ms8_2 t) (hs8_2 t) (ms8_3 t) (hs8_3 t) (ms8_4 t) (hs8_4 t) (ms8_5 t) (hs8_5 t) (ms8_6 t) (hs8_6 t) ((hcond8_0 t).mpr h0) (iblk8 V c 0 t) (iblk8 V c 1 t) (iblk8 V c 2 t) (iblk8 V c 3 t)
  · rw [outsAt8_B V c t h0]
    dsimp only
    exact out_B_4 (F := Ideal) c (grid8.coords t) (ms8_0 t) (hs8_0 t) (ms8_1 t) (hs8_1 t) (ms8_2 t) (hs8_2 t) (ms8_3 t) (hs8_3 t) (ms8_4 t) (hs8_4 t) (ms8_5 t) (hs8_5 t) (ms8_6 t) (hs8_6 t) (fun h => h0 ((hcond8_0 t).mp h)) (iblk8 V c 0 t) (iblk8 V c 1 t) (iblk8 V c 2 t) (iblk8 V c 3 t) (outsAt8 V c (t.val - 1) (Nat.lt_of_le_of_lt (Nat.sub_le _ _) t.isLt)).2.1 (outsAt8 V c (t.val - 1) (Nat.lt_of_le_of_lt (Nat.sub_le _ _) t.isLt)).2.2

/-! ## The statistics rows after each point -/

/-- Column `j` of `z` summed over the rows of tile `t` (zero past the tenth tile). -/
def tsum (z : Mat 50000 64) (j : Fin 64) (t : ℕ) : EReal :=
  if h : t < 10 then ∑ p : Fin 5000, z (ix2 ⟨5000 * t + p.val, by have := p.isLt; omega⟩ j) else 0

/-- The tiled column sum of the specification is the sum of the ten tile sums. -/
theorem colSum_eq (z : Mat 50000 64) (j : Fin 64) : colSum z (ix2 0 j) = ∑ t ∈ Finset.range 10, tsum z j t := by
  rw [Finset.sum_range]
  unfold colSum
  refine Finset.sum_congr rfl fun t _ => ?_
  unfold tsum
  rw [dif_pos t.isLt]

theorem tile_sum (t : Fin cfg8.N) (j : Fin 64) :
    ∑ p : Fin 5000, tile V c t (ix2 p j) = tsum (Z V c) j t.val := by
  have ht := lt_ten t
  unfold tsum
  rw [dif_pos ht]
  exact Finset.sum_congr rfl fun p _ => tile_ix V c t p j _

theorem tile_sumsq (t : Fin cfg8.N) (j : Fin 64) :
    ∑ p : Fin 5000, tile V c t (ix2 p j) * tile V c t (ix2 p j) = tsum (fun i => Z V c i * Z V c i) j t.val := by
  have ht := lt_ten t
  unfold tsum
  rw [dif_pos ht]
  exact Finset.sum_congr rfl fun p _ => by rw [tile_ix V c t p j _]

/-- At the first point the rows are zeroed and then hold the first tile's sums. -/
theorem s_first (t : Fin cfg8.N) (h0 : t.val % 10 = 0) (j : Fin 64) :
    (outsAt8 V c t.val t.isLt).2.1 (ix2 0 j) = tsum (Z V c) j t.val
  ∧ (outsAt8 V c t.val t.isLt).2.2 (ix2 0 j) = tsum (fun i => Z V c i * Z V c i) j t.val := by
  have e5 : (outsAt8 V c t.val t.isLt).2.1 = k8_pay4 (F := Ideal) (iblk8 V c 2 t) (iblk8 V c 0 t) (iblk8 V c 1 t) (iblk8 V c 3 t) (k8_pay1 (F := Ideal)) := by
    rw [outsAt8_A V c t h0]
    dsimp only
    exact out_A_5 (F := Ideal) c (grid8.coords t) (ms8_0 t) (hs8_0 t) (ms8_1 t) (hs8_1 t) (ms8_2 t) (hs8_2 t) (ms8_3 t) (hs8_3 t) (ms8_4 t) (hs8_4 t) (ms8_5 t) (hs8_5 t) (ms8_6 t) (hs8_6 t) ((hcond8_0 t).mpr h0) (iblk8 V c 0 t) (iblk8 V c 1 t) (iblk8 V c 2 t) (iblk8 V c 3 t)
  have e6 : (outsAt8 V c t.val t.isLt).2.2 = k8_pay5 (F := Ideal) (iblk8 V c 2 t) (iblk8 V c 0 t) (iblk8 V c 1 t) (iblk8 V c 3 t) (k8_pay2 (F := Ideal)) := by
    rw [outsAt8_A V c t h0]
    dsimp only
    exact out_A_6 (F := Ideal) c (grid8.coords t) (ms8_0 t) (hs8_0 t) (ms8_1 t) (hs8_1 t) (ms8_2 t) (hs8_2 t) (ms8_3 t) (hs8_3 t) (ms8_4 t) (hs8_4 t) (ms8_5 t) (hs8_5 t) (ms8_6 t) (hs8_6 t) ((hcond8_0 t).mpr h0) (iblk8 V c 0 t) (iblk8 V c 1 t) (iblk8 V c 2 t) (iblk8 V c 3 t)
  constructor
  · refine (congrFun e5 (ix2 0 j)).trans ((pay4_ix (iblk8 V c 2 t) (iblk8 V c 0 t) (iblk8 V c 1 t) (iblk8 V c 3 t) (k8_pay1 (F := Ideal)) j).trans ?_)
    rw [pay1_ix, zero_add]
    exact tile_sum V c t j
  · refine (congrFun e6 (ix2 0 j)).trans ((pay5_ix (iblk8 V c 2 t) (iblk8 V c 0 t) (iblk8 V c 1 t) (iblk8 V c 3 t) (k8_pay2 (F := Ideal)) j).trans ?_)
    rw [pay2_ix, zero_add]
    exact tile_sumsq V c t j

/-- At a later point the rows hold what the point before left plus the point's tile sums. -/
theorem s_next (t : Fin cfg8.N) (h0 : ¬t.val % 10 = 0) (j : Fin 64) :
    (outsAt8 V c t.val t.isLt).2.1 (ix2 0 j) = (outsAt8 V c (t.val - 1) (Nat.lt_of_le_of_lt (Nat.sub_le _ _) t.isLt)).2.1 (ix2 0 j) + tsum (Z V c) j t.val
  ∧ (outsAt8 V c t.val t.isLt).2.2 (ix2 0 j) = (outsAt8 V c (t.val - 1) (Nat.lt_of_le_of_lt (Nat.sub_le _ _) t.isLt)).2.2 (ix2 0 j) + tsum (fun i => Z V c i * Z V c i) j t.val := by
  have e5 : (outsAt8 V c t.val t.isLt).2.1 = k8_pay4 (F := Ideal) (iblk8 V c 2 t) (iblk8 V c 0 t) (iblk8 V c 1 t) (iblk8 V c 3 t) (outsAt8 V c (t.val - 1) (Nat.lt_of_le_of_lt (Nat.sub_le _ _) t.isLt)).2.1 := by
    rw [outsAt8_B V c t h0]
    dsimp only
    exact out_B_5 (F := Ideal) c (grid8.coords t) (ms8_0 t) (hs8_0 t) (ms8_1 t) (hs8_1 t) (ms8_2 t) (hs8_2 t) (ms8_3 t) (hs8_3 t) (ms8_4 t) (hs8_4 t) (ms8_5 t) (hs8_5 t) (ms8_6 t) (hs8_6 t) (fun h => h0 ((hcond8_0 t).mp h)) (iblk8 V c 0 t) (iblk8 V c 1 t) (iblk8 V c 2 t) (iblk8 V c 3 t) (outsAt8 V c (t.val - 1) (Nat.lt_of_le_of_lt (Nat.sub_le _ _) t.isLt)).2.1 (outsAt8 V c (t.val - 1) (Nat.lt_of_le_of_lt (Nat.sub_le _ _) t.isLt)).2.2
  have e6 : (outsAt8 V c t.val t.isLt).2.2 = k8_pay5 (F := Ideal) (iblk8 V c 2 t) (iblk8 V c 0 t) (iblk8 V c 1 t) (iblk8 V c 3 t) (outsAt8 V c (t.val - 1) (Nat.lt_of_le_of_lt (Nat.sub_le _ _) t.isLt)).2.2 := by
    rw [outsAt8_B V c t h0]
    dsimp only
    exact out_B_6 (F := Ideal) c (grid8.coords t) (ms8_0 t) (hs8_0 t) (ms8_1 t) (hs8_1 t) (ms8_2 t) (hs8_2 t) (ms8_3 t) (hs8_3 t) (ms8_4 t) (hs8_4 t) (ms8_5 t) (hs8_5 t) (ms8_6 t) (hs8_6 t) (fun h => h0 ((hcond8_0 t).mp h)) (iblk8 V c 0 t) (iblk8 V c 1 t) (iblk8 V c 2 t) (iblk8 V c 3 t) (outsAt8 V c (t.val - 1) (Nat.lt_of_le_of_lt (Nat.sub_le _ _) t.isLt)).2.1 (outsAt8 V c (t.val - 1) (Nat.lt_of_le_of_lt (Nat.sub_le _ _) t.isLt)).2.2
  constructor
  · refine (congrFun e5 (ix2 0 j)).trans ((pay4_ix (iblk8 V c 2 t) (iblk8 V c 0 t) (iblk8 V c 1 t) (iblk8 V c 3 t) (outsAt8 V c (t.val - 1) (Nat.lt_of_le_of_lt (Nat.sub_le _ _) t.isLt)).2.1 j).trans ?_)
    rw [tile_sum V c t j]
  · refine (congrFun e6 (ix2 0 j)).trans ((pay5_ix (iblk8 V c 2 t) (iblk8 V c 0 t) (iblk8 V c 1 t) (iblk8 V c 3 t) (outsAt8 V c (t.val - 1) (Nat.lt_of_le_of_lt (Nat.sub_le _ _) t.isLt)).2.2 j).trans ?_)
    rw [tile_sumsq V c t j]

/-- After point `n` the rows hold the sums over tiles `0 … n`. -/
theorem stats_inv : ∀ (n : ℕ) (h : n < cfg8.N) (j : Fin 64),
    (outsAt8 V c n h).2.1 (ix2 0 j) = ∑ t ∈ Finset.range (n + 1), tsum (Z V c) j t
  ∧ (outsAt8 V c n h).2.2 (ix2 0 j) = ∑ t ∈ Finset.range (n + 1), tsum (fun i => Z V c i * Z V c i) j t
  | 0, h, j => by
    have e := s_first V c ⟨0, h⟩ rfl j
    rw [Finset.sum_range_one, Finset.sum_range_one]
    exact e
  | n + 1, h, j => by
    have hn : n + 1 < 10 := lt_ten ⟨n + 1, h⟩
    have hB : ¬(⟨n + 1, h⟩ : Fin cfg8.N).val % 10 = 0 := by dsimp only; omega
    have e := s_next V c ⟨n + 1, h⟩ hB j
    have ih := stats_inv n (Nat.lt_of_succ_lt h) j
    rw [Finset.sum_range_succ (fun t => tsum (Z V c) j t) (n + 1),
      Finset.sum_range_succ (fun t => tsum (fun i => Z V c i * Z V c i) j t) (n + 1), ← ih.1, ← ih.2]
    exact e

/-- After the last point the rows are the specification's tiled column sums. -/
theorem stats_last (h : 9 < cfg8.N) :
    (outsAt8 V c 9 h).2.1 = colSum (Z V c) ∧ (outsAt8 V c 9 h).2.2 = colSumSq (Z V c) := by
  constructor
  · funext y
    obtain ⟨i, j, rfl⟩ : ∃ (i : Fin 1) (j : Fin 64), y = ix2 i j := ⟨y 0, y 1, eq_ix2 y⟩
    obtain rfl : i = 0 := Subsingleton.elim _ _
    rw [colSum_eq]
    exact (stats_inv V c 9 h j).1
  · funext y
    obtain ⟨i, j, rfl⟩ : ∃ (i : Fin 1) (j : Fin 64), y = ix2 i j := ⟨y 0, y 1, eq_ix2 y⟩
    obtain rfl : i = 0 := Subsingleton.elim _ _
    show _ = colSum (fun i => Z V c i * Z V c i) (ix2 0 j)
    rw [colSum_eq]
    exact (stats_inv V c 9 h j).2

/-! ## From the blocks to the arrays -/

/-- Point `t` writes back block `t` of the product. -/
theorem flushed4 (t : Fin cfg8.N) :
    (dat8 V c).flushed 4 t = ((cfg8.win 4).blk t).view.read (Elt Ideal) (Z V c) := by
  obtain ⟨-, -, -, -, -, -, -, -, e0, e1, -⟩ := idx_facts t
  have ht := lt_ten t
  show (cfg8.win 4).cut (grid8.coords t) ((dat8 V c).after 4 t) = _
  rw [after8_4, outs4]
  funext y
  obtain ⟨p, j, rfl⟩ : ∃ (p : Fin 5000) (j : Fin 64), y = ix2 p j := ⟨y 0, y 1, eq_ix2 y⟩
  rw [View.read_apply]
  show tile V c t (ix2 p j) = Z V c (((cfg8.win 4).blk t).view.emb (ix2 p j))
  rw [tile_ix V c t p j (by have := p.isLt; omega)]
  congr 1
  funext a
  apply Fin.ext
  match a with
  | ⟨0, _⟩ => show 5000 * t.val + p.val = win8_4.index t 0 * 5000 + 1 * p.val; rw [e0]; omega
  | ⟨1, _⟩ => show j.val = win8_4.index t 1 * 64 + 1 * j.val; rw [e1]; omega

/-- Row `r` of the product lies in the block of point `r / 5000`. -/
theorem cover4 (i : S50000x64.Idx) :
    ∃ t : Fin cfg8.N, (cfg8.win 4).flush t = true ∧ i ∈ ((cfg8.win 4).blk t).view.set := by
  have hi0 : (i 0).val < 50000 := (i 0).isLt
  have hi1 : (i 1).val < 64 := (i 1).isLt
  have hN : grid8.N = 10 := N_8
  let t : Fin cfg8.N := ⟨(i 0).val / 5000, by show _ < grid8.N; rw [hN]; omega⟩
  obtain ⟨-, -, -, -, -, -, -, -, e0, e1, -⟩ := idx_facts t
  have e0' : win8_4.index t 0 = (i 0).val / 5000 := e0
  refine ⟨t, flush8_4 t, ?_⟩
  show i ∈ ((View.whole main_v112_0).slice (win8_4.rect t)).set
  rw [View.set_slice_whole, Rect.mem_set_unit]
  intro a
  match a with
  | ⟨0, _⟩ => show win8_4.index t 0 * 5000 ≤ (i 0).val ∧ (i 0).val < win8_4.index t 0 * 5000 + 5000
              rw [e0']; omega
  | ⟨1, _⟩ => show win8_4.index t 1 * 64 ≤ (i 1).val ∧ (i 1).val < win8_4.index t 1 * 64 + 64
              rw [e1]; omega

/-- The column-sum row is written back after the last point only; its one block is the whole row. -/
theorem flushed5 (t : Fin cfg8.N) (hf : (cfg8.win 5).flush t = true) :
    (dat8 V c).flushed 5 t = ((cfg8.win 5).blk t).view.read (Elt Ideal) (colSum (Z V c)) := by
  have ht := lt_ten t
  have h9 : t.val = 9 := by have := (flush8_5 t).mp hf; omega
  obtain ⟨-, -, -, -, -, -, -, -, -, -, e0, e1, -⟩ := idx_facts t
  show (cfg8.win 5).cut (grid8.coords t) ((dat8 V c).after 5 t) = _
  rw [after8_5]
  funext y
  rw [View.read_apply]
  show (outsAt8 V c t.val t.isLt).2.1 y = colSum (Z V c) (((cfg8.win 5).blk t).view.emb y)
  have hemb : ((cfg8.win 5).blk t).view.emb y = y := by
    funext a
    apply Fin.ext
    match a with
    | ⟨0, _⟩ => show win8_5.index t 0 * 1 + 1 * (y 0).val = (y 0).val; rw [e0]; omega
    | ⟨1, _⟩ => show win8_5.index t 1 * 64 + 1 * (y 1).val = (y 1).val; rw [e1]; omega
  rw [hemb]
  have key : ∀ (n : ℕ) (h : n < cfg8.N), n = 9 → (outsAt8 V c n h).2.1 = colSum (Z V c) := by
    intro n h e
    subst e
    exact (stats_last V c h).1
  exact congrFun (key t.val t.isLt h9) y

/-- The last point's block covers the row. -/
theorem cover5 (i : S1x64.Idx) :
    ∃ t : Fin cfg8.N, (cfg8.win 5).flush t = true ∧ i ∈ ((cfg8.win 5).blk t).view.set := by
  have hi0 : (i 0).val < 1 := (i 0).isLt
  have hi1 : (i 1).val < 64 := (i 1).isLt
  obtain ⟨-, -, -, -, -, -, -, -, -, -, e0, e1, -⟩ := idx_facts t8_9
  refine ⟨t8_9, (flush8_5 t8_9).mpr rfl, ?_⟩
  show i ∈ ((View.whole main_v112_1).slice (win8_5.rect t8_9)).set
  rw [View.set_slice_whole, Rect.mem_set_unit]
  intro a
  match a with
  | ⟨0, _⟩ => show win8_5.index t8_9 0 * 1 ≤ (i 0).val ∧ (i 0).val < win8_5.index t8_9 0 * 1 + 1
              rw [e0]; omega
  | ⟨1, _⟩ => show win8_5.index t8_9 1 * 64 ≤ (i 1).val ∧ (i 1).val < win8_5.index t8_9 1 * 64 + 64
              rw [e1]; omega

/-- The sum-of-squares row is written back after the last point only; its one block is the whole row. -/
theorem flushed6 (t : Fin cfg8.N) (hf : (cfg8.win 6).flush t = true) :
    (dat8 V c).flushed 6 t = ((cfg8.win 6).blk t).view.read (Elt Ideal) (colSumSq (Z V c)) := by
  have ht := lt_ten t
  have h9 : t.val = 9 := by have := (flush8_6 t).mp hf; omega
  obtain ⟨-, -, -, -, -, -, -, -, -, -, -, -, e0, e1⟩ := idx_facts t
  show (cfg8.win 6).cut (grid8.coords t) ((dat8 V c).after 6 t) = _
  rw [after8_6]
  funext y
  rw [View.read_apply]
  show (outsAt8 V c t.val t.isLt).2.2 y = colSumSq (Z V c) (((cfg8.win 6).blk t).view.emb y)
  have hemb : ((cfg8.win 6).blk t).view.emb y = y := by
    funext a
    apply Fin.ext
    match a with
    | ⟨0, _⟩ => show win8_6.index t 0 * 1 + 1 * (y 0).val = (y 0).val; rw [e0]; omega
    | ⟨1, _⟩ => show win8_6.index t 1 * 64 + 1 * (y 1).val = (y 1).val; rw [e1]; omega
  rw [hemb]
  have key : ∀ (n : ℕ) (h : n < cfg8.N), n = 9 → (outsAt8 V c n h).2.2 = colSumSq (Z V c) := by
    intro n h e
    subst e
    exact (stats_last V c h).2
  exact congrFun (key t.val t.isLt h9) y

/-- The last point's block covers the row. -/
theorem cover6 (i : S1x64.Idx) :
    ∃ t : Fin cfg8.N, (cfg8.win 6).flush t = true ∧ i ∈ ((cfg8.win 6).blk t).view.set := by
  have hi0 : (i 0).val < 1 := (i 0).isLt
  have hi1 : (i 1).val < 64 := (i 1).isLt
  obtain ⟨-, -, -, -, -, -, -, -, -, -, -, -, e0, e1⟩ := idx_facts t8_9
  refine ⟨t8_9, (flush8_6 t8_9).mpr rfl, ?_⟩
  show i ∈ ((View.whole main_v112_2).slice (win8_6.rect t8_9)).set
  rw [View.set_slice_whole, Rect.mem_set_unit]
  intro a
  match a with
  | ⟨0, _⟩ => show win8_6.index t8_9 0 * 1 ≤ (i 0).val ∧ (i 0).val < win8_6.index t8_9 0 * 1 + 1
              rw [e0]; omega
  | ⟨1, _⟩ => show win8_6.index t8_9 1 * 64 ≤ (i 1).val ∧ (i 1).val < win8_6.index t8_9 1 * 64 + 64
              rw [e1]; omega

/-! ## The three arrays after the region -/

/-- The product array ends as the product. -/
theorem z : (dat8 (F := Ideal) V c).arrAt 4 cfg8.N = mm (comb (V c (Pipeline.arrRef spec8 2) : Mat 1 1) (V c (Pipeline.arrRef spec8 0) : Mat 50000 128) (V c (Pipeline.arrRef spec8 1) : Mat 50000 128)) (V c (Pipeline.arrRef spec8 3) : Mat 128 64) :=
  (dat8 V c).arrAt_eq_of_cover 4 (Z V c) (fun t _ => flushed4 V c t) cover4

/-- The column-sum row ends as the tiled column sums of the product. -/
theorem s : (dat8 (F := Ideal) V c).arrAt 5 cfg8.N = colSum (mm (comb (V c (Pipeline.arrRef spec8 2) : Mat 1 1) (V c (Pipeline.arrRef spec8 0) : Mat 50000 128) (V c (Pipeline.arrRef spec8 1) : Mat 50000 128)) (V c (Pipeline.arrRef spec8 3) : Mat 128 64)) :=
  (dat8 V c).arrAt_eq_of_cover 5 (colSum (Z V c)) (flushed5 V c) cover5

/-- The sum-of-squares row ends as the tiled column sums of the product's squares. -/
theorem ss : (dat8 (F := Ideal) V c).arrAt 6 cfg8.N = colSumSq (mm (comb (V c (Pipeline.arrRef spec8 2) : Mat 1 1) (V c (Pipeline.arrRef spec8 0) : Mat 50000 128) (V c (Pipeline.arrRef spec8 1) : Mat 50000 128)) (V c (Pipeline.arrRef spec8 3) : Mat 128 64)) :=
  (dat8 V c).arrAt_eq_of_cover 6 (colSumSq (Z V c)) (flushed6 V c) cover6

end Cert.GIN.Reg8

end
-- ==== Proof.Reg9.lean ====
/-
  Region 9: the normalisation-and-rectifier map on a matrix of 50000 rows and 64 columns.

  The region visits ten grid points.  At point `t` it reads rows `5000·t … 5000·t + 4999` of the matrix `z` and the
  whole of the four rows `mean`, `var`, `γ`, `β` (each `[1, 64]`, the same block at every point), and writes the same
  rows of the output.  Entry `(p, q)` of what it writes is
  `max (γ q · (z (5000·t + p, q) − mean q) · rsqrt (var q + eps) + β q) 0`: each row vector is read at column `q` of
  its one row, whatever `p` is.  So the block point `t` writes is block `t` of ONE function of the five arrays,
  `normRelu z mean var γ β eps`, and since the ten blocks cover all 50000 rows (row `r` lies in block `r / 5000`),
  the output array ends holding that function.
-/
import proofs.«177653_j8959301779747_1_alg».proof.Proof.Spec
import proofs.«177653_j8959301779747_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

noncomputable section

namespace Cert.GIN.Reg9

open Cert.KernelIdeal Cert.KernelIdeal.Gen Cert.GIN
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The zero offsets of a block read or written whole. -/
theorem hz : (![0, 0] : Fin 2 → Nat) = fun _ => 0 := funext fun a => by fin_cases a <;> rfl

/-- The body's arithmetic at entry `(p, q)` of a block: the row vectors are read at column `q` of their one row, the
    rectifier's zero word is the number zero. -/
theorem pay_apply (x0 : Vec Ideal S5000x64 .f32) (x1 x2 x3 x4 : Vec Ideal S1x64 .f32) (p : Fin 5000) (q : Fin 64) :
    k9_pay1 x0 x1 x2 x3 x4 (ix2 p q)
      = max (x3 (ix2 0 q) * (x0 (ix2 p q) - x1 (ix2 0 q)) * Ideal.rsqrt (x2 (ix2 0 q) + Ideal.ofBits .f32 0x3727C5AC#32)
          + x4 (ix2 0 q)) 0 := by
  unfold k9_pay1
  simp only [shapeCast_self]
  rw [maximumf_apply, addf_apply, mulf_apply, mulf_apply, subf_apply, broadcast_apply,
    broadcastTo_1b_ab_apply, broadcastTo_1b_ab_apply, broadcastTo_1b_ab_apply, broadcastTo_1b_ab_apply]
  show max (x3 (ix2 0 q) * (x0 (ix2 p q) - x1 (ix2 0 q)) * Ideal.rsqrt (x2 (ix2 0 q) + Ideal.ofBits .f32 0x3727C5AC#32)
      + x4 (ix2 0 q)) (Ideal.ofBits .f32 0x00000000#32) = _
  rw [Ideal.ofBits_zero_f32]

/-- The same at any index of the block. -/
theorem pay_at (x0 : Vec Ideal S5000x64 .f32) (x1 x2 x3 x4 : Vec Ideal S1x64 .f32) (j : S5000x64.Idx) :
    k9_pay1 x0 x1 x2 x3 x4 j
      = max (x3 (ix2 0 (j 1)) * (x0 j - x1 (ix2 0 (j 1))) * Ideal.rsqrt (x2 (ix2 0 (j 1)) + Ideal.ofBits .f32 0x3727C5AC#32)
          + x4 (ix2 0 (j 1))) 0 := by
  obtain ⟨p, q, rfl⟩ : ∃ (p : Fin 5000) (q : Fin 64), j = ix2 p q := ⟨j 0, j 1, eq_ix2 j⟩
  exact pay_apply x0 x1 x2 x3 x4 p q

/-- The block indices, decided over the ten grid points: the matrix and the output move together down the rows, one
    block per point; the four row vectors stay at their one block. -/
theorem idx_facts : ∀ t : Fin cfg9.N,
    win9_5.index t (0 : Fin 2) = t.val ∧ win9_5.index t (1 : Fin 2) = 0
    ∧ win9_0.index t (0 : Fin 2) = t.val ∧ win9_0.index t (1 : Fin 2) = 0
    ∧ win9_1.index t (0 : Fin 2) = 0 ∧ win9_1.index t (1 : Fin 2) = 0
    ∧ win9_2.index t (0 : Fin 2) = 0 ∧ win9_2.index t (1 : Fin 2) = 0
    ∧ win9_3.index t (0 : Fin 2) = 0 ∧ win9_3.index t (1 : Fin 2) = 0
    ∧ win9_4.index t (0 : Fin 2) = 0 ∧ win9_4.index t (1 : Fin 2) = 0 :=
  (by decide +kernel : ∀ t : Fin grid9.N, _)

/-- THE BLOCK EQUATION at a symbolic grid point `t`: the body's arithmetic on the five blocks at `t` is block `t` of
    `normRelu` of the five arrays.  Entry `j` of the block of `z` and of the output sit at the same place of their
    arrays (row `5000·t + j 0`, column `j 1`), and entry `(0, j 1)` of each row vector's one block is entry `(0, j 1)`
    of the row vector. -/
theorem block_eq (t : Fin cfg9.N) (z : Mat 50000 64) (mean var γ β : Mat 1 64) :
    k9_pay1 (((cfg9.win 0).blk t).view.read (Elt Ideal) z) (((cfg9.win 1).blk t).view.read (Elt Ideal) mean)
        (((cfg9.win 2).blk t).view.read (Elt Ideal) var) (((cfg9.win 3).blk t).view.read (Elt Ideal) γ)
        (((cfg9.win 4).blk t).view.read (Elt Ideal) β)
      = ((cfg9.win 5).blk t).view.read (Elt Ideal) (normRelu z mean var γ β (Ideal.ofBits .f32 0x3727C5AC#32)) := by
  obtain ⟨e50, e51, e00, e01, e10, e11, e20, e21, e30, e31, e40, e41⟩ := idx_facts t
  funext j
  refine (pay_at _ _ _ _ _ j).trans ?_
  have h0 : ((cfg9.win 0).blk t).view.emb j = ((cfg9.win 5).blk t).view.emb j := by
    funext a; apply Fin.ext
    match a with
    | ⟨0, _⟩ => show win9_0.index t (0 : Fin 2) * 5000 + 1 * (j 0).val = win9_5.index t (0 : Fin 2) * 5000 + 1 * (j 0).val; rw [e00, e50]
    | ⟨1, _⟩ => show win9_0.index t (1 : Fin 2) * 64 + 1 * (j 1).val = win9_5.index t (1 : Fin 2) * 64 + 1 * (j 1).val; rw [e01, e51]
  have h1 : ((cfg9.win 1).blk t).view.emb (ix2 0 (j 1)) = (ix2 (0 : Fin 1) ((((cfg9.win 5).blk t).view.emb j) 1) : S1x64.Idx) := by
    funext a; apply Fin.ext
    match a with
    | ⟨0, _⟩ => show win9_1.index t (0 : Fin 2) * 1 + 1 * 0 = 0; rw [e10]
    | ⟨1, _⟩ => show win9_1.index t (1 : Fin 2) * 64 + 1 * (j 1).val = win9_5.index t (1 : Fin 2) * 64 + 1 * (j 1).val; rw [e11, e51]
  have h2 : ((cfg9.win 2).blk t).view.emb (ix2 0 (j 1)) = (ix2 (0 : Fin 1) ((((cfg9.win 5).blk t).view.emb j) 1) : S1x64.Idx) := by
    funext a; apply Fin.ext
    match a with
    | ⟨0, _⟩ => show win9_2.index t (0 : Fin 2) * 1 + 1 * 0 = 0; rw [e20]
    | ⟨1, _⟩ => show win9_2.index t (1 : Fin 2) * 64 + 1 * (j 1).val = win9_5.index t (1 : Fin 2) * 64 + 1 * (j 1).val; rw [e21, e51]
  have h3 : ((cfg9.win 3).blk t).view.emb (ix2 0 (j 1)) = (ix2 (0 : Fin 1) ((((cfg9.win 5).blk t).view.emb j) 1) : S1x64.Idx) := by
    funext a; apply Fin.ext
    match a with
    | ⟨0, _⟩ => show win9_3.index t (0 : Fin 2) * 1 + 1 * 0 = 0; rw [e30]
    | ⟨1, _⟩ => show win9_3.index t (1 : Fin 2) * 64 + 1 * (j 1).val = win9_5.index t (1 : Fin 2) * 64 + 1 * (j 1).val; rw [e31, e51]
  have h4 : ((cfg9.win 4).blk t).view.emb (ix2 0 (j 1)) = (ix2 (0 : Fin 1) ((((cfg9.win 5).blk t).view.emb j) 1) : S1x64.Idx) := by
    funext a; apply Fin.ext
    match a with
    | ⟨0, _⟩ => show win9_4.index t (0 : Fin 2) * 1 + 1 * 0 = 0; rw [e40]
    | ⟨1, _⟩ => show win9_4.index t (1 : Fin 2) * 64 + 1 * (j 1).val = win9_5.index t (1 : Fin 2) * 64 + 1 * (j 1).val; rw [e41, e51]
  show max (γ (((cfg9.win 3).blk t).view.emb (ix2 0 (j 1)))
        * (z (((cfg9.win 0).blk t).view.emb j) - mean (((cfg9.win 1).blk t).view.emb (ix2 0 (j 1))))
        * Ideal.rsqrt (var (((cfg9.win 2).blk t).view.emb (ix2 0 (j 1))) + Ideal.ofBits .f32 0x3727C5AC#32)
      + β (((cfg9.win 4).blk t).view.emb (ix2 0 (j 1)))) 0
    = normRelu z mean var γ β (Ideal.ofBits .f32 0x3727C5AC#32) (((cfg9.win 5).blk t).view.emb j)
  rw [h0, h1, h2, h3, h4]
  rfl

/-- An index of the output array is in point `t`'s block iff each coordinate is in the block's range on its axis. -/
theorem mem_blk (t : Fin cfg9.N) (i : S50000x64.Idx) :
    i ∈ ((cfg9.win 5).blk t).view.set ↔ ∀ a : Fin 2, win9_5.index t a * S5000x64.size a ≤ (i a).val
      ∧ (i a).val < win9_5.index t a * S5000x64.size a + S5000x64.size a := by
  show i ∈ ((View.whole main_v125).slice (win9_5.rect t)).set ↔ _
  rw [View.set_slice_whole, Rect.mem_set_unit]
  exact Iff.rfl

/-- THE COVER: row `r` of the output lies in the block of grid point `r / 5000`, which writes its block back. -/
theorem cover (i : S50000x64.Idx) :
    ∃ t : Fin cfg9.N, (cfg9.win 5).flush t = true ∧ i ∈ ((cfg9.win 5).blk t).view.set := by
  have hi0 : (i 0).val < 50000 := (i 0).isLt
  have hi1 : (i 1).val < 64 := (i 1).isLt
  have hN : cfg9.N = 10 := N_9
  have ht : (i 0).val / 5000 < cfg9.N := by rw [hN]; omega
  obtain ⟨e50, e51, -⟩ := idx_facts ⟨(i 0).val / 5000, ht⟩
  refine ⟨⟨(i 0).val / 5000, ht⟩, flush9_5 _, ?_⟩
  rw [mem_blk]
  intro a
  match a with
  | ⟨0, _⟩ =>
    show win9_5.index ⟨(i 0).val / 5000, ht⟩ (0 : Fin 2) * 5000 ≤ (i 0).val
      ∧ (i 0).val < win9_5.index ⟨(i 0).val / 5000, ht⟩ (0 : Fin 2) * 5000 + 5000
    rw [e50]
    show (i 0).val / 5000 * 5000 ≤ (i 0).val ∧ (i 0).val < (i 0).val / 5000 * 5000 + 5000
    omega
  | ⟨1, _⟩ =>
    show win9_5.index ⟨(i 0).val / 5000, ht⟩ (1 : Fin 2) * 64 ≤ (i 1).val
      ∧ (i 1).val < win9_5.index ⟨(i 0).val / 5000, ht⟩ (1 : Fin 2) * 64 + 64
    rw [e51]
    omega

/-- WHAT POINT `t` WRITES BACK is block `t` of `normRelu` of the five arrays as the region finds them: the body's one
    store fills the whole staging buffer with its arithmetic on the five blocks at `t`. -/
theorem flushed_eq (c : Dev nD) (t : Fin cfg9.N) :
    (dat9 (F := Ideal) V c).flushed 5 t = ((cfg9.win 5).blk t).view.read (Elt Ideal)
      (normRelu (n := 50000) (d := 64) (V c (Pipeline.arrRef spec9 0)) (V c (Pipeline.arrRef spec9 1))
        (V c (Pipeline.arrRef spec9 2)) (V c (Pipeline.arrRef spec9 3)) (V c (Pipeline.arrRef spec9 4))
        (Ideal.ofBits .f32 0x3727C5AC#32)) := by
  show (cfg9.win 5).cut (grid9.coords t) ((dat9 (F := Ideal) V c).after 5 t) = _
  rw [after9_5]
  unfold out9_5
  rw [View.canon_unit_zero hz]
  simp only [View.ld_unit_zero (S := S5000x64) hz, View.ld_unit_zero (S := S1x64) hz]
  unfold iblk9
  exact block_eq t (V c (Pipeline.arrRef spec9 0)) (V c (Pipeline.arrRef spec9 1)) (V c (Pipeline.arrRef spec9 2))
    (V c (Pipeline.arrRef spec9 3)) (V c (Pipeline.arrRef spec9 4))

/-- THE OUTPUT ARRAY after the region: `normRelu` of the five arrays as the region finds them. -/
theorem out (c : Dev nD) :
    (dat9 (F := Ideal) V c).arrAt 5 cfg9.N
      = normRelu (n := 50000) (d := 64) (V c (Pipeline.arrRef spec9 0)) (V c (Pipeline.arrRef spec9 1))
          (V c (Pipeline.arrRef spec9 2)) (V c (Pipeline.arrRef spec9 3)) (V c (Pipeline.arrRef spec9 4))
          (Ideal.ofBits .f32 0x3727C5AC#32) :=
  (dat9 (F := Ideal) V c).arrAt_eq_of_cover 5 _ (fun t _ => flushed_eq V c t) cover

end Cert.GIN.Reg9

end
-- ==== Proof.Reg10Pay.lean ====
/-
  Region 10 (the second dense layer's product with its batch statistics), the arithmetic of one grid point at the
  ideal instance, entry by entry.

  The body forms the product block `z_t = h_t · w` of the point's 5000-row block of `h` with the whole of `w`
  (a product into a zero accumulator; the change of float format before it is the identity on extended reals),
  and adds to each of the two statistics rows the column sums of `z_t`, respectively of its squares: at column
  `j` the row holding `v` becomes `v j + Σ_p z_t (p, j)`, respectively `v j + Σ_p z_t (p, j)²`.  The rows a
  first point starts from are zero.
-/
import proofs.«177653_j8959301779747_1_alg».proof.Proof.LibPlainDot
import proofs.«177653_j8959301779747_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.ValueIdx

namespace Cert.GIN.Reg10
open Cert.KernelIdeal Cert.KernelIdeal.Gen

/-- The product block at entry `(p, j)`: the sum over the 64 contracted columns. -/
theorem pay3_apply (x0 : Vec Ideal S5000x64 .f32) (x1 : Vec Ideal S64x128 .f32) (p : Fin 5000) (j : Fin 128) :
    k10_pay3 (F := Ideal) x0 x1 (ix2 p j) = ∑ q : Fin 64, x0 (ix2 p q) * x1 (ix2 q j) := by
  unfold k10_pay3
  refine (Cert.PlainDot.matmul_zero_ix2 dot_S5000x64_S64x128_S5000x128_1_0_0_1_n_n rfl none _ _ p j).trans ?_
  refine Finset.sum_congr rfl fun q _ => ?_
  rw [truncf_apply, truncf_apply, shapeCast_self, shapeCast_self]

/-- Column `j` of the reduced row, with row `k` inserted on the summed axis, is entry `(k, j)` of the block. -/
theorem lift_eq (j : Fin 128) (k : Fin 5000) : reduces_S5000x128_S128.lift (ix1 j) k = ix2 k j := by
  funext a
  apply Fin.ext
  match a with
  | ⟨0, _⟩ => rfl
  | ⟨1, _⟩ => rfl

/-- The sum of a 5000×128 block over its rows, kept as a 1×128 row: at column `j` the sum of the block's column `j`. -/
theorem rowsum_apply (src : FVec Ideal S5000x128 .f32) (j : Fin 128) :
    shapeCast S1x128 (multiReduction (F := Ideal) .add [0] S128 src 0x00000000#32 reduces_S5000x128_S128 (.inl rfl) rfl)
        shapeCasts_S128_S1x128 (ix2 0 j)
      = ∑ p : Fin 5000, src (ix2 p j) := by
  refine (shapeCast_apply _ shapeCasts_S128_S1x128 (ix2 0 j) (ix1 j) ?_).trans ?_
  · rw [Shape.rowMajor_val_two, Shape.rowMajor_val_one]; show j.val = 0 * 128 + j.val; omega
  refine (Ideal.multiReduction_add_single src 0x00000000#32 reduces_S5000x128_S128 (.inl rfl) rfl (ix1 j)).trans ?_
  exact Finset.sum_congr rfl fun p _ => congrArg src (lift_eq j p)

/-- The first statistics row after a point that found it holding `v`: `v j` plus column `j`'s sum of the product block. -/
theorem pay4_apply (x0 : Vec Ideal S5000x64 .f32) (x1 : Vec Ideal S64x128 .f32) (v : Vec Ideal S1x128 .f32) (j : Fin 128) :
    k10_pay4 (F := Ideal) x0 x1 v (ix2 0 j) = v (ix2 0 j) + ∑ p : Fin 5000, k10_pay3 (F := Ideal) x0 x1 (ix2 p j) := by
  unfold k10_pay4
  refine (addf_apply _ _ _).trans ?_
  rw [shapeCast_self]
  exact congrArg (v (ix2 0 j) + ·) (rowsum_apply _ j)

/-- The second statistics row likewise, with the squares of the product block's entries. -/
theorem pay5_apply (x0 : Vec Ideal S5000x64 .f32) (x1 : Vec Ideal S64x128 .f32) (v : Vec Ideal S1x128 .f32) (j : Fin 128) :
    k10_pay5 (F := Ideal) x0 x1 v (ix2 0 j)
      = v (ix2 0 j) + ∑ p : Fin 5000, k10_pay3 (F := Ideal) x0 x1 (ix2 p j) * k10_pay3 (F := Ideal) x0 x1 (ix2 p j) := by
  unfold k10_pay5
  refine (addf_apply _ _ _).trans ?_
  rw [shapeCast_self]
  exact congrArg (v (ix2 0 j) + ·) (rowsum_apply _ j)

/-- The row the first point stores into the first statistics row before accumulating: zero. -/
theorem pay1_apply (i : S1x128.Idx) : k10_pay1 (F := Ideal) i = 0 := by
  unfold k10_pay1
  show Ideal.ofBits .f32 0x00000000#32 = 0
  exact Ideal.ofBits_zero_f32

/-- And into the second: zero. -/
theorem pay2_apply (i : S1x128.Idx) : k10_pay2 (F := Ideal) i = 0 := by
  unfold k10_pay2
  show Ideal.ofBits .f32 0x00000000#32 = 0
  exact Ideal.ofBits_zero_f32

end Cert.GIN.Reg10

end
-- ==== Proof.Reg10Pieces.lean ====
/-
  Region 10, what one run of the body leaves in each output's staging buffer, as values of the body's arithmetic.

  At a first point (the condition holds) the body zeroes both statistics rows, stores the product block, and then
  replaces each statistics row by the row plus the block's column sums (of the entries, of their squares): what
  it leaves are the product payload and the two accumulation payloads applied to the zero rows.  At any other point
  the same, applied to the rows the point before left.  Each output's pieces are whole-buffer stores, so the last
  store's payload is what the buffer holds; a row read back after the zeroing store reads that store's payload.
-/
import proofs.«177653_j8959301779747_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.GIN.Reg10
open Cert.KernelIdeal Cert.KernelIdeal.Gen

variable {F : FTy → Type} [FloatOps F]

theorem hz : (![0, 0] : Fin 2 → Nat) = fun _ => 0 := funext fun a => by fin_cases a <;> rfl

/-- Any other point, the product output: the product payload of the two input blocks. -/
theorem out_B_2 (c : Dev nD) (i : grid10.Coords) (a1 : Memref sig .tc .vmem S5000x64 .f32) (h1 : a1.IsWhole)
    (a2 : Memref sig .tc .vmem S64x128 .f32) (h2 : a2.IsWhole) (a3 : Memref sig .tc .vmem S5000x128 .f32) (h3 : a3.IsWhole)
    (a4 : Memref sig .tc .vmem S1x128 .f32) (h4 : a4.IsWhole) (a5 : Memref sig .tc .vmem S1x128 .f32) (h5 : a5.IsWhole)
    (hc : ¬cond10_0 i) (x0 : Vec F S5000x64 .f32) (x1 : Vec F S64x128 .f32) (xo3 xo4 : Vec F S1x128 .f32) :
    out10_B_2 c i a1 h1 a2 h2 a3 h3 a4 h4 a5 h5 hc x0 x1 xo3 xo4 = k10_pay3 x0 x1 := by
  unfold out10_B_2
  rw [View.read_writes_eq_canon _ _ _ (cover10_B_2 c i a1 h1 a2 h2 a3 h3 a4 h4 a5 h5 hc x0 x1 xo3 xo4)]
  unfold kernelRun10_B
  dsimp only
  sl_unfold_words
  rw [View.canon_unit_zero hz]
  simp only [View.readAt_eq_ld, h1.read_unread, h2.read_unread, View.ld_unit_zero (S := S5000x64) hz,
    View.ld_unit_zero (S := S64x128) hz]

/-- Any other point, the first statistics row: the accumulation payload of the row the point before left. -/
theorem out_B_3 (c : Dev nD) (i : grid10.Coords) (a1 : Memref sig .tc .vmem S5000x64 .f32) (h1 : a1.IsWhole)
    (a2 : Memref sig .tc .vmem S64x128 .f32) (h2 : a2.IsWhole) (a3 : Memref sig .tc .vmem S5000x128 .f32) (h3 : a3.IsWhole)
    (a4 : Memref sig .tc .vmem S1x128 .f32) (h4 : a4.IsWhole) (a5 : Memref sig .tc .vmem S1x128 .f32) (h5 : a5.IsWhole)
    (hc : ¬cond10_0 i) (x0 : Vec F S5000x64 .f32) (x1 : Vec F S64x128 .f32) (xo3 xo4 : Vec F S1x128 .f32) :
    out10_B_3 c i a1 h1 a2 h2 a3 h3 a4 h4 a5 h5 hc x0 x1 xo3 xo4 = k10_pay4 x0 x1 xo3 := by
  unfold out10_B_3
  rw [View.read_writes_eq_canon _ _ _ (cover10_B_3 c i a1 h1 a2 h2 a3 h3 a4 h4 a5 h5 hc x0 x1 xo3 xo4)]
  unfold kernelRun10_B
  dsimp only
  sl_unfold_words
  rw [View.canon_unit_zero hz]
  simp only [View.readAt_eq_ld, h1.read_unread, h2.read_unread, h4.read_unread, View.ld_unit_zero (S := S5000x64) hz,
    View.ld_unit_zero (S := S64x128) hz, View.ld_unit_zero (S := S1x128) hz]

/-- Any other point, the second statistics row. -/
theorem out_B_4 (c : Dev nD) (i : grid10.Coords) (a1 : Memref sig .tc .vmem S5000x64 .f32) (h1 : a1.IsWhole)
    (a2 : Memref sig .tc .vmem S64x128 .f32) (h2 : a2.IsWhole) (a3 : Memref sig .tc .vmem S5000x128 .f32) (h3 : a3.IsWhole)
    (a4 : Memref sig .tc .vmem S1x128 .f32) (h4 : a4.IsWhole) (a5 : Memref sig .tc .vmem S1x128 .f32) (h5 : a5.IsWhole)
    (hc : ¬cond10_0 i) (x0 : Vec F S5000x64 .f32) (x1 : Vec F S64x128 .f32) (xo3 xo4 : Vec F S1x128 .f32) :
    out10_B_4 c i a1 h1 a2 h2 a3 h3 a4 h4 a5 h5 hc x0 x1 xo3 xo4 = k10_pay5 x0 x1 xo4 := by
  unfold out10_B_4
  rw [View.read_writes_eq_canon _ _ _ (cover10_B_4 c i a1 h1 a2 h2 a3 h3 a4 h4 a5 h5 hc x0 x1 xo3 xo4)]
  unfold kernelRun10_B
  dsimp only
  sl_unfold_words
  rw [View.canon_unit_zero hz]
  simp only [View.readAt_eq_ld, h1.read_unread, h2.read_unread, h5.read_unread, View.ld_unit_zero (S := S5000x64) hz,
    View.ld_unit_zero (S := S64x128) hz, View.ld_unit_zero (S := S1x128) hz]

/-- A first point, the product output. -/
theorem out_A_2 (c : Dev nD) (i : grid10.Coords) (a1 : Memref sig .tc .vmem S5000x64 .f32) (h1 : a1.IsWhole)
    (a2 : Memref sig .tc .vmem S64x128 .f32) (h2 : a2.IsWhole) (a3 : Memref sig .tc .vmem S5000x128 .f32) (h3 : a3.IsWhole)
    (a4 : Memref sig .tc .vmem S1x128 .f32) (h4 : a4.IsWhole) (a5 : Memref sig .tc .vmem S1x128 .f32) (h5 : a5.IsWhole)
    (hc : cond10_0 i) (x0 : Vec F S5000x64 .f32) (x1 : Vec F S64x128 .f32) :
    out10_A_2 c i a1 h1 a2 h2 a3 h3 a4 h4 a5 h5 hc x0 x1 = k10_pay3 x0 x1 := by
  unfold out10_A_2
  rw [View.read_writes_eq_canon _ _ _ (cover10_A_2 c i a1 h1 a2 h2 a3 h3 a4 h4 a5 h5 hc x0 x1)]
  unfold kernelRun10_A
  dsimp only
  sl_unfold_words
  rw [View.canon_unit_zero hz]
  simp only [View.readAt_eq_ld, h1.read_unread, h2.read_unread, View.ld_unit_zero (S := S5000x64) hz,
    View.ld_unit_zero (S := S64x128) hz]

/-- A first point, the first statistics row: the accumulation payload of the zero row just stored. -/
theorem out_A_3 (c : Dev nD) (i : grid10.Coords) (a1 : Memref sig .tc .vmem S5000x64 .f32) (h1 : a1.IsWhole)
    (a2 : Memref sig .tc .vmem S64x128 .f32) (h2 : a2.IsWhole) (a3 : Memref sig .tc .vmem S5000x128 .f32) (h3 : a3.IsWhole)
    (a4 : Memref sig .tc .vmem S1x128 .f32) (h4 : a4.IsWhole) (a5 : Memref sig .tc .vmem S1x128 .f32) (h5 : a5.IsWhole)
    (hc : cond10_0 i) (x0 : Vec F S5000x64 .f32) (x1 : Vec F S64x128 .f32) :
    out10_A_3 c i a1 h1 a2 h2 a3 h3 a4 h4 a5 h5 hc x0 x1 = k10_pay4 x0 x1 k10_pay1 := by
  unfold out10_A_3
  rw [View.read_writes_eq_canon _ _ _ (cover10_A_3 c i a1 h1 a2 h2 a3 h3 a4 h4 a5 h5 hc x0 x1)]
  unfold kernelRun10_A
  dsimp only
  sl_unfold_words
  rw [View.canon_cons_unit_zero (S := S1x128) hz, View.readCov_unit_zero (S := S1x128) _ hz]
  simp only [View.readAt_eq_ld, h1.read_unread, h2.read_unread, View.ld_unit_zero (S := S5000x64) hz,
    View.ld_unit_zero (S := S64x128) hz]

/-- A first point, the second statistics row. -/
theorem out_A_4 (c : Dev nD) (i : grid10.Coords) (a1 : Memref sig .tc .vmem S5000x64 .f32) (h1 : a1.IsWhole)
    (a2 : Memref sig .tc .vmem S64x128 .f32) (h2 : a2.IsWhole) (a3 : Memref sig .tc .vmem S5000x128 .f32) (h3 : a3.IsWhole)
    (a4 : Memref sig .tc .vmem S1x128 .f32) (h4 : a4.IsWhole) (a5 : Memref sig .tc .vmem S1x128 .f32) (h5 : a5.IsWhole)
    (hc : cond10_0 i) (x0 : Vec F S5000x64 .f32) (x1 : Vec F S64x128 .f32) :
    out10_A_4 c i a1 h1 a2 h2 a3 h3 a4 h4 a5 h5 hc x0 x1 = k10_pay5 x0 x1 k10_pay2 := by
  unfold out10_A_4
  rw [View.read_writes_eq_canon _ _ _ (cover10_A_4 c i a1 h1 a2 h2 a3 h3 a4 h4 a5 h5 hc x0 x1)]
  unfold kernelRun10_A
  dsimp only
  sl_unfold_words
  rw [View.canon_cons_unit_zero (S := S1x128) hz, View.readCov_unit_zero (S := S1x128) _ hz]
  simp only [View.readAt_eq_ld, h1.read_unread, h2.read_unread, View.ld_unit_zero (S := S5000x64) hz,
    View.ld_unit_zero (S := S64x128) hz]

end Cert.GIN.Reg10

end
-- ==== Proof.Reg10.lean ====
/-
  Region 10 (the second dense layer's product with its batch statistics) at the ideal instance: its three result
  arrays as whole-array functions of the two operand arrays `h` [50000, 64] and `w` [64, 128] the region finds.

  The grid has ten points; point `t` reads rows `5000 t … 5000 t + 4999` of `h` and all of `w`, and writes the
  same rows of the product `z = h · w`: the ten blocks tile the rows (row `r` belongs to point `r / 5000`), so the
  product array ends holding `mm h w`.  The two statistics rows have one block that never moves and is written
  back after the last point only; the first point zeroes them and every point adds its tile's column sums, so
  after point `n` they hold the sums over tiles `0 … n` of the tile's column sums (of `z`, of its squares) — by
  induction on the point — and after the last point the tiled column sums `colSum z`, `colSumSq z`.
-/
import proofs.«177653_j8959301779747_1_alg».proof.Proof.Spec
import proofs.«177653_j8959301779747_1_alg».proof.Proof.Reg10Pay
import proofs.«177653_j8959301779747_1_alg».proof.Proof.Reg10Pieces
import proofs.«177653_j8959301779747_1_alg».proof.Proof.Gen.KernelIdeal.Frame
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.GIN.Reg10
open Cert.KernelIdeal Cert.KernelIdeal.Gen Cert.GIN

/-! ## Tile sums -/

/-- The sum of column `j` over the rows of tile `t` (rows `5000 t` to `5000 t + 4999`); zero past the tenth tile. -/
def tileSum {d : Nat} (z : Mat 50000 d) (t : ℕ) (j : Fin d) : EReal :=
  if h : t < 10 then ∑ p : Fin 5000, z (ix2 ⟨5000 * t + p.val, by omega⟩ j) else 0

/-- The tiled column sum is the sum of the ten tile sums. -/
theorem colSum_eq_range {d : Nat} (z : Mat 50000 d) (i : (⟨2, ![1, d]⟩ : Shape).Idx) :
    colSum z i = ∑ t ∈ Finset.range 10, tileSum z t (i 1) := by
  rw [Finset.sum_range]
  unfold colSum
  refine Finset.sum_congr rfl fun t _ => ?_
  unfold tileSum
  rw [dif_pos t.isLt]

/-! ## The operands and the blocks the points read -/

variable (V : (c : Dev nD) → (b : Ref sig .tc) → Buf (Elt Ideal) ((c : Thread nD τ).loc b)) (c : Dev nD)

/-- The left operand array as the region finds it. -/
abbrev H : Mat 50000 64 := V c (Pipeline.arrRef spec10 0)
/-- The right operand array as the region finds it. -/
abbrev Wt : Mat 64 128 := V c (Pipeline.arrRef spec10 1)
/-- Their product. -/
abbrev Z : Mat 50000 128 := mm (H V c) (Wt V c)
/-- Its entrywise square. -/
abbrev Zsq : Mat 50000 128 := fun i => Z V c i * Z V c i

/-- The printed index maps, decided over the grid: the left operand's and the product's block index is the point
    on the row axis and zero on the column axis; the right operand's and the statistics rows' are zero. -/
theorem idx_facts : ∀ t : Fin cfg10.N,
    win10_0.index t (0 : Fin 2) = t.val ∧ win10_0.index t (1 : Fin 2) = 0
    ∧ win10_1.index t (0 : Fin 2) = 0 ∧ win10_1.index t (1 : Fin 2) = 0
    ∧ win10_2.index t (0 : Fin 2) = t.val ∧ win10_2.index t (1 : Fin 2) = 0
    ∧ win10_3.index t (0 : Fin 2) = 0 ∧ win10_3.index t (1 : Fin 2) = 0
    ∧ win10_4.index t (0 : Fin 2) = 0 ∧ win10_4.index t (1 : Fin 2) = 0 :=
  (by decide +kernel : ∀ t : Fin grid10.N, _)

theorem lt10 (t : Fin cfg10.N) : t.val < 10 := lt_of_lt_of_eq t.isLt (show cfg10.N = 10 from N_10)

/-- Entry `(p, q)` of the left operand's block at point `t` is entry `(5000 t + p, q)` of the array. -/
theorem blk0_apply (t : Fin cfg10.N) (p : Fin 5000) (q : Fin 64) (r : Fin 50000) (hr : r.val = 5000 * t.val + p.val) :
    (iblk10 V c 0 t : Vec Ideal S5000x64 .f32) (ix2 p q) = H V c (ix2 r q) := by
  obtain ⟨e0, e1, -⟩ := idx_facts t
  unfold iblk10
  rw [View.read_apply]
  show V c (Pipeline.arrRef spec10 0) (((cfg10.win 0).blk t).view.emb (ix2 p q)) = V c (Pipeline.arrRef spec10 0) (ix2 r q)
  congr 1
  funext a
  apply Fin.ext
  match a with
  | ⟨0, _⟩ => show win10_0.index t (0 : Fin 2) * 5000 + 1 * p.val = r.val; omega
  | ⟨1, _⟩ => show win10_0.index t (1 : Fin 2) * 64 + 1 * q.val = q.val; omega

/-- The right operand's block at every point is the whole array. -/
theorem blk1_apply (t : Fin cfg10.N) (q : Fin 64) (j : Fin 128) :
    (iblk10 V c 1 t : Vec Ideal S64x128 .f32) (ix2 q j) = Wt V c (ix2 q j) := by
  obtain ⟨-, -, e0, e1, -⟩ := idx_facts t
  unfold iblk10
  rw [View.read_apply]
  show V c (Pipeline.arrRef spec10 1) (((cfg10.win 1).blk t).view.emb (ix2 q j)) = V c (Pipeline.arrRef spec10 1) (ix2 q j)
  congr 1
  funext a
  apply Fin.ext
  match a with
  | ⟨0, _⟩ => show win10_1.index t (0 : Fin 2) * 64 + 1 * q.val = q.val; omega
  | ⟨1, _⟩ => show win10_1.index t (1 : Fin 2) * 128 + 1 * j.val = j.val; omega

/-- So entry `(p, j)` of the product block of point `t` is entry `(5000 t + p, j)` of the product of the arrays. -/
theorem zblk_apply (t : Fin cfg10.N) (p : Fin 5000) (j : Fin 128) (r : Fin 50000) (hr : r.val = 5000 * t.val + p.val) :
    k10_pay3 (F := Ideal) (iblk10 V c 0 t) (iblk10 V c 1 t) (ix2 p j) = Z V c (ix2 r j) := by
  refine (pay3_apply (iblk10 V c 0 t) (iblk10 V c 1 t) p j).trans ?_
  show _ = ∑ q : Fin 64, H V c (ix2 r q) * Wt V c (ix2 q j)
  refine Finset.sum_congr rfl fun q _ => ?_
  rw [blk0_apply V c t p q r hr, blk1_apply V c t q j]

/-- The product block's column `j`, summed over its rows, is tile `t`'s sum of column `j` of the product. -/
theorem zblk_sum (t : Fin cfg10.N) (j : Fin 128) :
    ∑ p : Fin 5000, k10_pay3 (F := Ideal) (iblk10 V c 0 t) (iblk10 V c 1 t) (ix2 p j) = tileSum (Z V c) t.val j := by
  have h10 := lt10 t
  unfold tileSum
  rw [dif_pos h10]
  exact Finset.sum_congr rfl fun p _ => zblk_apply V c t p j ⟨5000 * t.val + p.val, by omega⟩ rfl

/-- Likewise for the squares. -/
theorem zblk_sumsq (t : Fin cfg10.N) (j : Fin 128) :
    ∑ p : Fin 5000, k10_pay3 (F := Ideal) (iblk10 V c 0 t) (iblk10 V c 1 t) (ix2 p j)
        * k10_pay3 (F := Ideal) (iblk10 V c 0 t) (iblk10 V c 1 t) (ix2 p j) = tileSum (Zsq V c) t.val j := by
  have h10 := lt10 t
  unfold tileSum
  rw [dif_pos h10]
  refine Finset.sum_congr rfl fun p _ => ?_
  rw [zblk_apply V c t p j ⟨5000 * t.val + p.val, by omega⟩ rfl]

/-! ## What the outputs' staging buffers hold after each point -/

/-- After a first point: the product block, and the two accumulations from the zero rows. -/
theorem outs_A (t : Fin cfg10.N) (h0 : t.val % 10 = 0) :
    (outsAt10 V c t.val t.isLt).1 = k10_pay3 (F := Ideal) (iblk10 V c 0 t) (iblk10 V c 1 t)
    ∧ (outsAt10 V c t.val t.isLt).2.1 = k10_pay4 (F := Ideal) (iblk10 V c 0 t) (iblk10 V c 1 t) (k10_pay1 (F := Ideal))
    ∧ (outsAt10 V c t.val t.isLt).2.2 = k10_pay5 (F := Ideal) (iblk10 V c 0 t) (iblk10 V c 1 t) (k10_pay2 (F := Ideal)) := by
  rw [outsAt10_A V c t h0]
  dsimp only
  exact ⟨out_A_2 (F := Ideal) c (grid10.coords t) (ms10_0 t) (hs10_0 t) (ms10_1 t) (hs10_1 t) (ms10_2 t) (hs10_2 t) (ms10_3 t) (hs10_3 t) (ms10_4 t) (hs10_4 t) ((hcond10_0 t).mpr h0) (iblk10 V c 0 t) (iblk10 V c 1 t),
    out_A_3 (F := Ideal) c (grid10.coords t) (ms10_0 t) (hs10_0 t) (ms10_1 t) (hs10_1 t) (ms10_2 t) (hs10_2 t) (ms10_3 t) (hs10_3 t) (ms10_4 t) (hs10_4 t) ((hcond10_0 t).mpr h0) (iblk10 V c 0 t) (iblk10 V c 1 t),
    out_A_4 (F := Ideal) c (grid10.coords t) (ms10_0 t) (hs10_0 t) (ms10_1 t) (hs10_1 t) (ms10_2 t) (hs10_2 t) (ms10_3 t) (hs10_3 t) (ms10_4 t) (hs10_4 t) ((hcond10_0 t).mpr h0) (iblk10 V c 0 t) (iblk10 V c 1 t)⟩

/-- After any other point: the product block, and the two accumulations from the rows the point before left. -/
theorem outs_B (t : Fin cfg10.N) (h0 : ¬t.val % 10 = 0) :
    (outsAt10 V c t.val t.isLt).1 = k10_pay3 (F := Ideal) (iblk10 V c 0 t) (iblk10 V c 1 t)
    ∧ (outsAt10 V c t.val t.isLt).2.1 = k10_pay4 (F := Ideal) (iblk10 V c 0 t) (iblk10 V c 1 t)
        (outsAt10 V c (t.val - 1) (Nat.lt_of_le_of_lt (Nat.sub_le _ _) t.isLt)).2.1
    ∧ (outsAt10 V c t.val t.isLt).2.2 = k10_pay5 (F := Ideal) (iblk10 V c 0 t) (iblk10 V c 1 t)
        (outsAt10 V c (t.val - 1) (Nat.lt_of_le_of_lt (Nat.sub_le _ _) t.isLt)).2.2 := by
  rw [outsAt10_B V c t h0]
  dsimp only
  exact ⟨out_B_2 (F := Ideal) c (grid10.coords t) (ms10_0 t) (hs10_0 t) (ms10_1 t) (hs10_1 t) (ms10_2 t) (hs10_2 t) (ms10_3 t) (hs10_3 t) (ms10_4 t) (hs10_4 t) (fun h => h0 ((hcond10_0 t).mp h)) (iblk10 V c 0 t) (iblk10 V c 1 t) _ _,
    out_B_3 (F := Ideal) c (grid10.coords t) (ms10_0 t) (hs10_0 t) (ms10_1 t) (hs10_1 t) (ms10_2 t) (hs10_2 t) (ms10_3 t) (hs10_3 t) (ms10_4 t) (hs10_4 t) (fun h => h0 ((hcond10_0 t).mp h)) (iblk10 V c 0 t) (iblk10 V c 1 t) _ _,
    out_B_4 (F := Ideal) c (grid10.coords t) (ms10_0 t) (hs10_0 t) (ms10_1 t) (hs10_1 t) (ms10_2 t) (hs10_2 t) (ms10_3 t) (hs10_3 t) (ms10_4 t) (hs10_4 t) (fun h => h0 ((hcond10_0 t).mp h)) (iblk10 V c 0 t) (iblk10 V c 1 t) _ _⟩

/-- The product output's buffer after point `t`: the product block of the point. -/
theorem outs_z (t : Fin cfg10.N) :
    (outsAt10 V c t.val t.isLt).1 = k10_pay3 (F := Ideal) (iblk10 V c 0 t) (iblk10 V c 1 t) := by
  by_cases h0 : t.val % 10 = 0
  · exact (outs_A V c t h0).1
  · exact (outs_B V c t h0).1

/-- The statistics rows after point `n`: the sums over tiles `0 … n` of the tile's column sums of the product, and of
    its squares — by induction on the point. -/
theorem outs_acc : ∀ (n : ℕ) (h : n < cfg10.N) (j : Fin 128),
    (outsAt10 V c n h).2.1 (ix2 0 j) = ∑ t ∈ Finset.range (n + 1), tileSum (Z V c) t j
    ∧ (outsAt10 V c n h).2.2 (ix2 0 j) = ∑ t ∈ Finset.range (n + 1), tileSum (Zsq V c) t j
  | 0, h, j => by
    have e1 : (outsAt10 V c 0 h).2.1 = k10_pay4 (F := Ideal) (iblk10 V c 0 ⟨0, h⟩) (iblk10 V c 1 ⟨0, h⟩) (k10_pay1 (F := Ideal)) :=
      (outs_A V c ⟨0, h⟩ rfl).2.1
    have e2 : (outsAt10 V c 0 h).2.2 = k10_pay5 (F := Ideal) (iblk10 V c 0 ⟨0, h⟩) (iblk10 V c 1 ⟨0, h⟩) (k10_pay2 (F := Ideal)) :=
      (outs_A V c ⟨0, h⟩ rfl).2.2
    constructor
    · rw [e1, pay4_apply (iblk10 V c 0 ⟨0, h⟩) (iblk10 V c 1 ⟨0, h⟩) (k10_pay1 (F := Ideal)) j, pay1_apply, zero_add, zblk_sum V c ⟨0, h⟩ j,
        Finset.sum_range_succ, Finset.range_zero, Finset.sum_empty, zero_add]
    · rw [e2, pay5_apply (iblk10 V c 0 ⟨0, h⟩) (iblk10 V c 1 ⟨0, h⟩) (k10_pay2 (F := Ideal)) j, pay2_apply, zero_add, zblk_sumsq V c ⟨0, h⟩ j,
        Finset.sum_range_succ, Finset.range_zero, Finset.sum_empty, zero_add]
  | n + 1, h, j => by
    have hN : cfg10.N = 10 := N_10
    have hB : ¬(⟨n + 1, h⟩ : Fin cfg10.N).val % 10 = 0 := by dsimp only; omega
    have e1 : (outsAt10 V c (n + 1) h).2.1 = k10_pay4 (F := Ideal) (iblk10 V c 0 ⟨n + 1, h⟩) (iblk10 V c 1 ⟨n + 1, h⟩)
        (outsAt10 V c n (Nat.lt_of_succ_lt h)).2.1 := (outs_B V c ⟨n + 1, h⟩ hB).2.1
    have e2 : (outsAt10 V c (n + 1) h).2.2 = k10_pay5 (F := Ideal) (iblk10 V c 0 ⟨n + 1, h⟩) (iblk10 V c 1 ⟨n + 1, h⟩)
        (outsAt10 V c n (Nat.lt_of_succ_lt h)).2.2 := (outs_B V c ⟨n + 1, h⟩ hB).2.2
    have ih := outs_acc n (Nat.lt_of_succ_lt h) j
    constructor
    · rw [e1, pay4_apply (iblk10 V c 0 ⟨n + 1, h⟩) (iblk10 V c 1 ⟨n + 1, h⟩) _ j, zblk_sum V c ⟨n + 1, h⟩ j, Finset.sum_range_succ, ih.1]
    · rw [e2, pay5_apply (iblk10 V c 0 ⟨n + 1, h⟩) (iblk10 V c 1 ⟨n + 1, h⟩) _ j, zblk_sumsq V c ⟨n + 1, h⟩ j, Finset.sum_range_succ, ih.2]

/-! ## The write-backs -/

/-- What point `t` writes back of the product output is block `t` of the product of the arrays. -/
theorem flushed_z (t : Fin cfg10.N) :
    (dat10 V c).flushed 2 t = ((cfg10.win 2).blk t).view.read (Elt Ideal) (Z V c) := by
  obtain ⟨-, -, -, -, e0, e1, -⟩ := idx_facts t
  have h10 := lt10 t
  show (cfg10.win 2).cut (grid10.coords t) ((dat10 V c).after 2 t) = _
  rw [after10_2, outs_z]
  funext y
  obtain ⟨p, j, rfl⟩ : ∃ (p : Fin 5000) (j : Fin 128), y = ix2 p j := ⟨y 0, y 1, eq_ix2 y⟩
  rw [View.read_apply]
  show k10_pay3 (F := Ideal) (iblk10 V c 0 t) (iblk10 V c 1 t) (ix2 p j) = Z V c (((cfg10.win 2).blk t).view.emb (ix2 p j))
  refine (zblk_apply V c t p j ⟨5000 * t.val + p.val, by omega⟩ rfl).trans (congrArg (Z V c) ?_)
  funext a
  apply Fin.ext
  match a with
  | ⟨0, _⟩ => show 5000 * t.val + p.val = win10_2.index t (0 : Fin 2) * 5000 + 1 * p.val; omega
  | ⟨1, _⟩ => show j.val = win10_2.index t (1 : Fin 2) * 128 + 1 * j.val; omega

/-- An index of the product array is in point `t`'s block iff each coordinate is in the block's range. -/
theorem mem_blk_z (t : Fin cfg10.N) (i : S50000x128.Idx) :
    i ∈ ((cfg10.win 2).blk t).view.set ↔ ∀ a : Fin 2, win10_2.index t a * S5000x128.size a ≤ (i a).val
      ∧ (i a).val < win10_2.index t a * S5000x128.size a + S5000x128.size a := by
  show i ∈ ((View.whole main_v128_0).slice (win10_2.rect t)).set ↔ _
  rw [View.set_slice_whole, Rect.mem_set_unit]
  exact Iff.rfl

/-- Every row of the product array is in the block of the point its tile names. -/
theorem cover_z (i : S50000x128.Idx) :
    ∃ t : Fin cfg10.N, (cfg10.win 2).flush t = true ∧ i ∈ ((cfg10.win 2).blk t).view.set := by
  have hN : cfg10.N = 10 := N_10
  have hi0 : (i 0).val < 50000 := (i 0).isLt
  have hi1 : (i 1).val < 128 := (i 1).isLt
  refine ⟨⟨(i 0).val / 5000, by omega⟩, flush10_2 _, ?_⟩
  obtain ⟨-, -, -, -, e0, e1, -⟩ := idx_facts ⟨(i 0).val / 5000, by omega⟩
  rw [mem_blk_z]
  intro a
  match a with
  | ⟨0, _⟩ =>
    show win10_2.index _ (0 : Fin 2) * 5000 ≤ (i 0).val ∧ (i 0).val < win10_2.index _ (0 : Fin 2) * 5000 + 5000
    rw [e0]; dsimp only; omega
  | ⟨1, _⟩ =>
    show win10_2.index _ (1 : Fin 2) * 128 ≤ (i 1).val ∧ (i 1).val < win10_2.index _ (1 : Fin 2) * 128 + 128
    rw [e1]; omega

/-- The product array after the run: the product of the operand arrays. -/
theorem z : (dat10 (F := Ideal) V c).arrAt 2 cfg10.N
    = mm (n := 50000) (k := 64) (d := 128) (V c (Pipeline.arrRef spec10 0)) (V c (Pipeline.arrRef spec10 1)) :=
  (dat10 V c).arrAt_eq_of_cover 2 (Z V c) (fun t _ => flushed_z V c t) cover_z

/-- What the last point writes back of the first statistics row is the tiled column sum of the product. -/
theorem flushed_s (t : Fin cfg10.N) (hf : (cfg10.win 3).flush t = true) :
    (dat10 V c).flushed 3 t = ((cfg10.win 3).blk t).view.read (Elt Ideal) (colSum (Z V c)) := by
  obtain ⟨-, -, -, -, -, -, e0, e1, -⟩ := idx_facts t
  have h9 : t.val = 9 := by have := (flush10_3 t).mp hf; have := lt10 t; omega
  show (cfg10.win 3).cut (grid10.coords t) ((dat10 V c).after 3 t) = _
  rw [after10_3]
  funext y
  obtain ⟨j0, j, rfl⟩ : ∃ (j0 : Fin 1) (j : Fin 128), y = ix2 j0 j := ⟨y 0, y 1, eq_ix2 y⟩
  obtain rfl : j0 = 0 := Subsingleton.elim _ _
  rw [View.read_apply]
  show (outsAt10 V c t.val t.isLt).2.1 (ix2 0 j) = colSum (Z V c) (((cfg10.win 3).blk t).view.emb (ix2 0 j))
  rw [(outs_acc V c t.val t.isLt j).1, colSum_eq_range, h9]
  refine Finset.sum_congr rfl fun t' _ => congrArg (tileSum (Z V c) t') (Fin.ext ?_)
  show j.val = win10_3.index t (1 : Fin 2) * 128 + 1 * j.val
  omega

/-- And of the second, of the product's squares. -/
theorem flushed_ss (t : Fin cfg10.N) (hf : (cfg10.win 4).flush t = true) :
    (dat10 V c).flushed 4 t = ((cfg10.win 4).blk t).view.read (Elt Ideal) (colSumSq (Z V c)) := by
  obtain ⟨-, -, -, -, -, -, -, -, e0, e1⟩ := idx_facts t
  have h9 : t.val = 9 := by have := (flush10_4 t).mp hf; have := lt10 t; omega
  show (cfg10.win 4).cut (grid10.coords t) ((dat10 V c).after 4 t) = _
  rw [after10_4]
  funext y
  obtain ⟨j0, j, rfl⟩ : ∃ (j0 : Fin 1) (j : Fin 128), y = ix2 j0 j := ⟨y 0, y 1, eq_ix2 y⟩
  obtain rfl : j0 = 0 := Subsingleton.elim _ _
  rw [View.read_apply]
  show (outsAt10 V c t.val t.isLt).2.2 (ix2 0 j) = colSum (Zsq V c) (((cfg10.win 4).blk t).view.emb (ix2 0 j))
  rw [(outs_acc V c t.val t.isLt j).2, colSum_eq_range, h9]
  refine Finset.sum_congr rfl fun t' _ => congrArg (tileSum (Zsq V c) t') (Fin.ext ?_)
  show j.val = win10_4.index t (1 : Fin 2) * 128 + 1 * j.val
  omega

/-- The one block of a statistics row is the whole row: the last point's write-back covers it. -/
theorem cover_s (i : S1x128.Idx) :
    ∃ t : Fin cfg10.N, (cfg10.win 3).flush t = true ∧ i ∈ ((cfg10.win 3).blk t).view.set := by
  obtain ⟨-, -, -, -, -, -, e0, e1, -⟩ := idx_facts t10_9
  have h0 : (i 0).val < 1 := (i 0).isLt
  have h1 : (i 1).val < 128 := (i 1).isLt
  refine ⟨t10_9, (flush10_3 t10_9).mpr rfl, ?_⟩
  show i ∈ ((View.whole main_v128_1).slice (win10_3.rect t10_9)).set
  rw [View.set_slice_whole, Rect.mem_set_unit]
  intro a
  match a with
  | ⟨0, _⟩ =>
    show win10_3.index t10_9 (0 : Fin 2) * 1 ≤ (i 0).val ∧ (i 0).val < win10_3.index t10_9 (0 : Fin 2) * 1 + 1
    omega
  | ⟨1, _⟩ =>
    show win10_3.index t10_9 (1 : Fin 2) * 128 ≤ (i 1).val ∧ (i 1).val < win10_3.index t10_9 (1 : Fin 2) * 128 + 128
    omega

theorem cover_ss (i : S1x128.Idx) :
    ∃ t : Fin cfg10.N, (cfg10.win 4).flush t = true ∧ i ∈ ((cfg10.win 4).blk t).view.set := by
  obtain ⟨-, -, -, -, -, -, -, -, e0, e1⟩ := idx_facts t10_9
  have h0 : (i 0).val < 1 := (i 0).isLt
  have h1 : (i 1).val < 128 := (i 1).isLt
  refine ⟨t10_9, (flush10_4 t10_9).mpr rfl, ?_⟩
  show i ∈ ((View.whole main_v128_2).slice (win10_4.rect t10_9)).set
  rw [View.set_slice_whole, Rect.mem_set_unit]
  intro a
  match a with
  | ⟨0, _⟩ =>
    show win10_4.index t10_9 (0 : Fin 2) * 1 ≤ (i 0).val ∧ (i 0).val < win10_4.index t10_9 (0 : Fin 2) * 1 + 1
    omega
  | ⟨1, _⟩ =>
    show win10_4.index t10_9 (1 : Fin 2) * 128 ≤ (i 1).val ∧ (i 1).val < win10_4.index t10_9 (1 : Fin 2) * 128 + 128
    omega

/-- The first statistics array after the run: the tiled column sums of the product. -/
theorem s : (dat10 (F := Ideal) V c).arrAt 3 cfg10.N
    = colSum (mm (n := 50000) (k := 64) (d := 128) (V c (Pipeline.arrRef spec10 0)) (V c (Pipeline.arrRef spec10 1))) :=
  (dat10 V c).arrAt_eq_of_cover 3 (colSum (Z V c)) (flushed_s V c) cover_s

/-- The second: the tiled column sums of its squares. -/
theorem ss : (dat10 (F := Ideal) V c).arrAt 4 cfg10.N
    = colSumSq (mm (n := 50000) (k := 64) (d := 128) (V c (Pipeline.arrRef spec10 0)) (V c (Pipeline.arrRef spec10 1))) :=
  (dat10 V c).arrAt_eq_of_cover 4 (colSumSq (Z V c)) (flushed_ss V c) cover_ss

end Cert.GIN.Reg10

end
-- ==== Proof.Reg11.lean ====
/-
  Region 11: the normalisation-and-rectifier map on a matrix of 50000 rows and 128 columns.

  The region visits ten grid points.  At point `t` it reads rows `5000·t … 5000·t + 4999` of the matrix `z` and the
  whole of the four rows `mean`, `var`, `γ`, `β` (each `[1, 128]`, the same block at every point), and writes the same
  rows of the output.  Entry `(p, q)` of what it writes is
  `max (γ q · (z (5000·t + p, q) − mean q) · rsqrt (var q + eps) + β q) 0`: each row vector is read at column `q` of
  its one row, whatever `p` is.  So the block point `t` writes is block `t` of ONE function of the five arrays,
  `normRelu z mean var γ β eps`, and since the ten blocks cover all 50000 rows (row `r` lies in block `r / 5000`),
  the output array ends holding that function.
-/
import proofs.«177653_j8959301779747_1_alg».proof.Proof.Spec
import proofs.«177653_j8959301779747_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

noncomputable section

namespace Cert.GIN.Reg11

open Cert.KernelIdeal Cert.KernelIdeal.Gen Cert.GIN
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The zero offsets of a block read or written whole. -/
theorem hz : (![0, 0] : Fin 2 → Nat) = fun _ => 0 := funext fun a => by fin_cases a <;> rfl

/-- The body's arithmetic at entry `(p, q)` of a block: the row vectors are read at column `q` of their one row, the
    rectifier's zero word is the number zero. -/
theorem pay_apply (x0 : Vec Ideal S5000x128 .f32) (x1 x2 x3 x4 : Vec Ideal S1x128 .f32) (p : Fin 5000) (q : Fin 128) :
    k11_pay1 x0 x1 x2 x3 x4 (ix2 p q)
      = max (x3 (ix2 0 q) * (x0 (ix2 p q) - x1 (ix2 0 q)) * Ideal.rsqrt (x2 (ix2 0 q) + Ideal.ofBits .f32 0x3727C5AC#32)
          + x4 (ix2 0 q)) 0 := by
  unfold k11_pay1
  simp only [shapeCast_self]
  rw [maximumf_apply, addf_apply, mulf_apply, mulf_apply, subf_apply, broadcast_apply,
    broadcastTo_1b_ab_apply, broadcastTo_1b_ab_apply, broadcastTo_1b_ab_apply, broadcastTo_1b_ab_apply]
  show max (x3 (ix2 0 q) * (x0 (ix2 p q) - x1 (ix2 0 q)) * Ideal.rsqrt (x2 (ix2 0 q) + Ideal.ofBits .f32 0x3727C5AC#32)
      + x4 (ix2 0 q)) (Ideal.ofBits .f32 0x00000000#32) = _
  rw [Ideal.ofBits_zero_f32]

/-- The same at any index of the block. -/
theorem pay_at (x0 : Vec Ideal S5000x128 .f32) (x1 x2 x3 x4 : Vec Ideal S1x128 .f32) (j : S5000x128.Idx) :
    k11_pay1 x0 x1 x2 x3 x4 j
      = max (x3 (ix2 0 (j 1)) * (x0 j - x1 (ix2 0 (j 1))) * Ideal.rsqrt (x2 (ix2 0 (j 1)) + Ideal.ofBits .f32 0x3727C5AC#32)
          + x4 (ix2 0 (j 1))) 0 := by
  obtain ⟨p, q, rfl⟩ : ∃ (p : Fin 5000) (q : Fin 128), j = ix2 p q := ⟨j 0, j 1, eq_ix2 j⟩
  exact pay_apply x0 x1 x2 x3 x4 p q

/-- The block indices, decided over the ten grid points: the matrix and the output move together down the rows, one
    block per point; the four row vectors stay at their one block. -/
theorem idx_facts : ∀ t : Fin cfg11.N,
    win11_5.index t (0 : Fin 2) = t.val ∧ win11_5.index t (1 : Fin 2) = 0
    ∧ win11_0.index t (0 : Fin 2) = t.val ∧ win11_0.index t (1 : Fin 2) = 0
    ∧ win11_1.index t (0 : Fin 2) = 0 ∧ win11_1.index t (1 : Fin 2) = 0
    ∧ win11_2.index t (0 : Fin 2) = 0 ∧ win11_2.index t (1 : Fin 2) = 0
    ∧ win11_3.index t (0 : Fin 2) = 0 ∧ win11_3.index t (1 : Fin 2) = 0
    ∧ win11_4.index t (0 : Fin 2) = 0 ∧ win11_4.index t (1 : Fin 2) = 0 :=
  (by decide +kernel : ∀ t : Fin grid11.N, _)

/-- THE BLOCK EQUATION at a symbolic grid point `t`: the body's arithmetic on the five blocks at `t` is block `t` of
    `normRelu` of the five arrays.  Entry `j` of the block of `z` and of the output sit at the same place of their
    arrays (row `5000·t + j 0`, column `j 1`), and entry `(0, j 1)` of each row vector's one block is entry `(0, j 1)`
    of the row vector. -/
theorem block_eq (t : Fin cfg11.N) (z : Mat 50000 128) (mean var γ β : Mat 1 128) :
    k11_pay1 (((cfg11.win 0).blk t).view.read (Elt Ideal) z) (((cfg11.win 1).blk t).view.read (Elt Ideal) mean)
        (((cfg11.win 2).blk t).view.read (Elt Ideal) var) (((cfg11.win 3).blk t).view.read (Elt Ideal) γ)
        (((cfg11.win 4).blk t).view.read (Elt Ideal) β)
      = ((cfg11.win 5).blk t).view.read (Elt Ideal) (normRelu z mean var γ β (Ideal.ofBits .f32 0x3727C5AC#32)) := by
  obtain ⟨e50, e51, e00, e01, e10, e11, e20, e21, e30, e31, e40, e41⟩ := idx_facts t
  funext j
  refine (pay_at _ _ _ _ _ j).trans ?_
  have h0 : ((cfg11.win 0).blk t).view.emb j = ((cfg11.win 5).blk t).view.emb j := by
    funext a; apply Fin.ext
    match a with
    | ⟨0, _⟩ => show win11_0.index t (0 : Fin 2) * 5000 + 1 * (j 0).val = win11_5.index t (0 : Fin 2) * 5000 + 1 * (j 0).val; rw [e00, e50]
    | ⟨1, _⟩ => show win11_0.index t (1 : Fin 2) * 128 + 1 * (j 1).val = win11_5.index t (1 : Fin 2) * 128 + 1 * (j 1).val; rw [e01, e51]
  have h1 : ((cfg11.win 1).blk t).view.emb (ix2 0 (j 1)) = (ix2 (0 : Fin 1) ((((cfg11.win 5).blk t).view.emb j) 1) : S1x128.Idx) := by
    funext a; apply Fin.ext
    match a with
    | ⟨0, _⟩ => show win11_1.index t (0 : Fin 2) * 1 + 1 * 0 = 0; rw [e10]
    | ⟨1, _⟩ => show win11_1.index t (1 : Fin 2) * 128 + 1 * (j 1).val = win11_5.index t (1 : Fin 2) * 128 + 1 * (j 1).val; rw [e11, e51]
  have h2 : ((cfg11.win 2).blk t).view.emb (ix2 0 (j 1)) = (ix2 (0 : Fin 1) ((((cfg11.win 5).blk t).view.emb j) 1) : S1x128.Idx) := by
    funext a; apply Fin.ext
    match a with
    | ⟨0, _⟩ => show win11_2.index t (0 : Fin 2) * 1 + 1 * 0 = 0; rw [e20]
    | ⟨1, _⟩ => show win11_2.index t (1 : Fin 2) * 128 + 1 * (j 1).val = win11_5.index t (1 : Fin 2) * 128 + 1 * (j 1).val; rw [e21, e51]
  have h3 : ((cfg11.win 3).blk t).view.emb (ix2 0 (j 1)) = (ix2 (0 : Fin 1) ((((cfg11.win 5).blk t).view.emb j) 1) : S1x128.Idx) := by
    funext a; apply Fin.ext
    match a with
    | ⟨0, _⟩ => show win11_3.index t (0 : Fin 2) * 1 + 1 * 0 = 0; rw [e30]
    | ⟨1, _⟩ => show win11_3.index t (1 : Fin 2) * 128 + 1 * (j 1).val = win11_5.index t (1 : Fin 2) * 128 + 1 * (j 1).val; rw [e31, e51]
  have h4 : ((cfg11.win 4).blk t).view.emb (ix2 0 (j 1)) = (ix2 (0 : Fin 1) ((((cfg11.win 5).blk t).view.emb j) 1) : S1x128.Idx) := by
    funext a; apply Fin.ext
    match a with
    | ⟨0, _⟩ => show win11_4.index t (0 : Fin 2) * 1 + 1 * 0 = 0; rw [e40]
    | ⟨1, _⟩ => show win11_4.index t (1 : Fin 2) * 128 + 1 * (j 1).val = win11_5.index t (1 : Fin 2) * 128 + 1 * (j 1).val; rw [e41, e51]
  show max (γ (((cfg11.win 3).blk t).view.emb (ix2 0 (j 1)))
        * (z (((cfg11.win 0).blk t).view.emb j) - mean (((cfg11.win 1).blk t).view.emb (ix2 0 (j 1))))
        * Ideal.rsqrt (var (((cfg11.win 2).blk t).view.emb (ix2 0 (j 1))) + Ideal.ofBits .f32 0x3727C5AC#32)
      + β (((cfg11.win 4).blk t).view.emb (ix2 0 (j 1)))) 0
    = normRelu z mean var γ β (Ideal.ofBits .f32 0x3727C5AC#32) (((cfg11.win 5).blk t).view.emb j)
  rw [h0, h1, h2, h3, h4]
  rfl

/-- An index of the output array is in point `t`'s block iff each coordinate is in the block's range on its axis. -/
theorem mem_blk (t : Fin cfg11.N) (i : S50000x128.Idx) :
    i ∈ ((cfg11.win 5).blk t).view.set ↔ ∀ a : Fin 2, win11_5.index t a * S5000x128.size a ≤ (i a).val
      ∧ (i a).val < win11_5.index t a * S5000x128.size a + S5000x128.size a := by
  show i ∈ ((View.whole main_v141).slice (win11_5.rect t)).set ↔ _
  rw [View.set_slice_whole, Rect.mem_set_unit]
  exact Iff.rfl

/-- THE COVER: row `r` of the output lies in the block of grid point `r / 5000`, which writes its block back. -/
theorem cover (i : S50000x128.Idx) :
    ∃ t : Fin cfg11.N, (cfg11.win 5).flush t = true ∧ i ∈ ((cfg11.win 5).blk t).view.set := by
  have hi0 : (i 0).val < 50000 := (i 0).isLt
  have hi1 : (i 1).val < 128 := (i 1).isLt
  have hN : cfg11.N = 10 := N_11
  have ht : (i 0).val / 5000 < cfg11.N := by rw [hN]; omega
  obtain ⟨e50, e51, -⟩ := idx_facts ⟨(i 0).val / 5000, ht⟩
  refine ⟨⟨(i 0).val / 5000, ht⟩, flush11_5 _, ?_⟩
  rw [mem_blk]
  intro a
  match a with
  | ⟨0, _⟩ =>
    show win11_5.index ⟨(i 0).val / 5000, ht⟩ (0 : Fin 2) * 5000 ≤ (i 0).val
      ∧ (i 0).val < win11_5.index ⟨(i 0).val / 5000, ht⟩ (0 : Fin 2) * 5000 + 5000
    rw [e50]
    show (i 0).val / 5000 * 5000 ≤ (i 0).val ∧ (i 0).val < (i 0).val / 5000 * 5000 + 5000
    omega
  | ⟨1, _⟩ =>
    show win11_5.index ⟨(i 0).val / 5000, ht⟩ (1 : Fin 2) * 128 ≤ (i 1).val
      ∧ (i 1).val < win11_5.index ⟨(i 0).val / 5000, ht⟩ (1 : Fin 2) * 128 + 128
    rw [e51]
    omega

/-- WHAT POINT `t` WRITES BACK is block `t` of `normRelu` of the five arrays as the region finds them: the body's one
    store fills the whole staging buffer with its arithmetic on the five blocks at `t`. -/
theorem flushed_eq (c : Dev nD) (t : Fin cfg11.N) :
    (dat11 (F := Ideal) V c).flushed 5 t = ((cfg11.win 5).blk t).view.read (Elt Ideal)
      (normRelu (n := 50000) (d := 128) (V c (Pipeline.arrRef spec11 0)) (V c (Pipeline.arrRef spec11 1))
        (V c (Pipeline.arrRef spec11 2)) (V c (Pipeline.arrRef spec11 3)) (V c (Pipeline.arrRef spec11 4))
        (Ideal.ofBits .f32 0x3727C5AC#32)) := by
  show (cfg11.win 5).cut (grid11.coords t) ((dat11 (F := Ideal) V c).after 5 t) = _
  rw [after11_5]
  unfold out11_5
  rw [View.canon_unit_zero hz]
  simp only [View.ld_unit_zero (S := S5000x128) hz, View.ld_unit_zero (S := S1x128) hz]
  unfold iblk11
  exact block_eq t (V c (Pipeline.arrRef spec11 0)) (V c (Pipeline.arrRef spec11 1)) (V c (Pipeline.arrRef spec11 2))
    (V c (Pipeline.arrRef spec11 3)) (V c (Pipeline.arrRef spec11 4))

/-- THE OUTPUT ARRAY after the region: `normRelu` of the five arrays as the region finds them. -/
theorem out (c : Dev nD) :
    (dat11 (F := Ideal) V c).arrAt 5 cfg11.N
      = normRelu (n := 50000) (d := 128) (V c (Pipeline.arrRef spec11 0)) (V c (Pipeline.arrRef spec11 1))
          (V c (Pipeline.arrRef spec11 2)) (V c (Pipeline.arrRef spec11 3)) (V c (Pipeline.arrRef spec11 4))
          (Ideal.ofBits .f32 0x3727C5AC#32) :=
  (dat11 (F := Ideal) V c).arrAt_eq_of_cover 5 _ (fun t _ => flushed_eq V c t) cover

end Cert.GIN.Reg11

end
-- ==== Proof.Wire2.lean ====
/-
  The wiring of layer 2: what each input window of regions 8–11 holds when its region is entered.

  Each window's array is either an argument as launched, an earlier region's output array, or the value of the host
  operations that precede the region applied to such arrays; every equation below names which, with the host
  operations written out as the composition the program applies.
-/
import proofs.«177653_j8959301779747_1_alg».proof.Proof.WireKeep
import proofs.«177653_j8959301779747_1_alg».proof.Proof.Wire0

set_option maxRecDepth 16384

noncomputable section

namespace Cert.GIN.K

open Cert.KernelIdeal Cert.KernelIdeal.Gen
open Idealize.ShloMosaic Idealize.ShloMosaic.TcCoe Idealize.ShloMosaic.Tactic
open Idealize.ShloMosaic.Pipeline (Dat Cfg Window cellOf)

variable {F : FTy → Type} [FloatOps F]

variable (m : (ℓ : Loc nD τ sig) → Buf (Elt F) ℓ) (ρ : Dev nD → PrngReg)

/-! ## Region 8 -/

/-- Region 8, input window 0 (the array `main_v95`) at the region's entry: region 7's output array 5, which the host operations in between do not write. -/
theorem wire_8_0 (c : Dev nD) : V17 m ρ c (Pipeline.arrRef spec8 0) = (dat7 (V15 m ρ) c).arrAt 5 cfg7.N :=
  (host8_keep m ρ c main_v95 (by decide)).trans (W16_arr m ρ c 5)

set_option maxHeartbeats 2000000 in
/-- Region 8, input window 1 (the array `main_v105`) at the region's entry: the value the host operations before the region compute for it, written out down to the launch contents of the arguments and the earlier regions' output arrays. -/
theorem wire_8_1 (c : Dev nD) : V17 m ρ c (Pipeline.arrRef spec8 1) =
    (Host.scatterAdd scatter_S50000x128_S800000x1_S800000x128_1_0_0_1 (((broadcastInDim S50000x128 ![] bcast_S_S50000x128 : (⟨S_, .f32⟩ : BufTy).Contents (Elt F) → (⟨S50000x128, .f32⟩ : BufTy).Contents (Elt F)) (constant S_ .f32 0x00000000#32 : (⟨S_, .f32⟩ : BufTy).Contents (Elt F))) : (⟨S50000x128, .f32⟩ : BufTy).Contents (Elt F)) (((broadcastInDim S800000x1 ![0] bcast_S800000_S800000x1_0 : (⟨S800000, .i32⟩ : BufTy).Contents (Elt F) → (⟨S800000x1, .i32⟩ : BufTy).Contents (Elt F)) (shapeCast S800000 (extractStridedSlice S1x800000 ![1, 0] ((m ((c : Thread nD τ).loc main_arg1)) : (⟨S2x800000, .i32⟩ : BufTy).Contents (Elt F)) slices_S2x800000_S1x800000_1_0) shapeCasts_S1x800000_S800000)) : (⟨S800000x1, .i32⟩ : BufTy).Contents (Elt F)) ((Host.gather gather_S50000x128_S800000x1_S800000x128_1_0_n_n_0_1_1128 (((dat7 (V15 m ρ) c).arrAt 5 cfg7.N) : (⟨S50000x128, .f32⟩ : BufTy).Contents (Elt F)) (((broadcastInDim S800000x1 ![0] bcast_S800000_S800000x1_0 : (⟨S800000, .i32⟩ : BufTy).Contents (Elt F) → (⟨S800000x1, .i32⟩ : BufTy).Contents (Elt F)) ((select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) ((cmpi .slt : (⟨S800000, .i32⟩ : BufTy).Contents (Elt F) → (⟨S800000, .i32⟩ : BufTy).Contents (Elt F) → (⟨S800000, .i1⟩ : BufTy).Contents (Elt F)) (shapeCast S800000 (extractStridedSlice S1x800000 ![0, 0] ((m ((c : Thread nD τ).loc main_arg1)) : (⟨S2x800000, .i32⟩ : BufTy).Contents (Elt F)) slices_S2x800000_S1x800000_0_0) shapeCasts_S1x800000_S800000) ((broadcastInDim S800000 ![] bcast_S_S800000 : (⟨S_, .i32⟩ : BufTy).Contents (Elt F) → (⟨S800000, .i32⟩ : BufTy).Contents (Elt F)) (constantI S_ 32 0#32 : (⟨S_, .i32⟩ : BufTy).Contents (Elt F)))) ((addi : (⟨S800000, .i32⟩ : BufTy).Contents (Elt F) → (⟨S800000, .i32⟩ : BufTy).Contents (Elt F) → (⟨S800000, .i32⟩ : BufTy).Contents (Elt F)) (shapeCast S800000 (extractStridedSlice S1x800000 ![0, 0] ((m ((c : Thread nD τ).loc main_arg1)) : (⟨S2x800000, .i32⟩ : BufTy).Contents (Elt F)) slices_S2x800000_S1x800000_0_0) shapeCasts_S1x800000_S800000) ((broadcastInDim S800000 ![] bcast_S_S800000 : (⟨S_, .i32⟩ : BufTy).Contents (Elt F) → (⟨S800000, .i32⟩ : BufTy).Contents (Elt F)) (constantI S_ 32 50000#32 : (⟨S_, .i32⟩ : BufTy).Contents (Elt F)))) (shapeCast S800000 (extractStridedSlice S1x800000 ![0, 0] ((m ((c : Thread nD τ).loc main_arg1)) : (⟨S2x800000, .i32⟩ : BufTy).Contents (Elt F)) slices_S2x800000_S1x800000_0_0) shapeCasts_S1x800000_S800000))) : (⟨S800000x1, .i32⟩ : BufTy).Contents (Elt F))) : (⟨S800000x128, .f32⟩ : BufTy).Contents (Elt F))) := by
  show StableHlo.after hostOps8 (W16 m ρ c) (Proc.devRef .tc main_v105) = _
  after_results
  rw [at_v3_16 m ρ c, wire_v3 m ρ c, (W16_arr m ρ c 5 : W16 m ρ c (Proc.devRef .tc main_v95) = _), at_v1_16 m ρ c, wire_v1 m ρ c]
  all_goals rfl

set_option maxHeartbeats 2000000 in
/-- Region 8, input window 2 (the array `main_v109`) at the region's entry: the value the host operations before the region compute for it, written out down to the launch contents of the arguments and the earlier regions' output arrays. -/
theorem wire_8_2 (c : Dev nD) : V17 m ρ c (Pipeline.arrRef spec8 2) =
    (shapeCast S1x1 ((addf : (⟨S_, .f32⟩ : BufTy).Contents (Elt F) → (⟨S_, .f32⟩ : BufTy).Contents (Elt F) → (⟨S_, .f32⟩ : BufTy).Contents (Elt F)) (constant S_ .f32 0x3F800000#32 : (⟨S_, .f32⟩ : BufTy).Contents (Elt F)) (shapeCast S_ (extractStridedSlice S1 ![2] ((m ((c : Thread nD τ).loc main_arg11)) : (⟨S7, .f32⟩ : BufTy).Contents (Elt F)) slices_S7_S1_2) shapeCasts_S1_S_)) shapeCasts_S_S1x1) := by
  show StableHlo.after hostOps8 (W16 m ρ c) (Proc.devRef .tc main_v109) = _
  after_results
  rw [at_arg11_16 m ρ c]
  all_goals rfl

set_option maxHeartbeats 2000000 in
/-- Region 8, input window 3 (the array `main_v111`) at the region's entry: the value the host operations before the region compute for it, written out down to the launch contents of the arguments and the earlier regions' output arrays. -/
theorem wire_8_3 (c : Dev nD) : V17 m ρ c (Pipeline.arrRef spec8 3) =
    (shapeCast S128x64 (extractStridedSlice S1x128x64 ![2, 0, 0] ((m ((c : Thread nD τ).loc main_arg4)) : (⟨S7x128x64, .f32⟩ : BufTy).Contents (Elt F)) slices_S7x128x64_S1x128x64_2_0_0) shapeCasts_S1x128x64_S128x64) := by
  show StableHlo.after hostOps8 (W16 m ρ c) (Proc.devRef .tc main_v111) = _
  after_results
  rw [at_arg4_16 m ρ c]
  all_goals rfl

/-! ## Region 9 -/

/-- Region 9, input window 0 (the array `main_v112_0`) at the region's entry: region 8's output array 4, which the host operations in between do not write. -/
theorem wire_9_0 (c : Dev nD) : V19 m ρ c (Pipeline.arrRef spec9 0) = (dat8 (V17 m ρ) c).arrAt 4 cfg8.N :=
  (host9_keep m ρ c main_v112_0 (by decide)).trans (W18_arr m ρ c 4)

set_option maxHeartbeats 2000000 in
/-- Region 9, input window 1 (the array `main_v114`) at the region's entry: the value the host operations before the region compute for it, written out down to the launch contents of the arguments and the earlier regions' output arrays. -/
theorem wire_9_1 (c : Dev nD) : V19 m ρ c (Pipeline.arrRef spec9 1) =
    ((Host.divf : (⟨S1x64, .f32⟩ : BufTy).Contents (Elt F) → (⟨S1x64, .f32⟩ : BufTy).Contents (Elt F) → (⟨S1x64, .f32⟩ : BufTy).Contents (Elt F)) ((dat8 (V17 m ρ) c).arrAt 5 cfg8.N) ((broadcastInDim S1x64 ![] bcast_S_S1x64 : (⟨S_, .f32⟩ : BufTy).Contents (Elt F) → (⟨S1x64, .f32⟩ : BufTy).Contents (Elt F)) (constant S_ .f32 0x47435000#32 : (⟨S_, .f32⟩ : BufTy).Contents (Elt F)))) := by
  show StableHlo.after hostOps9 (W18 m ρ c) (Proc.devRef .tc main_v114) = _
  after_results
  rw [(W18_arr m ρ c 5 : W18 m ρ c (Proc.devRef .tc main_v112_1) = _)]
  all_goals rfl

set_option maxHeartbeats 2000000 in
/-- Region 9, input window 2 (the array `main_v118`) at the region's entry: the value the host operations before the region compute for it, written out down to the launch contents of the arguments and the earlier regions' output arrays. -/
theorem wire_9_2 (c : Dev nD) : V19 m ρ c (Pipeline.arrRef spec9 2) =
    ((subf : (⟨S1x64, .f32⟩ : BufTy).Contents (Elt F) → (⟨S1x64, .f32⟩ : BufTy).Contents (Elt F) → (⟨S1x64, .f32⟩ : BufTy).Contents (Elt F)) ((Host.divf : (⟨S1x64, .f32⟩ : BufTy).Contents (Elt F) → (⟨S1x64, .f32⟩ : BufTy).Contents (Elt F) → (⟨S1x64, .f32⟩ : BufTy).Contents (Elt F)) ((dat8 (V17 m ρ) c).arrAt 6 cfg8.N) ((broadcastInDim S1x64 ![] bcast_S_S1x64 : (⟨S_, .f32⟩ : BufTy).Contents (Elt F) → (⟨S1x64, .f32⟩ : BufTy).Contents (Elt F)) (constant S_ .f32 0x47435000#32 : (⟨S_, .f32⟩ : BufTy).Contents (Elt F)))) ((mulf : (⟨S1x64, .f32⟩ : BufTy).Contents (Elt F) → (⟨S1x64, .f32⟩ : BufTy).Contents (Elt F) → (⟨S1x64, .f32⟩ : BufTy).Contents (Elt F)) ((Host.divf : (⟨S1x64, .f32⟩ : BufTy).Contents (Elt F) → (⟨S1x64, .f32⟩ : BufTy).Contents (Elt F) → (⟨S1x64, .f32⟩ : BufTy).Contents (Elt F)) ((dat8 (V17 m ρ) c).arrAt 5 cfg8.N) ((broadcastInDim S1x64 ![] bcast_S_S1x64 : (⟨S_, .f32⟩ : BufTy).Contents (Elt F) → (⟨S1x64, .f32⟩ : BufTy).Contents (Elt F)) (constant S_ .f32 0x47435000#32 : (⟨S_, .f32⟩ : BufTy).Contents (Elt F)))) ((Host.divf : (⟨S1x64, .f32⟩ : BufTy).Contents (Elt F) → (⟨S1x64, .f32⟩ : BufTy).Contents (Elt F) → (⟨S1x64, .f32⟩ : BufTy).Contents (Elt F)) ((dat8 (V17 m ρ) c).arrAt 5 cfg8.N) ((broadcastInDim S1x64 ![] bcast_S_S1x64 : (⟨S_, .f32⟩ : BufTy).Contents (Elt F) → (⟨S1x64, .f32⟩ : BufTy).Contents (Elt F)) (constant S_ .f32 0x47435000#32 : (⟨S_, .f32⟩ : BufTy).Contents (Elt F)))))) := by
  show StableHlo.after hostOps9 (W18 m ρ c) (Proc.devRef .tc main_v118) = _
  after_results
  rw [(W18_arr m ρ c 6 : W18 m ρ c (Proc.devRef .tc main_v112_2) = _), (W18_arr m ρ c 5 : W18 m ρ c (Proc.devRef .tc main_v112_1) = _)]
  all_goals rfl

set_option maxHeartbeats 2000000 in
/-- Region 9, input window 3 (the array `main_v121`) at the region's entry: the value the host operations before the region compute for it, written out down to the launch contents of the arguments and the earlier regions' output arrays. -/
theorem wire_9_3 (c : Dev nD) : V19 m ρ c (Pipeline.arrRef spec9 3) =
    (shapeCast S1x64 (shapeCast S64 (extractStridedSlice S1x64 ![2, 0] ((m ((c : Thread nD τ).loc main_arg5)) : (⟨S7x64, .f32⟩ : BufTy).Contents (Elt F)) slices_S7x64_S1x64_2_0) shapeCasts_S1x64_S64) shapeCasts_S64_S1x64) := by
  show StableHlo.after hostOps9 (W18 m ρ c) (Proc.devRef .tc main_v121) = _
  after_results
  rw [at_arg5_18 m ρ c]
  all_goals rfl

set_option maxHeartbeats 2000000 in
/-- Region 9, input window 4 (the array `main_v124`) at the region's entry: the value the host operations before the region compute for it, written out down to the launch contents of the arguments and the earlier regions' output arrays. -/
theorem wire_9_4 (c : Dev nD) : V19 m ρ c (Pipeline.arrRef spec9 4) =
    (shapeCast S1x64 (shapeCast S64 (extractStridedSlice S1x64 ![2, 0] ((m ((c : Thread nD τ).loc main_arg6)) : (⟨S7x64, .f32⟩ : BufTy).Contents (Elt F)) slices_S7x64_S1x64_2_0) shapeCasts_S1x64_S64) shapeCasts_S64_S1x64) := by
  show StableHlo.after hostOps9 (W18 m ρ c) (Proc.devRef .tc main_v124) = _
  after_results
  rw [at_arg6_18 m ρ c]
  all_goals rfl

/-! ## Region 10 -/

/-- Region 10, input window 0 (the array `main_v125`) at the region's entry: region 9's output array 5, which the host operations in between do not write. -/
theorem wire_10_0 (c : Dev nD) : V21 m ρ c (Pipeline.arrRef spec10 0) = (dat9 (V19 m ρ) c).arrAt 5 cfg9.N :=
  (host10_keep m ρ c main_v125 (by decide)).trans (W20_arr m ρ c 5)

set_option maxHeartbeats 2000000 in
/-- Region 10, input window 1 (the array `main_v127`) at the region's entry: the value the host operations before the region compute for it, written out down to the launch contents of the arguments and the earlier regions' output arrays. -/
theorem wire_10_1 (c : Dev nD) : V21 m ρ c (Pipeline.arrRef spec10 1) =
    (shapeCast S64x128 (extractStridedSlice S1x64x128 ![2, 0, 0] ((m ((c : Thread nD τ).loc main_arg7)) : (⟨S6x64x128, .f32⟩ : BufTy).Contents (Elt F)) slices_S6x64x128_S1x64x128_2_0_0) shapeCasts_S1x64x128_S64x128) := by
  show StableHlo.after hostOps10 (W20 m ρ c) (Proc.devRef .tc main_v127) = _
  after_results
  rw [at_arg7_20 m ρ c]
  all_goals rfl

/-! ## Region 11 -/

/-- Region 11, input window 0 (the array `main_v128_0`) at the region's entry: region 10's output array 2, which the host operations in between do not write. -/
theorem wire_11_0 (c : Dev nD) : V23 m ρ c (Pipeline.arrRef spec11 0) = (dat10 (V21 m ρ) c).arrAt 2 cfg10.N :=
  (host11_keep m ρ c main_v128_0 (by decide)).trans (W22_arr m ρ c 2)

set_option maxHeartbeats 2000000 in
/-- Region 11, input window 1 (the array `main_v130`) at the region's entry: the value the host operations before the region compute for it, written out down to the launch contents of the arguments and the earlier regions' output arrays. -/
theorem wire_11_1 (c : Dev nD) : V23 m ρ c (Pipeline.arrRef spec11 1) =
    ((Host.divf : (⟨S1x128, .f32⟩ : BufTy).Contents (Elt F) → (⟨S1x128, .f32⟩ : BufTy).Contents (Elt F) → (⟨S1x128, .f32⟩ : BufTy).Contents (Elt F)) ((dat10 (V21 m ρ) c).arrAt 3 cfg10.N) ((broadcastInDim S1x128 ![] bcast_S_S1x128 : (⟨S_, .f32⟩ : BufTy).Contents (Elt F) → (⟨S1x128, .f32⟩ : BufTy).Contents (Elt F)) (constant S_ .f32 0x47435000#32 : (⟨S_, .f32⟩ : BufTy).Contents (Elt F)))) := by
  show StableHlo.after hostOps11 (W22 m ρ c) (Proc.devRef .tc main_v130) = _
  after_results
  rw [(W22_arr m ρ c 3 : W22 m ρ c (Proc.devRef .tc main_v128_1) = _)]
  all_goals rfl

set_option maxHeartbeats 2000000 in
/-- Region 11, input window 2 (the array `main_v134`) at the region's entry: the value the host operations before the region compute for it, written out down to the launch contents of the arguments and the earlier regions' output arrays. -/
theorem wire_11_2 (c : Dev nD) : V23 m ρ c (Pipeline.arrRef spec11 2) =
    ((subf : (⟨S1x128, .f32⟩ : BufTy).Contents (Elt F) → (⟨S1x128, .f32⟩ : BufTy).Contents (Elt F) → (⟨S1x128, .f32⟩ : BufTy).Contents (Elt F)) ((Host.divf : (⟨S1x128, .f32⟩ : BufTy).Contents (Elt F) → (⟨S1x128, .f32⟩ : BufTy).Contents (Elt F) → (⟨S1x128, .f32⟩ : BufTy).Contents (Elt F)) ((dat10 (V21 m ρ) c).arrAt 4 cfg10.N) ((broadcastInDim S1x128 ![] bcast_S_S1x128 : (⟨S_, .f32⟩ : BufTy).Contents (Elt F) → (⟨S1x128, .f32⟩ : BufTy).Contents (Elt F)) (constant S_ .f32 0x47435000#32 : (⟨S_, .f32⟩ : BufTy).Contents (Elt F)))) ((mulf : (⟨S1x128, .f32⟩ : BufTy).Contents (Elt F) → (⟨S1x128, .f32⟩ : BufTy).Contents (Elt F) → (⟨S1x128, .f32⟩ : BufTy).Contents (Elt F)) ((Host.divf : (⟨S1x128, .f32⟩ : BufTy).Contents (Elt F) → (⟨S1x128, .f32⟩ : BufTy).Contents (Elt F) → (⟨S1x128, .f32⟩ : BufTy).Contents (Elt F)) ((dat10 (V21 m ρ) c).arrAt 3 cfg10.N) ((broadcastInDim S1x128 ![] bcast_S_S1x128 : (⟨S_, .f32⟩ : BufTy).Contents (Elt F) → (⟨S1x128, .f32⟩ : BufTy).Contents (Elt F)) (constant S_ .f32 0x47435000#32 : (⟨S_, .f32⟩ : BufTy).Contents (Elt F)))) ((Host.divf : (⟨S1x128, .f32⟩ : BufTy).Contents (Elt F) → (⟨S1x128, .f32⟩ : BufTy).Contents (Elt F) → (⟨S1x128, .f32⟩ : BufTy).Contents (Elt F)) ((dat10 (V21 m ρ) c).arrAt 3 cfg10.N) ((broadcastInDim S1x128 ![] bcast_S_S1x128 : (⟨S_, .f32⟩ : BufTy).Contents (Elt F) → (⟨S1x128, .f32⟩ : BufTy).Contents (Elt F)) (constant S_ .f32 0x47435000#32 : (⟨S_, .f32⟩ : BufTy).Contents (Elt F)))))) := by
  show StableHlo.after hostOps11 (W22 m ρ c) (Proc.devRef .tc main_v134) = _
  after_results
  rw [(W22_arr m ρ c 4 : W22 m ρ c (Proc.devRef .tc main_v128_2) = _), (W22_arr m ρ c 3 : W22 m ρ c (Proc.devRef .tc main_v128_1) = _)]
  all_goals rfl

set_option maxHeartbeats 2000000 in
/-- Region 11, input window 3 (the array `main_v137`) at the region's entry: the value the host operations before the region compute for it, written out down to the launch contents of the arguments and the earlier regions' output arrays. -/
theorem wire_11_3 (c : Dev nD) : V23 m ρ c (Pipeline.arrRef spec11 3) =
    (shapeCast S1x128 (shapeCast S128 (extractStridedSlice S1x128 ![2, 0] ((m ((c : Thread nD τ).loc main_arg8)) : (⟨S6x128, .f32⟩ : BufTy).Contents (Elt F)) slices_S6x128_S1x128_2_0) shapeCasts_S1x128_S128) shapeCasts_S128_S1x128) := by
  show StableHlo.after hostOps11 (W22 m ρ c) (Proc.devRef .tc main_v137) = _
  after_results
  rw [at_arg8_22 m ρ c]
  all_goals rfl

set_option maxHeartbeats 2000000 in
/-- Region 11, input window 4 (the array `main_v140`) at the region's entry: the value the host operations before the region compute for it, written out down to the launch contents of the arguments and the earlier regions' output arrays. -/
theorem wire_11_4 (c : Dev nD) : V23 m ρ c (Pipeline.arrRef spec11 4) =
    (shapeCast S1x128 (shapeCast S128 (extractStridedSlice S1x128 ![2, 0] ((m ((c : Thread nD τ).loc main_arg9)) : (⟨S6x128, .f32⟩ : BufTy).Contents (Elt F)) slices_S6x128_S1x128_2_0) shapeCasts_S1x128_S128) shapeCasts_S128_S1x128) := by
  show StableHlo.after hostOps11 (W22 m ρ c) (Proc.devRef .tc main_v140) = _
  after_results
  rw [at_arg9_22 m ρ c]
  all_goals rfl

end Cert.GIN.K

end
-- ==== Proof.KLayer2.lean ====
/-
  Layer 2 of the kernel program at the level of the specification: what its regions leave, as functions of what
  they find.  A normalisation region's output is the batch normalisation of the product region's first output,
  from the column means and uncentred variances the host arithmetic forms out of that region's two statistics rows.
-/
import proofs.«177653_j8959301779747_1_alg».proof.Proof.Reg8
import proofs.«177653_j8959301779747_1_alg».proof.Proof.Reg9
import proofs.«177653_j8959301779747_1_alg».proof.Proof.Reg10
import proofs.«177653_j8959301779747_1_alg».proof.Proof.Reg11
import proofs.«177653_j8959301779747_1_alg».proof.Proof.Wire2
import proofs.«177653_j8959301779747_1_alg».proof.Proof.KGlue

set_option maxRecDepth 16384

noncomputable section

namespace Cert.GIN.K

open Cert.KernelIdeal Cert.KernelIdeal.Gen
open Idealize.ShloMosaic Idealize.ShloMosaic.TcCoe Cert.GIN

variable (m : (ℓ : Loc nD τ sig) → Buf (Elt Ideal) ℓ) (ρ : Dev nD → PrngReg)

set_option maxHeartbeats 4000000 in
/-- The first normalisation of layer 2: batch normalisation (uncentred statistics) of `(sc · x + agg) · w1`. -/
theorem half_L2 (c : Dev nD) : (dat9 (V19 m ρ) c).arrAt 5 cfg9.N
    = bnU (mm (comb (V17 m ρ c (Pipeline.arrRef spec8 2)) (V17 m ρ c (Pipeline.arrRef spec8 0)) (V17 m ρ c (Pipeline.arrRef spec8 1))) (V17 m ρ c (Pipeline.arrRef spec8 3)))
        (V19 m ρ c (Pipeline.arrRef spec9 3)) (V19 m ρ c (Pipeline.arrRef spec9 4)) Nlit (Ideal.ofBits .f32 0x3727C5AC#32) := by
  rw [Reg9.out (V19 m ρ) c, wire_9_0 m ρ c, wire_9_1 m ρ c, wire_9_2 m ρ c]
  rw [varU_of64 _ _ _ (Reg8.s (V17 m ρ) c) (Reg8.ss (V17 m ρ) c), meanU_of64 _ _ (Reg8.s (V17 m ρ) c),
    Reg8.z (V17 m ρ) c]
  rfl

set_option maxHeartbeats 4000000 in
/-- The second normalisation of layer 2: batch normalisation of `h1 · w2`, `h1` the first one's result. -/
theorem full_L2 (c : Dev nD) : (dat11 (V23 m ρ) c).arrAt 5 cfg11.N
    = bnU (mm ((dat9 (V19 m ρ) c).arrAt 5 cfg9.N) (V21 m ρ c (Pipeline.arrRef spec10 1)))
        (V23 m ρ c (Pipeline.arrRef spec11 3)) (V23 m ρ c (Pipeline.arrRef spec11 4)) Nlit (Ideal.ofBits .f32 0x3727C5AC#32) := by
  have hz := Reg10.z (V21 m ρ) c
  have hs := Reg10.s (V21 m ρ) c
  have hss := Reg10.ss (V21 m ρ) c
  rw [wire_10_0 m ρ c] at hz hs hss
  rw [Reg11.out (V23 m ρ) c, wire_11_0 m ρ c, wire_11_1 m ρ c, wire_11_2 m ρ c]
  rw [varU_of128 _ _ _ hs hss, meanU_of128 _ _ hs, hz]
  rfl

end Cert.GIN.K

end
-- ==== Proof.Assemble2.lean ====
/-
  Layer 2 of the first program is layer 2 of the second.

  The layer's output is the uncentred-statistics block of its input, its operands being what the region windows hold
  at entry: the input itself, its neighbour sum along the edge list, the 1×1 cast of `1 + e`, and slices of the
  parameter arrays (the vectors read as one-row matrices).  With the input and the parameters real this is the second
  program's block of the same input and parameters, and real again.
-/
import proofs.«177653_j8959301779747_1_alg».proof.Proof.KLayer2
import proofs.«177653_j8959301779747_1_alg».proof.Proof.AssembleBridge
import proofs.«177653_j8959301779747_1_alg».proof.Proof.RefValueDefs
import proofs.«177653_j8959301779747_1_alg».proof.Proof.Gen.ReferenceIdeal

set_option maxRecDepth 16384

noncomputable section

namespace Cert.GIN.K

open Cert.KernelIdeal Cert.KernelIdeal.Gen
open Idealize.ShloMosaic Idealize.ShloMosaic.TcCoe Cert.GIN

variable (m : (ℓ : Loc nD τ sig) → Buf (Elt Ideal) ℓ) (ρ : Dev nD → PrngReg)

set_option maxHeartbeats 2000000 in
/-- Layer 2: from the layer's input agreeing with the second program's to its output agreeing, and real. -/
theorem step_2 (c : Dev nD)
    (reals : IsReal ((m ((c : Thread nD τ).loc main_arg0)) : FVec Ideal Cert.KernelIdeal.S50000x128 .f32)
      ∧ IsReal ((m ((c : Thread nD τ).loc main_arg4)) : FVec Ideal Cert.KernelIdeal.S7x128x64 .f32)
      ∧ IsReal ((m ((c : Thread nD τ).loc main_arg5)) : FVec Ideal Cert.KernelIdeal.S7x64 .f32)
      ∧ IsReal ((m ((c : Thread nD τ).loc main_arg6)) : FVec Ideal Cert.KernelIdeal.S7x64 .f32)
      ∧ IsReal ((m ((c : Thread nD τ).loc main_arg7)) : FVec Ideal Cert.KernelIdeal.S6x64x128 .f32)
      ∧ IsReal ((m ((c : Thread nD τ).loc main_arg8)) : FVec Ideal Cert.KernelIdeal.S6x128 .f32)
      ∧ IsReal ((m ((c : Thread nD τ).loc main_arg9)) : FVec Ideal Cert.KernelIdeal.S6x128 .f32)
      ∧ IsReal ((m ((c : Thread nD τ).loc main_arg10)) : FVec Ideal Cert.KernelIdeal.S64x2 .f32)
      ∧ IsReal ((m ((c : Thread nD τ).loc main_arg11)) : FVec Ideal Cert.KernelIdeal.S7 .f32)
      ∧ IsReal ((m ((c : Thread nD τ).loc main_arg2)) : FVec Ideal Cert.KernelIdeal.S800000 .f32))
    (hx : ((dat7 (V15 m ρ) c).arrAt 5 cfg7.N) = (Ref.X2 (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg11))))
    (hr : IsReal (Ref.X2 (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg11)))) :
    ((dat11 (V23 m ρ) c).arrAt 5 cfg11.N) = (Ref.X3 (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg11)))
      ∧ IsReal (Ref.X3 (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg11))) := by
  obtain ⟨r0, r4, r5, r6, r7, r8, r9, _, r11, _⟩ := reals
  have rx : IsReal ((dat7 (V15 m ρ) c).arrAt 5 cfg7.N) := by rw [hx]; exact hr
  have hsc : ((V17 m ρ c (Pipeline.arrRef spec8 2)) : Mat 1 1) = shapeCast Cert.KernelIdeal.S1x1
      (addf (F := Ideal) (constant (F := Ideal) Cert.KernelIdeal.S_ .f32 0x3F800000#32) (Ref.e2 (m ((c : Thread nD τ).loc main_arg11))))
      Cert.KernelIdeal.Facts₀.shapeCasts_S_S1x1 := wire_8_2 m ρ c
  have hag : ((V17 m ρ c (Pipeline.arrRef spec8 1)) : Mat 50000 128) = Ref.agg ((dat7 (V15 m ρ) c).arrAt 5 cfg7.N) (Ref.srcOf (m ((c : Thread nD τ).loc main_arg1))) (Ref.dstOf (m ((c : Thread nD τ).loc main_arg1))) :=
    (wire_8_1 m ρ c).trans rfl
  have hγ1 : ((V19 m ρ c (Pipeline.arrRef spec9 3)) : Mat 1 64) = rowV (Ref.g1_2 (m ((c : Thread nD τ).loc main_arg5))) := (wire_9_3 m ρ c).trans (row_cast64 _)
  have hβ1 : ((V19 m ρ c (Pipeline.arrRef spec9 4)) : Mat 1 64) = rowV (Ref.b1_2 (m ((c : Thread nD τ).loc main_arg6))) := (wire_9_4 m ρ c).trans (row_cast64 _)
  have hγ2 : ((V23 m ρ c (Pipeline.arrRef spec11 3)) : Mat 1 128) = rowV (Ref.g2_2 (m ((c : Thread nD τ).loc main_arg8))) := (wire_11_3 m ρ c).trans (row_cast128 _)
  have hβ2 : ((V23 m ρ c (Pipeline.arrRef spec11 4)) : Mat 1 128) = rowV (Ref.b2_2 (m ((c : Thread nD τ).loc main_arg9))) := (wire_11_4 m ρ c).trans (row_cast128 _)
  have re : IsReal (Ref.e2 (m ((c : Thread nD τ).loc main_arg11))) := isReal_cut _ _ _ _ r11
  have rw1 : IsReal (Ref.w1_2 (m ((c : Thread nD τ).loc main_arg4))) := isReal_cut _ _ _ _ r4
  have rg1 : IsReal (Ref.g1_2 (m ((c : Thread nD τ).loc main_arg5))) := isReal_cut _ _ _ _ r5
  have rb1 : IsReal (Ref.b1_2 (m ((c : Thread nD τ).loc main_arg6))) := isReal_cut _ _ _ _ r6
  have rw2 : IsReal (Ref.w2_2 (m ((c : Thread nD τ).loc main_arg7))) := isReal_cut _ _ _ _ r7
  have rg2 : IsReal (Ref.g2_2 (m ((c : Thread nD τ).loc main_arg8))) := isReal_cut _ _ _ _ r8
  have rb2 : IsReal (Ref.b2_2 (m ((c : Thread nD τ).loc main_arg9))) := isReal_cut _ _ _ _ r9
  have key := block_bridge _ _ _ _ _ _ _ _ _ _ _ _ _ _ _ _ hsc hag hγ1 hβ1 hγ2 hβ2 re rx rw1 rg1 rb1 rw2 rg2 rb2
  have h1 : ((dat11 (V23 m ρ) c).arrAt 5 cfg11.N) = Ref.block ((dat7 (V15 m ρ) c).arrAt 5 cfg7.N) (Ref.srcOf (m ((c : Thread nD τ).loc main_arg1))) (Ref.dstOf (m ((c : Thread nD τ).loc main_arg1))) (Ref.e2 (m ((c : Thread nD τ).loc main_arg11)))
        (Ref.w1_2 (m ((c : Thread nD τ).loc main_arg4))) (Ref.g1_2 (m ((c : Thread nD τ).loc main_arg5))) (Ref.b1_2 (m ((c : Thread nD τ).loc main_arg6)))
        (Ref.w2_2 (m ((c : Thread nD τ).loc main_arg7))) (Ref.g2_2 (m ((c : Thread nD τ).loc main_arg8))) (Ref.b2_2 (m ((c : Thread nD τ).loc main_arg9))) := by
    rw [full_L2 m ρ c, half_L2 m ρ c, wire_8_0 m ρ c, wire_8_3 m ρ c, wire_10_1 m ρ c]
    exact key.1
  have h2 : Ref.block ((dat7 (V15 m ρ) c).arrAt 5 cfg7.N) (Ref.srcOf (m ((c : Thread nD τ).loc main_arg1))) (Ref.dstOf (m ((c : Thread nD τ).loc main_arg1))) (Ref.e2 (m ((c : Thread nD τ).loc main_arg11)))
        (Ref.w1_2 (m ((c : Thread nD τ).loc main_arg4))) (Ref.g1_2 (m ((c : Thread nD τ).loc main_arg5))) (Ref.b1_2 (m ((c : Thread nD τ).loc main_arg6)))
        (Ref.w2_2 (m ((c : Thread nD τ).loc main_arg7))) (Ref.g2_2 (m ((c : Thread nD τ).loc main_arg8))) (Ref.b2_2 (m ((c : Thread nD τ).loc main_arg9))) = (Ref.X3 (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg11))) :=
    congrArg (fun X => Ref.block X (Ref.srcOf (m ((c : Thread nD τ).loc main_arg1))) (Ref.dstOf (m ((c : Thread nD τ).loc main_arg1))) (Ref.e2 (m ((c : Thread nD τ).loc main_arg11)))
        (Ref.w1_2 (m ((c : Thread nD τ).loc main_arg4))) (Ref.g1_2 (m ((c : Thread nD τ).loc main_arg5))) (Ref.b1_2 (m ((c : Thread nD τ).loc main_arg6)))
        (Ref.w2_2 (m ((c : Thread nD τ).loc main_arg7))) (Ref.g2_2 (m ((c : Thread nD τ).loc main_arg8))) (Ref.b2_2 (m ((c : Thread nD τ).loc main_arg9)))) hx
  refine ⟨h1.trans h2, ?_⟩
  rw [← h2]
  exact key.2

end Cert.GIN.K

end
-- ==== Proof.Reg12Pieces.lean ====
/-
  What one run of the combine–product–statistics body leaves in its three outputs, as values of what it loaded.

  The body loads the scale, the tile of node features, the tile of neighbour sums and the weights, stores the product
  tile, and stores each statistics row as the row it loaded plus the tile's column sums.  At the first grid point it
  first stores a zero row into each statistics buffer, and the row it then loads is that zero row; at every other point
  the row it loads is what the point before left.  Each output buffer is covered by whole-buffer stores, so its contents
  after the body are the last store's value.
-/
import proofs.«177653_j8959301779747_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.GIN.Reg12

open Cert.KernelIdeal Cert.KernelIdeal.Gen

variable {F : FTy → Type} [FloatOps F]

theorem hz : (![0, 0] : Fin 2 → Nat) = fun _ => 0 := funext fun a => by fin_cases a <;> rfl

/-- A later point leaves the product tile of its blocks. -/
theorem out_B_4 (c : Dev nD) (i : grid12.Coords) (a1 : Memref sig .tc .vmem S5000x128 .f32) (h1 : a1.IsWhole) (a2 : Memref sig .tc .vmem S5000x128 .f32) (h2 : a2.IsWhole) (a3 : Memref sig .tc .vmem S1x1 .f32) (h3 : a3.IsWhole) (a4 : Memref sig .tc .vmem S128x64 .f32) (h4 : a4.IsWhole) (a5 : Memref sig .tc .vmem S5000x64 .f32) (h5 : a5.IsWhole) (a6 : Memref sig .tc .vmem S1x64 .f32) (h6 : a6.IsWhole) (a7 : Memref sig .tc .vmem S1x64 .f32) (h7 : a7.IsWhole) (hc : ¬cond12_0 i) (x0 x1 : Vec F S5000x128 .f32) (x2 : Vec F S1x1 .f32) (x3 : Vec F S128x64 .f32) (xo5 xo6 : Vec F S1x64 .f32) :
    out12_B_4 c i a1 h1 a2 h2 a3 h3 a4 h4 a5 h5 a6 h6 a7 h7 hc x0 x1 x2 x3 xo5 xo6 = k12_pay3 x2 x0 x1 x3 := by
  unfold out12_B_4
  rw [View.read_writes_eq_canon _ _ _ (cover12_B_4 c i a1 h1 a2 h2 a3 h3 a4 h4 a5 h5 a6 h6 a7 h7 hc x0 x1 x2 x3 xo5 xo6)]
  unfold kernelRun12_B
  dsimp only
  sl_unfold_words
  rw [View.canon_unit_zero hz]
  simp only [View.readAt_eq_ld, h1.read_unread, h2.read_unread, h3.read_unread, h4.read_unread, h6.read_unread, h7.read_unread,
    View.ld_unit_zero (S := S5000x128) hz, View.ld_unit_zero (S := S1x1) hz, View.ld_unit_zero (S := S128x64) hz,
    View.ld_unit_zero (S := S1x64) hz]

/-- A later point leaves the column-sum row it found plus its tile's column sums. -/
theorem out_B_5 (c : Dev nD) (i : grid12.Coords) (a1 : Memref sig .tc .vmem S5000x128 .f32) (h1 : a1.IsWhole) (a2 : Memref sig .tc .vmem S5000x128 .f32) (h2 : a2.IsWhole) (a3 : Memref sig .tc .vmem S1x1 .f32) (h3 : a3.IsWhole) (a4 : Memref sig .tc .vmem S128x64 .f32) (h4 : a4.IsWhole) (a5 : Memref sig .tc .vmem S5000x64 .f32) (h5 : a5.IsWhole) (a6 : Memref sig .tc .vmem S1x64 .f32) (h6 : a6.IsWhole) (a7 : Memref sig .tc .vmem S1x64 .f32) (h7 : a7.IsWhole) (hc : ¬cond12_0 i) (x0 x1 : Vec F S5000x128 .f32) (x2 : Vec F S1x1 .f32) (x3 : Vec F S128x64 .f32) (xo5 xo6 : Vec F S1x64 .f32) :
    out12_B_5 c i a1 h1 a2 h2 a3 h3 a4 h4 a5 h5 a6 h6 a7 h7 hc x0 x1 x2 x3 xo5 xo6 = k12_pay4 x2 x0 x1 x3 xo5 := by
  unfold out12_B_5
  rw [View.read_writes_eq_canon _ _ _ (cover12_B_5 c i a1 h1 a2 h2 a3 h3 a4 h4 a5 h5 a6 h6 a7 h7 hc x0 x1 x2 x3 xo5 xo6)]
  unfold kernelRun12_B
  dsimp only
  sl_unfold_words
  rw [View.canon_unit_zero hz]
  simp only [View.readAt_eq_ld, h1.read_unread, h2.read_unread, h3.read_unread, h4.read_unread, h6.read_unread, h7.read_unread,
    View.ld_unit_zero (S := S5000x128) hz, View.ld_unit_zero (S := S1x1) hz, View.ld_unit_zero (S := S128x64) hz,
    View.ld_unit_zero (S := S1x64) hz]

/-- A later point leaves the sum-of-squares row it found plus the column sums of its tile's squares. -/
theorem out_B_6 (c : Dev nD) (i : grid12.Coords) (a1 : Memref sig .tc .vmem S5000x128 .f32) (h1 : a1.IsWhole) (a2 : Memref sig .tc .vmem S5000x128 .f32) (h2 : a2.IsWhole) (a3 : Memref sig .tc .vmem S1x1 .f32) (h3 : a3.IsWhole) (a4 : Memref sig .tc .vmem S128x64 .f32) (h4 : a4.IsWhole) (a5 : Memref sig .tc .vmem S5000x64 .f32) (h5 : a5.IsWhole) (a6 : Memref sig .tc .vmem S1x64 .f32) (h6 : a6.IsWhole) (a7 : Memref sig .tc .vmem S1x64 .f32) (h7 : a7.IsWhole) (hc : ¬cond12_0 i) (x0 x1 : Vec F S5000x128 .f32) (x2 : Vec F S1x1 .f32) (x3 : Vec F S128x64 .f32) (xo5 xo6 : Vec F S1x64 .f32) :
    out12_B_6 c i a1 h1 a2 h2 a3 h3 a4 h4 a5 h5 a6 h6 a7 h7 hc x0 x1 x2 x3 xo5 xo6 = k12_pay5 x2 x0 x1 x3 xo6 := by
  unfold out12_B_6
  rw [View.read_writes_eq_canon _ _ _ (cover12_B_6 c i a1 h1 a2 h2 a3 h3 a4 h4 a5 h5 a6 h6 a7 h7 hc x0 x1 x2 x3 xo5 xo6)]
  unfold kernelRun12_B
  dsimp only
  sl_unfold_words
  rw [View.canon_unit_zero hz]
  simp only [View.readAt_eq_ld, h1.read_unread, h2.read_unread, h3.read_unread, h4.read_unread, h6.read_unread, h7.read_unread,
    View.ld_unit_zero (S := S5000x128) hz, View.ld_unit_zero (S := S1x1) hz, View.ld_unit_zero (S := S128x64) hz,
    View.ld_unit_zero (S := S1x64) hz]

/-- The first point leaves the product tile of its blocks. -/
theorem out_A_4 (c : Dev nD) (i : grid12.Coords) (a1 : Memref sig .tc .vmem S5000x128 .f32) (h1 : a1.IsWhole) (a2 : Memref sig .tc .vmem S5000x128 .f32) (h2 : a2.IsWhole) (a3 : Memref sig .tc .vmem S1x1 .f32) (h3 : a3.IsWhole) (a4 : Memref sig .tc .vmem S128x64 .f32) (h4 : a4.IsWhole) (a5 : Memref sig .tc .vmem S5000x64 .f32) (h5 : a5.IsWhole) (a6 : Memref sig .tc .vmem S1x64 .f32) (h6 : a6.IsWhole) (a7 : Memref sig .tc .vmem S1x64 .f32) (h7 : a7.IsWhole) (hc : cond12_0 i) (x0 x1 : Vec F S5000x128 .f32) (x2 : Vec F S1x1 .f32) (x3 : Vec F S128x64 .f32) :
    out12_A_4 c i a1 h1 a2 h2 a3 h3 a4 h4 a5 h5 a6 h6 a7 h7 hc x0 x1 x2 x3 = k12_pay3 x2 x0 x1 x3 := by
  unfold out12_A_4
  rw [View.read_writes_eq_canon _ _ _ (cover12_A_4 c i a1 h1 a2 h2 a3 h3 a4 h4 a5 h5 a6 h6 a7 h7 hc x0 x1 x2 x3)]
  unfold kernelRun12_A
  dsimp only
  sl_unfold_words
  rw [View.canon_unit_zero hz]
  simp only [View.readAt_eq_ld, h1.read_unread, h2.read_unread, h3.read_unread, h4.read_unread, h6.read_unread, h7.read_unread,
    View.ld_unit_zero (S := S5000x128) hz, View.ld_unit_zero (S := S1x1) hz, View.ld_unit_zero (S := S128x64) hz,
    View.ld_unit_zero (S := S1x64) hz]

/-- The first point leaves the zero row plus its tile's column sums. -/
theorem out_A_5 (c : Dev nD) (i : grid12.Coords) (a1 : Memref sig .tc .vmem S5000x128 .f32) (h1 : a1.IsWhole) (a2 : Memref sig .tc .vmem S5000x128 .f32) (h2 : a2.IsWhole) (a3 : Memref sig .tc .vmem S1x1 .f32) (h3 : a3.IsWhole) (a4 : Memref sig .tc .vmem S128x64 .f32) (h4 : a4.IsWhole) (a5 : Memref sig .tc .vmem S5000x64 .f32) (h5 : a5.IsWhole) (a6 : Memref sig .tc .vmem S1x64 .f32) (h6 : a6.IsWhole) (a7 : Memref sig .tc .vmem S1x64 .f32) (h7 : a7.IsWhole) (hc : cond12_0 i) (x0 x1 : Vec F S5000x128 .f32) (x2 : Vec F S1x1 .f32) (x3 : Vec F S128x64 .f32) :
    out12_A_5 c i a1 h1 a2 h2 a3 h3 a4 h4 a5 h5 a6 h6 a7 h7 hc x0 x1 x2 x3 = k12_pay4 x2 x0 x1 x3 k12_pay1 := by
  unfold out12_A_5
  rw [View.read_writes_eq_canon _ _ _ (cover12_A_5 c i a1 h1 a2 h2 a3 h3 a4 h4 a5 h5 a6 h6 a7 h7 hc x0 x1 x2 x3)]
  unfold kernelRun12_A
  dsimp only
  sl_unfold_words
  rw [View.canon_cons_unit_zero (S := S1x64) hz, View.readCov_unit_zero (S := S1x64) _ hz]
  simp only [View.readAt_eq_ld, h1.read_unread, h2.read_unread, h3.read_unread, h4.read_unread, h6.read_unread, h7.read_unread,
    View.ld_unit_zero (S := S5000x128) hz, View.ld_unit_zero (S := S1x1) hz, View.ld_unit_zero (S := S128x64) hz,
    View.ld_unit_zero (S := S1x64) hz]

/-- The first point leaves the zero row plus the column sums of its tile's squares. -/
theorem out_A_6 (c : Dev nD) (i : grid12.Coords) (a1 : Memref sig .tc .vmem S5000x128 .f32) (h1 : a1.IsWhole) (a2 : Memref sig .tc .vmem S5000x128 .f32) (h2 : a2.IsWhole) (a3 : Memref sig .tc .vmem S1x1 .f32) (h3 : a3.IsWhole) (a4 : Memref sig .tc .vmem S128x64 .f32) (h4 : a4.IsWhole) (a5 : Memref sig .tc .vmem S5000x64 .f32) (h5 : a5.IsWhole) (a6 : Memref sig .tc .vmem S1x64 .f32) (h6 : a6.IsWhole) (a7 : Memref sig .tc .vmem S1x64 .f32) (h7 : a7.IsWhole) (hc : cond12_0 i) (x0 x1 : Vec F S5000x128 .f32) (x2 : Vec F S1x1 .f32) (x3 : Vec F S128x64 .f32) :
    out12_A_6 c i a1 h1 a2 h2 a3 h3 a4 h4 a5 h5 a6 h6 a7 h7 hc x0 x1 x2 x3 = k12_pay5 x2 x0 x1 x3 k12_pay2 := by
  unfold out12_A_6
  rw [View.read_writes_eq_canon _ _ _ (cover12_A_6 c i a1 h1 a2 h2 a3 h3 a4 h4 a5 h5 a6 h6 a7 h7 hc x0 x1 x2 x3)]
  unfold kernelRun12_A
  dsimp only
  sl_unfold_words
  rw [View.canon_cons_unit_zero (S := S1x64) hz, View.readCov_unit_zero (S := S1x64) _ hz]
  simp only [View.readAt_eq_ld, h1.read_unread, h2.read_unread, h3.read_unread, h4.read_unread, h6.read_unread, h7.read_unread,
    View.ld_unit_zero (S := S5000x128) hz, View.ld_unit_zero (S := S1x1) hz, View.ld_unit_zero (S := S128x64) hz,
    View.ld_unit_zero (S := S1x64) hz]

end Cert.GIN.Reg12

end
-- ==== Proof.Reg12Pay.lean ====
/-
  The arithmetic of one grid point of the combine–product–statistics kernel, read at an index over the extended reals.

  At a grid point the body holds a tile of 5000 rows.  It forms `scale · x + agg` entry by entry, multiplies the tile by the
  128×64 weight matrix into a zero accumulator (the narrowing of both operands is the identity on extended reals), and
  adds to each of two 1×64 rows the column sums of the product tile and of its entrywise squares.  The three lemmas below
  read these three stored values at an entry: the product entry `(p, j)` is the sum over `q < 128` of
  `(scale · x(p, q) + agg(p, q)) · w(q, j)`; the statistics rows at `(0, j)` are the carried row plus the sum over the
  tile's 5000 rows of the product entries, respectively of their squares.
-/
import proofs.«177653_j8959301779747_1_alg».proof.Proof.Spec
import proofs.«177653_j8959301779747_1_alg».proof.Proof.LibPlainDot
import proofs.«177653_j8959301779747_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.GIN.Reg12

open Idealize.ShloMosaic Idealize.ShloMosaic.ValueIdx
open Cert.KernelIdeal Cert.KernelIdeal.Gen Cert.GIN

/-- The 1×1 scale spread over a 5000×128 tile reads the scale's one entry everywhere. -/
theorem scale_ix (v : FVec Ideal S1x1 .f32) (p : Fin 5000) (q : Fin 128) :
    broadcastTo S5000x128 v broadcasts_S1x1_S5000x128 (ix2 p q) = v (ix2 0 0) :=
  broadcastTo_apply v broadcasts_S1x1_S5000x128 (ix2 p q) (ix2 0 0) fun a => by
    match a with
    | ⟨0, _⟩ => rfl
    | ⟨1, _⟩ => rfl

/-- The source index of a column reduction of a 5000×64 tile: row `p` over the result's column `j`. -/
theorem lift_ix (j : Fin 64) (p : Fin 5000) :
    reduces_S5000x64_S64.lift (fun a => (ix2 (0 : Fin 1) j) a.succ) p = ix2 p j := by
  funext c
  apply Fin.ext
  match c with
  | ⟨0, _⟩ => rfl
  | ⟨1, _⟩ => rfl

/-- A column reduction of a 5000×64 tile from the zero word, stored as a 1×64 row, reads at `(0, j)` the sum of column
    `j` over the tile's rows. -/
theorem colred_ix (src : FVec Ideal S5000x64 .f32) (j : Fin 64) :
    shapeCast S1x64 (multiReduction (F := Ideal) .add [0] S64 src 0x00000000#32 reduces_S5000x64_S64 (.inl rfl) rfl)
        shapeCasts_S64_S1x64 (ix2 0 j) = ∑ p : Fin 5000, src (ix2 p j) := by
  refine (shapeCast_addUnit_apply ![64] _ shapeCasts_S64_S1x64 (ix2 0 j)).trans ?_
  refine (Ideal.multiReduction_add_single src 0x00000000#32 reduces_S5000x64_S64 (.inl rfl) rfl _).trans ?_
  exact Finset.sum_congr rfl fun p _ => congrArg src (lift_ix j p)

/-- The product tile at `(p, j)`. -/
theorem pay3_ix (v3 : Vec Ideal S1x1 .f32) (v5 v8 : Vec Ideal S5000x128 .f32) (v12 : Vec Ideal S128x64 .f32)
    (p : Fin 5000) (j : Fin 64) :
    k12_pay3 (F := Ideal) v3 v5 v8 v12 (ix2 p j)
      = ∑ q : Fin 128, (v3 (ix2 0 0) * v5 (ix2 p q) + v8 (ix2 p q)) * v12 (ix2 q j) := by
  unfold k12_pay3
  simp only [shapeCast_self]
  refine (Cert.PlainDot.matmul_zero_ix2 dot_S5000x128_S128x64_S5000x64_1_0_0_1_n_n rfl none _ _ p j).trans ?_
  refine Finset.sum_congr rfl fun q _ => ?_
  show (broadcastTo S5000x128 v3 broadcasts_S1x1_S5000x128 (ix2 p q) * v5 (ix2 p q) + v8 (ix2 p q)) * v12 (ix2 q j) = _
  rw [scale_ix v3 p q]

/-- The column-sum row after the point: the carried row plus the tile's column sums. -/
theorem pay4_ix (v3 : Vec Ideal S1x1 .f32) (v5 v8 : Vec Ideal S5000x128 .f32) (v12 : Vec Ideal S128x64 .f32)
    (r : Vec Ideal S1x64 .f32) (j : Fin 64) :
    k12_pay4 (F := Ideal) v3 v5 v8 v12 r (ix2 0 j)
      = r (ix2 0 j) + ∑ p : Fin 5000, k12_pay3 (F := Ideal) v3 v5 v8 v12 (ix2 p j) := by
  unfold k12_pay4
  simp only [shapeCast_self]
  exact congrArg (r (ix2 0 j) + ·) (colred_ix (k12_pay3 (F := Ideal) v3 v5 v8 v12) j)

/-- The sum-of-squares row after the point: the carried row plus the column sums of the tile's squares. -/
theorem pay5_ix (v3 : Vec Ideal S1x1 .f32) (v5 v8 : Vec Ideal S5000x128 .f32) (v12 : Vec Ideal S128x64 .f32)
    (r : Vec Ideal S1x64 .f32) (j : Fin 64) :
    k12_pay5 (F := Ideal) v3 v5 v8 v12 r (ix2 0 j)
      = r (ix2 0 j) + ∑ p : Fin 5000, k12_pay3 (F := Ideal) v3 v5 v8 v12 (ix2 p j) * k12_pay3 (F := Ideal) v3 v5 v8 v12 (ix2 p j) := by
  unfold k12_pay5
  simp only [shapeCast_self]
  exact congrArg (r (ix2 0 j) + ·)
    (colred_ix (mulf (k12_pay3 (F := Ideal) v3 v5 v8 v12) (k12_pay3 (F := Ideal) v3 v5 v8 v12)) j)

/-- The two rows the first point stores before accumulating are zero. -/
theorem pay1_ix (j : Fin 64) : k12_pay1 (F := Ideal) (ix2 0 j) = 0 := by
  unfold k12_pay1
  exact Ideal.ofBits_zero_f32

theorem pay2_ix (j : Fin 64) : k12_pay2 (F := Ideal) (ix2 0 j) = 0 := by
  unfold k12_pay2
  exact Ideal.ofBits_zero_f32

end Cert.GIN.Reg12

end
-- ==== Proof.Reg12.lean ====
/-
  The value of the combine–product–statistics region, as whole-array functions of what the region finds.

  The grid has ten points; point `t` holds rows `5000 t … 5000 t + 4999` of the node features `x` and of the neighbour
  sums `agg`, the whole 1×1 scale and the whole 128×64 weight matrix.  Every point stores the tile
  `(scale · x + agg) · w` of its rows as block `t` of the product array, so that array ends as the product itself: row `r`
  is written by point `r / 5000`.  The two statistics rows have one block that never moves: point 0 zeroes them, every
  point adds its tile's column sums (of the entries, and of their squares), and the rows are written back after the last
  point only.  By induction on the point they hold, after point `n`, the sum over tiles `0 … n` of the tile's column
  sums; after point 9 that is the tiled column sum of the specification.
-/
import proofs.«177653_j8959301779747_1_alg».proof.Proof.Spec
import proofs.«177653_j8959301779747_1_alg».proof.Proof.LibPlainDot
import proofs.«177653_j8959301779747_1_alg».proof.Proof.Gen.KernelIdeal.Frame
import proofs.«177653_j8959301779747_1_alg».proof.Proof.Reg12Pieces
import proofs.«177653_j8959301779747_1_alg».proof.Proof.Reg12Pay
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.ShloMosaic.ValueIdx Idealize.SL.Sem
open Idealize.ShloMosaic.Pipeline (Dat)

namespace Cert.GIN.Reg12

open Cert.KernelIdeal Cert.KernelIdeal.Gen Cert.GIN

variable (V : (c : Dev nD) → (b : Ref sig .tc) → Buf (Elt Ideal) ((c : Thread nD τ).loc b)) (c : Dev nD)

/-- The node features, the neighbour sums, the scale and the weights as the region finds them, as matrices. -/
abbrev Xx : Mat 50000 128 := V c (Pipeline.arrRef spec12 0)
abbrev Xa : Mat 50000 128 := V c (Pipeline.arrRef spec12 1)
abbrev Xs : Mat 1 1 := V c (Pipeline.arrRef spec12 2)
abbrev Xw : Mat 128 64 := V c (Pipeline.arrRef spec12 3)
/-- The product the region computes. -/
abbrev Z : Mat 50000 64 := mm (comb (Xs V c) (Xx V c) (Xa V c)) (Xw V c)

/-- The block index maps over the grid: the row-tiled windows move with the point along the rows, the others stay. -/
theorem idx_facts : ∀ t : Fin cfg12.N,
    win12_0.index t (0 : Fin 2) = t.val ∧ win12_0.index t (1 : Fin 2) = 0
  ∧ win12_1.index t (0 : Fin 2) = t.val ∧ win12_1.index t (1 : Fin 2) = 0
  ∧ win12_2.index t (0 : Fin 2) = 0 ∧ win12_2.index t (1 : Fin 2) = 0
  ∧ win12_3.index t (0 : Fin 2) = 0 ∧ win12_3.index t (1 : Fin 2) = 0
  ∧ win12_4.index t (0 : Fin 2) = t.val ∧ win12_4.index t (1 : Fin 2) = 0
  ∧ win12_5.index t (0 : Fin 2) = 0 ∧ win12_5.index t (1 : Fin 2) = 0
  ∧ win12_6.index t (0 : Fin 2) = 0 ∧ win12_6.index t (1 : Fin 2) = 0 :=
  (by decide +kernel : ∀ t : Fin grid12.N, _)

theorem lt_ten (t : Fin cfg12.N) : t.val < 10 := by
  have h : t.val < grid12.N := t.isLt
  rw [N_12] at h; exact h

/-! ## The input blocks, read at an entry -/

theorem blk0_ix (t : Fin cfg12.N) (p : Fin 5000) (q : Fin 128) (h : 5000 * t.val + p.val < 50000) :
    (iblk12 V c 0 t : Vec Ideal S5000x128 .f32) (ix2 p q) = Xx V c (ix2 ⟨5000 * t.val + p.val, h⟩ q) := by
  obtain ⟨e0, e1, -⟩ := idx_facts t
  unfold iblk12
  rw [View.read_apply]
  show V c (Pipeline.arrRef spec12 0) _ = V c (Pipeline.arrRef spec12 0) _
  congr 1
  funext a
  apply Fin.ext
  match a with
  | ⟨0, _⟩ => show win12_0.index t 0 * 5000 + 1 * p.val = 5000 * t.val + p.val; rw [e0]; omega
  | ⟨1, _⟩ => show win12_0.index t 1 * 128 + 1 * q.val = q.val; rw [e1]; omega

theorem blk1_ix (t : Fin cfg12.N) (p : Fin 5000) (q : Fin 128) (h : 5000 * t.val + p.val < 50000) :
    (iblk12 V c 1 t : Vec Ideal S5000x128 .f32) (ix2 p q) = Xa V c (ix2 ⟨5000 * t.val + p.val, h⟩ q) := by
  obtain ⟨-, -, e0, e1, -⟩ := idx_facts t
  unfold iblk12
  rw [View.read_apply]
  show V c (Pipeline.arrRef spec12 1) _ = V c (Pipeline.arrRef spec12 1) _
  congr 1
  funext a
  apply Fin.ext
  match a with
  | ⟨0, _⟩ => show win12_1.index t 0 * 5000 + 1 * p.val = 5000 * t.val + p.val; rw [e0]; omega
  | ⟨1, _⟩ => show win12_1.index t 1 * 128 + 1 * q.val = q.val; rw [e1]; omega

theorem blk2_ix (t : Fin cfg12.N) :
    (iblk12 V c 2 t : Vec Ideal S1x1 .f32) (ix2 0 0) = Xs V c (ix2 0 0) := by
  obtain ⟨-, -, -, -, e0, e1, -⟩ := idx_facts t
  unfold iblk12
  rw [View.read_apply]
  show V c (Pipeline.arrRef spec12 2) _ = V c (Pipeline.arrRef spec12 2) _
  congr 1
  funext a
  apply Fin.ext
  match a with
  | ⟨0, _⟩ => show win12_2.index t 0 * 1 + 1 * 0 = 0; rw [e0]
  | ⟨1, _⟩ => show win12_2.index t 1 * 1 + 1 * 0 = 0; rw [e1]

theorem blk3_ix (t : Fin cfg12.N) (q : Fin 128) (j : Fin 64) :
    (iblk12 V c 3 t : Vec Ideal S128x64 .f32) (ix2 q j) = Xw V c (ix2 q j) := by
  obtain ⟨-, -, -, -, -, -, e0, e1, -⟩ := idx_facts t
  unfold iblk12
  rw [View.read_apply]
  show V c (Pipeline.arrRef spec12 3) _ = V c (Pipeline.arrRef spec12 3) _
  congr 1
  funext a
  apply Fin.ext
  match a with
  | ⟨0, _⟩ => show win12_3.index t 0 * 128 + 1 * q.val = q.val; rw [e0]; omega
  | ⟨1, _⟩ => show win12_3.index t 1 * 64 + 1 * j.val = j.val; rw [e1]; omega

/-! ## The product tile of a point is the point's rows of the product -/

/-- The product tile point `t` computes from its blocks. -/
abbrev tile (t : Fin cfg12.N) : Vec Ideal S5000x64 .f32 :=
  k12_pay3 (F := Ideal) (iblk12 V c 2 t) (iblk12 V c 0 t) (iblk12 V c 1 t) (iblk12 V c 3 t)

theorem tile_ix (t : Fin cfg12.N) (p : Fin 5000) (j : Fin 64) (h : 5000 * t.val + p.val < 50000) :
    tile V c t (ix2 p j) = Z V c (ix2 ⟨5000 * t.val + p.val, h⟩ j) := by
  refine (pay3_ix (iblk12 V c 2 t) (iblk12 V c 0 t) (iblk12 V c 1 t) (iblk12 V c 3 t) p j).trans ?_
  show _ = ∑ q : Fin 128, (Xs V c (ix2 0 0) * Xx V c (ix2 ⟨5000 * t.val + p.val, h⟩ q) + Xa V c (ix2 ⟨5000 * t.val + p.val, h⟩ q)) * Xw V c (ix2 q j)
  refine Finset.sum_congr rfl fun q _ => ?_
  rw [blk0_ix V c t p q h, blk1_ix V c t p q h, blk2_ix V c t, blk3_ix V c t q j]

/-- Every point, first or not, leaves its product tile in the product's block. -/
theorem outs4 (t : Fin cfg12.N) : (outsAt12 V c t.val t.isLt).1 = tile V c t := by
  by_cases h0 : t.val % 10 = 0
  · rw [outsAt12_A V c t h0]
    dsimp only
    exact out_A_4 (F := Ideal) c (grid12.coords t) (ms12_0 t) (hs12_0 t) (ms12_1 t) (hs12_1 t) (ms12_2 t) (hs12_2 t) (ms12_3 t) (hs12_3 t) (ms12_4 t) (hs12_4 t) (ms12_5 t) (hs12_5 t) (ms12_6 t) (hs12_6 t) ((hcond12_0 t).mpr h0) (iblk12 V c 0 t) (iblk12 V c 1 t) (iblk12 V c 2 t) (iblk12 V c 3 t)
  · rw [outsAt12_B V c t h0]
    dsimp only
    exact out_B_4 (F := Ideal) c (grid12.coords t) (ms12_0 t) (hs12_0 t) (ms12_1 t) (hs12_1 t) (ms12_2 t) (hs12_2 t) (ms12_3 t) (hs12_3 t) (ms12_4 t) (hs12_4 t) (ms12_5 t) (hs12_5 t) (ms12_6 t) (hs12_6 t) (fun h => h0 ((hcond12_0 t).mp h)) (iblk12 V c 0 t) (iblk12 V c 1 t) (iblk12 V c 2 t) (iblk12 V c 3 t) (outsAt12 V c (t.val - 1) (Nat.lt_of_le_of_lt (Nat.sub_le _ _) t.isLt)).2.1 (outsAt12 V c (t.val - 1) (Nat.lt_of_le_of_lt (Nat.sub_le _ _) t.isLt)).2.2

/-! ## The statistics rows after each point -/

/-- Column `j` of `z` summed over the rows of tile `t` (zero past the tenth tile). -/
def tsum (z : Mat 50000 64) (j : Fin 64) (t : ℕ) : EReal :=
  if h : t < 10 then ∑ p : Fin 5000, z (ix2 ⟨5000 * t + p.val, by have := p.isLt; omega⟩ j) else 0

/-- The tiled column sum of the specification is the sum of the ten tile sums. -/
theorem colSum_eq (z : Mat 50000 64) (j : Fin 64) : colSum z (ix2 0 j) = ∑ t ∈ Finset.range 10, tsum z j t := by
  rw [Finset.sum_range]
  unfold colSum
  refine Finset.sum_congr rfl fun t _ => ?_
  unfold tsum
  rw [dif_pos t.isLt]

theorem tile_sum (t : Fin cfg12.N) (j : Fin 64) :
    ∑ p : Fin 5000, tile V c t (ix2 p j) = tsum (Z V c) j t.val := by
  have ht := lt_ten t
  unfold tsum
  rw [dif_pos ht]
  exact Finset.sum_congr rfl fun p _ => tile_ix V c t p j _

theorem tile_sumsq (t : Fin cfg12.N) (j : Fin 64) :
    ∑ p : Fin 5000, tile V c t (ix2 p j) * tile V c t (ix2 p j) = tsum (fun i => Z V c i * Z V c i) j t.val := by
  have ht := lt_ten t
  unfold tsum
  rw [dif_pos ht]
  exact Finset.sum_congr rfl fun p _ => by rw [tile_ix V c t p j _]

/-- At the first point the rows are zeroed and then hold the first tile's sums. -/
theorem s_first (t : Fin cfg12.N) (h0 : t.val % 10 = 0) (j : Fin 64) :
    (outsAt12 V c t.val t.isLt).2.1 (ix2 0 j) = tsum (Z V c) j t.val
  ∧ (outsAt12 V c t.val t.isLt).2.2 (ix2 0 j) = tsum (fun i => Z V c i * Z V c i) j t.val := by
  have e5 : (outsAt12 V c t.val t.isLt).2.1 = k12_pay4 (F := Ideal) (iblk12 V c 2 t) (iblk12 V c 0 t) (iblk12 V c 1 t) (iblk12 V c 3 t) (k12_pay1 (F := Ideal)) := by
    rw [outsAt12_A V c t h0]
    dsimp only
    exact out_A_5 (F := Ideal) c (grid12.coords t) (ms12_0 t) (hs12_0 t) (ms12_1 t) (hs12_1 t) (ms12_2 t) (hs12_2 t) (ms12_3 t) (hs12_3 t) (ms12_4 t) (hs12_4 t) (ms12_5 t) (hs12_5 t) (ms12_6 t) (hs12_6 t) ((hcond12_0 t).mpr h0) (iblk12 V c 0 t) (iblk12 V c 1 t) (iblk12 V c 2 t) (iblk12 V c 3 t)
  have e6 : (outsAt12 V c t.val t.isLt).2.2 = k12_pay5 (F := Ideal) (iblk12 V c 2 t) (iblk12 V c 0 t) (iblk12 V c 1 t) (iblk12 V c 3 t) (k12_pay2 (F := Ideal)) := by
    rw [outsAt12_A V c t h0]
    dsimp only
    exact out_A_6 (F := Ideal) c (grid12.coords t) (ms12_0 t) (hs12_0 t) (ms12_1 t) (hs12_1 t) (ms12_2 t) (hs12_2 t) (ms12_3 t) (hs12_3 t) (ms12_4 t) (hs12_4 t) (ms12_5 t) (hs12_5 t) (ms12_6 t) (hs12_6 t) ((hcond12_0 t).mpr h0) (iblk12 V c 0 t) (iblk12 V c 1 t) (iblk12 V c 2 t) (iblk12 V c 3 t)
  constructor
  · refine (congrFun e5 (ix2 0 j)).trans ((pay4_ix (iblk12 V c 2 t) (iblk12 V c 0 t) (iblk12 V c 1 t) (iblk12 V c 3 t) (k12_pay1 (F := Ideal)) j).trans ?_)
    rw [pay1_ix, zero_add]
    exact tile_sum V c t j
  · refine (congrFun e6 (ix2 0 j)).trans ((pay5_ix (iblk12 V c 2 t) (iblk12 V c 0 t) (iblk12 V c 1 t) (iblk12 V c 3 t) (k12_pay2 (F := Ideal)) j).trans ?_)
    rw [pay2_ix, zero_add]
    exact tile_sumsq V c t j

/-- At a later point the rows hold what the point before left plus the point's tile sums. -/
theorem s_next (t : Fin cfg12.N) (h0 : ¬t.val % 10 = 0) (j : Fin 64) :
    (outsAt12 V c t.val t.isLt).2.1 (ix2 0 j) = (outsAt12 V c (t.val - 1) (Nat.lt_of_le_of_lt (Nat.sub_le _ _) t.isLt)).2.1 (ix2 0 j) + tsum (Z V c) j t.val
  ∧ (outsAt12 V c t.val t.isLt).2.2 (ix2 0 j) = (outsAt12 V c (t.val - 1) (Nat.lt_of_le_of_lt (Nat.sub_le _ _) t.isLt)).2.2 (ix2 0 j) + tsum (fun i => Z V c i * Z V c i) j t.val := by
  have e5 : (outsAt12 V c t.val t.isLt).2.1 = k12_pay4 (F := Ideal) (iblk12 V c 2 t) (iblk12 V c 0 t) (iblk12 V c 1 t) (iblk12 V c 3 t) (outsAt12 V c (t.val - 1) (Nat.lt_of_le_of_lt (Nat.sub_le _ _) t.isLt)).2.1 := by
    rw [outsAt12_B V c t h0]
    dsimp only
    exact out_B_5 (F := Ideal) c (grid12.coords t) (ms12_0 t) (hs12_0 t) (ms12_1 t) (hs12_1 t) (ms12_2 t) (hs12_2 t) (ms12_3 t) (hs12_3 t) (ms12_4 t) (hs12_4 t) (ms12_5 t) (hs12_5 t) (ms12_6 t) (hs12_6 t) (fun h => h0 ((hcond12_0 t).mp h)) (iblk12 V c 0 t) (iblk12 V c 1 t) (iblk12 V c 2 t) (iblk12 V c 3 t) (outsAt12 V c (t.val - 1) (Nat.lt_of_le_of_lt (Nat.sub_le _ _) t.isLt)).2.1 (outsAt12 V c (t.val - 1) (Nat.lt_of_le_of_lt (Nat.sub_le _ _) t.isLt)).2.2
  have e6 : (outsAt12 V c t.val t.isLt).2.2 = k12_pay5 (F := Ideal) (iblk12 V c 2 t) (iblk12 V c 0 t) (iblk12 V c 1 t) (iblk12 V c 3 t) (outsAt12 V c (t.val - 1) (Nat.lt_of_le_of_lt (Nat.sub_le _ _) t.isLt)).2.2 := by
    rw [outsAt12_B V c t h0]
    dsimp only
    exact out_B_6 (F := Ideal) c (grid12.coords t) (ms12_0 t) (hs12_0 t) (ms12_1 t) (hs12_1 t) (ms12_2 t) (hs12_2 t) (ms12_3 t) (hs12_3 t) (ms12_4 t) (hs12_4 t) (ms12_5 t) (hs12_5 t) (ms12_6 t) (hs12_6 t) (fun h => h0 ((hcond12_0 t).mp h)) (iblk12 V c 0 t) (iblk12 V c 1 t) (iblk12 V c 2 t) (iblk12 V c 3 t) (outsAt12 V c (t.val - 1) (Nat.lt_of_le_of_lt (Nat.sub_le _ _) t.isLt)).2.1 (outsAt12 V c (t.val - 1) (Nat.lt_of_le_of_lt (Nat.sub_le _ _) t.isLt)).2.2
  constructor
  · refine (congrFun e5 (ix2 0 j)).trans ((pay4_ix (iblk12 V c 2 t) (iblk12 V c 0 t) (iblk12 V c 1 t) (iblk12 V c 3 t) (outsAt12 V c (t.val - 1) (Nat.lt_of_le_of_lt (Nat.sub_le _ _) t.isLt)).2.1 j).trans ?_)
    rw [tile_sum V c t j]
  · refine (congrFun e6 (ix2 0 j)).trans ((pay5_ix (iblk12 V c 2 t) (iblk12 V c 0 t) (iblk12 V c 1 t) (iblk12 V c 3 t) (outsAt12 V c (t.val - 1) (Nat.lt_of_le_of_lt (Nat.sub_le _ _) t.isLt)).2.2 j).trans ?_)
    rw [tile_sumsq V c t j]

/-- After point `n` the rows hold the sums over tiles `0 … n`. -/
theorem stats_inv : ∀ (n : ℕ) (h : n < cfg12.N) (j : Fin 64),
    (outsAt12 V c n h).2.1 (ix2 0 j) = ∑ t ∈ Finset.range (n + 1), tsum (Z V c) j t
  ∧ (outsAt12 V c n h).2.2 (ix2 0 j) = ∑ t ∈ Finset.range (n + 1), tsum (fun i => Z V c i * Z V c i) j t
  | 0, h, j => by
    have e := s_first V c ⟨0, h⟩ rfl j
    rw [Finset.sum_range_one, Finset.sum_range_one]
    exact e
  | n + 1, h, j => by
    have hn : n + 1 < 10 := lt_ten ⟨n + 1, h⟩
    have hB : ¬(⟨n + 1, h⟩ : Fin cfg12.N).val % 10 = 0 := by dsimp only; omega
    have e := s_next V c ⟨n + 1, h⟩ hB j
    have ih := stats_inv n (Nat.lt_of_succ_lt h) j
    rw [Finset.sum_range_succ (fun t => tsum (Z V c) j t) (n + 1),
      Finset.sum_range_succ (fun t => tsum (fun i => Z V c i * Z V c i) j t) (n + 1), ← ih.1, ← ih.2]
    exact e

/-- After the last point the rows are the specification's tiled column sums. -/
theorem stats_last (h : 9 < cfg12.N) :
    (outsAt12 V c 9 h).2.1 = colSum (Z V c) ∧ (outsAt12 V c 9 h).2.2 = colSumSq (Z V c) := by
  constructor
  · funext y
    obtain ⟨i, j, rfl⟩ : ∃ (i : Fin 1) (j : Fin 64), y = ix2 i j := ⟨y 0, y 1, eq_ix2 y⟩
    obtain rfl : i = 0 := Subsingleton.elim _ _
    rw [colSum_eq]
    exact (stats_inv V c 9 h j).1
  · funext y
    obtain ⟨i, j, rfl⟩ : ∃ (i : Fin 1) (j : Fin 64), y = ix2 i j := ⟨y 0, y 1, eq_ix2 y⟩
    obtain rfl : i = 0 := Subsingleton.elim _ _
    show _ = colSum (fun i => Z V c i * Z V c i) (ix2 0 j)
    rw [colSum_eq]
    exact (stats_inv V c 9 h j).2

/-! ## From the blocks to the arrays -/

/-- Point `t` writes back block `t` of the product. -/
theorem flushed4 (t : Fin cfg12.N) :
    (dat12 V c).flushed 4 t = ((cfg12.win 4).blk t).view.read (Elt Ideal) (Z V c) := by
  obtain ⟨-, -, -, -, -, -, -, -, e0, e1, -⟩ := idx_facts t
  have ht := lt_ten t
  show (cfg12.win 4).cut (grid12.coords t) ((dat12 V c).after 4 t) = _
  rw [after12_4, outs4]
  funext y
  obtain ⟨p, j, rfl⟩ : ∃ (p : Fin 5000) (j : Fin 64), y = ix2 p j := ⟨y 0, y 1, eq_ix2 y⟩
  rw [View.read_apply]
  show tile V c t (ix2 p j) = Z V c (((cfg12.win 4).blk t).view.emb (ix2 p j))
  rw [tile_ix V c t p j (by have := p.isLt; omega)]
  congr 1
  funext a
  apply Fin.ext
  match a with
  | ⟨0, _⟩ => show 5000 * t.val + p.val = win12_4.index t 0 * 5000 + 1 * p.val; rw [e0]; omega
  | ⟨1, _⟩ => show j.val = win12_4.index t 1 * 64 + 1 * j.val; rw [e1]; omega

/-- Row `r` of the product lies in the block of point `r / 5000`. -/
theorem cover4 (i : S50000x64.Idx) :
    ∃ t : Fin cfg12.N, (cfg12.win 4).flush t = true ∧ i ∈ ((cfg12.win 4).blk t).view.set := by
  have hi0 : (i 0).val < 50000 := (i 0).isLt
  have hi1 : (i 1).val < 64 := (i 1).isLt
  have hN : grid12.N = 10 := N_12
  let t : Fin cfg12.N := ⟨(i 0).val / 5000, by show _ < grid12.N; rw [hN]; omega⟩
  obtain ⟨-, -, -, -, -, -, -, -, e0, e1, -⟩ := idx_facts t
  have e0' : win12_4.index t 0 = (i 0).val / 5000 := e0
  refine ⟨t, flush12_4 t, ?_⟩
  show i ∈ ((View.whole main_v158_0).slice (win12_4.rect t)).set
  rw [View.set_slice_whole, Rect.mem_set_unit]
  intro a
  match a with
  | ⟨0, _⟩ => show win12_4.index t 0 * 5000 ≤ (i 0).val ∧ (i 0).val < win12_4.index t 0 * 5000 + 5000
              rw [e0']; omega
  | ⟨1, _⟩ => show win12_4.index t 1 * 64 ≤ (i 1).val ∧ (i 1).val < win12_4.index t 1 * 64 + 64
              rw [e1]; omega

/-- The column-sum row is written back after the last point only; its one block is the whole row. -/
theorem flushed5 (t : Fin cfg12.N) (hf : (cfg12.win 5).flush t = true) :
    (dat12 V c).flushed 5 t = ((cfg12.win 5).blk t).view.read (Elt Ideal) (colSum (Z V c)) := by
  have ht := lt_ten t
  have h9 : t.val = 9 := by have := (flush12_5 t).mp hf; omega
  obtain ⟨-, -, -, -, -, -, -, -, -, -, e0, e1, -⟩ := idx_facts t
  show (cfg12.win 5).cut (grid12.coords t) ((dat12 V c).after 5 t) = _
  rw [after12_5]
  funext y
  rw [View.read_apply]
  show (outsAt12 V c t.val t.isLt).2.1 y = colSum (Z V c) (((cfg12.win 5).blk t).view.emb y)
  have hemb : ((cfg12.win 5).blk t).view.emb y = y := by
    funext a
    apply Fin.ext
    match a with
    | ⟨0, _⟩ => show win12_5.index t 0 * 1 + 1 * (y 0).val = (y 0).val; rw [e0]; omega
    | ⟨1, _⟩ => show win12_5.index t 1 * 64 + 1 * (y 1).val = (y 1).val; rw [e1]; omega
  rw [hemb]
  have key : ∀ (n : ℕ) (h : n < cfg12.N), n = 9 → (outsAt12 V c n h).2.1 = colSum (Z V c) := by
    intro n h e
    subst e
    exact (stats_last V c h).1
  exact congrFun (key t.val t.isLt h9) y

/-- The last point's block covers the row. -/
theorem cover5 (i : S1x64.Idx) :
    ∃ t : Fin cfg12.N, (cfg12.win 5).flush t = true ∧ i ∈ ((cfg12.win 5).blk t).view.set := by
  have hi0 : (i 0).val < 1 := (i 0).isLt
  have hi1 : (i 1).val < 64 := (i 1).isLt
  obtain ⟨-, -, -, -, -, -, -, -, -, -, e0, e1, -⟩ := idx_facts t12_9
  refine ⟨t12_9, (flush12_5 t12_9).mpr rfl, ?_⟩
  show i ∈ ((View.whole main_v158_1).slice (win12_5.rect t12_9)).set
  rw [View.set_slice_whole, Rect.mem_set_unit]
  intro a
  match a with
  | ⟨0, _⟩ => show win12_5.index t12_9 0 * 1 ≤ (i 0).val ∧ (i 0).val < win12_5.index t12_9 0 * 1 + 1
              rw [e0]; omega
  | ⟨1, _⟩ => show win12_5.index t12_9 1 * 64 ≤ (i 1).val ∧ (i 1).val < win12_5.index t12_9 1 * 64 + 64
              rw [e1]; omega

/-- The sum-of-squares row is written back after the last point only; its one block is the whole row. -/
theorem flushed6 (t : Fin cfg12.N) (hf : (cfg12.win 6).flush t = true) :
    (dat12 V c).flushed 6 t = ((cfg12.win 6).blk t).view.read (Elt Ideal) (colSumSq (Z V c)) := by
  have ht := lt_ten t
  have h9 : t.val = 9 := by have := (flush12_6 t).mp hf; omega
  obtain ⟨-, -, -, -, -, -, -, -, -, -, -, -, e0, e1⟩ := idx_facts t
  show (cfg12.win 6).cut (grid12.coords t) ((dat12 V c).after 6 t) = _
  rw [after12_6]
  funext y
  rw [View.read_apply]
  show (outsAt12 V c t.val t.isLt).2.2 y = colSumSq (Z V c) (((cfg12.win 6).blk t).view.emb y)
  have hemb : ((cfg12.win 6).blk t).view.emb y = y := by
    funext a
    apply Fin.ext
    match a with
    | ⟨0, _⟩ => show win12_6.index t 0 * 1 + 1 * (y 0).val = (y 0).val; rw [e0]; omega
    | ⟨1, _⟩ => show win12_6.index t 1 * 64 + 1 * (y 1).val = (y 1).val; rw [e1]; omega
  rw [hemb]
  have key : ∀ (n : ℕ) (h : n < cfg12.N), n = 9 → (outsAt12 V c n h).2.2 = colSumSq (Z V c) := by
    intro n h e
    subst e
    exact (stats_last V c h).2
  exact congrFun (key t.val t.isLt h9) y

/-- The last point's block covers the row. -/
theorem cover6 (i : S1x64.Idx) :
    ∃ t : Fin cfg12.N, (cfg12.win 6).flush t = true ∧ i ∈ ((cfg12.win 6).blk t).view.set := by
  have hi0 : (i 0).val < 1 := (i 0).isLt
  have hi1 : (i 1).val < 64 := (i 1).isLt
  obtain ⟨-, -, -, -, -, -, -, -, -, -, -, -, e0, e1⟩ := idx_facts t12_9
  refine ⟨t12_9, (flush12_6 t12_9).mpr rfl, ?_⟩
  show i ∈ ((View.whole main_v158_2).slice (win12_6.rect t12_9)).set
  rw [View.set_slice_whole, Rect.mem_set_unit]
  intro a
  match a with
  | ⟨0, _⟩ => show win12_6.index t12_9 0 * 1 ≤ (i 0).val ∧ (i 0).val < win12_6.index t12_9 0 * 1 + 1
              rw [e0]; omega
  | ⟨1, _⟩ => show win12_6.index t12_9 1 * 64 ≤ (i 1).val ∧ (i 1).val < win12_6.index t12_9 1 * 64 + 64
              rw [e1]; omega

/-! ## The three arrays after the region -/

/-- The product array ends as the product. -/
theorem z : (dat12 (F := Ideal) V c).arrAt 4 cfg12.N = mm (comb (V c (Pipeline.arrRef spec12 2) : Mat 1 1) (V c (Pipeline.arrRef spec12 0) : Mat 50000 128) (V c (Pipeline.arrRef spec12 1) : Mat 50000 128)) (V c (Pipeline.arrRef spec12 3) : Mat 128 64) :=
  (dat12 V c).arrAt_eq_of_cover 4 (Z V c) (fun t _ => flushed4 V c t) cover4

/-- The column-sum row ends as the tiled column sums of the product. -/
theorem s : (dat12 (F := Ideal) V c).arrAt 5 cfg12.N = colSum (mm (comb (V c (Pipeline.arrRef spec12 2) : Mat 1 1) (V c (Pipeline.arrRef spec12 0) : Mat 50000 128) (V c (Pipeline.arrRef spec12 1) : Mat 50000 128)) (V c (Pipeline.arrRef spec12 3) : Mat 128 64)) :=
  (dat12 V c).arrAt_eq_of_cover 5 (colSum (Z V c)) (flushed5 V c) cover5

/-- The sum-of-squares row ends as the tiled column sums of the product's squares. -/
theorem ss : (dat12 (F := Ideal) V c).arrAt 6 cfg12.N = colSumSq (mm (comb (V c (Pipeline.arrRef spec12 2) : Mat 1 1) (V c (Pipeline.arrRef spec12 0) : Mat 50000 128) (V c (Pipeline.arrRef spec12 1) : Mat 50000 128)) (V c (Pipeline.arrRef spec12 3) : Mat 128 64)) :=
  (dat12 V c).arrAt_eq_of_cover 6 (colSumSq (Z V c)) (flushed6 V c) cover6

end Cert.GIN.Reg12

end
-- ==== Proof.Reg13.lean ====
/-
  Region 13: the normalisation-and-rectifier map on a matrix of 50000 rows and 64 columns.

  The region visits ten grid points.  At point `t` it reads rows `5000·t … 5000·t + 4999` of the matrix `z` and the
  whole of the four rows `mean`, `var`, `γ`, `β` (each `[1, 64]`, the same block at every point), and writes the same
  rows of the output.  Entry `(p, q)` of what it writes is
  `max (γ q · (z (5000·t + p, q) − mean q) · rsqrt (var q + eps) + β q) 0`: each row vector is read at column `q` of
  its one row, whatever `p` is.  So the block point `t` writes is block `t` of ONE function of the five arrays,
  `normRelu z mean var γ β eps`, and since the ten blocks cover all 50000 rows (row `r` lies in block `r / 5000`),
  the output array ends holding that function.
-/
import proofs.«177653_j8959301779747_1_alg».proof.Proof.Spec
import proofs.«177653_j8959301779747_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

noncomputable section

namespace Cert.GIN.Reg13

open Cert.KernelIdeal Cert.KernelIdeal.Gen Cert.GIN
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The zero offsets of a block read or written whole. -/
theorem hz : (![0, 0] : Fin 2 → Nat) = fun _ => 0 := funext fun a => by fin_cases a <;> rfl

/-- The body's arithmetic at entry `(p, q)` of a block: the row vectors are read at column `q` of their one row, the
    rectifier's zero word is the number zero. -/
theorem pay_apply (x0 : Vec Ideal S5000x64 .f32) (x1 x2 x3 x4 : Vec Ideal S1x64 .f32) (p : Fin 5000) (q : Fin 64) :
    k13_pay1 x0 x1 x2 x3 x4 (ix2 p q)
      = max (x3 (ix2 0 q) * (x0 (ix2 p q) - x1 (ix2 0 q)) * Ideal.rsqrt (x2 (ix2 0 q) + Ideal.ofBits .f32 0x3727C5AC#32)
          + x4 (ix2 0 q)) 0 := by
  unfold k13_pay1
  simp only [shapeCast_self]
  rw [maximumf_apply, addf_apply, mulf_apply, mulf_apply, subf_apply, broadcast_apply,
    broadcastTo_1b_ab_apply, broadcastTo_1b_ab_apply, broadcastTo_1b_ab_apply, broadcastTo_1b_ab_apply]
  show max (x3 (ix2 0 q) * (x0 (ix2 p q) - x1 (ix2 0 q)) * Ideal.rsqrt (x2 (ix2 0 q) + Ideal.ofBits .f32 0x3727C5AC#32)
      + x4 (ix2 0 q)) (Ideal.ofBits .f32 0x00000000#32) = _
  rw [Ideal.ofBits_zero_f32]

/-- The same at any index of the block. -/
theorem pay_at (x0 : Vec Ideal S5000x64 .f32) (x1 x2 x3 x4 : Vec Ideal S1x64 .f32) (j : S5000x64.Idx) :
    k13_pay1 x0 x1 x2 x3 x4 j
      = max (x3 (ix2 0 (j 1)) * (x0 j - x1 (ix2 0 (j 1))) * Ideal.rsqrt (x2 (ix2 0 (j 1)) + Ideal.ofBits .f32 0x3727C5AC#32)
          + x4 (ix2 0 (j 1))) 0 := by
  obtain ⟨p, q, rfl⟩ : ∃ (p : Fin 5000) (q : Fin 64), j = ix2 p q := ⟨j 0, j 1, eq_ix2 j⟩
  exact pay_apply x0 x1 x2 x3 x4 p q

/-- The block indices, decided over the ten grid points: the matrix and the output move together down the rows, one
    block per point; the four row vectors stay at their one block. -/
theorem idx_facts : ∀ t : Fin cfg13.N,
    win13_5.index t (0 : Fin 2) = t.val ∧ win13_5.index t (1 : Fin 2) = 0
    ∧ win13_0.index t (0 : Fin 2) = t.val ∧ win13_0.index t (1 : Fin 2) = 0
    ∧ win13_1.index t (0 : Fin 2) = 0 ∧ win13_1.index t (1 : Fin 2) = 0
    ∧ win13_2.index t (0 : Fin 2) = 0 ∧ win13_2.index t (1 : Fin 2) = 0
    ∧ win13_3.index t (0 : Fin 2) = 0 ∧ win13_3.index t (1 : Fin 2) = 0
    ∧ win13_4.index t (0 : Fin 2) = 0 ∧ win13_4.index t (1 : Fin 2) = 0 :=
  (by decide +kernel : ∀ t : Fin grid13.N, _)

/-- THE BLOCK EQUATION at a symbolic grid point `t`: the body's arithmetic on the five blocks at `t` is block `t` of
    `normRelu` of the five arrays.  Entry `j` of the block of `z` and of the output sit at the same place of their
    arrays (row `5000·t + j 0`, column `j 1`), and entry `(0, j 1)` of each row vector's one block is entry `(0, j 1)`
    of the row vector. -/
theorem block_eq (t : Fin cfg13.N) (z : Mat 50000 64) (mean var γ β : Mat 1 64) :
    k13_pay1 (((cfg13.win 0).blk t).view.read (Elt Ideal) z) (((cfg13.win 1).blk t).view.read (Elt Ideal) mean)
        (((cfg13.win 2).blk t).view.read (Elt Ideal) var) (((cfg13.win 3).blk t).view.read (Elt Ideal) γ)
        (((cfg13.win 4).blk t).view.read (Elt Ideal) β)
      = ((cfg13.win 5).blk t).view.read (Elt Ideal) (normRelu z mean var γ β (Ideal.ofBits .f32 0x3727C5AC#32)) := by
  obtain ⟨e50, e51, e00, e01, e10, e11, e20, e21, e30, e31, e40, e41⟩ := idx_facts t
  funext j
  refine (pay_at _ _ _ _ _ j).trans ?_
  have h0 : ((cfg13.win 0).blk t).view.emb j = ((cfg13.win 5).blk t).view.emb j := by
    funext a; apply Fin.ext
    match a with
    | ⟨0, _⟩ => show win13_0.index t (0 : Fin 2) * 5000 + 1 * (j 0).val = win13_5.index t (0 : Fin 2) * 5000 + 1 * (j 0).val; rw [e00, e50]
    | ⟨1, _⟩ => show win13_0.index t (1 : Fin 2) * 64 + 1 * (j 1).val = win13_5.index t (1 : Fin 2) * 64 + 1 * (j 1).val; rw [e01, e51]
  have h1 : ((cfg13.win 1).blk t).view.emb (ix2 0 (j 1)) = (ix2 (0 : Fin 1) ((((cfg13.win 5).blk t).view.emb j) 1) : S1x64.Idx) := by
    funext a; apply Fin.ext
    match a with
    | ⟨0, _⟩ => show win13_1.index t (0 : Fin 2) * 1 + 1 * 0 = 0; rw [e10]
    | ⟨1, _⟩ => show win13_1.index t (1 : Fin 2) * 64 + 1 * (j 1).val = win13_5.index t (1 : Fin 2) * 64 + 1 * (j 1).val; rw [e11, e51]
  have h2 : ((cfg13.win 2).blk t).view.emb (ix2 0 (j 1)) = (ix2 (0 : Fin 1) ((((cfg13.win 5).blk t).view.emb j) 1) : S1x64.Idx) := by
    funext a; apply Fin.ext
    match a with
    | ⟨0, _⟩ => show win13_2.index t (0 : Fin 2) * 1 + 1 * 0 = 0; rw [e20]
    | ⟨1, _⟩ => show win13_2.index t (1 : Fin 2) * 64 + 1 * (j 1).val = win13_5.index t (1 : Fin 2) * 64 + 1 * (j 1).val; rw [e21, e51]
  have h3 : ((cfg13.win 3).blk t).view.emb (ix2 0 (j 1)) = (ix2 (0 : Fin 1) ((((cfg13.win 5).blk t).view.emb j) 1) : S1x64.Idx) := by
    funext a; apply Fin.ext
    match a with
    | ⟨0, _⟩ => show win13_3.index t (0 : Fin 2) * 1 + 1 * 0 = 0; rw [e30]
    | ⟨1, _⟩ => show win13_3.index t (1 : Fin 2) * 64 + 1 * (j 1).val = win13_5.index t (1 : Fin 2) * 64 + 1 * (j 1).val; rw [e31, e51]
  have h4 : ((cfg13.win 4).blk t).view.emb (ix2 0 (j 1)) = (ix2 (0 : Fin 1) ((((cfg13.win 5).blk t).view.emb j) 1) : S1x64.Idx) := by
    funext a; apply Fin.ext
    match a with
    | ⟨0, _⟩ => show win13_4.index t (0 : Fin 2) * 1 + 1 * 0 = 0; rw [e40]
    | ⟨1, _⟩ => show win13_4.index t (1 : Fin 2) * 64 + 1 * (j 1).val = win13_5.index t (1 : Fin 2) * 64 + 1 * (j 1).val; rw [e41, e51]
  show max (γ (((cfg13.win 3).blk t).view.emb (ix2 0 (j 1)))
        * (z (((cfg13.win 0).blk t).view.emb j) - mean (((cfg13.win 1).blk t).view.emb (ix2 0 (j 1))))
        * Ideal.rsqrt (var (((cfg13.win 2).blk t).view.emb (ix2 0 (j 1))) + Ideal.ofBits .f32 0x3727C5AC#32)
      + β (((cfg13.win 4).blk t).view.emb (ix2 0 (j 1)))) 0
    = normRelu z mean var γ β (Ideal.ofBits .f32 0x3727C5AC#32) (((cfg13.win 5).blk t).view.emb j)
  rw [h0, h1, h2, h3, h4]
  rfl

/-- An index of the output array is in point `t`'s block iff each coordinate is in the block's range on its axis. -/
theorem mem_blk (t : Fin cfg13.N) (i : S50000x64.Idx) :
    i ∈ ((cfg13.win 5).blk t).view.set ↔ ∀ a : Fin 2, win13_5.index t a * S5000x64.size a ≤ (i a).val
      ∧ (i a).val < win13_5.index t a * S5000x64.size a + S5000x64.size a := by
  show i ∈ ((View.whole main_v171).slice (win13_5.rect t)).set ↔ _
  rw [View.set_slice_whole, Rect.mem_set_unit]
  exact Iff.rfl

/-- THE COVER: row `r` of the output lies in the block of grid point `r / 5000`, which writes its block back. -/
theorem cover (i : S50000x64.Idx) :
    ∃ t : Fin cfg13.N, (cfg13.win 5).flush t = true ∧ i ∈ ((cfg13.win 5).blk t).view.set := by
  have hi0 : (i 0).val < 50000 := (i 0).isLt
  have hi1 : (i 1).val < 64 := (i 1).isLt
  have hN : cfg13.N = 10 := N_13
  have ht : (i 0).val / 5000 < cfg13.N := by rw [hN]; omega
  obtain ⟨e50, e51, -⟩ := idx_facts ⟨(i 0).val / 5000, ht⟩
  refine ⟨⟨(i 0).val / 5000, ht⟩, flush13_5 _, ?_⟩
  rw [mem_blk]
  intro a
  match a with
  | ⟨0, _⟩ =>
    show win13_5.index ⟨(i 0).val / 5000, ht⟩ (0 : Fin 2) * 5000 ≤ (i 0).val
      ∧ (i 0).val < win13_5.index ⟨(i 0).val / 5000, ht⟩ (0 : Fin 2) * 5000 + 5000
    rw [e50]
    show (i 0).val / 5000 * 5000 ≤ (i 0).val ∧ (i 0).val < (i 0).val / 5000 * 5000 + 5000
    omega
  | ⟨1, _⟩ =>
    show win13_5.index ⟨(i 0).val / 5000, ht⟩ (1 : Fin 2) * 64 ≤ (i 1).val
      ∧ (i 1).val < win13_5.index ⟨(i 0).val / 5000, ht⟩ (1 : Fin 2) * 64 + 64
    rw [e51]
    omega

/-- WHAT POINT `t` WRITES BACK is block `t` of `normRelu` of the five arrays as the region finds them: the body's one
    store fills the whole staging buffer with its arithmetic on the five blocks at `t`. -/
theorem flushed_eq (c : Dev nD) (t : Fin cfg13.N) :
    (dat13 (F := Ideal) V c).flushed 5 t = ((cfg13.win 5).blk t).view.read (Elt Ideal)
      (normRelu (n := 50000) (d := 64) (V c (Pipeline.arrRef spec13 0)) (V c (Pipeline.arrRef spec13 1))
        (V c (Pipeline.arrRef spec13 2)) (V c (Pipeline.arrRef spec13 3)) (V c (Pipeline.arrRef spec13 4))
        (Ideal.ofBits .f32 0x3727C5AC#32)) := by
  show (cfg13.win 5).cut (grid13.coords t) ((dat13 (F := Ideal) V c).after 5 t) = _
  rw [after13_5]
  unfold out13_5
  rw [View.canon_unit_zero hz]
  simp only [View.ld_unit_zero (S := S5000x64) hz, View.ld_unit_zero (S := S1x64) hz]
  unfold iblk13
  exact block_eq t (V c (Pipeline.arrRef spec13 0)) (V c (Pipeline.arrRef spec13 1)) (V c (Pipeline.arrRef spec13 2))
    (V c (Pipeline.arrRef spec13 3)) (V c (Pipeline.arrRef spec13 4))

/-- THE OUTPUT ARRAY after the region: `normRelu` of the five arrays as the region finds them. -/
theorem out (c : Dev nD) :
    (dat13 (F := Ideal) V c).arrAt 5 cfg13.N
      = normRelu (n := 50000) (d := 64) (V c (Pipeline.arrRef spec13 0)) (V c (Pipeline.arrRef spec13 1))
          (V c (Pipeline.arrRef spec13 2)) (V c (Pipeline.arrRef spec13 3)) (V c (Pipeline.arrRef spec13 4))
          (Ideal.ofBits .f32 0x3727C5AC#32) :=
  (dat13 (F := Ideal) V c).arrAt_eq_of_cover 5 _ (fun t _ => flushed_eq V c t) cover

end Cert.GIN.Reg13

end
-- ==== Proof.Reg14Pay.lean ====
/-
  Region 14 (the second dense layer's product with its batch statistics), the arithmetic of one grid point at the
  ideal instance, entry by entry.

  The body forms the product block `z_t = h_t · w` of the point's 5000-row block of `h` with the whole of `w`
  (a product into a zero accumulator; the change of float format before it is the identity on extended reals),
  and adds to each of the two statistics rows the column sums of `z_t`, respectively of its squares: at column
  `j` the row holding `v` becomes `v j + Σ_p z_t (p, j)`, respectively `v j + Σ_p z_t (p, j)²`.  The rows a
  first point starts from are zero.
-/
import proofs.«177653_j8959301779747_1_alg».proof.Proof.LibPlainDot
import proofs.«177653_j8959301779747_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.ValueIdx

namespace Cert.GIN.Reg14
open Cert.KernelIdeal Cert.KernelIdeal.Gen

/-- The product block at entry `(p, j)`: the sum over the 64 contracted columns. -/
theorem pay3_apply (x0 : Vec Ideal S5000x64 .f32) (x1 : Vec Ideal S64x128 .f32) (p : Fin 5000) (j : Fin 128) :
    k14_pay3 (F := Ideal) x0 x1 (ix2 p j) = ∑ q : Fin 64, x0 (ix2 p q) * x1 (ix2 q j) := by
  unfold k14_pay3
  refine (Cert.PlainDot.matmul_zero_ix2 dot_S5000x64_S64x128_S5000x128_1_0_0_1_n_n rfl none _ _ p j).trans ?_
  refine Finset.sum_congr rfl fun q _ => ?_
  rw [truncf_apply, truncf_apply, shapeCast_self, shapeCast_self]

/-- Column `j` of the reduced row, with row `k` inserted on the summed axis, is entry `(k, j)` of the block. -/
theorem lift_eq (j : Fin 128) (k : Fin 5000) : reduces_S5000x128_S128.lift (ix1 j) k = ix2 k j := by
  funext a
  apply Fin.ext
  match a with
  | ⟨0, _⟩ => rfl
  | ⟨1, _⟩ => rfl

/-- The sum of a 5000×128 block over its rows, kept as a 1×128 row: at column `j` the sum of the block's column `j`. -/
theorem rowsum_apply (src : FVec Ideal S5000x128 .f32) (j : Fin 128) :
    shapeCast S1x128 (multiReduction (F := Ideal) .add [0] S128 src 0x00000000#32 reduces_S5000x128_S128 (.inl rfl) rfl)
        shapeCasts_S128_S1x128 (ix2 0 j)
      = ∑ p : Fin 5000, src (ix2 p j) := by
  refine (shapeCast_apply _ shapeCasts_S128_S1x128 (ix2 0 j) (ix1 j) ?_).trans ?_
  · rw [Shape.rowMajor_val_two, Shape.rowMajor_val_one]; show j.val = 0 * 128 + j.val; omega
  refine (Ideal.multiReduction_add_single src 0x00000000#32 reduces_S5000x128_S128 (.inl rfl) rfl (ix1 j)).trans ?_
  exact Finset.sum_congr rfl fun p _ => congrArg src (lift_eq j p)

/-- The first statistics row after a point that found it holding `v`: `v j` plus column `j`'s sum of the product block. -/
theorem pay4_apply (x0 : Vec Ideal S5000x64 .f32) (x1 : Vec Ideal S64x128 .f32) (v : Vec Ideal S1x128 .f32) (j : Fin 128) :
    k14_pay4 (F := Ideal) x0 x1 v (ix2 0 j) = v (ix2 0 j) + ∑ p : Fin 5000, k14_pay3 (F := Ideal) x0 x1 (ix2 p j) := by
  unfold k14_pay4
  refine (addf_apply _ _ _).trans ?_
  rw [shapeCast_self]
  exact congrArg (v (ix2 0 j) + ·) (rowsum_apply _ j)

/-- The second statistics row likewise, with the squares of the product block's entries. -/
theorem pay5_apply (x0 : Vec Ideal S5000x64 .f32) (x1 : Vec Ideal S64x128 .f32) (v : Vec Ideal S1x128 .f32) (j : Fin 128) :
    k14_pay5 (F := Ideal) x0 x1 v (ix2 0 j)
      = v (ix2 0 j) + ∑ p : Fin 5000, k14_pay3 (F := Ideal) x0 x1 (ix2 p j) * k14_pay3 (F := Ideal) x0 x1 (ix2 p j) := by
  unfold k14_pay5
  refine (addf_apply _ _ _).trans ?_
  rw [shapeCast_self]
  exact congrArg (v (ix2 0 j) + ·) (rowsum_apply _ j)

/-- The row the first point stores into the first statistics row before accumulating: zero. -/
theorem pay1_apply (i : S1x128.Idx) : k14_pay1 (F := Ideal) i = 0 := by
  unfold k14_pay1
  show Ideal.ofBits .f32 0x00000000#32 = 0
  exact Ideal.ofBits_zero_f32

/-- And into the second: zero. -/
theorem pay2_apply (i : S1x128.Idx) : k14_pay2 (F := Ideal) i = 0 := by
  unfold k14_pay2
  show Ideal.ofBits .f32 0x00000000#32 = 0
  exact Ideal.ofBits_zero_f32

end Cert.GIN.Reg14

end
-- ==== Proof.Reg14Pieces.lean ====
/-
  Region 14, what one run of the body leaves in each output's staging buffer, as values of the body's arithmetic.

  At a first point (the condition holds) the body zeroes both statistics rows, stores the product block, and then
  replaces each statistics row by the row plus the block's column sums (of the entries, of their squares): what
  it leaves are the product payload and the two accumulation payloads applied to the zero rows.  At any other point
  the same, applied to the rows the point before left.  Each output's pieces are whole-buffer stores, so the last
  store's payload is what the buffer holds; a row read back after the zeroing store reads that store's payload.
-/
import proofs.«177653_j8959301779747_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.GIN.Reg14
open Cert.KernelIdeal Cert.KernelIdeal.Gen

variable {F : FTy → Type} [FloatOps F]

theorem hz : (![0, 0] : Fin 2 → Nat) = fun _ => 0 := funext fun a => by fin_cases a <;> rfl

/-- Any other point, the product output: the product payload of the two input blocks. -/
theorem out_B_2 (c : Dev nD) (i : grid14.Coords) (a1 : Memref sig .tc .vmem S5000x64 .f32) (h1 : a1.IsWhole)
    (a2 : Memref sig .tc .vmem S64x128 .f32) (h2 : a2.IsWhole) (a3 : Memref sig .tc .vmem S5000x128 .f32) (h3 : a3.IsWhole)
    (a4 : Memref sig .tc .vmem S1x128 .f32) (h4 : a4.IsWhole) (a5 : Memref sig .tc .vmem S1x128 .f32) (h5 : a5.IsWhole)
    (hc : ¬cond14_0 i) (x0 : Vec F S5000x64 .f32) (x1 : Vec F S64x128 .f32) (xo3 xo4 : Vec F S1x128 .f32) :
    out14_B_2 c i a1 h1 a2 h2 a3 h3 a4 h4 a5 h5 hc x0 x1 xo3 xo4 = k14_pay3 x0 x1 := by
  unfold out14_B_2
  rw [View.read_writes_eq_canon _ _ _ (cover14_B_2 c i a1 h1 a2 h2 a3 h3 a4 h4 a5 h5 hc x0 x1 xo3 xo4)]
  unfold kernelRun14_B
  dsimp only
  sl_unfold_words
  rw [View.canon_unit_zero hz]
  simp only [View.readAt_eq_ld, h1.read_unread, h2.read_unread, View.ld_unit_zero (S := S5000x64) hz,
    View.ld_unit_zero (S := S64x128) hz]

/-- Any other point, the first statistics row: the accumulation payload of the row the point before left. -/
theorem out_B_3 (c : Dev nD) (i : grid14.Coords) (a1 : Memref sig .tc .vmem S5000x64 .f32) (h1 : a1.IsWhole)
    (a2 : Memref sig .tc .vmem S64x128 .f32) (h2 : a2.IsWhole) (a3 : Memref sig .tc .vmem S5000x128 .f32) (h3 : a3.IsWhole)
    (a4 : Memref sig .tc .vmem S1x128 .f32) (h4 : a4.IsWhole) (a5 : Memref sig .tc .vmem S1x128 .f32) (h5 : a5.IsWhole)
    (hc : ¬cond14_0 i) (x0 : Vec F S5000x64 .f32) (x1 : Vec F S64x128 .f32) (xo3 xo4 : Vec F S1x128 .f32) :
    out14_B_3 c i a1 h1 a2 h2 a3 h3 a4 h4 a5 h5 hc x0 x1 xo3 xo4 = k14_pay4 x0 x1 xo3 := by
  unfold out14_B_3
  rw [View.read_writes_eq_canon _ _ _ (cover14_B_3 c i a1 h1 a2 h2 a3 h3 a4 h4 a5 h5 hc x0 x1 xo3 xo4)]
  unfold kernelRun14_B
  dsimp only
  sl_unfold_words
  rw [View.canon_unit_zero hz]
  simp only [View.readAt_eq_ld, h1.read_unread, h2.read_unread, h4.read_unread, View.ld_unit_zero (S := S5000x64) hz,
    View.ld_unit_zero (S := S64x128) hz, View.ld_unit_zero (S := S1x128) hz]

/-- Any other point, the second statistics row. -/
theorem out_B_4 (c : Dev nD) (i : grid14.Coords) (a1 : Memref sig .tc .vmem S5000x64 .f32) (h1 : a1.IsWhole)
    (a2 : Memref sig .tc .vmem S64x128 .f32) (h2 : a2.IsWhole) (a3 : Memref sig .tc .vmem S5000x128 .f32) (h3 : a3.IsWhole)
    (a4 : Memref sig .tc .vmem S1x128 .f32) (h4 : a4.IsWhole) (a5 : Memref sig .tc .vmem S1x128 .f32) (h5 : a5.IsWhole)
    (hc : ¬cond14_0 i) (x0 : Vec F S5000x64 .f32) (x1 : Vec F S64x128 .f32) (xo3 xo4 : Vec F S1x128 .f32) :
    out14_B_4 c i a1 h1 a2 h2 a3 h3 a4 h4 a5 h5 hc x0 x1 xo3 xo4 = k14_pay5 x0 x1 xo4 := by
  unfold out14_B_4
  rw [View.read_writes_eq_canon _ _ _ (cover14_B_4 c i a1 h1 a2 h2 a3 h3 a4 h4 a5 h5 hc x0 x1 xo3 xo4)]
  unfold kernelRun14_B
  dsimp only
  sl_unfold_words
  rw [View.canon_unit_zero hz]
  simp only [View.readAt_eq_ld, h1.read_unread, h2.read_unread, h5.read_unread, View.ld_unit_zero (S := S5000x64) hz,
    View.ld_unit_zero (S := S64x128) hz, View.ld_unit_zero (S := S1x128) hz]

/-- A first point, the product output. -/
theorem out_A_2 (c : Dev nD) (i : grid14.Coords) (a1 : Memref sig .tc .vmem S5000x64 .f32) (h1 : a1.IsWhole)
    (a2 : Memref sig .tc .vmem S64x128 .f32) (h2 : a2.IsWhole) (a3 : Memref sig .tc .vmem S5000x128 .f32) (h3 : a3.IsWhole)
    (a4 : Memref sig .tc .vmem S1x128 .f32) (h4 : a4.IsWhole) (a5 : Memref sig .tc .vmem S1x128 .f32) (h5 : a5.IsWhole)
    (hc : cond14_0 i) (x0 : Vec F S5000x64 .f32) (x1 : Vec F S64x128 .f32) :
    out14_A_2 c i a1 h1 a2 h2 a3 h3 a4 h4 a5 h5 hc x0 x1 = k14_pay3 x0 x1 := by
  unfold out14_A_2
  rw [View.read_writes_eq_canon _ _ _ (cover14_A_2 c i a1 h1 a2 h2 a3 h3 a4 h4 a5 h5 hc x0 x1)]
  unfold kernelRun14_A
  dsimp only
  sl_unfold_words
  rw [View.canon_unit_zero hz]
  simp only [View.readAt_eq_ld, h1.read_unread, h2.read_unread, View.ld_unit_zero (S := S5000x64) hz,
    View.ld_unit_zero (S := S64x128) hz]

/-- A first point, the first statistics row: the accumulation payload of the zero row just stored. -/
theorem out_A_3 (c : Dev nD) (i : grid14.Coords) (a1 : Memref sig .tc .vmem S5000x64 .f32) (h1 : a1.IsWhole)
    (a2 : Memref sig .tc .vmem S64x128 .f32) (h2 : a2.IsWhole) (a3 : Memref sig .tc .vmem S5000x128 .f32) (h3 : a3.IsWhole)
    (a4 : Memref sig .tc .vmem S1x128 .f32) (h4 : a4.IsWhole) (a5 : Memref sig .tc .vmem S1x128 .f32) (h5 : a5.IsWhole)
    (hc : cond14_0 i) (x0 : Vec F S5000x64 .f32) (x1 : Vec F S64x128 .f32) :
    out14_A_3 c i a1 h1 a2 h2 a3 h3 a4 h4 a5 h5 hc x0 x1 = k14_pay4 x0 x1 k14_pay1 := by
  unfold out14_A_3
  rw [View.read_writes_eq_canon _ _ _ (cover14_A_3 c i a1 h1 a2 h2 a3 h3 a4 h4 a5 h5 hc x0 x1)]
  unfold kernelRun14_A
  dsimp only
  sl_unfold_words
  rw [View.canon_cons_unit_zero (S := S1x128) hz, View.readCov_unit_zero (S := S1x128) _ hz]
  simp only [View.readAt_eq_ld, h1.read_unread, h2.read_unread, View.ld_unit_zero (S := S5000x64) hz,
    View.ld_unit_zero (S := S64x128) hz]

/-- A first point, the second statistics row. -/
theorem out_A_4 (c : Dev nD) (i : grid14.Coords) (a1 : Memref sig .tc .vmem S5000x64 .f32) (h1 : a1.IsWhole)
    (a2 : Memref sig .tc .vmem S64x128 .f32) (h2 : a2.IsWhole) (a3 : Memref sig .tc .vmem S5000x128 .f32) (h3 : a3.IsWhole)
    (a4 : Memref sig .tc .vmem S1x128 .f32) (h4 : a4.IsWhole) (a5 : Memref sig .tc .vmem S1x128 .f32) (h5 : a5.IsWhole)
    (hc : cond14_0 i) (x0 : Vec F S5000x64 .f32) (x1 : Vec F S64x128 .f32) :
    out14_A_4 c i a1 h1 a2 h2 a3 h3 a4 h4 a5 h5 hc x0 x1 = k14_pay5 x0 x1 k14_pay2 := by
  unfold out14_A_4
  rw [View.read_writes_eq_canon _ _ _ (cover14_A_4 c i a1 h1 a2 h2 a3 h3 a4 h4 a5 h5 hc x0 x1)]
  unfold kernelRun14_A
  dsimp only
  sl_unfold_words
  rw [View.canon_cons_unit_zero (S := S1x128) hz, View.readCov_unit_zero (S := S1x128) _ hz]
  simp only [View.readAt_eq_ld, h1.read_unread, h2.read_unread, View.ld_unit_zero (S := S5000x64) hz,
    View.ld_unit_zero (S := S64x128) hz]

end Cert.GIN.Reg14

end
-- ==== Proof.Reg14.lean ====
/-
  Region 14 (the second dense layer's product with its batch statistics) at the ideal instance: its three result
  arrays as whole-array functions of the two operand arrays `h` [50000, 64] and `w` [64, 128] the region finds.

  The grid has ten points; point `t` reads rows `5000 t … 5000 t + 4999` of `h` and all of `w`, and writes the
  same rows of the product `z = h · w`: the ten blocks tile the rows (row `r` belongs to point `r / 5000`), so the
  product array ends holding `mm h w`.  The two statistics rows have one block that never moves and is written
  back after the last point only; the first point zeroes them and every point adds its tile's column sums, so
  after point `n` they hold the sums over tiles `0 … n` of the tile's column sums (of `z`, of its squares) — by
  induction on the point — and after the last point the tiled column sums `colSum z`, `colSumSq z`.
-/
import proofs.«177653_j8959301779747_1_alg».proof.Proof.Spec
import proofs.«177653_j8959301779747_1_alg».proof.Proof.Reg14Pay
import proofs.«177653_j8959301779747_1_alg».proof.Proof.Reg14Pieces
import proofs.«177653_j8959301779747_1_alg».proof.Proof.Gen.KernelIdeal.Frame
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.GIN.Reg14
open Cert.KernelIdeal Cert.KernelIdeal.Gen Cert.GIN

/-! ## Tile sums -/

/-- The sum of column `j` over the rows of tile `t` (rows `5000 t` to `5000 t + 4999`); zero past the tenth tile. -/
def tileSum {d : Nat} (z : Mat 50000 d) (t : ℕ) (j : Fin d) : EReal :=
  if h : t < 10 then ∑ p : Fin 5000, z (ix2 ⟨5000 * t + p.val, by omega⟩ j) else 0

/-- The tiled column sum is the sum of the ten tile sums. -/
theorem colSum_eq_range {d : Nat} (z : Mat 50000 d) (i : (⟨2, ![1, d]⟩ : Shape).Idx) :
    colSum z i = ∑ t ∈ Finset.range 10, tileSum z t (i 1) := by
  rw [Finset.sum_range]
  unfold colSum
  refine Finset.sum_congr rfl fun t _ => ?_
  unfold tileSum
  rw [dif_pos t.isLt]

/-! ## The operands and the blocks the points read -/

variable (V : (c : Dev nD) → (b : Ref sig .tc) → Buf (Elt Ideal) ((c : Thread nD τ).loc b)) (c : Dev nD)

/-- The left operand array as the region finds it. -/
abbrev H : Mat 50000 64 := V c (Pipeline.arrRef spec14 0)
/-- The right operand array as the region finds it. -/
abbrev Wt : Mat 64 128 := V c (Pipeline.arrRef spec14 1)
/-- Their product. -/
abbrev Z : Mat 50000 128 := mm (H V c) (Wt V c)
/-- Its entrywise square. -/
abbrev Zsq : Mat 50000 128 := fun i => Z V c i * Z V c i

/-- The printed index maps, decided over the grid: the left operand's and the product's block index is the point
    on the row axis and zero on the column axis; the right operand's and the statistics rows' are zero. -/
theorem idx_facts : ∀ t : Fin cfg14.N,
    win14_0.index t (0 : Fin 2) = t.val ∧ win14_0.index t (1 : Fin 2) = 0
    ∧ win14_1.index t (0 : Fin 2) = 0 ∧ win14_1.index t (1 : Fin 2) = 0
    ∧ win14_2.index t (0 : Fin 2) = t.val ∧ win14_2.index t (1 : Fin 2) = 0
    ∧ win14_3.index t (0 : Fin 2) = 0 ∧ win14_3.index t (1 : Fin 2) = 0
    ∧ win14_4.index t (0 : Fin 2) = 0 ∧ win14_4.index t (1 : Fin 2) = 0 :=
  (by decide +kernel : ∀ t : Fin grid14.N, _)

theorem lt10 (t : Fin cfg14.N) : t.val < 10 := lt_of_lt_of_eq t.isLt (show cfg14.N = 10 from N_14)

/-- Entry `(p, q)` of the left operand's block at point `t` is entry `(5000 t + p, q)` of the array. -/
theorem blk0_apply (t : Fin cfg14.N) (p : Fin 5000) (q : Fin 64) (r : Fin 50000) (hr : r.val = 5000 * t.val + p.val) :
    (iblk14 V c 0 t : Vec Ideal S5000x64 .f32) (ix2 p q) = H V c (ix2 r q) := by
  obtain ⟨e0, e1, -⟩ := idx_facts t
  unfold iblk14
  rw [View.read_apply]
  show V c (Pipeline.arrRef spec14 0) (((cfg14.win 0).blk t).view.emb (ix2 p q)) = V c (Pipeline.arrRef spec14 0) (ix2 r q)
  congr 1
  funext a
  apply Fin.ext
  match a with
  | ⟨0, _⟩ => show win14_0.index t (0 : Fin 2) * 5000 + 1 * p.val = r.val; omega
  | ⟨1, _⟩ => show win14_0.index t (1 : Fin 2) * 64 + 1 * q.val = q.val; omega

/-- The right operand's block at every point is the whole array. -/
theorem blk1_apply (t : Fin cfg14.N) (q : Fin 64) (j : Fin 128) :
    (iblk14 V c 1 t : Vec Ideal S64x128 .f32) (ix2 q j) = Wt V c (ix2 q j) := by
  obtain ⟨-, -, e0, e1, -⟩ := idx_facts t
  unfold iblk14
  rw [View.read_apply]
  show V c (Pipeline.arrRef spec14 1) (((cfg14.win 1).blk t).view.emb (ix2 q j)) = V c (Pipeline.arrRef spec14 1) (ix2 q j)
  congr 1
  funext a
  apply Fin.ext
  match a with
  | ⟨0, _⟩ => show win14_1.index t (0 : Fin 2) * 64 + 1 * q.val = q.val; omega
  | ⟨1, _⟩ => show win14_1.index t (1 : Fin 2) * 128 + 1 * j.val = j.val; omega

/-- So entry `(p, j)` of the product block of point `t` is entry `(5000 t + p, j)` of the product of the arrays. -/
theorem zblk_apply (t : Fin cfg14.N) (p : Fin 5000) (j : Fin 128) (r : Fin 50000) (hr : r.val = 5000 * t.val + p.val) :
    k14_pay3 (F := Ideal) (iblk14 V c 0 t) (iblk14 V c 1 t) (ix2 p j) = Z V c (ix2 r j) := by
  refine (pay3_apply (iblk14 V c 0 t) (iblk14 V c 1 t) p j).trans ?_
  show _ = ∑ q : Fin 64, H V c (ix2 r q) * Wt V c (ix2 q j)
  refine Finset.sum_congr rfl fun q _ => ?_
  rw [blk0_apply V c t p q r hr, blk1_apply V c t q j]

/-- The product block's column `j`, summed over its rows, is tile `t`'s sum of column `j` of the product. -/
theorem zblk_sum (t : Fin cfg14.N) (j : Fin 128) :
    ∑ p : Fin 5000, k14_pay3 (F := Ideal) (iblk14 V c 0 t) (iblk14 V c 1 t) (ix2 p j) = tileSum (Z V c) t.val j := by
  have h10 := lt10 t
  unfold tileSum
  rw [dif_pos h10]
  exact Finset.sum_congr rfl fun p _ => zblk_apply V c t p j ⟨5000 * t.val + p.val, by omega⟩ rfl

/-- Likewise for the squares. -/
theorem zblk_sumsq (t : Fin cfg14.N) (j : Fin 128) :
    ∑ p : Fin 5000, k14_pay3 (F := Ideal) (iblk14 V c 0 t) (iblk14 V c 1 t) (ix2 p j)
        * k14_pay3 (F := Ideal) (iblk14 V c 0 t) (iblk14 V c 1 t) (ix2 p j) = tileSum (Zsq V c) t.val j := by
  have h10 := lt10 t
  unfold tileSum
  rw [dif_pos h10]
  refine Finset.sum_congr rfl fun p _ => ?_
  rw [zblk_apply V c t p j ⟨5000 * t.val + p.val, by omega⟩ rfl]

/-! ## What the outputs' staging buffers hold after each point -/

/-- After a first point: the product block, and the two accumulations from the zero rows. -/
theorem outs_A (t : Fin cfg14.N) (h0 : t.val % 10 = 0) :
    (outsAt14 V c t.val t.isLt).1 = k14_pay3 (F := Ideal) (iblk14 V c 0 t) (iblk14 V c 1 t)
    ∧ (outsAt14 V c t.val t.isLt).2.1 = k14_pay4 (F := Ideal) (iblk14 V c 0 t) (iblk14 V c 1 t) (k14_pay1 (F := Ideal))
    ∧ (outsAt14 V c t.val t.isLt).2.2 = k14_pay5 (F := Ideal) (iblk14 V c 0 t) (iblk14 V c 1 t) (k14_pay2 (F := Ideal)) := by
  rw [outsAt14_A V c t h0]
  dsimp only
  exact ⟨out_A_2 (F := Ideal) c (grid14.coords t) (ms14_0 t) (hs14_0 t) (ms14_1 t) (hs14_1 t) (ms14_2 t) (hs14_2 t) (ms14_3 t) (hs14_3 t) (ms14_4 t) (hs14_4 t) ((hcond14_0 t).mpr h0) (iblk14 V c 0 t) (iblk14 V c 1 t),
    out_A_3 (F := Ideal) c (grid14.coords t) (ms14_0 t) (hs14_0 t) (ms14_1 t) (hs14_1 t) (ms14_2 t) (hs14_2 t) (ms14_3 t) (hs14_3 t) (ms14_4 t) (hs14_4 t) ((hcond14_0 t).mpr h0) (iblk14 V c 0 t) (iblk14 V c 1 t),
    out_A_4 (F := Ideal) c (grid14.coords t) (ms14_0 t) (hs14_0 t) (ms14_1 t) (hs14_1 t) (ms14_2 t) (hs14_2 t) (ms14_3 t) (hs14_3 t) (ms14_4 t) (hs14_4 t) ((hcond14_0 t).mpr h0) (iblk14 V c 0 t) (iblk14 V c 1 t)⟩

/-- After any other point: the product block, and the two accumulations from the rows the point before left. -/
theorem outs_B (t : Fin cfg14.N) (h0 : ¬t.val % 10 = 0) :
    (outsAt14 V c t.val t.isLt).1 = k14_pay3 (F := Ideal) (iblk14 V c 0 t) (iblk14 V c 1 t)
    ∧ (outsAt14 V c t.val t.isLt).2.1 = k14_pay4 (F := Ideal) (iblk14 V c 0 t) (iblk14 V c 1 t)
        (outsAt14 V c (t.val - 1) (Nat.lt_of_le_of_lt (Nat.sub_le _ _) t.isLt)).2.1
    ∧ (outsAt14 V c t.val t.isLt).2.2 = k14_pay5 (F := Ideal) (iblk14 V c 0 t) (iblk14 V c 1 t)
        (outsAt14 V c (t.val - 1) (Nat.lt_of_le_of_lt (Nat.sub_le _ _) t.isLt)).2.2 := by
  rw [outsAt14_B V c t h0]
  dsimp only
  exact ⟨out_B_2 (F := Ideal) c (grid14.coords t) (ms14_0 t) (hs14_0 t) (ms14_1 t) (hs14_1 t) (ms14_2 t) (hs14_2 t) (ms14_3 t) (hs14_3 t) (ms14_4 t) (hs14_4 t) (fun h => h0 ((hcond14_0 t).mp h)) (iblk14 V c 0 t) (iblk14 V c 1 t) _ _,
    out_B_3 (F := Ideal) c (grid14.coords t) (ms14_0 t) (hs14_0 t) (ms14_1 t) (hs14_1 t) (ms14_2 t) (hs14_2 t) (ms14_3 t) (hs14_3 t) (ms14_4 t) (hs14_4 t) (fun h => h0 ((hcond14_0 t).mp h)) (iblk14 V c 0 t) (iblk14 V c 1 t) _ _,
    out_B_4 (F := Ideal) c (grid14.coords t) (ms14_0 t) (hs14_0 t) (ms14_1 t) (hs14_1 t) (ms14_2 t) (hs14_2 t) (ms14_3 t) (hs14_3 t) (ms14_4 t) (hs14_4 t) (fun h => h0 ((hcond14_0 t).mp h)) (iblk14 V c 0 t) (iblk14 V c 1 t) _ _⟩

/-- The product output's buffer after point `t`: the product block of the point. -/
theorem outs_z (t : Fin cfg14.N) :
    (outsAt14 V c t.val t.isLt).1 = k14_pay3 (F := Ideal) (iblk14 V c 0 t) (iblk14 V c 1 t) := by
  by_cases h0 : t.val % 10 = 0
  · exact (outs_A V c t h0).1
  · exact (outs_B V c t h0).1

/-- The statistics rows after point `n`: the sums over tiles `0 … n` of the tile's column sums of the product, and of
    its squares — by induction on the point. -/
theorem outs_acc : ∀ (n : ℕ) (h : n < cfg14.N) (j : Fin 128),
    (outsAt14 V c n h).2.1 (ix2 0 j) = ∑ t ∈ Finset.range (n + 1), tileSum (Z V c) t j
    ∧ (outsAt14 V c n h).2.2 (ix2 0 j) = ∑ t ∈ Finset.range (n + 1), tileSum (Zsq V c) t j
  | 0, h, j => by
    have e1 : (outsAt14 V c 0 h).2.1 = k14_pay4 (F := Ideal) (iblk14 V c 0 ⟨0, h⟩) (iblk14 V c 1 ⟨0, h⟩) (k14_pay1 (F := Ideal)) :=
      (outs_A V c ⟨0, h⟩ rfl).2.1
    have e2 : (outsAt14 V c 0 h).2.2 = k14_pay5 (F := Ideal) (iblk14 V c 0 ⟨0, h⟩) (iblk14 V c 1 ⟨0, h⟩) (k14_pay2 (F := Ideal)) :=
      (outs_A V c ⟨0, h⟩ rfl).2.2
    constructor
    · rw [e1, pay4_apply (iblk14 V c 0 ⟨0, h⟩) (iblk14 V c 1 ⟨0, h⟩) (k14_pay1 (F := Ideal)) j, pay1_apply, zero_add, zblk_sum V c ⟨0, h⟩ j,
        Finset.sum_range_succ, Finset.range_zero, Finset.sum_empty, zero_add]
    · rw [e2, pay5_apply (iblk14 V c 0 ⟨0, h⟩) (iblk14 V c 1 ⟨0, h⟩) (k14_pay2 (F := Ideal)) j, pay2_apply, zero_add, zblk_sumsq V c ⟨0, h⟩ j,
        Finset.sum_range_succ, Finset.range_zero, Finset.sum_empty, zero_add]
  | n + 1, h, j => by
    have hN : cfg14.N = 10 := N_14
    have hB : ¬(⟨n + 1, h⟩ : Fin cfg14.N).val % 10 = 0 := by dsimp only; omega
    have e1 : (outsAt14 V c (n + 1) h).2.1 = k14_pay4 (F := Ideal) (iblk14 V c 0 ⟨n + 1, h⟩) (iblk14 V c 1 ⟨n + 1, h⟩)
        (outsAt14 V c n (Nat.lt_of_succ_lt h)).2.1 := (outs_B V c ⟨n + 1, h⟩ hB).2.1
    have e2 : (outsAt14 V c (n + 1) h).2.2 = k14_pay5 (F := Ideal) (iblk14 V c 0 ⟨n + 1, h⟩) (iblk14 V c 1 ⟨n + 1, h⟩)
        (outsAt14 V c n (Nat.lt_of_succ_lt h)).2.2 := (outs_B V c ⟨n + 1, h⟩ hB).2.2
    have ih := outs_acc n (Nat.lt_of_succ_lt h) j
    constructor
    · rw [e1, pay4_apply (iblk14 V c 0 ⟨n + 1, h⟩) (iblk14 V c 1 ⟨n + 1, h⟩) _ j, zblk_sum V c ⟨n + 1, h⟩ j, Finset.sum_range_succ, ih.1]
    · rw [e2, pay5_apply (iblk14 V c 0 ⟨n + 1, h⟩) (iblk14 V c 1 ⟨n + 1, h⟩) _ j, zblk_sumsq V c ⟨n + 1, h⟩ j, Finset.sum_range_succ, ih.2]

/-! ## The write-backs -/

/-- What point `t` writes back of the product output is block `t` of the product of the arrays. -/
theorem flushed_z (t : Fin cfg14.N) :
    (dat14 V c).flushed 2 t = ((cfg14.win 2).blk t).view.read (Elt Ideal) (Z V c) := by
  obtain ⟨-, -, -, -, e0, e1, -⟩ := idx_facts t
  have h10 := lt10 t
  show (cfg14.win 2).cut (grid14.coords t) ((dat14 V c).after 2 t) = _
  rw [after14_2, outs_z]
  funext y
  obtain ⟨p, j, rfl⟩ : ∃ (p : Fin 5000) (j : Fin 128), y = ix2 p j := ⟨y 0, y 1, eq_ix2 y⟩
  rw [View.read_apply]
  show k14_pay3 (F := Ideal) (iblk14 V c 0 t) (iblk14 V c 1 t) (ix2 p j) = Z V c (((cfg14.win 2).blk t).view.emb (ix2 p j))
  refine (zblk_apply V c t p j ⟨5000 * t.val + p.val, by omega⟩ rfl).trans (congrArg (Z V c) ?_)
  funext a
  apply Fin.ext
  match a with
  | ⟨0, _⟩ => show 5000 * t.val + p.val = win14_2.index t (0 : Fin 2) * 5000 + 1 * p.val; omega
  | ⟨1, _⟩ => show j.val = win14_2.index t (1 : Fin 2) * 128 + 1 * j.val; omega

/-- An index of the product array is in point `t`'s block iff each coordinate is in the block's range. -/
theorem mem_blk_z (t : Fin cfg14.N) (i : S50000x128.Idx) :
    i ∈ ((cfg14.win 2).blk t).view.set ↔ ∀ a : Fin 2, win14_2.index t a * S5000x128.size a ≤ (i a).val
      ∧ (i a).val < win14_2.index t a * S5000x128.size a + S5000x128.size a := by
  show i ∈ ((View.whole main_v174_0).slice (win14_2.rect t)).set ↔ _
  rw [View.set_slice_whole, Rect.mem_set_unit]
  exact Iff.rfl

/-- Every row of the product array is in the block of the point its tile names. -/
theorem cover_z (i : S50000x128.Idx) :
    ∃ t : Fin cfg14.N, (cfg14.win 2).flush t = true ∧ i ∈ ((cfg14.win 2).blk t).view.set := by
  have hN : cfg14.N = 10 := N_14
  have hi0 : (i 0).val < 50000 := (i 0).isLt
  have hi1 : (i 1).val < 128 := (i 1).isLt
  refine ⟨⟨(i 0).val / 5000, by omega⟩, flush14_2 _, ?_⟩
  obtain ⟨-, -, -, -, e0, e1, -⟩ := idx_facts ⟨(i 0).val / 5000, by omega⟩
  rw [mem_blk_z]
  intro a
  match a with
  | ⟨0, _⟩ =>
    show win14_2.index _ (0 : Fin 2) * 5000 ≤ (i 0).val ∧ (i 0).val < win14_2.index _ (0 : Fin 2) * 5000 + 5000
    rw [e0]; dsimp only; omega
  | ⟨1, _⟩ =>
    show win14_2.index _ (1 : Fin 2) * 128 ≤ (i 1).val ∧ (i 1).val < win14_2.index _ (1 : Fin 2) * 128 + 128
    rw [e1]; omega

/-- The product array after the run: the product of the operand arrays. -/
theorem z : (dat14 (F := Ideal) V c).arrAt 2 cfg14.N
    = mm (n := 50000) (k := 64) (d := 128) (V c (Pipeline.arrRef spec14 0)) (V c (Pipeline.arrRef spec14 1)) :=
  (dat14 V c).arrAt_eq_of_cover 2 (Z V c) (fun t _ => flushed_z V c t) cover_z

/-- What the last point writes back of the first statistics row is the tiled column sum of the product. -/
theorem flushed_s (t : Fin cfg14.N) (hf : (cfg14.win 3).flush t = true) :
    (dat14 V c).flushed 3 t = ((cfg14.win 3).blk t).view.read (Elt Ideal) (colSum (Z V c)) := by
  obtain ⟨-, -, -, -, -, -, e0, e1, -⟩ := idx_facts t
  have h9 : t.val = 9 := by have := (flush14_3 t).mp hf; have := lt10 t; omega
  show (cfg14.win 3).cut (grid14.coords t) ((dat14 V c).after 3 t) = _
  rw [after14_3]
  funext y
  obtain ⟨j0, j, rfl⟩ : ∃ (j0 : Fin 1) (j : Fin 128), y = ix2 j0 j := ⟨y 0, y 1, eq_ix2 y⟩
  obtain rfl : j0 = 0 := Subsingleton.elim _ _
  rw [View.read_apply]
  show (outsAt14 V c t.val t.isLt).2.1 (ix2 0 j) = colSum (Z V c) (((cfg14.win 3).blk t).view.emb (ix2 0 j))
  rw [(outs_acc V c t.val t.isLt j).1, colSum_eq_range, h9]
  refine Finset.sum_congr rfl fun t' _ => congrArg (tileSum (Z V c) t') (Fin.ext ?_)
  show j.val = win14_3.index t (1 : Fin 2) * 128 + 1 * j.val
  omega

/-- And of the second, of the product's squares. -/
theorem flushed_ss (t : Fin cfg14.N) (hf : (cfg14.win 4).flush t = true) :
    (dat14 V c).flushed 4 t = ((cfg14.win 4).blk t).view.read (Elt Ideal) (colSumSq (Z V c)) := by
  obtain ⟨-, -, -, -, -, -, -, -, e0, e1⟩ := idx_facts t
  have h9 : t.val = 9 := by have := (flush14_4 t).mp hf; have := lt10 t; omega
  show (cfg14.win 4).cut (grid14.coords t) ((dat14 V c).after 4 t) = _
  rw [after14_4]
  funext y
  obtain ⟨j0, j, rfl⟩ : ∃ (j0 : Fin 1) (j : Fin 128), y = ix2 j0 j := ⟨y 0, y 1, eq_ix2 y⟩
  obtain rfl : j0 = 0 := Subsingleton.elim _ _
  rw [View.read_apply]
  show (outsAt14 V c t.val t.isLt).2.2 (ix2 0 j) = colSum (Zsq V c) (((cfg14.win 4).blk t).view.emb (ix2 0 j))
  rw [(outs_acc V c t.val t.isLt j).2, colSum_eq_range, h9]
  refine Finset.sum_congr rfl fun t' _ => congrArg (tileSum (Zsq V c) t') (Fin.ext ?_)
  show j.val = win14_4.index t (1 : Fin 2) * 128 + 1 * j.val
  omega

/-- The one block of a statistics row is the whole row: the last point's write-back covers it. -/
theorem cover_s (i : S1x128.Idx) :
    ∃ t : Fin cfg14.N, (cfg14.win 3).flush t = true ∧ i ∈ ((cfg14.win 3).blk t).view.set := by
  obtain ⟨-, -, -, -, -, -, e0, e1, -⟩ := idx_facts t14_9
  have h0 : (i 0).val < 1 := (i 0).isLt
  have h1 : (i 1).val < 128 := (i 1).isLt
  refine ⟨t14_9, (flush14_3 t14_9).mpr rfl, ?_⟩
  show i ∈ ((View.whole main_v174_1).slice (win14_3.rect t14_9)).set
  rw [View.set_slice_whole, Rect.mem_set_unit]
  intro a
  match a with
  | ⟨0, _⟩ =>
    show win14_3.index t14_9 (0 : Fin 2) * 1 ≤ (i 0).val ∧ (i 0).val < win14_3.index t14_9 (0 : Fin 2) * 1 + 1
    omega
  | ⟨1, _⟩ =>
    show win14_3.index t14_9 (1 : Fin 2) * 128 ≤ (i 1).val ∧ (i 1).val < win14_3.index t14_9 (1 : Fin 2) * 128 + 128
    omega

theorem cover_ss (i : S1x128.Idx) :
    ∃ t : Fin cfg14.N, (cfg14.win 4).flush t = true ∧ i ∈ ((cfg14.win 4).blk t).view.set := by
  obtain ⟨-, -, -, -, -, -, -, -, e0, e1⟩ := idx_facts t14_9
  have h0 : (i 0).val < 1 := (i 0).isLt
  have h1 : (i 1).val < 128 := (i 1).isLt
  refine ⟨t14_9, (flush14_4 t14_9).mpr rfl, ?_⟩
  show i ∈ ((View.whole main_v174_2).slice (win14_4.rect t14_9)).set
  rw [View.set_slice_whole, Rect.mem_set_unit]
  intro a
  match a with
  | ⟨0, _⟩ =>
    show win14_4.index t14_9 (0 : Fin 2) * 1 ≤ (i 0).val ∧ (i 0).val < win14_4.index t14_9 (0 : Fin 2) * 1 + 1
    omega
  | ⟨1, _⟩ =>
    show win14_4.index t14_9 (1 : Fin 2) * 128 ≤ (i 1).val ∧ (i 1).val < win14_4.index t14_9 (1 : Fin 2) * 128 + 128
    omega

/-- The first statistics array after the run: the tiled column sums of the product. -/
theorem s : (dat14 (F := Ideal) V c).arrAt 3 cfg14.N
    = colSum (mm (n := 50000) (k := 64) (d := 128) (V c (Pipeline.arrRef spec14 0)) (V c (Pipeline.arrRef spec14 1))) :=
  (dat14 V c).arrAt_eq_of_cover 3 (colSum (Z V c)) (flushed_s V c) cover_s

/-- The second: the tiled column sums of its squares. -/
theorem ss : (dat14 (F := Ideal) V c).arrAt 4 cfg14.N
    = colSumSq (mm (n := 50000) (k := 64) (d := 128) (V c (Pipeline.arrRef spec14 0)) (V c (Pipeline.arrRef spec14 1))) :=
  (dat14 V c).arrAt_eq_of_cover 4 (colSumSq (Z V c)) (flushed_ss V c) cover_ss

end Cert.GIN.Reg14

end
-- ==== Proof.Reg15.lean ====
/-
  Region 15: the normalisation-and-rectifier map on a matrix of 50000 rows and 128 columns.

  The region visits ten grid points.  At point `t` it reads rows `5000·t … 5000·t + 4999` of the matrix `z` and the
  whole of the four rows `mean`, `var`, `γ`, `β` (each `[1, 128]`, the same block at every point), and writes the same
  rows of the output.  Entry `(p, q)` of what it writes is
  `max (γ q · (z (5000·t + p, q) − mean q) · rsqrt (var q + eps) + β q) 0`: each row vector is read at column `q` of
  its one row, whatever `p` is.  So the block point `t` writes is block `t` of ONE function of the five arrays,
  `normRelu z mean var γ β eps`, and since the ten blocks cover all 50000 rows (row `r` lies in block `r / 5000`),
  the output array ends holding that function.
-/
import proofs.«177653_j8959301779747_1_alg».proof.Proof.Spec
import proofs.«177653_j8959301779747_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

noncomputable section

namespace Cert.GIN.Reg15

open Cert.KernelIdeal Cert.KernelIdeal.Gen Cert.GIN
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The zero offsets of a block read or written whole. -/
theorem hz : (![0, 0] : Fin 2 → Nat) = fun _ => 0 := funext fun a => by fin_cases a <;> rfl

/-- The body's arithmetic at entry `(p, q)` of a block: the row vectors are read at column `q` of their one row, the
    rectifier's zero word is the number zero. -/
theorem pay_apply (x0 : Vec Ideal S5000x128 .f32) (x1 x2 x3 x4 : Vec Ideal S1x128 .f32) (p : Fin 5000) (q : Fin 128) :
    k15_pay1 x0 x1 x2 x3 x4 (ix2 p q)
      = max (x3 (ix2 0 q) * (x0 (ix2 p q) - x1 (ix2 0 q)) * Ideal.rsqrt (x2 (ix2 0 q) + Ideal.ofBits .f32 0x3727C5AC#32)
          + x4 (ix2 0 q)) 0 := by
  unfold k15_pay1
  simp only [shapeCast_self]
  rw [maximumf_apply, addf_apply, mulf_apply, mulf_apply, subf_apply, broadcast_apply,
    broadcastTo_1b_ab_apply, broadcastTo_1b_ab_apply, broadcastTo_1b_ab_apply, broadcastTo_1b_ab_apply]
  show max (x3 (ix2 0 q) * (x0 (ix2 p q) - x1 (ix2 0 q)) * Ideal.rsqrt (x2 (ix2 0 q) + Ideal.ofBits .f32 0x3727C5AC#32)
      + x4 (ix2 0 q)) (Ideal.ofBits .f32 0x00000000#32) = _
  rw [Ideal.ofBits_zero_f32]

/-- The same at any index of the block. -/
theorem pay_at (x0 : Vec Ideal S5000x128 .f32) (x1 x2 x3 x4 : Vec Ideal S1x128 .f32) (j : S5000x128.Idx) :
    k15_pay1 x0 x1 x2 x3 x4 j
      = max (x3 (ix2 0 (j 1)) * (x0 j - x1 (ix2 0 (j 1))) * Ideal.rsqrt (x2 (ix2 0 (j 1)) + Ideal.ofBits .f32 0x3727C5AC#32)
          + x4 (ix2 0 (j 1))) 0 := by
  obtain ⟨p, q, rfl⟩ : ∃ (p : Fin 5000) (q : Fin 128), j = ix2 p q := ⟨j 0, j 1, eq_ix2 j⟩
  exact pay_apply x0 x1 x2 x3 x4 p q

/-- The block indices, decided over the ten grid points: the matrix and the output move together down the rows, one
    block per point; the four row vectors stay at their one block. -/
theorem idx_facts : ∀ t : Fin cfg15.N,
    win15_5.index t (0 : Fin 2) = t.val ∧ win15_5.index t (1 : Fin 2) = 0
    ∧ win15_0.index t (0 : Fin 2) = t.val ∧ win15_0.index t (1 : Fin 2) = 0
    ∧ win15_1.index t (0 : Fin 2) = 0 ∧ win15_1.index t (1 : Fin 2) = 0
    ∧ win15_2.index t (0 : Fin 2) = 0 ∧ win15_2.index t (1 : Fin 2) = 0
    ∧ win15_3.index t (0 : Fin 2) = 0 ∧ win15_3.index t (1 : Fin 2) = 0
    ∧ win15_4.index t (0 : Fin 2) = 0 ∧ win15_4.index t (1 : Fin 2) = 0 :=
  (by decide +kernel : ∀ t : Fin grid15.N, _)

/-- THE BLOCK EQUATION at a symbolic grid point `t`: the body's arithmetic on the five blocks at `t` is block `t` of
    `normRelu` of the five arrays.  Entry `j` of the block of `z` and of the output sit at the same place of their
    arrays (row `5000·t + j 0`, column `j 1`), and entry `(0, j 1)` of each row vector's one block is entry `(0, j 1)`
    of the row vector. -/
theorem block_eq (t : Fin cfg15.N) (z : Mat 50000 128) (mean var γ β : Mat 1 128) :
    k15_pay1 (((cfg15.win 0).blk t).view.read (Elt Ideal) z) (((cfg15.win 1).blk t).view.read (Elt Ideal) mean)
        (((cfg15.win 2).blk t).view.read (Elt Ideal) var) (((cfg15.win 3).blk t).view.read (Elt Ideal) γ)
        (((cfg15.win 4).blk t).view.read (Elt Ideal) β)
      = ((cfg15.win 5).blk t).view.read (Elt Ideal) (normRelu z mean var γ β (Ideal.ofBits .f32 0x3727C5AC#32)) := by
  obtain ⟨e50, e51, e00, e01, e10, e11, e20, e21, e30, e31, e40, e41⟩ := idx_facts t
  funext j
  refine (pay_at _ _ _ _ _ j).trans ?_
  have h0 : ((cfg15.win 0).blk t).view.emb j = ((cfg15.win 5).blk t).view.emb j := by
    funext a; apply Fin.ext
    match a with
    | ⟨0, _⟩ => show win15_0.index t (0 : Fin 2) * 5000 + 1 * (j 0).val = win15_5.index t (0 : Fin 2) * 5000 + 1 * (j 0).val; rw [e00, e50]
    | ⟨1, _⟩ => show win15_0.index t (1 : Fin 2) * 128 + 1 * (j 1).val = win15_5.index t (1 : Fin 2) * 128 + 1 * (j 1).val; rw [e01, e51]
  have h1 : ((cfg15.win 1).blk t).view.emb (ix2 0 (j 1)) = (ix2 (0 : Fin 1) ((((cfg15.win 5).blk t).view.emb j) 1) : S1x128.Idx) := by
    funext a; apply Fin.ext
    match a with
    | ⟨0, _⟩ => show win15_1.index t (0 : Fin 2) * 1 + 1 * 0 = 0; rw [e10]
    | ⟨1, _⟩ => show win15_1.index t (1 : Fin 2) * 128 + 1 * (j 1).val = win15_5.index t (1 : Fin 2) * 128 + 1 * (j 1).val; rw [e11, e51]
  have h2 : ((cfg15.win 2).blk t).view.emb (ix2 0 (j 1)) = (ix2 (0 : Fin 1) ((((cfg15.win 5).blk t).view.emb j) 1) : S1x128.Idx) := by
    funext a; apply Fin.ext
    match a with
    | ⟨0, _⟩ => show win15_2.index t (0 : Fin 2) * 1 + 1 * 0 = 0; rw [e20]
    | ⟨1, _⟩ => show win15_2.index t (1 : Fin 2) * 128 + 1 * (j 1).val = win15_5.index t (1 : Fin 2) * 128 + 1 * (j 1).val; rw [e21, e51]
  have h3 : ((cfg15.win 3).blk t).view.emb (ix2 0 (j 1)) = (ix2 (0 : Fin 1) ((((cfg15.win 5).blk t).view.emb j) 1) : S1x128.Idx) := by
    funext a; apply Fin.ext
    match a with
    | ⟨0, _⟩ => show win15_3.index t (0 : Fin 2) * 1 + 1 * 0 = 0; rw [e30]
    | ⟨1, _⟩ => show win15_3.index t (1 : Fin 2) * 128 + 1 * (j 1).val = win15_5.index t (1 : Fin 2) * 128 + 1 * (j 1).val; rw [e31, e51]
  have h4 : ((cfg15.win 4).blk t).view.emb (ix2 0 (j 1)) = (ix2 (0 : Fin 1) ((((cfg15.win 5).blk t).view.emb j) 1) : S1x128.Idx) := by
    funext a; apply Fin.ext
    match a with
    | ⟨0, _⟩ => show win15_4.index t (0 : Fin 2) * 1 + 1 * 0 = 0; rw [e40]
    | ⟨1, _⟩ => show win15_4.index t (1 : Fin 2) * 128 + 1 * (j 1).val = win15_5.index t (1 : Fin 2) * 128 + 1 * (j 1).val; rw [e41, e51]
  show max (γ (((cfg15.win 3).blk t).view.emb (ix2 0 (j 1)))
        * (z (((cfg15.win 0).blk t).view.emb j) - mean (((cfg15.win 1).blk t).view.emb (ix2 0 (j 1))))
        * Ideal.rsqrt (var (((cfg15.win 2).blk t).view.emb (ix2 0 (j 1))) + Ideal.ofBits .f32 0x3727C5AC#32)
      + β (((cfg15.win 4).blk t).view.emb (ix2 0 (j 1)))) 0
    = normRelu z mean var γ β (Ideal.ofBits .f32 0x3727C5AC#32) (((cfg15.win 5).blk t).view.emb j)
  rw [h0, h1, h2, h3, h4]
  rfl

/-- An index of the output array is in point `t`'s block iff each coordinate is in the block's range on its axis. -/
theorem mem_blk (t : Fin cfg15.N) (i : S50000x128.Idx) :
    i ∈ ((cfg15.win 5).blk t).view.set ↔ ∀ a : Fin 2, win15_5.index t a * S5000x128.size a ≤ (i a).val
      ∧ (i a).val < win15_5.index t a * S5000x128.size a + S5000x128.size a := by
  show i ∈ ((View.whole main_v187).slice (win15_5.rect t)).set ↔ _
  rw [View.set_slice_whole, Rect.mem_set_unit]
  exact Iff.rfl

/-- THE COVER: row `r` of the output lies in the block of grid point `r / 5000`, which writes its block back. -/
theorem cover (i : S50000x128.Idx) :
    ∃ t : Fin cfg15.N, (cfg15.win 5).flush t = true ∧ i ∈ ((cfg15.win 5).blk t).view.set := by
  have hi0 : (i 0).val < 50000 := (i 0).isLt
  have hi1 : (i 1).val < 128 := (i 1).isLt
  have hN : cfg15.N = 10 := N_15
  have ht : (i 0).val / 5000 < cfg15.N := by rw [hN]; omega
  obtain ⟨e50, e51, -⟩ := idx_facts ⟨(i 0).val / 5000, ht⟩
  refine ⟨⟨(i 0).val / 5000, ht⟩, flush15_5 _, ?_⟩
  rw [mem_blk]
  intro a
  match a with
  | ⟨0, _⟩ =>
    show win15_5.index ⟨(i 0).val / 5000, ht⟩ (0 : Fin 2) * 5000 ≤ (i 0).val
      ∧ (i 0).val < win15_5.index ⟨(i 0).val / 5000, ht⟩ (0 : Fin 2) * 5000 + 5000
    rw [e50]
    show (i 0).val / 5000 * 5000 ≤ (i 0).val ∧ (i 0).val < (i 0).val / 5000 * 5000 + 5000
    omega
  | ⟨1, _⟩ =>
    show win15_5.index ⟨(i 0).val / 5000, ht⟩ (1 : Fin 2) * 128 ≤ (i 1).val
      ∧ (i 1).val < win15_5.index ⟨(i 0).val / 5000, ht⟩ (1 : Fin 2) * 128 + 128
    rw [e51]
    omega

/-- WHAT POINT `t` WRITES BACK is block `t` of `normRelu` of the five arrays as the region finds them: the body's one
    store fills the whole staging buffer with its arithmetic on the five blocks at `t`. -/
theorem flushed_eq (c : Dev nD) (t : Fin cfg15.N) :
    (dat15 (F := Ideal) V c).flushed 5 t = ((cfg15.win 5).blk t).view.read (Elt Ideal)
      (normRelu (n := 50000) (d := 128) (V c (Pipeline.arrRef spec15 0)) (V c (Pipeline.arrRef spec15 1))
        (V c (Pipeline.arrRef spec15 2)) (V c (Pipeline.arrRef spec15 3)) (V c (Pipeline.arrRef spec15 4))
        (Ideal.ofBits .f32 0x3727C5AC#32)) := by
  show (cfg15.win 5).cut (grid15.coords t) ((dat15 (F := Ideal) V c).after 5 t) = _
  rw [after15_5]
  unfold out15_5
  rw [View.canon_unit_zero hz]
  simp only [View.ld_unit_zero (S := S5000x128) hz, View.ld_unit_zero (S := S1x128) hz]
  unfold iblk15
  exact block_eq t (V c (Pipeline.arrRef spec15 0)) (V c (Pipeline.arrRef spec15 1)) (V c (Pipeline.arrRef spec15 2))
    (V c (Pipeline.arrRef spec15 3)) (V c (Pipeline.arrRef spec15 4))

/-- THE OUTPUT ARRAY after the region: `normRelu` of the five arrays as the region finds them. -/
theorem out (c : Dev nD) :
    (dat15 (F := Ideal) V c).arrAt 5 cfg15.N
      = normRelu (n := 50000) (d := 128) (V c (Pipeline.arrRef spec15 0)) (V c (Pipeline.arrRef spec15 1))
          (V c (Pipeline.arrRef spec15 2)) (V c (Pipeline.arrRef spec15 3)) (V c (Pipeline.arrRef spec15 4))
          (Ideal.ofBits .f32 0x3727C5AC#32) :=
  (dat15 (F := Ideal) V c).arrAt_eq_of_cover 5 _ (fun t _ => flushed_eq V c t) cover

end Cert.GIN.Reg15

end
-- ==== Proof.Wire3.lean ====
/-
  The wiring of layer 3: what each input window of regions 12–15 holds when its region is entered.

  Each window's array is either an argument as launched, an earlier region's output array, or the value of the host
  operations that precede the region applied to such arrays; every equation below names which, with the host
  operations written out as the composition the program applies.
-/
import proofs.«177653_j8959301779747_1_alg».proof.Proof.WireKeep
import proofs.«177653_j8959301779747_1_alg».proof.Proof.Wire0

set_option maxRecDepth 16384

noncomputable section

namespace Cert.GIN.K

open Cert.KernelIdeal Cert.KernelIdeal.Gen
open Idealize.ShloMosaic Idealize.ShloMosaic.TcCoe Idealize.ShloMosaic.Tactic
open Idealize.ShloMosaic.Pipeline (Dat Cfg Window cellOf)

variable {F : FTy → Type} [FloatOps F]

variable (m : (ℓ : Loc nD τ sig) → Buf (Elt F) ℓ) (ρ : Dev nD → PrngReg)

/-! ## Region 12 -/

/-- Region 12, input window 0 (the array `main_v141`) at the region's entry: region 11's output array 5, which the host operations in between do not write. -/
theorem wire_12_0 (c : Dev nD) : V25 m ρ c (Pipeline.arrRef spec12 0) = (dat11 (V23 m ρ) c).arrAt 5 cfg11.N :=
  (host12_keep m ρ c main_v141 (by decide)).trans (W24_arr m ρ c 5)

set_option maxHeartbeats 2000000 in
/-- Region 12, input window 1 (the array `main_v151`) at the region's entry: the value the host operations before the region compute for it, written out down to the launch contents of the arguments and the earlier regions' output arrays. -/
theorem wire_12_1 (c : Dev nD) : V25 m ρ c (Pipeline.arrRef spec12 1) =
    (Host.scatterAdd scatter_S50000x128_S800000x1_S800000x128_1_0_0_1 (((broadcastInDim S50000x128 ![] bcast_S_S50000x128 : (⟨S_, .f32⟩ : BufTy).Contents (Elt F) → (⟨S50000x128, .f32⟩ : BufTy).Contents (Elt F)) (constant S_ .f32 0x00000000#32 : (⟨S_, .f32⟩ : BufTy).Contents (Elt F))) : (⟨S50000x128, .f32⟩ : BufTy).Contents (Elt F)) (((broadcastInDim S800000x1 ![0] bcast_S800000_S800000x1_0 : (⟨S800000, .i32⟩ : BufTy).Contents (Elt F) → (⟨S800000x1, .i32⟩ : BufTy).Contents (Elt F)) (shapeCast S800000 (extractStridedSlice S1x800000 ![1, 0] ((m ((c : Thread nD τ).loc main_arg1)) : (⟨S2x800000, .i32⟩ : BufTy).Contents (Elt F)) slices_S2x800000_S1x800000_1_0) shapeCasts_S1x800000_S800000)) : (⟨S800000x1, .i32⟩ : BufTy).Contents (Elt F)) ((Host.gather gather_S50000x128_S800000x1_S800000x128_1_0_n_n_0_1_1128 (((dat11 (V23 m ρ) c).arrAt 5 cfg11.N) : (⟨S50000x128, .f32⟩ : BufTy).Contents (Elt F)) (((broadcastInDim S800000x1 ![0] bcast_S800000_S800000x1_0 : (⟨S800000, .i32⟩ : BufTy).Contents (Elt F) → (⟨S800000x1, .i32⟩ : BufTy).Contents (Elt F)) ((select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) ((cmpi .slt : (⟨S800000, .i32⟩ : BufTy).Contents (Elt F) → (⟨S800000, .i32⟩ : BufTy).Contents (Elt F) → (⟨S800000, .i1⟩ : BufTy).Contents (Elt F)) (shapeCast S800000 (extractStridedSlice S1x800000 ![0, 0] ((m ((c : Thread nD τ).loc main_arg1)) : (⟨S2x800000, .i32⟩ : BufTy).Contents (Elt F)) slices_S2x800000_S1x800000_0_0) shapeCasts_S1x800000_S800000) ((broadcastInDim S800000 ![] bcast_S_S800000 : (⟨S_, .i32⟩ : BufTy).Contents (Elt F) → (⟨S800000, .i32⟩ : BufTy).Contents (Elt F)) (constantI S_ 32 0#32 : (⟨S_, .i32⟩ : BufTy).Contents (Elt F)))) ((addi : (⟨S800000, .i32⟩ : BufTy).Contents (Elt F) → (⟨S800000, .i32⟩ : BufTy).Contents (Elt F) → (⟨S800000, .i32⟩ : BufTy).Contents (Elt F)) (shapeCast S800000 (extractStridedSlice S1x800000 ![0, 0] ((m ((c : Thread nD τ).loc main_arg1)) : (⟨S2x800000, .i32⟩ : BufTy).Contents (Elt F)) slices_S2x800000_S1x800000_0_0) shapeCasts_S1x800000_S800000) ((broadcastInDim S800000 ![] bcast_S_S800000 : (⟨S_, .i32⟩ : BufTy).Contents (Elt F) → (⟨S800000, .i32⟩ : BufTy).Contents (Elt F)) (constantI S_ 32 50000#32 : (⟨S_, .i32⟩ : BufTy).Contents (Elt F)))) (shapeCast S800000 (extractStridedSlice S1x800000 ![0, 0] ((m ((c : Thread nD τ).loc main_arg1)) : (⟨S2x800000, .i32⟩ : BufTy).Contents (Elt F)) slices_S2x800000_S1x800000_0_0) shapeCasts_S1x800000_S800000))) : (⟨S800000x1, .i32⟩ : BufTy).Contents (Elt F))) : (⟨S800000x128, .f32⟩ : BufTy).Contents (Elt F))) := by
  show StableHlo.after hostOps12 (W24 m ρ c) (Proc.devRef .tc main_v151) = _
  after_results
  rw [at_v3_24 m ρ c, wire_v3 m ρ c, (W24_arr m ρ c 5 : W24 m ρ c (Proc.devRef .tc main_v141) = _), at_v1_24 m ρ c, wire_v1 m ρ c]
  all_goals rfl

set_option maxHeartbeats 2000000 in
/-- Region 12, input window 2 (the array `main_v155`) at the region's entry: the value the host operations before the region compute for it, written out down to the launch contents of the arguments and the earlier regions' output arrays. -/
theorem wire_12_2 (c : Dev nD) : V25 m ρ c (Pipeline.arrRef spec12 2) =
    (shapeCast S1x1 ((addf : (⟨S_, .f32⟩ : BufTy).Contents (Elt F) → (⟨S_, .f32⟩ : BufTy).Contents (Elt F) → (⟨S_, .f32⟩ : BufTy).Contents (Elt F)) (constant S_ .f32 0x3F800000#32 : (⟨S_, .f32⟩ : BufTy).Contents (Elt F)) (shapeCast S_ (extractStridedSlice S1 ![3] ((m ((c : Thread nD τ).loc main_arg11)) : (⟨S7, .f32⟩ : BufTy).Contents (Elt F)) slices_S7_S1_3) shapeCasts_S1_S_)) shapeCasts_S_S1x1) := by
  show StableHlo.after hostOps12 (W24 m ρ c) (Proc.devRef .tc main_v155) = _
  after_results
  rw [at_arg11_24 m ρ c]
  all_goals rfl

set_option maxHeartbeats 2000000 in
/-- Region 12, input window 3 (the array `main_v157`) at the region's entry: the value the host operations before the region compute for it, written out down to the launch contents of the arguments and the earlier regions' output arrays. -/
theorem wire_12_3 (c : Dev nD) : V25 m ρ c (Pipeline.arrRef spec12 3) =
    (shapeCast S128x64 (extractStridedSlice S1x128x64 ![3, 0, 0] ((m ((c : Thread nD τ).loc main_arg4)) : (⟨S7x128x64, .f32⟩ : BufTy).Contents (Elt F)) slices_S7x128x64_S1x128x64_3_0_0) shapeCasts_S1x128x64_S128x64) := by
  show StableHlo.after hostOps12 (W24 m ρ c) (Proc.devRef .tc main_v157) = _
  after_results
  rw [at_arg4_24 m ρ c]
  all_goals rfl

/-! ## Region 13 -/

/-- Region 13, input window 0 (the array `main_v158_0`) at the region's entry: region 12's output array 4, which the host operations in between do not write. -/
theorem wire_13_0 (c : Dev nD) : V27 m ρ c (Pipeline.arrRef spec13 0) = (dat12 (V25 m ρ) c).arrAt 4 cfg12.N :=
  (host13_keep m ρ c main_v158_0 (by decide)).trans (W26_arr m ρ c 4)

set_option maxHeartbeats 2000000 in
/-- Region 13, input window 1 (the array `main_v160`) at the region's entry: the value the host operations before the region compute for it, written out down to the launch contents of the arguments and the earlier regions' output arrays. -/
theorem wire_13_1 (c : Dev nD) : V27 m ρ c (Pipeline.arrRef spec13 1) =
    ((Host.divf : (⟨S1x64, .f32⟩ : BufTy).Contents (Elt F) → (⟨S1x64, .f32⟩ : BufTy).Contents (Elt F) → (⟨S1x64, .f32⟩ : BufTy).Contents (Elt F)) ((dat12 (V25 m ρ) c).arrAt 5 cfg12.N) ((broadcastInDim S1x64 ![] bcast_S_S1x64 : (⟨S_, .f32⟩ : BufTy).Contents (Elt F) → (⟨S1x64, .f32⟩ : BufTy).Contents (Elt F)) (constant S_ .f32 0x47435000#32 : (⟨S_, .f32⟩ : BufTy).Contents (Elt F)))) := by
  show StableHlo.after hostOps13 (W26 m ρ c) (Proc.devRef .tc main_v160) = _
  after_results
  rw [(W26_arr m ρ c 5 : W26 m ρ c (Proc.devRef .tc main_v158_1) = _)]
  all_goals rfl

set_option maxHeartbeats 2000000 in
/-- Region 13, input window 2 (the array `main_v164`) at the region's entry: the value the host operations before the region compute for it, written out down to the launch contents of the arguments and the earlier regions' output arrays. -/
theorem wire_13_2 (c : Dev nD) : V27 m ρ c (Pipeline.arrRef spec13 2) =
    ((subf : (⟨S1x64, .f32⟩ : BufTy).Contents (Elt F) → (⟨S1x64, .f32⟩ : BufTy).Contents (Elt F) → (⟨S1x64, .f32⟩ : BufTy).Contents (Elt F)) ((Host.divf : (⟨S1x64, .f32⟩ : BufTy).Contents (Elt F) → (⟨S1x64, .f32⟩ : BufTy).Contents (Elt F) → (⟨S1x64, .f32⟩ : BufTy).Contents (Elt F)) ((dat12 (V25 m ρ) c).arrAt 6 cfg12.N) ((broadcastInDim S1x64 ![] bcast_S_S1x64 : (⟨S_, .f32⟩ : BufTy).Contents (Elt F) → (⟨S1x64, .f32⟩ : BufTy).Contents (Elt F)) (constant S_ .f32 0x47435000#32 : (⟨S_, .f32⟩ : BufTy).Contents (Elt F)))) ((mulf : (⟨S1x64, .f32⟩ : BufTy).Contents (Elt F) → (⟨S1x64, .f32⟩ : BufTy).Contents (Elt F) → (⟨S1x64, .f32⟩ : BufTy).Contents (Elt F)) ((Host.divf : (⟨S1x64, .f32⟩ : BufTy).Contents (Elt F) → (⟨S1x64, .f32⟩ : BufTy).Contents (Elt F) → (⟨S1x64, .f32⟩ : BufTy).Contents (Elt F)) ((dat12 (V25 m ρ) c).arrAt 5 cfg12.N) ((broadcastInDim S1x64 ![] bcast_S_S1x64 : (⟨S_, .f32⟩ : BufTy).Contents (Elt F) → (⟨S1x64, .f32⟩ : BufTy).Contents (Elt F)) (constant S_ .f32 0x47435000#32 : (⟨S_, .f32⟩ : BufTy).Contents (Elt F)))) ((Host.divf : (⟨S1x64, .f32⟩ : BufTy).Contents (Elt F) → (⟨S1x64, .f32⟩ : BufTy).Contents (Elt F) → (⟨S1x64, .f32⟩ : BufTy).Contents (Elt F)) ((dat12 (V25 m ρ) c).arrAt 5 cfg12.N) ((broadcastInDim S1x64 ![] bcast_S_S1x64 : (⟨S_, .f32⟩ : BufTy).Contents (Elt F) → (⟨S1x64, .f32⟩ : BufTy).Contents (Elt F)) (constant S_ .f32 0x47435000#32 : (⟨S_, .f32⟩ : BufTy).Contents (Elt F)))))) := by
  show StableHlo.after hostOps13 (W26 m ρ c) (Proc.devRef .tc main_v164) = _
  after_results
  rw [(W26_arr m ρ c 6 : W26 m ρ c (Proc.devRef .tc main_v158_2) = _), (W26_arr m ρ c 5 : W26 m ρ c (Proc.devRef .tc main_v158_1) = _)]
  all_goals rfl

set_option maxHeartbeats 2000000 in
/-- Region 13, input window 3 (the array `main_v167`) at the region's entry: the value the host operations before the region compute for it, written out down to the launch contents of the arguments and the earlier regions' output arrays. -/
theorem wire_13_3 (c : Dev nD) : V27 m ρ c (Pipeline.arrRef spec13 3) =
    (shapeCast S1x64 (shapeCast S64 (extractStridedSlice S1x64 ![3, 0] ((m ((c : Thread nD τ).loc main_arg5)) : (⟨S7x64, .f32⟩ : BufTy).Contents (Elt F)) slices_S7x64_S1x64_3_0) shapeCasts_S1x64_S64) shapeCasts_S64_S1x64) := by
  show StableHlo.after hostOps13 (W26 m ρ c) (Proc.devRef .tc main_v167) = _
  after_results
  rw [at_arg5_26 m ρ c]
  all_goals rfl

set_option maxHeartbeats 2000000 in
/-- Region 13, input window 4 (the array `main_v170`) at the region's entry: the value the host operations before the region compute for it, written out down to the launch contents of the arguments and the earlier regions' output arrays. -/
theorem wire_13_4 (c : Dev nD) : V27 m ρ c (Pipeline.arrRef spec13 4) =
    (shapeCast S1x64 (shapeCast S64 (extractStridedSlice S1x64 ![3, 0] ((m ((c : Thread nD τ).loc main_arg6)) : (⟨S7x64, .f32⟩ : BufTy).Contents (Elt F)) slices_S7x64_S1x64_3_0) shapeCasts_S1x64_S64) shapeCasts_S64_S1x64) := by
  show StableHlo.after hostOps13 (W26 m ρ c) (Proc.devRef .tc main_v170) = _
  after_results
  rw [at_arg6_26 m ρ c]
  all_goals rfl

/-! ## Region 14 -/

/-- Region 14, input window 0 (the array `main_v171`) at the region's entry: region 13's output array 5, which the host operations in between do not write. -/
theorem wire_14_0 (c : Dev nD) : V29 m ρ c (Pipeline.arrRef spec14 0) = (dat13 (V27 m ρ) c).arrAt 5 cfg13.N :=
  (host14_keep m ρ c main_v171 (by decide)).trans (W28_arr m ρ c 5)

set_option maxHeartbeats 2000000 in
/-- Region 14, input window 1 (the array `main_v173`) at the region's entry: the value the host operations before the region compute for it, written out down to the launch contents of the arguments and the earlier regions' output arrays. -/
theorem wire_14_1 (c : Dev nD) : V29 m ρ c (Pipeline.arrRef spec14 1) =
    (shapeCast S64x128 (extractStridedSlice S1x64x128 ![3, 0, 0] ((m ((c : Thread nD τ).loc main_arg7)) : (⟨S6x64x128, .f32⟩ : BufTy).Contents (Elt F)) slices_S6x64x128_S1x64x128_3_0_0) shapeCasts_S1x64x128_S64x128) := by
  show StableHlo.after hostOps14 (W28 m ρ c) (Proc.devRef .tc main_v173) = _
  after_results
  rw [at_arg7_28 m ρ c]
  all_goals rfl

/-! ## Region 15 -/

/-- Region 15, input window 0 (the array `main_v174_0`) at the region's entry: region 14's output array 2, which the host operations in between do not write. -/
theorem wire_15_0 (c : Dev nD) : V31 m ρ c (Pipeline.arrRef spec15 0) = (dat14 (V29 m ρ) c).arrAt 2 cfg14.N :=
  (host15_keep m ρ c main_v174_0 (by decide)).trans (W30_arr m ρ c 2)

set_option maxHeartbeats 2000000 in
/-- Region 15, input window 1 (the array `main_v176`) at the region's entry: the value the host operations before the region compute for it, written out down to the launch contents of the arguments and the earlier regions' output arrays. -/
theorem wire_15_1 (c : Dev nD) : V31 m ρ c (Pipeline.arrRef spec15 1) =
    ((Host.divf : (⟨S1x128, .f32⟩ : BufTy).Contents (Elt F) → (⟨S1x128, .f32⟩ : BufTy).Contents (Elt F) → (⟨S1x128, .f32⟩ : BufTy).Contents (Elt F)) ((dat14 (V29 m ρ) c).arrAt 3 cfg14.N) ((broadcastInDim S1x128 ![] bcast_S_S1x128 : (⟨S_, .f32⟩ : BufTy).Contents (Elt F) → (⟨S1x128, .f32⟩ : BufTy).Contents (Elt F)) (constant S_ .f32 0x47435000#32 : (⟨S_, .f32⟩ : BufTy).Contents (Elt F)))) := by
  show StableHlo.after hostOps15 (W30 m ρ c) (Proc.devRef .tc main_v176) = _
  after_results
  rw [(W30_arr m ρ c 3 : W30 m ρ c (Proc.devRef .tc main_v174_1) = _)]
  all_goals rfl

set_option maxHeartbeats 2000000 in
/-- Region 15, input window 2 (the array `main_v180`) at the region's entry: the value the host operations before the region compute for it, written out down to the launch contents of the arguments and the earlier regions' output arrays. -/
theorem wire_15_2 (c : Dev nD) : V31 m ρ c (Pipeline.arrRef spec15 2) =
    ((subf : (⟨S1x128, .f32⟩ : BufTy).Contents (Elt F) → (⟨S1x128, .f32⟩ : BufTy).Contents (Elt F) → (⟨S1x128, .f32⟩ : BufTy).Contents (Elt F)) ((Host.divf : (⟨S1x128, .f32⟩ : BufTy).Contents (Elt F) → (⟨S1x128, .f32⟩ : BufTy).Contents (Elt F) → (⟨S1x128, .f32⟩ : BufTy).Contents (Elt F)) ((dat14 (V29 m ρ) c).arrAt 4 cfg14.N) ((broadcastInDim S1x128 ![] bcast_S_S1x128 : (⟨S_, .f32⟩ : BufTy).Contents (Elt F) → (⟨S1x128, .f32⟩ : BufTy).Contents (Elt F)) (constant S_ .f32 0x47435000#32 : (⟨S_, .f32⟩ : BufTy).Contents (Elt F)))) ((mulf : (⟨S1x128, .f32⟩ : BufTy).Contents (Elt F) → (⟨S1x128, .f32⟩ : BufTy).Contents (Elt F) → (⟨S1x128, .f32⟩ : BufTy).Contents (Elt F)) ((Host.divf : (⟨S1x128, .f32⟩ : BufTy).Contents (Elt F) → (⟨S1x128, .f32⟩ : BufTy).Contents (Elt F) → (⟨S1x128, .f32⟩ : BufTy).Contents (Elt F)) ((dat14 (V29 m ρ) c).arrAt 3 cfg14.N) ((broadcastInDim S1x128 ![] bcast_S_S1x128 : (⟨S_, .f32⟩ : BufTy).Contents (Elt F) → (⟨S1x128, .f32⟩ : BufTy).Contents (Elt F)) (constant S_ .f32 0x47435000#32 : (⟨S_, .f32⟩ : BufTy).Contents (Elt F)))) ((Host.divf : (⟨S1x128, .f32⟩ : BufTy).Contents (Elt F) → (⟨S1x128, .f32⟩ : BufTy).Contents (Elt F) → (⟨S1x128, .f32⟩ : BufTy).Contents (Elt F)) ((dat14 (V29 m ρ) c).arrAt 3 cfg14.N) ((broadcastInDim S1x128 ![] bcast_S_S1x128 : (⟨S_, .f32⟩ : BufTy).Contents (Elt F) → (⟨S1x128, .f32⟩ : BufTy).Contents (Elt F)) (constant S_ .f32 0x47435000#32 : (⟨S_, .f32⟩ : BufTy).Contents (Elt F)))))) := by
  show StableHlo.after hostOps15 (W30 m ρ c) (Proc.devRef .tc main_v180) = _
  after_results
  rw [(W30_arr m ρ c 4 : W30 m ρ c (Proc.devRef .tc main_v174_2) = _), (W30_arr m ρ c 3 : W30 m ρ c (Proc.devRef .tc main_v174_1) = _)]
  all_goals rfl

set_option maxHeartbeats 2000000 in
/-- Region 15, input window 3 (the array `main_v183`) at the region's entry: the value the host operations before the region compute for it, written out down to the launch contents of the arguments and the earlier regions' output arrays. -/
theorem wire_15_3 (c : Dev nD) : V31 m ρ c (Pipeline.arrRef spec15 3) =
    (shapeCast S1x128 (shapeCast S128 (extractStridedSlice S1x128 ![3, 0] ((m ((c : Thread nD τ).loc main_arg8)) : (⟨S6x128, .f32⟩ : BufTy).Contents (Elt F)) slices_S6x128_S1x128_3_0) shapeCasts_S1x128_S128) shapeCasts_S128_S1x128) := by
  show StableHlo.after hostOps15 (W30 m ρ c) (Proc.devRef .tc main_v183) = _
  after_results
  rw [at_arg8_30 m ρ c]
  all_goals rfl

set_option maxHeartbeats 2000000 in
/-- Region 15, input window 4 (the array `main_v186`) at the region's entry: the value the host operations before the region compute for it, written out down to the launch contents of the arguments and the earlier regions' output arrays. -/
theorem wire_15_4 (c : Dev nD) : V31 m ρ c (Pipeline.arrRef spec15 4) =
    (shapeCast S1x128 (shapeCast S128 (extractStridedSlice S1x128 ![3, 0] ((m ((c : Thread nD τ).loc main_arg9)) : (⟨S6x128, .f32⟩ : BufTy).Contents (Elt F)) slices_S6x128_S1x128_3_0) shapeCasts_S1x128_S128) shapeCasts_S128_S1x128) := by
  show StableHlo.after hostOps15 (W30 m ρ c) (Proc.devRef .tc main_v186) = _
  after_results
  rw [at_arg9_30 m ρ c]
  all_goals rfl

end Cert.GIN.K

end
-- ==== Proof.KLayer3.lean ====
/-
  Layer 3 of the kernel program at the level of the specification: what its regions leave, as functions of what
  they find.  A normalisation region's output is the batch normalisation of the product region's first output,
  from the column means and uncentred variances the host arithmetic forms out of that region's two statistics rows.
-/
import proofs.«177653_j8959301779747_1_alg».proof.Proof.Reg12
import proofs.«177653_j8959301779747_1_alg».proof.Proof.Reg13
import proofs.«177653_j8959301779747_1_alg».proof.Proof.Reg14
import proofs.«177653_j8959301779747_1_alg».proof.Proof.Reg15
import proofs.«177653_j8959301779747_1_alg».proof.Proof.Wire3
import proofs.«177653_j8959301779747_1_alg».proof.Proof.KGlue

set_option maxRecDepth 16384

noncomputable section

namespace Cert.GIN.K

open Cert.KernelIdeal Cert.KernelIdeal.Gen
open Idealize.ShloMosaic Idealize.ShloMosaic.TcCoe Cert.GIN

variable (m : (ℓ : Loc nD τ sig) → Buf (Elt Ideal) ℓ) (ρ : Dev nD → PrngReg)

set_option maxHeartbeats 4000000 in
/-- The first normalisation of layer 3: batch normalisation (uncentred statistics) of `(sc · x + agg) · w1`. -/
theorem half_L3 (c : Dev nD) : (dat13 (V27 m ρ) c).arrAt 5 cfg13.N
    = bnU (mm (comb (V25 m ρ c (Pipeline.arrRef spec12 2)) (V25 m ρ c (Pipeline.arrRef spec12 0)) (V25 m ρ c (Pipeline.arrRef spec12 1))) (V25 m ρ c (Pipeline.arrRef spec12 3)))
        (V27 m ρ c (Pipeline.arrRef spec13 3)) (V27 m ρ c (Pipeline.arrRef spec13 4)) Nlit (Ideal.ofBits .f32 0x3727C5AC#32) := by
  rw [Reg13.out (V27 m ρ) c, wire_13_0 m ρ c, wire_13_1 m ρ c, wire_13_2 m ρ c]
  rw [varU_of64 _ _ _ (Reg12.s (V25 m ρ) c) (Reg12.ss (V25 m ρ) c), meanU_of64 _ _ (Reg12.s (V25 m ρ) c),
    Reg12.z (V25 m ρ) c]
  rfl

set_option maxHeartbeats 4000000 in
/-- The second normalisation of layer 3: batch normalisation of `h1 · w2`, `h1` the first one's result. -/
theorem full_L3 (c : Dev nD) : (dat15 (V31 m ρ) c).arrAt 5 cfg15.N
    = bnU (mm ((dat13 (V27 m ρ) c).arrAt 5 cfg13.N) (V29 m ρ c (Pipeline.arrRef spec14 1)))
        (V31 m ρ c (Pipeline.arrRef spec15 3)) (V31 m ρ c (Pipeline.arrRef spec15 4)) Nlit (Ideal.ofBits .f32 0x3727C5AC#32) := by
  have hz := Reg14.z (V29 m ρ) c
  have hs := Reg14.s (V29 m ρ) c
  have hss := Reg14.ss (V29 m ρ) c
  rw [wire_14_0 m ρ c] at hz hs hss
  rw [Reg15.out (V31 m ρ) c, wire_15_0 m ρ c, wire_15_1 m ρ c, wire_15_2 m ρ c]
  rw [varU_of128 _ _ _ hs hss, meanU_of128 _ _ hs, hz]
  rfl

end Cert.GIN.K

end
-- ==== Proof.Assemble3.lean ====
/-
  Layer 3 of the first program is layer 3 of the second.

  The layer's output is the uncentred-statistics block of its input, its operands being what the region windows hold
  at entry: the input itself, its neighbour sum along the edge list, the 1×1 cast of `1 + e`, and slices of the
  parameter arrays (the vectors read as one-row matrices).  With the input and the parameters real this is the second
  program's block of the same input and parameters, and real again.
-/
import proofs.«177653_j8959301779747_1_alg».proof.Proof.KLayer3
import proofs.«177653_j8959301779747_1_alg».proof.Proof.AssembleBridge
import proofs.«177653_j8959301779747_1_alg».proof.Proof.RefValueDefs
import proofs.«177653_j8959301779747_1_alg».proof.Proof.Gen.ReferenceIdeal

set_option maxRecDepth 16384

noncomputable section

namespace Cert.GIN.K

open Cert.KernelIdeal Cert.KernelIdeal.Gen
open Idealize.ShloMosaic Idealize.ShloMosaic.TcCoe Cert.GIN

variable (m : (ℓ : Loc nD τ sig) → Buf (Elt Ideal) ℓ) (ρ : Dev nD → PrngReg)

set_option maxHeartbeats 2000000 in
/-- Layer 3: from the layer's input agreeing with the second program's to its output agreeing, and real. -/
theorem step_3 (c : Dev nD)
    (reals : IsReal ((m ((c : Thread nD τ).loc main_arg0)) : FVec Ideal Cert.KernelIdeal.S50000x128 .f32)
      ∧ IsReal ((m ((c : Thread nD τ).loc main_arg4)) : FVec Ideal Cert.KernelIdeal.S7x128x64 .f32)
      ∧ IsReal ((m ((c : Thread nD τ).loc main_arg5)) : FVec Ideal Cert.KernelIdeal.S7x64 .f32)
      ∧ IsReal ((m ((c : Thread nD τ).loc main_arg6)) : FVec Ideal Cert.KernelIdeal.S7x64 .f32)
      ∧ IsReal ((m ((c : Thread nD τ).loc main_arg7)) : FVec Ideal Cert.KernelIdeal.S6x64x128 .f32)
      ∧ IsReal ((m ((c : Thread nD τ).loc main_arg8)) : FVec Ideal Cert.KernelIdeal.S6x128 .f32)
      ∧ IsReal ((m ((c : Thread nD τ).loc main_arg9)) : FVec Ideal Cert.KernelIdeal.S6x128 .f32)
      ∧ IsReal ((m ((c : Thread nD τ).loc main_arg10)) : FVec Ideal Cert.KernelIdeal.S64x2 .f32)
      ∧ IsReal ((m ((c : Thread nD τ).loc main_arg11)) : FVec Ideal Cert.KernelIdeal.S7 .f32)
      ∧ IsReal ((m ((c : Thread nD τ).loc main_arg2)) : FVec Ideal Cert.KernelIdeal.S800000 .f32))
    (hx : ((dat11 (V23 m ρ) c).arrAt 5 cfg11.N) = (Ref.X3 (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg11))))
    (hr : IsReal (Ref.X3 (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg11)))) :
    ((dat15 (V31 m ρ) c).arrAt 5 cfg15.N) = (Ref.X4 (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg11)))
      ∧ IsReal (Ref.X4 (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg11))) := by
  obtain ⟨r0, r4, r5, r6, r7, r8, r9, _, r11, _⟩ := reals
  have rx : IsReal ((dat11 (V23 m ρ) c).arrAt 5 cfg11.N) := by rw [hx]; exact hr
  have hsc : ((V25 m ρ c (Pipeline.arrRef spec12 2)) : Mat 1 1) = shapeCast Cert.KernelIdeal.S1x1
      (addf (F := Ideal) (constant (F := Ideal) Cert.KernelIdeal.S_ .f32 0x3F800000#32) (Ref.e3 (m ((c : Thread nD τ).loc main_arg11))))
      Cert.KernelIdeal.Facts₀.shapeCasts_S_S1x1 := wire_12_2 m ρ c
  have hag : ((V25 m ρ c (Pipeline.arrRef spec12 1)) : Mat 50000 128) = Ref.agg ((dat11 (V23 m ρ) c).arrAt 5 cfg11.N) (Ref.srcOf (m ((c : Thread nD τ).loc main_arg1))) (Ref.dstOf (m ((c : Thread nD τ).loc main_arg1))) :=
    (wire_12_1 m ρ c).trans rfl
  have hγ1 : ((V27 m ρ c (Pipeline.arrRef spec13 3)) : Mat 1 64) = rowV (Ref.g1_3 (m ((c : Thread nD τ).loc main_arg5))) := (wire_13_3 m ρ c).trans (row_cast64 _)
  have hβ1 : ((V27 m ρ c (Pipeline.arrRef spec13 4)) : Mat 1 64) = rowV (Ref.b1_3 (m ((c : Thread nD τ).loc main_arg6))) := (wire_13_4 m ρ c).trans (row_cast64 _)
  have hγ2 : ((V31 m ρ c (Pipeline.arrRef spec15 3)) : Mat 1 128) = rowV (Ref.g2_3 (m ((c : Thread nD τ).loc main_arg8))) := (wire_15_3 m ρ c).trans (row_cast128 _)
  have hβ2 : ((V31 m ρ c (Pipeline.arrRef spec15 4)) : Mat 1 128) = rowV (Ref.b2_3 (m ((c : Thread nD τ).loc main_arg9))) := (wire_15_4 m ρ c).trans (row_cast128 _)
  have re : IsReal (Ref.e3 (m ((c : Thread nD τ).loc main_arg11))) := isReal_cut _ _ _ _ r11
  have rw1 : IsReal (Ref.w1_3 (m ((c : Thread nD τ).loc main_arg4))) := isReal_cut _ _ _ _ r4
  have rg1 : IsReal (Ref.g1_3 (m ((c : Thread nD τ).loc main_arg5))) := isReal_cut _ _ _ _ r5
  have rb1 : IsReal (Ref.b1_3 (m ((c : Thread nD τ).loc main_arg6))) := isReal_cut _ _ _ _ r6
  have rw2 : IsReal (Ref.w2_3 (m ((c : Thread nD τ).loc main_arg7))) := isReal_cut _ _ _ _ r7
  have rg2 : IsReal (Ref.g2_3 (m ((c : Thread nD τ).loc main_arg8))) := isReal_cut _ _ _ _ r8
  have rb2 : IsReal (Ref.b2_3 (m ((c : Thread nD τ).loc main_arg9))) := isReal_cut _ _ _ _ r9
  have key := block_bridge _ _ _ _ _ _ _ _ _ _ _ _ _ _ _ _ hsc hag hγ1 hβ1 hγ2 hβ2 re rx rw1 rg1 rb1 rw2 rg2 rb2
  have h1 : ((dat15 (V31 m ρ) c).arrAt 5 cfg15.N) = Ref.block ((dat11 (V23 m ρ) c).arrAt 5 cfg11.N) (Ref.srcOf (m ((c : Thread nD τ).loc main_arg1))) (Ref.dstOf (m ((c : Thread nD τ).loc main_arg1))) (Ref.e3 (m ((c : Thread nD τ).loc main_arg11)))
        (Ref.w1_3 (m ((c : Thread nD τ).loc main_arg4))) (Ref.g1_3 (m ((c : Thread nD τ).loc main_arg5))) (Ref.b1_3 (m ((c : Thread nD τ).loc main_arg6)))
        (Ref.w2_3 (m ((c : Thread nD τ).loc main_arg7))) (Ref.g2_3 (m ((c : Thread nD τ).loc main_arg8))) (Ref.b2_3 (m ((c : Thread nD τ).loc main_arg9))) := by
    rw [full_L3 m ρ c, half_L3 m ρ c, wire_12_0 m ρ c, wire_12_3 m ρ c, wire_14_1 m ρ c]
    exact key.1
  have h2 : Ref.block ((dat11 (V23 m ρ) c).arrAt 5 cfg11.N) (Ref.srcOf (m ((c : Thread nD τ).loc main_arg1))) (Ref.dstOf (m ((c : Thread nD τ).loc main_arg1))) (Ref.e3 (m ((c : Thread nD τ).loc main_arg11)))
        (Ref.w1_3 (m ((c : Thread nD τ).loc main_arg4))) (Ref.g1_3 (m ((c : Thread nD τ).loc main_arg5))) (Ref.b1_3 (m ((c : Thread nD τ).loc main_arg6)))
        (Ref.w2_3 (m ((c : Thread nD τ).loc main_arg7))) (Ref.g2_3 (m ((c : Thread nD τ).loc main_arg8))) (Ref.b2_3 (m ((c : Thread nD τ).loc main_arg9))) = (Ref.X4 (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg11))) :=
    congrArg (fun X => Ref.block X (Ref.srcOf (m ((c : Thread nD τ).loc main_arg1))) (Ref.dstOf (m ((c : Thread nD τ).loc main_arg1))) (Ref.e3 (m ((c : Thread nD τ).loc main_arg11)))
        (Ref.w1_3 (m ((c : Thread nD τ).loc main_arg4))) (Ref.g1_3 (m ((c : Thread nD τ).loc main_arg5))) (Ref.b1_3 (m ((c : Thread nD τ).loc main_arg6)))
        (Ref.w2_3 (m ((c : Thread nD τ).loc main_arg7))) (Ref.g2_3 (m ((c : Thread nD τ).loc main_arg8))) (Ref.b2_3 (m ((c : Thread nD τ).loc main_arg9)))) hx
  refine ⟨h1.trans h2, ?_⟩
  rw [← h2]
  exact key.2

end Cert.GIN.K

end
-- ==== Proof.Reg16Pieces.lean ====
/-
  What one run of the combine–product–statistics body leaves in its three outputs, as values of what it loaded.

  The body loads the scale, the tile of node features, the tile of neighbour sums and the weights, stores the product
  tile, and stores each statistics row as the row it loaded plus the tile's column sums.  At the first grid point it
  first stores a zero row into each statistics buffer, and the row it then loads is that zero row; at every other point
  the row it loads is what the point before left.  Each output buffer is covered by whole-buffer stores, so its contents
  after the body are the last store's value.
-/
import proofs.«177653_j8959301779747_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.GIN.Reg16

open Cert.KernelIdeal Cert.KernelIdeal.Gen

variable {F : FTy → Type} [FloatOps F]

theorem hz : (![0, 0] : Fin 2 → Nat) = fun _ => 0 := funext fun a => by fin_cases a <;> rfl

/-- A later point leaves the product tile of its blocks. -/
theorem out_B_4 (c : Dev nD) (i : grid16.Coords) (a1 : Memref sig .tc .vmem S5000x128 .f32) (h1 : a1.IsWhole) (a2 : Memref sig .tc .vmem S5000x128 .f32) (h2 : a2.IsWhole) (a3 : Memref sig .tc .vmem S1x1 .f32) (h3 : a3.IsWhole) (a4 : Memref sig .tc .vmem S128x64 .f32) (h4 : a4.IsWhole) (a5 : Memref sig .tc .vmem S5000x64 .f32) (h5 : a5.IsWhole) (a6 : Memref sig .tc .vmem S1x64 .f32) (h6 : a6.IsWhole) (a7 : Memref sig .tc .vmem S1x64 .f32) (h7 : a7.IsWhole) (hc : ¬cond16_0 i) (x0 x1 : Vec F S5000x128 .f32) (x2 : Vec F S1x1 .f32) (x3 : Vec F S128x64 .f32) (xo5 xo6 : Vec F S1x64 .f32) :
    out16_B_4 c i a1 h1 a2 h2 a3 h3 a4 h4 a5 h5 a6 h6 a7 h7 hc x0 x1 x2 x3 xo5 xo6 = k16_pay3 x2 x0 x1 x3 := by
  unfold out16_B_4
  rw [View.read_writes_eq_canon _ _ _ (cover16_B_4 c i a1 h1 a2 h2 a3 h3 a4 h4 a5 h5 a6 h6 a7 h7 hc x0 x1 x2 x3 xo5 xo6)]
  unfold kernelRun16_B
  dsimp only
  sl_unfold_words
  rw [View.canon_unit_zero hz]
  simp only [View.readAt_eq_ld, h1.read_unread, h2.read_unread, h3.read_unread, h4.read_unread, h6.read_unread, h7.read_unread,
    View.ld_unit_zero (S := S5000x128) hz, View.ld_unit_zero (S := S1x1) hz, View.ld_unit_zero (S := S128x64) hz,
    View.ld_unit_zero (S := S1x64) hz]

/-- A later point leaves the column-sum row it found plus its tile's column sums. -/
theorem out_B_5 (c : Dev nD) (i : grid16.Coords) (a1 : Memref sig .tc .vmem S5000x128 .f32) (h1 : a1.IsWhole) (a2 : Memref sig .tc .vmem S5000x128 .f32) (h2 : a2.IsWhole) (a3 : Memref sig .tc .vmem S1x1 .f32) (h3 : a3.IsWhole) (a4 : Memref sig .tc .vmem S128x64 .f32) (h4 : a4.IsWhole) (a5 : Memref sig .tc .vmem S5000x64 .f32) (h5 : a5.IsWhole) (a6 : Memref sig .tc .vmem S1x64 .f32) (h6 : a6.IsWhole) (a7 : Memref sig .tc .vmem S1x64 .f32) (h7 : a7.IsWhole) (hc : ¬cond16_0 i) (x0 x1 : Vec F S5000x128 .f32) (x2 : Vec F S1x1 .f32) (x3 : Vec F S128x64 .f32) (xo5 xo6 : Vec F S1x64 .f32) :
    out16_B_5 c i a1 h1 a2 h2 a3 h3 a4 h4 a5 h5 a6 h6 a7 h7 hc x0 x1 x2 x3 xo5 xo6 = k16_pay4 x2 x0 x1 x3 xo5 := by
  unfold out16_B_5
  rw [View.read_writes_eq_canon _ _ _ (cover16_B_5 c i a1 h1 a2 h2 a3 h3 a4 h4 a5 h5 a6 h6 a7 h7 hc x0 x1 x2 x3 xo5 xo6)]
  unfold kernelRun16_B
  dsimp only
  sl_unfold_words
  rw [View.canon_unit_zero hz]
  simp only [View.readAt_eq_ld, h1.read_unread, h2.read_unread, h3.read_unread, h4.read_unread, h6.read_unread, h7.read_unread,
    View.ld_unit_zero (S := S5000x128) hz, View.ld_unit_zero (S := S1x1) hz, View.ld_unit_zero (S := S128x64) hz,
    View.ld_unit_zero (S := S1x64) hz]

/-- A later point leaves the sum-of-squares row it found plus the column sums of its tile's squares. -/
theorem out_B_6 (c : Dev nD) (i : grid16.Coords) (a1 : Memref sig .tc .vmem S5000x128 .f32) (h1 : a1.IsWhole) (a2 : Memref sig .tc .vmem S5000x128 .f32) (h2 : a2.IsWhole) (a3 : Memref sig .tc .vmem S1x1 .f32) (h3 : a3.IsWhole) (a4 : Memref sig .tc .vmem S128x64 .f32) (h4 : a4.IsWhole) (a5 : Memref sig .tc .vmem S5000x64 .f32) (h5 : a5.IsWhole) (a6 : Memref sig .tc .vmem S1x64 .f32) (h6 : a6.IsWhole) (a7 : Memref sig .tc .vmem S1x64 .f32) (h7 : a7.IsWhole) (hc : ¬cond16_0 i) (x0 x1 : Vec F S5000x128 .f32) (x2 : Vec F S1x1 .f32) (x3 : Vec F S128x64 .f32) (xo5 xo6 : Vec F S1x64 .f32) :
    out16_B_6 c i a1 h1 a2 h2 a3 h3 a4 h4 a5 h5 a6 h6 a7 h7 hc x0 x1 x2 x3 xo5 xo6 = k16_pay5 x2 x0 x1 x3 xo6 := by
  unfold out16_B_6
  rw [View.read_writes_eq_canon _ _ _ (cover16_B_6 c i a1 h1 a2 h2 a3 h3 a4 h4 a5 h5 a6 h6 a7 h7 hc x0 x1 x2 x3 xo5 xo6)]
  unfold kernelRun16_B
  dsimp only
  sl_unfold_words
  rw [View.canon_unit_zero hz]
  simp only [View.readAt_eq_ld, h1.read_unread, h2.read_unread, h3.read_unread, h4.read_unread, h6.read_unread, h7.read_unread,
    View.ld_unit_zero (S := S5000x128) hz, View.ld_unit_zero (S := S1x1) hz, View.ld_unit_zero (S := S128x64) hz,
    View.ld_unit_zero (S := S1x64) hz]

/-- The first point leaves the product tile of its blocks. -/
theorem out_A_4 (c : Dev nD) (i : grid16.Coords) (a1 : Memref sig .tc .vmem S5000x128 .f32) (h1 : a1.IsWhole) (a2 : Memref sig .tc .vmem S5000x128 .f32) (h2 : a2.IsWhole) (a3 : Memref sig .tc .vmem S1x1 .f32) (h3 : a3.IsWhole) (a4 : Memref sig .tc .vmem S128x64 .f32) (h4 : a4.IsWhole) (a5 : Memref sig .tc .vmem S5000x64 .f32) (h5 : a5.IsWhole) (a6 : Memref sig .tc .vmem S1x64 .f32) (h6 : a6.IsWhole) (a7 : Memref sig .tc .vmem S1x64 .f32) (h7 : a7.IsWhole) (hc : cond16_0 i) (x0 x1 : Vec F S5000x128 .f32) (x2 : Vec F S1x1 .f32) (x3 : Vec F S128x64 .f32) :
    out16_A_4 c i a1 h1 a2 h2 a3 h3 a4 h4 a5 h5 a6 h6 a7 h7 hc x0 x1 x2 x3 = k16_pay3 x2 x0 x1 x3 := by
  unfold out16_A_4
  rw [View.read_writes_eq_canon _ _ _ (cover16_A_4 c i a1 h1 a2 h2 a3 h3 a4 h4 a5 h5 a6 h6 a7 h7 hc x0 x1 x2 x3)]
  unfold kernelRun16_A
  dsimp only
  sl_unfold_words
  rw [View.canon_unit_zero hz]
  simp only [View.readAt_eq_ld, h1.read_unread, h2.read_unread, h3.read_unread, h4.read_unread, h6.read_unread, h7.read_unread,
    View.ld_unit_zero (S := S5000x128) hz, View.ld_unit_zero (S := S1x1) hz, View.ld_unit_zero (S := S128x64) hz,
    View.ld_unit_zero (S := S1x64) hz]

/-- The first point leaves the zero row plus its tile's column sums. -/
theorem out_A_5 (c : Dev nD) (i : grid16.Coords) (a1 : Memref sig .tc .vmem S5000x128 .f32) (h1 : a1.IsWhole) (a2 : Memref sig .tc .vmem S5000x128 .f32) (h2 : a2.IsWhole) (a3 : Memref sig .tc .vmem S1x1 .f32) (h3 : a3.IsWhole) (a4 : Memref sig .tc .vmem S128x64 .f32) (h4 : a4.IsWhole) (a5 : Memref sig .tc .vmem S5000x64 .f32) (h5 : a5.IsWhole) (a6 : Memref sig .tc .vmem S1x64 .f32) (h6 : a6.IsWhole) (a7 : Memref sig .tc .vmem S1x64 .f32) (h7 : a7.IsWhole) (hc : cond16_0 i) (x0 x1 : Vec F S5000x128 .f32) (x2 : Vec F S1x1 .f32) (x3 : Vec F S128x64 .f32) :
    out16_A_5 c i a1 h1 a2 h2 a3 h3 a4 h4 a5 h5 a6 h6 a7 h7 hc x0 x1 x2 x3 = k16_pay4 x2 x0 x1 x3 k16_pay1 := by
  unfold out16_A_5
  rw [View.read_writes_eq_canon _ _ _ (cover16_A_5 c i a1 h1 a2 h2 a3 h3 a4 h4 a5 h5 a6 h6 a7 h7 hc x0 x1 x2 x3)]
  unfold kernelRun16_A
  dsimp only
  sl_unfold_words
  rw [View.canon_cons_unit_zero (S := S1x64) hz, View.readCov_unit_zero (S := S1x64) _ hz]
  simp only [View.readAt_eq_ld, h1.read_unread, h2.read_unread, h3.read_unread, h4.read_unread, h6.read_unread, h7.read_unread,
    View.ld_unit_zero (S := S5000x128) hz, View.ld_unit_zero (S := S1x1) hz, View.ld_unit_zero (S := S128x64) hz,
    View.ld_unit_zero (S := S1x64) hz]

/-- The first point leaves the zero row plus the column sums of its tile's squares. -/
theorem out_A_6 (c : Dev nD) (i : grid16.Coords) (a1 : Memref sig .tc .vmem S5000x128 .f32) (h1 : a1.IsWhole) (a2 : Memref sig .tc .vmem S5000x128 .f32) (h2 : a2.IsWhole) (a3 : Memref sig .tc .vmem S1x1 .f32) (h3 : a3.IsWhole) (a4 : Memref sig .tc .vmem S128x64 .f32) (h4 : a4.IsWhole) (a5 : Memref sig .tc .vmem S5000x64 .f32) (h5 : a5.IsWhole) (a6 : Memref sig .tc .vmem S1x64 .f32) (h6 : a6.IsWhole) (a7 : Memref sig .tc .vmem S1x64 .f32) (h7 : a7.IsWhole) (hc : cond16_0 i) (x0 x1 : Vec F S5000x128 .f32) (x2 : Vec F S1x1 .f32) (x3 : Vec F S128x64 .f32) :
    out16_A_6 c i a1 h1 a2 h2 a3 h3 a4 h4 a5 h5 a6 h6 a7 h7 hc x0 x1 x2 x3 = k16_pay5 x2 x0 x1 x3 k16_pay2 := by
  unfold out16_A_6
  rw [View.read_writes_eq_canon _ _ _ (cover16_A_6 c i a1 h1 a2 h2 a3 h3 a4 h4 a5 h5 a6 h6 a7 h7 hc x0 x1 x2 x3)]
  unfold kernelRun16_A
  dsimp only
  sl_unfold_words
  rw [View.canon_cons_unit_zero (S := S1x64) hz, View.readCov_unit_zero (S := S1x64) _ hz]
  simp only [View.readAt_eq_ld, h1.read_unread, h2.read_unread, h3.read_unread, h4.read_unread, h6.read_unread, h7.read_unread,
    View.ld_unit_zero (S := S5000x128) hz, View.ld_unit_zero (S := S1x1) hz, View.ld_unit_zero (S := S128x64) hz,
    View.ld_unit_zero (S := S1x64) hz]

end Cert.GIN.Reg16

end
-- ==== Proof.Reg16Pay.lean ====
/-
  The arithmetic of one grid point of the combine–product–statistics kernel, read at an index over the extended reals.

  At a grid point the body holds a tile of 5000 rows.  It forms `scale · x + agg` entry by entry, multiplies the tile by the
  128×64 weight matrix into a zero accumulator (the narrowing of both operands is the identity on extended reals), and
  adds to each of two 1×64 rows the column sums of the product tile and of its entrywise squares.  The three lemmas below
  read these three stored values at an entry: the product entry `(p, j)` is the sum over `q < 128` of
  `(scale · x(p, q) + agg(p, q)) · w(q, j)`; the statistics rows at `(0, j)` are the carried row plus the sum over the
  tile's 5000 rows of the product entries, respectively of their squares.
-/
import proofs.«177653_j8959301779747_1_alg».proof.Proof.Spec
import proofs.«177653_j8959301779747_1_alg».proof.Proof.LibPlainDot
import proofs.«177653_j8959301779747_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.GIN.Reg16

open Idealize.ShloMosaic Idealize.ShloMosaic.ValueIdx
open Cert.KernelIdeal Cert.KernelIdeal.Gen Cert.GIN

/-- The 1×1 scale spread over a 5000×128 tile reads the scale's one entry everywhere. -/
theorem scale_ix (v : FVec Ideal S1x1 .f32) (p : Fin 5000) (q : Fin 128) :
    broadcastTo S5000x128 v broadcasts_S1x1_S5000x128 (ix2 p q) = v (ix2 0 0) :=
  broadcastTo_apply v broadcasts_S1x1_S5000x128 (ix2 p q) (ix2 0 0) fun a => by
    match a with
    | ⟨0, _⟩ => rfl
    | ⟨1, _⟩ => rfl

/-- The source index of a column reduction of a 5000×64 tile: row `p` over the result's column `j`. -/
theorem lift_ix (j : Fin 64) (p : Fin 5000) :
    reduces_S5000x64_S64.lift (fun a => (ix2 (0 : Fin 1) j) a.succ) p = ix2 p j := by
  funext c
  apply Fin.ext
  match c with
  | ⟨0, _⟩ => rfl
  | ⟨1, _⟩ => rfl

/-- A column reduction of a 5000×64 tile from the zero word, stored as a 1×64 row, reads at `(0, j)` the sum of column
    `j` over the tile's rows. -/
theorem colred_ix (src : FVec Ideal S5000x64 .f32) (j : Fin 64) :
    shapeCast S1x64 (multiReduction (F := Ideal) .add [0] S64 src 0x00000000#32 reduces_S5000x64_S64 (.inl rfl) rfl)
        shapeCasts_S64_S1x64 (ix2 0 j) = ∑ p : Fin 5000, src (ix2 p j) := by
  refine (shapeCast_addUnit_apply ![64] _ shapeCasts_S64_S1x64 (ix2 0 j)).trans ?_
  refine (Ideal.multiReduction_add_single src 0x00000000#32 reduces_S5000x64_S64 (.inl rfl) rfl _).trans ?_
  exact Finset.sum_congr rfl fun p _ => congrArg src (lift_ix j p)

/-- The product tile at `(p, j)`. -/
theorem pay3_ix (v3 : Vec Ideal S1x1 .f32) (v5 v8 : Vec Ideal S5000x128 .f32) (v12 : Vec Ideal S128x64 .f32)
    (p : Fin 5000) (j : Fin 64) :
    k16_pay3 (F := Ideal) v3 v5 v8 v12 (ix2 p j)
      = ∑ q : Fin 128, (v3 (ix2 0 0) * v5 (ix2 p q) + v8 (ix2 p q)) * v12 (ix2 q j) := by
  unfold k16_pay3
  simp only [shapeCast_self]
  refine (Cert.PlainDot.matmul_zero_ix2 dot_S5000x128_S128x64_S5000x64_1_0_0_1_n_n rfl none _ _ p j).trans ?_
  refine Finset.sum_congr rfl fun q _ => ?_
  show (broadcastTo S5000x128 v3 broadcasts_S1x1_S5000x128 (ix2 p q) * v5 (ix2 p q) + v8 (ix2 p q)) * v12 (ix2 q j) = _
  rw [scale_ix v3 p q]

/-- The column-sum row after the point: the carried row plus the tile's column sums. -/
theorem pay4_ix (v3 : Vec Ideal S1x1 .f32) (v5 v8 : Vec Ideal S5000x128 .f32) (v12 : Vec Ideal S128x64 .f32)
    (r : Vec Ideal S1x64 .f32) (j : Fin 64) :
    k16_pay4 (F := Ideal) v3 v5 v8 v12 r (ix2 0 j)
      = r (ix2 0 j) + ∑ p : Fin 5000, k16_pay3 (F := Ideal) v3 v5 v8 v12 (ix2 p j) := by
  unfold k16_pay4
  simp only [shapeCast_self]
  exact congrArg (r (ix2 0 j) + ·) (colred_ix (k16_pay3 (F := Ideal) v3 v5 v8 v12) j)

/-- The sum-of-squares row after the point: the carried row plus the column sums of the tile's squares. -/
theorem pay5_ix (v3 : Vec Ideal S1x1 .f32) (v5 v8 : Vec Ideal S5000x128 .f32) (v12 : Vec Ideal S128x64 .f32)
    (r : Vec Ideal S1x64 .f32) (j : Fin 64) :
    k16_pay5 (F := Ideal) v3 v5 v8 v12 r (ix2 0 j)
      = r (ix2 0 j) + ∑ p : Fin 5000, k16_pay3 (F := Ideal) v3 v5 v8 v12 (ix2 p j) * k16_pay3 (F := Ideal) v3 v5 v8 v12 (ix2 p j) := by
  unfold k16_pay5
  simp only [shapeCast_self]
  exact congrArg (r (ix2 0 j) + ·)
    (colred_ix (mulf (k16_pay3 (F := Ideal) v3 v5 v8 v12) (k16_pay3 (F := Ideal) v3 v5 v8 v12)) j)

/-- The two rows the first point stores before accumulating are zero. -/
theorem pay1_ix (j : Fin 64) : k16_pay1 (F := Ideal) (ix2 0 j) = 0 := by
  unfold k16_pay1
  exact Ideal.ofBits_zero_f32

theorem pay2_ix (j : Fin 64) : k16_pay2 (F := Ideal) (ix2 0 j) = 0 := by
  unfold k16_pay2
  exact Ideal.ofBits_zero_f32

end Cert.GIN.Reg16

end
-- ==== Proof.Reg16.lean ====
/-
  The value of the combine–product–statistics region, as whole-array functions of what the region finds.

  The grid has ten points; point `t` holds rows `5000 t … 5000 t + 4999` of the node features `x` and of the neighbour
  sums `agg`, the whole 1×1 scale and the whole 128×64 weight matrix.  Every point stores the tile
  `(scale · x + agg) · w` of its rows as block `t` of the product array, so that array ends as the product itself: row `r`
  is written by point `r / 5000`.  The two statistics rows have one block that never moves: point 0 zeroes them, every
  point adds its tile's column sums (of the entries, and of their squares), and the rows are written back after the last
  point only.  By induction on the point they hold, after point `n`, the sum over tiles `0 … n` of the tile's column
  sums; after point 9 that is the tiled column sum of the specification.
-/
import proofs.«177653_j8959301779747_1_alg».proof.Proof.Spec
import proofs.«177653_j8959301779747_1_alg».proof.Proof.LibPlainDot
import proofs.«177653_j8959301779747_1_alg».proof.Proof.Gen.KernelIdeal.Frame
import proofs.«177653_j8959301779747_1_alg».proof.Proof.Reg16Pieces
import proofs.«177653_j8959301779747_1_alg».proof.Proof.Reg16Pay
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.ShloMosaic.ValueIdx Idealize.SL.Sem
open Idealize.ShloMosaic.Pipeline (Dat)

namespace Cert.GIN.Reg16

open Cert.KernelIdeal Cert.KernelIdeal.Gen Cert.GIN

variable (V : (c : Dev nD) → (b : Ref sig .tc) → Buf (Elt Ideal) ((c : Thread nD τ).loc b)) (c : Dev nD)

/-- The node features, the neighbour sums, the scale and the weights as the region finds them, as matrices. -/
abbrev Xx : Mat 50000 128 := V c (Pipeline.arrRef spec16 0)
abbrev Xa : Mat 50000 128 := V c (Pipeline.arrRef spec16 1)
abbrev Xs : Mat 1 1 := V c (Pipeline.arrRef spec16 2)
abbrev Xw : Mat 128 64 := V c (Pipeline.arrRef spec16 3)
/-- The product the region computes. -/
abbrev Z : Mat 50000 64 := mm (comb (Xs V c) (Xx V c) (Xa V c)) (Xw V c)

/-- The block index maps over the grid: the row-tiled windows move with the point along the rows, the others stay. -/
theorem idx_facts : ∀ t : Fin cfg16.N,
    win16_0.index t (0 : Fin 2) = t.val ∧ win16_0.index t (1 : Fin 2) = 0
  ∧ win16_1.index t (0 : Fin 2) = t.val ∧ win16_1.index t (1 : Fin 2) = 0
  ∧ win16_2.index t (0 : Fin 2) = 0 ∧ win16_2.index t (1 : Fin 2) = 0
  ∧ win16_3.index t (0 : Fin 2) = 0 ∧ win16_3.index t (1 : Fin 2) = 0
  ∧ win16_4.index t (0 : Fin 2) = t.val ∧ win16_4.index t (1 : Fin 2) = 0
  ∧ win16_5.index t (0 : Fin 2) = 0 ∧ win16_5.index t (1 : Fin 2) = 0
  ∧ win16_6.index t (0 : Fin 2) = 0 ∧ win16_6.index t (1 : Fin 2) = 0 :=
  (by decide +kernel : ∀ t : Fin grid16.N, _)

theorem lt_ten (t : Fin cfg16.N) : t.val < 10 := by
  have h : t.val < grid16.N := t.isLt
  rw [N_16] at h; exact h

/-! ## The input blocks, read at an entry -/

theorem blk0_ix (t : Fin cfg16.N) (p : Fin 5000) (q : Fin 128) (h : 5000 * t.val + p.val < 50000) :
    (iblk16 V c 0 t : Vec Ideal S5000x128 .f32) (ix2 p q) = Xx V c (ix2 ⟨5000 * t.val + p.val, h⟩ q) := by
  obtain ⟨e0, e1, -⟩ := idx_facts t
  unfold iblk16
  rw [View.read_apply]
  show V c (Pipeline.arrRef spec16 0) _ = V c (Pipeline.arrRef spec16 0) _
  congr 1
  funext a
  apply Fin.ext
  match a with
  | ⟨0, _⟩ => show win16_0.index t 0 * 5000 + 1 * p.val = 5000 * t.val + p.val; rw [e0]; omega
  | ⟨1, _⟩ => show win16_0.index t 1 * 128 + 1 * q.val = q.val; rw [e1]; omega

theorem blk1_ix (t : Fin cfg16.N) (p : Fin 5000) (q : Fin 128) (h : 5000 * t.val + p.val < 50000) :
    (iblk16 V c 1 t : Vec Ideal S5000x128 .f32) (ix2 p q) = Xa V c (ix2 ⟨5000 * t.val + p.val, h⟩ q) := by
  obtain ⟨-, -, e0, e1, -⟩ := idx_facts t
  unfold iblk16
  rw [View.read_apply]
  show V c (Pipeline.arrRef spec16 1) _ = V c (Pipeline.arrRef spec16 1) _
  congr 1
  funext a
  apply Fin.ext
  match a with
  | ⟨0, _⟩ => show win16_1.index t 0 * 5000 + 1 * p.val = 5000 * t.val + p.val; rw [e0]; omega
  | ⟨1, _⟩ => show win16_1.index t 1 * 128 + 1 * q.val = q.val; rw [e1]; omega

theorem blk2_ix (t : Fin cfg16.N) :
    (iblk16 V c 2 t : Vec Ideal S1x1 .f32) (ix2 0 0) = Xs V c (ix2 0 0) := by
  obtain ⟨-, -, -, -, e0, e1, -⟩ := idx_facts t
  unfold iblk16
  rw [View.read_apply]
  show V c (Pipeline.arrRef spec16 2) _ = V c (Pipeline.arrRef spec16 2) _
  congr 1
  funext a
  apply Fin.ext
  match a with
  | ⟨0, _⟩ => show win16_2.index t 0 * 1 + 1 * 0 = 0; rw [e0]
  | ⟨1, _⟩ => show win16_2.index t 1 * 1 + 1 * 0 = 0; rw [e1]

theorem blk3_ix (t : Fin cfg16.N) (q : Fin 128) (j : Fin 64) :
    (iblk16 V c 3 t : Vec Ideal S128x64 .f32) (ix2 q j) = Xw V c (ix2 q j) := by
  obtain ⟨-, -, -, -, -, -, e0, e1, -⟩ := idx_facts t
  unfold iblk16
  rw [View.read_apply]
  show V c (Pipeline.arrRef spec16 3) _ = V c (Pipeline.arrRef spec16 3) _
  congr 1
  funext a
  apply Fin.ext
  match a with
  | ⟨0, _⟩ => show win16_3.index t 0 * 128 + 1 * q.val = q.val; rw [e0]; omega
  | ⟨1, _⟩ => show win16_3.index t 1 * 64 + 1 * j.val = j.val; rw [e1]; omega

/-! ## The product tile of a point is the point's rows of the product -/

/-- The product tile point `t` computes from its blocks. -/
abbrev tile (t : Fin cfg16.N) : Vec Ideal S5000x64 .f32 :=
  k16_pay3 (F := Ideal) (iblk16 V c 2 t) (iblk16 V c 0 t) (iblk16 V c 1 t) (iblk16 V c 3 t)

theorem tile_ix (t : Fin cfg16.N) (p : Fin 5000) (j : Fin 64) (h : 5000 * t.val + p.val < 50000) :
    tile V c t (ix2 p j) = Z V c (ix2 ⟨5000 * t.val + p.val, h⟩ j) := by
  refine (pay3_ix (iblk16 V c 2 t) (iblk16 V c 0 t) (iblk16 V c 1 t) (iblk16 V c 3 t) p j).trans ?_
  show _ = ∑ q : Fin 128, (Xs V c (ix2 0 0) * Xx V c (ix2 ⟨5000 * t.val + p.val, h⟩ q) + Xa V c (ix2 ⟨5000 * t.val + p.val, h⟩ q)) * Xw V c (ix2 q j)
  refine Finset.sum_congr rfl fun q _ => ?_
  rw [blk0_ix V c t p q h, blk1_ix V c t p q h, blk2_ix V c t, blk3_ix V c t q j]

/-- Every point, first or not, leaves its product tile in the product's block. -/
theorem outs4 (t : Fin cfg16.N) : (outsAt16 V c t.val t.isLt).1 = tile V c t := by
  by_cases h0 : t.val % 10 = 0
  · rw [outsAt16_A V c t h0]
    dsimp only
    exact out_A_4 (F := Ideal) c (grid16.coords t) (ms16_0 t) (hs16_0 t) (ms16_1 t) (hs16_1 t) (ms16_2 t) (hs16_2 t) (ms16_3 t) (hs16_3 t) (ms16_4 t) (hs16_4 t) (ms16_5 t) (hs16_5 t) (ms16_6 t) (hs16_6 t) ((hcond16_0 t).mpr h0) (iblk16 V c 0 t) (iblk16 V c 1 t) (iblk16 V c 2 t) (iblk16 V c 3 t)
  · rw [outsAt16_B V c t h0]
    dsimp only
    exact out_B_4 (F := Ideal) c (grid16.coords t) (ms16_0 t) (hs16_0 t) (ms16_1 t) (hs16_1 t) (ms16_2 t) (hs16_2 t) (ms16_3 t) (hs16_3 t) (ms16_4 t) (hs16_4 t) (ms16_5 t) (hs16_5 t) (ms16_6 t) (hs16_6 t) (fun h => h0 ((hcond16_0 t).mp h)) (iblk16 V c 0 t) (iblk16 V c 1 t) (iblk16 V c 2 t) (iblk16 V c 3 t) (outsAt16 V c (t.val - 1) (Nat.lt_of_le_of_lt (Nat.sub_le _ _) t.isLt)).2.1 (outsAt16 V c (t.val - 1) (Nat.lt_of_le_of_lt (Nat.sub_le _ _) t.isLt)).2.2

/-! ## The statistics rows after each point -/

/-- Column `j` of `z` summed over the rows of tile `t` (zero past the tenth tile). -/
def tsum (z : Mat 50000 64) (j : Fin 64) (t : ℕ) : EReal :=
  if h : t < 10 then ∑ p : Fin 5000, z (ix2 ⟨5000 * t + p.val, by have := p.isLt; omega⟩ j) else 0

/-- The tiled column sum of the specification is the sum of the ten tile sums. -/
theorem colSum_eq (z : Mat 50000 64) (j : Fin 64) : colSum z (ix2 0 j) = ∑ t ∈ Finset.range 10, tsum z j t := by
  rw [Finset.sum_range]
  unfold colSum
  refine Finset.sum_congr rfl fun t _ => ?_
  unfold tsum
  rw [dif_pos t.isLt]

theorem tile_sum (t : Fin cfg16.N) (j : Fin 64) :
    ∑ p : Fin 5000, tile V c t (ix2 p j) = tsum (Z V c) j t.val := by
  have ht := lt_ten t
  unfold tsum
  rw [dif_pos ht]
  exact Finset.sum_congr rfl fun p _ => tile_ix V c t p j _

theorem tile_sumsq (t : Fin cfg16.N) (j : Fin 64) :
    ∑ p : Fin 5000, tile V c t (ix2 p j) * tile V c t (ix2 p j) = tsum (fun i => Z V c i * Z V c i) j t.val := by
  have ht := lt_ten t
  unfold tsum
  rw [dif_pos ht]
  exact Finset.sum_congr rfl fun p _ => by rw [tile_ix V c t p j _]

/-- At the first point the rows are zeroed and then hold the first tile's sums. -/
theorem s_first (t : Fin cfg16.N) (h0 : t.val % 10 = 0) (j : Fin 64) :
    (outsAt16 V c t.val t.isLt).2.1 (ix2 0 j) = tsum (Z V c) j t.val
  ∧ (outsAt16 V c t.val t.isLt).2.2 (ix2 0 j) = tsum (fun i => Z V c i * Z V c i) j t.val := by
  have e5 : (outsAt16 V c t.val t.isLt).2.1 = k16_pay4 (F := Ideal) (iblk16 V c 2 t) (iblk16 V c 0 t) (iblk16 V c 1 t) (iblk16 V c 3 t) (k16_pay1 (F := Ideal)) := by
    rw [outsAt16_A V c t h0]
    dsimp only
    exact out_A_5 (F := Ideal) c (grid16.coords t) (ms16_0 t) (hs16_0 t) (ms16_1 t) (hs16_1 t) (ms16_2 t) (hs16_2 t) (ms16_3 t) (hs16_3 t) (ms16_4 t) (hs16_4 t) (ms16_5 t) (hs16_5 t) (ms16_6 t) (hs16_6 t) ((hcond16_0 t).mpr h0) (iblk16 V c 0 t) (iblk16 V c 1 t) (iblk16 V c 2 t) (iblk16 V c 3 t)
  have e6 : (outsAt16 V c t.val t.isLt).2.2 = k16_pay5 (F := Ideal) (iblk16 V c 2 t) (iblk16 V c 0 t) (iblk16 V c 1 t) (iblk16 V c 3 t) (k16_pay2 (F := Ideal)) := by
    rw [outsAt16_A V c t h0]
    dsimp only
    exact out_A_6 (F := Ideal) c (grid16.coords t) (ms16_0 t) (hs16_0 t) (ms16_1 t) (hs16_1 t) (ms16_2 t) (hs16_2 t) (ms16_3 t) (hs16_3 t) (ms16_4 t) (hs16_4 t) (ms16_5 t) (hs16_5 t) (ms16_6 t) (hs16_6 t) ((hcond16_0 t).mpr h0) (iblk16 V c 0 t) (iblk16 V c 1 t) (iblk16 V c 2 t) (iblk16 V c 3 t)
  constructor
  · refine (congrFun e5 (ix2 0 j)).trans ((pay4_ix (iblk16 V c 2 t) (iblk16 V c 0 t) (iblk16 V c 1 t) (iblk16 V c 3 t) (k16_pay1 (F := Ideal)) j).trans ?_)
    rw [pay1_ix, zero_add]
    exact tile_sum V c t j
  · refine (congrFun e6 (ix2 0 j)).trans ((pay5_ix (iblk16 V c 2 t) (iblk16 V c 0 t) (iblk16 V c 1 t) (iblk16 V c 3 t) (k16_pay2 (F := Ideal)) j).trans ?_)
    rw [pay2_ix, zero_add]
    exact tile_sumsq V c t j

/-- At a later point the rows hold what the point before left plus the point's tile sums. -/
theorem s_next (t : Fin cfg16.N) (h0 : ¬t.val % 10 = 0) (j : Fin 64) :
    (outsAt16 V c t.val t.isLt).2.1 (ix2 0 j) = (outsAt16 V c (t.val - 1) (Nat.lt_of_le_of_lt (Nat.sub_le _ _) t.isLt)).2.1 (ix2 0 j) + tsum (Z V c) j t.val
  ∧ (outsAt16 V c t.val t.isLt).2.2 (ix2 0 j) = (outsAt16 V c (t.val - 1) (Nat.lt_of_le_of_lt (Nat.sub_le _ _) t.isLt)).2.2 (ix2 0 j) + tsum (fun i => Z V c i * Z V c i) j t.val := by
  have e5 : (outsAt16 V c t.val t.isLt).2.1 = k16_pay4 (F := Ideal) (iblk16 V c 2 t) (iblk16 V c 0 t) (iblk16 V c 1 t) (iblk16 V c 3 t) (outsAt16 V c (t.val - 1) (Nat.lt_of_le_of_lt (Nat.sub_le _ _) t.isLt)).2.1 := by
    rw [outsAt16_B V c t h0]
    dsimp only
    exact out_B_5 (F := Ideal) c (grid16.coords t) (ms16_0 t) (hs16_0 t) (ms16_1 t) (hs16_1 t) (ms16_2 t) (hs16_2 t) (ms16_3 t) (hs16_3 t) (ms16_4 t) (hs16_4 t) (ms16_5 t) (hs16_5 t) (ms16_6 t) (hs16_6 t) (fun h => h0 ((hcond16_0 t).mp h)) (iblk16 V c 0 t) (iblk16 V c 1 t) (iblk16 V c 2 t) (iblk16 V c 3 t) (outsAt16 V c (t.val - 1) (Nat.lt_of_le_of_lt (Nat.sub_le _ _) t.isLt)).2.1 (outsAt16 V c (t.val - 1) (Nat.lt_of_le_of_lt (Nat.sub_le _ _) t.isLt)).2.2
  have e6 : (outsAt16 V c t.val t.isLt).2.2 = k16_pay5 (F := Ideal) (iblk16 V c 2 t) (iblk16 V c 0 t) (iblk16 V c 1 t) (iblk16 V c 3 t) (outsAt16 V c (t.val - 1) (Nat.lt_of_le_of_lt (Nat.sub_le _ _) t.isLt)).2.2 := by
    rw [outsAt16_B V c t h0]
    dsimp only
    exact out_B_6 (F := Ideal) c (grid16.coords t) (ms16_0 t) (hs16_0 t) (ms16_1 t) (hs16_1 t) (ms16_2 t) (hs16_2 t) (ms16_3 t) (hs16_3 t) (ms16_4 t) (hs16_4 t) (ms16_5 t) (hs16_5 t) (ms16_6 t) (hs16_6 t) (fun h => h0 ((hcond16_0 t).mp h)) (iblk16 V c 0 t) (iblk16 V c 1 t) (iblk16 V c 2 t) (iblk16 V c 3 t) (outsAt16 V c (t.val - 1) (Nat.lt_of_le_of_lt (Nat.sub_le _ _) t.isLt)).2.1 (outsAt16 V c (t.val - 1) (Nat.lt_of_le_of_lt (Nat.sub_le _ _) t.isLt)).2.2
  constructor
  · refine (congrFun e5 (ix2 0 j)).trans ((pay4_ix (iblk16 V c 2 t) (iblk16 V c 0 t) (iblk16 V c 1 t) (iblk16 V c 3 t) (outsAt16 V c (t.val - 1) (Nat.lt_of_le_of_lt (Nat.sub_le _ _) t.isLt)).2.1 j).trans ?_)
    rw [tile_sum V c t j]
  · refine (congrFun e6 (ix2 0 j)).trans ((pay5_ix (iblk16 V c 2 t) (iblk16 V c 0 t) (iblk16 V c 1 t) (iblk16 V c 3 t) (outsAt16 V c (t.val - 1) (Nat.lt_of_le_of_lt (Nat.sub_le _ _) t.isLt)).2.2 j).trans ?_)
    rw [tile_sumsq V c t j]

/-- After point `n` the rows hold the sums over tiles `0 … n`. -/
theorem stats_inv : ∀ (n : ℕ) (h : n < cfg16.N) (j : Fin 64),
    (outsAt16 V c n h).2.1 (ix2 0 j) = ∑ t ∈ Finset.range (n + 1), tsum (Z V c) j t
  ∧ (outsAt16 V c n h).2.2 (ix2 0 j) = ∑ t ∈ Finset.range (n + 1), tsum (fun i => Z V c i * Z V c i) j t
  | 0, h, j => by
    have e := s_first V c ⟨0, h⟩ rfl j
    rw [Finset.sum_range_one, Finset.sum_range_one]
    exact e
  | n + 1, h, j => by
    have hn : n + 1 < 10 := lt_ten ⟨n + 1, h⟩
    have hB : ¬(⟨n + 1, h⟩ : Fin cfg16.N).val % 10 = 0 := by dsimp only; omega
    have e := s_next V c ⟨n + 1, h⟩ hB j
    have ih := stats_inv n (Nat.lt_of_succ_lt h) j
    rw [Finset.sum_range_succ (fun t => tsum (Z V c) j t) (n + 1),
      Finset.sum_range_succ (fun t => tsum (fun i => Z V c i * Z V c i) j t) (n + 1), ← ih.1, ← ih.2]
    exact e

/-- After the last point the rows are the specification's tiled column sums. -/
theorem stats_last (h : 9 < cfg16.N) :
    (outsAt16 V c 9 h).2.1 = colSum (Z V c) ∧ (outsAt16 V c 9 h).2.2 = colSumSq (Z V c) := by
  constructor
  · funext y
    obtain ⟨i, j, rfl⟩ : ∃ (i : Fin 1) (j : Fin 64), y = ix2 i j := ⟨y 0, y 1, eq_ix2 y⟩
    obtain rfl : i = 0 := Subsingleton.elim _ _
    rw [colSum_eq]
    exact (stats_inv V c 9 h j).1
  · funext y
    obtain ⟨i, j, rfl⟩ : ∃ (i : Fin 1) (j : Fin 64), y = ix2 i j := ⟨y 0, y 1, eq_ix2 y⟩
    obtain rfl : i = 0 := Subsingleton.elim _ _
    show _ = colSum (fun i => Z V c i * Z V c i) (ix2 0 j)
    rw [colSum_eq]
    exact (stats_inv V c 9 h j).2

/-! ## From the blocks to the arrays -/

/-- Point `t` writes back block `t` of the product. -/
theorem flushed4 (t : Fin cfg16.N) :
    (dat16 V c).flushed 4 t = ((cfg16.win 4).blk t).view.read (Elt Ideal) (Z V c) := by
  obtain ⟨-, -, -, -, -, -, -, -, e0, e1, -⟩ := idx_facts t
  have ht := lt_ten t
  show (cfg16.win 4).cut (grid16.coords t) ((dat16 V c).after 4 t) = _
  rw [after16_4, outs4]
  funext y
  obtain ⟨p, j, rfl⟩ : ∃ (p : Fin 5000) (j : Fin 64), y = ix2 p j := ⟨y 0, y 1, eq_ix2 y⟩
  rw [View.read_apply]
  show tile V c t (ix2 p j) = Z V c (((cfg16.win 4).blk t).view.emb (ix2 p j))
  rw [tile_ix V c t p j (by have := p.isLt; omega)]
  congr 1
  funext a
  apply Fin.ext
  match a with
  | ⟨0, _⟩ => show 5000 * t.val + p.val = win16_4.index t 0 * 5000 + 1 * p.val; rw [e0]; omega
  | ⟨1, _⟩ => show j.val = win16_4.index t 1 * 64 + 1 * j.val; rw [e1]; omega

/-- Row `r` of the product lies in the block of point `r / 5000`. -/
theorem cover4 (i : S50000x64.Idx) :
    ∃ t : Fin cfg16.N, (cfg16.win 4).flush t = true ∧ i ∈ ((cfg16.win 4).blk t).view.set := by
  have hi0 : (i 0).val < 50000 := (i 0).isLt
  have hi1 : (i 1).val < 64 := (i 1).isLt
  have hN : grid16.N = 10 := N_16
  let t : Fin cfg16.N := ⟨(i 0).val / 5000, by show _ < grid16.N; rw [hN]; omega⟩
  obtain ⟨-, -, -, -, -, -, -, -, e0, e1, -⟩ := idx_facts t
  have e0' : win16_4.index t 0 = (i 0).val / 5000 := e0
  refine ⟨t, flush16_4 t, ?_⟩
  show i ∈ ((View.whole main_v204_0).slice (win16_4.rect t)).set
  rw [View.set_slice_whole, Rect.mem_set_unit]
  intro a
  match a with
  | ⟨0, _⟩ => show win16_4.index t 0 * 5000 ≤ (i 0).val ∧ (i 0).val < win16_4.index t 0 * 5000 + 5000
              rw [e0']; omega
  | ⟨1, _⟩ => show win16_4.index t 1 * 64 ≤ (i 1).val ∧ (i 1).val < win16_4.index t 1 * 64 + 64
              rw [e1]; omega

/-- The column-sum row is written back after the last point only; its one block is the whole row. -/
theorem flushed5 (t : Fin cfg16.N) (hf : (cfg16.win 5).flush t = true) :
    (dat16 V c).flushed 5 t = ((cfg16.win 5).blk t).view.read (Elt Ideal) (colSum (Z V c)) := by
  have ht := lt_ten t
  have h9 : t.val = 9 := by have := (flush16_5 t).mp hf; omega
  obtain ⟨-, -, -, -, -, -, -, -, -, -, e0, e1, -⟩ := idx_facts t
  show (cfg16.win 5).cut (grid16.coords t) ((dat16 V c).after 5 t) = _
  rw [after16_5]
  funext y
  rw [View.read_apply]
  show (outsAt16 V c t.val t.isLt).2.1 y = colSum (Z V c) (((cfg16.win 5).blk t).view.emb y)
  have hemb : ((cfg16.win 5).blk t).view.emb y = y := by
    funext a
    apply Fin.ext
    match a with
    | ⟨0, _⟩ => show win16_5.index t 0 * 1 + 1 * (y 0).val = (y 0).val; rw [e0]; omega
    | ⟨1, _⟩ => show win16_5.index t 1 * 64 + 1 * (y 1).val = (y 1).val; rw [e1]; omega
  rw [hemb]
  have key : ∀ (n : ℕ) (h : n < cfg16.N), n = 9 → (outsAt16 V c n h).2.1 = colSum (Z V c) := by
    intro n h e
    subst e
    exact (stats_last V c h).1
  exact congrFun (key t.val t.isLt h9) y

/-- The last point's block covers the row. -/
theorem cover5 (i : S1x64.Idx) :
    ∃ t : Fin cfg16.N, (cfg16.win 5).flush t = true ∧ i ∈ ((cfg16.win 5).blk t).view.set := by
  have hi0 : (i 0).val < 1 := (i 0).isLt
  have hi1 : (i 1).val < 64 := (i 1).isLt
  obtain ⟨-, -, -, -, -, -, -, -, -, -, e0, e1, -⟩ := idx_facts t16_9
  refine ⟨t16_9, (flush16_5 t16_9).mpr rfl, ?_⟩
  show i ∈ ((View.whole main_v204_1).slice (win16_5.rect t16_9)).set
  rw [View.set_slice_whole, Rect.mem_set_unit]
  intro a
  match a with
  | ⟨0, _⟩ => show win16_5.index t16_9 0 * 1 ≤ (i 0).val ∧ (i 0).val < win16_5.index t16_9 0 * 1 + 1
              rw [e0]; omega
  | ⟨1, _⟩ => show win16_5.index t16_9 1 * 64 ≤ (i 1).val ∧ (i 1).val < win16_5.index t16_9 1 * 64 + 64
              rw [e1]; omega

/-- The sum-of-squares row is written back after the last point only; its one block is the whole row. -/
theorem flushed6 (t : Fin cfg16.N) (hf : (cfg16.win 6).flush t = true) :
    (dat16 V c).flushed 6 t = ((cfg16.win 6).blk t).view.read (Elt Ideal) (colSumSq (Z V c)) := by
  have ht := lt_ten t
  have h9 : t.val = 9 := by have := (flush16_6 t).mp hf; omega
  obtain ⟨-, -, -, -, -, -, -, -, -, -, -, -, e0, e1⟩ := idx_facts t
  show (cfg16.win 6).cut (grid16.coords t) ((dat16 V c).after 6 t) = _
  rw [after16_6]
  funext y
  rw [View.read_apply]
  show (outsAt16 V c t.val t.isLt).2.2 y = colSumSq (Z V c) (((cfg16.win 6).blk t).view.emb y)
  have hemb : ((cfg16.win 6).blk t).view.emb y = y := by
    funext a
    apply Fin.ext
    match a with
    | ⟨0, _⟩ => show win16_6.index t 0 * 1 + 1 * (y 0).val = (y 0).val; rw [e0]; omega
    | ⟨1, _⟩ => show win16_6.index t 1 * 64 + 1 * (y 1).val = (y 1).val; rw [e1]; omega
  rw [hemb]
  have key : ∀ (n : ℕ) (h : n < cfg16.N), n = 9 → (outsAt16 V c n h).2.2 = colSumSq (Z V c) := by
    intro n h e
    subst e
    exact (stats_last V c h).2
  exact congrFun (key t.val t.isLt h9) y

/-- The last point's block covers the row. -/
theorem cover6 (i : S1x64.Idx) :
    ∃ t : Fin cfg16.N, (cfg16.win 6).flush t = true ∧ i ∈ ((cfg16.win 6).blk t).view.set := by
  have hi0 : (i 0).val < 1 := (i 0).isLt
  have hi1 : (i 1).val < 64 := (i 1).isLt
  obtain ⟨-, -, -, -, -, -, -, -, -, -, -, -, e0, e1⟩ := idx_facts t16_9
  refine ⟨t16_9, (flush16_6 t16_9).mpr rfl, ?_⟩
  show i ∈ ((View.whole main_v204_2).slice (win16_6.rect t16_9)).set
  rw [View.set_slice_whole, Rect.mem_set_unit]
  intro a
  match a with
  | ⟨0, _⟩ => show win16_6.index t16_9 0 * 1 ≤ (i 0).val ∧ (i 0).val < win16_6.index t16_9 0 * 1 + 1
              rw [e0]; omega
  | ⟨1, _⟩ => show win16_6.index t16_9 1 * 64 ≤ (i 1).val ∧ (i 1).val < win16_6.index t16_9 1 * 64 + 64
              rw [e1]; omega

/-! ## The three arrays after the region -/

/-- The product array ends as the product. -/
theorem z : (dat16 (F := Ideal) V c).arrAt 4 cfg16.N = mm (comb (V c (Pipeline.arrRef spec16 2) : Mat 1 1) (V c (Pipeline.arrRef spec16 0) : Mat 50000 128) (V c (Pipeline.arrRef spec16 1) : Mat 50000 128)) (V c (Pipeline.arrRef spec16 3) : Mat 128 64) :=
  (dat16 V c).arrAt_eq_of_cover 4 (Z V c) (fun t _ => flushed4 V c t) cover4

/-- The column-sum row ends as the tiled column sums of the product. -/
theorem s : (dat16 (F := Ideal) V c).arrAt 5 cfg16.N = colSum (mm (comb (V c (Pipeline.arrRef spec16 2) : Mat 1 1) (V c (Pipeline.arrRef spec16 0) : Mat 50000 128) (V c (Pipeline.arrRef spec16 1) : Mat 50000 128)) (V c (Pipeline.arrRef spec16 3) : Mat 128 64)) :=
  (dat16 V c).arrAt_eq_of_cover 5 (colSum (Z V c)) (flushed5 V c) cover5

/-- The sum-of-squares row ends as the tiled column sums of the product's squares. -/
theorem ss : (dat16 (F := Ideal) V c).arrAt 6 cfg16.N = colSumSq (mm (comb (V c (Pipeline.arrRef spec16 2) : Mat 1 1) (V c (Pipeline.arrRef spec16 0) : Mat 50000 128) (V c (Pipeline.arrRef spec16 1) : Mat 50000 128)) (V c (Pipeline.arrRef spec16 3) : Mat 128 64)) :=
  (dat16 V c).arrAt_eq_of_cover 6 (colSumSq (Z V c)) (flushed6 V c) cover6

end Cert.GIN.Reg16

end
-- ==== Proof.Reg17.lean ====
/-
  Region 17: the normalisation-and-rectifier map on a matrix of 50000 rows and 64 columns.

  The region visits ten grid points.  At point `t` it reads rows `5000·t … 5000·t + 4999` of the matrix `z` and the
  whole of the four rows `mean`, `var`, `γ`, `β` (each `[1, 64]`, the same block at every point), and writes the same
  rows of the output.  Entry `(p, q)` of what it writes is
  `max (γ q · (z (5000·t + p, q) − mean q) · rsqrt (var q + eps) + β q) 0`: each row vector is read at column `q` of
  its one row, whatever `p` is.  So the block point `t` writes is block `t` of ONE function of the five arrays,
  `normRelu z mean var γ β eps`, and since the ten blocks cover all 50000 rows (row `r` lies in block `r / 5000`),
  the output array ends holding that function.
-/
import proofs.«177653_j8959301779747_1_alg».proof.Proof.Spec
import proofs.«177653_j8959301779747_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

noncomputable section

namespace Cert.GIN.Reg17

open Cert.KernelIdeal Cert.KernelIdeal.Gen Cert.GIN
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The zero offsets of a block read or written whole. -/
theorem hz : (![0, 0] : Fin 2 → Nat) = fun _ => 0 := funext fun a => by fin_cases a <;> rfl

/-- The body's arithmetic at entry `(p, q)` of a block: the row vectors are read at column `q` of their one row, the
    rectifier's zero word is the number zero. -/
theorem pay_apply (x0 : Vec Ideal S5000x64 .f32) (x1 x2 x3 x4 : Vec Ideal S1x64 .f32) (p : Fin 5000) (q : Fin 64) :
    k17_pay1 x0 x1 x2 x3 x4 (ix2 p q)
      = max (x3 (ix2 0 q) * (x0 (ix2 p q) - x1 (ix2 0 q)) * Ideal.rsqrt (x2 (ix2 0 q) + Ideal.ofBits .f32 0x3727C5AC#32)
          + x4 (ix2 0 q)) 0 := by
  unfold k17_pay1
  simp only [shapeCast_self]
  rw [maximumf_apply, addf_apply, mulf_apply, mulf_apply, subf_apply, broadcast_apply,
    broadcastTo_1b_ab_apply, broadcastTo_1b_ab_apply, broadcastTo_1b_ab_apply, broadcastTo_1b_ab_apply]
  show max (x3 (ix2 0 q) * (x0 (ix2 p q) - x1 (ix2 0 q)) * Ideal.rsqrt (x2 (ix2 0 q) + Ideal.ofBits .f32 0x3727C5AC#32)
      + x4 (ix2 0 q)) (Ideal.ofBits .f32 0x00000000#32) = _
  rw [Ideal.ofBits_zero_f32]

/-- The same at any index of the block. -/
theorem pay_at (x0 : Vec Ideal S5000x64 .f32) (x1 x2 x3 x4 : Vec Ideal S1x64 .f32) (j : S5000x64.Idx) :
    k17_pay1 x0 x1 x2 x3 x4 j
      = max (x3 (ix2 0 (j 1)) * (x0 j - x1 (ix2 0 (j 1))) * Ideal.rsqrt (x2 (ix2 0 (j 1)) + Ideal.ofBits .f32 0x3727C5AC#32)
          + x4 (ix2 0 (j 1))) 0 := by
  obtain ⟨p, q, rfl⟩ : ∃ (p : Fin 5000) (q : Fin 64), j = ix2 p q := ⟨j 0, j 1, eq_ix2 j⟩
  exact pay_apply x0 x1 x2 x3 x4 p q

/-- The block indices, decided over the ten grid points: the matrix and the output move together down the rows, one
    block per point; the four row vectors stay at their one block. -/
theorem idx_facts : ∀ t : Fin cfg17.N,
    win17_5.index t (0 : Fin 2) = t.val ∧ win17_5.index t (1 : Fin 2) = 0
    ∧ win17_0.index t (0 : Fin 2) = t.val ∧ win17_0.index t (1 : Fin 2) = 0
    ∧ win17_1.index t (0 : Fin 2) = 0 ∧ win17_1.index t (1 : Fin 2) = 0
    ∧ win17_2.index t (0 : Fin 2) = 0 ∧ win17_2.index t (1 : Fin 2) = 0
    ∧ win17_3.index t (0 : Fin 2) = 0 ∧ win17_3.index t (1 : Fin 2) = 0
    ∧ win17_4.index t (0 : Fin 2) = 0 ∧ win17_4.index t (1 : Fin 2) = 0 :=
  (by decide +kernel : ∀ t : Fin grid17.N, _)

/-- THE BLOCK EQUATION at a symbolic grid point `t`: the body's arithmetic on the five blocks at `t` is block `t` of
    `normRelu` of the five arrays.  Entry `j` of the block of `z` and of the output sit at the same place of their
    arrays (row `5000·t + j 0`, column `j 1`), and entry `(0, j 1)` of each row vector's one block is entry `(0, j 1)`
    of the row vector. -/
theorem block_eq (t : Fin cfg17.N) (z : Mat 50000 64) (mean var γ β : Mat 1 64) :
    k17_pay1 (((cfg17.win 0).blk t).view.read (Elt Ideal) z) (((cfg17.win 1).blk t).view.read (Elt Ideal) mean)
        (((cfg17.win 2).blk t).view.read (Elt Ideal) var) (((cfg17.win 3).blk t).view.read (Elt Ideal) γ)
        (((cfg17.win 4).blk t).view.read (Elt Ideal) β)
      = ((cfg17.win 5).blk t).view.read (Elt Ideal) (normRelu z mean var γ β (Ideal.ofBits .f32 0x3727C5AC#32)) := by
  obtain ⟨e50, e51, e00, e01, e10, e11, e20, e21, e30, e31, e40, e41⟩ := idx_facts t
  funext j
  refine (pay_at _ _ _ _ _ j).trans ?_
  have h0 : ((cfg17.win 0).blk t).view.emb j = ((cfg17.win 5).blk t).view.emb j := by
    funext a; apply Fin.ext
    match a with
    | ⟨0, _⟩ => show win17_0.index t (0 : Fin 2) * 5000 + 1 * (j 0).val = win17_5.index t (0 : Fin 2) * 5000 + 1 * (j 0).val; rw [e00, e50]
    | ⟨1, _⟩ => show win17_0.index t (1 : Fin 2) * 64 + 1 * (j 1).val = win17_5.index t (1 : Fin 2) * 64 + 1 * (j 1).val; rw [e01, e51]
  have h1 : ((cfg17.win 1).blk t).view.emb (ix2 0 (j 1)) = (ix2 (0 : Fin 1) ((((cfg17.win 5).blk t).view.emb j) 1) : S1x64.Idx) := by
    funext a; apply Fin.ext
    match a with
    | ⟨0, _⟩ => show win17_1.index t (0 : Fin 2) * 1 + 1 * 0 = 0; rw [e10]
    | ⟨1, _⟩ => show win17_1.index t (1 : Fin 2) * 64 + 1 * (j 1).val = win17_5.index t (1 : Fin 2) * 64 + 1 * (j 1).val; rw [e11, e51]
  have h2 : ((cfg17.win 2).blk t).view.emb (ix2 0 (j 1)) = (ix2 (0 : Fin 1) ((((cfg17.win 5).blk t).view.emb j) 1) : S1x64.Idx) := by
    funext a; apply Fin.ext
    match a with
    | ⟨0, _⟩ => show win17_2.index t (0 : Fin 2) * 1 + 1 * 0 = 0; rw [e20]
    | ⟨1, _⟩ => show win17_2.index t (1 : Fin 2) * 64 + 1 * (j 1).val = win17_5.index t (1 : Fin 2) * 64 + 1 * (j 1).val; rw [e21, e51]
  have h3 : ((cfg17.win 3).blk t).view.emb (ix2 0 (j 1)) = (ix2 (0 : Fin 1) ((((cfg17.win 5).blk t).view.emb j) 1) : S1x64.Idx) := by
    funext a; apply Fin.ext
    match a with
    | ⟨0, _⟩ => show win17_3.index t (0 : Fin 2) * 1 + 1 * 0 = 0; rw [e30]
    | ⟨1, _⟩ => show win17_3.index t (1 : Fin 2) * 64 + 1 * (j 1).val = win17_5.index t (1 : Fin 2) * 64 + 1 * (j 1).val; rw [e31, e51]
  have h4 : ((cfg17.win 4).blk t).view.emb (ix2 0 (j 1)) = (ix2 (0 : Fin 1) ((((cfg17.win 5).blk t).view.emb j) 1) : S1x64.Idx) := by
    funext a; apply Fin.ext
    match a with
    | ⟨0, _⟩ => show win17_4.index t (0 : Fin 2) * 1 + 1 * 0 = 0; rw [e40]
    | ⟨1, _⟩ => show win17_4.index t (1 : Fin 2) * 64 + 1 * (j 1).val = win17_5.index t (1 : Fin 2) * 64 + 1 * (j 1).val; rw [e41, e51]
  show max (γ (((cfg17.win 3).blk t).view.emb (ix2 0 (j 1)))
        * (z (((cfg17.win 0).blk t).view.emb j) - mean (((cfg17.win 1).blk t).view.emb (ix2 0 (j 1))))
        * Ideal.rsqrt (var (((cfg17.win 2).blk t).view.emb (ix2 0 (j 1))) + Ideal.ofBits .f32 0x3727C5AC#32)
      + β (((cfg17.win 4).blk t).view.emb (ix2 0 (j 1)))) 0
    = normRelu z mean var γ β (Ideal.ofBits .f32 0x3727C5AC#32) (((cfg17.win 5).blk t).view.emb j)
  rw [h0, h1, h2, h3, h4]
  rfl

/-- An index of the output array is in point `t`'s block iff each coordinate is in the block's range on its axis. -/
theorem mem_blk (t : Fin cfg17.N) (i : S50000x64.Idx) :
    i ∈ ((cfg17.win 5).blk t).view.set ↔ ∀ a : Fin 2, win17_5.index t a * S5000x64.size a ≤ (i a).val
      ∧ (i a).val < win17_5.index t a * S5000x64.size a + S5000x64.size a := by
  show i ∈ ((View.whole main_v217).slice (win17_5.rect t)).set ↔ _
  rw [View.set_slice_whole, Rect.mem_set_unit]
  exact Iff.rfl

/-- THE COVER: row `r` of the output lies in the block of grid point `r / 5000`, which writes its block back. -/
theorem cover (i : S50000x64.Idx) :
    ∃ t : Fin cfg17.N, (cfg17.win 5).flush t = true ∧ i ∈ ((cfg17.win 5).blk t).view.set := by
  have hi0 : (i 0).val < 50000 := (i 0).isLt
  have hi1 : (i 1).val < 64 := (i 1).isLt
  have hN : cfg17.N = 10 := N_17
  have ht : (i 0).val / 5000 < cfg17.N := by rw [hN]; omega
  obtain ⟨e50, e51, -⟩ := idx_facts ⟨(i 0).val / 5000, ht⟩
  refine ⟨⟨(i 0).val / 5000, ht⟩, flush17_5 _, ?_⟩
  rw [mem_blk]
  intro a
  match a with
  | ⟨0, _⟩ =>
    show win17_5.index ⟨(i 0).val / 5000, ht⟩ (0 : Fin 2) * 5000 ≤ (i 0).val
      ∧ (i 0).val < win17_5.index ⟨(i 0).val / 5000, ht⟩ (0 : Fin 2) * 5000 + 5000
    rw [e50]
    show (i 0).val / 5000 * 5000 ≤ (i 0).val ∧ (i 0).val < (i 0).val / 5000 * 5000 + 5000
    omega
  | ⟨1, _⟩ =>
    show win17_5.index ⟨(i 0).val / 5000, ht⟩ (1 : Fin 2) * 64 ≤ (i 1).val
      ∧ (i 1).val < win17_5.index ⟨(i 0).val / 5000, ht⟩ (1 : Fin 2) * 64 + 64
    rw [e51]
    omega

/-- WHAT POINT `t` WRITES BACK is block `t` of `normRelu` of the five arrays as the region finds them: the body's one
    store fills the whole staging buffer with its arithmetic on the five blocks at `t`. -/
theorem flushed_eq (c : Dev nD) (t : Fin cfg17.N) :
    (dat17 (F := Ideal) V c).flushed 5 t = ((cfg17.win 5).blk t).view.read (Elt Ideal)
      (normRelu (n := 50000) (d := 64) (V c (Pipeline.arrRef spec17 0)) (V c (Pipeline.arrRef spec17 1))
        (V c (Pipeline.arrRef spec17 2)) (V c (Pipeline.arrRef spec17 3)) (V c (Pipeline.arrRef spec17 4))
        (Ideal.ofBits .f32 0x3727C5AC#32)) := by
  show (cfg17.win 5).cut (grid17.coords t) ((dat17 (F := Ideal) V c).after 5 t) = _
  rw [after17_5]
  unfold out17_5
  rw [View.canon_unit_zero hz]
  simp only [View.ld_unit_zero (S := S5000x64) hz, View.ld_unit_zero (S := S1x64) hz]
  unfold iblk17
  exact block_eq t (V c (Pipeline.arrRef spec17 0)) (V c (Pipeline.arrRef spec17 1)) (V c (Pipeline.arrRef spec17 2))
    (V c (Pipeline.arrRef spec17 3)) (V c (Pipeline.arrRef spec17 4))

/-- THE OUTPUT ARRAY after the region: `normRelu` of the five arrays as the region finds them. -/
theorem out (c : Dev nD) :
    (dat17 (F := Ideal) V c).arrAt 5 cfg17.N
      = normRelu (n := 50000) (d := 64) (V c (Pipeline.arrRef spec17 0)) (V c (Pipeline.arrRef spec17 1))
          (V c (Pipeline.arrRef spec17 2)) (V c (Pipeline.arrRef spec17 3)) (V c (Pipeline.arrRef spec17 4))
          (Ideal.ofBits .f32 0x3727C5AC#32) :=
  (dat17 (F := Ideal) V c).arrAt_eq_of_cover 5 _ (fun t _ => flushed_eq V c t) cover

end Cert.GIN.Reg17

end
-- ==== Proof.Reg18Pay.lean ====
/-
  Region 18 (the second dense layer's product with its batch statistics), the arithmetic of one grid point at the
  ideal instance, entry by entry.

  The body forms the product block `z_t = h_t · w` of the point's 5000-row block of `h` with the whole of `w`
  (a product into a zero accumulator; the change of float format before it is the identity on extended reals),
  and adds to each of the two statistics rows the column sums of `z_t`, respectively of its squares: at column
  `j` the row holding `v` becomes `v j + Σ_p z_t (p, j)`, respectively `v j + Σ_p z_t (p, j)²`.  The rows a
  first point starts from are zero.
-/
import proofs.«177653_j8959301779747_1_alg».proof.Proof.LibPlainDot
import proofs.«177653_j8959301779747_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.ValueIdx

namespace Cert.GIN.Reg18
open Cert.KernelIdeal Cert.KernelIdeal.Gen

/-- The product block at entry `(p, j)`: the sum over the 64 contracted columns. -/
theorem pay3_apply (x0 : Vec Ideal S5000x64 .f32) (x1 : Vec Ideal S64x128 .f32) (p : Fin 5000) (j : Fin 128) :
    k18_pay3 (F := Ideal) x0 x1 (ix2 p j) = ∑ q : Fin 64, x0 (ix2 p q) * x1 (ix2 q j) := by
  unfold k18_pay3
  refine (Cert.PlainDot.matmul_zero_ix2 dot_S5000x64_S64x128_S5000x128_1_0_0_1_n_n rfl none _ _ p j).trans ?_
  refine Finset.sum_congr rfl fun q _ => ?_
  rw [truncf_apply, truncf_apply, shapeCast_self, shapeCast_self]

/-- Column `j` of the reduced row, with row `k` inserted on the summed axis, is entry `(k, j)` of the block. -/
theorem lift_eq (j : Fin 128) (k : Fin 5000) : reduces_S5000x128_S128.lift (ix1 j) k = ix2 k j := by
  funext a
  apply Fin.ext
  match a with
  | ⟨0, _⟩ => rfl
  | ⟨1, _⟩ => rfl

/-- The sum of a 5000×128 block over its rows, kept as a 1×128 row: at column `j` the sum of the block's column `j`. -/
theorem rowsum_apply (src : FVec Ideal S5000x128 .f32) (j : Fin 128) :
    shapeCast S1x128 (multiReduction (F := Ideal) .add [0] S128 src 0x00000000#32 reduces_S5000x128_S128 (.inl rfl) rfl)
        shapeCasts_S128_S1x128 (ix2 0 j)
      = ∑ p : Fin 5000, src (ix2 p j) := by
  refine (shapeCast_apply _ shapeCasts_S128_S1x128 (ix2 0 j) (ix1 j) ?_).trans ?_
  · rw [Shape.rowMajor_val_two, Shape.rowMajor_val_one]; show j.val = 0 * 128 + j.val; omega
  refine (Ideal.multiReduction_add_single src 0x00000000#32 reduces_S5000x128_S128 (.inl rfl) rfl (ix1 j)).trans ?_
  exact Finset.sum_congr rfl fun p _ => congrArg src (lift_eq j p)

/-- The first statistics row after a point that found it holding `v`: `v j` plus column `j`'s sum of the product block. -/
theorem pay4_apply (x0 : Vec Ideal S5000x64 .f32) (x1 : Vec Ideal S64x128 .f32) (v : Vec Ideal S1x128 .f32) (j : Fin 128) :
    k18_pay4 (F := Ideal) x0 x1 v (ix2 0 j) = v (ix2 0 j) + ∑ p : Fin 5000, k18_pay3 (F := Ideal) x0 x1 (ix2 p j) := by
  unfold k18_pay4
  refine (addf_apply _ _ _).trans ?_
  rw [shapeCast_self]
  exact congrArg (v (ix2 0 j) + ·) (rowsum_apply _ j)

/-- The second statistics row likewise, with the squares of the product block's entries. -/
theorem pay5_apply (x0 : Vec Ideal S5000x64 .f32) (x1 : Vec Ideal S64x128 .f32) (v : Vec Ideal S1x128 .f32) (j : Fin 128) :
    k18_pay5 (F := Ideal) x0 x1 v (ix2 0 j)
      = v (ix2 0 j) + ∑ p : Fin 5000, k18_pay3 (F := Ideal) x0 x1 (ix2 p j) * k18_pay3 (F := Ideal) x0 x1 (ix2 p j) := by
  unfold k18_pay5
  refine (addf_apply _ _ _).trans ?_
  rw [shapeCast_self]
  exact congrArg (v (ix2 0 j) + ·) (rowsum_apply _ j)

/-- The row the first point stores into the first statistics row before accumulating: zero. -/
theorem pay1_apply (i : S1x128.Idx) : k18_pay1 (F := Ideal) i = 0 := by
  unfold k18_pay1
  show Ideal.ofBits .f32 0x00000000#32 = 0
  exact Ideal.ofBits_zero_f32

/-- And into the second: zero. -/
theorem pay2_apply (i : S1x128.Idx) : k18_pay2 (F := Ideal) i = 0 := by
  unfold k18_pay2
  show Ideal.ofBits .f32 0x00000000#32 = 0
  exact Ideal.ofBits_zero_f32

end Cert.GIN.Reg18

end
-- ==== Proof.Reg18Pieces.lean ====
/-
  Region 18, what one run of the body leaves in each output's staging buffer, as values of the body's arithmetic.

  At a first point (the condition holds) the body zeroes both statistics rows, stores the product block, and then
  replaces each statistics row by the row plus the block's column sums (of the entries, of their squares): what
  it leaves are the product payload and the two accumulation payloads applied to the zero rows.  At any other point
  the same, applied to the rows the point before left.  Each output's pieces are whole-buffer stores, so the last
  store's payload is what the buffer holds; a row read back after the zeroing store reads that store's payload.
-/
import proofs.«177653_j8959301779747_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.GIN.Reg18
open Cert.KernelIdeal Cert.KernelIdeal.Gen

variable {F : FTy → Type} [FloatOps F]

theorem hz : (![0, 0] : Fin 2 → Nat) = fun _ => 0 := funext fun a => by fin_cases a <;> rfl

/-- Any other point, the product output: the product payload of the two input blocks. -/
theorem out_B_2 (c : Dev nD) (i : grid18.Coords) (a1 : Memref sig .tc .vmem S5000x64 .f32) (h1 : a1.IsWhole)
    (a2 : Memref sig .tc .vmem S64x128 .f32) (h2 : a2.IsWhole) (a3 : Memref sig .tc .vmem S5000x128 .f32) (h3 : a3.IsWhole)
    (a4 : Memref sig .tc .vmem S1x128 .f32) (h4 : a4.IsWhole) (a5 : Memref sig .tc .vmem S1x128 .f32) (h5 : a5.IsWhole)
    (hc : ¬cond18_0 i) (x0 : Vec F S5000x64 .f32) (x1 : Vec F S64x128 .f32) (xo3 xo4 : Vec F S1x128 .f32) :
    out18_B_2 c i a1 h1 a2 h2 a3 h3 a4 h4 a5 h5 hc x0 x1 xo3 xo4 = k18_pay3 x0 x1 := by
  unfold out18_B_2
  rw [View.read_writes_eq_canon _ _ _ (cover18_B_2 c i a1 h1 a2 h2 a3 h3 a4 h4 a5 h5 hc x0 x1 xo3 xo4)]
  unfold kernelRun18_B
  dsimp only
  sl_unfold_words
  rw [View.canon_unit_zero hz]
  simp only [View.readAt_eq_ld, h1.read_unread, h2.read_unread, View.ld_unit_zero (S := S5000x64) hz,
    View.ld_unit_zero (S := S64x128) hz]

/-- Any other point, the first statistics row: the accumulation payload of the row the point before left. -/
theorem out_B_3 (c : Dev nD) (i : grid18.Coords) (a1 : Memref sig .tc .vmem S5000x64 .f32) (h1 : a1.IsWhole)
    (a2 : Memref sig .tc .vmem S64x128 .f32) (h2 : a2.IsWhole) (a3 : Memref sig .tc .vmem S5000x128 .f32) (h3 : a3.IsWhole)
    (a4 : Memref sig .tc .vmem S1x128 .f32) (h4 : a4.IsWhole) (a5 : Memref sig .tc .vmem S1x128 .f32) (h5 : a5.IsWhole)
    (hc : ¬cond18_0 i) (x0 : Vec F S5000x64 .f32) (x1 : Vec F S64x128 .f32) (xo3 xo4 : Vec F S1x128 .f32) :
    out18_B_3 c i a1 h1 a2 h2 a3 h3 a4 h4 a5 h5 hc x0 x1 xo3 xo4 = k18_pay4 x0 x1 xo3 := by
  unfold out18_B_3
  rw [View.read_writes_eq_canon _ _ _ (cover18_B_3 c i a1 h1 a2 h2 a3 h3 a4 h4 a5 h5 hc x0 x1 xo3 xo4)]
  unfold kernelRun18_B
  dsimp only
  sl_unfold_words
  rw [View.canon_unit_zero hz]
  simp only [View.readAt_eq_ld, h1.read_unread, h2.read_unread, h4.read_unread, View.ld_unit_zero (S := S5000x64) hz,
    View.ld_unit_zero (S := S64x128) hz, View.ld_unit_zero (S := S1x128) hz]

/-- Any other point, the second statistics row. -/
theorem out_B_4 (c : Dev nD) (i : grid18.Coords) (a1 : Memref sig .tc .vmem S5000x64 .f32) (h1 : a1.IsWhole)
    (a2 : Memref sig .tc .vmem S64x128 .f32) (h2 : a2.IsWhole) (a3 : Memref sig .tc .vmem S5000x128 .f32) (h3 : a3.IsWhole)
    (a4 : Memref sig .tc .vmem S1x128 .f32) (h4 : a4.IsWhole) (a5 : Memref sig .tc .vmem S1x128 .f32) (h5 : a5.IsWhole)
    (hc : ¬cond18_0 i) (x0 : Vec F S5000x64 .f32) (x1 : Vec F S64x128 .f32) (xo3 xo4 : Vec F S1x128 .f32) :
    out18_B_4 c i a1 h1 a2 h2 a3 h3 a4 h4 a5 h5 hc x0 x1 xo3 xo4 = k18_pay5 x0 x1 xo4 := by
  unfold out18_B_4
  rw [View.read_writes_eq_canon _ _ _ (cover18_B_4 c i a1 h1 a2 h2 a3 h3 a4 h4 a5 h5 hc x0 x1 xo3 xo4)]
  unfold kernelRun18_B
  dsimp only
  sl_unfold_words
  rw [View.canon_unit_zero hz]
  simp only [View.readAt_eq_ld, h1.read_unread, h2.read_unread, h5.read_unread, View.ld_unit_zero (S := S5000x64) hz,
    View.ld_unit_zero (S := S64x128) hz, View.ld_unit_zero (S := S1x128) hz]

/-- A first point, the product output. -/
theorem out_A_2 (c : Dev nD) (i : grid18.Coords) (a1 : Memref sig .tc .vmem S5000x64 .f32) (h1 : a1.IsWhole)
    (a2 : Memref sig .tc .vmem S64x128 .f32) (h2 : a2.IsWhole) (a3 : Memref sig .tc .vmem S5000x128 .f32) (h3 : a3.IsWhole)
    (a4 : Memref sig .tc .vmem S1x128 .f32) (h4 : a4.IsWhole) (a5 : Memref sig .tc .vmem S1x128 .f32) (h5 : a5.IsWhole)
    (hc : cond18_0 i) (x0 : Vec F S5000x64 .f32) (x1 : Vec F S64x128 .f32) :
    out18_A_2 c i a1 h1 a2 h2 a3 h3 a4 h4 a5 h5 hc x0 x1 = k18_pay3 x0 x1 := by
  unfold out18_A_2
  rw [View.read_writes_eq_canon _ _ _ (cover18_A_2 c i a1 h1 a2 h2 a3 h3 a4 h4 a5 h5 hc x0 x1)]
  unfold kernelRun18_A
  dsimp only
  sl_unfold_words
  rw [View.canon_unit_zero hz]
  simp only [View.readAt_eq_ld, h1.read_unread, h2.read_unread, View.ld_unit_zero (S := S5000x64) hz,
    View.ld_unit_zero (S := S64x128) hz]

/-- A first point, the first statistics row: the accumulation payload of the zero row just stored. -/
theorem out_A_3 (c : Dev nD) (i : grid18.Coords) (a1 : Memref sig .tc .vmem S5000x64 .f32) (h1 : a1.IsWhole)
    (a2 : Memref sig .tc .vmem S64x128 .f32) (h2 : a2.IsWhole) (a3 : Memref sig .tc .vmem S5000x128 .f32) (h3 : a3.IsWhole)
    (a4 : Memref sig .tc .vmem S1x128 .f32) (h4 : a4.IsWhole) (a5 : Memref sig .tc .vmem S1x128 .f32) (h5 : a5.IsWhole)
    (hc : cond18_0 i) (x0 : Vec F S5000x64 .f32) (x1 : Vec F S64x128 .f32) :
    out18_A_3 c i a1 h1 a2 h2 a3 h3 a4 h4 a5 h5 hc x0 x1 = k18_pay4 x0 x1 k18_pay1 := by
  unfold out18_A_3
  rw [View.read_writes_eq_canon _ _ _ (cover18_A_3 c i a1 h1 a2 h2 a3 h3 a4 h4 a5 h5 hc x0 x1)]
  unfold kernelRun18_A
  dsimp only
  sl_unfold_words
  rw [View.canon_cons_unit_zero (S := S1x128) hz, View.readCov_unit_zero (S := S1x128) _ hz]
  simp only [View.readAt_eq_ld, h1.read_unread, h2.read_unread, View.ld_unit_zero (S := S5000x64) hz,
    View.ld_unit_zero (S := S64x128) hz]

/-- A first point, the second statistics row. -/
theorem out_A_4 (c : Dev nD) (i : grid18.Coords) (a1 : Memref sig .tc .vmem S5000x64 .f32) (h1 : a1.IsWhole)
    (a2 : Memref sig .tc .vmem S64x128 .f32) (h2 : a2.IsWhole) (a3 : Memref sig .tc .vmem S5000x128 .f32) (h3 : a3.IsWhole)
    (a4 : Memref sig .tc .vmem S1x128 .f32) (h4 : a4.IsWhole) (a5 : Memref sig .tc .vmem S1x128 .f32) (h5 : a5.IsWhole)
    (hc : cond18_0 i) (x0 : Vec F S5000x64 .f32) (x1 : Vec F S64x128 .f32) :
    out18_A_4 c i a1 h1 a2 h2 a3 h3 a4 h4 a5 h5 hc x0 x1 = k18_pay5 x0 x1 k18_pay2 := by
  unfold out18_A_4
  rw [View.read_writes_eq_canon _ _ _ (cover18_A_4 c i a1 h1 a2 h2 a3 h3 a4 h4 a5 h5 hc x0 x1)]
  unfold kernelRun18_A
  dsimp only
  sl_unfold_words
  rw [View.canon_cons_unit_zero (S := S1x128) hz, View.readCov_unit_zero (S := S1x128) _ hz]
  simp only [View.readAt_eq_ld, h1.read_unread, h2.read_unread, View.ld_unit_zero (S := S5000x64) hz,
    View.ld_unit_zero (S := S64x128) hz]

end Cert.GIN.Reg18

end
-- ==== Proof.Reg18.lean ====
/-
  Region 18 (the second dense layer's product with its batch statistics) at the ideal instance: its three result
  arrays as whole-array functions of the two operand arrays `h` [50000, 64] and `w` [64, 128] the region finds.

  The grid has ten points; point `t` reads rows `5000 t … 5000 t + 4999` of `h` and all of `w`, and writes the
  same rows of the product `z = h · w`: the ten blocks tile the rows (row `r` belongs to point `r / 5000`), so the
  product array ends holding `mm h w`.  The two statistics rows have one block that never moves and is written
  back after the last point only; the first point zeroes them and every point adds its tile's column sums, so
  after point `n` they hold the sums over tiles `0 … n` of the tile's column sums (of `z`, of its squares) — by
  induction on the point — and after the last point the tiled column sums `colSum z`, `colSumSq z`.
-/
import proofs.«177653_j8959301779747_1_alg».proof.Proof.Spec
import proofs.«177653_j8959301779747_1_alg».proof.Proof.Reg18Pay
import proofs.«177653_j8959301779747_1_alg».proof.Proof.Reg18Pieces
import proofs.«177653_j8959301779747_1_alg».proof.Proof.Gen.KernelIdeal.Frame
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.GIN.Reg18
open Cert.KernelIdeal Cert.KernelIdeal.Gen Cert.GIN

/-! ## Tile sums -/

/-- The sum of column `j` over the rows of tile `t` (rows `5000 t` to `5000 t + 4999`); zero past the tenth tile. -/
def tileSum {d : Nat} (z : Mat 50000 d) (t : ℕ) (j : Fin d) : EReal :=
  if h : t < 10 then ∑ p : Fin 5000, z (ix2 ⟨5000 * t + p.val, by omega⟩ j) else 0

/-- The tiled column sum is the sum of the ten tile sums. -/
theorem colSum_eq_range {d : Nat} (z : Mat 50000 d) (i : (⟨2, ![1, d]⟩ : Shape).Idx) :
    colSum z i = ∑ t ∈ Finset.range 10, tileSum z t (i 1) := by
  rw [Finset.sum_range]
  unfold colSum
  refine Finset.sum_congr rfl fun t _ => ?_
  unfold tileSum
  rw [dif_pos t.isLt]

/-! ## The operands and the blocks the points read -/

variable (V : (c : Dev nD) → (b : Ref sig .tc) → Buf (Elt Ideal) ((c : Thread nD τ).loc b)) (c : Dev nD)

/-- The left operand array as the region finds it. -/
abbrev H : Mat 50000 64 := V c (Pipeline.arrRef spec18 0)
/-- The right operand array as the region finds it. -/
abbrev Wt : Mat 64 128 := V c (Pipeline.arrRef spec18 1)
/-- Their product. -/
abbrev Z : Mat 50000 128 := mm (H V c) (Wt V c)
/-- Its entrywise square. -/
abbrev Zsq : Mat 50000 128 := fun i => Z V c i * Z V c i

/-- The printed index maps, decided over the grid: the left operand's and the product's block index is the point
    on the row axis and zero on the column axis; the right operand's and the statistics rows' are zero. -/
theorem idx_facts : ∀ t : Fin cfg18.N,
    win18_0.index t (0 : Fin 2) = t.val ∧ win18_0.index t (1 : Fin 2) = 0
    ∧ win18_1.index t (0 : Fin 2) = 0 ∧ win18_1.index t (1 : Fin 2) = 0
    ∧ win18_2.index t (0 : Fin 2) = t.val ∧ win18_2.index t (1 : Fin 2) = 0
    ∧ win18_3.index t (0 : Fin 2) = 0 ∧ win18_3.index t (1 : Fin 2) = 0
    ∧ win18_4.index t (0 : Fin 2) = 0 ∧ win18_4.index t (1 : Fin 2) = 0 :=
  (by decide +kernel : ∀ t : Fin grid18.N, _)

theorem lt10 (t : Fin cfg18.N) : t.val < 10 := lt_of_lt_of_eq t.isLt (show cfg18.N = 10 from N_18)

/-- Entry `(p, q)` of the left operand's block at point `t` is entry `(5000 t + p, q)` of the array. -/
theorem blk0_apply (t : Fin cfg18.N) (p : Fin 5000) (q : Fin 64) (r : Fin 50000) (hr : r.val = 5000 * t.val + p.val) :
    (iblk18 V c 0 t : Vec Ideal S5000x64 .f32) (ix2 p q) = H V c (ix2 r q) := by
  obtain ⟨e0, e1, -⟩ := idx_facts t
  unfold iblk18
  rw [View.read_apply]
  show V c (Pipeline.arrRef spec18 0) (((cfg18.win 0).blk t).view.emb (ix2 p q)) = V c (Pipeline.arrRef spec18 0) (ix2 r q)
  congr 1
  funext a
  apply Fin.ext
  match a with
  | ⟨0, _⟩ => show win18_0.index t (0 : Fin 2) * 5000 + 1 * p.val = r.val; omega
  | ⟨1, _⟩ => show win18_0.index t (1 : Fin 2) * 64 + 1 * q.val = q.val; omega

/-- The right operand's block at every point is the whole array. -/
theorem blk1_apply (t : Fin cfg18.N) (q : Fin 64) (j : Fin 128) :
    (iblk18 V c 1 t : Vec Ideal S64x128 .f32) (ix2 q j) = Wt V c (ix2 q j) := by
  obtain ⟨-, -, e0, e1, -⟩ := idx_facts t
  unfold iblk18
  rw [View.read_apply]
  show V c (Pipeline.arrRef spec18 1) (((cfg18.win 1).blk t).view.emb (ix2 q j)) = V c (Pipeline.arrRef spec18 1) (ix2 q j)
  congr 1
  funext a
  apply Fin.ext
  match a with
  | ⟨0, _⟩ => show win18_1.index t (0 : Fin 2) * 64 + 1 * q.val = q.val; omega
  | ⟨1, _⟩ => show win18_1.index t (1 : Fin 2) * 128 + 1 * j.val = j.val; omega

/-- So entry `(p, j)` of the product block of point `t` is entry `(5000 t + p, j)` of the product of the arrays. -/
theorem zblk_apply (t : Fin cfg18.N) (p : Fin 5000) (j : Fin 128) (r : Fin 50000) (hr : r.val = 5000 * t.val + p.val) :
    k18_pay3 (F := Ideal) (iblk18 V c 0 t) (iblk18 V c 1 t) (ix2 p j) = Z V c (ix2 r j) := by
  refine (pay3_apply (iblk18 V c 0 t) (iblk18 V c 1 t) p j).trans ?_
  show _ = ∑ q : Fin 64, H V c (ix2 r q) * Wt V c (ix2 q j)
  refine Finset.sum_congr rfl fun q _ => ?_
  rw [blk0_apply V c t p q r hr, blk1_apply V c t q j]

/-- The product block's column `j`, summed over its rows, is tile `t`'s sum of column `j` of the product. -/
theorem zblk_sum (t : Fin cfg18.N) (j : Fin 128) :
    ∑ p : Fin 5000, k18_pay3 (F := Ideal) (iblk18 V c 0 t) (iblk18 V c 1 t) (ix2 p j) = tileSum (Z V c) t.val j := by
  have h10 := lt10 t
  unfold tileSum
  rw [dif_pos h10]
  exact Finset.sum_congr rfl fun p _ => zblk_apply V c t p j ⟨5000 * t.val + p.val, by omega⟩ rfl

/-- Likewise for the squares. -/
theorem zblk_sumsq (t : Fin cfg18.N) (j : Fin 128) :
    ∑ p : Fin 5000, k18_pay3 (F := Ideal) (iblk18 V c 0 t) (iblk18 V c 1 t) (ix2 p j)
        * k18_pay3 (F := Ideal) (iblk18 V c 0 t) (iblk18 V c 1 t) (ix2 p j) = tileSum (Zsq V c) t.val j := by
  have h10 := lt10 t
  unfold tileSum
  rw [dif_pos h10]
  refine Finset.sum_congr rfl fun p _ => ?_
  rw [zblk_apply V c t p j ⟨5000 * t.val + p.val, by omega⟩ rfl]

/-! ## What the outputs' staging buffers hold after each point -/

/-- After a first point: the product block, and the two accumulations from the zero rows. -/
theorem outs_A (t : Fin cfg18.N) (h0 : t.val % 10 = 0) :
    (outsAt18 V c t.val t.isLt).1 = k18_pay3 (F := Ideal) (iblk18 V c 0 t) (iblk18 V c 1 t)
    ∧ (outsAt18 V c t.val t.isLt).2.1 = k18_pay4 (F := Ideal) (iblk18 V c 0 t) (iblk18 V c 1 t) (k18_pay1 (F := Ideal))
    ∧ (outsAt18 V c t.val t.isLt).2.2 = k18_pay5 (F := Ideal) (iblk18 V c 0 t) (iblk18 V c 1 t) (k18_pay2 (F := Ideal)) := by
  rw [outsAt18_A V c t h0]
  dsimp only
  exact ⟨out_A_2 (F := Ideal) c (grid18.coords t) (ms18_0 t) (hs18_0 t) (ms18_1 t) (hs18_1 t) (ms18_2 t) (hs18_2 t) (ms18_3 t) (hs18_3 t) (ms18_4 t) (hs18_4 t) ((hcond18_0 t).mpr h0) (iblk18 V c 0 t) (iblk18 V c 1 t),
    out_A_3 (F := Ideal) c (grid18.coords t) (ms18_0 t) (hs18_0 t) (ms18_1 t) (hs18_1 t) (ms18_2 t) (hs18_2 t) (ms18_3 t) (hs18_3 t) (ms18_4 t) (hs18_4 t) ((hcond18_0 t).mpr h0) (iblk18 V c 0 t) (iblk18 V c 1 t),
    out_A_4 (F := Ideal) c (grid18.coords t) (ms18_0 t) (hs18_0 t) (ms18_1 t) (hs18_1 t) (ms18_2 t) (hs18_2 t) (ms18_3 t) (hs18_3 t) (ms18_4 t) (hs18_4 t) ((hcond18_0 t).mpr h0) (iblk18 V c 0 t) (iblk18 V c 1 t)⟩

/-- After any other point: the product block, and the two accumulations from the rows the point before left. -/
theorem outs_B (t : Fin cfg18.N) (h0 : ¬t.val % 10 = 0) :
    (outsAt18 V c t.val t.isLt).1 = k18_pay3 (F := Ideal) (iblk18 V c 0 t) (iblk18 V c 1 t)
    ∧ (outsAt18 V c t.val t.isLt).2.1 = k18_pay4 (F := Ideal) (iblk18 V c 0 t) (iblk18 V c 1 t)
        (outsAt18 V c (t.val - 1) (Nat.lt_of_le_of_lt (Nat.sub_le _ _) t.isLt)).2.1
    ∧ (outsAt18 V c t.val t.isLt).2.2 = k18_pay5 (F := Ideal) (iblk18 V c 0 t) (iblk18 V c 1 t)
        (outsAt18 V c (t.val - 1) (Nat.lt_of_le_of_lt (Nat.sub_le _ _) t.isLt)).2.2 := by
  rw [outsAt18_B V c t h0]
  dsimp only
  exact ⟨out_B_2 (F := Ideal) c (grid18.coords t) (ms18_0 t) (hs18_0 t) (ms18_1 t) (hs18_1 t) (ms18_2 t) (hs18_2 t) (ms18_3 t) (hs18_3 t) (ms18_4 t) (hs18_4 t) (fun h => h0 ((hcond18_0 t).mp h)) (iblk18 V c 0 t) (iblk18 V c 1 t) _ _,
    out_B_3 (F := Ideal) c (grid18.coords t) (ms18_0 t) (hs18_0 t) (ms18_1 t) (hs18_1 t) (ms18_2 t) (hs18_2 t) (ms18_3 t) (hs18_3 t) (ms18_4 t) (hs18_4 t) (fun h => h0 ((hcond18_0 t).mp h)) (iblk18 V c 0 t) (iblk18 V c 1 t) _ _,
    out_B_4 (F := Ideal) c (grid18.coords t) (ms18_0 t) (hs18_0 t) (ms18_1 t) (hs18_1 t) (ms18_2 t) (hs18_2 t) (ms18_3 t) (hs18_3 t) (ms18_4 t) (hs18_4 t) (fun h => h0 ((hcond18_0 t).mp h)) (iblk18 V c 0 t) (iblk18 V c 1 t) _ _⟩

/-- The product output's buffer after point `t`: the product block of the point. -/
theorem outs_z (t : Fin cfg18.N) :
    (outsAt18 V c t.val t.isLt).1 = k18_pay3 (F := Ideal) (iblk18 V c 0 t) (iblk18 V c 1 t) := by
  by_cases h0 : t.val % 10 = 0
  · exact (outs_A V c t h0).1
  · exact (outs_B V c t h0).1

/-- The statistics rows after point `n`: the sums over tiles `0 … n` of the tile's column sums of the product, and of
    its squares — by induction on the point. -/
theorem outs_acc : ∀ (n : ℕ) (h : n < cfg18.N) (j : Fin 128),
    (outsAt18 V c n h).2.1 (ix2 0 j) = ∑ t ∈ Finset.range (n + 1), tileSum (Z V c) t j
    ∧ (outsAt18 V c n h).2.2 (ix2 0 j) = ∑ t ∈ Finset.range (n + 1), tileSum (Zsq V c) t j
  | 0, h, j => by
    have e1 : (outsAt18 V c 0 h).2.1 = k18_pay4 (F := Ideal) (iblk18 V c 0 ⟨0, h⟩) (iblk18 V c 1 ⟨0, h⟩) (k18_pay1 (F := Ideal)) :=
      (outs_A V c ⟨0, h⟩ rfl).2.1
    have e2 : (outsAt18 V c 0 h).2.2 = k18_pay5 (F := Ideal) (iblk18 V c 0 ⟨0, h⟩) (iblk18 V c 1 ⟨0, h⟩) (k18_pay2 (F := Ideal)) :=
      (outs_A V c ⟨0, h⟩ rfl).2.2
    constructor
    · rw [e1, pay4_apply (iblk18 V c 0 ⟨0, h⟩) (iblk18 V c 1 ⟨0, h⟩) (k18_pay1 (F := Ideal)) j, pay1_apply, zero_add, zblk_sum V c ⟨0, h⟩ j,
        Finset.sum_range_succ, Finset.range_zero, Finset.sum_empty, zero_add]
    · rw [e2, pay5_apply (iblk18 V c 0 ⟨0, h⟩) (iblk18 V c 1 ⟨0, h⟩) (k18_pay2 (F := Ideal)) j, pay2_apply, zero_add, zblk_sumsq V c ⟨0, h⟩ j,
        Finset.sum_range_succ, Finset.range_zero, Finset.sum_empty, zero_add]
  | n + 1, h, j => by
    have hN : cfg18.N = 10 := N_18
    have hB : ¬(⟨n + 1, h⟩ : Fin cfg18.N).val % 10 = 0 := by dsimp only; omega
    have e1 : (outsAt18 V c (n + 1) h).2.1 = k18_pay4 (F := Ideal) (iblk18 V c 0 ⟨n + 1, h⟩) (iblk18 V c 1 ⟨n + 1, h⟩)
        (outsAt18 V c n (Nat.lt_of_succ_lt h)).2.1 := (outs_B V c ⟨n + 1, h⟩ hB).2.1
    have e2 : (outsAt18 V c (n + 1) h).2.2 = k18_pay5 (F := Ideal) (iblk18 V c 0 ⟨n + 1, h⟩) (iblk18 V c 1 ⟨n + 1, h⟩)
        (outsAt18 V c n (Nat.lt_of_succ_lt h)).2.2 := (outs_B V c ⟨n + 1, h⟩ hB).2.2
    have ih := outs_acc n (Nat.lt_of_succ_lt h) j
    constructor
    · rw [e1, pay4_apply (iblk18 V c 0 ⟨n + 1, h⟩) (iblk18 V c 1 ⟨n + 1, h⟩) _ j, zblk_sum V c ⟨n + 1, h⟩ j, Finset.sum_range_succ, ih.1]
    · rw [e2, pay5_apply (iblk18 V c 0 ⟨n + 1, h⟩) (iblk18 V c 1 ⟨n + 1, h⟩) _ j, zblk_sumsq V c ⟨n + 1, h⟩ j, Finset.sum_range_succ, ih.2]

/-! ## The write-backs -/

/-- What point `t` writes back of the product output is block `t` of the product of the arrays. -/
theorem flushed_z (t : Fin cfg18.N) :
    (dat18 V c).flushed 2 t = ((cfg18.win 2).blk t).view.read (Elt Ideal) (Z V c) := by
  obtain ⟨-, -, -, -, e0, e1, -⟩ := idx_facts t
  have h10 := lt10 t
  show (cfg18.win 2).cut (grid18.coords t) ((dat18 V c).after 2 t) = _
  rw [after18_2, outs_z]
  funext y
  obtain ⟨p, j, rfl⟩ : ∃ (p : Fin 5000) (j : Fin 128), y = ix2 p j := ⟨y 0, y 1, eq_ix2 y⟩
  rw [View.read_apply]
  show k18_pay3 (F := Ideal) (iblk18 V c 0 t) (iblk18 V c 1 t) (ix2 p j) = Z V c (((cfg18.win 2).blk t).view.emb (ix2 p j))
  refine (zblk_apply V c t p j ⟨5000 * t.val + p.val, by omega⟩ rfl).trans (congrArg (Z V c) ?_)
  funext a
  apply Fin.ext
  match a with
  | ⟨0, _⟩ => show 5000 * t.val + p.val = win18_2.index t (0 : Fin 2) * 5000 + 1 * p.val; omega
  | ⟨1, _⟩ => show j.val = win18_2.index t (1 : Fin 2) * 128 + 1 * j.val; omega

/-- An index of the product array is in point `t`'s block iff each coordinate is in the block's range. -/
theorem mem_blk_z (t : Fin cfg18.N) (i : S50000x128.Idx) :
    i ∈ ((cfg18.win 2).blk t).view.set ↔ ∀ a : Fin 2, win18_2.index t a * S5000x128.size a ≤ (i a).val
      ∧ (i a).val < win18_2.index t a * S5000x128.size a + S5000x128.size a := by
  show i ∈ ((View.whole main_v220_0).slice (win18_2.rect t)).set ↔ _
  rw [View.set_slice_whole, Rect.mem_set_unit]
  exact Iff.rfl

/-- Every row of the product array is in the block of the point its tile names. -/
theorem cover_z (i : S50000x128.Idx) :
    ∃ t : Fin cfg18.N, (cfg18.win 2).flush t = true ∧ i ∈ ((cfg18.win 2).blk t).view.set := by
  have hN : cfg18.N = 10 := N_18
  have hi0 : (i 0).val < 50000 := (i 0).isLt
  have hi1 : (i 1).val < 128 := (i 1).isLt
  refine ⟨⟨(i 0).val / 5000, by omega⟩, flush18_2 _, ?_⟩
  obtain ⟨-, -, -, -, e0, e1, -⟩ := idx_facts ⟨(i 0).val / 5000, by omega⟩
  rw [mem_blk_z]
  intro a
  match a with
  | ⟨0, _⟩ =>
    show win18_2.index _ (0 : Fin 2) * 5000 ≤ (i 0).val ∧ (i 0).val < win18_2.index _ (0 : Fin 2) * 5000 + 5000
    rw [e0]; dsimp only; omega
  | ⟨1, _⟩ =>
    show win18_2.index _ (1 : Fin 2) * 128 ≤ (i 1).val ∧ (i 1).val < win18_2.index _ (1 : Fin 2) * 128 + 128
    rw [e1]; omega

/-- The product array after the run: the product of the operand arrays. -/
theorem z : (dat18 (F := Ideal) V c).arrAt 2 cfg18.N
    = mm (n := 50000) (k := 64) (d := 128) (V c (Pipeline.arrRef spec18 0)) (V c (Pipeline.arrRef spec18 1)) :=
  (dat18 V c).arrAt_eq_of_cover 2 (Z V c) (fun t _ => flushed_z V c t) cover_z

/-- What the last point writes back of the first statistics row is the tiled column sum of the product. -/
theorem flushed_s (t : Fin cfg18.N) (hf : (cfg18.win 3).flush t = true) :
    (dat18 V c).flushed 3 t = ((cfg18.win 3).blk t).view.read (Elt Ideal) (colSum (Z V c)) := by
  obtain ⟨-, -, -, -, -, -, e0, e1, -⟩ := idx_facts t
  have h9 : t.val = 9 := by have := (flush18_3 t).mp hf; have := lt10 t; omega
  show (cfg18.win 3).cut (grid18.coords t) ((dat18 V c).after 3 t) = _
  rw [after18_3]
  funext y
  obtain ⟨j0, j, rfl⟩ : ∃ (j0 : Fin 1) (j : Fin 128), y = ix2 j0 j := ⟨y 0, y 1, eq_ix2 y⟩
  obtain rfl : j0 = 0 := Subsingleton.elim _ _
  rw [View.read_apply]
  show (outsAt18 V c t.val t.isLt).2.1 (ix2 0 j) = colSum (Z V c) (((cfg18.win 3).blk t).view.emb (ix2 0 j))
  rw [(outs_acc V c t.val t.isLt j).1, colSum_eq_range, h9]
  refine Finset.sum_congr rfl fun t' _ => congrArg (tileSum (Z V c) t') (Fin.ext ?_)
  show j.val = win18_3.index t (1 : Fin 2) * 128 + 1 * j.val
  omega

/-- And of the second, of the product's squares. -/
theorem flushed_ss (t : Fin cfg18.N) (hf : (cfg18.win 4).flush t = true) :
    (dat18 V c).flushed 4 t = ((cfg18.win 4).blk t).view.read (Elt Ideal) (colSumSq (Z V c)) := by
  obtain ⟨-, -, -, -, -, -, -, -, e0, e1⟩ := idx_facts t
  have h9 : t.val = 9 := by have := (flush18_4 t).mp hf; have := lt10 t; omega
  show (cfg18.win 4).cut (grid18.coords t) ((dat18 V c).after 4 t) = _
  rw [after18_4]
  funext y
  obtain ⟨j0, j, rfl⟩ : ∃ (j0 : Fin 1) (j : Fin 128), y = ix2 j0 j := ⟨y 0, y 1, eq_ix2 y⟩
  obtain rfl : j0 = 0 := Subsingleton.elim _ _
  rw [View.read_apply]
  show (outsAt18 V c t.val t.isLt).2.2 (ix2 0 j) = colSum (Zsq V c) (((cfg18.win 4).blk t).view.emb (ix2 0 j))
  rw [(outs_acc V c t.val t.isLt j).2, colSum_eq_range, h9]
  refine Finset.sum_congr rfl fun t' _ => congrArg (tileSum (Zsq V c) t') (Fin.ext ?_)
  show j.val = win18_4.index t (1 : Fin 2) * 128 + 1 * j.val
  omega

/-- The one block of a statistics row is the whole row: the last point's write-back covers it. -/
theorem cover_s (i : S1x128.Idx) :
    ∃ t : Fin cfg18.N, (cfg18.win 3).flush t = true ∧ i ∈ ((cfg18.win 3).blk t).view.set := by
  obtain ⟨-, -, -, -, -, -, e0, e1, -⟩ := idx_facts t18_9
  have h0 : (i 0).val < 1 := (i 0).isLt
  have h1 : (i 1).val < 128 := (i 1).isLt
  refine ⟨t18_9, (flush18_3 t18_9).mpr rfl, ?_⟩
  show i ∈ ((View.whole main_v220_1).slice (win18_3.rect t18_9)).set
  rw [View.set_slice_whole, Rect.mem_set_unit]
  intro a
  match a with
  | ⟨0, _⟩ =>
    show win18_3.index t18_9 (0 : Fin 2) * 1 ≤ (i 0).val ∧ (i 0).val < win18_3.index t18_9 (0 : Fin 2) * 1 + 1
    omega
  | ⟨1, _⟩ =>
    show win18_3.index t18_9 (1 : Fin 2) * 128 ≤ (i 1).val ∧ (i 1).val < win18_3.index t18_9 (1 : Fin 2) * 128 + 128
    omega

theorem cover_ss (i : S1x128.Idx) :
    ∃ t : Fin cfg18.N, (cfg18.win 4).flush t = true ∧ i ∈ ((cfg18.win 4).blk t).view.set := by
  obtain ⟨-, -, -, -, -, -, -, -, e0, e1⟩ := idx_facts t18_9
  have h0 : (i 0).val < 1 := (i 0).isLt
  have h1 : (i 1).val < 128 := (i 1).isLt
  refine ⟨t18_9, (flush18_4 t18_9).mpr rfl, ?_⟩
  show i ∈ ((View.whole main_v220_2).slice (win18_4.rect t18_9)).set
  rw [View.set_slice_whole, Rect.mem_set_unit]
  intro a
  match a with
  | ⟨0, _⟩ =>
    show win18_4.index t18_9 (0 : Fin 2) * 1 ≤ (i 0).val ∧ (i 0).val < win18_4.index t18_9 (0 : Fin 2) * 1 + 1
    omega
  | ⟨1, _⟩ =>
    show win18_4.index t18_9 (1 : Fin 2) * 128 ≤ (i 1).val ∧ (i 1).val < win18_4.index t18_9 (1 : Fin 2) * 128 + 128
    omega

/-- The first statistics array after the run: the tiled column sums of the product. -/
theorem s : (dat18 (F := Ideal) V c).arrAt 3 cfg18.N
    = colSum (mm (n := 50000) (k := 64) (d := 128) (V c (Pipeline.arrRef spec18 0)) (V c (Pipeline.arrRef spec18 1))) :=
  (dat18 V c).arrAt_eq_of_cover 3 (colSum (Z V c)) (flushed_s V c) cover_s

/-- The second: the tiled column sums of its squares. -/
theorem ss : (dat18 (F := Ideal) V c).arrAt 4 cfg18.N
    = colSumSq (mm (n := 50000) (k := 64) (d := 128) (V c (Pipeline.arrRef spec18 0)) (V c (Pipeline.arrRef spec18 1))) :=
  (dat18 V c).arrAt_eq_of_cover 4 (colSumSq (Z V c)) (flushed_ss V c) cover_ss

end Cert.GIN.Reg18

end
-- ==== Proof.Reg19.lean ====
/-
  Region 19: the normalisation-and-rectifier map on a matrix of 50000 rows and 128 columns.

  The region visits ten grid points.  At point `t` it reads rows `5000·t … 5000·t + 4999` of the matrix `z` and the
  whole of the four rows `mean`, `var`, `γ`, `β` (each `[1, 128]`, the same block at every point), and writes the same
  rows of the output.  Entry `(p, q)` of what it writes is
  `max (γ q · (z (5000·t + p, q) − mean q) · rsqrt (var q + eps) + β q) 0`: each row vector is read at column `q` of
  its one row, whatever `p` is.  So the block point `t` writes is block `t` of ONE function of the five arrays,
  `normRelu z mean var γ β eps`, and since the ten blocks cover all 50000 rows (row `r` lies in block `r / 5000`),
  the output array ends holding that function.
-/
import proofs.«177653_j8959301779747_1_alg».proof.Proof.Spec
import proofs.«177653_j8959301779747_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

noncomputable section

namespace Cert.GIN.Reg19

open Cert.KernelIdeal Cert.KernelIdeal.Gen Cert.GIN
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The zero offsets of a block read or written whole. -/
theorem hz : (![0, 0] : Fin 2 → Nat) = fun _ => 0 := funext fun a => by fin_cases a <;> rfl

/-- The body's arithmetic at entry `(p, q)` of a block: the row vectors are read at column `q` of their one row, the
    rectifier's zero word is the number zero. -/
theorem pay_apply (x0 : Vec Ideal S5000x128 .f32) (x1 x2 x3 x4 : Vec Ideal S1x128 .f32) (p : Fin 5000) (q : Fin 128) :
    k19_pay1 x0 x1 x2 x3 x4 (ix2 p q)
      = max (x3 (ix2 0 q) * (x0 (ix2 p q) - x1 (ix2 0 q)) * Ideal.rsqrt (x2 (ix2 0 q) + Ideal.ofBits .f32 0x3727C5AC#32)
          + x4 (ix2 0 q)) 0 := by
  unfold k19_pay1
  simp only [shapeCast_self]
  rw [maximumf_apply, addf_apply, mulf_apply, mulf_apply, subf_apply, broadcast_apply,
    broadcastTo_1b_ab_apply, broadcastTo_1b_ab_apply, broadcastTo_1b_ab_apply, broadcastTo_1b_ab_apply]
  show max (x3 (ix2 0 q) * (x0 (ix2 p q) - x1 (ix2 0 q)) * Ideal.rsqrt (x2 (ix2 0 q) + Ideal.ofBits .f32 0x3727C5AC#32)
      + x4 (ix2 0 q)) (Ideal.ofBits .f32 0x00000000#32) = _
  rw [Ideal.ofBits_zero_f32]

/-- The same at any index of the block. -/
theorem pay_at (x0 : Vec Ideal S5000x128 .f32) (x1 x2 x3 x4 : Vec Ideal S1x128 .f32) (j : S5000x128.Idx) :
    k19_pay1 x0 x1 x2 x3 x4 j
      = max (x3 (ix2 0 (j 1)) * (x0 j - x1 (ix2 0 (j 1))) * Ideal.rsqrt (x2 (ix2 0 (j 1)) + Ideal.ofBits .f32 0x3727C5AC#32)
          + x4 (ix2 0 (j 1))) 0 := by
  obtain ⟨p, q, rfl⟩ : ∃ (p : Fin 5000) (q : Fin 128), j = ix2 p q := ⟨j 0, j 1, eq_ix2 j⟩
  exact pay_apply x0 x1 x2 x3 x4 p q

/-- The block indices, decided over the ten grid points: the matrix and the output move together down the rows, one
    block per point; the four row vectors stay at their one block. -/
theorem idx_facts : ∀ t : Fin cfg19.N,
    win19_5.index t (0 : Fin 2) = t.val ∧ win19_5.index t (1 : Fin 2) = 0
    ∧ win19_0.index t (0 : Fin 2) = t.val ∧ win19_0.index t (1 : Fin 2) = 0
    ∧ win19_1.index t (0 : Fin 2) = 0 ∧ win19_1.index t (1 : Fin 2) = 0
    ∧ win19_2.index t (0 : Fin 2) = 0 ∧ win19_2.index t (1 : Fin 2) = 0
    ∧ win19_3.index t (0 : Fin 2) = 0 ∧ win19_3.index t (1 : Fin 2) = 0
    ∧ win19_4.index t (0 : Fin 2) = 0 ∧ win19_4.index t (1 : Fin 2) = 0 :=
  (by decide +kernel : ∀ t : Fin grid19.N, _)

/-- THE BLOCK EQUATION at a symbolic grid point `t`: the body's arithmetic on the five blocks at `t` is block `t` of
    `normRelu` of the five arrays.  Entry `j` of the block of `z` and of the output sit at the same place of their
    arrays (row `5000·t + j 0`, column `j 1`), and entry `(0, j 1)` of each row vector's one block is entry `(0, j 1)`
    of the row vector. -/
theorem block_eq (t : Fin cfg19.N) (z : Mat 50000 128) (mean var γ β : Mat 1 128) :
    k19_pay1 (((cfg19.win 0).blk t).view.read (Elt Ideal) z) (((cfg19.win 1).blk t).view.read (Elt Ideal) mean)
        (((cfg19.win 2).blk t).view.read (Elt Ideal) var) (((cfg19.win 3).blk t).view.read (Elt Ideal) γ)
        (((cfg19.win 4).blk t).view.read (Elt Ideal) β)
      = ((cfg19.win 5).blk t).view.read (Elt Ideal) (normRelu z mean var γ β (Ideal.ofBits .f32 0x3727C5AC#32)) := by
  obtain ⟨e50, e51, e00, e01, e10, e11, e20, e21, e30, e31, e40, e41⟩ := idx_facts t
  funext j
  refine (pay_at _ _ _ _ _ j).trans ?_
  have h0 : ((cfg19.win 0).blk t).view.emb j = ((cfg19.win 5).blk t).view.emb j := by
    funext a; apply Fin.ext
    match a with
    | ⟨0, _⟩ => show win19_0.index t (0 : Fin 2) * 5000 + 1 * (j 0).val = win19_5.index t (0 : Fin 2) * 5000 + 1 * (j 0).val; rw [e00, e50]
    | ⟨1, _⟩ => show win19_0.index t (1 : Fin 2) * 128 + 1 * (j 1).val = win19_5.index t (1 : Fin 2) * 128 + 1 * (j 1).val; rw [e01, e51]
  have h1 : ((cfg19.win 1).blk t).view.emb (ix2 0 (j 1)) = (ix2 (0 : Fin 1) ((((cfg19.win 5).blk t).view.emb j) 1) : S1x128.Idx) := by
    funext a; apply Fin.ext
    match a with
    | ⟨0, _⟩ => show win19_1.index t (0 : Fin 2) * 1 + 1 * 0 = 0; rw [e10]
    | ⟨1, _⟩ => show win19_1.index t (1 : Fin 2) * 128 + 1 * (j 1).val = win19_5.index t (1 : Fin 2) * 128 + 1 * (j 1).val; rw [e11, e51]
  have h2 : ((cfg19.win 2).blk t).view.emb (ix2 0 (j 1)) = (ix2 (0 : Fin 1) ((((cfg19.win 5).blk t).view.emb j) 1) : S1x128.Idx) := by
    funext a; apply Fin.ext
    match a with
    | ⟨0, _⟩ => show win19_2.index t (0 : Fin 2) * 1 + 1 * 0 = 0; rw [e20]
    | ⟨1, _⟩ => show win19_2.index t (1 : Fin 2) * 128 + 1 * (j 1).val = win19_5.index t (1 : Fin 2) * 128 + 1 * (j 1).val; rw [e21, e51]
  have h3 : ((cfg19.win 3).blk t).view.emb (ix2 0 (j 1)) = (ix2 (0 : Fin 1) ((((cfg19.win 5).blk t).view.emb j) 1) : S1x128.Idx) := by
    funext a; apply Fin.ext
    match a with
    | ⟨0, _⟩ => show win19_3.index t (0 : Fin 2) * 1 + 1 * 0 = 0; rw [e30]
    | ⟨1, _⟩ => show win19_3.index t (1 : Fin 2) * 128 + 1 * (j 1).val = win19_5.index t (1 : Fin 2) * 128 + 1 * (j 1).val; rw [e31, e51]
  have h4 : ((cfg19.win 4).blk t).view.emb (ix2 0 (j 1)) = (ix2 (0 : Fin 1) ((((cfg19.win 5).blk t).view.emb j) 1) : S1x128.Idx) := by
    funext a; apply Fin.ext
    match a with
    | ⟨0, _⟩ => show win19_4.index t (0 : Fin 2) * 1 + 1 * 0 = 0; rw [e40]
    | ⟨1, _⟩ => show win19_4.index t (1 : Fin 2) * 128 + 1 * (j 1).val = win19_5.index t (1 : Fin 2) * 128 + 1 * (j 1).val; rw [e41, e51]
  show max (γ (((cfg19.win 3).blk t).view.emb (ix2 0 (j 1)))
        * (z (((cfg19.win 0).blk t).view.emb j) - mean (((cfg19.win 1).blk t).view.emb (ix2 0 (j 1))))
        * Ideal.rsqrt (var (((cfg19.win 2).blk t).view.emb (ix2 0 (j 1))) + Ideal.ofBits .f32 0x3727C5AC#32)
      + β (((cfg19.win 4).blk t).view.emb (ix2 0 (j 1)))) 0
    = normRelu z mean var γ β (Ideal.ofBits .f32 0x3727C5AC#32) (((cfg19.win 5).blk t).view.emb j)
  rw [h0, h1, h2, h3, h4]
  rfl

/-- An index of the output array is in point `t`'s block iff each coordinate is in the block's range on its axis. -/
theorem mem_blk (t : Fin cfg19.N) (i : S50000x128.Idx) :
    i ∈ ((cfg19.win 5).blk t).view.set ↔ ∀ a : Fin 2, win19_5.index t a * S5000x128.size a ≤ (i a).val
      ∧ (i a).val < win19_5.index t a * S5000x128.size a + S5000x128.size a := by
  show i ∈ ((View.whole main_v233).slice (win19_5.rect t)).set ↔ _
  rw [View.set_slice_whole, Rect.mem_set_unit]
  exact Iff.rfl

/-- THE COVER: row `r` of the output lies in the block of grid point `r / 5000`, which writes its block back. -/
theorem cover (i : S50000x128.Idx) :
    ∃ t : Fin cfg19.N, (cfg19.win 5).flush t = true ∧ i ∈ ((cfg19.win 5).blk t).view.set := by
  have hi0 : (i 0).val < 50000 := (i 0).isLt
  have hi1 : (i 1).val < 128 := (i 1).isLt
  have hN : cfg19.N = 10 := N_19
  have ht : (i 0).val / 5000 < cfg19.N := by rw [hN]; omega
  obtain ⟨e50, e51, -⟩ := idx_facts ⟨(i 0).val / 5000, ht⟩
  refine ⟨⟨(i 0).val / 5000, ht⟩, flush19_5 _, ?_⟩
  rw [mem_blk]
  intro a
  match a with
  | ⟨0, _⟩ =>
    show win19_5.index ⟨(i 0).val / 5000, ht⟩ (0 : Fin 2) * 5000 ≤ (i 0).val
      ∧ (i 0).val < win19_5.index ⟨(i 0).val / 5000, ht⟩ (0 : Fin 2) * 5000 + 5000
    rw [e50]
    show (i 0).val / 5000 * 5000 ≤ (i 0).val ∧ (i 0).val < (i 0).val / 5000 * 5000 + 5000
    omega
  | ⟨1, _⟩ =>
    show win19_5.index ⟨(i 0).val / 5000, ht⟩ (1 : Fin 2) * 128 ≤ (i 1).val
      ∧ (i 1).val < win19_5.index ⟨(i 0).val / 5000, ht⟩ (1 : Fin 2) * 128 + 128
    rw [e51]
    omega

/-- WHAT POINT `t` WRITES BACK is block `t` of `normRelu` of the five arrays as the region finds them: the body's one
    store fills the whole staging buffer with its arithmetic on the five blocks at `t`. -/
theorem flushed_eq (c : Dev nD) (t : Fin cfg19.N) :
    (dat19 (F := Ideal) V c).flushed 5 t = ((cfg19.win 5).blk t).view.read (Elt Ideal)
      (normRelu (n := 50000) (d := 128) (V c (Pipeline.arrRef spec19 0)) (V c (Pipeline.arrRef spec19 1))
        (V c (Pipeline.arrRef spec19 2)) (V c (Pipeline.arrRef spec19 3)) (V c (Pipeline.arrRef spec19 4))
        (Ideal.ofBits .f32 0x3727C5AC#32)) := by
  show (cfg19.win 5).cut (grid19.coords t) ((dat19 (F := Ideal) V c).after 5 t) = _
  rw [after19_5]
  unfold out19_5
  rw [View.canon_unit_zero hz]
  simp only [View.ld_unit_zero (S := S5000x128) hz, View.ld_unit_zero (S := S1x128) hz]
  unfold iblk19
  exact block_eq t (V c (Pipeline.arrRef spec19 0)) (V c (Pipeline.arrRef spec19 1)) (V c (Pipeline.arrRef spec19 2))
    (V c (Pipeline.arrRef spec19 3)) (V c (Pipeline.arrRef spec19 4))

/-- THE OUTPUT ARRAY after the region: `normRelu` of the five arrays as the region finds them. -/
theorem out (c : Dev nD) :
    (dat19 (F := Ideal) V c).arrAt 5 cfg19.N
      = normRelu (n := 50000) (d := 128) (V c (Pipeline.arrRef spec19 0)) (V c (Pipeline.arrRef spec19 1))
          (V c (Pipeline.arrRef spec19 2)) (V c (Pipeline.arrRef spec19 3)) (V c (Pipeline.arrRef spec19 4))
          (Ideal.ofBits .f32 0x3727C5AC#32) :=
  (dat19 (F := Ideal) V c).arrAt_eq_of_cover 5 _ (fun t _ => flushed_eq V c t) cover

end Cert.GIN.Reg19

end
-- ==== Proof.Wire4.lean ====
/-
  The wiring of layer 4: what each input window of regions 16–19 holds when its region is entered.

  Each window's array is either an argument as launched, an earlier region's output array, or the value of the host
  operations that precede the region applied to such arrays; every equation below names which, with the host
  operations written out as the composition the program applies.
-/
import proofs.«177653_j8959301779747_1_alg».proof.Proof.WireKeep
import proofs.«177653_j8959301779747_1_alg».proof.Proof.Wire0

set_option maxRecDepth 16384

noncomputable section

namespace Cert.GIN.K

open Cert.KernelIdeal Cert.KernelIdeal.Gen
open Idealize.ShloMosaic Idealize.ShloMosaic.TcCoe Idealize.ShloMosaic.Tactic
open Idealize.ShloMosaic.Pipeline (Dat Cfg Window cellOf)

variable {F : FTy → Type} [FloatOps F]

variable (m : (ℓ : Loc nD τ sig) → Buf (Elt F) ℓ) (ρ : Dev nD → PrngReg)

/-! ## Region 16 -/

/-- Region 16, input window 0 (the array `main_v187`) at the region's entry: region 15's output array 5, which the host operations in between do not write. -/
theorem wire_16_0 (c : Dev nD) : V33 m ρ c (Pipeline.arrRef spec16 0) = (dat15 (V31 m ρ) c).arrAt 5 cfg15.N :=
  (host16_keep m ρ c main_v187 (by decide)).trans (W32_arr m ρ c 5)

set_option maxHeartbeats 2000000 in
/-- Region 16, input window 1 (the array `main_v197`) at the region's entry: the value the host operations before the region compute for it, written out down to the launch contents of the arguments and the earlier regions' output arrays. -/
theorem wire_16_1 (c : Dev nD) : V33 m ρ c (Pipeline.arrRef spec16 1) =
    (Host.scatterAdd scatter_S50000x128_S800000x1_S800000x128_1_0_0_1 (((broadcastInDim S50000x128 ![] bcast_S_S50000x128 : (⟨S_, .f32⟩ : BufTy).Contents (Elt F) → (⟨S50000x128, .f32⟩ : BufTy).Contents (Elt F)) (constant S_ .f32 0x00000000#32 : (⟨S_, .f32⟩ : BufTy).Contents (Elt F))) : (⟨S50000x128, .f32⟩ : BufTy).Contents (Elt F)) (((broadcastInDim S800000x1 ![0] bcast_S800000_S800000x1_0 : (⟨S800000, .i32⟩ : BufTy).Contents (Elt F) → (⟨S800000x1, .i32⟩ : BufTy).Contents (Elt F)) (shapeCast S800000 (extractStridedSlice S1x800000 ![1, 0] ((m ((c : Thread nD τ).loc main_arg1)) : (⟨S2x800000, .i32⟩ : BufTy).Contents (Elt F)) slices_S2x800000_S1x800000_1_0) shapeCasts_S1x800000_S800000)) : (⟨S800000x1, .i32⟩ : BufTy).Contents (Elt F)) ((Host.gather gather_S50000x128_S800000x1_S800000x128_1_0_n_n_0_1_1128 (((dat15 (V31 m ρ) c).arrAt 5 cfg15.N) : (⟨S50000x128, .f32⟩ : BufTy).Contents (Elt F)) (((broadcastInDim S800000x1 ![0] bcast_S800000_S800000x1_0 : (⟨S800000, .i32⟩ : BufTy).Contents (Elt F) → (⟨S800000x1, .i32⟩ : BufTy).Contents (Elt F)) ((select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) ((cmpi .slt : (⟨S800000, .i32⟩ : BufTy).Contents (Elt F) → (⟨S800000, .i32⟩ : BufTy).Contents (Elt F) → (⟨S800000, .i1⟩ : BufTy).Contents (Elt F)) (shapeCast S800000 (extractStridedSlice S1x800000 ![0, 0] ((m ((c : Thread nD τ).loc main_arg1)) : (⟨S2x800000, .i32⟩ : BufTy).Contents (Elt F)) slices_S2x800000_S1x800000_0_0) shapeCasts_S1x800000_S800000) ((broadcastInDim S800000 ![] bcast_S_S800000 : (⟨S_, .i32⟩ : BufTy).Contents (Elt F) → (⟨S800000, .i32⟩ : BufTy).Contents (Elt F)) (constantI S_ 32 0#32 : (⟨S_, .i32⟩ : BufTy).Contents (Elt F)))) ((addi : (⟨S800000, .i32⟩ : BufTy).Contents (Elt F) → (⟨S800000, .i32⟩ : BufTy).Contents (Elt F) → (⟨S800000, .i32⟩ : BufTy).Contents (Elt F)) (shapeCast S800000 (extractStridedSlice S1x800000 ![0, 0] ((m ((c : Thread nD τ).loc main_arg1)) : (⟨S2x800000, .i32⟩ : BufTy).Contents (Elt F)) slices_S2x800000_S1x800000_0_0) shapeCasts_S1x800000_S800000) ((broadcastInDim S800000 ![] bcast_S_S800000 : (⟨S_, .i32⟩ : BufTy).Contents (Elt F) → (⟨S800000, .i32⟩ : BufTy).Contents (Elt F)) (constantI S_ 32 50000#32 : (⟨S_, .i32⟩ : BufTy).Contents (Elt F)))) (shapeCast S800000 (extractStridedSlice S1x800000 ![0, 0] ((m ((c : Thread nD τ).loc main_arg1)) : (⟨S2x800000, .i32⟩ : BufTy).Contents (Elt F)) slices_S2x800000_S1x800000_0_0) shapeCasts_S1x800000_S800000))) : (⟨S800000x1, .i32⟩ : BufTy).Contents (Elt F))) : (⟨S800000x128, .f32⟩ : BufTy).Contents (Elt F))) := by
  show StableHlo.after hostOps16 (W32 m ρ c) (Proc.devRef .tc main_v197) = _
  after_results
  rw [at_v3_32 m ρ c, wire_v3 m ρ c, (W32_arr m ρ c 5 : W32 m ρ c (Proc.devRef .tc main_v187) = _), at_v1_32 m ρ c, wire_v1 m ρ c]
  all_goals rfl

set_option maxHeartbeats 2000000 in
/-- Region 16, input window 2 (the array `main_v201`) at the region's entry: the value the host operations before the region compute for it, written out down to the launch contents of the arguments and the earlier regions' output arrays. -/
theorem wire_16_2 (c : Dev nD) : V33 m ρ c (Pipeline.arrRef spec16 2) =
    (shapeCast S1x1 ((addf : (⟨S_, .f32⟩ : BufTy).Contents (Elt F) → (⟨S_, .f32⟩ : BufTy).Contents (Elt F) → (⟨S_, .f32⟩ : BufTy).Contents (Elt F)) (constant S_ .f32 0x3F800000#32 : (⟨S_, .f32⟩ : BufTy).Contents (Elt F)) (shapeCast S_ (extractStridedSlice S1 ![4] ((m ((c : Thread nD τ).loc main_arg11)) : (⟨S7, .f32⟩ : BufTy).Contents (Elt F)) slices_S7_S1_4) shapeCasts_S1_S_)) shapeCasts_S_S1x1) := by
  show StableHlo.after hostOps16 (W32 m ρ c) (Proc.devRef .tc main_v201) = _
  after_results
  rw [at_arg11_32 m ρ c]
  all_goals rfl

set_option maxHeartbeats 2000000 in
/-- Region 16, input window 3 (the array `main_v203`) at the region's entry: the value the host operations before the region compute for it, written out down to the launch contents of the arguments and the earlier regions' output arrays. -/
theorem wire_16_3 (c : Dev nD) : V33 m ρ c (Pipeline.arrRef spec16 3) =
    (shapeCast S128x64 (extractStridedSlice S1x128x64 ![4, 0, 0] ((m ((c : Thread nD τ).loc main_arg4)) : (⟨S7x128x64, .f32⟩ : BufTy).Contents (Elt F)) slices_S7x128x64_S1x128x64_4_0_0) shapeCasts_S1x128x64_S128x64) := by
  show StableHlo.after hostOps16 (W32 m ρ c) (Proc.devRef .tc main_v203) = _
  after_results
  rw [at_arg4_32 m ρ c]
  all_goals rfl

/-! ## Region 17 -/

/-- Region 17, input window 0 (the array `main_v204_0`) at the region's entry: region 16's output array 4, which the host operations in between do not write. -/
theorem wire_17_0 (c : Dev nD) : V35 m ρ c (Pipeline.arrRef spec17 0) = (dat16 (V33 m ρ) c).arrAt 4 cfg16.N :=
  (host17_keep m ρ c main_v204_0 (by decide)).trans (W34_arr m ρ c 4)

set_option maxHeartbeats 2000000 in
/-- Region 17, input window 1 (the array `main_v206`) at the region's entry: the value the host operations before the region compute for it, written out down to the launch contents of the arguments and the earlier regions' output arrays. -/
theorem wire_17_1 (c : Dev nD) : V35 m ρ c (Pipeline.arrRef spec17 1) =
    ((Host.divf : (⟨S1x64, .f32⟩ : BufTy).Contents (Elt F) → (⟨S1x64, .f32⟩ : BufTy).Contents (Elt F) → (⟨S1x64, .f32⟩ : BufTy).Contents (Elt F)) ((dat16 (V33 m ρ) c).arrAt 5 cfg16.N) ((broadcastInDim S1x64 ![] bcast_S_S1x64 : (⟨S_, .f32⟩ : BufTy).Contents (Elt F) → (⟨S1x64, .f32⟩ : BufTy).Contents (Elt F)) (constant S_ .f32 0x47435000#32 : (⟨S_, .f32⟩ : BufTy).Contents (Elt F)))) := by
  show StableHlo.after hostOps17 (W34 m ρ c) (Proc.devRef .tc main_v206) = _
  after_results
  rw [(W34_arr m ρ c 5 : W34 m ρ c (Proc.devRef .tc main_v204_1) = _)]
  all_goals rfl

set_option maxHeartbeats 2000000 in
/-- Region 17, input window 2 (the array `main_v210`) at the region's entry: the value the host operations before the region compute for it, written out down to the launch contents of the arguments and the earlier regions' output arrays. -/
theorem wire_17_2 (c : Dev nD) : V35 m ρ c (Pipeline.arrRef spec17 2) =
    ((subf : (⟨S1x64, .f32⟩ : BufTy).Contents (Elt F) → (⟨S1x64, .f32⟩ : BufTy).Contents (Elt F) → (⟨S1x64, .f32⟩ : BufTy).Contents (Elt F)) ((Host.divf : (⟨S1x64, .f32⟩ : BufTy).Contents (Elt F) → (⟨S1x64, .f32⟩ : BufTy).Contents (Elt F) → (⟨S1x64, .f32⟩ : BufTy).Contents (Elt F)) ((dat16 (V33 m ρ) c).arrAt 6 cfg16.N) ((broadcastInDim S1x64 ![] bcast_S_S1x64 : (⟨S_, .f32⟩ : BufTy).Contents (Elt F) → (⟨S1x64, .f32⟩ : BufTy).Contents (Elt F)) (constant S_ .f32 0x47435000#32 : (⟨S_, .f32⟩ : BufTy).Contents (Elt F)))) ((mulf : (⟨S1x64, .f32⟩ : BufTy).Contents (Elt F) → (⟨S1x64, .f32⟩ : BufTy).Contents (Elt F) → (⟨S1x64, .f32⟩ : BufTy).Contents (Elt F)) ((Host.divf : (⟨S1x64, .f32⟩ : BufTy).Contents (Elt F) → (⟨S1x64, .f32⟩ : BufTy).Contents (Elt F) → (⟨S1x64, .f32⟩ : BufTy).Contents (Elt F)) ((dat16 (V33 m ρ) c).arrAt 5 cfg16.N) ((broadcastInDim S1x64 ![] bcast_S_S1x64 : (⟨S_, .f32⟩ : BufTy).Contents (Elt F) → (⟨S1x64, .f32⟩ : BufTy).Contents (Elt F)) (constant S_ .f32 0x47435000#32 : (⟨S_, .f32⟩ : BufTy).Contents (Elt F)))) ((Host.divf : (⟨S1x64, .f32⟩ : BufTy).Contents (Elt F) → (⟨S1x64, .f32⟩ : BufTy).Contents (Elt F) → (⟨S1x64, .f32⟩ : BufTy).Contents (Elt F)) ((dat16 (V33 m ρ) c).arrAt 5 cfg16.N) ((broadcastInDim S1x64 ![] bcast_S_S1x64 : (⟨S_, .f32⟩ : BufTy).Contents (Elt F) → (⟨S1x64, .f32⟩ : BufTy).Contents (Elt F)) (constant S_ .f32 0x47435000#32 : (⟨S_, .f32⟩ : BufTy).Contents (Elt F)))))) := by
  show StableHlo.after hostOps17 (W34 m ρ c) (Proc.devRef .tc main_v210) = _
  after_results
  rw [(W34_arr m ρ c 6 : W34 m ρ c (Proc.devRef .tc main_v204_2) = _), (W34_arr m ρ c 5 : W34 m ρ c (Proc.devRef .tc main_v204_1) = _)]
  all_goals rfl

set_option maxHeartbeats 2000000 in
/-- Region 17, input window 3 (the array `main_v213`) at the region's entry: the value the host operations before the region compute for it, written out down to the launch contents of the arguments and the earlier regions' output arrays. -/
theorem wire_17_3 (c : Dev nD) : V35 m ρ c (Pipeline.arrRef spec17 3) =
    (shapeCast S1x64 (shapeCast S64 (extractStridedSlice S1x64 ![4, 0] ((m ((c : Thread nD τ).loc main_arg5)) : (⟨S7x64, .f32⟩ : BufTy).Contents (Elt F)) slices_S7x64_S1x64_4_0) shapeCasts_S1x64_S64) shapeCasts_S64_S1x64) := by
  show StableHlo.after hostOps17 (W34 m ρ c) (Proc.devRef .tc main_v213) = _
  after_results
  rw [at_arg5_34 m ρ c]
  all_goals rfl

set_option maxHeartbeats 2000000 in
/-- Region 17, input window 4 (the array `main_v216`) at the region's entry: the value the host operations before the region compute for it, written out down to the launch contents of the arguments and the earlier regions' output arrays. -/
theorem wire_17_4 (c : Dev nD) : V35 m ρ c (Pipeline.arrRef spec17 4) =
    (shapeCast S1x64 (shapeCast S64 (extractStridedSlice S1x64 ![4, 0] ((m ((c : Thread nD τ).loc main_arg6)) : (⟨S7x64, .f32⟩ : BufTy).Contents (Elt F)) slices_S7x64_S1x64_4_0) shapeCasts_S1x64_S64) shapeCasts_S64_S1x64) := by
  show StableHlo.after hostOps17 (W34 m ρ c) (Proc.devRef .tc main_v216) = _
  after_results
  rw [at_arg6_34 m ρ c]
  all_goals rfl

/-! ## Region 18 -/

/-- Region 18, input window 0 (the array `main_v217`) at the region's entry: region 17's output array 5, which the host operations in between do not write. -/
theorem wire_18_0 (c : Dev nD) : V37 m ρ c (Pipeline.arrRef spec18 0) = (dat17 (V35 m ρ) c).arrAt 5 cfg17.N :=
  (host18_keep m ρ c main_v217 (by decide)).trans (W36_arr m ρ c 5)

set_option maxHeartbeats 2000000 in
/-- Region 18, input window 1 (the array `main_v219`) at the region's entry: the value the host operations before the region compute for it, written out down to the launch contents of the arguments and the earlier regions' output arrays. -/
theorem wire_18_1 (c : Dev nD) : V37 m ρ c (Pipeline.arrRef spec18 1) =
    (shapeCast S64x128 (extractStridedSlice S1x64x128 ![4, 0, 0] ((m ((c : Thread nD τ).loc main_arg7)) : (⟨S6x64x128, .f32⟩ : BufTy).Contents (Elt F)) slices_S6x64x128_S1x64x128_4_0_0) shapeCasts_S1x64x128_S64x128) := by
  show StableHlo.after hostOps18 (W36 m ρ c) (Proc.devRef .tc main_v219) = _
  after_results
  rw [at_arg7_36 m ρ c]
  all_goals rfl

/-! ## Region 19 -/

/-- Region 19, input window 0 (the array `main_v220_0`) at the region's entry: region 18's output array 2, which the host operations in between do not write. -/
theorem wire_19_0 (c : Dev nD) : V39 m ρ c (Pipeline.arrRef spec19 0) = (dat18 (V37 m ρ) c).arrAt 2 cfg18.N :=
  (host19_keep m ρ c main_v220_0 (by decide)).trans (W38_arr m ρ c 2)

set_option maxHeartbeats 2000000 in
/-- Region 19, input window 1 (the array `main_v222`) at the region's entry: the value the host operations before the region compute for it, written out down to the launch contents of the arguments and the earlier regions' output arrays. -/
theorem wire_19_1 (c : Dev nD) : V39 m ρ c (Pipeline.arrRef spec19 1) =
    ((Host.divf : (⟨S1x128, .f32⟩ : BufTy).Contents (Elt F) → (⟨S1x128, .f32⟩ : BufTy).Contents (Elt F) → (⟨S1x128, .f32⟩ : BufTy).Contents (Elt F)) ((dat18 (V37 m ρ) c).arrAt 3 cfg18.N) ((broadcastInDim S1x128 ![] bcast_S_S1x128 : (⟨S_, .f32⟩ : BufTy).Contents (Elt F) → (⟨S1x128, .f32⟩ : BufTy).Contents (Elt F)) (constant S_ .f32 0x47435000#32 : (⟨S_, .f32⟩ : BufTy).Contents (Elt F)))) := by
  show StableHlo.after hostOps19 (W38 m ρ c) (Proc.devRef .tc main_v222) = _
  after_results
  rw [(W38_arr m ρ c 3 : W38 m ρ c (Proc.devRef .tc main_v220_1) = _)]
  all_goals rfl

set_option maxHeartbeats 2000000 in
/-- Region 19, input window 2 (the array `main_v226`) at the region's entry: the value the host operations before the region compute for it, written out down to the launch contents of the arguments and the earlier regions' output arrays. -/
theorem wire_19_2 (c : Dev nD) : V39 m ρ c (Pipeline.arrRef spec19 2) =
    ((subf : (⟨S1x128, .f32⟩ : BufTy).Contents (Elt F) → (⟨S1x128, .f32⟩ : BufTy).Contents (Elt F) → (⟨S1x128, .f32⟩ : BufTy).Contents (Elt F)) ((Host.divf : (⟨S1x128, .f32⟩ : BufTy).Contents (Elt F) → (⟨S1x128, .f32⟩ : BufTy).Contents (Elt F) → (⟨S1x128, .f32⟩ : BufTy).Contents (Elt F)) ((dat18 (V37 m ρ) c).arrAt 4 cfg18.N) ((broadcastInDim S1x128 ![] bcast_S_S1x128 : (⟨S_, .f32⟩ : BufTy).Contents (Elt F) → (⟨S1x128, .f32⟩ : BufTy).Contents (Elt F)) (constant S_ .f32 0x47435000#32 : (⟨S_, .f32⟩ : BufTy).Contents (Elt F)))) ((mulf : (⟨S1x128, .f32⟩ : BufTy).Contents (Elt F) → (⟨S1x128, .f32⟩ : BufTy).Contents (Elt F) → (⟨S1x128, .f32⟩ : BufTy).Contents (Elt F)) ((Host.divf : (⟨S1x128, .f32⟩ : BufTy).Contents (Elt F) → (⟨S1x128, .f32⟩ : BufTy).Contents (Elt F) → (⟨S1x128, .f32⟩ : BufTy).Contents (Elt F)) ((dat18 (V37 m ρ) c).arrAt 3 cfg18.N) ((broadcastInDim S1x128 ![] bcast_S_S1x128 : (⟨S_, .f32⟩ : BufTy).Contents (Elt F) → (⟨S1x128, .f32⟩ : BufTy).Contents (Elt F)) (constant S_ .f32 0x47435000#32 : (⟨S_, .f32⟩ : BufTy).Contents (Elt F)))) ((Host.divf : (⟨S1x128, .f32⟩ : BufTy).Contents (Elt F) → (⟨S1x128, .f32⟩ : BufTy).Contents (Elt F) → (⟨S1x128, .f32⟩ : BufTy).Contents (Elt F)) ((dat18 (V37 m ρ) c).arrAt 3 cfg18.N) ((broadcastInDim S1x128 ![] bcast_S_S1x128 : (⟨S_, .f32⟩ : BufTy).Contents (Elt F) → (⟨S1x128, .f32⟩ : BufTy).Contents (Elt F)) (constant S_ .f32 0x47435000#32 : (⟨S_, .f32⟩ : BufTy).Contents (Elt F)))))) := by
  show StableHlo.after hostOps19 (W38 m ρ c) (Proc.devRef .tc main_v226) = _
  after_results
  rw [(W38_arr m ρ c 4 : W38 m ρ c (Proc.devRef .tc main_v220_2) = _), (W38_arr m ρ c 3 : W38 m ρ c (Proc.devRef .tc main_v220_1) = _)]
  all_goals rfl

set_option maxHeartbeats 2000000 in
/-- Region 19, input window 3 (the array `main_v229`) at the region's entry: the value the host operations before the region compute for it, written out down to the launch contents of the arguments and the earlier regions' output arrays. -/
theorem wire_19_3 (c : Dev nD) : V39 m ρ c (Pipeline.arrRef spec19 3) =
    (shapeCast S1x128 (shapeCast S128 (extractStridedSlice S1x128 ![4, 0] ((m ((c : Thread nD τ).loc main_arg8)) : (⟨S6x128, .f32⟩ : BufTy).Contents (Elt F)) slices_S6x128_S1x128_4_0) shapeCasts_S1x128_S128) shapeCasts_S128_S1x128) := by
  show StableHlo.after hostOps19 (W38 m ρ c) (Proc.devRef .tc main_v229) = _
  after_results
  rw [at_arg8_38 m ρ c]
  all_goals rfl

set_option maxHeartbeats 2000000 in
/-- Region 19, input window 4 (the array `main_v232`) at the region's entry: the value the host operations before the region compute for it, written out down to the launch contents of the arguments and the earlier regions' output arrays. -/
theorem wire_19_4 (c : Dev nD) : V39 m ρ c (Pipeline.arrRef spec19 4) =
    (shapeCast S1x128 (shapeCast S128 (extractStridedSlice S1x128 ![4, 0] ((m ((c : Thread nD τ).loc main_arg9)) : (⟨S6x128, .f32⟩ : BufTy).Contents (Elt F)) slices_S6x128_S1x128_4_0) shapeCasts_S1x128_S128) shapeCasts_S128_S1x128) := by
  show StableHlo.after hostOps19 (W38 m ρ c) (Proc.devRef .tc main_v232) = _
  after_results
  rw [at_arg9_38 m ρ c]
  all_goals rfl

end Cert.GIN.K

end
-- ==== Proof.KLayer4.lean ====
/-
  Layer 4 of the kernel program at the level of the specification: what its regions leave, as functions of what
  they find.  A normalisation region's output is the batch normalisation of the product region's first output,
  from the column means and uncentred variances the host arithmetic forms out of that region's two statistics rows.
-/
import proofs.«177653_j8959301779747_1_alg».proof.Proof.Reg16
import proofs.«177653_j8959301779747_1_alg».proof.Proof.Reg17
import proofs.«177653_j8959301779747_1_alg».proof.Proof.Reg18
import proofs.«177653_j8959301779747_1_alg».proof.Proof.Reg19
import proofs.«177653_j8959301779747_1_alg».proof.Proof.Wire4
import proofs.«177653_j8959301779747_1_alg».proof.Proof.KGlue

set_option maxRecDepth 16384

noncomputable section

namespace Cert.GIN.K

open Cert.KernelIdeal Cert.KernelIdeal.Gen
open Idealize.ShloMosaic Idealize.ShloMosaic.TcCoe Cert.GIN

variable (m : (ℓ : Loc nD τ sig) → Buf (Elt Ideal) ℓ) (ρ : Dev nD → PrngReg)

set_option maxHeartbeats 4000000 in
/-- The first normalisation of layer 4: batch normalisation (uncentred statistics) of `(sc · x + agg) · w1`. -/
theorem half_L4 (c : Dev nD) : (dat17 (V35 m ρ) c).arrAt 5 cfg17.N
    = bnU (mm (comb (V33 m ρ c (Pipeline.arrRef spec16 2)) (V33 m ρ c (Pipeline.arrRef spec16 0)) (V33 m ρ c (Pipeline.arrRef spec16 1))) (V33 m ρ c (Pipeline.arrRef spec16 3)))
        (V35 m ρ c (Pipeline.arrRef spec17 3)) (V35 m ρ c (Pipeline.arrRef spec17 4)) Nlit (Ideal.ofBits .f32 0x3727C5AC#32) := by
  rw [Reg17.out (V35 m ρ) c, wire_17_0 m ρ c, wire_17_1 m ρ c, wire_17_2 m ρ c]
  rw [varU_of64 _ _ _ (Reg16.s (V33 m ρ) c) (Reg16.ss (V33 m ρ) c), meanU_of64 _ _ (Reg16.s (V33 m ρ) c),
    Reg16.z (V33 m ρ) c]
  rfl

set_option maxHeartbeats 4000000 in
/-- The second normalisation of layer 4: batch normalisation of `h1 · w2`, `h1` the first one's result. -/
theorem full_L4 (c : Dev nD) : (dat19 (V39 m ρ) c).arrAt 5 cfg19.N
    = bnU (mm ((dat17 (V35 m ρ) c).arrAt 5 cfg17.N) (V37 m ρ c (Pipeline.arrRef spec18 1)))
        (V39 m ρ c (Pipeline.arrRef spec19 3)) (V39 m ρ c (Pipeline.arrRef spec19 4)) Nlit (Ideal.ofBits .f32 0x3727C5AC#32) := by
  have hz := Reg18.z (V37 m ρ) c
  have hs := Reg18.s (V37 m ρ) c
  have hss := Reg18.ss (V37 m ρ) c
  rw [wire_18_0 m ρ c] at hz hs hss
  rw [Reg19.out (V39 m ρ) c, wire_19_0 m ρ c, wire_19_1 m ρ c, wire_19_2 m ρ c]
  rw [varU_of128 _ _ _ hs hss, meanU_of128 _ _ hs, hz]
  rfl

end Cert.GIN.K

end
-- ==== Proof.Assemble4.lean ====
/-
  Layer 4 of the first program is layer 4 of the second.

  The layer's output is the uncentred-statistics block of its input, its operands being what the region windows hold
  at entry: the input itself, its neighbour sum along the edge list, the 1×1 cast of `1 + e`, and slices of the
  parameter arrays (the vectors read as one-row matrices).  With the input and the parameters real this is the second
  program's block of the same input and parameters, and real again.
-/
import proofs.«177653_j8959301779747_1_alg».proof.Proof.KLayer4
import proofs.«177653_j8959301779747_1_alg».proof.Proof.AssembleBridge
import proofs.«177653_j8959301779747_1_alg».proof.Proof.RefValueDefs
import proofs.«177653_j8959301779747_1_alg».proof.Proof.Gen.ReferenceIdeal

set_option maxRecDepth 16384

noncomputable section

namespace Cert.GIN.K

open Cert.KernelIdeal Cert.KernelIdeal.Gen
open Idealize.ShloMosaic Idealize.ShloMosaic.TcCoe Cert.GIN

variable (m : (ℓ : Loc nD τ sig) → Buf (Elt Ideal) ℓ) (ρ : Dev nD → PrngReg)

set_option maxHeartbeats 2000000 in
/-- Layer 4: from the layer's input agreeing with the second program's to its output agreeing, and real. -/
theorem step_4 (c : Dev nD)
    (reals : IsReal ((m ((c : Thread nD τ).loc main_arg0)) : FVec Ideal Cert.KernelIdeal.S50000x128 .f32)
      ∧ IsReal ((m ((c : Thread nD τ).loc main_arg4)) : FVec Ideal Cert.KernelIdeal.S7x128x64 .f32)
      ∧ IsReal ((m ((c : Thread nD τ).loc main_arg5)) : FVec Ideal Cert.KernelIdeal.S7x64 .f32)
      ∧ IsReal ((m ((c : Thread nD τ).loc main_arg6)) : FVec Ideal Cert.KernelIdeal.S7x64 .f32)
      ∧ IsReal ((m ((c : Thread nD τ).loc main_arg7)) : FVec Ideal Cert.KernelIdeal.S6x64x128 .f32)
      ∧ IsReal ((m ((c : Thread nD τ).loc main_arg8)) : FVec Ideal Cert.KernelIdeal.S6x128 .f32)
      ∧ IsReal ((m ((c : Thread nD τ).loc main_arg9)) : FVec Ideal Cert.KernelIdeal.S6x128 .f32)
      ∧ IsReal ((m ((c : Thread nD τ).loc main_arg10)) : FVec Ideal Cert.KernelIdeal.S64x2 .f32)
      ∧ IsReal ((m ((c : Thread nD τ).loc main_arg11)) : FVec Ideal Cert.KernelIdeal.S7 .f32)
      ∧ IsReal ((m ((c : Thread nD τ).loc main_arg2)) : FVec Ideal Cert.KernelIdeal.S800000 .f32))
    (hx : ((dat15 (V31 m ρ) c).arrAt 5 cfg15.N) = (Ref.X4 (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg11))))
    (hr : IsReal (Ref.X4 (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg11)))) :
    ((dat19 (V39 m ρ) c).arrAt 5 cfg19.N) = (Ref.X5 (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg11)))
      ∧ IsReal (Ref.X5 (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg11))) := by
  obtain ⟨r0, r4, r5, r6, r7, r8, r9, _, r11, _⟩ := reals
  have rx : IsReal ((dat15 (V31 m ρ) c).arrAt 5 cfg15.N) := by rw [hx]; exact hr
  have hsc : ((V33 m ρ c (Pipeline.arrRef spec16 2)) : Mat 1 1) = shapeCast Cert.KernelIdeal.S1x1
      (addf (F := Ideal) (constant (F := Ideal) Cert.KernelIdeal.S_ .f32 0x3F800000#32) (Ref.e4 (m ((c : Thread nD τ).loc main_arg11))))
      Cert.KernelIdeal.Facts₀.shapeCasts_S_S1x1 := wire_16_2 m ρ c
  have hag : ((V33 m ρ c (Pipeline.arrRef spec16 1)) : Mat 50000 128) = Ref.agg ((dat15 (V31 m ρ) c).arrAt 5 cfg15.N) (Ref.srcOf (m ((c : Thread nD τ).loc main_arg1))) (Ref.dstOf (m ((c : Thread nD τ).loc main_arg1))) :=
    (wire_16_1 m ρ c).trans rfl
  have hγ1 : ((V35 m ρ c (Pipeline.arrRef spec17 3)) : Mat 1 64) = rowV (Ref.g1_4 (m ((c : Thread nD τ).loc main_arg5))) := (wire_17_3 m ρ c).trans (row_cast64 _)
  have hβ1 : ((V35 m ρ c (Pipeline.arrRef spec17 4)) : Mat 1 64) = rowV (Ref.b1_4 (m ((c : Thread nD τ).loc main_arg6))) := (wire_17_4 m ρ c).trans (row_cast64 _)
  have hγ2 : ((V39 m ρ c (Pipeline.arrRef spec19 3)) : Mat 1 128) = rowV (Ref.g2_4 (m ((c : Thread nD τ).loc main_arg8))) := (wire_19_3 m ρ c).trans (row_cast128 _)
  have hβ2 : ((V39 m ρ c (Pipeline.arrRef spec19 4)) : Mat 1 128) = rowV (Ref.b2_4 (m ((c : Thread nD τ).loc main_arg9))) := (wire_19_4 m ρ c).trans (row_cast128 _)
  have re : IsReal (Ref.e4 (m ((c : Thread nD τ).loc main_arg11))) := isReal_cut _ _ _ _ r11
  have rw1 : IsReal (Ref.w1_4 (m ((c : Thread nD τ).loc main_arg4))) := isReal_cut _ _ _ _ r4
  have rg1 : IsReal (Ref.g1_4 (m ((c : Thread nD τ).loc main_arg5))) := isReal_cut _ _ _ _ r5
  have rb1 : IsReal (Ref.b1_4 (m ((c : Thread nD τ).loc main_arg6))) := isReal_cut _ _ _ _ r6
  have rw2 : IsReal (Ref.w2_4 (m ((c : Thread nD τ).loc main_arg7))) := isReal_cut _ _ _ _ r7
  have rg2 : IsReal (Ref.g2_4 (m ((c : Thread nD τ).loc main_arg8))) := isReal_cut _ _ _ _ r8
  have rb2 : IsReal (Ref.b2_4 (m ((c : Thread nD τ).loc main_arg9))) := isReal_cut _ _ _ _ r9
  have key := block_bridge _ _ _ _ _ _ _ _ _ _ _ _ _ _ _ _ hsc hag hγ1 hβ1 hγ2 hβ2 re rx rw1 rg1 rb1 rw2 rg2 rb2
  have h1 : ((dat19 (V39 m ρ) c).arrAt 5 cfg19.N) = Ref.block ((dat15 (V31 m ρ) c).arrAt 5 cfg15.N) (Ref.srcOf (m ((c : Thread nD τ).loc main_arg1))) (Ref.dstOf (m ((c : Thread nD τ).loc main_arg1))) (Ref.e4 (m ((c : Thread nD τ).loc main_arg11)))
        (Ref.w1_4 (m ((c : Thread nD τ).loc main_arg4))) (Ref.g1_4 (m ((c : Thread nD τ).loc main_arg5))) (Ref.b1_4 (m ((c : Thread nD τ).loc main_arg6)))
        (Ref.w2_4 (m ((c : Thread nD τ).loc main_arg7))) (Ref.g2_4 (m ((c : Thread nD τ).loc main_arg8))) (Ref.b2_4 (m ((c : Thread nD τ).loc main_arg9))) := by
    rw [full_L4 m ρ c, half_L4 m ρ c, wire_16_0 m ρ c, wire_16_3 m ρ c, wire_18_1 m ρ c]
    exact key.1
  have h2 : Ref.block ((dat15 (V31 m ρ) c).arrAt 5 cfg15.N) (Ref.srcOf (m ((c : Thread nD τ).loc main_arg1))) (Ref.dstOf (m ((c : Thread nD τ).loc main_arg1))) (Ref.e4 (m ((c : Thread nD τ).loc main_arg11)))
        (Ref.w1_4 (m ((c : Thread nD τ).loc main_arg4))) (Ref.g1_4 (m ((c : Thread nD τ).loc main_arg5))) (Ref.b1_4 (m ((c : Thread nD τ).loc main_arg6)))
        (Ref.w2_4 (m ((c : Thread nD τ).loc main_arg7))) (Ref.g2_4 (m ((c : Thread nD τ).loc main_arg8))) (Ref.b2_4 (m ((c : Thread nD τ).loc main_arg9))) = (Ref.X5 (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg11))) :=
    congrArg (fun X => Ref.block X (Ref.srcOf (m ((c : Thread nD τ).loc main_arg1))) (Ref.dstOf (m ((c : Thread nD τ).loc main_arg1))) (Ref.e4 (m ((c : Thread nD τ).loc main_arg11)))
        (Ref.w1_4 (m ((c : Thread nD τ).loc main_arg4))) (Ref.g1_4 (m ((c : Thread nD τ).loc main_arg5))) (Ref.b1_4 (m ((c : Thread nD τ).loc main_arg6)))
        (Ref.w2_4 (m ((c : Thread nD τ).loc main_arg7))) (Ref.g2_4 (m ((c : Thread nD τ).loc main_arg8))) (Ref.b2_4 (m ((c : Thread nD τ).loc main_arg9)))) hx
  refine ⟨h1.trans h2, ?_⟩
  rw [← h2]
  exact key.2

end Cert.GIN.K

end
-- ==== Proof.Reg20Pieces.lean ====
/-
  What one run of the combine–product–statistics body leaves in its three outputs, as values of what it loaded.

  The body loads the scale, the tile of node features, the tile of neighbour sums and the weights, stores the product
  tile, and stores each statistics row as the row it loaded plus the tile's column sums.  At the first grid point it
  first stores a zero row into each statistics buffer, and the row it then loads is that zero row; at every other point
  the row it loads is what the point before left.  Each output buffer is covered by whole-buffer stores, so its contents
  after the body are the last store's value.
-/
import proofs.«177653_j8959301779747_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.GIN.Reg20

open Cert.KernelIdeal Cert.KernelIdeal.Gen

variable {F : FTy → Type} [FloatOps F]

theorem hz : (![0, 0] : Fin 2 → Nat) = fun _ => 0 := funext fun a => by fin_cases a <;> rfl

/-- A later point leaves the product tile of its blocks. -/
theorem out_B_4 (c : Dev nD) (i : grid20.Coords) (a1 : Memref sig .tc .vmem S5000x128 .f32) (h1 : a1.IsWhole) (a2 : Memref sig .tc .vmem S5000x128 .f32) (h2 : a2.IsWhole) (a3 : Memref sig .tc .vmem S1x1 .f32) (h3 : a3.IsWhole) (a4 : Memref sig .tc .vmem S128x64 .f32) (h4 : a4.IsWhole) (a5 : Memref sig .tc .vmem S5000x64 .f32) (h5 : a5.IsWhole) (a6 : Memref sig .tc .vmem S1x64 .f32) (h6 : a6.IsWhole) (a7 : Memref sig .tc .vmem S1x64 .f32) (h7 : a7.IsWhole) (hc : ¬cond20_0 i) (x0 x1 : Vec F S5000x128 .f32) (x2 : Vec F S1x1 .f32) (x3 : Vec F S128x64 .f32) (xo5 xo6 : Vec F S1x64 .f32) :
    out20_B_4 c i a1 h1 a2 h2 a3 h3 a4 h4 a5 h5 a6 h6 a7 h7 hc x0 x1 x2 x3 xo5 xo6 = k20_pay3 x2 x0 x1 x3 := by
  unfold out20_B_4
  rw [View.read_writes_eq_canon _ _ _ (cover20_B_4 c i a1 h1 a2 h2 a3 h3 a4 h4 a5 h5 a6 h6 a7 h7 hc x0 x1 x2 x3 xo5 xo6)]
  unfold kernelRun20_B
  dsimp only
  sl_unfold_words
  rw [View.canon_unit_zero hz]
  simp only [View.readAt_eq_ld, h1.read_unread, h2.read_unread, h3.read_unread, h4.read_unread, h6.read_unread, h7.read_unread,
    View.ld_unit_zero (S := S5000x128) hz, View.ld_unit_zero (S := S1x1) hz, View.ld_unit_zero (S := S128x64) hz,
    View.ld_unit_zero (S := S1x64) hz]

/-- A later point leaves the column-sum row it found plus its tile's column sums. -/
theorem out_B_5 (c : Dev nD) (i : grid20.Coords) (a1 : Memref sig .tc .vmem S5000x128 .f32) (h1 : a1.IsWhole) (a2 : Memref sig .tc .vmem S5000x128 .f32) (h2 : a2.IsWhole) (a3 : Memref sig .tc .vmem S1x1 .f32) (h3 : a3.IsWhole) (a4 : Memref sig .tc .vmem S128x64 .f32) (h4 : a4.IsWhole) (a5 : Memref sig .tc .vmem S5000x64 .f32) (h5 : a5.IsWhole) (a6 : Memref sig .tc .vmem S1x64 .f32) (h6 : a6.IsWhole) (a7 : Memref sig .tc .vmem S1x64 .f32) (h7 : a7.IsWhole) (hc : ¬cond20_0 i) (x0 x1 : Vec F S5000x128 .f32) (x2 : Vec F S1x1 .f32) (x3 : Vec F S128x64 .f32) (xo5 xo6 : Vec F S1x64 .f32) :
    out20_B_5 c i a1 h1 a2 h2 a3 h3 a4 h4 a5 h5 a6 h6 a7 h7 hc x0 x1 x2 x3 xo5 xo6 = k20_pay4 x2 x0 x1 x3 xo5 := by
  unfold out20_B_5
  rw [View.read_writes_eq_canon _ _ _ (cover20_B_5 c i a1 h1 a2 h2 a3 h3 a4 h4 a5 h5 a6 h6 a7 h7 hc x0 x1 x2 x3 xo5 xo6)]
  unfold kernelRun20_B
  dsimp only
  sl_unfold_words
  rw [View.canon_unit_zero hz]
  simp only [View.readAt_eq_ld, h1.read_unread, h2.read_unread, h3.read_unread, h4.read_unread, h6.read_unread, h7.read_unread,
    View.ld_unit_zero (S := S5000x128) hz, View.ld_unit_zero (S := S1x1) hz, View.ld_unit_zero (S := S128x64) hz,
    View.ld_unit_zero (S := S1x64) hz]

/-- A later point leaves the sum-of-squares row it found plus the column sums of its tile's squares. -/
theorem out_B_6 (c : Dev nD) (i : grid20.Coords) (a1 : Memref sig .tc .vmem S5000x128 .f32) (h1 : a1.IsWhole) (a2 : Memref sig .tc .vmem S5000x128 .f32) (h2 : a2.IsWhole) (a3 : Memref sig .tc .vmem S1x1 .f32) (h3 : a3.IsWhole) (a4 : Memref sig .tc .vmem S128x64 .f32) (h4 : a4.IsWhole) (a5 : Memref sig .tc .vmem S5000x64 .f32) (h5 : a5.IsWhole) (a6 : Memref sig .tc .vmem S1x64 .f32) (h6 : a6.IsWhole) (a7 : Memref sig .tc .vmem S1x64 .f32) (h7 : a7.IsWhole) (hc : ¬cond20_0 i) (x0 x1 : Vec F S5000x128 .f32) (x2 : Vec F S1x1 .f32) (x3 : Vec F S128x64 .f32) (xo5 xo6 : Vec F S1x64 .f32) :
    out20_B_6 c i a1 h1 a2 h2 a3 h3 a4 h4 a5 h5 a6 h6 a7 h7 hc x0 x1 x2 x3 xo5 xo6 = k20_pay5 x2 x0 x1 x3 xo6 := by
  unfold out20_B_6
  rw [View.read_writes_eq_canon _ _ _ (cover20_B_6 c i a1 h1 a2 h2 a3 h3 a4 h4 a5 h5 a6 h6 a7 h7 hc x0 x1 x2 x3 xo5 xo6)]
  unfold kernelRun20_B
  dsimp only
  sl_unfold_words
  rw [View.canon_unit_zero hz]
  simp only [View.readAt_eq_ld, h1.read_unread, h2.read_unread, h3.read_unread, h4.read_unread, h6.read_unread, h7.read_unread,
    View.ld_unit_zero (S := S5000x128) hz, View.ld_unit_zero (S := S1x1) hz, View.ld_unit_zero (S := S128x64) hz,
    View.ld_unit_zero (S := S1x64) hz]

/-- The first point leaves the product tile of its blocks. -/
theorem out_A_4 (c : Dev nD) (i : grid20.Coords) (a1 : Memref sig .tc .vmem S5000x128 .f32) (h1 : a1.IsWhole) (a2 : Memref sig .tc .vmem S5000x128 .f32) (h2 : a2.IsWhole) (a3 : Memref sig .tc .vmem S1x1 .f32) (h3 : a3.IsWhole) (a4 : Memref sig .tc .vmem S128x64 .f32) (h4 : a4.IsWhole) (a5 : Memref sig .tc .vmem S5000x64 .f32) (h5 : a5.IsWhole) (a6 : Memref sig .tc .vmem S1x64 .f32) (h6 : a6.IsWhole) (a7 : Memref sig .tc .vmem S1x64 .f32) (h7 : a7.IsWhole) (hc : cond20_0 i) (x0 x1 : Vec F S5000x128 .f32) (x2 : Vec F S1x1 .f32) (x3 : Vec F S128x64 .f32) :
    out20_A_4 c i a1 h1 a2 h2 a3 h3 a4 h4 a5 h5 a6 h6 a7 h7 hc x0 x1 x2 x3 = k20_pay3 x2 x0 x1 x3 := by
  unfold out20_A_4
  rw [View.read_writes_eq_canon _ _ _ (cover20_A_4 c i a1 h1 a2 h2 a3 h3 a4 h4 a5 h5 a6 h6 a7 h7 hc x0 x1 x2 x3)]
  unfold kernelRun20_A
  dsimp only
  sl_unfold_words
  rw [View.canon_unit_zero hz]
  simp only [View.readAt_eq_ld, h1.read_unread, h2.read_unread, h3.read_unread, h4.read_unread, h6.read_unread, h7.read_unread,
    View.ld_unit_zero (S := S5000x128) hz, View.ld_unit_zero (S := S1x1) hz, View.ld_unit_zero (S := S128x64) hz,
    View.ld_unit_zero (S := S1x64) hz]

/-- The first point leaves the zero row plus its tile's column sums. -/
theorem out_A_5 (c : Dev nD) (i : grid20.Coords) (a1 : Memref sig .tc .vmem S5000x128 .f32) (h1 : a1.IsWhole) (a2 : Memref sig .tc .vmem S5000x128 .f32) (h2 : a2.IsWhole) (a3 : Memref sig .tc .vmem S1x1 .f32) (h3 : a3.IsWhole) (a4 : Memref sig .tc .vmem S128x64 .f32) (h4 : a4.IsWhole) (a5 : Memref sig .tc .vmem S5000x64 .f32) (h5 : a5.IsWhole) (a6 : Memref sig .tc .vmem S1x64 .f32) (h6 : a6.IsWhole) (a7 : Memref sig .tc .vmem S1x64 .f32) (h7 : a7.IsWhole) (hc : cond20_0 i) (x0 x1 : Vec F S5000x128 .f32) (x2 : Vec F S1x1 .f32) (x3 : Vec F S128x64 .f32) :
    out20_A_5 c i a1 h1 a2 h2 a3 h3 a4 h4 a5 h5 a6 h6 a7 h7 hc x0 x1 x2 x3 = k20_pay4 x2 x0 x1 x3 k20_pay1 := by
  unfold out20_A_5
  rw [View.read_writes_eq_canon _ _ _ (cover20_A_5 c i a1 h1 a2 h2 a3 h3 a4 h4 a5 h5 a6 h6 a7 h7 hc x0 x1 x2 x3)]
  unfold kernelRun20_A
  dsimp only
  sl_unfold_words
  rw [View.canon_cons_unit_zero (S := S1x64) hz, View.readCov_unit_zero (S := S1x64) _ hz]
  simp only [View.readAt_eq_ld, h1.read_unread, h2.read_unread, h3.read_unread, h4.read_unread, h6.read_unread, h7.read_unread,
    View.ld_unit_zero (S := S5000x128) hz, View.ld_unit_zero (S := S1x1) hz, View.ld_unit_zero (S := S128x64) hz,
    View.ld_unit_zero (S := S1x64) hz]

/-- The first point leaves the zero row plus the column sums of its tile's squares. -/
theorem out_A_6 (c : Dev nD) (i : grid20.Coords) (a1 : Memref sig .tc .vmem S5000x128 .f32) (h1 : a1.IsWhole) (a2 : Memref sig .tc .vmem S5000x128 .f32) (h2 : a2.IsWhole) (a3 : Memref sig .tc .vmem S1x1 .f32) (h3 : a3.IsWhole) (a4 : Memref sig .tc .vmem S128x64 .f32) (h4 : a4.IsWhole) (a5 : Memref sig .tc .vmem S5000x64 .f32) (h5 : a5.IsWhole) (a6 : Memref sig .tc .vmem S1x64 .f32) (h6 : a6.IsWhole) (a7 : Memref sig .tc .vmem S1x64 .f32) (h7 : a7.IsWhole) (hc : cond20_0 i) (x0 x1 : Vec F S5000x128 .f32) (x2 : Vec F S1x1 .f32) (x3 : Vec F S128x64 .f32) :
    out20_A_6 c i a1 h1 a2 h2 a3 h3 a4 h4 a5 h5 a6 h6 a7 h7 hc x0 x1 x2 x3 = k20_pay5 x2 x0 x1 x3 k20_pay2 := by
  unfold out20_A_6
  rw [View.read_writes_eq_canon _ _ _ (cover20_A_6 c i a1 h1 a2 h2 a3 h3 a4 h4 a5 h5 a6 h6 a7 h7 hc x0 x1 x2 x3)]
  unfold kernelRun20_A
  dsimp only
  sl_unfold_words
  rw [View.canon_cons_unit_zero (S := S1x64) hz, View.readCov_unit_zero (S := S1x64) _ hz]
  simp only [View.readAt_eq_ld, h1.read_unread, h2.read_unread, h3.read_unread, h4.read_unread, h6.read_unread, h7.read_unread,
    View.ld_unit_zero (S := S5000x128) hz, View.ld_unit_zero (S := S1x1) hz, View.ld_unit_zero (S := S128x64) hz,
    View.ld_unit_zero (S := S1x64) hz]

end Cert.GIN.Reg20

end
-- ==== Proof.Reg20Pay.lean ====
/-
  The arithmetic of one grid point of the combine–product–statistics kernel, read at an index over the extended reals.

  At a grid point the body holds a tile of 5000 rows.  It forms `scale · x + agg` entry by entry, multiplies the tile by the
  128×64 weight matrix into a zero accumulator (the narrowing of both operands is the identity on extended reals), and
  adds to each of two 1×64 rows the column sums of the product tile and of its entrywise squares.  The three lemmas below
  read these three stored values at an entry: the product entry `(p, j)` is the sum over `q < 128` of
  `(scale · x(p, q) + agg(p, q)) · w(q, j)`; the statistics rows at `(0, j)` are the carried row plus the sum over the
  tile's 5000 rows of the product entries, respectively of their squares.
-/
import proofs.«177653_j8959301779747_1_alg».proof.Proof.Spec
import proofs.«177653_j8959301779747_1_alg».proof.Proof.LibPlainDot
import proofs.«177653_j8959301779747_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.GIN.Reg20

open Idealize.ShloMosaic Idealize.ShloMosaic.ValueIdx
open Cert.KernelIdeal Cert.KernelIdeal.Gen Cert.GIN

/-- The 1×1 scale spread over a 5000×128 tile reads the scale's one entry everywhere. -/
theorem scale_ix (v : FVec Ideal S1x1 .f32) (p : Fin 5000) (q : Fin 128) :
    broadcastTo S5000x128 v broadcasts_S1x1_S5000x128 (ix2 p q) = v (ix2 0 0) :=
  broadcastTo_apply v broadcasts_S1x1_S5000x128 (ix2 p q) (ix2 0 0) fun a => by
    match a with
    | ⟨0, _⟩ => rfl
    | ⟨1, _⟩ => rfl

/-- The source index of a column reduction of a 5000×64 tile: row `p` over the result's column `j`. -/
theorem lift_ix (j : Fin 64) (p : Fin 5000) :
    reduces_S5000x64_S64.lift (fun a => (ix2 (0 : Fin 1) j) a.succ) p = ix2 p j := by
  funext c
  apply Fin.ext
  match c with
  | ⟨0, _⟩ => rfl
  | ⟨1, _⟩ => rfl

/-- A column reduction of a 5000×64 tile from the zero word, stored as a 1×64 row, reads at `(0, j)` the sum of column
    `j` over the tile's rows. -/
theorem colred_ix (src : FVec Ideal S5000x64 .f32) (j : Fin 64) :
    shapeCast S1x64 (multiReduction (F := Ideal) .add [0] S64 src 0x00000000#32 reduces_S5000x64_S64 (.inl rfl) rfl)
        shapeCasts_S64_S1x64 (ix2 0 j) = ∑ p : Fin 5000, src (ix2 p j) := by
  refine (shapeCast_addUnit_apply ![64] _ shapeCasts_S64_S1x64 (ix2 0 j)).trans ?_
  refine (Ideal.multiReduction_add_single src 0x00000000#32 reduces_S5000x64_S64 (.inl rfl) rfl _).trans ?_
  exact Finset.sum_congr rfl fun p _ => congrArg src (lift_ix j p)

/-- The product tile at `(p, j)`. -/
theorem pay3_ix (v3 : Vec Ideal S1x1 .f32) (v5 v8 : Vec Ideal S5000x128 .f32) (v12 : Vec Ideal S128x64 .f32)
    (p : Fin 5000) (j : Fin 64) :
    k20_pay3 (F := Ideal) v3 v5 v8 v12 (ix2 p j)
      = ∑ q : Fin 128, (v3 (ix2 0 0) * v5 (ix2 p q) + v8 (ix2 p q)) * v12 (ix2 q j) := by
  unfold k20_pay3
  simp only [shapeCast_self]
  refine (Cert.PlainDot.matmul_zero_ix2 dot_S5000x128_S128x64_S5000x64_1_0_0_1_n_n rfl none _ _ p j).trans ?_
  refine Finset.sum_congr rfl fun q _ => ?_
  show (broadcastTo S5000x128 v3 broadcasts_S1x1_S5000x128 (ix2 p q) * v5 (ix2 p q) + v8 (ix2 p q)) * v12 (ix2 q j) = _
  rw [scale_ix v3 p q]

/-- The column-sum row after the point: the carried row plus the tile's column sums. -/
theorem pay4_ix (v3 : Vec Ideal S1x1 .f32) (v5 v8 : Vec Ideal S5000x128 .f32) (v12 : Vec Ideal S128x64 .f32)
    (r : Vec Ideal S1x64 .f32) (j : Fin 64) :
    k20_pay4 (F := Ideal) v3 v5 v8 v12 r (ix2 0 j)
      = r (ix2 0 j) + ∑ p : Fin 5000, k20_pay3 (F := Ideal) v3 v5 v8 v12 (ix2 p j) := by
  unfold k20_pay4
  simp only [shapeCast_self]
  exact congrArg (r (ix2 0 j) + ·) (colred_ix (k20_pay3 (F := Ideal) v3 v5 v8 v12) j)

/-- The sum-of-squares row after the point: the carried row plus the column sums of the tile's squares. -/
theorem pay5_ix (v3 : Vec Ideal S1x1 .f32) (v5 v8 : Vec Ideal S5000x128 .f32) (v12 : Vec Ideal S128x64 .f32)
    (r : Vec Ideal S1x64 .f32) (j : Fin 64) :
    k20_pay5 (F := Ideal) v3 v5 v8 v12 r (ix2 0 j)
      = r (ix2 0 j) + ∑ p : Fin 5000, k20_pay3 (F := Ideal) v3 v5 v8 v12 (ix2 p j) * k20_pay3 (F := Ideal) v3 v5 v8 v12 (ix2 p j) := by
  unfold k20_pay5
  simp only [shapeCast_self]
  exact congrArg (r (ix2 0 j) + ·)
    (colred_ix (mulf (k20_pay3 (F := Ideal) v3 v5 v8 v12) (k20_pay3 (F := Ideal) v3 v5 v8 v12)) j)

/-- The two rows the first point stores before accumulating are zero. -/
theorem pay1_ix (j : Fin 64) : k20_pay1 (F := Ideal) (ix2 0 j) = 0 := by
  unfold k20_pay1
  exact Ideal.ofBits_zero_f32

theorem pay2_ix (j : Fin 64) : k20_pay2 (F := Ideal) (ix2 0 j) = 0 := by
  unfold k20_pay2
  exact Ideal.ofBits_zero_f32

end Cert.GIN.Reg20

end
-- ==== Proof.Reg20.lean ====
/-
  The value of the combine–product–statistics region, as whole-array functions of what the region finds.

  The grid has ten points; point `t` holds rows `5000 t … 5000 t + 4999` of the node features `x` and of the neighbour
  sums `agg`, the whole 1×1 scale and the whole 128×64 weight matrix.  Every point stores the tile
  `(scale · x + agg) · w` of its rows as block `t` of the product array, so that array ends as the product itself: row `r`
  is written by point `r / 5000`.  The two statistics rows have one block that never moves: point 0 zeroes them, every
  point adds its tile's column sums (of the entries, and of their squares), and the rows are written back after the last
  point only.  By induction on the point they hold, after point `n`, the sum over tiles `0 … n` of the tile's column
  sums; after point 9 that is the tiled column sum of the specification.
-/
import proofs.«177653_j8959301779747_1_alg».proof.Proof.Spec
import proofs.«177653_j8959301779747_1_alg».proof.Proof.LibPlainDot
import proofs.«177653_j8959301779747_1_alg».proof.Proof.Gen.KernelIdeal.Frame
import proofs.«177653_j8959301779747_1_alg».proof.Proof.Reg20Pieces
import proofs.«177653_j8959301779747_1_alg».proof.Proof.Reg20Pay
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.ShloMosaic.ValueIdx Idealize.SL.Sem
open Idealize.ShloMosaic.Pipeline (Dat)

namespace Cert.GIN.Reg20

open Cert.KernelIdeal Cert.KernelIdeal.Gen Cert.GIN

variable (V : (c : Dev nD) → (b : Ref sig .tc) → Buf (Elt Ideal) ((c : Thread nD τ).loc b)) (c : Dev nD)

/-- The node features, the neighbour sums, the scale and the weights as the region finds them, as matrices. -/
abbrev Xx : Mat 50000 128 := V c (Pipeline.arrRef spec20 0)
abbrev Xa : Mat 50000 128 := V c (Pipeline.arrRef spec20 1)
abbrev Xs : Mat 1 1 := V c (Pipeline.arrRef spec20 2)
abbrev Xw : Mat 128 64 := V c (Pipeline.arrRef spec20 3)
/-- The product the region computes. -/
abbrev Z : Mat 50000 64 := mm (comb (Xs V c) (Xx V c) (Xa V c)) (Xw V c)

/-- The block index maps over the grid: the row-tiled windows move with the point along the rows, the others stay. -/
theorem idx_facts : ∀ t : Fin cfg20.N,
    win20_0.index t (0 : Fin 2) = t.val ∧ win20_0.index t (1 : Fin 2) = 0
  ∧ win20_1.index t (0 : Fin 2) = t.val ∧ win20_1.index t (1 : Fin 2) = 0
  ∧ win20_2.index t (0 : Fin 2) = 0 ∧ win20_2.index t (1 : Fin 2) = 0
  ∧ win20_3.index t (0 : Fin 2) = 0 ∧ win20_3.index t (1 : Fin 2) = 0
  ∧ win20_4.index t (0 : Fin 2) = t.val ∧ win20_4.index t (1 : Fin 2) = 0
  ∧ win20_5.index t (0 : Fin 2) = 0 ∧ win20_5.index t (1 : Fin 2) = 0
  ∧ win20_6.index t (0 : Fin 2) = 0 ∧ win20_6.index t (1 : Fin 2) = 0 :=
  (by decide +kernel : ∀ t : Fin grid20.N, _)

theorem lt_ten (t : Fin cfg20.N) : t.val < 10 := by
  have h : t.val < grid20.N := t.isLt
  rw [N_20] at h; exact h

/-! ## The input blocks, read at an entry -/

theorem blk0_ix (t : Fin cfg20.N) (p : Fin 5000) (q : Fin 128) (h : 5000 * t.val + p.val < 50000) :
    (iblk20 V c 0 t : Vec Ideal S5000x128 .f32) (ix2 p q) = Xx V c (ix2 ⟨5000 * t.val + p.val, h⟩ q) := by
  obtain ⟨e0, e1, -⟩ := idx_facts t
  unfold iblk20
  rw [View.read_apply]
  show V c (Pipeline.arrRef spec20 0) _ = V c (Pipeline.arrRef spec20 0) _
  congr 1
  funext a
  apply Fin.ext
  match a with
  | ⟨0, _⟩ => show win20_0.index t 0 * 5000 + 1 * p.val = 5000 * t.val + p.val; rw [e0]; omega
  | ⟨1, _⟩ => show win20_0.index t 1 * 128 + 1 * q.val = q.val; rw [e1]; omega

theorem blk1_ix (t : Fin cfg20.N) (p : Fin 5000) (q : Fin 128) (h : 5000 * t.val + p.val < 50000) :
    (iblk20 V c 1 t : Vec Ideal S5000x128 .f32) (ix2 p q) = Xa V c (ix2 ⟨5000 * t.val + p.val, h⟩ q) := by
  obtain ⟨-, -, e0, e1, -⟩ := idx_facts t
  unfold iblk20
  rw [View.read_apply]
  show V c (Pipeline.arrRef spec20 1) _ = V c (Pipeline.arrRef spec20 1) _
  congr 1
  funext a
  apply Fin.ext
  match a with
  | ⟨0, _⟩ => show win20_1.index t 0 * 5000 + 1 * p.val = 5000 * t.val + p.val; rw [e0]; omega
  | ⟨1, _⟩ => show win20_1.index t 1 * 128 + 1 * q.val = q.val; rw [e1]; omega

theorem blk2_ix (t : Fin cfg20.N) :
    (iblk20 V c 2 t : Vec Ideal S1x1 .f32) (ix2 0 0) = Xs V c (ix2 0 0) := by
  obtain ⟨-, -, -, -, e0, e1, -⟩ := idx_facts t
  unfold iblk20
  rw [View.read_apply]
  show V c (Pipeline.arrRef spec20 2) _ = V c (Pipeline.arrRef spec20 2) _
  congr 1
  funext a
  apply Fin.ext
  match a with
  | ⟨0, _⟩ => show win20_2.index t 0 * 1 + 1 * 0 = 0; rw [e0]
  | ⟨1, _⟩ => show win20_2.index t 1 * 1 + 1 * 0 = 0; rw [e1]

theorem blk3_ix (t : Fin cfg20.N) (q : Fin 128) (j : Fin 64) :
    (iblk20 V c 3 t : Vec Ideal S128x64 .f32) (ix2 q j) = Xw V c (ix2 q j) := by
  obtain ⟨-, -, -, -, -, -, e0, e1, -⟩ := idx_facts t
  unfold iblk20
  rw [View.read_apply]
  show V c (Pipeline.arrRef spec20 3) _ = V c (Pipeline.arrRef spec20 3) _
  congr 1
  funext a
  apply Fin.ext
  match a with
  | ⟨0, _⟩ => show win20_3.index t 0 * 128 + 1 * q.val = q.val; rw [e0]; omega
  | ⟨1, _⟩ => show win20_3.index t 1 * 64 + 1 * j.val = j.val; rw [e1]; omega

/-! ## The product tile of a point is the point's rows of the product -/

/-- The product tile point `t` computes from its blocks. -/
abbrev tile (t : Fin cfg20.N) : Vec Ideal S5000x64 .f32 :=
  k20_pay3 (F := Ideal) (iblk20 V c 2 t) (iblk20 V c 0 t) (iblk20 V c 1 t) (iblk20 V c 3 t)

theorem tile_ix (t : Fin cfg20.N) (p : Fin 5000) (j : Fin 64) (h : 5000 * t.val + p.val < 50000) :
    tile V c t (ix2 p j) = Z V c (ix2 ⟨5000 * t.val + p.val, h⟩ j) := by
  refine (pay3_ix (iblk20 V c 2 t) (iblk20 V c 0 t) (iblk20 V c 1 t) (iblk20 V c 3 t) p j).trans ?_
  show _ = ∑ q : Fin 128, (Xs V c (ix2 0 0) * Xx V c (ix2 ⟨5000 * t.val + p.val, h⟩ q) + Xa V c (ix2 ⟨5000 * t.val + p.val, h⟩ q)) * Xw V c (ix2 q j)
  refine Finset.sum_congr rfl fun q _ => ?_
  rw [blk0_ix V c t p q h, blk1_ix V c t p q h, blk2_ix V c t, blk3_ix V c t q j]

/-- Every point, first or not, leaves its product tile in the product's block. -/
theorem outs4 (t : Fin cfg20.N) : (outsAt20 V c t.val t.isLt).1 = tile V c t := by
  by_cases h0 : t.val % 10 = 0
  · rw [outsAt20_A V c t h0]
    dsimp only
    exact out_A_4 (F := Ideal) c (grid20.coords t) (ms20_0 t) (hs20_0 t) (ms20_1 t) (hs20_1 t) (ms20_2 t) (hs20_2 t) (ms20_3 t) (hs20_3 t) (ms20_4 t) (hs20_4 t) (ms20_5 t) (hs20_5 t) (ms20_6 t) (hs20_6 t) ((hcond20_0 t).mpr h0) (iblk20 V c 0 t) (iblk20 V c 1 t) (iblk20 V c 2 t) (iblk20 V c 3 t)
  · rw [outsAt20_B V c t h0]
    dsimp only
    exact out_B_4 (F := Ideal) c (grid20.coords t) (ms20_0 t) (hs20_0 t) (ms20_1 t) (hs20_1 t) (ms20_2 t) (hs20_2 t) (ms20_3 t) (hs20_3 t) (ms20_4 t) (hs20_4 t) (ms20_5 t) (hs20_5 t) (ms20_6 t) (hs20_6 t) (fun h => h0 ((hcond20_0 t).mp h)) (iblk20 V c 0 t) (iblk20 V c 1 t) (iblk20 V c 2 t) (iblk20 V c 3 t) (outsAt20 V c (t.val - 1) (Nat.lt_of_le_of_lt (Nat.sub_le _ _) t.isLt)).2.1 (outsAt20 V c (t.val - 1) (Nat.lt_of_le_of_lt (Nat.sub_le _ _) t.isLt)).2.2

/-! ## The statistics rows after each point -/

/-- Column `j` of `z` summed over the rows of tile `t` (zero past the tenth tile). -/
def tsum (z : Mat 50000 64) (j : Fin 64) (t : ℕ) : EReal :=
  if h : t < 10 then ∑ p : Fin 5000, z (ix2 ⟨5000 * t + p.val, by have := p.isLt; omega⟩ j) else 0

/-- The tiled column sum of the specification is the sum of the ten tile sums. -/
theorem colSum_eq (z : Mat 50000 64) (j : Fin 64) : colSum z (ix2 0 j) = ∑ t ∈ Finset.range 10, tsum z j t := by
  rw [Finset.sum_range]
  unfold colSum
  refine Finset.sum_congr rfl fun t _ => ?_
  unfold tsum
  rw [dif_pos t.isLt]

theorem tile_sum (t : Fin cfg20.N) (j : Fin 64) :
    ∑ p : Fin 5000, tile V c t (ix2 p j) = tsum (Z V c) j t.val := by
  have ht := lt_ten t
  unfold tsum
  rw [dif_pos ht]
  exact Finset.sum_congr rfl fun p _ => tile_ix V c t p j _

theorem tile_sumsq (t : Fin cfg20.N) (j : Fin 64) :
    ∑ p : Fin 5000, tile V c t (ix2 p j) * tile V c t (ix2 p j) = tsum (fun i => Z V c i * Z V c i) j t.val := by
  have ht := lt_ten t
  unfold tsum
  rw [dif_pos ht]
  exact Finset.sum_congr rfl fun p _ => by rw [tile_ix V c t p j _]

/-- At the first point the rows are zeroed and then hold the first tile's sums. -/
theorem s_first (t : Fin cfg20.N) (h0 : t.val % 10 = 0) (j : Fin 64) :
    (outsAt20 V c t.val t.isLt).2.1 (ix2 0 j) = tsum (Z V c) j t.val
  ∧ (outsAt20 V c t.val t.isLt).2.2 (ix2 0 j) = tsum (fun i => Z V c i * Z V c i) j t.val := by
  have e5 : (outsAt20 V c t.val t.isLt).2.1 = k20_pay4 (F := Ideal) (iblk20 V c 2 t) (iblk20 V c 0 t) (iblk20 V c 1 t) (iblk20 V c 3 t) (k20_pay1 (F := Ideal)) := by
    rw [outsAt20_A V c t h0]
    dsimp only
    exact out_A_5 (F := Ideal) c (grid20.coords t) (ms20_0 t) (hs20_0 t) (ms20_1 t) (hs20_1 t) (ms20_2 t) (hs20_2 t) (ms20_3 t) (hs20_3 t) (ms20_4 t) (hs20_4 t) (ms20_5 t) (hs20_5 t) (ms20_6 t) (hs20_6 t) ((hcond20_0 t).mpr h0) (iblk20 V c 0 t) (iblk20 V c 1 t) (iblk20 V c 2 t) (iblk20 V c 3 t)
  have e6 : (outsAt20 V c t.val t.isLt).2.2 = k20_pay5 (F := Ideal) (iblk20 V c 2 t) (iblk20 V c 0 t) (iblk20 V c 1 t) (iblk20 V c 3 t) (k20_pay2 (F := Ideal)) := by
    rw [outsAt20_A V c t h0]
    dsimp only
    exact out_A_6 (F := Ideal) c (grid20.coords t) (ms20_0 t) (hs20_0 t) (ms20_1 t) (hs20_1 t) (ms20_2 t) (hs20_2 t) (ms20_3 t) (hs20_3 t) (ms20_4 t) (hs20_4 t) (ms20_5 t) (hs20_5 t) (ms20_6 t) (hs20_6 t) ((hcond20_0 t).mpr h0) (iblk20 V c 0 t) (iblk20 V c 1 t) (iblk20 V c 2 t) (iblk20 V c 3 t)
  constructor
  · refine (congrFun e5 (ix2 0 j)).trans ((pay4_ix (iblk20 V c 2 t) (iblk20 V c 0 t) (iblk20 V c 1 t) (iblk20 V c 3 t) (k20_pay1 (F := Ideal)) j).trans ?_)
    rw [pay1_ix, zero_add]
    exact tile_sum V c t j
  · refine (congrFun e6 (ix2 0 j)).trans ((pay5_ix (iblk20 V c 2 t) (iblk20 V c 0 t) (iblk20 V c 1 t) (iblk20 V c 3 t) (k20_pay2 (F := Ideal)) j).trans ?_)
    rw [pay2_ix, zero_add]
    exact tile_sumsq V c t j

/-- At a later point the rows hold what the point before left plus the point's tile sums. -/
theorem s_next (t : Fin cfg20.N) (h0 : ¬t.val % 10 = 0) (j : Fin 64) :
    (outsAt20 V c t.val t.isLt).2.1 (ix2 0 j) = (outsAt20 V c (t.val - 1) (Nat.lt_of_le_of_lt (Nat.sub_le _ _) t.isLt)).2.1 (ix2 0 j) + tsum (Z V c) j t.val
  ∧ (outsAt20 V c t.val t.isLt).2.2 (ix2 0 j) = (outsAt20 V c (t.val - 1) (Nat.lt_of_le_of_lt (Nat.sub_le _ _) t.isLt)).2.2 (ix2 0 j) + tsum (fun i => Z V c i * Z V c i) j t.val := by
  have e5 : (outsAt20 V c t.val t.isLt).2.1 = k20_pay4 (F := Ideal) (iblk20 V c 2 t) (iblk20 V c 0 t) (iblk20 V c 1 t) (iblk20 V c 3 t) (outsAt20 V c (t.val - 1) (Nat.lt_of_le_of_lt (Nat.sub_le _ _) t.isLt)).2.1 := by
    rw [outsAt20_B V c t h0]
    dsimp only
    exact out_B_5 (F := Ideal) c (grid20.coords t) (ms20_0 t) (hs20_0 t) (ms20_1 t) (hs20_1 t) (ms20_2 t) (hs20_2 t) (ms20_3 t) (hs20_3 t) (ms20_4 t) (hs20_4 t) (ms20_5 t) (hs20_5 t) (ms20_6 t) (hs20_6 t) (fun h => h0 ((hcond20_0 t).mp h)) (iblk20 V c 0 t) (iblk20 V c 1 t) (iblk20 V c 2 t) (iblk20 V c 3 t) (outsAt20 V c (t.val - 1) (Nat.lt_of_le_of_lt (Nat.sub_le _ _) t.isLt)).2.1 (outsAt20 V c (t.val - 1) (Nat.lt_of_le_of_lt (Nat.sub_le _ _) t.isLt)).2.2
  have e6 : (outsAt20 V c t.val t.isLt).2.2 = k20_pay5 (F := Ideal) (iblk20 V c 2 t) (iblk20 V c 0 t) (iblk20 V c 1 t) (iblk20 V c 3 t) (outsAt20 V c (t.val - 1) (Nat.lt_of_le_of_lt (Nat.sub_le _ _) t.isLt)).2.2 := by
    rw [outsAt20_B V c t h0]
    dsimp only
    exact out_B_6 (F := Ideal) c (grid20.coords t) (ms20_0 t) (hs20_0 t) (ms20_1 t) (hs20_1 t) (ms20_2 t) (hs20_2 t) (ms20_3 t) (hs20_3 t) (ms20_4 t) (hs20_4 t) (ms20_5 t) (hs20_5 t) (ms20_6 t) (hs20_6 t) (fun h => h0 ((hcond20_0 t).mp h)) (iblk20 V c 0 t) (iblk20 V c 1 t) (iblk20 V c 2 t) (iblk20 V c 3 t) (outsAt20 V c (t.val - 1) (Nat.lt_of_le_of_lt (Nat.sub_le _ _) t.isLt)).2.1 (outsAt20 V c (t.val - 1) (Nat.lt_of_le_of_lt (Nat.sub_le _ _) t.isLt)).2.2
  constructor
  · refine (congrFun e5 (ix2 0 j)).trans ((pay4_ix (iblk20 V c 2 t) (iblk20 V c 0 t) (iblk20 V c 1 t) (iblk20 V c 3 t) (outsAt20 V c (t.val - 1) (Nat.lt_of_le_of_lt (Nat.sub_le _ _) t.isLt)).2.1 j).trans ?_)
    rw [tile_sum V c t j]
  · refine (congrFun e6 (ix2 0 j)).trans ((pay5_ix (iblk20 V c 2 t) (iblk20 V c 0 t) (iblk20 V c 1 t) (iblk20 V c 3 t) (outsAt20 V c (t.val - 1) (Nat.lt_of_le_of_lt (Nat.sub_le _ _) t.isLt)).2.2 j).trans ?_)
    rw [tile_sumsq V c t j]

/-- After point `n` the rows hold the sums over tiles `0 … n`. -/
theorem stats_inv : ∀ (n : ℕ) (h : n < cfg20.N) (j : Fin 64),
    (outsAt20 V c n h).2.1 (ix2 0 j) = ∑ t ∈ Finset.range (n + 1), tsum (Z V c) j t
  ∧ (outsAt20 V c n h).2.2 (ix2 0 j) = ∑ t ∈ Finset.range (n + 1), tsum (fun i => Z V c i * Z V c i) j t
  | 0, h, j => by
    have e := s_first V c ⟨0, h⟩ rfl j
    rw [Finset.sum_range_one, Finset.sum_range_one]
    exact e
  | n + 1, h, j => by
    have hn : n + 1 < 10 := lt_ten ⟨n + 1, h⟩
    have hB : ¬(⟨n + 1, h⟩ : Fin cfg20.N).val % 10 = 0 := by dsimp only; omega
    have e := s_next V c ⟨n + 1, h⟩ hB j
    have ih := stats_inv n (Nat.lt_of_succ_lt h) j
    rw [Finset.sum_range_succ (fun t => tsum (Z V c) j t) (n + 1),
      Finset.sum_range_succ (fun t => tsum (fun i => Z V c i * Z V c i) j t) (n + 1), ← ih.1, ← ih.2]
    exact e

/-- After the last point the rows are the specification's tiled column sums. -/
theorem stats_last (h : 9 < cfg20.N) :
    (outsAt20 V c 9 h).2.1 = colSum (Z V c) ∧ (outsAt20 V c 9 h).2.2 = colSumSq (Z V c) := by
  constructor
  · funext y
    obtain ⟨i, j, rfl⟩ : ∃ (i : Fin 1) (j : Fin 64), y = ix2 i j := ⟨y 0, y 1, eq_ix2 y⟩
    obtain rfl : i = 0 := Subsingleton.elim _ _
    rw [colSum_eq]
    exact (stats_inv V c 9 h j).1
  · funext y
    obtain ⟨i, j, rfl⟩ : ∃ (i : Fin 1) (j : Fin 64), y = ix2 i j := ⟨y 0, y 1, eq_ix2 y⟩
    obtain rfl : i = 0 := Subsingleton.elim _ _
    show _ = colSum (fun i => Z V c i * Z V c i) (ix2 0 j)
    rw [colSum_eq]
    exact (stats_inv V c 9 h j).2

/-! ## From the blocks to the arrays -/

/-- Point `t` writes back block `t` of the product. -/
theorem flushed4 (t : Fin cfg20.N) :
    (dat20 V c).flushed 4 t = ((cfg20.win 4).blk t).view.read (Elt Ideal) (Z V c) := by
  obtain ⟨-, -, -, -, -, -, -, -, e0, e1, -⟩ := idx_facts t
  have ht := lt_ten t
  show (cfg20.win 4).cut (grid20.coords t) ((dat20 V c).after 4 t) = _
  rw [after20_4, outs4]
  funext y
  obtain ⟨p, j, rfl⟩ : ∃ (p : Fin 5000) (j : Fin 64), y = ix2 p j := ⟨y 0, y 1, eq_ix2 y⟩
  rw [View.read_apply]
  show tile V c t (ix2 p j) = Z V c (((cfg20.win 4).blk t).view.emb (ix2 p j))
  rw [tile_ix V c t p j (by have := p.isLt; omega)]
  congr 1
  funext a
  apply Fin.ext
  match a with
  | ⟨0, _⟩ => show 5000 * t.val + p.val = win20_4.index t 0 * 5000 + 1 * p.val; rw [e0]; omega
  | ⟨1, _⟩ => show j.val = win20_4.index t 1 * 64 + 1 * j.val; rw [e1]; omega

/-- Row `r` of the product lies in the block of point `r / 5000`. -/
theorem cover4 (i : S50000x64.Idx) :
    ∃ t : Fin cfg20.N, (cfg20.win 4).flush t = true ∧ i ∈ ((cfg20.win 4).blk t).view.set := by
  have hi0 : (i 0).val < 50000 := (i 0).isLt
  have hi1 : (i 1).val < 64 := (i 1).isLt
  have hN : grid20.N = 10 := N_20
  let t : Fin cfg20.N := ⟨(i 0).val / 5000, by show _ < grid20.N; rw [hN]; omega⟩
  obtain ⟨-, -, -, -, -, -, -, -, e0, e1, -⟩ := idx_facts t
  have e0' : win20_4.index t 0 = (i 0).val / 5000 := e0
  refine ⟨t, flush20_4 t, ?_⟩
  show i ∈ ((View.whole main_v250_0).slice (win20_4.rect t)).set
  rw [View.set_slice_whole, Rect.mem_set_unit]
  intro a
  match a with
  | ⟨0, _⟩ => show win20_4.index t 0 * 5000 ≤ (i 0).val ∧ (i 0).val < win20_4.index t 0 * 5000 + 5000
              rw [e0']; omega
  | ⟨1, _⟩ => show win20_4.index t 1 * 64 ≤ (i 1).val ∧ (i 1).val < win20_4.index t 1 * 64 + 64
              rw [e1]; omega

/-- The column-sum row is written back after the last point only; its one block is the whole row. -/
theorem flushed5 (t : Fin cfg20.N) (hf : (cfg20.win 5).flush t = true) :
    (dat20 V c).flushed 5 t = ((cfg20.win 5).blk t).view.read (Elt Ideal) (colSum (Z V c)) := by
  have ht := lt_ten t
  have h9 : t.val = 9 := by have := (flush20_5 t).mp hf; omega
  obtain ⟨-, -, -, -, -, -, -, -, -, -, e0, e1, -⟩ := idx_facts t
  show (cfg20.win 5).cut (grid20.coords t) ((dat20 V c).after 5 t) = _
  rw [after20_5]
  funext y
  rw [View.read_apply]
  show (outsAt20 V c t.val t.isLt).2.1 y = colSum (Z V c) (((cfg20.win 5).blk t).view.emb y)
  have hemb : ((cfg20.win 5).blk t).view.emb y = y := by
    funext a
    apply Fin.ext
    match a with
    | ⟨0, _⟩ => show win20_5.index t 0 * 1 + 1 * (y 0).val = (y 0).val; rw [e0]; omega
    | ⟨1, _⟩ => show win20_5.index t 1 * 64 + 1 * (y 1).val = (y 1).val; rw [e1]; omega
  rw [hemb]
  have key : ∀ (n : ℕ) (h : n < cfg20.N), n = 9 → (outsAt20 V c n h).2.1 = colSum (Z V c) := by
    intro n h e
    subst e
    exact (stats_last V c h).1
  exact congrFun (key t.val t.isLt h9) y

/-- The last point's block covers the row. -/
theorem cover5 (i : S1x64.Idx) :
    ∃ t : Fin cfg20.N, (cfg20.win 5).flush t = true ∧ i ∈ ((cfg20.win 5).blk t).view.set := by
  have hi0 : (i 0).val < 1 := (i 0).isLt
  have hi1 : (i 1).val < 64 := (i 1).isLt
  obtain ⟨-, -, -, -, -, -, -, -, -, -, e0, e1, -⟩ := idx_facts t20_9
  refine ⟨t20_9, (flush20_5 t20_9).mpr rfl, ?_⟩
  show i ∈ ((View.whole main_v250_1).slice (win20_5.rect t20_9)).set
  rw [View.set_slice_whole, Rect.mem_set_unit]
  intro a
  match a with
  | ⟨0, _⟩ => show win20_5.index t20_9 0 * 1 ≤ (i 0).val ∧ (i 0).val < win20_5.index t20_9 0 * 1 + 1
              rw [e0]; omega
  | ⟨1, _⟩ => show win20_5.index t20_9 1 * 64 ≤ (i 1).val ∧ (i 1).val < win20_5.index t20_9 1 * 64 + 64
              rw [e1]; omega

/-- The sum-of-squares row is written back after the last point only; its one block is the whole row. -/
theorem flushed6 (t : Fin cfg20.N) (hf : (cfg20.win 6).flush t = true) :
    (dat20 V c).flushed 6 t = ((cfg20.win 6).blk t).view.read (Elt Ideal) (colSumSq (Z V c)) := by
  have ht := lt_ten t
  have h9 : t.val = 9 := by have := (flush20_6 t).mp hf; omega
  obtain ⟨-, -, -, -, -, -, -, -, -, -, -, -, e0, e1⟩ := idx_facts t
  show (cfg20.win 6).cut (grid20.coords t) ((dat20 V c).after 6 t) = _
  rw [after20_6]
  funext y
  rw [View.read_apply]
  show (outsAt20 V c t.val t.isLt).2.2 y = colSumSq (Z V c) (((cfg20.win 6).blk t).view.emb y)
  have hemb : ((cfg20.win 6).blk t).view.emb y = y := by
    funext a
    apply Fin.ext
    match a with
    | ⟨0, _⟩ => show win20_6.index t 0 * 1 + 1 * (y 0).val = (y 0).val; rw [e0]; omega
    | ⟨1, _⟩ => show win20_6.index t 1 * 64 + 1 * (y 1).val = (y 1).val; rw [e1]; omega
  rw [hemb]
  have key : ∀ (n : ℕ) (h : n < cfg20.N), n = 9 → (outsAt20 V c n h).2.2 = colSumSq (Z V c) := by
    intro n h e
    subst e
    exact (stats_last V c h).2
  exact congrFun (key t.val t.isLt h9) y

/-- The last point's block covers the row. -/
theorem cover6 (i : S1x64.Idx) :
    ∃ t : Fin cfg20.N, (cfg20.win 6).flush t = true ∧ i ∈ ((cfg20.win 6).blk t).view.set := by
  have hi0 : (i 0).val < 1 := (i 0).isLt
  have hi1 : (i 1).val < 64 := (i 1).isLt
  obtain ⟨-, -, -, -, -, -, -, -, -, -, -, -, e0, e1⟩ := idx_facts t20_9
  refine ⟨t20_9, (flush20_6 t20_9).mpr rfl, ?_⟩
  show i ∈ ((View.whole main_v250_2).slice (win20_6.rect t20_9)).set
  rw [View.set_slice_whole, Rect.mem_set_unit]
  intro a
  match a with
  | ⟨0, _⟩ => show win20_6.index t20_9 0 * 1 ≤ (i 0).val ∧ (i 0).val < win20_6.index t20_9 0 * 1 + 1
              rw [e0]; omega
  | ⟨1, _⟩ => show win20_6.index t20_9 1 * 64 ≤ (i 1).val ∧ (i 1).val < win20_6.index t20_9 1 * 64 + 64
              rw [e1]; omega

/-! ## The three arrays after the region -/

/-- The product array ends as the product. -/
theorem z : (dat20 (F := Ideal) V c).arrAt 4 cfg20.N = mm (comb (V c (Pipeline.arrRef spec20 2) : Mat 1 1) (V c (Pipeline.arrRef spec20 0) : Mat 50000 128) (V c (Pipeline.arrRef spec20 1) : Mat 50000 128)) (V c (Pipeline.arrRef spec20 3) : Mat 128 64) :=
  (dat20 V c).arrAt_eq_of_cover 4 (Z V c) (fun t _ => flushed4 V c t) cover4

/-- The column-sum row ends as the tiled column sums of the product. -/
theorem s : (dat20 (F := Ideal) V c).arrAt 5 cfg20.N = colSum (mm (comb (V c (Pipeline.arrRef spec20 2) : Mat 1 1) (V c (Pipeline.arrRef spec20 0) : Mat 50000 128) (V c (Pipeline.arrRef spec20 1) : Mat 50000 128)) (V c (Pipeline.arrRef spec20 3) : Mat 128 64)) :=
  (dat20 V c).arrAt_eq_of_cover 5 (colSum (Z V c)) (flushed5 V c) cover5

/-- The sum-of-squares row ends as the tiled column sums of the product's squares. -/
theorem ss : (dat20 (F := Ideal) V c).arrAt 6 cfg20.N = colSumSq (mm (comb (V c (Pipeline.arrRef spec20 2) : Mat 1 1) (V c (Pipeline.arrRef spec20 0) : Mat 50000 128) (V c (Pipeline.arrRef spec20 1) : Mat 50000 128)) (V c (Pipeline.arrRef spec20 3) : Mat 128 64)) :=
  (dat20 V c).arrAt_eq_of_cover 6 (colSumSq (Z V c)) (flushed6 V c) cover6

end Cert.GIN.Reg20

end
-- ==== Proof.Reg21.lean ====
/-
  Region 21: the normalisation-and-rectifier map on a matrix of 50000 rows and 64 columns.

  The region visits ten grid points.  At point `t` it reads rows `5000·t … 5000·t + 4999` of the matrix `z` and the
  whole of the four rows `mean`, `var`, `γ`, `β` (each `[1, 64]`, the same block at every point), and writes the same
  rows of the output.  Entry `(p, q)` of what it writes is
  `max (γ q · (z (5000·t + p, q) − mean q) · rsqrt (var q + eps) + β q) 0`: each row vector is read at column `q` of
  its one row, whatever `p` is.  So the block point `t` writes is block `t` of ONE function of the five arrays,
  `normRelu z mean var γ β eps`, and since the ten blocks cover all 50000 rows (row `r` lies in block `r / 5000`),
  the output array ends holding that function.
-/
import proofs.«177653_j8959301779747_1_alg».proof.Proof.Spec
import proofs.«177653_j8959301779747_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

noncomputable section

namespace Cert.GIN.Reg21

open Cert.KernelIdeal Cert.KernelIdeal.Gen Cert.GIN
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The zero offsets of a block read or written whole. -/
theorem hz : (![0, 0] : Fin 2 → Nat) = fun _ => 0 := funext fun a => by fin_cases a <;> rfl

/-- The body's arithmetic at entry `(p, q)` of a block: the row vectors are read at column `q` of their one row, the
    rectifier's zero word is the number zero. -/
theorem pay_apply (x0 : Vec Ideal S5000x64 .f32) (x1 x2 x3 x4 : Vec Ideal S1x64 .f32) (p : Fin 5000) (q : Fin 64) :
    k21_pay1 x0 x1 x2 x3 x4 (ix2 p q)
      = max (x3 (ix2 0 q) * (x0 (ix2 p q) - x1 (ix2 0 q)) * Ideal.rsqrt (x2 (ix2 0 q) + Ideal.ofBits .f32 0x3727C5AC#32)
          + x4 (ix2 0 q)) 0 := by
  unfold k21_pay1
  simp only [shapeCast_self]
  rw [maximumf_apply, addf_apply, mulf_apply, mulf_apply, subf_apply, broadcast_apply,
    broadcastTo_1b_ab_apply, broadcastTo_1b_ab_apply, broadcastTo_1b_ab_apply, broadcastTo_1b_ab_apply]
  show max (x3 (ix2 0 q) * (x0 (ix2 p q) - x1 (ix2 0 q)) * Ideal.rsqrt (x2 (ix2 0 q) + Ideal.ofBits .f32 0x3727C5AC#32)
      + x4 (ix2 0 q)) (Ideal.ofBits .f32 0x00000000#32) = _
  rw [Ideal.ofBits_zero_f32]

/-- The same at any index of the block. -/
theorem pay_at (x0 : Vec Ideal S5000x64 .f32) (x1 x2 x3 x4 : Vec Ideal S1x64 .f32) (j : S5000x64.Idx) :
    k21_pay1 x0 x1 x2 x3 x4 j
      = max (x3 (ix2 0 (j 1)) * (x0 j - x1 (ix2 0 (j 1))) * Ideal.rsqrt (x2 (ix2 0 (j 1)) + Ideal.ofBits .f32 0x3727C5AC#32)
          + x4 (ix2 0 (j 1))) 0 := by
  obtain ⟨p, q, rfl⟩ : ∃ (p : Fin 5000) (q : Fin 64), j = ix2 p q := ⟨j 0, j 1, eq_ix2 j⟩
  exact pay_apply x0 x1 x2 x3 x4 p q

/-- The block indices, decided over the ten grid points: the matrix and the output move together down the rows, one
    block per point; the four row vectors stay at their one block. -/
theorem idx_facts : ∀ t : Fin cfg21.N,
    win21_5.index t (0 : Fin 2) = t.val ∧ win21_5.index t (1 : Fin 2) = 0
    ∧ win21_0.index t (0 : Fin 2) = t.val ∧ win21_0.index t (1 : Fin 2) = 0
    ∧ win21_1.index t (0 : Fin 2) = 0 ∧ win21_1.index t (1 : Fin 2) = 0
    ∧ win21_2.index t (0 : Fin 2) = 0 ∧ win21_2.index t (1 : Fin 2) = 0
    ∧ win21_3.index t (0 : Fin 2) = 0 ∧ win21_3.index t (1 : Fin 2) = 0
    ∧ win21_4.index t (0 : Fin 2) = 0 ∧ win21_4.index t (1 : Fin 2) = 0 :=
  (by decide +kernel : ∀ t : Fin grid21.N, _)

/-- THE BLOCK EQUATION at a symbolic grid point `t`: the body's arithmetic on the five blocks at `t` is block `t` of
    `normRelu` of the five arrays.  Entry `j` of the block of `z` and of the output sit at the same place of their
    arrays (row `5000·t + j 0`, column `j 1`), and entry `(0, j 1)` of each row vector's one block is entry `(0, j 1)`
    of the row vector. -/
theorem block_eq (t : Fin cfg21.N) (z : Mat 50000 64) (mean var γ β : Mat 1 64) :
    k21_pay1 (((cfg21.win 0).blk t).view.read (Elt Ideal) z) (((cfg21.win 1).blk t).view.read (Elt Ideal) mean)
        (((cfg21.win 2).blk t).view.read (Elt Ideal) var) (((cfg21.win 3).blk t).view.read (Elt Ideal) γ)
        (((cfg21.win 4).blk t).view.read (Elt Ideal) β)
      = ((cfg21.win 5).blk t).view.read (Elt Ideal) (normRelu z mean var γ β (Ideal.ofBits .f32 0x3727C5AC#32)) := by
  obtain ⟨e50, e51, e00, e01, e10, e11, e20, e21, e30, e31, e40, e41⟩ := idx_facts t
  funext j
  refine (pay_at _ _ _ _ _ j).trans ?_
  have h0 : ((cfg21.win 0).blk t).view.emb j = ((cfg21.win 5).blk t).view.emb j := by
    funext a; apply Fin.ext
    match a with
    | ⟨0, _⟩ => show win21_0.index t (0 : Fin 2) * 5000 + 1 * (j 0).val = win21_5.index t (0 : Fin 2) * 5000 + 1 * (j 0).val; rw [e00, e50]
    | ⟨1, _⟩ => show win21_0.index t (1 : Fin 2) * 64 + 1 * (j 1).val = win21_5.index t (1 : Fin 2) * 64 + 1 * (j 1).val; rw [e01, e51]
  have h1 : ((cfg21.win 1).blk t).view.emb (ix2 0 (j 1)) = (ix2 (0 : Fin 1) ((((cfg21.win 5).blk t).view.emb j) 1) : S1x64.Idx) := by
    funext a; apply Fin.ext
    match a with
    | ⟨0, _⟩ => show win21_1.index t (0 : Fin 2) * 1 + 1 * 0 = 0; rw [e10]
    | ⟨1, _⟩ => show win21_1.index t (1 : Fin 2) * 64 + 1 * (j 1).val = win21_5.index t (1 : Fin 2) * 64 + 1 * (j 1).val; rw [e11, e51]
  have h2 : ((cfg21.win 2).blk t).view.emb (ix2 0 (j 1)) = (ix2 (0 : Fin 1) ((((cfg21.win 5).blk t).view.emb j) 1) : S1x64.Idx) := by
    funext a; apply Fin.ext
    match a with
    | ⟨0, _⟩ => show win21_2.index t (0 : Fin 2) * 1 + 1 * 0 = 0; rw [e20]
    | ⟨1, _⟩ => show win21_2.index t (1 : Fin 2) * 64 + 1 * (j 1).val = win21_5.index t (1 : Fin 2) * 64 + 1 * (j 1).val; rw [e21, e51]
  have h3 : ((cfg21.win 3).blk t).view.emb (ix2 0 (j 1)) = (ix2 (0 : Fin 1) ((((cfg21.win 5).blk t).view.emb j) 1) : S1x64.Idx) := by
    funext a; apply Fin.ext
    match a with
    | ⟨0, _⟩ => show win21_3.index t (0 : Fin 2) * 1 + 1 * 0 = 0; rw [e30]
    | ⟨1, _⟩ => show win21_3.index t (1 : Fin 2) * 64 + 1 * (j 1).val = win21_5.index t (1 : Fin 2) * 64 + 1 * (j 1).val; rw [e31, e51]
  have h4 : ((cfg21.win 4).blk t).view.emb (ix2 0 (j 1)) = (ix2 (0 : Fin 1) ((((cfg21.win 5).blk t).view.emb j) 1) : S1x64.Idx) := by
    funext a; apply Fin.ext
    match a with
    | ⟨0, _⟩ => show win21_4.index t (0 : Fin 2) * 1 + 1 * 0 = 0; rw [e40]
    | ⟨1, _⟩ => show win21_4.index t (1 : Fin 2) * 64 + 1 * (j 1).val = win21_5.index t (1 : Fin 2) * 64 + 1 * (j 1).val; rw [e41, e51]
  show max (γ (((cfg21.win 3).blk t).view.emb (ix2 0 (j 1)))
        * (z (((cfg21.win 0).blk t).view.emb j) - mean (((cfg21.win 1).blk t).view.emb (ix2 0 (j 1))))
        * Ideal.rsqrt (var (((cfg21.win 2).blk t).view.emb (ix2 0 (j 1))) + Ideal.ofBits .f32 0x3727C5AC#32)
      + β (((cfg21.win 4).blk t).view.emb (ix2 0 (j 1)))) 0
    = normRelu z mean var γ β (Ideal.ofBits .f32 0x3727C5AC#32) (((cfg21.win 5).blk t).view.emb j)
  rw [h0, h1, h2, h3, h4]
  rfl

/-- An index of the output array is in point `t`'s block iff each coordinate is in the block's range on its axis. -/
theorem mem_blk (t : Fin cfg21.N) (i : S50000x64.Idx) :
    i ∈ ((cfg21.win 5).blk t).view.set ↔ ∀ a : Fin 2, win21_5.index t a * S5000x64.size a ≤ (i a).val
      ∧ (i a).val < win21_5.index t a * S5000x64.size a + S5000x64.size a := by
  show i ∈ ((View.whole main_v263).slice (win21_5.rect t)).set ↔ _
  rw [View.set_slice_whole, Rect.mem_set_unit]
  exact Iff.rfl

/-- THE COVER: row `r` of the output lies in the block of grid point `r / 5000`, which writes its block back. -/
theorem cover (i : S50000x64.Idx) :
    ∃ t : Fin cfg21.N, (cfg21.win 5).flush t = true ∧ i ∈ ((cfg21.win 5).blk t).view.set := by
  have hi0 : (i 0).val < 50000 := (i 0).isLt
  have hi1 : (i 1).val < 64 := (i 1).isLt
  have hN : cfg21.N = 10 := N_21
  have ht : (i 0).val / 5000 < cfg21.N := by rw [hN]; omega
  obtain ⟨e50, e51, -⟩ := idx_facts ⟨(i 0).val / 5000, ht⟩
  refine ⟨⟨(i 0).val / 5000, ht⟩, flush21_5 _, ?_⟩
  rw [mem_blk]
  intro a
  match a with
  | ⟨0, _⟩ =>
    show win21_5.index ⟨(i 0).val / 5000, ht⟩ (0 : Fin 2) * 5000 ≤ (i 0).val
      ∧ (i 0).val < win21_5.index ⟨(i 0).val / 5000, ht⟩ (0 : Fin 2) * 5000 + 5000
    rw [e50]
    show (i 0).val / 5000 * 5000 ≤ (i 0).val ∧ (i 0).val < (i 0).val / 5000 * 5000 + 5000
    omega
  | ⟨1, _⟩ =>
    show win21_5.index ⟨(i 0).val / 5000, ht⟩ (1 : Fin 2) * 64 ≤ (i 1).val
      ∧ (i 1).val < win21_5.index ⟨(i 0).val / 5000, ht⟩ (1 : Fin 2) * 64 + 64
    rw [e51]
    omega

/-- WHAT POINT `t` WRITES BACK is block `t` of `normRelu` of the five arrays as the region finds them: the body's one
    store fills the whole staging buffer with its arithmetic on the five blocks at `t`. -/
theorem flushed_eq (c : Dev nD) (t : Fin cfg21.N) :
    (dat21 (F := Ideal) V c).flushed 5 t = ((cfg21.win 5).blk t).view.read (Elt Ideal)
      (normRelu (n := 50000) (d := 64) (V c (Pipeline.arrRef spec21 0)) (V c (Pipeline.arrRef spec21 1))
        (V c (Pipeline.arrRef spec21 2)) (V c (Pipeline.arrRef spec21 3)) (V c (Pipeline.arrRef spec21 4))
        (Ideal.ofBits .f32 0x3727C5AC#32)) := by
  show (cfg21.win 5).cut (grid21.coords t) ((dat21 (F := Ideal) V c).after 5 t) = _
  rw [after21_5]
  unfold out21_5
  rw [View.canon_unit_zero hz]
  simp only [View.ld_unit_zero (S := S5000x64) hz, View.ld_unit_zero (S := S1x64) hz]
  unfold iblk21
  exact block_eq t (V c (Pipeline.arrRef spec21 0)) (V c (Pipeline.arrRef spec21 1)) (V c (Pipeline.arrRef spec21 2))
    (V c (Pipeline.arrRef spec21 3)) (V c (Pipeline.arrRef spec21 4))

/-- THE OUTPUT ARRAY after the region: `normRelu` of the five arrays as the region finds them. -/
theorem out (c : Dev nD) :
    (dat21 (F := Ideal) V c).arrAt 5 cfg21.N
      = normRelu (n := 50000) (d := 64) (V c (Pipeline.arrRef spec21 0)) (V c (Pipeline.arrRef spec21 1))
          (V c (Pipeline.arrRef spec21 2)) (V c (Pipeline.arrRef spec21 3)) (V c (Pipeline.arrRef spec21 4))
          (Ideal.ofBits .f32 0x3727C5AC#32) :=
  (dat21 (F := Ideal) V c).arrAt_eq_of_cover 5 _ (fun t _ => flushed_eq V c t) cover

end Cert.GIN.Reg21

end
-- ==== Proof.Reg22Pay.lean ====
/-
  Region 22 (the second dense layer's product with its batch statistics), the arithmetic of one grid point at the
  ideal instance, entry by entry.

  The body forms the product block `z_t = h_t · w` of the point's 5000-row block of `h` with the whole of `w`
  (a product into a zero accumulator; the change of float format before it is the identity on extended reals),
  and adds to each of the two statistics rows the column sums of `z_t`, respectively of its squares: at column
  `j` the row holding `v` becomes `v j + Σ_p z_t (p, j)`, respectively `v j + Σ_p z_t (p, j)²`.  The rows a
  first point starts from are zero.
-/
import proofs.«177653_j8959301779747_1_alg».proof.Proof.LibPlainDot
import proofs.«177653_j8959301779747_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.ValueIdx

namespace Cert.GIN.Reg22
open Cert.KernelIdeal Cert.KernelIdeal.Gen

/-- The product block at entry `(p, j)`: the sum over the 64 contracted columns. -/
theorem pay3_apply (x0 : Vec Ideal S5000x64 .f32) (x1 : Vec Ideal S64x128 .f32) (p : Fin 5000) (j : Fin 128) :
    k22_pay3 (F := Ideal) x0 x1 (ix2 p j) = ∑ q : Fin 64, x0 (ix2 p q) * x1 (ix2 q j) := by
  unfold k22_pay3
  refine (Cert.PlainDot.matmul_zero_ix2 dot_S5000x64_S64x128_S5000x128_1_0_0_1_n_n rfl none _ _ p j).trans ?_
  refine Finset.sum_congr rfl fun q _ => ?_
  rw [truncf_apply, truncf_apply, shapeCast_self, shapeCast_self]

/-- Column `j` of the reduced row, with row `k` inserted on the summed axis, is entry `(k, j)` of the block. -/
theorem lift_eq (j : Fin 128) (k : Fin 5000) : reduces_S5000x128_S128.lift (ix1 j) k = ix2 k j := by
  funext a
  apply Fin.ext
  match a with
  | ⟨0, _⟩ => rfl
  | ⟨1, _⟩ => rfl

/-- The sum of a 5000×128 block over its rows, kept as a 1×128 row: at column `j` the sum of the block's column `j`. -/
theorem rowsum_apply (src : FVec Ideal S5000x128 .f32) (j : Fin 128) :
    shapeCast S1x128 (multiReduction (F := Ideal) .add [0] S128 src 0x00000000#32 reduces_S5000x128_S128 (.inl rfl) rfl)
        shapeCasts_S128_S1x128 (ix2 0 j)
      = ∑ p : Fin 5000, src (ix2 p j) := by
  refine (shapeCast_apply _ shapeCasts_S128_S1x128 (ix2 0 j) (ix1 j) ?_).trans ?_
  · rw [Shape.rowMajor_val_two, Shape.rowMajor_val_one]; show j.val = 0 * 128 + j.val; omega
  refine (Ideal.multiReduction_add_single src 0x00000000#32 reduces_S5000x128_S128 (.inl rfl) rfl (ix1 j)).trans ?_
  exact Finset.sum_congr rfl fun p _ => congrArg src (lift_eq j p)

/-- The first statistics row after a point that found it holding `v`: `v j` plus column `j`'s sum of the product block. -/
theorem pay4_apply (x0 : Vec Ideal S5000x64 .f32) (x1 : Vec Ideal S64x128 .f32) (v : Vec Ideal S1x128 .f32) (j : Fin 128) :
    k22_pay4 (F := Ideal) x0 x1 v (ix2 0 j) = v (ix2 0 j) + ∑ p : Fin 5000, k22_pay3 (F := Ideal) x0 x1 (ix2 p j) := by
  unfold k22_pay4
  refine (addf_apply _ _ _).trans ?_
  rw [shapeCast_self]
  exact congrArg (v (ix2 0 j) + ·) (rowsum_apply _ j)

/-- The second statistics row likewise, with the squares of the product block's entries. -/
theorem pay5_apply (x0 : Vec Ideal S5000x64 .f32) (x1 : Vec Ideal S64x128 .f32) (v : Vec Ideal S1x128 .f32) (j : Fin 128) :
    k22_pay5 (F := Ideal) x0 x1 v (ix2 0 j)
      = v (ix2 0 j) + ∑ p : Fin 5000, k22_pay3 (F := Ideal) x0 x1 (ix2 p j) * k22_pay3 (F := Ideal) x0 x1 (ix2 p j) := by
  unfold k22_pay5
  refine (addf_apply _ _ _).trans ?_
  rw [shapeCast_self]
  exact congrArg (v (ix2 0 j) + ·) (rowsum_apply _ j)

/-- The row the first point stores into the first statistics row before accumulating: zero. -/
theorem pay1_apply (i : S1x128.Idx) : k22_pay1 (F := Ideal) i = 0 := by
  unfold k22_pay1
  show Ideal.ofBits .f32 0x00000000#32 = 0
  exact Ideal.ofBits_zero_f32

/-- And into the second: zero. -/
theorem pay2_apply (i : S1x128.Idx) : k22_pay2 (F := Ideal) i = 0 := by
  unfold k22_pay2
  show Ideal.ofBits .f32 0x00000000#32 = 0
  exact Ideal.ofBits_zero_f32

end Cert.GIN.Reg22

end
-- ==== Proof.Reg22Pieces.lean ====
/-
  Region 22, what one run of the body leaves in each output's staging buffer, as values of the body's arithmetic.

  At a first point (the condition holds) the body zeroes both statistics rows, stores the product block, and then
  replaces each statistics row by the row plus the block's column sums (of the entries, of their squares): what
  it leaves are the product payload and the two accumulation payloads applied to the zero rows.  At any other point
  the same, applied to the rows the point before left.  Each output's pieces are whole-buffer stores, so the last
  store's payload is what the buffer holds; a row read back after the zeroing store reads that store's payload.
-/
import proofs.«177653_j8959301779747_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.GIN.Reg22
open Cert.KernelIdeal Cert.KernelIdeal.Gen

variable {F : FTy → Type} [FloatOps F]

theorem hz : (![0, 0] : Fin 2 → Nat) = fun _ => 0 := funext fun a => by fin_cases a <;> rfl

/-- Any other point, the product output: the product payload of the two input blocks. -/
theorem out_B_2 (c : Dev nD) (i : grid22.Coords) (a1 : Memref sig .tc .vmem S5000x64 .f32) (h1 : a1.IsWhole)
    (a2 : Memref sig .tc .vmem S64x128 .f32) (h2 : a2.IsWhole) (a3 : Memref sig .tc .vmem S5000x128 .f32) (h3 : a3.IsWhole)
    (a4 : Memref sig .tc .vmem S1x128 .f32) (h4 : a4.IsWhole) (a5 : Memref sig .tc .vmem S1x128 .f32) (h5 : a5.IsWhole)
    (hc : ¬cond22_0 i) (x0 : Vec F S5000x64 .f32) (x1 : Vec F S64x128 .f32) (xo3 xo4 : Vec F S1x128 .f32) :
    out22_B_2 c i a1 h1 a2 h2 a3 h3 a4 h4 a5 h5 hc x0 x1 xo3 xo4 = k22_pay3 x0 x1 := by
  unfold out22_B_2
  rw [View.read_writes_eq_canon _ _ _ (cover22_B_2 c i a1 h1 a2 h2 a3 h3 a4 h4 a5 h5 hc x0 x1 xo3 xo4)]
  unfold kernelRun22_B
  dsimp only
  sl_unfold_words
  rw [View.canon_unit_zero hz]
  simp only [View.readAt_eq_ld, h1.read_unread, h2.read_unread, View.ld_unit_zero (S := S5000x64) hz,
    View.ld_unit_zero (S := S64x128) hz]

/-- Any other point, the first statistics row: the accumulation payload of the row the point before left. -/
theorem out_B_3 (c : Dev nD) (i : grid22.Coords) (a1 : Memref sig .tc .vmem S5000x64 .f32) (h1 : a1.IsWhole)
    (a2 : Memref sig .tc .vmem S64x128 .f32) (h2 : a2.IsWhole) (a3 : Memref sig .tc .vmem S5000x128 .f32) (h3 : a3.IsWhole)
    (a4 : Memref sig .tc .vmem S1x128 .f32) (h4 : a4.IsWhole) (a5 : Memref sig .tc .vmem S1x128 .f32) (h5 : a5.IsWhole)
    (hc : ¬cond22_0 i) (x0 : Vec F S5000x64 .f32) (x1 : Vec F S64x128 .f32) (xo3 xo4 : Vec F S1x128 .f32) :
    out22_B_3 c i a1 h1 a2 h2 a3 h3 a4 h4 a5 h5 hc x0 x1 xo3 xo4 = k22_pay4 x0 x1 xo3 := by
  unfold out22_B_3
  rw [View.read_writes_eq_canon _ _ _ (cover22_B_3 c i a1 h1 a2 h2 a3 h3 a4 h4 a5 h5 hc x0 x1 xo3 xo4)]
  unfold kernelRun22_B
  dsimp only
  sl_unfold_words
  rw [View.canon_unit_zero hz]
  simp only [View.readAt_eq_ld, h1.read_unread, h2.read_unread, h4.read_unread, View.ld_unit_zero (S := S5000x64) hz,
    View.ld_unit_zero (S := S64x128) hz, View.ld_unit_zero (S := S1x128) hz]

/-- Any other point, the second statistics row. -/
theorem out_B_4 (c : Dev nD) (i : grid22.Coords) (a1 : Memref sig .tc .vmem S5000x64 .f32) (h1 : a1.IsWhole)
    (a2 : Memref sig .tc .vmem S64x128 .f32) (h2 : a2.IsWhole) (a3 : Memref sig .tc .vmem S5000x128 .f32) (h3 : a3.IsWhole)
    (a4 : Memref sig .tc .vmem S1x128 .f32) (h4 : a4.IsWhole) (a5 : Memref sig .tc .vmem S1x128 .f32) (h5 : a5.IsWhole)
    (hc : ¬cond22_0 i) (x0 : Vec F S5000x64 .f32) (x1 : Vec F S64x128 .f32) (xo3 xo4 : Vec F S1x128 .f32) :
    out22_B_4 c i a1 h1 a2 h2 a3 h3 a4 h4 a5 h5 hc x0 x1 xo3 xo4 = k22_pay5 x0 x1 xo4 := by
  unfold out22_B_4
  rw [View.read_writes_eq_canon _ _ _ (cover22_B_4 c i a1 h1 a2 h2 a3 h3 a4 h4 a5 h5 hc x0 x1 xo3 xo4)]
  unfold kernelRun22_B
  dsimp only
  sl_unfold_words
  rw [View.canon_unit_zero hz]
  simp only [View.readAt_eq_ld, h1.read_unread, h2.read_unread, h5.read_unread, View.ld_unit_zero (S := S5000x64) hz,
    View.ld_unit_zero (S := S64x128) hz, View.ld_unit_zero (S := S1x128) hz]

/-- A first point, the product output. -/
theorem out_A_2 (c : Dev nD) (i : grid22.Coords) (a1 : Memref sig .tc .vmem S5000x64 .f32) (h1 : a1.IsWhole)
    (a2 : Memref sig .tc .vmem S64x128 .f32) (h2 : a2.IsWhole) (a3 : Memref sig .tc .vmem S5000x128 .f32) (h3 : a3.IsWhole)
    (a4 : Memref sig .tc .vmem S1x128 .f32) (h4 : a4.IsWhole) (a5 : Memref sig .tc .vmem S1x128 .f32) (h5 : a5.IsWhole)
    (hc : cond22_0 i) (x0 : Vec F S5000x64 .f32) (x1 : Vec F S64x128 .f32) :
    out22_A_2 c i a1 h1 a2 h2 a3 h3 a4 h4 a5 h5 hc x0 x1 = k22_pay3 x0 x1 := by
  unfold out22_A_2
  rw [View.read_writes_eq_canon _ _ _ (cover22_A_2 c i a1 h1 a2 h2 a3 h3 a4 h4 a5 h5 hc x0 x1)]
  unfold kernelRun22_A
  dsimp only
  sl_unfold_words
  rw [View.canon_unit_zero hz]
  simp only [View.readAt_eq_ld, h1.read_unread, h2.read_unread, View.ld_unit_zero (S := S5000x64) hz,
    View.ld_unit_zero (S := S64x128) hz]

/-- A first point, the first statistics row: the accumulation payload of the zero row just stored. -/
theorem out_A_3 (c : Dev nD) (i : grid22.Coords) (a1 : Memref sig .tc .vmem S5000x64 .f32) (h1 : a1.IsWhole)
    (a2 : Memref sig .tc .vmem S64x128 .f32) (h2 : a2.IsWhole) (a3 : Memref sig .tc .vmem S5000x128 .f32) (h3 : a3.IsWhole)
    (a4 : Memref sig .tc .vmem S1x128 .f32) (h4 : a4.IsWhole) (a5 : Memref sig .tc .vmem S1x128 .f32) (h5 : a5.IsWhole)
    (hc : cond22_0 i) (x0 : Vec F S5000x64 .f32) (x1 : Vec F S64x128 .f32) :
    out22_A_3 c i a1 h1 a2 h2 a3 h3 a4 h4 a5 h5 hc x0 x1 = k22_pay4 x0 x1 k22_pay1 := by
  unfold out22_A_3
  rw [View.read_writes_eq_canon _ _ _ (cover22_A_3 c i a1 h1 a2 h2 a3 h3 a4 h4 a5 h5 hc x0 x1)]
  unfold kernelRun22_A
  dsimp only
  sl_unfold_words
  rw [View.canon_cons_unit_zero (S := S1x128) hz, View.readCov_unit_zero (S := S1x128) _ hz]
  simp only [View.readAt_eq_ld, h1.read_unread, h2.read_unread, View.ld_unit_zero (S := S5000x64) hz,
    View.ld_unit_zero (S := S64x128) hz]

/-- A first point, the second statistics row. -/
theorem out_A_4 (c : Dev nD) (i : grid22.Coords) (a1 : Memref sig .tc .vmem S5000x64 .f32) (h1 : a1.IsWhole)
    (a2 : Memref sig .tc .vmem S64x128 .f32) (h2 : a2.IsWhole) (a3 : Memref sig .tc .vmem S5000x128 .f32) (h3 : a3.IsWhole)
    (a4 : Memref sig .tc .vmem S1x128 .f32) (h4 : a4.IsWhole) (a5 : Memref sig .tc .vmem S1x128 .f32) (h5 : a5.IsWhole)
    (hc : cond22_0 i) (x0 : Vec F S5000x64 .f32) (x1 : Vec F S64x128 .f32) :
    out22_A_4 c i a1 h1 a2 h2 a3 h3 a4 h4 a5 h5 hc x0 x1 = k22_pay5 x0 x1 k22_pay2 := by
  unfold out22_A_4
  rw [View.read_writes_eq_canon _ _ _ (cover22_A_4 c i a1 h1 a2 h2 a3 h3 a4 h4 a5 h5 hc x0 x1)]
  unfold kernelRun22_A
  dsimp only
  sl_unfold_words
  rw [View.canon_cons_unit_zero (S := S1x128) hz, View.readCov_unit_zero (S := S1x128) _ hz]
  simp only [View.readAt_eq_ld, h1.read_unread, h2.read_unread, View.ld_unit_zero (S := S5000x64) hz,
    View.ld_unit_zero (S := S64x128) hz]

end Cert.GIN.Reg22

end
-- ==== Proof.Reg22.lean ====
/-
  Region 22 (the second dense layer's product with its batch statistics) at the ideal instance: its three result
  arrays as whole-array functions of the two operand arrays `h` [50000, 64] and `w` [64, 128] the region finds.

  The grid has ten points; point `t` reads rows `5000 t … 5000 t + 4999` of `h` and all of `w`, and writes the
  same rows of the product `z = h · w`: the ten blocks tile the rows (row `r` belongs to point `r / 5000`), so the
  product array ends holding `mm h w`.  The two statistics rows have one block that never moves and is written
  back after the last point only; the first point zeroes them and every point adds its tile's column sums, so
  after point `n` they hold the sums over tiles `0 … n` of the tile's column sums (of `z`, of its squares) — by
  induction on the point — and after the last point the tiled column sums `colSum z`, `colSumSq z`.
-/
import proofs.«177653_j8959301779747_1_alg».proof.Proof.Spec
import proofs.«177653_j8959301779747_1_alg».proof.Proof.Reg22Pay
import proofs.«177653_j8959301779747_1_alg».proof.Proof.Reg22Pieces
import proofs.«177653_j8959301779747_1_alg».proof.Proof.Gen.KernelIdeal.Frame
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.GIN.Reg22
open Cert.KernelIdeal Cert.KernelIdeal.Gen Cert.GIN

/-! ## Tile sums -/

/-- The sum of column `j` over the rows of tile `t` (rows `5000 t` to `5000 t + 4999`); zero past the tenth tile. -/
def tileSum {d : Nat} (z : Mat 50000 d) (t : ℕ) (j : Fin d) : EReal :=
  if h : t < 10 then ∑ p : Fin 5000, z (ix2 ⟨5000 * t + p.val, by omega⟩ j) else 0

/-- The tiled column sum is the sum of the ten tile sums. -/
theorem colSum_eq_range {d : Nat} (z : Mat 50000 d) (i : (⟨2, ![1, d]⟩ : Shape).Idx) :
    colSum z i = ∑ t ∈ Finset.range 10, tileSum z t (i 1) := by
  rw [Finset.sum_range]
  unfold colSum
  refine Finset.sum_congr rfl fun t _ => ?_
  unfold tileSum
  rw [dif_pos t.isLt]

/-! ## The operands and the blocks the points read -/

variable (V : (c : Dev nD) → (b : Ref sig .tc) → Buf (Elt Ideal) ((c : Thread nD τ).loc b)) (c : Dev nD)

/-- The left operand array as the region finds it. -/
abbrev H : Mat 50000 64 := V c (Pipeline.arrRef spec22 0)
/-- The right operand array as the region finds it. -/
abbrev Wt : Mat 64 128 := V c (Pipeline.arrRef spec22 1)
/-- Their product. -/
abbrev Z : Mat 50000 128 := mm (H V c) (Wt V c)
/-- Its entrywise square. -/
abbrev Zsq : Mat 50000 128 := fun i => Z V c i * Z V c i

/-- The printed index maps, decided over the grid: the left operand's and the product's block index is the point
    on the row axis and zero on the column axis; the right operand's and the statistics rows' are zero. -/
theorem idx_facts : ∀ t : Fin cfg22.N,
    win22_0.index t (0 : Fin 2) = t.val ∧ win22_0.index t (1 : Fin 2) = 0
    ∧ win22_1.index t (0 : Fin 2) = 0 ∧ win22_1.index t (1 : Fin 2) = 0
    ∧ win22_2.index t (0 : Fin 2) = t.val ∧ win22_2.index t (1 : Fin 2) = 0
    ∧ win22_3.index t (0 : Fin 2) = 0 ∧ win22_3.index t (1 : Fin 2) = 0
    ∧ win22_4.index t (0 : Fin 2) = 0 ∧ win22_4.index t (1 : Fin 2) = 0 :=
  (by decide +kernel : ∀ t : Fin grid22.N, _)

theorem lt10 (t : Fin cfg22.N) : t.val < 10 := lt_of_lt_of_eq t.isLt (show cfg22.N = 10 from N_22)

/-- Entry `(p, q)` of the left operand's block at point `t` is entry `(5000 t + p, q)` of the array. -/
theorem blk0_apply (t : Fin cfg22.N) (p : Fin 5000) (q : Fin 64) (r : Fin 50000) (hr : r.val = 5000 * t.val + p.val) :
    (iblk22 V c 0 t : Vec Ideal S5000x64 .f32) (ix2 p q) = H V c (ix2 r q) := by
  obtain ⟨e0, e1, -⟩ := idx_facts t
  unfold iblk22
  rw [View.read_apply]
  show V c (Pipeline.arrRef spec22 0) (((cfg22.win 0).blk t).view.emb (ix2 p q)) = V c (Pipeline.arrRef spec22 0) (ix2 r q)
  congr 1
  funext a
  apply Fin.ext
  match a with
  | ⟨0, _⟩ => show win22_0.index t (0 : Fin 2) * 5000 + 1 * p.val = r.val; omega
  | ⟨1, _⟩ => show win22_0.index t (1 : Fin 2) * 64 + 1 * q.val = q.val; omega

/-- The right operand's block at every point is the whole array. -/
theorem blk1_apply (t : Fin cfg22.N) (q : Fin 64) (j : Fin 128) :
    (iblk22 V c 1 t : Vec Ideal S64x128 .f32) (ix2 q j) = Wt V c (ix2 q j) := by
  obtain ⟨-, -, e0, e1, -⟩ := idx_facts t
  unfold iblk22
  rw [View.read_apply]
  show V c (Pipeline.arrRef spec22 1) (((cfg22.win 1).blk t).view.emb (ix2 q j)) = V c (Pipeline.arrRef spec22 1) (ix2 q j)
  congr 1
  funext a
  apply Fin.ext
  match a with
  | ⟨0, _⟩ => show win22_1.index t (0 : Fin 2) * 64 + 1 * q.val = q.val; omega
  | ⟨1, _⟩ => show win22_1.index t (1 : Fin 2) * 128 + 1 * j.val = j.val; omega

/-- So entry `(p, j)` of the product block of point `t` is entry `(5000 t + p, j)` of the product of the arrays. -/
theorem zblk_apply (t : Fin cfg22.N) (p : Fin 5000) (j : Fin 128) (r : Fin 50000) (hr : r.val = 5000 * t.val + p.val) :
    k22_pay3 (F := Ideal) (iblk22 V c 0 t) (iblk22 V c 1 t) (ix2 p j) = Z V c (ix2 r j) := by
  refine (pay3_apply (iblk22 V c 0 t) (iblk22 V c 1 t) p j).trans ?_
  show _ = ∑ q : Fin 64, H V c (ix2 r q) * Wt V c (ix2 q j)
  refine Finset.sum_congr rfl fun q _ => ?_
  rw [blk0_apply V c t p q r hr, blk1_apply V c t q j]

/-- The product block's column `j`, summed over its rows, is tile `t`'s sum of column `j` of the product. -/
theorem zblk_sum (t : Fin cfg22.N) (j : Fin 128) :
    ∑ p : Fin 5000, k22_pay3 (F := Ideal) (iblk22 V c 0 t) (iblk22 V c 1 t) (ix2 p j) = tileSum (Z V c) t.val j := by
  have h10 := lt10 t
  unfold tileSum
  rw [dif_pos h10]
  exact Finset.sum_congr rfl fun p _ => zblk_apply V c t p j ⟨5000 * t.val + p.val, by omega⟩ rfl

/-- Likewise for the squares. -/
theorem zblk_sumsq (t : Fin cfg22.N) (j : Fin 128) :
    ∑ p : Fin 5000, k22_pay3 (F := Ideal) (iblk22 V c 0 t) (iblk22 V c 1 t) (ix2 p j)
        * k22_pay3 (F := Ideal) (iblk22 V c 0 t) (iblk22 V c 1 t) (ix2 p j) = tileSum (Zsq V c) t.val j := by
  have h10 := lt10 t
  unfold tileSum
  rw [dif_pos h10]
  refine Finset.sum_congr rfl fun p _ => ?_
  rw [zblk_apply V c t p j ⟨5000 * t.val + p.val, by omega⟩ rfl]

/-! ## What the outputs' staging buffers hold after each point -/

/-- After a first point: the product block, and the two accumulations from the zero rows. -/
theorem outs_A (t : Fin cfg22.N) (h0 : t.val % 10 = 0) :
    (outsAt22 V c t.val t.isLt).1 = k22_pay3 (F := Ideal) (iblk22 V c 0 t) (iblk22 V c 1 t)
    ∧ (outsAt22 V c t.val t.isLt).2.1 = k22_pay4 (F := Ideal) (iblk22 V c 0 t) (iblk22 V c 1 t) (k22_pay1 (F := Ideal))
    ∧ (outsAt22 V c t.val t.isLt).2.2 = k22_pay5 (F := Ideal) (iblk22 V c 0 t) (iblk22 V c 1 t) (k22_pay2 (F := Ideal)) := by
  rw [outsAt22_A V c t h0]
  dsimp only
  exact ⟨out_A_2 (F := Ideal) c (grid22.coords t) (ms22_0 t) (hs22_0 t) (ms22_1 t) (hs22_1 t) (ms22_2 t) (hs22_2 t) (ms22_3 t) (hs22_3 t) (ms22_4 t) (hs22_4 t) ((hcond22_0 t).mpr h0) (iblk22 V c 0 t) (iblk22 V c 1 t),
    out_A_3 (F := Ideal) c (grid22.coords t) (ms22_0 t) (hs22_0 t) (ms22_1 t) (hs22_1 t) (ms22_2 t) (hs22_2 t) (ms22_3 t) (hs22_3 t) (ms22_4 t) (hs22_4 t) ((hcond22_0 t).mpr h0) (iblk22 V c 0 t) (iblk22 V c 1 t),
    out_A_4 (F := Ideal) c (grid22.coords t) (ms22_0 t) (hs22_0 t) (ms22_1 t) (hs22_1 t) (ms22_2 t) (hs22_2 t) (ms22_3 t) (hs22_3 t) (ms22_4 t) (hs22_4 t) ((hcond22_0 t).mpr h0) (iblk22 V c 0 t) (iblk22 V c 1 t)⟩

/-- After any other point: the product block, and the two accumulations from the rows the point before left. -/
theorem outs_B (t : Fin cfg22.N) (h0 : ¬t.val % 10 = 0) :
    (outsAt22 V c t.val t.isLt).1 = k22_pay3 (F := Ideal) (iblk22 V c 0 t) (iblk22 V c 1 t)
    ∧ (outsAt22 V c t.val t.isLt).2.1 = k22_pay4 (F := Ideal) (iblk22 V c 0 t) (iblk22 V c 1 t)
        (outsAt22 V c (t.val - 1) (Nat.lt_of_le_of_lt (Nat.sub_le _ _) t.isLt)).2.1
    ∧ (outsAt22 V c t.val t.isLt).2.2 = k22_pay5 (F := Ideal) (iblk22 V c 0 t) (iblk22 V c 1 t)
        (outsAt22 V c (t.val - 1) (Nat.lt_of_le_of_lt (Nat.sub_le _ _) t.isLt)).2.2 := by
  rw [outsAt22_B V c t h0]
  dsimp only
  exact ⟨out_B_2 (F := Ideal) c (grid22.coords t) (ms22_0 t) (hs22_0 t) (ms22_1 t) (hs22_1 t) (ms22_2 t) (hs22_2 t) (ms22_3 t) (hs22_3 t) (ms22_4 t) (hs22_4 t) (fun h => h0 ((hcond22_0 t).mp h)) (iblk22 V c 0 t) (iblk22 V c 1 t) _ _,
    out_B_3 (F := Ideal) c (grid22.coords t) (ms22_0 t) (hs22_0 t) (ms22_1 t) (hs22_1 t) (ms22_2 t) (hs22_2 t) (ms22_3 t) (hs22_3 t) (ms22_4 t) (hs22_4 t) (fun h => h0 ((hcond22_0 t).mp h)) (iblk22 V c 0 t) (iblk22 V c 1 t) _ _,
    out_B_4 (F := Ideal) c (grid22.coords t) (ms22_0 t) (hs22_0 t) (ms22_1 t) (hs22_1 t) (ms22_2 t) (hs22_2 t) (ms22_3 t) (hs22_3 t) (ms22_4 t) (hs22_4 t) (fun h => h0 ((hcond22_0 t).mp h)) (iblk22 V c 0 t) (iblk22 V c 1 t) _ _⟩

/-- The product output's buffer after point `t`: the product block of the point. -/
theorem outs_z (t : Fin cfg22.N) :
    (outsAt22 V c t.val t.isLt).1 = k22_pay3 (F := Ideal) (iblk22 V c 0 t) (iblk22 V c 1 t) := by
  by_cases h0 : t.val % 10 = 0
  · exact (outs_A V c t h0).1
  · exact (outs_B V c t h0).1

/-- The statistics rows after point `n`: the sums over tiles `0 … n` of the tile's column sums of the product, and of
    its squares — by induction on the point. -/
theorem outs_acc : ∀ (n : ℕ) (h : n < cfg22.N) (j : Fin 128),
    (outsAt22 V c n h).2.1 (ix2 0 j) = ∑ t ∈ Finset.range (n + 1), tileSum (Z V c) t j
    ∧ (outsAt22 V c n h).2.2 (ix2 0 j) = ∑ t ∈ Finset.range (n + 1), tileSum (Zsq V c) t j
  | 0, h, j => by
    have e1 : (outsAt22 V c 0 h).2.1 = k22_pay4 (F := Ideal) (iblk22 V c 0 ⟨0, h⟩) (iblk22 V c 1 ⟨0, h⟩) (k22_pay1 (F := Ideal)) :=
      (outs_A V c ⟨0, h⟩ rfl).2.1
    have e2 : (outsAt22 V c 0 h).2.2 = k22_pay5 (F := Ideal) (iblk22 V c 0 ⟨0, h⟩) (iblk22 V c 1 ⟨0, h⟩) (k22_pay2 (F := Ideal)) :=
      (outs_A V c ⟨0, h⟩ rfl).2.2
    constructor
    · rw [e1, pay4_apply (iblk22 V c 0 ⟨0, h⟩) (iblk22 V c 1 ⟨0, h⟩) (k22_pay1 (F := Ideal)) j, pay1_apply, zero_add, zblk_sum V c ⟨0, h⟩ j,
        Finset.sum_range_succ, Finset.range_zero, Finset.sum_empty, zero_add]
    · rw [e2, pay5_apply (iblk22 V c 0 ⟨0, h⟩) (iblk22 V c 1 ⟨0, h⟩) (k22_pay2 (F := Ideal)) j, pay2_apply, zero_add, zblk_sumsq V c ⟨0, h⟩ j,
        Finset.sum_range_succ, Finset.range_zero, Finset.sum_empty, zero_add]
  | n + 1, h, j => by
    have hN : cfg22.N = 10 := N_22
    have hB : ¬(⟨n + 1, h⟩ : Fin cfg22.N).val % 10 = 0 := by dsimp only; omega
    have e1 : (outsAt22 V c (n + 1) h).2.1 = k22_pay4 (F := Ideal) (iblk22 V c 0 ⟨n + 1, h⟩) (iblk22 V c 1 ⟨n + 1, h⟩)
        (outsAt22 V c n (Nat.lt_of_succ_lt h)).2.1 := (outs_B V c ⟨n + 1, h⟩ hB).2.1
    have e2 : (outsAt22 V c (n + 1) h).2.2 = k22_pay5 (F := Ideal) (iblk22 V c 0 ⟨n + 1, h⟩) (iblk22 V c 1 ⟨n + 1, h⟩)
        (outsAt22 V c n (Nat.lt_of_succ_lt h)).2.2 := (outs_B V c ⟨n + 1, h⟩ hB).2.2
    have ih := outs_acc n (Nat.lt_of_succ_lt h) j
    constructor
    · rw [e1, pay4_apply (iblk22 V c 0 ⟨n + 1, h⟩) (iblk22 V c 1 ⟨n + 1, h⟩) _ j, zblk_sum V c ⟨n + 1, h⟩ j, Finset.sum_range_succ, ih.1]
    · rw [e2, pay5_apply (iblk22 V c 0 ⟨n + 1, h⟩) (iblk22 V c 1 ⟨n + 1, h⟩) _ j, zblk_sumsq V c ⟨n + 1, h⟩ j, Finset.sum_range_succ, ih.2]

/-! ## The write-backs -/

/-- What point `t` writes back of the product output is block `t` of the product of the arrays. -/
theorem flushed_z (t : Fin cfg22.N) :
    (dat22 V c).flushed 2 t = ((cfg22.win 2).blk t).view.read (Elt Ideal) (Z V c) := by
  obtain ⟨-, -, -, -, e0, e1, -⟩ := idx_facts t
  have h10 := lt10 t
  show (cfg22.win 2).cut (grid22.coords t) ((dat22 V c).after 2 t) = _
  rw [after22_2, outs_z]
  funext y
  obtain ⟨p, j, rfl⟩ : ∃ (p : Fin 5000) (j : Fin 128), y = ix2 p j := ⟨y 0, y 1, eq_ix2 y⟩
  rw [View.read_apply]
  show k22_pay3 (F := Ideal) (iblk22 V c 0 t) (iblk22 V c 1 t) (ix2 p j) = Z V c (((cfg22.win 2).blk t).view.emb (ix2 p j))
  refine (zblk_apply V c t p j ⟨5000 * t.val + p.val, by omega⟩ rfl).trans (congrArg (Z V c) ?_)
  funext a
  apply Fin.ext
  match a with
  | ⟨0, _⟩ => show 5000 * t.val + p.val = win22_2.index t (0 : Fin 2) * 5000 + 1 * p.val; omega
  | ⟨1, _⟩ => show j.val = win22_2.index t (1 : Fin 2) * 128 + 1 * j.val; omega

/-- An index of the product array is in point `t`'s block iff each coordinate is in the block's range. -/
theorem mem_blk_z (t : Fin cfg22.N) (i : S50000x128.Idx) :
    i ∈ ((cfg22.win 2).blk t).view.set ↔ ∀ a : Fin 2, win22_2.index t a * S5000x128.size a ≤ (i a).val
      ∧ (i a).val < win22_2.index t a * S5000x128.size a + S5000x128.size a := by
  show i ∈ ((View.whole main_v266_0).slice (win22_2.rect t)).set ↔ _
  rw [View.set_slice_whole, Rect.mem_set_unit]
  exact Iff.rfl

/-- Every row of the product array is in the block of the point its tile names. -/
theorem cover_z (i : S50000x128.Idx) :
    ∃ t : Fin cfg22.N, (cfg22.win 2).flush t = true ∧ i ∈ ((cfg22.win 2).blk t).view.set := by
  have hN : cfg22.N = 10 := N_22
  have hi0 : (i 0).val < 50000 := (i 0).isLt
  have hi1 : (i 1).val < 128 := (i 1).isLt
  refine ⟨⟨(i 0).val / 5000, by omega⟩, flush22_2 _, ?_⟩
  obtain ⟨-, -, -, -, e0, e1, -⟩ := idx_facts ⟨(i 0).val / 5000, by omega⟩
  rw [mem_blk_z]
  intro a
  match a with
  | ⟨0, _⟩ =>
    show win22_2.index _ (0 : Fin 2) * 5000 ≤ (i 0).val ∧ (i 0).val < win22_2.index _ (0 : Fin 2) * 5000 + 5000
    rw [e0]; dsimp only; omega
  | ⟨1, _⟩ =>
    show win22_2.index _ (1 : Fin 2) * 128 ≤ (i 1).val ∧ (i 1).val < win22_2.index _ (1 : Fin 2) * 128 + 128
    rw [e1]; omega

/-- The product array after the run: the product of the operand arrays. -/
theorem z : (dat22 (F := Ideal) V c).arrAt 2 cfg22.N
    = mm (n := 50000) (k := 64) (d := 128) (V c (Pipeline.arrRef spec22 0)) (V c (Pipeline.arrRef spec22 1)) :=
  (dat22 V c).arrAt_eq_of_cover 2 (Z V c) (fun t _ => flushed_z V c t) cover_z

/-- What the last point writes back of the first statistics row is the tiled column sum of the product. -/
theorem flushed_s (t : Fin cfg22.N) (hf : (cfg22.win 3).flush t = true) :
    (dat22 V c).flushed 3 t = ((cfg22.win 3).blk t).view.read (Elt Ideal) (colSum (Z V c)) := by
  obtain ⟨-, -, -, -, -, -, e0, e1, -⟩ := idx_facts t
  have h9 : t.val = 9 := by have := (flush22_3 t).mp hf; have := lt10 t; omega
  show (cfg22.win 3).cut (grid22.coords t) ((dat22 V c).after 3 t) = _
  rw [after22_3]
  funext y
  obtain ⟨j0, j, rfl⟩ : ∃ (j0 : Fin 1) (j : Fin 128), y = ix2 j0 j := ⟨y 0, y 1, eq_ix2 y⟩
  obtain rfl : j0 = 0 := Subsingleton.elim _ _
  rw [View.read_apply]
  show (outsAt22 V c t.val t.isLt).2.1 (ix2 0 j) = colSum (Z V c) (((cfg22.win 3).blk t).view.emb (ix2 0 j))
  rw [(outs_acc V c t.val t.isLt j).1, colSum_eq_range, h9]
  refine Finset.sum_congr rfl fun t' _ => congrArg (tileSum (Z V c) t') (Fin.ext ?_)
  show j.val = win22_3.index t (1 : Fin 2) * 128 + 1 * j.val
  omega

/-- And of the second, of the product's squares. -/
theorem flushed_ss (t : Fin cfg22.N) (hf : (cfg22.win 4).flush t = true) :
    (dat22 V c).flushed 4 t = ((cfg22.win 4).blk t).view.read (Elt Ideal) (colSumSq (Z V c)) := by
  obtain ⟨-, -, -, -, -, -, -, -, e0, e1⟩ := idx_facts t
  have h9 : t.val = 9 := by have := (flush22_4 t).mp hf; have := lt10 t; omega
  show (cfg22.win 4).cut (grid22.coords t) ((dat22 V c).after 4 t) = _
  rw [after22_4]
  funext y
  obtain ⟨j0, j, rfl⟩ : ∃ (j0 : Fin 1) (j : Fin 128), y = ix2 j0 j := ⟨y 0, y 1, eq_ix2 y⟩
  obtain rfl : j0 = 0 := Subsingleton.elim _ _
  rw [View.read_apply]
  show (outsAt22 V c t.val t.isLt).2.2 (ix2 0 j) = colSum (Zsq V c) (((cfg22.win 4).blk t).view.emb (ix2 0 j))
  rw [(outs_acc V c t.val t.isLt j).2, colSum_eq_range, h9]
  refine Finset.sum_congr rfl fun t' _ => congrArg (tileSum (Zsq V c) t') (Fin.ext ?_)
  show j.val = win22_4.index t (1 : Fin 2) * 128 + 1 * j.val
  omega

/-- The one block of a statistics row is the whole row: the last point's write-back covers it. -/
theorem cover_s (i : S1x128.Idx) :
    ∃ t : Fin cfg22.N, (cfg22.win 3).flush t = true ∧ i ∈ ((cfg22.win 3).blk t).view.set := by
  obtain ⟨-, -, -, -, -, -, e0, e1, -⟩ := idx_facts t22_9
  have h0 : (i 0).val < 1 := (i 0).isLt
  have h1 : (i 1).val < 128 := (i 1).isLt
  refine ⟨t22_9, (flush22_3 t22_9).mpr rfl, ?_⟩
  show i ∈ ((View.whole main_v266_1).slice (win22_3.rect t22_9)).set
  rw [View.set_slice_whole, Rect.mem_set_unit]
  intro a
  match a with
  | ⟨0, _⟩ =>
    show win22_3.index t22_9 (0 : Fin 2) * 1 ≤ (i 0).val ∧ (i 0).val < win22_3.index t22_9 (0 : Fin 2) * 1 + 1
    omega
  | ⟨1, _⟩ =>
    show win22_3.index t22_9 (1 : Fin 2) * 128 ≤ (i 1).val ∧ (i 1).val < win22_3.index t22_9 (1 : Fin 2) * 128 + 128
    omega

theorem cover_ss (i : S1x128.Idx) :
    ∃ t : Fin cfg22.N, (cfg22.win 4).flush t = true ∧ i ∈ ((cfg22.win 4).blk t).view.set := by
  obtain ⟨-, -, -, -, -, -, -, -, e0, e1⟩ := idx_facts t22_9
  have h0 : (i 0).val < 1 := (i 0).isLt
  have h1 : (i 1).val < 128 := (i 1).isLt
  refine ⟨t22_9, (flush22_4 t22_9).mpr rfl, ?_⟩
  show i ∈ ((View.whole main_v266_2).slice (win22_4.rect t22_9)).set
  rw [View.set_slice_whole, Rect.mem_set_unit]
  intro a
  match a with
  | ⟨0, _⟩ =>
    show win22_4.index t22_9 (0 : Fin 2) * 1 ≤ (i 0).val ∧ (i 0).val < win22_4.index t22_9 (0 : Fin 2) * 1 + 1
    omega
  | ⟨1, _⟩ =>
    show win22_4.index t22_9 (1 : Fin 2) * 128 ≤ (i 1).val ∧ (i 1).val < win22_4.index t22_9 (1 : Fin 2) * 128 + 128
    omega

/-- The first statistics array after the run: the tiled column sums of the product. -/
theorem s : (dat22 (F := Ideal) V c).arrAt 3 cfg22.N
    = colSum (mm (n := 50000) (k := 64) (d := 128) (V c (Pipeline.arrRef spec22 0)) (V c (Pipeline.arrRef spec22 1))) :=
  (dat22 V c).arrAt_eq_of_cover 3 (colSum (Z V c)) (flushed_s V c) cover_s

/-- The second: the tiled column sums of its squares. -/
theorem ss : (dat22 (F := Ideal) V c).arrAt 4 cfg22.N
    = colSumSq (mm (n := 50000) (k := 64) (d := 128) (V c (Pipeline.arrRef spec22 0)) (V c (Pipeline.arrRef spec22 1))) :=
  (dat22 V c).arrAt_eq_of_cover 4 (colSumSq (Z V c)) (flushed_ss V c) cover_ss

end Cert.GIN.Reg22

end
-- ==== Proof.Reg23.lean ====
/-
  Region 23: the normalisation-and-rectifier map on a matrix of 50000 rows and 128 columns.

  The region visits ten grid points.  At point `t` it reads rows `5000·t … 5000·t + 4999` of the matrix `z` and the
  whole of the four rows `mean`, `var`, `γ`, `β` (each `[1, 128]`, the same block at every point), and writes the same
  rows of the output.  Entry `(p, q)` of what it writes is
  `max (γ q · (z (5000·t + p, q) − mean q) · rsqrt (var q + eps) + β q) 0`: each row vector is read at column `q` of
  its one row, whatever `p` is.  So the block point `t` writes is block `t` of ONE function of the five arrays,
  `normRelu z mean var γ β eps`, and since the ten blocks cover all 50000 rows (row `r` lies in block `r / 5000`),
  the output array ends holding that function.
-/
import proofs.«177653_j8959301779747_1_alg».proof.Proof.Spec
import proofs.«177653_j8959301779747_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

noncomputable section

namespace Cert.GIN.Reg23

open Cert.KernelIdeal Cert.KernelIdeal.Gen Cert.GIN
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The zero offsets of a block read or written whole. -/
theorem hz : (![0, 0] : Fin 2 → Nat) = fun _ => 0 := funext fun a => by fin_cases a <;> rfl

/-- The body's arithmetic at entry `(p, q)` of a block: the row vectors are read at column `q` of their one row, the
    rectifier's zero word is the number zero. -/
theorem pay_apply (x0 : Vec Ideal S5000x128 .f32) (x1 x2 x3 x4 : Vec Ideal S1x128 .f32) (p : Fin 5000) (q : Fin 128) :
    k23_pay1 x0 x1 x2 x3 x4 (ix2 p q)
      = max (x3 (ix2 0 q) * (x0 (ix2 p q) - x1 (ix2 0 q)) * Ideal.rsqrt (x2 (ix2 0 q) + Ideal.ofBits .f32 0x3727C5AC#32)
          + x4 (ix2 0 q)) 0 := by
  unfold k23_pay1
  simp only [shapeCast_self]
  rw [maximumf_apply, addf_apply, mulf_apply, mulf_apply, subf_apply, broadcast_apply,
    broadcastTo_1b_ab_apply, broadcastTo_1b_ab_apply, broadcastTo_1b_ab_apply, broadcastTo_1b_ab_apply]
  show max (x3 (ix2 0 q) * (x0 (ix2 p q) - x1 (ix2 0 q)) * Ideal.rsqrt (x2 (ix2 0 q) + Ideal.ofBits .f32 0x3727C5AC#32)
      + x4 (ix2 0 q)) (Ideal.ofBits .f32 0x00000000#32) = _
  rw [Ideal.ofBits_zero_f32]

/-- The same at any index of the block. -/
theorem pay_at (x0 : Vec Ideal S5000x128 .f32) (x1 x2 x3 x4 : Vec Ideal S1x128 .f32) (j : S5000x128.Idx) :
    k23_pay1 x0 x1 x2 x3 x4 j
      = max (x3 (ix2 0 (j 1)) * (x0 j - x1 (ix2 0 (j 1))) * Ideal.rsqrt (x2 (ix2 0 (j 1)) + Ideal.ofBits .f32 0x3727C5AC#32)
          + x4 (ix2 0 (j 1))) 0 := by
  obtain ⟨p, q, rfl⟩ : ∃ (p : Fin 5000) (q : Fin 128), j = ix2 p q := ⟨j 0, j 1, eq_ix2 j⟩
  exact pay_apply x0 x1 x2 x3 x4 p q

/-- The block indices, decided over the ten grid points: the matrix and the output move together down the rows, one
    block per point; the four row vectors stay at their one block. -/
theorem idx_facts : ∀ t : Fin cfg23.N,
    win23_5.index t (0 : Fin 2) = t.val ∧ win23_5.index t (1 : Fin 2) = 0
    ∧ win23_0.index t (0 : Fin 2) = t.val ∧ win23_0.index t (1 : Fin 2) = 0
    ∧ win23_1.index t (0 : Fin 2) = 0 ∧ win23_1.index t (1 : Fin 2) = 0
    ∧ win23_2.index t (0 : Fin 2) = 0 ∧ win23_2.index t (1 : Fin 2) = 0
    ∧ win23_3.index t (0 : Fin 2) = 0 ∧ win23_3.index t (1 : Fin 2) = 0
    ∧ win23_4.index t (0 : Fin 2) = 0 ∧ win23_4.index t (1 : Fin 2) = 0 :=
  (by decide +kernel : ∀ t : Fin grid23.N, _)

/-- THE BLOCK EQUATION at a symbolic grid point `t`: the body's arithmetic on the five blocks at `t` is block `t` of
    `normRelu` of the five arrays.  Entry `j` of the block of `z` and of the output sit at the same place of their
    arrays (row `5000·t + j 0`, column `j 1`), and entry `(0, j 1)` of each row vector's one block is entry `(0, j 1)`
    of the row vector. -/
theorem block_eq (t : Fin cfg23.N) (z : Mat 50000 128) (mean var γ β : Mat 1 128) :
    k23_pay1 (((cfg23.win 0).blk t).view.read (Elt Ideal) z) (((cfg23.win 1).blk t).view.read (Elt Ideal) mean)
        (((cfg23.win 2).blk t).view.read (Elt Ideal) var) (((cfg23.win 3).blk t).view.read (Elt Ideal) γ)
        (((cfg23.win 4).blk t).view.read (Elt Ideal) β)
      = ((cfg23.win 5).blk t).view.read (Elt Ideal) (normRelu z mean var γ β (Ideal.ofBits .f32 0x3727C5AC#32)) := by
  obtain ⟨e50, e51, e00, e01, e10, e11, e20, e21, e30, e31, e40, e41⟩ := idx_facts t
  funext j
  refine (pay_at _ _ _ _ _ j).trans ?_
  have h0 : ((cfg23.win 0).blk t).view.emb j = ((cfg23.win 5).blk t).view.emb j := by
    funext a; apply Fin.ext
    match a with
    | ⟨0, _⟩ => show win23_0.index t (0 : Fin 2) * 5000 + 1 * (j 0).val = win23_5.index t (0 : Fin 2) * 5000 + 1 * (j 0).val; rw [e00, e50]
    | ⟨1, _⟩ => show win23_0.index t (1 : Fin 2) * 128 + 1 * (j 1).val = win23_5.index t (1 : Fin 2) * 128 + 1 * (j 1).val; rw [e01, e51]
  have h1 : ((cfg23.win 1).blk t).view.emb (ix2 0 (j 1)) = (ix2 (0 : Fin 1) ((((cfg23.win 5).blk t).view.emb j) 1) : S1x128.Idx) := by
    funext a; apply Fin.ext
    match a with
    | ⟨0, _⟩ => show win23_1.index t (0 : Fin 2) * 1 + 1 * 0 = 0; rw [e10]
    | ⟨1, _⟩ => show win23_1.index t (1 : Fin 2) * 128 + 1 * (j 1).val = win23_5.index t (1 : Fin 2) * 128 + 1 * (j 1).val; rw [e11, e51]
  have h2 : ((cfg23.win 2).blk t).view.emb (ix2 0 (j 1)) = (ix2 (0 : Fin 1) ((((cfg23.win 5).blk t).view.emb j) 1) : S1x128.Idx) := by
    funext a; apply Fin.ext
    match a with
    | ⟨0, _⟩ => show win23_2.index t (0 : Fin 2) * 1 + 1 * 0 = 0; rw [e20]
    | ⟨1, _⟩ => show win23_2.index t (1 : Fin 2) * 128 + 1 * (j 1).val = win23_5.index t (1 : Fin 2) * 128 + 1 * (j 1).val; rw [e21, e51]
  have h3 : ((cfg23.win 3).blk t).view.emb (ix2 0 (j 1)) = (ix2 (0 : Fin 1) ((((cfg23.win 5).blk t).view.emb j) 1) : S1x128.Idx) := by
    funext a; apply Fin.ext
    match a with
    | ⟨0, _⟩ => show win23_3.index t (0 : Fin 2) * 1 + 1 * 0 = 0; rw [e30]
    | ⟨1, _⟩ => show win23_3.index t (1 : Fin 2) * 128 + 1 * (j 1).val = win23_5.index t (1 : Fin 2) * 128 + 1 * (j 1).val; rw [e31, e51]
  have h4 : ((cfg23.win 4).blk t).view.emb (ix2 0 (j 1)) = (ix2 (0 : Fin 1) ((((cfg23.win 5).blk t).view.emb j) 1) : S1x128.Idx) := by
    funext a; apply Fin.ext
    match a with
    | ⟨0, _⟩ => show win23_4.index t (0 : Fin 2) * 1 + 1 * 0 = 0; rw [e40]
    | ⟨1, _⟩ => show win23_4.index t (1 : Fin 2) * 128 + 1 * (j 1).val = win23_5.index t (1 : Fin 2) * 128 + 1 * (j 1).val; rw [e41, e51]
  show max (γ (((cfg23.win 3).blk t).view.emb (ix2 0 (j 1)))
        * (z (((cfg23.win 0).blk t).view.emb j) - mean (((cfg23.win 1).blk t).view.emb (ix2 0 (j 1))))
        * Ideal.rsqrt (var (((cfg23.win 2).blk t).view.emb (ix2 0 (j 1))) + Ideal.ofBits .f32 0x3727C5AC#32)
      + β (((cfg23.win 4).blk t).view.emb (ix2 0 (j 1)))) 0
    = normRelu z mean var γ β (Ideal.ofBits .f32 0x3727C5AC#32) (((cfg23.win 5).blk t).view.emb j)
  rw [h0, h1, h2, h3, h4]
  rfl

/-- An index of the output array is in point `t`'s block iff each coordinate is in the block's range on its axis. -/
theorem mem_blk (t : Fin cfg23.N) (i : S50000x128.Idx) :
    i ∈ ((cfg23.win 5).blk t).view.set ↔ ∀ a : Fin 2, win23_5.index t a * S5000x128.size a ≤ (i a).val
      ∧ (i a).val < win23_5.index t a * S5000x128.size a + S5000x128.size a := by
  show i ∈ ((View.whole main_v279).slice (win23_5.rect t)).set ↔ _
  rw [View.set_slice_whole, Rect.mem_set_unit]
  exact Iff.rfl

/-- THE COVER: row `r` of the output lies in the block of grid point `r / 5000`, which writes its block back. -/
theorem cover (i : S50000x128.Idx) :
    ∃ t : Fin cfg23.N, (cfg23.win 5).flush t = true ∧ i ∈ ((cfg23.win 5).blk t).view.set := by
  have hi0 : (i 0).val < 50000 := (i 0).isLt
  have hi1 : (i 1).val < 128 := (i 1).isLt
  have hN : cfg23.N = 10 := N_23
  have ht : (i 0).val / 5000 < cfg23.N := by rw [hN]; omega
  obtain ⟨e50, e51, -⟩ := idx_facts ⟨(i 0).val / 5000, ht⟩
  refine ⟨⟨(i 0).val / 5000, ht⟩, flush23_5 _, ?_⟩
  rw [mem_blk]
  intro a
  match a with
  | ⟨0, _⟩ =>
    show win23_5.index ⟨(i 0).val / 5000, ht⟩ (0 : Fin 2) * 5000 ≤ (i 0).val
      ∧ (i 0).val < win23_5.index ⟨(i 0).val / 5000, ht⟩ (0 : Fin 2) * 5000 + 5000
    rw [e50]
    show (i 0).val / 5000 * 5000 ≤ (i 0).val ∧ (i 0).val < (i 0).val / 5000 * 5000 + 5000
    omega
  | ⟨1, _⟩ =>
    show win23_5.index ⟨(i 0).val / 5000, ht⟩ (1 : Fin 2) * 128 ≤ (i 1).val
      ∧ (i 1).val < win23_5.index ⟨(i 0).val / 5000, ht⟩ (1 : Fin 2) * 128 + 128
    rw [e51]
    omega

/-- WHAT POINT `t` WRITES BACK is block `t` of `normRelu` of the five arrays as the region finds them: the body's one
    store fills the whole staging buffer with its arithmetic on the five blocks at `t`. -/
theorem flushed_eq (c : Dev nD) (t : Fin cfg23.N) :
    (dat23 (F := Ideal) V c).flushed 5 t = ((cfg23.win 5).blk t).view.read (Elt Ideal)
      (normRelu (n := 50000) (d := 128) (V c (Pipeline.arrRef spec23 0)) (V c (Pipeline.arrRef spec23 1))
        (V c (Pipeline.arrRef spec23 2)) (V c (Pipeline.arrRef spec23 3)) (V c (Pipeline.arrRef spec23 4))
        (Ideal.ofBits .f32 0x3727C5AC#32)) := by
  show (cfg23.win 5).cut (grid23.coords t) ((dat23 (F := Ideal) V c).after 5 t) = _
  rw [after23_5]
  unfold out23_5
  rw [View.canon_unit_zero hz]
  simp only [View.ld_unit_zero (S := S5000x128) hz, View.ld_unit_zero (S := S1x128) hz]
  unfold iblk23
  exact block_eq t (V c (Pipeline.arrRef spec23 0)) (V c (Pipeline.arrRef spec23 1)) (V c (Pipeline.arrRef spec23 2))
    (V c (Pipeline.arrRef spec23 3)) (V c (Pipeline.arrRef spec23 4))

/-- THE OUTPUT ARRAY after the region: `normRelu` of the five arrays as the region finds them. -/
theorem out (c : Dev nD) :
    (dat23 (F := Ideal) V c).arrAt 5 cfg23.N
      = normRelu (n := 50000) (d := 128) (V c (Pipeline.arrRef spec23 0)) (V c (Pipeline.arrRef spec23 1))
          (V c (Pipeline.arrRef spec23 2)) (V c (Pipeline.arrRef spec23 3)) (V c (Pipeline.arrRef spec23 4))
          (Ideal.ofBits .f32 0x3727C5AC#32) :=
  (dat23 (F := Ideal) V c).arrAt_eq_of_cover 5 _ (fun t _ => flushed_eq V c t) cover

end Cert.GIN.Reg23

end
-- ==== Proof.Wire5.lean ====
/-
  The wiring of layer 5: what each input window of regions 20–23 holds when its region is entered.

  Each window's array is either an argument as launched, an earlier region's output array, or the value of the host
  operations that precede the region applied to such arrays; every equation below names which, with the host
  operations written out as the composition the program applies.
-/
import proofs.«177653_j8959301779747_1_alg».proof.Proof.WireKeep
import proofs.«177653_j8959301779747_1_alg».proof.Proof.Wire0

set_option maxRecDepth 16384

noncomputable section

namespace Cert.GIN.K

open Cert.KernelIdeal Cert.KernelIdeal.Gen
open Idealize.ShloMosaic Idealize.ShloMosaic.TcCoe Idealize.ShloMosaic.Tactic
open Idealize.ShloMosaic.Pipeline (Dat Cfg Window cellOf)

variable {F : FTy → Type} [FloatOps F]

variable (m : (ℓ : Loc nD τ sig) → Buf (Elt F) ℓ) (ρ : Dev nD → PrngReg)

/-! ## Region 20 -/

/-- Region 20, input window 0 (the array `main_v233`) at the region's entry: region 19's output array 5, which the host operations in between do not write. -/
theorem wire_20_0 (c : Dev nD) : V41 m ρ c (Pipeline.arrRef spec20 0) = (dat19 (V39 m ρ) c).arrAt 5 cfg19.N :=
  (host20_keep m ρ c main_v233 (by decide)).trans (W40_arr m ρ c 5)

set_option maxHeartbeats 2000000 in
/-- Region 20, input window 1 (the array `main_v243`) at the region's entry: the value the host operations before the region compute for it, written out down to the launch contents of the arguments and the earlier regions' output arrays. -/
theorem wire_20_1 (c : Dev nD) : V41 m ρ c (Pipeline.arrRef spec20 1) =
    (Host.scatterAdd scatter_S50000x128_S800000x1_S800000x128_1_0_0_1 (((broadcastInDim S50000x128 ![] bcast_S_S50000x128 : (⟨S_, .f32⟩ : BufTy).Contents (Elt F) → (⟨S50000x128, .f32⟩ : BufTy).Contents (Elt F)) (constant S_ .f32 0x00000000#32 : (⟨S_, .f32⟩ : BufTy).Contents (Elt F))) : (⟨S50000x128, .f32⟩ : BufTy).Contents (Elt F)) (((broadcastInDim S800000x1 ![0] bcast_S800000_S800000x1_0 : (⟨S800000, .i32⟩ : BufTy).Contents (Elt F) → (⟨S800000x1, .i32⟩ : BufTy).Contents (Elt F)) (shapeCast S800000 (extractStridedSlice S1x800000 ![1, 0] ((m ((c : Thread nD τ).loc main_arg1)) : (⟨S2x800000, .i32⟩ : BufTy).Contents (Elt F)) slices_S2x800000_S1x800000_1_0) shapeCasts_S1x800000_S800000)) : (⟨S800000x1, .i32⟩ : BufTy).Contents (Elt F)) ((Host.gather gather_S50000x128_S800000x1_S800000x128_1_0_n_n_0_1_1128 (((dat19 (V39 m ρ) c).arrAt 5 cfg19.N) : (⟨S50000x128, .f32⟩ : BufTy).Contents (Elt F)) (((broadcastInDim S800000x1 ![0] bcast_S800000_S800000x1_0 : (⟨S800000, .i32⟩ : BufTy).Contents (Elt F) → (⟨S800000x1, .i32⟩ : BufTy).Contents (Elt F)) ((select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) ((cmpi .slt : (⟨S800000, .i32⟩ : BufTy).Contents (Elt F) → (⟨S800000, .i32⟩ : BufTy).Contents (Elt F) → (⟨S800000, .i1⟩ : BufTy).Contents (Elt F)) (shapeCast S800000 (extractStridedSlice S1x800000 ![0, 0] ((m ((c : Thread nD τ).loc main_arg1)) : (⟨S2x800000, .i32⟩ : BufTy).Contents (Elt F)) slices_S2x800000_S1x800000_0_0) shapeCasts_S1x800000_S800000) ((broadcastInDim S800000 ![] bcast_S_S800000 : (⟨S_, .i32⟩ : BufTy).Contents (Elt F) → (⟨S800000, .i32⟩ : BufTy).Contents (Elt F)) (constantI S_ 32 0#32 : (⟨S_, .i32⟩ : BufTy).Contents (Elt F)))) ((addi : (⟨S800000, .i32⟩ : BufTy).Contents (Elt F) → (⟨S800000, .i32⟩ : BufTy).Contents (Elt F) → (⟨S800000, .i32⟩ : BufTy).Contents (Elt F)) (shapeCast S800000 (extractStridedSlice S1x800000 ![0, 0] ((m ((c : Thread nD τ).loc main_arg1)) : (⟨S2x800000, .i32⟩ : BufTy).Contents (Elt F)) slices_S2x800000_S1x800000_0_0) shapeCasts_S1x800000_S800000) ((broadcastInDim S800000 ![] bcast_S_S800000 : (⟨S_, .i32⟩ : BufTy).Contents (Elt F) → (⟨S800000, .i32⟩ : BufTy).Contents (Elt F)) (constantI S_ 32 50000#32 : (⟨S_, .i32⟩ : BufTy).Contents (Elt F)))) (shapeCast S800000 (extractStridedSlice S1x800000 ![0, 0] ((m ((c : Thread nD τ).loc main_arg1)) : (⟨S2x800000, .i32⟩ : BufTy).Contents (Elt F)) slices_S2x800000_S1x800000_0_0) shapeCasts_S1x800000_S800000))) : (⟨S800000x1, .i32⟩ : BufTy).Contents (Elt F))) : (⟨S800000x128, .f32⟩ : BufTy).Contents (Elt F))) := by
  show StableHlo.after hostOps20 (W40 m ρ c) (Proc.devRef .tc main_v243) = _
  after_results
  rw [at_v3_40 m ρ c, wire_v3 m ρ c, (W40_arr m ρ c 5 : W40 m ρ c (Proc.devRef .tc main_v233) = _), at_v1_40 m ρ c, wire_v1 m ρ c]
  all_goals rfl

set_option maxHeartbeats 2000000 in
/-- Region 20, input window 2 (the array `main_v247`) at the region's entry: the value the host operations before the region compute for it, written out down to the launch contents of the arguments and the earlier regions' output arrays. -/
theorem wire_20_2 (c : Dev nD) : V41 m ρ c (Pipeline.arrRef spec20 2) =
    (shapeCast S1x1 ((addf : (⟨S_, .f32⟩ : BufTy).Contents (Elt F) → (⟨S_, .f32⟩ : BufTy).Contents (Elt F) → (⟨S_, .f32⟩ : BufTy).Contents (Elt F)) (constant S_ .f32 0x3F800000#32 : (⟨S_, .f32⟩ : BufTy).Contents (Elt F)) (shapeCast S_ (extractStridedSlice S1 ![5] ((m ((c : Thread nD τ).loc main_arg11)) : (⟨S7, .f32⟩ : BufTy).Contents (Elt F)) slices_S7_S1_5) shapeCasts_S1_S_)) shapeCasts_S_S1x1) := by
  show StableHlo.after hostOps20 (W40 m ρ c) (Proc.devRef .tc main_v247) = _
  after_results
  rw [at_arg11_40 m ρ c]
  all_goals rfl

set_option maxHeartbeats 2000000 in
/-- Region 20, input window 3 (the array `main_v249`) at the region's entry: the value the host operations before the region compute for it, written out down to the launch contents of the arguments and the earlier regions' output arrays. -/
theorem wire_20_3 (c : Dev nD) : V41 m ρ c (Pipeline.arrRef spec20 3) =
    (shapeCast S128x64 (extractStridedSlice S1x128x64 ![5, 0, 0] ((m ((c : Thread nD τ).loc main_arg4)) : (⟨S7x128x64, .f32⟩ : BufTy).Contents (Elt F)) slices_S7x128x64_S1x128x64_5_0_0) shapeCasts_S1x128x64_S128x64) := by
  show StableHlo.after hostOps20 (W40 m ρ c) (Proc.devRef .tc main_v249) = _
  after_results
  rw [at_arg4_40 m ρ c]
  all_goals rfl

/-! ## Region 21 -/

/-- Region 21, input window 0 (the array `main_v250_0`) at the region's entry: region 20's output array 4, which the host operations in between do not write. -/
theorem wire_21_0 (c : Dev nD) : V43 m ρ c (Pipeline.arrRef spec21 0) = (dat20 (V41 m ρ) c).arrAt 4 cfg20.N :=
  (host21_keep m ρ c main_v250_0 (by decide)).trans (W42_arr m ρ c 4)

set_option maxHeartbeats 2000000 in
/-- Region 21, input window 1 (the array `main_v252`) at the region's entry: the value the host operations before the region compute for it, written out down to the launch contents of the arguments and the earlier regions' output arrays. -/
theorem wire_21_1 (c : Dev nD) : V43 m ρ c (Pipeline.arrRef spec21 1) =
    ((Host.divf : (⟨S1x64, .f32⟩ : BufTy).Contents (Elt F) → (⟨S1x64, .f32⟩ : BufTy).Contents (Elt F) → (⟨S1x64, .f32⟩ : BufTy).Contents (Elt F)) ((dat20 (V41 m ρ) c).arrAt 5 cfg20.N) ((broadcastInDim S1x64 ![] bcast_S_S1x64 : (⟨S_, .f32⟩ : BufTy).Contents (Elt F) → (⟨S1x64, .f32⟩ : BufTy).Contents (Elt F)) (constant S_ .f32 0x47435000#32 : (⟨S_, .f32⟩ : BufTy).Contents (Elt F)))) := by
  show StableHlo.after hostOps21 (W42 m ρ c) (Proc.devRef .tc main_v252) = _
  after_results
  rw [(W42_arr m ρ c 5 : W42 m ρ c (Proc.devRef .tc main_v250_1) = _)]
  all_goals rfl

set_option maxHeartbeats 2000000 in
/-- Region 21, input window 2 (the array `main_v256`) at the region's entry: the value the host operations before the region compute for it, written out down to the launch contents of the arguments and the earlier regions' output arrays. -/
theorem wire_21_2 (c : Dev nD) : V43 m ρ c (Pipeline.arrRef spec21 2) =
    ((subf : (⟨S1x64, .f32⟩ : BufTy).Contents (Elt F) → (⟨S1x64, .f32⟩ : BufTy).Contents (Elt F) → (⟨S1x64, .f32⟩ : BufTy).Contents (Elt F)) ((Host.divf : (⟨S1x64, .f32⟩ : BufTy).Contents (Elt F) → (⟨S1x64, .f32⟩ : BufTy).Contents (Elt F) → (⟨S1x64, .f32⟩ : BufTy).Contents (Elt F)) ((dat20 (V41 m ρ) c).arrAt 6 cfg20.N) ((broadcastInDim S1x64 ![] bcast_S_S1x64 : (⟨S_, .f32⟩ : BufTy).Contents (Elt F) → (⟨S1x64, .f32⟩ : BufTy).Contents (Elt F)) (constant S_ .f32 0x47435000#32 : (⟨S_, .f32⟩ : BufTy).Contents (Elt F)))) ((mulf : (⟨S1x64, .f32⟩ : BufTy).Contents (Elt F) → (⟨S1x64, .f32⟩ : BufTy).Contents (Elt F) → (⟨S1x64, .f32⟩ : BufTy).Contents (Elt F)) ((Host.divf : (⟨S1x64, .f32⟩ : BufTy).Contents (Elt F) → (⟨S1x64, .f32⟩ : BufTy).Contents (Elt F) → (⟨S1x64, .f32⟩ : BufTy).Contents (Elt F)) ((dat20 (V41 m ρ) c).arrAt 5 cfg20.N) ((broadcastInDim S1x64 ![] bcast_S_S1x64 : (⟨S_, .f32⟩ : BufTy).Contents (Elt F) → (⟨S1x64, .f32⟩ : BufTy).Contents (Elt F)) (constant S_ .f32 0x47435000#32 : (⟨S_, .f32⟩ : BufTy).Contents (Elt F)))) ((Host.divf : (⟨S1x64, .f32⟩ : BufTy).Contents (Elt F) → (⟨S1x64, .f32⟩ : BufTy).Contents (Elt F) → (⟨S1x64, .f32⟩ : BufTy).Contents (Elt F)) ((dat20 (V41 m ρ) c).arrAt 5 cfg20.N) ((broadcastInDim S1x64 ![] bcast_S_S1x64 : (⟨S_, .f32⟩ : BufTy).Contents (Elt F) → (⟨S1x64, .f32⟩ : BufTy).Contents (Elt F)) (constant S_ .f32 0x47435000#32 : (⟨S_, .f32⟩ : BufTy).Contents (Elt F)))))) := by
  show StableHlo.after hostOps21 (W42 m ρ c) (Proc.devRef .tc main_v256) = _
  after_results
  rw [(W42_arr m ρ c 6 : W42 m ρ c (Proc.devRef .tc main_v250_2) = _), (W42_arr m ρ c 5 : W42 m ρ c (Proc.devRef .tc main_v250_1) = _)]
  all_goals rfl

set_option maxHeartbeats 2000000 in
/-- Region 21, input window 3 (the array `main_v259`) at the region's entry: the value the host operations before the region compute for it, written out down to the launch contents of the arguments and the earlier regions' output arrays. -/
theorem wire_21_3 (c : Dev nD) : V43 m ρ c (Pipeline.arrRef spec21 3) =
    (shapeCast S1x64 (shapeCast S64 (extractStridedSlice S1x64 ![5, 0] ((m ((c : Thread nD τ).loc main_arg5)) : (⟨S7x64, .f32⟩ : BufTy).Contents (Elt F)) slices_S7x64_S1x64_5_0) shapeCasts_S1x64_S64) shapeCasts_S64_S1x64) := by
  show StableHlo.after hostOps21 (W42 m ρ c) (Proc.devRef .tc main_v259) = _
  after_results
  rw [at_arg5_42 m ρ c]
  all_goals rfl

set_option maxHeartbeats 2000000 in
/-- Region 21, input window 4 (the array `main_v262`) at the region's entry: the value the host operations before the region compute for it, written out down to the launch contents of the arguments and the earlier regions' output arrays. -/
theorem wire_21_4 (c : Dev nD) : V43 m ρ c (Pipeline.arrRef spec21 4) =
    (shapeCast S1x64 (shapeCast S64 (extractStridedSlice S1x64 ![5, 0] ((m ((c : Thread nD τ).loc main_arg6)) : (⟨S7x64, .f32⟩ : BufTy).Contents (Elt F)) slices_S7x64_S1x64_5_0) shapeCasts_S1x64_S64) shapeCasts_S64_S1x64) := by
  show StableHlo.after hostOps21 (W42 m ρ c) (Proc.devRef .tc main_v262) = _
  after_results
  rw [at_arg6_42 m ρ c]
  all_goals rfl

/-! ## Region 22 -/

/-- Region 22, input window 0 (the array `main_v263`) at the region's entry: region 21's output array 5, which the host operations in between do not write. -/
theorem wire_22_0 (c : Dev nD) : V45 m ρ c (Pipeline.arrRef spec22 0) = (dat21 (V43 m ρ) c).arrAt 5 cfg21.N :=
  (host22_keep m ρ c main_v263 (by decide)).trans (W44_arr m ρ c 5)

set_option maxHeartbeats 2000000 in
/-- Region 22, input window 1 (the array `main_v265`) at the region's entry: the value the host operations before the region compute for it, written out down to the launch contents of the arguments and the earlier regions' output arrays. -/
theorem wire_22_1 (c : Dev nD) : V45 m ρ c (Pipeline.arrRef spec22 1) =
    (shapeCast S64x128 (extractStridedSlice S1x64x128 ![5, 0, 0] ((m ((c : Thread nD τ).loc main_arg7)) : (⟨S6x64x128, .f32⟩ : BufTy).Contents (Elt F)) slices_S6x64x128_S1x64x128_5_0_0) shapeCasts_S1x64x128_S64x128) := by
  show StableHlo.after hostOps22 (W44 m ρ c) (Proc.devRef .tc main_v265) = _
  after_results
  rw [at_arg7_44 m ρ c]
  all_goals rfl

/-! ## Region 23 -/

/-- Region 23, input window 0 (the array `main_v266_0`) at the region's entry: region 22's output array 2, which the host operations in between do not write. -/
theorem wire_23_0 (c : Dev nD) : V47 m ρ c (Pipeline.arrRef spec23 0) = (dat22 (V45 m ρ) c).arrAt 2 cfg22.N :=
  (host23_keep m ρ c main_v266_0 (by decide)).trans (W46_arr m ρ c 2)

set_option maxHeartbeats 2000000 in
/-- Region 23, input window 1 (the array `main_v268`) at the region's entry: the value the host operations before the region compute for it, written out down to the launch contents of the arguments and the earlier regions' output arrays. -/
theorem wire_23_1 (c : Dev nD) : V47 m ρ c (Pipeline.arrRef spec23 1) =
    ((Host.divf : (⟨S1x128, .f32⟩ : BufTy).Contents (Elt F) → (⟨S1x128, .f32⟩ : BufTy).Contents (Elt F) → (⟨S1x128, .f32⟩ : BufTy).Contents (Elt F)) ((dat22 (V45 m ρ) c).arrAt 3 cfg22.N) ((broadcastInDim S1x128 ![] bcast_S_S1x128 : (⟨S_, .f32⟩ : BufTy).Contents (Elt F) → (⟨S1x128, .f32⟩ : BufTy).Contents (Elt F)) (constant S_ .f32 0x47435000#32 : (⟨S_, .f32⟩ : BufTy).Contents (Elt F)))) := by
  show StableHlo.after hostOps23 (W46 m ρ c) (Proc.devRef .tc main_v268) = _
  after_results
  rw [(W46_arr m ρ c 3 : W46 m ρ c (Proc.devRef .tc main_v266_1) = _)]
  all_goals rfl

set_option maxHeartbeats 2000000 in
/-- Region 23, input window 2 (the array `main_v272`) at the region's entry: the value the host operations before the region compute for it, written out down to the launch contents of the arguments and the earlier regions' output arrays. -/
theorem wire_23_2 (c : Dev nD) : V47 m ρ c (Pipeline.arrRef spec23 2) =
    ((subf : (⟨S1x128, .f32⟩ : BufTy).Contents (Elt F) → (⟨S1x128, .f32⟩ : BufTy).Contents (Elt F) → (⟨S1x128, .f32⟩ : BufTy).Contents (Elt F)) ((Host.divf : (⟨S1x128, .f32⟩ : BufTy).Contents (Elt F) → (⟨S1x128, .f32⟩ : BufTy).Contents (Elt F) → (⟨S1x128, .f32⟩ : BufTy).Contents (Elt F)) ((dat22 (V45 m ρ) c).arrAt 4 cfg22.N) ((broadcastInDim S1x128 ![] bcast_S_S1x128 : (⟨S_, .f32⟩ : BufTy).Contents (Elt F) → (⟨S1x128, .f32⟩ : BufTy).Contents (Elt F)) (constant S_ .f32 0x47435000#32 : (⟨S_, .f32⟩ : BufTy).Contents (Elt F)))) ((mulf : (⟨S1x128, .f32⟩ : BufTy).Contents (Elt F) → (⟨S1x128, .f32⟩ : BufTy).Contents (Elt F) → (⟨S1x128, .f32⟩ : BufTy).Contents (Elt F)) ((Host.divf : (⟨S1x128, .f32⟩ : BufTy).Contents (Elt F) → (⟨S1x128, .f32⟩ : BufTy).Contents (Elt F) → (⟨S1x128, .f32⟩ : BufTy).Contents (Elt F)) ((dat22 (V45 m ρ) c).arrAt 3 cfg22.N) ((broadcastInDim S1x128 ![] bcast_S_S1x128 : (⟨S_, .f32⟩ : BufTy).Contents (Elt F) → (⟨S1x128, .f32⟩ : BufTy).Contents (Elt F)) (constant S_ .f32 0x47435000#32 : (⟨S_, .f32⟩ : BufTy).Contents (Elt F)))) ((Host.divf : (⟨S1x128, .f32⟩ : BufTy).Contents (Elt F) → (⟨S1x128, .f32⟩ : BufTy).Contents (Elt F) → (⟨S1x128, .f32⟩ : BufTy).Contents (Elt F)) ((dat22 (V45 m ρ) c).arrAt 3 cfg22.N) ((broadcastInDim S1x128 ![] bcast_S_S1x128 : (⟨S_, .f32⟩ : BufTy).Contents (Elt F) → (⟨S1x128, .f32⟩ : BufTy).Contents (Elt F)) (constant S_ .f32 0x47435000#32 : (⟨S_, .f32⟩ : BufTy).Contents (Elt F)))))) := by
  show StableHlo.after hostOps23 (W46 m ρ c) (Proc.devRef .tc main_v272) = _
  after_results
  rw [(W46_arr m ρ c 4 : W46 m ρ c (Proc.devRef .tc main_v266_2) = _), (W46_arr m ρ c 3 : W46 m ρ c (Proc.devRef .tc main_v266_1) = _)]
  all_goals rfl

set_option maxHeartbeats 2000000 in
/-- Region 23, input window 3 (the array `main_v275`) at the region's entry: the value the host operations before the region compute for it, written out down to the launch contents of the arguments and the earlier regions' output arrays. -/
theorem wire_23_3 (c : Dev nD) : V47 m ρ c (Pipeline.arrRef spec23 3) =
    (shapeCast S1x128 (shapeCast S128 (extractStridedSlice S1x128 ![5, 0] ((m ((c : Thread nD τ).loc main_arg8)) : (⟨S6x128, .f32⟩ : BufTy).Contents (Elt F)) slices_S6x128_S1x128_5_0) shapeCasts_S1x128_S128) shapeCasts_S128_S1x128) := by
  show StableHlo.after hostOps23 (W46 m ρ c) (Proc.devRef .tc main_v275) = _
  after_results
  rw [at_arg8_46 m ρ c]
  all_goals rfl

set_option maxHeartbeats 2000000 in
/-- Region 23, input window 4 (the array `main_v278`) at the region's entry: the value the host operations before the region compute for it, written out down to the launch contents of the arguments and the earlier regions' output arrays. -/
theorem wire_23_4 (c : Dev nD) : V47 m ρ c (Pipeline.arrRef spec23 4) =
    (shapeCast S1x128 (shapeCast S128 (extractStridedSlice S1x128 ![5, 0] ((m ((c : Thread nD τ).loc main_arg9)) : (⟨S6x128, .f32⟩ : BufTy).Contents (Elt F)) slices_S6x128_S1x128_5_0) shapeCasts_S1x128_S128) shapeCasts_S128_S1x128) := by
  show StableHlo.after hostOps23 (W46 m ρ c) (Proc.devRef .tc main_v278) = _
  after_results
  rw [at_arg9_46 m ρ c]
  all_goals rfl

end Cert.GIN.K

end
-- ==== Proof.KLayer5.lean ====
/-
  Layer 5 of the kernel program at the level of the specification: what its regions leave, as functions of what
  they find.  A normalisation region's output is the batch normalisation of the product region's first output,
  from the column means and uncentred variances the host arithmetic forms out of that region's two statistics rows.
-/
import proofs.«177653_j8959301779747_1_alg».proof.Proof.Reg20
import proofs.«177653_j8959301779747_1_alg».proof.Proof.Reg21
import proofs.«177653_j8959301779747_1_alg».proof.Proof.Reg22
import proofs.«177653_j8959301779747_1_alg».proof.Proof.Reg23
import proofs.«177653_j8959301779747_1_alg».proof.Proof.Wire5
import proofs.«177653_j8959301779747_1_alg».proof.Proof.KGlue

set_option maxRecDepth 16384

noncomputable section

namespace Cert.GIN.K

open Cert.KernelIdeal Cert.KernelIdeal.Gen
open Idealize.ShloMosaic Idealize.ShloMosaic.TcCoe Cert.GIN

variable (m : (ℓ : Loc nD τ sig) → Buf (Elt Ideal) ℓ) (ρ : Dev nD → PrngReg)

set_option maxHeartbeats 4000000 in
/-- The first normalisation of layer 5: batch normalisation (uncentred statistics) of `(sc · x + agg) · w1`. -/
theorem half_L5 (c : Dev nD) : (dat21 (V43 m ρ) c).arrAt 5 cfg21.N
    = bnU (mm (comb (V41 m ρ c (Pipeline.arrRef spec20 2)) (V41 m ρ c (Pipeline.arrRef spec20 0)) (V41 m ρ c (Pipeline.arrRef spec20 1))) (V41 m ρ c (Pipeline.arrRef spec20 3)))
        (V43 m ρ c (Pipeline.arrRef spec21 3)) (V43 m ρ c (Pipeline.arrRef spec21 4)) Nlit (Ideal.ofBits .f32 0x3727C5AC#32) := by
  rw [Reg21.out (V43 m ρ) c, wire_21_0 m ρ c, wire_21_1 m ρ c, wire_21_2 m ρ c]
  rw [varU_of64 _ _ _ (Reg20.s (V41 m ρ) c) (Reg20.ss (V41 m ρ) c), meanU_of64 _ _ (Reg20.s (V41 m ρ) c),
    Reg20.z (V41 m ρ) c]
  rfl

set_option maxHeartbeats 4000000 in
/-- The second normalisation of layer 5: batch normalisation of `h1 · w2`, `h1` the first one's result. -/
theorem full_L5 (c : Dev nD) : (dat23 (V47 m ρ) c).arrAt 5 cfg23.N
    = bnU (mm ((dat21 (V43 m ρ) c).arrAt 5 cfg21.N) (V45 m ρ c (Pipeline.arrRef spec22 1)))
        (V47 m ρ c (Pipeline.arrRef spec23 3)) (V47 m ρ c (Pipeline.arrRef spec23 4)) Nlit (Ideal.ofBits .f32 0x3727C5AC#32) := by
  have hz := Reg22.z (V45 m ρ) c
  have hs := Reg22.s (V45 m ρ) c
  have hss := Reg22.ss (V45 m ρ) c
  rw [wire_22_0 m ρ c] at hz hs hss
  rw [Reg23.out (V47 m ρ) c, wire_23_0 m ρ c, wire_23_1 m ρ c, wire_23_2 m ρ c]
  rw [varU_of128 _ _ _ hs hss, meanU_of128 _ _ hs, hz]
  rfl

end Cert.GIN.K

end
-- ==== Proof.Assemble5.lean ====
/-
  Layer 5 of the first program is layer 5 of the second.

  The layer's output is the uncentred-statistics block of its input, its operands being what the region windows hold
  at entry: the input itself, its neighbour sum along the edge list, the 1×1 cast of `1 + e`, and slices of the
  parameter arrays (the vectors read as one-row matrices).  With the input and the parameters real this is the second
  program's block of the same input and parameters, and real again.
-/
import proofs.«177653_j8959301779747_1_alg».proof.Proof.KLayer5
import proofs.«177653_j8959301779747_1_alg».proof.Proof.AssembleBridge
import proofs.«177653_j8959301779747_1_alg».proof.Proof.RefValueDefs
import proofs.«177653_j8959301779747_1_alg».proof.Proof.Gen.ReferenceIdeal

set_option maxRecDepth 16384

noncomputable section

namespace Cert.GIN.K

open Cert.KernelIdeal Cert.KernelIdeal.Gen
open Idealize.ShloMosaic Idealize.ShloMosaic.TcCoe Cert.GIN

variable (m : (ℓ : Loc nD τ sig) → Buf (Elt Ideal) ℓ) (ρ : Dev nD → PrngReg)

set_option maxHeartbeats 2000000 in
/-- Layer 5: from the layer's input agreeing with the second program's to its output agreeing, and real. -/
theorem step_5 (c : Dev nD)
    (reals : IsReal ((m ((c : Thread nD τ).loc main_arg0)) : FVec Ideal Cert.KernelIdeal.S50000x128 .f32)
      ∧ IsReal ((m ((c : Thread nD τ).loc main_arg4)) : FVec Ideal Cert.KernelIdeal.S7x128x64 .f32)
      ∧ IsReal ((m ((c : Thread nD τ).loc main_arg5)) : FVec Ideal Cert.KernelIdeal.S7x64 .f32)
      ∧ IsReal ((m ((c : Thread nD τ).loc main_arg6)) : FVec Ideal Cert.KernelIdeal.S7x64 .f32)
      ∧ IsReal ((m ((c : Thread nD τ).loc main_arg7)) : FVec Ideal Cert.KernelIdeal.S6x64x128 .f32)
      ∧ IsReal ((m ((c : Thread nD τ).loc main_arg8)) : FVec Ideal Cert.KernelIdeal.S6x128 .f32)
      ∧ IsReal ((m ((c : Thread nD τ).loc main_arg9)) : FVec Ideal Cert.KernelIdeal.S6x128 .f32)
      ∧ IsReal ((m ((c : Thread nD τ).loc main_arg10)) : FVec Ideal Cert.KernelIdeal.S64x2 .f32)
      ∧ IsReal ((m ((c : Thread nD τ).loc main_arg11)) : FVec Ideal Cert.KernelIdeal.S7 .f32)
      ∧ IsReal ((m ((c : Thread nD τ).loc main_arg2)) : FVec Ideal Cert.KernelIdeal.S800000 .f32))
    (hx : ((dat19 (V39 m ρ) c).arrAt 5 cfg19.N) = (Ref.X5 (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg11))))
    (hr : IsReal (Ref.X5 (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg11)))) :
    ((dat23 (V47 m ρ) c).arrAt 5 cfg23.N) = (Ref.X6 (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg11)))
      ∧ IsReal (Ref.X6 (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg11))) := by
  obtain ⟨r0, r4, r5, r6, r7, r8, r9, _, r11, _⟩ := reals
  have rx : IsReal ((dat19 (V39 m ρ) c).arrAt 5 cfg19.N) := by rw [hx]; exact hr
  have hsc : ((V41 m ρ c (Pipeline.arrRef spec20 2)) : Mat 1 1) = shapeCast Cert.KernelIdeal.S1x1
      (addf (F := Ideal) (constant (F := Ideal) Cert.KernelIdeal.S_ .f32 0x3F800000#32) (Ref.e5 (m ((c : Thread nD τ).loc main_arg11))))
      Cert.KernelIdeal.Facts₀.shapeCasts_S_S1x1 := wire_20_2 m ρ c
  have hag : ((V41 m ρ c (Pipeline.arrRef spec20 1)) : Mat 50000 128) = Ref.agg ((dat19 (V39 m ρ) c).arrAt 5 cfg19.N) (Ref.srcOf (m ((c : Thread nD τ).loc main_arg1))) (Ref.dstOf (m ((c : Thread nD τ).loc main_arg1))) :=
    (wire_20_1 m ρ c).trans rfl
  have hγ1 : ((V43 m ρ c (Pipeline.arrRef spec21 3)) : Mat 1 64) = rowV (Ref.g1_5 (m ((c : Thread nD τ).loc main_arg5))) := (wire_21_3 m ρ c).trans (row_cast64 _)
  have hβ1 : ((V43 m ρ c (Pipeline.arrRef spec21 4)) : Mat 1 64) = rowV (Ref.b1_5 (m ((c : Thread nD τ).loc main_arg6))) := (wire_21_4 m ρ c).trans (row_cast64 _)
  have hγ2 : ((V47 m ρ c (Pipeline.arrRef spec23 3)) : Mat 1 128) = rowV (Ref.g2_5 (m ((c : Thread nD τ).loc main_arg8))) := (wire_23_3 m ρ c).trans (row_cast128 _)
  have hβ2 : ((V47 m ρ c (Pipeline.arrRef spec23 4)) : Mat 1 128) = rowV (Ref.b2_5 (m ((c : Thread nD τ).loc main_arg9))) := (wire_23_4 m ρ c).trans (row_cast128 _)
  have re : IsReal (Ref.e5 (m ((c : Thread nD τ).loc main_arg11))) := isReal_cut _ _ _ _ r11
  have rw1 : IsReal (Ref.w1_5 (m ((c : Thread nD τ).loc main_arg4))) := isReal_cut _ _ _ _ r4
  have rg1 : IsReal (Ref.g1_5 (m ((c : Thread nD τ).loc main_arg5))) := isReal_cut _ _ _ _ r5
  have rb1 : IsReal (Ref.b1_5 (m ((c : Thread nD τ).loc main_arg6))) := isReal_cut _ _ _ _ r6
  have rw2 : IsReal (Ref.w2_5 (m ((c : Thread nD τ).loc main_arg7))) := isReal_cut _ _ _ _ r7
  have rg2 : IsReal (Ref.g2_5 (m ((c : Thread nD τ).loc main_arg8))) := isReal_cut _ _ _ _ r8
  have rb2 : IsReal (Ref.b2_5 (m ((c : Thread nD τ).loc main_arg9))) := isReal_cut _ _ _ _ r9
  have key := block_bridge _ _ _ _ _ _ _ _ _ _ _ _ _ _ _ _ hsc hag hγ1 hβ1 hγ2 hβ2 re rx rw1 rg1 rb1 rw2 rg2 rb2
  have h1 : ((dat23 (V47 m ρ) c).arrAt 5 cfg23.N) = Ref.block ((dat19 (V39 m ρ) c).arrAt 5 cfg19.N) (Ref.srcOf (m ((c : Thread nD τ).loc main_arg1))) (Ref.dstOf (m ((c : Thread nD τ).loc main_arg1))) (Ref.e5 (m ((c : Thread nD τ).loc main_arg11)))
        (Ref.w1_5 (m ((c : Thread nD τ).loc main_arg4))) (Ref.g1_5 (m ((c : Thread nD τ).loc main_arg5))) (Ref.b1_5 (m ((c : Thread nD τ).loc main_arg6)))
        (Ref.w2_5 (m ((c : Thread nD τ).loc main_arg7))) (Ref.g2_5 (m ((c : Thread nD τ).loc main_arg8))) (Ref.b2_5 (m ((c : Thread nD τ).loc main_arg9))) := by
    rw [full_L5 m ρ c, half_L5 m ρ c, wire_20_0 m ρ c, wire_20_3 m ρ c, wire_22_1 m ρ c]
    exact key.1
  have h2 : Ref.block ((dat19 (V39 m ρ) c).arrAt 5 cfg19.N) (Ref.srcOf (m ((c : Thread nD τ).loc main_arg1))) (Ref.dstOf (m ((c : Thread nD τ).loc main_arg1))) (Ref.e5 (m ((c : Thread nD τ).loc main_arg11)))
        (Ref.w1_5 (m ((c : Thread nD τ).loc main_arg4))) (Ref.g1_5 (m ((c : Thread nD τ).loc main_arg5))) (Ref.b1_5 (m ((c : Thread nD τ).loc main_arg6)))
        (Ref.w2_5 (m ((c : Thread nD τ).loc main_arg7))) (Ref.g2_5 (m ((c : Thread nD τ).loc main_arg8))) (Ref.b2_5 (m ((c : Thread nD τ).loc main_arg9))) = (Ref.X6 (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg11))) :=
    congrArg (fun X => Ref.block X (Ref.srcOf (m ((c : Thread nD τ).loc main_arg1))) (Ref.dstOf (m ((c : Thread nD τ).loc main_arg1))) (Ref.e5 (m ((c : Thread nD τ).loc main_arg11)))
        (Ref.w1_5 (m ((c : Thread nD τ).loc main_arg4))) (Ref.g1_5 (m ((c : Thread nD τ).loc main_arg5))) (Ref.b1_5 (m ((c : Thread nD τ).loc main_arg6)))
        (Ref.w2_5 (m ((c : Thread nD τ).loc main_arg7))) (Ref.g2_5 (m ((c : Thread nD τ).loc main_arg8))) (Ref.b2_5 (m ((c : Thread nD τ).loc main_arg9)))) hx
  refine ⟨h1.trans h2, ?_⟩
  rw [← h2]
  exact key.2

end Cert.GIN.K

end
-- ==== Proof.Reg24Pieces.lean ====
/-
  What one run of the combine–product–statistics body leaves in its three outputs, as values of what it loaded.

  The body loads the scale, the tile of node features, the tile of neighbour sums and the weights, stores the product
  tile, and stores each statistics row as the row it loaded plus the tile's column sums.  At the first grid point it
  first stores a zero row into each statistics buffer, and the row it then loads is that zero row; at every other point
  the row it loads is what the point before left.  Each output buffer is covered by whole-buffer stores, so its contents
  after the body are the last store's value.
-/
import proofs.«177653_j8959301779747_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.GIN.Reg24

open Cert.KernelIdeal Cert.KernelIdeal.Gen

variable {F : FTy → Type} [FloatOps F]

theorem hz : (![0, 0] : Fin 2 → Nat) = fun _ => 0 := funext fun a => by fin_cases a <;> rfl

/-- A later point leaves the product tile of its blocks. -/
theorem out_B_4 (c : Dev nD) (i : grid24.Coords) (a1 : Memref sig .tc .vmem S5000x128 .f32) (h1 : a1.IsWhole) (a2 : Memref sig .tc .vmem S5000x128 .f32) (h2 : a2.IsWhole) (a3 : Memref sig .tc .vmem S1x1 .f32) (h3 : a3.IsWhole) (a4 : Memref sig .tc .vmem S128x64 .f32) (h4 : a4.IsWhole) (a5 : Memref sig .tc .vmem S5000x64 .f32) (h5 : a5.IsWhole) (a6 : Memref sig .tc .vmem S1x64 .f32) (h6 : a6.IsWhole) (a7 : Memref sig .tc .vmem S1x64 .f32) (h7 : a7.IsWhole) (hc : ¬cond24_0 i) (x0 x1 : Vec F S5000x128 .f32) (x2 : Vec F S1x1 .f32) (x3 : Vec F S128x64 .f32) (xo5 xo6 : Vec F S1x64 .f32) :
    out24_B_4 c i a1 h1 a2 h2 a3 h3 a4 h4 a5 h5 a6 h6 a7 h7 hc x0 x1 x2 x3 xo5 xo6 = k24_pay3 x2 x0 x1 x3 := by
  unfold out24_B_4
  rw [View.read_writes_eq_canon _ _ _ (cover24_B_4 c i a1 h1 a2 h2 a3 h3 a4 h4 a5 h5 a6 h6 a7 h7 hc x0 x1 x2 x3 xo5 xo6)]
  unfold kernelRun24_B
  dsimp only
  sl_unfold_words
  rw [View.canon_unit_zero hz]
  simp only [View.readAt_eq_ld, h1.read_unread, h2.read_unread, h3.read_unread, h4.read_unread, h6.read_unread, h7.read_unread,
    View.ld_unit_zero (S := S5000x128) hz, View.ld_unit_zero (S := S1x1) hz, View.ld_unit_zero (S := S128x64) hz,
    View.ld_unit_zero (S := S1x64) hz]

/-- A later point leaves the column-sum row it found plus its tile's column sums. -/
theorem out_B_5 (c : Dev nD) (i : grid24.Coords) (a1 : Memref sig .tc .vmem S5000x128 .f32) (h1 : a1.IsWhole) (a2 : Memref sig .tc .vmem S5000x128 .f32) (h2 : a2.IsWhole) (a3 : Memref sig .tc .vmem S1x1 .f32) (h3 : a3.IsWhole) (a4 : Memref sig .tc .vmem S128x64 .f32) (h4 : a4.IsWhole) (a5 : Memref sig .tc .vmem S5000x64 .f32) (h5 : a5.IsWhole) (a6 : Memref sig .tc .vmem S1x64 .f32) (h6 : a6.IsWhole) (a7 : Memref sig .tc .vmem S1x64 .f32) (h7 : a7.IsWhole) (hc : ¬cond24_0 i) (x0 x1 : Vec F S5000x128 .f32) (x2 : Vec F S1x1 .f32) (x3 : Vec F S128x64 .f32) (xo5 xo6 : Vec F S1x64 .f32) :
    out24_B_5 c i a1 h1 a2 h2 a3 h3 a4 h4 a5 h5 a6 h6 a7 h7 hc x0 x1 x2 x3 xo5 xo6 = k24_pay4 x2 x0 x1 x3 xo5 := by
  unfold out24_B_5
  rw [View.read_writes_eq_canon _ _ _ (cover24_B_5 c i a1 h1 a2 h2 a3 h3 a4 h4 a5 h5 a6 h6 a7 h7 hc x0 x1 x2 x3 xo5 xo6)]
  unfold kernelRun24_B
  dsimp only
  sl_unfold_words
  rw [View.canon_unit_zero hz]
  simp only [View.readAt_eq_ld, h1.read_unread, h2.read_unread, h3.read_unread, h4.read_unread, h6.read_unread, h7.read_unread,
    View.ld_unit_zero (S := S5000x128) hz, View.ld_unit_zero (S := S1x1) hz, View.ld_unit_zero (S := S128x64) hz,
    View.ld_unit_zero (S := S1x64) hz]

/-- A later point leaves the sum-of-squares row it found plus the column sums of its tile's squares. -/
theorem out_B_6 (c : Dev nD) (i : grid24.Coords) (a1 : Memref sig .tc .vmem S5000x128 .f32) (h1 : a1.IsWhole) (a2 : Memref sig .tc .vmem S5000x128 .f32) (h2 : a2.IsWhole) (a3 : Memref sig .tc .vmem S1x1 .f32) (h3 : a3.IsWhole) (a4 : Memref sig .tc .vmem S128x64 .f32) (h4 : a4.IsWhole) (a5 : Memref sig .tc .vmem S5000x64 .f32) (h5 : a5.IsWhole) (a6 : Memref sig .tc .vmem S1x64 .f32) (h6 : a6.IsWhole) (a7 : Memref sig .tc .vmem S1x64 .f32) (h7 : a7.IsWhole) (hc : ¬cond24_0 i) (x0 x1 : Vec F S5000x128 .f32) (x2 : Vec F S1x1 .f32) (x3 : Vec F S128x64 .f32) (xo5 xo6 : Vec F S1x64 .f32) :
    out24_B_6 c i a1 h1 a2 h2 a3 h3 a4 h4 a5 h5 a6 h6 a7 h7 hc x0 x1 x2 x3 xo5 xo6 = k24_pay5 x2 x0 x1 x3 xo6 := by
  unfold out24_B_6
  rw [View.read_writes_eq_canon _ _ _ (cover24_B_6 c i a1 h1 a2 h2 a3 h3 a4 h4 a5 h5 a6 h6 a7 h7 hc x0 x1 x2 x3 xo5 xo6)]
  unfold kernelRun24_B
  dsimp only
  sl_unfold_words
  rw [View.canon_unit_zero hz]
  simp only [View.readAt_eq_ld, h1.read_unread, h2.read_unread, h3.read_unread, h4.read_unread, h6.read_unread, h7.read_unread,
    View.ld_unit_zero (S := S5000x128) hz, View.ld_unit_zero (S := S1x1) hz, View.ld_unit_zero (S := S128x64) hz,
    View.ld_unit_zero (S := S1x64) hz]

/-- The first point leaves the product tile of its blocks. -/
theorem out_A_4 (c : Dev nD) (i : grid24.Coords) (a1 : Memref sig .tc .vmem S5000x128 .f32) (h1 : a1.IsWhole) (a2 : Memref sig .tc .vmem S5000x128 .f32) (h2 : a2.IsWhole) (a3 : Memref sig .tc .vmem S1x1 .f32) (h3 : a3.IsWhole) (a4 : Memref sig .tc .vmem S128x64 .f32) (h4 : a4.IsWhole) (a5 : Memref sig .tc .vmem S5000x64 .f32) (h5 : a5.IsWhole) (a6 : Memref sig .tc .vmem S1x64 .f32) (h6 : a6.IsWhole) (a7 : Memref sig .tc .vmem S1x64 .f32) (h7 : a7.IsWhole) (hc : cond24_0 i) (x0 x1 : Vec F S5000x128 .f32) (x2 : Vec F S1x1 .f32) (x3 : Vec F S128x64 .f32) :
    out24_A_4 c i a1 h1 a2 h2 a3 h3 a4 h4 a5 h5 a6 h6 a7 h7 hc x0 x1 x2 x3 = k24_pay3 x2 x0 x1 x3 := by
  unfold out24_A_4
  rw [View.read_writes_eq_canon _ _ _ (cover24_A_4 c i a1 h1 a2 h2 a3 h3 a4 h4 a5 h5 a6 h6 a7 h7 hc x0 x1 x2 x3)]
  unfold kernelRun24_A
  dsimp only
  sl_unfold_words
  rw [View.canon_unit_zero hz]
  simp only [View.readAt_eq_ld, h1.read_unread, h2.read_unread, h3.read_unread, h4.read_unread, h6.read_unread, h7.read_unread,
    View.ld_unit_zero (S := S5000x128) hz, View.ld_unit_zero (S := S1x1) hz, View.ld_unit_zero (S := S128x64) hz,
    View.ld_unit_zero (S := S1x64) hz]

/-- The first point leaves the zero row plus its tile's column sums. -/
theorem out_A_5 (c : Dev nD) (i : grid24.Coords) (a1 : Memref sig .tc .vmem S5000x128 .f32) (h1 : a1.IsWhole) (a2 : Memref sig .tc .vmem S5000x128 .f32) (h2 : a2.IsWhole) (a3 : Memref sig .tc .vmem S1x1 .f32) (h3 : a3.IsWhole) (a4 : Memref sig .tc .vmem S128x64 .f32) (h4 : a4.IsWhole) (a5 : Memref sig .tc .vmem S5000x64 .f32) (h5 : a5.IsWhole) (a6 : Memref sig .tc .vmem S1x64 .f32) (h6 : a6.IsWhole) (a7 : Memref sig .tc .vmem S1x64 .f32) (h7 : a7.IsWhole) (hc : cond24_0 i) (x0 x1 : Vec F S5000x128 .f32) (x2 : Vec F S1x1 .f32) (x3 : Vec F S128x64 .f32) :
    out24_A_5 c i a1 h1 a2 h2 a3 h3 a4 h4 a5 h5 a6 h6 a7 h7 hc x0 x1 x2 x3 = k24_pay4 x2 x0 x1 x3 k24_pay1 := by
  unfold out24_A_5
  rw [View.read_writes_eq_canon _ _ _ (cover24_A_5 c i a1 h1 a2 h2 a3 h3 a4 h4 a5 h5 a6 h6 a7 h7 hc x0 x1 x2 x3)]
  unfold kernelRun24_A
  dsimp only
  sl_unfold_words
  rw [View.canon_cons_unit_zero (S := S1x64) hz, View.readCov_unit_zero (S := S1x64) _ hz]
  simp only [View.readAt_eq_ld, h1.read_unread, h2.read_unread, h3.read_unread, h4.read_unread, h6.read_unread, h7.read_unread,
    View.ld_unit_zero (S := S5000x128) hz, View.ld_unit_zero (S := S1x1) hz, View.ld_unit_zero (S := S128x64) hz,
    View.ld_unit_zero (S := S1x64) hz]

/-- The first point leaves the zero row plus the column sums of its tile's squares. -/
theorem out_A_6 (c : Dev nD) (i : grid24.Coords) (a1 : Memref sig .tc .vmem S5000x128 .f32) (h1 : a1.IsWhole) (a2 : Memref sig .tc .vmem S5000x128 .f32) (h2 : a2.IsWhole) (a3 : Memref sig .tc .vmem S1x1 .f32) (h3 : a3.IsWhole) (a4 : Memref sig .tc .vmem S128x64 .f32) (h4 : a4.IsWhole) (a5 : Memref sig .tc .vmem S5000x64 .f32) (h5 : a5.IsWhole) (a6 : Memref sig .tc .vmem S1x64 .f32) (h6 : a6.IsWhole) (a7 : Memref sig .tc .vmem S1x64 .f32) (h7 : a7.IsWhole) (hc : cond24_0 i) (x0 x1 : Vec F S5000x128 .f32) (x2 : Vec F S1x1 .f32) (x3 : Vec F S128x64 .f32) :
    out24_A_6 c i a1 h1 a2 h2 a3 h3 a4 h4 a5 h5 a6 h6 a7 h7 hc x0 x1 x2 x3 = k24_pay5 x2 x0 x1 x3 k24_pay2 := by
  unfold out24_A_6
  rw [View.read_writes_eq_canon _ _ _ (cover24_A_6 c i a1 h1 a2 h2 a3 h3 a4 h4 a5 h5 a6 h6 a7 h7 hc x0 x1 x2 x3)]
  unfold kernelRun24_A
  dsimp only
  sl_unfold_words
  rw [View.canon_cons_unit_zero (S := S1x64) hz, View.readCov_unit_zero (S := S1x64) _ hz]
  simp only [View.readAt_eq_ld, h1.read_unread, h2.read_unread, h3.read_unread, h4.read_unread, h6.read_unread, h7.read_unread,
    View.ld_unit_zero (S := S5000x128) hz, View.ld_unit_zero (S := S1x1) hz, View.ld_unit_zero (S := S128x64) hz,
    View.ld_unit_zero (S := S1x64) hz]

end Cert.GIN.Reg24

end
-- ==== Proof.Reg24Pay.lean ====
/-
  The arithmetic of one grid point of the combine–product–statistics kernel, read at an index over the extended reals.

  At a grid point the body holds a tile of 5000 rows.  It forms `scale · x + agg` entry by entry, multiplies the tile by the
  128×64 weight matrix into a zero accumulator (the narrowing of both operands is the identity on extended reals), and
  adds to each of two 1×64 rows the column sums of the product tile and of its entrywise squares.  The three lemmas below
  read these three stored values at an entry: the product entry `(p, j)` is the sum over `q < 128` of
  `(scale · x(p, q) + agg(p, q)) · w(q, j)`; the statistics rows at `(0, j)` are the carried row plus the sum over the
  tile's 5000 rows of the product entries, respectively of their squares.
-/
import proofs.«177653_j8959301779747_1_alg».proof.Proof.Spec
import proofs.«177653_j8959301779747_1_alg».proof.Proof.LibPlainDot
import proofs.«177653_j8959301779747_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.GIN.Reg24

open Idealize.ShloMosaic Idealize.ShloMosaic.ValueIdx
open Cert.KernelIdeal Cert.KernelIdeal.Gen Cert.GIN

/-- The 1×1 scale spread over a 5000×128 tile reads the scale's one entry everywhere. -/
theorem scale_ix (v : FVec Ideal S1x1 .f32) (p : Fin 5000) (q : Fin 128) :
    broadcastTo S5000x128 v broadcasts_S1x1_S5000x128 (ix2 p q) = v (ix2 0 0) :=
  broadcastTo_apply v broadcasts_S1x1_S5000x128 (ix2 p q) (ix2 0 0) fun a => by
    match a with
    | ⟨0, _⟩ => rfl
    | ⟨1, _⟩ => rfl

/-- The source index of a column reduction of a 5000×64 tile: row `p` over the result's column `j`. -/
theorem lift_ix (j : Fin 64) (p : Fin 5000) :
    reduces_S5000x64_S64.lift (fun a => (ix2 (0 : Fin 1) j) a.succ) p = ix2 p j := by
  funext c
  apply Fin.ext
  match c with
  | ⟨0, _⟩ => rfl
  | ⟨1, _⟩ => rfl

/-- A column reduction of a 5000×64 tile from the zero word, stored as a 1×64 row, reads at `(0, j)` the sum of column
    `j` over the tile's rows. -/
theorem colred_ix (src : FVec Ideal S5000x64 .f32) (j : Fin 64) :
    shapeCast S1x64 (multiReduction (F := Ideal) .add [0] S64 src 0x00000000#32 reduces_S5000x64_S64 (.inl rfl) rfl)
        shapeCasts_S64_S1x64 (ix2 0 j) = ∑ p : Fin 5000, src (ix2 p j) := by
  refine (shapeCast_addUnit_apply ![64] _ shapeCasts_S64_S1x64 (ix2 0 j)).trans ?_
  refine (Ideal.multiReduction_add_single src 0x00000000#32 reduces_S5000x64_S64 (.inl rfl) rfl _).trans ?_
  exact Finset.sum_congr rfl fun p _ => congrArg src (lift_ix j p)

/-- The product tile at `(p, j)`. -/
theorem pay3_ix (v3 : Vec Ideal S1x1 .f32) (v5 v8 : Vec Ideal S5000x128 .f32) (v12 : Vec Ideal S128x64 .f32)
    (p : Fin 5000) (j : Fin 64) :
    k24_pay3 (F := Ideal) v3 v5 v8 v12 (ix2 p j)
      = ∑ q : Fin 128, (v3 (ix2 0 0) * v5 (ix2 p q) + v8 (ix2 p q)) * v12 (ix2 q j) := by
  unfold k24_pay3
  simp only [shapeCast_self]
  refine (Cert.PlainDot.matmul_zero_ix2 dot_S5000x128_S128x64_S5000x64_1_0_0_1_n_n rfl none _ _ p j).trans ?_
  refine Finset.sum_congr rfl fun q _ => ?_
  show (broadcastTo S5000x128 v3 broadcasts_S1x1_S5000x128 (ix2 p q) * v5 (ix2 p q) + v8 (ix2 p q)) * v12 (ix2 q j) = _
  rw [scale_ix v3 p q]

/-- The column-sum row after the point: the carried row plus the tile's column sums. -/
theorem pay4_ix (v3 : Vec Ideal S1x1 .f32) (v5 v8 : Vec Ideal S5000x128 .f32) (v12 : Vec Ideal S128x64 .f32)
    (r : Vec Ideal S1x64 .f32) (j : Fin 64) :
    k24_pay4 (F := Ideal) v3 v5 v8 v12 r (ix2 0 j)
      = r (ix2 0 j) + ∑ p : Fin 5000, k24_pay3 (F := Ideal) v3 v5 v8 v12 (ix2 p j) := by
  unfold k24_pay4
  simp only [shapeCast_self]
  exact congrArg (r (ix2 0 j) + ·) (colred_ix (k24_pay3 (F := Ideal) v3 v5 v8 v12) j)

/-- The sum-of-squares row after the point: the carried row plus the column sums of the tile's squares. -/
theorem pay5_ix (v3 : Vec Ideal S1x1 .f32) (v5 v8 : Vec Ideal S5000x128 .f32) (v12 : Vec Ideal S128x64 .f32)
    (r : Vec Ideal S1x64 .f32) (j : Fin 64) :
    k24_pay5 (F := Ideal) v3 v5 v8 v12 r (ix2 0 j)
      = r (ix2 0 j) + ∑ p : Fin 5000, k24_pay3 (F := Ideal) v3 v5 v8 v12 (ix2 p j) * k24_pay3 (F := Ideal) v3 v5 v8 v12 (ix2 p j) := by
  unfold k24_pay5
  simp only [shapeCast_self]
  exact congrArg (r (ix2 0 j) + ·)
    (colred_ix (mulf (k24_pay3 (F := Ideal) v3 v5 v8 v12) (k24_pay3 (F := Ideal) v3 v5 v8 v12)) j)

/-- The two rows the first point stores before accumulating are zero. -/
theorem pay1_ix (j : Fin 64) : k24_pay1 (F := Ideal) (ix2 0 j) = 0 := by
  unfold k24_pay1
  exact Ideal.ofBits_zero_f32

theorem pay2_ix (j : Fin 64) : k24_pay2 (F := Ideal) (ix2 0 j) = 0 := by
  unfold k24_pay2
  exact Ideal.ofBits_zero_f32

end Cert.GIN.Reg24

end
-- ==== Proof.Reg24.lean ====
/-
  The value of the combine–product–statistics region, as whole-array functions of what the region finds.

  The grid has ten points; point `t` holds rows `5000 t … 5000 t + 4999` of the node features `x` and of the neighbour
  sums `agg`, the whole 1×1 scale and the whole 128×64 weight matrix.  Every point stores the tile
  `(scale · x + agg) · w` of its rows as block `t` of the product array, so that array ends as the product itself: row `r`
  is written by point `r / 5000`.  The two statistics rows have one block that never moves: point 0 zeroes them, every
  point adds its tile's column sums (of the entries, and of their squares), and the rows are written back after the last
  point only.  By induction on the point they hold, after point `n`, the sum over tiles `0 … n` of the tile's column
  sums; after point 9 that is the tiled column sum of the specification.
-/
import proofs.«177653_j8959301779747_1_alg».proof.Proof.Spec
import proofs.«177653_j8959301779747_1_alg».proof.Proof.LibPlainDot
import proofs.«177653_j8959301779747_1_alg».proof.Proof.Gen.KernelIdeal.Frame
import proofs.«177653_j8959301779747_1_alg».proof.Proof.Reg24Pieces
import proofs.«177653_j8959301779747_1_alg».proof.Proof.Reg24Pay
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.ShloMosaic.ValueIdx Idealize.SL.Sem
open Idealize.ShloMosaic.Pipeline (Dat)

namespace Cert.GIN.Reg24

open Cert.KernelIdeal Cert.KernelIdeal.Gen Cert.GIN

variable (V : (c : Dev nD) → (b : Ref sig .tc) → Buf (Elt Ideal) ((c : Thread nD τ).loc b)) (c : Dev nD)

/-- The node features, the neighbour sums, the scale and the weights as the region finds them, as matrices. -/
abbrev Xx : Mat 50000 128 := V c (Pipeline.arrRef spec24 0)
abbrev Xa : Mat 50000 128 := V c (Pipeline.arrRef spec24 1)
abbrev Xs : Mat 1 1 := V c (Pipeline.arrRef spec24 2)
abbrev Xw : Mat 128 64 := V c (Pipeline.arrRef spec24 3)
/-- The product the region computes. -/
abbrev Z : Mat 50000 64 := mm (comb (Xs V c) (Xx V c) (Xa V c)) (Xw V c)

/-- The block index maps over the grid: the row-tiled windows move with the point along the rows, the others stay. -/
theorem idx_facts : ∀ t : Fin cfg24.N,
    win24_0.index t (0 : Fin 2) = t.val ∧ win24_0.index t (1 : Fin 2) = 0
  ∧ win24_1.index t (0 : Fin 2) = t.val ∧ win24_1.index t (1 : Fin 2) = 0
  ∧ win24_2.index t (0 : Fin 2) = 0 ∧ win24_2.index t (1 : Fin 2) = 0
  ∧ win24_3.index t (0 : Fin 2) = 0 ∧ win24_3.index t (1 : Fin 2) = 0
  ∧ win24_4.index t (0 : Fin 2) = t.val ∧ win24_4.index t (1 : Fin 2) = 0
  ∧ win24_5.index t (0 : Fin 2) = 0 ∧ win24_5.index t (1 : Fin 2) = 0
  ∧ win24_6.index t (0 : Fin 2) = 0 ∧ win24_6.index t (1 : Fin 2) = 0 :=
  (by decide +kernel : ∀ t : Fin grid24.N, _)

theorem lt_ten (t : Fin cfg24.N) : t.val < 10 := by
  have h : t.val < grid24.N := t.isLt
  rw [N_24] at h; exact h

/-! ## The input blocks, read at an entry -/

theorem blk0_ix (t : Fin cfg24.N) (p : Fin 5000) (q : Fin 128) (h : 5000 * t.val + p.val < 50000) :
    (iblk24 V c 0 t : Vec Ideal S5000x128 .f32) (ix2 p q) = Xx V c (ix2 ⟨5000 * t.val + p.val, h⟩ q) := by
  obtain ⟨e0, e1, -⟩ := idx_facts t
  unfold iblk24
  rw [View.read_apply]
  show V c (Pipeline.arrRef spec24 0) _ = V c (Pipeline.arrRef spec24 0) _
  congr 1
  funext a
  apply Fin.ext
  match a with
  | ⟨0, _⟩ => show win24_0.index t 0 * 5000 + 1 * p.val = 5000 * t.val + p.val; rw [e0]; omega
  | ⟨1, _⟩ => show win24_0.index t 1 * 128 + 1 * q.val = q.val; rw [e1]; omega

theorem blk1_ix (t : Fin cfg24.N) (p : Fin 5000) (q : Fin 128) (h : 5000 * t.val + p.val < 50000) :
    (iblk24 V c 1 t : Vec Ideal S5000x128 .f32) (ix2 p q) = Xa V c (ix2 ⟨5000 * t.val + p.val, h⟩ q) := by
  obtain ⟨-, -, e0, e1, -⟩ := idx_facts t
  unfold iblk24
  rw [View.read_apply]
  show V c (Pipeline.arrRef spec24 1) _ = V c (Pipeline.arrRef spec24 1) _
  congr 1
  funext a
  apply Fin.ext
  match a with
  | ⟨0, _⟩ => show win24_1.index t 0 * 5000 + 1 * p.val = 5000 * t.val + p.val; rw [e0]; omega
  | ⟨1, _⟩ => show win24_1.index t 1 * 128 + 1 * q.val = q.val; rw [e1]; omega

theorem blk2_ix (t : Fin cfg24.N) :
    (iblk24 V c 2 t : Vec Ideal S1x1 .f32) (ix2 0 0) = Xs V c (ix2 0 0) := by
  obtain ⟨-, -, -, -, e0, e1, -⟩ := idx_facts t
  unfold iblk24
  rw [View.read_apply]
  show V c (Pipeline.arrRef spec24 2) _ = V c (Pipeline.arrRef spec24 2) _
  congr 1
  funext a
  apply Fin.ext
  match a with
  | ⟨0, _⟩ => show win24_2.index t 0 * 1 + 1 * 0 = 0; rw [e0]
  | ⟨1, _⟩ => show win24_2.index t 1 * 1 + 1 * 0 = 0; rw [e1]

theorem blk3_ix (t : Fin cfg24.N) (q : Fin 128) (j : Fin 64) :
    (iblk24 V c 3 t : Vec Ideal S128x64 .f32) (ix2 q j) = Xw V c (ix2 q j) := by
  obtain ⟨-, -, -, -, -, -, e0, e1, -⟩ := idx_facts t
  unfold iblk24
  rw [View.read_apply]
  show V c (Pipeline.arrRef spec24 3) _ = V c (Pipeline.arrRef spec24 3) _
  congr 1
  funext a
  apply Fin.ext
  match a with
  | ⟨0, _⟩ => show win24_3.index t 0 * 128 + 1 * q.val = q.val; rw [e0]; omega
  | ⟨1, _⟩ => show win24_3.index t 1 * 64 + 1 * j.val = j.val; rw [e1]; omega

/-! ## The product tile of a point is the point's rows of the product -/

/-- The product tile point `t` computes from its blocks. -/
abbrev tile (t : Fin cfg24.N) : Vec Ideal S5000x64 .f32 :=
  k24_pay3 (F := Ideal) (iblk24 V c 2 t) (iblk24 V c 0 t) (iblk24 V c 1 t) (iblk24 V c 3 t)

theorem tile_ix (t : Fin cfg24.N) (p : Fin 5000) (j : Fin 64) (h : 5000 * t.val + p.val < 50000) :
    tile V c t (ix2 p j) = Z V c (ix2 ⟨5000 * t.val + p.val, h⟩ j) := by
  refine (pay3_ix (iblk24 V c 2 t) (iblk24 V c 0 t) (iblk24 V c 1 t) (iblk24 V c 3 t) p j).trans ?_
  show _ = ∑ q : Fin 128, (Xs V c (ix2 0 0) * Xx V c (ix2 ⟨5000 * t.val + p.val, h⟩ q) + Xa V c (ix2 ⟨5000 * t.val + p.val, h⟩ q)) * Xw V c (ix2 q j)
  refine Finset.sum_congr rfl fun q _ => ?_
  rw [blk0_ix V c t p q h, blk1_ix V c t p q h, blk2_ix V c t, blk3_ix V c t q j]

/-- Every point, first or not, leaves its product tile in the product's block. -/
theorem outs4 (t : Fin cfg24.N) : (outsAt24 V c t.val t.isLt).1 = tile V c t := by
  by_cases h0 : t.val % 10 = 0
  · rw [outsAt24_A V c t h0]
    dsimp only
    exact out_A_4 (F := Ideal) c (grid24.coords t) (ms24_0 t) (hs24_0 t) (ms24_1 t) (hs24_1 t) (ms24_2 t) (hs24_2 t) (ms24_3 t) (hs24_3 t) (ms24_4 t) (hs24_4 t) (ms24_5 t) (hs24_5 t) (ms24_6 t) (hs24_6 t) ((hcond24_0 t).mpr h0) (iblk24 V c 0 t) (iblk24 V c 1 t) (iblk24 V c 2 t) (iblk24 V c 3 t)
  · rw [outsAt24_B V c t h0]
    dsimp only
    exact out_B_4 (F := Ideal) c (grid24.coords t) (ms24_0 t) (hs24_0 t) (ms24_1 t) (hs24_1 t) (ms24_2 t) (hs24_2 t) (ms24_3 t) (hs24_3 t) (ms24_4 t) (hs24_4 t) (ms24_5 t) (hs24_5 t) (ms24_6 t) (hs24_6 t) (fun h => h0 ((hcond24_0 t).mp h)) (iblk24 V c 0 t) (iblk24 V c 1 t) (iblk24 V c 2 t) (iblk24 V c 3 t) (outsAt24 V c (t.val - 1) (Nat.lt_of_le_of_lt (Nat.sub_le _ _) t.isLt)).2.1 (outsAt24 V c (t.val - 1) (Nat.lt_of_le_of_lt (Nat.sub_le _ _) t.isLt)).2.2

/-! ## The statistics rows after each point -/

/-- Column `j` of `z` summed over the rows of tile `t` (zero past the tenth tile). -/
def tsum (z : Mat 50000 64) (j : Fin 64) (t : ℕ) : EReal :=
  if h : t < 10 then ∑ p : Fin 5000, z (ix2 ⟨5000 * t + p.val, by have := p.isLt; omega⟩ j) else 0

/-- The tiled column sum of the specification is the sum of the ten tile sums. -/
theorem colSum_eq (z : Mat 50000 64) (j : Fin 64) : colSum z (ix2 0 j) = ∑ t ∈ Finset.range 10, tsum z j t := by
  rw [Finset.sum_range]
  unfold colSum
  refine Finset.sum_congr rfl fun t _ => ?_
  unfold tsum
  rw [dif_pos t.isLt]

theorem tile_sum (t : Fin cfg24.N) (j : Fin 64) :
    ∑ p : Fin 5000, tile V c t (ix2 p j) = tsum (Z V c) j t.val := by
  have ht := lt_ten t
  unfold tsum
  rw [dif_pos ht]
  exact Finset.sum_congr rfl fun p _ => tile_ix V c t p j _

theorem tile_sumsq (t : Fin cfg24.N) (j : Fin 64) :
    ∑ p : Fin 5000, tile V c t (ix2 p j) * tile V c t (ix2 p j) = tsum (fun i => Z V c i * Z V c i) j t.val := by
  have ht := lt_ten t
  unfold tsum
  rw [dif_pos ht]
  exact Finset.sum_congr rfl fun p _ => by rw [tile_ix V c t p j _]

/-- At the first point the rows are zeroed and then hold the first tile's sums. -/
theorem s_first (t : Fin cfg24.N) (h0 : t.val % 10 = 0) (j : Fin 64) :
    (outsAt24 V c t.val t.isLt).2.1 (ix2 0 j) = tsum (Z V c) j t.val
  ∧ (outsAt24 V c t.val t.isLt).2.2 (ix2 0 j) = tsum (fun i => Z V c i * Z V c i) j t.val := by
  have e5 : (outsAt24 V c t.val t.isLt).2.1 = k24_pay4 (F := Ideal) (iblk24 V c 2 t) (iblk24 V c 0 t) (iblk24 V c 1 t) (iblk24 V c 3 t) (k24_pay1 (F := Ideal)) := by
    rw [outsAt24_A V c t h0]
    dsimp only
    exact out_A_5 (F := Ideal) c (grid24.coords t) (ms24_0 t) (hs24_0 t) (ms24_1 t) (hs24_1 t) (ms24_2 t) (hs24_2 t) (ms24_3 t) (hs24_3 t) (ms24_4 t) (hs24_4 t) (ms24_5 t) (hs24_5 t) (ms24_6 t) (hs24_6 t) ((hcond24_0 t).mpr h0) (iblk24 V c 0 t) (iblk24 V c 1 t) (iblk24 V c 2 t) (iblk24 V c 3 t)
  have e6 : (outsAt24 V c t.val t.isLt).2.2 = k24_pay5 (F := Ideal) (iblk24 V c 2 t) (iblk24 V c 0 t) (iblk24 V c 1 t) (iblk24 V c 3 t) (k24_pay2 (F := Ideal)) := by
    rw [outsAt24_A V c t h0]
    dsimp only
    exact out_A_6 (F := Ideal) c (grid24.coords t) (ms24_0 t) (hs24_0 t) (ms24_1 t) (hs24_1 t) (ms24_2 t) (hs24_2 t) (ms24_3 t) (hs24_3 t) (ms24_4 t) (hs24_4 t) (ms24_5 t) (hs24_5 t) (ms24_6 t) (hs24_6 t) ((hcond24_0 t).mpr h0) (iblk24 V c 0 t) (iblk24 V c 1 t) (iblk24 V c 2 t) (iblk24 V c 3 t)
  constructor
  · refine (congrFun e5 (ix2 0 j)).trans ((pay4_ix (iblk24 V c 2 t) (iblk24 V c 0 t) (iblk24 V c 1 t) (iblk24 V c 3 t) (k24_pay1 (F := Ideal)) j).trans ?_)
    rw [pay1_ix, zero_add]
    exact tile_sum V c t j
  · refine (congrFun e6 (ix2 0 j)).trans ((pay5_ix (iblk24 V c 2 t) (iblk24 V c 0 t) (iblk24 V c 1 t) (iblk24 V c 3 t) (k24_pay2 (F := Ideal)) j).trans ?_)
    rw [pay2_ix, zero_add]
    exact tile_sumsq V c t j

/-- At a later point the rows hold what the point before left plus the point's tile sums. -/
theorem s_next (t : Fin cfg24.N) (h0 : ¬t.val % 10 = 0) (j : Fin 64) :
    (outsAt24 V c t.val t.isLt).2.1 (ix2 0 j) = (outsAt24 V c (t.val - 1) (Nat.lt_of_le_of_lt (Nat.sub_le _ _) t.isLt)).2.1 (ix2 0 j) + tsum (Z V c) j t.val
  ∧ (outsAt24 V c t.val t.isLt).2.2 (ix2 0 j) = (outsAt24 V c (t.val - 1) (Nat.lt_of_le_of_lt (Nat.sub_le _ _) t.isLt)).2.2 (ix2 0 j) + tsum (fun i => Z V c i * Z V c i) j t.val := by
  have e5 : (outsAt24 V c t.val t.isLt).2.1 = k24_pay4 (F := Ideal) (iblk24 V c 2 t) (iblk24 V c 0 t) (iblk24 V c 1 t) (iblk24 V c 3 t) (outsAt24 V c (t.val - 1) (Nat.lt_of_le_of_lt (Nat.sub_le _ _) t.isLt)).2.1 := by
    rw [outsAt24_B V c t h0]
    dsimp only
    exact out_B_5 (F := Ideal) c (grid24.coords t) (ms24_0 t) (hs24_0 t) (ms24_1 t) (hs24_1 t) (ms24_2 t) (hs24_2 t) (ms24_3 t) (hs24_3 t) (ms24_4 t) (hs24_4 t) (ms24_5 t) (hs24_5 t) (ms24_6 t) (hs24_6 t) (fun h => h0 ((hcond24_0 t).mp h)) (iblk24 V c 0 t) (iblk24 V c 1 t) (iblk24 V c 2 t) (iblk24 V c 3 t) (outsAt24 V c (t.val - 1) (Nat.lt_of_le_of_lt (Nat.sub_le _ _) t.isLt)).2.1 (outsAt24 V c (t.val - 1) (Nat.lt_of_le_of_lt (Nat.sub_le _ _) t.isLt)).2.2
  have e6 : (outsAt24 V c t.val t.isLt).2.2 = k24_pay5 (F := Ideal) (iblk24 V c 2 t) (iblk24 V c 0 t) (iblk24 V c 1 t) (iblk24 V c 3 t) (outsAt24 V c (t.val - 1) (Nat.lt_of_le_of_lt (Nat.sub_le _ _) t.isLt)).2.2 := by
    rw [outsAt24_B V c t h0]
    dsimp only
    exact out_B_6 (F := Ideal) c (grid24.coords t) (ms24_0 t) (hs24_0 t) (ms24_1 t) (hs24_1 t) (ms24_2 t) (hs24_2 t) (ms24_3 t) (hs24_3 t) (ms24_4 t) (hs24_4 t) (ms24_5 t) (hs24_5 t) (ms24_6 t) (hs24_6 t) (fun h => h0 ((hcond24_0 t).mp h)) (iblk24 V c 0 t) (iblk24 V c 1 t) (iblk24 V c 2 t) (iblk24 V c 3 t) (outsAt24 V c (t.val - 1) (Nat.lt_of_le_of_lt (Nat.sub_le _ _) t.isLt)).2.1 (outsAt24 V c (t.val - 1) (Nat.lt_of_le_of_lt (Nat.sub_le _ _) t.isLt)).2.2
  constructor
  · refine (congrFun e5 (ix2 0 j)).trans ((pay4_ix (iblk24 V c 2 t) (iblk24 V c 0 t) (iblk24 V c 1 t) (iblk24 V c 3 t) (outsAt24 V c (t.val - 1) (Nat.lt_of_le_of_lt (Nat.sub_le _ _) t.isLt)).2.1 j).trans ?_)
    rw [tile_sum V c t j]
  · refine (congrFun e6 (ix2 0 j)).trans ((pay5_ix (iblk24 V c 2 t) (iblk24 V c 0 t) (iblk24 V c 1 t) (iblk24 V c 3 t) (outsAt24 V c (t.val - 1) (Nat.lt_of_le_of_lt (Nat.sub_le _ _) t.isLt)).2.2 j).trans ?_)
    rw [tile_sumsq V c t j]

/-- After point `n` the rows hold the sums over tiles `0 … n`. -/
theorem stats_inv : ∀ (n : ℕ) (h : n < cfg24.N) (j : Fin 64),
    (outsAt24 V c n h).2.1 (ix2 0 j) = ∑ t ∈ Finset.range (n + 1), tsum (Z V c) j t
  ∧ (outsAt24 V c n h).2.2 (ix2 0 j) = ∑ t ∈ Finset.range (n + 1), tsum (fun i => Z V c i * Z V c i) j t
  | 0, h, j => by
    have e := s_first V c ⟨0, h⟩ rfl j
    rw [Finset.sum_range_one, Finset.sum_range_one]
    exact e
  | n + 1, h, j => by
    have hn : n + 1 < 10 := lt_ten ⟨n + 1, h⟩
    have hB : ¬(⟨n + 1, h⟩ : Fin cfg24.N).val % 10 = 0 := by dsimp only; omega
    have e := s_next V c ⟨n + 1, h⟩ hB j
    have ih := stats_inv n (Nat.lt_of_succ_lt h) j
    rw [Finset.sum_range_succ (fun t => tsum (Z V c) j t) (n + 1),
      Finset.sum_range_succ (fun t => tsum (fun i => Z V c i * Z V c i) j t) (n + 1), ← ih.1, ← ih.2]
    exact e

/-- After the last point the rows are the specification's tiled column sums. -/
theorem stats_last (h : 9 < cfg24.N) :
    (outsAt24 V c 9 h).2.1 = colSum (Z V c) ∧ (outsAt24 V c 9 h).2.2 = colSumSq (Z V c) := by
  constructor
  · funext y
    obtain ⟨i, j, rfl⟩ : ∃ (i : Fin 1) (j : Fin 64), y = ix2 i j := ⟨y 0, y 1, eq_ix2 y⟩
    obtain rfl : i = 0 := Subsingleton.elim _ _
    rw [colSum_eq]
    exact (stats_inv V c 9 h j).1
  · funext y
    obtain ⟨i, j, rfl⟩ : ∃ (i : Fin 1) (j : Fin 64), y = ix2 i j := ⟨y 0, y 1, eq_ix2 y⟩
    obtain rfl : i = 0 := Subsingleton.elim _ _
    show _ = colSum (fun i => Z V c i * Z V c i) (ix2 0 j)
    rw [colSum_eq]
    exact (stats_inv V c 9 h j).2

/-! ## From the blocks to the arrays -/

/-- Point `t` writes back block `t` of the product. -/
theorem flushed4 (t : Fin cfg24.N) :
    (dat24 V c).flushed 4 t = ((cfg24.win 4).blk t).view.read (Elt Ideal) (Z V c) := by
  obtain ⟨-, -, -, -, -, -, -, -, e0, e1, -⟩ := idx_facts t
  have ht := lt_ten t
  show (cfg24.win 4).cut (grid24.coords t) ((dat24 V c).after 4 t) = _
  rw [after24_4, outs4]
  funext y
  obtain ⟨p, j, rfl⟩ : ∃ (p : Fin 5000) (j : Fin 64), y = ix2 p j := ⟨y 0, y 1, eq_ix2 y⟩
  rw [View.read_apply]
  show tile V c t (ix2 p j) = Z V c (((cfg24.win 4).blk t).view.emb (ix2 p j))
  rw [tile_ix V c t p j (by have := p.isLt; omega)]
  congr 1
  funext a
  apply Fin.ext
  match a with
  | ⟨0, _⟩ => show 5000 * t.val + p.val = win24_4.index t 0 * 5000 + 1 * p.val; rw [e0]; omega
  | ⟨1, _⟩ => show j.val = win24_4.index t 1 * 64 + 1 * j.val; rw [e1]; omega

/-- Row `r` of the product lies in the block of point `r / 5000`. -/
theorem cover4 (i : S50000x64.Idx) :
    ∃ t : Fin cfg24.N, (cfg24.win 4).flush t = true ∧ i ∈ ((cfg24.win 4).blk t).view.set := by
  have hi0 : (i 0).val < 50000 := (i 0).isLt
  have hi1 : (i 1).val < 64 := (i 1).isLt
  have hN : grid24.N = 10 := N_24
  let t : Fin cfg24.N := ⟨(i 0).val / 5000, by show _ < grid24.N; rw [hN]; omega⟩
  obtain ⟨-, -, -, -, -, -, -, -, e0, e1, -⟩ := idx_facts t
  have e0' : win24_4.index t 0 = (i 0).val / 5000 := e0
  refine ⟨t, flush24_4 t, ?_⟩
  show i ∈ ((View.whole main_v296_0).slice (win24_4.rect t)).set
  rw [View.set_slice_whole, Rect.mem_set_unit]
  intro a
  match a with
  | ⟨0, _⟩ => show win24_4.index t 0 * 5000 ≤ (i 0).val ∧ (i 0).val < win24_4.index t 0 * 5000 + 5000
              rw [e0']; omega
  | ⟨1, _⟩ => show win24_4.index t 1 * 64 ≤ (i 1).val ∧ (i 1).val < win24_4.index t 1 * 64 + 64
              rw [e1]; omega

/-- The column-sum row is written back after the last point only; its one block is the whole row. -/
theorem flushed5 (t : Fin cfg24.N) (hf : (cfg24.win 5).flush t = true) :
    (dat24 V c).flushed 5 t = ((cfg24.win 5).blk t).view.read (Elt Ideal) (colSum (Z V c)) := by
  have ht := lt_ten t
  have h9 : t.val = 9 := by have := (flush24_5 t).mp hf; omega
  obtain ⟨-, -, -, -, -, -, -, -, -, -, e0, e1, -⟩ := idx_facts t
  show (cfg24.win 5).cut (grid24.coords t) ((dat24 V c).after 5 t) = _
  rw [after24_5]
  funext y
  rw [View.read_apply]
  show (outsAt24 V c t.val t.isLt).2.1 y = colSum (Z V c) (((cfg24.win 5).blk t).view.emb y)
  have hemb : ((cfg24.win 5).blk t).view.emb y = y := by
    funext a
    apply Fin.ext
    match a with
    | ⟨0, _⟩ => show win24_5.index t 0 * 1 + 1 * (y 0).val = (y 0).val; rw [e0]; omega
    | ⟨1, _⟩ => show win24_5.index t 1 * 64 + 1 * (y 1).val = (y 1).val; rw [e1]; omega
  rw [hemb]
  have key : ∀ (n : ℕ) (h : n < cfg24.N), n = 9 → (outsAt24 V c n h).2.1 = colSum (Z V c) := by
    intro n h e
    subst e
    exact (stats_last V c h).1
  exact congrFun (key t.val t.isLt h9) y

/-- The last point's block covers the row. -/
theorem cover5 (i : S1x64.Idx) :
    ∃ t : Fin cfg24.N, (cfg24.win 5).flush t = true ∧ i ∈ ((cfg24.win 5).blk t).view.set := by
  have hi0 : (i 0).val < 1 := (i 0).isLt
  have hi1 : (i 1).val < 64 := (i 1).isLt
  obtain ⟨-, -, -, -, -, -, -, -, -, -, e0, e1, -⟩ := idx_facts t24_9
  refine ⟨t24_9, (flush24_5 t24_9).mpr rfl, ?_⟩
  show i ∈ ((View.whole main_v296_1).slice (win24_5.rect t24_9)).set
  rw [View.set_slice_whole, Rect.mem_set_unit]
  intro a
  match a with
  | ⟨0, _⟩ => show win24_5.index t24_9 0 * 1 ≤ (i 0).val ∧ (i 0).val < win24_5.index t24_9 0 * 1 + 1
              rw [e0]; omega
  | ⟨1, _⟩ => show win24_5.index t24_9 1 * 64 ≤ (i 1).val ∧ (i 1).val < win24_5.index t24_9 1 * 64 + 64
              rw [e1]; omega

/-- The sum-of-squares row is written back after the last point only; its one block is the whole row. -/
theorem flushed6 (t : Fin cfg24.N) (hf : (cfg24.win 6).flush t = true) :
    (dat24 V c).flushed 6 t = ((cfg24.win 6).blk t).view.read (Elt Ideal) (colSumSq (Z V c)) := by
  have ht := lt_ten t
  have h9 : t.val = 9 := by have := (flush24_6 t).mp hf; omega
  obtain ⟨-, -, -, -, -, -, -, -, -, -, -, -, e0, e1⟩ := idx_facts t
  show (cfg24.win 6).cut (grid24.coords t) ((dat24 V c).after 6 t) = _
  rw [after24_6]
  funext y
  rw [View.read_apply]
  show (outsAt24 V c t.val t.isLt).2.2 y = colSumSq (Z V c) (((cfg24.win 6).blk t).view.emb y)
  have hemb : ((cfg24.win 6).blk t).view.emb y = y := by
    funext a
    apply Fin.ext
    match a with
    | ⟨0, _⟩ => show win24_6.index t 0 * 1 + 1 * (y 0).val = (y 0).val; rw [e0]; omega
    | ⟨1, _⟩ => show win24_6.index t 1 * 64 + 1 * (y 1).val = (y 1).val; rw [e1]; omega
  rw [hemb]
  have key : ∀ (n : ℕ) (h : n < cfg24.N), n = 9 → (outsAt24 V c n h).2.2 = colSumSq (Z V c) := by
    intro n h e
    subst e
    exact (stats_last V c h).2
  exact congrFun (key t.val t.isLt h9) y

/-- The last point's block covers the row. -/
theorem cover6 (i : S1x64.Idx) :
    ∃ t : Fin cfg24.N, (cfg24.win 6).flush t = true ∧ i ∈ ((cfg24.win 6).blk t).view.set := by
  have hi0 : (i 0).val < 1 := (i 0).isLt
  have hi1 : (i 1).val < 64 := (i 1).isLt
  obtain ⟨-, -, -, -, -, -, -, -, -, -, -, -, e0, e1⟩ := idx_facts t24_9
  refine ⟨t24_9, (flush24_6 t24_9).mpr rfl, ?_⟩
  show i ∈ ((View.whole main_v296_2).slice (win24_6.rect t24_9)).set
  rw [View.set_slice_whole, Rect.mem_set_unit]
  intro a
  match a with
  | ⟨0, _⟩ => show win24_6.index t24_9 0 * 1 ≤ (i 0).val ∧ (i 0).val < win24_6.index t24_9 0 * 1 + 1
              rw [e0]; omega
  | ⟨1, _⟩ => show win24_6.index t24_9 1 * 64 ≤ (i 1).val ∧ (i 1).val < win24_6.index t24_9 1 * 64 + 64
              rw [e1]; omega

/-! ## The three arrays after the region -/

/-- The product array ends as the product. -/
theorem z : (dat24 (F := Ideal) V c).arrAt 4 cfg24.N = mm (comb (V c (Pipeline.arrRef spec24 2) : Mat 1 1) (V c (Pipeline.arrRef spec24 0) : Mat 50000 128) (V c (Pipeline.arrRef spec24 1) : Mat 50000 128)) (V c (Pipeline.arrRef spec24 3) : Mat 128 64) :=
  (dat24 V c).arrAt_eq_of_cover 4 (Z V c) (fun t _ => flushed4 V c t) cover4

/-- The column-sum row ends as the tiled column sums of the product. -/
theorem s : (dat24 (F := Ideal) V c).arrAt 5 cfg24.N = colSum (mm (comb (V c (Pipeline.arrRef spec24 2) : Mat 1 1) (V c (Pipeline.arrRef spec24 0) : Mat 50000 128) (V c (Pipeline.arrRef spec24 1) : Mat 50000 128)) (V c (Pipeline.arrRef spec24 3) : Mat 128 64)) :=
  (dat24 V c).arrAt_eq_of_cover 5 (colSum (Z V c)) (flushed5 V c) cover5

/-- The sum-of-squares row ends as the tiled column sums of the product's squares. -/
theorem ss : (dat24 (F := Ideal) V c).arrAt 6 cfg24.N = colSumSq (mm (comb (V c (Pipeline.arrRef spec24 2) : Mat 1 1) (V c (Pipeline.arrRef spec24 0) : Mat 50000 128) (V c (Pipeline.arrRef spec24 1) : Mat 50000 128)) (V c (Pipeline.arrRef spec24 3) : Mat 128 64)) :=
  (dat24 V c).arrAt_eq_of_cover 6 (colSumSq (Z V c)) (flushed6 V c) cover6

end Cert.GIN.Reg24

end
-- ==== Proof.Reg25.lean ====
/-
  Region 25: the normalisation-and-rectifier map on a matrix of 50000 rows and 64 columns.

  The region visits ten grid points.  At point `t` it reads rows `5000·t … 5000·t + 4999` of the matrix `z` and the
  whole of the four rows `mean`, `var`, `γ`, `β` (each `[1, 64]`, the same block at every point), and writes the same
  rows of the output.  Entry `(p, q)` of what it writes is
  `max (γ q · (z (5000·t + p, q) − mean q) · rsqrt (var q + eps) + β q) 0`: each row vector is read at column `q` of
  its one row, whatever `p` is.  So the block point `t` writes is block `t` of ONE function of the five arrays,
  `normRelu z mean var γ β eps`, and since the ten blocks cover all 50000 rows (row `r` lies in block `r / 5000`),
  the output array ends holding that function.
-/
import proofs.«177653_j8959301779747_1_alg».proof.Proof.Spec
import proofs.«177653_j8959301779747_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

noncomputable section

namespace Cert.GIN.Reg25

open Cert.KernelIdeal Cert.KernelIdeal.Gen Cert.GIN
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The zero offsets of a block read or written whole. -/
theorem hz : (![0, 0] : Fin 2 → Nat) = fun _ => 0 := funext fun a => by fin_cases a <;> rfl

/-- The body's arithmetic at entry `(p, q)` of a block: the row vectors are read at column `q` of their one row, the
    rectifier's zero word is the number zero. -/
theorem pay_apply (x0 : Vec Ideal S5000x64 .f32) (x1 x2 x3 x4 : Vec Ideal S1x64 .f32) (p : Fin 5000) (q : Fin 64) :
    k25_pay1 x0 x1 x2 x3 x4 (ix2 p q)
      = max (x3 (ix2 0 q) * (x0 (ix2 p q) - x1 (ix2 0 q)) * Ideal.rsqrt (x2 (ix2 0 q) + Ideal.ofBits .f32 0x3727C5AC#32)
          + x4 (ix2 0 q)) 0 := by
  unfold k25_pay1
  simp only [shapeCast_self]
  rw [maximumf_apply, addf_apply, mulf_apply, mulf_apply, subf_apply, broadcast_apply,
    broadcastTo_1b_ab_apply, broadcastTo_1b_ab_apply, broadcastTo_1b_ab_apply, broadcastTo_1b_ab_apply]
  show max (x3 (ix2 0 q) * (x0 (ix2 p q) - x1 (ix2 0 q)) * Ideal.rsqrt (x2 (ix2 0 q) + Ideal.ofBits .f32 0x3727C5AC#32)
      + x4 (ix2 0 q)) (Ideal.ofBits .f32 0x00000000#32) = _
  rw [Ideal.ofBits_zero_f32]

/-- The same at any index of the block. -/
theorem pay_at (x0 : Vec Ideal S5000x64 .f32) (x1 x2 x3 x4 : Vec Ideal S1x64 .f32) (j : S5000x64.Idx) :
    k25_pay1 x0 x1 x2 x3 x4 j
      = max (x3 (ix2 0 (j 1)) * (x0 j - x1 (ix2 0 (j 1))) * Ideal.rsqrt (x2 (ix2 0 (j 1)) + Ideal.ofBits .f32 0x3727C5AC#32)
          + x4 (ix2 0 (j 1))) 0 := by
  obtain ⟨p, q, rfl⟩ : ∃ (p : Fin 5000) (q : Fin 64), j = ix2 p q := ⟨j 0, j 1, eq_ix2 j⟩
  exact pay_apply x0 x1 x2 x3 x4 p q

/-- The block indices, decided over the ten grid points: the matrix and the output move together down the rows, one
    block per point; the four row vectors stay at their one block. -/
theorem idx_facts : ∀ t : Fin cfg25.N,
    win25_5.index t (0 : Fin 2) = t.val ∧ win25_5.index t (1 : Fin 2) = 0
    ∧ win25_0.index t (0 : Fin 2) = t.val ∧ win25_0.index t (1 : Fin 2) = 0
    ∧ win25_1.index t (0 : Fin 2) = 0 ∧ win25_1.index t (1 : Fin 2) = 0
    ∧ win25_2.index t (0 : Fin 2) = 0 ∧ win25_2.index t (1 : Fin 2) = 0
    ∧ win25_3.index t (0 : Fin 2) = 0 ∧ win25_3.index t (1 : Fin 2) = 0
    ∧ win25_4.index t (0 : Fin 2) = 0 ∧ win25_4.index t (1 : Fin 2) = 0 :=
  (by decide +kernel : ∀ t : Fin grid25.N, _)

/-- THE BLOCK EQUATION at a symbolic grid point `t`: the body's arithmetic on the five blocks at `t` is block `t` of
    `normRelu` of the five arrays.  Entry `j` of the block of `z` and of the output sit at the same place of their
    arrays (row `5000·t + j 0`, column `j 1`), and entry `(0, j 1)` of each row vector's one block is entry `(0, j 1)`
    of the row vector. -/
theorem block_eq (t : Fin cfg25.N) (z : Mat 50000 64) (mean var γ β : Mat 1 64) :
    k25_pay1 (((cfg25.win 0).blk t).view.read (Elt Ideal) z) (((cfg25.win 1).blk t).view.read (Elt Ideal) mean)
        (((cfg25.win 2).blk t).view.read (Elt Ideal) var) (((cfg25.win 3).blk t).view.read (Elt Ideal) γ)
        (((cfg25.win 4).blk t).view.read (Elt Ideal) β)
      = ((cfg25.win 5).blk t).view.read (Elt Ideal) (normRelu z mean var γ β (Ideal.ofBits .f32 0x3727C5AC#32)) := by
  obtain ⟨e50, e51, e00, e01, e10, e11, e20, e21, e30, e31, e40, e41⟩ := idx_facts t
  funext j
  refine (pay_at _ _ _ _ _ j).trans ?_
  have h0 : ((cfg25.win 0).blk t).view.emb j = ((cfg25.win 5).blk t).view.emb j := by
    funext a; apply Fin.ext
    match a with
    | ⟨0, _⟩ => show win25_0.index t (0 : Fin 2) * 5000 + 1 * (j 0).val = win25_5.index t (0 : Fin 2) * 5000 + 1 * (j 0).val; rw [e00, e50]
    | ⟨1, _⟩ => show win25_0.index t (1 : Fin 2) * 64 + 1 * (j 1).val = win25_5.index t (1 : Fin 2) * 64 + 1 * (j 1).val; rw [e01, e51]
  have h1 : ((cfg25.win 1).blk t).view.emb (ix2 0 (j 1)) = (ix2 (0 : Fin 1) ((((cfg25.win 5).blk t).view.emb j) 1) : S1x64.Idx) := by
    funext a; apply Fin.ext
    match a with
    | ⟨0, _⟩ => show win25_1.index t (0 : Fin 2) * 1 + 1 * 0 = 0; rw [e10]
    | ⟨1, _⟩ => show win25_1.index t (1 : Fin 2) * 64 + 1 * (j 1).val = win25_5.index t (1 : Fin 2) * 64 + 1 * (j 1).val; rw [e11, e51]
  have h2 : ((cfg25.win 2).blk t).view.emb (ix2 0 (j 1)) = (ix2 (0 : Fin 1) ((((cfg25.win 5).blk t).view.emb j) 1) : S1x64.Idx) := by
    funext a; apply Fin.ext
    match a with
    | ⟨0, _⟩ => show win25_2.index t (0 : Fin 2) * 1 + 1 * 0 = 0; rw [e20]
    | ⟨1, _⟩ => show win25_2.index t (1 : Fin 2) * 64 + 1 * (j 1).val = win25_5.index t (1 : Fin 2) * 64 + 1 * (j 1).val; rw [e21, e51]
  have h3 : ((cfg25.win 3).blk t).view.emb (ix2 0 (j 1)) = (ix2 (0 : Fin 1) ((((cfg25.win 5).blk t).view.emb j) 1) : S1x64.Idx) := by
    funext a; apply Fin.ext
    match a with
    | ⟨0, _⟩ => show win25_3.index t (0 : Fin 2) * 1 + 1 * 0 = 0; rw [e30]
    | ⟨1, _⟩ => show win25_3.index t (1 : Fin 2) * 64 + 1 * (j 1).val = win25_5.index t (1 : Fin 2) * 64 + 1 * (j 1).val; rw [e31, e51]
  have h4 : ((cfg25.win 4).blk t).view.emb (ix2 0 (j 1)) = (ix2 (0 : Fin 1) ((((cfg25.win 5).blk t).view.emb j) 1) : S1x64.Idx) := by
    funext a; apply Fin.ext
    match a with
    | ⟨0, _⟩ => show win25_4.index t (0 : Fin 2) * 1 + 1 * 0 = 0; rw [e40]
    | ⟨1, _⟩ => show win25_4.index t (1 : Fin 2) * 64 + 1 * (j 1).val = win25_5.index t (1 : Fin 2) * 64 + 1 * (j 1).val; rw [e41, e51]
  show max (γ (((cfg25.win 3).blk t).view.emb (ix2 0 (j 1)))
        * (z (((cfg25.win 0).blk t).view.emb j) - mean (((cfg25.win 1).blk t).view.emb (ix2 0 (j 1))))
        * Ideal.rsqrt (var (((cfg25.win 2).blk t).view.emb (ix2 0 (j 1))) + Ideal.ofBits .f32 0x3727C5AC#32)
      + β (((cfg25.win 4).blk t).view.emb (ix2 0 (j 1)))) 0
    = normRelu z mean var γ β (Ideal.ofBits .f32 0x3727C5AC#32) (((cfg25.win 5).blk t).view.emb j)
  rw [h0, h1, h2, h3, h4]
  rfl

/-- An index of the output array is in point `t`'s block iff each coordinate is in the block's range on its axis. -/
theorem mem_blk (t : Fin cfg25.N) (i : S50000x64.Idx) :
    i ∈ ((cfg25.win 5).blk t).view.set ↔ ∀ a : Fin 2, win25_5.index t a * S5000x64.size a ≤ (i a).val
      ∧ (i a).val < win25_5.index t a * S5000x64.size a + S5000x64.size a := by
  show i ∈ ((View.whole main_v309).slice (win25_5.rect t)).set ↔ _
  rw [View.set_slice_whole, Rect.mem_set_unit]
  exact Iff.rfl

/-- THE COVER: row `r` of the output lies in the block of grid point `r / 5000`, which writes its block back. -/
theorem cover (i : S50000x64.Idx) :
    ∃ t : Fin cfg25.N, (cfg25.win 5).flush t = true ∧ i ∈ ((cfg25.win 5).blk t).view.set := by
  have hi0 : (i 0).val < 50000 := (i 0).isLt
  have hi1 : (i 1).val < 64 := (i 1).isLt
  have hN : cfg25.N = 10 := N_25
  have ht : (i 0).val / 5000 < cfg25.N := by rw [hN]; omega
  obtain ⟨e50, e51, -⟩ := idx_facts ⟨(i 0).val / 5000, ht⟩
  refine ⟨⟨(i 0).val / 5000, ht⟩, flush25_5 _, ?_⟩
  rw [mem_blk]
  intro a
  match a with
  | ⟨0, _⟩ =>
    show win25_5.index ⟨(i 0).val / 5000, ht⟩ (0 : Fin 2) * 5000 ≤ (i 0).val
      ∧ (i 0).val < win25_5.index ⟨(i 0).val / 5000, ht⟩ (0 : Fin 2) * 5000 + 5000
    rw [e50]
    show (i 0).val / 5000 * 5000 ≤ (i 0).val ∧ (i 0).val < (i 0).val / 5000 * 5000 + 5000
    omega
  | ⟨1, _⟩ =>
    show win25_5.index ⟨(i 0).val / 5000, ht⟩ (1 : Fin 2) * 64 ≤ (i 1).val
      ∧ (i 1).val < win25_5.index ⟨(i 0).val / 5000, ht⟩ (1 : Fin 2) * 64 + 64
    rw [e51]
    omega

/-- WHAT POINT `t` WRITES BACK is block `t` of `normRelu` of the five arrays as the region finds them: the body's one
    store fills the whole staging buffer with its arithmetic on the five blocks at `t`. -/
theorem flushed_eq (c : Dev nD) (t : Fin cfg25.N) :
    (dat25 (F := Ideal) V c).flushed 5 t = ((cfg25.win 5).blk t).view.read (Elt Ideal)
      (normRelu (n := 50000) (d := 64) (V c (Pipeline.arrRef spec25 0)) (V c (Pipeline.arrRef spec25 1))
        (V c (Pipeline.arrRef spec25 2)) (V c (Pipeline.arrRef spec25 3)) (V c (Pipeline.arrRef spec25 4))
        (Ideal.ofBits .f32 0x3727C5AC#32)) := by
  show (cfg25.win 5).cut (grid25.coords t) ((dat25 (F := Ideal) V c).after 5 t) = _
  rw [after25_5]
  unfold out25_5
  rw [View.canon_unit_zero hz]
  simp only [View.ld_unit_zero (S := S5000x64) hz, View.ld_unit_zero (S := S1x64) hz]
  unfold iblk25
  exact block_eq t (V c (Pipeline.arrRef spec25 0)) (V c (Pipeline.arrRef spec25 1)) (V c (Pipeline.arrRef spec25 2))
    (V c (Pipeline.arrRef spec25 3)) (V c (Pipeline.arrRef spec25 4))

/-- THE OUTPUT ARRAY after the region: `normRelu` of the five arrays as the region finds them. -/
theorem out (c : Dev nD) :
    (dat25 (F := Ideal) V c).arrAt 5 cfg25.N
      = normRelu (n := 50000) (d := 64) (V c (Pipeline.arrRef spec25 0)) (V c (Pipeline.arrRef spec25 1))
          (V c (Pipeline.arrRef spec25 2)) (V c (Pipeline.arrRef spec25 3)) (V c (Pipeline.arrRef spec25 4))
          (Ideal.ofBits .f32 0x3727C5AC#32) :=
  (dat25 (F := Ideal) V c).arrAt_eq_of_cover 5 _ (fun t _ => flushed_eq V c t) cover

end Cert.GIN.Reg25

end
-- ==== Proof.Reg26.lean ====
/-
  Region 26: the last dense layer followed by the rectifier, `relu (h · w)` for `h` of 50000 rows and 64 columns and
  `w` of 64 rows and 2 columns.

  The region visits ten grid points.  At point `t` it reads rows `5000·t … 5000·t + 4999` of `h` and the whole of `w`
  (the same block at every point), and writes the same rows of the output.  The body rounds both operands to
  bfloat16 — the identity on the extended reals — and multiplies them into a zero accumulator, so entry `(p, j)` of
  what it writes is `max (∑ q, h (5000·t + p, q) · w (q, j)) 0`.  So the block point `t` writes is block `t` of ONE
  function of the two arrays, `relu (mm h w)`, and since the ten blocks cover all 50000 rows (row `r` lies in block
  `r / 5000`), the output array ends holding that function.
-/
import proofs.«177653_j8959301779747_1_alg».proof.Proof.Spec
import proofs.«177653_j8959301779747_1_alg».proof.Proof.Gen.KernelIdeal.Frame
import proofs.«177653_j8959301779747_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

namespace Cert.GIN.Reg26

open Cert.KernelIdeal Cert.KernelIdeal.Gen Cert.GIN
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The zero offsets of a block read or written whole. -/
theorem hz : (![0, 0] : Fin 2 → Nat) = fun _ => 0 := funext fun a => by fin_cases a <;> rfl

/-- The body's arithmetic at entry `(p, j)` of a block: the rounding to bfloat16 is the identity, the product into the
    zero accumulator is the plain sum over the 64 contracted columns, the rectifier's zero word is the number zero. -/
theorem pay_apply (x0 : Vec Ideal S5000x64 .f32) (x1 : Vec Ideal S64x2 .f32) (p : Fin 5000) (j : Fin 2) :
    k26_pay1 x0 x1 (ix2 p j) = max (∑ q : Fin 64, x0 (ix2 p q) * x1 (ix2 q j)) 0 := by
  unfold k26_pay1
  simp only [shapeCast_self]
  rw [maximumf_apply, broadcast_apply]
  show max (matmul dot_S5000x64_S64x2_S5000x2_1_0_0_1_n_n none (truncf .bf16 x0 bitsLt_bf16_f32) (truncf .bf16 x1 bitsLt_bf16_f32)
      (constant (F := Ideal) S5000x2 .f32 0x00000000#32) (ix2 p j)) (Ideal.ofBits .f32 0x00000000#32) = _
  rw [Ideal.ofBits_zero_f32]
  refine congrArg (fun x => max x (0 : EReal)) ?_
  exact (Cert.PlainDot.matmul_zero_ix2 dot_S5000x64_S64x2_S5000x2_1_0_0_1_n_n rfl none
    (truncf .bf16 x0 bitsLt_bf16_f32) (truncf .bf16 x1 bitsLt_bf16_f32) p j).trans (Finset.sum_congr rfl fun q _ => rfl)

/-- The same at any index of the block. -/
theorem pay_at (x0 : Vec Ideal S5000x64 .f32) (x1 : Vec Ideal S64x2 .f32) (y : S5000x2.Idx) :
    k26_pay1 x0 x1 y = max (∑ q : Fin 64, x0 (ix2 (y 0) q) * x1 (ix2 q (y 1))) 0 := by
  obtain ⟨p, j, rfl⟩ : ∃ (p : Fin 5000) (j : Fin 2), y = ix2 p j := ⟨y 0, y 1, eq_ix2 y⟩
  exact pay_apply x0 x1 p j

/-- The block indices, decided over the ten grid points: `h` and the output move together down the rows, one block
    per point; `w` stays at its one block. -/
theorem idx_facts : ∀ t : Fin cfg26.N,
    win26_2.index t (0 : Fin 2) = t.val ∧ win26_2.index t (1 : Fin 2) = 0
    ∧ win26_0.index t (0 : Fin 2) = t.val ∧ win26_0.index t (1 : Fin 2) = 0
    ∧ win26_1.index t (0 : Fin 2) = 0 ∧ win26_1.index t (1 : Fin 2) = 0 :=
  (by decide +kernel : ∀ t : Fin grid26.N, _)

/-- THE BLOCK EQUATION at a symbolic grid point `t`: the body's arithmetic on the two blocks at `t` is block `t` of
    `relu (mm h w)`.  Entry `(y 0, q)` of the block of `h` sits in row `5000·t + y 0` of `h`, the row of the output
    entry `y`; the one block of `w` is `w`. -/
theorem block_eq (t : Fin cfg26.N) (h : Mat 50000 64) (w : Mat 64 2) :
    k26_pay1 (((cfg26.win 0).blk t).view.read (Elt Ideal) h) (((cfg26.win 1).blk t).view.read (Elt Ideal) w)
      = ((cfg26.win 2).blk t).view.read (Elt Ideal) (relu (mm h w)) := by
  obtain ⟨e20, e21, e00, e01, e10, e11⟩ := idx_facts t
  funext y
  refine (pay_at _ _ y).trans ?_
  have h0 : ∀ q : Fin 64, ((cfg26.win 0).blk t).view.emb (ix2 (y 0) q)
      = (ix2 ((((cfg26.win 2).blk t).view.emb y) 0) q : S50000x64.Idx) := fun q => by
    funext a; apply Fin.ext
    match a with
    | ⟨0, _⟩ => show win26_0.index t (0 : Fin 2) * 5000 + 1 * (y 0).val = win26_2.index t (0 : Fin 2) * 5000 + 1 * (y 0).val; rw [e00, e20]
    | ⟨1, _⟩ => show win26_0.index t (1 : Fin 2) * 64 + 1 * q.val = q.val; rw [e01]; omega
  have h1 : ∀ q : Fin 64, ((cfg26.win 1).blk t).view.emb (ix2 q (y 1))
      = (ix2 q ((((cfg26.win 2).blk t).view.emb y) 1) : S64x2.Idx) := fun q => by
    funext a; apply Fin.ext
    match a with
    | ⟨0, _⟩ => show win26_1.index t (0 : Fin 2) * 64 + 1 * q.val = q.val; rw [e10]; omega
    | ⟨1, _⟩ => show win26_1.index t (1 : Fin 2) * 2 + 1 * (y 1).val = win26_2.index t (1 : Fin 2) * 2 + 1 * (y 1).val; rw [e11, e21]
  show max (∑ q : Fin 64, h (((cfg26.win 0).blk t).view.emb (ix2 (y 0) q)) * w (((cfg26.win 1).blk t).view.emb (ix2 q (y 1)))) 0
    = max (∑ q : Fin 64, h (ix2 ((((cfg26.win 2).blk t).view.emb y) 0) q) * w (ix2 q ((((cfg26.win 2).blk t).view.emb y) 1))) 0
  refine congrArg (fun x => max x (0 : EReal)) (Finset.sum_congr rfl fun q _ => ?_)
  rw [h0 q, h1 q]

/-- An index of the output array is in point `t`'s block iff each coordinate is in the block's range on its axis. -/
theorem mem_blk (t : Fin cfg26.N) (i : S50000x2.Idx) :
    i ∈ ((cfg26.win 2).blk t).view.set ↔ ∀ a : Fin 2, win26_2.index t a * S5000x2.size a ≤ (i a).val
      ∧ (i a).val < win26_2.index t a * S5000x2.size a + S5000x2.size a := by
  show i ∈ ((View.whole main_v310).slice (win26_2.rect t)).set ↔ _
  rw [View.set_slice_whole, Rect.mem_set_unit]
  exact Iff.rfl

/-- THE COVER: row `r` of the output lies in the block of grid point `r / 5000`, which writes its block back. -/
theorem cover (i : S50000x2.Idx) :
    ∃ t : Fin cfg26.N, (cfg26.win 2).flush t = true ∧ i ∈ ((cfg26.win 2).blk t).view.set := by
  have hi0 : (i 0).val < 50000 := (i 0).isLt
  have hi1 : (i 1).val < 2 := (i 1).isLt
  have hN : cfg26.N = 10 := N_26
  have ht : (i 0).val / 5000 < cfg26.N := by rw [hN]; omega
  obtain ⟨e20, e21, -⟩ := idx_facts ⟨(i 0).val / 5000, ht⟩
  refine ⟨⟨(i 0).val / 5000, ht⟩, flush26_2 _, ?_⟩
  rw [mem_blk]
  intro a
  match a with
  | ⟨0, _⟩ =>
    show win26_2.index ⟨(i 0).val / 5000, ht⟩ (0 : Fin 2) * 5000 ≤ (i 0).val
      ∧ (i 0).val < win26_2.index ⟨(i 0).val / 5000, ht⟩ (0 : Fin 2) * 5000 + 5000
    rw [e20]
    show (i 0).val / 5000 * 5000 ≤ (i 0).val ∧ (i 0).val < (i 0).val / 5000 * 5000 + 5000
    omega
  | ⟨1, _⟩ =>
    show win26_2.index ⟨(i 0).val / 5000, ht⟩ (1 : Fin 2) * 2 ≤ (i 1).val
      ∧ (i 1).val < win26_2.index ⟨(i 0).val / 5000, ht⟩ (1 : Fin 2) * 2 + 2
    rw [e21]
    omega

/-- WHAT POINT `t` WRITES BACK is block `t` of `relu (mm h w)` of the two arrays as the region finds them: the body's
    one store fills the whole staging buffer with its arithmetic on the two blocks at `t`. -/
theorem flushed_eq (c : Dev nD) (t : Fin cfg26.N) :
    (dat26 (F := Ideal) V c).flushed 2 t = ((cfg26.win 2).blk t).view.read (Elt Ideal)
      (relu (n := 50000) (d := 2) (mm (n := 50000) (k := 64) (d := 2) (V c (Pipeline.arrRef spec26 0)) (V c (Pipeline.arrRef spec26 1)))) := by
  show (cfg26.win 2).cut (grid26.coords t) ((dat26 (F := Ideal) V c).after 2 t) = _
  rw [after26_2]
  unfold out26_2
  rw [View.canon_unit_zero hz]
  simp only [View.ld_unit_zero (S := S5000x64) hz, View.ld_unit_zero (S := S64x2) hz]
  unfold iblk26
  exact block_eq t (V c (Pipeline.arrRef spec26 0)) (V c (Pipeline.arrRef spec26 1))

/-- THE OUTPUT ARRAY after the region: `relu (mm h w)` of the two arrays as the region finds them. -/
theorem out (c : Dev nD) :
    (dat26 (F := Ideal) V c).arrAt 2 cfg26.N
      = relu (n := 50000) (d := 2) (mm (n := 50000) (k := 64) (d := 2) (V c (Pipeline.arrRef spec26 0)) (V c (Pipeline.arrRef spec26 1))) :=
  (dat26 (F := Ideal) V c).arrAt_eq_of_cover 2 _ (fun t _ => flushed_eq V c t) cover

end Cert.GIN.Reg26

end
-- ==== Proof.Wire6.lean ====
/-
  The wiring of layer 6: what each input window of regions 24–26 holds when its region is entered, and what the result buffer holds at the end.

  Each window's array is either an argument as launched, an earlier region's output array, or the value of the host
  operations that precede the region applied to such arrays; every equation below names which, with the host
  operations written out as the composition the program applies.
-/
import proofs.«177653_j8959301779747_1_alg».proof.Proof.WireKeep
import proofs.«177653_j8959301779747_1_alg».proof.Proof.Wire0

set_option maxRecDepth 16384

noncomputable section

namespace Cert.GIN.K

open Cert.KernelIdeal Cert.KernelIdeal.Gen
open Idealize.ShloMosaic Idealize.ShloMosaic.TcCoe Idealize.ShloMosaic.Tactic
open Idealize.ShloMosaic.Pipeline (Dat Cfg Window cellOf)

variable {F : FTy → Type} [FloatOps F]

variable (m : (ℓ : Loc nD τ sig) → Buf (Elt F) ℓ) (ρ : Dev nD → PrngReg)

/-! ## Region 24 -/

/-- Region 24, input window 0 (the array `main_v279`) at the region's entry: region 23's output array 5, which the host operations in between do not write. -/
theorem wire_24_0 (c : Dev nD) : V49 m ρ c (Pipeline.arrRef spec24 0) = (dat23 (V47 m ρ) c).arrAt 5 cfg23.N :=
  (host24_keep m ρ c main_v279 (by decide)).trans (W48_arr m ρ c 5)

set_option maxHeartbeats 2000000 in
/-- Region 24, input window 1 (the array `main_v289`) at the region's entry: the value the host operations before the region compute for it, written out down to the launch contents of the arguments and the earlier regions' output arrays. -/
theorem wire_24_1 (c : Dev nD) : V49 m ρ c (Pipeline.arrRef spec24 1) =
    (Host.scatterAdd scatter_S50000x128_S800000x1_S800000x128_1_0_0_1 (((broadcastInDim S50000x128 ![] bcast_S_S50000x128 : (⟨S_, .f32⟩ : BufTy).Contents (Elt F) → (⟨S50000x128, .f32⟩ : BufTy).Contents (Elt F)) (constant S_ .f32 0x00000000#32 : (⟨S_, .f32⟩ : BufTy).Contents (Elt F))) : (⟨S50000x128, .f32⟩ : BufTy).Contents (Elt F)) (((broadcastInDim S800000x1 ![0] bcast_S800000_S800000x1_0 : (⟨S800000, .i32⟩ : BufTy).Contents (Elt F) → (⟨S800000x1, .i32⟩ : BufTy).Contents (Elt F)) (shapeCast S800000 (extractStridedSlice S1x800000 ![1, 0] ((m ((c : Thread nD τ).loc main_arg1)) : (⟨S2x800000, .i32⟩ : BufTy).Contents (Elt F)) slices_S2x800000_S1x800000_1_0) shapeCasts_S1x800000_S800000)) : (⟨S800000x1, .i32⟩ : BufTy).Contents (Elt F)) ((Host.gather gather_S50000x128_S800000x1_S800000x128_1_0_n_n_0_1_1128 (((dat23 (V47 m ρ) c).arrAt 5 cfg23.N) : (⟨S50000x128, .f32⟩ : BufTy).Contents (Elt F)) (((broadcastInDim S800000x1 ![0] bcast_S800000_S800000x1_0 : (⟨S800000, .i32⟩ : BufTy).Contents (Elt F) → (⟨S800000x1, .i32⟩ : BufTy).Contents (Elt F)) ((select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) ((cmpi .slt : (⟨S800000, .i32⟩ : BufTy).Contents (Elt F) → (⟨S800000, .i32⟩ : BufTy).Contents (Elt F) → (⟨S800000, .i1⟩ : BufTy).Contents (Elt F)) (shapeCast S800000 (extractStridedSlice S1x800000 ![0, 0] ((m ((c : Thread nD τ).loc main_arg1)) : (⟨S2x800000, .i32⟩ : BufTy).Contents (Elt F)) slices_S2x800000_S1x800000_0_0) shapeCasts_S1x800000_S800000) ((broadcastInDim S800000 ![] bcast_S_S800000 : (⟨S_, .i32⟩ : BufTy).Contents (Elt F) → (⟨S800000, .i32⟩ : BufTy).Contents (Elt F)) (constantI S_ 32 0#32 : (⟨S_, .i32⟩ : BufTy).Contents (Elt F)))) ((addi : (⟨S800000, .i32⟩ : BufTy).Contents (Elt F) → (⟨S800000, .i32⟩ : BufTy).Contents (Elt F) → (⟨S800000, .i32⟩ : BufTy).Contents (Elt F)) (shapeCast S800000 (extractStridedSlice S1x800000 ![0, 0] ((m ((c : Thread nD τ).loc main_arg1)) : (⟨S2x800000, .i32⟩ : BufTy).Contents (Elt F)) slices_S2x800000_S1x800000_0_0) shapeCasts_S1x800000_S800000) ((broadcastInDim S800000 ![] bcast_S_S800000 : (⟨S_, .i32⟩ : BufTy).Contents (Elt F) → (⟨S800000, .i32⟩ : BufTy).Contents (Elt F)) (constantI S_ 32 50000#32 : (⟨S_, .i32⟩ : BufTy).Contents (Elt F)))) (shapeCast S800000 (extractStridedSlice S1x800000 ![0, 0] ((m ((c : Thread nD τ).loc main_arg1)) : (⟨S2x800000, .i32⟩ : BufTy).Contents (Elt F)) slices_S2x800000_S1x800000_0_0) shapeCasts_S1x800000_S800000))) : (⟨S800000x1, .i32⟩ : BufTy).Contents (Elt F))) : (⟨S800000x128, .f32⟩ : BufTy).Contents (Elt F))) := by
  show StableHlo.after hostOps24 (W48 m ρ c) (Proc.devRef .tc main_v289) = _
  after_results
  rw [at_v3_48 m ρ c, wire_v3 m ρ c, (W48_arr m ρ c 5 : W48 m ρ c (Proc.devRef .tc main_v279) = _), at_v1_48 m ρ c, wire_v1 m ρ c]
  all_goals rfl

set_option maxHeartbeats 2000000 in
/-- Region 24, input window 2 (the array `main_v293`) at the region's entry: the value the host operations before the region compute for it, written out down to the launch contents of the arguments and the earlier regions' output arrays. -/
theorem wire_24_2 (c : Dev nD) : V49 m ρ c (Pipeline.arrRef spec24 2) =
    (shapeCast S1x1 ((addf : (⟨S_, .f32⟩ : BufTy).Contents (Elt F) → (⟨S_, .f32⟩ : BufTy).Contents (Elt F) → (⟨S_, .f32⟩ : BufTy).Contents (Elt F)) (constant S_ .f32 0x3F800000#32 : (⟨S_, .f32⟩ : BufTy).Contents (Elt F)) (shapeCast S_ (extractStridedSlice S1 ![6] ((m ((c : Thread nD τ).loc main_arg11)) : (⟨S7, .f32⟩ : BufTy).Contents (Elt F)) slices_S7_S1_6) shapeCasts_S1_S_)) shapeCasts_S_S1x1) := by
  show StableHlo.after hostOps24 (W48 m ρ c) (Proc.devRef .tc main_v293) = _
  after_results
  rw [at_arg11_48 m ρ c]
  all_goals rfl

set_option maxHeartbeats 2000000 in
/-- Region 24, input window 3 (the array `main_v295`) at the region's entry: the value the host operations before the region compute for it, written out down to the launch contents of the arguments and the earlier regions' output arrays. -/
theorem wire_24_3 (c : Dev nD) : V49 m ρ c (Pipeline.arrRef spec24 3) =
    (shapeCast S128x64 (extractStridedSlice S1x128x64 ![6, 0, 0] ((m ((c : Thread nD τ).loc main_arg4)) : (⟨S7x128x64, .f32⟩ : BufTy).Contents (Elt F)) slices_S7x128x64_S1x128x64_6_0_0) shapeCasts_S1x128x64_S128x64) := by
  show StableHlo.after hostOps24 (W48 m ρ c) (Proc.devRef .tc main_v295) = _
  after_results
  rw [at_arg4_48 m ρ c]
  all_goals rfl

/-! ## Region 25 -/

/-- Region 25, input window 0 (the array `main_v296_0`) at the region's entry: region 24's output array 4, which the host operations in between do not write. -/
theorem wire_25_0 (c : Dev nD) : V51 m ρ c (Pipeline.arrRef spec25 0) = (dat24 (V49 m ρ) c).arrAt 4 cfg24.N :=
  (host25_keep m ρ c main_v296_0 (by decide)).trans (W50_arr m ρ c 4)

set_option maxHeartbeats 2000000 in
/-- Region 25, input window 1 (the array `main_v298`) at the region's entry: the value the host operations before the region compute for it, written out down to the launch contents of the arguments and the earlier regions' output arrays. -/
theorem wire_25_1 (c : Dev nD) : V51 m ρ c (Pipeline.arrRef spec25 1) =
    ((Host.divf : (⟨S1x64, .f32⟩ : BufTy).Contents (Elt F) → (⟨S1x64, .f32⟩ : BufTy).Contents (Elt F) → (⟨S1x64, .f32⟩ : BufTy).Contents (Elt F)) ((dat24 (V49 m ρ) c).arrAt 5 cfg24.N) ((broadcastInDim S1x64 ![] bcast_S_S1x64 : (⟨S_, .f32⟩ : BufTy).Contents (Elt F) → (⟨S1x64, .f32⟩ : BufTy).Contents (Elt F)) (constant S_ .f32 0x47435000#32 : (⟨S_, .f32⟩ : BufTy).Contents (Elt F)))) := by
  show StableHlo.after hostOps25 (W50 m ρ c) (Proc.devRef .tc main_v298) = _
  after_results
  rw [(W50_arr m ρ c 5 : W50 m ρ c (Proc.devRef .tc main_v296_1) = _)]
  all_goals rfl

set_option maxHeartbeats 2000000 in
/-- Region 25, input window 2 (the array `main_v302`) at the region's entry: the value the host operations before the region compute for it, written out down to the launch contents of the arguments and the earlier regions' output arrays. -/
theorem wire_25_2 (c : Dev nD) : V51 m ρ c (Pipeline.arrRef spec25 2) =
    ((subf : (⟨S1x64, .f32⟩ : BufTy).Contents (Elt F) → (⟨S1x64, .f32⟩ : BufTy).Contents (Elt F) → (⟨S1x64, .f32⟩ : BufTy).Contents (Elt F)) ((Host.divf : (⟨S1x64, .f32⟩ : BufTy).Contents (Elt F) → (⟨S1x64, .f32⟩ : BufTy).Contents (Elt F) → (⟨S1x64, .f32⟩ : BufTy).Contents (Elt F)) ((dat24 (V49 m ρ) c).arrAt 6 cfg24.N) ((broadcastInDim S1x64 ![] bcast_S_S1x64 : (⟨S_, .f32⟩ : BufTy).Contents (Elt F) → (⟨S1x64, .f32⟩ : BufTy).Contents (Elt F)) (constant S_ .f32 0x47435000#32 : (⟨S_, .f32⟩ : BufTy).Contents (Elt F)))) ((mulf : (⟨S1x64, .f32⟩ : BufTy).Contents (Elt F) → (⟨S1x64, .f32⟩ : BufTy).Contents (Elt F) → (⟨S1x64, .f32⟩ : BufTy).Contents (Elt F)) ((Host.divf : (⟨S1x64, .f32⟩ : BufTy).Contents (Elt F) → (⟨S1x64, .f32⟩ : BufTy).Contents (Elt F) → (⟨S1x64, .f32⟩ : BufTy).Contents (Elt F)) ((dat24 (V49 m ρ) c).arrAt 5 cfg24.N) ((broadcastInDim S1x64 ![] bcast_S_S1x64 : (⟨S_, .f32⟩ : BufTy).Contents (Elt F) → (⟨S1x64, .f32⟩ : BufTy).Contents (Elt F)) (constant S_ .f32 0x47435000#32 : (⟨S_, .f32⟩ : BufTy).Contents (Elt F)))) ((Host.divf : (⟨S1x64, .f32⟩ : BufTy).Contents (Elt F) → (⟨S1x64, .f32⟩ : BufTy).Contents (Elt F) → (⟨S1x64, .f32⟩ : BufTy).Contents (Elt F)) ((dat24 (V49 m ρ) c).arrAt 5 cfg24.N) ((broadcastInDim S1x64 ![] bcast_S_S1x64 : (⟨S_, .f32⟩ : BufTy).Contents (Elt F) → (⟨S1x64, .f32⟩ : BufTy).Contents (Elt F)) (constant S_ .f32 0x47435000#32 : (⟨S_, .f32⟩ : BufTy).Contents (Elt F)))))) := by
  show StableHlo.after hostOps25 (W50 m ρ c) (Proc.devRef .tc main_v302) = _
  after_results
  rw [(W50_arr m ρ c 6 : W50 m ρ c (Proc.devRef .tc main_v296_2) = _), (W50_arr m ρ c 5 : W50 m ρ c (Proc.devRef .tc main_v296_1) = _)]
  all_goals rfl

set_option maxHeartbeats 2000000 in
/-- Region 25, input window 3 (the array `main_v305`) at the region's entry: the value the host operations before the region compute for it, written out down to the launch contents of the arguments and the earlier regions' output arrays. -/
theorem wire_25_3 (c : Dev nD) : V51 m ρ c (Pipeline.arrRef spec25 3) =
    (shapeCast S1x64 (shapeCast S64 (extractStridedSlice S1x64 ![6, 0] ((m ((c : Thread nD τ).loc main_arg5)) : (⟨S7x64, .f32⟩ : BufTy).Contents (Elt F)) slices_S7x64_S1x64_6_0) shapeCasts_S1x64_S64) shapeCasts_S64_S1x64) := by
  show StableHlo.after hostOps25 (W50 m ρ c) (Proc.devRef .tc main_v305) = _
  after_results
  rw [at_arg5_50 m ρ c]
  all_goals rfl

set_option maxHeartbeats 2000000 in
/-- Region 25, input window 4 (the array `main_v308`) at the region's entry: the value the host operations before the region compute for it, written out down to the launch contents of the arguments and the earlier regions' output arrays. -/
theorem wire_25_4 (c : Dev nD) : V51 m ρ c (Pipeline.arrRef spec25 4) =
    (shapeCast S1x64 (shapeCast S64 (extractStridedSlice S1x64 ![6, 0] ((m ((c : Thread nD τ).loc main_arg6)) : (⟨S7x64, .f32⟩ : BufTy).Contents (Elt F)) slices_S7x64_S1x64_6_0) shapeCasts_S1x64_S64) shapeCasts_S64_S1x64) := by
  show StableHlo.after hostOps25 (W50 m ρ c) (Proc.devRef .tc main_v308) = _
  after_results
  rw [at_arg6_50 m ρ c]
  all_goals rfl

/-! ## Region 26 -/

/-- Region 26, input window 0 (the array `main_v309`) at the region's entry: region 25's output array 5, which nothing in between writes. -/
theorem wire_26_0 (c : Dev nD) : V52 m ρ c (Pipeline.arrRef spec26 0) = (dat25 (V51 m ρ) c).arrAt 5 cfg25.N :=
  W52_arr m ρ c 5

/-- Region 26, input window 1 (the array `main_arg10`) at the region's entry: the argument as launched. -/
theorem wire_26_1 (c : Dev nD) : V52 m ρ c (Pipeline.arrRef spec26 1) = m ((c : Thread nD τ).loc main_arg10) :=
  at_arg10_52 m ρ c

/-! ## The result -/

set_option maxHeartbeats 2000000 in
/-- The result buffer at the end: the host operations after the last region applied to that region's output array and
    to the argument they read. -/
theorem wire_out (c : Dev nD) : W54 m ρ c (Proc.devRef .tc main_v322) =
    ((Host.divf : (⟨S64x2, .f32⟩ : BufTy).Contents (Elt F) → (⟨S64x2, .f32⟩ : BufTy).Contents (Elt F) → (⟨S64x2, .f32⟩ : BufTy).Contents (Elt F)) (Host.scatterAdd scatter_S64x2_S50000x1_S50000x2_1_0_0_1 (((broadcastInDim S64x2 ![] bcast_S_S64x2 : (⟨S_, .f32⟩ : BufTy).Contents (Elt F) → (⟨S64x2, .f32⟩ : BufTy).Contents (Elt F)) (constant S_ .f32 0x00000000#32 : (⟨S_, .f32⟩ : BufTy).Contents (Elt F))) : (⟨S64x2, .f32⟩ : BufTy).Contents (Elt F)) (((broadcastInDim S50000x1 ![0] bcast_S50000_S50000x1_0 : (⟨S50000, .i32⟩ : BufTy).Contents (Elt F) → (⟨S50000x1, .i32⟩ : BufTy).Contents (Elt F)) (m ((c : Thread nD τ).loc main_arg3))) : (⟨S50000x1, .i32⟩ : BufTy).Contents (Elt F)) (((dat26 (V52 m ρ) c).arrAt 2 cfg26.N) : (⟨S50000x2, .f32⟩ : BufTy).Contents (Elt F))) ((broadcastInDim S64x2 ![0, 1] bcast_S64x1_S64x2_0_1 : (⟨S64x1, .f32⟩ : BufTy).Contents (Elt F) → (⟨S64x2, .f32⟩ : BufTy).Contents (Elt F)) ((broadcastInDim S64x1 ![0] bcast_S64_S64x1_0 : (⟨S64, .f32⟩ : BufTy).Contents (Elt F) → (⟨S64x1, .f32⟩ : BufTy).Contents (Elt F)) ((maximumf : (⟨S64, .f32⟩ : BufTy).Contents (Elt F) → (⟨S64, .f32⟩ : BufTy).Contents (Elt F) → (⟨S64, .f32⟩ : BufTy).Contents (Elt F)) (Host.scatterAdd scatter_S64_S50000x1_S50000_n_0_0_1 (((broadcastInDim S64 ![] bcast_S_S64 : (⟨S_, .f32⟩ : BufTy).Contents (Elt F) → (⟨S64, .f32⟩ : BufTy).Contents (Elt F)) (constant S_ .f32 0x00000000#32 : (⟨S_, .f32⟩ : BufTy).Contents (Elt F))) : (⟨S64, .f32⟩ : BufTy).Contents (Elt F)) (((broadcastInDim S50000x1 ![0] bcast_S50000_S50000x1_0 : (⟨S50000, .i32⟩ : BufTy).Contents (Elt F) → (⟨S50000x1, .i32⟩ : BufTy).Contents (Elt F)) (m ((c : Thread nD τ).loc main_arg3))) : (⟨S50000x1, .i32⟩ : BufTy).Contents (Elt F)) (((broadcastInDim S50000 ![] bcast_S_S50000 : (⟨S_, .f32⟩ : BufTy).Contents (Elt F) → (⟨S50000, .f32⟩ : BufTy).Contents (Elt F)) (constant S_ .f32 0x3F800000#32 : (⟨S_, .f32⟩ : BufTy).Contents (Elt F))) : (⟨S50000, .f32⟩ : BufTy).Contents (Elt F))) ((broadcastInDim S64 ![] bcast_S_S64 : (⟨S_, .f32⟩ : BufTy).Contents (Elt F) → (⟨S64, .f32⟩ : BufTy).Contents (Elt F)) (constant S_ .f32 0x3F800000#32 : (⟨S_, .f32⟩ : BufTy).Contents (Elt F))))))) := by
  show StableHlo.after hostOps27 (W53 m ρ c) (Proc.devRef .tc main_v322) = _
  after_results
  rw [at_arg3_53 m ρ c, (W53_arr m ρ c 2 : W53 m ρ c (Proc.devRef .tc main_v310) = _)]
  all_goals rfl

end Cert.GIN.K

end
-- ==== Proof.KLayer6.lean ====
/-
  Layer 6 of the kernel program at the level of the specification: what its regions leave, as functions of what
  they find.  A normalisation region's output is the batch normalisation of the product region's first output,
  from the column means and uncentred variances the host arithmetic forms out of that region's two statistics rows.
-/
import proofs.«177653_j8959301779747_1_alg».proof.Proof.Reg24
import proofs.«177653_j8959301779747_1_alg».proof.Proof.Reg25
import proofs.«177653_j8959301779747_1_alg».proof.Proof.Reg26
import proofs.«177653_j8959301779747_1_alg».proof.Proof.Wire6
import proofs.«177653_j8959301779747_1_alg».proof.Proof.KGlue

set_option maxRecDepth 16384

noncomputable section

namespace Cert.GIN.K

open Cert.KernelIdeal Cert.KernelIdeal.Gen
open Idealize.ShloMosaic Idealize.ShloMosaic.TcCoe Cert.GIN

variable (m : (ℓ : Loc nD τ sig) → Buf (Elt Ideal) ℓ) (ρ : Dev nD → PrngReg)

set_option maxHeartbeats 4000000 in
/-- The first normalisation of layer 6: batch normalisation (uncentred statistics) of `(sc · x + agg) · w1`. -/
theorem half_L6 (c : Dev nD) : (dat25 (V51 m ρ) c).arrAt 5 cfg25.N
    = bnU (mm (comb (V49 m ρ c (Pipeline.arrRef spec24 2)) (V49 m ρ c (Pipeline.arrRef spec24 0)) (V49 m ρ c (Pipeline.arrRef spec24 1))) (V49 m ρ c (Pipeline.arrRef spec24 3)))
        (V51 m ρ c (Pipeline.arrRef spec25 3)) (V51 m ρ c (Pipeline.arrRef spec25 4)) Nlit (Ideal.ofBits .f32 0x3727C5AC#32) := by
  rw [Reg25.out (V51 m ρ) c, wire_25_0 m ρ c, wire_25_1 m ρ c, wire_25_2 m ρ c]
  rw [varU_of64 _ _ _ (Reg24.s (V49 m ρ) c) (Reg24.ss (V49 m ρ) c), meanU_of64 _ _ (Reg24.s (V49 m ρ) c),
    Reg24.z (V49 m ρ) c]
  rfl

set_option maxHeartbeats 4000000 in
/-- The last product and rectifier: `relu (h1 · w_last)`. -/
theorem full_L6 (c : Dev nD) : (dat26 (V52 m ρ) c).arrAt 2 cfg26.N
    = relu (mm ((dat25 (V51 m ρ) c).arrAt 5 cfg25.N) (V52 m ρ c (Pipeline.arrRef spec26 1))) := by
  rw [Reg26.out (V52 m ρ) c, wire_26_0 m ρ c]

end Cert.GIN.K

end
-- ==== Proof.Assemble6.lean ====
/-
  The last layer of the first program is the last layer of the second, and so is the pooling after it.

  The last layer's output is the rectified product, to width 2, of the uncentred-statistics normalisation of its
  input's combination — the second program's last block of the same input when input and parameters are real.  The
  result of the whole program is the segment mean of that output by the batch vector: the same composition of
  operations in both programs.
-/
import proofs.«177653_j8959301779747_1_alg».proof.Proof.KLayer6
import proofs.«177653_j8959301779747_1_alg».proof.Proof.AssembleBridge
import proofs.«177653_j8959301779747_1_alg».proof.Proof.RefValueDefs
import proofs.«177653_j8959301779747_1_alg».proof.Proof.Gen.ReferenceIdeal

set_option maxRecDepth 16384

noncomputable section

namespace Cert.GIN.K

open Cert.KernelIdeal Cert.KernelIdeal.Gen
open Idealize.ShloMosaic Idealize.ShloMosaic.TcCoe Cert.GIN

variable (m : (ℓ : Loc nD τ sig) → Buf (Elt Ideal) ℓ) (ρ : Dev nD → PrngReg)

set_option maxHeartbeats 2000000 in
/-- The last layer: from its input agreeing with the second program's to its output agreeing. -/
theorem step_6 (c : Dev nD)
    (reals : IsReal ((m ((c : Thread nD τ).loc main_arg0)) : FVec Ideal Cert.KernelIdeal.S50000x128 .f32)
      ∧ IsReal ((m ((c : Thread nD τ).loc main_arg4)) : FVec Ideal Cert.KernelIdeal.S7x128x64 .f32)
      ∧ IsReal ((m ((c : Thread nD τ).loc main_arg5)) : FVec Ideal Cert.KernelIdeal.S7x64 .f32)
      ∧ IsReal ((m ((c : Thread nD τ).loc main_arg6)) : FVec Ideal Cert.KernelIdeal.S7x64 .f32)
      ∧ IsReal ((m ((c : Thread nD τ).loc main_arg7)) : FVec Ideal Cert.KernelIdeal.S6x64x128 .f32)
      ∧ IsReal ((m ((c : Thread nD τ).loc main_arg8)) : FVec Ideal Cert.KernelIdeal.S6x128 .f32)
      ∧ IsReal ((m ((c : Thread nD τ).loc main_arg9)) : FVec Ideal Cert.KernelIdeal.S6x128 .f32)
      ∧ IsReal ((m ((c : Thread nD τ).loc main_arg10)) : FVec Ideal Cert.KernelIdeal.S64x2 .f32)
      ∧ IsReal ((m ((c : Thread nD τ).loc main_arg11)) : FVec Ideal Cert.KernelIdeal.S7 .f32)
      ∧ IsReal ((m ((c : Thread nD τ).loc main_arg2)) : FVec Ideal Cert.KernelIdeal.S800000 .f32))
    (hx : ((dat23 (V47 m ρ) c).arrAt 5 cfg23.N) = (Ref.X6 (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg11))))
    (hr : IsReal (Ref.X6 (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg11)))) :
    ((dat26 (V52 m ρ) c).arrAt 2 cfg26.N) = (Ref.X7 (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) := by
  obtain ⟨r0, r4, r5, r6, r7, r8, r9, _, r11, _⟩ := reals
  have rx : IsReal ((dat23 (V47 m ρ) c).arrAt 5 cfg23.N) := by rw [hx]; exact hr
  have hsc : ((V49 m ρ c (Pipeline.arrRef spec24 2)) : Mat 1 1) = shapeCast Cert.KernelIdeal.S1x1
      (addf (F := Ideal) (constant (F := Ideal) Cert.KernelIdeal.S_ .f32 0x3F800000#32) (Ref.e6 (m ((c : Thread nD τ).loc main_arg11))))
      Cert.KernelIdeal.Facts₀.shapeCasts_S_S1x1 := wire_24_2 m ρ c
  have hag : ((V49 m ρ c (Pipeline.arrRef spec24 1)) : Mat 50000 128) = Ref.agg ((dat23 (V47 m ρ) c).arrAt 5 cfg23.N) (Ref.srcOf (m ((c : Thread nD τ).loc main_arg1))) (Ref.dstOf (m ((c : Thread nD τ).loc main_arg1))) :=
    (wire_24_1 m ρ c).trans rfl
  have hγ1 : ((V51 m ρ c (Pipeline.arrRef spec25 3)) : Mat 1 64) = rowV (Ref.g1_6 (m ((c : Thread nD τ).loc main_arg5))) := (wire_25_3 m ρ c).trans (row_cast64 _)
  have hβ1 : ((V51 m ρ c (Pipeline.arrRef spec25 4)) : Mat 1 64) = rowV (Ref.b1_6 (m ((c : Thread nD τ).loc main_arg6))) := (wire_25_4 m ρ c).trans (row_cast64 _)
  have re : IsReal (Ref.e6 (m ((c : Thread nD τ).loc main_arg11))) := isReal_cut _ _ _ _ r11
  have rw1 : IsReal (Ref.w1_6 (m ((c : Thread nD τ).loc main_arg4))) := isReal_cut _ _ _ _ r4
  have key := last_bridge _ _ _ _ _ _ ((m ((c : Thread nD τ).loc main_arg10)) : Mat 64 2) _ _ _ _ _ hsc hag hγ1 hβ1 re rx rw1
  have h1 : ((dat26 (V52 m ρ) c).arrAt 2 cfg26.N) = Ref.lastBlock ((dat23 (V47 m ρ) c).arrAt 5 cfg23.N) (Ref.srcOf (m ((c : Thread nD τ).loc main_arg1))) (Ref.dstOf (m ((c : Thread nD τ).loc main_arg1))) (Ref.e6 (m ((c : Thread nD τ).loc main_arg11)))
        (Ref.w1_6 (m ((c : Thread nD τ).loc main_arg4))) (Ref.g1_6 (m ((c : Thread nD τ).loc main_arg5))) (Ref.b1_6 (m ((c : Thread nD τ).loc main_arg6))) (m ((c : Thread nD τ).loc main_arg10)) := by
    rw [full_L6 m ρ c, half_L6 m ρ c, wire_24_0 m ρ c, wire_24_3 m ρ c, wire_26_1 m ρ c]
    exact key
  have h2 : Ref.lastBlock ((dat23 (V47 m ρ) c).arrAt 5 cfg23.N) (Ref.srcOf (m ((c : Thread nD τ).loc main_arg1))) (Ref.dstOf (m ((c : Thread nD τ).loc main_arg1))) (Ref.e6 (m ((c : Thread nD τ).loc main_arg11)))
        (Ref.w1_6 (m ((c : Thread nD τ).loc main_arg4))) (Ref.g1_6 (m ((c : Thread nD τ).loc main_arg5))) (Ref.b1_6 (m ((c : Thread nD τ).loc main_arg6))) (m ((c : Thread nD τ).loc main_arg10)) = (Ref.X7 (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) :=
    congrArg (fun X => Ref.lastBlock X (Ref.srcOf (m ((c : Thread nD τ).loc main_arg1))) (Ref.dstOf (m ((c : Thread nD τ).loc main_arg1))) (Ref.e6 (m ((c : Thread nD τ).loc main_arg11)))
        (Ref.w1_6 (m ((c : Thread nD τ).loc main_arg4))) (Ref.g1_6 (m ((c : Thread nD τ).loc main_arg5))) (Ref.b1_6 (m ((c : Thread nD τ).loc main_arg6))) (m ((c : Thread nD τ).loc main_arg10))) hx
  exact h1.trans h2

/-- The program's result is the segment mean, by the batch vector, of the last layer's output. -/
theorem out_pool (c : Dev nD) :
    W54 m ρ c (Proc.devRef .tc main_v322) = Ref.pool ((dat26 (V52 m ρ) c).arrAt 2 cfg26.N) (m ((c : Thread nD τ).loc main_arg3)) :=
  (wire_out m ρ c).trans rfl

end Cert.GIN.K

end
-- ==== Proof.Assemble.lean ====
/-
  The first program's result, as the second program's network applied to the argument arrays.

  Layer by layer: the feature argument is real; each layer's output agrees with the second program's and is real
  again, so the next layer's hypotheses hold; the last layer and the pooling close the chain.
-/
import proofs.«177653_j8959301779747_1_alg».proof.Proof.Assemble0
import proofs.«177653_j8959301779747_1_alg».proof.Proof.Assemble1
import proofs.«177653_j8959301779747_1_alg».proof.Proof.Assemble2
import proofs.«177653_j8959301779747_1_alg».proof.Proof.Assemble3
import proofs.«177653_j8959301779747_1_alg».proof.Proof.Assemble4
import proofs.«177653_j8959301779747_1_alg».proof.Proof.Assemble5
import proofs.«177653_j8959301779747_1_alg».proof.Proof.Assemble6

set_option maxRecDepth 16384

noncomputable section

namespace Cert.GIN.K

open Cert.KernelIdeal Cert.KernelIdeal.Gen
open Idealize.ShloMosaic Idealize.ShloMosaic.TcCoe Cert.GIN

variable (m : (ℓ : Loc nD τ sig) → Buf (Elt Ideal) ℓ) (ρ : Dev nD → PrngReg)

/-- With real arguments the first program's result is the second program's network of the arguments. -/
theorem kernel_out (c : Dev nD)
    (reals : IsReal ((m ((c : Thread nD τ).loc main_arg0)) : FVec Ideal Cert.KernelIdeal.S50000x128 .f32)
      ∧ IsReal ((m ((c : Thread nD τ).loc main_arg4)) : FVec Ideal Cert.KernelIdeal.S7x128x64 .f32)
      ∧ IsReal ((m ((c : Thread nD τ).loc main_arg5)) : FVec Ideal Cert.KernelIdeal.S7x64 .f32)
      ∧ IsReal ((m ((c : Thread nD τ).loc main_arg6)) : FVec Ideal Cert.KernelIdeal.S7x64 .f32)
      ∧ IsReal ((m ((c : Thread nD τ).loc main_arg7)) : FVec Ideal Cert.KernelIdeal.S6x64x128 .f32)
      ∧ IsReal ((m ((c : Thread nD τ).loc main_arg8)) : FVec Ideal Cert.KernelIdeal.S6x128 .f32)
      ∧ IsReal ((m ((c : Thread nD τ).loc main_arg9)) : FVec Ideal Cert.KernelIdeal.S6x128 .f32)
      ∧ IsReal ((m ((c : Thread nD τ).loc main_arg10)) : FVec Ideal Cert.KernelIdeal.S64x2 .f32)
      ∧ IsReal ((m ((c : Thread nD τ).loc main_arg11)) : FVec Ideal Cert.KernelIdeal.S7 .f32)
      ∧ IsReal ((m ((c : Thread nD τ).loc main_arg2)) : FVec Ideal Cert.KernelIdeal.S800000 .f32)) :
    W54 m ρ c (Proc.devRef .tc main_v322) = Ref.Out (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  obtain ⟨e1, q1⟩ := step_0 m ρ c reals
  obtain ⟨e2, q2⟩ := step_1 m ρ c reals e1 q1
  obtain ⟨e3, q3⟩ := step_2 m ρ c reals e2 q2
  obtain ⟨e4, q4⟩ := step_3 m ρ c reals e3 q3
  obtain ⟨e5, q5⟩ := step_4 m ρ c reals e4 q4
  obtain ⟨e6, q6⟩ := step_5 m ρ c reals e5 q5
  have e7 := step_6 m ρ c reals e6 q6
  exact (out_pool m ρ c).trans (congrArg (fun X => Ref.pool X (m ((c : Thread nD τ).loc main_arg3))) e7)

end Cert.GIN.K

end
-- ==== Proof.lean ====
/-
  The certificate of the seven-layer graph-isomorphism network: a kernel program of 27 tiled regions among host
  arithmetic against a plain reference, at the ideal instance (floats are extended reals, every operation exact).

  Both programs gather and scatter-add the neighbour sums with the same host operations and end with the same
  pooling; between, every layer is a dense product followed by batch normalisation over the 50000 rows and the
  rectifier.  The kernel program accumulates the column sums s and sums of squares ss over ten row tiles and
  normalises with mean = s/N and variance ss/N − mean²; the reference normalises with the mean of the squared
  deviations.  Over the reals the two variances are one number, Σ(z−μ)²/N = Σz²/N − μ², and the precondition makes
  every input real; products, finite sums, the rectifier and the normalisation (its variance is nonnegative, so
  the reciprocal square root of variance + ε is a real) keep the entries real, so the equality passes from layer to
  layer.  The tiled sums differ from the row-by-row sums only by regrouping a finite sum.

  The three frames: the kernel program's at both instances is its frame run; the reference's is its run with the
  result dropped.  The kernel's idealization rewrote nothing, so there is nothing to preserve.
-/
import proofs.«177653_j8959301779747_1_alg».proof.Defs
import proofs.«177653_j8959301779747_1_alg».proof.Proof.Gen.Kernel
import proofs.«177653_j8959301779747_1_alg».proof.Proof.Gen.Kernel.Skeleton
import proofs.«177653_j8959301779747_1_alg».proof.Proof.Gen.Kernel.Launch
import proofs.«177653_j8959301779747_1_alg».proof.Proof.Gen.Kernel.Points
import proofs.«177653_j8959301779747_1_alg».proof.Proof.Gen.Kernel.Frame
import proofs.«177653_j8959301779747_1_alg».proof.Proof.Gen.KernelIdeal
import proofs.«177653_j8959301779747_1_alg».proof.Proof.Gen.KernelIdeal.Skeleton
import proofs.«177653_j8959301779747_1_alg».proof.Proof.Gen.KernelIdeal.Launch
import proofs.«177653_j8959301779747_1_alg».proof.Proof.Gen.KernelIdeal.Points
import proofs.«177653_j8959301779747_1_alg».proof.Proof.Gen.KernelIdeal.Frame
import proofs.«177653_j8959301779747_1_alg».proof.Proof.Gen.ReferenceIdeal
import proofs.«177653_j8959301779747_1_alg».proof.Proof.Gen.Pre_finite_inputs
import proofs.«177653_j8959301779747_1_alg».proof.Proof.KRun
import proofs.«177653_j8959301779747_1_alg».proof.Proof.RefRun
import proofs.«177653_j8959301779747_1_alg».proof.Proof.RefValue
import proofs.«177653_j8959301779747_1_alg».proof.Proof.PreReal
import proofs.«177653_j8959301779747_1_alg».proof.Proof.Assemble
import Idealize.ShloMosaic.Adequacy
import Idealize.ShloMosaic.Init

-- the argument arrays' buffer types are read off the two programs' signature tables
set_option maxHeartbeats 4000000

noncomputable section

namespace Cert.Proof

open Idealize.ShloMosaic Idealize.SL.Sem

/-- The kernel program as printed runs and leaves its arguments: its frame run. -/
theorem frame_kernel : Cert.frame_Kernel := fun m ρ _ => Cert.Kernel.Gen.frame m ρ

/-- The idealized kernel program runs and leaves its arguments: its frame run. -/
theorem frame_kernelIdeal : Cert.frame_KernelIdeal := fun m ρ _ => Cert.KernelIdeal.Gen.frame m ρ

/-- The reference runs and leaves its arguments: its run, the result dropped. -/
theorem frame_referenceIdeal : Cert.frame_ReferenceIdeal := fun m ρ _ =>
  (θ_run Cert.ReferenceIdeal.defs _ _).mono (fun _ h c => (h c).2) (Cert.GIN.Ref.run (F := Ideal) m ρ)

/-- From memories that agree on the arguments both programs end at the reference's network of the kernel program's
    launch arrays: the kernel program by its layers (real inputs), the reference by reading its run. -/
theorem algebraic : Cert.algebraic_KernelIdeal_ReferenceIdeal := by
  intro m ρ m' ρ' hpre hagree
  refine ⟨fun c => Cert.GIN.Ref.Out
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11)), ?_, ?_⟩
  · exact (θ_run Cert.KernelIdeal.defs _ _).mono
      (fun r h c => ⟨(h c).1.trans (Cert.GIN.K.kernel_out m ρ c (Cert.GIN.pre_real m hpre c)), (h c).2⟩)
      (Cert.GIN.K.run_value (F := Ideal) m ρ)
  · refine (θ_run Cert.ReferenceIdeal.defs _ _).mono (fun r h c => ⟨(h c).1.trans ?_, (h c).2⟩)
      (Cert.GIN.Ref.run (F := Ideal) m' ρ')
    obtain ⟨h0, h1, _, h3, h4, h5, h6, h7, h8, h9, h10, h11⟩ := hagree c
    refine (Cert.GIN.Ref.ref_value (StableHlo.launchContents m' c)).trans ?_
    exact (congr (congr (congr (congr (congr (congr (congr (congr (congr (congr (congrArg Cert.GIN.Ref.Out h0) h1) h3) h4) h5) h6) h7) h8) h9) h10) h11)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
